-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)) →
    ∃ (v0 : (c : Dev Cert.KernelIdeal.nD) → Buf (Elt Ideal) ((c.tc : Thread Cert.KernelIdeal.nD Cert.KernelIdeal.τ).loc Cert.KernelIdeal.main_v111)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v111) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v177) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x128 : Shape := ⟨2, ![100000, 128]⟩
abbrev S2x600000 : Shape := ⟨2, ![2, 600000]⟩
abbrev S3x128x128 : Shape := ⟨3, ![3, 128, 128]⟩
abbrev S3x128 : Shape := ⟨2, ![3, 128]⟩
abbrev S128x128 : Shape := ⟨2, ![128, 128]⟩
abbrev S128 : Shape := ⟨1, ![128]⟩
abbrev S128x64 : Shape := ⟨2, ![128, 64]⟩
abbrev S64 : Shape := ⟨1, ![64]⟩
abbrev S_ : Shape := ⟨0, ![]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  bcast_S_S3x128x128 : S_.BroadcastsInDim S3x128x128 (![] : Fin 0 → Fin S3x128x128.rank)
  reducesTo_S3x128x128_S_d0_1_2 : S3x128x128.ReducesTo [0, 1, 2] S_
  bcast_S_S3x128 : S_.BroadcastsInDim S3x128 (![] : Fin 0 → Fin S3x128.rank)
  reducesTo_S3x128_S_d0_1 : S3x128.ReducesTo [0, 1] S_
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_
  bcast_S_S128x64 : S_.BroadcastsInDim S128x64 (![] : Fin 0 → Fin S128x64.rank)
  reducesTo_S128x64_S_d0_1 : S128x64.ReducesTo [0, 1] S_
  bcast_S_S64 : S_.BroadcastsInDim S64 (![] : Fin 0 → Fin S64.rank)
  reducesTo_S64_S_d0 : S64.ReducesTo [0] S_

variable [Facts]

def fn_part3 {F : FTy → Type} [FloatOps F] (main_arg12 : FVec F S100000x128 .f32) (main_v48 : IVec S_ 1) (main_v49 : FVec F S64 .f32) (main_v50 : FVec F S64 .f32) : IVec S_ 1 :=
  let main_v51 : IVec S64 1 := cmpf .olt main_v49 main_v50
  let main_c_19 : IVec S_ 1 := constantI S_ 1 1#1
  let main_v52 : IVec S_ 1 := (fun x v => Host.reduce IntOp.andi x v reducesTo_S64_S_d0 h_S_) main_v51 main_c_19
  let main_v53 : IVec S_ 1 := andi main_v48 main_v52
  let main_v54 : FVec F S100000x128 .f32 := Host.absf main_arg12
  let main_cst_20 : FVec F S_ .f32 := constant S_ .f32 0x7F800000#32
  let main_v55 : FVec F S100000x128 .f32 := broadcastInDim S100000x128 ![] bcast_S_S100000x128 main_cst_20
  let main_v56 : IVec S100000x128 1 := cmpf .olt main_v54 main_v55
  let main_c_21 : IVec S_ 1 := constantI S_ 1 1#1
  let main_v57 : IVec S_ 1 := (fun x v => Host.reduce IntOp.andi x v reducesTo_S100000x128_S_d0_1 h_S_) main_v56 main_c_21
  let main_v58 : IVec S_ 1 := andi main_v53 main_v57
  main_v58

def fn_part2 {F : FTy → Type} [FloatOps F] (main_arg8 : FVec F S128x128 .f32) (main_arg9 : FVec F S128 .f32) (main_arg10 : FVec F S128x64 .f32) (main_arg11 : FVec F S64 .f32) (main_arg12 : FVec F S100000x128 .f32) (main_v33 : IVec S_ 1) : IVec S_ 1 :=
  let main_v34 : FVec F S128x128 .f32 := Host.absf main_arg8
  let main_cst_12 : FVec F S_ .f32 := constant S_ .f32 0x7F800000#32
  let main_v35 : FVec F S128x128 .f32 := broadcastInDim S128x128 ![] bcast_S_S128x128 main_cst_12
  let main_v36 : IVec S128x128 1 := cmpf .olt main_v34 main_v35
  let main_c_13 : IVec S_ 1 := constantI S_ 1 1#1
  let main_v37 : IVec S_ 1 := (fun x v => Host.reduce IntOp.andi x v reducesTo_S128x128_S_d0_1 h_S_) main_v36 main_c_13
  let main_v38 : IVec S_ 1 := andi main_v33 main_v37
  let main_v39 : FVec F S128 .f32 := Host.absf main_arg9
  let main_cst_14 : FVec F S_ .f32 := constant S_ .f32 0x7F800000#32
  let main_v40 : FVec F S128 .f32 := broadcastInDim S128 ![] bcast_S_S128 main_cst_14
  let main_v41 : IVec S128 1 := cmpf .olt main_v39 main_v40
  let main_c_15 : IVec S_ 1 := constantI S_ 1 1#1
  let main_v42 : IVec S_ 1 := (fun x v => Host.reduce IntOp.andi x v reducesTo_S128_S_d0 h_S_) main_v41 main_c_15
  let main_v43 : IVec S_ 1 := andi main_v38 main_v42
  let main_v44 : FVec F S128x64 .f32 := Host.absf main_arg10
  let main_cst_16 : FVec F S_ .f32 := constant S_ .f32 0x7F800000#32
  let main_v45 : FVec F S128x64 .f32 := broadcastInDim S128x64 ![] bcast_S_S128x64 main_cst_16
  let main_v46 : IVec S128x64 1 := cmpf .olt main_v44 main_v45
  let main_c_17 : IVec S_ 1 := constantI S_ 1 1#1
  let main_v47 : IVec S_ 1 := (fun x v => Host.reduce IntOp.andi x v reducesTo_S128x64_S_d0_1 h_S_) main_v46 main_c_17
  let main_v48 : IVec S_ 1 := andi main_v43 main_v47
  let main_v49 : FVec F S64 .f32 := Host.absf main_arg11
  let main_cst_18 : FVec F S_ .f32 := constant S_ .f32 0x7F800000#32
  let main_v50 : FVec F S64 .f32 := broadcastInDim S64 ![] bcast_S_S64 main_cst_18
  fn_part3 (F := F) main_arg12 main_v48 main_v49 main_v50

def fn_part1 {F : FTy → Type} [FloatOps F] (main_arg5 : FVec F S3x128 .f32) (main_arg6 : FVec F S3x128 .f32) (main_arg7 : FVec F S3x128 .f32) (main_arg8 : FVec F S128x128 .f32) (main_arg9 : FVec F S128 .f32) (main_arg10 : FVec F S128x64 .f32) (main_arg11 : FVec F S64 .f32) (main_arg12 : FVec F S100000x128 .f32) (main_v13 : IVec S_ 1) (main_v16 : IVec S3x128x128 1) : IVec S_ 1 :=
  let main_c_5 : IVec S_ 1 := constantI S_ 1 1#1
  let main_v17 : IVec S_ 1 := (fun x v => Host.reduce IntOp.andi x v reducesTo_S3x128x128_S_d0_1_2 h_S_) main_v16 main_c_5
  let main_v18 : IVec S_ 1 := andi main_v13 main_v17
  let main_v19 : FVec F S3x128 .f32 := Host.absf main_arg5
  let main_cst_6 : FVec F S_ .f32 := constant S_ .f32 0x7F800000#32
  let main_v20 : FVec F S3x128 .f32 := broadcastInDim S3x128 ![] bcast_S_S3x128 main_cst_6
  let main_v21 : IVec S3x128 1 := cmpf .olt main_v19 main_v20
  let main_c_7 : IVec S_ 1 := constantI S_ 1 1#1
  let main_v22 : IVec S_ 1 := (fun x v => Host.reduce IntOp.andi x v reducesTo_S3x128_S_d0_1 h_S_) main_v21 main_c_7
  let main_v23 : IVec S_ 1 := andi main_v18 main_v22
  let main_v24 : FVec F S3x128 .f32 := Host.absf main_arg6
  let main_cst_8 : FVec F S_ .f32 := constant S_ .f32 0x7F800000#32
  let main_v25 : FVec F S3x128 .f32 := broadcastInDim S3x128 ![] bcast_S_S3x128 main_cst_8
  let main_v26 : IVec S3x128 1 := cmpf .olt main_v24 main_v25
  let main_c_9 : IVec S_ 1 := constantI S_ 1 1#1
  let main_v27 : IVec S_ 1 := (fun x v => Host.reduce IntOp.andi x v reducesTo_S3x128_S_d0_1 h_S_) main_v26 main_c_9
  let main_v28 : IVec S_ 1 := andi main_v23 main_v27
  let main_v29 : FVec F S3x128 .f32 := Host.absf main_arg7
  let main_cst_10 : FVec F S_ .f32 := constant S_ .f32 0x7F800000#32
  let main_v30 : FVec F S3x128 .f32 := broadcastInDim S3x128 ![] bcast_S_S3x128 main_cst_10
  let main_v31 : IVec S3x128 1 := cmpf .olt main_v29 main_v30
  let main_c_11 : IVec S_ 1 := constantI S_ 1 1#1
  let main_v32 : IVec S_ 1 := (fun x v => Host.reduce IntOp.andi x v reducesTo_S3x128_S_d0_1 h_S_) main_v31 main_c_11
  let main_v33 : IVec S_ 1 := andi main_v28 main_v32
  fn_part2 (F := F) main_arg8 main_arg9 main_arg10 main_arg11 main_arg12 main_v33

def fn {F : FTy → Type} [FloatOps F] (main_arg0 : FVec F S100000x128 .f32) (main_arg1 : IVec S2x600000 32) (main_arg2 : FVec F S3x128x128 .f32) (main_arg3 : FVec F S3x128 .f32) (main_arg4 : FVec F S3x128x128 .f32) (main_arg5 : FVec F S3x128 .f32) (main_arg6 : FVec F S3x128 .f32) (main_arg7 : FVec F S3x128 .f32) (main_arg8 : FVec F S128x128 .f32) (main_arg9 : FVec F S128 .f32) (main_arg10 : FVec F S128x64 .f32) (main_arg11 : FVec F S64 .f32) (main_arg12 : FVec F S100000x128 .f32) : IVec S_ 1 :=
  let main_v0 : FVec F S100000x128 .f32 := Host.absf main_arg0
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_v4 : FVec F S3x128x128 .f32 := Host.absf main_arg2
  let main_cst_0 : FVec F S_ .f32 := constant S_ .f32 0x7F800000#32
  let main_v5 : FVec F S3x128x128 .f32 := broadcastInDim S3x128x128 ![] bcast_S_S3x128x128 main_cst_0
  let main_v6 : IVec S3x128x128 1 := cmpf .olt main_v4 main_v5
  let main_c_1 : IVec S_ 1 := constantI S_ 1 1#1
  let main_v7 : IVec S_ 1 := (fun x v => Host.reduce IntOp.andi x v reducesTo_S3x128x128_S_d0_1_2 h_S_) main_v6 main_c_1
  let main_v8 : IVec S_ 1 := andi main_v3 main_v7
  let main_v9 : FVec F S3x128 .f32 := Host.absf main_arg3
  let main_cst_2 : FVec F S_ .f32 := constant S_ .f32 0x7F800000#32
  let main_v10 : FVec F S3x128 .f32 := broadcastInDim S3x128 ![] bcast_S_S3x128 main_cst_2
  let main_v11 : IVec S3x128 1 := cmpf .olt main_v9 main_v10
  let main_c_3 : IVec S_ 1 := constantI S_ 1 1#1
  let main_v12 : IVec S_ 1 := (fun x v => Host.reduce IntOp.andi x v reducesTo_S3x128_S_d0_1 h_S_) main_v11 main_c_3
  let main_v13 : IVec S_ 1 := andi main_v8 main_v12
  let main_v14 : FVec F S3x128x128 .f32 := Host.absf main_arg4
  let main_cst_4 : FVec F S_ .f32 := constant S_ .f32 0x7F800000#32
  let main_v15 : FVec F S3x128x128 .f32 := broadcastInDim S3x128x128 ![] bcast_S_S3x128x128 main_cst_4
  let main_v16 : IVec S3x128x128 1 := cmpf .olt main_v14 main_v15
  fn_part1 (F := F) main_arg5 main_arg6 main_arg7 main_arg8 main_arg9 main_arg10 main_arg11 main_arg12 main_v13 main_v16
-- ==== Kernel.lean ====
abbrev S100000x128 : Shape := ⟨2, ![100000, 128]⟩
abbrev S2x600000 : Shape := ⟨2, ![2, 600000]⟩
abbrev S3x128x128 : Shape := ⟨3, ![3, 128, 128]⟩
abbrev S3x128 : Shape := ⟨2, ![3, 128]⟩
abbrev S128x128 : Shape := ⟨2, ![128, 128]⟩
abbrev S128 : Shape := ⟨1, ![128]⟩
abbrev S128x64 : Shape := ⟨2, ![128, 64]⟩
abbrev S64 : Shape := ⟨1, ![64]⟩
abbrev S1x600000 : Shape := ⟨2, ![1, 600000]⟩
abbrev S600000 : Shape := ⟨1, ![600000]⟩
abbrev S_ : Shape := ⟨0, ![]⟩
abbrev S600000x1 : Shape := ⟨2, ![600000, 1]⟩
abbrev S600000x128 : Shape := ⟨2, ![600000, 128]⟩
abbrev S1x128x128 : Shape := ⟨3, ![1, 128, 128]⟩
abbrev S1x128 : Shape := ⟨2, ![1, 128]⟩
abbrev S5000x128 : Shape := ⟨2, ![5000, 128]⟩
abbrev S1x64 : Shape := ⟨2, ![1, 64]⟩
abbrev S100000x64 : Shape := ⟨2, ![100000, 64]⟩
abbrev S5000x64 : Shape := ⟨2, ![5000, 64]⟩
abbrev S5000 : Shape := ⟨1, ![5000]⟩
abbrev S5000x1 : Shape := ⟨2, ![5000, 1]⟩

abbrev nBuf : Space → Nat
  | .hbm => 146
  | .vmem => 70
  | .smem => 0
  | _ => 0

abbrev hbmTy0_0 (i : Nat) : BufTy := match i % 128 with
  | 0 => ⟨S100000x128, .f32⟩
  | 1 => ⟨S2x600000, .i32⟩
  | 2 => ⟨S3x128x128, .f32⟩
  | 3 => ⟨S3x128, .f32⟩
  | 4 => ⟨S3x128x128, .f32⟩
  | 5 => ⟨S3x128, .f32⟩
  | 6 => ⟨S3x128, .f32⟩
  | 7 => ⟨S3x128, .f32⟩
  | 8 => ⟨S128x128, .f32⟩
  | 9 => ⟨S128, .f32⟩
  | 10 => ⟨S128x64, .f32⟩
  | 11 => ⟨S64, .f32⟩
  | 12 => ⟨S100000x128, .f32⟩
  | 13 => ⟨S1x600000, .i32⟩
  | 14 => ⟨S600000, .i32⟩
  | 15 => ⟨S1x600000, .i32⟩
  | 16 => ⟨S600000, .i32⟩
  | 17 => ⟨S_, .i32⟩
  | 18 => ⟨S600000, .i32⟩
  | 19 => ⟨S600000, .i1⟩
  | 20 => ⟨S_, .i32⟩
  | 21 => ⟨S600000, .i32⟩
  | 22 => ⟨S600000, .i32⟩
  | 23 => ⟨S600000, .i32⟩
  | 24 => ⟨S600000x1, .i32⟩
  | 25 => ⟨S600000x128, .f32⟩
  | 26 => ⟨S_, .f32⟩
  | 27 => ⟨S100000x128, .f32⟩
  | 28 => ⟨S600000x1, .i32⟩
  | 29 => ⟨S100000x128, .f32⟩
  | 30 => ⟨S100000x128, .f32⟩
  | 31 => ⟨S1x128x128, .f32⟩
  | 32 => ⟨S128x128, .f32⟩
  | 33 => ⟨S1x128, .f32⟩
  | 34 => ⟨S128, .f32⟩
  | 35 => ⟨S1x128x128, .f32⟩
  | 36 => ⟨S128x128, .f32⟩
  | 37 => ⟨S1x128, .f32⟩
  | 38 => ⟨S128, .f32⟩
  | 39 => ⟨S1x128, .f32⟩
  | 40 => ⟨S1x128, .f32⟩
  | 41 => ⟨S100000x128, .f32⟩
  | 42 => ⟨S1x128, .f32⟩
  | 43 => ⟨S1x128, .f32⟩
  | 44 => ⟨S_, .f32⟩
  | 45 => ⟨S1x128, .f32⟩
  | 46 => ⟨S1x128, .f32⟩
  | 47 => ⟨S_, .f32⟩
  | 48 => ⟨S1x128, .f32⟩
  | 49 => ⟨S1x128, .f32⟩
  | 50 => ⟨S1x128, .f32⟩
  | 51 => ⟨S1x128, .f32⟩
  | 52 => ⟨S1x128, .f32⟩
  | 53 => ⟨S128, .f32⟩
  | 54 => ⟨S1x128, .f32⟩
  | 55 => ⟨S128, .f32⟩
  | 56 => ⟨S1x128, .f32⟩
  | 57 => ⟨S1x128, .f32⟩
  | 58 => ⟨S100000x128, .f32⟩
  | 59 => ⟨S_, .i32⟩
  | 60 => ⟨S600000, .i32⟩
  | 61 => ⟨S600000, .i1⟩
  | 62 => ⟨S_, .i32⟩
  | 63 => ⟨S600000, .i32⟩
  | 64 => ⟨S600000, .i32⟩
  | 65 => ⟨S600000, .i32⟩
  | 66 => ⟨S600000x1, .i32⟩
  | 67 => ⟨S600000x128, .f32⟩
  | 68 => ⟨S_, .f32⟩
  | 69 => ⟨S100000x128, .f32⟩
  | 70 => ⟨S600000x1, .i32⟩
  | 71 => ⟨S100000x128, .f32⟩
  | 72 => ⟨S100000x128, .f32⟩
  | 73 => ⟨S1x128x128, .f32⟩
  | 74 => ⟨S128x128, .f32⟩
  | 75 => ⟨S1x128, .f32⟩
  | 76 => ⟨S128, .f32⟩
  | 77 => ⟨S1x128x128, .f32⟩
  | 78 => ⟨S128x128, .f32⟩
  | 79 => ⟨S1x128, .f32⟩
  | 80 => ⟨S128, .f32⟩
  | 81 => ⟨S1x128, .f32⟩
  | 82 => ⟨S1x128, .f32⟩
  | 83 => ⟨S100000x128, .f32⟩
  | 84 => ⟨S1x128, .f32⟩
  | 85 => ⟨S1x128, .f32⟩
  | 86 => ⟨S_, .f32⟩
  | 87 => ⟨S1x128, .f32⟩
  | 88 => ⟨S1x128, .f32⟩
  | 89 => ⟨S_, .f32⟩
  | 90 => ⟨S1x128, .f32⟩
  | 91 => ⟨S1x128, .f32⟩
  | 92 => ⟨S1x128, .f32⟩
  | 93 => ⟨S1x128, .f32⟩
  | 94 => ⟨S1x128, .f32⟩
  | 95 => ⟨S128, .f32⟩
  | 96 => ⟨S1x128, .f32⟩
  | 97 => ⟨S128, .f32⟩
  | 98 => ⟨S1x128, .f32⟩
  | 99 => ⟨S1x128, .f32⟩
  | 100 => ⟨S100000x128, .f32⟩
  | 101 => ⟨S_, .i32⟩
  | 102 => ⟨S600000, .i32⟩
  | 103 => ⟨S600000, .i1⟩
  | 104 => ⟨S_, .i32⟩
  | 105 => ⟨S600000, .i32⟩
  | 106 => ⟨S600000, .i32⟩
  | 107 => ⟨S600000, .i32⟩
  | 108 => ⟨S600000x1, .i32⟩
  | 109 => ⟨S600000x128, .f32⟩
  | 110 => ⟨S_, .f32⟩
  | 111 => ⟨S100000x128, .f32⟩
  | 112 => ⟨S600000x1, .i32⟩
  | 113 => ⟨S100000x128, .f32⟩
  | 114 => ⟨S100000x128, .f32⟩
  | 115 => ⟨S1x128x128, .f32⟩
  | 116 => ⟨S128x128, .f32⟩
  | 117 => ⟨S1x128, .f32⟩
  | 118 => ⟨S128, .f32⟩
  | 119 => ⟨S1x128x128, .f32⟩
  | 120 => ⟨S128x128, .f32⟩
  | 121 => ⟨S1x128, .f32⟩
  | 122 => ⟨S128, .f32⟩
  | 123 => ⟨S1x128, .f32⟩
  | 124 => ⟨S1x128, .f32⟩
  | 125 => ⟨S100000x128, .f32⟩
  | 126 => ⟨S1x128, .f32⟩
  | 127 => ⟨S1x128, .f32⟩
  | _ => ⟨S100000x128, .f32⟩

abbrev hbmTy0_1 (i : Nat) : BufTy := match i % 128 with
  | 0 => ⟨S_, .f32⟩
  | 1 => ⟨S1x128, .f32⟩
  | 2 => ⟨S1x128, .f32⟩
  | 3 => ⟨S_, .f32⟩
  | 4 => ⟨S1x128, .f32⟩
  | 5 => ⟨S1x128, .f32⟩
  | 6 => ⟨S1x128, .f32⟩
  | 7 => ⟨S1x128, .f32⟩
  | 8 => ⟨S1x128, .f32⟩
  | 9 => ⟨S128, .f32⟩
  | 10 => ⟨S1x128, .f32⟩
  | 11 => ⟨S128, .f32⟩
  | 12 => ⟨S1x128, .f32⟩
  | 13 => ⟨S1x128, .f32⟩
  | 14 => ⟨S100000x128, .f32⟩
  | 15 => ⟨S1x128, .f32⟩
  | 16 => ⟨S1x64, .f32⟩
  | 17 => ⟨S100000x64, .f32⟩
  | _ => ⟨S100000x128, .f32⟩

abbrev hbmTy (i : Nat) : BufTy := match i / 128 with
  | 0 => hbmTy0_0 i
  | 1 => hbmTy0_1 i
  | _ => ⟨S100000x128, .f32⟩

abbrev bufTy : (tb : Table) → Fin (tcTables nBuf tb) → BufTy
  | .hbm, ⟨i, _⟩ => hbmTy i
  | .local _ .vmem, ⟨0, _⟩ => ⟨S5000x128, .f32⟩
  | .local _ .vmem, ⟨1, _⟩ => ⟨S5000x128, .f32⟩
  | .local _ .vmem, ⟨2, _⟩ => ⟨S128x128, .f32⟩
  | .local _ .vmem, ⟨3, _⟩ => ⟨S1x128, .f32⟩
  | .local _ .vmem, ⟨4, _⟩ => ⟨S128x128, .f32⟩
  | .local _ .vmem, ⟨5, _⟩ => ⟨S1x128, .f32⟩
  | .local _ .vmem, ⟨6, _⟩ => ⟨S5000x128, .f32⟩
  | .local _ .vmem, ⟨7, _⟩ => ⟨S5000x128, .f32⟩
  | .local _ .vmem, ⟨8, _⟩ => ⟨S1x128, .f32⟩
  | .local _ .vmem, ⟨9, _⟩ => ⟨S1x128, .f32⟩
  | .local _ .vmem, ⟨10, _⟩ => ⟨S1x128, .f32⟩
  | .local _ .vmem, ⟨11, _⟩ => ⟨S1x128, .f32⟩
  | .local _ .vmem, ⟨12, _⟩ => ⟨S5000x128, .f32⟩
  | .local _ .vmem, ⟨13, _⟩ => ⟨S5000x128, .f32⟩
  | .local _ .vmem, ⟨14, _⟩ => ⟨S1x128, .f32⟩
  | .local _ .vmem, ⟨15, _⟩ => ⟨S1x128, .f32⟩
  | .local _ .vmem, ⟨16, _⟩ => ⟨S1x128, .f32⟩
  | .local _ .vmem, ⟨17, _⟩ => ⟨S1x128, .f32⟩
  | .local _ .vmem, ⟨18, _⟩ => ⟨S5000x128, .f32⟩
  | .local _ .vmem, ⟨19, _⟩ => ⟨S5000x128, .f32⟩
  | .local _ .vmem, ⟨20, _⟩ => ⟨S5000x128, .f32⟩
  | .local _ .vmem, ⟨21, _⟩ => ⟨S5000x128, .f32⟩
  | .local _ .vmem, ⟨22, _⟩ => ⟨S128x128, .f32⟩
  | .local _ .vmem, ⟨23, _⟩ => ⟨S1x128, .f32⟩
  | .local _ .vmem, ⟨24, _⟩ => ⟨S128x128, .f32⟩
  | .local _ .vmem, ⟨25, _⟩ => ⟨S1x128, .f32⟩
  | .local _ .vmem, ⟨26, _⟩ => ⟨S5000x128, .f32⟩
  | .local _ .vmem, ⟨27, _⟩ => ⟨S5000x128, .f32⟩
  | .local _ .vmem, ⟨28, _⟩ => ⟨S1x128, .f32⟩
  | .local _ .vmem, ⟨29, _⟩ => ⟨S1x128, .f32⟩
  | .local _ .vmem, ⟨30, _⟩ => ⟨S1x128, .f32⟩
  | .local _ .vmem, ⟨31, _⟩ => ⟨S1x128, .f32⟩
  | .local _ .vmem, ⟨32, _⟩ => ⟨S5000x128, .f32⟩
  | .local _ .vmem, ⟨33, _⟩ => ⟨S5000x128, .f32⟩
  | .local _ .vmem, ⟨34, _⟩ => ⟨S1x128, .f32⟩
  | .local _ .vmem, ⟨35, _⟩ => ⟨S1x128, .f32⟩
  | .local _ .vmem, ⟨36, _⟩ => ⟨S1x128, .f32⟩
  | .local _ .vmem, ⟨37, _⟩ => ⟨S1x128, .f32⟩
  | .local _ .vmem, ⟨38, _⟩ => ⟨S5000x128, .f32⟩
  | .local _ .vmem, ⟨39, _⟩ => ⟨S5000x128, .f32⟩
  | .local _ .vmem, ⟨40, _⟩ => ⟨S5000x128, .f32⟩
  | .local _ .vmem, ⟨41, _⟩ => ⟨S5000x128, .f32⟩
  | .local _ .vmem, ⟨42, _⟩ => ⟨S128x128, .f32⟩
  | .local _ .vmem, ⟨43, _⟩ => ⟨S1x128, .f32⟩
  | .local _ .vmem, ⟨44, _⟩ => ⟨S128x128, .f32⟩
  | .local _ .vmem, ⟨45, _⟩ => ⟨S1x128, .f32⟩
  | .local _ .vmem, ⟨46, _⟩ => ⟨S5000x128, .f32⟩
  | .local _ .vmem, ⟨47, _⟩ => ⟨S5000x128, .f32⟩
  | .local _ .vmem, ⟨48, _⟩ => ⟨S1x128, .f32⟩
  | .local _ .vmem, ⟨49, _⟩ => ⟨S1x128, .f32⟩
  | .local _ .vmem, ⟨50, _⟩ => ⟨S1x128, .f32⟩
  | .local _ .vmem, ⟨51, _⟩ => ⟨S1x128, .f32⟩
  | .local _ .vmem, ⟨52, _⟩ => ⟨S5000x128, .f32⟩
  | .local _ .vmem, ⟨53, _⟩ => ⟨S5000x128, .f32⟩
  | .local _ .vmem, ⟨54, _⟩ => ⟨S1x128, .f32⟩
  | .local _ .vmem, ⟨55, _⟩ => ⟨S1x128, .f32⟩
  | .local _ .vmem, ⟨56, _⟩ => ⟨S1x128, .f32⟩
  | .local _ .vmem, ⟨57, _⟩ => ⟨S1x128, .f32⟩
  | .local _ .vmem, ⟨58, _⟩ => ⟨S5000x128, .f32⟩
  | .local _ .vmem, ⟨59, _⟩ => ⟨S5000x128, .f32⟩
  | .local _ .vmem, ⟨60, _⟩ => ⟨S5000x128, .f32⟩
  | .local _ .vmem, ⟨61, _⟩ => ⟨S5000x128, .f32⟩
  | .local _ .vmem, ⟨62, _⟩ => ⟨S128x128, .f32⟩
  | .local _ .vmem, ⟨63, _⟩ => ⟨S1x128, .f32⟩
  | .local _ .vmem, ⟨64, _⟩ => ⟨S128x64, .f32⟩
  | .local _ .vmem, ⟨65, _⟩ => ⟨S1x64, .f32⟩
  | .local _ .vmem, ⟨66, _⟩ => ⟨S5000x128, .f32⟩
  | .local _ .vmem, ⟨67, _⟩ => ⟨S5000x128, .f32⟩
  | .local _ .vmem, ⟨68, _⟩ => ⟨S5000x64, .f32⟩
  | .local _ .vmem, ⟨69, _⟩ => ⟨S5000x64, .f32⟩
  | _, _ => ⟨S100000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | .vmem, ⟨47, _⟩ => true
  | .vmem, ⟨48, _⟩ => true
  | .vmem, ⟨49, _⟩ => true
  | .vmem, ⟨50, _⟩ => true
  | .vmem, ⟨51, _⟩ => true
  | .vmem, ⟨52, _⟩ => true
  | .vmem, ⟨53, _⟩ => true
  | .vmem, ⟨54, _⟩ => true
  | .vmem, ⟨55, _⟩ => true
  | .vmem, ⟨56, _⟩ => true
  | .vmem, ⟨57, _⟩ => true
  | .vmem, ⟨58, _⟩ => true
  | .vmem, ⟨59, _⟩ => true
  | .vmem, ⟨60, _⟩ => true
  | .vmem, ⟨61, _⟩ => true
  | .vmem, ⟨62, _⟩ => true
  | .vmem, ⟨63, _⟩ => true
  | .vmem, ⟨64, _⟩ => true
  | .vmem, ⟨65, _⟩ => true
  | .vmem, ⟨66, _⟩ => true
  | .vmem, ⟨67, _⟩ => true
  | .vmem, ⟨68, _⟩ => true
  | .vmem, ⟨69, _⟩ => true
  | _, _ => false

abbrev semScoped : Fin 0 → Bool
  | ⟨_, h⟩ => absurd h (Nat.not_lt_zero _)

abbrev dmaSemScoped : Fin 64 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | ⟨56, _⟩ => true
  | ⟨57, _⟩ => true
  | ⟨58, _⟩ => true
  | ⟨59, _⟩ => true
  | ⟨60, _⟩ => true
  | ⟨61, _⟩ => true
  | ⟨62, _⟩ => true
  | ⟨63, _⟩ => true
  | _ => false

abbrev sig : RefSig :=
  ofTc nBuf bufTy 0 64 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_v0 : Ref sig .tc := ⟨.hbm, 13, rfl⟩
abbrev main_v1 : Ref sig .tc := ⟨.hbm, 14, rfl⟩
abbrev main_v2 : Ref sig .tc := ⟨.hbm, 15, rfl⟩
abbrev main_v3 : Ref sig .tc := ⟨.hbm, 16, rfl⟩
abbrev main_c : Ref sig .tc := ⟨.hbm, 17, rfl⟩
abbrev main_v4 : Ref sig .tc := ⟨.hbm, 18, rfl⟩
abbrev main_v5 : Ref sig .tc := ⟨.hbm, 19, rfl⟩
abbrev main_c_0 : Ref sig .tc := ⟨.hbm, 20, rfl⟩
abbrev main_v6 : Ref sig .tc := ⟨.hbm, 21, rfl⟩
abbrev main_v7 : Ref sig .tc := ⟨.hbm, 22, rfl⟩
abbrev main_v8 : Ref sig .tc := ⟨.hbm, 23, rfl⟩
abbrev main_v9 : Ref sig .tc := ⟨.hbm, 24, rfl⟩
abbrev main_v10 : Ref sig .tc := ⟨.hbm, 25, rfl⟩
abbrev main_cst : Ref sig .tc := ⟨.hbm, 26, rfl⟩
abbrev main_v11 : Ref sig .tc := ⟨.hbm, 27, rfl⟩
abbrev main_v12 : Ref sig .tc := ⟨.hbm, 28, rfl⟩
abbrev main_v13 : Ref sig .tc := ⟨.hbm, 29, rfl⟩
abbrev main_v14 : Ref sig .tc := ⟨.hbm, 30, rfl⟩
abbrev main_v15 : Ref sig .tc := ⟨.hbm, 31, rfl⟩
abbrev main_v16 : Ref sig .tc := ⟨.hbm, 32, rfl⟩
abbrev main_v17 : Ref sig .tc := ⟨.hbm, 33, rfl⟩
abbrev main_v18 : Ref sig .tc := ⟨.hbm, 34, rfl⟩
abbrev main_v19 : Ref sig .tc := ⟨.hbm, 35, rfl⟩
abbrev main_v20 : Ref sig .tc := ⟨.hbm, 36, rfl⟩
abbrev main_v21 : Ref sig .tc := ⟨.hbm, 37, rfl⟩
abbrev main_v22 : Ref sig .tc := ⟨.hbm, 38, rfl⟩
abbrev main_v23 : Ref sig .tc := ⟨.hbm, 39, rfl⟩
abbrev main_v24 : Ref sig .tc := ⟨.hbm, 40, rfl⟩
abbrev main_v25_0 : Ref sig .tc := ⟨.hbm, 41, rfl⟩
abbrev main_v25_1 : Ref sig .tc := ⟨.hbm, 42, rfl⟩
abbrev main_v25_2 : Ref sig .tc := ⟨.hbm, 43, rfl⟩
abbrev main_cst_1 : Ref sig .tc := ⟨.hbm, 44, rfl⟩
abbrev main_v26 : Ref sig .tc := ⟨.hbm, 45, rfl⟩
abbrev main_v27 : Ref sig .tc := ⟨.hbm, 46, rfl⟩
abbrev main_cst_2 : Ref sig .tc := ⟨.hbm, 47, rfl⟩
abbrev main_v28 : Ref sig .tc := ⟨.hbm, 48, rfl⟩
abbrev main_v29 : Ref sig .tc := ⟨.hbm, 49, rfl⟩
abbrev main_v30 : Ref sig .tc := ⟨.hbm, 50, rfl⟩
abbrev main_v31 : Ref sig .tc := ⟨.hbm, 51, rfl⟩
abbrev main_v32 : Ref sig .tc := ⟨.hbm, 52, rfl⟩
abbrev main_v33 : Ref sig .tc := ⟨.hbm, 53, rfl⟩
abbrev main_v34 : Ref sig .tc := ⟨.hbm, 54, rfl⟩
abbrev main_v35 : Ref sig .tc := ⟨.hbm, 55, rfl⟩
abbrev main_v36 : Ref sig .tc := ⟨.hbm, 56, rfl⟩
abbrev main_v37 : Ref sig .tc := ⟨.hbm, 57, rfl⟩
abbrev main_v38 : Ref sig .tc := ⟨.hbm, 58, rfl⟩
abbrev main_c_3 : Ref sig .tc := ⟨.hbm, 59, rfl⟩
abbrev main_v39 : Ref sig .tc := ⟨.hbm, 60, rfl⟩
abbrev main_v40 : Ref sig .tc := ⟨.hbm, 61, rfl⟩
abbrev main_c_4 : Ref sig .tc := ⟨.hbm, 62, rfl⟩
abbrev main_v41 : Ref sig .tc := ⟨.hbm, 63, rfl⟩
abbrev main_v42 : Ref sig .tc := ⟨.hbm, 64, rfl⟩
abbrev main_v43 : Ref sig .tc := ⟨.hbm, 65, rfl⟩
abbrev main_v44 : Ref sig .tc := ⟨.hbm, 66, rfl⟩
abbrev main_v45 : Ref sig .tc := ⟨.hbm, 67, rfl⟩
abbrev main_cst_5 : Ref sig .tc := ⟨.hbm, 68, rfl⟩
abbrev main_v46 : Ref sig .tc := ⟨.hbm, 69, rfl⟩
abbrev main_v47 : Ref sig .tc := ⟨.hbm, 70, rfl⟩
abbrev main_v48 : Ref sig .tc := ⟨.hbm, 71, rfl⟩
abbrev main_v49 : Ref sig .tc := ⟨.hbm, 72, rfl⟩
abbrev main_v50 : Ref sig .tc := ⟨.hbm, 73, rfl⟩
abbrev main_v51 : Ref sig .tc := ⟨.hbm, 74, rfl⟩
abbrev main_v52 : Ref sig .tc := ⟨.hbm, 75, rfl⟩
abbrev main_v53 : Ref sig .tc := ⟨.hbm, 76, rfl⟩
abbrev main_v54 : Ref sig .tc := ⟨.hbm, 77, rfl⟩
abbrev main_v55 : Ref sig .tc := ⟨.hbm, 78, rfl⟩
abbrev main_v56 : Ref sig .tc := ⟨.hbm, 79, rfl⟩
abbrev main_v57 : Ref sig .tc := ⟨.hbm, 80, rfl⟩
abbrev main_v58 : Ref sig .tc := ⟨.hbm, 81, rfl⟩
abbrev main_v59 : Ref sig .tc := ⟨.hbm, 82, rfl⟩
abbrev main_v60_0 : Ref sig .tc := ⟨.hbm, 83, rfl⟩
abbrev main_v60_1 : Ref sig .tc := ⟨.hbm, 84, rfl⟩
abbrev main_v60_2 : Ref sig .tc := ⟨.hbm, 85, rfl⟩
abbrev main_cst_6 : Ref sig .tc := ⟨.hbm, 86, rfl⟩
abbrev main_v61 : Ref sig .tc := ⟨.hbm, 87, rfl⟩
abbrev main_v62 : Ref sig .tc := ⟨.hbm, 88, rfl⟩
abbrev main_cst_7 : Ref sig .tc := ⟨.hbm, 89, rfl⟩
abbrev main_v63 : Ref sig .tc := ⟨.hbm, 90, rfl⟩
abbrev main_v64 : Ref sig .tc := ⟨.hbm, 91, rfl⟩
abbrev main_v65 : Ref sig .tc := ⟨.hbm, 92, rfl⟩
abbrev main_v66 : Ref sig .tc := ⟨.hbm, 93, rfl⟩
abbrev main_v67 : Ref sig .tc := ⟨.hbm, 94, rfl⟩
abbrev main_v68 : Ref sig .tc := ⟨.hbm, 95, rfl⟩
abbrev main_v69 : Ref sig .tc := ⟨.hbm, 96, rfl⟩
abbrev main_v70 : Ref sig .tc := ⟨.hbm, 97, rfl⟩
abbrev main_v71 : Ref sig .tc := ⟨.hbm, 98, rfl⟩
abbrev main_v72 : Ref sig .tc := ⟨.hbm, 99, rfl⟩
abbrev main_v73 : Ref sig .tc := ⟨.hbm, 100, rfl⟩
abbrev main_c_8 : Ref sig .tc := ⟨.hbm, 101, rfl⟩
abbrev main_v74 : Ref sig .tc := ⟨.hbm, 102, rfl⟩
abbrev main_v75 : Ref sig .tc := ⟨.hbm, 103, rfl⟩
abbrev main_c_9 : Ref sig .tc := ⟨.hbm, 104, rfl⟩
abbrev main_v76 : Ref sig .tc := ⟨.hbm, 105, rfl⟩
abbrev main_v77 : Ref sig .tc := ⟨.hbm, 106, rfl⟩
abbrev main_v78 : Ref sig .tc := ⟨.hbm, 107, rfl⟩
abbrev main_v79 : Ref sig .tc := ⟨.hbm, 108, rfl⟩
abbrev main_v80 : Ref sig .tc := ⟨.hbm, 109, rfl⟩
abbrev main_cst_10 : Ref sig .tc := ⟨.hbm, 110, rfl⟩
abbrev main_v81 : Ref sig .tc := ⟨.hbm, 111, rfl⟩
abbrev main_v82 : Ref sig .tc := ⟨.hbm, 112, rfl⟩
abbrev main_v83 : Ref sig .tc := ⟨.hbm, 113, rfl⟩
abbrev main_v84 : Ref sig .tc := ⟨.hbm, 114, rfl⟩
abbrev main_v85 : Ref sig .tc := ⟨.hbm, 115, rfl⟩
abbrev main_v86 : Ref sig .tc := ⟨.hbm, 116, rfl⟩
abbrev main_v87 : Ref sig .tc := ⟨.hbm, 117, rfl⟩
abbrev main_v88 : Ref sig .tc := ⟨.hbm, 118, rfl⟩
abbrev main_v89 : Ref sig .tc := ⟨.hbm, 119, rfl⟩
abbrev main_v90 : Ref sig .tc := ⟨.hbm, 120, rfl⟩
abbrev main_v91 : Ref sig .tc := ⟨.hbm, 121, rfl⟩
abbrev main_v92 : Ref sig .tc := ⟨.hbm, 122, rfl⟩
abbrev main_v93 : Ref sig .tc := ⟨.hbm, 123, rfl⟩
abbrev main_v94 : Ref sig .tc := ⟨.hbm, 124, rfl⟩
abbrev main_v95_0 : Ref sig .tc := ⟨.hbm, 125, rfl⟩
abbrev main_v95_1 : Ref sig .tc := ⟨.hbm, 126, rfl⟩
abbrev main_v95_2 : Ref sig .tc := ⟨.hbm, 127, rfl⟩
abbrev main_cst_11 : Ref sig .tc := ⟨.hbm, 128, rfl⟩
abbrev main_v96 : Ref sig .tc := ⟨.hbm, 129, rfl⟩
abbrev main_v97 : Ref sig .tc := ⟨.hbm, 130, rfl⟩
abbrev main_cst_12 : Ref sig .tc := ⟨.hbm, 131, rfl⟩
abbrev main_v98 : Ref sig .tc := ⟨.hbm, 132, rfl⟩
abbrev main_v99 : Ref sig .tc := ⟨.hbm, 133, rfl⟩
abbrev main_v100 : Ref sig .tc := ⟨.hbm, 134, rfl⟩
abbrev main_v101 : Ref sig .tc := ⟨.hbm, 135, rfl⟩
abbrev main_v102 : Ref sig .tc := ⟨.hbm, 136, rfl⟩
abbrev main_v103 : Ref sig .tc := ⟨.hbm, 137, rfl⟩
abbrev main_v104 : Ref sig .tc := ⟨.hbm, 138, rfl⟩
abbrev main_v105 : Ref sig .tc := ⟨.hbm, 139, rfl⟩
abbrev main_v106 : Ref sig .tc := ⟨.hbm, 140, rfl⟩
abbrev main_v107 : Ref sig .tc := ⟨.hbm, 141, rfl⟩
abbrev main_v108 : Ref sig .tc := ⟨.hbm, 142, rfl⟩
abbrev main_v109 : Ref sig .tc := ⟨.hbm, 143, rfl⟩
abbrev main_v110 : Ref sig .tc := ⟨.hbm, 144, rfl⟩
abbrev main_v111 : Ref sig .tc := ⟨.hbm, 145, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg5_1 : Ref sig .tc := ⟨.vmem, 7, rfl⟩
abbrev cc0_stg6_0 : Ref sig .tc := ⟨.vmem, 8, rfl⟩
abbrev cc0_stg7_0 : Ref sig .tc := ⟨.vmem, 9, rfl⟩
abbrev cc0_scratch0 : Ref sig .tc := ⟨.vmem, 10, rfl⟩
abbrev cc0_scratch1 : Ref sig .tc := ⟨.vmem, 11, rfl⟩
abbrev cc1_stg0_0 : Ref sig .tc := ⟨.vmem, 12, rfl⟩
abbrev cc1_stg0_1 : Ref sig .tc := ⟨.vmem, 13, rfl⟩
abbrev cc1_stg1_0 : Ref sig .tc := ⟨.vmem, 14, rfl⟩
abbrev cc1_stg2_0 : Ref sig .tc := ⟨.vmem, 15, rfl⟩
abbrev cc1_stg3_0 : Ref sig .tc := ⟨.vmem, 16, rfl⟩
abbrev cc1_stg4_0 : Ref sig .tc := ⟨.vmem, 17, rfl⟩
abbrev cc1_stg5_0 : Ref sig .tc := ⟨.vmem, 18, rfl⟩
abbrev cc1_stg5_1 : Ref sig .tc := ⟨.vmem, 19, rfl⟩
abbrev cc2_stg0_0 : Ref sig .tc := ⟨.vmem, 20, rfl⟩
abbrev cc2_stg0_1 : Ref sig .tc := ⟨.vmem, 21, rfl⟩
abbrev cc2_stg1_0 : Ref sig .tc := ⟨.vmem, 22, rfl⟩
abbrev cc2_stg2_0 : Ref sig .tc := ⟨.vmem, 23, rfl⟩
abbrev cc2_stg3_0 : Ref sig .tc := ⟨.vmem, 24, rfl⟩
abbrev cc2_stg4_0 : Ref sig .tc := ⟨.vmem, 25, rfl⟩
abbrev cc2_stg5_0 : Ref sig .tc := ⟨.vmem, 26, rfl⟩
abbrev cc2_stg5_1 : Ref sig .tc := ⟨.vmem, 27, rfl⟩
abbrev cc2_stg6_0 : Ref sig .tc := ⟨.vmem, 28, rfl⟩
abbrev cc2_stg7_0 : Ref sig .tc := ⟨.vmem, 29, rfl⟩
abbrev cc2_scratch0 : Ref sig .tc := ⟨.vmem, 30, rfl⟩
abbrev cc2_scratch1 : Ref sig .tc := ⟨.vmem, 31, rfl⟩
abbrev cc3_stg0_0 : Ref sig .tc := ⟨.vmem, 32, rfl⟩
abbrev cc3_stg0_1 : Ref sig .tc := ⟨.vmem, 33, rfl⟩
abbrev cc3_stg1_0 : Ref sig .tc := ⟨.vmem, 34, rfl⟩
abbrev cc3_stg2_0 : Ref sig .tc := ⟨.vmem, 35, rfl⟩
abbrev cc3_stg3_0 : Ref sig .tc := ⟨.vmem, 36, rfl⟩
abbrev cc3_stg4_0 : Ref sig .tc := ⟨.vmem, 37, rfl⟩
abbrev cc3_stg5_0 : Ref sig .tc := ⟨.vmem, 38, rfl⟩
abbrev cc3_stg5_1 : Ref sig .tc := ⟨.vmem, 39, rfl⟩
abbrev cc4_stg0_0 : Ref sig .tc := ⟨.vmem, 40, rfl⟩
abbrev cc4_stg0_1 : Ref sig .tc := ⟨.vmem, 41, rfl⟩
abbrev cc4_stg1_0 : Ref sig .tc := ⟨.vmem, 42, rfl⟩
abbrev cc4_stg2_0 : Ref sig .tc := ⟨.vmem, 43, rfl⟩
abbrev cc4_stg3_0 : Ref sig .tc := ⟨.vmem, 44, rfl⟩
abbrev cc4_stg4_0 : Ref sig .tc := ⟨.vmem, 45, rfl⟩
abbrev cc4_stg5_0 : Ref sig .tc := ⟨.vmem, 46, rfl⟩
abbrev cc4_stg5_1 : Ref sig .tc := ⟨.vmem, 47, rfl⟩
abbrev cc4_stg6_0 : Ref sig .tc := ⟨.vmem, 48, rfl⟩
abbrev cc4_stg7_0 : Ref sig .tc := ⟨.vmem, 49, rfl⟩
abbrev cc4_scratch0 : Ref sig .tc := ⟨.vmem, 50, rfl⟩
abbrev cc4_scratch1 : Ref sig .tc := ⟨.vmem, 51, rfl⟩
abbrev cc5_stg0_0 : Ref sig .tc := ⟨.vmem, 52, rfl⟩
abbrev cc5_stg0_1 : Ref sig .tc := ⟨.vmem, 53, rfl⟩
abbrev cc5_stg1_0 : Ref sig .tc := ⟨.vmem, 54, rfl⟩
abbrev cc5_stg2_0 : Ref sig .tc := ⟨.vmem, 55, rfl⟩
abbrev cc5_stg3_0 : Ref sig .tc := ⟨.vmem, 56, rfl⟩
abbrev cc5_stg4_0 : Ref sig .tc := ⟨.vmem, 57, rfl⟩
abbrev cc5_stg5_0 : Ref sig .tc := ⟨.vmem, 58, rfl⟩
abbrev cc5_stg5_1 : Ref sig .tc := ⟨.vmem, 59, rfl⟩
abbrev cc6_stg0_0 : Ref sig .tc := ⟨.vmem, 60, rfl⟩
abbrev cc6_stg0_1 : Ref sig .tc := ⟨.vmem, 61, rfl⟩
abbrev cc6_stg1_0 : Ref sig .tc := ⟨.vmem, 62, rfl⟩
abbrev cc6_stg2_0 : Ref sig .tc := ⟨.vmem, 63, rfl⟩
abbrev cc6_stg3_0 : Ref sig .tc := ⟨.vmem, 64, rfl⟩
abbrev cc6_stg4_0 : Ref sig .tc := ⟨.vmem, 65, rfl⟩
abbrev cc6_stg5_0 : Ref sig .tc := ⟨.vmem, 66, rfl⟩
abbrev cc6_stg5_1 : Ref sig .tc := ⟨.vmem, 67, rfl⟩
abbrev cc6_stg6_0 : Ref sig .tc := ⟨.vmem, 68, rfl⟩
abbrev cc6_stg6_1 : Ref sig .tc := ⟨.vmem, 69, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem5_1 : DmaSem sig := 7
abbrev cc0_sem6_0 : DmaSem sig := 8
abbrev cc0_sem7_0 : DmaSem sig := 9
abbrev cc1_sem0_0 : DmaSem sig := 10
abbrev cc1_sem0_1 : DmaSem sig := 11
abbrev cc1_sem1_0 : DmaSem sig := 12
abbrev cc1_sem2_0 : DmaSem sig := 13
abbrev cc1_sem3_0 : DmaSem sig := 14
abbrev cc1_sem4_0 : DmaSem sig := 15
abbrev cc1_sem5_0 : DmaSem sig := 16
abbrev cc1_sem5_1 : DmaSem sig := 17
abbrev cc2_sem0_0 : DmaSem sig := 18
abbrev cc2_sem0_1 : DmaSem sig := 19
abbrev cc2_sem1_0 : DmaSem sig := 20
abbrev cc2_sem2_0 : DmaSem sig := 21
abbrev cc2_sem3_0 : DmaSem sig := 22
abbrev cc2_sem4_0 : DmaSem sig := 23
abbrev cc2_sem5_0 : DmaSem sig := 24
abbrev cc2_sem5_1 : DmaSem sig := 25
abbrev cc2_sem6_0 : DmaSem sig := 26
abbrev cc2_sem7_0 : DmaSem sig := 27
abbrev cc3_sem0_0 : DmaSem sig := 28
abbrev cc3_sem0_1 : DmaSem sig := 29
abbrev cc3_sem1_0 : DmaSem sig := 30
abbrev cc3_sem2_0 : DmaSem sig := 31
abbrev cc3_sem3_0 : DmaSem sig := 32
abbrev cc3_sem4_0 : DmaSem sig := 33
abbrev cc3_sem5_0 : DmaSem sig := 34
abbrev cc3_sem5_1 : DmaSem sig := 35
abbrev cc4_sem0_0 : DmaSem sig := 36
abbrev cc4_sem0_1 : DmaSem sig := 37
abbrev cc4_sem1_0 : DmaSem sig := 38
abbrev cc4_sem2_0 : DmaSem sig := 39
abbrev cc4_sem3_0 : DmaSem sig := 40
abbrev cc4_sem4_0 : DmaSem sig := 41
abbrev cc4_sem5_0 : DmaSem sig := 42
abbrev cc4_sem5_1 : DmaSem sig := 43
abbrev cc4_sem6_0 : DmaSem sig := 44
abbrev cc4_sem7_0 : DmaSem sig := 45
abbrev cc5_sem0_0 : DmaSem sig := 46
abbrev cc5_sem0_1 : DmaSem sig := 47
abbrev cc5_sem1_0 : DmaSem sig := 48
abbrev cc5_sem2_0 : DmaSem sig := 49
abbrev cc5_sem3_0 : DmaSem sig := 50
abbrev cc5_sem4_0 : DmaSem sig := 51
abbrev cc5_sem5_0 : DmaSem sig := 52
abbrev cc5_sem5_1 : DmaSem sig := 53
abbrev cc6_sem0_0 : DmaSem sig := 54
abbrev cc6_sem0_1 : DmaSem sig := 55
abbrev cc6_sem1_0 : DmaSem sig := 56
abbrev cc6_sem2_0 : DmaSem sig := 57
abbrev cc6_sem3_0 : DmaSem sig := 58
abbrev cc6_sem4_0 : DmaSem sig := 59
abbrev cc6_sem5_0 : DmaSem sig := 60
abbrev cc6_sem5_1 : DmaSem sig := 61
abbrev cc6_sem6_0 : DmaSem sig := 62
abbrev cc6_sem6_1 : DmaSem sig := 63

abbrev nD : Nat := 1
abbrev τ : Topo := Topo.v7x

variable {F : FTy → Type} [FloatOps F]

abbrev grid0 : Pipeline.Grid := ⟨1, ![20], ![false]⟩

def k0_cond2 (i : grid0.Coords) : BitVec 1 :=
  let arg0 : BitVec 32 := BitVec.ofNat 32 (i 0).val
  let c19_i32 : BitVec 32 := 19#32
  let v43 : BitVec 1 := Scalar.cmpi .eq arg0 c19_i32
  let v44 : BitVec 32 := Scalar.extui v43
  let c0_i32_25 : BitVec 32 := 0#32
  let v45 : BitVec 1 := Scalar.cmpi .ne v44 c0_i32_25
  v45

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S5000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S128x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S5000x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S1x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev grid1 : Pipeline.Grid := ⟨1, ![20], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S1x128 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S1x128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S1x128 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S1x128 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 2 → Memref sig .tc .vmem S5000x128 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

abbrev grid2 : Pipeline.Grid := ⟨1, ![20], ![false]⟩

def k2_cond2 (i : grid2.Coords) : BitVec 1 :=
  let arg0 : BitVec 32 := BitVec.ofNat 32 (i 0).val
  let c19_i32 : BitVec 32 := 19#32
  let v43 : BitVec 1 := Scalar.cmpi .eq arg0 c19_i32
  let v44 : BitVec 32 := Scalar.extui v43
  let c0_i32_25 : BitVec 32 := 0#32
  let v45 : BitVec 1 := Scalar.cmpi .ne v44 c0_i32_25
  v45

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_6 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_7 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage2_0 : Fin 2 → Memref sig .tc .vmem S5000x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S128x128 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 1 → Memref sig .tc .vmem S1x128 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S128x128 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S1x128 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 2 → Memref sig .tc .vmem S5000x128 .f32 := fun | 0 => Memref.whole cc2_stg5_0 | 1 => Memref.whole cc2_stg5_1 | ⟨_ + 2, h⟩ => absurd h (Nat.not_lt.2 (Nat.le_add_left _ _))
abbrev sem2_5 : Fin 2 → DmaSem sig := fun | 0 => cc2_sem5_0 | 1 => cc2_sem5_1 | ⟨_ + 2, h⟩ => absurd h (Nat.not_lt.2 (Nat.le_add_left _ _))
abbrev reads2_5 : Fin grid2.rank → Bool := ![true]

abbrev stage2_6 : Fin 1 → Memref sig .tc .vmem S1x128 .f32 := fun | 0 => Memref.whole cc2_stg6_0 | ⟨_ + 1, h⟩ => absurd h (Nat.not_lt.2 (Nat.le_add_left _ _))
abbrev sem2_6 : Fin 1 → DmaSem sig := fun | 0 => cc2_sem6_0 | ⟨_ + 1, h⟩ => absurd h (Nat.not_lt.2 (Nat.le_add_left _ _))
abbrev reads2_6 : Fin grid2.rank → Bool := ![false]

abbrev stage2_7 : Fin 1 → Memref sig .tc .vmem S1x128 .f32 := fun | 0 => Memref.whole cc2_stg7_0 | ⟨_ + 1, h⟩ => absurd h (Nat.not_lt.2 (Nat.le_add_left _ _))
abbrev sem2_7 : Fin 1 → DmaSem sig := fun | 0 => cc2_sem7_0 | ⟨_ + 1, h⟩ => absurd h (Nat.not_lt.2 (Nat.le_add_left _ _))
abbrev reads2_7 : Fin grid2.rank → Bool := ![false]

abbrev grid3 : Pipeline.Grid := ⟨1, ![20], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_2 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_3 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_4 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_5 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S5000x128 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 1 → Memref sig .tc .vmem S1x128 .f32 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 1 → Memref sig .tc .vmem S1x128 .f32 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
abbrev reads3_2 : Fin grid3.rank → Bool := ![false]

abbrev stage3_3 : Fin 1 → Memref sig .tc .vmem S1x128 .f32 := fun | 0 => Memref.whole cc3_stg3_0 | ⟨_ + 1, h⟩ => absurd h (Nat.not_lt.2 (Nat.le_add_left _ _))
abbrev sem3_3 : Fin 1 → DmaSem sig := fun | 0 => cc3_sem3_0 | ⟨_ + 1, h⟩ => absurd h (Nat.not_lt.2 (Nat.le_add_left _ _))
abbrev reads3_3 : Fin grid3.rank → Bool := ![false]

abbrev stage3_4 : Fin 1 → Memref sig .tc .vmem S1x128 .f32 := fun | 0 => Memref.whole cc3_stg4_0 | ⟨_ + 1, h⟩ => absurd h (Nat.not_lt.2 (Nat.le_add_left _ _))
abbrev sem3_4 : Fin 1 → DmaSem sig := fun | 0 => cc3_sem4_0 | ⟨_ + 1, h⟩ => absurd h (Nat.not_lt.2 (Nat.le_add_left _ _))
abbrev reads3_4 : Fin grid3.rank → Bool := ![false]

abbrev stage3_5 : Fin 2 → Memref sig .tc .vmem S5000x128 .f32 := fun | 0 => Memref.whole cc3_stg5_0 | 1 => Memref.whole cc3_stg5_1 | ⟨_ + 2, h⟩ => absurd h (Nat.not_lt.2 (Nat.le_add_left _ _))
abbrev sem3_5 : Fin 2 → DmaSem sig := fun | 0 => cc3_sem5_0 | 1 => cc3_sem5_1 | ⟨_ + 2, h⟩ => absurd h (Nat.not_lt.2 (Nat.le_add_left _ _))
abbrev reads3_5 : Fin grid3.rank → Bool := ![true]

abbrev grid4 : Pipeline.Grid := ⟨1, ![20], ![false]⟩

def k4_cond2 (i : grid4.Coords) : BitVec 1 :=
  let arg0 : BitVec 32 := BitVec.ofNat 32 (i 0).val
  let c19_i32 : BitVec 32 := 19#32
  let v43 : BitVec 1 := Scalar.cmpi .eq arg0 c19_i32
  let v44 : BitVec 32 := Scalar.extui v43
  let c0_i32_25 : BitVec 32 := 0#32
  let v45 : BitVec 1 := Scalar.cmpi .ne v44 c0_i32_25
  v45

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_2 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_3 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_4 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_5 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_6 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_7 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage4_0 : Fin 2 → Memref sig .tc .vmem S5000x128 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 1 → Memref sig .tc .vmem S128x128 .f32 := fun | 0 => Memref.whole cc4_stg1_0 | ⟨_ + 1, h⟩ => absurd h (Nat.not_lt.2 (Nat.le_add_left _ _))
abbrev sem4_1 : Fin 1 → DmaSem sig := fun | 0 => cc4_sem1_0 | ⟨_ + 1, h⟩ => absurd h (Nat.not_lt.2 (Nat.le_add_left _ _))
abbrev reads4_1 : Fin grid4.rank → Bool := ![false]

abbrev stage4_2 : Fin 1 → Memref sig .tc .vmem S1x128 .f32 := fun | 0 => Memref.whole cc4_stg2_0 | ⟨_ + 1, h⟩ => absurd h (Nat.not_lt.2 (Nat.le_add_left _ _))
abbrev sem4_2 : Fin 1 → DmaSem sig := fun | 0 => cc4_sem2_0 | ⟨_ + 1, h⟩ => absurd h (Nat.not_lt.2 (Nat.le_add_left _ _))
abbrev reads4_2 : Fin grid4.rank → Bool := ![false]

abbrev stage4_3 : Fin 1 → Memref sig .tc .vmem S128x128 .f32 := fun | 0 => Memref.whole cc4_stg3_0 | ⟨_ + 1, h⟩ => absurd h (Nat.not_lt.2 (Nat.le_add_left _ _))
abbrev sem4_3 : Fin 1 → DmaSem sig := fun | 0 => cc4_sem3_0 | ⟨_ + 1, h⟩ => absurd h (Nat.not_lt.2 (Nat.le_add_left _ _))
abbrev reads4_3 : Fin grid4.rank → Bool := ![false]

abbrev stage4_4 : Fin 1 → Memref sig .tc .vmem S1x128 .f32 := fun | 0 => Memref.whole cc4_stg4_0 | ⟨_ + 1, h⟩ => absurd h (Nat.not_lt.2 (Nat.le_add_left _ _))
abbrev sem4_4 : Fin 1 → DmaSem sig := fun | 0 => cc4_sem4_0 | ⟨_ + 1, h⟩ => absurd h (Nat.not_lt.2 (Nat.le_add_left _ _))
abbrev reads4_4 : Fin grid4.rank → Bool := ![false]

abbrev stage4_5 : Fin 2 → Memref sig .tc .vmem S5000x128 .f32 := fun | 0 => Memref.whole cc4_stg5_0 | 1 => Memref.whole cc4_stg5_1 | ⟨_ + 2, h⟩ => absurd h (Nat.not_lt.2 (Nat.le_add_left _ _))
abbrev sem4_5 : Fin 2 → DmaSem sig := fun | 0 => cc4_sem5_0 | 1 => cc4_sem5_1 | ⟨_ + 2, h⟩ => absurd h (Nat.not_lt.2 (Nat.le_add_left _ _))
abbrev reads4_5 : Fin grid4.rank → Bool := ![true]

abbrev stage4_6 : Fin 1 → Memref sig .tc .vmem S1x128 .f32 := fun | 0 => Memref.whole cc4_stg6_0 | ⟨_ + 1, h⟩ => absurd h (Nat.not_lt.2 (Nat.le_add_left _ _))
abbrev sem4_6 : Fin 1 → DmaSem sig := fun | 0 => cc4_sem6_0 | ⟨_ + 1, h⟩ => absurd h (Nat.not_lt.2 (Nat.le_add_left _ _))
abbrev reads4_6 : Fin grid4.rank → Bool := ![false]

abbrev stage4_7 : Fin 1 → Memref sig .tc .vmem S1x128 .f32 := fun | 0 => Memref.whole cc4_stg7_0 | ⟨_ + 1, h⟩ => absurd h (Nat.not_lt.2 (Nat.le_add_left _ _))
abbrev sem4_7 : Fin 1 → DmaSem sig := fun | 0 => cc4_sem7_0 | ⟨_ + 1, h⟩ => absurd h (Nat.not_lt.2 (Nat.le_add_left _ _))
abbrev reads4_7 : Fin grid4.rank → Bool := ![false]

abbrev grid5 : Pipeline.Grid := ⟨1, ![20], ![false]⟩

def cc5_transform_0 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_1 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_2 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_3 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_4 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_5 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage5_0 : Fin 2 → Memref sig .tc .vmem S5000x128 .f32 := fun | 0 => Memref.whole cc5_stg0_0 | 1 => Memref.whole cc5_stg0_1 | ⟨_ + 2, h⟩ => absurd h (Nat.not_lt.2 (Nat.le_add_left _ _))
abbrev sem5_0 : Fin 2 → DmaSem sig := fun | 0 => cc5_sem0_0 | 1 => cc5_sem0_1 | ⟨_ + 2, h⟩ => absurd h (Nat.not_lt.2 (Nat.le_add_left _ _))
abbrev reads5_0 : Fin grid5.rank → Bool := ![true]

abbrev stage5_1 : Fin 1 → Memref sig .tc .vmem S1x128 .f32 := fun | 0 => Memref.whole cc5_stg1_0 | ⟨_ + 1, h⟩ => absurd h (Nat.not_lt.2 (Nat.le_add_left _ _))
abbrev sem5_1 : Fin 1 → DmaSem sig := fun | 0 => cc5_sem1_0 | ⟨_ + 1, h⟩ => absurd h (Nat.not_lt.2 (Nat.le_add_left _ _))
abbrev reads5_1 : Fin grid5.rank → Bool := ![false]

abbrev stage5_2 : Fin 1 → Memref sig .tc .vmem S1x128 .f32 := fun | 0 => Memref.whole cc5_stg2_0 | ⟨_ + 1, h⟩ => absurd h (Nat.not_lt.2 (Nat.le_add_left _ _))
abbrev sem5_2 : Fin 1 → DmaSem sig := fun | 0 => cc5_sem2_0 | ⟨_ + 1, h⟩ => absurd h (Nat.not_lt.2 (Nat.le_add_left _ _))
abbrev reads5_2 : Fin grid5.rank → Bool := ![false]

abbrev stage5_3 : Fin 1 → Memref sig .tc .vmem S1x128 .f32 := fun | 0 => Memref.whole cc5_stg3_0 | ⟨_ + 1, h⟩ => absurd h (Nat.not_lt.2 (Nat.le_add_left _ _))
abbrev sem5_3 : Fin 1 → DmaSem sig := fun | 0 => cc5_sem3_0 | ⟨_ + 1, h⟩ => absurd h (Nat.not_lt.2 (Nat.le_add_left _ _))
abbrev reads5_3 : Fin grid5.rank → Bool := ![false]

abbrev stage5_4 : Fin 1 → Memref sig .tc .vmem S1x128 .f32 := fun | 0 => Memref.whole cc5_stg4_0 | ⟨_ + 1, h⟩ => absurd h (Nat.not_lt.2 (Nat.le_add_left _ _))
abbrev sem5_4 : Fin 1 → DmaSem sig := fun | 0 => cc5_sem4_0 | ⟨_ + 1, h⟩ => absurd h (Nat.not_lt.2 (Nat.le_add_left _ _))
abbrev reads5_4 : Fin grid5.rank → Bool := ![false]

abbrev stage5_5 : Fin 2 → Memref sig .tc .vmem S5000x128 .f32 := fun | 0 => Memref.whole cc5_stg5_0 | 1 => Memref.whole cc5_stg5_1 | ⟨_ + 2, h⟩ => absurd h (Nat.not_lt.2 (Nat.le_add_left _ _))
abbrev sem5_5 : Fin 2 → DmaSem sig := fun | 0 => cc5_sem5_0 | 1 => cc5_sem5_1 | ⟨_ + 2, h⟩ => absurd h (Nat.not_lt.2 (Nat.le_add_left _ _))
abbrev reads5_5 : Fin grid5.rank → Bool := ![true]

abbrev grid6 : Pipeline.Grid := ⟨1, ![20], ![false]⟩

def cc6_transform_0 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

def cc6_transform_1 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_2 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_3 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_4 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_5 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

def cc6_transform_6 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage6_0 : Fin 2 → Memref sig .tc .vmem S5000x128 .f32 := fun | 0 => Memref.whole cc6_stg0_0 | 1 => Memref.whole cc6_stg0_1 | ⟨_ + 2, h⟩ => absurd h (Nat.not_lt.2 (Nat.le_add_left _ _))
abbrev sem6_0 : Fin 2 → DmaSem sig := fun | 0 => cc6_sem0_0 | 1 => cc6_sem0_1 | ⟨_ + 2, h⟩ => absurd h (Nat.not_lt.2 (Nat.le_add_left _ _))
abbrev reads6_0 : Fin grid6.rank → Bool := ![true]

abbrev stage6_1 : Fin 1 → Memref sig .tc .vmem S128x128 .f32 := fun | 0 => Memref.whole cc6_stg1_0 | ⟨_ + 1, h⟩ => absurd h (Nat.not_lt.2 (Nat.le_add_left _ _))
abbrev sem6_1 : Fin 1 → DmaSem sig := fun | 0 => cc6_sem1_0 | ⟨_ + 1, h⟩ => absurd h (Nat.not_lt.2 (Nat.le_add_left _ _))
abbrev reads6_1 : Fin grid6.rank → Bool := ![false]

abbrev stage6_2 : Fin 1 → Memref sig .tc .vmem S1x128 .f32 := fun | 0 => Memref.whole cc6_stg2_0 | ⟨_ + 1, h⟩ => absurd h (Nat.not_lt.2 (Nat.le_add_left _ _))
abbrev sem6_2 : Fin 1 → DmaSem sig := fun | 0 => cc6_sem2_0 | ⟨_ + 1, h⟩ => absurd h (Nat.not_lt.2 (Nat.le_add_left _ _))
abbrev reads6_2 : Fin grid6.rank → Bool := ![false]

abbrev stage6_3 : Fin 1 → Memref sig .tc .vmem S128x64 .f32 := fun | 0 => Memref.whole cc6_stg3_0 | ⟨_ + 1, h⟩ => absurd h (Nat.not_lt.2 (Nat.le_add_left _ _))
abbrev sem6_3 : Fin 1 → DmaSem sig := fun | 0 => cc6_sem3_0 | ⟨_ + 1, h⟩ => absurd h (Nat.not_lt.2 (Nat.le_add_left _ _))
abbrev reads6_3 : Fin grid6.rank → Bool := ![false]

abbrev stage6_4 : Fin 1 → Memref sig .tc .vmem S1x64 .f32 := fun | 0 => Memref.whole cc6_stg4_0 | ⟨_ + 1, h⟩ => absurd h (Nat.not_lt.2 (Nat.le_add_left _ _))
abbrev sem6_4 : Fin 1 → DmaSem sig := fun | 0 => cc6_sem4_0 | ⟨_ + 1, h⟩ => absurd h (Nat.not_lt.2 (Nat.le_add_left _ _))
abbrev reads6_4 : Fin grid6.rank → Bool := ![false]

abbrev stage6_5 : Fin 2 → Memref sig .tc .vmem S5000x128 .f32 := fun | 0 => Memref.whole cc6_stg5_0 | 1 => Memref.whole cc6_stg5_1 | ⟨_ + 2, h⟩ => absurd h (Nat.not_lt.2 (Nat.le_add_left _ _))
abbrev sem6_5 : Fin 2 → DmaSem sig := fun | 0 => cc6_sem5_0 | 1 => cc6_sem5_1 | ⟨_ + 2, h⟩ => absurd h (Nat.not_lt.2 (Nat.le_add_left _ _))
abbrev reads6_5 : Fin grid6.rank → Bool := ![true]

abbrev stage6_6 : Fin 2 → Memref sig .tc .vmem S5000x64 .f32 := fun | 0 => Memref.whole cc6_stg6_0 | 1 => Memref.whole cc6_stg6_1 | ⟨_ + 2, h⟩ => absurd h (Nat.not_lt.2 (Nat.le_add_left _ _))
abbrev sem6_6 : Fin 2 → DmaSem sig := fun | 0 => cc6_sem6_0 | 1 => cc6_sem6_1 | ⟨_ + 2, h⟩ => absurd h (Nat.not_lt.2 (Nat.le_add_left _ _))
abbrev reads6_6 : Fin grid6.rank → Bool := ![true]

class Facts₀ : Prop where
  slices_S2x600000_S1x600000_0_0 : S2x600000.Slices ![0, 0] S1x600000
  shapeCasts_S1x600000_S600000 : S1x600000.ShapeCasts S600000
  slices_S2x600000_S1x600000_1_0 : S2x600000.Slices ![1, 0] S1x600000
  bcast_S_S600000 : S_.BroadcastsInDim S600000 (![] : Fin 0 → Fin S600000.rank)
  bcast_S600000_S600000x1_0 : S600000.BroadcastsInDim S600000x1 (![0] : Fin 1 → Fin S600000x1.rank)
  bcast_S_S100000x128 : S_.BroadcastsInDim S100000x128 (![] : Fin 0 → Fin S100000x128.rank)
  slices_S3x128x128_S1x128x128_0_0_0 : S3x128x128.Slices ![0, 0, 0] S1x128x128
  shapeCasts_S1x128x128_S128x128 : S1x128x128.ShapeCasts S128x128
  slices_S3x128_S1x128_0_0 : S3x128.Slices ![0, 0] S1x128
  shapeCasts_S1x128_S128 : S1x128.ShapeCasts S128
  shapeCasts_S128_S1x128 : S128.ShapeCasts S1x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  inb_S5000x128_S5000x128_0_0 : ∀ a, (![0, 0] : Fin 2 → Nat) a + S5000x128.size a ≤ S5000x128.size a
  h_S5000x128 : 0 < S5000x128.numel
  shapeCasts_S5000x128_S5000x128 : S5000x128.ShapeCasts S5000x128
  inb_S128x128_S128x128_0_0 : ∀ a, (![0, 0] : Fin 2 → Nat) a + S128x128.size a ≤ S128x128.size a
  h_S128x128 : 0 < S128x128.numel
  shapeCasts_S128x128_S128x128 : S128x128.ShapeCasts S128x128
  bitsLt_bf16_f32 : FTy.bits .bf16 < FTy.bits .f32
  broadcasts_S1x128_S5000x128 : S1x128.Broadcasts S5000x128
  reduces_S5000x128_S128 : S5000x128.Reduces [0] S128
  bcast_S_S1x128 : S_.BroadcastsInDim S1x128 (![] : Fin 0 → Fin S1x128.rank)
  slices_S3x128x128_S1x128x128_1_0_0 : S3x128x128.Slices ![1, 0, 0] S1x128x128
  slices_S3x128_S1x128_1_0 : S3x128.Slices ![1, 0] S1x128
  slices_S3x128x128_S1x128x128_2_0_0 : S3x128x128.Slices ![2, 0, 0] S1x128x128
  slices_S3x128_S1x128_2_0 : S3x128.Slices ![2, 0] S1x128
  shapeCasts_S64_S1x64 : S64.ShapeCasts S1x64
  inb_S128x64_S128x64_0_0 : ∀ a, (![0, 0] : Fin 2 → Nat) a + S128x64.size a ≤ S128x64.size a
  h_S128x64 : 0 < S128x64.numel
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S5000x64 : S1x64.Broadcasts S5000x64
  reduces_S5000x64_S5000 : S5000x64.Reduces [1] S5000
  shapeCasts_S5000_S5000x1 : S5000.ShapeCasts S5000x1
  broadcasts_S5000x1_S5000x64 : S5000x1.Broadcasts S5000x64
  inb_S5000x64_S5000x64_0_0 : ∀ a, (![0, 0] : Fin 2 → Nat) a + S5000x64.size a ≤ S5000x64.size a
  h_S5000x64 : 0 < S5000x64.numel
  gather_S100000x128_S600000x1_S600000x128_1_0_n_n_0_1_1128_wf : GatherDims.WF S100000x128 S600000x1 S600000x128 [1] [0] [] [0] [] 1 ![1, 128]
  scatter_S100000x128_S600000x1_S600000x128_1_0_0_1_wf : ScatterDims.WF S100000x128 S600000x1 S600000x128 [1] [0] [0] 1
  dot_S5000x128_S128x128_S5000x128_1_0_0_1_n_n_wf : DotDims.WF S5000x128 S128x128 S5000x128 [1] [0] [0] [1] [] []
  dot_S5000x128_S128x64_S5000x64_1_0_0_1_n_n_wf : DotDims.WF S5000x128 S128x64 S5000x64 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x128.size a ≤ S100000x128.size a
  hwx0_0 : ∀ i : grid0.Coords, EltTy.bits .f32 = 32 ∨ (Rect.block (s := S100000x128) S5000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x128.size a ≤ S128x128.size a
  hwx0_1 : ∀ i : grid0.Coords, EltTy.bits .f32 = 32 ∨ (Rect.block (s := S128x128) S128x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x128.size a ≤ S1x128.size a
  hwx0_2 : ∀ i : grid0.Coords, EltTy.bits .f32 = 32 ∨ (Rect.block (s := S1x128) S1x128.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S128x128.size a ≤ S128x128.size a
  hwx0_3 : ∀ i : grid0.Coords, EltTy.bits .f32 = 32 ∨ (Rect.block (s := S128x128) S128x128.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x128.size a ≤ S1x128.size a
  hwx0_4 : ∀ i : grid0.Coords, EltTy.bits .f32 = 32 ∨ (Rect.block (s := S1x128) S1x128.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S5000x128.size a ≤ S100000x128.size a
  hwx0_5 : ∀ i : grid0.Coords, EltTy.bits .f32 = 32 ∨ (Rect.block (s := S100000x128) S5000x128.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S1x128.size a ≤ S1x128.size a
  hwx0_6 : ∀ i : grid0.Coords, EltTy.bits .f32 = 32 ∨ (Rect.block (s := S1x128) S1x128.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S1x128.size a ≤ S1x128.size a
  hwx0_7 : ∀ i : grid0.Coords, EltTy.bits .f32 = 32 ∨ (Rect.block (s := S1x128) S1x128.size (cc0_transform_7 i) (hinb0_7 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x128.size a ≤ S100000x128.size a
  hwx1_0 : ∀ i : grid1.Coords, EltTy.bits .f32 = 32 ∨ (Rect.block (s := S100000x128) S5000x128.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S1x128.size a ≤ S1x128.size a
  hwx1_1 : ∀ i : grid1.Coords, EltTy.bits .f32 = 32 ∨ (Rect.block (s := S1x128) S1x128.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x128.size a ≤ S1x128.size a
  hwx1_2 : ∀ i : grid1.Coords, EltTy.bits .f32 = 32 ∨ (Rect.block (s := S1x128) S1x128.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1x128.size a ≤ S1x128.size a
  hwx1_3 : ∀ i : grid1.Coords, EltTy.bits .f32 = 32 ∨ (Rect.block (s := S1x128) S1x128.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S1x128.size a ≤ S1x128.size a
  hwx1_4 : ∀ i : grid1.Coords, EltTy.bits .f32 = 32 ∨ (Rect.block (s := S1x128) S1x128.size (cc1_transform_4 i) (hinb1_4 i)).WholeWords (EltTy.packing .f32)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S5000x128.size a ≤ S100000x128.size a
  hwx1_5 : ∀ i : grid1.Coords, EltTy.bits .f32 = 32 ∨ (Rect.block (s := S100000x128) S5000x128.size (cc1_transform_5 i) (hinb1_5 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S5000x128.size a ≤ S100000x128.size a
  hwx2_0 : ∀ i : grid2.Coords, EltTy.bits .f32 = 32 ∨ (Rect.block (s := S100000x128) S5000x128.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S128x128.size a ≤ S128x128.size a
  hwx2_1 : ∀ i : grid2.Coords, EltTy.bits .f32 = 32 ∨ (Rect.block (s := S128x128) S128x128.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S1x128.size a ≤ S1x128.size a
  hwx2_2 : ∀ i : grid2.Coords, EltTy.bits .f32 = 32 ∨ (Rect.block (s := S1x128) S1x128.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S128x128.size a ≤ S128x128.size a
  hwx2_3 : ∀ i : grid2.Coords, EltTy.bits .f32 = 32 ∨ (Rect.block (s := S128x128) S128x128.size (cc2_transform_3 i) (hinb2_3 i)).WholeWords (EltTy.packing .f32)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S1x128.size a ≤ S1x128.size a
  hwx2_4 : ∀ i : grid2.Coords, EltTy.bits .f32 = 32 ∨ (Rect.block (s := S1x128) S1x128.size (cc2_transform_4 i) (hinb2_4 i)).WholeWords (EltTy.packing .f32)
  hstage2_5 : ∀ j, (stage2_5 j).IsWhole
  nbuf2_5 : grid2.bufCount reads2_5 false = 2
  hreads2_5 : ∀ i i' : grid2.Coords, (∀ a, reads2_5 a = true → i a = i' a) → cc2_transform_5 i = cc2_transform_5 i'
  hinb2_5 : ∀ (i : grid2.Coords) a, (cc2_transform_5 i a + 1) * S5000x128.size a ≤ S100000x128.size a
  hwx2_5 : ∀ i : grid2.Coords, EltTy.bits .f32 = 32 ∨ (Rect.block (s := S100000x128) S5000x128.size (cc2_transform_5 i) (hinb2_5 i)).WholeWords (EltTy.packing .f32)
  hstage2_6 : ∀ j, (stage2_6 j).IsWhole
  nbuf2_6 : grid2.bufCount reads2_6 true = 1
  hreads2_6 : ∀ i i' : grid2.Coords, (∀ a, reads2_6 a = true → i a = i' a) → cc2_transform_6 i = cc2_transform_6 i'
  hinb2_6 : ∀ (i : grid2.Coords) a, (cc2_transform_6 i a + 1) * S1x128.size a ≤ S1x128.size a
  hwx2_6 : ∀ i : grid2.Coords, EltTy.bits .f32 = 32 ∨ (Rect.block (s := S1x128) S1x128.size (cc2_transform_6 i) (hinb2_6 i)).WholeWords (EltTy.packing .f32)
  hstage2_7 : ∀ j, (stage2_7 j).IsWhole
  nbuf2_7 : grid2.bufCount reads2_7 true = 1
  hreads2_7 : ∀ i i' : grid2.Coords, (∀ a, reads2_7 a = true → i a = i' a) → cc2_transform_7 i = cc2_transform_7 i'
  hinb2_7 : ∀ (i : grid2.Coords) a, (cc2_transform_7 i a + 1) * S1x128.size a ≤ S1x128.size a
  hwx2_7 : ∀ i : grid2.Coords, EltTy.bits .f32 = 32 ∨ (Rect.block (s := S1x128) S1x128.size (cc2_transform_7 i) (hinb2_7 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S5000x128.size a ≤ S100000x128.size a
  hwx3_0 : ∀ i : grid3.Coords, EltTy.bits .f32 = 32 ∨ (Rect.block (s := S100000x128) S5000x128.size (cc3_transform_0 i) (hinb3_0 i)).WholeWords (EltTy.packing .f32)
  hstage3_1 : ∀ j, (stage3_1 j).IsWhole
  nbuf3_1 : grid3.bufCount reads3_1 true = 1
  hreads3_1 : ∀ i i' : grid3.Coords, (∀ a, reads3_1 a = true → i a = i' a) → cc3_transform_1 i = cc3_transform_1 i'
  hinb3_1 : ∀ (i : grid3.Coords) a, (cc3_transform_1 i a + 1) * S1x128.size a ≤ S1x128.size a
  hwx3_1 : ∀ i : grid3.Coords, EltTy.bits .f32 = 32 ∨ (Rect.block (s := S1x128) S1x128.size (cc3_transform_1 i) (hinb3_1 i)).WholeWords (EltTy.packing .f32)
  hstage3_2 : ∀ j, (stage3_2 j).IsWhole
  nbuf3_2 : grid3.bufCount reads3_2 true = 1
  hreads3_2 : ∀ i i' : grid3.Coords, (∀ a, reads3_2 a = true → i a = i' a) → cc3_transform_2 i = cc3_transform_2 i'
  hinb3_2 : ∀ (i : grid3.Coords) a, (cc3_transform_2 i a + 1) * S1x128.size a ≤ S1x128.size a
  hwx3_2 : ∀ i : grid3.Coords, EltTy.bits .f32 = 32 ∨ (Rect.block (s := S1x128) S1x128.size (cc3_transform_2 i) (hinb3_2 i)).WholeWords (EltTy.packing .f32)
  hstage3_3 : ∀ j, (stage3_3 j).IsWhole
  nbuf3_3 : grid3.bufCount reads3_3 true = 1
  hreads3_3 : ∀ i i' : grid3.Coords, (∀ a, reads3_3 a = true → i a = i' a) → cc3_transform_3 i = cc3_transform_3 i'
  hinb3_3 : ∀ (i : grid3.Coords) a, (cc3_transform_3 i a + 1) * S1x128.size a ≤ S1x128.size a
  hwx3_3 : ∀ i : grid3.Coords, EltTy.bits .f32 = 32 ∨ (Rect.block (s := S1x128) S1x128.size (cc3_transform_3 i) (hinb3_3 i)).WholeWords (EltTy.packing .f32)
  hstage3_4 : ∀ j, (stage3_4 j).IsWhole
  nbuf3_4 : grid3.bufCount reads3_4 true = 1
  hreads3_4 : ∀ i i' : grid3.Coords, (∀ a, reads3_4 a = true → i a = i' a) → cc3_transform_4 i = cc3_transform_4 i'
  hinb3_4 : ∀ (i : grid3.Coords) a, (cc3_transform_4 i a + 1) * S1x128.size a ≤ S1x128.size a
  hwx3_4 : ∀ i : grid3.Coords, EltTy.bits .f32 = 32 ∨ (Rect.block (s := S1x128) S1x128.size (cc3_transform_4 i) (hinb3_4 i)).WholeWords (EltTy.packing .f32)
  hstage3_5 : ∀ j, (stage3_5 j).IsWhole
  nbuf3_5 : grid3.bufCount reads3_5 false = 2
  hreads3_5 : ∀ i i' : grid3.Coords, (∀ a, reads3_5 a = true → i a = i' a) → cc3_transform_5 i = cc3_transform_5 i'
  hinb3_5 : ∀ (i : grid3.Coords) a, (cc3_transform_5 i a + 1) * S5000x128.size a ≤ S100000x128.size a
  hwx3_5 : ∀ i : grid3.Coords, EltTy.bits .f32 = 32 ∨ (Rect.block (s := S100000x128) S5000x128.size (cc3_transform_5 i) (hinb3_5 i)).WholeWords (EltTy.packing .f32)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S5000x128.size a ≤ S100000x128.size a
  hwx4_0 : ∀ i : grid4.Coords, EltTy.bits .f32 = 32 ∨ (Rect.block (s := S100000x128) S5000x128.size (cc4_transform_0 i) (hinb4_0 i)).WholeWords (EltTy.packing .f32)
  hstage4_1 : ∀ j, (stage4_1 j).IsWhole
  nbuf4_1 : grid4.bufCount reads4_1 true = 1
  hreads4_1 : ∀ i i' : grid4.Coords, (∀ a, reads4_1 a = true → i a = i' a) → cc4_transform_1 i = cc4_transform_1 i'
  hinb4_1 : ∀ (i : grid4.Coords) a, (cc4_transform_1 i a + 1) * S128x128.size a ≤ S128x128.size a
  hwx4_1 : ∀ i : grid4.Coords, EltTy.bits .f32 = 32 ∨ (Rect.block (s := S128x128) S128x128.size (cc4_transform_1 i) (hinb4_1 i)).WholeWords (EltTy.packing .f32)
  hstage4_2 : ∀ j, (stage4_2 j).IsWhole
  nbuf4_2 : grid4.bufCount reads4_2 true = 1
  hreads4_2 : ∀ i i' : grid4.Coords, (∀ a, reads4_2 a = true → i a = i' a) → cc4_transform_2 i = cc4_transform_2 i'
  hinb4_2 : ∀ (i : grid4.Coords) a, (cc4_transform_2 i a + 1) * S1x128.size a ≤ S1x128.size a
  hwx4_2 : ∀ i : grid4.Coords, EltTy.bits .f32 = 32 ∨ (Rect.block (s := S1x128) S1x128.size (cc4_transform_2 i) (hinb4_2 i)).WholeWords (EltTy.packing .f32)
  hstage4_3 : ∀ j, (stage4_3 j).IsWhole
  nbuf4_3 : grid4.bufCount reads4_3 true = 1
  hreads4_3 : ∀ i i' : grid4.Coords, (∀ a, reads4_3 a = true → i a = i' a) → cc4_transform_3 i = cc4_transform_3 i'
  hinb4_3 : ∀ (i : grid4.Coords) a, (cc4_transform_3 i a + 1) * S128x128.size a ≤ S128x128.size a
  hwx4_3 : ∀ i : grid4.Coords, EltTy.bits .f32 = 32 ∨ (Rect.block (s := S128x128) S128x128.size (cc4_transform_3 i) (hinb4_3 i)).WholeWords (EltTy.packing .f32)
  hstage4_4 : ∀ j, (stage4_4 j).IsWhole
  nbuf4_4 : grid4.bufCount reads4_4 true = 1
  hreads4_4 : ∀ i i' : grid4.Coords, (∀ a, reads4_4 a = true → i a = i' a) → cc4_transform_4 i = cc4_transform_4 i'
  hinb4_4 : ∀ (i : grid4.Coords) a, (cc4_transform_4 i a + 1) * S1x128.size a ≤ S1x128.size a
  hwx4_4 : ∀ i : grid4.Coords, EltTy.bits .f32 = 32 ∨ (Rect.block (s := S1x128) S1x128.size (cc4_transform_4 i) (hinb4_4 i)).WholeWords (EltTy.packing .f32)
  hstage4_5 : ∀ j, (stage4_5 j).IsWhole
  nbuf4_5 : grid4.bufCount reads4_5 false = 2
  hreads4_5 : ∀ i i' : grid4.Coords, (∀ a, reads4_5 a = true → i a = i' a) → cc4_transform_5 i = cc4_transform_5 i'
  hinb4_5 : ∀ (i : grid4.Coords) a, (cc4_transform_5 i a + 1) * S5000x128.size a ≤ S100000x128.size a
  hwx4_5 : ∀ i : grid4.Coords, EltTy.bits .f32 = 32 ∨ (Rect.block (s := S100000x128) S5000x128.size (cc4_transform_5 i) (hinb4_5 i)).WholeWords (EltTy.packing .f32)
  hstage4_6 : ∀ j, (stage4_6 j).IsWhole
  nbuf4_6 : grid4.bufCount reads4_6 true = 1
  hreads4_6 : ∀ i i' : grid4.Coords, (∀ a, reads4_6 a = true → i a = i' a) → cc4_transform_6 i = cc4_transform_6 i'
  hinb4_6 : ∀ (i : grid4.Coords) a, (cc4_transform_6 i a + 1) * S1x128.size a ≤ S1x128.size a
  hwx4_6 : ∀ i : grid4.Coords, EltTy.bits .f32 = 32 ∨ (Rect.block (s := S1x128) S1x128.size (cc4_transform_6 i) (hinb4_6 i)).WholeWords (EltTy.packing .f32)
  hstage4_7 : ∀ j, (stage4_7 j).IsWhole
  nbuf4_7 : grid4.bufCount reads4_7 true = 1
  hreads4_7 : ∀ i i' : grid4.Coords, (∀ a, reads4_7 a = true → i a = i' a) → cc4_transform_7 i = cc4_transform_7 i'
  hinb4_7 : ∀ (i : grid4.Coords) a, (cc4_transform_7 i a + 1) * S1x128.size a ≤ S1x128.size a
  hwx4_7 : ∀ i : grid4.Coords, EltTy.bits .f32 = 32 ∨ (Rect.block (s := S1x128) S1x128.size (cc4_transform_7 i) (hinb4_7 i)).WholeWords (EltTy.packing .f32)
  hrank5 : 0 < grid5.rank
  hstage5_0 : ∀ j, (stage5_0 j).IsWhole
  nbuf5_0 : grid5.bufCount reads5_0 false = 2
  hreads5_0 : ∀ i i' : grid5.Coords, (∀ a, reads5_0 a = true → i a = i' a) → cc5_transform_0 i = cc5_transform_0 i'
  hinb5_0 : ∀ (i : grid5.Coords) a, (cc5_transform_0 i a + 1) * S5000x128.size a ≤ S100000x128.size a
  hwx5_0 : ∀ i : grid5.Coords, EltTy.bits .f32 = 32 ∨ (Rect.block (s := S100000x128) S5000x128.size (cc5_transform_0 i) (hinb5_0 i)).WholeWords (EltTy.packing .f32)
  hstage5_1 : ∀ j, (stage5_1 j).IsWhole
  nbuf5_1 : grid5.bufCount reads5_1 true = 1
  hreads5_1 : ∀ i i' : grid5.Coords, (∀ a, reads5_1 a = true → i a = i' a) → cc5_transform_1 i = cc5_transform_1 i'
  hinb5_1 : ∀ (i : grid5.Coords) a, (cc5_transform_1 i a + 1) * S1x128.size a ≤ S1x128.size a
  hwx5_1 : ∀ i : grid5.Coords, EltTy.bits .f32 = 32 ∨ (Rect.block (s := S1x128) S1x128.size (cc5_transform_1 i) (hinb5_1 i)).WholeWords (EltTy.packing .f32)
  hstage5_2 : ∀ j, (stage5_2 j).IsWhole
  nbuf5_2 : grid5.bufCount reads5_2 true = 1
  hreads5_2 : ∀ i i' : grid5.Coords, (∀ a, reads5_2 a = true → i a = i' a) → cc5_transform_2 i = cc5_transform_2 i'
  hinb5_2 : ∀ (i : grid5.Coords) a, (cc5_transform_2 i a + 1) * S1x128.size a ≤ S1x128.size a
  hwx5_2 : ∀ i : grid5.Coords, EltTy.bits .f32 = 32 ∨ (Rect.block (s := S1x128) S1x128.size (cc5_transform_2 i) (hinb5_2 i)).WholeWords (EltTy.packing .f32)
  hstage5_3 : ∀ j, (stage5_3 j).IsWhole
  nbuf5_3 : grid5.bufCount reads5_3 true = 1
  hreads5_3 : ∀ i i' : grid5.Coords, (∀ a, reads5_3 a = true → i a = i' a) → cc5_transform_3 i = cc5_transform_3 i'
  hinb5_3 : ∀ (i : grid5.Coords) a, (cc5_transform_3 i a + 1) * S1x128.size a ≤ S1x128.size a
  hwx5_3 : ∀ i : grid5.Coords, EltTy.bits .f32 = 32 ∨ (Rect.block (s := S1x128) S1x128.size (cc5_transform_3 i) (hinb5_3 i)).WholeWords (EltTy.packing .f32)
  hstage5_4 : ∀ j, (stage5_4 j).IsWhole
  nbuf5_4 : grid5.bufCount reads5_4 true = 1
  hreads5_4 : ∀ i i' : grid5.Coords, (∀ a, reads5_4 a = true → i a = i' a) → cc5_transform_4 i = cc5_transform_4 i'
  hinb5_4 : ∀ (i : grid5.Coords) a, (cc5_transform_4 i a + 1) * S1x128.size a ≤ S1x128.size a
  hwx5_4 : ∀ i : grid5.Coords, EltTy.bits .f32 = 32 ∨ (Rect.block (s := S1x128) S1x128.size (cc5_transform_4 i) (hinb5_4 i)).WholeWords (EltTy.packing .f32)
  hstage5_5 : ∀ j, (stage5_5 j).IsWhole
  nbuf5_5 : grid5.bufCount reads5_5 false = 2
  hreads5_5 : ∀ i i' : grid5.Coords, (∀ a, reads5_5 a = true → i a = i' a) → cc5_transform_5 i = cc5_transform_5 i'
  hinb5_5 : ∀ (i : grid5.Coords) a, (cc5_transform_5 i a + 1) * S5000x128.size a ≤ S100000x128.size a
  hwx5_5 : ∀ i : grid5.Coords, EltTy.bits .f32 = 32 ∨ (Rect.block (s := S100000x128) S5000x128.size (cc5_transform_5 i) (hinb5_5 i)).WholeWords (EltTy.packing .f32)
  hrank6 : 0 < grid6.rank
  hstage6_0 : ∀ j, (stage6_0 j).IsWhole
  nbuf6_0 : grid6.bufCount reads6_0 false = 2
  hreads6_0 : ∀ i i' : grid6.Coords, (∀ a, reads6_0 a = true → i a = i' a) → cc6_transform_0 i = cc6_transform_0 i'
  hinb6_0 : ∀ (i : grid6.Coords) a, (cc6_transform_0 i a + 1) * S5000x128.size a ≤ S100000x128.size a
  hwx6_0 : ∀ i : grid6.Coords, EltTy.bits .f32 = 32 ∨ (Rect.block (s := S100000x128) S5000x128.size (cc6_transform_0 i) (hinb6_0 i)).WholeWords (EltTy.packing .f32)
  hstage6_1 : ∀ j, (stage6_1 j).IsWhole
  nbuf6_1 : grid6.bufCount reads6_1 true = 1
  hreads6_1 : ∀ i i' : grid6.Coords, (∀ a, reads6_1 a = true → i a = i' a) → cc6_transform_1 i = cc6_transform_1 i'
  hinb6_1 : ∀ (i : grid6.Coords) a, (cc6_transform_1 i a + 1) * S128x128.size a ≤ S128x128.size a
  hwx6_1 : ∀ i : grid6.Coords, EltTy.bits .f32 = 32 ∨ (Rect.block (s := S128x128) S128x128.size (cc6_transform_1 i) (hinb6_1 i)).WholeWords (EltTy.packing .f32)
  hstage6_2 : ∀ j, (stage6_2 j).IsWhole
  nbuf6_2 : grid6.bufCount reads6_2 true = 1
  hreads6_2 : ∀ i i' : grid6.Coords, (∀ a, reads6_2 a = true → i a = i' a) → cc6_transform_2 i = cc6_transform_2 i'
  hinb6_2 : ∀ (i : grid6.Coords) a, (cc6_transform_2 i a + 1) * S1x128.size a ≤ S1x128.size a
  hwx6_2 : ∀ i : grid6.Coords, EltTy.bits .f32 = 32 ∨ (Rect.block (s := S1x128) S1x128.size (cc6_transform_2 i) (hinb6_2 i)).WholeWords (EltTy.packing .f32)
  hstage6_3 : ∀ j, (stage6_3 j).IsWhole
  nbuf6_3 : grid6.bufCount reads6_3 true = 1
  hreads6_3 : ∀ i i' : grid6.Coords, (∀ a, reads6_3 a = true → i a = i' a) → cc6_transform_3 i = cc6_transform_3 i'
  hinb6_3 : ∀ (i : grid6.Coords) a, (cc6_transform_3 i a + 1) * S128x64.size a ≤ S128x64.size a
  hwx6_3 : ∀ i : grid6.Coords, EltTy.bits .f32 = 32 ∨ (Rect.block (s := S128x64) S128x64.size (cc6_transform_3 i) (hinb6_3 i)).WholeWords (EltTy.packing .f32)
  hstage6_4 : ∀ j, (stage6_4 j).IsWhole
  nbuf6_4 : grid6.bufCount reads6_4 true = 1
  hreads6_4 : ∀ i i' : grid6.Coords, (∀ a, reads6_4 a = true → i a = i' a) → cc6_transform_4 i = cc6_transform_4 i'
  hinb6_4 : ∀ (i : grid6.Coords) a, (cc6_transform_4 i a + 1) * S1x64.size a ≤ S1x64.size a
  hwx6_4 : ∀ i : grid6.Coords, EltTy.bits .f32 = 32 ∨ (Rect.block (s := S1x64) S1x64.size (cc6_transform_4 i) (hinb6_4 i)).WholeWords (EltTy.packing .f32)
  hstage6_5 : ∀ j, (stage6_5 j).IsWhole
  nbuf6_5 : grid6.bufCount reads6_5 false = 2
  hreads6_5 : ∀ i i' : grid6.Coords, (∀ a, reads6_5 a = true → i a = i' a) → cc6_transform_5 i = cc6_transform_5 i'
  hinb6_5 : ∀ (i : grid6.Coords) a, (cc6_transform_5 i a + 1) * S5000x128.size a ≤ S100000x128.size a
  hwx6_5 : ∀ i : grid6.Coords, EltTy.bits .f32 = 32 ∨ (Rect.block (s := S100000x128) S5000x128.size (cc6_transform_5 i) (hinb6_5 i)).WholeWords (EltTy.packing .f32)
  hstage6_6 : ∀ j, (stage6_6 j).IsWhole
  nbuf6_6 : grid6.bufCount reads6_6 false = 2
  hreads6_6 : ∀ i i' : grid6.Coords, (∀ a, reads6_6 a = true → i a = i' a) → cc6_transform_6 i = cc6_transform_6 i'
  hinb6_6 : ∀ (i : grid6.Coords) a, (cc6_transform_6 i a + 1) * S5000x64.size a ≤ S100000x64.size a
  hwx6_6 : ∀ i : grid6.Coords, EltTy.bits .f32 = 32 ∨ (Rect.block (s := S100000x64) S5000x64.size (cc6_transform_6 i) (hinb6_6 i)).WholeWords (EltTy.packing .f32)

variable [Facts₀]

def gather_S100000x128_S600000x1_S600000x128_1_0_n_n_0_1_1128 : GatherDims S100000x128 S600000x1 S600000x128 where
  offsetDims := [1]
  collapsedSliceDims := [0]
  operandBatchingDims := []
  startIndicesBatchingDims := []
  startIndexMap := [0]
  indexVectorDim := 1
  sliceSizes := ![1, 128]
  wf := gather_S100000x128_S600000x1_S600000x128_1_0_n_n_0_1_1128_wf
def scatter_S100000x128_S600000x1_S600000x128_1_0_0_1 : ScatterDims S100000x128 S600000x1 S600000x128 where
  updateWindowDims := [1]
  insertedWindowDims := [0]
  scatterDimsToOperandDims := [0]
  indexVectorDim := 1
  wf := scatter_S100000x128_S600000x1_S600000x128_1_0_0_1_wf
def dot_S5000x128_S128x128_S5000x128_1_0_0_1_n_n : DotDims S5000x128 S128x128 S5000x128 where
  lhsContracting := [1]
  rhsContracting := [0]
  lhsNonContracting := [0]
  rhsNonContracting := [1]
  lhsBatch := []
  rhsBatch := []
  wf := dot_S5000x128_S128x128_S5000x128_1_0_0_1_n_n_wf
def dot_S5000x128_S128x64_S5000x64_1_0_0_1_n_n : DotDims S5000x128 S128x64 S5000x64 where
  lhsContracting := [1]
  rhsContracting := [0]
  lhsNonContracting := [0]
  rhsNonContracting := [1]
  lhsBatch := []
  rhsBatch := []
  wf := dot_S5000x128_S128x64_S5000x64_1_0_0_1_n_n_wf

abbrev win0_0 : Pipeline.Window sig grid0 :=
  Pipeline.Window.ofSpec (Memref.whole main_v14) S5000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v16) S128x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v23) S1x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v20) S128x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v24) S1x128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v25_0) S5000x128.size cc0_transform_5 reads0_5 true false 2 stage0_5 sem0_5
    hrank0 hreads0_5 hinb0_5 nbuf0_5 (Memref.isWhole_whole _) hwx0_5 hstage0_5

abbrev win0_6 : Pipeline.Window sig grid0 :=
  Pipeline.Window.ofSpec (Memref.whole main_v25_1) S1x128.size cc0_transform_6 reads0_6 true true 1 stage0_6 sem0_6
    hrank0 hreads0_6 hinb0_6 nbuf0_6 (Memref.isWhole_whole _) hwx0_6 hstage0_6

abbrev win0_7 : Pipeline.Window sig grid0 :=
  Pipeline.Window.ofSpec (Memref.whole main_v25_2) S1x128.size cc0_transform_7 reads0_7 true true 1 stage0_7 sem0_7
    hrank0 hreads0_7 hinb0_7 nbuf0_7 (Memref.isWhole_whole _) hwx0_7 hstage0_7

abbrev win0 : Fin 8 → Pipeline.Window sig grid0 := fun | 0 => win0_0 | 1 => win0_1 | 2 => win0_2 | 3 => win0_3 | 4 => win0_4 | 5 => win0_5 | 6 => win0_6 | 7 => win0_7 | ⟨_ + 8, h⟩ => absurd h (Nat.not_lt.2 (Nat.le_add_left _ _))
abbrev spec0 : Fin 8 → Pipeline.WinSpec sig grid0.rank := fun w => (win0 w).toWinSpec

abbrev idle0 : Fin 8 → grid0.Coords → Bool := fun | 0 => fun _ => false | 1 => fun _ => false | 2 => fun _ => false | 3 => fun _ => false | 4 => fun _ => false | 5 => fun _ => false | 6 => fun i => !(k0_cond2 i == 1#1) | 7 => fun i => !(k0_cond2 i == 1#1) | ⟨_ + 8, h⟩ => absurd h (Nat.not_lt.2 (Nat.le_add_left _ _))

abbrev win1_0 : Pipeline.Window sig grid1 :=
  Pipeline.Window.ofSpec (Memref.whole main_v25_0) S5000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v27) S1x128.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v31) S1x128.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v36) S1x128.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v37) S1x128.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v38) S5000x128.size cc1_transform_5 reads1_5 true false 2 stage1_5 sem1_5
    hrank1 hreads1_5 hinb1_5 nbuf1_5 (Memref.isWhole_whole _) hwx1_5 hstage1_5

abbrev win1 : Fin 6 → Pipeline.Window sig grid1 := fun | 0 => win1_0 | 1 => win1_1 | 2 => win1_2 | 3 => win1_3 | 4 => win1_4 | 5 => win1_5 | ⟨_ + 6, h⟩ => absurd h (Nat.not_lt.2 (Nat.le_add_left _ _))
abbrev spec1 : Fin 6 → Pipeline.WinSpec sig grid1.rank := fun w => (win1 w).toWinSpec

abbrev win2_0 : Pipeline.Window sig grid2 :=
  Pipeline.Window.ofSpec (Memref.whole main_v49) S5000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v51) S128x128.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v58) S1x128.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v55) S128x128.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_v59) S1x128.size cc2_transform_4 reads2_4 false true 1 stage2_4 sem2_4
    hrank2 hreads2_4 hinb2_4 nbuf2_4 (Memref.isWhole_whole _) hwx2_4 hstage2_4

abbrev win2_5 : Pipeline.Window sig grid2 :=
  Pipeline.Window.ofSpec (Memref.whole main_v60_0) S5000x128.size cc2_transform_5 reads2_5 true false 2 stage2_5 sem2_5
    hrank2 hreads2_5 hinb2_5 nbuf2_5 (Memref.isWhole_whole _) hwx2_5 hstage2_5

abbrev win2_6 : Pipeline.Window sig grid2 :=
  Pipeline.Window.ofSpec (Memref.whole main_v60_1) S1x128.size cc2_transform_6 reads2_6 true true 1 stage2_6 sem2_6
    hrank2 hreads2_6 hinb2_6 nbuf2_6 (Memref.isWhole_whole _) hwx2_6 hstage2_6

abbrev win2_7 : Pipeline.Window sig grid2 :=
  Pipeline.Window.ofSpec (Memref.whole main_v60_2) S1x128.size cc2_transform_7 reads2_7 true true 1 stage2_7 sem2_7
    hrank2 hreads2_7 hinb2_7 nbuf2_7 (Memref.isWhole_whole _) hwx2_7 hstage2_7

abbrev win2 : Fin 8 → Pipeline.Window sig grid2 := fun | 0 => win2_0 | 1 => win2_1 | 2 => win2_2 | 3 => win2_3 | 4 => win2_4 | 5 => win2_5 | 6 => win2_6 | 7 => win2_7 | ⟨_ + 8, h⟩ => absurd h (Nat.not_lt.2 (Nat.le_add_left _ _))
abbrev spec2 : Fin 8 → Pipeline.WinSpec sig grid2.rank := fun w => (win2 w).toWinSpec

abbrev idle2 : Fin 8 → grid2.Coords → Bool := fun | 0 => fun _ => false | 1 => fun _ => false | 2 => fun _ => false | 3 => fun _ => false | 4 => fun _ => false | 5 => fun _ => false | 6 => fun i => !(k2_cond2 i == 1#1) | 7 => fun i => !(k2_cond2 i == 1#1) | ⟨_ + 8, h⟩ => absurd h (Nat.not_lt.2 (Nat.le_add_left _ _))

abbrev win3_0 : Pipeline.Window sig grid3 :=
  Pipeline.Window.ofSpec (Memref.whole main_v60_0) S5000x128.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v62) S1x128.size cc3_transform_1 reads3_1 false true 1 stage3_1 sem3_1
    hrank3 hreads3_1 hinb3_1 nbuf3_1 (Memref.isWhole_whole _) hwx3_1 hstage3_1

abbrev win3_2 : Pipeline.Window sig grid3 :=
  Pipeline.Window.ofSpec (Memref.whole main_v66) S1x128.size cc3_transform_2 reads3_2 false true 1 stage3_2 sem3_2
    hrank3 hreads3_2 hinb3_2 nbuf3_2 (Memref.isWhole_whole _) hwx3_2 hstage3_2

abbrev win3_3 : Pipeline.Window sig grid3 :=
  Pipeline.Window.ofSpec (Memref.whole main_v71) S1x128.size cc3_transform_3 reads3_3 false true 1 stage3_3 sem3_3
    hrank3 hreads3_3 hinb3_3 nbuf3_3 (Memref.isWhole_whole _) hwx3_3 hstage3_3

abbrev win3_4 : Pipeline.Window sig grid3 :=
  Pipeline.Window.ofSpec (Memref.whole main_v72) S1x128.size cc3_transform_4 reads3_4 false true 1 stage3_4 sem3_4
    hrank3 hreads3_4 hinb3_4 nbuf3_4 (Memref.isWhole_whole _) hwx3_4 hstage3_4

abbrev win3_5 : Pipeline.Window sig grid3 :=
  Pipeline.Window.ofSpec (Memref.whole main_v73) S5000x128.size cc3_transform_5 reads3_5 true false 2 stage3_5 sem3_5
    hrank3 hreads3_5 hinb3_5 nbuf3_5 (Memref.isWhole_whole _) hwx3_5 hstage3_5

abbrev win3 : Fin 6 → Pipeline.Window sig grid3 := fun | 0 => win3_0 | 1 => win3_1 | 2 => win3_2 | 3 => win3_3 | 4 => win3_4 | 5 => win3_5 | ⟨_ + 6, h⟩ => absurd h (Nat.not_lt.2 (Nat.le_add_left _ _))
abbrev spec3 : Fin 6 → Pipeline.WinSpec sig grid3.rank := fun w => (win3 w).toWinSpec

abbrev win4_0 : Pipeline.Window sig grid4 :=
  Pipeline.Window.ofSpec (Memref.whole main_v84) S5000x128.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_v86) S128x128.size cc4_transform_1 reads4_1 false true 1 stage4_1 sem4_1
    hrank4 hreads4_1 hinb4_1 nbuf4_1 (Memref.isWhole_whole _) hwx4_1 hstage4_1

abbrev win4_2 : Pipeline.Window sig grid4 :=
  Pipeline.Window.ofSpec (Memref.whole main_v93) S1x128.size cc4_transform_2 reads4_2 false true 1 stage4_2 sem4_2
    hrank4 hreads4_2 hinb4_2 nbuf4_2 (Memref.isWhole_whole _) hwx4_2 hstage4_2

abbrev win4_3 : Pipeline.Window sig grid4 :=
  Pipeline.Window.ofSpec (Memref.whole main_v90) S128x128.size cc4_transform_3 reads4_3 false true 1 stage4_3 sem4_3
    hrank4 hreads4_3 hinb4_3 nbuf4_3 (Memref.isWhole_whole _) hwx4_3 hstage4_3

abbrev win4_4 : Pipeline.Window sig grid4 :=
  Pipeline.Window.ofSpec (Memref.whole main_v94) S1x128.size cc4_transform_4 reads4_4 false true 1 stage4_4 sem4_4
    hrank4 hreads4_4 hinb4_4 nbuf4_4 (Memref.isWhole_whole _) hwx4_4 hstage4_4

abbrev win4_5 : Pipeline.Window sig grid4 :=
  Pipeline.Window.ofSpec (Memref.whole main_v95_0) S5000x128.size cc4_transform_5 reads4_5 true false 2 stage4_5 sem4_5
    hrank4 hreads4_5 hinb4_5 nbuf4_5 (Memref.isWhole_whole _) hwx4_5 hstage4_5

abbrev win4_6 : Pipeline.Window sig grid4 :=
  Pipeline.Window.ofSpec (Memref.whole main_v95_1) S1x128.size cc4_transform_6 reads4_6 true true 1 stage4_6 sem4_6
    hrank4 hreads4_6 hinb4_6 nbuf4_6 (Memref.isWhole_whole _) hwx4_6 hstage4_6

abbrev win4_7 : Pipeline.Window sig grid4 :=
  Pipeline.Window.ofSpec (Memref.whole main_v95_2) S1x128.size cc4_transform_7 reads4_7 true true 1 stage4_7 sem4_7
    hrank4 hreads4_7 hinb4_7 nbuf4_7 (Memref.isWhole_whole _) hwx4_7 hstage4_7

abbrev win4 : Fin 8 → Pipeline.Window sig grid4 := fun | 0 => win4_0 | 1 => win4_1 | 2 => win4_2 | 3 => win4_3 | 4 => win4_4 | 5 => win4_5 | 6 => win4_6 | 7 => win4_7 | ⟨_ + 8, h⟩ => absurd h (Nat.not_lt.2 (Nat.le_add_left _ _))
abbrev spec4 : Fin 8 → Pipeline.WinSpec sig grid4.rank := fun w => (win4 w).toWinSpec

abbrev idle4 : Fin 8 → grid4.Coords → Bool := fun | 0 => fun _ => false | 1 => fun _ => false | 2 => fun _ => false | 3 => fun _ => false | 4 => fun _ => false | 5 => fun _ => false | 6 => fun i => !(k4_cond2 i == 1#1) | 7 => fun i => !(k4_cond2 i == 1#1) | ⟨_ + 8, h⟩ => absurd h (Nat.not_lt.2 (Nat.le_add_left _ _))

abbrev win5_0 : Pipeline.Window sig grid5 :=
  Pipeline.Window.ofSpec (Memref.whole main_v95_0) S5000x128.size cc5_transform_0 reads5_0 false false 2 stage5_0 sem5_0
    hrank5 hreads5_0 hinb5_0 nbuf5_0 (Memref.isWhole_whole _) hwx5_0 hstage5_0

abbrev win5_1 : Pipeline.Window sig grid5 :=
  Pipeline.Window.ofSpec (Memref.whole main_v97) S1x128.size cc5_transform_1 reads5_1 false true 1 stage5_1 sem5_1
    hrank5 hreads5_1 hinb5_1 nbuf5_1 (Memref.isWhole_whole _) hwx5_1 hstage5_1

abbrev win5_2 : Pipeline.Window sig grid5 :=
  Pipeline.Window.ofSpec (Memref.whole main_v101) S1x128.size cc5_transform_2 reads5_2 false true 1 stage5_2 sem5_2
    hrank5 hreads5_2 hinb5_2 nbuf5_2 (Memref.isWhole_whole _) hwx5_2 hstage5_2

abbrev win5_3 : Pipeline.Window sig grid5 :=
  Pipeline.Window.ofSpec (Memref.whole main_v106) S1x128.size cc5_transform_3 reads5_3 false true 1 stage5_3 sem5_3
    hrank5 hreads5_3 hinb5_3 nbuf5_3 (Memref.isWhole_whole _) hwx5_3 hstage5_3

abbrev win5_4 : Pipeline.Window sig grid5 :=
  Pipeline.Window.ofSpec (Memref.whole main_v107) S1x128.size cc5_transform_4 reads5_4 false true 1 stage5_4 sem5_4
    hrank5 hreads5_4 hinb5_4 nbuf5_4 (Memref.isWhole_whole _) hwx5_4 hstage5_4

abbrev win5_5 : Pipeline.Window sig grid5 :=
  Pipeline.Window.ofSpec (Memref.whole main_v108) S5000x128.size cc5_transform_5 reads5_5 true false 2 stage5_5 sem5_5
    hrank5 hreads5_5 hinb5_5 nbuf5_5 (Memref.isWhole_whole _) hwx5_5 hstage5_5

abbrev win5 : Fin 6 → Pipeline.Window sig grid5 := fun | 0 => win5_0 | 1 => win5_1 | 2 => win5_2 | 3 => win5_3 | 4 => win5_4 | 5 => win5_5 | ⟨_ + 6, h⟩ => absurd h (Nat.not_lt.2 (Nat.le_add_left _ _))
abbrev spec5 : Fin 6 → Pipeline.WinSpec sig grid5.rank := fun w => (win5 w).toWinSpec

abbrev win6_0 : Pipeline.Window sig grid6 :=
  Pipeline.Window.ofSpec (Memref.whole main_v108) S5000x128.size cc6_transform_0 reads6_0 false false 2 stage6_0 sem6_0
    hrank6 hreads6_0 hinb6_0 nbuf6_0 (Memref.isWhole_whole _) hwx6_0 hstage6_0

abbrev win6_1 : Pipeline.Window sig grid6 :=
  Pipeline.Window.ofSpec (Memref.whole main_arg8) S128x128.size cc6_transform_1 reads6_1 false true 1 stage6_1 sem6_1
    hrank6 hreads6_1 hinb6_1 nbuf6_1 (Memref.isWhole_whole _) hwx6_1 hstage6_1

abbrev win6_2 : Pipeline.Window sig grid6 :=
  Pipeline.Window.ofSpec (Memref.whole main_v109) S1x128.size cc6_transform_2 reads6_2 false true 1 stage6_2 sem6_2
    hrank6 hreads6_2 hinb6_2 nbuf6_2 (Memref.isWhole_whole _) hwx6_2 hstage6_2

abbrev win6_3 : Pipeline.Window sig grid6 :=
  Pipeline.Window.ofSpec (Memref.whole main_arg10) S128x64.size cc6_transform_3 reads6_3 false true 1 stage6_3 sem6_3
    hrank6 hreads6_3 hinb6_3 nbuf6_3 (Memref.isWhole_whole _) hwx6_3 hstage6_3

abbrev win6_4 : Pipeline.Window sig grid6 :=
  Pipeline.Window.ofSpec (Memref.whole main_v110) S1x64.size cc6_transform_4 reads6_4 false true 1 stage6_4 sem6_4
    hrank6 hreads6_4 hinb6_4 nbuf6_4 (Memref.isWhole_whole _) hwx6_4 hstage6_4

abbrev win6_5 : Pipeline.Window sig grid6 :=
  Pipeline.Window.ofSpec (Memref.whole main_arg12) S5000x128.size cc6_transform_5 reads6_5 false false 2 stage6_5 sem6_5
    hrank6 hreads6_5 hinb6_5 nbuf6_5 (Memref.isWhole_whole _) hwx6_5 hstage6_5

abbrev win6_6 : Pipeline.Window sig grid6 :=
  Pipeline.Window.ofSpec (Memref.whole main_v111) S5000x64.size cc6_transform_6 reads6_6 true false 2 stage6_6 sem6_6
    hrank6 hreads6_6 hinb6_6 nbuf6_6 (Memref.isWhole_whole _) hwx6_6 hstage6_6

abbrev win6 : Fin 7 → Pipeline.Window sig grid6 := fun | 0 => win6_0 | 1 => win6_1 | 2 => win6_2 | 3 => win6_3 | 4 => win6_4 | 5 => win6_5 | 6 => win6_6 | ⟨_ + 7, h⟩ => absurd h (Nat.not_lt.2 (Nat.le_add_left _ _))
abbrev spec6 : Fin 7 → Pipeline.WinSpec sig grid6.rank := fun w => (win6 w).toWinSpec

class Facts : Prop extends Facts₀ where

variable [Facts]
-- ==== ReferenceIdeal.lean ====
abbrev S100000x128 : Shape := ⟨2, ![100000, 128]⟩
abbrev S2x600000 : Shape := ⟨2, ![2, 600000]⟩
abbrev S3x128x128 : Shape := ⟨3, ![3, 128, 128]⟩
abbrev S3x128 : Shape := ⟨2, ![3, 128]⟩
abbrev S128x128 : Shape := ⟨2, ![128, 128]⟩
abbrev S128 : Shape := ⟨1, ![128]⟩
abbrev S128x64 : Shape := ⟨2, ![128, 64]⟩
abbrev S64 : Shape := ⟨1, ![64]⟩
abbrev S1x600000 : Shape := ⟨2, ![1, 600000]⟩
abbrev S600000 : Shape := ⟨1, ![600000]⟩
abbrev S_ : Shape := ⟨0, ![]⟩
abbrev S600000x1 : Shape := ⟨2, ![600000, 1]⟩
abbrev S600000x128 : Shape := ⟨2, ![600000, 128]⟩
abbrev S1x128x128 : Shape := ⟨3, ![1, 128, 128]⟩
abbrev S1x128 : Shape := ⟨2, ![1, 128]⟩
abbrev S100000x64 : Shape := ⟨2, ![100000, 64]⟩
abbrev S1x64 : Shape := ⟨2, ![1, 64]⟩
abbrev S100000 : Shape := ⟨1, ![100000]⟩
abbrev S100000x1 : Shape := ⟨2, ![100000, 1]⟩

abbrev nBuf : Space → Nat
  | .hbm => 296
  | .vmem => 0
  | .smem => 0
  | _ => 0

abbrev hbmTy0_0 (i : Nat) : BufTy := match i % 128 with
  | 0 => ⟨S100000x128, .f32⟩
  | 1 => ⟨S2x600000, .i32⟩
  | 2 => ⟨S3x128x128, .f32⟩
  | 3 => ⟨S3x128, .f32⟩
  | 4 => ⟨S3x128x128, .f32⟩
  | 5 => ⟨S3x128, .f32⟩
  | 6 => ⟨S3x128, .f32⟩
  | 7 => ⟨S3x128, .f32⟩
  | 8 => ⟨S128x128, .f32⟩
  | 9 => ⟨S128, .f32⟩
  | 10 => ⟨S128x64, .f32⟩
  | 11 => ⟨S64, .f32⟩
  | 12 => ⟨S100000x128, .f32⟩
  | 13 => ⟨S1x600000, .i32⟩
  | 14 => ⟨S600000, .i32⟩
  | 15 => ⟨S1x600000, .i32⟩
  | 16 => ⟨S600000, .i32⟩
  | 17 => ⟨S_, .i32⟩
  | 18 => ⟨S600000, .i32⟩
  | 19 => ⟨S600000, .i1⟩
  | 20 => ⟨S_, .i32⟩
  | 21 => ⟨S600000, .i32⟩
  | 22 => ⟨S600000, .i32⟩
  | 23 => ⟨S600000, .i32⟩
  | 24 => ⟨S600000x1, .i32⟩
  | 25 => ⟨S600000x128, .f32⟩
  | 26 => ⟨S_, .f32⟩
  | 27 => ⟨S100000x128, .f32⟩
  | 28 => ⟨S600000x1, .i32⟩
  | 29 => ⟨S100000x128, .f32⟩
  | 30 => ⟨S100000x128, .f32⟩
  | 31 => ⟨S1x128x128, .f32⟩
  | 32 => ⟨S128x128, .f32⟩
  | 33 => ⟨S100000x128, .f32⟩
  | 34 => ⟨S1x128, .f32⟩
  | 35 => ⟨S128, .f32⟩
  | 36 => ⟨S1x128, .f32⟩
  | 37 => ⟨S100000x128, .f32⟩
  | 38 => ⟨S100000x128, .f32⟩
  | 39 => ⟨S_, .f32⟩
  | 40 => ⟨S100000x128, .f32⟩
  | 41 => ⟨S100000x128, .f32⟩
  | 42 => ⟨S1x128x128, .f32⟩
  | 43 => ⟨S128x128, .f32⟩
  | 44 => ⟨S100000x128, .f32⟩
  | 45 => ⟨S1x128, .f32⟩
  | 46 => ⟨S128, .f32⟩
  | 47 => ⟨S1x128, .f32⟩
  | 48 => ⟨S100000x128, .f32⟩
  | 49 => ⟨S100000x128, .f32⟩
  | 50 => ⟨S_, .f32⟩
  | 51 => ⟨S100000x128, .f32⟩
  | 52 => ⟨S100000x128, .f32⟩
  | 53 => ⟨S_, .f32⟩
  | 54 => ⟨S128, .f32⟩
  | 55 => ⟨S_, .f32⟩
  | 56 => ⟨S128, .f32⟩
  | 57 => ⟨S128, .f32⟩
  | 58 => ⟨S_, .i32⟩
  | 59 => ⟨S_, .f32⟩
  | 60 => ⟨S128, .f32⟩
  | 61 => ⟨S1x128, .f32⟩
  | 62 => ⟨S_, .f32⟩
  | 63 => ⟨S1x128, .f32⟩
  | 64 => ⟨S1x128, .f32⟩
  | 65 => ⟨S100000x128, .f32⟩
  | 66 => ⟨S100000x128, .f32⟩
  | 67 => ⟨S100000x128, .f32⟩
  | 68 => ⟨S_, .f32⟩
  | 69 => ⟨S_, .f32⟩
  | 70 => ⟨S_, .f32⟩
  | 71 => ⟨S_, .f32⟩
  | 72 => ⟨S128, .f32⟩
  | 73 => ⟨S128, .f32⟩
  | 74 => ⟨S128, .f32⟩
  | 75 => ⟨S_, .f32⟩
  | 76 => ⟨S_, .i1⟩
  | 77 => ⟨S_, .f32⟩
  | 78 => ⟨S_, .f32⟩
  | 79 => ⟨S128, .f32⟩
  | 80 => ⟨S128, .f32⟩
  | 81 => ⟨S1x128, .f32⟩
  | 82 => ⟨S100000x128, .f32⟩
  | 83 => ⟨S100000x128, .f32⟩
  | 84 => ⟨S_, .f32⟩
  | 85 => ⟨S128, .f32⟩
  | 86 => ⟨S128, .f32⟩
  | 87 => ⟨S128, .f32⟩
  | 88 => ⟨S1x128, .f32⟩
  | 89 => ⟨S100000x128, .f32⟩
  | 90 => ⟨S100000x128, .f32⟩
  | 91 => ⟨S1x128, .f32⟩
  | 92 => ⟨S128, .f32⟩
  | 93 => ⟨S1x128, .f32⟩
  | 94 => ⟨S100000x128, .f32⟩
  | 95 => ⟨S100000x128, .f32⟩
  | 96 => ⟨S1x128, .f32⟩
  | 97 => ⟨S128, .f32⟩
  | 98 => ⟨S1x128, .f32⟩
  | 99 => ⟨S100000x128, .f32⟩
  | 100 => ⟨S100000x128, .f32⟩
  | 101 => ⟨S_, .i32⟩
  | 102 => ⟨S600000, .i32⟩
  | 103 => ⟨S600000, .i1⟩
  | 104 => ⟨S_, .i32⟩
  | 105 => ⟨S600000, .i32⟩
  | 106 => ⟨S600000, .i32⟩
  | 107 => ⟨S600000, .i32⟩
  | 108 => ⟨S600000x1, .i32⟩
  | 109 => ⟨S600000x128, .f32⟩
  | 110 => ⟨S_, .f32⟩
  | 111 => ⟨S100000x128, .f32⟩
  | 112 => ⟨S600000x1, .i32⟩
  | 113 => ⟨S100000x128, .f32⟩
  | 114 => ⟨S100000x128, .f32⟩
  | 115 => ⟨S1x128x128, .f32⟩
  | 116 => ⟨S128x128, .f32⟩
  | 117 => ⟨S100000x128, .f32⟩
  | 118 => ⟨S1x128, .f32⟩
  | 119 => ⟨S128, .f32⟩
  | 120 => ⟨S1x128, .f32⟩
  | 121 => ⟨S100000x128, .f32⟩
  | 122 => ⟨S100000x128, .f32⟩
  | 123 => ⟨S_, .f32⟩
  | 124 => ⟨S100000x128, .f32⟩
  | 125 => ⟨S100000x128, .f32⟩
  | 126 => ⟨S1x128x128, .f32⟩
  | 127 => ⟨S128x128, .f32⟩
  | _ => ⟨S100000x128, .f32⟩

abbrev hbmTy0_1 (i : Nat) : BufTy := match i % 128 with
  | 0 => ⟨S100000x128, .f32⟩
  | 1 => ⟨S1x128, .f32⟩
  | 2 => ⟨S128, .f32⟩
  | 3 => ⟨S1x128, .f32⟩
  | 4 => ⟨S100000x128, .f32⟩
  | 5 => ⟨S100000x128, .f32⟩
  | 6 => ⟨S_, .f32⟩
  | 7 => ⟨S100000x128, .f32⟩
  | 8 => ⟨S100000x128, .f32⟩
  | 9 => ⟨S_, .f32⟩
  | 10 => ⟨S128, .f32⟩
  | 11 => ⟨S_, .f32⟩
  | 12 => ⟨S128, .f32⟩
  | 13 => ⟨S128, .f32⟩
  | 14 => ⟨S_, .i32⟩
  | 15 => ⟨S_, .f32⟩
  | 16 => ⟨S128, .f32⟩
  | 17 => ⟨S1x128, .f32⟩
  | 18 => ⟨S_, .f32⟩
  | 19 => ⟨S1x128, .f32⟩
  | 20 => ⟨S1x128, .f32⟩
  | 21 => ⟨S100000x128, .f32⟩
  | 22 => ⟨S100000x128, .f32⟩
  | 23 => ⟨S100000x128, .f32⟩
  | 24 => ⟨S_, .f32⟩
  | 25 => ⟨S_, .f32⟩
  | 26 => ⟨S_, .f32⟩
  | 27 => ⟨S_, .f32⟩
  | 28 => ⟨S128, .f32⟩
  | 29 => ⟨S128, .f32⟩
  | 30 => ⟨S128, .f32⟩
  | 31 => ⟨S_, .f32⟩
  | 32 => ⟨S_, .i1⟩
  | 33 => ⟨S_, .f32⟩
  | 34 => ⟨S_, .f32⟩
  | 35 => ⟨S128, .f32⟩
  | 36 => ⟨S128, .f32⟩
  | 37 => ⟨S1x128, .f32⟩
  | 38 => ⟨S100000x128, .f32⟩
  | 39 => ⟨S100000x128, .f32⟩
  | 40 => ⟨S_, .f32⟩
  | 41 => ⟨S128, .f32⟩
  | 42 => ⟨S128, .f32⟩
  | 43 => ⟨S128, .f32⟩
  | 44 => ⟨S1x128, .f32⟩
  | 45 => ⟨S100000x128, .f32⟩
  | 46 => ⟨S100000x128, .f32⟩
  | 47 => ⟨S1x128, .f32⟩
  | 48 => ⟨S128, .f32⟩
  | 49 => ⟨S1x128, .f32⟩
  | 50 => ⟨S100000x128, .f32⟩
  | 51 => ⟨S100000x128, .f32⟩
  | 52 => ⟨S1x128, .f32⟩
  | 53 => ⟨S128, .f32⟩
  | 54 => ⟨S1x128, .f32⟩
  | 55 => ⟨S100000x128, .f32⟩
  | 56 => ⟨S100000x128, .f32⟩
  | 57 => ⟨S_, .i32⟩
  | 58 => ⟨S600000, .i32⟩
  | 59 => ⟨S600000, .i1⟩
  | 60 => ⟨S_, .i32⟩
  | 61 => ⟨S600000, .i32⟩
  | 62 => ⟨S600000, .i32⟩
  | 63 => ⟨S600000, .i32⟩
  | 64 => ⟨S600000x1, .i32⟩
  | 65 => ⟨S600000x128, .f32⟩
  | 66 => ⟨S_, .f32⟩
  | 67 => ⟨S100000x128, .f32⟩
  | 68 => ⟨S600000x1, .i32⟩
  | 69 => ⟨S100000x128, .f32⟩
  | 70 => ⟨S100000x128, .f32⟩
  | 71 => ⟨S1x128x128, .f32⟩
  | 72 => ⟨S128x128, .f32⟩
  | 73 => ⟨S100000x128, .f32⟩
  | 74 => ⟨S1x128, .f32⟩
  | 75 => ⟨S128, .f32⟩
  | 76 => ⟨S1x128, .f32⟩
  | 77 => ⟨S100000x128, .f32⟩
  | 78 => ⟨S100000x128, .f32⟩
  | 79 => ⟨S_, .f32⟩
  | 80 => ⟨S100000x128, .f32⟩
  | 81 => ⟨S100000x128, .f32⟩
  | 82 => ⟨S1x128x128, .f32⟩
  | 83 => ⟨S128x128, .f32⟩
  | 84 => ⟨S100000x128, .f32⟩
  | 85 => ⟨S1x128, .f32⟩
  | 86 => ⟨S128, .f32⟩
  | 87 => ⟨S1x128, .f32⟩
  | 88 => ⟨S100000x128, .f32⟩
  | 89 => ⟨S100000x128, .f32⟩
  | 90 => ⟨S_, .f32⟩
  | 91 => ⟨S100000x128, .f32⟩
  | 92 => ⟨S100000x128, .f32⟩
  | 93 => ⟨S_, .f32⟩
  | 94 => ⟨S128, .f32⟩
  | 95 => ⟨S_, .f32⟩
  | 96 => ⟨S128, .f32⟩
  | 97 => ⟨S128, .f32⟩
  | 98 => ⟨S_, .i32⟩
  | 99 => ⟨S_, .f32⟩
  | 100 => ⟨S128, .f32⟩
  | 101 => ⟨S1x128, .f32⟩
  | 102 => ⟨S_, .f32⟩
  | 103 => ⟨S1x128, .f32⟩
  | 104 => ⟨S1x128, .f32⟩
  | 105 => ⟨S100000x128, .f32⟩
  | 106 => ⟨S100000x128, .f32⟩
  | 107 => ⟨S100000x128, .f32⟩
  | 108 => ⟨S_, .f32⟩
  | 109 => ⟨S_, .f32⟩
  | 110 => ⟨S_, .f32⟩
  | 111 => ⟨S_, .f32⟩
  | 112 => ⟨S128, .f32⟩
  | 113 => ⟨S128, .f32⟩
  | 114 => ⟨S128, .f32⟩
  | 115 => ⟨S_, .f32⟩
  | 116 => ⟨S_, .i1⟩
  | 117 => ⟨S_, .f32⟩
  | 118 => ⟨S_, .f32⟩
  | 119 => ⟨S128, .f32⟩
  | 120 => ⟨S128, .f32⟩
  | 121 => ⟨S1x128, .f32⟩
  | 122 => ⟨S100000x128, .f32⟩
  | 123 => ⟨S100000x128, .f32⟩
  | 124 => ⟨S_, .f32⟩
  | 125 => ⟨S128, .f32⟩
  | 126 => ⟨S128, .f32⟩
  | 127 => ⟨S128, .f32⟩
  | _ => ⟨S100000x128, .f32⟩

abbrev hbmTy0_2 (i : Nat) : BufTy := match i % 128 with
  | 0 => ⟨S1x128, .f32⟩
  | 1 => ⟨S100000x128, .f32⟩
  | 2 => ⟨S100000x128, .f32⟩
  | 3 => ⟨S1x128, .f32⟩
  | 4 => ⟨S128, .f32⟩
  | 5 => ⟨S1x128, .f32⟩
  | 6 => ⟨S100000x128, .f32⟩
  | 7 => ⟨S100000x128, .f32⟩
  | 8 => ⟨S1x128, .f32⟩
  | 9 => ⟨S128, .f32⟩
  | 10 => ⟨S1x128, .f32⟩
  | 11 => ⟨S100000x128, .f32⟩
  | 12 => ⟨S100000x128, .f32⟩
  | 13 => ⟨S100000x128, .f32⟩
  | 14 => ⟨S1x128, .f32⟩
  | 15 => ⟨S100000x128, .f32⟩
  | 16 => ⟨S100000x128, .f32⟩
  | 17 => ⟨S_, .f32⟩
  | 18 => ⟨S100000x128, .f32⟩
  | 19 => ⟨S100000x128, .f32⟩
  | 20 => ⟨S100000x128, .f32⟩
  | 21 => ⟨S100000x64, .f32⟩
  | 22 => ⟨S1x64, .f32⟩
  | 23 => ⟨S100000x64, .f32⟩
  | 24 => ⟨S100000x64, .f32⟩
  | 25 => ⟨S_, .f32⟩
  | 26 => ⟨S100000, .f32⟩
  | 27 => ⟨S_, .f32⟩
  | 28 => ⟨S100000, .f32⟩
  | 29 => ⟨S100000, .f32⟩
  | 30 => ⟨S100000x1, .f32⟩
  | 31 => ⟨S100000x64, .f32⟩
  | 32 => ⟨S100000x64, .f32⟩
  | 33 => ⟨S100000x64, .f32⟩
  | 34 => ⟨S_, .f32⟩
  | 35 => ⟨S100000, .f32⟩
  | 36 => ⟨S100000x1, .f32⟩
  | 37 => ⟨S100000x1, .f32⟩
  | 38 => ⟨S100000x64, .f32⟩
  | 39 => ⟨S100000x64, .f32⟩
  | _ => ⟨S100000x128, .f32⟩

abbrev hbmTy (i : Nat) : BufTy := match i / 128 with
  | 0 => hbmTy0_0 i
  | 1 => hbmTy0_1 i
  | 2 => hbmTy0_2 i
  | _ => ⟨S100000x128, .f32⟩

abbrev bufTy : (tb : Table) → Fin (tcTables nBuf tb) → BufTy
  | .hbm, ⟨i, _⟩ => hbmTy i
  | _, _ => ⟨S100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_v0 : Ref sig .tc := ⟨.hbm, 13, rfl⟩
abbrev main_v1 : Ref sig .tc := ⟨.hbm, 14, rfl⟩
abbrev main_v2 : Ref sig .tc := ⟨.hbm, 15, rfl⟩
abbrev main_v3 : Ref sig .tc := ⟨.hbm, 16, rfl⟩
abbrev main_c : Ref sig .tc := ⟨.hbm, 17, rfl⟩
abbrev main_v4 : Ref sig .tc := ⟨.hbm, 18, rfl⟩
abbrev main_v5 : Ref sig .tc := ⟨.hbm, 19, rfl⟩
abbrev main_c_0 : Ref sig .tc := ⟨.hbm, 20, rfl⟩
abbrev main_v6 : Ref sig .tc := ⟨.hbm, 21, rfl⟩
abbrev main_v7 : Ref sig .tc := ⟨.hbm, 22, rfl⟩
abbrev main_v8 : Ref sig .tc := ⟨.hbm, 23, rfl⟩
abbrev main_v9 : Ref sig .tc := ⟨.hbm, 24, rfl⟩
abbrev main_v10 : Ref sig .tc := ⟨.hbm, 25, rfl⟩
abbrev main_cst : Ref sig .tc := ⟨.hbm, 26, rfl⟩
abbrev main_v11 : Ref sig .tc := ⟨.hbm, 27, rfl⟩
abbrev main_v12 : Ref sig .tc := ⟨.hbm, 28, rfl⟩
abbrev main_v13 : Ref sig .tc := ⟨.hbm, 29, rfl⟩
abbrev main_v14 : Ref sig .tc := ⟨.hbm, 30, rfl⟩
abbrev main_v15 : Ref sig .tc := ⟨.hbm, 31, rfl⟩
abbrev main_v16 : Ref sig .tc := ⟨.hbm, 32, rfl⟩
abbrev main_v17 : Ref sig .tc := ⟨.hbm, 33, rfl⟩
abbrev main_v18 : Ref sig .tc := ⟨.hbm, 34, rfl⟩
abbrev main_v19 : Ref sig .tc := ⟨.hbm, 35, rfl⟩
abbrev main_v20 : Ref sig .tc := ⟨.hbm, 36, rfl⟩
abbrev main_v21 : Ref sig .tc := ⟨.hbm, 37, rfl⟩
abbrev main_v22 : Ref sig .tc := ⟨.hbm, 38, rfl⟩
abbrev main_cst_1 : Ref sig .tc := ⟨.hbm, 39, rfl⟩
abbrev main_v23 : Ref sig .tc := ⟨.hbm, 40, rfl⟩
abbrev main_v24 : Ref sig .tc := ⟨.hbm, 41, rfl⟩
abbrev main_v25 : Ref sig .tc := ⟨.hbm, 42, rfl⟩
abbrev main_v26 : Ref sig .tc := ⟨.hbm, 43, rfl⟩
abbrev main_v27 : Ref sig .tc := ⟨.hbm, 44, rfl⟩
abbrev main_v28 : Ref sig .tc := ⟨.hbm, 45, rfl⟩
abbrev main_v29 : Ref sig .tc := ⟨.hbm, 46, rfl⟩
abbrev main_v30 : Ref sig .tc := ⟨.hbm, 47, rfl⟩
abbrev main_v31 : Ref sig .tc := ⟨.hbm, 48, rfl⟩
abbrev main_v32 : Ref sig .tc := ⟨.hbm, 49, rfl⟩
abbrev main_cst_2 : Ref sig .tc := ⟨.hbm, 50, rfl⟩
abbrev main_v33 : Ref sig .tc := ⟨.hbm, 51, rfl⟩
abbrev main_v34 : Ref sig .tc := ⟨.hbm, 52, rfl⟩
abbrev main_cst_3 : Ref sig .tc := ⟨.hbm, 53, rfl⟩
abbrev main_v35 : Ref sig .tc := ⟨.hbm, 54, rfl⟩
abbrev main_cst_4 : Ref sig .tc := ⟨.hbm, 55, rfl⟩
abbrev main_v36 : Ref sig .tc := ⟨.hbm, 56, rfl⟩
abbrev main_v37 : Ref sig .tc := ⟨.hbm, 57, rfl⟩
abbrev main_c_5 : Ref sig .tc := ⟨.hbm, 58, rfl⟩
abbrev main_call0_cst : Ref sig .tc := ⟨.hbm, 59, rfl⟩
abbrev main_call0_v0 : Ref sig .tc := ⟨.hbm, 60, rfl⟩
abbrev main_call0_v1 : Ref sig .tc := ⟨.hbm, 61, rfl⟩
abbrev main_call0_cst_0 : Ref sig .tc := ⟨.hbm, 62, rfl⟩
abbrev main_call0_v2 : Ref sig .tc := ⟨.hbm, 63, rfl⟩
abbrev main_call0_v3 : Ref sig .tc := ⟨.hbm, 64, rfl⟩
abbrev main_call0_v4 : Ref sig .tc := ⟨.hbm, 65, rfl⟩
abbrev main_call0_v5 : Ref sig .tc := ⟨.hbm, 66, rfl⟩
abbrev main_call0_v6 : Ref sig .tc := ⟨.hbm, 67, rfl⟩
abbrev main_call0_v7 : Ref sig .tc := ⟨.hbm, 68, rfl⟩
abbrev main_call0_cst_1 : Ref sig .tc := ⟨.hbm, 69, rfl⟩
abbrev main_call0_v8 : Ref sig .tc := ⟨.hbm, 70, rfl⟩
abbrev main_call0_cst_2 : Ref sig .tc := ⟨.hbm, 71, rfl⟩
abbrev main_call0_v9 : Ref sig .tc := ⟨.hbm, 72, rfl⟩
abbrev main_call0_v10 : Ref sig .tc := ⟨.hbm, 73, rfl⟩
abbrev main_call0_v11 : Ref sig .tc := ⟨.hbm, 74, rfl⟩
abbrev main_call0_cst_3 : Ref sig .tc := ⟨.hbm, 75, rfl⟩
abbrev main_call0_v12 : Ref sig .tc := ⟨.hbm, 76, rfl⟩
abbrev main_call0_cst_4 : Ref sig .tc := ⟨.hbm, 77, rfl⟩
abbrev main_call0_call0_v0 : Ref sig .tc := ⟨.hbm, 78, rfl⟩
abbrev main_call0_call0_v1 : Ref sig .tc := ⟨.hbm, 79, rfl⟩
abbrev main_v38 : Ref sig .tc := ⟨.hbm, 80, rfl⟩
abbrev main_v39 : Ref sig .tc := ⟨.hbm, 81, rfl⟩
abbrev main_v40 : Ref sig .tc := ⟨.hbm, 82, rfl⟩
abbrev main_v41 : Ref sig .tc := ⟨.hbm, 83, rfl⟩
abbrev main_cst_6 : Ref sig .tc := ⟨.hbm, 84, rfl⟩
abbrev main_v42 : Ref sig .tc := ⟨.hbm, 85, rfl⟩
abbrev main_v43 : Ref sig .tc := ⟨.hbm, 86, rfl⟩
abbrev main_v44 : Ref sig .tc := ⟨.hbm, 87, rfl⟩
abbrev main_v45 : Ref sig .tc := ⟨.hbm, 88, rfl⟩
abbrev main_v46 : Ref sig .tc := ⟨.hbm, 89, rfl⟩
abbrev main_v47 : Ref sig .tc := ⟨.hbm, 90, rfl⟩
abbrev main_v48 : Ref sig .tc := ⟨.hbm, 91, rfl⟩
abbrev main_v49 : Ref sig .tc := ⟨.hbm, 92, rfl⟩
abbrev main_v50 : Ref sig .tc := ⟨.hbm, 93, rfl⟩
abbrev main_v51 : Ref sig .tc := ⟨.hbm, 94, rfl⟩
abbrev main_v52 : Ref sig .tc := ⟨.hbm, 95, rfl⟩
abbrev main_v53 : Ref sig .tc := ⟨.hbm, 96, rfl⟩
abbrev main_v54 : Ref sig .tc := ⟨.hbm, 97, rfl⟩
abbrev main_v55 : Ref sig .tc := ⟨.hbm, 98, rfl⟩
abbrev main_v56 : Ref sig .tc := ⟨.hbm, 99, rfl⟩
abbrev main_v57 : Ref sig .tc := ⟨.hbm, 100, rfl⟩
abbrev main_c_7 : Ref sig .tc := ⟨.hbm, 101, rfl⟩
abbrev main_v58 : Ref sig .tc := ⟨.hbm, 102, rfl⟩
abbrev main_v59 : Ref sig .tc := ⟨.hbm, 103, rfl⟩
abbrev main_c_8 : Ref sig .tc := ⟨.hbm, 104, rfl⟩
abbrev main_v60 : Ref sig .tc := ⟨.hbm, 105, rfl⟩
abbrev main_v61 : Ref sig .tc := ⟨.hbm, 106, rfl⟩
abbrev main_v62 : Ref sig .tc := ⟨.hbm, 107, rfl⟩
abbrev main_v63 : Ref sig .tc := ⟨.hbm, 108, rfl⟩
abbrev main_v64 : Ref sig .tc := ⟨.hbm, 109, rfl⟩
abbrev main_cst_9 : Ref sig .tc := ⟨.hbm, 110, rfl⟩
abbrev main_v65 : Ref sig .tc := ⟨.hbm, 111, rfl⟩
abbrev main_v66 : Ref sig .tc := ⟨.hbm, 112, rfl⟩
abbrev main_v67 : Ref sig .tc := ⟨.hbm, 113, rfl⟩
abbrev main_v68 : Ref sig .tc := ⟨.hbm, 114, rfl⟩
abbrev main_v69 : Ref sig .tc := ⟨.hbm, 115, rfl⟩
abbrev main_v70 : Ref sig .tc := ⟨.hbm, 116, rfl⟩
abbrev main_v71 : Ref sig .tc := ⟨.hbm, 117, rfl⟩
abbrev main_v72 : Ref sig .tc := ⟨.hbm, 118, rfl⟩
abbrev main_v73 : Ref sig .tc := ⟨.hbm, 119, rfl⟩
abbrev main_v74 : Ref sig .tc := ⟨.hbm, 120, rfl⟩
abbrev main_v75 : Ref sig .tc := ⟨.hbm, 121, rfl⟩
abbrev main_v76 : Ref sig .tc := ⟨.hbm, 122, rfl⟩
abbrev main_cst_10 : Ref sig .tc := ⟨.hbm, 123, rfl⟩
abbrev main_v77 : Ref sig .tc := ⟨.hbm, 124, rfl⟩
abbrev main_v78 : Ref sig .tc := ⟨.hbm, 125, rfl⟩
abbrev main_v79 : Ref sig .tc := ⟨.hbm, 126, rfl⟩
abbrev main_v80 : Ref sig .tc := ⟨.hbm, 127, rfl⟩
abbrev main_v81 : Ref sig .tc := ⟨.hbm, 128, rfl⟩
abbrev main_v82 : Ref sig .tc := ⟨.hbm, 129, rfl⟩
abbrev main_v83 : Ref sig .tc := ⟨.hbm, 130, rfl⟩
abbrev main_v84 : Ref sig .tc := ⟨.hbm, 131, rfl⟩
abbrev main_v85 : Ref sig .tc := ⟨.hbm, 132, rfl⟩
abbrev main_v86 : Ref sig .tc := ⟨.hbm, 133, rfl⟩
abbrev main_cst_11 : Ref sig .tc := ⟨.hbm, 134, rfl⟩
abbrev main_v87 : Ref sig .tc := ⟨.hbm, 135, rfl⟩
abbrev main_v88 : Ref sig .tc := ⟨.hbm, 136, rfl⟩
abbrev main_cst_12 : Ref sig .tc := ⟨.hbm, 137, rfl⟩
abbrev main_v89 : Ref sig .tc := ⟨.hbm, 138, rfl⟩
abbrev main_cst_13 : Ref sig .tc := ⟨.hbm, 139, rfl⟩
abbrev main_v90 : Ref sig .tc := ⟨.hbm, 140, rfl⟩
abbrev main_v91 : Ref sig .tc := ⟨.hbm, 141, rfl⟩
abbrev main_c_14 : Ref sig .tc := ⟨.hbm, 142, rfl⟩
abbrev main_call1_cst : Ref sig .tc := ⟨.hbm, 143, rfl⟩
abbrev main_call1_v0 : Ref sig .tc := ⟨.hbm, 144, rfl⟩
abbrev main_call1_v1 : Ref sig .tc := ⟨.hbm, 145, rfl⟩
abbrev main_call1_cst_0 : Ref sig .tc := ⟨.hbm, 146, rfl⟩
abbrev main_call1_v2 : Ref sig .tc := ⟨.hbm, 147, rfl⟩
abbrev main_call1_v3 : Ref sig .tc := ⟨.hbm, 148, rfl⟩
abbrev main_call1_v4 : Ref sig .tc := ⟨.hbm, 149, rfl⟩
abbrev main_call1_v5 : Ref sig .tc := ⟨.hbm, 150, rfl⟩
abbrev main_call1_v6 : Ref sig .tc := ⟨.hbm, 151, rfl⟩
abbrev main_call1_v7 : Ref sig .tc := ⟨.hbm, 152, rfl⟩
abbrev main_call1_cst_1 : Ref sig .tc := ⟨.hbm, 153, rfl⟩
abbrev main_call1_v8 : Ref sig .tc := ⟨.hbm, 154, rfl⟩
abbrev main_call1_cst_2 : Ref sig .tc := ⟨.hbm, 155, rfl⟩
abbrev main_call1_v9 : Ref sig .tc := ⟨.hbm, 156, rfl⟩
abbrev main_call1_v10 : Ref sig .tc := ⟨.hbm, 157, rfl⟩
abbrev main_call1_v11 : Ref sig .tc := ⟨.hbm, 158, rfl⟩
abbrev main_call1_cst_3 : Ref sig .tc := ⟨.hbm, 159, rfl⟩
abbrev main_call1_v12 : Ref sig .tc := ⟨.hbm, 160, rfl⟩
abbrev main_call1_cst_4 : Ref sig .tc := ⟨.hbm, 161, rfl⟩
abbrev main_call1_call0_v0 : Ref sig .tc := ⟨.hbm, 162, rfl⟩
abbrev main_call1_call0_v1 : Ref sig .tc := ⟨.hbm, 163, rfl⟩
abbrev main_v92 : Ref sig .tc := ⟨.hbm, 164, rfl⟩
abbrev main_v93 : Ref sig .tc := ⟨.hbm, 165, rfl⟩
abbrev main_v94 : Ref sig .tc := ⟨.hbm, 166, rfl⟩
abbrev main_v95 : Ref sig .tc := ⟨.hbm, 167, rfl⟩
abbrev main_cst_15 : Ref sig .tc := ⟨.hbm, 168, rfl⟩
abbrev main_v96 : Ref sig .tc := ⟨.hbm, 169, rfl⟩
abbrev main_v97 : Ref sig .tc := ⟨.hbm, 170, rfl⟩
abbrev main_v98 : Ref sig .tc := ⟨.hbm, 171, rfl⟩
abbrev main_v99 : Ref sig .tc := ⟨.hbm, 172, rfl⟩
abbrev main_v100 : Ref sig .tc := ⟨.hbm, 173, rfl⟩
abbrev main_v101 : Ref sig .tc := ⟨.hbm, 174, rfl⟩
abbrev main_v102 : Ref sig .tc := ⟨.hbm, 175, rfl⟩
abbrev main_v103 : Ref sig .tc := ⟨.hbm, 176, rfl⟩
abbrev main_v104 : Ref sig .tc := ⟨.hbm, 177, rfl⟩
abbrev main_v105 : Ref sig .tc := ⟨.hbm, 178, rfl⟩
abbrev main_v106 : Ref sig .tc := ⟨.hbm, 179, rfl⟩
abbrev main_v107 : Ref sig .tc := ⟨.hbm, 180, rfl⟩
abbrev main_v108 : Ref sig .tc := ⟨.hbm, 181, rfl⟩
abbrev main_v109 : Ref sig .tc := ⟨.hbm, 182, rfl⟩
abbrev main_v110 : Ref sig .tc := ⟨.hbm, 183, rfl⟩
abbrev main_v111 : Ref sig .tc := ⟨.hbm, 184, rfl⟩
abbrev main_c_16 : Ref sig .tc := ⟨.hbm, 185, rfl⟩
abbrev main_v112 : Ref sig .tc := ⟨.hbm, 186, rfl⟩
abbrev main_v113 : Ref sig .tc := ⟨.hbm, 187, rfl⟩
abbrev main_c_17 : Ref sig .tc := ⟨.hbm, 188, rfl⟩
abbrev main_v114 : Ref sig .tc := ⟨.hbm, 189, rfl⟩
abbrev main_v115 : Ref sig .tc := ⟨.hbm, 190, rfl⟩
abbrev main_v116 : Ref sig .tc := ⟨.hbm, 191, rfl⟩
abbrev main_v117 : Ref sig .tc := ⟨.hbm, 192, rfl⟩
abbrev main_v118 : Ref sig .tc := ⟨.hbm, 193, rfl⟩
abbrev main_cst_18 : Ref sig .tc := ⟨.hbm, 194, rfl⟩
abbrev main_v119 : Ref sig .tc := ⟨.hbm, 195, rfl⟩
abbrev main_v120 : Ref sig .tc := ⟨.hbm, 196, rfl⟩
abbrev main_v121 : Ref sig .tc := ⟨.hbm, 197, rfl⟩
abbrev main_v122 : Ref sig .tc := ⟨.hbm, 198, rfl⟩
abbrev main_v123 : Ref sig .tc := ⟨.hbm, 199, rfl⟩
abbrev main_v124 : Ref sig .tc := ⟨.hbm, 200, rfl⟩
abbrev main_v125 : Ref sig .tc := ⟨.hbm, 201, rfl⟩
abbrev main_v126 : Ref sig .tc := ⟨.hbm, 202, rfl⟩
abbrev main_v127 : Ref sig .tc := ⟨.hbm, 203, rfl⟩
abbrev main_v128 : Ref sig .tc := ⟨.hbm, 204, rfl⟩
abbrev main_v129 : Ref sig .tc := ⟨.hbm, 205, rfl⟩
abbrev main_v130 : Ref sig .tc := ⟨.hbm, 206, rfl⟩
abbrev main_cst_19 : Ref sig .tc := ⟨.hbm, 207, rfl⟩
abbrev main_v131 : Ref sig .tc := ⟨.hbm, 208, rfl⟩
abbrev main_v132 : Ref sig .tc := ⟨.hbm, 209, rfl⟩
abbrev main_v133 : Ref sig .tc := ⟨.hbm, 210, rfl⟩
abbrev main_v134 : Ref sig .tc := ⟨.hbm, 211, rfl⟩
abbrev main_v135 : Ref sig .tc := ⟨.hbm, 212, rfl⟩
abbrev main_v136 : Ref sig .tc := ⟨.hbm, 213, rfl⟩
abbrev main_v137 : Ref sig .tc := ⟨.hbm, 214, rfl⟩
abbrev main_v138 : Ref sig .tc := ⟨.hbm, 215, rfl⟩
abbrev main_v139 : Ref sig .tc := ⟨.hbm, 216, rfl⟩
abbrev main_v140 : Ref sig .tc := ⟨.hbm, 217, rfl⟩
abbrev main_cst_20 : Ref sig .tc := ⟨.hbm, 218, rfl⟩
abbrev main_v141 : Ref sig .tc := ⟨.hbm, 219, rfl⟩
abbrev main_v142 : Ref sig .tc := ⟨.hbm, 220, rfl⟩
abbrev main_cst_21 : Ref sig .tc := ⟨.hbm, 221, rfl⟩
abbrev main_v143 : Ref sig .tc := ⟨.hbm, 222, rfl⟩
abbrev main_cst_22 : Ref sig .tc := ⟨.hbm, 223, rfl⟩
abbrev main_v144 : Ref sig .tc := ⟨.hbm, 224, rfl⟩
abbrev main_v145 : Ref sig .tc := ⟨.hbm, 225, rfl⟩
abbrev main_c_23 : Ref sig .tc := ⟨.hbm, 226, rfl⟩
abbrev main_call2_cst : Ref sig .tc := ⟨.hbm, 227, rfl⟩
abbrev main_call2_v0 : Ref sig .tc := ⟨.hbm, 228, rfl⟩
abbrev main_call2_v1 : Ref sig .tc := ⟨.hbm, 229, rfl⟩
abbrev main_call2_cst_0 : Ref sig .tc := ⟨.hbm, 230, rfl⟩
abbrev main_call2_v2 : Ref sig .tc := ⟨.hbm, 231, rfl⟩
abbrev main_call2_v3 : Ref sig .tc := ⟨.hbm, 232, rfl⟩
abbrev main_call2_v4 : Ref sig .tc := ⟨.hbm, 233, rfl⟩
abbrev main_call2_v5 : Ref sig .tc := ⟨.hbm, 234, rfl⟩
abbrev main_call2_v6 : Ref sig .tc := ⟨.hbm, 235, rfl⟩
abbrev main_call2_v7 : Ref sig .tc := ⟨.hbm, 236, rfl⟩
abbrev main_call2_cst_1 : Ref sig .tc := ⟨.hbm, 237, rfl⟩
abbrev main_call2_v8 : Ref sig .tc := ⟨.hbm, 238, rfl⟩
abbrev main_call2_cst_2 : Ref sig .tc := ⟨.hbm, 239, rfl⟩
abbrev main_call2_v9 : Ref sig .tc := ⟨.hbm, 240, rfl⟩
abbrev main_call2_v10 : Ref sig .tc := ⟨.hbm, 241, rfl⟩
abbrev main_call2_v11 : Ref sig .tc := ⟨.hbm, 242, rfl⟩
abbrev main_call2_cst_3 : Ref sig .tc := ⟨.hbm, 243, rfl⟩
abbrev main_call2_v12 : Ref sig .tc := ⟨.hbm, 244, rfl⟩
abbrev main_call2_cst_4 : Ref sig .tc := ⟨.hbm, 245, rfl⟩
abbrev main_call2_call0_v0 : Ref sig .tc := ⟨.hbm, 246, rfl⟩
abbrev main_call2_call0_v1 : Ref sig .tc := ⟨.hbm, 247, rfl⟩
abbrev main_v146 : Ref sig .tc := ⟨.hbm, 248, rfl⟩
abbrev main_v147 : Ref sig .tc := ⟨.hbm, 249, rfl⟩
abbrev main_v148 : Ref sig .tc := ⟨.hbm, 250, rfl⟩
abbrev main_v149 : Ref sig .tc := ⟨.hbm, 251, rfl⟩
abbrev main_cst_24 : Ref sig .tc := ⟨.hbm, 252, rfl⟩
abbrev main_v150 : Ref sig .tc := ⟨.hbm, 253, rfl⟩
abbrev main_v151 : Ref sig .tc := ⟨.hbm, 254, rfl⟩
abbrev main_v152 : Ref sig .tc := ⟨.hbm, 255, rfl⟩
abbrev main_v153 : Ref sig .tc := ⟨.hbm, 256, rfl⟩
abbrev main_v154 : Ref sig .tc := ⟨.hbm, 257, rfl⟩
abbrev main_v155 : Ref sig .tc := ⟨.hbm, 258, rfl⟩
abbrev main_v156 : Ref sig .tc := ⟨.hbm, 259, rfl⟩
abbrev main_v157 : Ref sig .tc := ⟨.hbm, 260, rfl⟩
abbrev main_v158 : Ref sig .tc := ⟨.hbm, 261, rfl⟩
abbrev main_v159 : Ref sig .tc := ⟨.hbm, 262, rfl⟩
abbrev main_v160 : Ref sig .tc := ⟨.hbm, 263, rfl⟩
abbrev main_v161 : Ref sig .tc := ⟨.hbm, 264, rfl⟩
abbrev main_v162 : Ref sig .tc := ⟨.hbm, 265, rfl⟩
abbrev main_v163 : Ref sig .tc := ⟨.hbm, 266, rfl⟩
abbrev main_v164 : Ref sig .tc := ⟨.hbm, 267, rfl⟩
abbrev main_v165 : Ref sig .tc := ⟨.hbm, 268, rfl⟩
abbrev main_v166 : Ref sig .tc := ⟨.hbm, 269, rfl⟩
abbrev main_v167 : Ref sig .tc := ⟨.hbm, 270, rfl⟩
abbrev main_v168 : Ref sig .tc := ⟨.hbm, 271, rfl⟩
abbrev main_v169 : Ref sig .tc := ⟨.hbm, 272, rfl⟩
abbrev main_cst_25 : Ref sig .tc := ⟨.hbm, 273, rfl⟩
abbrev main_v170 : Ref sig .tc := ⟨.hbm, 274, rfl⟩
abbrev main_v171 : Ref sig .tc := ⟨.hbm, 275, rfl⟩
abbrev main_v172 : Ref sig .tc := ⟨.hbm, 276, rfl⟩
abbrev main_v173 : Ref sig .tc := ⟨.hbm, 277, rfl⟩
abbrev main_v174 : Ref sig .tc := ⟨.hbm, 278, rfl⟩
abbrev main_v175 : Ref sig .tc := ⟨.hbm, 279, rfl⟩
abbrev main_v176 : Ref sig .tc := ⟨.hbm, 280, rfl⟩
abbrev main_call3_cst : Ref sig .tc := ⟨.hbm, 281, rfl⟩
abbrev main_call3_v0 : Ref sig .tc := ⟨.hbm, 282, rfl⟩
abbrev main_call3_cst_0 : Ref sig .tc := ⟨.hbm, 283, rfl⟩
abbrev main_call3_v1 : Ref sig .tc := ⟨.hbm, 284, rfl⟩
abbrev main_call3_v2 : Ref sig .tc := ⟨.hbm, 285, rfl⟩
abbrev main_call3_v3 : Ref sig .tc := ⟨.hbm, 286, rfl⟩
abbrev main_call3_v4 : Ref sig .tc := ⟨.hbm, 287, rfl⟩
abbrev main_call3_v5 : Ref sig .tc := ⟨.hbm, 288, rfl⟩
abbrev main_call3_v6 : Ref sig .tc := ⟨.hbm, 289, rfl⟩
abbrev main_call3_cst_1 : Ref sig .tc := ⟨.hbm, 290, rfl⟩
abbrev main_call3_v7 : Ref sig .tc := ⟨.hbm, 291, rfl⟩
abbrev main_call3_v8 : Ref sig .tc := ⟨.hbm, 292, rfl⟩
abbrev main_call3_v9 : Ref sig .tc := ⟨.hbm, 293, rfl⟩
abbrev main_call3_v10 : Ref sig .tc := ⟨.hbm, 294, rfl⟩
abbrev main_v177 : Ref sig .tc := ⟨.hbm, 295, rfl⟩

abbrev nD : Nat := 1
abbrev τ : Topo := Topo.v7x

variable {F : FTy → Type} [FloatOps F]

class Facts₀ : Prop where
  slices_S2x600000_S1x600000_0_0 : S2x600000.Slices ![0, 0] S1x600000
  shapeCasts_S1x600000_S600000 : S1x600000.ShapeCasts S600000
  slices_S2x600000_S1x600000_1_0 : S2x600000.Slices ![1, 0] S1x600000
  bcast_S_S600000 : S_.BroadcastsInDim S600000 (![] : Fin 0 → Fin S600000.rank)
  bcast_S600000_S600000x1_0 : S600000.BroadcastsInDim S600000x1 (![0] : Fin 1 → Fin S600000x1.rank)
  bcast_S_S100000x128 : S_.BroadcastsInDim S100000x128 (![] : Fin 0 → Fin S100000x128.rank)
  slices_S3x128x128_S1x128x128_0_0_0 : S3x128x128.Slices ![0, 0, 0] S1x128x128
  shapeCasts_S1x128x128_S128x128 : S1x128x128.ShapeCasts S128x128
  slices_S3x128_S1x128_0_0 : S3x128.Slices ![0, 0] S1x128
  shapeCasts_S1x128_S128 : S1x128.ShapeCasts S128
  bcast_S128_S1x128_1 : S128.BroadcastsInDim S1x128 (![1] : Fin 1 → Fin S1x128.rank)
  bcast_S1x128_S100000x128_0_1 : S1x128.BroadcastsInDim S100000x128 (![0, 1] : Fin 2 → Fin S100000x128.rank)
  reducesTo_S100000x128_S128_d0 : S100000x128.ReducesTo [0] S128
  h_S_ : 0 < S_.numel
  bcast_S_S128 : S_.BroadcastsInDim S128 (![] : Fin 0 → Fin S128.rank)
  bcast_S_S1x128 : S_.BroadcastsInDim S1x128 (![] : Fin 0 → Fin S1x128.rank)
  slices_S3x128x128_S1x128x128_1_0_0 : S3x128x128.Slices ![1, 0, 0] S1x128x128
  slices_S3x128_S1x128_1_0 : S3x128.Slices ![1, 0] S1x128
  slices_S3x128x128_S1x128x128_2_0_0 : S3x128x128.Slices ![2, 0, 0] S1x128x128
  slices_S3x128_S1x128_2_0 : S3x128.Slices ![2, 0] S1x128
  bcast_S64_S1x64_1 : S64.BroadcastsInDim S1x64 (![1] : Fin 1 → Fin S1x64.rank)
  bcast_S1x64_S100000x64_0_1 : S1x64.BroadcastsInDim S100000x64 (![0, 1] : Fin 2 → Fin S100000x64.rank)
  reducesTo_S100000x64_S100000_d1 : S100000x64.ReducesTo [1] S100000
  bcast_S_S100000 : S_.BroadcastsInDim S100000 (![] : Fin 0 → Fin S100000.rank)
  bcast_S100000_S100000x1_0 : S100000.BroadcastsInDim S100000x1 (![0] : Fin 1 → Fin S100000x1.rank)
  bcast_S100000x1_S100000x64_0_1 : S100000x1.BroadcastsInDim S100000x64 (![0, 1] : Fin 2 → Fin S100000x64.rank)
  gather_S100000x128_S600000x1_S600000x128_1_0_n_n_0_1_1128_wf : GatherDims.WF S100000x128 S600000x1 S600000x128 [1] [0] [] [0] [] 1 ![1, 128]
  scatter_S100000x128_S600000x1_S600000x128_1_0_0_1_wf : ScatterDims.WF S100000x128 S600000x1 S600000x128 [1] [0] [0] 1
  dot_S100000x128_S128x128_S100000x128_1_0_0_1_n_n_wf : DotDims.WF S100000x128 S128x128 S100000x128 [1] [0] [0] [1] [] []
  dot_S100000x128_S128x64_S100000x64_1_0_0_1_n_n_wf : DotDims.WF S100000x128 S128x64 S100000x64 [1] [0] [0] [1] [] []

variable [Facts₀]

def gather_S100000x128_S600000x1_S600000x128_1_0_n_n_0_1_1128 : GatherDims S100000x128 S600000x1 S600000x128 where
  offsetDims := [1]
  collapsedSliceDims := [0]
  operandBatchingDims := []
  startIndicesBatchingDims := []
  startIndexMap := [0]
  indexVectorDim := 1
  sliceSizes := ![1, 128]
  wf := gather_S100000x128_S600000x1_S600000x128_1_0_n_n_0_1_1128_wf
def scatter_S100000x128_S600000x1_S600000x128_1_0_0_1 : ScatterDims S100000x128 S600000x1 S600000x128 where
  updateWindowDims := [1]
  insertedWindowDims := [0]
  scatterDimsToOperandDims := [0]
  indexVectorDim := 1
  wf := scatter_S100000x128_S600000x1_S600000x128_1_0_0_1_wf
def dot_S100000x128_S128x128_S100000x128_1_0_0_1_n_n : DotDims S100000x128 S128x128 S100000x128 where
  lhsContracting := [1]
  rhsContracting := [0]
  lhsNonContracting := [0]
  rhsNonContracting := [1]
  lhsBatch := []
  rhsBatch := []
  wf := dot_S100000x128_S128x128_S100000x128_1_0_0_1_n_n_wf
def dot_S100000x128_S128x64_S100000x64_1_0_0_1_n_n : DotDims S100000x128 S128x64 S100000x64 where
  lhsContracting := [1]
  rhsContracting := [0]
  lhsNonContracting := [0]
  rhsNonContracting := [1]
  lhsBatch := []
  rhsBatch := []
  wf := dot_S100000x128_S128x64_S100000x64_1_0_0_1_n_n_wf

class Facts : Prop extends Facts₀ where

variable [Facts]
-- ==== Proof.KMlp0Runs.lean ====
/-
  Region 0 (the first layer's two-layer perceptron with running column sums): what its three control cases share.
  The body branches twice on the grid position: at the first point it zeroes the two running-sum scratch rows, at the
  last point it copies them into the two [1,128] outputs; in between it only adds the block's column sums of z and of z².
  Here: each window's block as read off the array the region finds, the two conditions decided over the 20 points,
  where the two [1,128] outputs are idle, and the staging and scratch memrefs the body is run on.
-/
import proofs.«160011_j2121713844488_1_alg».proof.Proof.Gen.Kernel.Launch
import proofs.«160011_j2121713844488_1_alg».proof.Proof.Gen.Kernel.Skeleton
import proofs.«160011_j2121713844488_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Region0

variable (V : (c : Dev nD) → (b : Ref sig .tc) → Buf (Elt F) ((c : Thread nD τ).loc b))

/-- Window `w`'s block at point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- Input window 0's staging buffer holds its block at every point, fetched there or not. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

/-- Input window 1's staging buffer holds its block at every point, fetched there or not. -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

/-- Input window 2's staging buffer holds its block at every point, fetched there or not. -/
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)

/-- Input window 3's staging buffer holds its block at every point, fetched there or not. -/
theorem before0_3_of {c : Dev nD} (dat : Dat τ (Elt F) Unit ℕ (UR sig nD τ) ℕ cfg0 c) (hA : dat.A 3 = V c (Pipeline.arrRef spec0 3))
    (hafter : ∀ t, dat.after 3 t = iblk0 V c 3 t) (t : Fin cfg0.N) (d) : dat.before 3 t d = iblk0 V c 3 t :=
  (dat.before_in_eq_fetched 3 rfl (fun _ => rfl) (fun _ _ _ => rfl) (fun t => by rw [hafter]; unfold Dat.blockOf iblk0; rw [hA]; try rfl) t d).trans
    (by unfold Dat.fetched Dat.blockOf iblk0; rw [hA]; try rfl)

/-- Input window 4's staging buffer holds its block at every point, fetched there or not. -/
theorem before0_4_of {c : Dev nD} (dat : Dat τ (Elt F) Unit ℕ (UR sig nD τ) ℕ cfg0 c) (hA : dat.A 4 = V c (Pipeline.arrRef spec0 4))
    (hafter : ∀ t, dat.after 4 t = iblk0 V c 4 t) (t : Fin cfg0.N) (d) : dat.before 4 t d = iblk0 V c 4 t :=
  (dat.before_in_eq_fetched 4 rfl (fun _ => rfl) (fun _ _ _ => rfl) (fun t => by rw [hafter]; unfold Dat.blockOf iblk0; rw [hA]; try rfl) t d).trans
    (by unfold Dat.fetched Dat.blockOf iblk0; rw [hA]; try rfl)

end Region0

/-! ## The two branch conditions, decided over the grid -/

/-- "This is the first point": the condition under which the running sums are zeroed. -/
abbrev cond0_0 (i : grid0.Coords) : Prop := (Scalar.cmpi .ne (Scalar.extui (Scalar.cmpi .eq (BitVec.ofNat 32 (i 0).val) 0#32)) 0#32) = 1#1
theorem hcond0_0 : ∀ t : Fin cfg0.N, cond0_0 (grid0.coords t) ↔ t.val % 20 = 0 :=
  (by decide +kernel : ∀ t : Fin grid0.N, cond0_0 (grid0.coords t) ↔ t.val % 20 = 0)

/-- "This is the last point": the condition under which the running sums are copied out. -/
abbrev cond0_1 (i : grid0.Coords) : Prop := k0_cond2 i = 1#1
theorem hcond0_1 : ∀ t : Fin cfg0.N, cond0_1 (grid0.coords t) ↔ t.val % 20 = 19 :=
  (by decide +kernel : ∀ t : Fin grid0.N, cond0_1 (grid0.coords t) ↔ t.val % 20 = 19)

/-! ## Where the windows are idle -/

theorem liveAt0_0 : ∀ t : Fin cfg0.N, cfg0.idle 0 (grid0.coords t) = false := by decide +kernel
theorem liveAt0_1 : ∀ t : Fin cfg0.N, cfg0.idle 1 (grid0.coords t) = false := by decide +kernel
theorem liveAt0_2 : ∀ t : Fin cfg0.N, cfg0.idle 2 (grid0.coords t) = false := by decide +kernel
theorem liveAt0_3 : ∀ t : Fin cfg0.N, cfg0.idle 3 (grid0.coords t) = false := by decide +kernel
theorem liveAt0_4 : ∀ t : Fin cfg0.N, cfg0.idle 4 (grid0.coords t) = false := by decide +kernel
theorem liveAt0_5 : ∀ t : Fin cfg0.N, cfg0.idle 5 (grid0.coords t) = false := by decide +kernel
/-- Output 6 is stored only at the last point: idle, and not written back, at every other point. -/
theorem idleAt0_6 : ∀ t : Fin cfg0.N, ¬cond0_1 (grid0.coords t) → cfg0.idle 6 (grid0.coords t) = true := by decide +kernel
theorem noFlush0_6 : ∀ t : Fin cfg0.N, ¬cond0_1 (grid0.coords t) → (cfg0.win 6).flush t = false := by decide +kernel
theorem liveAt0_6_C : ∀ t : Fin cfg0.N, cond0_1 (grid0.coords t) → cfg0.idle 6 (grid0.coords t) = false := by decide +kernel
/-- Output 7 is stored only at the last point: idle, and not written back, at every other point. -/
theorem idleAt0_7 : ∀ t : Fin cfg0.N, ¬cond0_1 (grid0.coords t) → cfg0.idle 7 (grid0.coords t) = true := by decide +kernel
theorem noFlush0_7 : ∀ t : Fin cfg0.N, ¬cond0_1 (grid0.coords t) → (cfg0.win 7).flush t = false := by decide +kernel
theorem liveAt0_7_C : ∀ t : Fin cfg0.N, cond0_1 (grid0.coords t) → cfg0.idle 7 (grid0.coords t) = false := by decide +kernel

/-! ## The memrefs the body is run on -/

abbrev VO0_5 : View sig .tc .vmem S5000x128 .f32 := (Memref.whole cc0_stg5_0 : Memref sig .tc .vmem S5000x128 .f32).view
abbrev VO0_6 : View sig .tc .vmem S1x128 .f32 := (Memref.whole cc0_stg6_0 : Memref sig .tc .vmem S1x128 .f32).view
abbrev VO0_7 : View sig .tc .vmem S1x128 .f32 := (Memref.whole cc0_stg7_0 : Memref sig .tc .vmem S1x128 .f32).view
abbrev ms0_0 (t : Fin cfg0.N) : Memref sig .tc .vmem S5000x128 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S128x128 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S1x128 .f32 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S128x128 .f32 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S1x128 .f32 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S5000x128 .f32 := win0_5.stage (cfg0.slots t 5)
abbrev hs0_5 (t : Fin cfg0.N) : (ms0_5 t).IsWhole := hstage0_5 ((cfg0.slots t 5).cast nbuf0_5)
abbrev ms0_6 (t : Fin cfg0.N) : Memref sig .tc .vmem S1x128 .f32 := win0_6.stage (cfg0.slots t 6)
abbrev hs0_6 (t : Fin cfg0.N) : (ms0_6 t).IsWhole := hstage0_6 ((cfg0.slots t 6).cast nbuf0_6)
abbrev ms0_7 (t : Fin cfg0.N) : Memref sig .tc .vmem S1x128 .f32 := win0_7.stage (cfg0.slots t 7)
abbrev hs0_7 (t : Fin cfg0.N) : (ms0_7 t).IsWhole := hstage0_7 ((cfg0.slots t 7).cast nbuf0_7)
/-- The two running-sum rows: whole scoped buffers of the kernel's own. -/
abbrev scM0_0 : Memref sig .tc .vmem S1x128 .f32 := Memref.whole cc0_scratch0
abbrev scM0_1 : Memref sig .tc .vmem S1x128 .f32 := Memref.whole cc0_scratch1
abbrev VS0_0 : View sig .tc .vmem S1x128 .f32 := scM0_0.view
abbrev VS0_1 : View sig .tc .vmem S1x128 .f32 := scM0_1.view

/-- The class invariant with the two running-sum rows split out as memrefs owned at some contents; every other scoped
    buffer stays unopened. -/
theorem PhiA0_eq (c : Dev nD) :
    (Pipeline.ΦA spec0 c : sProp 𝕄)
      = iprop(iprop(iprop((∃ d, owns (c : Thread nD τ) scM0_0 fullShare d) ∗ (∃ d, owns (c : Thread nD τ) scM0_1 fullShare d))
          ∗ Pipeline.scopedRestBut (Ix := Unit) (Name := ℕ) (U := UR sig nD τ) (Lvl := ℕ) (Val := Elt F) spec0 c [cc0_scratch0, cc0_scratch1]) ∗ (∃ r, prngReg c r)) := by
  unfold Pipeline.ΦA; rw [scopedRest0_split]; simp only [scM0_0, scM0_1, owns_whole]; try rfl

end Cert.Kernel.Hand

end
-- ==== Proof.KMlp0RunA.lean ====
/-
  Region 0, control case A: the kernel body run once, symbolically, on whole staging memrefs.
-/
import proofs.«160011_j2121713844488_1_alg».proof.Proof.KMlp0Runs

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- The body at the first point (the running sums are zeroed first, nothing is copied out): on whole staging memrefs — the five inputs at their blocks, the z output at anything,
    the two [1,128] outputs idle at whatever they hold, the two running-sum rows at anything — it runs to its
    continuation with the inputs as they were and each buffer it stored into with its pieces written; the pieces are the
    witness the run finds. -/
noncomputable def kernelRun0_A (c : Dev nD) (i : grid0.Coords) (arg1 : Memref sig .tc .vmem S5000x128 .f32) (harg1 : arg1.IsWhole) (arg2 : Memref sig .tc .vmem S128x128 .f32) (harg2 : arg2.IsWhole) (arg3 : Memref sig .tc .vmem S1x128 .f32) (harg3 : arg3.IsWhole) (arg4 : Memref sig .tc .vmem S128x128 .f32) (harg4 : arg4.IsWhole) (arg5 : Memref sig .tc .vmem S1x128 .f32) (harg5 : arg5.IsWhole) (arg6 : Memref sig .tc .vmem S5000x128 .f32) (harg6 : arg6.IsWhole) (arg7 : Memref sig .tc .vmem S1x128 .f32) (harg7 : arg7.IsWhole) (arg8 : Memref sig .tc .vmem S1x128 .f32) (harg8 : arg8.IsWhole) (arg9 : Memref sig .tc .vmem S1x128 .f32) (harg9 : arg9.IsWhole) (arg10 : Memref sig .tc .vmem S1x128 .f32) (harg10 : arg10.IsWhole) (hc0 : cond0_0 i) (hc1 : ¬cond0_1 i)
    (x0 : Vec F S5000x128 .f32) (x1 : Vec F S128x128 .f32) (x2 : Vec F S1x128 .f32) (x3 : Vec F S128x128 .f32) (x4 : Vec F S1x128 .f32) :
    Σ' (L5 : List (View.Piece (Elt F) S5000x128 .f32)) (L6 : List (View.Piece (Elt F) S1x128 .f32)) (L7 : List (View.Piece (Elt F) S1x128 .f32)) (LS0 : List (View.Piece (Elt F) S1x128 .f32)), { LS1 : List (View.Piece (Elt F) S1x128 .f32) //
      ∀ (xi6 : Vec F S1x128 .f32) (xi7 : Vec F S1x128 .f32) (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ (∃ d, owns (c : Thread nD τ) arg6 fullShare d) ∗ owns (c : Thread nD τ) arg7 fullShare xi6 ∗ owns (c : Thread nD τ) arg8 fullShare xi7 ∗ (∃ d, owns (c : Thread nD τ) arg9 fullShare d) ∗ (∃ d, owns (c : Thread nD τ) arg10 fullShare d)
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ (∃ f, arg6.view.loc (c : Thread nD τ) ↦[arg6.view.set]{fullShare} arg6.view.writes (Elt F) f L5) ∗ owns (c : Thread nD τ) arg7 fullShare xi6 ∗ owns (c : Thread nD τ) arg8 fullShare xi7 ∗ (∃ f, arg9.view.loc (c : Thread nD τ) ↦[arg9.view.set]{fullShare} arg9.view.writes (Elt F) f LS0) ∗ (∃ f, arg10.view.loc (c : Thread nD τ) ↦[arg10.view.set]{fullShare} arg10.view.writes (Elt F) f LS1)) -∗ K ⟨⟩))
          ⊢ wp frame (wpE (defs₀ (F := F)) Variants.none c none) E (cc0__mlp_stats_kernel i arg1 harg1 arg2 harg2 arg3 harg3 arg4 harg4 arg5 harg5 arg6 harg6 arg7 harg7 arg8 harg8 arg9 harg9 arg10 harg10) K } := by
  refine ⟨?_, [], [], ?_, ?_, fun xi6 xi7 E K => ?run⟩
  case run =>
    simp only [cc0__mlp_stats_kernel_eq_skeleton]; unfold cc0__mlp_stats_kernel_skel
    simp only [k0_part1_eq_skeleton]; unfold k0_part1_skel
    unfold owns
    iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%f6, %hf6, H6⟩, ⟨%f7, %hf7, H7⟩, ⟨%ds0, %fs0, -, HS0⟩, ⟨%ds1, %fs1, -, HS1⟩, Hk⟩
    obtain rfl := harg1.eq_unread hf0; obtain rfl := harg2.eq_unread hf1; obtain rfl := harg3.eq_unread hf2; obtain rfl := harg4.eq_unread hf3; obtain rfl := harg5.eq_unread hf4; obtain rfl := harg7.eq_unread hf6; obtain rfl := harg8.eq_unread hf7
    sl_exec (disch := first | exact hc0 | exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]; · iexists _; iexact H5
    isplitl [H6]
    · iexists _; isplitr; · ipureintro; exact harg7.read_unread _
      iexact H6
    isplitl [H7]
    · iexists _; isplitr; · ipureintro; exact harg8.read_unread _
      iexact H7
    isplitl [HS0]; · iexists _; iexact HS0
    iexists _; iexact HS1

end Cert.Kernel.Hand

end
-- ==== Proof.KMlp0RunB.lean ====
/-
  Region 0, control case B: the kernel body run once, symbolically, on whole staging memrefs.
-/
import proofs.«160011_j2121713844488_1_alg».proof.Proof.KMlp0Runs

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- The body at a middle point (the running sums are only added to): on whole staging memrefs — the five inputs at their blocks, the z output at anything,
    the two [1,128] outputs idle at whatever they hold, the two running-sum rows at what the point before left — it runs to its
    continuation with the inputs as they were and each buffer it stored into with its pieces written; the pieces are the
    witness the run finds. -/
noncomputable def kernelRun0_B (c : Dev nD) (i : grid0.Coords) (arg1 : Memref sig .tc .vmem S5000x128 .f32) (harg1 : arg1.IsWhole) (arg2 : Memref sig .tc .vmem S128x128 .f32) (harg2 : arg2.IsWhole) (arg3 : Memref sig .tc .vmem S1x128 .f32) (harg3 : arg3.IsWhole) (arg4 : Memref sig .tc .vmem S128x128 .f32) (harg4 : arg4.IsWhole) (arg5 : Memref sig .tc .vmem S1x128 .f32) (harg5 : arg5.IsWhole) (arg6 : Memref sig .tc .vmem S5000x128 .f32) (harg6 : arg6.IsWhole) (arg7 : Memref sig .tc .vmem S1x128 .f32) (harg7 : arg7.IsWhole) (arg8 : Memref sig .tc .vmem S1x128 .f32) (harg8 : arg8.IsWhole) (arg9 : Memref sig .tc .vmem S1x128 .f32) (harg9 : arg9.IsWhole) (arg10 : Memref sig .tc .vmem S1x128 .f32) (harg10 : arg10.IsWhole) (hc0 : ¬cond0_0 i) (hc1 : ¬cond0_1 i)
    (x0 : Vec F S5000x128 .f32) (x1 : Vec F S128x128 .f32) (x2 : Vec F S1x128 .f32) (x3 : Vec F S128x128 .f32) (x4 : Vec F S1x128 .f32) (xs0 : Vec F S1x128 .f32) (xs1 : Vec F S1x128 .f32) :
    Σ' (L5 : List (View.Piece (Elt F) S5000x128 .f32)) (L6 : List (View.Piece (Elt F) S1x128 .f32)) (L7 : List (View.Piece (Elt F) S1x128 .f32)) (LS0 : List (View.Piece (Elt F) S1x128 .f32)), { LS1 : List (View.Piece (Elt F) S1x128 .f32) //
      ∀ (xi6 : Vec F S1x128 .f32) (xi7 : Vec F S1x128 .f32) (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ (∃ d, owns (c : Thread nD τ) arg6 fullShare d) ∗ owns (c : Thread nD τ) arg7 fullShare xi6 ∗ owns (c : Thread nD τ) arg8 fullShare xi7 ∗ owns (c : Thread nD τ) arg9 fullShare xs0 ∗ owns (c : Thread nD τ) arg10 fullShare xs1
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ (∃ f, arg6.view.loc (c : Thread nD τ) ↦[arg6.view.set]{fullShare} arg6.view.writes (Elt F) f L5) ∗ owns (c : Thread nD τ) arg7 fullShare xi6 ∗ owns (c : Thread nD τ) arg8 fullShare xi7 ∗ (∃ f, arg9.view.loc (c : Thread nD τ) ↦[arg9.view.set]{fullShare} arg9.view.writes (Elt F) f LS0) ∗ (∃ f, arg10.view.loc (c : Thread nD τ) ↦[arg10.view.set]{fullShare} arg10.view.writes (Elt F) f LS1)) -∗ K ⟨⟩))
          ⊢ wp frame (wpE (defs₀ (F := F)) Variants.none c none) E (cc0__mlp_stats_kernel i arg1 harg1 arg2 harg2 arg3 harg3 arg4 harg4 arg5 harg5 arg6 harg6 arg7 harg7 arg8 harg8 arg9 harg9 arg10 harg10) K } := by
  refine ⟨?_, [], [], ?_, ?_, fun xi6 xi7 E K => ?run⟩
  case run =>
    simp only [cc0__mlp_stats_kernel_eq_skeleton]; unfold cc0__mlp_stats_kernel_skel
    simp only [k0_part1_eq_skeleton]; unfold k0_part1_skel
    unfold owns
    iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%f6, %hf6, H6⟩, ⟨%f7, %hf7, H7⟩, ⟨%fs0, %hfs0, HS0⟩, ⟨%fs1, %hfs1, HS1⟩, Hk⟩
    obtain rfl := harg1.eq_unread hf0; obtain rfl := harg2.eq_unread hf1; obtain rfl := harg3.eq_unread hf2; obtain rfl := harg4.eq_unread hf3; obtain rfl := harg5.eq_unread hf4; obtain rfl := harg7.eq_unread hf6; obtain rfl := harg8.eq_unread hf7; obtain rfl := harg9.eq_unread hfs0; obtain rfl := harg10.eq_unread hfs1
    sl_exec (disch := first | exact hc0 | exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]; · iexists _; iexact H5
    isplitl [H6]
    · iexists _; isplitr; · ipureintro; exact harg7.read_unread _
      iexact H6
    isplitl [H7]
    · iexists _; isplitr; · ipureintro; exact harg8.read_unread _
      iexact H7
    isplitl [HS0]; · iexists _; iexact HS0
    iexists _; iexact HS1

end Cert.Kernel.Hand

end
-- ==== Proof.KMlp0RunC.lean ====
/-
  Region 0, control case C: the kernel body run once, symbolically, on whole staging memrefs.
-/
import proofs.«160011_j2121713844488_1_alg».proof.Proof.KMlp0Runs

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- The body at the last point (the running sums are copied into the two [1,128] outputs): on whole staging memrefs — the five inputs at their blocks, the z output at anything,
    the two [1,128] outputs at anything, the two running-sum rows at what the point before left — it runs to its
    continuation with the inputs as they were and each buffer it stored into with its pieces written; the pieces are the
    witness the run finds. -/
noncomputable def kernelRun0_C (c : Dev nD) (i : grid0.Coords) (arg1 : Memref sig .tc .vmem S5000x128 .f32) (harg1 : arg1.IsWhole) (arg2 : Memref sig .tc .vmem S128x128 .f32) (harg2 : arg2.IsWhole) (arg3 : Memref sig .tc .vmem S1x128 .f32) (harg3 : arg3.IsWhole) (arg4 : Memref sig .tc .vmem S128x128 .f32) (harg4 : arg4.IsWhole) (arg5 : Memref sig .tc .vmem S1x128 .f32) (harg5 : arg5.IsWhole) (arg6 : Memref sig .tc .vmem S5000x128 .f32) (harg6 : arg6.IsWhole) (arg7 : Memref sig .tc .vmem S1x128 .f32) (harg7 : arg7.IsWhole) (arg8 : Memref sig .tc .vmem S1x128 .f32) (harg8 : arg8.IsWhole) (arg9 : Memref sig .tc .vmem S1x128 .f32) (harg9 : arg9.IsWhole) (arg10 : Memref sig .tc .vmem S1x128 .f32) (harg10 : arg10.IsWhole) (hc0 : ¬cond0_0 i) (hc1 : cond0_1 i)
    (x0 : Vec F S5000x128 .f32) (x1 : Vec F S128x128 .f32) (x2 : Vec F S1x128 .f32) (x3 : Vec F S128x128 .f32) (x4 : Vec F S1x128 .f32) (xs0 : Vec F S1x128 .f32) (xs1 : Vec F S1x128 .f32) :
    Σ' (L5 : List (View.Piece (Elt F) S5000x128 .f32)) (L6 : List (View.Piece (Elt F) S1x128 .f32)) (L7 : List (View.Piece (Elt F) S1x128 .f32)) (LS0 : List (View.Piece (Elt F) S1x128 .f32)), { LS1 : List (View.Piece (Elt F) S1x128 .f32) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ (∃ d, owns (c : Thread nD τ) arg6 fullShare d) ∗ (∃ d, owns (c : Thread nD τ) arg7 fullShare d) ∗ (∃ d, owns (c : Thread nD τ) arg8 fullShare d) ∗ owns (c : Thread nD τ) arg9 fullShare xs0 ∗ owns (c : Thread nD τ) arg10 fullShare xs1
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ (∃ f, arg6.view.loc (c : Thread nD τ) ↦[arg6.view.set]{fullShare} arg6.view.writes (Elt F) f L5) ∗ (∃ f, arg7.view.loc (c : Thread nD τ) ↦[arg7.view.set]{fullShare} arg7.view.writes (Elt F) f L6) ∗ (∃ f, arg8.view.loc (c : Thread nD τ) ↦[arg8.view.set]{fullShare} arg8.view.writes (Elt F) f L7) ∗ (∃ f, arg9.view.loc (c : Thread nD τ) ↦[arg9.view.set]{fullShare} arg9.view.writes (Elt F) f LS0) ∗ (∃ f, arg10.view.loc (c : Thread nD τ) ↦[arg10.view.set]{fullShare} arg10.view.writes (Elt F) f LS1)) -∗ K ⟨⟩))
          ⊢ wp frame (wpE (defs₀ (F := F)) Variants.none c none) E (cc0__mlp_stats_kernel i arg1 harg1 arg2 harg2 arg3 harg3 arg4 harg4 arg5 harg5 arg6 harg6 arg7 harg7 arg8 harg8 arg9 harg9 arg10 harg10) K } := by
  refine ⟨?_, ?_, ?_, ?_, ?_, fun E K => ?run⟩
  case run =>
    simp only [cc0__mlp_stats_kernel_eq_skeleton]; unfold cc0__mlp_stats_kernel_skel
    simp only [k0_part1_eq_skeleton]; unfold k0_part1_skel
    unfold owns
    iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%d6, %f6, -, H6⟩, ⟨%d7, %f7, -, H7⟩, ⟨%fs0, %hfs0, HS0⟩, ⟨%fs1, %hfs1, HS1⟩, Hk⟩
    obtain rfl := harg1.eq_unread hf0; obtain rfl := harg2.eq_unread hf1; obtain rfl := harg3.eq_unread hf2; obtain rfl := harg4.eq_unread hf3; obtain rfl := harg5.eq_unread hf4; obtain rfl := harg9.eq_unread hfs0; obtain rfl := harg10.eq_unread hfs1
    sl_exec (disch := first | exact hc0 | exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]; · iexists _; iexact H5
    isplitl [H6]; · iexists _; iexact H6
    isplitl [H7]; · iexists _; iexact H7
    isplitl [HS0]; · iexists _; iexact HS0
    iexists _; iexact HS1

end Cert.Kernel.Hand

end
-- ==== Proof.KMlp0.lean ====
/-
  Region 0 (a layer's two-layer perceptron with running column sums over the 20 row blocks): what each control case leaves in
  the outputs and in the two running-sum rows, the accumulation point by point, the proof data and the body obligation.
  The z output's block at a point is the body's payload of that point's input blocks; the two running-sum rows after point t are
  zero plus the column sums of z and z² over blocks 0..t; the two [1,128] outputs receive the rows at the last point.
-/
import proofs.«160011_j2121713844488_1_alg».proof.Proof.KMlp0RunA
import proofs.«160011_j2121713844488_1_alg».proof.Proof.KMlp0RunB
import proofs.«160011_j2121713844488_1_alg».proof.Proof.KMlp0RunC

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Region0

variable (V : (c : Dev nD) → (b : Ref sig .tc) → Buf (Elt F) ((c : Thread nD τ).loc b))

/-- Case A's pieces for output window 5 cover it (one whole-rectangle store). -/
theorem cover0_A_5 (c : Dev nD) (i : grid0.Coords) (arg1 : Memref sig .tc .vmem S5000x128 .f32) (harg1 : arg1.IsWhole) (arg2 : Memref sig .tc .vmem S128x128 .f32) (harg2 : arg2.IsWhole) (arg3 : Memref sig .tc .vmem S1x128 .f32) (harg3 : arg3.IsWhole) (arg4 : Memref sig .tc .vmem S128x128 .f32) (harg4 : arg4.IsWhole) (arg5 : Memref sig .tc .vmem S1x128 .f32) (harg5 : arg5.IsWhole) (arg6 : Memref sig .tc .vmem S5000x128 .f32) (harg6 : arg6.IsWhole) (arg7 : Memref sig .tc .vmem S1x128 .f32) (harg7 : arg7.IsWhole) (arg8 : Memref sig .tc .vmem S1x128 .f32) (harg8 : arg8.IsWhole) (arg9 : Memref sig .tc .vmem S1x128 .f32) (harg9 : arg9.IsWhole) (arg10 : Memref sig .tc .vmem S1x128 .f32) (harg10 : arg10.IsWhole) (hc0 : cond0_0 i) (hc1 : ¬cond0_1 i)
    (x0 : Vec F S5000x128 .f32) (x1 : Vec F S128x128 .f32) (x2 : Vec F S1x128 .f32) (x3 : Vec F S128x128 .f32) (x4 : Vec F S1x128 .f32) (y : S5000x128.Idx) :
    ∃ pc ∈ (kernelRun0_A c i arg1 harg1 arg2 harg2 arg3 harg3 arg4 harg4 arg5 harg5 arg6 harg6 arg7 harg7 arg8 harg8 arg9 harg9 arg10 harg10 hc0 hc1 x0 x1 x2 x3 x4).1, y ∈ pc.1.set :=
  View.cover_of_tiledL (kernelRun0_A c i arg1 harg1 arg2 harg2 arg3 harg3 arg4 harg4 arg5 harg5 arg6 harg6 arg7 harg7 arg8 harg8 arg9 harg9 arg10 harg10 hc0 hc1 x0 x1 x2 x3 x4).1 S5000x128.size (by sl_kernel_rfl) y

/-- What case A leaves there: its pieces read back. -/
def out0_A_5 (c : Dev nD) (i : grid0.Coords) (arg1 : Memref sig .tc .vmem S5000x128 .f32) (harg1 : arg1.IsWhole) (arg2 : Memref sig .tc .vmem S128x128 .f32) (harg2 : arg2.IsWhole) (arg3 : Memref sig .tc .vmem S1x128 .f32) (harg3 : arg3.IsWhole) (arg4 : Memref sig .tc .vmem S128x128 .f32) (harg4 : arg4.IsWhole) (arg5 : Memref sig .tc .vmem S1x128 .f32) (harg5 : arg5.IsWhole) (arg6 : Memref sig .tc .vmem S5000x128 .f32) (harg6 : arg6.IsWhole) (arg7 : Memref sig .tc .vmem S1x128 .f32) (harg7 : arg7.IsWhole) (arg8 : Memref sig .tc .vmem S1x128 .f32) (harg8 : arg8.IsWhole) (arg9 : Memref sig .tc .vmem S1x128 .f32) (harg9 : arg9.IsWhole) (arg10 : Memref sig .tc .vmem S1x128 .f32) (harg10 : arg10.IsWhole) (hc0 : cond0_0 i) (hc1 : ¬cond0_1 i)
    (x0 : Vec F S5000x128 .f32) (x1 : Vec F S128x128 .f32) (x2 : Vec F S1x128 .f32) (x3 : Vec F S128x128 .f32) (x4 : Vec F S1x128 .f32) : Vec F S5000x128 .f32 :=
  VO0_5.read (Elt F) (VO0_5.writes (Elt F) VO0_5.junk (kernelRun0_A c i arg1 harg1 arg2 harg2 arg3 harg3 arg4 harg4 arg5 harg5 arg6 harg6 arg7 harg7 arg8 harg8 arg9 harg9 arg10 harg10 hc0 hc1 x0 x1 x2 x3 x4).1)

/-- Case A's pieces for running-sum row 0 cover it (one whole-rectangle store). -/
theorem scover0_A_0 (c : Dev nD) (i : grid0.Coords) (arg1 : Memref sig .tc .vmem S5000x128 .f32) (harg1 : arg1.IsWhole) (arg2 : Memref sig .tc .vmem S128x128 .f32) (harg2 : arg2.IsWhole) (arg3 : Memref sig .tc .vmem S1x128 .f32) (harg3 : arg3.IsWhole) (arg4 : Memref sig .tc .vmem S128x128 .f32) (harg4 : arg4.IsWhole) (arg5 : Memref sig .tc .vmem S1x128 .f32) (harg5 : arg5.IsWhole) (arg6 : Memref sig .tc .vmem S5000x128 .f32) (harg6 : arg6.IsWhole) (arg7 : Memref sig .tc .vmem S1x128 .f32) (harg7 : arg7.IsWhole) (arg8 : Memref sig .tc .vmem S1x128 .f32) (harg8 : arg8.IsWhole) (arg9 : Memref sig .tc .vmem S1x128 .f32) (harg9 : arg9.IsWhole) (arg10 : Memref sig .tc .vmem S1x128 .f32) (harg10 : arg10.IsWhole) (hc0 : cond0_0 i) (hc1 : ¬cond0_1 i)
    (x0 : Vec F S5000x128 .f32) (x1 : Vec F S128x128 .f32) (x2 : Vec F S1x128 .f32) (x3 : Vec F S128x128 .f32) (x4 : Vec F S1x128 .f32) (y : S1x128.Idx) :
    ∃ pc ∈ (kernelRun0_A c i arg1 harg1 arg2 harg2 arg3 harg3 arg4 harg4 arg5 harg5 arg6 harg6 arg7 harg7 arg8 harg8 arg9 harg9 arg10 harg10 hc0 hc1 x0 x1 x2 x3 x4).2.2.2.1, y ∈ pc.1.set :=
  View.cover_of_tiledL (kernelRun0_A c i arg1 harg1 arg2 harg2 arg3 harg3 arg4 harg4 arg5 harg5 arg6 harg6 arg7 harg7 arg8 harg8 arg9 harg9 arg10 harg10 hc0 hc1 x0 x1 x2 x3 x4).2.2.2.1 S1x128.size (by sl_kernel_rfl) y

/-- What case A leaves there: its pieces read back. -/
def sout0_A_0 (c : Dev nD) (i : grid0.Coords) (arg1 : Memref sig .tc .vmem S5000x128 .f32) (harg1 : arg1.IsWhole) (arg2 : Memref sig .tc .vmem S128x128 .f32) (harg2 : arg2.IsWhole) (arg3 : Memref sig .tc .vmem S1x128 .f32) (harg3 : arg3.IsWhole) (arg4 : Memref sig .tc .vmem S128x128 .f32) (harg4 : arg4.IsWhole) (arg5 : Memref sig .tc .vmem S1x128 .f32) (harg5 : arg5.IsWhole) (arg6 : Memref sig .tc .vmem S5000x128 .f32) (harg6 : arg6.IsWhole) (arg7 : Memref sig .tc .vmem S1x128 .f32) (harg7 : arg7.IsWhole) (arg8 : Memref sig .tc .vmem S1x128 .f32) (harg8 : arg8.IsWhole) (arg9 : Memref sig .tc .vmem S1x128 .f32) (harg9 : arg9.IsWhole) (arg10 : Memref sig .tc .vmem S1x128 .f32) (harg10 : arg10.IsWhole) (hc0 : cond0_0 i) (hc1 : ¬cond0_1 i)
    (x0 : Vec F S5000x128 .f32) (x1 : Vec F S128x128 .f32) (x2 : Vec F S1x128 .f32) (x3 : Vec F S128x128 .f32) (x4 : Vec F S1x128 .f32) : Vec F S1x128 .f32 :=
  VS0_0.read (Elt F) (VS0_0.writes (Elt F) VS0_0.junk (kernelRun0_A c i arg1 harg1 arg2 harg2 arg3 harg3 arg4 harg4 arg5 harg5 arg6 harg6 arg7 harg7 arg8 harg8 arg9 harg9 arg10 harg10 hc0 hc1 x0 x1 x2 x3 x4).2.2.2.1)

/-- Case A's pieces for running-sum row 1 cover it (one whole-rectangle store). -/
theorem scover0_A_1 (c : Dev nD) (i : grid0.Coords) (arg1 : Memref sig .tc .vmem S5000x128 .f32) (harg1 : arg1.IsWhole) (arg2 : Memref sig .tc .vmem S128x128 .f32) (harg2 : arg2.IsWhole) (arg3 : Memref sig .tc .vmem S1x128 .f32) (harg3 : arg3.IsWhole) (arg4 : Memref sig .tc .vmem S128x128 .f32) (harg4 : arg4.IsWhole) (arg5 : Memref sig .tc .vmem S1x128 .f32) (harg5 : arg5.IsWhole) (arg6 : Memref sig .tc .vmem S5000x128 .f32) (harg6 : arg6.IsWhole) (arg7 : Memref sig .tc .vmem S1x128 .f32) (harg7 : arg7.IsWhole) (arg8 : Memref sig .tc .vmem S1x128 .f32) (harg8 : arg8.IsWhole) (arg9 : Memref sig .tc .vmem S1x128 .f32) (harg9 : arg9.IsWhole) (arg10 : Memref sig .tc .vmem S1x128 .f32) (harg10 : arg10.IsWhole) (hc0 : cond0_0 i) (hc1 : ¬cond0_1 i)
    (x0 : Vec F S5000x128 .f32) (x1 : Vec F S128x128 .f32) (x2 : Vec F S1x128 .f32) (x3 : Vec F S128x128 .f32) (x4 : Vec F S1x128 .f32) (y : S1x128.Idx) :
    ∃ pc ∈ (kernelRun0_A c i arg1 harg1 arg2 harg2 arg3 harg3 arg4 harg4 arg5 harg5 arg6 harg6 arg7 harg7 arg8 harg8 arg9 harg9 arg10 harg10 hc0 hc1 x0 x1 x2 x3 x4).2.2.2.2.1, y ∈ pc.1.set :=
  View.cover_of_tiledL (kernelRun0_A c i arg1 harg1 arg2 harg2 arg3 harg3 arg4 harg4 arg5 harg5 arg6 harg6 arg7 harg7 arg8 harg8 arg9 harg9 arg10 harg10 hc0 hc1 x0 x1 x2 x3 x4).2.2.2.2.1 S1x128.size (by sl_kernel_rfl) y

/-- What case A leaves there: its pieces read back. -/
def sout0_A_1 (c : Dev nD) (i : grid0.Coords) (arg1 : Memref sig .tc .vmem S5000x128 .f32) (harg1 : arg1.IsWhole) (arg2 : Memref sig .tc .vmem S128x128 .f32) (harg2 : arg2.IsWhole) (arg3 : Memref sig .tc .vmem S1x128 .f32) (harg3 : arg3.IsWhole) (arg4 : Memref sig .tc .vmem S128x128 .f32) (harg4 : arg4.IsWhole) (arg5 : Memref sig .tc .vmem S1x128 .f32) (harg5 : arg5.IsWhole) (arg6 : Memref sig .tc .vmem S5000x128 .f32) (harg6 : arg6.IsWhole) (arg7 : Memref sig .tc .vmem S1x128 .f32) (harg7 : arg7.IsWhole) (arg8 : Memref sig .tc .vmem S1x128 .f32) (harg8 : arg8.IsWhole) (arg9 : Memref sig .tc .vmem S1x128 .f32) (harg9 : arg9.IsWhole) (arg10 : Memref sig .tc .vmem S1x128 .f32) (harg10 : arg10.IsWhole) (hc0 : cond0_0 i) (hc1 : ¬cond0_1 i)
    (x0 : Vec F S5000x128 .f32) (x1 : Vec F S128x128 .f32) (x2 : Vec F S1x128 .f32) (x3 : Vec F S128x128 .f32) (x4 : Vec F S1x128 .f32) : Vec F S1x128 .f32 :=
  VS0_1.read (Elt F) (VS0_1.writes (Elt F) VS0_1.junk (kernelRun0_A c i arg1 harg1 arg2 harg2 arg3 harg3 arg4 harg4 arg5 harg5 arg6 harg6 arg7 harg7 arg8 harg8 arg9 harg9 arg10 harg10 hc0 hc1 x0 x1 x2 x3 x4).2.2.2.2.1)

/-- Case B's pieces for output window 5 cover it (one whole-rectangle store). -/
theorem cover0_B_5 (c : Dev nD) (i : grid0.Coords) (arg1 : Memref sig .tc .vmem S5000x128 .f32) (harg1 : arg1.IsWhole) (arg2 : Memref sig .tc .vmem S128x128 .f32) (harg2 : arg2.IsWhole) (arg3 : Memref sig .tc .vmem S1x128 .f32) (harg3 : arg3.IsWhole) (arg4 : Memref sig .tc .vmem S128x128 .f32) (harg4 : arg4.IsWhole) (arg5 : Memref sig .tc .vmem S1x128 .f32) (harg5 : arg5.IsWhole) (arg6 : Memref sig .tc .vmem S5000x128 .f32) (harg6 : arg6.IsWhole) (arg7 : Memref sig .tc .vmem S1x128 .f32) (harg7 : arg7.IsWhole) (arg8 : Memref sig .tc .vmem S1x128 .f32) (harg8 : arg8.IsWhole) (arg9 : Memref sig .tc .vmem S1x128 .f32) (harg9 : arg9.IsWhole) (arg10 : Memref sig .tc .vmem S1x128 .f32) (harg10 : arg10.IsWhole) (hc0 : ¬cond0_0 i) (hc1 : ¬cond0_1 i)
    (x0 : Vec F S5000x128 .f32) (x1 : Vec F S128x128 .f32) (x2 : Vec F S1x128 .f32) (x3 : Vec F S128x128 .f32) (x4 : Vec F S1x128 .f32) (xs0 : Vec F S1x128 .f32) (xs1 : Vec F S1x128 .f32) (y : S5000x128.Idx) :
    ∃ pc ∈ (kernelRun0_B c i arg1 harg1 arg2 harg2 arg3 harg3 arg4 harg4 arg5 harg5 arg6 harg6 arg7 harg7 arg8 harg8 arg9 harg9 arg10 harg10 hc0 hc1 x0 x1 x2 x3 x4 xs0 xs1).1, y ∈ pc.1.set :=
  View.cover_of_tiledL (kernelRun0_B c i arg1 harg1 arg2 harg2 arg3 harg3 arg4 harg4 arg5 harg5 arg6 harg6 arg7 harg7 arg8 harg8 arg9 harg9 arg10 harg10 hc0 hc1 x0 x1 x2 x3 x4 xs0 xs1).1 S5000x128.size (by sl_kernel_rfl) y

/-- What case B leaves there: its pieces read back. -/
def out0_B_5 (c : Dev nD) (i : grid0.Coords) (arg1 : Memref sig .tc .vmem S5000x128 .f32) (harg1 : arg1.IsWhole) (arg2 : Memref sig .tc .vmem S128x128 .f32) (harg2 : arg2.IsWhole) (arg3 : Memref sig .tc .vmem S1x128 .f32) (harg3 : arg3.IsWhole) (arg4 : Memref sig .tc .vmem S128x128 .f32) (harg4 : arg4.IsWhole) (arg5 : Memref sig .tc .vmem S1x128 .f32) (harg5 : arg5.IsWhole) (arg6 : Memref sig .tc .vmem S5000x128 .f32) (harg6 : arg6.IsWhole) (arg7 : Memref sig .tc .vmem S1x128 .f32) (harg7 : arg7.IsWhole) (arg8 : Memref sig .tc .vmem S1x128 .f32) (harg8 : arg8.IsWhole) (arg9 : Memref sig .tc .vmem S1x128 .f32) (harg9 : arg9.IsWhole) (arg10 : Memref sig .tc .vmem S1x128 .f32) (harg10 : arg10.IsWhole) (hc0 : ¬cond0_0 i) (hc1 : ¬cond0_1 i)
    (x0 : Vec F S5000x128 .f32) (x1 : Vec F S128x128 .f32) (x2 : Vec F S1x128 .f32) (x3 : Vec F S128x128 .f32) (x4 : Vec F S1x128 .f32) (xs0 : Vec F S1x128 .f32) (xs1 : Vec F S1x128 .f32) : Vec F S5000x128 .f32 :=
  VO0_5.read (Elt F) (VO0_5.writes (Elt F) VO0_5.junk (kernelRun0_B c i arg1 harg1 arg2 harg2 arg3 harg3 arg4 harg4 arg5 harg5 arg6 harg6 arg7 harg7 arg8 harg8 arg9 harg9 arg10 harg10 hc0 hc1 x0 x1 x2 x3 x4 xs0 xs1).1)

/-- Case B's pieces for running-sum row 0 cover it (one whole-rectangle store). -/
theorem scover0_B_0 (c : Dev nD) (i : grid0.Coords) (arg1 : Memref sig .tc .vmem S5000x128 .f32) (harg1 : arg1.IsWhole) (arg2 : Memref sig .tc .vmem S128x128 .f32) (harg2 : arg2.IsWhole) (arg3 : Memref sig .tc .vmem S1x128 .f32) (harg3 : arg3.IsWhole) (arg4 : Memref sig .tc .vmem S128x128 .f32) (harg4 : arg4.IsWhole) (arg5 : Memref sig .tc .vmem S1x128 .f32) (harg5 : arg5.IsWhole) (arg6 : Memref sig .tc .vmem S5000x128 .f32) (harg6 : arg6.IsWhole) (arg7 : Memref sig .tc .vmem S1x128 .f32) (harg7 : arg7.IsWhole) (arg8 : Memref sig .tc .vmem S1x128 .f32) (harg8 : arg8.IsWhole) (arg9 : Memref sig .tc .vmem S1x128 .f32) (harg9 : arg9.IsWhole) (arg10 : Memref sig .tc .vmem S1x128 .f32) (harg10 : arg10.IsWhole) (hc0 : ¬cond0_0 i) (hc1 : ¬cond0_1 i)
    (x0 : Vec F S5000x128 .f32) (x1 : Vec F S128x128 .f32) (x2 : Vec F S1x128 .f32) (x3 : Vec F S128x128 .f32) (x4 : Vec F S1x128 .f32) (xs0 : Vec F S1x128 .f32) (xs1 : Vec F S1x128 .f32) (y : S1x128.Idx) :
    ∃ pc ∈ (kernelRun0_B c i arg1 harg1 arg2 harg2 arg3 harg3 arg4 harg4 arg5 harg5 arg6 harg6 arg7 harg7 arg8 harg8 arg9 harg9 arg10 harg10 hc0 hc1 x0 x1 x2 x3 x4 xs0 xs1).2.2.2.1, y ∈ pc.1.set :=
  View.cover_of_tiledL (kernelRun0_B c i arg1 harg1 arg2 harg2 arg3 harg3 arg4 harg4 arg5 harg5 arg6 harg6 arg7 harg7 arg8 harg8 arg9 harg9 arg10 harg10 hc0 hc1 x0 x1 x2 x3 x4 xs0 xs1).2.2.2.1 S1x128.size (by sl_kernel_rfl) y

/-- What case B leaves there: its pieces read back. -/
def sout0_B_0 (c : Dev nD) (i : grid0.Coords) (arg1 : Memref sig .tc .vmem S5000x128 .f32) (harg1 : arg1.IsWhole) (arg2 : Memref sig .tc .vmem S128x128 .f32) (harg2 : arg2.IsWhole) (arg3 : Memref sig .tc .vmem S1x128 .f32) (harg3 : arg3.IsWhole) (arg4 : Memref sig .tc .vmem S128x128 .f32) (harg4 : arg4.IsWhole) (arg5 : Memref sig .tc .vmem S1x128 .f32) (harg5 : arg5.IsWhole) (arg6 : Memref sig .tc .vmem S5000x128 .f32) (harg6 : arg6.IsWhole) (arg7 : Memref sig .tc .vmem S1x128 .f32) (harg7 : arg7.IsWhole) (arg8 : Memref sig .tc .vmem S1x128 .f32) (harg8 : arg8.IsWhole) (arg9 : Memref sig .tc .vmem S1x128 .f32) (harg9 : arg9.IsWhole) (arg10 : Memref sig .tc .vmem S1x128 .f32) (harg10 : arg10.IsWhole) (hc0 : ¬cond0_0 i) (hc1 : ¬cond0_1 i)
    (x0 : Vec F S5000x128 .f32) (x1 : Vec F S128x128 .f32) (x2 : Vec F S1x128 .f32) (x3 : Vec F S128x128 .f32) (x4 : Vec F S1x128 .f32) (xs0 : Vec F S1x128 .f32) (xs1 : Vec F S1x128 .f32) : Vec F S1x128 .f32 :=
  VS0_0.read (Elt F) (VS0_0.writes (Elt F) VS0_0.junk (kernelRun0_B c i arg1 harg1 arg2 harg2 arg3 harg3 arg4 harg4 arg5 harg5 arg6 harg6 arg7 harg7 arg8 harg8 arg9 harg9 arg10 harg10 hc0 hc1 x0 x1 x2 x3 x4 xs0 xs1).2.2.2.1)

/-- Case B's pieces for running-sum row 1 cover it (one whole-rectangle store). -/
theorem scover0_B_1 (c : Dev nD) (i : grid0.Coords) (arg1 : Memref sig .tc .vmem S5000x128 .f32) (harg1 : arg1.IsWhole) (arg2 : Memref sig .tc .vmem S128x128 .f32) (harg2 : arg2.IsWhole) (arg3 : Memref sig .tc .vmem S1x128 .f32) (harg3 : arg3.IsWhole) (arg4 : Memref sig .tc .vmem S128x128 .f32) (harg4 : arg4.IsWhole) (arg5 : Memref sig .tc .vmem S1x128 .f32) (harg5 : arg5.IsWhole) (arg6 : Memref sig .tc .vmem S5000x128 .f32) (harg6 : arg6.IsWhole) (arg7 : Memref sig .tc .vmem S1x128 .f32) (harg7 : arg7.IsWhole) (arg8 : Memref sig .tc .vmem S1x128 .f32) (harg8 : arg8.IsWhole) (arg9 : Memref sig .tc .vmem S1x128 .f32) (harg9 : arg9.IsWhole) (arg10 : Memref sig .tc .vmem S1x128 .f32) (harg10 : arg10.IsWhole) (hc0 : ¬cond0_0 i) (hc1 : ¬cond0_1 i)
    (x0 : Vec F S5000x128 .f32) (x1 : Vec F S128x128 .f32) (x2 : Vec F S1x128 .f32) (x3 : Vec F S128x128 .f32) (x4 : Vec F S1x128 .f32) (xs0 : Vec F S1x128 .f32) (xs1 : Vec F S1x128 .f32) (y : S1x128.Idx) :
    ∃ pc ∈ (kernelRun0_B c i arg1 harg1 arg2 harg2 arg3 harg3 arg4 harg4 arg5 harg5 arg6 harg6 arg7 harg7 arg8 harg8 arg9 harg9 arg10 harg10 hc0 hc1 x0 x1 x2 x3 x4 xs0 xs1).2.2.2.2.1, y ∈ pc.1.set :=
  View.cover_of_tiledL (kernelRun0_B c i arg1 harg1 arg2 harg2 arg3 harg3 arg4 harg4 arg5 harg5 arg6 harg6 arg7 harg7 arg8 harg8 arg9 harg9 arg10 harg10 hc0 hc1 x0 x1 x2 x3 x4 xs0 xs1).2.2.2.2.1 S1x128.size (by sl_kernel_rfl) y

/-- What case B leaves there: its pieces read back. -/
def sout0_B_1 (c : Dev nD) (i : grid0.Coords) (arg1 : Memref sig .tc .vmem S5000x128 .f32) (harg1 : arg1.IsWhole) (arg2 : Memref sig .tc .vmem S128x128 .f32) (harg2 : arg2.IsWhole) (arg3 : Memref sig .tc .vmem S1x128 .f32) (harg3 : arg3.IsWhole) (arg4 : Memref sig .tc .vmem S128x128 .f32) (harg4 : arg4.IsWhole) (arg5 : Memref sig .tc .vmem S1x128 .f32) (harg5 : arg5.IsWhole) (arg6 : Memref sig .tc .vmem S5000x128 .f32) (harg6 : arg6.IsWhole) (arg7 : Memref sig .tc .vmem S1x128 .f32) (harg7 : arg7.IsWhole) (arg8 : Memref sig .tc .vmem S1x128 .f32) (harg8 : arg8.IsWhole) (arg9 : Memref sig .tc .vmem S1x128 .f32) (harg9 : arg9.IsWhole) (arg10 : Memref sig .tc .vmem S1x128 .f32) (harg10 : arg10.IsWhole) (hc0 : ¬cond0_0 i) (hc1 : ¬cond0_1 i)
    (x0 : Vec F S5000x128 .f32) (x1 : Vec F S128x128 .f32) (x2 : Vec F S1x128 .f32) (x3 : Vec F S128x128 .f32) (x4 : Vec F S1x128 .f32) (xs0 : Vec F S1x128 .f32) (xs1 : Vec F S1x128 .f32) : Vec F S1x128 .f32 :=
  VS0_1.read (Elt F) (VS0_1.writes (Elt F) VS0_1.junk (kernelRun0_B c i arg1 harg1 arg2 harg2 arg3 harg3 arg4 harg4 arg5 harg5 arg6 harg6 arg7 harg7 arg8 harg8 arg9 harg9 arg10 harg10 hc0 hc1 x0 x1 x2 x3 x4 xs0 xs1).2.2.2.2.1)

/-- Case C's pieces for output window 5 cover it (one whole-rectangle store). -/
theorem cover0_C_5 (c : Dev nD) (i : grid0.Coords) (arg1 : Memref sig .tc .vmem S5000x128 .f32) (harg1 : arg1.IsWhole) (arg2 : Memref sig .tc .vmem S128x128 .f32) (harg2 : arg2.IsWhole) (arg3 : Memref sig .tc .vmem S1x128 .f32) (harg3 : arg3.IsWhole) (arg4 : Memref sig .tc .vmem S128x128 .f32) (harg4 : arg4.IsWhole) (arg5 : Memref sig .tc .vmem S1x128 .f32) (harg5 : arg5.IsWhole) (arg6 : Memref sig .tc .vmem S5000x128 .f32) (harg6 : arg6.IsWhole) (arg7 : Memref sig .tc .vmem S1x128 .f32) (harg7 : arg7.IsWhole) (arg8 : Memref sig .tc .vmem S1x128 .f32) (harg8 : arg8.IsWhole) (arg9 : Memref sig .tc .vmem S1x128 .f32) (harg9 : arg9.IsWhole) (arg10 : Memref sig .tc .vmem S1x128 .f32) (harg10 : arg10.IsWhole) (hc0 : ¬cond0_0 i) (hc1 : cond0_1 i)
    (x0 : Vec F S5000x128 .f32) (x1 : Vec F S128x128 .f32) (x2 : Vec F S1x128 .f32) (x3 : Vec F S128x128 .f32) (x4 : Vec F S1x128 .f32) (xs0 : Vec F S1x128 .f32) (xs1 : Vec F S1x128 .f32) (y : S5000x128.Idx) :
    ∃ pc ∈ (kernelRun0_C c i arg1 harg1 arg2 harg2 arg3 harg3 arg4 harg4 arg5 harg5 arg6 harg6 arg7 harg7 arg8 harg8 arg9 harg9 arg10 harg10 hc0 hc1 x0 x1 x2 x3 x4 xs0 xs1).1, y ∈ pc.1.set :=
  View.cover_of_tiledL (kernelRun0_C c i arg1 harg1 arg2 harg2 arg3 harg3 arg4 harg4 arg5 harg5 arg6 harg6 arg7 harg7 arg8 harg8 arg9 harg9 arg10 harg10 hc0 hc1 x0 x1 x2 x3 x4 xs0 xs1).1 S5000x128.size (by sl_kernel_rfl) y

/-- What case C leaves there: its pieces read back. -/
def out0_C_5 (c : Dev nD) (i : grid0.Coords) (arg1 : Memref sig .tc .vmem S5000x128 .f32) (harg1 : arg1.IsWhole) (arg2 : Memref sig .tc .vmem S128x128 .f32) (harg2 : arg2.IsWhole) (arg3 : Memref sig .tc .vmem S1x128 .f32) (harg3 : arg3.IsWhole) (arg4 : Memref sig .tc .vmem S128x128 .f32) (harg4 : arg4.IsWhole) (arg5 : Memref sig .tc .vmem S1x128 .f32) (harg5 : arg5.IsWhole) (arg6 : Memref sig .tc .vmem S5000x128 .f32) (harg6 : arg6.IsWhole) (arg7 : Memref sig .tc .vmem S1x128 .f32) (harg7 : arg7.IsWhole) (arg8 : Memref sig .tc .vmem S1x128 .f32) (harg8 : arg8.IsWhole) (arg9 : Memref sig .tc .vmem S1x128 .f32) (harg9 : arg9.IsWhole) (arg10 : Memref sig .tc .vmem S1x128 .f32) (harg10 : arg10.IsWhole) (hc0 : ¬cond0_0 i) (hc1 : cond0_1 i)
    (x0 : Vec F S5000x128 .f32) (x1 : Vec F S128x128 .f32) (x2 : Vec F S1x128 .f32) (x3 : Vec F S128x128 .f32) (x4 : Vec F S1x128 .f32) (xs0 : Vec F S1x128 .f32) (xs1 : Vec F S1x128 .f32) : Vec F S5000x128 .f32 :=
  VO0_5.read (Elt F) (VO0_5.writes (Elt F) VO0_5.junk (kernelRun0_C c i arg1 harg1 arg2 harg2 arg3 harg3 arg4 harg4 arg5 harg5 arg6 harg6 arg7 harg7 arg8 harg8 arg9 harg9 arg10 harg10 hc0 hc1 x0 x1 x2 x3 x4 xs0 xs1).1)

/-- Case C's pieces for output window 6 cover it (one whole-rectangle store). -/
theorem cover0_C_6 (c : Dev nD) (i : grid0.Coords) (arg1 : Memref sig .tc .vmem S5000x128 .f32) (harg1 : arg1.IsWhole) (arg2 : Memref sig .tc .vmem S128x128 .f32) (harg2 : arg2.IsWhole) (arg3 : Memref sig .tc .vmem S1x128 .f32) (harg3 : arg3.IsWhole) (arg4 : Memref sig .tc .vmem S128x128 .f32) (harg4 : arg4.IsWhole) (arg5 : Memref sig .tc .vmem S1x128 .f32) (harg5 : arg5.IsWhole) (arg6 : Memref sig .tc .vmem S5000x128 .f32) (harg6 : arg6.IsWhole) (arg7 : Memref sig .tc .vmem S1x128 .f32) (harg7 : arg7.IsWhole) (arg8 : Memref sig .tc .vmem S1x128 .f32) (harg8 : arg8.IsWhole) (arg9 : Memref sig .tc .vmem S1x128 .f32) (harg9 : arg9.IsWhole) (arg10 : Memref sig .tc .vmem S1x128 .f32) (harg10 : arg10.IsWhole) (hc0 : ¬cond0_0 i) (hc1 : cond0_1 i)
    (x0 : Vec F S5000x128 .f32) (x1 : Vec F S128x128 .f32) (x2 : Vec F S1x128 .f32) (x3 : Vec F S128x128 .f32) (x4 : Vec F S1x128 .f32) (xs0 : Vec F S1x128 .f32) (xs1 : Vec F S1x128 .f32) (y : S1x128.Idx) :
    ∃ pc ∈ (kernelRun0_C c i arg1 harg1 arg2 harg2 arg3 harg3 arg4 harg4 arg5 harg5 arg6 harg6 arg7 harg7 arg8 harg8 arg9 harg9 arg10 harg10 hc0 hc1 x0 x1 x2 x3 x4 xs0 xs1).2.1, y ∈ pc.1.set :=
  View.cover_of_tiledL (kernelRun0_C c i arg1 harg1 arg2 harg2 arg3 harg3 arg4 harg4 arg5 harg5 arg6 harg6 arg7 harg7 arg8 harg8 arg9 harg9 arg10 harg10 hc0 hc1 x0 x1 x2 x3 x4 xs0 xs1).2.1 S1x128.size (by sl_kernel_rfl) y

/-- What case C leaves there: its pieces read back. -/
def out0_C_6 (c : Dev nD) (i : grid0.Coords) (arg1 : Memref sig .tc .vmem S5000x128 .f32) (harg1 : arg1.IsWhole) (arg2 : Memref sig .tc .vmem S128x128 .f32) (harg2 : arg2.IsWhole) (arg3 : Memref sig .tc .vmem S1x128 .f32) (harg3 : arg3.IsWhole) (arg4 : Memref sig .tc .vmem S128x128 .f32) (harg4 : arg4.IsWhole) (arg5 : Memref sig .tc .vmem S1x128 .f32) (harg5 : arg5.IsWhole) (arg6 : Memref sig .tc .vmem S5000x128 .f32) (harg6 : arg6.IsWhole) (arg7 : Memref sig .tc .vmem S1x128 .f32) (harg7 : arg7.IsWhole) (arg8 : Memref sig .tc .vmem S1x128 .f32) (harg8 : arg8.IsWhole) (arg9 : Memref sig .tc .vmem S1x128 .f32) (harg9 : arg9.IsWhole) (arg10 : Memref sig .tc .vmem S1x128 .f32) (harg10 : arg10.IsWhole) (hc0 : ¬cond0_0 i) (hc1 : cond0_1 i)
    (x0 : Vec F S5000x128 .f32) (x1 : Vec F S128x128 .f32) (x2 : Vec F S1x128 .f32) (x3 : Vec F S128x128 .f32) (x4 : Vec F S1x128 .f32) (xs0 : Vec F S1x128 .f32) (xs1 : Vec F S1x128 .f32) : Vec F S1x128 .f32 :=
  VO0_6.read (Elt F) (VO0_6.writes (Elt F) VO0_6.junk (kernelRun0_C c i arg1 harg1 arg2 harg2 arg3 harg3 arg4 harg4 arg5 harg5 arg6 harg6 arg7 harg7 arg8 harg8 arg9 harg9 arg10 harg10 hc0 hc1 x0 x1 x2 x3 x4 xs0 xs1).2.1)

/-- Case C's pieces for output window 7 cover it (one whole-rectangle store). -/
theorem cover0_C_7 (c : Dev nD) (i : grid0.Coords) (arg1 : Memref sig .tc .vmem S5000x128 .f32) (harg1 : arg1.IsWhole) (arg2 : Memref sig .tc .vmem S128x128 .f32) (harg2 : arg2.IsWhole) (arg3 : Memref sig .tc .vmem S1x128 .f32) (harg3 : arg3.IsWhole) (arg4 : Memref sig .tc .vmem S128x128 .f32) (harg4 : arg4.IsWhole) (arg5 : Memref sig .tc .vmem S1x128 .f32) (harg5 : arg5.IsWhole) (arg6 : Memref sig .tc .vmem S5000x128 .f32) (harg6 : arg6.IsWhole) (arg7 : Memref sig .tc .vmem S1x128 .f32) (harg7 : arg7.IsWhole) (arg8 : Memref sig .tc .vmem S1x128 .f32) (harg8 : arg8.IsWhole) (arg9 : Memref sig .tc .vmem S1x128 .f32) (harg9 : arg9.IsWhole) (arg10 : Memref sig .tc .vmem S1x128 .f32) (harg10 : arg10.IsWhole) (hc0 : ¬cond0_0 i) (hc1 : cond0_1 i)
    (x0 : Vec F S5000x128 .f32) (x1 : Vec F S128x128 .f32) (x2 : Vec F S1x128 .f32) (x3 : Vec F S128x128 .f32) (x4 : Vec F S1x128 .f32) (xs0 : Vec F S1x128 .f32) (xs1 : Vec F S1x128 .f32) (y : S1x128.Idx) :
    ∃ pc ∈ (kernelRun0_C c i arg1 harg1 arg2 harg2 arg3 harg3 arg4 harg4 arg5 harg5 arg6 harg6 arg7 harg7 arg8 harg8 arg9 harg9 arg10 harg10 hc0 hc1 x0 x1 x2 x3 x4 xs0 xs1).2.2.1, y ∈ pc.1.set :=
  View.cover_of_tiledL (kernelRun0_C c i arg1 harg1 arg2 harg2 arg3 harg3 arg4 harg4 arg5 harg5 arg6 harg6 arg7 harg7 arg8 harg8 arg9 harg9 arg10 harg10 hc0 hc1 x0 x1 x2 x3 x4 xs0 xs1).2.2.1 S1x128.size (by sl_kernel_rfl) y

/-- What case C leaves there: its pieces read back. -/
def out0_C_7 (c : Dev nD) (i : grid0.Coords) (arg1 : Memref sig .tc .vmem S5000x128 .f32) (harg1 : arg1.IsWhole) (arg2 : Memref sig .tc .vmem S128x128 .f32) (harg2 : arg2.IsWhole) (arg3 : Memref sig .tc .vmem S1x128 .f32) (harg3 : arg3.IsWhole) (arg4 : Memref sig .tc .vmem S128x128 .f32) (harg4 : arg4.IsWhole) (arg5 : Memref sig .tc .vmem S1x128 .f32) (harg5 : arg5.IsWhole) (arg6 : Memref sig .tc .vmem S5000x128 .f32) (harg6 : arg6.IsWhole) (arg7 : Memref sig .tc .vmem S1x128 .f32) (harg7 : arg7.IsWhole) (arg8 : Memref sig .tc .vmem S1x128 .f32) (harg8 : arg8.IsWhole) (arg9 : Memref sig .tc .vmem S1x128 .f32) (harg9 : arg9.IsWhole) (arg10 : Memref sig .tc .vmem S1x128 .f32) (harg10 : arg10.IsWhole) (hc0 : ¬cond0_0 i) (hc1 : cond0_1 i)
    (x0 : Vec F S5000x128 .f32) (x1 : Vec F S128x128 .f32) (x2 : Vec F S1x128 .f32) (x3 : Vec F S128x128 .f32) (x4 : Vec F S1x128 .f32) (xs0 : Vec F S1x128 .f32) (xs1 : Vec F S1x128 .f32) : Vec F S1x128 .f32 :=
  VO0_7.read (Elt F) (VO0_7.writes (Elt F) VO0_7.junk (kernelRun0_C c i arg1 harg1 arg2 harg2 arg3 harg3 arg4 harg4 arg5 harg5 arg6 harg6 arg7 harg7 arg8 harg8 arg9 harg9 arg10 harg10 hc0 hc1 x0 x1 x2 x3 x4 xs0 xs1).2.2.1)

/-- Case C's pieces for running-sum row 0 cover it (one whole-rectangle store). -/
theorem scover0_C_0 (c : Dev nD) (i : grid0.Coords) (arg1 : Memref sig .tc .vmem S5000x128 .f32) (harg1 : arg1.IsWhole) (arg2 : Memref sig .tc .vmem S128x128 .f32) (harg2 : arg2.IsWhole) (arg3 : Memref sig .tc .vmem S1x128 .f32) (harg3 : arg3.IsWhole) (arg4 : Memref sig .tc .vmem S128x128 .f32) (harg4 : arg4.IsWhole) (arg5 : Memref sig .tc .vmem S1x128 .f32) (harg5 : arg5.IsWhole) (arg6 : Memref sig .tc .vmem S5000x128 .f32) (harg6 : arg6.IsWhole) (arg7 : Memref sig .tc .vmem S1x128 .f32) (harg7 : arg7.IsWhole) (arg8 : Memref sig .tc .vmem S1x128 .f32) (harg8 : arg8.IsWhole) (arg9 : Memref sig .tc .vmem S1x128 .f32) (harg9 : arg9.IsWhole) (arg10 : Memref sig .tc .vmem S1x128 .f32) (harg10 : arg10.IsWhole) (hc0 : ¬cond0_0 i) (hc1 : cond0_1 i)
    (x0 : Vec F S5000x128 .f32) (x1 : Vec F S128x128 .f32) (x2 : Vec F S1x128 .f32) (x3 : Vec F S128x128 .f32) (x4 : Vec F S1x128 .f32) (xs0 : Vec F S1x128 .f32) (xs1 : Vec F S1x128 .f32) (y : S1x128.Idx) :
    ∃ pc ∈ (kernelRun0_C c i arg1 harg1 arg2 harg2 arg3 harg3 arg4 harg4 arg5 harg5 arg6 harg6 arg7 harg7 arg8 harg8 arg9 harg9 arg10 harg10 hc0 hc1 x0 x1 x2 x3 x4 xs0 xs1).2.2.2.1, y ∈ pc.1.set :=
  View.cover_of_tiledL (kernelRun0_C c i arg1 harg1 arg2 harg2 arg3 harg3 arg4 harg4 arg5 harg5 arg6 harg6 arg7 harg7 arg8 harg8 arg9 harg9 arg10 harg10 hc0 hc1 x0 x1 x2 x3 x4 xs0 xs1).2.2.2.1 S1x128.size (by sl_kernel_rfl) y

/-- What case C leaves there: its pieces read back. -/
def sout0_C_0 (c : Dev nD) (i : grid0.Coords) (arg1 : Memref sig .tc .vmem S5000x128 .f32) (harg1 : arg1.IsWhole) (arg2 : Memref sig .tc .vmem S128x128 .f32) (harg2 : arg2.IsWhole) (arg3 : Memref sig .tc .vmem S1x128 .f32) (harg3 : arg3.IsWhole) (arg4 : Memref sig .tc .vmem S128x128 .f32) (harg4 : arg4.IsWhole) (arg5 : Memref sig .tc .vmem S1x128 .f32) (harg5 : arg5.IsWhole) (arg6 : Memref sig .tc .vmem S5000x128 .f32) (harg6 : arg6.IsWhole) (arg7 : Memref sig .tc .vmem S1x128 .f32) (harg7 : arg7.IsWhole) (arg8 : Memref sig .tc .vmem S1x128 .f32) (harg8 : arg8.IsWhole) (arg9 : Memref sig .tc .vmem S1x128 .f32) (harg9 : arg9.IsWhole) (arg10 : Memref sig .tc .vmem S1x128 .f32) (harg10 : arg10.IsWhole) (hc0 : ¬cond0_0 i) (hc1 : cond0_1 i)
    (x0 : Vec F S5000x128 .f32) (x1 : Vec F S128x128 .f32) (x2 : Vec F S1x128 .f32) (x3 : Vec F S128x128 .f32) (x4 : Vec F S1x128 .f32) (xs0 : Vec F S1x128 .f32) (xs1 : Vec F S1x128 .f32) : Vec F S1x128 .f32 :=
  VS0_0.read (Elt F) (VS0_0.writes (Elt F) VS0_0.junk (kernelRun0_C c i arg1 harg1 arg2 harg2 arg3 harg3 arg4 harg4 arg5 harg5 arg6 harg6 arg7 harg7 arg8 harg8 arg9 harg9 arg10 harg10 hc0 hc1 x0 x1 x2 x3 x4 xs0 xs1).2.2.2.1)

/-- Case C's pieces for running-sum row 1 cover it (one whole-rectangle store). -/
theorem scover0_C_1 (c : Dev nD) (i : grid0.Coords) (arg1 : Memref sig .tc .vmem S5000x128 .f32) (harg1 : arg1.IsWhole) (arg2 : Memref sig .tc .vmem S128x128 .f32) (harg2 : arg2.IsWhole) (arg3 : Memref sig .tc .vmem S1x128 .f32) (harg3 : arg3.IsWhole) (arg4 : Memref sig .tc .vmem S128x128 .f32) (harg4 : arg4.IsWhole) (arg5 : Memref sig .tc .vmem S1x128 .f32) (harg5 : arg5.IsWhole) (arg6 : Memref sig .tc .vmem S5000x128 .f32) (harg6 : arg6.IsWhole) (arg7 : Memref sig .tc .vmem S1x128 .f32) (harg7 : arg7.IsWhole) (arg8 : Memref sig .tc .vmem S1x128 .f32) (harg8 : arg8.IsWhole) (arg9 : Memref sig .tc .vmem S1x128 .f32) (harg9 : arg9.IsWhole) (arg10 : Memref sig .tc .vmem S1x128 .f32) (harg10 : arg10.IsWhole) (hc0 : ¬cond0_0 i) (hc1 : cond0_1 i)
    (x0 : Vec F S5000x128 .f32) (x1 : Vec F S128x128 .f32) (x2 : Vec F S1x128 .f32) (x3 : Vec F S128x128 .f32) (x4 : Vec F S1x128 .f32) (xs0 : Vec F S1x128 .f32) (xs1 : Vec F S1x128 .f32) (y : S1x128.Idx) :
    ∃ pc ∈ (kernelRun0_C c i arg1 harg1 arg2 harg2 arg3 harg3 arg4 harg4 arg5 harg5 arg6 harg6 arg7 harg7 arg8 harg8 arg9 harg9 arg10 harg10 hc0 hc1 x0 x1 x2 x3 x4 xs0 xs1).2.2.2.2.1, y ∈ pc.1.set :=
  View.cover_of_tiledL (kernelRun0_C c i arg1 harg1 arg2 harg2 arg3 harg3 arg4 harg4 arg5 harg5 arg6 harg6 arg7 harg7 arg8 harg8 arg9 harg9 arg10 harg10 hc0 hc1 x0 x1 x2 x3 x4 xs0 xs1).2.2.2.2.1 S1x128.size (by sl_kernel_rfl) y

/-- What case C leaves there: its pieces read back. -/
def sout0_C_1 (c : Dev nD) (i : grid0.Coords) (arg1 : Memref sig .tc .vmem S5000x128 .f32) (harg1 : arg1.IsWhole) (arg2 : Memref sig .tc .vmem S128x128 .f32) (harg2 : arg2.IsWhole) (arg3 : Memref sig .tc .vmem S1x128 .f32) (harg3 : arg3.IsWhole) (arg4 : Memref sig .tc .vmem S128x128 .f32) (harg4 : arg4.IsWhole) (arg5 : Memref sig .tc .vmem S1x128 .f32) (harg5 : arg5.IsWhole) (arg6 : Memref sig .tc .vmem S5000x128 .f32) (harg6 : arg6.IsWhole) (arg7 : Memref sig .tc .vmem S1x128 .f32) (harg7 : arg7.IsWhole) (arg8 : Memref sig .tc .vmem S1x128 .f32) (harg8 : arg8.IsWhole) (arg9 : Memref sig .tc .vmem S1x128 .f32) (harg9 : arg9.IsWhole) (arg10 : Memref sig .tc .vmem S1x128 .f32) (harg10 : arg10.IsWhole) (hc0 : ¬cond0_0 i) (hc1 : cond0_1 i)
    (x0 : Vec F S5000x128 .f32) (x1 : Vec F S128x128 .f32) (x2 : Vec F S1x128 .f32) (x3 : Vec F S128x128 .f32) (x4 : Vec F S1x128 .f32) (xs0 : Vec F S1x128 .f32) (xs1 : Vec F S1x128 .f32) : Vec F S1x128 .f32 :=
  VS0_1.read (Elt F) (VS0_1.writes (Elt F) VS0_1.junk (kernelRun0_C c i arg1 harg1 arg2 harg2 arg3 harg3 arg4 harg4 arg5 harg5 arg6 harg6 arg7 harg7 arg8 harg8 arg9 harg9 arg10 harg10 hc0 hc1 x0 x1 x2 x3 x4 xs0 xs1).2.2.2.2.1)

/-- THE ACCUMULATION. What the three outputs' staging buffers and the two running-sum rows hold after the body at position `n`
    (a tuple: z's block, the two [1,128] outputs, then the two rows): the first point's case zeroes the rows first; every later
    point runs on the rows as the point before left them; the last point also copies them out. The two [1,128] outputs are idle
    before the last point: their component there is a placeholder nothing consults. -/
def outsAt0 (c : Dev nD) : (n : ℕ) → n < cfg0.N → Vec F S5000x128 .f32 × Vec F S1x128 .f32 × Vec F S1x128 .f32 × Vec F S1x128 .f32 × Vec F S1x128 .f32
  | 0, hn => (out0_A_5 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) (ms0_6 ⟨0, hn⟩) (hs0_6 ⟨0, hn⟩) (ms0_7 ⟨0, hn⟩) (hs0_7 ⟨0, hn⟩) scM0_0 (Memref.isWhole_whole _) scM0_1 (Memref.isWhole_whole _) ((hcond0_0 ⟨0, hn⟩).mpr (Nat.zero_mod _)) (fun h => (fun h => by (try dsimp only at h); omega) ((hcond0_1 ⟨0, hn⟩).mp h)) (iblk0 V c 0 ⟨0, hn⟩) (iblk0 V c 1 ⟨0, hn⟩) (iblk0 V c 2 ⟨0, hn⟩) (iblk0 V c 3 ⟨0, hn⟩) (iblk0 V c 4 ⟨0, hn⟩),
      VO0_6.read (Elt F) VO0_6.junk,
      VO0_7.read (Elt F) VO0_7.junk,
      sout0_A_0 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) (ms0_6 ⟨0, hn⟩) (hs0_6 ⟨0, hn⟩) (ms0_7 ⟨0, hn⟩) (hs0_7 ⟨0, hn⟩) scM0_0 (Memref.isWhole_whole _) scM0_1 (Memref.isWhole_whole _) ((hcond0_0 ⟨0, hn⟩).mpr (Nat.zero_mod _)) (fun h => (fun h => by (try dsimp only at h); omega) ((hcond0_1 ⟨0, hn⟩).mp h)) (iblk0 V c 0 ⟨0, hn⟩) (iblk0 V c 1 ⟨0, hn⟩) (iblk0 V c 2 ⟨0, hn⟩) (iblk0 V c 3 ⟨0, hn⟩) (iblk0 V c 4 ⟨0, hn⟩),
      sout0_A_1 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) (ms0_6 ⟨0, hn⟩) (hs0_6 ⟨0, hn⟩) (ms0_7 ⟨0, hn⟩) (hs0_7 ⟨0, hn⟩) scM0_0 (Memref.isWhole_whole _) scM0_1 (Memref.isWhole_whole _) ((hcond0_0 ⟨0, hn⟩).mpr (Nat.zero_mod _)) (fun h => (fun h => by (try dsimp only at h); omega) ((hcond0_1 ⟨0, hn⟩).mp h)) (iblk0 V c 0 ⟨0, hn⟩) (iblk0 V c 1 ⟨0, hn⟩) (iblk0 V c 2 ⟨0, hn⟩) (iblk0 V c 3 ⟨0, hn⟩) (iblk0 V c 4 ⟨0, hn⟩))
  | n + 1, hn =>
    if h1 : (n + 1) % 20 = 19 then
      (out0_C_5 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) scM0_0 (Memref.isWhole_whole _) scM0_1 (Memref.isWhole_whole _) (fun h => (by have hN : n + 1 < 20 := lt_of_lt_of_eq hn (show cfg0.N = 20 from N_0); omega : ¬(n + 1) % 20 = 0) ((hcond0_0 ⟨n + 1, hn⟩).mp h)) ((hcond0_1 ⟨n + 1, hn⟩).mpr h1) (iblk0 V c 0 ⟨n + 1, hn⟩) (iblk0 V c 1 ⟨n + 1, hn⟩) (iblk0 V c 2 ⟨n + 1, hn⟩) (iblk0 V c 3 ⟨n + 1, hn⟩) (iblk0 V c 4 ⟨n + 1, hn⟩) (outsAt0 c n (Nat.lt_of_succ_lt hn)).2.2.2.1 (outsAt0 c n (Nat.lt_of_succ_lt hn)).2.2.2.2,
      out0_C_6 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) scM0_0 (Memref.isWhole_whole _) scM0_1 (Memref.isWhole_whole _) (fun h => (by have hN : n + 1 < 20 := lt_of_lt_of_eq hn (show cfg0.N = 20 from N_0); omega : ¬(n + 1) % 20 = 0) ((hcond0_0 ⟨n + 1, hn⟩).mp h)) ((hcond0_1 ⟨n + 1, hn⟩).mpr h1) (iblk0 V c 0 ⟨n + 1, hn⟩) (iblk0 V c 1 ⟨n + 1, hn⟩) (iblk0 V c 2 ⟨n + 1, hn⟩) (iblk0 V c 3 ⟨n + 1, hn⟩) (iblk0 V c 4 ⟨n + 1, hn⟩) (outsAt0 c n (Nat.lt_of_succ_lt hn)).2.2.2.1 (outsAt0 c n (Nat.lt_of_succ_lt hn)).2.2.2.2,
      out0_C_7 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) scM0_0 (Memref.isWhole_whole _) scM0_1 (Memref.isWhole_whole _) (fun h => (by have hN : n + 1 < 20 := lt_of_lt_of_eq hn (show cfg0.N = 20 from N_0); omega : ¬(n + 1) % 20 = 0) ((hcond0_0 ⟨n + 1, hn⟩).mp h)) ((hcond0_1 ⟨n + 1, hn⟩).mpr h1) (iblk0 V c 0 ⟨n + 1, hn⟩) (iblk0 V c 1 ⟨n + 1, hn⟩) (iblk0 V c 2 ⟨n + 1, hn⟩) (iblk0 V c 3 ⟨n + 1, hn⟩) (iblk0 V c 4 ⟨n + 1, hn⟩) (outsAt0 c n (Nat.lt_of_succ_lt hn)).2.2.2.1 (outsAt0 c n (Nat.lt_of_succ_lt hn)).2.2.2.2,
      sout0_C_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) scM0_0 (Memref.isWhole_whole _) scM0_1 (Memref.isWhole_whole _) (fun h => (by have hN : n + 1 < 20 := lt_of_lt_of_eq hn (show cfg0.N = 20 from N_0); omega : ¬(n + 1) % 20 = 0) ((hcond0_0 ⟨n + 1, hn⟩).mp h)) ((hcond0_1 ⟨n + 1, hn⟩).mpr h1) (iblk0 V c 0 ⟨n + 1, hn⟩) (iblk0 V c 1 ⟨n + 1, hn⟩) (iblk0 V c 2 ⟨n + 1, hn⟩) (iblk0 V c 3 ⟨n + 1, hn⟩) (iblk0 V c 4 ⟨n + 1, hn⟩) (outsAt0 c n (Nat.lt_of_succ_lt hn)).2.2.2.1 (outsAt0 c n (Nat.lt_of_succ_lt hn)).2.2.2.2,
      sout0_C_1 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) scM0_0 (Memref.isWhole_whole _) scM0_1 (Memref.isWhole_whole _) (fun h => (by have hN : n + 1 < 20 := lt_of_lt_of_eq hn (show cfg0.N = 20 from N_0); omega : ¬(n + 1) % 20 = 0) ((hcond0_0 ⟨n + 1, hn⟩).mp h)) ((hcond0_1 ⟨n + 1, hn⟩).mpr h1) (iblk0 V c 0 ⟨n + 1, hn⟩) (iblk0 V c 1 ⟨n + 1, hn⟩) (iblk0 V c 2 ⟨n + 1, hn⟩) (iblk0 V c 3 ⟨n + 1, hn⟩) (iblk0 V c 4 ⟨n + 1, hn⟩) (outsAt0 c n (Nat.lt_of_succ_lt hn)).2.2.2.1 (outsAt0 c n (Nat.lt_of_succ_lt hn)).2.2.2.2)
    else
      (out0_B_5 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) scM0_0 (Memref.isWhole_whole _) scM0_1 (Memref.isWhole_whole _) (fun h => (by have hN : n + 1 < 20 := lt_of_lt_of_eq hn (show cfg0.N = 20 from N_0); omega : ¬(n + 1) % 20 = 0) ((hcond0_0 ⟨n + 1, hn⟩).mp h)) (fun h => h1 ((hcond0_1 ⟨n + 1, hn⟩).mp h)) (iblk0 V c 0 ⟨n + 1, hn⟩) (iblk0 V c 1 ⟨n + 1, hn⟩) (iblk0 V c 2 ⟨n + 1, hn⟩) (iblk0 V c 3 ⟨n + 1, hn⟩) (iblk0 V c 4 ⟨n + 1, hn⟩) (outsAt0 c n (Nat.lt_of_succ_lt hn)).2.2.2.1 (outsAt0 c n (Nat.lt_of_succ_lt hn)).2.2.2.2,
      VO0_6.read (Elt F) VO0_6.junk,
      VO0_7.read (Elt F) VO0_7.junk,
      sout0_B_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) scM0_0 (Memref.isWhole_whole _) scM0_1 (Memref.isWhole_whole _) (fun h => (by have hN : n + 1 < 20 := lt_of_lt_of_eq hn (show cfg0.N = 20 from N_0); omega : ¬(n + 1) % 20 = 0) ((hcond0_0 ⟨n + 1, hn⟩).mp h)) (fun h => h1 ((hcond0_1 ⟨n + 1, hn⟩).mp h)) (iblk0 V c 0 ⟨n + 1, hn⟩) (iblk0 V c 1 ⟨n + 1, hn⟩) (iblk0 V c 2 ⟨n + 1, hn⟩) (iblk0 V c 3 ⟨n + 1, hn⟩) (iblk0 V c 4 ⟨n + 1, hn⟩) (outsAt0 c n (Nat.lt_of_succ_lt hn)).2.2.2.1 (outsAt0 c n (Nat.lt_of_succ_lt hn)).2.2.2.2,
      sout0_B_1 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) scM0_0 (Memref.isWhole_whole _) scM0_1 (Memref.isWhole_whole _) (fun h => (by have hN : n + 1 < 20 := lt_of_lt_of_eq hn (show cfg0.N = 20 from N_0); omega : ¬(n + 1) % 20 = 0) ((hcond0_0 ⟨n + 1, hn⟩).mp h)) (fun h => h1 ((hcond0_1 ⟨n + 1, hn⟩).mp h)) (iblk0 V c 0 ⟨n + 1, hn⟩) (iblk0 V c 1 ⟨n + 1, hn⟩) (iblk0 V c 2 ⟨n + 1, hn⟩) (iblk0 V c 3 ⟨n + 1, hn⟩) (iblk0 V c 4 ⟨n + 1, hn⟩) (outsAt0 c n (Nat.lt_of_succ_lt hn)).2.2.2.1 (outsAt0 c n (Nat.lt_of_succ_lt hn)).2.2.2.2)

/-- `outsAt0` at the first point. -/
theorem outsAt0_A (c : Dev nD) (t : Fin cfg0.N) (h0 : t.val % 20 = 0) (h1 : ¬t.val % 20 = 19) :
    outsAt0 V c t.val t.isLt = (out0_A_5 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) scM0_1 (Memref.isWhole_whole _) ((hcond0_0 t).mpr h0) (fun h => h1 ((hcond0_1 t).mp h)) (iblk0 V c 0 t) (iblk0 V c 1 t) (iblk0 V c 2 t) (iblk0 V c 3 t) (iblk0 V c 4 t),
      VO0_6.read (Elt F) VO0_6.junk,
      VO0_7.read (Elt F) VO0_7.junk,
      sout0_A_0 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) scM0_1 (Memref.isWhole_whole _) ((hcond0_0 t).mpr h0) (fun h => h1 ((hcond0_1 t).mp h)) (iblk0 V c 0 t) (iblk0 V c 1 t) (iblk0 V c 2 t) (iblk0 V c 3 t) (iblk0 V c 4 t),
      sout0_A_1 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) scM0_1 (Memref.isWhole_whole _) ((hcond0_0 t).mpr h0) (fun h => h1 ((hcond0_1 t).mp h)) (iblk0 V c 0 t) (iblk0 V c 1 t) (iblk0 V c 2 t) (iblk0 V c 3 t) (iblk0 V c 4 t)) := by
  obtain ⟨n, hn⟩ := t
  cases n with
  | zero => exact rfl
  | succ n => exact (by exfalso; have hN : n + 1 < 20 := lt_of_lt_of_eq hn (show cfg0.N = 20 from N_0); (try dsimp only at h0); omega)

/-- `outsAt0` at a middle point: that case's contents, over what the point before left. -/
theorem outsAt0_B (c : Dev nD) (t : Fin cfg0.N) (h0 : ¬t.val % 20 = 0) (h1 : ¬t.val % 20 = 19) :
    outsAt0 V c t.val t.isLt = (out0_B_5 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) scM0_1 (Memref.isWhole_whole _) (fun h => h0 ((hcond0_0 t).mp h)) (fun h => h1 ((hcond0_1 t).mp h)) (iblk0 V c 0 t) (iblk0 V c 1 t) (iblk0 V c 2 t) (iblk0 V c 3 t) (iblk0 V c 4 t) (outsAt0 V c (t.val - 1) (Nat.lt_of_le_of_lt (Nat.sub_le _ _) t.isLt)).2.2.2.1 (outsAt0 V c (t.val - 1) (Nat.lt_of_le_of_lt (Nat.sub_le _ _) t.isLt)).2.2.2.2,
      VO0_6.read (Elt F) VO0_6.junk,
      VO0_7.read (Elt F) VO0_7.junk,
      sout0_B_0 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) scM0_1 (Memref.isWhole_whole _) (fun h => h0 ((hcond0_0 t).mp h)) (fun h => h1 ((hcond0_1 t).mp h)) (iblk0 V c 0 t) (iblk0 V c 1 t) (iblk0 V c 2 t) (iblk0 V c 3 t) (iblk0 V c 4 t) (outsAt0 V c (t.val - 1) (Nat.lt_of_le_of_lt (Nat.sub_le _ _) t.isLt)).2.2.2.1 (outsAt0 V c (t.val - 1) (Nat.lt_of_le_of_lt (Nat.sub_le _ _) t.isLt)).2.2.2.2,
      sout0_B_1 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) scM0_1 (Memref.isWhole_whole _) (fun h => h0 ((hcond0_0 t).mp h)) (fun h => h1 ((hcond0_1 t).mp h)) (iblk0 V c 0 t) (iblk0 V c 1 t) (iblk0 V c 2 t) (iblk0 V c 3 t) (iblk0 V c 4 t) (outsAt0 V c (t.val - 1) (Nat.lt_of_le_of_lt (Nat.sub_le _ _) t.isLt)).2.2.2.1 (outsAt0 V c (t.val - 1) (Nat.lt_of_le_of_lt (Nat.sub_le _ _) t.isLt)).2.2.2.2) := by
  obtain ⟨n, hn⟩ := t
  cases n with
  | zero => exact (by exfalso; (try dsimp only at h0); exact absurd (Nat.zero_mod _) h0)
  | succ n => exact (dif_neg h1).trans rfl

/-- `outsAt0` at the last point. -/
theorem outsAt0_C (c : Dev nD) (t : Fin cfg0.N) (h0 : ¬t.val % 20 = 0) (h1 : t.val % 20 = 19) :
    outsAt0 V c t.val t.isLt = (out0_C_5 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) scM0_1 (Memref.isWhole_whole _) (fun h => h0 ((hcond0_0 t).mp h)) ((hcond0_1 t).mpr h1) (iblk0 V c 0 t) (iblk0 V c 1 t) (iblk0 V c 2 t) (iblk0 V c 3 t) (iblk0 V c 4 t) (outsAt0 V c (t.val - 1) (Nat.lt_of_le_of_lt (Nat.sub_le _ _) t.isLt)).2.2.2.1 (outsAt0 V c (t.val - 1) (Nat.lt_of_le_of_lt (Nat.sub_le _ _) t.isLt)).2.2.2.2,
      out0_C_6 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) scM0_1 (Memref.isWhole_whole _) (fun h => h0 ((hcond0_0 t).mp h)) ((hcond0_1 t).mpr h1) (iblk0 V c 0 t) (iblk0 V c 1 t) (iblk0 V c 2 t) (iblk0 V c 3 t) (iblk0 V c 4 t) (outsAt0 V c (t.val - 1) (Nat.lt_of_le_of_lt (Nat.sub_le _ _) t.isLt)).2.2.2.1 (outsAt0 V c (t.val - 1) (Nat.lt_of_le_of_lt (Nat.sub_le _ _) t.isLt)).2.2.2.2,
      out0_C_7 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) scM0_1 (Memref.isWhole_whole _) (fun h => h0 ((hcond0_0 t).mp h)) ((hcond0_1 t).mpr h1) (iblk0 V c 0 t) (iblk0 V c 1 t) (iblk0 V c 2 t) (iblk0 V c 3 t) (iblk0 V c 4 t) (outsAt0 V c (t.val - 1) (Nat.lt_of_le_of_lt (Nat.sub_le _ _) t.isLt)).2.2.2.1 (outsAt0 V c (t.val - 1) (Nat.lt_of_le_of_lt (Nat.sub_le _ _) t.isLt)).2.2.2.2,
      sout0_C_0 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) scM0_1 (Memref.isWhole_whole _) (fun h => h0 ((hcond0_0 t).mp h)) ((hcond0_1 t).mpr h1) (iblk0 V c 0 t) (iblk0 V c 1 t) (iblk0 V c 2 t) (iblk0 V c 3 t) (iblk0 V c 4 t) (outsAt0 V c (t.val - 1) (Nat.lt_of_le_of_lt (Nat.sub_le _ _) t.isLt)).2.2.2.1 (outsAt0 V c (t.val - 1) (Nat.lt_of_le_of_lt (Nat.sub_le _ _) t.isLt)).2.2.2.2,
      sout0_C_1 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) scM0_1 (Memref.isWhole_whole _) (fun h => h0 ((hcond0_0 t).mp h)) ((hcond0_1 t).mpr h1) (iblk0 V c 0 t) (iblk0 V c 1 t) (iblk0 V c 2 t) (iblk0 V c 3 t) (iblk0 V c 4 t) (outsAt0 V c (t.val - 1) (Nat.lt_of_le_of_lt (Nat.sub_le _ _) t.isLt)).2.2.2.1 (outsAt0 V c (t.val - 1) (Nat.lt_of_le_of_lt (Nat.sub_le _ _) t.isLt)).2.2.2.2) := by
  obtain ⟨n, hn⟩ := t
  cases n with
  | zero => exact (by exfalso; (try dsimp only at h0); exact absurd (Nat.zero_mod _) h0)
  | succ n => exact (dif_pos h1).trans rfl

/-- The region invariant before position `n`: before the first point the class's (every scoped buffer at anything); afterwards the
    two running-sum rows at what the point before left in them, every other scoped buffer unopened at anything, and the generator
    register at some state. -/
def PhiS0 (c : Dev nD) : (n : ℕ) → n ≤ cfg0.N → sProp 𝕄
  | 0, _ => Pipeline.ΦA spec0 c
  | n + 1, hn => iprop(iprop(iprop(owns (c : Thread nD τ) scM0_0 fullShare (outsAt0 V c n hn).2.2.2.1 ∗ owns (c : Thread nD τ) scM0_1 fullShare (outsAt0 V c n hn).2.2.2.2) ∗ Pipeline.scopedRestBut (Ix := Unit) (Name := ℕ) (U := UR sig nD τ) (Lvl := ℕ) (Val := Elt F) spec0 c [cc0_scratch0, cc0_scratch1]) ∗ (∃ r, prngReg c r))

theorem PhiS0_zero (c : Dev nD) (n : ℕ) (h : n ≤ cfg0.N) (hz : n = 0) : PhiS0 V c n h = Pipeline.ΦA spec0 c := by
  subst hz; rfl

theorem PhiS0_succ (c : Dev nD) (n : ℕ) (hn : n < cfg0.N) :
    PhiS0 V c (n + 1) hn = iprop(iprop(iprop(owns (c : Thread nD τ) scM0_0 fullShare (outsAt0 V c n hn).2.2.2.1 ∗ owns (c : Thread nD τ) scM0_1 fullShare (outsAt0 V c n hn).2.2.2.2) ∗ Pipeline.scopedRestBut (Ix := Unit) (Name := ℕ) (U := UR sig nD τ) (Lvl := ℕ) (Val := Elt F) spec0 c [cc0_scratch0, cc0_scratch1]) ∗ (∃ r, prngReg c r)) := rfl

theorem PhiS0_pos (c : Dev nD) (n : ℕ) (h : n ≤ cfg0.N) (hz : n ≠ 0) :
    PhiS0 V c n h = iprop(iprop(iprop(owns (c : Thread nD τ) scM0_0 fullShare (outsAt0 V c (n - 1) (by omega)).2.2.2.1 ∗ owns (c : Thread nD τ) scM0_1 fullShare (outsAt0 V c (n - 1) (by omega)).2.2.2.2) ∗ Pipeline.scopedRestBut (Ix := Unit) (Name := ℕ) (U := UR sig nD τ) (Lvl := ℕ) (Val := Elt F) spec0 c [cc0_scratch0, cc0_scratch1]) ∗ (∃ r, prngReg c r)) := by
  cases n with
  | zero => exact absurd rfl hz
  | succ n => rfl

/-! ## The pipeline's proof data -/

/-- The proof data of region 0 on core `c`: the arrays as the region finds them; after the body at point `t` each input's buffer
    at its block and the outputs' at `outsAt0`; the invariant `PhiS0`; nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => iblk0 V c 4 t
    | ⟨5, _⟩ => (outsAt0 V c t.val t.isLt).1
    | ⟨6, _⟩ => (outsAt0 V c t.val t.isLt).2.1
    | ⟨7, _⟩ => (outsAt0 V c t.val t.isLt).2.2.1
  Φ t := PhiS0 V c t.val (Nat.le_of_lt_succ t.isLt)
  q _ := fullShare
  owed _ := 0

theorem A_eq0 (c : Dev nD) (w : Fin cfg0.W) : (dat0 V c).A w = V c (Pipeline.arrRef spec0 w) := by
  dsimp only [dat0]

theorem PhiS0_castSucc (c : Dev nD) (t : Fin cfg0.N) :
    (dat0 V c).Φ t.castSucc = PhiS0 V c t.val (Nat.le_of_lt t.isLt) := by
  dsimp only [dat0]; simp only [Fin.coe_castSucc]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = iblk0 V c 3 t := by dsimp only [dat0]
theorem after0_4 (c : Dev nD) (t : Fin cfg0.N) : (dat0 V c).after 4 t = iblk0 V c 4 t := by dsimp only [dat0]
theorem after0_5 (c : Dev nD) (t : Fin cfg0.N) : (dat0 V c).after 5 t = (outsAt0 V c t.val t.isLt).1 := by dsimp only [dat0]
theorem after0_6 (c : Dev nD) (t : Fin cfg0.N) : (dat0 V c).after 6 t = (outsAt0 V c t.val t.isLt).2.1 := by dsimp only [dat0]
theorem after0_7 (c : Dev nD) (t : Fin cfg0.N) : (dat0 V c).after 7 t = (outsAt0 V c t.val t.isLt).2.2.1 := by dsimp only [dat0]

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d
theorem before0_3 (c : Dev nD) (t : Fin cfg0.N) (d) : (dat0 V c).before 3 t d = iblk0 V c 3 t :=
  before0_3_of V (dat0 V c) (A_eq0 V c 3) (after0_3 V c) t d
theorem before0_4 (c : Dev nD) (t : Fin cfg0.N) (d) : (dat0 V c).before 4 t d = iblk0 V c 4 t :=
  before0_4_of V (dat0 V c) (A_eq0 V c 4) (after0_4 V c) t d

/-! ## The body obligation, at a generic point -/

def bodyPre0 (c : Dev nD) (t : Fin cfg0.N) : sProp 𝕄 :=
  iprop((dat0 V c).Φ t.castSucc ∗ (dat0 V c).owesAt () t.castSucc
    ∗ (∃ d, owns (c : Thread nD τ) (ms0_0 t) fullShare ((dat0 V c).before 0 t d))
    ∗ (∃ d, owns (c : Thread nD τ) (ms0_1 t) fullShare ((dat0 V c).before 1 t d))
    ∗ (∃ d, owns (c : Thread nD τ) (ms0_2 t) fullShare ((dat0 V c).before 2 t d))
    ∗ (∃ d, owns (c : Thread nD τ) (ms0_3 t) fullShare ((dat0 V c).before 3 t d))
    ∗ (∃ d, owns (c : Thread nD τ) (ms0_4 t) fullShare ((dat0 V c).before 4 t d))
    ∗ (∃ d, owns (c : Thread nD τ) (ms0_5 t) fullShare ((dat0 V c).before 5 t d))
    ∗ (∃ d, owns (c : Thread nD τ) (ms0_6 t) fullShare ((dat0 V c).before 6 t d))
    ∗ (∃ d, owns (c : Thread nD τ) (ms0_7 t) fullShare ((dat0 V c).before 7 t d)))

def bodyPost0 (c : Dev nD) (t : Fin cfg0.N) : sProp 𝕄 :=
  iprop((dat0 V c).Φ t.succ ∗ (dat0 V c).owesAt () t.succ
    ∗ (dat0 V c).leavesExact 0 t
    ∗ (dat0 V c).leavesExact 1 t
    ∗ (dat0 V c).leavesExact 2 t
    ∗ (dat0 V c).leavesExact 3 t
    ∗ (dat0 V c).leavesExact 4 t
    ∗ (dat0 V c).leavesExact 5 t
    ∗ (dat0 V c).leavesExact 6 t
    ∗ (dat0 V c).leavesExact 7 t)

set_option maxHeartbeats 8000000 in
/-- The body at any point. The inputs' memrefs hold their blocks; the closed forms of the two conditions say which case the point
    is in; the invariant hands the body the two running-sum rows (at anything at the first point, at what the point before left
    afterwards) and takes them back at this point's contents; the core owes nothing throughout. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2, before0_3, before0_4]
  rw [show (dat0 V c).owesAt () t.succ = (dat0 V c).owesAt () t.castSucc from rfl]
  rw [show (dat0 V c).Φ t.succ = PhiS0 V c (t.val + 1) t.isLt from rfl, PhiS0_succ]
  have hN : t.val < 20 := lt_of_lt_of_eq t.isLt (show cfg0.N = 20 from N_0)
  by_cases h0 : t.val % 20 = 0
  · have h1 : ¬t.val % 20 = 19 := by omega
    have hz : t.val = 0 := by omega
    rw [show (dat0 V c).leavesExact 0 t = owns (c : Thread nD τ) (ms0_0 t) fullShare ((dat0 V c).after 0 t) from by
      unfold Dat.leavesExact; rw [liveAt0_0 t], after0_0]
    rw [show (dat0 V c).leavesExact 1 t = owns (c : Thread nD τ) (ms0_1 t) fullShare ((dat0 V c).after 1 t) from by
      unfold Dat.leavesExact; rw [liveAt0_1 t], after0_1]
    rw [show (dat0 V c).leavesExact 2 t = owns (c : Thread nD τ) (ms0_2 t) fullShare ((dat0 V c).after 2 t) from by
      unfold Dat.leavesExact; rw [liveAt0_2 t], after0_2]
    rw [show (dat0 V c).leavesExact 3 t = owns (c : Thread nD τ) (ms0_3 t) fullShare ((dat0 V c).after 3 t) from by
      unfold Dat.leavesExact; rw [liveAt0_3 t], after0_3]
    rw [show (dat0 V c).leavesExact 4 t = owns (c : Thread nD τ) (ms0_4 t) fullShare ((dat0 V c).after 4 t) from by
      unfold Dat.leavesExact; rw [liveAt0_4 t], after0_4]
    rw [show (dat0 V c).leavesExact 5 t = owns (c : Thread nD τ) (ms0_5 t) fullShare ((dat0 V c).after 5 t) from by
      unfold Dat.leavesExact; rw [liveAt0_5 t], after0_5]
    rw [Dat.leavesExact_idle (dat0 V c) 6 t (idleAt0_6 t (fun h => h1 ((hcond0_1 t).mp h))) (noFlush0_6 t (fun h => h1 ((hcond0_1 t).mp h)))]
    rw [Dat.leavesExact_idle (dat0 V c) 7 t (idleAt0_7 t (fun h => h1 ((hcond0_1 t).mp h))) (noFlush0_7 t (fun h => h1 ((hcond0_1 t).mp h)))]
    rw [outsAt0_A V c t h0 h1]
    unfold out0_A_5 sout0_A_0 sout0_A_1; (try dsimp only)
    rw [PhiS0_castSucc V c t, PhiS0_zero V c _ _ hz, PhiA0_eq]
    ·
      iintro ⟨⟨⟨⟨HS0, HS1⟩, HR⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩⟩
      iapply ((kernelRun0_A c (grid0.coords t) _ _ _ _ _ _ _ _ _ _ _ _ _ _ _ _ _ _ _ _ ((hcond0_0 t).mpr h0) (fun h => h1 ((hcond0_1 t).mp h)) (iblk0 V c 0 t) (iblk0 V c 1 t) (iblk0 V c 2 t) (iblk0 V c 3 t) (iblk0 V c 4 t)).2.2.2.2.2 _ _ Set.univ _)
      isplitl [H0]; · iexact H0
      isplitl [H1]; · iexact H1
      isplitl [H2]; · iexact H2
      isplitl [H3]; · iexact H3
      isplitl [H4]; · iexact H4
      isplitl [H5]; · iexists _; iexact H5
      isplitl [H6]; · iexact H6
      isplitl [H7]; · iexact H7
      isplitl [HS0]; · iexact HS0
      isplitl [HS1]; · iexact HS1
      iintro ⟨H0, H1, H2, H3, H4, ⟨%e5, H5⟩, H6, H7, ⟨%es0, HS0⟩, ⟨%es1, HS1⟩⟩
      isplitl [HS0 HS1 HR Hg]
      · isplitl [HS0 HS1 HR]
        · isplitl [HS0 HS1]
          · isplitl [HS0]
            · unfold owns; iexists _; isplitr
              swap; · iexact HS0
              ipureintro; exact View.read_writes_of_cover _ _ _ _ _ (scover0_A_0 c _ _ _ _ _ _ _ _ _ _ _ _ _ _ _ _ _ _ _ _ _ _ _ _ _ _ _ _)
            · unfold owns; iexists _; isplitr
              swap; · iexact HS1
              ipureintro; exact View.read_writes_of_cover _ _ _ _ _ (scover0_A_1 c _ _ _ _ _ _ _ _ _ _ _ _ _ _ _ _ _ _ _ _ _ _ _ _ _ _ _ _)
          iexact HR
        iexact Hg
      isplitl [Ho]; · iexact Ho
      isplitl [H0]; · iexact H0
      isplitl [H1]; · iexact H1
      isplitl [H2]; · iexact H2
      isplitl [H3]; · iexact H3
      isplitl [H4]; · iexact H4
      isplitl [H5]
      · unfold owns; iexists _; isplitr
        swap; · iexact H5
        ipureintro; exact View.read_writes_of_cover _ _ _ _ _ (cover0_A_5 c _ _ _ _ _ _ _ _ _ _ _ _ _ _ _ _ _ _ _ _ _ _ _ _ _ _ _ _)
      isplitl [H6]; · iexists _; iexact H6
      iexists _; iexact H7
  · have hz : t.val ≠ 0 := by omega
    by_cases h1 : t.val % 20 = 19
    ·
      rw [show (dat0 V c).leavesExact 0 t = owns (c : Thread nD τ) (ms0_0 t) fullShare ((dat0 V c).after 0 t) from by
        unfold Dat.leavesExact; rw [liveAt0_0 t], after0_0]
      rw [show (dat0 V c).leavesExact 1 t = owns (c : Thread nD τ) (ms0_1 t) fullShare ((dat0 V c).after 1 t) from by
        unfold Dat.leavesExact; rw [liveAt0_1 t], after0_1]
      rw [show (dat0 V c).leavesExact 2 t = owns (c : Thread nD τ) (ms0_2 t) fullShare ((dat0 V c).after 2 t) from by
        unfold Dat.leavesExact; rw [liveAt0_2 t], after0_2]
      rw [show (dat0 V c).leavesExact 3 t = owns (c : Thread nD τ) (ms0_3 t) fullShare ((dat0 V c).after 3 t) from by
        unfold Dat.leavesExact; rw [liveAt0_3 t], after0_3]
      rw [show (dat0 V c).leavesExact 4 t = owns (c : Thread nD τ) (ms0_4 t) fullShare ((dat0 V c).after 4 t) from by
        unfold Dat.leavesExact; rw [liveAt0_4 t], after0_4]
      rw [show (dat0 V c).leavesExact 5 t = owns (c : Thread nD τ) (ms0_5 t) fullShare ((dat0 V c).after 5 t) from by
        unfold Dat.leavesExact; rw [liveAt0_5 t], after0_5]
      rw [show (dat0 V c).leavesExact 6 t = owns (c : Thread nD τ) (ms0_6 t) fullShare ((dat0 V c).after 6 t) from by
        unfold Dat.leavesExact; rw [liveAt0_6_C t ((hcond0_1 t).mpr h1)], after0_6]
      rw [show (dat0 V c).leavesExact 7 t = owns (c : Thread nD τ) (ms0_7 t) fullShare ((dat0 V c).after 7 t) from by
        unfold Dat.leavesExact; rw [liveAt0_7_C t ((hcond0_1 t).mpr h1)], after0_7]
      rw [outsAt0_C V c t h0 h1]
      unfold out0_C_5 out0_C_6 out0_C_7 sout0_C_0 sout0_C_1; (try dsimp only)
      rw [PhiS0_castSucc V c t, PhiS0_pos V c _ _ hz]
      iintro ⟨⟨⟨⟨HS0, HS1⟩, HR⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩⟩
      iapply ((kernelRun0_C c (grid0.coords t) _ _ _ _ _ _ _ _ _ _ _ _ _ _ _ _ _ _ _ _ (fun h => h0 ((hcond0_0 t).mp h)) ((hcond0_1 t).mpr h1) (iblk0 V c 0 t) (iblk0 V c 1 t) (iblk0 V c 2 t) (iblk0 V c 3 t) (iblk0 V c 4 t) _ _).2.2.2.2.2 Set.univ _)
      isplitl [H0]; · iexact H0
      isplitl [H1]; · iexact H1
      isplitl [H2]; · iexact H2
      isplitl [H3]; · iexact H3
      isplitl [H4]; · iexact H4
      isplitl [H5]; · iexists _; iexact H5
      isplitl [H6]; · iexists _; iexact H6
      isplitl [H7]; · iexists _; iexact H7
      isplitl [HS0]; · iexact HS0
      isplitl [HS1]; · iexact HS1
      iintro ⟨H0, H1, H2, H3, H4, ⟨%e5, H5⟩, ⟨%e6, H6⟩, ⟨%e7, H7⟩, ⟨%es0, HS0⟩, ⟨%es1, HS1⟩⟩
      isplitl [HS0 HS1 HR Hg]
      · isplitl [HS0 HS1 HR]
        · isplitl [HS0 HS1]
          · isplitl [HS0]
            · unfold owns; iexists _; isplitr
              swap; · iexact HS0
              ipureintro; exact View.read_writes_of_cover _ _ _ _ _ (scover0_C_0 c _ _ _ _ _ _ _ _ _ _ _ _ _ _ _ _ _ _ _ _ _ _ _ _ _ _ _ _ _ _)
            · unfold owns; iexists _; isplitr
              swap; · iexact HS1
              ipureintro; exact View.read_writes_of_cover _ _ _ _ _ (scover0_C_1 c _ _ _ _ _ _ _ _ _ _ _ _ _ _ _ _ _ _ _ _ _ _ _ _ _ _ _ _ _ _)
          iexact HR
        iexact Hg
      isplitl [Ho]; · iexact Ho
      isplitl [H0]; · iexact H0
      isplitl [H1]; · iexact H1
      isplitl [H2]; · iexact H2
      isplitl [H3]; · iexact H3
      isplitl [H4]; · iexact H4
      isplitl [H5]
      · unfold owns; iexists _; isplitr
        swap; · iexact H5
        ipureintro; exact View.read_writes_of_cover _ _ _ _ _ (cover0_C_5 c _ _ _ _ _ _ _ _ _ _ _ _ _ _ _ _ _ _ _ _ _ _ _ _ _ _ _ _ _ _)
      isplitl [H6]
      · unfold owns; iexists _; isplitr
        swap; · iexact H6
        ipureintro; exact View.read_writes_of_cover _ _ _ _ _ (cover0_C_6 c _ _ _ _ _ _ _ _ _ _ _ _ _ _ _ _ _ _ _ _ _ _ _ _ _ _ _ _ _ _)
      · unfold owns; iexists _; isplitr
        swap; · iexact H7
        ipureintro; exact View.read_writes_of_cover _ _ _ _ _ (cover0_C_7 c _ _ _ _ _ _ _ _ _ _ _ _ _ _ _ _ _ _ _ _ _ _ _ _ _ _ _ _ _ _)
    ·
      rw [show (dat0 V c).leavesExact 0 t = owns (c : Thread nD τ) (ms0_0 t) fullShare ((dat0 V c).after 0 t) from by
        unfold Dat.leavesExact; rw [liveAt0_0 t], after0_0]
      rw [show (dat0 V c).leavesExact 1 t = owns (c : Thread nD τ) (ms0_1 t) fullShare ((dat0 V c).after 1 t) from by
        unfold Dat.leavesExact; rw [liveAt0_1 t], after0_1]
      rw [show (dat0 V c).leavesExact 2 t = owns (c : Thread nD τ) (ms0_2 t) fullShare ((dat0 V c).after 2 t) from by
        unfold Dat.leavesExact; rw [liveAt0_2 t], after0_2]
      rw [show (dat0 V c).leavesExact 3 t = owns (c : Thread nD τ) (ms0_3 t) fullShare ((dat0 V c).after 3 t) from by
        unfold Dat.leavesExact; rw [liveAt0_3 t], after0_3]
      rw [show (dat0 V c).leavesExact 4 t = owns (c : Thread nD τ) (ms0_4 t) fullShare ((dat0 V c).after 4 t) from by
        unfold Dat.leavesExact; rw [liveAt0_4 t], after0_4]
      rw [show (dat0 V c).leavesExact 5 t = owns (c : Thread nD τ) (ms0_5 t) fullShare ((dat0 V c).after 5 t) from by
        unfold Dat.leavesExact; rw [liveAt0_5 t], after0_5]
      rw [Dat.leavesExact_idle (dat0 V c) 6 t (idleAt0_6 t (fun h => h1 ((hcond0_1 t).mp h))) (noFlush0_6 t (fun h => h1 ((hcond0_1 t).mp h)))]
      rw [Dat.leavesExact_idle (dat0 V c) 7 t (idleAt0_7 t (fun h => h1 ((hcond0_1 t).mp h))) (noFlush0_7 t (fun h => h1 ((hcond0_1 t).mp h)))]
      rw [outsAt0_B V c t h0 h1]
      unfold out0_B_5 sout0_B_0 sout0_B_1; (try dsimp only)
      rw [PhiS0_castSucc V c t, PhiS0_pos V c _ _ hz]
      iintro ⟨⟨⟨⟨HS0, HS1⟩, HR⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩⟩
      iapply ((kernelRun0_B c (grid0.coords t) _ _ _ _ _ _ _ _ _ _ _ _ _ _ _ _ _ _ _ _ (fun h => h0 ((hcond0_0 t).mp h)) (fun h => h1 ((hcond0_1 t).mp h)) (iblk0 V c 0 t) (iblk0 V c 1 t) (iblk0 V c 2 t) (iblk0 V c 3 t) (iblk0 V c 4 t) _ _).2.2.2.2.2 _ _ Set.univ _)
      isplitl [H0]; · iexact H0
      isplitl [H1]; · iexact H1
      isplitl [H2]; · iexact H2
      isplitl [H3]; · iexact H3
      isplitl [H4]; · iexact H4
      isplitl [H5]; · iexists _; iexact H5
      isplitl [H6]; · iexact H6
      isplitl [H7]; · iexact H7
      isplitl [HS0]; · iexact HS0
      isplitl [HS1]; · iexact HS1
      iintro ⟨H0, H1, H2, H3, H4, ⟨%e5, H5⟩, H6, H7, ⟨%es0, HS0⟩, ⟨%es1, HS1⟩⟩
      isplitl [HS0 HS1 HR Hg]
      · isplitl [HS0 HS1 HR]
        · isplitl [HS0 HS1]
          · isplitl [HS0]
            · unfold owns; iexists _; isplitr
              swap; · iexact HS0
              ipureintro; exact View.read_writes_of_cover _ _ _ _ _ (scover0_B_0 c _ _ _ _ _ _ _ _ _ _ _ _ _ _ _ _ _ _ _ _ _ _ _ _ _ _ _ _ _ _)
            · unfold owns; iexists _; isplitr
              swap; · iexact HS1
              ipureintro; exact View.read_writes_of_cover _ _ _ _ _ (scover0_B_1 c _ _ _ _ _ _ _ _ _ _ _ _ _ _ _ _ _ _ _ _ _ _ _ _ _ _ _ _ _ _)
          iexact HR
        iexact Hg
      isplitl [Ho]; · iexact Ho
      isplitl [H0]; · iexact H0
      isplitl [H1]; · iexact H1
      isplitl [H2]; · iexact H2
      isplitl [H3]; · iexact H3
      isplitl [H4]; · iexact H4
      isplitl [H5]
      · unfold owns; iexists _; isplitr
        swap; · iexact H5
        ipureintro; exact View.read_writes_of_cover _ _ _ _ _ (cover0_B_5 c _ _ _ _ _ _ _ _ _ _ _ _ _ _ _ _ _ _ _ _ _ _ _ _ _ _ _ _ _ _)
      isplitl [H6]; · iexists _; iexact H6
      iexists _; iexact H7

/-- The library's body obligation, at every point. -/
theorem body_obligation0 (c : Dev nD) : BodyObligation (dat0 (F := F) V c) (defs₀ (F := F)) Variants.none () Set.univ := fun t => by
  rw [bigSep_W0, bigSep_W0]
  exact sound_body0 V c t

/-- What the launch hands the region is the invariant before the first point. -/
theorem hin0 (c : Dev nD) : Pipeline.ΦA spec0 c ⊢ (dat0 V c).Φ 0 := by
  rw [show (dat0 V c).Φ 0 = PhiS0 V c 0 (Nat.zero_le _) from rfl, PhiS0_zero V c 0 _ rfl]
  try exact Idealize.SL.BI.Entails.refl _

/-- After the last point the invariant gives the class's back: the rows' named contents are forgotten. -/
theorem hout0 (c : Dev nD) : (dat0 V c).Φ (Fin.last cfg0.N) ⊢ Pipeline.ΦA spec0 c := by
  have ht : (Fin.last cfg0.N).val ≠ 0 := by rw [Fin.val_last]; have : cfg0.N = 20 := N_0; omega
  rw [show (dat0 V c).Φ (Fin.last cfg0.N) = PhiS0 V c (Fin.last cfg0.N).val (Nat.le_of_lt_succ (Fin.last cfg0.N).isLt) from rfl, PhiS0_pos V c _ _ ht, PhiA0_eq]
  iintro ⟨⟨⟨HS0, HS1⟩, HR⟩, Hg⟩
  isplitl [HS0 HS1 HR]
  · isplitl [HS0 HS1]
    · isplitl [HS0]
      · iexists _; iexact HS0
      · iexists _; iexact HS1
    iexact HR
  iexact Hg

end Region0

end Cert.Kernel.Hand

end
-- ==== Proof.KBn1.lean ====
import proofs.«160011_j2121713844488_1_alg».proof.Proof.Gen.Kernel.Launch
import proofs.«160011_j2121713844488_1_alg».proof.Proof.Gen.Kernel.Skeleton
import proofs.«160011_j2121713844488_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

/-! # The normalisation region 1: what one grid point's body does to its staging buffers

Region 1 normalises a 100000 × 128 array in 20 blocks of 5000 rows. At a point the body reads the
block of window 0 and four 1 × 128 rows (windows 1 to 4: the mean, the variance, the scale and the
shift, the same row at every point), and writes the whole 5000 × 128 block of window 5: every entry is
(x − mean) · rsqrt(variance + ε) · scale + shift, with the row operands repeated down the rows. The
body keeps nothing between points and leaves its inputs as it found them.

Everything is stated at a parameter `V`, the contents of the core's buffers when the region is
entered, and at any float instance. -/

-- membership of an index in a rectangle with 5000 rows is checked structurally, once per coordinate
set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the contents of the core's buffers when the region is entered
variable (V : (c : Dev nD) → (b : Ref sig .tc) → Buf (Elt F) ((c : Thread nD τ).loc b))

/-! ## The windows' blocks -/

/-- Window `w`'s block at point `t`, read off the window's array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- Input window 0's staging buffer holds the window's block at every point, whether the pipeline fetched
    it there or not (an unfetched window's block index has not moved), for any proof data whose array is the
    entry contents and whose body leaves the block in place. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)
/-- Input window 1's staging buffer holds the window's block at every point, whether the pipeline fetched
    it there or not (an unfetched window's block index has not moved), for any proof data whose array is the
    entry contents and whose body leaves the block in place. -/
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)
/-- Input window 2's staging buffer holds the window's block at every point, whether the pipeline fetched
    it there or not (an unfetched window's block index has not moved), for any proof data whose array is the
    entry contents and whose body leaves the block in place. -/
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)
/-- Input window 3's staging buffer holds the window's block at every point, whether the pipeline fetched
    it there or not (an unfetched window's block index has not moved), for any proof data whose array is the
    entry contents and whose body leaves the block in place. -/
theorem before1_3_of {c : Dev nD} (dat : Dat τ (Elt F) Unit ℕ (UR sig nD τ) ℕ cfg1 c) (hA : dat.A 3 = V c (Pipeline.arrRef spec1 3))
    (hafter : ∀ t, dat.after 3 t = iblk1 V c 3 t) (t : Fin cfg1.N) (d) : dat.before 3 t d = iblk1 V c 3 t :=
  (dat.before_in_eq_fetched 3 rfl (fun _ => rfl) (fun _ _ _ => rfl) (fun t => by rw [hafter]; unfold Dat.blockOf iblk1; rw [hA]; try rfl) t d).trans
    (by unfold Dat.fetched Dat.blockOf iblk1; rw [hA]; try rfl)
/-- Input window 4's staging buffer holds the window's block at every point, whether the pipeline fetched
    it there or not (an unfetched window's block index has not moved), for any proof data whose array is the
    entry contents and whose body leaves the block in place. -/
theorem before1_4_of {c : Dev nD} (dat : Dat τ (Elt F) Unit ℕ (UR sig nD τ) ℕ cfg1 c) (hA : dat.A 4 = V c (Pipeline.arrRef spec1 4))
    (hafter : ∀ t, dat.after 4 t = iblk1 V c 4 t) (t : Fin cfg1.N) (d) : dat.before 4 t d = iblk1 V c 4 t :=
  (dat.before_in_eq_fetched 4 rfl (fun _ => rfl) (fun _ _ _ => rfl) (fun t => by rw [hafter]; unfold Dat.blockOf iblk1; rw [hA]; try rfl) t d).trans
    (by unfold Dat.fetched Dat.blockOf iblk1; rw [hA]; try rfl)

/-! ## The body's accesses: every load and the one store go through the whole buffer -/

abbrev r1_0 : Rect S5000x128 := Rect.unit (s := S5000x128) ![0, 0] S5000x128.size inb_S5000x128_S5000x128_0_0
abbrev r1_1 : Rect S1x128 := Rect.unit (s := S1x128) ![0, 0] S1x128.size inb_S1x128_S1x128_0_0

/-! ## What the body leaves in the output window's buffer -/

/-- Window 5's staging buffer after the body, from the input windows' blocks: its one store, of the
    normalised block (the variance row is the payload's first operand, the data block its second). -/
def out1_5 (x0 : Vec F S5000x128 .f32) (x1 : Vec F S1x128 .f32) (x2 : Vec F S1x128 .f32) (x3 : Vec F S1x128 .f32) (x4 : Vec F S1x128 .f32) : Vec F S5000x128 .f32 :=
  View.canon [⟨r1_0, k1_pay1 (View.ld x2 r1_1) (View.ld x0 r1_0) (View.ld x1 r1_1) (View.ld x3 r1_1) (View.ld x4 r1_1)⟩]

/-- The one store is of the whole block, so it covers the buffer. -/
theorem cover1_5 (p0 : Vec F S5000x128 .f32) (y : S5000x128.Idx) :
    ∃ pc ∈ ([⟨r1_0, p0⟩] : List (View.Piece (Elt F) S5000x128 .f32)), y ∈ pc.1.set :=
  View.cover_of_tiled [⟨r1_0, p0⟩] S5000x128.size (by rfl) y

/-! ## The body's triple -/

set_option maxHeartbeats 1000000 in
/-- The body on whole staging buffers — the inputs' reading `x0 … x4`, the output's holding anything —
    runs to the continuation with the inputs' as they were and the output's at `out1_5` of the inputs.
    The body also loads the output's buffer once, before it stores it; the value is not used. -/
theorem sound_kernel1 (c : Dev nD) (E : Set ℕ) (i : grid1.Coords) (arg0 : Memref sig .tc .vmem S5000x128 .f32) (harg0 : arg0.IsWhole) (arg1 : Memref sig .tc .vmem S1x128 .f32) (harg1 : arg1.IsWhole) (arg2 : Memref sig .tc .vmem S1x128 .f32) (harg2 : arg2.IsWhole) (arg3 : Memref sig .tc .vmem S1x128 .f32) (harg3 : arg3.IsWhole) (arg4 : Memref sig .tc .vmem S1x128 .f32) (harg4 : arg4.IsWhole) (arg5 : Memref sig .tc .vmem S5000x128 .f32) (harg5 : arg5.IsWhole)
    (x0 : Vec F S5000x128 .f32) (x1 : Vec F S1x128 .f32) (x2 : Vec F S1x128 .f32) (x3 : Vec F S1x128 .f32) (x4 : Vec F S1x128 .f32) (K : PUnit → sProp 𝕄) :
    iprop(owns (c : Thread nD τ) arg0 fullShare x0 ∗ owns (c : Thread nD τ) arg1 fullShare x1 ∗ owns (c : Thread nD τ) arg2 fullShare x2 ∗ owns (c : Thread nD τ) arg3 fullShare x3 ∗ owns (c : Thread nD τ) arg4 fullShare x4 ∗ (∃ d, owns (c : Thread nD τ) arg5 fullShare d)
        ∗ (iprop(owns (c : Thread nD τ) arg0 fullShare x0 ∗ owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare (out1_5 x0 x1 x2 x3 x4)) -∗ K ⟨⟩))
      ⊢ wp frame (wpE (defs₀ (F := F)) Variants.none c none) E (cc1__bn_kernel i arg0 harg0 arg1 harg1 arg2 harg2 arg3 harg3 arg4 harg4 arg5 harg5) K := by
  simp only [cc1__bn_kernel_eq_skeleton]; unfold cc1__bn_kernel_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, Hk⟩
  subst hf0 hf1 hf2 hf3 hf4
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  iexists _; isplitr
  swap; · iexact H5
  ipureintro
  exact View.read_writes_eq_canon _ _ _ (cover1_5 _)

/-! ## The pipeline's proof data -/

/-- The proof data of pipeline 1 on core `c`: the arrays as the region finds them; after the body at
    point `t` each input's buffer at its block and the output's at `out1_5` of the input blocks; the
    invariant is the scoped rest and the generator register, untouched; nothing owed; full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => iblk1 V c 4 t
    | ⟨5, _⟩ => out1_5 (iblk1 V c 0 t) (iblk1 V c 1 t) (iblk1 V c 2 t) (iblk1 V c 3 t) (iblk1 V c 4 t)
  Φ _ := Pipeline.ΦA spec1 c
  q _ := fullShare
  owed _ := 0

/-- The proof data's arrays are the region-entry contents. -/
theorem A_eq1 (c : Dev nD) (w : Fin cfg1.W) : (dat1 V c).A w = V c (Pipeline.arrRef spec1 w) := by
  dsimp only [dat1]

/-- What the body leaves, window by window. -/
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = iblk1 V c 4 t := by dsimp only [dat1]
theorem after1_5 (c : Dev nD) (t : Fin cfg1.N) : (dat1 V c).after 5 t = out1_5 (iblk1 V c 0 t) (iblk1 V c 1 t) (iblk1 V c 2 t) (iblk1 V c 3 t) (iblk1 V c 4 t) := by dsimp only [dat1]

/-- Each input's staging buffer holds its block at every point, fetched there or not. -/
theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d
theorem before1_3 (c : Dev nD) (t : Fin cfg1.N) (d) : (dat1 V c).before 3 t d = iblk1 V c 3 t :=
  before1_3_of V (dat1 V c) (A_eq1 V c 3) (after1_3 V c) t d
theorem before1_4 (c : Dev nD) (t : Fin cfg1.N) (d) : (dat1 V c).before 4 t d = iblk1 V c 4 t :=
  before1_4_of V (dat1 V c) (A_eq1 V c 4) (after1_4 V c) t d

/-! ## The body obligation, at a generic point -/

/-- What the body is called with at point `t`, the windows one by one, -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d))
    ∗ (∃ d, owns (c : Thread nD τ) (st1_4 t) fullShare ((dat1 V c).before 4 t d))
    ∗ (∃ d, owns (c : Thread nD τ) (st1_5 t) fullShare ((dat1 V c).before 5 t d)))

/-- and what it returns. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t)
    ∗ owns (c : Thread nD τ) (st1_4 t) fullShare ((dat1 V c).after 4 t)
    ∗ owns (c : Thread nD τ) (st1_5 t) fullShare ((dat1 V c).after 5 t))

/-- The body at any point: the inputs' buffers hold their blocks, so `sound_kernel1` applies; the
    invariant and the core's owed transfers pass through unread. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3, before1_4]
  rw [show (dat1 V c).Φ t.succ = (dat1 V c).Φ t.castSucc from rfl,
    show (dat1 V c).owesAt () t.succ = (dat1 V c).owesAt () t.castSucc from rfl,
    after1_0, after1_1, after1_2, after1_3, after1_4, after1_5]
  iintro ⟨HΦ, Ho, ⟨%d0, H0⟩, ⟨%d1, H1⟩, ⟨%d2, H2⟩, ⟨%d3, H3⟩, ⟨%d4, H4⟩, ⟨%d5, H5⟩⟩
  iapply (sound_kernel1 c Set.univ _ _ _ _ _ _ _ _ _ _ _ _ _ (iblk1 V c 0 t) (iblk1 V c 1 t) (iblk1 V c 2 t) (iblk1 V c 3 t) (iblk1 V c 4 t) _)
  isplitl [H0]; · iexact H0
  isplitl [H1]; · iexact H1
  isplitl [H2]; · iexact H2
  isplitl [H3]; · iexact H3
  isplitl [H4]; · iexact H4
  isplitl [H5]; · iexists _; iexact H5
  iintro ⟨H0, H1, H2, H3, H4, H5⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  iexact H5

/-- The library's body obligation, at every point. -/
theorem body_obligation1 (c : Dev nD) : BodyObligation (dat1 (F := F) V c) (defs₀ (F := F)) Variants.none () Set.univ := fun t => by
  rw [bigSep_W1, bigSep_W1]
  exact sound_body1 V c t

end Cert.Kernel.Hand

end
-- ==== Proof.KMlp2Runs.lean ====
/-
  Region 2 (layer 2's two-layer perceptron with running column sums): what its three control cases share.
  The body branches twice on the grid position: at the first point it zeroes the two running-sum scratch rows, at the
  last point it copies them into the two [1,128] outputs; in between it only adds the block's column sums of z and of z².
  Here: each window's block as read off the array the region finds, the two conditions decided over the 20 points,
  where the two [1,128] outputs are idle, and the staging and scratch memrefs the body is run on.
-/
import proofs.«160011_j2121713844488_1_alg».proof.Proof.Gen.Kernel.Launch
import proofs.«160011_j2121713844488_1_alg».proof.Proof.Gen.Kernel.Skeleton
import proofs.«160011_j2121713844488_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Region2

variable (V : (c : Dev nD) → (b : Ref sig .tc) → Buf (Elt F) ((c : Thread nD τ).loc b))

/-- Window `w`'s block at point `t`, read off its array as the region finds it. -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- Input window 0's staging buffer holds its block at every point, fetched there or not. -/
theorem before2_0_of {c : Dev nD} (dat : Dat τ (Elt F) Unit ℕ (UR sig nD τ) ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)

/-- Input window 1's staging buffer holds its block at every point, fetched there or not. -/
theorem before2_1_of {c : Dev nD} (dat : Dat τ (Elt F) Unit ℕ (UR sig nD τ) ℕ cfg2 c) (hA : dat.A 1 = V c (Pipeline.arrRef spec2 1))
    (hafter : ∀ t, dat.after 1 t = iblk2 V c 1 t) (t : Fin cfg2.N) (d) : dat.before 1 t d = iblk2 V c 1 t :=
  (dat.before_in_eq_fetched 1 rfl (fun _ => rfl) (fun _ _ _ => rfl) (fun t => by rw [hafter]; unfold Dat.blockOf iblk2; rw [hA]; try rfl) t d).trans
    (by unfold Dat.fetched Dat.blockOf iblk2; rw [hA]; try rfl)

/-- Input window 2's staging buffer holds its block at every point, fetched there or not. -/
theorem before2_2_of {c : Dev nD} (dat : Dat τ (Elt F) Unit ℕ (UR sig nD τ) ℕ cfg2 c) (hA : dat.A 2 = V c (Pipeline.arrRef spec2 2))
    (hafter : ∀ t, dat.after 2 t = iblk2 V c 2 t) (t : Fin cfg2.N) (d) : dat.before 2 t d = iblk2 V c 2 t :=
  (dat.before_in_eq_fetched 2 rfl (fun _ => rfl) (fun _ _ _ => rfl) (fun t => by rw [hafter]; unfold Dat.blockOf iblk2; rw [hA]; try rfl) t d).trans
    (by unfold Dat.fetched Dat.blockOf iblk2; rw [hA]; try rfl)

/-- Input window 3's staging buffer holds its block at every point, fetched there or not. -/
theorem before2_3_of {c : Dev nD} (dat : Dat τ (Elt F) Unit ℕ (UR sig nD τ) ℕ cfg2 c) (hA : dat.A 3 = V c (Pipeline.arrRef spec2 3))
    (hafter : ∀ t, dat.after 3 t = iblk2 V c 3 t) (t : Fin cfg2.N) (d) : dat.before 3 t d = iblk2 V c 3 t :=
  (dat.before_in_eq_fetched 3 rfl (fun _ => rfl) (fun _ _ _ => rfl) (fun t => by rw [hafter]; unfold Dat.blockOf iblk2; rw [hA]; try rfl) t d).trans
    (by unfold Dat.fetched Dat.blockOf iblk2; rw [hA]; try rfl)

/-- Input window 4's staging buffer holds its block at every point, fetched there or not. -/
theorem before2_4_of {c : Dev nD} (dat : Dat τ (Elt F) Unit ℕ (UR sig nD τ) ℕ cfg2 c) (hA : dat.A 4 = V c (Pipeline.arrRef spec2 4))
    (hafter : ∀ t, dat.after 4 t = iblk2 V c 4 t) (t : Fin cfg2.N) (d) : dat.before 4 t d = iblk2 V c 4 t :=
  (dat.before_in_eq_fetched 4 rfl (fun _ => rfl) (fun _ _ _ => rfl) (fun t => by rw [hafter]; unfold Dat.blockOf iblk2; rw [hA]; try rfl) t d).trans
    (by unfold Dat.fetched Dat.blockOf iblk2; rw [hA]; try rfl)

end Region2

/-! ## The two branch conditions, decided over the grid -/

/-- "This is the first point": the condition under which the running sums are zeroed. -/
abbrev cond2_0 (i : grid2.Coords) : Prop := (Scalar.cmpi .ne (Scalar.extui (Scalar.cmpi .eq (BitVec.ofNat 32 (i 0).val) 0#32)) 0#32) = 1#1
theorem hcond2_0 : ∀ t : Fin cfg2.N, cond2_0 (grid2.coords t) ↔ t.val % 20 = 0 :=
  (by decide +kernel : ∀ t : Fin grid2.N, cond2_0 (grid2.coords t) ↔ t.val % 20 = 0)

/-- "This is the last point": the condition under which the running sums are copied out. -/
abbrev cond2_1 (i : grid2.Coords) : Prop := k2_cond2 i = 1#1
theorem hcond2_1 : ∀ t : Fin cfg2.N, cond2_1 (grid2.coords t) ↔ t.val % 20 = 19 :=
  (by decide +kernel : ∀ t : Fin grid2.N, cond2_1 (grid2.coords t) ↔ t.val % 20 = 19)

/-! ## Where the windows are idle -/

theorem liveAt2_0 : ∀ t : Fin cfg2.N, cfg2.idle 0 (grid2.coords t) = false := by decide +kernel
theorem liveAt2_1 : ∀ t : Fin cfg2.N, cfg2.idle 1 (grid2.coords t) = false := by decide +kernel
theorem liveAt2_2 : ∀ t : Fin cfg2.N, cfg2.idle 2 (grid2.coords t) = false := by decide +kernel
theorem liveAt2_3 : ∀ t : Fin cfg2.N, cfg2.idle 3 (grid2.coords t) = false := by decide +kernel
theorem liveAt2_4 : ∀ t : Fin cfg2.N, cfg2.idle 4 (grid2.coords t) = false := by decide +kernel
theorem liveAt2_5 : ∀ t : Fin cfg2.N, cfg2.idle 5 (grid2.coords t) = false := by decide +kernel
/-- Output 6 is stored only at the last point: idle, and not written back, at every other point. -/
theorem idleAt2_6 : ∀ t : Fin cfg2.N, ¬cond2_1 (grid2.coords t) → cfg2.idle 6 (grid2.coords t) = true := by decide +kernel
theorem noFlush2_6 : ∀ t : Fin cfg2.N, ¬cond2_1 (grid2.coords t) → (cfg2.win 6).flush t = false := by decide +kernel
theorem liveAt2_6_C : ∀ t : Fin cfg2.N, cond2_1 (grid2.coords t) → cfg2.idle 6 (grid2.coords t) = false := by decide +kernel
/-- Output 7 is stored only at the last point: idle, and not written back, at every other point. -/
theorem idleAt2_7 : ∀ t : Fin cfg2.N, ¬cond2_1 (grid2.coords t) → cfg2.idle 7 (grid2.coords t) = true := by decide +kernel
theorem noFlush2_7 : ∀ t : Fin cfg2.N, ¬cond2_1 (grid2.coords t) → (cfg2.win 7).flush t = false := by decide +kernel
theorem liveAt2_7_C : ∀ t : Fin cfg2.N, cond2_1 (grid2.coords t) → cfg2.idle 7 (grid2.coords t) = false := by decide +kernel

/-! ## The memrefs the body is run on -/

abbrev VO2_5 : View sig .tc .vmem S5000x128 .f32 := (Memref.whole cc2_stg5_0 : Memref sig .tc .vmem S5000x128 .f32).view
abbrev VO2_6 : View sig .tc .vmem S1x128 .f32 := (Memref.whole cc2_stg6_0 : Memref sig .tc .vmem S1x128 .f32).view
abbrev VO2_7 : View sig .tc .vmem S1x128 .f32 := (Memref.whole cc2_stg7_0 : Memref sig .tc .vmem S1x128 .f32).view
abbrev ms2_0 (t : Fin cfg2.N) : Memref sig .tc .vmem S5000x128 .f32 := win2_0.stage (cfg2.slots t 0)
abbrev hs2_0 (t : Fin cfg2.N) : (ms2_0 t).IsWhole := hstage2_0 ((cfg2.slots t 0).cast nbuf2_0)
abbrev ms2_1 (t : Fin cfg2.N) : Memref sig .tc .vmem S128x128 .f32 := win2_1.stage (cfg2.slots t 1)
abbrev hs2_1 (t : Fin cfg2.N) : (ms2_1 t).IsWhole := hstage2_1 ((cfg2.slots t 1).cast nbuf2_1)
abbrev ms2_2 (t : Fin cfg2.N) : Memref sig .tc .vmem S1x128 .f32 := win2_2.stage (cfg2.slots t 2)
abbrev hs2_2 (t : Fin cfg2.N) : (ms2_2 t).IsWhole := hstage2_2 ((cfg2.slots t 2).cast nbuf2_2)
abbrev ms2_3 (t : Fin cfg2.N) : Memref sig .tc .vmem S128x128 .f32 := win2_3.stage (cfg2.slots t 3)
abbrev hs2_3 (t : Fin cfg2.N) : (ms2_3 t).IsWhole := hstage2_3 ((cfg2.slots t 3).cast nbuf2_3)
abbrev ms2_4 (t : Fin cfg2.N) : Memref sig .tc .vmem S1x128 .f32 := win2_4.stage (cfg2.slots t 4)
abbrev hs2_4 (t : Fin cfg2.N) : (ms2_4 t).IsWhole := hstage2_4 ((cfg2.slots t 4).cast nbuf2_4)
abbrev ms2_5 (t : Fin cfg2.N) : Memref sig .tc .vmem S5000x128 .f32 := win2_5.stage (cfg2.slots t 5)
abbrev hs2_5 (t : Fin cfg2.N) : (ms2_5 t).IsWhole := hstage2_5 ((cfg2.slots t 5).cast nbuf2_5)
abbrev ms2_6 (t : Fin cfg2.N) : Memref sig .tc .vmem S1x128 .f32 := win2_6.stage (cfg2.slots t 6)
abbrev hs2_6 (t : Fin cfg2.N) : (ms2_6 t).IsWhole := hstage2_6 ((cfg2.slots t 6).cast nbuf2_6)
abbrev ms2_7 (t : Fin cfg2.N) : Memref sig .tc .vmem S1x128 .f32 := win2_7.stage (cfg2.slots t 7)
abbrev hs2_7 (t : Fin cfg2.N) : (ms2_7 t).IsWhole := hstage2_7 ((cfg2.slots t 7).cast nbuf2_7)
/-- The two running-sum rows: whole scoped buffers of the kernel's own. -/
abbrev scM2_0 : Memref sig .tc .vmem S1x128 .f32 := Memref.whole cc2_scratch0
abbrev scM2_1 : Memref sig .tc .vmem S1x128 .f32 := Memref.whole cc2_scratch1
abbrev VS2_0 : View sig .tc .vmem S1x128 .f32 := scM2_0.view
abbrev VS2_1 : View sig .tc .vmem S1x128 .f32 := scM2_1.view

/-- The class invariant with the two running-sum rows split out as memrefs owned at some contents; every other scoped
    buffer stays unopened. -/
theorem PhiA2_eq (c : Dev nD) :
    (Pipeline.ΦA spec2 c : sProp 𝕄)
      = iprop(iprop(iprop((∃ d, owns (c : Thread nD τ) scM2_0 fullShare d) ∗ (∃ d, owns (c : Thread nD τ) scM2_1 fullShare d))
          ∗ Pipeline.scopedRestBut (Ix := Unit) (Name := ℕ) (U := UR sig nD τ) (Lvl := ℕ) (Val := Elt F) spec2 c [cc2_scratch0, cc2_scratch1]) ∗ (∃ r, prngReg c r)) := by
  unfold Pipeline.ΦA; rw [scopedRest2_split]; simp only [scM2_0, scM2_1, owns_whole]; try rfl

end Cert.Kernel.Hand

end
-- ==== Proof.KMlp2RunA.lean ====
/-
  Region 2, control case A: the kernel body run once, symbolically, on whole staging memrefs.
-/
import proofs.«160011_j2121713844488_1_alg».proof.Proof.KMlp2Runs

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- The body at the first point (the running sums are zeroed first, nothing is copied out): on whole staging memrefs — the five inputs at their blocks, the z output at anything,
    the two [1,128] outputs idle at whatever they hold, the two running-sum rows at anything — it runs to its
    continuation with the inputs as they were and each buffer it stored into with its pieces written; the pieces are the
    witness the run finds. -/
noncomputable def kernelRun2_A (c : Dev nD) (i : grid2.Coords) (arg1 : Memref sig .tc .vmem S5000x128 .f32) (harg1 : arg1.IsWhole) (arg2 : Memref sig .tc .vmem S128x128 .f32) (harg2 : arg2.IsWhole) (arg3 : Memref sig .tc .vmem S1x128 .f32) (harg3 : arg3.IsWhole) (arg4 : Memref sig .tc .vmem S128x128 .f32) (harg4 : arg4.IsWhole) (arg5 : Memref sig .tc .vmem S1x128 .f32) (harg5 : arg5.IsWhole) (arg6 : Memref sig .tc .vmem S5000x128 .f32) (harg6 : arg6.IsWhole) (arg7 : Memref sig .tc .vmem S1x128 .f32) (harg7 : arg7.IsWhole) (arg8 : Memref sig .tc .vmem S1x128 .f32) (harg8 : arg8.IsWhole) (arg9 : Memref sig .tc .vmem S1x128 .f32) (harg9 : arg9.IsWhole) (arg10 : Memref sig .tc .vmem S1x128 .f32) (harg10 : arg10.IsWhole) (hc0 : cond2_0 i) (hc1 : ¬cond2_1 i)
    (x0 : Vec F S5000x128 .f32) (x1 : Vec F S128x128 .f32) (x2 : Vec F S1x128 .f32) (x3 : Vec F S128x128 .f32) (x4 : Vec F S1x128 .f32) :
    Σ' (L5 : List (View.Piece (Elt F) S5000x128 .f32)) (L6 : List (View.Piece (Elt F) S1x128 .f32)) (L7 : List (View.Piece (Elt F) S1x128 .f32)) (LS0 : List (View.Piece (Elt F) S1x128 .f32)), { LS1 : List (View.Piece (Elt F) S1x128 .f32) //
      ∀ (xi6 : Vec F S1x128 .f32) (xi7 : Vec F S1x128 .f32) (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ (∃ d, owns (c : Thread nD τ) arg6 fullShare d) ∗ owns (c : Thread nD τ) arg7 fullShare xi6 ∗ owns (c : Thread nD τ) arg8 fullShare xi7 ∗ (∃ d, owns (c : Thread nD τ) arg9 fullShare d) ∗ (∃ d, owns (c : Thread nD τ) arg10 fullShare d)
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ (∃ f, arg6.view.loc (c : Thread nD τ) ↦[arg6.view.set]{fullShare} arg6.view.writes (Elt F) f L5) ∗ owns (c : Thread nD τ) arg7 fullShare xi6 ∗ owns (c : Thread nD τ) arg8 fullShare xi7 ∗ (∃ f, arg9.view.loc (c : Thread nD τ) ↦[arg9.view.set]{fullShare} arg9.view.writes (Elt F) f LS0) ∗ (∃ f, arg10.view.loc (c : Thread nD τ) ↦[arg10.view.set]{fullShare} arg10.view.writes (Elt F) f LS1)) -∗ K ⟨⟩))
          ⊢ wp frame (wpE (defs₀ (F := F)) Variants.none c none) E (cc2__mlp_stats_kernel i arg1 harg1 arg2 harg2 arg3 harg3 arg4 harg4 arg5 harg5 arg6 harg6 arg7 harg7 arg8 harg8 arg9 harg9 arg10 harg10) K } := by
  refine ⟨?_, [], [], ?_, ?_, fun xi6 xi7 E K => ?run⟩
  case run =>
    simp only [cc2__mlp_stats_kernel_eq_skeleton]; unfold cc2__mlp_stats_kernel_skel
    simp only [k2_part1_eq_skeleton]; unfold k2_part1_skel
    unfold owns
    iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%f6, %hf6, H6⟩, ⟨%f7, %hf7, H7⟩, ⟨%ds0, %fs0, -, HS0⟩, ⟨%ds1, %fs1, -, HS1⟩, Hk⟩
    obtain rfl := harg1.eq_unread hf0; obtain rfl := harg2.eq_unread hf1; obtain rfl := harg3.eq_unread hf2; obtain rfl := harg4.eq_unread hf3; obtain rfl := harg5.eq_unread hf4; obtain rfl := harg7.eq_unread hf6; obtain rfl := harg8.eq_unread hf7
    sl_exec (disch := first | exact hc0 | exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]; · iexists _; iexact H5
    isplitl [H6]
    · iexists _; isplitr; · ipureintro; exact harg7.read_unread _
      iexact H6
    isplitl [H7]
    · iexists _; isplitr; · ipureintro; exact harg8.read_unread _
      iexact H7
    isplitl [HS0]; · iexists _; iexact HS0
    iexists _; iexact HS1

end Cert.Kernel.Hand

end
-- ==== Proof.KMlp2RunB.lean ====
/-
  Region 2, control case B: the kernel body run once, symbolically, on whole staging memrefs.
-/
import proofs.«160011_j2121713844488_1_alg».proof.Proof.KMlp2Runs

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- The body at a middle point (the running sums are only added to): on whole staging memrefs — the five inputs at their blocks, the z output at anything,
    the two [1,128] outputs idle at whatever they hold, the two running-sum rows at what the point before left — it runs to its
    continuation with the inputs as they were and each buffer it stored into with its pieces written; the pieces are the
    witness the run finds. -/
noncomputable def kernelRun2_B (c : Dev nD) (i : grid2.Coords) (arg1 : Memref sig .tc .vmem S5000x128 .f32) (harg1 : arg1.IsWhole) (arg2 : Memref sig .tc .vmem S128x128 .f32) (harg2 : arg2.IsWhole) (arg3 : Memref sig .tc .vmem S1x128 .f32) (harg3 : arg3.IsWhole) (arg4 : Memref sig .tc .vmem S128x128 .f32) (harg4 : arg4.IsWhole) (arg5 : Memref sig .tc .vmem S1x128 .f32) (harg5 : arg5.IsWhole) (arg6 : Memref sig .tc .vmem S5000x128 .f32) (harg6 : arg6.IsWhole) (arg7 : Memref sig .tc .vmem S1x128 .f32) (harg7 : arg7.IsWhole) (arg8 : Memref sig .tc .vmem S1x128 .f32) (harg8 : arg8.IsWhole) (arg9 : Memref sig .tc .vmem S1x128 .f32) (harg9 : arg9.IsWhole) (arg10 : Memref sig .tc .vmem S1x128 .f32) (harg10 : arg10.IsWhole) (hc0 : ¬cond2_0 i) (hc1 : ¬cond2_1 i)
    (x0 : Vec F S5000x128 .f32) (x1 : Vec F S128x128 .f32) (x2 : Vec F S1x128 .f32) (x3 : Vec F S128x128 .f32) (x4 : Vec F S1x128 .f32) (xs0 : Vec F S1x128 .f32) (xs1 : Vec F S1x128 .f32) :
    Σ' (L5 : List (View.Piece (Elt F) S5000x128 .f32)) (L6 : List (View.Piece (Elt F) S1x128 .f32)) (L7 : List (View.Piece (Elt F) S1x128 .f32)) (LS0 : List (View.Piece (Elt F) S1x128 .f32)), { LS1 : List (View.Piece (Elt F) S1x128 .f32) //
      ∀ (xi6 : Vec F S1x128 .f32) (xi7 : Vec F S1x128 .f32) (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ (∃ d, owns (c : Thread nD τ) arg6 fullShare d) ∗ owns (c : Thread nD τ) arg7 fullShare xi6 ∗ owns (c : Thread nD τ) arg8 fullShare xi7 ∗ owns (c : Thread nD τ) arg9 fullShare xs0 ∗ owns (c : Thread nD τ) arg10 fullShare xs1
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ (∃ f, arg6.view.loc (c : Thread nD τ) ↦[arg6.view.set]{fullShare} arg6.view.writes (Elt F) f L5) ∗ owns (c : Thread nD τ) arg7 fullShare xi6 ∗ owns (c : Thread nD τ) arg8 fullShare xi7 ∗ (∃ f, arg9.view.loc (c : Thread nD τ) ↦[arg9.view.set]{fullShare} arg9.view.writes (Elt F) f LS0) ∗ (∃ f, arg10.view.loc (c : Thread nD τ) ↦[arg10.view.set]{fullShare} arg10.view.writes (Elt F) f LS1)) -∗ K ⟨⟩))
          ⊢ wp frame (wpE (defs₀ (F := F)) Variants.none c none) E (cc2__mlp_stats_kernel i arg1 harg1 arg2 harg2 arg3 harg3 arg4 harg4 arg5 harg5 arg6 harg6 arg7 harg7 arg8 harg8 arg9 harg9 arg10 harg10) K } := by
  refine ⟨?_, [], [], ?_, ?_, fun xi6 xi7 E K => ?run⟩
  case run =>
    simp only [cc2__mlp_stats_kernel_eq_skeleton]; unfold cc2__mlp_stats_kernel_skel
    simp only [k2_part1_eq_skeleton]; unfold k2_part1_skel
    unfold owns
    iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%f6, %hf6, H6⟩, ⟨%f7, %hf7, H7⟩, ⟨%fs0, %hfs0, HS0⟩, ⟨%fs1, %hfs1, HS1⟩, Hk⟩
    obtain rfl := harg1.eq_unread hf0; obtain rfl := harg2.eq_unread hf1; obtain rfl := harg3.eq_unread hf2; obtain rfl := harg4.eq_unread hf3; obtain rfl := harg5.eq_unread hf4; obtain rfl := harg7.eq_unread hf6; obtain rfl := harg8.eq_unread hf7; obtain rfl := harg9.eq_unread hfs0; obtain rfl := harg10.eq_unread hfs1
    sl_exec (disch := first | exact hc0 | exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]; · iexists _; iexact H5
    isplitl [H6]
    · iexists _; isplitr; · ipureintro; exact harg7.read_unread _
      iexact H6
    isplitl [H7]
    · iexists _; isplitr; · ipureintro; exact harg8.read_unread _
      iexact H7
    isplitl [HS0]; · iexists _; iexact HS0
    iexists _; iexact HS1

end Cert.Kernel.Hand

end
-- ==== Proof.KMlp2RunC.lean ====
/-
  Region 2, control case C: the kernel body run once, symbolically, on whole staging memrefs.
-/
import proofs.«160011_j2121713844488_1_alg».proof.Proof.KMlp2Runs

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- The body at the last point (the running sums are copied into the two [1,128] outputs): on whole staging memrefs — the five inputs at their blocks, the z output at anything,
    the two [1,128] outputs at anything, the two running-sum rows at what the point before left — it runs to its
    continuation with the inputs as they were and each buffer it stored into with its pieces written; the pieces are the
    witness the run finds. -/
noncomputable def kernelRun2_C (c : Dev nD) (i : grid2.Coords) (arg1 : Memref sig .tc .vmem S5000x128 .f32) (harg1 : arg1.IsWhole) (arg2 : Memref sig .tc .vmem S128x128 .f32) (harg2 : arg2.IsWhole) (arg3 : Memref sig .tc .vmem S1x128 .f32) (harg3 : arg3.IsWhole) (arg4 : Memref sig .tc .vmem S128x128 .f32) (harg4 : arg4.IsWhole) (arg5 : Memref sig .tc .vmem S1x128 .f32) (harg5 : arg5.IsWhole) (arg6 : Memref sig .tc .vmem S5000x128 .f32) (harg6 : arg6.IsWhole) (arg7 : Memref sig .tc .vmem S1x128 .f32) (harg7 : arg7.IsWhole) (arg8 : Memref sig .tc .vmem S1x128 .f32) (harg8 : arg8.IsWhole) (arg9 : Memref sig .tc .vmem S1x128 .f32) (harg9 : arg9.IsWhole) (arg10 : Memref sig .tc .vmem S1x128 .f32) (harg10 : arg10.IsWhole) (hc0 : ¬cond2_0 i) (hc1 : cond2_1 i)
    (x0 : Vec F S5000x128 .f32) (x1 : Vec F S128x128 .f32) (x2 : Vec F S1x128 .f32) (x3 : Vec F S128x128 .f32) (x4 : Vec F S1x128 .f32) (xs0 : Vec F S1x128 .f32) (xs1 : Vec F S1x128 .f32) :
    Σ' (L5 : List (View.Piece (Elt F) S5000x128 .f32)) (L6 : List (View.Piece (Elt F) S1x128 .f32)) (L7 : List (View.Piece (Elt F) S1x128 .f32)) (LS0 : List (View.Piece (Elt F) S1x128 .f32)), { LS1 : List (View.Piece (Elt F) S1x128 .f32) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ (∃ d, owns (c : Thread nD τ) arg6 fullShare d) ∗ (∃ d, owns (c : Thread nD τ) arg7 fullShare d) ∗ (∃ d, owns (c : Thread nD τ) arg8 fullShare d) ∗ owns (c : Thread nD τ) arg9 fullShare xs0 ∗ owns (c : Thread nD τ) arg10 fullShare xs1
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ (∃ f, arg6.view.loc (c : Thread nD τ) ↦[arg6.view.set]{fullShare} arg6.view.writes (Elt F) f L5) ∗ (∃ f, arg7.view.loc (c : Thread nD τ) ↦[arg7.view.set]{fullShare} arg7.view.writes (Elt F) f L6) ∗ (∃ f, arg8.view.loc (c : Thread nD τ) ↦[arg8.view.set]{fullShare} arg8.view.writes (Elt F) f L7) ∗ (∃ f, arg9.view.loc (c : Thread nD τ) ↦[arg9.view.set]{fullShare} arg9.view.writes (Elt F) f LS0) ∗ (∃ f, arg10.view.loc (c : Thread nD τ) ↦[arg10.view.set]{fullShare} arg10.view.writes (Elt F) f LS1)) -∗ K ⟨⟩))
          ⊢ wp frame (wpE (defs₀ (F := F)) Variants.none c none) E (cc2__mlp_stats_kernel i arg1 harg1 arg2 harg2 arg3 harg3 arg4 harg4 arg5 harg5 arg6 harg6 arg7 harg7 arg8 harg8 arg9 harg9 arg10 harg10) K } := by
  refine ⟨?_, ?_, ?_, ?_, ?_, fun E K => ?run⟩
  case run =>
    simp only [cc2__mlp_stats_kernel_eq_skeleton]; unfold cc2__mlp_stats_kernel_skel
    simp only [k2_part1_eq_skeleton]; unfold k2_part1_skel
    unfold owns
    iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%d6, %f6, -, H6⟩, ⟨%d7, %f7, -, H7⟩, ⟨%fs0, %hfs0, HS0⟩, ⟨%fs1, %hfs1, HS1⟩, Hk⟩
    obtain rfl := harg1.eq_unread hf0; obtain rfl := harg2.eq_unread hf1; obtain rfl := harg3.eq_unread hf2; obtain rfl := harg4.eq_unread hf3; obtain rfl := harg5.eq_unread hf4; obtain rfl := harg9.eq_unread hfs0; obtain rfl := harg10.eq_unread hfs1
    sl_exec (disch := first | exact hc0 | exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]; · iexists _; iexact H5
    isplitl [H6]; · iexists _; iexact H6
    isplitl [H7]; · iexists _; iexact H7
    isplitl [HS0]; · iexists _; iexact HS0
    iexists _; iexact HS1

end Cert.Kernel.Hand

end
-- ==== Proof.KMlp2.lean ====
/-
  Region 2 (a layer's two-layer perceptron with running column sums over the 20 row blocks): what each control case leaves in
  the outputs and in the two running-sum rows, the accumulation point by point, the proof data and the body obligation.
  The z output's block at a point is the body's payload of that point's input blocks; the two running-sum rows after point t are
  zero plus the column sums of z and z² over blocks 0..t; the two [1,128] outputs receive the rows at the last point.
-/
import proofs.«160011_j2121713844488_1_alg».proof.Proof.KMlp2RunA
import proofs.«160011_j2121713844488_1_alg».proof.Proof.KMlp2RunB
import proofs.«160011_j2121713844488_1_alg».proof.Proof.KMlp2RunC

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Region2

variable (V : (c : Dev nD) → (b : Ref sig .tc) → Buf (Elt F) ((c : Thread nD τ).loc b))

/-- Case A's pieces for output window 5 cover it (one whole-rectangle store). -/
theorem cover2_A_5 (c : Dev nD) (i : grid2.Coords) (arg1 : Memref sig .tc .vmem S5000x128 .f32) (harg1 : arg1.IsWhole) (arg2 : Memref sig .tc .vmem S128x128 .f32) (harg2 : arg2.IsWhole) (arg3 : Memref sig .tc .vmem S1x128 .f32) (harg3 : arg3.IsWhole) (arg4 : Memref sig .tc .vmem S128x128 .f32) (harg4 : arg4.IsWhole) (arg5 : Memref sig .tc .vmem S1x128 .f32) (harg5 : arg5.IsWhole) (arg6 : Memref sig .tc .vmem S5000x128 .f32) (harg6 : arg6.IsWhole) (arg7 : Memref sig .tc .vmem S1x128 .f32) (harg7 : arg7.IsWhole) (arg8 : Memref sig .tc .vmem S1x128 .f32) (harg8 : arg8.IsWhole) (arg9 : Memref sig .tc .vmem S1x128 .f32) (harg9 : arg9.IsWhole) (arg10 : Memref sig .tc .vmem S1x128 .f32) (harg10 : arg10.IsWhole) (hc0 : cond2_0 i) (hc1 : ¬cond2_1 i)
    (x0 : Vec F S5000x128 .f32) (x1 : Vec F S128x128 .f32) (x2 : Vec F S1x128 .f32) (x3 : Vec F S128x128 .f32) (x4 : Vec F S1x128 .f32) (y : S5000x128.Idx) :
    ∃ pc ∈ (kernelRun2_A c i arg1 harg1 arg2 harg2 arg3 harg3 arg4 harg4 arg5 harg5 arg6 harg6 arg7 harg7 arg8 harg8 arg9 harg9 arg10 harg10 hc0 hc1 x0 x1 x2 x3 x4).1, y ∈ pc.1.set :=
  View.cover_of_tiledL (kernelRun2_A c i arg1 harg1 arg2 harg2 arg3 harg3 arg4 harg4 arg5 harg5 arg6 harg6 arg7 harg7 arg8 harg8 arg9 harg9 arg10 harg10 hc0 hc1 x0 x1 x2 x3 x4).1 S5000x128.size (by sl_kernel_rfl) y

/-- What case A leaves there: its pieces read back. -/
def out2_A_5 (c : Dev nD) (i : grid2.Coords) (arg1 : Memref sig .tc .vmem S5000x128 .f32) (harg1 : arg1.IsWhole) (arg2 : Memref sig .tc .vmem S128x128 .f32) (harg2 : arg2.IsWhole) (arg3 : Memref sig .tc .vmem S1x128 .f32) (harg3 : arg3.IsWhole) (arg4 : Memref sig .tc .vmem S128x128 .f32) (harg4 : arg4.IsWhole) (arg5 : Memref sig .tc .vmem S1x128 .f32) (harg5 : arg5.IsWhole) (arg6 : Memref sig .tc .vmem S5000x128 .f32) (harg6 : arg6.IsWhole) (arg7 : Memref sig .tc .vmem S1x128 .f32) (harg7 : arg7.IsWhole) (arg8 : Memref sig .tc .vmem S1x128 .f32) (harg8 : arg8.IsWhole) (arg9 : Memref sig .tc .vmem S1x128 .f32) (harg9 : arg9.IsWhole) (arg10 : Memref sig .tc .vmem S1x128 .f32) (harg10 : arg10.IsWhole) (hc0 : cond2_0 i) (hc1 : ¬cond2_1 i)
    (x0 : Vec F S5000x128 .f32) (x1 : Vec F S128x128 .f32) (x2 : Vec F S1x128 .f32) (x3 : Vec F S128x128 .f32) (x4 : Vec F S1x128 .f32) : Vec F S5000x128 .f32 :=
  VO2_5.read (Elt F) (VO2_5.writes (Elt F) VO2_5.junk (kernelRun2_A c i arg1 harg1 arg2 harg2 arg3 harg3 arg4 harg4 arg5 harg5 arg6 harg6 arg7 harg7 arg8 harg8 arg9 harg9 arg10 harg10 hc0 hc1 x0 x1 x2 x3 x4).1)

/-- Case A's pieces for running-sum row 0 cover it (one whole-rectangle store). -/
theorem scover2_A_0 (c : Dev nD) (i : grid2.Coords) (arg1 : Memref sig .tc .vmem S5000x128 .f32) (harg1 : arg1.IsWhole) (arg2 : Memref sig .tc .vmem S128x128 .f32) (harg2 : arg2.IsWhole) (arg3 : Memref sig .tc .vmem S1x128 .f32) (harg3 : arg3.IsWhole) (arg4 : Memref sig .tc .vmem S128x128 .f32) (harg4 : arg4.IsWhole) (arg5 : Memref sig .tc .vmem S1x128 .f32) (harg5 : arg5.IsWhole) (arg6 : Memref sig .tc .vmem S5000x128 .f32) (harg6 : arg6.IsWhole) (arg7 : Memref sig .tc .vmem S1x128 .f32) (harg7 : arg7.IsWhole) (arg8 : Memref sig .tc .vmem S1x128 .f32) (harg8 : arg8.IsWhole) (arg9 : Memref sig .tc .vmem S1x128 .f32) (harg9 : arg9.IsWhole) (arg10 : Memref sig .tc .vmem S1x128 .f32) (harg10 : arg10.IsWhole) (hc0 : cond2_0 i) (hc1 : ¬cond2_1 i)
    (x0 : Vec F S5000x128 .f32) (x1 : Vec F S128x128 .f32) (x2 : Vec F S1x128 .f32) (x3 : Vec F S128x128 .f32) (x4 : Vec F S1x128 .f32) (y : S1x128.Idx) :
    ∃ pc ∈ (kernelRun2_A c i arg1 harg1 arg2 harg2 arg3 harg3 arg4 harg4 arg5 harg5 arg6 harg6 arg7 harg7 arg8 harg8 arg9 harg9 arg10 harg10 hc0 hc1 x0 x1 x2 x3 x4).2.2.2.1, y ∈ pc.1.set :=
  View.cover_of_tiledL (kernelRun2_A c i arg1 harg1 arg2 harg2 arg3 harg3 arg4 harg4 arg5 harg5 arg6 harg6 arg7 harg7 arg8 harg8 arg9 harg9 arg10 harg10 hc0 hc1 x0 x1 x2 x3 x4).2.2.2.1 S1x128.size (by sl_kernel_rfl) y

/-- What case A leaves there: its pieces read back. -/
def sout2_A_0 (c : Dev nD) (i : grid2.Coords) (arg1 : Memref sig .tc .vmem S5000x128 .f32) (harg1 : arg1.IsWhole) (arg2 : Memref sig .tc .vmem S128x128 .f32) (harg2 : arg2.IsWhole) (arg3 : Memref sig .tc .vmem S1x128 .f32) (harg3 : arg3.IsWhole) (arg4 : Memref sig .tc .vmem S128x128 .f32) (harg4 : arg4.IsWhole) (arg5 : Memref sig .tc .vmem S1x128 .f32) (harg5 : arg5.IsWhole) (arg6 : Memref sig .tc .vmem S5000x128 .f32) (harg6 : arg6.IsWhole) (arg7 : Memref sig .tc .vmem S1x128 .f32) (harg7 : arg7.IsWhole) (arg8 : Memref sig .tc .vmem S1x128 .f32) (harg8 : arg8.IsWhole) (arg9 : Memref sig .tc .vmem S1x128 .f32) (harg9 : arg9.IsWhole) (arg10 : Memref sig .tc .vmem S1x128 .f32) (harg10 : arg10.IsWhole) (hc0 : cond2_0 i) (hc1 : ¬cond2_1 i)
    (x0 : Vec F S5000x128 .f32) (x1 : Vec F S128x128 .f32) (x2 : Vec F S1x128 .f32) (x3 : Vec F S128x128 .f32) (x4 : Vec F S1x128 .f32) : Vec F S1x128 .f32 :=
  VS2_0.read (Elt F) (VS2_0.writes (Elt F) VS2_0.junk (kernelRun2_A c i arg1 harg1 arg2 harg2 arg3 harg3 arg4 harg4 arg5 harg5 arg6 harg6 arg7 harg7 arg8 harg8 arg9 harg9 arg10 harg10 hc0 hc1 x0 x1 x2 x3 x4).2.2.2.1)

/-- Case A's pieces for running-sum row 1 cover it (one whole-rectangle store). -/
theorem scover2_A_1 (c : Dev nD) (i : grid2.Coords) (arg1 : Memref sig .tc .vmem S5000x128 .f32) (harg1 : arg1.IsWhole) (arg2 : Memref sig .tc .vmem S128x128 .f32) (harg2 : arg2.IsWhole) (arg3 : Memref sig .tc .vmem S1x128 .f32) (harg3 : arg3.IsWhole) (arg4 : Memref sig .tc .vmem S128x128 .f32) (harg4 : arg4.IsWhole) (arg5 : Memref sig .tc .vmem S1x128 .f32) (harg5 : arg5.IsWhole) (arg6 : Memref sig .tc .vmem S5000x128 .f32) (harg6 : arg6.IsWhole) (arg7 : Memref sig .tc .vmem S1x128 .f32) (harg7 : arg7.IsWhole) (arg8 : Memref sig .tc .vmem S1x128 .f32) (harg8 : arg8.IsWhole) (arg9 : Memref sig .tc .vmem S1x128 .f32) (harg9 : arg9.IsWhole) (arg10 : Memref sig .tc .vmem S1x128 .f32) (harg10 : arg10.IsWhole) (hc0 : cond2_0 i) (hc1 : ¬cond2_1 i)
    (x0 : Vec F S5000x128 .f32) (x1 : Vec F S128x128 .f32) (x2 : Vec F S1x128 .f32) (x3 : Vec F S128x128 .f32) (x4 : Vec F S1x128 .f32) (y : S1x128.Idx) :
    ∃ pc ∈ (kernelRun2_A c i arg1 harg1 arg2 harg2 arg3 harg3 arg4 harg4 arg5 harg5 arg6 harg6 arg7 harg7 arg8 harg8 arg9 harg9 arg10 harg10 hc0 hc1 x0 x1 x2 x3 x4).2.2.2.2.1, y ∈ pc.1.set :=
  View.cover_of_tiledL (kernelRun2_A c i arg1 harg1 arg2 harg2 arg3 harg3 arg4 harg4 arg5 harg5 arg6 harg6 arg7 harg7 arg8 harg8 arg9 harg9 arg10 harg10 hc0 hc1 x0 x1 x2 x3 x4).2.2.2.2.1 S1x128.size (by sl_kernel_rfl) y

/-- What case A leaves there: its pieces read back. -/
def sout2_A_1 (c : Dev nD) (i : grid2.Coords) (arg1 : Memref sig .tc .vmem S5000x128 .f32) (harg1 : arg1.IsWhole) (arg2 : Memref sig .tc .vmem S128x128 .f32) (harg2 : arg2.IsWhole) (arg3 : Memref sig .tc .vmem S1x128 .f32) (harg3 : arg3.IsWhole) (arg4 : Memref sig .tc .vmem S128x128 .f32) (harg4 : arg4.IsWhole) (arg5 : Memref sig .tc .vmem S1x128 .f32) (harg5 : arg5.IsWhole) (arg6 : Memref sig .tc .vmem S5000x128 .f32) (harg6 : arg6.IsWhole) (arg7 : Memref sig .tc .vmem S1x128 .f32) (harg7 : arg7.IsWhole) (arg8 : Memref sig .tc .vmem S1x128 .f32) (harg8 : arg8.IsWhole) (arg9 : Memref sig .tc .vmem S1x128 .f32) (harg9 : arg9.IsWhole) (arg10 : Memref sig .tc .vmem S1x128 .f32) (harg10 : arg10.IsWhole) (hc0 : cond2_0 i) (hc1 : ¬cond2_1 i)
    (x0 : Vec F S5000x128 .f32) (x1 : Vec F S128x128 .f32) (x2 : Vec F S1x128 .f32) (x3 : Vec F S128x128 .f32) (x4 : Vec F S1x128 .f32) : Vec F S1x128 .f32 :=
  VS2_1.read (Elt F) (VS2_1.writes (Elt F) VS2_1.junk (kernelRun2_A c i arg1 harg1 arg2 harg2 arg3 harg3 arg4 harg4 arg5 harg5 arg6 harg6 arg7 harg7 arg8 harg8 arg9 harg9 arg10 harg10 hc0 hc1 x0 x1 x2 x3 x4).2.2.2.2.1)

/-- Case B's pieces for output window 5 cover it (one whole-rectangle store). -/
theorem cover2_B_5 (c : Dev nD) (i : grid2.Coords) (arg1 : Memref sig .tc .vmem S5000x128 .f32) (harg1 : arg1.IsWhole) (arg2 : Memref sig .tc .vmem S128x128 .f32) (harg2 : arg2.IsWhole) (arg3 : Memref sig .tc .vmem S1x128 .f32) (harg3 : arg3.IsWhole) (arg4 : Memref sig .tc .vmem S128x128 .f32) (harg4 : arg4.IsWhole) (arg5 : Memref sig .tc .vmem S1x128 .f32) (harg5 : arg5.IsWhole) (arg6 : Memref sig .tc .vmem S5000x128 .f32) (harg6 : arg6.IsWhole) (arg7 : Memref sig .tc .vmem S1x128 .f32) (harg7 : arg7.IsWhole) (arg8 : Memref sig .tc .vmem S1x128 .f32) (harg8 : arg8.IsWhole) (arg9 : Memref sig .tc .vmem S1x128 .f32) (harg9 : arg9.IsWhole) (arg10 : Memref sig .tc .vmem S1x128 .f32) (harg10 : arg10.IsWhole) (hc0 : ¬cond2_0 i) (hc1 : ¬cond2_1 i)
    (x0 : Vec F S5000x128 .f32) (x1 : Vec F S128x128 .f32) (x2 : Vec F S1x128 .f32) (x3 : Vec F S128x128 .f32) (x4 : Vec F S1x128 .f32) (xs0 : Vec F S1x128 .f32) (xs1 : Vec F S1x128 .f32) (y : S5000x128.Idx) :
    ∃ pc ∈ (kernelRun2_B c i arg1 harg1 arg2 harg2 arg3 harg3 arg4 harg4 arg5 harg5 arg6 harg6 arg7 harg7 arg8 harg8 arg9 harg9 arg10 harg10 hc0 hc1 x0 x1 x2 x3 x4 xs0 xs1).1, y ∈ pc.1.set :=
  View.cover_of_tiledL (kernelRun2_B c i arg1 harg1 arg2 harg2 arg3 harg3 arg4 harg4 arg5 harg5 arg6 harg6 arg7 harg7 arg8 harg8 arg9 harg9 arg10 harg10 hc0 hc1 x0 x1 x2 x3 x4 xs0 xs1).1 S5000x128.size (by sl_kernel_rfl) y

/-- What case B leaves there: its pieces read back. -/
def out2_B_5 (c : Dev nD) (i : grid2.Coords) (arg1 : Memref sig .tc .vmem S5000x128 .f32) (harg1 : arg1.IsWhole) (arg2 : Memref sig .tc .vmem S128x128 .f32) (harg2 : arg2.IsWhole) (arg3 : Memref sig .tc .vmem S1x128 .f32) (harg3 : arg3.IsWhole) (arg4 : Memref sig .tc .vmem S128x128 .f32) (harg4 : arg4.IsWhole) (arg5 : Memref sig .tc .vmem S1x128 .f32) (harg5 : arg5.IsWhole) (arg6 : Memref sig .tc .vmem S5000x128 .f32) (harg6 : arg6.IsWhole) (arg7 : Memref sig .tc .vmem S1x128 .f32) (harg7 : arg7.IsWhole) (arg8 : Memref sig .tc .vmem S1x128 .f32) (harg8 : arg8.IsWhole) (arg9 : Memref sig .tc .vmem S1x128 .f32) (harg9 : arg9.IsWhole) (arg10 : Memref sig .tc .vmem S1x128 .f32) (harg10 : arg10.IsWhole) (hc0 : ¬cond2_0 i) (hc1 : ¬cond2_1 i)
    (x0 : Vec F S5000x128 .f32) (x1 : Vec F S128x128 .f32) (x2 : Vec F S1x128 .f32) (x3 : Vec F S128x128 .f32) (x4 : Vec F S1x128 .f32) (xs0 : Vec F S1x128 .f32) (xs1 : Vec F S1x128 .f32) : Vec F S5000x128 .f32 :=
  VO2_5.read (Elt F) (VO2_5.writes (Elt F) VO2_5.junk (kernelRun2_B c i arg1 harg1 arg2 harg2 arg3 harg3 arg4 harg4 arg5 harg5 arg6 harg6 arg7 harg7 arg8 harg8 arg9 harg9 arg10 harg10 hc0 hc1 x0 x1 x2 x3 x4 xs0 xs1).1)

/-- Case B's pieces for running-sum row 0 cover it (one whole-rectangle store). -/
theorem scover2_B_0 (c : Dev nD) (i : grid2.Coords) (arg1 : Memref sig .tc .vmem S5000x128 .f32) (harg1 : arg1.IsWhole) (arg2 : Memref sig .tc .vmem S128x128 .f32) (harg2 : arg2.IsWhole) (arg3 : Memref sig .tc .vmem S1x128 .f32) (harg3 : arg3.IsWhole) (arg4 : Memref sig .tc .vmem S128x128 .f32) (harg4 : arg4.IsWhole) (arg5 : Memref sig .tc .vmem S1x128 .f32) (harg5 : arg5.IsWhole) (arg6 : Memref sig .tc .vmem S5000x128 .f32) (harg6 : arg6.IsWhole) (arg7 : Memref sig .tc .vmem S1x128 .f32) (harg7 : arg7.IsWhole) (arg8 : Memref sig .tc .vmem S1x128 .f32) (harg8 : arg8.IsWhole) (arg9 : Memref sig .tc .vmem S1x128 .f32) (harg9 : arg9.IsWhole) (arg10 : Memref sig .tc .vmem S1x128 .f32) (harg10 : arg10.IsWhole) (hc0 : ¬cond2_0 i) (hc1 : ¬cond2_1 i)
    (x0 : Vec F S5000x128 .f32) (x1 : Vec F S128x128 .f32) (x2 : Vec F S1x128 .f32) (x3 : Vec F S128x128 .f32) (x4 : Vec F S1x128 .f32) (xs0 : Vec F S1x128 .f32) (xs1 : Vec F S1x128 .f32) (y : S1x128.Idx) :
    ∃ pc ∈ (kernelRun2_B c i arg1 harg1 arg2 harg2 arg3 harg3 arg4 harg4 arg5 harg5 arg6 harg6 arg7 harg7 arg8 harg8 arg9 harg9 arg10 harg10 hc0 hc1 x0 x1 x2 x3 x4 xs0 xs1).2.2.2.1, y ∈ pc.1.set :=
  View.cover_of_tiledL (kernelRun2_B c i arg1 harg1 arg2 harg2 arg3 harg3 arg4 harg4 arg5 harg5 arg6 harg6 arg7 harg7 arg8 harg8 arg9 harg9 arg10 harg10 hc0 hc1 x0 x1 x2 x3 x4 xs0 xs1).2.2.2.1 S1x128.size (by sl_kernel_rfl) y

/-- What case B leaves there: its pieces read back. -/
def sout2_B_0 (c : Dev nD) (i : grid2.Coords) (arg1 : Memref sig .tc .vmem S5000x128 .f32) (harg1 : arg1.IsWhole) (arg2 : Memref sig .tc .vmem S128x128 .f32) (harg2 : arg2.IsWhole) (arg3 : Memref sig .tc .vmem S1x128 .f32) (harg3 : arg3.IsWhole) (arg4 : Memref sig .tc .vmem S128x128 .f32) (harg4 : arg4.IsWhole) (arg5 : Memref sig .tc .vmem S1x128 .f32) (harg5 : arg5.IsWhole) (arg6 : Memref sig .tc .vmem S5000x128 .f32) (harg6 : arg6.IsWhole) (arg7 : Memref sig .tc .vmem S1x128 .f32) (harg7 : arg7.IsWhole) (arg8 : Memref sig .tc .vmem S1x128 .f32) (harg8 : arg8.IsWhole) (arg9 : Memref sig .tc .vmem S1x128 .f32) (harg9 : arg9.IsWhole) (arg10 : Memref sig .tc .vmem S1x128 .f32) (harg10 : arg10.IsWhole) (hc0 : ¬cond2_0 i) (hc1 : ¬cond2_1 i)
    (x0 : Vec F S5000x128 .f32) (x1 : Vec F S128x128 .f32) (x2 : Vec F S1x128 .f32) (x3 : Vec F S128x128 .f32) (x4 : Vec F S1x128 .f32) (xs0 : Vec F S1x128 .f32) (xs1 : Vec F S1x128 .f32) : Vec F S1x128 .f32 :=
  VS2_0.read (Elt F) (VS2_0.writes (Elt F) VS2_0.junk (kernelRun2_B c i arg1 harg1 arg2 harg2 arg3 harg3 arg4 harg4 arg5 harg5 arg6 harg6 arg7 harg7 arg8 harg8 arg9 harg9 arg10 harg10 hc0 hc1 x0 x1 x2 x3 x4 xs0 xs1).2.2.2.1)

/-- Case B's pieces for running-sum row 1 cover it (one whole-rectangle store). -/
theorem scover2_B_1 (c : Dev nD) (i : grid2.Coords) (arg1 : Memref sig .tc .vmem S5000x128 .f32) (harg1 : arg1.IsWhole) (arg2 : Memref sig .tc .vmem S128x128 .f32) (harg2 : arg2.IsWhole) (arg3 : Memref sig .tc .vmem S1x128 .f32) (harg3 : arg3.IsWhole) (arg4 : Memref sig .tc .vmem S128x128 .f32) (harg4 : arg4.IsWhole) (arg5 : Memref sig .tc .vmem S1x128 .f32) (harg5 : arg5.IsWhole) (arg6 : Memref sig .tc .vmem S5000x128 .f32) (harg6 : arg6.IsWhole) (arg7 : Memref sig .tc .vmem S1x128 .f32) (harg7 : arg7.IsWhole) (arg8 : Memref sig .tc .vmem S1x128 .f32) (harg8 : arg8.IsWhole) (arg9 : Memref sig .tc .vmem S1x128 .f32) (harg9 : arg9.IsWhole) (arg10 : Memref sig .tc .vmem S1x128 .f32) (harg10 : arg10.IsWhole) (hc0 : ¬cond2_0 i) (hc1 : ¬cond2_1 i)
    (x0 : Vec F S5000x128 .f32) (x1 : Vec F S128x128 .f32) (x2 : Vec F S1x128 .f32) (x3 : Vec F S128x128 .f32) (x4 : Vec F S1x128 .f32) (xs0 : Vec F S1x128 .f32) (xs1 : Vec F S1x128 .f32) (y : S1x128.Idx) :
    ∃ pc ∈ (kernelRun2_B c i arg1 harg1 arg2 harg2 arg3 harg3 arg4 harg4 arg5 harg5 arg6 harg6 arg7 harg7 arg8 harg8 arg9 harg9 arg10 harg10 hc0 hc1 x0 x1 x2 x3 x4 xs0 xs1).2.2.2.2.1, y ∈ pc.1.set :=
  View.cover_of_tiledL (kernelRun2_B c i arg1 harg1 arg2 harg2 arg3 harg3 arg4 harg4 arg5 harg5 arg6 harg6 arg7 harg7 arg8 harg8 arg9 harg9 arg10 harg10 hc0 hc1 x0 x1 x2 x3 x4 xs0 xs1).2.2.2.2.1 S1x128.size (by sl_kernel_rfl) y

/-- What case B leaves there: its pieces read back. -/
def sout2_B_1 (c : Dev nD) (i : grid2.Coords) (arg1 : Memref sig .tc .vmem S5000x128 .f32) (harg1 : arg1.IsWhole) (arg2 : Memref sig .tc .vmem S128x128 .f32) (harg2 : arg2.IsWhole) (arg3 : Memref sig .tc .vmem S1x128 .f32) (harg3 : arg3.IsWhole) (arg4 : Memref sig .tc .vmem S128x128 .f32) (harg4 : arg4.IsWhole) (arg5 : Memref sig .tc .vmem S1x128 .f32) (harg5 : arg5.IsWhole) (arg6 : Memref sig .tc .vmem S5000x128 .f32) (harg6 : arg6.IsWhole) (arg7 : Memref sig .tc .vmem S1x128 .f32) (harg7 : arg7.IsWhole) (arg8 : Memref sig .tc .vmem S1x128 .f32) (harg8 : arg8.IsWhole) (arg9 : Memref sig .tc .vmem S1x128 .f32) (harg9 : arg9.IsWhole) (arg10 : Memref sig .tc .vmem S1x128 .f32) (harg10 : arg10.IsWhole) (hc0 : ¬cond2_0 i) (hc1 : ¬cond2_1 i)
    (x0 : Vec F S5000x128 .f32) (x1 : Vec F S128x128 .f32) (x2 : Vec F S1x128 .f32) (x3 : Vec F S128x128 .f32) (x4 : Vec F S1x128 .f32) (xs0 : Vec F S1x128 .f32) (xs1 : Vec F S1x128 .f32) : Vec F S1x128 .f32 :=
  VS2_1.read (Elt F) (VS2_1.writes (Elt F) VS2_1.junk (kernelRun2_B c i arg1 harg1 arg2 harg2 arg3 harg3 arg4 harg4 arg5 harg5 arg6 harg6 arg7 harg7 arg8 harg8 arg9 harg9 arg10 harg10 hc0 hc1 x0 x1 x2 x3 x4 xs0 xs1).2.2.2.2.1)

/-- Case C's pieces for output window 5 cover it (one whole-rectangle store). -/
theorem cover2_C_5 (c : Dev nD) (i : grid2.Coords) (arg1 : Memref sig .tc .vmem S5000x128 .f32) (harg1 : arg1.IsWhole) (arg2 : Memref sig .tc .vmem S128x128 .f32) (harg2 : arg2.IsWhole) (arg3 : Memref sig .tc .vmem S1x128 .f32) (harg3 : arg3.IsWhole) (arg4 : Memref sig .tc .vmem S128x128 .f32) (harg4 : arg4.IsWhole) (arg5 : Memref sig .tc .vmem S1x128 .f32) (harg5 : arg5.IsWhole) (arg6 : Memref sig .tc .vmem S5000x128 .f32) (harg6 : arg6.IsWhole) (arg7 : Memref sig .tc .vmem S1x128 .f32) (harg7 : arg7.IsWhole) (arg8 : Memref sig .tc .vmem S1x128 .f32) (harg8 : arg8.IsWhole) (arg9 : Memref sig .tc .vmem S1x128 .f32) (harg9 : arg9.IsWhole) (arg10 : Memref sig .tc .vmem S1x128 .f32) (harg10 : arg10.IsWhole) (hc0 : ¬cond2_0 i) (hc1 : cond2_1 i)
    (x0 : Vec F S5000x128 .f32) (x1 : Vec F S128x128 .f32) (x2 : Vec F S1x128 .f32) (x3 : Vec F S128x128 .f32) (x4 : Vec F S1x128 .f32) (xs0 : Vec F S1x128 .f32) (xs1 : Vec F S1x128 .f32) (y : S5000x128.Idx) :
    ∃ pc ∈ (kernelRun2_C c i arg1 harg1 arg2 harg2 arg3 harg3 arg4 harg4 arg5 harg5 arg6 harg6 arg7 harg7 arg8 harg8 arg9 harg9 arg10 harg10 hc0 hc1 x0 x1 x2 x3 x4 xs0 xs1).1, y ∈ pc.1.set :=
  View.cover_of_tiledL (kernelRun2_C c i arg1 harg1 arg2 harg2 arg3 harg3 arg4 harg4 arg5 harg5 arg6 harg6 arg7 harg7 arg8 harg8 arg9 harg9 arg10 harg10 hc0 hc1 x0 x1 x2 x3 x4 xs0 xs1).1 S5000x128.size (by sl_kernel_rfl) y

/-- What case C leaves there: its pieces read back. -/
def out2_C_5 (c : Dev nD) (i : grid2.Coords) (arg1 : Memref sig .tc .vmem S5000x128 .f32) (harg1 : arg1.IsWhole) (arg2 : Memref sig .tc .vmem S128x128 .f32) (harg2 : arg2.IsWhole) (arg3 : Memref sig .tc .vmem S1x128 .f32) (harg3 : arg3.IsWhole) (arg4 : Memref sig .tc .vmem S128x128 .f32) (harg4 : arg4.IsWhole) (arg5 : Memref sig .tc .vmem S1x128 .f32) (harg5 : arg5.IsWhole) (arg6 : Memref sig .tc .vmem S5000x128 .f32) (harg6 : arg6.IsWhole) (arg7 : Memref sig .tc .vmem S1x128 .f32) (harg7 : arg7.IsWhole) (arg8 : Memref sig .tc .vmem S1x128 .f32) (harg8 : arg8.IsWhole) (arg9 : Memref sig .tc .vmem S1x128 .f32) (harg9 : arg9.IsWhole) (arg10 : Memref sig .tc .vmem S1x128 .f32) (harg10 : arg10.IsWhole) (hc0 : ¬cond2_0 i) (hc1 : cond2_1 i)
    (x0 : Vec F S5000x128 .f32) (x1 : Vec F S128x128 .f32) (x2 : Vec F S1x128 .f32) (x3 : Vec F S128x128 .f32) (x4 : Vec F S1x128 .f32) (xs0 : Vec F S1x128 .f32) (xs1 : Vec F S1x128 .f32) : Vec F S5000x128 .f32 :=
  VO2_5.read (Elt F) (VO2_5.writes (Elt F) VO2_5.junk (kernelRun2_C c i arg1 harg1 arg2 harg2 arg3 harg3 arg4 harg4 arg5 harg5 arg6 harg6 arg7 harg7 arg8 harg8 arg9 harg9 arg10 harg10 hc0 hc1 x0 x1 x2 x3 x4 xs0 xs1).1)

/-- Case C's pieces for output window 6 cover it (one whole-rectangle store). -/
theorem cover2_C_6 (c : Dev nD) (i : grid2.Coords) (arg1 : Memref sig .tc .vmem S5000x128 .f32) (harg1 : arg1.IsWhole) (arg2 : Memref sig .tc .vmem S128x128 .f32) (harg2 : arg2.IsWhole) (arg3 : Memref sig .tc .vmem S1x128 .f32) (harg3 : arg3.IsWhole) (arg4 : Memref sig .tc .vmem S128x128 .f32) (harg4 : arg4.IsWhole) (arg5 : Memref sig .tc .vmem S1x128 .f32) (harg5 : arg5.IsWhole) (arg6 : Memref sig .tc .vmem S5000x128 .f32) (harg6 : arg6.IsWhole) (arg7 : Memref sig .tc .vmem S1x128 .f32) (harg7 : arg7.IsWhole) (arg8 : Memref sig .tc .vmem S1x128 .f32) (harg8 : arg8.IsWhole) (arg9 : Memref sig .tc .vmem S1x128 .f32) (harg9 : arg9.IsWhole) (arg10 : Memref sig .tc .vmem S1x128 .f32) (harg10 : arg10.IsWhole) (hc0 : ¬cond2_0 i) (hc1 : cond2_1 i)
    (x0 : Vec F S5000x128 .f32) (x1 : Vec F S128x128 .f32) (x2 : Vec F S1x128 .f32) (x3 : Vec F S128x128 .f32) (x4 : Vec F S1x128 .f32) (xs0 : Vec F S1x128 .f32) (xs1 : Vec F S1x128 .f32) (y : S1x128.Idx) :
    ∃ pc ∈ (kernelRun2_C c i arg1 harg1 arg2 harg2 arg3 harg3 arg4 harg4 arg5 harg5 arg6 harg6 arg7 harg7 arg8 harg8 arg9 harg9 arg10 harg10 hc0 hc1 x0 x1 x2 x3 x4 xs0 xs1).2.1, y ∈ pc.1.set :=
  View.cover_of_tiledL (kernelRun2_C c i arg1 harg1 arg2 harg2 arg3 harg3 arg4 harg4 arg5 harg5 arg6 harg6 arg7 harg7 arg8 harg8 arg9 harg9 arg10 harg10 hc0 hc1 x0 x1 x2 x3 x4 xs0 xs1).2.1 S1x128.size (by sl_kernel_rfl) y

/-- What case C leaves there: its pieces read back. -/
def out2_C_6 (c : Dev nD) (i : grid2.Coords) (arg1 : Memref sig .tc .vmem S5000x128 .f32) (harg1 : arg1.IsWhole) (arg2 : Memref sig .tc .vmem S128x128 .f32) (harg2 : arg2.IsWhole) (arg3 : Memref sig .tc .vmem S1x128 .f32) (harg3 : arg3.IsWhole) (arg4 : Memref sig .tc .vmem S128x128 .f32) (harg4 : arg4.IsWhole) (arg5 : Memref sig .tc .vmem S1x128 .f32) (harg5 : arg5.IsWhole) (arg6 : Memref sig .tc .vmem S5000x128 .f32) (harg6 : arg6.IsWhole) (arg7 : Memref sig .tc .vmem S1x128 .f32) (harg7 : arg7.IsWhole) (arg8 : Memref sig .tc .vmem S1x128 .f32) (harg8 : arg8.IsWhole) (arg9 : Memref sig .tc .vmem S1x128 .f32) (harg9 : arg9.IsWhole) (arg10 : Memref sig .tc .vmem S1x128 .f32) (harg10 : arg10.IsWhole) (hc0 : ¬cond2_0 i) (hc1 : cond2_1 i)
    (x0 : Vec F S5000x128 .f32) (x1 : Vec F S128x128 .f32) (x2 : Vec F S1x128 .f32) (x3 : Vec F S128x128 .f32) (x4 : Vec F S1x128 .f32) (xs0 : Vec F S1x128 .f32) (xs1 : Vec F S1x128 .f32) : Vec F S1x128 .f32 :=
  VO2_6.read (Elt F) (VO2_6.writes (Elt F) VO2_6.junk (kernelRun2_C c i arg1 harg1 arg2 harg2 arg3 harg3 arg4 harg4 arg5 harg5 arg6 harg6 arg7 harg7 arg8 harg8 arg9 harg9 arg10 harg10 hc0 hc1 x0 x1 x2 x3 x4 xs0 xs1).2.1)

/-- Case C's pieces for output window 7 cover it (one whole-rectangle store). -/
theorem cover2_C_7 (c : Dev nD) (i : grid2.Coords) (arg1 : Memref sig .tc .vmem S5000x128 .f32) (harg1 : arg1.IsWhole) (arg2 : Memref sig .tc .vmem S128x128 .f32) (harg2 : arg2.IsWhole) (arg3 : Memref sig .tc .vmem S1x128 .f32) (harg3 : arg3.IsWhole) (arg4 : Memref sig .tc .vmem S128x128 .f32) (harg4 : arg4.IsWhole) (arg5 : Memref sig .tc .vmem S1x128 .f32) (harg5 : arg5.IsWhole) (arg6 : Memref sig .tc .vmem S5000x128 .f32) (harg6 : arg6.IsWhole) (arg7 : Memref sig .tc .vmem S1x128 .f32) (harg7 : arg7.IsWhole) (arg8 : Memref sig .tc .vmem S1x128 .f32) (harg8 : arg8.IsWhole) (arg9 : Memref sig .tc .vmem S1x128 .f32) (harg9 : arg9.IsWhole) (arg10 : Memref sig .tc .vmem S1x128 .f32) (harg10 : arg10.IsWhole) (hc0 : ¬cond2_0 i) (hc1 : cond2_1 i)
    (x0 : Vec F S5000x128 .f32) (x1 : Vec F S128x128 .f32) (x2 : Vec F S1x128 .f32) (x3 : Vec F S128x128 .f32) (x4 : Vec F S1x128 .f32) (xs0 : Vec F S1x128 .f32) (xs1 : Vec F S1x128 .f32) (y : S1x128.Idx) :
    ∃ pc ∈ (kernelRun2_C c i arg1 harg1 arg2 harg2 arg3 harg3 arg4 harg4 arg5 harg5 arg6 harg6 arg7 harg7 arg8 harg8 arg9 harg9 arg10 harg10 hc0 hc1 x0 x1 x2 x3 x4 xs0 xs1).2.2.1, y ∈ pc.1.set :=
  View.cover_of_tiledL (kernelRun2_C c i arg1 harg1 arg2 harg2 arg3 harg3 arg4 harg4 arg5 harg5 arg6 harg6 arg7 harg7 arg8 harg8 arg9 harg9 arg10 harg10 hc0 hc1 x0 x1 x2 x3 x4 xs0 xs1).2.2.1 S1x128.size (by sl_kernel_rfl) y

/-- What case C leaves there: its pieces read back. -/
def out2_C_7 (c : Dev nD) (i : grid2.Coords) (arg1 : Memref sig .tc .vmem S5000x128 .f32) (harg1 : arg1.IsWhole) (arg2 : Memref sig .tc .vmem S128x128 .f32) (harg2 : arg2.IsWhole) (arg3 : Memref sig .tc .vmem S1x128 .f32) (harg3 : arg3.IsWhole) (arg4 : Memref sig .tc .vmem S128x128 .f32) (harg4 : arg4.IsWhole) (arg5 : Memref sig .tc .vmem S1x128 .f32) (harg5 : arg5.IsWhole) (arg6 : Memref sig .tc .vmem S5000x128 .f32) (harg6 : arg6.IsWhole) (arg7 : Memref sig .tc .vmem S1x128 .f32) (harg7 : arg7.IsWhole) (arg8 : Memref sig .tc .vmem S1x128 .f32) (harg8 : arg8.IsWhole) (arg9 : Memref sig .tc .vmem S1x128 .f32) (harg9 : arg9.IsWhole) (arg10 : Memref sig .tc .vmem S1x128 .f32) (harg10 : arg10.IsWhole) (hc0 : ¬cond2_0 i) (hc1 : cond2_1 i)
    (x0 : Vec F S5000x128 .f32) (x1 : Vec F S128x128 .f32) (x2 : Vec F S1x128 .f32) (x3 : Vec F S128x128 .f32) (x4 : Vec F S1x128 .f32) (xs0 : Vec F S1x128 .f32) (xs1 : Vec F S1x128 .f32) : Vec F S1x128 .f32 :=
  VO2_7.read (Elt F) (VO2_7.writes (Elt F) VO2_7.junk (kernelRun2_C c i arg1 harg1 arg2 harg2 arg3 harg3 arg4 harg4 arg5 harg5 arg6 harg6 arg7 harg7 arg8 harg8 arg9 harg9 arg10 harg10 hc0 hc1 x0 x1 x2 x3 x4 xs0 xs1).2.2.1)

/-- Case C's pieces for running-sum row 0 cover it (one whole-rectangle store). -/
theorem scover2_C_0 (c : Dev nD) (i : grid2.Coords) (arg1 : Memref sig .tc .vmem S5000x128 .f32) (harg1 : arg1.IsWhole) (arg2 : Memref sig .tc .vmem S128x128 .f32) (harg2 : arg2.IsWhole) (arg3 : Memref sig .tc .vmem S1x128 .f32) (harg3 : arg3.IsWhole) (arg4 : Memref sig .tc .vmem S128x128 .f32) (harg4 : arg4.IsWhole) (arg5 : Memref sig .tc .vmem S1x128 .f32) (harg5 : arg5.IsWhole) (arg6 : Memref sig .tc .vmem S5000x128 .f32) (harg6 : arg6.IsWhole) (arg7 : Memref sig .tc .vmem S1x128 .f32) (harg7 : arg7.IsWhole) (arg8 : Memref sig .tc .vmem S1x128 .f32) (harg8 : arg8.IsWhole) (arg9 : Memref sig .tc .vmem S1x128 .f32) (harg9 : arg9.IsWhole) (arg10 : Memref sig .tc .vmem S1x128 .f32) (harg10 : arg10.IsWhole) (hc0 : ¬cond2_0 i) (hc1 : cond2_1 i)
    (x0 : Vec F S5000x128 .f32) (x1 : Vec F S128x128 .f32) (x2 : Vec F S1x128 .f32) (x3 : Vec F S128x128 .f32) (x4 : Vec F S1x128 .f32) (xs0 : Vec F S1x128 .f32) (xs1 : Vec F S1x128 .f32) (y : S1x128.Idx) :
    ∃ pc ∈ (kernelRun2_C c i arg1 harg1 arg2 harg2 arg3 harg3 arg4 harg4 arg5 harg5 arg6 harg6 arg7 harg7 arg8 harg8 arg9 harg9 arg10 harg10 hc0 hc1 x0 x1 x2 x3 x4 xs0 xs1).2.2.2.1, y ∈ pc.1.set :=
  View.cover_of_tiledL (kernelRun2_C c i arg1 harg1 arg2 harg2 arg3 harg3 arg4 harg4 arg5 harg5 arg6 harg6 arg7 harg7 arg8 harg8 arg9 harg9 arg10 harg10 hc0 hc1 x0 x1 x2 x3 x4 xs0 xs1).2.2.2.1 S1x128.size (by sl_kernel_rfl) y

/-- What case C leaves there: its pieces read back. -/
def sout2_C_0 (c : Dev nD) (i : grid2.Coords) (arg1 : Memref sig .tc .vmem S5000x128 .f32) (harg1 : arg1.IsWhole) (arg2 : Memref sig .tc .vmem S128x128 .f32) (harg2 : arg2.IsWhole) (arg3 : Memref sig .tc .vmem S1x128 .f32) (harg3 : arg3.IsWhole) (arg4 : Memref sig .tc .vmem S128x128 .f32) (harg4 : arg4.IsWhole) (arg5 : Memref sig .tc .vmem S1x128 .f32) (harg5 : arg5.IsWhole) (arg6 : Memref sig .tc .vmem S5000x128 .f32) (harg6 : arg6.IsWhole) (arg7 : Memref sig .tc .vmem S1x128 .f32) (harg7 : arg7.IsWhole) (arg8 : Memref sig .tc .vmem S1x128 .f32) (harg8 : arg8.IsWhole) (arg9 : Memref sig .tc .vmem S1x128 .f32) (harg9 : arg9.IsWhole) (arg10 : Memref sig .tc .vmem S1x128 .f32) (harg10 : arg10.IsWhole) (hc0 : ¬cond2_0 i) (hc1 : cond2_1 i)
    (x0 : Vec F S5000x128 .f32) (x1 : Vec F S128x128 .f32) (x2 : Vec F S1x128 .f32) (x3 : Vec F S128x128 .f32) (x4 : Vec F S1x128 .f32) (xs0 : Vec F S1x128 .f32) (xs1 : Vec F S1x128 .f32) : Vec F S1x128 .f32 :=
  VS2_0.read (Elt F) (VS2_0.writes (Elt F) VS2_0.junk (kernelRun2_C c i arg1 harg1 arg2 harg2 arg3 harg3 arg4 harg4 arg5 harg5 arg6 harg6 arg7 harg7 arg8 harg8 arg9 harg9 arg10 harg10 hc0 hc1 x0 x1 x2 x3 x4 xs0 xs1).2.2.2.1)

/-- Case C's pieces for running-sum row 1 cover it (one whole-rectangle store). -/
theorem scover2_C_1 (c : Dev nD) (i : grid2.Coords) (arg1 : Memref sig .tc .vmem S5000x128 .f32) (harg1 : arg1.IsWhole) (arg2 : Memref sig .tc .vmem S128x128 .f32) (harg2 : arg2.IsWhole) (arg3 : Memref sig .tc .vmem S1x128 .f32) (harg3 : arg3.IsWhole) (arg4 : Memref sig .tc .vmem S128x128 .f32) (harg4 : arg4.IsWhole) (arg5 : Memref sig .tc .vmem S1x128 .f32) (harg5 : arg5.IsWhole) (arg6 : Memref sig .tc .vmem S5000x128 .f32) (harg6 : arg6.IsWhole) (arg7 : Memref sig .tc .vmem S1x128 .f32) (harg7 : arg7.IsWhole) (arg8 : Memref sig .tc .vmem S1x128 .f32) (harg8 : arg8.IsWhole) (arg9 : Memref sig .tc .vmem S1x128 .f32) (harg9 : arg9.IsWhole) (arg10 : Memref sig .tc .vmem S1x128 .f32) (harg10 : arg10.IsWhole) (hc0 : ¬cond2_0 i) (hc1 : cond2_1 i)
    (x0 : Vec F S5000x128 .f32) (x1 : Vec F S128x128 .f32) (x2 : Vec F S1x128 .f32) (x3 : Vec F S128x128 .f32) (x4 : Vec F S1x128 .f32) (xs0 : Vec F S1x128 .f32) (xs1 : Vec F S1x128 .f32) (y : S1x128.Idx) :
    ∃ pc ∈ (kernelRun2_C c i arg1 harg1 arg2 harg2 arg3 harg3 arg4 harg4 arg5 harg5 arg6 harg6 arg7 harg7 arg8 harg8 arg9 harg9 arg10 harg10 hc0 hc1 x0 x1 x2 x3 x4 xs0 xs1).2.2.2.2.1, y ∈ pc.1.set :=
  View.cover_of_tiledL (kernelRun2_C c i arg1 harg1 arg2 harg2 arg3 harg3 arg4 harg4 arg5 harg5 arg6 harg6 arg7 harg7 arg8 harg8 arg9 harg9 arg10 harg10 hc0 hc1 x0 x1 x2 x3 x4 xs0 xs1).2.2.2.2.1 S1x128.size (by sl_kernel_rfl) y

/-- What case C leaves there: its pieces read back. -/
def sout2_C_1 (c : Dev nD) (i : grid2.Coords) (arg1 : Memref sig .tc .vmem S5000x128 .f32) (harg1 : arg1.IsWhole) (arg2 : Memref sig .tc .vmem S128x128 .f32) (harg2 : arg2.IsWhole) (arg3 : Memref sig .tc .vmem S1x128 .f32) (harg3 : arg3.IsWhole) (arg4 : Memref sig .tc .vmem S128x128 .f32) (harg4 : arg4.IsWhole) (arg5 : Memref sig .tc .vmem S1x128 .f32) (harg5 : arg5.IsWhole) (arg6 : Memref sig .tc .vmem S5000x128 .f32) (harg6 : arg6.IsWhole) (arg7 : Memref sig .tc .vmem S1x128 .f32) (harg7 : arg7.IsWhole) (arg8 : Memref sig .tc .vmem S1x128 .f32) (harg8 : arg8.IsWhole) (arg9 : Memref sig .tc .vmem S1x128 .f32) (harg9 : arg9.IsWhole) (arg10 : Memref sig .tc .vmem S1x128 .f32) (harg10 : arg10.IsWhole) (hc0 : ¬cond2_0 i) (hc1 : cond2_1 i)
    (x0 : Vec F S5000x128 .f32) (x1 : Vec F S128x128 .f32) (x2 : Vec F S1x128 .f32) (x3 : Vec F S128x128 .f32) (x4 : Vec F S1x128 .f32) (xs0 : Vec F S1x128 .f32) (xs1 : Vec F S1x128 .f32) : Vec F S1x128 .f32 :=
  VS2_1.read (Elt F) (VS2_1.writes (Elt F) VS2_1.junk (kernelRun2_C c i arg1 harg1 arg2 harg2 arg3 harg3 arg4 harg4 arg5 harg5 arg6 harg6 arg7 harg7 arg8 harg8 arg9 harg9 arg10 harg10 hc0 hc1 x0 x1 x2 x3 x4 xs0 xs1).2.2.2.2.1)

/-- THE ACCUMULATION. What the three outputs' staging buffers and the two running-sum rows hold after the body at position `n`
    (a tuple: z's block, the two [1,128] outputs, then the two rows): the first point's case zeroes the rows first; every later
    point runs on the rows as the point before left them; the last point also copies them out. The two [1,128] outputs are idle
    before the last point: their component there is a placeholder nothing consults. -/
def outsAt2 (c : Dev nD) : (n : ℕ) → n < cfg2.N → Vec F S5000x128 .f32 × Vec F S1x128 .f32 × Vec F S1x128 .f32 × Vec F S1x128 .f32 × Vec F S1x128 .f32
  | 0, hn => (out2_A_5 c (grid2.coords ⟨0, hn⟩) (ms2_0 ⟨0, hn⟩) (hs2_0 ⟨0, hn⟩) (ms2_1 ⟨0, hn⟩) (hs2_1 ⟨0, hn⟩) (ms2_2 ⟨0, hn⟩) (hs2_2 ⟨0, hn⟩) (ms2_3 ⟨0, hn⟩) (hs2_3 ⟨0, hn⟩) (ms2_4 ⟨0, hn⟩) (hs2_4 ⟨0, hn⟩) (ms2_5 ⟨0, hn⟩) (hs2_5 ⟨0, hn⟩) (ms2_6 ⟨0, hn⟩) (hs2_6 ⟨0, hn⟩) (ms2_7 ⟨0, hn⟩) (hs2_7 ⟨0, hn⟩) scM2_0 (Memref.isWhole_whole _) scM2_1 (Memref.isWhole_whole _) ((hcond2_0 ⟨0, hn⟩).mpr (Nat.zero_mod _)) (fun h => (fun h => by (try dsimp only at h); omega) ((hcond2_1 ⟨0, hn⟩).mp h)) (iblk2 V c 0 ⟨0, hn⟩) (iblk2 V c 1 ⟨0, hn⟩) (iblk2 V c 2 ⟨0, hn⟩) (iblk2 V c 3 ⟨0, hn⟩) (iblk2 V c 4 ⟨0, hn⟩),
      VO2_6.read (Elt F) VO2_6.junk,
      VO2_7.read (Elt F) VO2_7.junk,
      sout2_A_0 c (grid2.coords ⟨0, hn⟩) (ms2_0 ⟨0, hn⟩) (hs2_0 ⟨0, hn⟩) (ms2_1 ⟨0, hn⟩) (hs2_1 ⟨0, hn⟩) (ms2_2 ⟨0, hn⟩) (hs2_2 ⟨0, hn⟩) (ms2_3 ⟨0, hn⟩) (hs2_3 ⟨0, hn⟩) (ms2_4 ⟨0, hn⟩) (hs2_4 ⟨0, hn⟩) (ms2_5 ⟨0, hn⟩) (hs2_5 ⟨0, hn⟩) (ms2_6 ⟨0, hn⟩) (hs2_6 ⟨0, hn⟩) (ms2_7 ⟨0, hn⟩) (hs2_7 ⟨0, hn⟩) scM2_0 (Memref.isWhole_whole _) scM2_1 (Memref.isWhole_whole _) ((hcond2_0 ⟨0, hn⟩).mpr (Nat.zero_mod _)) (fun h => (fun h => by (try dsimp only at h); omega) ((hcond2_1 ⟨0, hn⟩).mp h)) (iblk2 V c 0 ⟨0, hn⟩) (iblk2 V c 1 ⟨0, hn⟩) (iblk2 V c 2 ⟨0, hn⟩) (iblk2 V c 3 ⟨0, hn⟩) (iblk2 V c 4 ⟨0, hn⟩),
      sout2_A_1 c (grid2.coords ⟨0, hn⟩) (ms2_0 ⟨0, hn⟩) (hs2_0 ⟨0, hn⟩) (ms2_1 ⟨0, hn⟩) (hs2_1 ⟨0, hn⟩) (ms2_2 ⟨0, hn⟩) (hs2_2 ⟨0, hn⟩) (ms2_3 ⟨0, hn⟩) (hs2_3 ⟨0, hn⟩) (ms2_4 ⟨0, hn⟩) (hs2_4 ⟨0, hn⟩) (ms2_5 ⟨0, hn⟩) (hs2_5 ⟨0, hn⟩) (ms2_6 ⟨0, hn⟩) (hs2_6 ⟨0, hn⟩) (ms2_7 ⟨0, hn⟩) (hs2_7 ⟨0, hn⟩) scM2_0 (Memref.isWhole_whole _) scM2_1 (Memref.isWhole_whole _) ((hcond2_0 ⟨0, hn⟩).mpr (Nat.zero_mod _)) (fun h => (fun h => by (try dsimp only at h); omega) ((hcond2_1 ⟨0, hn⟩).mp h)) (iblk2 V c 0 ⟨0, hn⟩) (iblk2 V c 1 ⟨0, hn⟩) (iblk2 V c 2 ⟨0, hn⟩) (iblk2 V c 3 ⟨0, hn⟩) (iblk2 V c 4 ⟨0, hn⟩))
  | n + 1, hn =>
    if h1 : (n + 1) % 20 = 19 then
      (out2_C_5 c (grid2.coords ⟨n + 1, hn⟩) (ms2_0 ⟨n + 1, hn⟩) (hs2_0 ⟨n + 1, hn⟩) (ms2_1 ⟨n + 1, hn⟩) (hs2_1 ⟨n + 1, hn⟩) (ms2_2 ⟨n + 1, hn⟩) (hs2_2 ⟨n + 1, hn⟩) (ms2_3 ⟨n + 1, hn⟩) (hs2_3 ⟨n + 1, hn⟩) (ms2_4 ⟨n + 1, hn⟩) (hs2_4 ⟨n + 1, hn⟩) (ms2_5 ⟨n + 1, hn⟩) (hs2_5 ⟨n + 1, hn⟩) (ms2_6 ⟨n + 1, hn⟩) (hs2_6 ⟨n + 1, hn⟩) (ms2_7 ⟨n + 1, hn⟩) (hs2_7 ⟨n + 1, hn⟩) scM2_0 (Memref.isWhole_whole _) scM2_1 (Memref.isWhole_whole _) (fun h => (by have hN : n + 1 < 20 := lt_of_lt_of_eq hn (show cfg2.N = 20 from N_2); omega : ¬(n + 1) % 20 = 0) ((hcond2_0 ⟨n + 1, hn⟩).mp h)) ((hcond2_1 ⟨n + 1, hn⟩).mpr h1) (iblk2 V c 0 ⟨n + 1, hn⟩) (iblk2 V c 1 ⟨n + 1, hn⟩) (iblk2 V c 2 ⟨n + 1, hn⟩) (iblk2 V c 3 ⟨n + 1, hn⟩) (iblk2 V c 4 ⟨n + 1, hn⟩) (outsAt2 c n (Nat.lt_of_succ_lt hn)).2.2.2.1 (outsAt2 c n (Nat.lt_of_succ_lt hn)).2.2.2.2,
      out2_C_6 c (grid2.coords ⟨n + 1, hn⟩) (ms2_0 ⟨n + 1, hn⟩) (hs2_0 ⟨n + 1, hn⟩) (ms2_1 ⟨n + 1, hn⟩) (hs2_1 ⟨n + 1, hn⟩) (ms2_2 ⟨n + 1, hn⟩) (hs2_2 ⟨n + 1, hn⟩) (ms2_3 ⟨n + 1, hn⟩) (hs2_3 ⟨n + 1, hn⟩) (ms2_4 ⟨n + 1, hn⟩) (hs2_4 ⟨n + 1, hn⟩) (ms2_5 ⟨n + 1, hn⟩) (hs2_5 ⟨n + 1, hn⟩) (ms2_6 ⟨n + 1, hn⟩) (hs2_6 ⟨n + 1, hn⟩) (ms2_7 ⟨n + 1, hn⟩) (hs2_7 ⟨n + 1, hn⟩) scM2_0 (Memref.isWhole_whole _) scM2_1 (Memref.isWhole_whole _) (fun h => (by have hN : n + 1 < 20 := lt_of_lt_of_eq hn (show cfg2.N = 20 from N_2); omega : ¬(n + 1) % 20 = 0) ((hcond2_0 ⟨n + 1, hn⟩).mp h)) ((hcond2_1 ⟨n + 1, hn⟩).mpr h1) (iblk2 V c 0 ⟨n + 1, hn⟩) (iblk2 V c 1 ⟨n + 1, hn⟩) (iblk2 V c 2 ⟨n + 1, hn⟩) (iblk2 V c 3 ⟨n + 1, hn⟩) (iblk2 V c 4 ⟨n + 1, hn⟩) (outsAt2 c n (Nat.lt_of_succ_lt hn)).2.2.2.1 (outsAt2 c n (Nat.lt_of_succ_lt hn)).2.2.2.2,
      out2_C_7 c (grid2.coords ⟨n + 1, hn⟩) (ms2_0 ⟨n + 1, hn⟩) (hs2_0 ⟨n + 1, hn⟩) (ms2_1 ⟨n + 1, hn⟩) (hs2_1 ⟨n + 1, hn⟩) (ms2_2 ⟨n + 1, hn⟩) (hs2_2 ⟨n + 1, hn⟩) (ms2_3 ⟨n + 1, hn⟩) (hs2_3 ⟨n + 1, hn⟩) (ms2_4 ⟨n + 1, hn⟩) (hs2_4 ⟨n + 1, hn⟩) (ms2_5 ⟨n + 1, hn⟩) (hs2_5 ⟨n + 1, hn⟩) (ms2_6 ⟨n + 1, hn⟩) (hs2_6 ⟨n + 1, hn⟩) (ms2_7 ⟨n + 1, hn⟩) (hs2_7 ⟨n + 1, hn⟩) scM2_0 (Memref.isWhole_whole _) scM2_1 (Memref.isWhole_whole _) (fun h => (by have hN : n + 1 < 20 := lt_of_lt_of_eq hn (show cfg2.N = 20 from N_2); omega : ¬(n + 1) % 20 = 0) ((hcond2_0 ⟨n + 1, hn⟩).mp h)) ((hcond2_1 ⟨n + 1, hn⟩).mpr h1) (iblk2 V c 0 ⟨n + 1, hn⟩) (iblk2 V c 1 ⟨n + 1, hn⟩) (iblk2 V c 2 ⟨n + 1, hn⟩) (iblk2 V c 3 ⟨n + 1, hn⟩) (iblk2 V c 4 ⟨n + 1, hn⟩) (outsAt2 c n (Nat.lt_of_succ_lt hn)).2.2.2.1 (outsAt2 c n (Nat.lt_of_succ_lt hn)).2.2.2.2,
      sout2_C_0 c (grid2.coords ⟨n + 1, hn⟩) (ms2_0 ⟨n + 1, hn⟩) (hs2_0 ⟨n + 1, hn⟩) (ms2_1 ⟨n + 1, hn⟩) (hs2_1 ⟨n + 1, hn⟩) (ms2_2 ⟨n + 1, hn⟩) (hs2_2 ⟨n + 1, hn⟩) (ms2_3 ⟨n + 1, hn⟩) (hs2_3 ⟨n + 1, hn⟩) (ms2_4 ⟨n + 1, hn⟩) (hs2_4 ⟨n + 1, hn⟩) (ms2_5 ⟨n + 1, hn⟩) (hs2_5 ⟨n + 1, hn⟩) (ms2_6 ⟨n + 1, hn⟩) (hs2_6 ⟨n + 1, hn⟩) (ms2_7 ⟨n + 1, hn⟩) (hs2_7 ⟨n + 1, hn⟩) scM2_0 (Memref.isWhole_whole _) scM2_1 (Memref.isWhole_whole _) (fun h => (by have hN : n + 1 < 20 := lt_of_lt_of_eq hn (show cfg2.N = 20 from N_2); omega : ¬(n + 1) % 20 = 0) ((hcond2_0 ⟨n + 1, hn⟩).mp h)) ((hcond2_1 ⟨n + 1, hn⟩).mpr h1) (iblk2 V c 0 ⟨n + 1, hn⟩) (iblk2 V c 1 ⟨n + 1, hn⟩) (iblk2 V c 2 ⟨n + 1, hn⟩) (iblk2 V c 3 ⟨n + 1, hn⟩) (iblk2 V c 4 ⟨n + 1, hn⟩) (outsAt2 c n (Nat.lt_of_succ_lt hn)).2.2.2.1 (outsAt2 c n (Nat.lt_of_succ_lt hn)).2.2.2.2,
      sout2_C_1 c (grid2.coords ⟨n + 1, hn⟩) (ms2_0 ⟨n + 1, hn⟩) (hs2_0 ⟨n + 1, hn⟩) (ms2_1 ⟨n + 1, hn⟩) (hs2_1 ⟨n + 1, hn⟩) (ms2_2 ⟨n + 1, hn⟩) (hs2_2 ⟨n + 1, hn⟩) (ms2_3 ⟨n + 1, hn⟩) (hs2_3 ⟨n + 1, hn⟩) (ms2_4 ⟨n + 1, hn⟩) (hs2_4 ⟨n + 1, hn⟩) (ms2_5 ⟨n + 1, hn⟩) (hs2_5 ⟨n + 1, hn⟩) (ms2_6 ⟨n + 1, hn⟩) (hs2_6 ⟨n + 1, hn⟩) (ms2_7 ⟨n + 1, hn⟩) (hs2_7 ⟨n + 1, hn⟩) scM2_0 (Memref.isWhole_whole _) scM2_1 (Memref.isWhole_whole _) (fun h => (by have hN : n + 1 < 20 := lt_of_lt_of_eq hn (show cfg2.N = 20 from N_2); omega : ¬(n + 1) % 20 = 0) ((hcond2_0 ⟨n + 1, hn⟩).mp h)) ((hcond2_1 ⟨n + 1, hn⟩).mpr h1) (iblk2 V c 0 ⟨n + 1, hn⟩) (iblk2 V c 1 ⟨n + 1, hn⟩) (iblk2 V c 2 ⟨n + 1, hn⟩) (iblk2 V c 3 ⟨n + 1, hn⟩) (iblk2 V c 4 ⟨n + 1, hn⟩) (outsAt2 c n (Nat.lt_of_succ_lt hn)).2.2.2.1 (outsAt2 c n (Nat.lt_of_succ_lt hn)).2.2.2.2)
    else
      (out2_B_5 c (grid2.coords ⟨n + 1, hn⟩) (ms2_0 ⟨n + 1, hn⟩) (hs2_0 ⟨n + 1, hn⟩) (ms2_1 ⟨n + 1, hn⟩) (hs2_1 ⟨n + 1, hn⟩) (ms2_2 ⟨n + 1, hn⟩) (hs2_2 ⟨n + 1, hn⟩) (ms2_3 ⟨n + 1, hn⟩) (hs2_3 ⟨n + 1, hn⟩) (ms2_4 ⟨n + 1, hn⟩) (hs2_4 ⟨n + 1, hn⟩) (ms2_5 ⟨n + 1, hn⟩) (hs2_5 ⟨n + 1, hn⟩) (ms2_6 ⟨n + 1, hn⟩) (hs2_6 ⟨n + 1, hn⟩) (ms2_7 ⟨n + 1, hn⟩) (hs2_7 ⟨n + 1, hn⟩) scM2_0 (Memref.isWhole_whole _) scM2_1 (Memref.isWhole_whole _) (fun h => (by have hN : n + 1 < 20 := lt_of_lt_of_eq hn (show cfg2.N = 20 from N_2); omega : ¬(n + 1) % 20 = 0) ((hcond2_0 ⟨n + 1, hn⟩).mp h)) (fun h => h1 ((hcond2_1 ⟨n + 1, hn⟩).mp h)) (iblk2 V c 0 ⟨n + 1, hn⟩) (iblk2 V c 1 ⟨n + 1, hn⟩) (iblk2 V c 2 ⟨n + 1, hn⟩) (iblk2 V c 3 ⟨n + 1, hn⟩) (iblk2 V c 4 ⟨n + 1, hn⟩) (outsAt2 c n (Nat.lt_of_succ_lt hn)).2.2.2.1 (outsAt2 c n (Nat.lt_of_succ_lt hn)).2.2.2.2,
      VO2_6.read (Elt F) VO2_6.junk,
      VO2_7.read (Elt F) VO2_7.junk,
      sout2_B_0 c (grid2.coords ⟨n + 1, hn⟩) (ms2_0 ⟨n + 1, hn⟩) (hs2_0 ⟨n + 1, hn⟩) (ms2_1 ⟨n + 1, hn⟩) (hs2_1 ⟨n + 1, hn⟩) (ms2_2 ⟨n + 1, hn⟩) (hs2_2 ⟨n + 1, hn⟩) (ms2_3 ⟨n + 1, hn⟩) (hs2_3 ⟨n + 1, hn⟩) (ms2_4 ⟨n + 1, hn⟩) (hs2_4 ⟨n + 1, hn⟩) (ms2_5 ⟨n + 1, hn⟩) (hs2_5 ⟨n + 1, hn⟩) (ms2_6 ⟨n + 1, hn⟩) (hs2_6 ⟨n + 1, hn⟩) (ms2_7 ⟨n + 1, hn⟩) (hs2_7 ⟨n + 1, hn⟩) scM2_0 (Memref.isWhole_whole _) scM2_1 (Memref.isWhole_whole _) (fun h => (by have hN : n + 1 < 20 := lt_of_lt_of_eq hn (show cfg2.N = 20 from N_2); omega : ¬(n + 1) % 20 = 0) ((hcond2_0 ⟨n + 1, hn⟩).mp h)) (fun h => h1 ((hcond2_1 ⟨n + 1, hn⟩).mp h)) (iblk2 V c 0 ⟨n + 1, hn⟩) (iblk2 V c 1 ⟨n + 1, hn⟩) (iblk2 V c 2 ⟨n + 1, hn⟩) (iblk2 V c 3 ⟨n + 1, hn⟩) (iblk2 V c 4 ⟨n + 1, hn⟩) (outsAt2 c n (Nat.lt_of_succ_lt hn)).2.2.2.1 (outsAt2 c n (Nat.lt_of_succ_lt hn)).2.2.2.2,
      sout2_B_1 c (grid2.coords ⟨n + 1, hn⟩) (ms2_0 ⟨n + 1, hn⟩) (hs2_0 ⟨n + 1, hn⟩) (ms2_1 ⟨n + 1, hn⟩) (hs2_1 ⟨n + 1, hn⟩) (ms2_2 ⟨n + 1, hn⟩) (hs2_2 ⟨n + 1, hn⟩) (ms2_3 ⟨n + 1, hn⟩) (hs2_3 ⟨n + 1, hn⟩) (ms2_4 ⟨n + 1, hn⟩) (hs2_4 ⟨n + 1, hn⟩) (ms2_5 ⟨n + 1, hn⟩) (hs2_5 ⟨n + 1, hn⟩) (ms2_6 ⟨n + 1, hn⟩) (hs2_6 ⟨n + 1, hn⟩) (ms2_7 ⟨n + 1, hn⟩) (hs2_7 ⟨n + 1, hn⟩) scM2_0 (Memref.isWhole_whole _) scM2_1 (Memref.isWhole_whole _) (fun h => (by have hN : n + 1 < 20 := lt_of_lt_of_eq hn (show cfg2.N = 20 from N_2); omega : ¬(n + 1) % 20 = 0) ((hcond2_0 ⟨n + 1, hn⟩).mp h)) (fun h => h1 ((hcond2_1 ⟨n + 1, hn⟩).mp h)) (iblk2 V c 0 ⟨n + 1, hn⟩) (iblk2 V c 1 ⟨n + 1, hn⟩) (iblk2 V c 2 ⟨n + 1, hn⟩) (iblk2 V c 3 ⟨n + 1, hn⟩) (iblk2 V c 4 ⟨n + 1, hn⟩) (outsAt2 c n (Nat.lt_of_succ_lt hn)).2.2.2.1 (outsAt2 c n (Nat.lt_of_succ_lt hn)).2.2.2.2)

/-- `outsAt2` at the first point. -/
theorem outsAt2_A (c : Dev nD) (t : Fin cfg2.N) (h0 : t.val % 20 = 0) (h1 : ¬t.val % 20 = 19) :
    outsAt2 V c t.val t.isLt = (out2_A_5 c (grid2.coords t) (ms2_0 t) (hs2_0 t) (ms2_1 t) (hs2_1 t) (ms2_2 t) (hs2_2 t) (ms2_3 t) (hs2_3 t) (ms2_4 t) (hs2_4 t) (ms2_5 t) (hs2_5 t) (ms2_6 t) (hs2_6 t) (ms2_7 t) (hs2_7 t) scM2_0 (Memref.isWhole_whole _) scM2_1 (Memref.isWhole_whole _) ((hcond2_0 t).mpr h0) (fun h => h1 ((hcond2_1 t).mp h)) (iblk2 V c 0 t) (iblk2 V c 1 t) (iblk2 V c 2 t) (iblk2 V c 3 t) (iblk2 V c 4 t),
      VO2_6.read (Elt F) VO2_6.junk,
      VO2_7.read (Elt F) VO2_7.junk,
      sout2_A_0 c (grid2.coords t) (ms2_0 t) (hs2_0 t) (ms2_1 t) (hs2_1 t) (ms2_2 t) (hs2_2 t) (ms2_3 t) (hs2_3 t) (ms2_4 t) (hs2_4 t) (ms2_5 t) (hs2_5 t) (ms2_6 t) (hs2_6 t) (ms2_7 t) (hs2_7 t) scM2_0 (Memref.isWhole_whole _) scM2_1 (Memref.isWhole_whole _) ((hcond2_0 t).mpr h0) (fun h => h1 ((hcond2_1 t).mp h)) (iblk2 V c 0 t) (iblk2 V c 1 t) (iblk2 V c 2 t) (iblk2 V c 3 t) (iblk2 V c 4 t),
      sout2_A_1 c (grid2.coords t) (ms2_0 t) (hs2_0 t) (ms2_1 t) (hs2_1 t) (ms2_2 t) (hs2_2 t) (ms2_3 t) (hs2_3 t) (ms2_4 t) (hs2_4 t) (ms2_5 t) (hs2_5 t) (ms2_6 t) (hs2_6 t) (ms2_7 t) (hs2_7 t) scM2_0 (Memref.isWhole_whole _) scM2_1 (Memref.isWhole_whole _) ((hcond2_0 t).mpr h0) (fun h => h1 ((hcond2_1 t).mp h)) (iblk2 V c 0 t) (iblk2 V c 1 t) (iblk2 V c 2 t) (iblk2 V c 3 t) (iblk2 V c 4 t)) := by
  obtain ⟨n, hn⟩ := t
  cases n with
  | zero => exact rfl
  | succ n => exact (by exfalso; have hN : n + 1 < 20 := lt_of_lt_of_eq hn (show cfg2.N = 20 from N_2); (try dsimp only at h0); omega)

/-- `outsAt2` at a middle point: that case's contents, over what the point before left. -/
theorem outsAt2_B (c : Dev nD) (t : Fin cfg2.N) (h0 : ¬t.val % 20 = 0) (h1 : ¬t.val % 20 = 19) :
    outsAt2 V c t.val t.isLt = (out2_B_5 c (grid2.coords t) (ms2_0 t) (hs2_0 t) (ms2_1 t) (hs2_1 t) (ms2_2 t) (hs2_2 t) (ms2_3 t) (hs2_3 t) (ms2_4 t) (hs2_4 t) (ms2_5 t) (hs2_5 t) (ms2_6 t) (hs2_6 t) (ms2_7 t) (hs2_7 t) scM2_0 (Memref.isWhole_whole _) scM2_1 (Memref.isWhole_whole _) (fun h => h0 ((hcond2_0 t).mp h)) (fun h => h1 ((hcond2_1 t).mp h)) (iblk2 V c 0 t) (iblk2 V c 1 t) (iblk2 V c 2 t) (iblk2 V c 3 t) (iblk2 V c 4 t) (outsAt2 V c (t.val - 1) (Nat.lt_of_le_of_lt (Nat.sub_le _ _) t.isLt)).2.2.2.1 (outsAt2 V c (t.val - 1) (Nat.lt_of_le_of_lt (Nat.sub_le _ _) t.isLt)).2.2.2.2,
      VO2_6.read (Elt F) VO2_6.junk,
      VO2_7.read (Elt F) VO2_7.junk,
      sout2_B_0 c (grid2.coords t) (ms2_0 t) (hs2_0 t) (ms2_1 t) (hs2_1 t) (ms2_2 t) (hs2_2 t) (ms2_3 t) (hs2_3 t) (ms2_4 t) (hs2_4 t) (ms2_5 t) (hs2_5 t) (ms2_6 t) (hs2_6 t) (ms2_7 t) (hs2_7 t) scM2_0 (Memref.isWhole_whole _) scM2_1 (Memref.isWhole_whole _) (fun h => h0 ((hcond2_0 t).mp h)) (fun h => h1 ((hcond2_1 t).mp h)) (iblk2 V c 0 t) (iblk2 V c 1 t) (iblk2 V c 2 t) (iblk2 V c 3 t) (iblk2 V c 4 t) (outsAt2 V c (t.val - 1) (Nat.lt_of_le_of_lt (Nat.sub_le _ _) t.isLt)).2.2.2.1 (outsAt2 V c (t.val - 1) (Nat.lt_of_le_of_lt (Nat.sub_le _ _) t.isLt)).2.2.2.2,
      sout2_B_1 c (grid2.coords t) (ms2_0 t) (hs2_0 t) (ms2_1 t) (hs2_1 t) (ms2_2 t) (hs2_2 t) (ms2_3 t) (hs2_3 t) (ms2_4 t) (hs2_4 t) (ms2_5 t) (hs2_5 t) (ms2_6 t) (hs2_6 t) (ms2_7 t) (hs2_7 t) scM2_0 (Memref.isWhole_whole _) scM2_1 (Memref.isWhole_whole _) (fun h => h0 ((hcond2_0 t).mp h)) (fun h => h1 ((hcond2_1 t).mp h)) (iblk2 V c 0 t) (iblk2 V c 1 t) (iblk2 V c 2 t) (iblk2 V c 3 t) (iblk2 V c 4 t) (outsAt2 V c (t.val - 1) (Nat.lt_of_le_of_lt (Nat.sub_le _ _) t.isLt)).2.2.2.1 (outsAt2 V c (t.val - 1) (Nat.lt_of_le_of_lt (Nat.sub_le _ _) t.isLt)).2.2.2.2) := by
  obtain ⟨n, hn⟩ := t
  cases n with
  | zero => exact (by exfalso; (try dsimp only at h0); exact absurd (Nat.zero_mod _) h0)
  | succ n => exact (dif_neg h1).trans rfl

/-- `outsAt2` at the last point. -/
theorem outsAt2_C (c : Dev nD) (t : Fin cfg2.N) (h0 : ¬t.val % 20 = 0) (h1 : t.val % 20 = 19) :
    outsAt2 V c t.val t.isLt = (out2_C_5 c (grid2.coords t) (ms2_0 t) (hs2_0 t) (ms2_1 t) (hs2_1 t) (ms2_2 t) (hs2_2 t) (ms2_3 t) (hs2_3 t) (ms2_4 t) (hs2_4 t) (ms2_5 t) (hs2_5 t) (ms2_6 t) (hs2_6 t) (ms2_7 t) (hs2_7 t) scM2_0 (Memref.isWhole_whole _) scM2_1 (Memref.isWhole_whole _) (fun h => h0 ((hcond2_0 t).mp h)) ((hcond2_1 t).mpr h1) (iblk2 V c 0 t) (iblk2 V c 1 t) (iblk2 V c 2 t) (iblk2 V c 3 t) (iblk2 V c 4 t) (outsAt2 V c (t.val - 1) (Nat.lt_of_le_of_lt (Nat.sub_le _ _) t.isLt)).2.2.2.1 (outsAt2 V c (t.val - 1) (Nat.lt_of_le_of_lt (Nat.sub_le _ _) t.isLt)).2.2.2.2,
      out2_C_6 c (grid2.coords t) (ms2_0 t) (hs2_0 t) (ms2_1 t) (hs2_1 t) (ms2_2 t) (hs2_2 t) (ms2_3 t) (hs2_3 t) (ms2_4 t) (hs2_4 t) (ms2_5 t) (hs2_5 t) (ms2_6 t) (hs2_6 t) (ms2_7 t) (hs2_7 t) scM2_0 (Memref.isWhole_whole _) scM2_1 (Memref.isWhole_whole _) (fun h => h0 ((hcond2_0 t).mp h)) ((hcond2_1 t).mpr h1) (iblk2 V c 0 t) (iblk2 V c 1 t) (iblk2 V c 2 t) (iblk2 V c 3 t) (iblk2 V c 4 t) (outsAt2 V c (t.val - 1) (Nat.lt_of_le_of_lt (Nat.sub_le _ _) t.isLt)).2.2.2.1 (outsAt2 V c (t.val - 1) (Nat.lt_of_le_of_lt (Nat.sub_le _ _) t.isLt)).2.2.2.2,
      out2_C_7 c (grid2.coords t) (ms2_0 t) (hs2_0 t) (ms2_1 t) (hs2_1 t) (ms2_2 t) (hs2_2 t) (ms2_3 t) (hs2_3 t) (ms2_4 t) (hs2_4 t) (ms2_5 t) (hs2_5 t) (ms2_6 t) (hs2_6 t) (ms2_7 t) (hs2_7 t) scM2_0 (Memref.isWhole_whole _) scM2_1 (Memref.isWhole_whole _) (fun h => h0 ((hcond2_0 t).mp h)) ((hcond2_1 t).mpr h1) (iblk2 V c 0 t) (iblk2 V c 1 t) (iblk2 V c 2 t) (iblk2 V c 3 t) (iblk2 V c 4 t) (outsAt2 V c (t.val - 1) (Nat.lt_of_le_of_lt (Nat.sub_le _ _) t.isLt)).2.2.2.1 (outsAt2 V c (t.val - 1) (Nat.lt_of_le_of_lt (Nat.sub_le _ _) t.isLt)).2.2.2.2,
      sout2_C_0 c (grid2.coords t) (ms2_0 t) (hs2_0 t) (ms2_1 t) (hs2_1 t) (ms2_2 t) (hs2_2 t) (ms2_3 t) (hs2_3 t) (ms2_4 t) (hs2_4 t) (ms2_5 t) (hs2_5 t) (ms2_6 t) (hs2_6 t) (ms2_7 t) (hs2_7 t) scM2_0 (Memref.isWhole_whole _) scM2_1 (Memref.isWhole_whole _) (fun h => h0 ((hcond2_0 t).mp h)) ((hcond2_1 t).mpr h1) (iblk2 V c 0 t) (iblk2 V c 1 t) (iblk2 V c 2 t) (iblk2 V c 3 t) (iblk2 V c 4 t) (outsAt2 V c (t.val - 1) (Nat.lt_of_le_of_lt (Nat.sub_le _ _) t.isLt)).2.2.2.1 (outsAt2 V c (t.val - 1) (Nat.lt_of_le_of_lt (Nat.sub_le _ _) t.isLt)).2.2.2.2,
      sout2_C_1 c (grid2.coords t) (ms2_0 t) (hs2_0 t) (ms2_1 t) (hs2_1 t) (ms2_2 t) (hs2_2 t) (ms2_3 t) (hs2_3 t) (ms2_4 t) (hs2_4 t) (ms2_5 t) (hs2_5 t) (ms2_6 t) (hs2_6 t) (ms2_7 t) (hs2_7 t) scM2_0 (Memref.isWhole_whole _) scM2_1 (Memref.isWhole_whole _) (fun h => h0 ((hcond2_0 t).mp h)) ((hcond2_1 t).mpr h1) (iblk2 V c 0 t) (iblk2 V c 1 t) (iblk2 V c 2 t) (iblk2 V c 3 t) (iblk2 V c 4 t) (outsAt2 V c (t.val - 1) (Nat.lt_of_le_of_lt (Nat.sub_le _ _) t.isLt)).2.2.2.1 (outsAt2 V c (t.val - 1) (Nat.lt_of_le_of_lt (Nat.sub_le _ _) t.isLt)).2.2.2.2) := by
  obtain ⟨n, hn⟩ := t
  cases n with
  | zero => exact (by exfalso; (try dsimp only at h0); exact absurd (Nat.zero_mod _) h0)
  | succ n => exact (dif_pos h1).trans rfl

/-- The region invariant before position `n`: before the first point the class's (every scoped buffer at anything); afterwards the
    two running-sum rows at what the point before left in them, every other scoped buffer unopened at anything, and the generator
    register at some state. -/
def PhiS2 (c : Dev nD) : (n : ℕ) → n ≤ cfg2.N → sProp 𝕄
  | 0, _ => Pipeline.ΦA spec2 c
  | n + 1, hn => iprop(iprop(iprop(owns (c : Thread nD τ) scM2_0 fullShare (outsAt2 V c n hn).2.2.2.1 ∗ owns (c : Thread nD τ) scM2_1 fullShare (outsAt2 V c n hn).2.2.2.2) ∗ Pipeline.scopedRestBut (Ix := Unit) (Name := ℕ) (U := UR sig nD τ) (Lvl := ℕ) (Val := Elt F) spec2 c [cc2_scratch0, cc2_scratch1]) ∗ (∃ r, prngReg c r))

theorem PhiS2_zero (c : Dev nD) (n : ℕ) (h : n ≤ cfg2.N) (hz : n = 0) : PhiS2 V c n h = Pipeline.ΦA spec2 c := by
  subst hz; rfl

theorem PhiS2_succ (c : Dev nD) (n : ℕ) (hn : n < cfg2.N) :
    PhiS2 V c (n + 1) hn = iprop(iprop(iprop(owns (c : Thread nD τ) scM2_0 fullShare (outsAt2 V c n hn).2.2.2.1 ∗ owns (c : Thread nD τ) scM2_1 fullShare (outsAt2 V c n hn).2.2.2.2) ∗ Pipeline.scopedRestBut (Ix := Unit) (Name := ℕ) (U := UR sig nD τ) (Lvl := ℕ) (Val := Elt F) spec2 c [cc2_scratch0, cc2_scratch1]) ∗ (∃ r, prngReg c r)) := rfl

theorem PhiS2_pos (c : Dev nD) (n : ℕ) (h : n ≤ cfg2.N) (hz : n ≠ 0) :
    PhiS2 V c n h = iprop(iprop(iprop(owns (c : Thread nD τ) scM2_0 fullShare (outsAt2 V c (n - 1) (by omega)).2.2.2.1 ∗ owns (c : Thread nD τ) scM2_1 fullShare (outsAt2 V c (n - 1) (by omega)).2.2.2.2) ∗ Pipeline.scopedRestBut (Ix := Unit) (Name := ℕ) (U := UR sig nD τ) (Lvl := ℕ) (Val := Elt F) spec2 c [cc2_scratch0, cc2_scratch1]) ∗ (∃ r, prngReg c r)) := by
  cases n with
  | zero => exact absurd rfl hz
  | succ n => rfl

/-! ## The pipeline's proof data -/

/-- The proof data of region 2 on core `c`: the arrays as the region finds them; after the body at point `t` each input's buffer
    at its block and the outputs' at `outsAt2`; the invariant `PhiS2`; nothing owed; full shares. -/
def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => iblk2 V c 3 t
    | ⟨4, _⟩ => iblk2 V c 4 t
    | ⟨5, _⟩ => (outsAt2 V c t.val t.isLt).1
    | ⟨6, _⟩ => (outsAt2 V c t.val t.isLt).2.1
    | ⟨7, _⟩ => (outsAt2 V c t.val t.isLt).2.2.1
  Φ t := PhiS2 V c t.val (Nat.le_of_lt_succ t.isLt)
  q _ := fullShare
  owed _ := 0

theorem A_eq2 (c : Dev nD) (w : Fin cfg2.W) : (dat2 V c).A w = V c (Pipeline.arrRef spec2 w) := by
  dsimp only [dat2]

theorem PhiS2_castSucc (c : Dev nD) (t : Fin cfg2.N) :
    (dat2 V c).Φ t.castSucc = PhiS2 V c t.val (Nat.le_of_lt t.isLt) := by
  dsimp only [dat2]; simp only [Fin.coe_castSucc]

theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = iblk2 V c 2 t := by dsimp only [dat2]
theorem after2_3 (c : Dev nD) (t : Fin cfg2.N) : (dat2 V c).after 3 t = iblk2 V c 3 t := by dsimp only [dat2]
theorem after2_4 (c : Dev nD) (t : Fin cfg2.N) : (dat2 V c).after 4 t = iblk2 V c 4 t := by dsimp only [dat2]
theorem after2_5 (c : Dev nD) (t : Fin cfg2.N) : (dat2 V c).after 5 t = (outsAt2 V c t.val t.isLt).1 := by dsimp only [dat2]
theorem after2_6 (c : Dev nD) (t : Fin cfg2.N) : (dat2 V c).after 6 t = (outsAt2 V c t.val t.isLt).2.1 := by dsimp only [dat2]
theorem after2_7 (c : Dev nD) (t : Fin cfg2.N) : (dat2 V c).after 7 t = (outsAt2 V c t.val t.isLt).2.2.1 := by dsimp only [dat2]

theorem before2_0 (c : Dev nD) (t : Fin cfg2.N) (d) : (dat2 V c).before 0 t d = iblk2 V c 0 t :=
  before2_0_of V (dat2 V c) (A_eq2 V c 0) (after2_0 V c) t d
theorem before2_1 (c : Dev nD) (t : Fin cfg2.N) (d) : (dat2 V c).before 1 t d = iblk2 V c 1 t :=
  before2_1_of V (dat2 V c) (A_eq2 V c 1) (after2_1 V c) t d
theorem before2_2 (c : Dev nD) (t : Fin cfg2.N) (d) : (dat2 V c).before 2 t d = iblk2 V c 2 t :=
  before2_2_of V (dat2 V c) (A_eq2 V c 2) (after2_2 V c) t d
theorem before2_3 (c : Dev nD) (t : Fin cfg2.N) (d) : (dat2 V c).before 3 t d = iblk2 V c 3 t :=
  before2_3_of V (dat2 V c) (A_eq2 V c 3) (after2_3 V c) t d
theorem before2_4 (c : Dev nD) (t : Fin cfg2.N) (d) : (dat2 V c).before 4 t d = iblk2 V c 4 t :=
  before2_4_of V (dat2 V c) (A_eq2 V c 4) (after2_4 V c) t d

/-! ## The body obligation, at a generic point -/

def bodyPre2 (c : Dev nD) (t : Fin cfg2.N) : sProp 𝕄 :=
  iprop((dat2 V c).Φ t.castSucc ∗ (dat2 V c).owesAt () t.castSucc
    ∗ (∃ d, owns (c : Thread nD τ) (ms2_0 t) fullShare ((dat2 V c).before 0 t d))
    ∗ (∃ d, owns (c : Thread nD τ) (ms2_1 t) fullShare ((dat2 V c).before 1 t d))
    ∗ (∃ d, owns (c : Thread nD τ) (ms2_2 t) fullShare ((dat2 V c).before 2 t d))
    ∗ (∃ d, owns (c : Thread nD τ) (ms2_3 t) fullShare ((dat2 V c).before 3 t d))
    ∗ (∃ d, owns (c : Thread nD τ) (ms2_4 t) fullShare ((dat2 V c).before 4 t d))
    ∗ (∃ d, owns (c : Thread nD τ) (ms2_5 t) fullShare ((dat2 V c).before 5 t d))
    ∗ (∃ d, owns (c : Thread nD τ) (ms2_6 t) fullShare ((dat2 V c).before 6 t d))
    ∗ (∃ d, owns (c : Thread nD τ) (ms2_7 t) fullShare ((dat2 V c).before 7 t d)))

def bodyPost2 (c : Dev nD) (t : Fin cfg2.N) : sProp 𝕄 :=
  iprop((dat2 V c).Φ t.succ ∗ (dat2 V c).owesAt () t.succ
    ∗ (dat2 V c).leavesExact 0 t
    ∗ (dat2 V c).leavesExact 1 t
    ∗ (dat2 V c).leavesExact 2 t
    ∗ (dat2 V c).leavesExact 3 t
    ∗ (dat2 V c).leavesExact 4 t
    ∗ (dat2 V c).leavesExact 5 t
    ∗ (dat2 V c).leavesExact 6 t
    ∗ (dat2 V c).leavesExact 7 t)

set_option maxHeartbeats 8000000 in
/-- The body at any point. The inputs' memrefs hold their blocks; the closed forms of the two conditions say which case the point
    is in; the invariant hands the body the two running-sum rows (at anything at the first point, at what the point before left
    afterwards) and takes them back at this point's contents; the core owes nothing throughout. -/
theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1, before2_2, before2_3, before2_4]
  rw [show (dat2 V c).owesAt () t.succ = (dat2 V c).owesAt () t.castSucc from rfl]
  rw [show (dat2 V c).Φ t.succ = PhiS2 V c (t.val + 1) t.isLt from rfl, PhiS2_succ]
  have hN : t.val < 20 := lt_of_lt_of_eq t.isLt (show cfg2.N = 20 from N_2)
  by_cases h0 : t.val % 20 = 0
  · have h1 : ¬t.val % 20 = 19 := by omega
    have hz : t.val = 0 := by omega
    rw [show (dat2 V c).leavesExact 0 t = owns (c : Thread nD τ) (ms2_0 t) fullShare ((dat2 V c).after 0 t) from by
      unfold Dat.leavesExact; rw [liveAt2_0 t], after2_0]
    rw [show (dat2 V c).leavesExact 1 t = owns (c : Thread nD τ) (ms2_1 t) fullShare ((dat2 V c).after 1 t) from by
      unfold Dat.leavesExact; rw [liveAt2_1 t], after2_1]
    rw [show (dat2 V c).leavesExact 2 t = owns (c : Thread nD τ) (ms2_2 t) fullShare ((dat2 V c).after 2 t) from by
      unfold Dat.leavesExact; rw [liveAt2_2 t], after2_2]
    rw [show (dat2 V c).leavesExact 3 t = owns (c : Thread nD τ) (ms2_3 t) fullShare ((dat2 V c).after 3 t) from by
      unfold Dat.leavesExact; rw [liveAt2_3 t], after2_3]
    rw [show (dat2 V c).leavesExact 4 t = owns (c : Thread nD τ) (ms2_4 t) fullShare ((dat2 V c).after 4 t) from by
      unfold Dat.leavesExact; rw [liveAt2_4 t], after2_4]
    rw [show (dat2 V c).leavesExact 5 t = owns (c : Thread nD τ) (ms2_5 t) fullShare ((dat2 V c).after 5 t) from by
      unfold Dat.leavesExact; rw [liveAt2_5 t], after2_5]
    rw [Dat.leavesExact_idle (dat2 V c) 6 t (idleAt2_6 t (fun h => h1 ((hcond2_1 t).mp h))) (noFlush2_6 t (fun h => h1 ((hcond2_1 t).mp h)))]
    rw [Dat.leavesExact_idle (dat2 V c) 7 t (idleAt2_7 t (fun h => h1 ((hcond2_1 t).mp h))) (noFlush2_7 t (fun h => h1 ((hcond2_1 t).mp h)))]
    rw [outsAt2_A V c t h0 h1]
    unfold out2_A_5 sout2_A_0 sout2_A_1; (try dsimp only)
    rw [PhiS2_castSucc V c t, PhiS2_zero V c _ _ hz, PhiA2_eq]
    ·
      iintro ⟨⟨⟨⟨HS0, HS1⟩, HR⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩⟩
      iapply ((kernelRun2_A c (grid2.coords t) _ _ _ _ _ _ _ _ _ _ _ _ _ _ _ _ _ _ _ _ ((hcond2_0 t).mpr h0) (fun h => h1 ((hcond2_1 t).mp h)) (iblk2 V c 0 t) (iblk2 V c 1 t) (iblk2 V c 2 t) (iblk2 V c 3 t) (iblk2 V c 4 t)).2.2.2.2.2 _ _ Set.univ _)
      isplitl [H0]; · iexact H0
      isplitl [H1]; · iexact H1
      isplitl [H2]; · iexact H2
      isplitl [H3]; · iexact H3
      isplitl [H4]; · iexact H4
      isplitl [H5]; · iexists _; iexact H5
      isplitl [H6]; · iexact H6
      isplitl [H7]; · iexact H7
      isplitl [HS0]; · iexact HS0
      isplitl [HS1]; · iexact HS1
      iintro ⟨H0, H1, H2, H3, H4, ⟨%e5, H5⟩, H6, H7, ⟨%es0, HS0⟩, ⟨%es1, HS1⟩⟩
      isplitl [HS0 HS1 HR Hg]
      · isplitl [HS0 HS1 HR]
        · isplitl [HS0 HS1]
          · isplitl [HS0]
            · unfold owns; iexists _; isplitr
              swap; · iexact HS0
              ipureintro; exact View.read_writes_of_cover _ _ _ _ _ (scover2_A_0 c _ _ _ _ _ _ _ _ _ _ _ _ _ _ _ _ _ _ _ _ _ _ _ _ _ _ _ _)
            · unfold owns; iexists _; isplitr
              swap; · iexact HS1
              ipureintro; exact View.read_writes_of_cover _ _ _ _ _ (scover2_A_1 c _ _ _ _ _ _ _ _ _ _ _ _ _ _ _ _ _ _ _ _ _ _ _ _ _ _ _ _)
          iexact HR
        iexact Hg
      isplitl [Ho]; · iexact Ho
      isplitl [H0]; · iexact H0
      isplitl [H1]; · iexact H1
      isplitl [H2]; · iexact H2
      isplitl [H3]; · iexact H3
      isplitl [H4]; · iexact H4
      isplitl [H5]
      · unfold owns; iexists _; isplitr
        swap; · iexact H5
        ipureintro; exact View.read_writes_of_cover _ _ _ _ _ (cover2_A_5 c _ _ _ _ _ _ _ _ _ _ _ _ _ _ _ _ _ _ _ _ _ _ _ _ _ _ _ _)
      isplitl [H6]; · iexists _; iexact H6
      iexists _; iexact H7
  · have hz : t.val ≠ 0 := by omega
    by_cases h1 : t.val % 20 = 19
    ·
      rw [show (dat2 V c).leavesExact 0 t = owns (c : Thread nD τ) (ms2_0 t) fullShare ((dat2 V c).after 0 t) from by
        unfold Dat.leavesExact; rw [liveAt2_0 t], after2_0]
      rw [show (dat2 V c).leavesExact 1 t = owns (c : Thread nD τ) (ms2_1 t) fullShare ((dat2 V c).after 1 t) from by
        unfold Dat.leavesExact; rw [liveAt2_1 t], after2_1]
      rw [show (dat2 V c).leavesExact 2 t = owns (c : Thread nD τ) (ms2_2 t) fullShare ((dat2 V c).after 2 t) from by
        unfold Dat.leavesExact; rw [liveAt2_2 t], after2_2]
      rw [show (dat2 V c).leavesExact 3 t = owns (c : Thread nD τ) (ms2_3 t) fullShare ((dat2 V c).after 3 t) from by
        unfold Dat.leavesExact; rw [liveAt2_3 t], after2_3]
      rw [show (dat2 V c).leavesExact 4 t = owns (c : Thread nD τ) (ms2_4 t) fullShare ((dat2 V c).after 4 t) from by
        unfold Dat.leavesExact; rw [liveAt2_4 t], after2_4]
      rw [show (dat2 V c).leavesExact 5 t = owns (c : Thread nD τ) (ms2_5 t) fullShare ((dat2 V c).after 5 t) from by
        unfold Dat.leavesExact; rw [liveAt2_5 t], after2_5]
      rw [show (dat2 V c).leavesExact 6 t = owns (c : Thread nD τ) (ms2_6 t) fullShare ((dat2 V c).after 6 t) from by
        unfold Dat.leavesExact; rw [liveAt2_6_C t ((hcond2_1 t).mpr h1)], after2_6]
      rw [show (dat2 V c).leavesExact 7 t = owns (c : Thread nD τ) (ms2_7 t) fullShare ((dat2 V c).after 7 t) from by
        unfold Dat.leavesExact; rw [liveAt2_7_C t ((hcond2_1 t).mpr h1)], after2_7]
      rw [outsAt2_C V c t h0 h1]
      unfold out2_C_5 out2_C_6 out2_C_7 sout2_C_0 sout2_C_1; (try dsimp only)
      rw [PhiS2_castSucc V c t, PhiS2_pos V c _ _ hz]
      iintro ⟨⟨⟨⟨HS0, HS1⟩, HR⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩⟩
      iapply ((kernelRun2_C c (grid2.coords t) _ _ _ _ _ _ _ _ _ _ _ _ _ _ _ _ _ _ _ _ (fun h => h0 ((hcond2_0 t).mp h)) ((hcond2_1 t).mpr h1) (iblk2 V c 0 t) (iblk2 V c 1 t) (iblk2 V c 2 t) (iblk2 V c 3 t) (iblk2 V c 4 t) _ _).2.2.2.2.2 Set.univ _)
      isplitl [H0]; · iexact H0
      isplitl [H1]; · iexact H1
      isplitl [H2]; · iexact H2
      isplitl [H3]; · iexact H3
      isplitl [H4]; · iexact H4
      isplitl [H5]; · iexists _; iexact H5
      isplitl [H6]; · iexists _; iexact H6
      isplitl [H7]; · iexists _; iexact H7
      isplitl [HS0]; · iexact HS0
      isplitl [HS1]; · iexact HS1
      iintro ⟨H0, H1, H2, H3, H4, ⟨%e5, H5⟩, ⟨%e6, H6⟩, ⟨%e7, H7⟩, ⟨%es0, HS0⟩, ⟨%es1, HS1⟩⟩
      isplitl [HS0 HS1 HR Hg]
      · isplitl [HS0 HS1 HR]
        · isplitl [HS0 HS1]
          · isplitl [HS0]
            · unfold owns; iexists _; isplitr
              swap; · iexact HS0
              ipureintro; exact View.read_writes_of_cover _ _ _ _ _ (scover2_C_0 c _ _ _ _ _ _ _ _ _ _ _ _ _ _ _ _ _ _ _ _ _ _ _ _ _ _ _ _ _ _)
            · unfold owns; iexists _; isplitr
              swap; · iexact HS1
              ipureintro; exact View.read_writes_of_cover _ _ _ _ _ (scover2_C_1 c _ _ _ _ _ _ _ _ _ _ _ _ _ _ _ _ _ _ _ _ _ _ _ _ _ _ _ _ _ _)
          iexact HR
        iexact Hg
      isplitl [Ho]; · iexact Ho
      isplitl [H0]; · iexact H0
      isplitl [H1]; · iexact H1
      isplitl [H2]; · iexact H2
      isplitl [H3]; · iexact H3
      isplitl [H4]; · iexact H4
      isplitl [H5]
      · unfold owns; iexists _; isplitr
        swap; · iexact H5
        ipureintro; exact View.read_writes_of_cover _ _ _ _ _ (cover2_C_5 c _ _ _ _ _ _ _ _ _ _ _ _ _ _ _ _ _ _ _ _ _ _ _ _ _ _ _ _ _ _)
      isplitl [H6]
      · unfold owns; iexists _; isplitr
        swap; · iexact H6
        ipureintro; exact View.read_writes_of_cover _ _ _ _ _ (cover2_C_6 c _ _ _ _ _ _ _ _ _ _ _ _ _ _ _ _ _ _ _ _ _ _ _ _ _ _ _ _ _ _)
      · unfold owns; iexists _; isplitr
        swap; · iexact H7
        ipureintro; exact View.read_writes_of_cover _ _ _ _ _ (cover2_C_7 c _ _ _ _ _ _ _ _ _ _ _ _ _ _ _ _ _ _ _ _ _ _ _ _ _ _ _ _ _ _)
    ·
      rw [show (dat2 V c).leavesExact 0 t = owns (c : Thread nD τ) (ms2_0 t) fullShare ((dat2 V c).after 0 t) from by
        unfold Dat.leavesExact; rw [liveAt2_0 t], after2_0]
      rw [show (dat2 V c).leavesExact 1 t = owns (c : Thread nD τ) (ms2_1 t) fullShare ((dat2 V c).after 1 t) from by
        unfold Dat.leavesExact; rw [liveAt2_1 t], after2_1]
      rw [show (dat2 V c).leavesExact 2 t = owns (c : Thread nD τ) (ms2_2 t) fullShare ((dat2 V c).after 2 t) from by
        unfold Dat.leavesExact; rw [liveAt2_2 t], after2_2]
      rw [show (dat2 V c).leavesExact 3 t = owns (c : Thread nD τ) (ms2_3 t) fullShare ((dat2 V c).after 3 t) from by
        unfold Dat.leavesExact; rw [liveAt2_3 t], after2_3]
      rw [show (dat2 V c).leavesExact 4 t = owns (c : Thread nD τ) (ms2_4 t) fullShare ((dat2 V c).after 4 t) from by
        unfold Dat.leavesExact; rw [liveAt2_4 t], after2_4]
      rw [show (dat2 V c).leavesExact 5 t = owns (c : Thread nD τ) (ms2_5 t) fullShare ((dat2 V c).after 5 t) from by
        unfold Dat.leavesExact; rw [liveAt2_5 t], after2_5]
      rw [Dat.leavesExact_idle (dat2 V c) 6 t (idleAt2_6 t (fun h => h1 ((hcond2_1 t).mp h))) (noFlush2_6 t (fun h => h1 ((hcond2_1 t).mp h)))]
      rw [Dat.leavesExact_idle (dat2 V c) 7 t (idleAt2_7 t (fun h => h1 ((hcond2_1 t).mp h))) (noFlush2_7 t (fun h => h1 ((hcond2_1 t).mp h)))]
      rw [outsAt2_B V c t h0 h1]
      unfold out2_B_5 sout2_B_0 sout2_B_1; (try dsimp only)
      rw [PhiS2_castSucc V c t, PhiS2_pos V c _ _ hz]
      iintro ⟨⟨⟨⟨HS0, HS1⟩, HR⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩⟩
      iapply ((kernelRun2_B c (grid2.coords t) _ _ _ _ _ _ _ _ _ _ _ _ _ _ _ _ _ _ _ _ (fun h => h0 ((hcond2_0 t).mp h)) (fun h => h1 ((hcond2_1 t).mp h)) (iblk2 V c 0 t) (iblk2 V c 1 t) (iblk2 V c 2 t) (iblk2 V c 3 t) (iblk2 V c 4 t) _ _).2.2.2.2.2 _ _ Set.univ _)
      isplitl [H0]; · iexact H0
      isplitl [H1]; · iexact H1
      isplitl [H2]; · iexact H2
      isplitl [H3]; · iexact H3
      isplitl [H4]; · iexact H4
      isplitl [H5]; · iexists _; iexact H5
      isplitl [H6]; · iexact H6
      isplitl [H7]; · iexact H7
      isplitl [HS0]; · iexact HS0
      isplitl [HS1]; · iexact HS1
      iintro ⟨H0, H1, H2, H3, H4, ⟨%e5, H5⟩, H6, H7, ⟨%es0, HS0⟩, ⟨%es1, HS1⟩⟩
      isplitl [HS0 HS1 HR Hg]
      · isplitl [HS0 HS1 HR]
        · isplitl [HS0 HS1]
          · isplitl [HS0]
            · unfold owns; iexists _; isplitr
              swap; · iexact HS0
              ipureintro; exact View.read_writes_of_cover _ _ _ _ _ (scover2_B_0 c _ _ _ _ _ _ _ _ _ _ _ _ _ _ _ _ _ _ _ _ _ _ _ _ _ _ _ _ _ _)
            · unfold owns; iexists _; isplitr
              swap; · iexact HS1
              ipureintro; exact View.read_writes_of_cover _ _ _ _ _ (scover2_B_1 c _ _ _ _ _ _ _ _ _ _ _ _ _ _ _ _ _ _ _ _ _ _ _ _ _ _ _ _ _ _)
          iexact HR
        iexact Hg
      isplitl [Ho]; · iexact Ho
      isplitl [H0]; · iexact H0
      isplitl [H1]; · iexact H1
      isplitl [H2]; · iexact H2
      isplitl [H3]; · iexact H3
      isplitl [H4]; · iexact H4
      isplitl [H5]
      · unfold owns; iexists _; isplitr
        swap; · iexact H5
        ipureintro; exact View.read_writes_of_cover _ _ _ _ _ (cover2_B_5 c _ _ _ _ _ _ _ _ _ _ _ _ _ _ _ _ _ _ _ _ _ _ _ _ _ _ _ _ _ _)
      isplitl [H6]; · iexists _; iexact H6
      iexists _; iexact H7

/-- The library's body obligation, at every point. -/
theorem body_obligation2 (c : Dev nD) : BodyObligation (dat2 (F := F) V c) (defs₀ (F := F)) Variants.none () Set.univ := fun t => by
  rw [bigSep_W2, bigSep_W2]
  exact sound_body2 V c t

/-- What the launch hands the region is the invariant before the first point. -/
theorem hin2 (c : Dev nD) : Pipeline.ΦA spec2 c ⊢ (dat2 V c).Φ 0 := by
  rw [show (dat2 V c).Φ 0 = PhiS2 V c 0 (Nat.zero_le _) from rfl, PhiS2_zero V c 0 _ rfl]
  try exact Idealize.SL.BI.Entails.refl _

/-- After the last point the invariant gives the class's back: the rows' named contents are forgotten. -/
theorem hout2 (c : Dev nD) : (dat2 V c).Φ (Fin.last cfg2.N) ⊢ Pipeline.ΦA spec2 c := by
  have ht : (Fin.last cfg2.N).val ≠ 0 := by rw [Fin.val_last]; have : cfg2.N = 20 := N_2; omega
  rw [show (dat2 V c).Φ (Fin.last cfg2.N) = PhiS2 V c (Fin.last cfg2.N).val (Nat.le_of_lt_succ (Fin.last cfg2.N).isLt) from rfl, PhiS2_pos V c _ _ ht, PhiA2_eq]
  iintro ⟨⟨⟨HS0, HS1⟩, HR⟩, Hg⟩
  isplitl [HS0 HS1 HR]
  · isplitl [HS0 HS1]
    · isplitl [HS0]
      · iexists _; iexact HS0
      · iexists _; iexact HS1
    iexact HR
  iexact Hg

end Region2

end Cert.Kernel.Hand

end
-- ==== Proof.KBn3.lean ====
import proofs.«160011_j2121713844488_1_alg».proof.Proof.Gen.Kernel.Launch
import proofs.«160011_j2121713844488_1_alg».proof.Proof.Gen.Kernel.Skeleton
import proofs.«160011_j2121713844488_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

/-! # The normalisation region 3: what one grid point's body does to its staging buffers

Region 3 normalises a 100000 × 128 array in 20 blocks of 5000 rows. At a point the body reads the
block of window 0 and four 1 × 128 rows (windows 1 to 4: the mean, the variance, the scale and the
shift, the same row at every point), and writes the whole 5000 × 128 block of window 5: every entry is
(x − mean) · rsqrt(variance + ε) · scale + shift, with the row operands repeated down the rows. The
body keeps nothing between points and leaves its inputs as it found them.

Everything is stated at a parameter `V`, the contents of the core's buffers when the region is
entered, and at any float instance. -/

-- membership of an index in a rectangle with 5000 rows is checked structurally, once per coordinate
set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the contents of the core's buffers when the region is entered
variable (V : (c : Dev nD) → (b : Ref sig .tc) → Buf (Elt F) ((c : Thread nD τ).loc b))

/-! ## The windows' blocks -/

/-- Window `w`'s block at point `t`, read off the window's array as the region finds it. -/
def iblk3 (c : Dev nD) (w : Fin cfg3.W) (t : Fin cfg3.N) : ((cfg3.win w).xblock (cfg3.grid.coords t)).Idx → Elt F (cfg3.win w).elt :=
  ((cfg3.win w).blk t).view.read (Elt F) (V c (Pipeline.arrRef spec3 w))

/-- Input window 0's staging buffer holds the window's block at every point, whether the pipeline fetched
    it there or not (an unfetched window's block index has not moved), for any proof data whose array is the
    entry contents and whose body leaves the block in place. -/
theorem before3_0_of {c : Dev nD} (dat : Dat τ (Elt F) Unit ℕ (UR sig nD τ) ℕ cfg3 c) (hA : dat.A 0 = V c (Pipeline.arrRef spec3 0))
    (hafter : ∀ t, dat.after 0 t = iblk3 V c 0 t) (t : Fin cfg3.N) (d) : dat.before 0 t d = iblk3 V c 0 t :=
  (dat.before_in_eq_fetched 0 rfl (fun _ => rfl) (fun _ _ _ => rfl) (fun t => by rw [hafter]; unfold Dat.blockOf iblk3; rw [hA]; try rfl) t d).trans
    (by unfold Dat.fetched Dat.blockOf iblk3; rw [hA]; try rfl)
/-- Input window 1's staging buffer holds the window's block at every point, whether the pipeline fetched
    it there or not (an unfetched window's block index has not moved), for any proof data whose array is the
    entry contents and whose body leaves the block in place. -/
theorem before3_1_of {c : Dev nD} (dat : Dat τ (Elt F) Unit ℕ (UR sig nD τ) ℕ cfg3 c) (hA : dat.A 1 = V c (Pipeline.arrRef spec3 1))
    (hafter : ∀ t, dat.after 1 t = iblk3 V c 1 t) (t : Fin cfg3.N) (d) : dat.before 1 t d = iblk3 V c 1 t :=
  (dat.before_in_eq_fetched 1 rfl (fun _ => rfl) (fun _ _ _ => rfl) (fun t => by rw [hafter]; unfold Dat.blockOf iblk3; rw [hA]; try rfl) t d).trans
    (by unfold Dat.fetched Dat.blockOf iblk3; rw [hA]; try rfl)
/-- Input window 2's staging buffer holds the window's block at every point, whether the pipeline fetched
    it there or not (an unfetched window's block index has not moved), for any proof data whose array is the
    entry contents and whose body leaves the block in place. -/
theorem before3_2_of {c : Dev nD} (dat : Dat τ (Elt F) Unit ℕ (UR sig nD τ) ℕ cfg3 c) (hA : dat.A 2 = V c (Pipeline.arrRef spec3 2))
    (hafter : ∀ t, dat.after 2 t = iblk3 V c 2 t) (t : Fin cfg3.N) (d) : dat.before 2 t d = iblk3 V c 2 t :=
  (dat.before_in_eq_fetched 2 rfl (fun _ => rfl) (fun _ _ _ => rfl) (fun t => by rw [hafter]; unfold Dat.blockOf iblk3; rw [hA]; try rfl) t d).trans
    (by unfold Dat.fetched Dat.blockOf iblk3; rw [hA]; try rfl)
/-- Input window 3's staging buffer holds the window's block at every point, whether the pipeline fetched
    it there or not (an unfetched window's block index has not moved), for any proof data whose array is the
    entry contents and whose body leaves the block in place. -/
theorem before3_3_of {c : Dev nD} (dat : Dat τ (Elt F) Unit ℕ (UR sig nD τ) ℕ cfg3 c) (hA : dat.A 3 = V c (Pipeline.arrRef spec3 3))
    (hafter : ∀ t, dat.after 3 t = iblk3 V c 3 t) (t : Fin cfg3.N) (d) : dat.before 3 t d = iblk3 V c 3 t :=
  (dat.before_in_eq_fetched 3 rfl (fun _ => rfl) (fun _ _ _ => rfl) (fun t => by rw [hafter]; unfold Dat.blockOf iblk3; rw [hA]; try rfl) t d).trans
    (by unfold Dat.fetched Dat.blockOf iblk3; rw [hA]; try rfl)
/-- Input window 4's staging buffer holds the window's block at every point, whether the pipeline fetched
    it there or not (an unfetched window's block index has not moved), for any proof data whose array is the
    entry contents and whose body leaves the block in place. -/
theorem before3_4_of {c : Dev nD} (dat : Dat τ (Elt F) Unit ℕ (UR sig nD τ) ℕ cfg3 c) (hA : dat.A 4 = V c (Pipeline.arrRef spec3 4))
    (hafter : ∀ t, dat.after 4 t = iblk3 V c 4 t) (t : Fin cfg3.N) (d) : dat.before 4 t d = iblk3 V c 4 t :=
  (dat.before_in_eq_fetched 4 rfl (fun _ => rfl) (fun _ _ _ => rfl) (fun t => by rw [hafter]; unfold Dat.blockOf iblk3; rw [hA]; try rfl) t d).trans
    (by unfold Dat.fetched Dat.blockOf iblk3; rw [hA]; try rfl)

/-! ## The body's accesses: every load and the one store go through the whole buffer -/

abbrev r3_0 : Rect S5000x128 := Rect.unit (s := S5000x128) ![0, 0] S5000x128.size inb_S5000x128_S5000x128_0_0
abbrev r3_1 : Rect S1x128 := Rect.unit (s := S1x128) ![0, 0] S1x128.size inb_S1x128_S1x128_0_0

/-! ## What the body leaves in the output window's buffer -/

/-- Window 5's staging buffer after the body, from the input windows' blocks: its one store, of the
    normalised block (the variance row is the payload's first operand, the data block its second). -/
def out3_5 (x0 : Vec F S5000x128 .f32) (x1 : Vec F S1x128 .f32) (x2 : Vec F S1x128 .f32) (x3 : Vec F S1x128 .f32) (x4 : Vec F S1x128 .f32) : Vec F S5000x128 .f32 :=
  View.canon [⟨r3_0, k3_pay1 (View.ld x2 r3_1) (View.ld x0 r3_0) (View.ld x1 r3_1) (View.ld x3 r3_1) (View.ld x4 r3_1)⟩]

/-- The one store is of the whole block, so it covers the buffer. -/
theorem cover3_5 (p0 : Vec F S5000x128 .f32) (y : S5000x128.Idx) :
    ∃ pc ∈ ([⟨r3_0, p0⟩] : List (View.Piece (Elt F) S5000x128 .f32)), y ∈ pc.1.set :=
  View.cover_of_tiled [⟨r3_0, p0⟩] S5000x128.size (by rfl) y

/-! ## The body's triple -/

set_option maxHeartbeats 1000000 in
/-- The body on whole staging buffers — the inputs' reading `x0 … x4`, the output's holding anything —
    runs to the continuation with the inputs' as they were and the output's at `out3_5` of the inputs.
    The body also loads the output's buffer once, before it stores it; the value is not used. -/
theorem sound_kernel3 (c : Dev nD) (E : Set ℕ) (i : grid3.Coords) (arg0 : Memref sig .tc .vmem S5000x128 .f32) (harg0 : arg0.IsWhole) (arg1 : Memref sig .tc .vmem S1x128 .f32) (harg1 : arg1.IsWhole) (arg2 : Memref sig .tc .vmem S1x128 .f32) (harg2 : arg2.IsWhole) (arg3 : Memref sig .tc .vmem S1x128 .f32) (harg3 : arg3.IsWhole) (arg4 : Memref sig .tc .vmem S1x128 .f32) (harg4 : arg4.IsWhole) (arg5 : Memref sig .tc .vmem S5000x128 .f32) (harg5 : arg5.IsWhole)
    (x0 : Vec F S5000x128 .f32) (x1 : Vec F S1x128 .f32) (x2 : Vec F S1x128 .f32) (x3 : Vec F S1x128 .f32) (x4 : Vec F S1x128 .f32) (K : PUnit → sProp 𝕄) :
    iprop(owns (c : Thread nD τ) arg0 fullShare x0 ∗ owns (c : Thread nD τ) arg1 fullShare x1 ∗ owns (c : Thread nD τ) arg2 fullShare x2 ∗ owns (c : Thread nD τ) arg3 fullShare x3 ∗ owns (c : Thread nD τ) arg4 fullShare x4 ∗ (∃ d, owns (c : Thread nD τ) arg5 fullShare d)
        ∗ (iprop(owns (c : Thread nD τ) arg0 fullShare x0 ∗ owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare (out3_5 x0 x1 x2 x3 x4)) -∗ K ⟨⟩))
      ⊢ wp frame (wpE (defs₀ (F := F)) Variants.none c none) E (cc3__bn_kernel i arg0 harg0 arg1 harg1 arg2 harg2 arg3 harg3 arg4 harg4 arg5 harg5) K := by
  simp only [cc3__bn_kernel_eq_skeleton]; unfold cc3__bn_kernel_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, Hk⟩
  subst hf0 hf1 hf2 hf3 hf4
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  iexists _; isplitr
  swap; · iexact H5
  ipureintro
  exact View.read_writes_eq_canon _ _ _ (cover3_5 _)

/-! ## The pipeline's proof data -/

/-- The proof data of pipeline 3 on core `c`: the arrays as the region finds them; after the body at
    point `t` each input's buffer at its block and the output's at `out3_5` of the input blocks; the
    invariant is the scoped rest and the generator register, untouched; nothing owed; full shares. -/
def dat3 (c : Dev nD) : Dat τ (Elt F) Unit ℕ (UR sig nD τ) ℕ cfg3 c where
  A w := V c (Pipeline.arrRef spec3 w)
  after w t := match w with
    | ⟨0, _⟩ => iblk3 V c 0 t
    | ⟨1, _⟩ => iblk3 V c 1 t
    | ⟨2, _⟩ => iblk3 V c 2 t
    | ⟨3, _⟩ => iblk3 V c 3 t
    | ⟨4, _⟩ => iblk3 V c 4 t
    | ⟨5, _⟩ => out3_5 (iblk3 V c 0 t) (iblk3 V c 1 t) (iblk3 V c 2 t) (iblk3 V c 3 t) (iblk3 V c 4 t)
  Φ _ := Pipeline.ΦA spec3 c
  q _ := fullShare
  owed _ := 0

/-- The proof data's arrays are the region-entry contents. -/
theorem A_eq3 (c : Dev nD) (w : Fin cfg3.W) : (dat3 V c).A w = V c (Pipeline.arrRef spec3 w) := by
  dsimp only [dat3]

/-- What the body leaves, window by window. -/
theorem after3_0 (c : Dev nD) (t : Fin cfg3.N) : (dat3 V c).after 0 t = iblk3 V c 0 t := by dsimp only [dat3]
theorem after3_1 (c : Dev nD) (t : Fin cfg3.N) : (dat3 V c).after 1 t = iblk3 V c 1 t := by dsimp only [dat3]
theorem after3_2 (c : Dev nD) (t : Fin cfg3.N) : (dat3 V c).after 2 t = iblk3 V c 2 t := by dsimp only [dat3]
theorem after3_3 (c : Dev nD) (t : Fin cfg3.N) : (dat3 V c).after 3 t = iblk3 V c 3 t := by dsimp only [dat3]
theorem after3_4 (c : Dev nD) (t : Fin cfg3.N) : (dat3 V c).after 4 t = iblk3 V c 4 t := by dsimp only [dat3]
theorem after3_5 (c : Dev nD) (t : Fin cfg3.N) : (dat3 V c).after 5 t = out3_5 (iblk3 V c 0 t) (iblk3 V c 1 t) (iblk3 V c 2 t) (iblk3 V c 3 t) (iblk3 V c 4 t) := by dsimp only [dat3]

/-- Each input's staging buffer holds its block at every point, fetched there or not. -/
theorem before3_0 (c : Dev nD) (t : Fin cfg3.N) (d) : (dat3 V c).before 0 t d = iblk3 V c 0 t :=
  before3_0_of V (dat3 V c) (A_eq3 V c 0) (after3_0 V c) t d
theorem before3_1 (c : Dev nD) (t : Fin cfg3.N) (d) : (dat3 V c).before 1 t d = iblk3 V c 1 t :=
  before3_1_of V (dat3 V c) (A_eq3 V c 1) (after3_1 V c) t d
theorem before3_2 (c : Dev nD) (t : Fin cfg3.N) (d) : (dat3 V c).before 2 t d = iblk3 V c 2 t :=
  before3_2_of V (dat3 V c) (A_eq3 V c 2) (after3_2 V c) t d
theorem before3_3 (c : Dev nD) (t : Fin cfg3.N) (d) : (dat3 V c).before 3 t d = iblk3 V c 3 t :=
  before3_3_of V (dat3 V c) (A_eq3 V c 3) (after3_3 V c) t d
theorem before3_4 (c : Dev nD) (t : Fin cfg3.N) (d) : (dat3 V c).before 4 t d = iblk3 V c 4 t :=
  before3_4_of V (dat3 V c) (A_eq3 V c 4) (after3_4 V c) t d

/-! ## The body obligation, at a generic point -/

/-- What the body is called with at point `t`, the windows one by one, -/
def bodyPre3 (c : Dev nD) (t : Fin cfg3.N) : sProp 𝕄 :=
  iprop((dat3 V c).Φ t.castSucc ∗ (dat3 V c).owesAt () t.castSucc
    ∗ (∃ d, owns (c : Thread nD τ) (st3_0 t) fullShare ((dat3 V c).before 0 t d))
    ∗ (∃ d, owns (c : Thread nD τ) (st3_1 t) fullShare ((dat3 V c).before 1 t d))
    ∗ (∃ d, owns (c : Thread nD τ) (st3_2 t) fullShare ((dat3 V c).before 2 t d))
    ∗ (∃ d, owns (c : Thread nD τ) (st3_3 t) fullShare ((dat3 V c).before 3 t d))
    ∗ (∃ d, owns (c : Thread nD τ) (st3_4 t) fullShare ((dat3 V c).before 4 t d))
    ∗ (∃ d, owns (c : Thread nD τ) (st3_5 t) fullShare ((dat3 V c).before 5 t d)))

/-- and what it returns. -/
def bodyPost3 (c : Dev nD) (t : Fin cfg3.N) : sProp 𝕄 :=
  iprop((dat3 V c).Φ t.succ ∗ (dat3 V c).owesAt () t.succ
    ∗ owns (c : Thread nD τ) (st3_0 t) fullShare ((dat3 V c).after 0 t)
    ∗ owns (c : Thread nD τ) (st3_1 t) fullShare ((dat3 V c).after 1 t)
    ∗ owns (c : Thread nD τ) (st3_2 t) fullShare ((dat3 V c).after 2 t)
    ∗ owns (c : Thread nD τ) (st3_3 t) fullShare ((dat3 V c).after 3 t)
    ∗ owns (c : Thread nD τ) (st3_4 t) fullShare ((dat3 V c).after 4 t)
    ∗ owns (c : Thread nD τ) (st3_5 t) fullShare ((dat3 V c).after 5 t))

/-- The body at any point: the inputs' buffers hold their blocks, so `sound_kernel3` applies; the
    invariant and the core's owed transfers pass through unread. -/
theorem sound_body3 (c : Dev nD) (t : Fin cfg3.N) :
    bodyPre3 V c t ⊢ wp frame (wpE (defs₀ (F := F)) Variants.none c none) Set.univ (bodyAt3 t) (fun _ => bodyPost3 V c t) := by
  unfold bodyPre3 bodyPost3 bodyAt3
  simp only [before3_0, before3_1, before3_2, before3_3, before3_4]
  rw [show (dat3 V c).Φ t.succ = (dat3 V c).Φ t.castSucc from rfl,
    show (dat3 V c).owesAt () t.succ = (dat3 V c).owesAt () t.castSucc from rfl,
    after3_0, after3_1, after3_2, after3_3, after3_4, after3_5]
  iintro ⟨HΦ, Ho, ⟨%d0, H0⟩, ⟨%d1, H1⟩, ⟨%d2, H2⟩, ⟨%d3, H3⟩, ⟨%d4, H4⟩, ⟨%d5, H5⟩⟩
  iapply (sound_kernel3 c Set.univ _ _ _ _ _ _ _ _ _ _ _ _ _ (iblk3 V c 0 t) (iblk3 V c 1 t) (iblk3 V c 2 t) (iblk3 V c 3 t) (iblk3 V c 4 t) _)
  isplitl [H0]; · iexact H0
  isplitl [H1]; · iexact H1
  isplitl [H2]; · iexact H2
  isplitl [H3]; · iexact H3
  isplitl [H4]; · iexact H4
  isplitl [H5]; · iexists _; iexact H5
  iintro ⟨H0, H1, H2, H3, H4, H5⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  iexact H5

/-- The library's body obligation, at every point. -/
theorem body_obligation3 (c : Dev nD) : BodyObligation (dat3 (F := F) V c) (defs₀ (F := F)) Variants.none () Set.univ := fun t => by
  rw [bigSep_W3, bigSep_W3]
  exact sound_body3 V c t

end Cert.Kernel.Hand

end
-- ==== Proof.KMlp4Runs.lean ====
/-
  Region 4 (layer 3's two-layer perceptron with running column sums): what its three control cases share.
  The body branches twice on the grid position: at the first point it zeroes the two running-sum scratch rows, at the
  last point it copies them into the two [1,128] outputs; in between it only adds the block's column sums of z and of z².
  Here: each window's block as read off the array the region finds, the two conditions decided over the 20 points,
  where the two [1,128] outputs are idle, and the staging and scratch memrefs the body is run on.
-/
import proofs.«160011_j2121713844488_1_alg».proof.Proof.Gen.Kernel.Launch
import proofs.«160011_j2121713844488_1_alg».proof.Proof.Gen.Kernel.Skeleton
import proofs.«160011_j2121713844488_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Region4

variable (V : (c : Dev nD) → (b : Ref sig .tc) → Buf (Elt F) ((c : Thread nD τ).loc b))

/-- Window `w`'s block at point `t`, read off its array as the region finds it. -/
def iblk4 (c : Dev nD) (w : Fin cfg4.W) (t : Fin cfg4.N) : ((cfg4.win w).xblock (cfg4.grid.coords t)).Idx → Elt F (cfg4.win w).elt :=
  ((cfg4.win w).blk t).view.read (Elt F) (V c (Pipeline.arrRef spec4 w))

/-- Input window 0's staging buffer holds its block at every point, fetched there or not. -/
theorem before4_0_of {c : Dev nD} (dat : Dat τ (Elt F) Unit ℕ (UR sig nD τ) ℕ cfg4 c) (hA : dat.A 0 = V c (Pipeline.arrRef spec4 0))
    (hafter : ∀ t, dat.after 0 t = iblk4 V c 0 t) (t : Fin cfg4.N) (d) : dat.before 0 t d = iblk4 V c 0 t :=
  (dat.before_in_eq_fetched 0 rfl (fun _ => rfl) (fun _ _ _ => rfl) (fun t => by rw [hafter]; unfold Dat.blockOf iblk4; rw [hA]; try rfl) t d).trans
    (by unfold Dat.fetched Dat.blockOf iblk4; rw [hA]; try rfl)

/-- Input window 1's staging buffer holds its block at every point, fetched there or not. -/
theorem before4_1_of {c : Dev nD} (dat : Dat τ (Elt F) Unit ℕ (UR sig nD τ) ℕ cfg4 c) (hA : dat.A 1 = V c (Pipeline.arrRef spec4 1))
    (hafter : ∀ t, dat.after 1 t = iblk4 V c 1 t) (t : Fin cfg4.N) (d) : dat.before 1 t d = iblk4 V c 1 t :=
  (dat.before_in_eq_fetched 1 rfl (fun _ => rfl) (fun _ _ _ => rfl) (fun t => by rw [hafter]; unfold Dat.blockOf iblk4; rw [hA]; try rfl) t d).trans
    (by unfold Dat.fetched Dat.blockOf iblk4; rw [hA]; try rfl)

/-- Input window 2's staging buffer holds its block at every point, fetched there or not. -/
theorem before4_2_of {c : Dev nD} (dat : Dat τ (Elt F) Unit ℕ (UR sig nD τ) ℕ cfg4 c) (hA : dat.A 2 = V c (Pipeline.arrRef spec4 2))
    (hafter : ∀ t, dat.after 2 t = iblk4 V c 2 t) (t : Fin cfg4.N) (d) : dat.before 2 t d = iblk4 V c 2 t :=
  (dat.before_in_eq_fetched 2 rfl (fun _ => rfl) (fun _ _ _ => rfl) (fun t => by rw [hafter]; unfold Dat.blockOf iblk4; rw [hA]; try rfl) t d).trans
    (by unfold Dat.fetched Dat.blockOf iblk4; rw [hA]; try rfl)

/-- Input window 3's staging buffer holds its block at every point, fetched there or not. -/
theorem before4_3_of {c : Dev nD} (dat : Dat τ (Elt F) Unit ℕ (UR sig nD τ) ℕ cfg4 c) (hA : dat.A 3 = V c (Pipeline.arrRef spec4 3))
    (hafter : ∀ t, dat.after 3 t = iblk4 V c 3 t) (t : Fin cfg4.N) (d) : dat.before 3 t d = iblk4 V c 3 t :=
  (dat.before_in_eq_fetched 3 rfl (fun _ => rfl) (fun _ _ _ => rfl) (fun t => by rw [hafter]; unfold Dat.blockOf iblk4; rw [hA]; try rfl) t d).trans
    (by unfold Dat.fetched Dat.blockOf iblk4; rw [hA]; try rfl)

/-- Input window 4's staging buffer holds its block at every point, fetched there or not. -/
theorem before4_4_of {c : Dev nD} (dat : Dat τ (Elt F) Unit ℕ (UR sig nD τ) ℕ cfg4 c) (hA : dat.A 4 = V c (Pipeline.arrRef spec4 4))
    (hafter : ∀ t, dat.after 4 t = iblk4 V c 4 t) (t : Fin cfg4.N) (d) : dat.before 4 t d = iblk4 V c 4 t :=
  (dat.before_in_eq_fetched 4 rfl (fun _ => rfl) (fun _ _ _ => rfl) (fun t => by rw [hafter]; unfold Dat.blockOf iblk4; rw [hA]; try rfl) t d).trans
    (by unfold Dat.fetched Dat.blockOf iblk4; rw [hA]; try rfl)

end Region4

/-! ## The two branch conditions, decided over the grid -/

/-- "This is the first point": the condition under which the running sums are zeroed. -/
abbrev cond4_0 (i : grid4.Coords) : Prop := (Scalar.cmpi .ne (Scalar.extui (Scalar.cmpi .eq (BitVec.ofNat 32 (i 0).val) 0#32)) 0#32) = 1#1
theorem hcond4_0 : ∀ t : Fin cfg4.N, cond4_0 (grid4.coords t) ↔ t.val % 20 = 0 :=
  (by decide +kernel : ∀ t : Fin grid4.N, cond4_0 (grid4.coords t) ↔ t.val % 20 = 0)

/-- "This is the last point": the condition under which the running sums are copied out. -/
abbrev cond4_1 (i : grid4.Coords) : Prop := k4_cond2 i = 1#1
theorem hcond4_1 : ∀ t : Fin cfg4.N, cond4_1 (grid4.coords t) ↔ t.val % 20 = 19 :=
  (by decide +kernel : ∀ t : Fin grid4.N, cond4_1 (grid4.coords t) ↔ t.val % 20 = 19)

/-! ## Where the windows are idle -/

theorem liveAt4_0 : ∀ t : Fin cfg4.N, cfg4.idle 0 (grid4.coords t) = false := by decide +kernel
theorem liveAt4_1 : ∀ t : Fin cfg4.N, cfg4.idle 1 (grid4.coords t) = false := by decide +kernel
theorem liveAt4_2 : ∀ t : Fin cfg4.N, cfg4.idle 2 (grid4.coords t) = false := by decide +kernel
theorem liveAt4_3 : ∀ t : Fin cfg4.N, cfg4.idle 3 (grid4.coords t) = false := by decide +kernel
theorem liveAt4_4 : ∀ t : Fin cfg4.N, cfg4.idle 4 (grid4.coords t) = false := by decide +kernel
theorem liveAt4_5 : ∀ t : Fin cfg4.N, cfg4.idle 5 (grid4.coords t) = false := by decide +kernel
/-- Output 6 is stored only at the last point: idle, and not written back, at every other point. -/
theorem idleAt4_6 : ∀ t : Fin cfg4.N, ¬cond4_1 (grid4.coords t) → cfg4.idle 6 (grid4.coords t) = true := by decide +kernel
theorem noFlush4_6 : ∀ t : Fin cfg4.N, ¬cond4_1 (grid4.coords t) → (cfg4.win 6).flush t = false := by decide +kernel
theorem liveAt4_6_C : ∀ t : Fin cfg4.N, cond4_1 (grid4.coords t) → cfg4.idle 6 (grid4.coords t) = false := by decide +kernel
/-- Output 7 is stored only at the last point: idle, and not written back, at every other point. -/
theorem idleAt4_7 : ∀ t : Fin cfg4.N, ¬cond4_1 (grid4.coords t) → cfg4.idle 7 (grid4.coords t) = true := by decide +kernel
theorem noFlush4_7 : ∀ t : Fin cfg4.N, ¬cond4_1 (grid4.coords t) → (cfg4.win 7).flush t = false := by decide +kernel
theorem liveAt4_7_C : ∀ t : Fin cfg4.N, cond4_1 (grid4.coords t) → cfg4.idle 7 (grid4.coords t) = false := by decide +kernel

/-! ## The memrefs the body is run on -/

abbrev VO4_5 : View sig .tc .vmem S5000x128 .f32 := (Memref.whole cc4_stg5_0 : Memref sig .tc .vmem S5000x128 .f32).view
abbrev VO4_6 : View sig .tc .vmem S1x128 .f32 := (Memref.whole cc4_stg6_0 : Memref sig .tc .vmem S1x128 .f32).view
abbrev VO4_7 : View sig .tc .vmem S1x128 .f32 := (Memref.whole cc4_stg7_0 : Memref sig .tc .vmem S1x128 .f32).view
abbrev ms4_0 (t : Fin cfg4.N) : Memref sig .tc .vmem S5000x128 .f32 := win4_0.stage (cfg4.slots t 0)
abbrev hs4_0 (t : Fin cfg4.N) : (ms4_0 t).IsWhole := hstage4_0 ((cfg4.slots t 0).cast nbuf4_0)
abbrev ms4_1 (t : Fin cfg4.N) : Memref sig .tc .vmem S128x128 .f32 := win4_1.stage (cfg4.slots t 1)
abbrev hs4_1 (t : Fin cfg4.N) : (ms4_1 t).IsWhole := hstage4_1 ((cfg4.slots t 1).cast nbuf4_1)
abbrev ms4_2 (t : Fin cfg4.N) : Memref sig .tc .vmem S1x128 .f32 := win4_2.stage (cfg4.slots t 2)
abbrev hs4_2 (t : Fin cfg4.N) : (ms4_2 t).IsWhole := hstage4_2 ((cfg4.slots t 2).cast nbuf4_2)
abbrev ms4_3 (t : Fin cfg4.N) : Memref sig .tc .vmem S128x128 .f32 := win4_3.stage (cfg4.slots t 3)
abbrev hs4_3 (t : Fin cfg4.N) : (ms4_3 t).IsWhole := hstage4_3 ((cfg4.slots t 3).cast nbuf4_3)
abbrev ms4_4 (t : Fin cfg4.N) : Memref sig .tc .vmem S1x128 .f32 := win4_4.stage (cfg4.slots t 4)
abbrev hs4_4 (t : Fin cfg4.N) : (ms4_4 t).IsWhole := hstage4_4 ((cfg4.slots t 4).cast nbuf4_4)
abbrev ms4_5 (t : Fin cfg4.N) : Memref sig .tc .vmem S5000x128 .f32 := win4_5.stage (cfg4.slots t 5)
abbrev hs4_5 (t : Fin cfg4.N) : (ms4_5 t).IsWhole := hstage4_5 ((cfg4.slots t 5).cast nbuf4_5)
abbrev ms4_6 (t : Fin cfg4.N) : Memref sig .tc .vmem S1x128 .f32 := win4_6.stage (cfg4.slots t 6)
abbrev hs4_6 (t : Fin cfg4.N) : (ms4_6 t).IsWhole := hstage4_6 ((cfg4.slots t 6).cast nbuf4_6)
abbrev ms4_7 (t : Fin cfg4.N) : Memref sig .tc .vmem S1x128 .f32 := win4_7.stage (cfg4.slots t 7)
abbrev hs4_7 (t : Fin cfg4.N) : (ms4_7 t).IsWhole := hstage4_7 ((cfg4.slots t 7).cast nbuf4_7)
/-- The two running-sum rows: whole scoped buffers of the kernel's own. -/
abbrev scM4_0 : Memref sig .tc .vmem S1x128 .f32 := Memref.whole cc4_scratch0
abbrev scM4_1 : Memref sig .tc .vmem S1x128 .f32 := Memref.whole cc4_scratch1
abbrev VS4_0 : View sig .tc .vmem S1x128 .f32 := scM4_0.view
abbrev VS4_1 : View sig .tc .vmem S1x128 .f32 := scM4_1.view

/-- The class invariant with the two running-sum rows split out as memrefs owned at some contents; every other scoped
    buffer stays unopened. -/
theorem PhiA4_eq (c : Dev nD) :
    (Pipeline.ΦA spec4 c : sProp 𝕄)
      = iprop(iprop(iprop((∃ d, owns (c : Thread nD τ) scM4_0 fullShare d) ∗ (∃ d, owns (c : Thread nD τ) scM4_1 fullShare d))
          ∗ Pipeline.scopedRestBut (Ix := Unit) (Name := ℕ) (U := UR sig nD τ) (Lvl := ℕ) (Val := Elt F) spec4 c [cc4_scratch0, cc4_scratch1]) ∗ (∃ r, prngReg c r)) := by
  unfold Pipeline.ΦA; rw [scopedRest4_split]; simp only [scM4_0, scM4_1, owns_whole]; try rfl

end Cert.Kernel.Hand

end
-- ==== Proof.KMlp4RunA.lean ====
/-
  Region 4, control case A: the kernel body run once, symbolically, on whole staging memrefs.
-/
import proofs.«160011_j2121713844488_1_alg».proof.Proof.KMlp4Runs

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- The body at the first point (the running sums are zeroed first, nothing is copied out): on whole staging memrefs — the five inputs at their blocks, the z output at anything,
    the two [1,128] outputs idle at whatever they hold, the two running-sum rows at anything — it runs to its
    continuation with the inputs as they were and each buffer it stored into with its pieces written; the pieces are the
    witness the run finds. -/
noncomputable def kernelRun4_A (c : Dev nD) (i : grid4.Coords) (arg1 : Memref sig .tc .vmem S5000x128 .f32) (harg1 : arg1.IsWhole) (arg2 : Memref sig .tc .vmem S128x128 .f32) (harg2 : arg2.IsWhole) (arg3 : Memref sig .tc .vmem S1x128 .f32) (harg3 : arg3.IsWhole) (arg4 : Memref sig .tc .vmem S128x128 .f32) (harg4 : arg4.IsWhole) (arg5 : Memref sig .tc .vmem S1x128 .f32) (harg5 : arg5.IsWhole) (arg6 : Memref sig .tc .vmem S5000x128 .f32) (harg6 : arg6.IsWhole) (arg7 : Memref sig .tc .vmem S1x128 .f32) (harg7 : arg7.IsWhole) (arg8 : Memref sig .tc .vmem S1x128 .f32) (harg8 : arg8.IsWhole) (arg9 : Memref sig .tc .vmem S1x128 .f32) (harg9 : arg9.IsWhole) (arg10 : Memref sig .tc .vmem S1x128 .f32) (harg10 : arg10.IsWhole) (hc0 : cond4_0 i) (hc1 : ¬cond4_1 i)
    (x0 : Vec F S5000x128 .f32) (x1 : Vec F S128x128 .f32) (x2 : Vec F S1x128 .f32) (x3 : Vec F S128x128 .f32) (x4 : Vec F S1x128 .f32) :
    Σ' (L5 : List (View.Piece (Elt F) S5000x128 .f32)) (L6 : List (View.Piece (Elt F) S1x128 .f32)) (L7 : List (View.Piece (Elt F) S1x128 .f32)) (LS0 : List (View.Piece (Elt F) S1x128 .f32)), { LS1 : List (View.Piece (Elt F) S1x128 .f32) //
      ∀ (xi6 : Vec F S1x128 .f32) (xi7 : Vec F S1x128 .f32) (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ (∃ d, owns (c : Thread nD τ) arg6 fullShare d) ∗ owns (c : Thread nD τ) arg7 fullShare xi6 ∗ owns (c : Thread nD τ) arg8 fullShare xi7 ∗ (∃ d, owns (c : Thread nD τ) arg9 fullShare d) ∗ (∃ d, owns (c : Thread nD τ) arg10 fullShare d)
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ (∃ f, arg6.view.loc (c : Thread nD τ) ↦[arg6.view.set]{fullShare} arg6.view.writes (Elt F) f L5) ∗ owns (c : Thread nD τ) arg7 fullShare xi6 ∗ owns (c : Thread nD τ) arg8 fullShare xi7 ∗ (∃ f, arg9.view.loc (c : Thread nD τ) ↦[arg9.view.set]{fullShare} arg9.view.writes (Elt F) f LS0) ∗ (∃ f, arg10.view.loc (c : Thread nD τ) ↦[arg10.view.set]{fullShare} arg10.view.writes (Elt F) f LS1)) -∗ K ⟨⟩))
          ⊢ wp frame (wpE (defs₀ (F := F)) Variants.none c none) E (cc4__mlp_stats_kernel i arg1 harg1 arg2 harg2 arg3 harg3 arg4 harg4 arg5 harg5 arg6 harg6 arg7 harg7 arg8 harg8 arg9 harg9 arg10 harg10) K } := by
  refine ⟨?_, [], [], ?_, ?_, fun xi6 xi7 E K => ?run⟩
  case run =>
    simp only [cc4__mlp_stats_kernel_eq_skeleton]; unfold cc4__mlp_stats_kernel_skel
    simp only [k4_part1_eq_skeleton]; unfold k4_part1_skel
    unfold owns
    iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%f6, %hf6, H6⟩, ⟨%f7, %hf7, H7⟩, ⟨%ds0, %fs0, -, HS0⟩, ⟨%ds1, %fs1, -, HS1⟩, Hk⟩
    obtain rfl := harg1.eq_unread hf0; obtain rfl := harg2.eq_unread hf1; obtain rfl := harg3.eq_unread hf2; obtain rfl := harg4.eq_unread hf3; obtain rfl := harg5.eq_unread hf4; obtain rfl := harg7.eq_unread hf6; obtain rfl := harg8.eq_unread hf7
    sl_exec (disch := first | exact hc0 | exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]; · iexists _; iexact H5
    isplitl [H6]
    · iexists _; isplitr; · ipureintro; exact harg7.read_unread _
      iexact H6
    isplitl [H7]
    · iexists _; isplitr; · ipureintro; exact harg8.read_unread _
      iexact H7
    isplitl [HS0]; · iexists _; iexact HS0
    iexists _; iexact HS1

end Cert.Kernel.Hand

end
-- ==== Proof.KMlp4RunB.lean ====
/-
  Region 4, control case B: the kernel body run once, symbolically, on whole staging memrefs.
-/
import proofs.«160011_j2121713844488_1_alg».proof.Proof.KMlp4Runs

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- The body at a middle point (the running sums are only added to): on whole staging memrefs — the five inputs at their blocks, the z output at anything,
    the two [1,128] outputs idle at whatever they hold, the two running-sum rows at what the point before left — it runs to its
    continuation with the inputs as they were and each buffer it stored into with its pieces written; the pieces are the
    witness the run finds. -/
noncomputable def kernelRun4_B (c : Dev nD) (i : grid4.Coords) (arg1 : Memref sig .tc .vmem S5000x128 .f32) (harg1 : arg1.IsWhole) (arg2 : Memref sig .tc .vmem S128x128 .f32) (harg2 : arg2.IsWhole) (arg3 : Memref sig .tc .vmem S1x128 .f32) (harg3 : arg3.IsWhole) (arg4 : Memref sig .tc .vmem S128x128 .f32) (harg4 : arg4.IsWhole) (arg5 : Memref sig .tc .vmem S1x128 .f32) (harg5 : arg5.IsWhole) (arg6 : Memref sig .tc .vmem S5000x128 .f32) (harg6 : arg6.IsWhole) (arg7 : Memref sig .tc .vmem S1x128 .f32) (harg7 : arg7.IsWhole) (arg8 : Memref sig .tc .vmem S1x128 .f32) (harg8 : arg8.IsWhole) (arg9 : Memref sig .tc .vmem S1x128 .f32) (harg9 : arg9.IsWhole) (arg10 : Memref sig .tc .vmem S1x128 .f32) (harg10 : arg10.IsWhole) (hc0 : ¬cond4_0 i) (hc1 : ¬cond4_1 i)
    (x0 : Vec F S5000x128 .f32) (x1 : Vec F S128x128 .f32) (x2 : Vec F S1x128 .f32) (x3 : Vec F S128x128 .f32) (x4 : Vec F S1x128 .f32) (xs0 : Vec F S1x128 .f32) (xs1 : Vec F S1x128 .f32) :
    Σ' (L5 : List (View.Piece (Elt F) S5000x128 .f32)) (L6 : List (View.Piece (Elt F) S1x128 .f32)) (L7 : List (View.Piece (Elt F) S1x128 .f32)) (LS0 : List (View.Piece (Elt F) S1x128 .f32)), { LS1 : List (View.Piece (Elt F) S1x128 .f32) //
      ∀ (xi6 : Vec F S1x128 .f32) (xi7 : Vec F S1x128 .f32) (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ (∃ d, owns (c : Thread nD τ) arg6 fullShare d) ∗ owns (c : Thread nD τ) arg7 fullShare xi6 ∗ owns (c : Thread nD τ) arg8 fullShare xi7 ∗ owns (c : Thread nD τ) arg9 fullShare xs0 ∗ owns (c : Thread nD τ) arg10 fullShare xs1
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ (∃ f, arg6.view.loc (c : Thread nD τ) ↦[arg6.view.set]{fullShare} arg6.view.writes (Elt F) f L5) ∗ owns (c : Thread nD τ) arg7 fullShare xi6 ∗ owns (c : Thread nD τ) arg8 fullShare xi7 ∗ (∃ f, arg9.view.loc (c : Thread nD τ) ↦[arg9.view.set]{fullShare} arg9.view.writes (Elt F) f LS0) ∗ (∃ f, arg10.view.loc (c : Thread nD τ) ↦[arg10.view.set]{fullShare} arg10.view.writes (Elt F) f LS1)) -∗ K ⟨⟩))
          ⊢ wp frame (wpE (defs₀ (F := F)) Variants.none c none) E (cc4__mlp_stats_kernel i arg1 harg1 arg2 harg2 arg3 harg3 arg4 harg4 arg5 harg5 arg6 harg6 arg7 harg7 arg8 harg8 arg9 harg9 arg10 harg10) K } := by
  refine ⟨?_, [], [], ?_, ?_, fun xi6 xi7 E K => ?run⟩
  case run =>
    simp only [cc4__mlp_stats_kernel_eq_skeleton]; unfold cc4__mlp_stats_kernel_skel
    simp only [k4_part1_eq_skeleton]; unfold k4_part1_skel
    unfold owns
    iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%f6, %hf6, H6⟩, ⟨%f7, %hf7, H7⟩, ⟨%fs0, %hfs0, HS0⟩, ⟨%fs1, %hfs1, HS1⟩, Hk⟩
    obtain rfl := harg1.eq_unread hf0; obtain rfl := harg2.eq_unread hf1; obtain rfl := harg3.eq_unread hf2; obtain rfl := harg4.eq_unread hf3; obtain rfl := harg5.eq_unread hf4; obtain rfl := harg7.eq_unread hf6; obtain rfl := harg8.eq_unread hf7; obtain rfl := harg9.eq_unread hfs0; obtain rfl := harg10.eq_unread hfs1
    sl_exec (disch := first | exact hc0 | exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]; · iexists _; iexact H5
    isplitl [H6]
    · iexists _; isplitr; · ipureintro; exact harg7.read_unread _
      iexact H6
    isplitl [H7]
    · iexists _; isplitr; · ipureintro; exact harg8.read_unread _
      iexact H7
    isplitl [HS0]; · iexists _; iexact HS0
    iexists _; iexact HS1

end Cert.Kernel.Hand

end
-- ==== Proof.KMlp4RunC.lean ====
/-
  Region 4, control case C: the kernel body run once, symbolically, on whole staging memrefs.
-/
import proofs.«160011_j2121713844488_1_alg».proof.Proof.KMlp4Runs

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- The body at the last point (the running sums are copied into the two [1,128] outputs): on whole staging memrefs — the five inputs at their blocks, the z output at anything,
    the two [1,128] outputs at anything, the two running-sum rows at what the point before left — it runs to its
    continuation with the inputs as they were and each buffer it stored into with its pieces written; the pieces are the
    witness the run finds. -/
noncomputable def kernelRun4_C (c : Dev nD) (i : grid4.Coords) (arg1 : Memref sig .tc .vmem S5000x128 .f32) (harg1 : arg1.IsWhole) (arg2 : Memref sig .tc .vmem S128x128 .f32) (harg2 : arg2.IsWhole) (arg3 : Memref sig .tc .vmem S1x128 .f32) (harg3 : arg3.IsWhole) (arg4 : Memref sig .tc .vmem S128x128 .f32) (harg4 : arg4.IsWhole) (arg5 : Memref sig .tc .vmem S1x128 .f32) (harg5 : arg5.IsWhole) (arg6 : Memref sig .tc .vmem S5000x128 .f32) (harg6 : arg6.IsWhole) (arg7 : Memref sig .tc .vmem S1x128 .f32) (harg7 : arg7.IsWhole) (arg8 : Memref sig .tc .vmem S1x128 .f32) (harg8 : arg8.IsWhole) (arg9 : Memref sig .tc .vmem S1x128 .f32) (harg9 : arg9.IsWhole) (arg10 : Memref sig .tc .vmem S1x128 .f32) (harg10 : arg10.IsWhole) (hc0 : ¬cond4_0 i) (hc1 : cond4_1 i)
    (x0 : Vec F S5000x128 .f32) (x1 : Vec F S128x128 .f32) (x2 : Vec F S1x128 .f32) (x3 : Vec F S128x128 .f32) (x4 : Vec F S1x128 .f32) (xs0 : Vec F S1x128 .f32) (xs1 : Vec F S1x128 .f32) :
    Σ' (L5 : List (View.Piece (Elt F) S5000x128 .f32)) (L6 : List (View.Piece (Elt F) S1x128 .f32)) (L7 : List (View.Piece (Elt F) S1x128 .f32)) (LS0 : List (View.Piece (Elt F) S1x128 .f32)), { LS1 : List (View.Piece (Elt F) S1x128 .f32) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ (∃ d, owns (c : Thread nD τ) arg6 fullShare d) ∗ (∃ d, owns (c : Thread nD τ) arg7 fullShare d) ∗ (∃ d, owns (c : Thread nD τ) arg8 fullShare d) ∗ owns (c : Thread nD τ) arg9 fullShare xs0 ∗ owns (c : Thread nD τ) arg10 fullShare xs1
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ (∃ f, arg6.view.loc (c : Thread nD τ) ↦[arg6.view.set]{fullShare} arg6.view.writes (Elt F) f L5) ∗ (∃ f, arg7.view.loc (c : Thread nD τ) ↦[arg7.view.set]{fullShare} arg7.view.writes (Elt F) f L6) ∗ (∃ f, arg8.view.loc (c : Thread nD τ) ↦[arg8.view.set]{fullShare} arg8.view.writes (Elt F) f L7) ∗ (∃ f, arg9.view.loc (c : Thread nD τ) ↦[arg9.view.set]{fullShare} arg9.view.writes (Elt F) f LS0) ∗ (∃ f, arg10.view.loc (c : Thread nD τ) ↦[arg10.view.set]{fullShare} arg10.view.writes (Elt F) f LS1)) -∗ K ⟨⟩))
          ⊢ wp frame (wpE (defs₀ (F := F)) Variants.none c none) E (cc4__mlp_stats_kernel i arg1 harg1 arg2 harg2 arg3 harg3 arg4 harg4 arg5 harg5 arg6 harg6 arg7 harg7 arg8 harg8 arg9 harg9 arg10 harg10) K } := by
  refine ⟨?_, ?_, ?_, ?_, ?_, fun E K => ?run⟩
  case run =>
    simp only [cc4__mlp_stats_kernel_eq_skeleton]; unfold cc4__mlp_stats_kernel_skel
    simp only [k4_part1_eq_skeleton]; unfold k4_part1_skel
    unfold owns
    iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%d6, %f6, -, H6⟩, ⟨%d7, %f7, -, H7⟩, ⟨%fs0, %hfs0, HS0⟩, ⟨%fs1, %hfs1, HS1⟩, Hk⟩
    obtain rfl := harg1.eq_unread hf0; obtain rfl := harg2.eq_unread hf1; obtain rfl := harg3.eq_unread hf2; obtain rfl := harg4.eq_unread hf3; obtain rfl := harg5.eq_unread hf4; obtain rfl := harg9.eq_unread hfs0; obtain rfl := harg10.eq_unread hfs1
    sl_exec (disch := first | exact hc0 | exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]; · iexists _; iexact H5
    isplitl [H6]; · iexists _; iexact H6
    isplitl [H7]; · iexists _; iexact H7
    isplitl [HS0]; · iexists _; iexact HS0
    iexists _; iexact HS1

end Cert.Kernel.Hand

end
-- ==== Proof.KMlp4.lean ====
/-
  Region 4 (a layer's two-layer perceptron with running column sums over the 20 row blocks): what each control case leaves in
  the outputs and in the two running-sum rows, the accumulation point by point, the proof data and the body obligation.
  The z output's block at a point is the body's payload of that point's input blocks; the two running-sum rows after point t are
  zero plus the column sums of z and z² over blocks 0..t; the two [1,128] outputs receive the rows at the last point.
-/
import proofs.«160011_j2121713844488_1_alg».proof.Proof.KMlp4RunA
import proofs.«160011_j2121713844488_1_alg».proof.Proof.KMlp4RunB
import proofs.«160011_j2121713844488_1_alg».proof.Proof.KMlp4RunC

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Region4

variable (V : (c : Dev nD) → (b : Ref sig .tc) → Buf (Elt F) ((c : Thread nD τ).loc b))

/-- Case A's pieces for output window 5 cover it (one whole-rectangle store). -/
theorem cover4_A_5 (c : Dev nD) (i : grid4.Coords) (arg1 : Memref sig .tc .vmem S5000x128 .f32) (harg1 : arg1.IsWhole) (arg2 : Memref sig .tc .vmem S128x128 .f32) (harg2 : arg2.IsWhole) (arg3 : Memref sig .tc .vmem S1x128 .f32) (harg3 : arg3.IsWhole) (arg4 : Memref sig .tc .vmem S128x128 .f32) (harg4 : arg4.IsWhole) (arg5 : Memref sig .tc .vmem S1x128 .f32) (harg5 : arg5.IsWhole) (arg6 : Memref sig .tc .vmem S5000x128 .f32) (harg6 : arg6.IsWhole) (arg7 : Memref sig .tc .vmem S1x128 .f32) (harg7 : arg7.IsWhole) (arg8 : Memref sig .tc .vmem S1x128 .f32) (harg8 : arg8.IsWhole) (arg9 : Memref sig .tc .vmem S1x128 .f32) (harg9 : arg9.IsWhole) (arg10 : Memref sig .tc .vmem S1x128 .f32) (harg10 : arg10.IsWhole) (hc0 : cond4_0 i) (hc1 : ¬cond4_1 i)
    (x0 : Vec F S5000x128 .f32) (x1 : Vec F S128x128 .f32) (x2 : Vec F S1x128 .f32) (x3 : Vec F S128x128 .f32) (x4 : Vec F S1x128 .f32) (y : S5000x128.Idx) :
    ∃ pc ∈ (kernelRun4_A c i arg1 harg1 arg2 harg2 arg3 harg3 arg4 harg4 arg5 harg5 arg6 harg6 arg7 harg7 arg8 harg8 arg9 harg9 arg10 harg10 hc0 hc1 x0 x1 x2 x3 x4).1, y ∈ pc.1.set :=
  View.cover_of_tiledL (kernelRun4_A c i arg1 harg1 arg2 harg2 arg3 harg3 arg4 harg4 arg5 harg5 arg6 harg6 arg7 harg7 arg8 harg8 arg9 harg9 arg10 harg10 hc0 hc1 x0 x1 x2 x3 x4).1 S5000x128.size (by sl_kernel_rfl) y

/-- What case A leaves there: its pieces read back. -/
def out4_A_5 (c : Dev nD) (i : grid4.Coords) (arg1 : Memref sig .tc .vmem S5000x128 .f32) (harg1 : arg1.IsWhole) (arg2 : Memref sig .tc .vmem S128x128 .f32) (harg2 : arg2.IsWhole) (arg3 : Memref sig .tc .vmem S1x128 .f32) (harg3 : arg3.IsWhole) (arg4 : Memref sig .tc .vmem S128x128 .f32) (harg4 : arg4.IsWhole) (arg5 : Memref sig .tc .vmem S1x128 .f32) (harg5 : arg5.IsWhole) (arg6 : Memref sig .tc .vmem S5000x128 .f32) (harg6 : arg6.IsWhole) (arg7 : Memref sig .tc .vmem S1x128 .f32) (harg7 : arg7.IsWhole) (arg8 : Memref sig .tc .vmem S1x128 .f32) (harg8 : arg8.IsWhole) (arg9 : Memref sig .tc .vmem S1x128 .f32) (harg9 : arg9.IsWhole) (arg10 : Memref sig .tc .vmem S1x128 .f32) (harg10 : arg10.IsWhole) (hc0 : cond4_0 i) (hc1 : ¬cond4_1 i)
    (x0 : Vec F S5000x128 .f32) (x1 : Vec F S128x128 .f32) (x2 : Vec F S1x128 .f32) (x3 : Vec F S128x128 .f32) (x4 : Vec F S1x128 .f32) : Vec F S5000x128 .f32 :=
  VO4_5.read (Elt F) (VO4_5.writes (Elt F) VO4_5.junk (kernelRun4_A c i arg1 harg1 arg2 harg2 arg3 harg3 arg4 harg4 arg5 harg5 arg6 harg6 arg7 harg7 arg8 harg8 arg9 harg9 arg10 harg10 hc0 hc1 x0 x1 x2 x3 x4).1)

/-- Case A's pieces for running-sum row 0 cover it (one whole-rectangle store). -/
theorem scover4_A_0 (c : Dev nD) (i : grid4.Coords) (arg1 : Memref sig .tc .vmem S5000x128 .f32) (harg1 : arg1.IsWhole) (arg2 : Memref sig .tc .vmem S128x128 .f32) (harg2 : arg2.IsWhole) (arg3 : Memref sig .tc .vmem S1x128 .f32) (harg3 : arg3.IsWhole) (arg4 : Memref sig .tc .vmem S128x128 .f32) (harg4 : arg4.IsWhole) (arg5 : Memref sig .tc .vmem S1x128 .f32) (harg5 : arg5.IsWhole) (arg6 : Memref sig .tc .vmem S5000x128 .f32) (harg6 : arg6.IsWhole) (arg7 : Memref sig .tc .vmem S1x128 .f32) (harg7 : arg7.IsWhole) (arg8 : Memref sig .tc .vmem S1x128 .f32) (harg8 : arg8.IsWhole) (arg9 : Memref sig .tc .vmem S1x128 .f32) (harg9 : arg9.IsWhole) (arg10 : Memref sig .tc .vmem S1x128 .f32) (harg10 : arg10.IsWhole) (hc0 : cond4_0 i) (hc1 : ¬cond4_1 i)
    (x0 : Vec F S5000x128 .f32) (x1 : Vec F S128x128 .f32) (x2 : Vec F S1x128 .f32) (x3 : Vec F S128x128 .f32) (x4 : Vec F S1x128 .f32) (y : S1x128.Idx) :
    ∃ pc ∈ (kernelRun4_A c i arg1 harg1 arg2 harg2 arg3 harg3 arg4 harg4 arg5 harg5 arg6 harg6 arg7 harg7 arg8 harg8 arg9 harg9 arg10 harg10 hc0 hc1 x0 x1 x2 x3 x4).2.2.2.1, y ∈ pc.1.set :=
  View.cover_of_tiledL (kernelRun4_A c i arg1 harg1 arg2 harg2 arg3 harg3 arg4 harg4 arg5 harg5 arg6 harg6 arg7 harg7 arg8 harg8 arg9 harg9 arg10 harg10 hc0 hc1 x0 x1 x2 x3 x4).2.2.2.1 S1x128.size (by sl_kernel_rfl) y

/-- What case A leaves there: its pieces read back. -/
def sout4_A_0 (c : Dev nD) (i : grid4.Coords) (arg1 : Memref sig .tc .vmem S5000x128 .f32) (harg1 : arg1.IsWhole) (arg2 : Memref sig .tc .vmem S128x128 .f32) (harg2 : arg2.IsWhole) (arg3 : Memref sig .tc .vmem S1x128 .f32) (harg3 : arg3.IsWhole) (arg4 : Memref sig .tc .vmem S128x128 .f32) (harg4 : arg4.IsWhole) (arg5 : Memref sig .tc .vmem S1x128 .f32) (harg5 : arg5.IsWhole) (arg6 : Memref sig .tc .vmem S5000x128 .f32) (harg6 : arg6.IsWhole) (arg7 : Memref sig .tc .vmem S1x128 .f32) (harg7 : arg7.IsWhole) (arg8 : Memref sig .tc .vmem S1x128 .f32) (harg8 : arg8.IsWhole) (arg9 : Memref sig .tc .vmem S1x128 .f32) (harg9 : arg9.IsWhole) (arg10 : Memref sig .tc .vmem S1x128 .f32) (harg10 : arg10.IsWhole) (hc0 : cond4_0 i) (hc1 : ¬cond4_1 i)
    (x0 : Vec F S5000x128 .f32) (x1 : Vec F S128x128 .f32) (x2 : Vec F S1x128 .f32) (x3 : Vec F S128x128 .f32) (x4 : Vec F S1x128 .f32) : Vec F S1x128 .f32 :=
  VS4_0.read (Elt F) (VS4_0.writes (Elt F) VS4_0.junk (kernelRun4_A c i arg1 harg1 arg2 harg2 arg3 harg3 arg4 harg4 arg5 harg5 arg6 harg6 arg7 harg7 arg8 harg8 arg9 harg9 arg10 harg10 hc0 hc1 x0 x1 x2 x3 x4).2.2.2.1)

/-- Case A's pieces for running-sum row 1 cover it (one whole-rectangle store). -/
theorem scover4_A_1 (c : Dev nD) (i : grid4.Coords) (arg1 : Memref sig .tc .vmem S5000x128 .f32) (harg1 : arg1.IsWhole) (arg2 : Memref sig .tc .vmem S128x128 .f32) (harg2 : arg2.IsWhole) (arg3 : Memref sig .tc .vmem S1x128 .f32) (harg3 : arg3.IsWhole) (arg4 : Memref sig .tc .vmem S128x128 .f32) (harg4 : arg4.IsWhole) (arg5 : Memref sig .tc .vmem S1x128 .f32) (harg5 : arg5.IsWhole) (arg6 : Memref sig .tc .vmem S5000x128 .f32) (harg6 : arg6.IsWhole) (arg7 : Memref sig .tc .vmem S1x128 .f32) (harg7 : arg7.IsWhole) (arg8 : Memref sig .tc .vmem S1x128 .f32) (harg8 : arg8.IsWhole) (arg9 : Memref sig .tc .vmem S1x128 .f32) (harg9 : arg9.IsWhole) (arg10 : Memref sig .tc .vmem S1x128 .f32) (harg10 : arg10.IsWhole) (hc0 : cond4_0 i) (hc1 : ¬cond4_1 i)
    (x0 : Vec F S5000x128 .f32) (x1 : Vec F S128x128 .f32) (x2 : Vec F S1x128 .f32) (x3 : Vec F S128x128 .f32) (x4 : Vec F S1x128 .f32) (y : S1x128.Idx) :
    ∃ pc ∈ (kernelRun4_A c i arg1 harg1 arg2 harg2 arg3 harg3 arg4 harg4 arg5 harg5 arg6 harg6 arg7 harg7 arg8 harg8 arg9 harg9 arg10 harg10 hc0 hc1 x0 x1 x2 x3 x4).2.2.2.2.1, y ∈ pc.1.set :=
  View.cover_of_tiledL (kernelRun4_A c i arg1 harg1 arg2 harg2 arg3 harg3 arg4 harg4 arg5 harg5 arg6 harg6 arg7 harg7 arg8 harg8 arg9 harg9 arg10 harg10 hc0 hc1 x0 x1 x2 x3 x4).2.2.2.2.1 S1x128.size (by sl_kernel_rfl) y

/-- What case A leaves there: its pieces read back. -/
def sout4_A_1 (c : Dev nD) (i : grid4.Coords) (arg1 : Memref sig .tc .vmem S5000x128 .f32) (harg1 : arg1.IsWhole) (arg2 : Memref sig .tc .vmem S128x128 .f32) (harg2 : arg2.IsWhole) (arg3 : Memref sig .tc .vmem S1x128 .f32) (harg3 : arg3.IsWhole) (arg4 : Memref sig .tc .vmem S128x128 .f32) (harg4 : arg4.IsWhole) (arg5 : Memref sig .tc .vmem S1x128 .f32) (harg5 : arg5.IsWhole) (arg6 : Memref sig .tc .vmem S5000x128 .f32) (harg6 : arg6.IsWhole) (arg7 : Memref sig .tc .vmem S1x128 .f32) (harg7 : arg7.IsWhole) (arg8 : Memref sig .tc .vmem S1x128 .f32) (harg8 : arg8.IsWhole) (arg9 : Memref sig .tc .vmem S1x128 .f32) (harg9 : arg9.IsWhole) (arg10 : Memref sig .tc .vmem S1x128 .f32) (harg10 : arg10.IsWhole) (hc0 : cond4_0 i) (hc1 : ¬cond4_1 i)
    (x0 : Vec F S5000x128 .f32) (x1 : Vec F S128x128 .f32) (x2 : Vec F S1x128 .f32) (x3 : Vec F S128x128 .f32) (x4 : Vec F S1x128 .f32) : Vec F S1x128 .f32 :=
  VS4_1.read (Elt F) (VS4_1.writes (Elt F) VS4_1.junk (kernelRun4_A c i arg1 harg1 arg2 harg2 arg3 harg3 arg4 harg4 arg5 harg5 arg6 harg6 arg7 harg7 arg8 harg8 arg9 harg9 arg10 harg10 hc0 hc1 x0 x1 x2 x3 x4).2.2.2.2.1)

/-- Case B's pieces for output window 5 cover it (one whole-rectangle store). -/
theorem cover4_B_5 (c : Dev nD) (i : grid4.Coords) (arg1 : Memref sig .tc .vmem S5000x128 .f32) (harg1 : arg1.IsWhole) (arg2 : Memref sig .tc .vmem S128x128 .f32) (harg2 : arg2.IsWhole) (arg3 : Memref sig .tc .vmem S1x128 .f32) (harg3 : arg3.IsWhole) (arg4 : Memref sig .tc .vmem S128x128 .f32) (harg4 : arg4.IsWhole) (arg5 : Memref sig .tc .vmem S1x128 .f32) (harg5 : arg5.IsWhole) (arg6 : Memref sig .tc .vmem S5000x128 .f32) (harg6 : arg6.IsWhole) (arg7 : Memref sig .tc .vmem S1x128 .f32) (harg7 : arg7.IsWhole) (arg8 : Memref sig .tc .vmem S1x128 .f32) (harg8 : arg8.IsWhole) (arg9 : Memref sig .tc .vmem S1x128 .f32) (harg9 : arg9.IsWhole) (arg10 : Memref sig .tc .vmem S1x128 .f32) (harg10 : arg10.IsWhole) (hc0 : ¬cond4_0 i) (hc1 : ¬cond4_1 i)
    (x0 : Vec F S5000x128 .f32) (x1 : Vec F S128x128 .f32) (x2 : Vec F S1x128 .f32) (x3 : Vec F S128x128 .f32) (x4 : Vec F S1x128 .f32) (xs0 : Vec F S1x128 .f32) (xs1 : Vec F S1x128 .f32) (y : S5000x128.Idx) :
    ∃ pc ∈ (kernelRun4_B c i arg1 harg1 arg2 harg2 arg3 harg3 arg4 harg4 arg5 harg5 arg6 harg6 arg7 harg7 arg8 harg8 arg9 harg9 arg10 harg10 hc0 hc1 x0 x1 x2 x3 x4 xs0 xs1).1, y ∈ pc.1.set :=
  View.cover_of_tiledL (kernelRun4_B c i arg1 harg1 arg2 harg2 arg3 harg3 arg4 harg4 arg5 harg5 arg6 harg6 arg7 harg7 arg8 harg8 arg9 harg9 arg10 harg10 hc0 hc1 x0 x1 x2 x3 x4 xs0 xs1).1 S5000x128.size (by sl_kernel_rfl) y

/-- What case B leaves there: its pieces read back. -/
def out4_B_5 (c : Dev nD) (i : grid4.Coords) (arg1 : Memref sig .tc .vmem S5000x128 .f32) (harg1 : arg1.IsWhole) (arg2 : Memref sig .tc .vmem S128x128 .f32) (harg2 : arg2.IsWhole) (arg3 : Memref sig .tc .vmem S1x128 .f32) (harg3 : arg3.IsWhole) (arg4 : Memref sig .tc .vmem S128x128 .f32) (harg4 : arg4.IsWhole) (arg5 : Memref sig .tc .vmem S1x128 .f32) (harg5 : arg5.IsWhole) (arg6 : Memref sig .tc .vmem S5000x128 .f32) (harg6 : arg6.IsWhole) (arg7 : Memref sig .tc .vmem S1x128 .f32) (harg7 : arg7.IsWhole) (arg8 : Memref sig .tc .vmem S1x128 .f32) (harg8 : arg8.IsWhole) (arg9 : Memref sig .tc .vmem S1x128 .f32) (harg9 : arg9.IsWhole) (arg10 : Memref sig .tc .vmem S1x128 .f32) (harg10 : arg10.IsWhole) (hc0 : ¬cond4_0 i) (hc1 : ¬cond4_1 i)
    (x0 : Vec F S5000x128 .f32) (x1 : Vec F S128x128 .f32) (x2 : Vec F S1x128 .f32) (x3 : Vec F S128x128 .f32) (x4 : Vec F S1x128 .f32) (xs0 : Vec F S1x128 .f32) (xs1 : Vec F S1x128 .f32) : Vec F S5000x128 .f32 :=
  VO4_5.read (Elt F) (VO4_5.writes (Elt F) VO4_5.junk (kernelRun4_B c i arg1 harg1 arg2 harg2 arg3 harg3 arg4 harg4 arg5 harg5 arg6 harg6 arg7 harg7 arg8 harg8 arg9 harg9 arg10 harg10 hc0 hc1 x0 x1 x2 x3 x4 xs0 xs1).1)

/-- Case B's pieces for running-sum row 0 cover it (one whole-rectangle store). -/
theorem scover4_B_0 (c : Dev nD) (i : grid4.Coords) (arg1 : Memref sig .tc .vmem S5000x128 .f32) (harg1 : arg1.IsWhole) (arg2 : Memref sig .tc .vmem S128x128 .f32) (harg2 : arg2.IsWhole) (arg3 : Memref sig .tc .vmem S1x128 .f32) (harg3 : arg3.IsWhole) (arg4 : Memref sig .tc .vmem S128x128 .f32) (harg4 : arg4.IsWhole) (arg5 : Memref sig .tc .vmem S1x128 .f32) (harg5 : arg5.IsWhole) (arg6 : Memref sig .tc .vmem S5000x128 .f32) (harg6 : arg6.IsWhole) (arg7 : Memref sig .tc .vmem S1x128 .f32) (harg7 : arg7.IsWhole) (arg8 : Memref sig .tc .vmem S1x128 .f32) (harg8 : arg8.IsWhole) (arg9 : Memref sig .tc .vmem S1x128 .f32) (harg9 : arg9.IsWhole) (arg10 : Memref sig .tc .vmem S1x128 .f32) (harg10 : arg10.IsWhole) (hc0 : ¬cond4_0 i) (hc1 : ¬cond4_1 i)
    (x0 : Vec F S5000x128 .f32) (x1 : Vec F S128x128 .f32) (x2 : Vec F S1x128 .f32) (x3 : Vec F S128x128 .f32) (x4 : Vec F S1x128 .f32) (xs0 : Vec F S1x128 .f32) (xs1 : Vec F S1x128 .f32) (y : S1x128.Idx) :
    ∃ pc ∈ (kernelRun4_B c i arg1 harg1 arg2 harg2 arg3 harg3 arg4 harg4 arg5 harg5 arg6 harg6 arg7 harg7 arg8 harg8 arg9 harg9 arg10 harg10 hc0 hc1 x0 x1 x2 x3 x4 xs0 xs1).2.2.2.1, y ∈ pc.1.set :=
  View.cover_of_tiledL (kernelRun4_B c i arg1 harg1 arg2 harg2 arg3 harg3 arg4 harg4 arg5 harg5 arg6 harg6 arg7 harg7 arg8 harg8 arg9 harg9 arg10 harg10 hc0 hc1 x0 x1 x2 x3 x4 xs0 xs1).2.2.2.1 S1x128.size (by sl_kernel_rfl) y

/-- What case B leaves there: its pieces read back. -/
def sout4_B_0 (c : Dev nD) (i : grid4.Coords) (arg1 : Memref sig .tc .vmem S5000x128 .f32) (harg1 : arg1.IsWhole) (arg2 : Memref sig .tc .vmem S128x128 .f32) (harg2 : arg2.IsWhole) (arg3 : Memref sig .tc .vmem S1x128 .f32) (harg3 : arg3.IsWhole) (arg4 : Memref sig .tc .vmem S128x128 .f32) (harg4 : arg4.IsWhole) (arg5 : Memref sig .tc .vmem S1x128 .f32) (harg5 : arg5.IsWhole) (arg6 : Memref sig .tc .vmem S5000x128 .f32) (harg6 : arg6.IsWhole) (arg7 : Memref sig .tc .vmem S1x128 .f32) (harg7 : arg7.IsWhole) (arg8 : Memref sig .tc .vmem S1x128 .f32) (harg8 : arg8.IsWhole) (arg9 : Memref sig .tc .vmem S1x128 .f32) (harg9 : arg9.IsWhole) (arg10 : Memref sig .tc .vmem S1x128 .f32) (harg10 : arg10.IsWhole) (hc0 : ¬cond4_0 i) (hc1 : ¬cond4_1 i)
    (x0 : Vec F S5000x128 .f32) (x1 : Vec F S128x128 .f32) (x2 : Vec F S1x128 .f32) (x3 : Vec F S128x128 .f32) (x4 : Vec F S1x128 .f32) (xs0 : Vec F S1x128 .f32) (xs1 : Vec F S1x128 .f32) : Vec F S1x128 .f32 :=
  VS4_0.read (Elt F) (VS4_0.writes (Elt F) VS4_0.junk (kernelRun4_B c i arg1 harg1 arg2 harg2 arg3 harg3 arg4 harg4 arg5 harg5 arg6 harg6 arg7 harg7 arg8 harg8 arg9 harg9 arg10 harg10 hc0 hc1 x0 x1 x2 x3 x4 xs0 xs1).2.2.2.1)

/-- Case B's pieces for running-sum row 1 cover it (one whole-rectangle store). -/
theorem scover4_B_1 (c : Dev nD) (i : grid4.Coords) (arg1 : Memref sig .tc .vmem S5000x128 .f32) (harg1 : arg1.IsWhole) (arg2 : Memref sig .tc .vmem S128x128 .f32) (harg2 : arg2.IsWhole) (arg3 : Memref sig .tc .vmem S1x128 .f32) (harg3 : arg3.IsWhole) (arg4 : Memref sig .tc .vmem S128x128 .f32) (harg4 : arg4.IsWhole) (arg5 : Memref sig .tc .vmem S1x128 .f32) (harg5 : arg5.IsWhole) (arg6 : Memref sig .tc .vmem S5000x128 .f32) (harg6 : arg6.IsWhole) (arg7 : Memref sig .tc .vmem S1x128 .f32) (harg7 : arg7.IsWhole) (arg8 : Memref sig .tc .vmem S1x128 .f32) (harg8 : arg8.IsWhole) (arg9 : Memref sig .tc .vmem S1x128 .f32) (harg9 : arg9.IsWhole) (arg10 : Memref sig .tc .vmem S1x128 .f32) (harg10 : arg10.IsWhole) (hc0 : ¬cond4_0 i) (hc1 : ¬cond4_1 i)
    (x0 : Vec F S5000x128 .f32) (x1 : Vec F S128x128 .f32) (x2 : Vec F S1x128 .f32) (x3 : Vec F S128x128 .f32) (x4 : Vec F S1x128 .f32) (xs0 : Vec F S1x128 .f32) (xs1 : Vec F S1x128 .f32) (y : S1x128.Idx) :
    ∃ pc ∈ (kernelRun4_B c i arg1 harg1 arg2 harg2 arg3 harg3 arg4 harg4 arg5 harg5 arg6 harg6 arg7 harg7 arg8 harg8 arg9 harg9 arg10 harg10 hc0 hc1 x0 x1 x2 x3 x4 xs0 xs1).2.2.2.2.1, y ∈ pc.1.set :=
  View.cover_of_tiledL (kernelRun4_B c i arg1 harg1 arg2 harg2 arg3 harg3 arg4 harg4 arg5 harg5 arg6 harg6 arg7 harg7 arg8 harg8 arg9 harg9 arg10 harg10 hc0 hc1 x0 x1 x2 x3 x4 xs0 xs1).2.2.2.2.1 S1x128.size (by sl_kernel_rfl) y

/-- What case B leaves there: its pieces read back. -/
def sout4_B_1 (c : Dev nD) (i : grid4.Coords) (arg1 : Memref sig .tc .vmem S5000x128 .f32) (harg1 : arg1.IsWhole) (arg2 : Memref sig .tc .vmem S128x128 .f32) (harg2 : arg2.IsWhole) (arg3 : Memref sig .tc .vmem S1x128 .f32) (harg3 : arg3.IsWhole) (arg4 : Memref sig .tc .vmem S128x128 .f32) (harg4 : arg4.IsWhole) (arg5 : Memref sig .tc .vmem S1x128 .f32) (harg5 : arg5.IsWhole) (arg6 : Memref sig .tc .vmem S5000x128 .f32) (harg6 : arg6.IsWhole) (arg7 : Memref sig .tc .vmem S1x128 .f32) (harg7 : arg7.IsWhole) (arg8 : Memref sig .tc .vmem S1x128 .f32) (harg8 : arg8.IsWhole) (arg9 : Memref sig .tc .vmem S1x128 .f32) (harg9 : arg9.IsWhole) (arg10 : Memref sig .tc .vmem S1x128 .f32) (harg10 : arg10.IsWhole) (hc0 : ¬cond4_0 i) (hc1 : ¬cond4_1 i)
    (x0 : Vec F S5000x128 .f32) (x1 : Vec F S128x128 .f32) (x2 : Vec F S1x128 .f32) (x3 : Vec F S128x128 .f32) (x4 : Vec F S1x128 .f32) (xs0 : Vec F S1x128 .f32) (xs1 : Vec F S1x128 .f32) : Vec F S1x128 .f32 :=
  VS4_1.read (Elt F) (VS4_1.writes (Elt F) VS4_1.junk (kernelRun4_B c i arg1 harg1 arg2 harg2 arg3 harg3 arg4 harg4 arg5 harg5 arg6 harg6 arg7 harg7 arg8 harg8 arg9 harg9 arg10 harg10 hc0 hc1 x0 x1 x2 x3 x4 xs0 xs1).2.2.2.2.1)

/-- Case C's pieces for output window 5 cover it (one whole-rectangle store). -/
theorem cover4_C_5 (c : Dev nD) (i : grid4.Coords) (arg1 : Memref sig .tc .vmem S5000x128 .f32) (harg1 : arg1.IsWhole) (arg2 : Memref sig .tc .vmem S128x128 .f32) (harg2 : arg2.IsWhole) (arg3 : Memref sig .tc .vmem S1x128 .f32) (harg3 : arg3.IsWhole) (arg4 : Memref sig .tc .vmem S128x128 .f32) (harg4 : arg4.IsWhole) (arg5 : Memref sig .tc .vmem S1x128 .f32) (harg5 : arg5.IsWhole) (arg6 : Memref sig .tc .vmem S5000x128 .f32) (harg6 : arg6.IsWhole) (arg7 : Memref sig .tc .vmem S1x128 .f32) (harg7 : arg7.IsWhole) (arg8 : Memref sig .tc .vmem S1x128 .f32) (harg8 : arg8.IsWhole) (arg9 : Memref sig .tc .vmem S1x128 .f32) (harg9 : arg9.IsWhole) (arg10 : Memref sig .tc .vmem S1x128 .f32) (harg10 : arg10.IsWhole) (hc0 : ¬cond4_0 i) (hc1 : cond4_1 i)
    (x0 : Vec F S5000x128 .f32) (x1 : Vec F S128x128 .f32) (x2 : Vec F S1x128 .f32) (x3 : Vec F S128x128 .f32) (x4 : Vec F S1x128 .f32) (xs0 : Vec F S1x128 .f32) (xs1 : Vec F S1x128 .f32) (y : S5000x128.Idx) :
    ∃ pc ∈ (kernelRun4_C c i arg1 harg1 arg2 harg2 arg3 harg3 arg4 harg4 arg5 harg5 arg6 harg6 arg7 harg7 arg8 harg8 arg9 harg9 arg10 harg10 hc0 hc1 x0 x1 x2 x3 x4 xs0 xs1).1, y ∈ pc.1.set :=
  View.cover_of_tiledL (kernelRun4_C c i arg1 harg1 arg2 harg2 arg3 harg3 arg4 harg4 arg5 harg5 arg6 harg6 arg7 harg7 arg8 harg8 arg9 harg9 arg10 harg10 hc0 hc1 x0 x1 x2 x3 x4 xs0 xs1).1 S5000x128.size (by sl_kernel_rfl) y

/-- What case C leaves there: its pieces read back. -/
def out4_C_5 (c : Dev nD) (i : grid4.Coords) (arg1 : Memref sig .tc .vmem S5000x128 .f32) (harg1 : arg1.IsWhole) (arg2 : Memref sig .tc .vmem S128x128 .f32) (harg2 : arg2.IsWhole) (arg3 : Memref sig .tc .vmem S1x128 .f32) (harg3 : arg3.IsWhole) (arg4 : Memref sig .tc .vmem S128x128 .f32) (harg4 : arg4.IsWhole) (arg5 : Memref sig .tc .vmem S1x128 .f32) (harg5 : arg5.IsWhole) (arg6 : Memref sig .tc .vmem S5000x128 .f32) (harg6 : arg6.IsWhole) (arg7 : Memref sig .tc .vmem S1x128 .f32) (harg7 : arg7.IsWhole) (arg8 : Memref sig .tc .vmem S1x128 .f32) (harg8 : arg8.IsWhole) (arg9 : Memref sig .tc .vmem S1x128 .f32) (harg9 : arg9.IsWhole) (arg10 : Memref sig .tc .vmem S1x128 .f32) (harg10 : arg10.IsWhole) (hc0 : ¬cond4_0 i) (hc1 : cond4_1 i)
    (x0 : Vec F S5000x128 .f32) (x1 : Vec F S128x128 .f32) (x2 : Vec F S1x128 .f32) (x3 : Vec F S128x128 .f32) (x4 : Vec F S1x128 .f32) (xs0 : Vec F S1x128 .f32) (xs1 : Vec F S1x128 .f32) : Vec F S5000x128 .f32 :=
  VO4_5.read (Elt F) (VO4_5.writes (Elt F) VO4_5.junk (kernelRun4_C c i arg1 harg1 arg2 harg2 arg3 harg3 arg4 harg4 arg5 harg5 arg6 harg6 arg7 harg7 arg8 harg8 arg9 harg9 arg10 harg10 hc0 hc1 x0 x1 x2 x3 x4 xs0 xs1).1)

/-- Case C's pieces for output window 6 cover it (one whole-rectangle store). -/
theorem cover4_C_6 (c : Dev nD) (i : grid4.Coords) (arg1 : Memref sig .tc .vmem S5000x128 .f32) (harg1 : arg1.IsWhole) (arg2 : Memref sig .tc .vmem S128x128 .f32) (harg2 : arg2.IsWhole) (arg3 : Memref sig .tc .vmem S1x128 .f32) (harg3 : arg3.IsWhole) (arg4 : Memref sig .tc .vmem S128x128 .f32) (harg4 : arg4.IsWhole) (arg5 : Memref sig .tc .vmem S1x128 .f32) (harg5 : arg5.IsWhole) (arg6 : Memref sig .tc .vmem S5000x128 .f32) (harg6 : arg6.IsWhole) (arg7 : Memref sig .tc .vmem S1x128 .f32) (harg7 : arg7.IsWhole) (arg8 : Memref sig .tc .vmem S1x128 .f32) (harg8 : arg8.IsWhole) (arg9 : Memref sig .tc .vmem S1x128 .f32) (harg9 : arg9.IsWhole) (arg10 : Memref sig .tc .vmem S1x128 .f32) (harg10 : arg10.IsWhole) (hc0 : ¬cond4_0 i) (hc1 : cond4_1 i)
    (x0 : Vec F S5000x128 .f32) (x1 : Vec F S128x128 .f32) (x2 : Vec F S1x128 .f32) (x3 : Vec F S128x128 .f32) (x4 : Vec F S1x128 .f32) (xs0 : Vec F S1x128 .f32) (xs1 : Vec F S1x128 .f32) (y : S1x128.Idx) :
    ∃ pc ∈ (kernelRun4_C c i arg1 harg1 arg2 harg2 arg3 harg3 arg4 harg4 arg5 harg5 arg6 harg6 arg7 harg7 arg8 harg8 arg9 harg9 arg10 harg10 hc0 hc1 x0 x1 x2 x3 x4 xs0 xs1).2.1, y ∈ pc.1.set :=
  View.cover_of_tiledL (kernelRun4_C c i arg1 harg1 arg2 harg2 arg3 harg3 arg4 harg4 arg5 harg5 arg6 harg6 arg7 harg7 arg8 harg8 arg9 harg9 arg10 harg10 hc0 hc1 x0 x1 x2 x3 x4 xs0 xs1).2.1 S1x128.size (by sl_kernel_rfl) y

/-- What case C leaves there: its pieces read back. -/
def out4_C_6 (c : Dev nD) (i : grid4.Coords) (arg1 : Memref sig .tc .vmem S5000x128 .f32) (harg1 : arg1.IsWhole) (arg2 : Memref sig .tc .vmem S128x128 .f32) (harg2 : arg2.IsWhole) (arg3 : Memref sig .tc .vmem S1x128 .f32) (harg3 : arg3.IsWhole) (arg4 : Memref sig .tc .vmem S128x128 .f32) (harg4 : arg4.IsWhole) (arg5 : Memref sig .tc .vmem S1x128 .f32) (harg5 : arg5.IsWhole) (arg6 : Memref sig .tc .vmem S5000x128 .f32) (harg6 : arg6.IsWhole) (arg7 : Memref sig .tc .vmem S1x128 .f32) (harg7 : arg7.IsWhole) (arg8 : Memref sig .tc .vmem S1x128 .f32) (harg8 : arg8.IsWhole) (arg9 : Memref sig .tc .vmem S1x128 .f32) (harg9 : arg9.IsWhole) (arg10 : Memref sig .tc .vmem S1x128 .f32) (harg10 : arg10.IsWhole) (hc0 : ¬cond4_0 i) (hc1 : cond4_1 i)
    (x0 : Vec F S5000x128 .f32) (x1 : Vec F S128x128 .f32) (x2 : Vec F S1x128 .f32) (x3 : Vec F S128x128 .f32) (x4 : Vec F S1x128 .f32) (xs0 : Vec F S1x128 .f32) (xs1 : Vec F S1x128 .f32) : Vec F S1x128 .f32 :=
  VO4_6.read (Elt F) (VO4_6.writes (Elt F) VO4_6.junk (kernelRun4_C c i arg1 harg1 arg2 harg2 arg3 harg3 arg4 harg4 arg5 harg5 arg6 harg6 arg7 harg7 arg8 harg8 arg9 harg9 arg10 harg10 hc0 hc1 x0 x1 x2 x3 x4 xs0 xs1).2.1)

/-- Case C's pieces for output window 7 cover it (one whole-rectangle store). -/
theorem cover4_C_7 (c : Dev nD) (i : grid4.Coords) (arg1 : Memref sig .tc .vmem S5000x128 .f32) (harg1 : arg1.IsWhole) (arg2 : Memref sig .tc .vmem S128x128 .f32) (harg2 : arg2.IsWhole) (arg3 : Memref sig .tc .vmem S1x128 .f32) (harg3 : arg3.IsWhole) (arg4 : Memref sig .tc .vmem S128x128 .f32) (harg4 : arg4.IsWhole) (arg5 : Memref sig .tc .vmem S1x128 .f32) (harg5 : arg5.IsWhole) (arg6 : Memref sig .tc .vmem S5000x128 .f32) (harg6 : arg6.IsWhole) (arg7 : Memref sig .tc .vmem S1x128 .f32) (harg7 : arg7.IsWhole) (arg8 : Memref sig .tc .vmem S1x128 .f32) (harg8 : arg8.IsWhole) (arg9 : Memref sig .tc .vmem S1x128 .f32) (harg9 : arg9.IsWhole) (arg10 : Memref sig .tc .vmem S1x128 .f32) (harg10 : arg10.IsWhole) (hc0 : ¬cond4_0 i) (hc1 : cond4_1 i)
    (x0 : Vec F S5000x128 .f32) (x1 : Vec F S128x128 .f32) (x2 : Vec F S1x128 .f32) (x3 : Vec F S128x128 .f32) (x4 : Vec F S1x128 .f32) (xs0 : Vec F S1x128 .f32) (xs1 : Vec F S1x128 .f32) (y : S1x128.Idx) :
    ∃ pc ∈ (kernelRun4_C c i arg1 harg1 arg2 harg2 arg3 harg3 arg4 harg4 arg5 harg5 arg6 harg6 arg7 harg7 arg8 harg8 arg9 harg9 arg10 harg10 hc0 hc1 x0 x1 x2 x3 x4 xs0 xs1).2.2.1, y ∈ pc.1.set :=
  View.cover_of_tiledL (kernelRun4_C c i arg1 harg1 arg2 harg2 arg3 harg3 arg4 harg4 arg5 harg5 arg6 harg6 arg7 harg7 arg8 harg8 arg9 harg9 arg10 harg10 hc0 hc1 x0 x1 x2 x3 x4 xs0 xs1).2.2.1 S1x128.size (by sl_kernel_rfl) y

/-- What case C leaves there: its pieces read back. -/
def out4_C_7 (c : Dev nD) (i : grid4.Coords) (arg1 : Memref sig .tc .vmem S5000x128 .f32) (harg1 : arg1.IsWhole) (arg2 : Memref sig .tc .vmem S128x128 .f32) (harg2 : arg2.IsWhole) (arg3 : Memref sig .tc .vmem S1x128 .f32) (harg3 : arg3.IsWhole) (arg4 : Memref sig .tc .vmem S128x128 .f32) (harg4 : arg4.IsWhole) (arg5 : Memref sig .tc .vmem S1x128 .f32) (harg5 : arg5.IsWhole) (arg6 : Memref sig .tc .vmem S5000x128 .f32) (harg6 : arg6.IsWhole) (arg7 : Memref sig .tc .vmem S1x128 .f32) (harg7 : arg7.IsWhole) (arg8 : Memref sig .tc .vmem S1x128 .f32) (harg8 : arg8.IsWhole) (arg9 : Memref sig .tc .vmem S1x128 .f32) (harg9 : arg9.IsWhole) (arg10 : Memref sig .tc .vmem S1x128 .f32) (harg10 : arg10.IsWhole) (hc0 : ¬cond4_0 i) (hc1 : cond4_1 i)
    (x0 : Vec F S5000x128 .f32) (x1 : Vec F S128x128 .f32) (x2 : Vec F S1x128 .f32) (x3 : Vec F S128x128 .f32) (x4 : Vec F S1x128 .f32) (xs0 : Vec F S1x128 .f32) (xs1 : Vec F S1x128 .f32) : Vec F S1x128 .f32 :=
  VO4_7.read (Elt F) (VO4_7.writes (Elt F) VO4_7.junk (kernelRun4_C c i arg1 harg1 arg2 harg2 arg3 harg3 arg4 harg4 arg5 harg5 arg6 harg6 arg7 harg7 arg8 harg8 arg9 harg9 arg10 harg10 hc0 hc1 x0 x1 x2 x3 x4 xs0 xs1).2.2.1)

/-- Case C's pieces for running-sum row 0 cover it (one whole-rectangle store). -/
theorem scover4_C_0 (c : Dev nD) (i : grid4.Coords) (arg1 : Memref sig .tc .vmem S5000x128 .f32) (harg1 : arg1.IsWhole) (arg2 : Memref sig .tc .vmem S128x128 .f32) (harg2 : arg2.IsWhole) (arg3 : Memref sig .tc .vmem S1x128 .f32) (harg3 : arg3.IsWhole) (arg4 : Memref sig .tc .vmem S128x128 .f32) (harg4 : arg4.IsWhole) (arg5 : Memref sig .tc .vmem S1x128 .f32) (harg5 : arg5.IsWhole) (arg6 : Memref sig .tc .vmem S5000x128 .f32) (harg6 : arg6.IsWhole) (arg7 : Memref sig .tc .vmem S1x128 .f32) (harg7 : arg7.IsWhole) (arg8 : Memref sig .tc .vmem S1x128 .f32) (harg8 : arg8.IsWhole) (arg9 : Memref sig .tc .vmem S1x128 .f32) (harg9 : arg9.IsWhole) (arg10 : Memref sig .tc .vmem S1x128 .f32) (harg10 : arg10.IsWhole) (hc0 : ¬cond4_0 i) (hc1 : cond4_1 i)
    (x0 : Vec F S5000x128 .f32) (x1 : Vec F S128x128 .f32) (x2 : Vec F S1x128 .f32) (x3 : Vec F S128x128 .f32) (x4 : Vec F S1x128 .f32) (xs0 : Vec F S1x128 .f32) (xs1 : Vec F S1x128 .f32) (y : S1x128.Idx) :
    ∃ pc ∈ (kernelRun4_C c i arg1 harg1 arg2 harg2 arg3 harg3 arg4 harg4 arg5 harg5 arg6 harg6 arg7 harg7 arg8 harg8 arg9 harg9 arg10 harg10 hc0 hc1 x0 x1 x2 x3 x4 xs0 xs1).2.2.2.1, y ∈ pc.1.set :=
  View.cover_of_tiledL (kernelRun4_C c i arg1 harg1 arg2 harg2 arg3 harg3 arg4 harg4 arg5 harg5 arg6 harg6 arg7 harg7 arg8 harg8 arg9 harg9 arg10 harg10 hc0 hc1 x0 x1 x2 x3 x4 xs0 xs1).2.2.2.1 S1x128.size (by sl_kernel_rfl) y

/-- What case C leaves there: its pieces read back. -/
def sout4_C_0 (c : Dev nD) (i : grid4.Coords) (arg1 : Memref sig .tc .vmem S5000x128 .f32) (harg1 : arg1.IsWhole) (arg2 : Memref sig .tc .vmem S128x128 .f32) (harg2 : arg2.IsWhole) (arg3 : Memref sig .tc .vmem S1x128 .f32) (harg3 : arg3.IsWhole) (arg4 : Memref sig .tc .vmem S128x128 .f32) (harg4 : arg4.IsWhole) (arg5 : Memref sig .tc .vmem S1x128 .f32) (harg5 : arg5.IsWhole) (arg6 : Memref sig .tc .vmem S5000x128 .f32) (harg6 : arg6.IsWhole) (arg7 : Memref sig .tc .vmem S1x128 .f32) (harg7 : arg7.IsWhole) (arg8 : Memref sig .tc .vmem S1x128 .f32) (harg8 : arg8.IsWhole) (arg9 : Memref sig .tc .vmem S1x128 .f32) (harg9 : arg9.IsWhole) (arg10 : Memref sig .tc .vmem S1x128 .f32) (harg10 : arg10.IsWhole) (hc0 : ¬cond4_0 i) (hc1 : cond4_1 i)
    (x0 : Vec F S5000x128 .f32) (x1 : Vec F S128x128 .f32) (x2 : Vec F S1x128 .f32) (x3 : Vec F S128x128 .f32) (x4 : Vec F S1x128 .f32) (xs0 : Vec F S1x128 .f32) (xs1 : Vec F S1x128 .f32) : Vec F S1x128 .f32 :=
  VS4_0.read (Elt F) (VS4_0.writes (Elt F) VS4_0.junk (kernelRun4_C c i arg1 harg1 arg2 harg2 arg3 harg3 arg4 harg4 arg5 harg5 arg6 harg6 arg7 harg7 arg8 harg8 arg9 harg9 arg10 harg10 hc0 hc1 x0 x1 x2 x3 x4 xs0 xs1).2.2.2.1)

/-- Case C's pieces for running-sum row 1 cover it (one whole-rectangle store). -/
theorem scover4_C_1 (c : Dev nD) (i : grid4.Coords) (arg1 : Memref sig .tc .vmem S5000x128 .f32) (harg1 : arg1.IsWhole) (arg2 : Memref sig .tc .vmem S128x128 .f32) (harg2 : arg2.IsWhole) (arg3 : Memref sig .tc .vmem S1x128 .f32) (harg3 : arg3.IsWhole) (arg4 : Memref sig .tc .vmem S128x128 .f32) (harg4 : arg4.IsWhole) (arg5 : Memref sig .tc .vmem S1x128 .f32) (harg5 : arg5.IsWhole) (arg6 : Memref sig .tc .vmem S5000x128 .f32) (harg6 : arg6.IsWhole) (arg7 : Memref sig .tc .vmem S1x128 .f32) (harg7 : arg7.IsWhole) (arg8 : Memref sig .tc .vmem S1x128 .f32) (harg8 : arg8.IsWhole) (arg9 : Memref sig .tc .vmem S1x128 .f32) (harg9 : arg9.IsWhole) (arg10 : Memref sig .tc .vmem S1x128 .f32) (harg10 : arg10.IsWhole) (hc0 : ¬cond4_0 i) (hc1 : cond4_1 i)
    (x0 : Vec F S5000x128 .f32) (x1 : Vec F S128x128 .f32) (x2 : Vec F S1x128 .f32) (x3 : Vec F S128x128 .f32) (x4 : Vec F S1x128 .f32) (xs0 : Vec F S1x128 .f32) (xs1 : Vec F S1x128 .f32) (y : S1x128.Idx) :
    ∃ pc ∈ (kernelRun4_C c i arg1 harg1 arg2 harg2 arg3 harg3 arg4 harg4 arg5 harg5 arg6 harg6 arg7 harg7 arg8 harg8 arg9 harg9 arg10 harg10 hc0 hc1 x0 x1 x2 x3 x4 xs0 xs1).2.2.2.2.1, y ∈ pc.1.set :=
  View.cover_of_tiledL (kernelRun4_C c i arg1 harg1 arg2 harg2 arg3 harg3 arg4 harg4 arg5 harg5 arg6 harg6 arg7 harg7 arg8 harg8 arg9 harg9 arg10 harg10 hc0 hc1 x0 x1 x2 x3 x4 xs0 xs1).2.2.2.2.1 S1x128.size (by sl_kernel_rfl) y

/-- What case C leaves there: its pieces read back. -/
def sout4_C_1 (c : Dev nD) (i : grid4.Coords) (arg1 : Memref sig .tc .vmem S5000x128 .f32) (harg1 : arg1.IsWhole) (arg2 : Memref sig .tc .vmem S128x128 .f32) (harg2 : arg2.IsWhole) (arg3 : Memref sig .tc .vmem S1x128 .f32) (harg3 : arg3.IsWhole) (arg4 : Memref sig .tc .vmem S128x128 .f32) (harg4 : arg4.IsWhole) (arg5 : Memref sig .tc .vmem S1x128 .f32) (harg5 : arg5.IsWhole) (arg6 : Memref sig .tc .vmem S5000x128 .f32) (harg6 : arg6.IsWhole) (arg7 : Memref sig .tc .vmem S1x128 .f32) (harg7 : arg7.IsWhole) (arg8 : Memref sig .tc .vmem S1x128 .f32) (harg8 : arg8.IsWhole) (arg9 : Memref sig .tc .vmem S1x128 .f32) (harg9 : arg9.IsWhole) (arg10 : Memref sig .tc .vmem S1x128 .f32) (harg10 : arg10.IsWhole) (hc0 : ¬cond4_0 i) (hc1 : cond4_1 i)
    (x0 : Vec F S5000x128 .f32) (x1 : Vec F S128x128 .f32) (x2 : Vec F S1x128 .f32) (x3 : Vec F S128x128 .f32) (x4 : Vec F S1x128 .f32) (xs0 : Vec F S1x128 .f32) (xs1 : Vec F S1x128 .f32) : Vec F S1x128 .f32 :=
  VS4_1.read (Elt F) (VS4_1.writes (Elt F) VS4_1.junk (kernelRun4_C c i arg1 harg1 arg2 harg2 arg3 harg3 arg4 harg4 arg5 harg5 arg6 harg6 arg7 harg7 arg8 harg8 arg9 harg9 arg10 harg10 hc0 hc1 x0 x1 x2 x3 x4 xs0 xs1).2.2.2.2.1)

/-- THE ACCUMULATION. What the three outputs' staging buffers and the two running-sum rows hold after the body at position `n`
    (a tuple: z's block, the two [1,128] outputs, then the two rows): the first point's case zeroes the rows first; every later
    point runs on the rows as the point before left them; the last point also copies them out. The two [1,128] outputs are idle
    before the last point: their component there is a placeholder nothing consults. -/
def outsAt4 (c : Dev nD) : (n : ℕ) → n < cfg4.N → Vec F S5000x128 .f32 × Vec F S1x128 .f32 × Vec F S1x128 .f32 × Vec F S1x128 .f32 × Vec F S1x128 .f32
  | 0, hn => (out4_A_5 c (grid4.coords ⟨0, hn⟩) (ms4_0 ⟨0, hn⟩) (hs4_0 ⟨0, hn⟩) (ms4_1 ⟨0, hn⟩) (hs4_1 ⟨0, hn⟩) (ms4_2 ⟨0, hn⟩) (hs4_2 ⟨0, hn⟩) (ms4_3 ⟨0, hn⟩) (hs4_3 ⟨0, hn⟩) (ms4_4 ⟨0, hn⟩) (hs4_4 ⟨0, hn⟩) (ms4_5 ⟨0, hn⟩) (hs4_5 ⟨0, hn⟩) (ms4_6 ⟨0, hn⟩) (hs4_6 ⟨0, hn⟩) (ms4_7 ⟨0, hn⟩) (hs4_7 ⟨0, hn⟩) scM4_0 (Memref.isWhole_whole _) scM4_1 (Memref.isWhole_whole _) ((hcond4_0 ⟨0, hn⟩).mpr (Nat.zero_mod _)) (fun h => (fun h => by (try dsimp only at h); omega) ((hcond4_1 ⟨0, hn⟩).mp h)) (iblk4 V c 0 ⟨0, hn⟩) (iblk4 V c 1 ⟨0, hn⟩) (iblk4 V c 2 ⟨0, hn⟩) (iblk4 V c 3 ⟨0, hn⟩) (iblk4 V c 4 ⟨0, hn⟩),
      VO4_6.read (Elt F) VO4_6.junk,
      VO4_7.read (Elt F) VO4_7.junk,
      sout4_A_0 c (grid4.coords ⟨0, hn⟩) (ms4_0 ⟨0, hn⟩) (hs4_0 ⟨0, hn⟩) (ms4_1 ⟨0, hn⟩) (hs4_1 ⟨0, hn⟩) (ms4_2 ⟨0, hn⟩) (hs4_2 ⟨0, hn⟩) (ms4_3 ⟨0, hn⟩) (hs4_3 ⟨0, hn⟩) (ms4_4 ⟨0, hn⟩) (hs4_4 ⟨0, hn⟩) (ms4_5 ⟨0, hn⟩) (hs4_5 ⟨0, hn⟩) (ms4_6 ⟨0, hn⟩) (hs4_6 ⟨0, hn⟩) (ms4_7 ⟨0, hn⟩) (hs4_7 ⟨0, hn⟩) scM4_0 (Memref.isWhole_whole _) scM4_1 (Memref.isWhole_whole _) ((hcond4_0 ⟨0, hn⟩).mpr (Nat.zero_mod _)) (fun h => (fun h => by (try dsimp only at h); omega) ((hcond4_1 ⟨0, hn⟩).mp h)) (iblk4 V c 0 ⟨0, hn⟩) (iblk4 V c 1 ⟨0, hn⟩) (iblk4 V c 2 ⟨0, hn⟩) (iblk4 V c 3 ⟨0, hn⟩) (iblk4 V c 4 ⟨0, hn⟩),
      sout4_A_1 c (grid4.coords ⟨0, hn⟩) (ms4_0 ⟨0, hn⟩) (hs4_0 ⟨0, hn⟩) (ms4_1 ⟨0, hn⟩) (hs4_1 ⟨0, hn⟩) (ms4_2 ⟨0, hn⟩) (hs4_2 ⟨0, hn⟩) (ms4_3 ⟨0, hn⟩) (hs4_3 ⟨0, hn⟩) (ms4_4 ⟨0, hn⟩) (hs4_4 ⟨0, hn⟩) (ms4_5 ⟨0, hn⟩) (hs4_5 ⟨0, hn⟩) (ms4_6 ⟨0, hn⟩) (hs4_6 ⟨0, hn⟩) (ms4_7 ⟨0, hn⟩) (hs4_7 ⟨0, hn⟩) scM4_0 (Memref.isWhole_whole _) scM4_1 (Memref.isWhole_whole _) ((hcond4_0 ⟨0, hn⟩).mpr (Nat.zero_mod _)) (fun h => (fun h => by (try dsimp only at h); omega) ((hcond4_1 ⟨0, hn⟩).mp h)) (iblk4 V c 0 ⟨0, hn⟩) (iblk4 V c 1 ⟨0, hn⟩) (iblk4 V c 2 ⟨0, hn⟩) (iblk4 V c 3 ⟨0, hn⟩) (iblk4 V c 4 ⟨0, hn⟩))
  | n + 1, hn =>
    if h1 : (n + 1) % 20 = 19 then
      (out4_C_5 c (grid4.coords ⟨n + 1, hn⟩) (ms4_0 ⟨n + 1, hn⟩) (hs4_0 ⟨n + 1, hn⟩) (ms4_1 ⟨n + 1, hn⟩) (hs4_1 ⟨n + 1, hn⟩) (ms4_2 ⟨n + 1, hn⟩) (hs4_2 ⟨n + 1, hn⟩) (ms4_3 ⟨n + 1, hn⟩) (hs4_3 ⟨n + 1, hn⟩) (ms4_4 ⟨n + 1, hn⟩) (hs4_4 ⟨n + 1, hn⟩) (ms4_5 ⟨n + 1, hn⟩) (hs4_5 ⟨n + 1, hn⟩) (ms4_6 ⟨n + 1, hn⟩) (hs4_6 ⟨n + 1, hn⟩) (ms4_7 ⟨n + 1, hn⟩) (hs4_7 ⟨n + 1, hn⟩) scM4_0 (Memref.isWhole_whole _) scM4_1 (Memref.isWhole_whole _) (fun h => (by have hN : n + 1 < 20 := lt_of_lt_of_eq hn (show cfg4.N = 20 from N_4); omega : ¬(n + 1) % 20 = 0) ((hcond4_0 ⟨n + 1, hn⟩).mp h)) ((hcond4_1 ⟨n + 1, hn⟩).mpr h1) (iblk4 V c 0 ⟨n + 1, hn⟩) (iblk4 V c 1 ⟨n + 1, hn⟩) (iblk4 V c 2 ⟨n + 1, hn⟩) (iblk4 V c 3 ⟨n + 1, hn⟩) (iblk4 V c 4 ⟨n + 1, hn⟩) (outsAt4 c n (Nat.lt_of_succ_lt hn)).2.2.2.1 (outsAt4 c n (Nat.lt_of_succ_lt hn)).2.2.2.2,
      out4_C_6 c (grid4.coords ⟨n + 1, hn⟩) (ms4_0 ⟨n + 1, hn⟩) (hs4_0 ⟨n + 1, hn⟩) (ms4_1 ⟨n + 1, hn⟩) (hs4_1 ⟨n + 1, hn⟩) (ms4_2 ⟨n + 1, hn⟩) (hs4_2 ⟨n + 1, hn⟩) (ms4_3 ⟨n + 1, hn⟩) (hs4_3 ⟨n + 1, hn⟩) (ms4_4 ⟨n + 1, hn⟩) (hs4_4 ⟨n + 1, hn⟩) (ms4_5 ⟨n + 1, hn⟩) (hs4_5 ⟨n + 1, hn⟩) (ms4_6 ⟨n + 1, hn⟩) (hs4_6 ⟨n + 1, hn⟩) (ms4_7 ⟨n + 1, hn⟩) (hs4_7 ⟨n + 1, hn⟩) scM4_0 (Memref.isWhole_whole _) scM4_1 (Memref.isWhole_whole _) (fun h => (by have hN : n + 1 < 20 := lt_of_lt_of_eq hn (show cfg4.N = 20 from N_4); omega : ¬(n + 1) % 20 = 0) ((hcond4_0 ⟨n + 1, hn⟩).mp h)) ((hcond4_1 ⟨n + 1, hn⟩).mpr h1) (iblk4 V c 0 ⟨n + 1, hn⟩) (iblk4 V c 1 ⟨n + 1, hn⟩) (iblk4 V c 2 ⟨n + 1, hn⟩) (iblk4 V c 3 ⟨n + 1, hn⟩) (iblk4 V c 4 ⟨n + 1, hn⟩) (outsAt4 c n (Nat.lt_of_succ_lt hn)).2.2.2.1 (outsAt4 c n (Nat.lt_of_succ_lt hn)).2.2.2.2,
      out4_C_7 c (grid4.coords ⟨n + 1, hn⟩) (ms4_0 ⟨n + 1, hn⟩) (hs4_0 ⟨n + 1, hn⟩) (ms4_1 ⟨n + 1, hn⟩) (hs4_1 ⟨n + 1, hn⟩) (ms4_2 ⟨n + 1, hn⟩) (hs4_2 ⟨n + 1, hn⟩) (ms4_3 ⟨n + 1, hn⟩) (hs4_3 ⟨n + 1, hn⟩) (ms4_4 ⟨n + 1, hn⟩) (hs4_4 ⟨n + 1, hn⟩) (ms4_5 ⟨n + 1, hn⟩) (hs4_5 ⟨n + 1, hn⟩) (ms4_6 ⟨n + 1, hn⟩) (hs4_6 ⟨n + 1, hn⟩) (ms4_7 ⟨n + 1, hn⟩) (hs4_7 ⟨n + 1, hn⟩) scM4_0 (Memref.isWhole_whole _) scM4_1 (Memref.isWhole_whole _) (fun h => (by have hN : n + 1 < 20 := lt_of_lt_of_eq hn (show cfg4.N = 20 from N_4); omega : ¬(n + 1) % 20 = 0) ((hcond4_0 ⟨n + 1, hn⟩).mp h)) ((hcond4_1 ⟨n + 1, hn⟩).mpr h1) (iblk4 V c 0 ⟨n + 1, hn⟩) (iblk4 V c 1 ⟨n + 1, hn⟩) (iblk4 V c 2 ⟨n + 1, hn⟩) (iblk4 V c 3 ⟨n + 1, hn⟩) (iblk4 V c 4 ⟨n + 1, hn⟩) (outsAt4 c n (Nat.lt_of_succ_lt hn)).2.2.2.1 (outsAt4 c n (Nat.lt_of_succ_lt hn)).2.2.2.2,
      sout4_C_0 c (grid4.coords ⟨n + 1, hn⟩) (ms4_0 ⟨n + 1, hn⟩) (hs4_0 ⟨n + 1, hn⟩) (ms4_1 ⟨n + 1, hn⟩) (hs4_1 ⟨n + 1, hn⟩) (ms4_2 ⟨n + 1, hn⟩) (hs4_2 ⟨n + 1, hn⟩) (ms4_3 ⟨n + 1, hn⟩) (hs4_3 ⟨n + 1, hn⟩) (ms4_4 ⟨n + 1, hn⟩) (hs4_4 ⟨n + 1, hn⟩) (ms4_5 ⟨n + 1, hn⟩) (hs4_5 ⟨n + 1, hn⟩) (ms4_6 ⟨n + 1, hn⟩) (hs4_6 ⟨n + 1, hn⟩) (ms4_7 ⟨n + 1, hn⟩) (hs4_7 ⟨n + 1, hn⟩) scM4_0 (Memref.isWhole_whole _) scM4_1 (Memref.isWhole_whole _) (fun h => (by have hN : n + 1 < 20 := lt_of_lt_of_eq hn (show cfg4.N = 20 from N_4); omega : ¬(n + 1) % 20 = 0) ((hcond4_0 ⟨n + 1, hn⟩).mp h)) ((hcond4_1 ⟨n + 1, hn⟩).mpr h1) (iblk4 V c 0 ⟨n + 1, hn⟩) (iblk4 V c 1 ⟨n + 1, hn⟩) (iblk4 V c 2 ⟨n + 1, hn⟩) (iblk4 V c 3 ⟨n + 1, hn⟩) (iblk4 V c 4 ⟨n + 1, hn⟩) (outsAt4 c n (Nat.lt_of_succ_lt hn)).2.2.2.1 (outsAt4 c n (Nat.lt_of_succ_lt hn)).2.2.2.2,
      sout4_C_1 c (grid4.coords ⟨n + 1, hn⟩) (ms4_0 ⟨n + 1, hn⟩) (hs4_0 ⟨n + 1, hn⟩) (ms4_1 ⟨n + 1, hn⟩) (hs4_1 ⟨n + 1, hn⟩) (ms4_2 ⟨n + 1, hn⟩) (hs4_2 ⟨n + 1, hn⟩) (ms4_3 ⟨n + 1, hn⟩) (hs4_3 ⟨n + 1, hn⟩) (ms4_4 ⟨n + 1, hn⟩) (hs4_4 ⟨n + 1, hn⟩) (ms4_5 ⟨n + 1, hn⟩) (hs4_5 ⟨n + 1, hn⟩) (ms4_6 ⟨n + 1, hn⟩) (hs4_6 ⟨n + 1, hn⟩) (ms4_7 ⟨n + 1, hn⟩) (hs4_7 ⟨n + 1, hn⟩) scM4_0 (Memref.isWhole_whole _) scM4_1 (Memref.isWhole_whole _) (fun h => (by have hN : n + 1 < 20 := lt_of_lt_of_eq hn (show cfg4.N = 20 from N_4); omega : ¬(n + 1) % 20 = 0) ((hcond4_0 ⟨n + 1, hn⟩).mp h)) ((hcond4_1 ⟨n + 1, hn⟩).mpr h1) (iblk4 V c 0 ⟨n + 1, hn⟩) (iblk4 V c 1 ⟨n + 1, hn⟩) (iblk4 V c 2 ⟨n + 1, hn⟩) (iblk4 V c 3 ⟨n + 1, hn⟩) (iblk4 V c 4 ⟨n + 1, hn⟩) (outsAt4 c n (Nat.lt_of_succ_lt hn)).2.2.2.1 (outsAt4 c n (Nat.lt_of_succ_lt hn)).2.2.2.2)
    else
      (out4_B_5 c (grid4.coords ⟨n + 1, hn⟩) (ms4_0 ⟨n + 1, hn⟩) (hs4_0 ⟨n + 1, hn⟩) (ms4_1 ⟨n + 1, hn⟩) (hs4_1 ⟨n + 1, hn⟩) (ms4_2 ⟨n + 1, hn⟩) (hs4_2 ⟨n + 1, hn⟩) (ms4_3 ⟨n + 1, hn⟩) (hs4_3 ⟨n + 1, hn⟩) (ms4_4 ⟨n + 1, hn⟩) (hs4_4 ⟨n + 1, hn⟩) (ms4_5 ⟨n + 1, hn⟩) (hs4_5 ⟨n + 1, hn⟩) (ms4_6 ⟨n + 1, hn⟩) (hs4_6 ⟨n + 1, hn⟩) (ms4_7 ⟨n + 1, hn⟩) (hs4_7 ⟨n + 1, hn⟩) scM4_0 (Memref.isWhole_whole _) scM4_1 (Memref.isWhole_whole _) (fun h => (by have hN : n + 1 < 20 := lt_of_lt_of_eq hn (show cfg4.N = 20 from N_4); omega : ¬(n + 1) % 20 = 0) ((hcond4_0 ⟨n + 1, hn⟩).mp h)) (fun h => h1 ((hcond4_1 ⟨n + 1, hn⟩).mp h)) (iblk4 V c 0 ⟨n + 1, hn⟩) (iblk4 V c 1 ⟨n + 1, hn⟩) (iblk4 V c 2 ⟨n + 1, hn⟩) (iblk4 V c 3 ⟨n + 1, hn⟩) (iblk4 V c 4 ⟨n + 1, hn⟩) (outsAt4 c n (Nat.lt_of_succ_lt hn)).2.2.2.1 (outsAt4 c n (Nat.lt_of_succ_lt hn)).2.2.2.2,
      VO4_6.read (Elt F) VO4_6.junk,
      VO4_7.read (Elt F) VO4_7.junk,
      sout4_B_0 c (grid4.coords ⟨n + 1, hn⟩) (ms4_0 ⟨n + 1, hn⟩) (hs4_0 ⟨n + 1, hn⟩) (ms4_1 ⟨n + 1, hn⟩) (hs4_1 ⟨n + 1, hn⟩) (ms4_2 ⟨n + 1, hn⟩) (hs4_2 ⟨n + 1, hn⟩) (ms4_3 ⟨n + 1, hn⟩) (hs4_3 ⟨n + 1, hn⟩) (ms4_4 ⟨n + 1, hn⟩) (hs4_4 ⟨n + 1, hn⟩) (ms4_5 ⟨n + 1, hn⟩) (hs4_5 ⟨n + 1, hn⟩) (ms4_6 ⟨n + 1, hn⟩) (hs4_6 ⟨n + 1, hn⟩) (ms4_7 ⟨n + 1, hn⟩) (hs4_7 ⟨n + 1, hn⟩) scM4_0 (Memref.isWhole_whole _) scM4_1 (Memref.isWhole_whole _) (fun h => (by have hN : n + 1 < 20 := lt_of_lt_of_eq hn (show cfg4.N = 20 from N_4); omega : ¬(n + 1) % 20 = 0) ((hcond4_0 ⟨n + 1, hn⟩).mp h)) (fun h => h1 ((hcond4_1 ⟨n + 1, hn⟩).mp h)) (iblk4 V c 0 ⟨n + 1, hn⟩) (iblk4 V c 1 ⟨n + 1, hn⟩) (iblk4 V c 2 ⟨n + 1, hn⟩) (iblk4 V c 3 ⟨n + 1, hn⟩) (iblk4 V c 4 ⟨n + 1, hn⟩) (outsAt4 c n (Nat.lt_of_succ_lt hn)).2.2.2.1 (outsAt4 c n (Nat.lt_of_succ_lt hn)).2.2.2.2,
      sout4_B_1 c (grid4.coords ⟨n + 1, hn⟩) (ms4_0 ⟨n + 1, hn⟩) (hs4_0 ⟨n + 1, hn⟩) (ms4_1 ⟨n + 1, hn⟩) (hs4_1 ⟨n + 1, hn⟩) (ms4_2 ⟨n + 1, hn⟩) (hs4_2 ⟨n + 1, hn⟩) (ms4_3 ⟨n + 1, hn⟩) (hs4_3 ⟨n + 1, hn⟩) (ms4_4 ⟨n + 1, hn⟩) (hs4_4 ⟨n + 1, hn⟩) (ms4_5 ⟨n + 1, hn⟩) (hs4_5 ⟨n + 1, hn⟩) (ms4_6 ⟨n + 1, hn⟩) (hs4_6 ⟨n + 1, hn⟩) (ms4_7 ⟨n + 1, hn⟩) (hs4_7 ⟨n + 1, hn⟩) scM4_0 (Memref.isWhole_whole _) scM4_1 (Memref.isWhole_whole _) (fun h => (by have hN : n + 1 < 20 := lt_of_lt_of_eq hn (show cfg4.N = 20 from N_4); omega : ¬(n + 1) % 20 = 0) ((hcond4_0 ⟨n + 1, hn⟩).mp h)) (fun h => h1 ((hcond4_1 ⟨n + 1, hn⟩).mp h)) (iblk4 V c 0 ⟨n + 1, hn⟩) (iblk4 V c 1 ⟨n + 1, hn⟩) (iblk4 V c 2 ⟨n + 1, hn⟩) (iblk4 V c 3 ⟨n + 1, hn⟩) (iblk4 V c 4 ⟨n + 1, hn⟩) (outsAt4 c n (Nat.lt_of_succ_lt hn)).2.2.2.1 (outsAt4 c n (Nat.lt_of_succ_lt hn)).2.2.2.2)

/-- `outsAt4` at the first point. -/
theorem outsAt4_A (c : Dev nD) (t : Fin cfg4.N) (h0 : t.val % 20 = 0) (h1 : ¬t.val % 20 = 19) :
    outsAt4 V c t.val t.isLt = (out4_A_5 c (grid4.coords t) (ms4_0 t) (hs4_0 t) (ms4_1 t) (hs4_1 t) (ms4_2 t) (hs4_2 t) (ms4_3 t) (hs4_3 t) (ms4_4 t) (hs4_4 t) (ms4_5 t) (hs4_5 t) (ms4_6 t) (hs4_6 t) (ms4_7 t) (hs4_7 t) scM4_0 (Memref.isWhole_whole _) scM4_1 (Memref.isWhole_whole _) ((hcond4_0 t).mpr h0) (fun h => h1 ((hcond4_1 t).mp h)) (iblk4 V c 0 t) (iblk4 V c 1 t) (iblk4 V c 2 t) (iblk4 V c 3 t) (iblk4 V c 4 t),
      VO4_6.read (Elt F) VO4_6.junk,
      VO4_7.read (Elt F) VO4_7.junk,
      sout4_A_0 c (grid4.coords t) (ms4_0 t) (hs4_0 t) (ms4_1 t) (hs4_1 t) (ms4_2 t) (hs4_2 t) (ms4_3 t) (hs4_3 t) (ms4_4 t) (hs4_4 t) (ms4_5 t) (hs4_5 t) (ms4_6 t) (hs4_6 t) (ms4_7 t) (hs4_7 t) scM4_0 (Memref.isWhole_whole _) scM4_1 (Memref.isWhole_whole _) ((hcond4_0 t).mpr h0) (fun h => h1 ((hcond4_1 t).mp h)) (iblk4 V c 0 t) (iblk4 V c 1 t) (iblk4 V c 2 t) (iblk4 V c 3 t) (iblk4 V c 4 t),
      sout4_A_1 c (grid4.coords t) (ms4_0 t) (hs4_0 t) (ms4_1 t) (hs4_1 t) (ms4_2 t) (hs4_2 t) (ms4_3 t) (hs4_3 t) (ms4_4 t) (hs4_4 t) (ms4_5 t) (hs4_5 t) (ms4_6 t) (hs4_6 t) (ms4_7 t) (hs4_7 t) scM4_0 (Memref.isWhole_whole _) scM4_1 (Memref.isWhole_whole _) ((hcond4_0 t).mpr h0) (fun h => h1 ((hcond4_1 t).mp h)) (iblk4 V c 0 t) (iblk4 V c 1 t) (iblk4 V c 2 t) (iblk4 V c 3 t) (iblk4 V c 4 t)) := by
  obtain ⟨n, hn⟩ := t
  cases n with
  | zero => exact rfl
  | succ n => exact (by exfalso; have hN : n + 1 < 20 := lt_of_lt_of_eq hn (show cfg4.N = 20 from N_4); (try dsimp only at h0); omega)

/-- `outsAt4` at a middle point: that case's contents, over what the point before left. -/
theorem outsAt4_B (c : Dev nD) (t : Fin cfg4.N) (h0 : ¬t.val % 20 = 0) (h1 : ¬t.val % 20 = 19) :
    outsAt4 V c t.val t.isLt = (out4_B_5 c (grid4.coords t) (ms4_0 t) (hs4_0 t) (ms4_1 t) (hs4_1 t) (ms4_2 t) (hs4_2 t) (ms4_3 t) (hs4_3 t) (ms4_4 t) (hs4_4 t) (ms4_5 t) (hs4_5 t) (ms4_6 t) (hs4_6 t) (ms4_7 t) (hs4_7 t) scM4_0 (Memref.isWhole_whole _) scM4_1 (Memref.isWhole_whole _) (fun h => h0 ((hcond4_0 t).mp h)) (fun h => h1 ((hcond4_1 t).mp h)) (iblk4 V c 0 t) (iblk4 V c 1 t) (iblk4 V c 2 t) (iblk4 V c 3 t) (iblk4 V c 4 t) (outsAt4 V c (t.val - 1) (Nat.lt_of_le_of_lt (Nat.sub_le _ _) t.isLt)).2.2.2.1 (outsAt4 V c (t.val - 1) (Nat.lt_of_le_of_lt (Nat.sub_le _ _) t.isLt)).2.2.2.2,
      VO4_6.read (Elt F) VO4_6.junk,
      VO4_7.read (Elt F) VO4_7.junk,
      sout4_B_0 c (grid4.coords t) (ms4_0 t) (hs4_0 t) (ms4_1 t) (hs4_1 t) (ms4_2 t) (hs4_2 t) (ms4_3 t) (hs4_3 t) (ms4_4 t) (hs4_4 t) (ms4_5 t) (hs4_5 t) (ms4_6 t) (hs4_6 t) (ms4_7 t) (hs4_7 t) scM4_0 (Memref.isWhole_whole _) scM4_1 (Memref.isWhole_whole _) (fun h => h0 ((hcond4_0 t).mp h)) (fun h => h1 ((hcond4_1 t).mp h)) (iblk4 V c 0 t) (iblk4 V c 1 t) (iblk4 V c 2 t) (iblk4 V c 3 t) (iblk4 V c 4 t) (outsAt4 V c (t.val - 1) (Nat.lt_of_le_of_lt (Nat.sub_le _ _) t.isLt)).2.2.2.1 (outsAt4 V c (t.val - 1) (Nat.lt_of_le_of_lt (Nat.sub_le _ _) t.isLt)).2.2.2.2,
      sout4_B_1 c (grid4.coords t) (ms4_0 t) (hs4_0 t) (ms4_1 t) (hs4_1 t) (ms4_2 t) (hs4_2 t) (ms4_3 t) (hs4_3 t) (ms4_4 t) (hs4_4 t) (ms4_5 t) (hs4_5 t) (ms4_6 t) (hs4_6 t) (ms4_7 t) (hs4_7 t) scM4_0 (Memref.isWhole_whole _) scM4_1 (Memref.isWhole_whole _) (fun h => h0 ((hcond4_0 t).mp h)) (fun h => h1 ((hcond4_1 t).mp h)) (iblk4 V c 0 t) (iblk4 V c 1 t) (iblk4 V c 2 t) (iblk4 V c 3 t) (iblk4 V c 4 t) (outsAt4 V c (t.val - 1) (Nat.lt_of_le_of_lt (Nat.sub_le _ _) t.isLt)).2.2.2.1 (outsAt4 V c (t.val - 1) (Nat.lt_of_le_of_lt (Nat.sub_le _ _) t.isLt)).2.2.2.2) := by
  obtain ⟨n, hn⟩ := t
  cases n with
  | zero => exact (by exfalso; (try dsimp only at h0); exact absurd (Nat.zero_mod _) h0)
  | succ n => exact (dif_neg h1).trans rfl

/-- `outsAt4` at the last point. -/
theorem outsAt4_C (c : Dev nD) (t : Fin cfg4.N) (h0 : ¬t.val % 20 = 0) (h1 : t.val % 20 = 19) :
    outsAt4 V c t.val t.isLt = (out4_C_5 c (grid4.coords t) (ms4_0 t) (hs4_0 t) (ms4_1 t) (hs4_1 t) (ms4_2 t) (hs4_2 t) (ms4_3 t) (hs4_3 t) (ms4_4 t) (hs4_4 t) (ms4_5 t) (hs4_5 t) (ms4_6 t) (hs4_6 t) (ms4_7 t) (hs4_7 t) scM4_0 (Memref.isWhole_whole _) scM4_1 (Memref.isWhole_whole _) (fun h => h0 ((hcond4_0 t).mp h)) ((hcond4_1 t).mpr h1) (iblk4 V c 0 t) (iblk4 V c 1 t) (iblk4 V c 2 t) (iblk4 V c 3 t) (iblk4 V c 4 t) (outsAt4 V c (t.val - 1) (Nat.lt_of_le_of_lt (Nat.sub_le _ _) t.isLt)).2.2.2.1 (outsAt4 V c (t.val - 1) (Nat.lt_of_le_of_lt (Nat.sub_le _ _) t.isLt)).2.2.2.2,
      out4_C_6 c (grid4.coords t) (ms4_0 t) (hs4_0 t) (ms4_1 t) (hs4_1 t) (ms4_2 t) (hs4_2 t) (ms4_3 t) (hs4_3 t) (ms4_4 t) (hs4_4 t) (ms4_5 t) (hs4_5 t) (ms4_6 t) (hs4_6 t) (ms4_7 t) (hs4_7 t) scM4_0 (Memref.isWhole_whole _) scM4_1 (Memref.isWhole_whole _) (fun h => h0 ((hcond4_0 t).mp h)) ((hcond4_1 t).mpr h1) (iblk4 V c 0 t) (iblk4 V c 1 t) (iblk4 V c 2 t) (iblk4 V c 3 t) (iblk4 V c 4 t) (outsAt4 V c (t.val - 1) (Nat.lt_of_le_of_lt (Nat.sub_le _ _) t.isLt)).2.2.2.1 (outsAt4 V c (t.val - 1) (Nat.lt_of_le_of_lt (Nat.sub_le _ _) t.isLt)).2.2.2.2,
      out4_C_7 c (grid4.coords t) (ms4_0 t) (hs4_0 t) (ms4_1 t) (hs4_1 t) (ms4_2 t) (hs4_2 t) (ms4_3 t) (hs4_3 t) (ms4_4 t) (hs4_4 t) (ms4_5 t) (hs4_5 t) (ms4_6 t) (hs4_6 t) (ms4_7 t) (hs4_7 t) scM4_0 (Memref.isWhole_whole _) scM4_1 (Memref.isWhole_whole _) (fun h => h0 ((hcond4_0 t).mp h)) ((hcond4_1 t).mpr h1) (iblk4 V c 0 t) (iblk4 V c 1 t) (iblk4 V c 2 t) (iblk4 V c 3 t) (iblk4 V c 4 t) (outsAt4 V c (t.val - 1) (Nat.lt_of_le_of_lt (Nat.sub_le _ _) t.isLt)).2.2.2.1 (outsAt4 V c (t.val - 1) (Nat.lt_of_le_of_lt (Nat.sub_le _ _) t.isLt)).2.2.2.2,
      sout4_C_0 c (grid4.coords t) (ms4_0 t) (hs4_0 t) (ms4_1 t) (hs4_1 t) (ms4_2 t) (hs4_2 t) (ms4_3 t) (hs4_3 t) (ms4_4 t) (hs4_4 t) (ms4_5 t) (hs4_5 t) (ms4_6 t) (hs4_6 t) (ms4_7 t) (hs4_7 t) scM4_0 (Memref.isWhole_whole _) scM4_1 (Memref.isWhole_whole _) (fun h => h0 ((hcond4_0 t).mp h)) ((hcond4_1 t).mpr h1) (iblk4 V c 0 t) (iblk4 V c 1 t) (iblk4 V c 2 t) (iblk4 V c 3 t) (iblk4 V c 4 t) (outsAt4 V c (t.val - 1) (Nat.lt_of_le_of_lt (Nat.sub_le _ _) t.isLt)).2.2.2.1 (outsAt4 V c (t.val - 1) (Nat.lt_of_le_of_lt (Nat.sub_le _ _) t.isLt)).2.2.2.2,
      sout4_C_1 c (grid4.coords t) (ms4_0 t) (hs4_0 t) (ms4_1 t) (hs4_1 t) (ms4_2 t) (hs4_2 t) (ms4_3 t) (hs4_3 t) (ms4_4 t) (hs4_4 t) (ms4_5 t) (hs4_5 t) (ms4_6 t) (hs4_6 t) (ms4_7 t) (hs4_7 t) scM4_0 (Memref.isWhole_whole _) scM4_1 (Memref.isWhole_whole _) (fun h => h0 ((hcond4_0 t).mp h)) ((hcond4_1 t).mpr h1) (iblk4 V c 0 t) (iblk4 V c 1 t) (iblk4 V c 2 t) (iblk4 V c 3 t) (iblk4 V c 4 t) (outsAt4 V c (t.val - 1) (Nat.lt_of_le_of_lt (Nat.sub_le _ _) t.isLt)).2.2.2.1 (outsAt4 V c (t.val - 1) (Nat.lt_of_le_of_lt (Nat.sub_le _ _) t.isLt)).2.2.2.2) := by
  obtain ⟨n, hn⟩ := t
  cases n with
  | zero => exact (by exfalso; (try dsimp only at h0); exact absurd (Nat.zero_mod _) h0)
  | succ n => exact (dif_pos h1).trans rfl

/-- The region invariant before position `n`: before the first point the class's (every scoped buffer at anything); afterwards the
    two running-sum rows at what the point before left in them, every other scoped buffer unopened at anything, and the generator
    register at some state. -/
def PhiS4 (c : Dev nD) : (n : ℕ) → n ≤ cfg4.N → sProp 𝕄
  | 0, _ => Pipeline.ΦA spec4 c
  | n + 1, hn => iprop(iprop(iprop(owns (c : Thread nD τ) scM4_0 fullShare (outsAt4 V c n hn).2.2.2.1 ∗ owns (c : Thread nD τ) scM4_1 fullShare (outsAt4 V c n hn).2.2.2.2) ∗ Pipeline.scopedRestBut (Ix := Unit) (Name := ℕ) (U := UR sig nD τ) (Lvl := ℕ) (Val := Elt F) spec4 c [cc4_scratch0, cc4_scratch1]) ∗ (∃ r, prngReg c r))

theorem PhiS4_zero (c : Dev nD) (n : ℕ) (h : n ≤ cfg4.N) (hz : n = 0) : PhiS4 V c n h = Pipeline.ΦA spec4 c := by
  subst hz; rfl

theorem PhiS4_succ (c : Dev nD) (n : ℕ) (hn : n < cfg4.N) :
    PhiS4 V c (n + 1) hn = iprop(iprop(iprop(owns (c : Thread nD τ) scM4_0 fullShare (outsAt4 V c n hn).2.2.2.1 ∗ owns (c : Thread nD τ) scM4_1 fullShare (outsAt4 V c n hn).2.2.2.2) ∗ Pipeline.scopedRestBut (Ix := Unit) (Name := ℕ) (U := UR sig nD τ) (Lvl := ℕ) (Val := Elt F) spec4 c [cc4_scratch0, cc4_scratch1]) ∗ (∃ r, prngReg c r)) := rfl

theorem PhiS4_pos (c : Dev nD) (n : ℕ) (h : n ≤ cfg4.N) (hz : n ≠ 0) :
    PhiS4 V c n h = iprop(iprop(iprop(owns (c : Thread nD τ) scM4_0 fullShare (outsAt4 V c (n - 1) (by omega)).2.2.2.1 ∗ owns (c : Thread nD τ) scM4_1 fullShare (outsAt4 V c (n - 1) (by omega)).2.2.2.2) ∗ Pipeline.scopedRestBut (Ix := Unit) (Name := ℕ) (U := UR sig nD τ) (Lvl := ℕ) (Val := Elt F) spec4 c [cc4_scratch0, cc4_scratch1]) ∗ (∃ r, prngReg c r)) := by
  cases n with
  | zero => exact absurd rfl hz
  | succ n => rfl

/-! ## The pipeline's proof data -/

/-- The proof data of region 4 on core `c`: the arrays as the region finds them; after the body at point `t` each input's buffer
    at its block and the outputs' at `outsAt4`; the invariant `PhiS4`; nothing owed; full shares. -/
def dat4 (c : Dev nD) : Dat τ (Elt F) Unit ℕ (UR sig nD τ) ℕ cfg4 c where
  A w := V c (Pipeline.arrRef spec4 w)
  after w t := match w with
    | ⟨0, _⟩ => iblk4 V c 0 t
    | ⟨1, _⟩ => iblk4 V c 1 t
    | ⟨2, _⟩ => iblk4 V c 2 t
    | ⟨3, _⟩ => iblk4 V c 3 t
    | ⟨4, _⟩ => iblk4 V c 4 t
    | ⟨5, _⟩ => (outsAt4 V c t.val t.isLt).1
    | ⟨6, _⟩ => (outsAt4 V c t.val t.isLt).2.1
    | ⟨7, _⟩ => (outsAt4 V c t.val t.isLt).2.2.1
  Φ t := PhiS4 V c t.val (Nat.le_of_lt_succ t.isLt)
  q _ := fullShare
  owed _ := 0

theorem A_eq4 (c : Dev nD) (w : Fin cfg4.W) : (dat4 V c).A w = V c (Pipeline.arrRef spec4 w) := by
  dsimp only [dat4]

theorem PhiS4_castSucc (c : Dev nD) (t : Fin cfg4.N) :
    (dat4 V c).Φ t.castSucc = PhiS4 V c t.val (Nat.le_of_lt t.isLt) := by
  dsimp only [dat4]; simp only [Fin.coe_castSucc]

theorem after4_0 (c : Dev nD) (t : Fin cfg4.N) : (dat4 V c).after 0 t = iblk4 V c 0 t := by dsimp only [dat4]
theorem after4_1 (c : Dev nD) (t : Fin cfg4.N) : (dat4 V c).after 1 t = iblk4 V c 1 t := by dsimp only [dat4]
theorem after4_2 (c : Dev nD) (t : Fin cfg4.N) : (dat4 V c).after 2 t = iblk4 V c 2 t := by dsimp only [dat4]
theorem after4_3 (c : Dev nD) (t : Fin cfg4.N) : (dat4 V c).after 3 t = iblk4 V c 3 t := by dsimp only [dat4]
theorem after4_4 (c : Dev nD) (t : Fin cfg4.N) : (dat4 V c).after 4 t = iblk4 V c 4 t := by dsimp only [dat4]
theorem after4_5 (c : Dev nD) (t : Fin cfg4.N) : (dat4 V c).after 5 t = (outsAt4 V c t.val t.isLt).1 := by dsimp only [dat4]
theorem after4_6 (c : Dev nD) (t : Fin cfg4.N) : (dat4 V c).after 6 t = (outsAt4 V c t.val t.isLt).2.1 := by dsimp only [dat4]
theorem after4_7 (c : Dev nD) (t : Fin cfg4.N) : (dat4 V c).after 7 t = (outsAt4 V c t.val t.isLt).2.2.1 := by dsimp only [dat4]

theorem before4_0 (c : Dev nD) (t : Fin cfg4.N) (d) : (dat4 V c).before 0 t d = iblk4 V c 0 t :=
  before4_0_of V (dat4 V c) (A_eq4 V c 0) (after4_0 V c) t d
theorem before4_1 (c : Dev nD) (t : Fin cfg4.N) (d) : (dat4 V c).before 1 t d = iblk4 V c 1 t :=
  before4_1_of V (dat4 V c) (A_eq4 V c 1) (after4_1 V c) t d
theorem before4_2 (c : Dev nD) (t : Fin cfg4.N) (d) : (dat4 V c).before 2 t d = iblk4 V c 2 t :=
  before4_2_of V (dat4 V c) (A_eq4 V c 2) (after4_2 V c) t d
theorem before4_3 (c : Dev nD) (t : Fin cfg4.N) (d) : (dat4 V c).before 3 t d = iblk4 V c 3 t :=
  before4_3_of V (dat4 V c) (A_eq4 V c 3) (after4_3 V c) t d
theorem before4_4 (c : Dev nD) (t : Fin cfg4.N) (d) : (dat4 V c).before 4 t d = iblk4 V c 4 t :=
  before4_4_of V (dat4 V c) (A_eq4 V c 4) (after4_4 V c) t d

/-! ## The body obligation, at a generic point -/

def bodyPre4 (c : Dev nD) (t : Fin cfg4.N) : sProp 𝕄 :=
  iprop((dat4 V c).Φ t.castSucc ∗ (dat4 V c).owesAt () t.castSucc
    ∗ (∃ d, owns (c : Thread nD τ) (ms4_0 t) fullShare ((dat4 V c).before 0 t d))
    ∗ (∃ d, owns (c : Thread nD τ) (ms4_1 t) fullShare ((dat4 V c).before 1 t d))
    ∗ (∃ d, owns (c : Thread nD τ) (ms4_2 t) fullShare ((dat4 V c).before 2 t d))
    ∗ (∃ d, owns (c : Thread nD τ) (ms4_3 t) fullShare ((dat4 V c).before 3 t d))
    ∗ (∃ d, owns (c : Thread nD τ) (ms4_4 t) fullShare ((dat4 V c).before 4 t d))
    ∗ (∃ d, owns (c : Thread nD τ) (ms4_5 t) fullShare ((dat4 V c).before 5 t d))
    ∗ (∃ d, owns (c : Thread nD τ) (ms4_6 t) fullShare ((dat4 V c).before 6 t d))
    ∗ (∃ d, owns (c : Thread nD τ) (ms4_7 t) fullShare ((dat4 V c).before 7 t d)))

def bodyPost4 (c : Dev nD) (t : Fin cfg4.N) : sProp 𝕄 :=
  iprop((dat4 V c).Φ t.succ ∗ (dat4 V c).owesAt () t.succ
    ∗ (dat4 V c).leavesExact 0 t
    ∗ (dat4 V c).leavesExact 1 t
    ∗ (dat4 V c).leavesExact 2 t
    ∗ (dat4 V c).leavesExact 3 t
    ∗ (dat4 V c).leavesExact 4 t
    ∗ (dat4 V c).leavesExact 5 t
    ∗ (dat4 V c).leavesExact 6 t
    ∗ (dat4 V c).leavesExact 7 t)

set_option maxHeartbeats 8000000 in
/-- The body at any point. The inputs' memrefs hold their blocks; the closed forms of the two conditions say which case the point
    is in; the invariant hands the body the two running-sum rows (at anything at the first point, at what the point before left
    afterwards) and takes them back at this point's contents; the core owes nothing throughout. -/
theorem sound_body4 (c : Dev nD) (t : Fin cfg4.N) :
    bodyPre4 V c t ⊢ wp frame (wpE (defs₀ (F := F)) Variants.none c none) Set.univ (bodyAt4 t) (fun _ => bodyPost4 V c t) := by
  unfold bodyPre4 bodyPost4 bodyAt4
  simp only [before4_0, before4_1, before4_2, before4_3, before4_4]
  rw [show (dat4 V c).owesAt () t.succ = (dat4 V c).owesAt () t.castSucc from rfl]
  rw [show (dat4 V c).Φ t.succ = PhiS4 V c (t.val + 1) t.isLt from rfl, PhiS4_succ]
  have hN : t.val < 20 := lt_of_lt_of_eq t.isLt (show cfg4.N = 20 from N_4)
  by_cases h0 : t.val % 20 = 0
  · have h1 : ¬t.val % 20 = 19 := by omega
    have hz : t.val = 0 := by omega
    rw [show (dat4 V c).leavesExact 0 t = owns (c : Thread nD τ) (ms4_0 t) fullShare ((dat4 V c).after 0 t) from by
      unfold Dat.leavesExact; rw [liveAt4_0 t], after4_0]
    rw [show (dat4 V c).leavesExact 1 t = owns (c : Thread nD τ) (ms4_1 t) fullShare ((dat4 V c).after 1 t) from by
      unfold Dat.leavesExact; rw [liveAt4_1 t], after4_1]
    rw [show (dat4 V c).leavesExact 2 t = owns (c : Thread nD τ) (ms4_2 t) fullShare ((dat4 V c).after 2 t) from by
      unfold Dat.leavesExact; rw [liveAt4_2 t], after4_2]
    rw [show (dat4 V c).leavesExact 3 t = owns (c : Thread nD τ) (ms4_3 t) fullShare ((dat4 V c).after 3 t) from by
      unfold Dat.leavesExact; rw [liveAt4_3 t], after4_3]
    rw [show (dat4 V c).leavesExact 4 t = owns (c : Thread nD τ) (ms4_4 t) fullShare ((dat4 V c).after 4 t) from by
      unfold Dat.leavesExact; rw [liveAt4_4 t], after4_4]
    rw [show (dat4 V c).leavesExact 5 t = owns (c : Thread nD τ) (ms4_5 t) fullShare ((dat4 V c).after 5 t) from by
      unfold Dat.leavesExact; rw [liveAt4_5 t], after4_5]
    rw [Dat.leavesExact_idle (dat4 V c) 6 t (idleAt4_6 t (fun h => h1 ((hcond4_1 t).mp h))) (noFlush4_6 t (fun h => h1 ((hcond4_1 t).mp h)))]
    rw [Dat.leavesExact_idle (dat4 V c) 7 t (idleAt4_7 t (fun h => h1 ((hcond4_1 t).mp h))) (noFlush4_7 t (fun h => h1 ((hcond4_1 t).mp h)))]
    rw [outsAt4_A V c t h0 h1]
    unfold out4_A_5 sout4_A_0 sout4_A_1; (try dsimp only)
    rw [PhiS4_castSucc V c t, PhiS4_zero V c _ _ hz, PhiA4_eq]
    ·
      iintro ⟨⟨⟨⟨HS0, HS1⟩, HR⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩⟩
      iapply ((kernelRun4_A c (grid4.coords t) _ _ _ _ _ _ _ _ _ _ _ _ _ _ _ _ _ _ _ _ ((hcond4_0 t).mpr h0) (fun h => h1 ((hcond4_1 t).mp h)) (iblk4 V c 0 t) (iblk4 V c 1 t) (iblk4 V c 2 t) (iblk4 V c 3 t) (iblk4 V c 4 t)).2.2.2.2.2 _ _ Set.univ _)
      isplitl [H0]; · iexact H0
      isplitl [H1]; · iexact H1
      isplitl [H2]; · iexact H2
      isplitl [H3]; · iexact H3
      isplitl [H4]; · iexact H4
      isplitl [H5]; · iexists _; iexact H5
      isplitl [H6]; · iexact H6
      isplitl [H7]; · iexact H7
      isplitl [HS0]; · iexact HS0
      isplitl [HS1]; · iexact HS1
      iintro ⟨H0, H1, H2, H3, H4, ⟨%e5, H5⟩, H6, H7, ⟨%es0, HS0⟩, ⟨%es1, HS1⟩⟩
      isplitl [HS0 HS1 HR Hg]
      · isplitl [HS0 HS1 HR]
        · isplitl [HS0 HS1]
          · isplitl [HS0]
            · unfold owns; iexists _; isplitr
              swap; · iexact HS0
              ipureintro; exact View.read_writes_of_cover _ _ _ _ _ (scover4_A_0 c _ _ _ _ _ _ _ _ _ _ _ _ _ _ _ _ _ _ _ _ _ _ _ _ _ _ _ _)
            · unfold owns; iexists _; isplitr
              swap; · iexact HS1
              ipureintro; exact View.read_writes_of_cover _ _ _ _ _ (scover4_A_1 c _ _ _ _ _ _ _ _ _ _ _ _ _ _ _ _ _ _ _ _ _ _ _ _ _ _ _ _)
          iexact HR
        iexact Hg
      isplitl [Ho]; · iexact Ho
      isplitl [H0]; · iexact H0
      isplitl [H1]; · iexact H1
      isplitl [H2]; · iexact H2
      isplitl [H3]; · iexact H3
      isplitl [H4]; · iexact H4
      isplitl [H5]
      · unfold owns; iexists _; isplitr
        swap; · iexact H5
        ipureintro; exact View.read_writes_of_cover _ _ _ _ _ (cover4_A_5 c _ _ _ _ _ _ _ _ _ _ _ _ _ _ _ _ _ _ _ _ _ _ _ _ _ _ _ _)
      isplitl [H6]; · iexists _; iexact H6
      iexists _; iexact H7
  · have hz : t.val ≠ 0 := by omega
    by_cases h1 : t.val % 20 = 19
    ·
      rw [show (dat4 V c).leavesExact 0 t = owns (c : Thread nD τ) (ms4_0 t) fullShare ((dat4 V c).after 0 t) from by
        unfold Dat.leavesExact; rw [liveAt4_0 t], after4_0]
      rw [show (dat4 V c).leavesExact 1 t = owns (c : Thread nD τ) (ms4_1 t) fullShare ((dat4 V c).after 1 t) from by
        unfold Dat.leavesExact; rw [liveAt4_1 t], after4_1]
      rw [show (dat4 V c).leavesExact 2 t = owns (c : Thread nD τ) (ms4_2 t) fullShare ((dat4 V c).after 2 t) from by
        unfold Dat.leavesExact; rw [liveAt4_2 t], after4_2]
      rw [show (dat4 V c).leavesExact 3 t = owns (c : Thread nD τ) (ms4_3 t) fullShare ((dat4 V c).after 3 t) from by
        unfold Dat.leavesExact; rw [liveAt4_3 t], after4_3]
      rw [show (dat4 V c).leavesExact 4 t = owns (c : Thread nD τ) (ms4_4 t) fullShare ((dat4 V c).after 4 t) from by
        unfold Dat.leavesExact; rw [liveAt4_4 t], after4_4]
      rw [show (dat4 V c).leavesExact 5 t = owns (c : Thread nD τ) (ms4_5 t) fullShare ((dat4 V c).after 5 t) from by
        unfold Dat.leavesExact; rw [liveAt4_5 t], after4_5]
      rw [show (dat4 V c).leavesExact 6 t = owns (c : Thread nD τ) (ms4_6 t) fullShare ((dat4 V c).after 6 t) from by
        unfold Dat.leavesExact; rw [liveAt4_6_C t ((hcond4_1 t).mpr h1)], after4_6]
      rw [show (dat4 V c).leavesExact 7 t = owns (c : Thread nD τ) (ms4_7 t) fullShare ((dat4 V c).after 7 t) from by
        unfold Dat.leavesExact; rw [liveAt4_7_C t ((hcond4_1 t).mpr h1)], after4_7]
      rw [outsAt4_C V c t h0 h1]
      unfold out4_C_5 out4_C_6 out4_C_7 sout4_C_0 sout4_C_1; (try dsimp only)
      rw [PhiS4_castSucc V c t, PhiS4_pos V c _ _ hz]
      iintro ⟨⟨⟨⟨HS0, HS1⟩, HR⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩⟩
      iapply ((kernelRun4_C c (grid4.coords t) _ _ _ _ _ _ _ _ _ _ _ _ _ _ _ _ _ _ _ _ (fun h => h0 ((hcond4_0 t).mp h)) ((hcond4_1 t).mpr h1) (iblk4 V c 0 t) (iblk4 V c 1 t) (iblk4 V c 2 t) (iblk4 V c 3 t) (iblk4 V c 4 t) _ _).2.2.2.2.2 Set.univ _)
      isplitl [H0]; · iexact H0
      isplitl [H1]; · iexact H1
      isplitl [H2]; · iexact H2
      isplitl [H3]; · iexact H3
      isplitl [H4]; · iexact H4
      isplitl [H5]; · iexists _; iexact H5
      isplitl [H6]; · iexists _; iexact H6
      isplitl [H7]; · iexists _; iexact H7
      isplitl [HS0]; · iexact HS0
      isplitl [HS1]; · iexact HS1
      iintro ⟨H0, H1, H2, H3, H4, ⟨%e5, H5⟩, ⟨%e6, H6⟩, ⟨%e7, H7⟩, ⟨%es0, HS0⟩, ⟨%es1, HS1⟩⟩
      isplitl [HS0 HS1 HR Hg]
      · isplitl [HS0 HS1 HR]
        · isplitl [HS0 HS1]
          · isplitl [HS0]
            · unfold owns; iexists _; isplitr
              swap; · iexact HS0
              ipureintro; exact View.read_writes_of_cover _ _ _ _ _ (scover4_C_0 c _ _ _ _ _ _ _ _ _ _ _ _ _ _ _ _ _ _ _ _ _ _ _ _ _ _ _ _ _ _)
            · unfold owns; iexists _; isplitr
              swap; · iexact HS1
              ipureintro; exact View.read_writes_of_cover _ _ _ _ _ (scover4_C_1 c _ _ _ _ _ _ _ _ _ _ _ _ _ _ _ _ _ _ _ _ _ _ _ _ _ _ _ _ _ _)
          iexact HR
        iexact Hg
      isplitl [Ho]; · iexact Ho
      isplitl [H0]; · iexact H0
      isplitl [H1]; · iexact H1
      isplitl [H2]; · iexact H2
      isplitl [H3]; · iexact H3
      isplitl [H4]; · iexact H4
      isplitl [H5]
      · unfold owns; iexists _; isplitr
        swap; · iexact H5
        ipureintro; exact View.read_writes_of_cover _ _ _ _ _ (cover4_C_5 c _ _ _ _ _ _ _ _ _ _ _ _ _ _ _ _ _ _ _ _ _ _ _ _ _ _ _ _ _ _)
      isplitl [H6]
      · unfold owns; iexists _; isplitr
        swap; · iexact H6
        ipureintro; exact View.read_writes_of_cover _ _ _ _ _ (cover4_C_6 c _ _ _ _ _ _ _ _ _ _ _ _ _ _ _ _ _ _ _ _ _ _ _ _ _ _ _ _ _ _)
      · unfold owns; iexists _; isplitr
        swap; · iexact H7
        ipureintro; exact View.read_writes_of_cover _ _ _ _ _ (cover4_C_7 c _ _ _ _ _ _ _ _ _ _ _ _ _ _ _ _ _ _ _ _ _ _ _ _ _ _ _ _ _ _)
    ·
      rw [show (dat4 V c).leavesExact 0 t = owns (c : Thread nD τ) (ms4_0 t) fullShare ((dat4 V c).after 0 t) from by
        unfold Dat.leavesExact; rw [liveAt4_0 t], after4_0]
      rw [show (dat4 V c).leavesExact 1 t = owns (c : Thread nD τ) (ms4_1 t) fullShare ((dat4 V c).after 1 t) from by
        unfold Dat.leavesExact; rw [liveAt4_1 t], after4_1]
      rw [show (dat4 V c).leavesExact 2 t = owns (c : Thread nD τ) (ms4_2 t) fullShare ((dat4 V c).after 2 t) from by
        unfold Dat.leavesExact; rw [liveAt4_2 t], after4_2]
      rw [show (dat4 V c).leavesExact 3 t = owns (c : Thread nD τ) (ms4_3 t) fullShare ((dat4 V c).after 3 t) from by
        unfold Dat.leavesExact; rw [liveAt4_3 t], after4_3]
      rw [show (dat4 V c).leavesExact 4 t = owns (c : Thread nD τ) (ms4_4 t) fullShare ((dat4 V c).after 4 t) from by
        unfold Dat.leavesExact; rw [liveAt4_4 t], after4_4]
      rw [show (dat4 V c).leavesExact 5 t = owns (c : Thread nD τ) (ms4_5 t) fullShare ((dat4 V c).after 5 t) from by
        unfold Dat.leavesExact; rw [liveAt4_5 t], after4_5]
      rw [Dat.leavesExact_idle (dat4 V c) 6 t (idleAt4_6 t (fun h => h1 ((hcond4_1 t).mp h))) (noFlush4_6 t (fun h => h1 ((hcond4_1 t).mp h)))]
      rw [Dat.leavesExact_idle (dat4 V c) 7 t (idleAt4_7 t (fun h => h1 ((hcond4_1 t).mp h))) (noFlush4_7 t (fun h => h1 ((hcond4_1 t).mp h)))]
      rw [outsAt4_B V c t h0 h1]
      unfold out4_B_5 sout4_B_0 sout4_B_1; (try dsimp only)
      rw [PhiS4_castSucc V c t, PhiS4_pos V c _ _ hz]
      iintro ⟨⟨⟨⟨HS0, HS1⟩, HR⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩⟩
      iapply ((kernelRun4_B c (grid4.coords t) _ _ _ _ _ _ _ _ _ _ _ _ _ _ _ _ _ _ _ _ (fun h => h0 ((hcond4_0 t).mp h)) (fun h => h1 ((hcond4_1 t).mp h)) (iblk4 V c 0 t) (iblk4 V c 1 t) (iblk4 V c 2 t) (iblk4 V c 3 t) (iblk4 V c 4 t) _ _).2.2.2.2.2 _ _ Set.univ _)
      isplitl [H0]; · iexact H0
      isplitl [H1]; · iexact H1
      isplitl [H2]; · iexact H2
      isplitl [H3]; · iexact H3
      isplitl [H4]; · iexact H4
      isplitl [H5]; · iexists _; iexact H5
      isplitl [H6]; · iexact H6
      isplitl [H7]; · iexact H7
      isplitl [HS0]; · iexact HS0
      isplitl [HS1]; · iexact HS1
      iintro ⟨H0, H1, H2, H3, H4, ⟨%e5, H5⟩, H6, H7, ⟨%es0, HS0⟩, ⟨%es1, HS1⟩⟩
      isplitl [HS0 HS1 HR Hg]
      · isplitl [HS0 HS1 HR]
        · isplitl [HS0 HS1]
          · isplitl [HS0]
            · unfold owns; iexists _; isplitr
              swap; · iexact HS0
              ipureintro; exact View.read_writes_of_cover _ _ _ _ _ (scover4_B_0 c _ _ _ _ _ _ _ _ _ _ _ _ _ _ _ _ _ _ _ _ _ _ _ _ _ _ _ _ _ _)
            · unfold owns; iexists _; isplitr
              swap; · iexact HS1
              ipureintro; exact View.read_writes_of_cover _ _ _ _ _ (scover4_B_1 c _ _ _ _ _ _ _ _ _ _ _ _ _ _ _ _ _ _ _ _ _ _ _ _ _ _ _ _ _ _)
          iexact HR
        iexact Hg
      isplitl [Ho]; · iexact Ho
      isplitl [H0]; · iexact H0
      isplitl [H1]; · iexact H1
      isplitl [H2]; · iexact H2
      isplitl [H3]; · iexact H3
      isplitl [H4]; · iexact H4
      isplitl [H5]
      · unfold owns; iexists _; isplitr
        swap; · iexact H5
        ipureintro; exact View.read_writes_of_cover _ _ _ _ _ (cover4_B_5 c _ _ _ _ _ _ _ _ _ _ _ _ _ _ _ _ _ _ _ _ _ _ _ _ _ _ _ _ _ _)
      isplitl [H6]; · iexists _; iexact H6
      iexists _; iexact H7

/-- The library's body obligation, at every point. -/
theorem body_obligation4 (c : Dev nD) : BodyObligation (dat4 (F := F) V c) (defs₀ (F := F)) Variants.none () Set.univ := fun t => by
  rw [bigSep_W4, bigSep_W4]
  exact sound_body4 V c t

/-- What the launch hands the region is the invariant before the first point. -/
theorem hin4 (c : Dev nD) : Pipeline.ΦA spec4 c ⊢ (dat4 V c).Φ 0 := by
  rw [show (dat4 V c).Φ 0 = PhiS4 V c 0 (Nat.zero_le _) from rfl, PhiS4_zero V c 0 _ rfl]
  try exact Idealize.SL.BI.Entails.refl _

/-- After the last point the invariant gives the class's back: the rows' named contents are forgotten. -/
theorem hout4 (c : Dev nD) : (dat4 V c).Φ (Fin.last cfg4.N) ⊢ Pipeline.ΦA spec4 c := by
  have ht : (Fin.last cfg4.N).val ≠ 0 := by rw [Fin.val_last]; have : cfg4.N = 20 := N_4; omega
  rw [show (dat4 V c).Φ (Fin.last cfg4.N) = PhiS4 V c (Fin.last cfg4.N).val (Nat.le_of_lt_succ (Fin.last cfg4.N).isLt) from rfl, PhiS4_pos V c _ _ ht, PhiA4_eq]
  iintro ⟨⟨⟨HS0, HS1⟩, HR⟩, Hg⟩
  isplitl [HS0 HS1 HR]
  · isplitl [HS0 HS1]
    · isplitl [HS0]
      · iexists _; iexact HS0
      · iexists _; iexact HS1
    iexact HR
  iexact Hg

end Region4

end Cert.Kernel.Hand

end
-- ==== Proof.KBn5.lean ====
import proofs.«160011_j2121713844488_1_alg».proof.Proof.Gen.Kernel.Launch
import proofs.«160011_j2121713844488_1_alg».proof.Proof.Gen.Kernel.Skeleton
import proofs.«160011_j2121713844488_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

/-! # The normalisation region 5: what one grid point's body does to its staging buffers

Region 5 normalises a 100000 × 128 array in 20 blocks of 5000 rows. At a point the body reads the
block of window 0 and four 1 × 128 rows (windows 1 to 4: the mean, the variance, the scale and the
shift, the same row at every point), and writes the whole 5000 × 128 block of window 5: every entry is
(x − mean) · rsqrt(variance + ε) · scale + shift, with the row operands repeated down the rows. The
body keeps nothing between points and leaves its inputs as it found them.

Everything is stated at a parameter `V`, the contents of the core's buffers when the region is
entered, and at any float instance. -/

-- membership of an index in a rectangle with 5000 rows is checked structurally, once per coordinate
set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the contents of the core's buffers when the region is entered
variable (V : (c : Dev nD) → (b : Ref sig .tc) → Buf (Elt F) ((c : Thread nD τ).loc b))

/-! ## The windows' blocks -/

/-- Window `w`'s block at point `t`, read off the window's array as the region finds it. -/
def iblk5 (c : Dev nD) (w : Fin cfg5.W) (t : Fin cfg5.N) : ((cfg5.win w).xblock (cfg5.grid.coords t)).Idx → Elt F (cfg5.win w).elt :=
  ((cfg5.win w).blk t).view.read (Elt F) (V c (Pipeline.arrRef spec5 w))

/-- Input window 0's staging buffer holds the window's block at every point, whether the pipeline fetched
    it there or not (an unfetched window's block index has not moved), for any proof data whose array is the
    entry contents and whose body leaves the block in place. -/
theorem before5_0_of {c : Dev nD} (dat : Dat τ (Elt F) Unit ℕ (UR sig nD τ) ℕ cfg5 c) (hA : dat.A 0 = V c (Pipeline.arrRef spec5 0))
    (hafter : ∀ t, dat.after 0 t = iblk5 V c 0 t) (t : Fin cfg5.N) (d) : dat.before 0 t d = iblk5 V c 0 t :=
  (dat.before_in_eq_fetched 0 rfl (fun _ => rfl) (fun _ _ _ => rfl) (fun t => by rw [hafter]; unfold Dat.blockOf iblk5; rw [hA]; try rfl) t d).trans
    (by unfold Dat.fetched Dat.blockOf iblk5; rw [hA]; try rfl)
/-- Input window 1's staging buffer holds the window's block at every point, whether the pipeline fetched
    it there or not (an unfetched window's block index has not moved), for any proof data whose array is the
    entry contents and whose body leaves the block in place. -/
theorem before5_1_of {c : Dev nD} (dat : Dat τ (Elt F) Unit ℕ (UR sig nD τ) ℕ cfg5 c) (hA : dat.A 1 = V c (Pipeline.arrRef spec5 1))
    (hafter : ∀ t, dat.after 1 t = iblk5 V c 1 t) (t : Fin cfg5.N) (d) : dat.before 1 t d = iblk5 V c 1 t :=
  (dat.before_in_eq_fetched 1 rfl (fun _ => rfl) (fun _ _ _ => rfl) (fun t => by rw [hafter]; unfold Dat.blockOf iblk5; rw [hA]; try rfl) t d).trans
    (by unfold Dat.fetched Dat.blockOf iblk5; rw [hA]; try rfl)
/-- Input window 2's staging buffer holds the window's block at every point, whether the pipeline fetched
    it there or not (an unfetched window's block index has not moved), for any proof data whose array is the
    entry contents and whose body leaves the block in place. -/
theorem before5_2_of {c : Dev nD} (dat : Dat τ (Elt F) Unit ℕ (UR sig nD τ) ℕ cfg5 c) (hA : dat.A 2 = V c (Pipeline.arrRef spec5 2))
    (hafter : ∀ t, dat.after 2 t = iblk5 V c 2 t) (t : Fin cfg5.N) (d) : dat.before 2 t d = iblk5 V c 2 t :=
  (dat.before_in_eq_fetched 2 rfl (fun _ => rfl) (fun _ _ _ => rfl) (fun t => by rw [hafter]; unfold Dat.blockOf iblk5; rw [hA]; try rfl) t d).trans
    (by unfold Dat.fetched Dat.blockOf iblk5; rw [hA]; try rfl)
/-- Input window 3's staging buffer holds the window's block at every point, whether the pipeline fetched
    it there or not (an unfetched window's block index has not moved), for any proof data whose array is the
    entry contents and whose body leaves the block in place. -/
theorem before5_3_of {c : Dev nD} (dat : Dat τ (Elt F) Unit ℕ (UR sig nD τ) ℕ cfg5 c) (hA : dat.A 3 = V c (Pipeline.arrRef spec5 3))
    (hafter : ∀ t, dat.after 3 t = iblk5 V c 3 t) (t : Fin cfg5.N) (d) : dat.before 3 t d = iblk5 V c 3 t :=
  (dat.before_in_eq_fetched 3 rfl (fun _ => rfl) (fun _ _ _ => rfl) (fun t => by rw [hafter]; unfold Dat.blockOf iblk5; rw [hA]; try rfl) t d).trans
    (by unfold Dat.fetched Dat.blockOf iblk5; rw [hA]; try rfl)
/-- Input window 4's staging buffer holds the window's block at every point, whether the pipeline fetched
    it there or not (an unfetched window's block index has not moved), for any proof data whose array is the
    entry contents and whose body leaves the block in place. -/
theorem before5_4_of {c : Dev nD} (dat : Dat τ (Elt F) Unit ℕ (UR sig nD τ) ℕ cfg5 c) (hA : dat.A 4 = V c (Pipeline.arrRef spec5 4))
    (hafter : ∀ t, dat.after 4 t = iblk5 V c 4 t) (t : Fin cfg5.N) (d) : dat.before 4 t d = iblk5 V c 4 t :=
  (dat.before_in_eq_fetched 4 rfl (fun _ => rfl) (fun _ _ _ => rfl) (fun t => by rw [hafter]; unfold Dat.blockOf iblk5; rw [hA]; try rfl) t d).trans
    (by unfold Dat.fetched Dat.blockOf iblk5; rw [hA]; try rfl)

/-! ## The body's accesses: every load and the one store go through the whole buffer -/

abbrev r5_0 : Rect S5000x128 := Rect.unit (s := S5000x128) ![0, 0] S5000x128.size inb_S5000x128_S5000x128_0_0
abbrev r5_1 : Rect S1x128 := Rect.unit (s := S1x128) ![0, 0] S1x128.size inb_S1x128_S1x128_0_0

/-! ## What the body leaves in the output window's buffer -/

/-- Window 5's staging buffer after the body, from the input windows' blocks: its one store, of the
    normalised block (the variance row is the payload's first operand, the data block its second). -/
def out5_5 (x0 : Vec F S5000x128 .f32) (x1 : Vec F S1x128 .f32) (x2 : Vec F S1x128 .f32) (x3 : Vec F S1x128 .f32) (x4 : Vec F S1x128 .f32) : Vec F S5000x128 .f32 :=
  View.canon [⟨r5_0, k5_pay1 (View.ld x2 r5_1) (View.ld x0 r5_0) (View.ld x1 r5_1) (View.ld x3 r5_1) (View.ld x4 r5_1)⟩]

/-- The one store is of the whole block, so it covers the buffer. -/
theorem cover5_5 (p0 : Vec F S5000x128 .f32) (y : S5000x128.Idx) :
    ∃ pc ∈ ([⟨r5_0, p0⟩] : List (View.Piece (Elt F) S5000x128 .f32)), y ∈ pc.1.set :=
  View.cover_of_tiled [⟨r5_0, p0⟩] S5000x128.size (by rfl) y

/-! ## The body's triple -/

set_option maxHeartbeats 1000000 in
/-- The body on whole staging buffers — the inputs' reading `x0 … x4`, the output's holding anything —
    runs to the continuation with the inputs' as they were and the output's at `out5_5` of the inputs.
    The body also loads the output's buffer once, before it stores it; the value is not used. -/
theorem sound_kernel5 (c : Dev nD) (E : Set ℕ) (i : grid5.Coords) (arg0 : Memref sig .tc .vmem S5000x128 .f32) (harg0 : arg0.IsWhole) (arg1 : Memref sig .tc .vmem S1x128 .f32) (harg1 : arg1.IsWhole) (arg2 : Memref sig .tc .vmem S1x128 .f32) (harg2 : arg2.IsWhole) (arg3 : Memref sig .tc .vmem S1x128 .f32) (harg3 : arg3.IsWhole) (arg4 : Memref sig .tc .vmem S1x128 .f32) (harg4 : arg4.IsWhole) (arg5 : Memref sig .tc .vmem S5000x128 .f32) (harg5 : arg5.IsWhole)
    (x0 : Vec F S5000x128 .f32) (x1 : Vec F S1x128 .f32) (x2 : Vec F S1x128 .f32) (x3 : Vec F S1x128 .f32) (x4 : Vec F S1x128 .f32) (K : PUnit → sProp 𝕄) :
    iprop(owns (c : Thread nD τ) arg0 fullShare x0 ∗ owns (c : Thread nD τ) arg1 fullShare x1 ∗ owns (c : Thread nD τ) arg2 fullShare x2 ∗ owns (c : Thread nD τ) arg3 fullShare x3 ∗ owns (c : Thread nD τ) arg4 fullShare x4 ∗ (∃ d, owns (c : Thread nD τ) arg5 fullShare d)
        ∗ (iprop(owns (c : Thread nD τ) arg0 fullShare x0 ∗ owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare (out5_5 x0 x1 x2 x3 x4)) -∗ K ⟨⟩))
      ⊢ wp frame (wpE (defs₀ (F := F)) Variants.none c none) E (cc5__bn_kernel i arg0 harg0 arg1 harg1 arg2 harg2 arg3 harg3 arg4 harg4 arg5 harg5) K := by
  simp only [cc5__bn_kernel_eq_skeleton]; unfold cc5__bn_kernel_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, Hk⟩
  subst hf0 hf1 hf2 hf3 hf4
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  iexists _; isplitr
  swap; · iexact H5
  ipureintro
  exact View.read_writes_eq_canon _ _ _ (cover5_5 _)

/-! ## The pipeline's proof data -/

/-- The proof data of pipeline 5 on core `c`: the arrays as the region finds them; after the body at
    point `t` each input's buffer at its block and the output's at `out5_5` of the input blocks; the
    invariant is the scoped rest and the generator register, untouched; nothing owed; full shares. -/
def dat5 (c : Dev nD) : Dat τ (Elt F) Unit ℕ (UR sig nD τ) ℕ cfg5 c where
  A w := V c (Pipeline.arrRef spec5 w)
  after w t := match w with
    | ⟨0, _⟩ => iblk5 V c 0 t
    | ⟨1, _⟩ => iblk5 V c 1 t
    | ⟨2, _⟩ => iblk5 V c 2 t
    | ⟨3, _⟩ => iblk5 V c 3 t
    | ⟨4, _⟩ => iblk5 V c 4 t
    | ⟨5, _⟩ => out5_5 (iblk5 V c 0 t) (iblk5 V c 1 t) (iblk5 V c 2 t) (iblk5 V c 3 t) (iblk5 V c 4 t)
  Φ _ := Pipeline.ΦA spec5 c
  q _ := fullShare
  owed _ := 0

/-- The proof data's arrays are the region-entry contents. -/
theorem A_eq5 (c : Dev nD) (w : Fin cfg5.W) : (dat5 V c).A w = V c (Pipeline.arrRef spec5 w) := by
  dsimp only [dat5]

/-- What the body leaves, window by window. -/
theorem after5_0 (c : Dev nD) (t : Fin cfg5.N) : (dat5 V c).after 0 t = iblk5 V c 0 t := by dsimp only [dat5]
theorem after5_1 (c : Dev nD) (t : Fin cfg5.N) : (dat5 V c).after 1 t = iblk5 V c 1 t := by dsimp only [dat5]
theorem after5_2 (c : Dev nD) (t : Fin cfg5.N) : (dat5 V c).after 2 t = iblk5 V c 2 t := by dsimp only [dat5]
theorem after5_3 (c : Dev nD) (t : Fin cfg5.N) : (dat5 V c).after 3 t = iblk5 V c 3 t := by dsimp only [dat5]
theorem after5_4 (c : Dev nD) (t : Fin cfg5.N) : (dat5 V c).after 4 t = iblk5 V c 4 t := by dsimp only [dat5]
theorem after5_5 (c : Dev nD) (t : Fin cfg5.N) : (dat5 V c).after 5 t = out5_5 (iblk5 V c 0 t) (iblk5 V c 1 t) (iblk5 V c 2 t) (iblk5 V c 3 t) (iblk5 V c 4 t) := by dsimp only [dat5]

/-- Each input's staging buffer holds its block at every point, fetched there or not. -/
theorem before5_0 (c : Dev nD) (t : Fin cfg5.N) (d) : (dat5 V c).before 0 t d = iblk5 V c 0 t :=
  before5_0_of V (dat5 V c) (A_eq5 V c 0) (after5_0 V c) t d
theorem before5_1 (c : Dev nD) (t : Fin cfg5.N) (d) : (dat5 V c).before 1 t d = iblk5 V c 1 t :=
  before5_1_of V (dat5 V c) (A_eq5 V c 1) (after5_1 V c) t d
theorem before5_2 (c : Dev nD) (t : Fin cfg5.N) (d) : (dat5 V c).before 2 t d = iblk5 V c 2 t :=
  before5_2_of V (dat5 V c) (A_eq5 V c 2) (after5_2 V c) t d
theorem before5_3 (c : Dev nD) (t : Fin cfg5.N) (d) : (dat5 V c).before 3 t d = iblk5 V c 3 t :=
  before5_3_of V (dat5 V c) (A_eq5 V c 3) (after5_3 V c) t d
theorem before5_4 (c : Dev nD) (t : Fin cfg5.N) (d) : (dat5 V c).before 4 t d = iblk5 V c 4 t :=
  before5_4_of V (dat5 V c) (A_eq5 V c 4) (after5_4 V c) t d

/-! ## The body obligation, at a generic point -/

/-- What the body is called with at point `t`, the windows one by one, -/
def bodyPre5 (c : Dev nD) (t : Fin cfg5.N) : sProp 𝕄 :=
  iprop((dat5 V c).Φ t.castSucc ∗ (dat5 V c).owesAt () t.castSucc
    ∗ (∃ d, owns (c : Thread nD τ) (st5_0 t) fullShare ((dat5 V c).before 0 t d))
    ∗ (∃ d, owns (c : Thread nD τ) (st5_1 t) fullShare ((dat5 V c).before 1 t d))
    ∗ (∃ d, owns (c : Thread nD τ) (st5_2 t) fullShare ((dat5 V c).before 2 t d))
    ∗ (∃ d, owns (c : Thread nD τ) (st5_3 t) fullShare ((dat5 V c).before 3 t d))
    ∗ (∃ d, owns (c : Thread nD τ) (st5_4 t) fullShare ((dat5 V c).before 4 t d))
    ∗ (∃ d, owns (c : Thread nD τ) (st5_5 t) fullShare ((dat5 V c).before 5 t d)))

/-- and what it returns. -/
def bodyPost5 (c : Dev nD) (t : Fin cfg5.N) : sProp 𝕄 :=
  iprop((dat5 V c).Φ t.succ ∗ (dat5 V c).owesAt () t.succ
    ∗ owns (c : Thread nD τ) (st5_0 t) fullShare ((dat5 V c).after 0 t)
    ∗ owns (c : Thread nD τ) (st5_1 t) fullShare ((dat5 V c).after 1 t)
    ∗ owns (c : Thread nD τ) (st5_2 t) fullShare ((dat5 V c).after 2 t)
    ∗ owns (c : Thread nD τ) (st5_3 t) fullShare ((dat5 V c).after 3 t)
    ∗ owns (c : Thread nD τ) (st5_4 t) fullShare ((dat5 V c).after 4 t)
    ∗ owns (c : Thread nD τ) (st5_5 t) fullShare ((dat5 V c).after 5 t))

/-- The body at any point: the inputs' buffers hold their blocks, so `sound_kernel5` applies; the
    invariant and the core's owed transfers pass through unread. -/
theorem sound_body5 (c : Dev nD) (t : Fin cfg5.N) :
    bodyPre5 V c t ⊢ wp frame (wpE (defs₀ (F := F)) Variants.none c none) Set.univ (bodyAt5 t) (fun _ => bodyPost5 V c t) := by
  unfold bodyPre5 bodyPost5 bodyAt5
  simp only [before5_0, before5_1, before5_2, before5_3, before5_4]
  rw [show (dat5 V c).Φ t.succ = (dat5 V c).Φ t.castSucc from rfl,
    show (dat5 V c).owesAt () t.succ = (dat5 V c).owesAt () t.castSucc from rfl,
    after5_0, after5_1, after5_2, after5_3, after5_4, after5_5]
  iintro ⟨HΦ, Ho, ⟨%d0, H0⟩, ⟨%d1, H1⟩, ⟨%d2, H2⟩, ⟨%d3, H3⟩, ⟨%d4, H4⟩, ⟨%d5, H5⟩⟩
  iapply (sound_kernel5 c Set.univ _ _ _ _ _ _ _ _ _ _ _ _ _ (iblk5 V c 0 t) (iblk5 V c 1 t) (iblk5 V c 2 t) (iblk5 V c 3 t) (iblk5 V c 4 t) _)
  isplitl [H0]; · iexact H0
  isplitl [H1]; · iexact H1
  isplitl [H2]; · iexact H2
  isplitl [H3]; · iexact H3
  isplitl [H4]; · iexact H4
  isplitl [H5]; · iexists _; iexact H5
  iintro ⟨H0, H1, H2, H3, H4, H5⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  iexact H5

/-- The library's body obligation, at every point. -/
theorem body_obligation5 (c : Dev nD) : BodyObligation (dat5 (F := F) V c) (defs₀ (F := F)) Variants.none () Set.univ := fun t => by
  rw [bigSep_W5, bigSep_W5]
  exact sound_body5 V c t

end Cert.Kernel.Hand

end
-- ==== Proof.KFc6.lean ====
import proofs.«160011_j2121713844488_1_alg».proof.Proof.Gen.Kernel.Launch
import proofs.«160011_j2121713844488_1_alg».proof.Proof.Gen.Kernel.Skeleton
import proofs.«160011_j2121713844488_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

/-! # The classifier region 6: what one grid point's body does to its staging buffers

Region 6 maps a 100000 × 128 array to 100000 × 64 log-probabilities in 20 blocks of 5000 rows. At a
point the body reads the 5000 × 128 block x of window 0, a 128 × 128 matrix W₁ (window 1), a 1 × 128 row
b₁ (window 2), a 128 × 64 matrix W₂ (window 3), a 1 × 64 row b₂ (window 4) and the 5000 × 128 block m of
window 5 (a multiplier, entry by entry), and writes the whole 5000 × 64 block of window 6. With
h = max(x · W₁ + b₁, 0) ⊙ m and z = h · W₂ + b₂ — both matrix products on operands rounded to the 16-bit
format and accumulated from zero, the rows b₁, b₂ repeated down the rows — every row of the result is
z − max z − log Σ exp(z − max z), the maximum and the sum taken along the row of 64: the row's
log-softmax. The matrices and rows are the same at every point; the body keeps nothing between points and
leaves its inputs as it found them.

Everything is stated at a parameter `V`, the contents of the core's buffers when the region is
entered, and at any float instance. -/

-- membership of an index in a rectangle with 5000 rows is checked structurally, once per coordinate
set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the contents of the core's buffers when the region is entered
variable (V : (c : Dev nD) → (b : Ref sig .tc) → Buf (Elt F) ((c : Thread nD τ).loc b))

/-! ## The windows' blocks -/

/-- Window `w`'s block at point `t`, read off the window's array as the region finds it. -/
def iblk6 (c : Dev nD) (w : Fin cfg6.W) (t : Fin cfg6.N) : ((cfg6.win w).xblock (cfg6.grid.coords t)).Idx → Elt F (cfg6.win w).elt :=
  ((cfg6.win w).blk t).view.read (Elt F) (V c (Pipeline.arrRef spec6 w))

/-- Input window 0's staging buffer holds the window's block at every point, whether the pipeline fetched
    it there or not (an unfetched window's block index has not moved), for any proof data whose array is the
    entry contents and whose body leaves the block in place. -/
theorem before6_0_of {c : Dev nD} (dat : Dat τ (Elt F) Unit ℕ (UR sig nD τ) ℕ cfg6 c) (hA : dat.A 0 = V c (Pipeline.arrRef spec6 0))
    (hafter : ∀ t, dat.after 0 t = iblk6 V c 0 t) (t : Fin cfg6.N) (d) : dat.before 0 t d = iblk6 V c 0 t :=
  (dat.before_in_eq_fetched 0 rfl (fun _ => rfl) (fun _ _ _ => rfl) (fun t => by rw [hafter]; unfold Dat.blockOf iblk6; rw [hA]; try rfl) t d).trans
    (by unfold Dat.fetched Dat.blockOf iblk6; rw [hA]; try rfl)
/-- Input window 1's staging buffer holds the window's block at every point, whether the pipeline fetched
    it there or not (an unfetched window's block index has not moved), for any proof data whose array is the
    entry contents and whose body leaves the block in place. -/
theorem before6_1_of {c : Dev nD} (dat : Dat τ (Elt F) Unit ℕ (UR sig nD τ) ℕ cfg6 c) (hA : dat.A 1 = V c (Pipeline.arrRef spec6 1))
    (hafter : ∀ t, dat.after 1 t = iblk6 V c 1 t) (t : Fin cfg6.N) (d) : dat.before 1 t d = iblk6 V c 1 t :=
  (dat.before_in_eq_fetched 1 rfl (fun _ => rfl) (fun _ _ _ => rfl) (fun t => by rw [hafter]; unfold Dat.blockOf iblk6; rw [hA]; try rfl) t d).trans
    (by unfold Dat.fetched Dat.blockOf iblk6; rw [hA]; try rfl)
/-- Input window 2's staging buffer holds the window's block at every point, whether the pipeline fetched
    it there or not (an unfetched window's block index has not moved), for any proof data whose array is the
    entry contents and whose body leaves the block in place. -/
theorem before6_2_of {c : Dev nD} (dat : Dat τ (Elt F) Unit ℕ (UR sig nD τ) ℕ cfg6 c) (hA : dat.A 2 = V c (Pipeline.arrRef spec6 2))
    (hafter : ∀ t, dat.after 2 t = iblk6 V c 2 t) (t : Fin cfg6.N) (d) : dat.before 2 t d = iblk6 V c 2 t :=
  (dat.before_in_eq_fetched 2 rfl (fun _ => rfl) (fun _ _ _ => rfl) (fun t => by rw [hafter]; unfold Dat.blockOf iblk6; rw [hA]; try rfl) t d).trans
    (by unfold Dat.fetched Dat.blockOf iblk6; rw [hA]; try rfl)
/-- Input window 3's staging buffer holds the window's block at every point, whether the pipeline fetched
    it there or not (an unfetched window's block index has not moved), for any proof data whose array is the
    entry contents and whose body leaves the block in place. -/
theorem before6_3_of {c : Dev nD} (dat : Dat τ (Elt F) Unit ℕ (UR sig nD τ) ℕ cfg6 c) (hA : dat.A 3 = V c (Pipeline.arrRef spec6 3))
    (hafter : ∀ t, dat.after 3 t = iblk6 V c 3 t) (t : Fin cfg6.N) (d) : dat.before 3 t d = iblk6 V c 3 t :=
  (dat.before_in_eq_fetched 3 rfl (fun _ => rfl) (fun _ _ _ => rfl) (fun t => by rw [hafter]; unfold Dat.blockOf iblk6; rw [hA]; try rfl) t d).trans
    (by unfold Dat.fetched Dat.blockOf iblk6; rw [hA]; try rfl)
/-- Input window 4's staging buffer holds the window's block at every point, whether the pipeline fetched
    it there or not (an unfetched window's block index has not moved), for any proof data whose array is the
    entry contents and whose body leaves the block in place. -/
theorem before6_4_of {c : Dev nD} (dat : Dat τ (Elt F) Unit ℕ (UR sig nD τ) ℕ cfg6 c) (hA : dat.A 4 = V c (Pipeline.arrRef spec6 4))
    (hafter : ∀ t, dat.after 4 t = iblk6 V c 4 t) (t : Fin cfg6.N) (d) : dat.before 4 t d = iblk6 V c 4 t :=
  (dat.before_in_eq_fetched 4 rfl (fun _ => rfl) (fun _ _ _ => rfl) (fun t => by rw [hafter]; unfold Dat.blockOf iblk6; rw [hA]; try rfl) t d).trans
    (by unfold Dat.fetched Dat.blockOf iblk6; rw [hA]; try rfl)
/-- Input window 5's staging buffer holds the window's block at every point, whether the pipeline fetched
    it there or not (an unfetched window's block index has not moved), for any proof data whose array is the
    entry contents and whose body leaves the block in place. -/
theorem before6_5_of {c : Dev nD} (dat : Dat τ (Elt F) Unit ℕ (UR sig nD τ) ℕ cfg6 c) (hA : dat.A 5 = V c (Pipeline.arrRef spec6 5))
    (hafter : ∀ t, dat.after 5 t = iblk6 V c 5 t) (t : Fin cfg6.N) (d) : dat.before 5 t d = iblk6 V c 5 t :=
  (dat.before_in_eq_fetched 5 rfl (fun _ => rfl) (fun _ _ _ => rfl) (fun t => by rw [hafter]; unfold Dat.blockOf iblk6; rw [hA]; try rfl) t d).trans
    (by unfold Dat.fetched Dat.blockOf iblk6; rw [hA]; try rfl)

/-! ## The body's accesses: every load and the one store go through the whole buffer -/

abbrev r6_0 : Rect S5000x128 := Rect.unit (s := S5000x128) ![0, 0] S5000x128.size inb_S5000x128_S5000x128_0_0
abbrev r6_1 : Rect S128x128 := Rect.unit (s := S128x128) ![0, 0] S128x128.size inb_S128x128_S128x128_0_0
abbrev r6_2 : Rect S1x128 := Rect.unit (s := S1x128) ![0, 0] S1x128.size inb_S1x128_S1x128_0_0
abbrev r6_3 : Rect S128x64 := Rect.unit (s := S128x64) ![0, 0] S128x64.size inb_S128x64_S128x64_0_0
abbrev r6_4 : Rect S1x64 := Rect.unit (s := S1x64) ![0, 0] S1x64.size inb_S1x64_S1x64_0_0
abbrev r6_5 : Rect S5000x64 := Rect.unit (s := S5000x64) ![0, 0] S5000x64.size inb_S5000x64_S5000x64_0_0

/-! ## What the body leaves in the output window's buffer -/

/-- Window 6's staging buffer after the body, from the input windows' blocks: its one store, of the
    block of log-probabilities (the payload takes the multiplier block, window 5, as its fourth operand,
    before the second matrix and row). -/
def out6_6 (x0 : Vec F S5000x128 .f32) (x1 : Vec F S128x128 .f32) (x2 : Vec F S1x128 .f32) (x3 : Vec F S128x64 .f32) (x4 : Vec F S1x64 .f32) (x5 : Vec F S5000x128 .f32) : Vec F S5000x64 .f32 :=
  View.canon [⟨r6_5, k6_pay1 (View.ld x0 r6_0) (View.ld x1 r6_1) (View.ld x2 r6_2) (View.ld x5 r6_0) (View.ld x3 r6_3) (View.ld x4 r6_4)⟩]

/-- The one store is of the whole block, so it covers the buffer. -/
theorem cover6_6 (p0 : Vec F S5000x64 .f32) (y : S5000x64.Idx) :
    ∃ pc ∈ ([⟨r6_5, p0⟩] : List (View.Piece (Elt F) S5000x64 .f32)), y ∈ pc.1.set :=
  View.cover_of_tiled [⟨r6_5, p0⟩] S5000x64.size (by rfl) y

/-! ## The body's triple -/

set_option maxHeartbeats 1000000 in
/-- The body on whole staging buffers — the inputs' reading `x0 … x5`, the output's holding anything —
    runs to the continuation with the inputs' as they were and the output's at `out6_6` of the inputs.
    The body also loads the output's buffer once, before it stores it; the value is not used. -/
theorem sound_kernel6 (c : Dev nD) (E : Set ℕ) (i : grid6.Coords) (arg0 : Memref sig .tc .vmem S5000x128 .f32) (harg0 : arg0.IsWhole) (arg1 : Memref sig .tc .vmem S128x128 .f32) (harg1 : arg1.IsWhole) (arg2 : Memref sig .tc .vmem S1x128 .f32) (harg2 : arg2.IsWhole) (arg3 : Memref sig .tc .vmem S128x64 .f32) (harg3 : arg3.IsWhole) (arg4 : Memref sig .tc .vmem S1x64 .f32) (harg4 : arg4.IsWhole) (arg5 : Memref sig .tc .vmem S5000x128 .f32) (harg5 : arg5.IsWhole) (arg6 : Memref sig .tc .vmem S5000x64 .f32) (harg6 : arg6.IsWhole)
    (x0 : Vec F S5000x128 .f32) (x1 : Vec F S128x128 .f32) (x2 : Vec F S1x128 .f32) (x3 : Vec F S128x64 .f32) (x4 : Vec F S1x64 .f32) (x5 : Vec F S5000x128 .f32) (K : PUnit → sProp 𝕄) :
    iprop(owns (c : Thread nD τ) arg0 fullShare x0 ∗ owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5 ∗ (∃ d, owns (c : Thread nD τ) arg6 fullShare d)
        ∗ (iprop(owns (c : Thread nD τ) arg0 fullShare x0 ∗ owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare (out6_6 x0 x1 x2 x3 x4 x5)) -∗ K ⟨⟩))
      ⊢ wp frame (wpE (defs₀ (F := F)) Variants.none c none) E (cc6__fc_kernel i arg0 harg0 arg1 harg1 arg2 harg2 arg3 harg3 arg4 harg4 arg5 harg5 arg6 harg6) K := by
  simp only [cc6__fc_kernel_eq_skeleton]; unfold cc6__fc_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, Hk⟩
  subst hf0 hf1 hf2 hf3 hf4 hf5
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  iexists _; isplitr
  swap; · iexact H6
  ipureintro
  exact View.read_writes_eq_canon _ _ _ (cover6_6 _)

/-! ## The pipeline's proof data -/

/-- The proof data of pipeline 6 on core `c`: the arrays as the region finds them; after the body at
    point `t` each input's buffer at its block and the output's at `out6_6` of the input blocks; the
    invariant is the scoped rest and the generator register, untouched; nothing owed; full shares. -/
def dat6 (c : Dev nD) : Dat τ (Elt F) Unit ℕ (UR sig nD τ) ℕ cfg6 c where
  A w := V c (Pipeline.arrRef spec6 w)
  after w t := match w with
    | ⟨0, _⟩ => iblk6 V c 0 t
    | ⟨1, _⟩ => iblk6 V c 1 t
    | ⟨2, _⟩ => iblk6 V c 2 t
    | ⟨3, _⟩ => iblk6 V c 3 t
    | ⟨4, _⟩ => iblk6 V c 4 t
    | ⟨5, _⟩ => iblk6 V c 5 t
    | ⟨6, _⟩ => out6_6 (iblk6 V c 0 t) (iblk6 V c 1 t) (iblk6 V c 2 t) (iblk6 V c 3 t) (iblk6 V c 4 t) (iblk6 V c 5 t)
  Φ _ := Pipeline.ΦA spec6 c
  q _ := fullShare
  owed _ := 0

/-- The proof data's arrays are the region-entry contents. -/
theorem A_eq6 (c : Dev nD) (w : Fin cfg6.W) : (dat6 V c).A w = V c (Pipeline.arrRef spec6 w) := by
  dsimp only [dat6]

/-- What the body leaves, window by window. -/
theorem after6_0 (c : Dev nD) (t : Fin cfg6.N) : (dat6 V c).after 0 t = iblk6 V c 0 t := by dsimp only [dat6]
theorem after6_1 (c : Dev nD) (t : Fin cfg6.N) : (dat6 V c).after 1 t = iblk6 V c 1 t := by dsimp only [dat6]
theorem after6_2 (c : Dev nD) (t : Fin cfg6.N) : (dat6 V c).after 2 t = iblk6 V c 2 t := by dsimp only [dat6]
theorem after6_3 (c : Dev nD) (t : Fin cfg6.N) : (dat6 V c).after 3 t = iblk6 V c 3 t := by dsimp only [dat6]
theorem after6_4 (c : Dev nD) (t : Fin cfg6.N) : (dat6 V c).after 4 t = iblk6 V c 4 t := by dsimp only [dat6]
theorem after6_5 (c : Dev nD) (t : Fin cfg6.N) : (dat6 V c).after 5 t = iblk6 V c 5 t := by dsimp only [dat6]
theorem after6_6 (c : Dev nD) (t : Fin cfg6.N) : (dat6 V c).after 6 t = out6_6 (iblk6 V c 0 t) (iblk6 V c 1 t) (iblk6 V c 2 t) (iblk6 V c 3 t) (iblk6 V c 4 t) (iblk6 V c 5 t) := by dsimp only [dat6]

/-- Each input's staging buffer holds its block at every point, fetched there or not. -/
theorem before6_0 (c : Dev nD) (t : Fin cfg6.N) (d) : (dat6 V c).before 0 t d = iblk6 V c 0 t :=
  before6_0_of V (dat6 V c) (A_eq6 V c 0) (after6_0 V c) t d
theorem before6_1 (c : Dev nD) (t : Fin cfg6.N) (d) : (dat6 V c).before 1 t d = iblk6 V c 1 t :=
  before6_1_of V (dat6 V c) (A_eq6 V c 1) (after6_1 V c) t d
theorem before6_2 (c : Dev nD) (t : Fin cfg6.N) (d) : (dat6 V c).before 2 t d = iblk6 V c 2 t :=
  before6_2_of V (dat6 V c) (A_eq6 V c 2) (after6_2 V c) t d
theorem before6_3 (c : Dev nD) (t : Fin cfg6.N) (d) : (dat6 V c).before 3 t d = iblk6 V c 3 t :=
  before6_3_of V (dat6 V c) (A_eq6 V c 3) (after6_3 V c) t d
theorem before6_4 (c : Dev nD) (t : Fin cfg6.N) (d) : (dat6 V c).before 4 t d = iblk6 V c 4 t :=
  before6_4_of V (dat6 V c) (A_eq6 V c 4) (after6_4 V c) t d
theorem before6_5 (c : Dev nD) (t : Fin cfg6.N) (d) : (dat6 V c).before 5 t d = iblk6 V c 5 t :=
  before6_5_of V (dat6 V c) (A_eq6 V c 5) (after6_5 V c) t d

/-! ## The body obligation, at a generic point -/

/-- What the body is called with at point `t`, the windows one by one, -/
def bodyPre6 (c : Dev nD) (t : Fin cfg6.N) : sProp 𝕄 :=
  iprop((dat6 V c).Φ t.castSucc ∗ (dat6 V c).owesAt () t.castSucc
    ∗ (∃ d, owns (c : Thread nD τ) (st6_0 t) fullShare ((dat6 V c).before 0 t d))
    ∗ (∃ d, owns (c : Thread nD τ) (st6_1 t) fullShare ((dat6 V c).before 1 t d))
    ∗ (∃ d, owns (c : Thread nD τ) (st6_2 t) fullShare ((dat6 V c).before 2 t d))
    ∗ (∃ d, owns (c : Thread nD τ) (st6_3 t) fullShare ((dat6 V c).before 3 t d))
    ∗ (∃ d, owns (c : Thread nD τ) (st6_4 t) fullShare ((dat6 V c).before 4 t d))
    ∗ (∃ d, owns (c : Thread nD τ) (st6_5 t) fullShare ((dat6 V c).before 5 t d))
    ∗ (∃ d, owns (c : Thread nD τ) (st6_6 t) fullShare ((dat6 V c).before 6 t d)))

/-- and what it returns. -/
def bodyPost6 (c : Dev nD) (t : Fin cfg6.N) : sProp 𝕄 :=
  iprop((dat6 V c).Φ t.succ ∗ (dat6 V c).owesAt () t.succ
    ∗ owns (c : Thread nD τ) (st6_0 t) fullShare ((dat6 V c).after 0 t)
    ∗ owns (c : Thread nD τ) (st6_1 t) fullShare ((dat6 V c).after 1 t)
    ∗ owns (c : Thread nD τ) (st6_2 t) fullShare ((dat6 V c).after 2 t)
    ∗ owns (c : Thread nD τ) (st6_3 t) fullShare ((dat6 V c).after 3 t)
    ∗ owns (c : Thread nD τ) (st6_4 t) fullShare ((dat6 V c).after 4 t)
    ∗ owns (c : Thread nD τ) (st6_5 t) fullShare ((dat6 V c).after 5 t)
    ∗ owns (c : Thread nD τ) (st6_6 t) fullShare ((dat6 V c).after 6 t))

/-- The body at any point: the inputs' buffers hold their blocks, so `sound_kernel6` applies; the
    invariant and the core's owed transfers pass through unread. -/
theorem sound_body6 (c : Dev nD) (t : Fin cfg6.N) :
    bodyPre6 V c t ⊢ wp frame (wpE (defs₀ (F := F)) Variants.none c none) Set.univ (bodyAt6 t) (fun _ => bodyPost6 V c t) := by
  unfold bodyPre6 bodyPost6 bodyAt6
  simp only [before6_0, before6_1, before6_2, before6_3, before6_4, before6_5]
  rw [show (dat6 V c).Φ t.succ = (dat6 V c).Φ t.castSucc from rfl,
    show (dat6 V c).owesAt () t.succ = (dat6 V c).owesAt () t.castSucc from rfl,
    after6_0, after6_1, after6_2, after6_3, after6_4, after6_5, after6_6]
  iintro ⟨HΦ, Ho, ⟨%d0, H0⟩, ⟨%d1, H1⟩, ⟨%d2, H2⟩, ⟨%d3, H3⟩, ⟨%d4, H4⟩, ⟨%d5, H5⟩, ⟨%d6, H6⟩⟩
  iapply (sound_kernel6 c Set.univ _ _ _ _ _ _ _ _ _ _ _ _ _ _ _ (iblk6 V c 0 t) (iblk6 V c 1 t) (iblk6 V c 2 t) (iblk6 V c 3 t) (iblk6 V c 4 t) (iblk6 V c 5 t) _)
  isplitl [H0]; · iexact H0
  isplitl [H1]; · iexact H1
  isplitl [H2]; · iexact H2
  isplitl [H3]; · iexact H3
  isplitl [H4]; · iexact H4
  isplitl [H5]; · iexact H5
  isplitl [H6]; · iexists _; iexact H6
  iintro ⟨H0, H1, H2, H3, H4, H5, H6⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  iexact H6

/-- The library's body obligation, at every point. -/
theorem body_obligation6 (c : Dev nD) : BodyObligation (dat6 (F := F) V c) (defs₀ (F := F)) Variants.none () Set.univ := fun t => by
  rw [bigSep_W6, bigSep_W6]
  exact sound_body6 V c t

end Cert.Kernel.Hand

end
-- ==== Proof.KRun.lean ====
import proofs.«160011_j2121713844488_1_alg».proof.Proof.KMlp0
import proofs.«160011_j2121713844488_1_alg».proof.Proof.KBn1
import proofs.«160011_j2121713844488_1_alg».proof.Proof.KMlp2
import proofs.«160011_j2121713844488_1_alg».proof.Proof.KBn3
import proofs.«160011_j2121713844488_1_alg».proof.Proof.KMlp4
import proofs.«160011_j2121713844488_1_alg».proof.Proof.KBn5
import proofs.«160011_j2121713844488_1_alg».proof.Proof.KFc6
import proofs.«160011_j2121713844488_1_alg».proof.Proof.Gen.Kernel.Regions
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

/-! # The run of the whole program: seven kernel regions among seven stretches of host operations

The program is fourteen segments in a row: a stretch of host operations, then a kernel region, seven
times over. Three times a statistics region (it carries two rows of running sums across its 20 grid
points) is followed by a normalisation region; the last region is the classifier. Between two segments a core holds every unscoped buffer whole, at contents that are a
fold through the program: the launch memory, then what each host stretch computes from what it finds,
then, after a region, the region's arrays at what its pipeline leaves (an input as entered, an output at
its write-backs folded over the grid) and every other buffer as the region found it. The contents at
the fourteen boundaries are named `W0` … `W14`; a region's proof data are stated at its entry
contents. Each region is entered from one boundary's state and left at the next, so the segments chain
with nothing to prove between them, and the launch theorem for a list of segments gives the run: every
weakly fair execution terminates, nothing faults, the result array holds `W14` at its reference and the
thirteen argument arrays end as launched — no host operation writes an argument and a region either
does not stage it or stages it as an input. -/

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffer contents at each segment boundary: a fold through the program -/

/-- Core `c`'s buffers at launch. -/
abbrev W0 : Dev nD → Valuation τ sig (Elt F) := fun c b => (s₀ m ρ).mem ((c : Dev nD), b)

/-- After host stretch 0 (region 0's entry). -/
abbrev W1 : Dev nD → Valuation τ sig (Elt F) := fun c => StableHlo.after hostOps0 (W0 m ρ c)
/-- No operation of host stretch 0 writes a reference outside its list of written references. -/
theorem W1_of (c : Dev nD) (r : Ref sig .tc) (h : r ∉ (hostOps0_W : List (Ref sig .tc))) :
    W1 m ρ c (Proc.devRef .tc r) = W0 m ρ c (Proc.devRef .tc r) :=
  StableHlo.after_of_writes_sub hostOps0 _ hostOps0_writes h
/-- The same read at the TensorCore's references (what region 0's proof data take). -/
abbrev V1 : (c : Dev nD) → (b : Ref sig .tc) → Buf (Elt F) ((c : Thread nD τ).loc b) := fun c b => W1 m ρ c b
/-- At region 0's exit: its arrays at what the pipeline leaves (the inputs as entered, each output's
    write-backs folded over the grid), every other buffer as entered. -/
def W2 (c : Dev nD) : Valuation τ sig (Elt F) :=
  Pipeline.withArrays spec0 c (W1 m ρ c) fun w => (dat0 (V1 m ρ) c).arrAt w cfg0.N
theorem W2_arr (c : Dev nD) (w : Fin cfg0.W) :
    W2 m ρ c (Proc.devRef .tc (Pipeline.arrRef spec0 w)) = (dat0 (V1 m ρ) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m ρ c (Proc.devRef .tc b) = W1 m ρ c (Proc.devRef .tc b) := by
  unfold W2; exact Pipeline.withArrays_of_ne spec0 c _ _ b hb
/-- The same read at the TensorCore's references (region 0's exit contents). -/
abbrev V2 : (c : Dev nD) → (b : Ref sig .tc) → Buf (Elt F) ((c : Thread nD τ).loc b) := fun c b => W2 m ρ c b
/-- At region 0's exit each of its arrays holds what the pipeline leaves, and every other buffer what it
    held at entry. -/
theorem hF0 (c : Dev nD) (w : Fin cfg0.W) : (dat0 (V1 m ρ) c).arrAt w cfg0.N = V2 m ρ c (Pipeline.arrRef spec0 w) :=
  (W2_arr m ρ c w).symm
theorem hrest0 (c : Dev nD) : ∀ b, b ∉ Finset.univ.image (Pipeline.arrRef spec0) → V2 m ρ c b = V1 m ρ c b :=
  fun b hb => W2_of_ne m ρ c b fun w e => hb (Finset.mem_image.mpr ⟨w, Finset.mem_univ _, e⟩)

/-- After host stretch 1 (region 1's entry). -/
abbrev W3 : Dev nD → Valuation τ sig (Elt F) := fun c => StableHlo.after hostOps1 (W2 m ρ c)
/-- No operation of host stretch 1 writes a reference outside its list of written references. -/
theorem W3_of (c : Dev nD) (r : Ref sig .tc) (h : r ∉ (hostOps1_W : List (Ref sig .tc))) :
    W3 m ρ c (Proc.devRef .tc r) = W2 m ρ c (Proc.devRef .tc r) :=
  StableHlo.after_of_writes_sub hostOps1 _ hostOps1_writes h
/-- The same read at the TensorCore's references (what region 1's proof data take). -/
abbrev V3 : (c : Dev nD) → (b : Ref sig .tc) → Buf (Elt F) ((c : Thread nD τ).loc b) := fun c b => W3 m ρ c b
/-- At region 1's exit: its arrays at what the pipeline leaves (the inputs as entered, each output's
    write-backs folded over the grid), every other buffer as entered. -/
def W4 (c : Dev nD) : Valuation τ sig (Elt F) :=
  Pipeline.withArrays spec1 c (W3 m ρ c) fun w => (dat1 (V3 m ρ) c).arrAt w cfg1.N
theorem W4_arr (c : Dev nD) (w : Fin cfg1.W) :
    W4 m ρ c (Proc.devRef .tc (Pipeline.arrRef spec1 w)) = (dat1 (V3 m ρ) c).arrAt w cfg1.N := by
  unfold W4; exact Pipeline.withArrays_arr spec1 launch1.win.arr_inj c _ _ w
theorem W4_of_ne (c : Dev nD) (b : Ref sig .tc) (hb : ∀ w, Pipeline.arrRef spec1 w ≠ b) :
    W4 m ρ c (Proc.devRef .tc b) = W3 m ρ c (Proc.devRef .tc b) := by
  unfold W4; exact Pipeline.withArrays_of_ne spec1 c _ _ b hb
/-- The same read at the TensorCore's references (region 1's exit contents). -/
abbrev V4 : (c : Dev nD) → (b : Ref sig .tc) → Buf (Elt F) ((c : Thread nD τ).loc b) := fun c b => W4 m ρ c b
/-- At region 1's exit each of its arrays holds what the pipeline leaves, and every other buffer what it
    held at entry. -/
theorem hF1 (c : Dev nD) (w : Fin cfg1.W) : (dat1 (V3 m ρ) c).arrAt w cfg1.N = V4 m ρ c (Pipeline.arrRef spec1 w) :=
  (W4_arr m ρ c w).symm
theorem hrest1 (c : Dev nD) : ∀ b, b ∉ Finset.univ.image (Pipeline.arrRef spec1) → V4 m ρ c b = V3 m ρ c b :=
  fun b hb => W4_of_ne m ρ c b fun w e => hb (Finset.mem_image.mpr ⟨w, Finset.mem_univ _, e⟩)

/-- After host stretch 2 (region 2's entry). -/
abbrev W5 : Dev nD → Valuation τ sig (Elt F) := fun c => StableHlo.after hostOps2 (W4 m ρ c)
/-- No operation of host stretch 2 writes a reference outside its list of written references. -/
theorem W5_of (c : Dev nD) (r : Ref sig .tc) (h : r ∉ (hostOps2_W : List (Ref sig .tc))) :
    W5 m ρ c (Proc.devRef .tc r) = W4 m ρ c (Proc.devRef .tc r) :=
  StableHlo.after_of_writes_sub hostOps2 _ hostOps2_writes h
/-- The same read at the TensorCore's references (what region 2's proof data take). -/
abbrev V5 : (c : Dev nD) → (b : Ref sig .tc) → Buf (Elt F) ((c : Thread nD τ).loc b) := fun c b => W5 m ρ c b
/-- At region 2's exit: its arrays at what the pipeline leaves (the inputs as entered, each output's
    write-backs folded over the grid), every other buffer as entered. -/
def W6 (c : Dev nD) : Valuation τ sig (Elt F) :=
  Pipeline.withArrays spec2 c (W5 m ρ c) fun w => (dat2 (V5 m ρ) c).arrAt w cfg2.N
theorem W6_arr (c : Dev nD) (w : Fin cfg2.W) :
    W6 m ρ c (Proc.devRef .tc (Pipeline.arrRef spec2 w)) = (dat2 (V5 m ρ) c).arrAt w cfg2.N := by
  unfold W6; exact Pipeline.withArrays_arr spec2 launch2.win.arr_inj c _ _ w
theorem W6_of_ne (c : Dev nD) (b : Ref sig .tc) (hb : ∀ w, Pipeline.arrRef spec2 w ≠ b) :
    W6 m ρ c (Proc.devRef .tc b) = W5 m ρ c (Proc.devRef .tc b) := by
  unfold W6; exact Pipeline.withArrays_of_ne spec2 c _ _ b hb
/-- The same read at the TensorCore's references (region 2's exit contents). -/
abbrev V6 : (c : Dev nD) → (b : Ref sig .tc) → Buf (Elt F) ((c : Thread nD τ).loc b) := fun c b => W6 m ρ c b
/-- At region 2's exit each of its arrays holds what the pipeline leaves, and every other buffer what it
    held at entry. -/
theorem hF2 (c : Dev nD) (w : Fin cfg2.W) : (dat2 (V5 m ρ) c).arrAt w cfg2.N = V6 m ρ c (Pipeline.arrRef spec2 w) :=
  (W6_arr m ρ c w).symm
theorem hrest2 (c : Dev nD) : ∀ b, b ∉ Finset.univ.image (Pipeline.arrRef spec2) → V6 m ρ c b = V5 m ρ c b :=
  fun b hb => W6_of_ne m ρ c b fun w e => hb (Finset.mem_image.mpr ⟨w, Finset.mem_univ _, e⟩)

/-- After host stretch 3 (region 3's entry). -/
abbrev W7 : Dev nD → Valuation τ sig (Elt F) := fun c => StableHlo.after hostOps3 (W6 m ρ c)
/-- No operation of host stretch 3 writes a reference outside its list of written references. -/
theorem W7_of (c : Dev nD) (r : Ref sig .tc) (h : r ∉ (hostOps3_W : List (Ref sig .tc))) :
    W7 m ρ c (Proc.devRef .tc r) = W6 m ρ c (Proc.devRef .tc r) :=
  StableHlo.after_of_writes_sub hostOps3 _ hostOps3_writes h
/-- The same read at the TensorCore's references (what region 3's proof data take). -/
abbrev V7 : (c : Dev nD) → (b : Ref sig .tc) → Buf (Elt F) ((c : Thread nD τ).loc b) := fun c b => W7 m ρ c b
/-- At region 3's exit: its arrays at what the pipeline leaves (the inputs as entered, each output's
    write-backs folded over the grid), every other buffer as entered. -/
def W8 (c : Dev nD) : Valuation τ sig (Elt F) :=
  Pipeline.withArrays spec3 c (W7 m ρ c) fun w => (dat3 (V7 m ρ) c).arrAt w cfg3.N
theorem W8_arr (c : Dev nD) (w : Fin cfg3.W) :
    W8 m ρ c (Proc.devRef .tc (Pipeline.arrRef spec3 w)) = (dat3 (V7 m ρ) c).arrAt w cfg3.N := by
  unfold W8; exact Pipeline.withArrays_arr spec3 launch3.win.arr_inj c _ _ w
theorem W8_of_ne (c : Dev nD) (b : Ref sig .tc) (hb : ∀ w, Pipeline.arrRef spec3 w ≠ b) :
    W8 m ρ c (Proc.devRef .tc b) = W7 m ρ c (Proc.devRef .tc b) := by
  unfold W8; exact Pipeline.withArrays_of_ne spec3 c _ _ b hb
/-- The same read at the TensorCore's references (region 3's exit contents). -/
abbrev V8 : (c : Dev nD) → (b : Ref sig .tc) → Buf (Elt F) ((c : Thread nD τ).loc b) := fun c b => W8 m ρ c b
/-- At region 3's exit each of its arrays holds what the pipeline leaves, and every other buffer what it
    held at entry. -/
theorem hF3 (c : Dev nD) (w : Fin cfg3.W) : (dat3 (V7 m ρ) c).arrAt w cfg3.N = V8 m ρ c (Pipeline.arrRef spec3 w) :=
  (W8_arr m ρ c w).symm
theorem hrest3 (c : Dev nD) : ∀ b, b ∉ Finset.univ.image (Pipeline.arrRef spec3) → V8 m ρ c b = V7 m ρ c b :=
  fun b hb => W8_of_ne m ρ c b fun w e => hb (Finset.mem_image.mpr ⟨w, Finset.mem_univ _, e⟩)

/-- After host stretch 4 (region 4's entry). -/
abbrev W9 : Dev nD → Valuation τ sig (Elt F) := fun c => StableHlo.after hostOps4 (W8 m ρ c)
/-- No operation of host stretch 4 writes a reference outside its list of written references. -/
theorem W9_of (c : Dev nD) (r : Ref sig .tc) (h : r ∉ (hostOps4_W : List (Ref sig .tc))) :
    W9 m ρ c (Proc.devRef .tc r) = W8 m ρ c (Proc.devRef .tc r) :=
  StableHlo.after_of_writes_sub hostOps4 _ hostOps4_writes h
/-- The same read at the TensorCore's references (what region 4's proof data take). -/
abbrev V9 : (c : Dev nD) → (b : Ref sig .tc) → Buf (Elt F) ((c : Thread nD τ).loc b) := fun c b => W9 m ρ c b
/-- At region 4's exit: its arrays at what the pipeline leaves (the inputs as entered, each output's
    write-backs folded over the grid), every other buffer as entered. -/
def W10 (c : Dev nD) : Valuation τ sig (Elt F) :=
  Pipeline.withArrays spec4 c (W9 m ρ c) fun w => (dat4 (V9 m ρ) c).arrAt w cfg4.N
theorem W10_arr (c : Dev nD) (w : Fin cfg4.W) :
    W10 m ρ c (Proc.devRef .tc (Pipeline.arrRef spec4 w)) = (dat4 (V9 m ρ) c).arrAt w cfg4.N := by
  unfold W10; exact Pipeline.withArrays_arr spec4 launch4.win.arr_inj c _ _ w
theorem W10_of_ne (c : Dev nD) (b : Ref sig .tc) (hb : ∀ w, Pipeline.arrRef spec4 w ≠ b) :
    W10 m ρ c (Proc.devRef .tc b) = W9 m ρ c (Proc.devRef .tc b) := by
  unfold W10; exact Pipeline.withArrays_of_ne spec4 c _ _ b hb
/-- The same read at the TensorCore's references (region 4's exit contents). -/
abbrev V10 : (c : Dev nD) → (b : Ref sig .tc) → Buf (Elt F) ((c : Thread nD τ).loc b) := fun c b => W10 m ρ c b
/-- At region 4's exit each of its arrays holds what the pipeline leaves, and every other buffer what it
    held at entry. -/
theorem hF4 (c : Dev nD) (w : Fin cfg4.W) : (dat4 (V9 m ρ) c).arrAt w cfg4.N = V10 m ρ c (Pipeline.arrRef spec4 w) :=
  (W10_arr m ρ c w).symm
theorem hrest4 (c : Dev nD) : ∀ b, b ∉ Finset.univ.image (Pipeline.arrRef spec4) → V10 m ρ c b = V9 m ρ c b :=
  fun b hb => W10_of_ne m ρ c b fun w e => hb (Finset.mem_image.mpr ⟨w, Finset.mem_univ _, e⟩)

/-- After host stretch 5 (region 5's entry). -/
abbrev W11 : Dev nD → Valuation τ sig (Elt F) := fun c => StableHlo.after hostOps5 (W10 m ρ c)
/-- No operation of host stretch 5 writes a reference outside its list of written references. -/
theorem W11_of (c : Dev nD) (r : Ref sig .tc) (h : r ∉ (hostOps5_W : List (Ref sig .tc))) :
    W11 m ρ c (Proc.devRef .tc r) = W10 m ρ c (Proc.devRef .tc r) :=
  StableHlo.after_of_writes_sub hostOps5 _ hostOps5_writes h
/-- The same read at the TensorCore's references (what region 5's proof data take). -/
abbrev V11 : (c : Dev nD) → (b : Ref sig .tc) → Buf (Elt F) ((c : Thread nD τ).loc b) := fun c b => W11 m ρ c b
/-- At region 5's exit: its arrays at what the pipeline leaves (the inputs as entered, each output's
    write-backs folded over the grid), every other buffer as entered. -/
def W12 (c : Dev nD) : Valuation τ sig (Elt F) :=
  Pipeline.withArrays spec5 c (W11 m ρ c) fun w => (dat5 (V11 m ρ) c).arrAt w cfg5.N
theorem W12_arr (c : Dev nD) (w : Fin cfg5.W) :
    W12 m ρ c (Proc.devRef .tc (Pipeline.arrRef spec5 w)) = (dat5 (V11 m ρ) c).arrAt w cfg5.N := by
  unfold W12; exact Pipeline.withArrays_arr spec5 launch5.win.arr_inj c _ _ w
theorem W12_of_ne (c : Dev nD) (b : Ref sig .tc) (hb : ∀ w, Pipeline.arrRef spec5 w ≠ b) :
    W12 m ρ c (Proc.devRef .tc b) = W11 m ρ c (Proc.devRef .tc b) := by
  unfold W12; exact Pipeline.withArrays_of_ne spec5 c _ _ b hb
/-- The same read at the TensorCore's references (region 5's exit contents). -/
abbrev V12 : (c : Dev nD) → (b : Ref sig .tc) → Buf (Elt F) ((c : Thread nD τ).loc b) := fun c b => W12 m ρ c b
/-- At region 5's exit each of its arrays holds what the pipeline leaves, and every other buffer what it
    held at entry. -/
theorem hF5 (c : Dev nD) (w : Fin cfg5.W) : (dat5 (V11 m ρ) c).arrAt w cfg5.N = V12 m ρ c (Pipeline.arrRef spec5 w) :=
  (W12_arr m ρ c w).symm
theorem hrest5 (c : Dev nD) : ∀ b, b ∉ Finset.univ.image (Pipeline.arrRef spec5) → V12 m ρ c b = V11 m ρ c b :=
  fun b hb => W12_of_ne m ρ c b fun w e => hb (Finset.mem_image.mpr ⟨w, Finset.mem_univ _, e⟩)

/-- After host stretch 6 (region 6's entry). -/
abbrev W13 : Dev nD → Valuation τ sig (Elt F) := fun c => StableHlo.after hostOps6 (W12 m ρ c)
/-- No operation of host stretch 6 writes a reference outside its list of written references. -/
theorem W13_of (c : Dev nD) (r : Ref sig .tc) (h : r ∉ (hostOps6_W : List (Ref sig .tc))) :
    W13 m ρ c (Proc.devRef .tc r) = W12 m ρ c (Proc.devRef .tc r) :=
  StableHlo.after_of_writes_sub hostOps6 _ hostOps6_writes h
/-- The same read at the TensorCore's references (what region 6's proof data take). -/
abbrev V13 : (c : Dev nD) → (b : Ref sig .tc) → Buf (Elt F) ((c : Thread nD τ).loc b) := fun c b => W13 m ρ c b
/-- At region 6's exit: its arrays at what the pipeline leaves (the inputs as entered, each output's
    write-backs folded over the grid), every other buffer as entered. -/
def W14 (c : Dev nD) : Valuation τ sig (Elt F) :=
  Pipeline.withArrays spec6 c (W13 m ρ c) fun w => (dat6 (V13 m ρ) c).arrAt w cfg6.N
theorem W14_arr (c : Dev nD) (w : Fin cfg6.W) :
    W14 m ρ c (Proc.devRef .tc (Pipeline.arrRef spec6 w)) = (dat6 (V13 m ρ) c).arrAt w cfg6.N := by
  unfold W14; exact Pipeline.withArrays_arr spec6 launch6.win.arr_inj c _ _ w
theorem W14_of_ne (c : Dev nD) (b : Ref sig .tc) (hb : ∀ w, Pipeline.arrRef spec6 w ≠ b) :
    W14 m ρ c (Proc.devRef .tc b) = W13 m ρ c (Proc.devRef .tc b) := by
  unfold W14; exact Pipeline.withArrays_of_ne spec6 c _ _ b hb
/-- The same read at the TensorCore's references (region 6's exit contents). -/
abbrev V14 : (c : Dev nD) → (b : Ref sig .tc) → Buf (Elt F) ((c : Thread nD τ).loc b) := fun c b => W14 m ρ c b
/-- At region 6's exit each of its arrays holds what the pipeline leaves, and every other buffer what it
    held at entry. -/
theorem hF6 (c : Dev nD) (w : Fin cfg6.W) : (dat6 (V13 m ρ) c).arrAt w cfg6.N = V14 m ρ c (Pipeline.arrRef spec6 w) :=
  (W14_arr m ρ c w).symm
theorem hrest6 (c : Dev nD) : ∀ b, b ∉ Finset.univ.image (Pipeline.arrRef spec6) → V14 m ρ c b = V13 m ρ c b :=
  fun b hb => W14_of_ne m ρ c b fun w e => hb (Finset.mem_image.mpr ⟨w, Finset.mem_univ _, e⟩)

/-! ### The arguments end as launched: no host operation writes one, and a region either does not stage it
    or stages it as an input (the classifier reads its two matrices and its multiplier straight from
    arguments), so the fold at an argument's buffer walks back to the launch memory -/

theorem W14_main_arg0 (c : Dev nD) : W14 m ρ c (Proc.devRef .tc main_arg0) = m ((c : Thread nD τ).loc main_arg0) :=
  (W14_of_ne m ρ c main_arg0 (by decide)).trans <|
  (W13_of m ρ c main_arg0 (by decide)).trans <|
  (W12_of_ne m ρ c main_arg0 (by decide)).trans <|
  (W11_of m ρ c main_arg0 (by decide)).trans <|
  (W10_of_ne m ρ c main_arg0 (by decide)).trans <|
  (W9_of m ρ c main_arg0 (by decide)).trans <|
  (W8_of_ne m ρ c main_arg0 (by decide)).trans <|
  (W7_of m ρ c main_arg0 (by decide)).trans <|
  (W6_of_ne m ρ c main_arg0 (by decide)).trans <|
  (W5_of m ρ c main_arg0 (by decide)).trans <|
  (W4_of_ne m ρ c main_arg0 (by decide)).trans <|
  (W3_of m ρ c main_arg0 (by decide)).trans <|
  (W2_of_ne m ρ c main_arg0 (by decide)).trans <|
  (W1_of m ρ c main_arg0 (by decide)).trans <| rfl

theorem W14_main_arg1 (c : Dev nD) : W14 m ρ c (Proc.devRef .tc main_arg1) = m ((c : Thread nD τ).loc main_arg1) :=
  (W14_of_ne m ρ c main_arg1 (by decide)).trans <|
  (W13_of m ρ c main_arg1 (by decide)).trans <|
  (W12_of_ne m ρ c main_arg1 (by decide)).trans <|
  (W11_of m ρ c main_arg1 (by decide)).trans <|
  (W10_of_ne m ρ c main_arg1 (by decide)).trans <|
  (W9_of m ρ c main_arg1 (by decide)).trans <|
  (W8_of_ne m ρ c main_arg1 (by decide)).trans <|
  (W7_of m ρ c main_arg1 (by decide)).trans <|
  (W6_of_ne m ρ c main_arg1 (by decide)).trans <|
  (W5_of m ρ c main_arg1 (by decide)).trans <|
  (W4_of_ne m ρ c main_arg1 (by decide)).trans <|
  (W3_of m ρ c main_arg1 (by decide)).trans <|
  (W2_of_ne m ρ c main_arg1 (by decide)).trans <|
  (W1_of m ρ c main_arg1 (by decide)).trans <| rfl

theorem W14_main_arg2 (c : Dev nD) : W14 m ρ c (Proc.devRef .tc main_arg2) = m ((c : Thread nD τ).loc main_arg2) :=
  (W14_of_ne m ρ c main_arg2 (by decide)).trans <|
  (W13_of m ρ c main_arg2 (by decide)).trans <|
  (W12_of_ne m ρ c main_arg2 (by decide)).trans <|
  (W11_of m ρ c main_arg2 (by decide)).trans <|
  (W10_of_ne m ρ c main_arg2 (by decide)).trans <|
  (W9_of m ρ c main_arg2 (by decide)).trans <|
  (W8_of_ne m ρ c main_arg2 (by decide)).trans <|
  (W7_of m ρ c main_arg2 (by decide)).trans <|
  (W6_of_ne m ρ c main_arg2 (by decide)).trans <|
  (W5_of m ρ c main_arg2 (by decide)).trans <|
  (W4_of_ne m ρ c main_arg2 (by decide)).trans <|
  (W3_of m ρ c main_arg2 (by decide)).trans <|
  (W2_of_ne m ρ c main_arg2 (by decide)).trans <|
  (W1_of m ρ c main_arg2 (by decide)).trans <| rfl

theorem W14_main_arg3 (c : Dev nD) : W14 m ρ c (Proc.devRef .tc main_arg3) = m ((c : Thread nD τ).loc main_arg3) :=
  (W14_of_ne m ρ c main_arg3 (by decide)).trans <|
  (W13_of m ρ c main_arg3 (by decide)).trans <|
  (W12_of_ne m ρ c main_arg3 (by decide)).trans <|
  (W11_of m ρ c main_arg3 (by decide)).trans <|
  (W10_of_ne m ρ c main_arg3 (by decide)).trans <|
  (W9_of m ρ c main_arg3 (by decide)).trans <|
  (W8_of_ne m ρ c main_arg3 (by decide)).trans <|
  (W7_of m ρ c main_arg3 (by decide)).trans <|
  (W6_of_ne m ρ c main_arg3 (by decide)).trans <|
  (W5_of m ρ c main_arg3 (by decide)).trans <|
  (W4_of_ne m ρ c main_arg3 (by decide)).trans <|
  (W3_of m ρ c main_arg3 (by decide)).trans <|
  (W2_of_ne m ρ c main_arg3 (by decide)).trans <|
  (W1_of m ρ c main_arg3 (by decide)).trans <| rfl

theorem W14_main_arg4 (c : Dev nD) : W14 m ρ c (Proc.devRef .tc main_arg4) = m ((c : Thread nD τ).loc main_arg4) :=
  (W14_of_ne m ρ c main_arg4 (by decide)).trans <|
  (W13_of m ρ c main_arg4 (by decide)).trans <|
  (W12_of_ne m ρ c main_arg4 (by decide)).trans <|
  (W11_of m ρ c main_arg4 (by decide)).trans <|
  (W10_of_ne m ρ c main_arg4 (by decide)).trans <|
  (W9_of m ρ c main_arg4 (by decide)).trans <|
  (W8_of_ne m ρ c main_arg4 (by decide)).trans <|
  (W7_of m ρ c main_arg4 (by decide)).trans <|
  (W6_of_ne m ρ c main_arg4 (by decide)).trans <|
  (W5_of m ρ c main_arg4 (by decide)).trans <|
  (W4_of_ne m ρ c main_arg4 (by decide)).trans <|
  (W3_of m ρ c main_arg4 (by decide)).trans <|
  (W2_of_ne m ρ c main_arg4 (by decide)).trans <|
  (W1_of m ρ c main_arg4 (by decide)).trans <| rfl

theorem W14_main_arg5 (c : Dev nD) : W14 m ρ c (Proc.devRef .tc main_arg5) = m ((c : Thread nD τ).loc main_arg5) :=
  (W14_of_ne m ρ c main_arg5 (by decide)).trans <|
  (W13_of m ρ c main_arg5 (by decide)).trans <|
  (W12_of_ne m ρ c main_arg5 (by decide)).trans <|
  (W11_of m ρ c main_arg5 (by decide)).trans <|
  (W10_of_ne m ρ c main_arg5 (by decide)).trans <|
  (W9_of m ρ c main_arg5 (by decide)).trans <|
  (W8_of_ne m ρ c main_arg5 (by decide)).trans <|
  (W7_of m ρ c main_arg5 (by decide)).trans <|
  (W6_of_ne m ρ c main_arg5 (by decide)).trans <|
  (W5_of m ρ c main_arg5 (by decide)).trans <|
  (W4_of_ne m ρ c main_arg5 (by decide)).trans <|
  (W3_of m ρ c main_arg5 (by decide)).trans <|
  (W2_of_ne m ρ c main_arg5 (by decide)).trans <|
  (W1_of m ρ c main_arg5 (by decide)).trans <| rfl

theorem W14_main_arg6 (c : Dev nD) : W14 m ρ c (Proc.devRef .tc main_arg6) = m ((c : Thread nD τ).loc main_arg6) :=
  (W14_of_ne m ρ c main_arg6 (by decide)).trans <|
  (W13_of m ρ c main_arg6 (by decide)).trans <|
  (W12_of_ne m ρ c main_arg6 (by decide)).trans <|
  (W11_of m ρ c main_arg6 (by decide)).trans <|
  (W10_of_ne m ρ c main_arg6 (by decide)).trans <|
  (W9_of m ρ c main_arg6 (by decide)).trans <|
  (W8_of_ne m ρ c main_arg6 (by decide)).trans <|
  (W7_of m ρ c main_arg6 (by decide)).trans <|
  (W6_of_ne m ρ c main_arg6 (by decide)).trans <|
  (W5_of m ρ c main_arg6 (by decide)).trans <|
  (W4_of_ne m ρ c main_arg6 (by decide)).trans <|
  (W3_of m ρ c main_arg6 (by decide)).trans <|
  (W2_of_ne m ρ c main_arg6 (by decide)).trans <|
  (W1_of m ρ c main_arg6 (by decide)).trans <| rfl

theorem W14_main_arg7 (c : Dev nD) : W14 m ρ c (Proc.devRef .tc main_arg7) = m ((c : Thread nD τ).loc main_arg7) :=
  (W14_of_ne m ρ c main_arg7 (by decide)).trans <|
  (W13_of m ρ c main_arg7 (by decide)).trans <|
  (W12_of_ne m ρ c main_arg7 (by decide)).trans <|
  (W11_of m ρ c main_arg7 (by decide)).trans <|
  (W10_of_ne m ρ c main_arg7 (by decide)).trans <|
  (W9_of m ρ c main_arg7 (by decide)).trans <|
  (W8_of_ne m ρ c main_arg7 (by decide)).trans <|
  (W7_of m ρ c main_arg7 (by decide)).trans <|
  (W6_of_ne m ρ c main_arg7 (by decide)).trans <|
  (W5_of m ρ c main_arg7 (by decide)).trans <|
  (W4_of_ne m ρ c main_arg7 (by decide)).trans <|
  (W3_of m ρ c main_arg7 (by decide)).trans <|
  (W2_of_ne m ρ c main_arg7 (by decide)).trans <|
  (W1_of m ρ c main_arg7 (by decide)).trans <| rfl

theorem W14_main_arg8 (c : Dev nD) : W14 m ρ c (Proc.devRef .tc main_arg8) = m ((c : Thread nD τ).loc main_arg8) :=
  ((W14_arr m ρ c 1).trans (((dat6 (V13 m ρ) c).arrAt_in 1 rfl _).trans (A_eq6 (V13 m ρ) c 1))).trans <|
  (W13_of m ρ c main_arg8 (by decide)).trans <|
  (W12_of_ne m ρ c main_arg8 (by decide)).trans <|
  (W11_of m ρ c main_arg8 (by decide)).trans <|
  (W10_of_ne m ρ c main_arg8 (by decide)).trans <|
  (W9_of m ρ c main_arg8 (by decide)).trans <|
  (W8_of_ne m ρ c main_arg8 (by decide)).trans <|
  (W7_of m ρ c main_arg8 (by decide)).trans <|
  (W6_of_ne m ρ c main_arg8 (by decide)).trans <|
  (W5_of m ρ c main_arg8 (by decide)).trans <|
  (W4_of_ne m ρ c main_arg8 (by decide)).trans <|
  (W3_of m ρ c main_arg8 (by decide)).trans <|
  (W2_of_ne m ρ c main_arg8 (by decide)).trans <|
  (W1_of m ρ c main_arg8 (by decide)).trans <| rfl

theorem W14_main_arg9 (c : Dev nD) : W14 m ρ c (Proc.devRef .tc main_arg9) = m ((c : Thread nD τ).loc main_arg9) :=
  (W14_of_ne m ρ c main_arg9 (by decide)).trans <|
  (W13_of m ρ c main_arg9 (by decide)).trans <|
  (W12_of_ne m ρ c main_arg9 (by decide)).trans <|
  (W11_of m ρ c main_arg9 (by decide)).trans <|
  (W10_of_ne m ρ c main_arg9 (by decide)).trans <|
  (W9_of m ρ c main_arg9 (by decide)).trans <|
  (W8_of_ne m ρ c main_arg9 (by decide)).trans <|
  (W7_of m ρ c main_arg9 (by decide)).trans <|
  (W6_of_ne m ρ c main_arg9 (by decide)).trans <|
  (W5_of m ρ c main_arg9 (by decide)).trans <|
  (W4_of_ne m ρ c main_arg9 (by decide)).trans <|
  (W3_of m ρ c main_arg9 (by decide)).trans <|
  (W2_of_ne m ρ c main_arg9 (by decide)).trans <|
  (W1_of m ρ c main_arg9 (by decide)).trans <| rfl

theorem W14_main_arg10 (c : Dev nD) : W14 m ρ c (Proc.devRef .tc main_arg10) = m ((c : Thread nD τ).loc main_arg10) :=
  ((W14_arr m ρ c 3).trans (((dat6 (V13 m ρ) c).arrAt_in 3 rfl _).trans (A_eq6 (V13 m ρ) c 3))).trans <|
  (W13_of m ρ c main_arg10 (by decide)).trans <|
  (W12_of_ne m ρ c main_arg10 (by decide)).trans <|
  (W11_of m ρ c main_arg10 (by decide)).trans <|
  (W10_of_ne m ρ c main_arg10 (by decide)).trans <|
  (W9_of m ρ c main_arg10 (by decide)).trans <|
  (W8_of_ne m ρ c main_arg10 (by decide)).trans <|
  (W7_of m ρ c main_arg10 (by decide)).trans <|
  (W6_of_ne m ρ c main_arg10 (by decide)).trans <|
  (W5_of m ρ c main_arg10 (by decide)).trans <|
  (W4_of_ne m ρ c main_arg10 (by decide)).trans <|
  (W3_of m ρ c main_arg10 (by decide)).trans <|
  (W2_of_ne m ρ c main_arg10 (by decide)).trans <|
  (W1_of m ρ c main_arg10 (by decide)).trans <| rfl

theorem W14_main_arg11 (c : Dev nD) : W14 m ρ c (Proc.devRef .tc main_arg11) = m ((c : Thread nD τ).loc main_arg11) :=
  (W14_of_ne m ρ c main_arg11 (by decide)).trans <|
  (W13_of m ρ c main_arg11 (by decide)).trans <|
  (W12_of_ne m ρ c main_arg11 (by decide)).trans <|
  (W11_of m ρ c main_arg11 (by decide)).trans <|
  (W10_of_ne m ρ c main_arg11 (by decide)).trans <|
  (W9_of m ρ c main_arg11 (by decide)).trans <|
  (W8_of_ne m ρ c main_arg11 (by decide)).trans <|
  (W7_of m ρ c main_arg11 (by decide)).trans <|
  (W6_of_ne m ρ c main_arg11 (by decide)).trans <|
  (W5_of m ρ c main_arg11 (by decide)).trans <|
  (W4_of_ne m ρ c main_arg11 (by decide)).trans <|
  (W3_of m ρ c main_arg11 (by decide)).trans <|
  (W2_of_ne m ρ c main_arg11 (by decide)).trans <|
  (W1_of m ρ c main_arg11 (by decide)).trans <| rfl

theorem W14_main_arg12 (c : Dev nD) : W14 m ρ c (Proc.devRef .tc main_arg12) = m ((c : Thread nD τ).loc main_arg12) :=
  ((W14_arr m ρ c 5).trans (((dat6 (V13 m ρ) c).arrAt_in 5 rfl _).trans (A_eq6 (V13 m ρ) c 5))).trans <|
  (W13_of m ρ c main_arg12 (by decide)).trans <|
  (W12_of_ne m ρ c main_arg12 (by decide)).trans <|
  (W11_of m ρ c main_arg12 (by decide)).trans <|
  (W10_of_ne m ρ c main_arg12 (by decide)).trans <|
  (W9_of m ρ c main_arg12 (by decide)).trans <|
  (W8_of_ne m ρ c main_arg12 (by decide)).trans <|
  (W7_of m ρ c main_arg12 (by decide)).trans <|
  (W6_of_ne m ρ c main_arg12 (by decide)).trans <|
  (W5_of m ρ c main_arg12 (by decide)).trans <|
  (W4_of_ne m ρ c main_arg12 (by decide)).trans <|
  (W3_of m ρ c main_arg12 (by decide)).trans <|
  (W2_of_ne m ρ c main_arg12 (by decide)).trans <|
  (W1_of m ρ c main_arg12 (by decide)).trans <| rfl

/-! ## The proof data family and the thread state -/

/-- The prefetched tables' admissible contents: no pipeline has a table. -/
abbrev adm : (p : Fin 7) → (pcfgs (F := F) p).Adm := fun p => (cfgs p).toPCfg_adm
/-- Every pipeline's proof data, each at its region's entry contents. -/
def pdats : (p : Fin 7) → (c : Dev nD) → Dat τ (Elt F) Unit ℕ (UR sig nD τ) ℕ (Pipeline.pin (pcfgs (F := F)) adm p) c
  | ⟨0, _⟩ => fun c => dat0 (V1 m ρ) c
  | ⟨1, _⟩ => fun c => dat1 (V3 m ρ) c
  | ⟨2, _⟩ => fun c => dat2 (V5 m ρ) c
  | ⟨3, _⟩ => fun c => dat3 (V7 m ρ) c
  | ⟨4, _⟩ => fun c => dat4 (V9 m ρ) c
  | ⟨5, _⟩ => fun c => dat5 (V11 m ρ) c
  | ⟨6, _⟩ => fun c => dat6 (V13 m ρ) c
abbrev 𝒱₀ : Variants := Variants.none
/-- No core owes another anything: no level is assigned. -/
abbrev L : GSem nD τ sig → Finset Unit := fun _ => ∅
abbrev lv : GSem nD τ sig → Unit → ℕ := fun _ _ => 0
/-- What rides beside the buffers through every segment: the core's generator register at some state and
    its owed transfers, at nothing. -/
abbrev R (c : Dev nD) : sProp 𝕄 := iprop((∃ r, prngReg c r) ∗ ∃ W, owes (c : Thread nD τ) (0 : CellTallies nD τ sig Unit) W)
/-- A host stretch as a segment: over the unscoped references from the contents `W`, `R` riding along; it
    ends with those references at the stretch's result from `W`, the next boundary's contents by name. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

/-- No operation of host stretch 0 allocates a buffer. -/
theorem hostOps0_fresh : (hostOps0 : List (HloOp τ sig (Elt F))).Forall fun op => op.fresh = ∅ := by
  simp only [List.Forall]; repeat' constructor
/-- No operation of host stretch 1 allocates a buffer. -/
theorem hostOps1_fresh : (hostOps1 : List (HloOp τ sig (Elt F))).Forall fun op => op.fresh = ∅ := by
  simp only [List.Forall]; repeat' constructor
/-- No operation of host stretch 2 allocates a buffer. -/
theorem hostOps2_fresh : (hostOps2 : List (HloOp τ sig (Elt F))).Forall fun op => op.fresh = ∅ := by
  simp only [List.Forall]; repeat' constructor
/-- No operation of host stretch 3 allocates a buffer. -/
theorem hostOps3_fresh : (hostOps3 : List (HloOp τ sig (Elt F))).Forall fun op => op.fresh = ∅ := by
  simp only [List.Forall]; repeat' constructor
/-- No operation of host stretch 4 allocates a buffer. -/
theorem hostOps4_fresh : (hostOps4 : List (HloOp τ sig (Elt F))).Forall fun op => op.fresh = ∅ := by
  simp only [List.Forall]; repeat' constructor
/-- No operation of host stretch 5 allocates a buffer. -/
theorem hostOps5_fresh : (hostOps5 : List (HloOp τ sig (Elt F))).Forall fun op => op.fresh = ∅ := by
  simp only [List.Forall]; repeat' constructor
/-- No operation of host stretch 6 allocates a buffer. -/
theorem hostOps6_fresh : (hostOps6 : List (HloOp τ sig (Elt F))).Forall fun op => op.fresh = ∅ := by
  simp only [List.Forall]; repeat' constructor
/-- An unscoped TensorCore reference is among those the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without the owed transfers: every unscoped buffer at the last boundary's
    contents `W14`, the generator register at some state. -/
abbrev Tₙ (c : Dev nD) : sProp 𝕄 := iprop(StableHlo.held (c : Thread nD τ) (Pipeline.ucRefs τ sig) (W14 m ρ c) ∗ ∃ r, prngReg c r)

/-! ## The regions as segments -/

-- a library lemma stated over a pinned configuration unifies with the printed one only when unification may
-- unfold plain definitions in a metavariable's type
set_option backward.isDefEq.respectTransparency.types false in
/-- Region 0 over the thread state: entered from every unscoped buffer at `W1`, left at `W2`.
    Its arrays are split out of the unscoped buffers and put back at the exit contents; the generator
    register goes into the region's invariant and comes back (the invariant names the two running-sum rows between points; before the first point and after the last it is the plain one); nothing owed; no semaphore of the
    kernel's own. -/
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V1 m ρ) c).loose
  hwaits := Pipeline.hwaits_of_owed_zero _ _ _ _ L lv 0 fun _ _ => rfl
  pre c := iprop(StableHlo.held (c : Thread nD τ) (Pipeline.ucRefs τ sig) (W1 m ρ c) ∗ R c)
  post c := iprop(StableHlo.held (c : Thread nD τ) (Pipeline.ucRefs τ sig) (W2 m ρ c) ∗ R c)
  X c := iprop(∃ r, prngReg c r)
  Y c := iprop(∃ r, prngReg c r)
  Z c := Pipeline.unscopedRest (Ix := Unit) (Name := ℕ) (U := UR sig nD τ) (Lvl := ℕ) spec0 c (V1 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (V1 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = (dat0 (V1 m ρ) c).Φ 0 from rfl]
    refine (?_ : _ ⊢ Pipeline.ΦA spec0 c).trans (hin0 (V1 m ρ) c)
    unfold Pipeline.ΦA
    iintro ⟨Hp, -, Hr⟩
    isplitl [Hr]; · iexact Hr
    iexact Hp
  hout c := by
    rw [Pipeline.ownSems0_none, show (pdats m ρ 0 c).Φ (Fin.last _) = (dat0 (V1 m ρ) c).Φ (Fin.last cfg0.N) from rfl]
    refine (hout0 (V1 m ρ) c).trans (?_ : Pipeline.ΦA spec0 c ⊢ _)
    unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (V1 m ρ c) (V2 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

-- a library lemma stated over a pinned configuration unifies with the printed one only when unification may
-- unfold plain definitions in a metavariable's type
set_option backward.isDefEq.respectTransparency.types false in
/-- Region 1 over the thread state: entered from every unscoped buffer at `W3`, left at `W4`.
    Its arrays are split out of the unscoped buffers and put back at the exit contents; the generator
    register goes into the region's invariant and comes back; nothing owed; no semaphore of the
    kernel's own. -/
def reg1 : Pipeline.RegionSeg (pcfgs (F := F)) adm (pdats m ρ) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V3 m ρ) c).loose
  hwaits := Pipeline.hwaits_of_owed_zero _ _ _ _ L lv 1 fun _ _ => rfl
  pre c := iprop(StableHlo.held (c : Thread nD τ) (Pipeline.ucRefs τ sig) (W3 m ρ c) ∗ R c)
  post c := iprop(StableHlo.held (c : Thread nD τ) (Pipeline.ucRefs τ sig) (W4 m ρ c) ∗ R c)
  X c := iprop(∃ r, prngReg c r)
  Y c := iprop(∃ r, prngReg c r)
  Z c := Pipeline.unscopedRest (Ix := Unit) (Name := ℕ) (U := UR sig nD τ) (Lvl := ℕ) spec1 c (V3 m ρ c)
  hentry c := by
    rw [Pipeline.ownSems0_none]
    have hsplit := Pipeline.arrays_of_unscopedBufs (p := 1) (pcfgs (F := F)) adm (pdats m ρ) launch1.win launch1.arr_whole c
      ((pdats m ρ 1 c).share_full fun _ => rfl) (V3 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m ρ 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m ρ) ((pdats m ρ 1 c).share_full fun _ => rfl)
      (V3 m ρ c) (V4 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

-- a library lemma stated over a pinned configuration unifies with the printed one only when unification may
-- unfold plain definitions in a metavariable's type
set_option backward.isDefEq.respectTransparency.types false in
/-- Region 2 over the thread state: entered from every unscoped buffer at `W5`, left at `W6`.
    Its arrays are split out of the unscoped buffers and put back at the exit contents; the generator
    register goes into the region's invariant and comes back (the invariant names the two running-sum rows between points; before the first point and after the last it is the plain one); nothing owed; no semaphore of the
    kernel's own. -/
def reg2 : Pipeline.RegionSeg (pcfgs (F := F)) adm (pdats m ρ) () defs₀ 𝒱₀ L lv 2 where
  win := launch2.win.to₀
  block_pos := launch2.block_pos
  stage_whole := launch2.stage_whole
  K := PEmpty
  osem k := k.elim
  ho := Pipeline.OwnSemFacts.none _
  hbody c := (body_obligation2 (V5 m ρ) c).loose
  hwaits := Pipeline.hwaits_of_owed_zero _ _ _ _ L lv 2 fun _ _ => rfl
  pre c := iprop(StableHlo.held (c : Thread nD τ) (Pipeline.ucRefs τ sig) (W5 m ρ c) ∗ R c)
  post c := iprop(StableHlo.held (c : Thread nD τ) (Pipeline.ucRefs τ sig) (W6 m ρ c) ∗ R c)
  X c := iprop(∃ r, prngReg c r)
  Y c := iprop(∃ r, prngReg c r)
  Z c := Pipeline.unscopedRest (Ix := Unit) (Name := ℕ) (U := UR sig nD τ) (Lvl := ℕ) spec2 c (V5 m ρ c)
  hentry c := by
    rw [Pipeline.ownSems0_none]
    have hsplit := Pipeline.arrays_of_unscopedBufs (p := 2) (pcfgs (F := F)) adm (pdats m ρ) launch2.win launch2.arr_whole c
      ((pdats m ρ 2 c).share_full fun _ => rfl) (V5 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 2 c).Φ 0 = (dat2 (V5 m ρ) c).Φ 0 from rfl]
    refine (?_ : _ ⊢ Pipeline.ΦA spec2 c).trans (hin2 (V5 m ρ) c)
    unfold Pipeline.ΦA
    iintro ⟨Hp, -, Hr⟩
    isplitl [Hr]; · iexact Hr
    iexact Hp
  hout c := by
    rw [Pipeline.ownSems0_none, show (pdats m ρ 2 c).Φ (Fin.last _) = (dat2 (V5 m ρ) c).Φ (Fin.last cfg2.N) from rfl]
    refine (hout2 (V5 m ρ) c).trans (?_ : Pipeline.ΦA spec2 c ⊢ _)
    unfold Pipeline.ΦA
    iintro ⟨Hr, Hp⟩
    isplitl [Hp]; · iexact Hp
    isplitr; · iempintro
    iexact Hr
  hexit c := by
    have hjoin := Pipeline.unscopedBufs_of_arrays (p := 2) (pcfgs (F := F)) adm (Ix := Unit) (Name := ℕ) (U := UR sig nD τ) (Lvl := ℕ)
      launch2.win launch2.arr_whole c (pdats m ρ) ((pdats m ρ 2 c).share_full fun _ => rfl)
      (V5 m ρ c) (V6 m ρ c) ((pdats m ρ 2 c).arrAt · cfg2.N) (hF2 m ρ c) (hrest2 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

-- a library lemma stated over a pinned configuration unifies with the printed one only when unification may
-- unfold plain definitions in a metavariable's type
set_option backward.isDefEq.respectTransparency.types false in
/-- Region 3 over the thread state: entered from every unscoped buffer at `W7`, left at `W8`.
    Its arrays are split out of the unscoped buffers and put back at the exit contents; the generator
    register goes into the region's invariant and comes back; nothing owed; no semaphore of the
    kernel's own. -/
def reg3 : Pipeline.RegionSeg (pcfgs (F := F)) adm (pdats m ρ) () defs₀ 𝒱₀ L lv 3 where
  win := launch3.win.to₀
  block_pos := launch3.block_pos
  stage_whole := launch3.stage_whole
  K := PEmpty
  osem k := k.elim
  ho := Pipeline.OwnSemFacts.none _
  hbody c := (body_obligation3 (V7 m ρ) c).loose
  hwaits := Pipeline.hwaits_of_owed_zero _ _ _ _ L lv 3 fun _ _ => rfl
  pre c := iprop(StableHlo.held (c : Thread nD τ) (Pipeline.ucRefs τ sig) (W7 m ρ c) ∗ R c)
  post c := iprop(StableHlo.held (c : Thread nD τ) (Pipeline.ucRefs τ sig) (W8 m ρ c) ∗ R c)
  X c := iprop(∃ r, prngReg c r)
  Y c := iprop(∃ r, prngReg c r)
  Z c := Pipeline.unscopedRest (Ix := Unit) (Name := ℕ) (U := UR sig nD τ) (Lvl := ℕ) spec3 c (V7 m ρ c)
  hentry c := by
    rw [Pipeline.ownSems0_none]
    have hsplit := Pipeline.arrays_of_unscopedBufs (p := 3) (pcfgs (F := F)) adm (pdats m ρ) launch3.win launch3.arr_whole c
      ((pdats m ρ 3 c).share_full fun _ => rfl) (V7 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 3 c).Φ 0 = Pipeline.ΦA spec3 c from rfl]; unfold Pipeline.ΦA
    iintro ⟨Hp, -, Hr⟩
    isplitl [Hr]; · iexact Hr
    iexact Hp
  hout c := by
    rw [Pipeline.ownSems0_none, show (pdats m ρ 3 c).Φ (Fin.last _) = Pipeline.ΦA spec3 c from rfl]; unfold Pipeline.ΦA
    iintro ⟨Hr, Hp⟩
    isplitl [Hp]; · iexact Hp
    isplitr; · iempintro
    iexact Hr
  hexit c := by
    have hjoin := Pipeline.unscopedBufs_of_arrays (p := 3) (pcfgs (F := F)) adm (Ix := Unit) (Name := ℕ) (U := UR sig nD τ) (Lvl := ℕ)
      launch3.win launch3.arr_whole c (pdats m ρ) ((pdats m ρ 3 c).share_full fun _ => rfl)
      (V7 m ρ c) (V8 m ρ c) ((pdats m ρ 3 c).arrAt · cfg3.N) (hF3 m ρ c) (hrest3 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

-- a library lemma stated over a pinned configuration unifies with the printed one only when unification may
-- unfold plain definitions in a metavariable's type
set_option backward.isDefEq.respectTransparency.types false in
/-- Region 4 over the thread state: entered from every unscoped buffer at `W9`, left at `W10`.
    Its arrays are split out of the unscoped buffers and put back at the exit contents; the generator
    register goes into the region's invariant and comes back (the invariant names the two running-sum rows between points; before the first point and after the last it is the plain one); nothing owed; no semaphore of the
    kernel's own. -/
def reg4 : Pipeline.RegionSeg (pcfgs (F := F)) adm (pdats m ρ) () defs₀ 𝒱₀ L lv 4 where
  win := launch4.win.to₀
  block_pos := launch4.block_pos
  stage_whole := launch4.stage_whole
  K := PEmpty
  osem k := k.elim
  ho := Pipeline.OwnSemFacts.none _
  hbody c := (body_obligation4 (V9 m ρ) c).loose
  hwaits := Pipeline.hwaits_of_owed_zero _ _ _ _ L lv 4 fun _ _ => rfl
  pre c := iprop(StableHlo.held (c : Thread nD τ) (Pipeline.ucRefs τ sig) (W9 m ρ c) ∗ R c)
  post c := iprop(StableHlo.held (c : Thread nD τ) (Pipeline.ucRefs τ sig) (W10 m ρ c) ∗ R c)
  X c := iprop(∃ r, prngReg c r)
  Y c := iprop(∃ r, prngReg c r)
  Z c := Pipeline.unscopedRest (Ix := Unit) (Name := ℕ) (U := UR sig nD τ) (Lvl := ℕ) spec4 c (V9 m ρ c)
  hentry c := by
    rw [Pipeline.ownSems0_none]
    have hsplit := Pipeline.arrays_of_unscopedBufs (p := 4) (pcfgs (F := F)) adm (pdats m ρ) launch4.win launch4.arr_whole c
      ((pdats m ρ 4 c).share_full fun _ => rfl) (V9 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 4 c).Φ 0 = (dat4 (V9 m ρ) c).Φ 0 from rfl]
    refine (?_ : _ ⊢ Pipeline.ΦA spec4 c).trans (hin4 (V9 m ρ) c)
    unfold Pipeline.ΦA
    iintro ⟨Hp, -, Hr⟩
    isplitl [Hr]; · iexact Hr
    iexact Hp
  hout c := by
    rw [Pipeline.ownSems0_none, show (pdats m ρ 4 c).Φ (Fin.last _) = (dat4 (V9 m ρ) c).Φ (Fin.last cfg4.N) from rfl]
    refine (hout4 (V9 m ρ) c).trans (?_ : Pipeline.ΦA spec4 c ⊢ _)
    unfold Pipeline.ΦA
    iintro ⟨Hr, Hp⟩
    isplitl [Hp]; · iexact Hp
    isplitr; · iempintro
    iexact Hr
  hexit c := by
    have hjoin := Pipeline.unscopedBufs_of_arrays (p := 4) (pcfgs (F := F)) adm (Ix := Unit) (Name := ℕ) (U := UR sig nD τ) (Lvl := ℕ)
      launch4.win launch4.arr_whole c (pdats m ρ) ((pdats m ρ 4 c).share_full fun _ => rfl)
      (V9 m ρ c) (V10 m ρ c) ((pdats m ρ 4 c).arrAt · cfg4.N) (hF4 m ρ c) (hrest4 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

-- a library lemma stated over a pinned configuration unifies with the printed one only when unification may
-- unfold plain definitions in a metavariable's type
set_option backward.isDefEq.respectTransparency.types false in
/-- Region 5 over the thread state: entered from every unscoped buffer at `W11`, left at `W12`.
    Its arrays are split out of the unscoped buffers and put back at the exit contents; the generator
    register goes into the region's invariant and comes back; nothing owed; no semaphore of the
    kernel's own. -/
def reg5 : Pipeline.RegionSeg (pcfgs (F := F)) adm (pdats m ρ) () defs₀ 𝒱₀ L lv 5 where
  win := launch5.win.to₀
  block_pos := launch5.block_pos
  stage_whole := launch5.stage_whole
  K := PEmpty
  osem k := k.elim
  ho := Pipeline.OwnSemFacts.none _
  hbody c := (body_obligation5 (V11 m ρ) c).loose
  hwaits := Pipeline.hwaits_of_owed_zero _ _ _ _ L lv 5 fun _ _ => rfl
  pre c := iprop(StableHlo.held (c : Thread nD τ) (Pipeline.ucRefs τ sig) (W11 m ρ c) ∗ R c)
  post c := iprop(StableHlo.held (c : Thread nD τ) (Pipeline.ucRefs τ sig) (W12 m ρ c) ∗ R c)
  X c := iprop(∃ r, prngReg c r)
  Y c := iprop(∃ r, prngReg c r)
  Z c := Pipeline.unscopedRest (Ix := Unit) (Name := ℕ) (U := UR sig nD τ) (Lvl := ℕ) spec5 c (V11 m ρ c)
  hentry c := by
    rw [Pipeline.ownSems0_none]
    have hsplit := Pipeline.arrays_of_unscopedBufs (p := 5) (pcfgs (F := F)) adm (pdats m ρ) launch5.win launch5.arr_whole c
      ((pdats m ρ 5 c).share_full fun _ => rfl) (V11 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 5 c).Φ 0 = Pipeline.ΦA spec5 c from rfl]; unfold Pipeline.ΦA
    iintro ⟨Hp, -, Hr⟩
    isplitl [Hr]; · iexact Hr
    iexact Hp
  hout c := by
    rw [Pipeline.ownSems0_none, show (pdats m ρ 5 c).Φ (Fin.last _) = Pipeline.ΦA spec5 c from rfl]; unfold Pipeline.ΦA
    iintro ⟨Hr, Hp⟩
    isplitl [Hp]; · iexact Hp
    isplitr; · iempintro
    iexact Hr
  hexit c := by
    have hjoin := Pipeline.unscopedBufs_of_arrays (p := 5) (pcfgs (F := F)) adm (Ix := Unit) (Name := ℕ) (U := UR sig nD τ) (Lvl := ℕ)
      launch5.win launch5.arr_whole c (pdats m ρ) ((pdats m ρ 5 c).share_full fun _ => rfl)
      (V11 m ρ c) (V12 m ρ c) ((pdats m ρ 5 c).arrAt · cfg5.N) (hF5 m ρ c) (hrest5 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

-- a library lemma stated over a pinned configuration unifies with the printed one only when unification may
-- unfold plain definitions in a metavariable's type
set_option backward.isDefEq.respectTransparency.types false in
/-- Region 6 over the thread state: entered from every unscoped buffer at `W13`, left at `W14` (what the launch reads at the end).
    Its arrays are split out of the unscoped buffers and put back at the exit contents; the generator
    register goes into the region's invariant and comes back; nothing owed; no semaphore of the
    kernel's own. -/
def reg6 : Pipeline.RegionSeg (pcfgs (F := F)) adm (pdats m ρ) () defs₀ 𝒱₀ L lv 6 where
  win := launch6.win.to₀
  block_pos := launch6.block_pos
  stage_whole := launch6.stage_whole
  K := PEmpty
  osem k := k.elim
  ho := Pipeline.OwnSemFacts.none _
  hbody c := (body_obligation6 (V13 m ρ) c).loose
  hwaits := Pipeline.hwaits_of_owed_zero _ _ _ _ L lv 6 fun _ _ => rfl
  pre c := iprop(StableHlo.held (c : Thread nD τ) (Pipeline.ucRefs τ sig) (W13 m ρ c) ∗ R c)
  post c := iprop(Tₙ m ρ c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec6 c (V13 m ρ c)
  hentry c := by
    rw [Pipeline.ownSems0_none]
    have hsplit := Pipeline.arrays_of_unscopedBufs (p := 6) (pcfgs (F := F)) adm (pdats m ρ) launch6.win launch6.arr_whole c
      ((pdats m ρ 6 c).share_full fun _ => rfl) (V13 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 6 c).Φ 0 = Pipeline.ΦA spec6 c from rfl]; unfold Pipeline.ΦA
    iintro ⟨Hp, -, Hr⟩
    isplitl [Hr]; · iexact Hr
    iexact Hp
  hout c := by
    rw [Pipeline.ownSems0_none, show (pdats m ρ 6 c).Φ (Fin.last _) = Pipeline.ΦA spec6 c from rfl]; unfold Pipeline.ΦA
    iintro ⟨Hr, Hp⟩
    isplitl [Hp]; · iexact Hp
    isplitr; · iempintro
    iexact Hr
  hexit c := by
    have hjoin := Pipeline.unscopedBufs_of_arrays (p := 6) (pcfgs (F := F)) adm (Ix := Unit) (Name := ℕ) (U := UR sig nD τ) (Lvl := ℕ)
      launch6.win launch6.arr_whole c (pdats m ρ) ((pdats m ρ 6 c).share_full fun _ => rfl)
      (V13 m ρ c) (V14 m ρ c) ((pdats m ρ 6 c).arrAt · cfg6.N) (hF6 m ρ c) (hrest6 m ρ c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-! ## The program as segments, and the launch -/

/-- The program's 14 segments in order: a host segment per stretch from its boundary's contents, a region
    per kernel call. -/
abbrev segs : List (Pipeline.Seg (pcfgs (F := F)) adm (pdats m ρ) () defs₀ 𝒱₀ L lv) :=
  [ .host (hseg hostOps0 hostOps0_sub hostOps0_fresh (W0 m ρ)),
    .region (reg0 m ρ),
    .host (hseg hostOps1 hostOps1_sub hostOps1_fresh (W2 m ρ)),
    .region (reg1 m ρ),
    .host (hseg hostOps2 hostOps2_sub hostOps2_fresh (W4 m ρ)),
    .region (reg2 m ρ),
    .host (hseg hostOps3 hostOps3_sub hostOps3_fresh (W6 m ρ)),
    .region (reg3 m ρ),
    .host (hseg hostOps4 hostOps4_sub hostOps4_fresh (W8 m ρ)),
    .region (reg4 m ρ),
    .host (hseg hostOps5 hostOps5_sub hostOps5_fresh (W10 m ρ)),
    .region (reg5 m ρ),
    .host (hseg hostOps6 hostOps6_sub hostOps6_fresh (W12 m ρ)),
    .region (reg6 m ρ) ]
/-- The program IS the run of the segments. -/
theorem main_run (c : Dev nD) : main (F := F) c = Pipeline.Seg.run (segs m ρ) := (main_chain c).trans (by chain_rfl)

-- the launch theorem's implicit arguments are found by unifying its conclusion with this one, which takes
-- unfolding plain definitions in a metavariable's type
set_option backward.isDefEq.respectTransparency.types false in
/-- THE RUN, at any float instance: from any memory with zero counters, every weakly fair execution of the
    program on the TensorCores terminates, nothing faulting, and every final state has the result array at
    the fold's last contents and the thirteen argument arrays as launched. -/
theorem run : θ_run defs (onTc (τ := τ) (main (F := F))) ⟨m, fun _ => 0, ρ⟩ (fun r => ∀ c : Dev nD,
      r.2.mem ((c.tc : Thread nD τ).loc main_v111) = W14 m ρ c (Proc.devRef .tc main_v111)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W14 m ρ c b)
    (hfin := fun c s' => by
      iintro ⟨⟨Hh, -⟩, HSI⟩
      unfold StableHlo.held
      imodintro
      iapply (pointsTo_read_all (Pipeline.ucRefs τ sig) (fun b => (((c : Thread nD τ)).1, b)) (W14 m ρ c) s')
      isplitl [Hh] <;> iassumption)
    (hQ := fun s h c =>
      ⟨h c _ (mem_uc main_v111 (by decide)),
        (h c _ (mem_uc main_arg0 (by decide))).trans (W14_main_arg0 m ρ c),
        (h c _ (mem_uc main_arg1 (by decide))).trans (W14_main_arg1 m ρ c),
        (h c _ (mem_uc main_arg2 (by decide))).trans (W14_main_arg2 m ρ c),
        (h c _ (mem_uc main_arg3 (by decide))).trans (W14_main_arg3 m ρ c),
        (h c _ (mem_uc main_arg4 (by decide))).trans (W14_main_arg4 m ρ c),
        (h c _ (mem_uc main_arg5 (by decide))).trans (W14_main_arg5 m ρ c),
        (h c _ (mem_uc main_arg6 (by decide))).trans (W14_main_arg6 m ρ c),
        (h c _ (mem_uc main_arg7 (by decide))).trans (W14_main_arg7 m ρ c),
        (h c _ (mem_uc main_arg8 (by decide))).trans (W14_main_arg8 m ρ c),
        (h c _ (mem_uc main_arg9 (by decide))).trans (W14_main_arg9 m ρ c),
        (h c _ (mem_uc main_arg10 (by decide))).trans (W14_main_arg10 m ρ c),
        (h c _ (mem_uc main_arg11 (by decide))).trans (W14_main_arg11 m ρ c),
        (h c _ (mem_uc main_arg12 (by decide))).trans (W14_main_arg12 m ρ c)⟩)

/-- THE FRAME, at any float instance: the run with the result's clause dropped. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)) :=
  (θ_run defs _ _).mono (fun _ h c => (h c).2) (run m ρ)

end Cert.Kernel.Hand

end
-- ==== Proof.KiMlp0Runs.lean ====
/-
  Region 0 (the first layer's two-layer perceptron with running column sums): what its three control cases share.
  The body branches twice on the grid position: at the first point it zeroes the two running-sum scratch rows, at the
  last point it copies them into the two [1,128] outputs; in between it only adds the block's column sums of z and of z².
  Here: each window's block as read off the array the region finds, the two conditions decided over the 20 points,
  where the two [1,128] outputs are idle, and the staging and scratch memrefs the body is run on.
-/
import proofs.«160011_j2121713844488_1_alg».proof.Proof.Gen.KernelIdeal.Launch
import proofs.«160011_j2121713844488_1_alg».proof.Proof.Gen.KernelIdeal.Skeleton
import proofs.«160011_j2121713844488_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Region0

variable (V : (c : Dev nD) → (b : Ref sig .tc) → Buf (Elt F) ((c : Thread nD τ).loc b))

/-- Window `w`'s block at point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- Input window 0's staging buffer holds its block at every point, fetched there or not. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

/-- Input window 1's staging buffer holds its block at every point, fetched there or not. -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

/-- Input window 2's staging buffer holds its block at every point, fetched there or not. -/
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)

/-- Input window 3's staging buffer holds its block at every point, fetched there or not. -/
theorem before0_3_of {c : Dev nD} (dat : Dat τ (Elt F) Unit ℕ (UR sig nD τ) ℕ cfg0 c) (hA : dat.A 3 = V c (Pipeline.arrRef spec0 3))
    (hafter : ∀ t, dat.after 3 t = iblk0 V c 3 t) (t : Fin cfg0.N) (d) : dat.before 3 t d = iblk0 V c 3 t :=
  (dat.before_in_eq_fetched 3 rfl (fun _ => rfl) (fun _ _ _ => rfl) (fun t => by rw [hafter]; unfold Dat.blockOf iblk0; rw [hA]; try rfl) t d).trans
    (by unfold Dat.fetched Dat.blockOf iblk0; rw [hA]; try rfl)

/-- Input window 4's staging buffer holds its block at every point, fetched there or not. -/
theorem before0_4_of {c : Dev nD} (dat : Dat τ (Elt F) Unit ℕ (UR sig nD τ) ℕ cfg0 c) (hA : dat.A 4 = V c (Pipeline.arrRef spec0 4))
    (hafter : ∀ t, dat.after 4 t = iblk0 V c 4 t) (t : Fin cfg0.N) (d) : dat.before 4 t d = iblk0 V c 4 t :=
  (dat.before_in_eq_fetched 4 rfl (fun _ => rfl) (fun _ _ _ => rfl) (fun t => by rw [hafter]; unfold Dat.blockOf iblk0; rw [hA]; try rfl) t d).trans
    (by unfold Dat.fetched Dat.blockOf iblk0; rw [hA]; try rfl)

end Region0

/-! ## The two branch conditions, decided over the grid -/

/-- "This is the first point": the condition under which the running sums are zeroed. -/
abbrev cond0_0 (i : grid0.Coords) : Prop := (Scalar.cmpi .ne (Scalar.extui (Scalar.cmpi .eq (BitVec.ofNat 32 (i 0).val) 0#32)) 0#32) = 1#1
theorem hcond0_0 : ∀ t : Fin cfg0.N, cond0_0 (grid0.coords t) ↔ t.val % 20 = 0 :=
  (by decide +kernel : ∀ t : Fin grid0.N, cond0_0 (grid0.coords t) ↔ t.val % 20 = 0)

/-- "This is the last point": the condition under which the running sums are copied out. -/
abbrev cond0_1 (i : grid0.Coords) : Prop := k0_cond2 i = 1#1
theorem hcond0_1 : ∀ t : Fin cfg0.N, cond0_1 (grid0.coords t) ↔ t.val % 20 = 19 :=
  (by decide +kernel : ∀ t : Fin grid0.N, cond0_1 (grid0.coords t) ↔ t.val % 20 = 19)

/-! ## Where the windows are idle -/

theorem liveAt0_0 : ∀ t : Fin cfg0.N, cfg0.idle 0 (grid0.coords t) = false := by decide +kernel
theorem liveAt0_1 : ∀ t : Fin cfg0.N, cfg0.idle 1 (grid0.coords t) = false := by decide +kernel
theorem liveAt0_2 : ∀ t : Fin cfg0.N, cfg0.idle 2 (grid0.coords t) = false := by decide +kernel
theorem liveAt0_3 : ∀ t : Fin cfg0.N, cfg0.idle 3 (grid0.coords t) = false := by decide +kernel
theorem liveAt0_4 : ∀ t : Fin cfg0.N, cfg0.idle 4 (grid0.coords t) = false := by decide +kernel
theorem liveAt0_5 : ∀ t : Fin cfg0.N, cfg0.idle 5 (grid0.coords t) = false := by decide +kernel
/-- Output 6 is stored only at the last point: idle, and not written back, at every other point. -/
theorem idleAt0_6 : ∀ t : Fin cfg0.N, ¬cond0_1 (grid0.coords t) → cfg0.idle 6 (grid0.coords t) = true := by decide +kernel
theorem noFlush0_6 : ∀ t : Fin cfg0.N, ¬cond0_1 (grid0.coords t) → (cfg0.win 6).flush t = false := by decide +kernel
theorem liveAt0_6_C : ∀ t : Fin cfg0.N, cond0_1 (grid0.coords t) → cfg0.idle 6 (grid0.coords t) = false := by decide +kernel
/-- Output 7 is stored only at the last point: idle, and not written back, at every other point. -/
theorem idleAt0_7 : ∀ t : Fin cfg0.N, ¬cond0_1 (grid0.coords t) → cfg0.idle 7 (grid0.coords t) = true := by decide +kernel
theorem noFlush0_7 : ∀ t : Fin cfg0.N, ¬cond0_1 (grid0.coords t) → (cfg0.win 7).flush t = false := by decide +kernel
theorem liveAt0_7_C : ∀ t : Fin cfg0.N, cond0_1 (grid0.coords t) → cfg0.idle 7 (grid0.coords t) = false := by decide +kernel

/-! ## The memrefs the body is run on -/

abbrev VO0_5 : View sig .tc .vmem S5000x128 .f32 := (Memref.whole cc0_stg5_0 : Memref sig .tc .vmem S5000x128 .f32).view
abbrev VO0_6 : View sig .tc .vmem S1x128 .f32 := (Memref.whole cc0_stg6_0 : Memref sig .tc .vmem S1x128 .f32).view
abbrev VO0_7 : View sig .tc .vmem S1x128 .f32 := (Memref.whole cc0_stg7_0 : Memref sig .tc .vmem S1x128 .f32).view
abbrev ms0_0 (t : Fin cfg0.N) : Memref sig .tc .vmem S5000x128 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S128x128 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S1x128 .f32 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S128x128 .f32 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S1x128 .f32 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S5000x128 .f32 := win0_5.stage (cfg0.slots t 5)
abbrev hs0_5 (t : Fin cfg0.N) : (ms0_5 t).IsWhole := hstage0_5 ((cfg0.slots t 5).cast nbuf0_5)
abbrev ms0_6 (t : Fin cfg0.N) : Memref sig .tc .vmem S1x128 .f32 := win0_6.stage (cfg0.slots t 6)
abbrev hs0_6 (t : Fin cfg0.N) : (ms0_6 t).IsWhole := hstage0_6 ((cfg0.slots t 6).cast nbuf0_6)
abbrev ms0_7 (t : Fin cfg0.N) : Memref sig .tc .vmem S1x128 .f32 := win0_7.stage (cfg0.slots t 7)
abbrev hs0_7 (t : Fin cfg0.N) : (ms0_7 t).IsWhole := hstage0_7 ((cfg0.slots t 7).cast nbuf0_7)
/-- The two running-sum rows: whole scoped buffers of the kernel's own. -/
abbrev scM0_0 : Memref sig .tc .vmem S1x128 .f32 := Memref.whole cc0_scratch0
abbrev scM0_1 : Memref sig .tc .vmem S1x128 .f32 := Memref.whole cc0_scratch1
abbrev VS0_0 : View sig .tc .vmem S1x128 .f32 := scM0_0.view
abbrev VS0_1 : View sig .tc .vmem S1x128 .f32 := scM0_1.view

/-- The class invariant with the two running-sum rows split out as memrefs owned at some contents; every other scoped
    buffer stays unopened. -/
theorem PhiA0_eq (c : Dev nD) :
    (Pipeline.ΦA spec0 c : sProp 𝕄)
      = iprop(iprop(iprop((∃ d, owns (c : Thread nD τ) scM0_0 fullShare d) ∗ (∃ d, owns (c : Thread nD τ) scM0_1 fullShare d))
          ∗ Pipeline.scopedRestBut (Ix := Unit) (Name := ℕ) (U := UR sig nD τ) (Lvl := ℕ) (Val := Elt F) spec0 c [cc0_scratch0, cc0_scratch1]) ∗ (∃ r, prngReg c r)) := by
  unfold Pipeline.ΦA; rw [scopedRest0_split]; simp only [scM0_0, scM0_1, owns_whole]; try rfl

end Cert.KernelIdeal.Hand

end
-- ==== Proof.KiMlp0RunA.lean ====
/-
  Region 0, control case A: the kernel body run once, symbolically, on whole staging memrefs.
-/
import proofs.«160011_j2121713844488_1_alg».proof.Proof.KiMlp0Runs

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- The body at the first point (the running sums are zeroed first, nothing is copied out): on whole staging memrefs — the five inputs at their blocks, the z output at anything,
    the two [1,128] outputs idle at whatever they hold, the two running-sum rows at anything — it runs to its
    continuation with the inputs as they were and each buffer it stored into with its pieces written; the pieces are the
    witness the run finds. -/
noncomputable def kernelRun0_A (c : Dev nD) (i : grid0.Coords) (arg1 : Memref sig .tc .vmem S5000x128 .f32) (harg1 : arg1.IsWhole) (arg2 : Memref sig .tc .vmem S128x128 .f32) (harg2 : arg2.IsWhole) (arg3 : Memref sig .tc .vmem S1x128 .f32) (harg3 : arg3.IsWhole) (arg4 : Memref sig .tc .vmem S128x128 .f32) (harg4 : arg4.IsWhole) (arg5 : Memref sig .tc .vmem S1x128 .f32) (harg5 : arg5.IsWhole) (arg6 : Memref sig .tc .vmem S5000x128 .f32) (harg6 : arg6.IsWhole) (arg7 : Memref sig .tc .vmem S1x128 .f32) (harg7 : arg7.IsWhole) (arg8 : Memref sig .tc .vmem S1x128 .f32) (harg8 : arg8.IsWhole) (arg9 : Memref sig .tc .vmem S1x128 .f32) (harg9 : arg9.IsWhole) (arg10 : Memref sig .tc .vmem S1x128 .f32) (harg10 : arg10.IsWhole) (hc0 : cond0_0 i) (hc1 : ¬cond0_1 i)
    (x0 : Vec F S5000x128 .f32) (x1 : Vec F S128x128 .f32) (x2 : Vec F S1x128 .f32) (x3 : Vec F S128x128 .f32) (x4 : Vec F S1x128 .f32) :
    Σ' (L5 : List (View.Piece (Elt F) S5000x128 .f32)) (L6 : List (View.Piece (Elt F) S1x128 .f32)) (L7 : List (View.Piece (Elt F) S1x128 .f32)) (LS0 : List (View.Piece (Elt F) S1x128 .f32)), { LS1 : List (View.Piece (Elt F) S1x128 .f32) //
      ∀ (xi6 : Vec F S1x128 .f32) (xi7 : Vec F S1x128 .f32) (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ (∃ d, owns (c : Thread nD τ) arg6 fullShare d) ∗ owns (c : Thread nD τ) arg7 fullShare xi6 ∗ owns (c : Thread nD τ) arg8 fullShare xi7 ∗ (∃ d, owns (c : Thread nD τ) arg9 fullShare d) ∗ (∃ d, owns (c : Thread nD τ) arg10 fullShare d)
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ (∃ f, arg6.view.loc (c : Thread nD τ) ↦[arg6.view.set]{fullShare} arg6.view.writes (Elt F) f L5) ∗ owns (c : Thread nD τ) arg7 fullShare xi6 ∗ owns (c : Thread nD τ) arg8 fullShare xi7 ∗ (∃ f, arg9.view.loc (c : Thread nD τ) ↦[arg9.view.set]{fullShare} arg9.view.writes (Elt F) f LS0) ∗ (∃ f, arg10.view.loc (c : Thread nD τ) ↦[arg10.view.set]{fullShare} arg10.view.writes (Elt F) f LS1)) -∗ K ⟨⟩))
          ⊢ wp frame (wpE (defs₀ (F := F)) Variants.none c none) E (cc0__mlp_stats_kernel i arg1 harg1 arg2 harg2 arg3 harg3 arg4 harg4 arg5 harg5 arg6 harg6 arg7 harg7 arg8 harg8 arg9 harg9 arg10 harg10) K } := by
  refine ⟨?_, [], [], ?_, ?_, fun xi6 xi7 E K => ?run⟩
  case run =>
    simp only [cc0__mlp_stats_kernel_eq_skeleton]; unfold cc0__mlp_stats_kernel_skel
    simp only [k0_part1_eq_skeleton]; unfold k0_part1_skel
    unfold owns
    iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%f6, %hf6, H6⟩, ⟨%f7, %hf7, H7⟩, ⟨%ds0, %fs0, -, HS0⟩, ⟨%ds1, %fs1, -, HS1⟩, Hk⟩
    obtain rfl := harg1.eq_unread hf0; obtain rfl := harg2.eq_unread hf1; obtain rfl := harg3.eq_unread hf2; obtain rfl := harg4.eq_unread hf3; obtain rfl := harg5.eq_unread hf4; obtain rfl := harg7.eq_unread hf6; obtain rfl := harg8.eq_unread hf7
    sl_exec (disch := first | exact hc0 | exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]; · iexists _; iexact H5
    isplitl [H6]
    · iexists _; isplitr; · ipureintro; exact harg7.read_unread _
      iexact H6
    isplitl [H7]
    · iexists _; isplitr; · ipureintro; exact harg8.read_unread _
      iexact H7
    isplitl [HS0]; · iexists _; iexact HS0
    iexists _; iexact HS1

end Cert.KernelIdeal.Hand

end
-- ==== Proof.KiMlp0RunB.lean ====
/-
  Region 0, control case B: the kernel body run once, symbolically, on whole staging memrefs.
-/
import proofs.«160011_j2121713844488_1_alg».proof.Proof.KiMlp0Runs

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- The body at a middle point (the running sums are only added to): on whole staging memrefs — the five inputs at their blocks, the z output at anything,
    the two [1,128] outputs idle at whatever they hold, the two running-sum rows at what the point before left — it runs to its
    continuation with the inputs as they were and each buffer it stored into with its pieces written; the pieces are the
    witness the run finds. -/
noncomputable def kernelRun0_B (c : Dev nD) (i : grid0.Coords) (arg1 : Memref sig .tc .vmem S5000x128 .f32) (harg1 : arg1.IsWhole) (arg2 : Memref sig .tc .vmem S128x128 .f32) (harg2 : arg2.IsWhole) (arg3 : Memref sig .tc .vmem S1x128 .f32) (harg3 : arg3.IsWhole) (arg4 : Memref sig .tc .vmem S128x128 .f32) (harg4 : arg4.IsWhole) (arg5 : Memref sig .tc .vmem S1x128 .f32) (harg5 : arg5.IsWhole) (arg6 : Memref sig .tc .vmem S5000x128 .f32) (harg6 : arg6.IsWhole) (arg7 : Memref sig .tc .vmem S1x128 .f32) (harg7 : arg7.IsWhole) (arg8 : Memref sig .tc .vmem S1x128 .f32) (harg8 : arg8.IsWhole) (arg9 : Memref sig .tc .vmem S1x128 .f32) (harg9 : arg9.IsWhole) (arg10 : Memref sig .tc .vmem S1x128 .f32) (harg10 : arg10.IsWhole) (hc0 : ¬cond0_0 i) (hc1 : ¬cond0_1 i)
    (x0 : Vec F S5000x128 .f32) (x1 : Vec F S128x128 .f32) (x2 : Vec F S1x128 .f32) (x3 : Vec F S128x128 .f32) (x4 : Vec F S1x128 .f32) (xs0 : Vec F S1x128 .f32) (xs1 : Vec F S1x128 .f32) :
    Σ' (L5 : List (View.Piece (Elt F) S5000x128 .f32)) (L6 : List (View.Piece (Elt F) S1x128 .f32)) (L7 : List (View.Piece (Elt F) S1x128 .f32)) (LS0 : List (View.Piece (Elt F) S1x128 .f32)), { LS1 : List (View.Piece (Elt F) S1x128 .f32) //
      ∀ (xi6 : Vec F S1x128 .f32) (xi7 : Vec F S1x128 .f32) (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ (∃ d, owns (c : Thread nD τ) arg6 fullShare d) ∗ owns (c : Thread nD τ) arg7 fullShare xi6 ∗ owns (c : Thread nD τ) arg8 fullShare xi7 ∗ owns (c : Thread nD τ) arg9 fullShare xs0 ∗ owns (c : Thread nD τ) arg10 fullShare xs1
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ (∃ f, arg6.view.loc (c : Thread nD τ) ↦[arg6.view.set]{fullShare} arg6.view.writes (Elt F) f L5) ∗ owns (c : Thread nD τ) arg7 fullShare xi6 ∗ owns (c : Thread nD τ) arg8 fullShare xi7 ∗ (∃ f, arg9.view.loc (c : Thread nD τ) ↦[arg9.view.set]{fullShare} arg9.view.writes (Elt F) f LS0) ∗ (∃ f, arg10.view.loc (c : Thread nD τ) ↦[arg10.view.set]{fullShare} arg10.view.writes (Elt F) f LS1)) -∗ K ⟨⟩))
          ⊢ wp frame (wpE (defs₀ (F := F)) Variants.none c none) E (cc0__mlp_stats_kernel i arg1 harg1 arg2 harg2 arg3 harg3 arg4 harg4 arg5 harg5 arg6 harg6 arg7 harg7 arg8 harg8 arg9 harg9 arg10 harg10) K } := by
  refine ⟨?_, [], [], ?_, ?_, fun xi6 xi7 E K => ?run⟩
  case run =>
    simp only [cc0__mlp_stats_kernel_eq_skeleton]; unfold cc0__mlp_stats_kernel_skel
    simp only [k0_part1_eq_skeleton]; unfold k0_part1_skel
    unfold owns
    iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%f6, %hf6, H6⟩, ⟨%f7, %hf7, H7⟩, ⟨%fs0, %hfs0, HS0⟩, ⟨%fs1, %hfs1, HS1⟩, Hk⟩
    obtain rfl := harg1.eq_unread hf0; obtain rfl := harg2.eq_unread hf1; obtain rfl := harg3.eq_unread hf2; obtain rfl := harg4.eq_unread hf3; obtain rfl := harg5.eq_unread hf4; obtain rfl := harg7.eq_unread hf6; obtain rfl := harg8.eq_unread hf7; obtain rfl := harg9.eq_unread hfs0; obtain rfl := harg10.eq_unread hfs1
    sl_exec (disch := first | exact hc0 | exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]; · iexists _; iexact H5
    isplitl [H6]
    · iexists _; isplitr; · ipureintro; exact harg7.read_unread _
      iexact H6
    isplitl [H7]
    · iexists _; isplitr; · ipureintro; exact harg8.read_unread _
      iexact H7
    isplitl [HS0]; · iexists _; iexact HS0
    iexists _; iexact HS1

end Cert.KernelIdeal.Hand

end
-- ==== Proof.KiMlp0RunC.lean ====
/-
  Region 0, control case C: the kernel body run once, symbolically, on whole staging memrefs.
-/
import proofs.«160011_j2121713844488_1_alg».proof.Proof.KiMlp0Runs

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- The body at the last point (the running sums are copied into the two [1,128] outputs): on whole staging memrefs — the five inputs at their blocks, the z output at anything,
    the two [1,128] outputs at anything, the two running-sum rows at what the point before left — it runs to its
    continuation with the inputs as they were and each buffer it stored into with its pieces written; the pieces are the
    witness the run finds. -/
noncomputable def kernelRun0_C (c : Dev nD) (i : grid0.Coords) (arg1 : Memref sig .tc .vmem S5000x128 .f32) (harg1 : arg1.IsWhole) (arg2 : Memref sig .tc .vmem S128x128 .f32) (harg2 : arg2.IsWhole) (arg3 : Memref sig .tc .vmem S1x128 .f32) (harg3 : arg3.IsWhole) (arg4 : Memref sig .tc .vmem S128x128 .f32) (harg4 : arg4.IsWhole) (arg5 : Memref sig .tc .vmem S1x128 .f32) (harg5 : arg5.IsWhole) (arg6 : Memref sig .tc .vmem S5000x128 .f32) (harg6 : arg6.IsWhole) (arg7 : Memref sig .tc .vmem S1x128 .f32) (harg7 : arg7.IsWhole) (arg8 : Memref sig .tc .vmem S1x128 .f32) (harg8 : arg8.IsWhole) (arg9 : Memref sig .tc .vmem S1x128 .f32) (harg9 : arg9.IsWhole) (arg10 : Memref sig .tc .vmem S1x128 .f32) (harg10 : arg10.IsWhole) (hc0 : ¬cond0_0 i) (hc1 : cond0_1 i)
    (x0 : Vec F S5000x128 .f32) (x1 : Vec F S128x128 .f32) (x2 : Vec F S1x128 .f32) (x3 : Vec F S128x128 .f32) (x4 : Vec F S1x128 .f32) (xs0 : Vec F S1x128 .f32) (xs1 : Vec F S1x128 .f32) :
    Σ' (L5 : List (View.Piece (Elt F) S5000x128 .f32)) (L6 : List (View.Piece (Elt F) S1x128 .f32)) (L7 : List (View.Piece (Elt F) S1x128 .f32)) (LS0 : List (View.Piece (Elt F) S1x128 .f32)), { LS1 : List (View.Piece (Elt F) S1x128 .f32) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ (∃ d, owns (c : Thread nD τ) arg6 fullShare d) ∗ (∃ d, owns (c : Thread nD τ) arg7 fullShare d) ∗ (∃ d, owns (c : Thread nD τ) arg8 fullShare d) ∗ owns (c : Thread nD τ) arg9 fullShare xs0 ∗ owns (c : Thread nD τ) arg10 fullShare xs1
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ (∃ f, arg6.view.loc (c : Thread nD τ) ↦[arg6.view.set]{fullShare} arg6.view.writes (Elt F) f L5) ∗ (∃ f, arg7.view.loc (c : Thread nD τ) ↦[arg7.view.set]{fullShare} arg7.view.writes (Elt F) f L6) ∗ (∃ f, arg8.view.loc (c : Thread nD τ) ↦[arg8.view.set]{fullShare} arg8.view.writes (Elt F) f L7) ∗ (∃ f, arg9.view.loc (c : Thread nD τ) ↦[arg9.view.set]{fullShare} arg9.view.writes (Elt F) f LS0) ∗ (∃ f, arg10.view.loc (c : Thread nD τ) ↦[arg10.view.set]{fullShare} arg10.view.writes (Elt F) f LS1)) -∗ K ⟨⟩))
          ⊢ wp frame (wpE (defs₀ (F := F)) Variants.none c none) E (cc0__mlp_stats_kernel i arg1 harg1 arg2 harg2 arg3 harg3 arg4 harg4 arg5 harg5 arg6 harg6 arg7 harg7 arg8 harg8 arg9 harg9 arg10 harg10) K } := by
  refine ⟨?_, ?_, ?_, ?_, ?_, fun E K => ?run⟩
  case run =>
    simp only [cc0__mlp_stats_kernel_eq_skeleton]; unfold cc0__mlp_stats_kernel_skel
    simp only [k0_part1_eq_skeleton]; unfold k0_part1_skel
    unfold owns
    iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%d6, %f6, -, H6⟩, ⟨%d7, %f7, -, H7⟩, ⟨%fs0, %hfs0, HS0⟩, ⟨%fs1, %hfs1, HS1⟩, Hk⟩
    obtain rfl := harg1.eq_unread hf0; obtain rfl := harg2.eq_unread hf1; obtain rfl := harg3.eq_unread hf2; obtain rfl := harg4.eq_unread hf3; obtain rfl := harg5.eq_unread hf4; obtain rfl := harg9.eq_unread hfs0; obtain rfl := harg10.eq_unread hfs1
    sl_exec (disch := first | exact hc0 | exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]; · iexists _; iexact H5
    isplitl [H6]; · iexists _; iexact H6
    isplitl [H7]; · iexists _; iexact H7
    isplitl [HS0]; · iexists _; iexact HS0
    iexists _; iexact HS1

end Cert.KernelIdeal.Hand

end
-- ==== Proof.KiMlp0.lean ====
/-
  Region 0 (a layer's two-layer perceptron with running column sums over the 20 row blocks): what each control case leaves in
  the outputs and in the two running-sum rows, the accumulation point by point, the proof data and the body obligation.
  The z output's block at a point is the body's payload of that point's input blocks; the two running-sum rows after point t are
  zero plus the column sums of z and z² over blocks 0..t; the two [1,128] outputs receive the rows at the last point.
-/
import proofs.«160011_j2121713844488_1_alg».proof.Proof.KiMlp0RunA
import proofs.«160011_j2121713844488_1_alg».proof.Proof.KiMlp0RunB
import proofs.«160011_j2121713844488_1_alg».proof.Proof.KiMlp0RunC

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Region0

variable (V : (c : Dev nD) → (b : Ref sig .tc) → Buf (Elt F) ((c : Thread nD τ).loc b))

/-- Case A's pieces for output window 5 cover it (one whole-rectangle store). -/
theorem cover0_A_5 (c : Dev nD) (i : grid0.Coords) (arg1 : Memref sig .tc .vmem S5000x128 .f32) (harg1 : arg1.IsWhole) (arg2 : Memref sig .tc .vmem S128x128 .f32) (harg2 : arg2.IsWhole) (arg3 : Memref sig .tc .vmem S1x128 .f32) (harg3 : arg3.IsWhole) (arg4 : Memref sig .tc .vmem S128x128 .f32) (harg4 : arg4.IsWhole) (arg5 : Memref sig .tc .vmem S1x128 .f32) (harg5 : arg5.IsWhole) (arg6 : Memref sig .tc .vmem S5000x128 .f32) (harg6 : arg6.IsWhole) (arg7 : Memref sig .tc .vmem S1x128 .f32) (harg7 : arg7.IsWhole) (arg8 : Memref sig .tc .vmem S1x128 .f32) (harg8 : arg8.IsWhole) (arg9 : Memref sig .tc .vmem S1x128 .f32) (harg9 : arg9.IsWhole) (arg10 : Memref sig .tc .vmem S1x128 .f32) (harg10 : arg10.IsWhole) (hc0 : cond0_0 i) (hc1 : ¬cond0_1 i)
    (x0 : Vec F S5000x128 .f32) (x1 : Vec F S128x128 .f32) (x2 : Vec F S1x128 .f32) (x3 : Vec F S128x128 .f32) (x4 : Vec F S1x128 .f32) (y : S5000x128.Idx) :
    ∃ pc ∈ (kernelRun0_A c i arg1 harg1 arg2 harg2 arg3 harg3 arg4 harg4 arg5 harg5 arg6 harg6 arg7 harg7 arg8 harg8 arg9 harg9 arg10 harg10 hc0 hc1 x0 x1 x2 x3 x4).1, y ∈ pc.1.set :=
  View.cover_of_tiledL (kernelRun0_A c i arg1 harg1 arg2 harg2 arg3 harg3 arg4 harg4 arg5 harg5 arg6 harg6 arg7 harg7 arg8 harg8 arg9 harg9 arg10 harg10 hc0 hc1 x0 x1 x2 x3 x4).1 S5000x128.size (by sl_kernel_rfl) y

/-- What case A leaves there: its pieces read back. -/
def out0_A_5 (c : Dev nD) (i : grid0.Coords) (arg1 : Memref sig .tc .vmem S5000x128 .f32) (harg1 : arg1.IsWhole) (arg2 : Memref sig .tc .vmem S128x128 .f32) (harg2 : arg2.IsWhole) (arg3 : Memref sig .tc .vmem S1x128 .f32) (harg3 : arg3.IsWhole) (arg4 : Memref sig .tc .vmem S128x128 .f32) (harg4 : arg4.IsWhole) (arg5 : Memref sig .tc .vmem S1x128 .f32) (harg5 : arg5.IsWhole) (arg6 : Memref sig .tc .vmem S5000x128 .f32) (harg6 : arg6.IsWhole) (arg7 : Memref sig .tc .vmem S1x128 .f32) (harg7 : arg7.IsWhole) (arg8 : Memref sig .tc .vmem S1x128 .f32) (harg8 : arg8.IsWhole) (arg9 : Memref sig .tc .vmem S1x128 .f32) (harg9 : arg9.IsWhole) (arg10 : Memref sig .tc .vmem S1x128 .f32) (harg10 : arg10.IsWhole) (hc0 : cond0_0 i) (hc1 : ¬cond0_1 i)
    (x0 : Vec F S5000x128 .f32) (x1 : Vec F S128x128 .f32) (x2 : Vec F S1x128 .f32) (x3 : Vec F S128x128 .f32) (x4 : Vec F S1x128 .f32) : Vec F S5000x128 .f32 :=
  VO0_5.read (Elt F) (VO0_5.writes (Elt F) VO0_5.junk (kernelRun0_A c i arg1 harg1 arg2 harg2 arg3 harg3 arg4 harg4 arg5 harg5 arg6 harg6 arg7 harg7 arg8 harg8 arg9 harg9 arg10 harg10 hc0 hc1 x0 x1 x2 x3 x4).1)

/-- Case A's pieces for running-sum row 0 cover it (one whole-rectangle store). -/
theorem scover0_A_0 (c : Dev nD) (i : grid0.Coords) (arg1 : Memref sig .tc .vmem S5000x128 .f32) (harg1 : arg1.IsWhole) (arg2 : Memref sig .tc .vmem S128x128 .f32) (harg2 : arg2.IsWhole) (arg3 : Memref sig .tc .vmem S1x128 .f32) (harg3 : arg3.IsWhole) (arg4 : Memref sig .tc .vmem S128x128 .f32) (harg4 : arg4.IsWhole) (arg5 : Memref sig .tc .vmem S1x128 .f32) (harg5 : arg5.IsWhole) (arg6 : Memref sig .tc .vmem S5000x128 .f32) (harg6 : arg6.IsWhole) (arg7 : Memref sig .tc .vmem S1x128 .f32) (harg7 : arg7.IsWhole) (arg8 : Memref sig .tc .vmem S1x128 .f32) (harg8 : arg8.IsWhole) (arg9 : Memref sig .tc .vmem S1x128 .f32) (harg9 : arg9.IsWhole) (arg10 : Memref sig .tc .vmem S1x128 .f32) (harg10 : arg10.IsWhole) (hc0 : cond0_0 i) (hc1 : ¬cond0_1 i)
    (x0 : Vec F S5000x128 .f32) (x1 : Vec F S128x128 .f32) (x2 : Vec F S1x128 .f32) (x3 : Vec F S128x128 .f32) (x4 : Vec F S1x128 .f32) (y : S1x128.Idx) :
    ∃ pc ∈ (kernelRun0_A c i arg1 harg1 arg2 harg2 arg3 harg3 arg4 harg4 arg5 harg5 arg6 harg6 arg7 harg7 arg8 harg8 arg9 harg9 arg10 harg10 hc0 hc1 x0 x1 x2 x3 x4).2.2.2.1, y ∈ pc.1.set :=
  View.cover_of_tiledL (kernelRun0_A c i arg1 harg1 arg2 harg2 arg3 harg3 arg4 harg4 arg5 harg5 arg6 harg6 arg7 harg7 arg8 harg8 arg9 harg9 arg10 harg10 hc0 hc1 x0 x1 x2 x3 x4).2.2.2.1 S1x128.size (by sl_kernel_rfl) y

/-- What case A leaves there: its pieces read back. -/
def sout0_A_0 (c : Dev nD) (i : grid0.Coords) (arg1 : Memref sig .tc .vmem S5000x128 .f32) (harg1 : arg1.IsWhole) (arg2 : Memref sig .tc .vmem S128x128 .f32) (harg2 : arg2.IsWhole) (arg3 : Memref sig .tc .vmem S1x128 .f32) (harg3 : arg3.IsWhole) (arg4 : Memref sig .tc .vmem S128x128 .f32) (harg4 : arg4.IsWhole) (arg5 : Memref sig .tc .vmem S1x128 .f32) (harg5 : arg5.IsWhole) (arg6 : Memref sig .tc .vmem S5000x128 .f32) (harg6 : arg6.IsWhole) (arg7 : Memref sig .tc .vmem S1x128 .f32) (harg7 : arg7.IsWhole) (arg8 : Memref sig .tc .vmem S1x128 .f32) (harg8 : arg8.IsWhole) (arg9 : Memref sig .tc .vmem S1x128 .f32) (harg9 : arg9.IsWhole) (arg10 : Memref sig .tc .vmem S1x128 .f32) (harg10 : arg10.IsWhole) (hc0 : cond0_0 i) (hc1 : ¬cond0_1 i)
    (x0 : Vec F S5000x128 .f32) (x1 : Vec F S128x128 .f32) (x2 : Vec F S1x128 .f32) (x3 : Vec F S128x128 .f32) (x4 : Vec F S1x128 .f32) : Vec F S1x128 .f32 :=
  VS0_0.read (Elt F) (VS0_0.writes (Elt F) VS0_0.junk (kernelRun0_A c i arg1 harg1 arg2 harg2 arg3 harg3 arg4 harg4 arg5 harg5 arg6 harg6 arg7 harg7 arg8 harg8 arg9 harg9 arg10 harg10 hc0 hc1 x0 x1 x2 x3 x4).2.2.2.1)

/-- Case A's pieces for running-sum row 1 cover it (one whole-rectangle store). -/
theorem scover0_A_1 (c : Dev nD) (i : grid0.Coords) (arg1 : Memref sig .tc .vmem S5000x128 .f32) (harg1 : arg1.IsWhole) (arg2 : Memref sig .tc .vmem S128x128 .f32) (harg2 : arg2.IsWhole) (arg3 : Memref sig .tc .vmem S1x128 .f32) (harg3 : arg3.IsWhole) (arg4 : Memref sig .tc .vmem S128x128 .f32) (harg4 : arg4.IsWhole) (arg5 : Memref sig .tc .vmem S1x128 .f32) (harg5 : arg5.IsWhole) (arg6 : Memref sig .tc .vmem S5000x128 .f32) (harg6 : arg6.IsWhole) (arg7 : Memref sig .tc .vmem S1x128 .f32) (harg7 : arg7.IsWhole) (arg8 : Memref sig .tc .vmem S1x128 .f32) (harg8 : arg8.IsWhole) (arg9 : Memref sig .tc .vmem S1x128 .f32) (harg9 : arg9.IsWhole) (arg10 : Memref sig .tc .vmem S1x128 .f32) (harg10 : arg10.IsWhole) (hc0 : cond0_0 i) (hc1 : ¬cond0_1 i)
    (x0 : Vec F S5000x128 .f32) (x1 : Vec F S128x128 .f32) (x2 : Vec F S1x128 .f32) (x3 : Vec F S128x128 .f32) (x4 : Vec F S1x128 .f32) (y : S1x128.Idx) :
    ∃ pc ∈ (kernelRun0_A c i arg1 harg1 arg2 harg2 arg3 harg3 arg4 harg4 arg5 harg5 arg6 harg6 arg7 harg7 arg8 harg8 arg9 harg9 arg10 harg10 hc0 hc1 x0 x1 x2 x3 x4).2.2.2.2.1, y ∈ pc.1.set :=
  View.cover_of_tiledL (kernelRun0_A c i arg1 harg1 arg2 harg2 arg3 harg3 arg4 harg4 arg5 harg5 arg6 harg6 arg7 harg7 arg8 harg8 arg9 harg9 arg10 harg10 hc0 hc1 x0 x1 x2 x3 x4).2.2.2.2.1 S1x128.size (by sl_kernel_rfl) y

/-- What case A leaves there: its pieces read back. -/
def sout0_A_1 (c : Dev nD) (i : grid0.Coords) (arg1 : Memref sig .tc .vmem S5000x128 .f32) (harg1 : arg1.IsWhole) (arg2 : Memref sig .tc .vmem S128x128 .f32) (harg2 : arg2.IsWhole) (arg3 : Memref sig .tc .vmem S1x128 .f32) (harg3 : arg3.IsWhole) (arg4 : Memref sig .tc .vmem S128x128 .f32) (harg4 : arg4.IsWhole) (arg5 : Memref sig .tc .vmem S1x128 .f32) (harg5 : arg5.IsWhole) (arg6 : Memref sig .tc .vmem S5000x128 .f32) (harg6 : arg6.IsWhole) (arg7 : Memref sig .tc .vmem S1x128 .f32) (harg7 : arg7.IsWhole) (arg8 : Memref sig .tc .vmem S1x128 .f32) (harg8 : arg8.IsWhole) (arg9 : Memref sig .tc .vmem S1x128 .f32) (harg9 : arg9.IsWhole) (arg10 : Memref sig .tc .vmem S1x128 .f32) (harg10 : arg10.IsWhole) (hc0 : cond0_0 i) (hc1 : ¬cond0_1 i)
    (x0 : Vec F S5000x128 .f32) (x1 : Vec F S128x128 .f32) (x2 : Vec F S1x128 .f32) (x3 : Vec F S128x128 .f32) (x4 : Vec F S1x128 .f32) : Vec F S1x128 .f32 :=
  VS0_1.read (Elt F) (VS0_1.writes (Elt F) VS0_1.junk (kernelRun0_A c i arg1 harg1 arg2 harg2 arg3 harg3 arg4 harg4 arg5 harg5 arg6 harg6 arg7 harg7 arg8 harg8 arg9 harg9 arg10 harg10 hc0 hc1 x0 x1 x2 x3 x4).2.2.2.2.1)

/-- Case B's pieces for output window 5 cover it (one whole-rectangle store). -/
theorem cover0_B_5 (c : Dev nD) (i : grid0.Coords) (arg1 : Memref sig .tc .vmem S5000x128 .f32) (harg1 : arg1.IsWhole) (arg2 : Memref sig .tc .vmem S128x128 .f32) (harg2 : arg2.IsWhole) (arg3 : Memref sig .tc .vmem S1x128 .f32) (harg3 : arg3.IsWhole) (arg4 : Memref sig .tc .vmem S128x128 .f32) (harg4 : arg4.IsWhole) (arg5 : Memref sig .tc .vmem S1x128 .f32) (harg5 : arg5.IsWhole) (arg6 : Memref sig .tc .vmem S5000x128 .f32) (harg6 : arg6.IsWhole) (arg7 : Memref sig .tc .vmem S1x128 .f32) (harg7 : arg7.IsWhole) (arg8 : Memref sig .tc .vmem S1x128 .f32) (harg8 : arg8.IsWhole) (arg9 : Memref sig .tc .vmem S1x128 .f32) (harg9 : arg9.IsWhole) (arg10 : Memref sig .tc .vmem S1x128 .f32) (harg10 : arg10.IsWhole) (hc0 : ¬cond0_0 i) (hc1 : ¬cond0_1 i)
    (x0 : Vec F S5000x128 .f32) (x1 : Vec F S128x128 .f32) (x2 : Vec F S1x128 .f32) (x3 : Vec F S128x128 .f32) (x4 : Vec F S1x128 .f32) (xs0 : Vec F S1x128 .f32) (xs1 : Vec F S1x128 .f32) (y : S5000x128.Idx) :
    ∃ pc ∈ (kernelRun0_B c i arg1 harg1 arg2 harg2 arg3 harg3 arg4 harg4 arg5 harg5 arg6 harg6 arg7 harg7 arg8 harg8 arg9 harg9 arg10 harg10 hc0 hc1 x0 x1 x2 x3 x4 xs0 xs1).1, y ∈ pc.1.set :=
  View.cover_of_tiledL (kernelRun0_B c i arg1 harg1 arg2 harg2 arg3 harg3 arg4 harg4 arg5 harg5 arg6 harg6 arg7 harg7 arg8 harg8 arg9 harg9 arg10 harg10 hc0 hc1 x0 x1 x2 x3 x4 xs0 xs1).1 S5000x128.size (by sl_kernel_rfl) y

/-- What case B leaves there: its pieces read back. -/
def out0_B_5 (c : Dev nD) (i : grid0.Coords) (arg1 : Memref sig .tc .vmem S5000x128 .f32) (harg1 : arg1.IsWhole) (arg2 : Memref sig .tc .vmem S128x128 .f32) (harg2 : arg2.IsWhole) (arg3 : Memref sig .tc .vmem S1x128 .f32) (harg3 : arg3.IsWhole) (arg4 : Memref sig .tc .vmem S128x128 .f32) (harg4 : arg4.IsWhole) (arg5 : Memref sig .tc .vmem S1x128 .f32) (harg5 : arg5.IsWhole) (arg6 : Memref sig .tc .vmem S5000x128 .f32) (harg6 : arg6.IsWhole) (arg7 : Memref sig .tc .vmem S1x128 .f32) (harg7 : arg7.IsWhole) (arg8 : Memref sig .tc .vmem S1x128 .f32) (harg8 : arg8.IsWhole) (arg9 : Memref sig .tc .vmem S1x128 .f32) (harg9 : arg9.IsWhole) (arg10 : Memref sig .tc .vmem S1x128 .f32) (harg10 : arg10.IsWhole) (hc0 : ¬cond0_0 i) (hc1 : ¬cond0_1 i)
    (x0 : Vec F S5000x128 .f32) (x1 : Vec F S128x128 .f32) (x2 : Vec F S1x128 .f32) (x3 : Vec F S128x128 .f32) (x4 : Vec F S1x128 .f32) (xs0 : Vec F S1x128 .f32) (xs1 : Vec F S1x128 .f32) : Vec F S5000x128 .f32 :=
  VO0_5.read (Elt F) (VO0_5.writes (Elt F) VO0_5.junk (kernelRun0_B c i arg1 harg1 arg2 harg2 arg3 harg3 arg4 harg4 arg5 harg5 arg6 harg6 arg7 harg7 arg8 harg8 arg9 harg9 arg10 harg10 hc0 hc1 x0 x1 x2 x3 x4 xs0 xs1).1)

/-- Case B's pieces for running-sum row 0 cover it (one whole-rectangle store). -/
theorem scover0_B_0 (c : Dev nD) (i : grid0.Coords) (arg1 : Memref sig .tc .vmem S5000x128 .f32) (harg1 : arg1.IsWhole) (arg2 : Memref sig .tc .vmem S128x128 .f32) (harg2 : arg2.IsWhole) (arg3 : Memref sig .tc .vmem S1x128 .f32) (harg3 : arg3.IsWhole) (arg4 : Memref sig .tc .vmem S128x128 .f32) (harg4 : arg4.IsWhole) (arg5 : Memref sig .tc .vmem S1x128 .f32) (harg5 : arg5.IsWhole) (arg6 : Memref sig .tc .vmem S5000x128 .f32) (harg6 : arg6.IsWhole) (arg7 : Memref sig .tc .vmem S1x128 .f32) (harg7 : arg7.IsWhole) (arg8 : Memref sig .tc .vmem S1x128 .f32) (harg8 : arg8.IsWhole) (arg9 : Memref sig .tc .vmem S1x128 .f32) (harg9 : arg9.IsWhole) (arg10 : Memref sig .tc .vmem S1x128 .f32) (harg10 : arg10.IsWhole) (hc0 : ¬cond0_0 i) (hc1 : ¬cond0_1 i)
    (x0 : Vec F S5000x128 .f32) (x1 : Vec F S128x128 .f32) (x2 : Vec F S1x128 .f32) (x3 : Vec F S128x128 .f32) (x4 : Vec F S1x128 .f32) (xs0 : Vec F S1x128 .f32) (xs1 : Vec F S1x128 .f32) (y : S1x128.Idx) :
    ∃ pc ∈ (kernelRun0_B c i arg1 harg1 arg2 harg2 arg3 harg3 arg4 harg4 arg5 harg5 arg6 harg6 arg7 harg7 arg8 harg8 arg9 harg9 arg10 harg10 hc0 hc1 x0 x1 x2 x3 x4 xs0 xs1).2.2.2.1, y ∈ pc.1.set :=
  View.cover_of_tiledL (kernelRun0_B c i arg1 harg1 arg2 harg2 arg3 harg3 arg4 harg4 arg5 harg5 arg6 harg6 arg7 harg7 arg8 harg8 arg9 harg9 arg10 harg10 hc0 hc1 x0 x1 x2 x3 x4 xs0 xs1).2.2.2.1 S1x128.size (by sl_kernel_rfl) y

/-- What case B leaves there: its pieces read back. -/
def sout0_B_0 (c : Dev nD) (i : grid0.Coords) (arg1 : Memref sig .tc .vmem S5000x128 .f32) (harg1 : arg1.IsWhole) (arg2 : Memref sig .tc .vmem S128x128 .f32) (harg2 : arg2.IsWhole) (arg3 : Memref sig .tc .vmem S1x128 .f32) (harg3 : arg3.IsWhole) (arg4 : Memref sig .tc .vmem S128x128 .f32) (harg4 : arg4.IsWhole) (arg5 : Memref sig .tc .vmem S1x128 .f32) (harg5 : arg5.IsWhole) (arg6 : Memref sig .tc .vmem S5000x128 .f32) (harg6 : arg6.IsWhole) (arg7 : Memref sig .tc .vmem S1x128 .f32) (harg7 : arg7.IsWhole) (arg8 : Memref sig .tc .vmem S1x128 .f32) (harg8 : arg8.IsWhole) (arg9 : Memref sig .tc .vmem S1x128 .f32) (harg9 : arg9.IsWhole) (arg10 : Memref sig .tc .vmem S1x128 .f32) (harg10 : arg10.IsWhole) (hc0 : ¬cond0_0 i) (hc1 : ¬cond0_1 i)
    (x0 : Vec F S5000x128 .f32) (x1 : Vec F S128x128 .f32) (x2 : Vec F S1x128 .f32) (x3 : Vec F S128x128 .f32) (x4 : Vec F S1x128 .f32) (xs0 : Vec F S1x128 .f32) (xs1 : Vec F S1x128 .f32) : Vec F S1x128 .f32 :=
  VS0_0.read (Elt F) (VS0_0.writes (Elt F) VS0_0.junk (kernelRun0_B c i arg1 harg1 arg2 harg2 arg3 harg3 arg4 harg4 arg5 harg5 arg6 harg6 arg7 harg7 arg8 harg8 arg9 harg9 arg10 harg10 hc0 hc1 x0 x1 x2 x3 x4 xs0 xs1).2.2.2.1)

/-- Case B's pieces for running-sum row 1 cover it (one whole-rectangle store). -/
theorem scover0_B_1 (c : Dev nD) (i : grid0.Coords) (arg1 : Memref sig .tc .vmem S5000x128 .f32) (harg1 : arg1.IsWhole) (arg2 : Memref sig .tc .vmem S128x128 .f32) (harg2 : arg2.IsWhole) (arg3 : Memref sig .tc .vmem S1x128 .f32) (harg3 : arg3.IsWhole) (arg4 : Memref sig .tc .vmem S128x128 .f32) (harg4 : arg4.IsWhole) (arg5 : Memref sig .tc .vmem S1x128 .f32) (harg5 : arg5.IsWhole) (arg6 : Memref sig .tc .vmem S5000x128 .f32) (harg6 : arg6.IsWhole) (arg7 : Memref sig .tc .vmem S1x128 .f32) (harg7 : arg7.IsWhole) (arg8 : Memref sig .tc .vmem S1x128 .f32) (harg8 : arg8.IsWhole) (arg9 : Memref sig .tc .vmem S1x128 .f32) (harg9 : arg9.IsWhole) (arg10 : Memref sig .tc .vmem S1x128 .f32) (harg10 : arg10.IsWhole) (hc0 : ¬cond0_0 i) (hc1 : ¬cond0_1 i)
    (x0 : Vec F S5000x128 .f32) (x1 : Vec F S128x128 .f32) (x2 : Vec F S1x128 .f32) (x3 : Vec F S128x128 .f32) (x4 : Vec F S1x128 .f32) (xs0 : Vec F S1x128 .f32) (xs1 : Vec F S1x128 .f32) (y : S1x128.Idx) :
    ∃ pc ∈ (kernelRun0_B c i arg1 harg1 arg2 harg2 arg3 harg3 arg4 harg4 arg5 harg5 arg6 harg6 arg7 harg7 arg8 harg8 arg9 harg9 arg10 harg10 hc0 hc1 x0 x1 x2 x3 x4 xs0 xs1).2.2.2.2.1, y ∈ pc.1.set :=
  View.cover_of_tiledL (kernelRun0_B c i arg1 harg1 arg2 harg2 arg3 harg3 arg4 harg4 arg5 harg5 arg6 harg6 arg7 harg7 arg8 harg8 arg9 harg9 arg10 harg10 hc0 hc1 x0 x1 x2 x3 x4 xs0 xs1).2.2.2.2.1 S1x128.size (by sl_kernel_rfl) y

/-- What case B leaves there: its pieces read back. -/
def sout0_B_1 (c : Dev nD) (i : grid0.Coords) (arg1 : Memref sig .tc .vmem S5000x128 .f32) (harg1 : arg1.IsWhole) (arg2 : Memref sig .tc .vmem S128x128 .f32) (harg2 : arg2.IsWhole) (arg3 : Memref sig .tc .vmem S1x128 .f32) (harg3 : arg3.IsWhole) (arg4 : Memref sig .tc .vmem S128x128 .f32) (harg4 : arg4.IsWhole) (arg5 : Memref sig .tc .vmem S1x128 .f32) (harg5 : arg5.IsWhole) (arg6 : Memref sig .tc .vmem S5000x128 .f32) (harg6 : arg6.IsWhole) (arg7 : Memref sig .tc .vmem S1x128 .f32) (harg7 : arg7.IsWhole) (arg8 : Memref sig .tc .vmem S1x128 .f32) (harg8 : arg8.IsWhole) (arg9 : Memref sig .tc .vmem S1x128 .f32) (harg9 : arg9.IsWhole) (arg10 : Memref sig .tc .vmem S1x128 .f32) (harg10 : arg10.IsWhole) (hc0 : ¬cond0_0 i) (hc1 : ¬cond0_1 i)
    (x0 : Vec F S5000x128 .f32) (x1 : Vec F S128x128 .f32) (x2 : Vec F S1x128 .f32) (x3 : Vec F S128x128 .f32) (x4 : Vec F S1x128 .f32) (xs0 : Vec F S1x128 .f32) (xs1 : Vec F S1x128 .f32) : Vec F S1x128 .f32 :=
  VS0_1.read (Elt F) (VS0_1.writes (Elt F) VS0_1.junk (kernelRun0_B c i arg1 harg1 arg2 harg2 arg3 harg3 arg4 harg4 arg5 harg5 arg6 harg6 arg7 harg7 arg8 harg8 arg9 harg9 arg10 harg10 hc0 hc1 x0 x1 x2 x3 x4 xs0 xs1).2.2.2.2.1)

/-- Case C's pieces for output window 5 cover it (one whole-rectangle store). -/
theorem cover0_C_5 (c : Dev nD) (i : grid0.Coords) (arg1 : Memref sig .tc .vmem S5000x128 .f32) (harg1 : arg1.IsWhole) (arg2 : Memref sig .tc .vmem S128x128 .f32) (harg2 : arg2.IsWhole) (arg3 : Memref sig .tc .vmem S1x128 .f32) (harg3 : arg3.IsWhole) (arg4 : Memref sig .tc .vmem S128x128 .f32) (harg4 : arg4.IsWhole) (arg5 : Memref sig .tc .vmem S1x128 .f32) (harg5 : arg5.IsWhole) (arg6 : Memref sig .tc .vmem S5000x128 .f32) (harg6 : arg6.IsWhole) (arg7 : Memref sig .tc .vmem S1x128 .f32) (harg7 : arg7.IsWhole) (arg8 : Memref sig .tc .vmem S1x128 .f32) (harg8 : arg8.IsWhole) (arg9 : Memref sig .tc .vmem S1x128 .f32) (harg9 : arg9.IsWhole) (arg10 : Memref sig .tc .vmem S1x128 .f32) (harg10 : arg10.IsWhole) (hc0 : ¬cond0_0 i) (hc1 : cond0_1 i)
    (x0 : Vec F S5000x128 .f32) (x1 : Vec F S128x128 .f32) (x2 : Vec F S1x128 .f32) (x3 : Vec F S128x128 .f32) (x4 : Vec F S1x128 .f32) (xs0 : Vec F S1x128 .f32) (xs1 : Vec F S1x128 .f32) (y : S5000x128.Idx) :
    ∃ pc ∈ (kernelRun0_C c i arg1 harg1 arg2 harg2 arg3 harg3 arg4 harg4 arg5 harg5 arg6 harg6 arg7 harg7 arg8 harg8 arg9 harg9 arg10 harg10 hc0 hc1 x0 x1 x2 x3 x4 xs0 xs1).1, y ∈ pc.1.set :=
  View.cover_of_tiledL (kernelRun0_C c i arg1 harg1 arg2 harg2 arg3 harg3 arg4 harg4 arg5 harg5 arg6 harg6 arg7 harg7 arg8 harg8 arg9 harg9 arg10 harg10 hc0 hc1 x0 x1 x2 x3 x4 xs0 xs1).1 S5000x128.size (by sl_kernel_rfl) y

/-- What case C leaves there: its pieces read back. -/
def out0_C_5 (c : Dev nD) (i : grid0.Coords) (arg1 : Memref sig .tc .vmem S5000x128 .f32) (harg1 : arg1.IsWhole) (arg2 : Memref sig .tc .vmem S128x128 .f32) (harg2 : arg2.IsWhole) (arg3 : Memref sig .tc .vmem S1x128 .f32) (harg3 : arg3.IsWhole) (arg4 : Memref sig .tc .vmem S128x128 .f32) (harg4 : arg4.IsWhole) (arg5 : Memref sig .tc .vmem S1x128 .f32) (harg5 : arg5.IsWhole) (arg6 : Memref sig .tc .vmem S5000x128 .f32) (harg6 : arg6.IsWhole) (arg7 : Memref sig .tc .vmem S1x128 .f32) (harg7 : arg7.IsWhole) (arg8 : Memref sig .tc .vmem S1x128 .f32) (harg8 : arg8.IsWhole) (arg9 : Memref sig .tc .vmem S1x128 .f32) (harg9 : arg9.IsWhole) (arg10 : Memref sig .tc .vmem S1x128 .f32) (harg10 : arg10.IsWhole) (hc0 : ¬cond0_0 i) (hc1 : cond0_1 i)
    (x0 : Vec F S5000x128 .f32) (x1 : Vec F S128x128 .f32) (x2 : Vec F S1x128 .f32) (x3 : Vec F S128x128 .f32) (x4 : Vec F S1x128 .f32) (xs0 : Vec F S1x128 .f32) (xs1 : Vec F S1x128 .f32) : Vec F S5000x128 .f32 :=
  VO0_5.read (Elt F) (VO0_5.writes (Elt F) VO0_5.junk (kernelRun0_C c i arg1 harg1 arg2 harg2 arg3 harg3 arg4 harg4 arg5 harg5 arg6 harg6 arg7 harg7 arg8 harg8 arg9 harg9 arg10 harg10 hc0 hc1 x0 x1 x2 x3 x4 xs0 xs1).1)

/-- Case C's pieces for output window 6 cover it (one whole-rectangle store). -/
theorem cover0_C_6 (c : Dev nD) (i : grid0.Coords) (arg1 : Memref sig .tc .vmem S5000x128 .f32) (harg1 : arg1.IsWhole) (arg2 : Memref sig .tc .vmem S128x128 .f32) (harg2 : arg2.IsWhole) (arg3 : Memref sig .tc .vmem S1x128 .f32) (harg3 : arg3.IsWhole) (arg4 : Memref sig .tc .vmem S128x128 .f32) (harg4 : arg4.IsWhole) (arg5 : Memref sig .tc .vmem S1x128 .f32) (harg5 : arg5.IsWhole) (arg6 : Memref sig .tc .vmem S5000x128 .f32) (harg6 : arg6.IsWhole) (arg7 : Memref sig .tc .vmem S1x128 .f32) (harg7 : arg7.IsWhole) (arg8 : Memref sig .tc .vmem S1x128 .f32) (harg8 : arg8.IsWhole) (arg9 : Memref sig .tc .vmem S1x128 .f32) (harg9 : arg9.IsWhole) (arg10 : Memref sig .tc .vmem S1x128 .f32) (harg10 : arg10.IsWhole) (hc0 : ¬cond0_0 i) (hc1 : cond0_1 i)
    (x0 : Vec F S5000x128 .f32) (x1 : Vec F S128x128 .f32) (x2 : Vec F S1x128 .f32) (x3 : Vec F S128x128 .f32) (x4 : Vec F S1x128 .f32) (xs0 : Vec F S1x128 .f32) (xs1 : Vec F S1x128 .f32) (y : S1x128.Idx) :
    ∃ pc ∈ (kernelRun0_C c i arg1 harg1 arg2 harg2 arg3 harg3 arg4 harg4 arg5 harg5 arg6 harg6 arg7 harg7 arg8 harg8 arg9 harg9 arg10 harg10 hc0 hc1 x0 x1 x2 x3 x4 xs0 xs1).2.1, y ∈ pc.1.set :=
  View.cover_of_tiledL (kernelRun0_C c i arg1 harg1 arg2 harg2 arg3 harg3 arg4 harg4 arg5 harg5 arg6 harg6 arg7 harg7 arg8 harg8 arg9 harg9 arg10 harg10 hc0 hc1 x0 x1 x2 x3 x4 xs0 xs1).2.1 S1x128.size (by sl_kernel_rfl) y

/-- What case C leaves there: its pieces read back. -/
def out0_C_6 (c : Dev nD) (i : grid0.Coords) (arg1 : Memref sig .tc .vmem S5000x128 .f32) (harg1 : arg1.IsWhole) (arg2 : Memref sig .tc .vmem S128x128 .f32) (harg2 : arg2.IsWhole) (arg3 : Memref sig .tc .vmem S1x128 .f32) (harg3 : arg3.IsWhole) (arg4 : Memref sig .tc .vmem S128x128 .f32) (harg4 : arg4.IsWhole) (arg5 : Memref sig .tc .vmem S1x128 .f32) (harg5 : arg5.IsWhole) (arg6 : Memref sig .tc .vmem S5000x128 .f32) (harg6 : arg6.IsWhole) (arg7 : Memref sig .tc .vmem S1x128 .f32) (harg7 : arg7.IsWhole) (arg8 : Memref sig .tc .vmem S1x128 .f32) (harg8 : arg8.IsWhole) (arg9 : Memref sig .tc .vmem S1x128 .f32) (harg9 : arg9.IsWhole) (arg10 : Memref sig .tc .vmem S1x128 .f32) (harg10 : arg10.IsWhole) (hc0 : ¬cond0_0 i) (hc1 : cond0_1 i)
    (x0 : Vec F S5000x128 .f32) (x1 : Vec F S128x128 .f32) (x2 : Vec F S1x128 .f32) (x3 : Vec F S128x128 .f32) (x4 : Vec F S1x128 .f32) (xs0 : Vec F S1x128 .f32) (xs1 : Vec F S1x128 .f32) : Vec F S1x128 .f32 :=
  VO0_6.read (Elt F) (VO0_6.writes (Elt F) VO0_6.junk (kernelRun0_C c i arg1 harg1 arg2 harg2 arg3 harg3 arg4 harg4 arg5 harg5 arg6 harg6 arg7 harg7 arg8 harg8 arg9 harg9 arg10 harg10 hc0 hc1 x0 x1 x2 x3 x4 xs0 xs1).2.1)

/-- Case C's pieces for output window 7 cover it (one whole-rectangle store). -/
theorem cover0_C_7 (c : Dev nD) (i : grid0.Coords) (arg1 : Memref sig .tc .vmem S5000x128 .f32) (harg1 : arg1.IsWhole) (arg2 : Memref sig .tc .vmem S128x128 .f32) (harg2 : arg2.IsWhole) (arg3 : Memref sig .tc .vmem S1x128 .f32) (harg3 : arg3.IsWhole) (arg4 : Memref sig .tc .vmem S128x128 .f32) (harg4 : arg4.IsWhole) (arg5 : Memref sig .tc .vmem S1x128 .f32) (harg5 : arg5.IsWhole) (arg6 : Memref sig .tc .vmem S5000x128 .f32) (harg6 : arg6.IsWhole) (arg7 : Memref sig .tc .vmem S1x128 .f32) (harg7 : arg7.IsWhole) (arg8 : Memref sig .tc .vmem S1x128 .f32) (harg8 : arg8.IsWhole) (arg9 : Memref sig .tc .vmem S1x128 .f32) (harg9 : arg9.IsWhole) (arg10 : Memref sig .tc .vmem S1x128 .f32) (harg10 : arg10.IsWhole) (hc0 : ¬cond0_0 i) (hc1 : cond0_1 i)
    (x0 : Vec F S5000x128 .f32) (x1 : Vec F S128x128 .f32) (x2 : Vec F S1x128 .f32) (x3 : Vec F S128x128 .f32) (x4 : Vec F S1x128 .f32) (xs0 : Vec F S1x128 .f32) (xs1 : Vec F S1x128 .f32) (y : S1x128.Idx) :
    ∃ pc ∈ (kernelRun0_C c i arg1 harg1 arg2 harg2 arg3 harg3 arg4 harg4 arg5 harg5 arg6 harg6 arg7 harg7 arg8 harg8 arg9 harg9 arg10 harg10 hc0 hc1 x0 x1 x2 x3 x4 xs0 xs1).2.2.1, y ∈ pc.1.set :=
  View.cover_of_tiledL (kernelRun0_C c i arg1 harg1 arg2 harg2 arg3 harg3 arg4 harg4 arg5 harg5 arg6 harg6 arg7 harg7 arg8 harg8 arg9 harg9 arg10 harg10 hc0 hc1 x0 x1 x2 x3 x4 xs0 xs1).2.2.1 S1x128.size (by sl_kernel_rfl) y

/-- What case C leaves there: its pieces read back. -/
def out0_C_7 (c : Dev nD) (i : grid0.Coords) (arg1 : Memref sig .tc .vmem S5000x128 .f32) (harg1 : arg1.IsWhole) (arg2 : Memref sig .tc .vmem S128x128 .f32) (harg2 : arg2.IsWhole) (arg3 : Memref sig .tc .vmem S1x128 .f32) (harg3 : arg3.IsWhole) (arg4 : Memref sig .tc .vmem S128x128 .f32) (harg4 : arg4.IsWhole) (arg5 : Memref sig .tc .vmem S1x128 .f32) (harg5 : arg5.IsWhole) (arg6 : Memref sig .tc .vmem S5000x128 .f32) (harg6 : arg6.IsWhole) (arg7 : Memref sig .tc .vmem S1x128 .f32) (harg7 : arg7.IsWhole) (arg8 : Memref sig .tc .vmem S1x128 .f32) (harg8 : arg8.IsWhole) (arg9 : Memref sig .tc .vmem S1x128 .f32) (harg9 : arg9.IsWhole) (arg10 : Memref sig .tc .vmem S1x128 .f32) (harg10 : arg10.IsWhole) (hc0 : ¬cond0_0 i) (hc1 : cond0_1 i)
    (x0 : Vec F S5000x128 .f32) (x1 : Vec F S128x128 .f32) (x2 : Vec F S1x128 .f32) (x3 : Vec F S128x128 .f32) (x4 : Vec F S1x128 .f32) (xs0 : Vec F S1x128 .f32) (xs1 : Vec F S1x128 .f32) : Vec F S1x128 .f32 :=
  VO0_7.read (Elt F) (VO0_7.writes (Elt F) VO0_7.junk (kernelRun0_C c i arg1 harg1 arg2 harg2 arg3 harg3 arg4 harg4 arg5 harg5 arg6 harg6 arg7 harg7 arg8 harg8 arg9 harg9 arg10 harg10 hc0 hc1 x0 x1 x2 x3 x4 xs0 xs1).2.2.1)

/-- Case C's pieces for running-sum row 0 cover it (one whole-rectangle store). -/
theorem scover0_C_0 (c : Dev nD) (i : grid0.Coords) (arg1 : Memref sig .tc .vmem S5000x128 .f32) (harg1 : arg1.IsWhole) (arg2 : Memref sig .tc .vmem S128x128 .f32) (harg2 : arg2.IsWhole) (arg3 : Memref sig .tc .vmem S1x128 .f32) (harg3 : arg3.IsWhole) (arg4 : Memref sig .tc .vmem S128x128 .f32) (harg4 : arg4.IsWhole) (arg5 : Memref sig .tc .vmem S1x128 .f32) (harg5 : arg5.IsWhole) (arg6 : Memref sig .tc .vmem S5000x128 .f32) (harg6 : arg6.IsWhole) (arg7 : Memref sig .tc .vmem S1x128 .f32) (harg7 : arg7.IsWhole) (arg8 : Memref sig .tc .vmem S1x128 .f32) (harg8 : arg8.IsWhole) (arg9 : Memref sig .tc .vmem S1x128 .f32) (harg9 : arg9.IsWhole) (arg10 : Memref sig .tc .vmem S1x128 .f32) (harg10 : arg10.IsWhole) (hc0 : ¬cond0_0 i) (hc1 : cond0_1 i)
    (x0 : Vec F S5000x128 .f32) (x1 : Vec F S128x128 .f32) (x2 : Vec F S1x128 .f32) (x3 : Vec F S128x128 .f32) (x4 : Vec F S1x128 .f32) (xs0 : Vec F S1x128 .f32) (xs1 : Vec F S1x128 .f32) (y : S1x128.Idx) :
    ∃ pc ∈ (kernelRun0_C c i arg1 harg1 arg2 harg2 arg3 harg3 arg4 harg4 arg5 harg5 arg6 harg6 arg7 harg7 arg8 harg8 arg9 harg9 arg10 harg10 hc0 hc1 x0 x1 x2 x3 x4 xs0 xs1).2.2.2.1, y ∈ pc.1.set :=
  View.cover_of_tiledL (kernelRun0_C c i arg1 harg1 arg2 harg2 arg3 harg3 arg4 harg4 arg5 harg5 arg6 harg6 arg7 harg7 arg8 harg8 arg9 harg9 arg10 harg10 hc0 hc1 x0 x1 x2 x3 x4 xs0 xs1).2.2.2.1 S1x128.size (by sl_kernel_rfl) y

/-- What case C leaves there: its pieces read back. -/
def sout0_C_0 (c : Dev nD) (i : grid0.Coords) (arg1 : Memref sig .tc .vmem S5000x128 .f32) (harg1 : arg1.IsWhole) (arg2 : Memref sig .tc .vmem S128x128 .f32) (harg2 : arg2.IsWhole) (arg3 : Memref sig .tc .vmem S1x128 .f32) (harg3 : arg3.IsWhole) (arg4 : Memref sig .tc .vmem S128x128 .f32) (harg4 : arg4.IsWhole) (arg5 : Memref sig .tc .vmem S1x128 .f32) (harg5 : arg5.IsWhole) (arg6 : Memref sig .tc .vmem S5000x128 .f32) (harg6 : arg6.IsWhole) (arg7 : Memref sig .tc .vmem S1x128 .f32) (harg7 : arg7.IsWhole) (arg8 : Memref sig .tc .vmem S1x128 .f32) (harg8 : arg8.IsWhole) (arg9 : Memref sig .tc .vmem S1x128 .f32) (harg9 : arg9.IsWhole) (arg10 : Memref sig .tc .vmem S1x128 .f32) (harg10 : arg10.IsWhole) (hc0 : ¬cond0_0 i) (hc1 : cond0_1 i)
    (x0 : Vec F S5000x128 .f32) (x1 : Vec F S128x128 .f32) (x2 : Vec F S1x128 .f32) (x3 : Vec F S128x128 .f32) (x4 : Vec F S1x128 .f32) (xs0 : Vec F S1x128 .f32) (xs1 : Vec F S1x128 .f32) : Vec F S1x128 .f32 :=
  VS0_0.read (Elt F) (VS0_0.writes (Elt F) VS0_0.junk (kernelRun0_C c i arg1 harg1 arg2 harg2 arg3 harg3 arg4 harg4 arg5 harg5 arg6 harg6 arg7 harg7 arg8 harg8 arg9 harg9 arg10 harg10 hc0 hc1 x0 x1 x2 x3 x4 xs0 xs1).2.2.2.1)

/-- Case C's pieces for running-sum row 1 cover it (one whole-rectangle store). -/
theorem scover0_C_1 (c : Dev nD) (i : grid0.Coords) (arg1 : Memref sig .tc .vmem S5000x128 .f32) (harg1 : arg1.IsWhole) (arg2 : Memref sig .tc .vmem S128x128 .f32) (harg2 : arg2.IsWhole) (arg3 : Memref sig .tc .vmem S1x128 .f32) (harg3 : arg3.IsWhole) (arg4 : Memref sig .tc .vmem S128x128 .f32) (harg4 : arg4.IsWhole) (arg5 : Memref sig .tc .vmem S1x128 .f32) (harg5 : arg5.IsWhole) (arg6 : Memref sig .tc .vmem S5000x128 .f32) (harg6 : arg6.IsWhole) (arg7 : Memref sig .tc .vmem S1x128 .f32) (harg7 : arg7.IsWhole) (arg8 : Memref sig .tc .vmem S1x128 .f32) (harg8 : arg8.IsWhole) (arg9 : Memref sig .tc .vmem S1x128 .f32) (harg9 : arg9.IsWhole) (arg10 : Memref sig .tc .vmem S1x128 .f32) (harg10 : arg10.IsWhole) (hc0 : ¬cond0_0 i) (hc1 : cond0_1 i)
    (x0 : Vec F S5000x128 .f32) (x1 : Vec F S128x128 .f32) (x2 : Vec F S1x128 .f32) (x3 : Vec F S128x128 .f32) (x4 : Vec F S1x128 .f32) (xs0 : Vec F S1x128 .f32) (xs1 : Vec F S1x128 .f32) (y : S1x128.Idx) :
    ∃ pc ∈ (kernelRun0_C c i arg1 harg1 arg2 harg2 arg3 harg3 arg4 harg4 arg5 harg5 arg6 harg6 arg7 harg7 arg8 harg8 arg9 harg9 arg10 harg10 hc0 hc1 x0 x1 x2 x3 x4 xs0 xs1).2.2.2.2.1, y ∈ pc.1.set :=
  View.cover_of_tiledL (kernelRun0_C c i arg1 harg1 arg2 harg2 arg3 harg3 arg4 harg4 arg5 harg5 arg6 harg6 arg7 harg7 arg8 harg8 arg9 harg9 arg10 harg10 hc0 hc1 x0 x1 x2 x3 x4 xs0 xs1).2.2.2.2.1 S1x128.size (by sl_kernel_rfl) y

/-- What case C leaves there: its pieces read back. -/
def sout0_C_1 (c : Dev nD) (i : grid0.Coords) (arg1 : Memref sig .tc .vmem S5000x128 .f32) (harg1 : arg1.IsWhole) (arg2 : Memref sig .tc .vmem S128x128 .f32) (harg2 : arg2.IsWhole) (arg3 : Memref sig .tc .vmem S1x128 .f32) (harg3 : arg3.IsWhole) (arg4 : Memref sig .tc .vmem S128x128 .f32) (harg4 : arg4.IsWhole) (arg5 : Memref sig .tc .vmem S1x128 .f32) (harg5 : arg5.IsWhole) (arg6 : Memref sig .tc .vmem S5000x128 .f32) (harg6 : arg6.IsWhole) (arg7 : Memref sig .tc .vmem S1x128 .f32) (harg7 : arg7.IsWhole) (arg8 : Memref sig .tc .vmem S1x128 .f32) (harg8 : arg8.IsWhole) (arg9 : Memref sig .tc .vmem S1x128 .f32) (harg9 : arg9.IsWhole) (arg10 : Memref sig .tc .vmem S1x128 .f32) (harg10 : arg10.IsWhole) (hc0 : ¬cond0_0 i) (hc1 : cond0_1 i)
    (x0 : Vec F S5000x128 .f32) (x1 : Vec F S128x128 .f32) (x2 : Vec F S1x128 .f32) (x3 : Vec F S128x128 .f32) (x4 : Vec F S1x128 .f32) (xs0 : Vec F S1x128 .f32) (xs1 : Vec F S1x128 .f32) : Vec F S1x128 .f32 :=
  VS0_1.read (Elt F) (VS0_1.writes (Elt F) VS0_1.junk (kernelRun0_C c i arg1 harg1 arg2 harg2 arg3 harg3 arg4 harg4 arg5 harg5 arg6 harg6 arg7 harg7 arg8 harg8 arg9 harg9 arg10 harg10 hc0 hc1 x0 x1 x2 x3 x4 xs0 xs1).2.2.2.2.1)

/-- THE ACCUMULATION. What the three outputs' staging buffers and the two running-sum rows hold after the body at position `n`
    (a tuple: z's block, the two [1,128] outputs, then the two rows): the first point's case zeroes the rows first; every later
    point runs on the rows as the point before left them; the last point also copies them out. The two [1,128] outputs are idle
    before the last point: their component there is a placeholder nothing consults. -/
def outsAt0 (c : Dev nD) : (n : ℕ) → n < cfg0.N → Vec F S5000x128 .f32 × Vec F S1x128 .f32 × Vec F S1x128 .f32 × Vec F S1x128 .f32 × Vec F S1x128 .f32
  | 0, hn => (out0_A_5 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) (ms0_6 ⟨0, hn⟩) (hs0_6 ⟨0, hn⟩) (ms0_7 ⟨0, hn⟩) (hs0_7 ⟨0, hn⟩) scM0_0 (Memref.isWhole_whole _) scM0_1 (Memref.isWhole_whole _) ((hcond0_0 ⟨0, hn⟩).mpr (Nat.zero_mod _)) (fun h => (fun h => by (try dsimp only at h); omega) ((hcond0_1 ⟨0, hn⟩).mp h)) (iblk0 V c 0 ⟨0, hn⟩) (iblk0 V c 1 ⟨0, hn⟩) (iblk0 V c 2 ⟨0, hn⟩) (iblk0 V c 3 ⟨0, hn⟩) (iblk0 V c 4 ⟨0, hn⟩),
      VO0_6.read (Elt F) VO0_6.junk,
      VO0_7.read (Elt F) VO0_7.junk,
      sout0_A_0 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) (ms0_6 ⟨0, hn⟩) (hs0_6 ⟨0, hn⟩) (ms0_7 ⟨0, hn⟩) (hs0_7 ⟨0, hn⟩) scM0_0 (Memref.isWhole_whole _) scM0_1 (Memref.isWhole_whole _) ((hcond0_0 ⟨0, hn⟩).mpr (Nat.zero_mod _)) (fun h => (fun h => by (try dsimp only at h); omega) ((hcond0_1 ⟨0, hn⟩).mp h)) (iblk0 V c 0 ⟨0, hn⟩) (iblk0 V c 1 ⟨0, hn⟩) (iblk0 V c 2 ⟨0, hn⟩) (iblk0 V c 3 ⟨0, hn⟩) (iblk0 V c 4 ⟨0, hn⟩),
      sout0_A_1 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) (ms0_6 ⟨0, hn⟩) (hs0_6 ⟨0, hn⟩) (ms0_7 ⟨0, hn⟩) (hs0_7 ⟨0, hn⟩) scM0_0 (Memref.isWhole_whole _) scM0_1 (Memref.isWhole_whole _) ((hcond0_0 ⟨0, hn⟩).mpr (Nat.zero_mod _)) (fun h => (fun h => by (try dsimp only at h); omega) ((hcond0_1 ⟨0, hn⟩).mp h)) (iblk0 V c 0 ⟨0, hn⟩) (iblk0 V c 1 ⟨0, hn⟩) (iblk0 V c 2 ⟨0, hn⟩) (iblk0 V c 3 ⟨0, hn⟩) (iblk0 V c 4 ⟨0, hn⟩))
  | n + 1, hn =>
    if h1 : (n + 1) % 20 = 19 then
      (out0_C_5 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) scM0_0 (Memref.isWhole_whole _) scM0_1 (Memref.isWhole_whole _) (fun h => (by have hN : n + 1 < 20 := lt_of_lt_of_eq hn (show cfg0.N = 20 from N_0); omega : ¬(n + 1) % 20 = 0) ((hcond0_0 ⟨n + 1, hn⟩).mp h)) ((hcond0_1 ⟨n + 1, hn⟩).mpr h1) (iblk0 V c 0 ⟨n + 1, hn⟩) (iblk0 V c 1 ⟨n + 1, hn⟩) (iblk0 V c 2 ⟨n + 1, hn⟩) (iblk0 V c 3 ⟨n + 1, hn⟩) (iblk0 V c 4 ⟨n + 1, hn⟩) (outsAt0 c n (Nat.lt_of_succ_lt hn)).2.2.2.1 (outsAt0 c n (Nat.lt_of_succ_lt hn)).2.2.2.2,
      out0_C_6 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) scM0_0 (Memref.isWhole_whole _) scM0_1 (Memref.isWhole_whole _) (fun h => (by have hN : n + 1 < 20 := lt_of_lt_of_eq hn (show cfg0.N = 20 from N_0); omega : ¬(n + 1) % 20 = 0) ((hcond0_0 ⟨n + 1, hn⟩).mp h)) ((hcond0_1 ⟨n + 1, hn⟩).mpr h1) (iblk0 V c 0 ⟨n + 1, hn⟩) (iblk0 V c 1 ⟨n + 1, hn⟩) (iblk0 V c 2 ⟨n + 1, hn⟩) (iblk0 V c 3 ⟨n + 1, hn⟩) (iblk0 V c 4 ⟨n + 1, hn⟩) (outsAt0 c n (Nat.lt_of_succ_lt hn)).2.2.2.1 (outsAt0 c n (Nat.lt_of_succ_lt hn)).2.2.2.2,
      out0_C_7 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) scM0_0 (Memref.isWhole_whole _) scM0_1 (Memref.isWhole_whole _) (fun h => (by have hN : n + 1 < 20 := lt_of_lt_of_eq hn (show cfg0.N = 20 from N_0); omega : ¬(n + 1) % 20 = 0) ((hcond0_0 ⟨n + 1, hn⟩).mp h)) ((hcond0_1 ⟨n + 1, hn⟩).mpr h1) (iblk0 V c 0 ⟨n + 1, hn⟩) (iblk0 V c 1 ⟨n + 1, hn⟩) (iblk0 V c 2 ⟨n + 1, hn⟩) (iblk0 V c 3 ⟨n + 1, hn⟩) (iblk0 V c 4 ⟨n + 1, hn⟩) (outsAt0 c n (Nat.lt_of_succ_lt hn)).2.2.2.1 (outsAt0 c n (Nat.lt_of_succ_lt hn)).2.2.2.2,
      sout0_C_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) scM0_0 (Memref.isWhole_whole _) scM0_1 (Memref.isWhole_whole _) (fun h => (by have hN : n + 1 < 20 := lt_of_lt_of_eq hn (show cfg0.N = 20 from N_0); omega : ¬(n + 1) % 20 = 0) ((hcond0_0 ⟨n + 1, hn⟩).mp h)) ((hcond0_1 ⟨n + 1, hn⟩).mpr h1) (iblk0 V c 0 ⟨n + 1, hn⟩) (iblk0 V c 1 ⟨n + 1, hn⟩) (iblk0 V c 2 ⟨n + 1, hn⟩) (iblk0 V c 3 ⟨n + 1, hn⟩) (iblk0 V c 4 ⟨n + 1, hn⟩) (outsAt0 c n (Nat.lt_of_succ_lt hn)).2.2.2.1 (outsAt0 c n (Nat.lt_of_succ_lt hn)).2.2.2.2,
      sout0_C_1 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) scM0_0 (Memref.isWhole_whole _) scM0_1 (Memref.isWhole_whole _) (fun h => (by have hN : n + 1 < 20 := lt_of_lt_of_eq hn (show cfg0.N = 20 from N_0); omega : ¬(n + 1) % 20 = 0) ((hcond0_0 ⟨n + 1, hn⟩).mp h)) ((hcond0_1 ⟨n + 1, hn⟩).mpr h1) (iblk0 V c 0 ⟨n + 1, hn⟩) (iblk0 V c 1 ⟨n + 1, hn⟩) (iblk0 V c 2 ⟨n + 1, hn⟩) (iblk0 V c 3 ⟨n + 1, hn⟩) (iblk0 V c 4 ⟨n + 1, hn⟩) (outsAt0 c n (Nat.lt_of_succ_lt hn)).2.2.2.1 (outsAt0 c n (Nat.lt_of_succ_lt hn)).2.2.2.2)
    else
      (out0_B_5 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) scM0_0 (Memref.isWhole_whole _) scM0_1 (Memref.isWhole_whole _) (fun h => (by have hN : n + 1 < 20 := lt_of_lt_of_eq hn (show cfg0.N = 20 from N_0); omega : ¬(n + 1) % 20 = 0) ((hcond0_0 ⟨n + 1, hn⟩).mp h)) (fun h => h1 ((hcond0_1 ⟨n + 1, hn⟩).mp h)) (iblk0 V c 0 ⟨n + 1, hn⟩) (iblk0 V c 1 ⟨n + 1, hn⟩) (iblk0 V c 2 ⟨n + 1, hn⟩) (iblk0 V c 3 ⟨n + 1, hn⟩) (iblk0 V c 4 ⟨n + 1, hn⟩) (outsAt0 c n (Nat.lt_of_succ_lt hn)).2.2.2.1 (outsAt0 c n (Nat.lt_of_succ_lt hn)).2.2.2.2,
      VO0_6.read (Elt F) VO0_6.junk,
      VO0_7.read (Elt F) VO0_7.junk,
      sout0_B_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) scM0_0 (Memref.isWhole_whole _) scM0_1 (Memref.isWhole_whole _) (fun h => (by have hN : n + 1 < 20 := lt_of_lt_of_eq hn (show cfg0.N = 20 from N_0); omega : ¬(n + 1) % 20 = 0) ((hcond0_0 ⟨n + 1, hn⟩).mp h)) (fun h => h1 ((hcond0_1 ⟨n + 1, hn⟩).mp h)) (iblk0 V c 0 ⟨n + 1, hn⟩) (iblk0 V c 1 ⟨n + 1, hn⟩) (iblk0 V c 2 ⟨n + 1, hn⟩) (iblk0 V c 3 ⟨n + 1, hn⟩) (iblk0 V c 4 ⟨n + 1, hn⟩) (outsAt0 c n (Nat.lt_of_succ_lt hn)).2.2.2.1 (outsAt0 c n (Nat.lt_of_succ_lt hn)).2.2.2.2,
      sout0_B_1 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) scM0_0 (Memref.isWhole_whole _) scM0_1 (Memref.isWhole_whole _) (fun h => (by have hN : n + 1 < 20 := lt_of_lt_of_eq hn (show cfg0.N = 20 from N_0); omega : ¬(n + 1) % 20 = 0) ((hcond0_0 ⟨n + 1, hn⟩).mp h)) (fun h => h1 ((hcond0_1 ⟨n + 1, hn⟩).mp h)) (iblk0 V c 0 ⟨n + 1, hn⟩) (iblk0 V c 1 ⟨n + 1, hn⟩) (iblk0 V c 2 ⟨n + 1, hn⟩) (iblk0 V c 3 ⟨n + 1, hn⟩) (iblk0 V c 4 ⟨n + 1, hn⟩) (outsAt0 c n (Nat.lt_of_succ_lt hn)).2.2.2.1 (outsAt0 c n (Nat.lt_of_succ_lt hn)).2.2.2.2)

/-- `outsAt0` at the first point. -/
theorem outsAt0_A (c : Dev nD) (t : Fin cfg0.N) (h0 : t.val % 20 = 0) (h1 : ¬t.val % 20 = 19) :
    outsAt0 V c t.val t.isLt = (out0_A_5 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) scM0_1 (Memref.isWhole_whole _) ((hcond0_0 t).mpr h0) (fun h => h1 ((hcond0_1 t).mp h)) (iblk0 V c 0 t) (iblk0 V c 1 t) (iblk0 V c 2 t) (iblk0 V c 3 t) (iblk0 V c 4 t),
      VO0_6.read (Elt F) VO0_6.junk,
      VO0_7.read (Elt F) VO0_7.junk,
      sout0_A_0 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) scM0_1 (Memref.isWhole_whole _) ((hcond0_0 t).mpr h0) (fun h => h1 ((hcond0_1 t).mp h)) (iblk0 V c 0 t) (iblk0 V c 1 t) (iblk0 V c 2 t) (iblk0 V c 3 t) (iblk0 V c 4 t),
      sout0_A_1 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) scM0_1 (Memref.isWhole_whole _) ((hcond0_0 t).mpr h0) (fun h => h1 ((hcond0_1 t).mp h)) (iblk0 V c 0 t) (iblk0 V c 1 t) (iblk0 V c 2 t) (iblk0 V c 3 t) (iblk0 V c 4 t)) := by
  obtain ⟨n, hn⟩ := t
  cases n with
  | zero => exact rfl
  | succ n => exact (by exfalso; have hN : n + 1 < 20 := lt_of_lt_of_eq hn (show cfg0.N = 20 from N_0); (try dsimp only at h0); omega)

/-- `outsAt0` at a middle point: that case's contents, over what the point before left. -/
theorem outsAt0_B (c : Dev nD) (t : Fin cfg0.N) (h0 : ¬t.val % 20 = 0) (h1 : ¬t.val % 20 = 19) :
    outsAt0 V c t.val t.isLt = (out0_B_5 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) scM0_1 (Memref.isWhole_whole _) (fun h => h0 ((hcond0_0 t).mp h)) (fun h => h1 ((hcond0_1 t).mp h)) (iblk0 V c 0 t) (iblk0 V c 1 t) (iblk0 V c 2 t) (iblk0 V c 3 t) (iblk0 V c 4 t) (outsAt0 V c (t.val - 1) (Nat.lt_of_le_of_lt (Nat.sub_le _ _) t.isLt)).2.2.2.1 (outsAt0 V c (t.val - 1) (Nat.lt_of_le_of_lt (Nat.sub_le _ _) t.isLt)).2.2.2.2,
      VO0_6.read (Elt F) VO0_6.junk,
      VO0_7.read (Elt F) VO0_7.junk,
      sout0_B_0 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) scM0_1 (Memref.isWhole_whole _) (fun h => h0 ((hcond0_0 t).mp h)) (fun h => h1 ((hcond0_1 t).mp h)) (iblk0 V c 0 t) (iblk0 V c 1 t) (iblk0 V c 2 t) (iblk0 V c 3 t) (iblk0 V c 4 t) (outsAt0 V c (t.val - 1) (Nat.lt_of_le_of_lt (Nat.sub_le _ _) t.isLt)).2.2.2.1 (outsAt0 V c (t.val - 1) (Nat.lt_of_le_of_lt (Nat.sub_le _ _) t.isLt)).2.2.2.2,
      sout0_B_1 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) scM0_1 (Memref.isWhole_whole _) (fun h => h0 ((hcond0_0 t).mp h)) (fun h => h1 ((hcond0_1 t).mp h)) (iblk0 V c 0 t) (iblk0 V c 1 t) (iblk0 V c 2 t) (iblk0 V c 3 t) (iblk0 V c 4 t) (outsAt0 V c (t.val - 1) (Nat.lt_of_le_of_lt (Nat.sub_le _ _) t.isLt)).2.2.2.1 (outsAt0 V c (t.val - 1) (Nat.lt_of_le_of_lt (Nat.sub_le _ _) t.isLt)).2.2.2.2) := by
  obtain ⟨n, hn⟩ := t
  cases n with
  | zero => exact (by exfalso; (try dsimp only at h0); exact absurd (Nat.zero_mod _) h0)
  | succ n => exact (dif_neg h1).trans rfl

/-- `outsAt0` at the last point. -/
theorem outsAt0_C (c : Dev nD) (t : Fin cfg0.N) (h0 : ¬t.val % 20 = 0) (h1 : t.val % 20 = 19) :
    outsAt0 V c t.val t.isLt = (out0_C_5 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) scM0_1 (Memref.isWhole_whole _) (fun h => h0 ((hcond0_0 t).mp h)) ((hcond0_1 t).mpr h1) (iblk0 V c 0 t) (iblk0 V c 1 t) (iblk0 V c 2 t) (iblk0 V c 3 t) (iblk0 V c 4 t) (outsAt0 V c (t.val - 1) (Nat.lt_of_le_of_lt (Nat.sub_le _ _) t.isLt)).2.2.2.1 (outsAt0 V c (t.val - 1) (Nat.lt_of_le_of_lt (Nat.sub_le _ _) t.isLt)).2.2.2.2,
      out0_C_6 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) scM0_1 (Memref.isWhole_whole _) (fun h => h0 ((hcond0_0 t).mp h)) ((hcond0_1 t).mpr h1) (iblk0 V c 0 t) (iblk0 V c 1 t) (iblk0 V c 2 t) (iblk0 V c 3 t) (iblk0 V c 4 t) (outsAt0 V c (t.val - 1) (Nat.lt_of_le_of_lt (Nat.sub_le _ _) t.isLt)).2.2.2.1 (outsAt0 V c (t.val - 1) (Nat.lt_of_le_of_lt (Nat.sub_le _ _) t.isLt)).2.2.2.2,
      out0_C_7 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) scM0_1 (Memref.isWhole_whole _) (fun h => h0 ((hcond0_0 t).mp h)) ((hcond0_1 t).mpr h1) (iblk0 V c 0 t) (iblk0 V c 1 t) (iblk0 V c 2 t) (iblk0 V c 3 t) (iblk0 V c 4 t) (outsAt0 V c (t.val - 1) (Nat.lt_of_le_of_lt (Nat.sub_le _ _) t.isLt)).2.2.2.1 (outsAt0 V c (t.val - 1) (Nat.lt_of_le_of_lt (Nat.sub_le _ _) t.isLt)).2.2.2.2,
      sout0_C_0 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) scM0_1 (Memref.isWhole_whole _) (fun h => h0 ((hcond0_0 t).mp h)) ((hcond0_1 t).mpr h1) (iblk0 V c 0 t) (iblk0 V c 1 t) (iblk0 V c 2 t) (iblk0 V c 3 t) (iblk0 V c 4 t) (outsAt0 V c (t.val - 1) (Nat.lt_of_le_of_lt (Nat.sub_le _ _) t.isLt)).2.2.2.1 (outsAt0 V c (t.val - 1) (Nat.lt_of_le_of_lt (Nat.sub_le _ _) t.isLt)).2.2.2.2,
      sout0_C_1 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) scM0_1 (Memref.isWhole_whole _) (fun h => h0 ((hcond0_0 t).mp h)) ((hcond0_1 t).mpr h1) (iblk0 V c 0 t) (iblk0 V c 1 t) (iblk0 V c 2 t) (iblk0 V c 3 t) (iblk0 V c 4 t) (outsAt0 V c (t.val - 1) (Nat.lt_of_le_of_lt (Nat.sub_le _ _) t.isLt)).2.2.2.1 (outsAt0 V c (t.val - 1) (Nat.lt_of_le_of_lt (Nat.sub_le _ _) t.isLt)).2.2.2.2) := by
  obtain ⟨n, hn⟩ := t
  cases n with
  | zero => exact (by exfalso; (try dsimp only at h0); exact absurd (Nat.zero_mod _) h0)
  | succ n => exact (dif_pos h1).trans rfl

/-- The region invariant before position `n`: before the first point the class's (every scoped buffer at anything); afterwards the
    two running-sum rows at what the point before left in them, every other scoped buffer unopened at anything, and the generator
    register at some state. -/
def PhiS0 (c : Dev nD) : (n : ℕ) → n ≤ cfg0.N → sProp 𝕄
  | 0, _ => Pipeline.ΦA spec0 c
  | n + 1, hn => iprop(iprop(iprop(owns (c : Thread nD τ) scM0_0 fullShare (outsAt0 V c n hn).2.2.2.1 ∗ owns (c : Thread nD τ) scM0_1 fullShare (outsAt0 V c n hn).2.2.2.2) ∗ Pipeline.scopedRestBut (Ix := Unit) (Name := ℕ) (U := UR sig nD τ) (Lvl := ℕ) (Val := Elt F) spec0 c [cc0_scratch0, cc0_scratch1]) ∗ (∃ r, prngReg c r))

theorem PhiS0_zero (c : Dev nD) (n : ℕ) (h : n ≤ cfg0.N) (hz : n = 0) : PhiS0 V c n h = Pipeline.ΦA spec0 c := by
  subst hz; rfl

theorem PhiS0_succ (c : Dev nD) (n : ℕ) (hn : n < cfg0.N) :
    PhiS0 V c (n + 1) hn = iprop(iprop(iprop(owns (c : Thread nD τ) scM0_0 fullShare (outsAt0 V c n hn).2.2.2.1 ∗ owns (c : Thread nD τ) scM0_1 fullShare (outsAt0 V c n hn).2.2.2.2) ∗ Pipeline.scopedRestBut (Ix := Unit) (Name := ℕ) (U := UR sig nD τ) (Lvl := ℕ) (Val := Elt F) spec0 c [cc0_scratch0, cc0_scratch1]) ∗ (∃ r, prngReg c r)) := rfl

theorem PhiS0_pos (c : Dev nD) (n : ℕ) (h : n ≤ cfg0.N) (hz : n ≠ 0) :
    PhiS0 V c n h = iprop(iprop(iprop(owns (c : Thread nD τ) scM0_0 fullShare (outsAt0 V c (n - 1) (by omega)).2.2.2.1 ∗ owns (c : Thread nD τ) scM0_1 fullShare (outsAt0 V c (n - 1) (by omega)).2.2.2.2) ∗ Pipeline.scopedRestBut (Ix := Unit) (Name := ℕ) (U := UR sig nD τ) (Lvl := ℕ) (Val := Elt F) spec0 c [cc0_scratch0, cc0_scratch1]) ∗ (∃ r, prngReg c r)) := by
  cases n with
  | zero => exact absurd rfl hz
  | succ n => rfl

/-! ## The pipeline's proof data -/

/-- The proof data of region 0 on core `c`: the arrays as the region finds them; after the body at point `t` each input's buffer
    at its block and the outputs' at `outsAt0`; the invariant `PhiS0`; nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => iblk0 V c 4 t
    | ⟨5, _⟩ => (outsAt0 V c t.val t.isLt).1
    | ⟨6, _⟩ => (outsAt0 V c t.val t.isLt).2.1
    | ⟨7, _⟩ => (outsAt0 V c t.val t.isLt).2.2.1
  Φ t := PhiS0 V c t.val (Nat.le_of_lt_succ t.isLt)
  q _ := fullShare
  owed _ := 0

theorem A_eq0 (c : Dev nD) (w : Fin cfg0.W) : (dat0 V c).A w = V c (Pipeline.arrRef spec0 w) := by
  dsimp only [dat0]

theorem PhiS0_castSucc (c : Dev nD) (t : Fin cfg0.N) :
    (dat0 V c).Φ t.castSucc = PhiS0 V c t.val (Nat.le_of_lt t.isLt) := by
  dsimp only [dat0]; simp only [Fin.coe_castSucc]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = iblk0 V c 3 t := by dsimp only [dat0]
theorem after0_4 (c : Dev nD) (t : Fin cfg0.N) : (dat0 V c).after 4 t = iblk0 V c 4 t := by dsimp only [dat0]
theorem after0_5 (c : Dev nD) (t : Fin cfg0.N) : (dat0 V c).after 5 t = (outsAt0 V c t.val t.isLt).1 := by dsimp only [dat0]
theorem after0_6 (c : Dev nD) (t : Fin cfg0.N) : (dat0 V c).after 6 t = (outsAt0 V c t.val t.isLt).2.1 := by dsimp only [dat0]
theorem after0_7 (c : Dev nD) (t : Fin cfg0.N) : (dat0 V c).after 7 t = (outsAt0 V c t.val t.isLt).2.2.1 := by dsimp only [dat0]

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d
theorem before0_3 (c : Dev nD) (t : Fin cfg0.N) (d) : (dat0 V c).before 3 t d = iblk0 V c 3 t :=
  before0_3_of V (dat0 V c) (A_eq0 V c 3) (after0_3 V c) t d
theorem before0_4 (c : Dev nD) (t : Fin cfg0.N) (d) : (dat0 V c).before 4 t d = iblk0 V c 4 t :=
  before0_4_of V (dat0 V c) (A_eq0 V c 4) (after0_4 V c) t d

/-! ## The body obligation, at a generic point -/

def bodyPre0 (c : Dev nD) (t : Fin cfg0.N) : sProp 𝕄 :=
  iprop((dat0 V c).Φ t.castSucc ∗ (dat0 V c).owesAt () t.castSucc
    ∗ (∃ d, owns (c : Thread nD τ) (ms0_0 t) fullShare ((dat0 V c).before 0 t d))
    ∗ (∃ d, owns (c : Thread nD τ) (ms0_1 t) fullShare ((dat0 V c).before 1 t d))
    ∗ (∃ d, owns (c : Thread nD τ) (ms0_2 t) fullShare ((dat0 V c).before 2 t d))
    ∗ (∃ d, owns (c : Thread nD τ) (ms0_3 t) fullShare ((dat0 V c).before 3 t d))
    ∗ (∃ d, owns (c : Thread nD τ) (ms0_4 t) fullShare ((dat0 V c).before 4 t d))
    ∗ (∃ d, owns (c : Thread nD τ) (ms0_5 t) fullShare ((dat0 V c).before 5 t d))
    ∗ (∃ d, owns (c : Thread nD τ) (ms0_6 t) fullShare ((dat0 V c).before 6 t d))
    ∗ (∃ d, owns (c : Thread nD τ) (ms0_7 t) fullShare ((dat0 V c).before 7 t d)))

def bodyPost0 (c : Dev nD) (t : Fin cfg0.N) : sProp 𝕄 :=
  iprop((dat0 V c).Φ t.succ ∗ (dat0 V c).owesAt () t.succ
    ∗ (dat0 V c).leavesExact 0 t
    ∗ (dat0 V c).leavesExact 1 t
    ∗ (dat0 V c).leavesExact 2 t
    ∗ (dat0 V c).leavesExact 3 t
    ∗ (dat0 V c).leavesExact 4 t
    ∗ (dat0 V c).leavesExact 5 t
    ∗ (dat0 V c).leavesExact 6 t
    ∗ (dat0 V c).leavesExact 7 t)

set_option maxHeartbeats 8000000 in
/-- The body at any point. The inputs' memrefs hold their blocks; the closed forms of the two conditions say which case the point
    is in; the invariant hands the body the two running-sum rows (at anything at the first point, at what the point before left
    afterwards) and takes them back at this point's contents; the core owes nothing throughout. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2, before0_3, before0_4]
  rw [show (dat0 V c).owesAt () t.succ = (dat0 V c).owesAt () t.castSucc from rfl]
  rw [show (dat0 V c).Φ t.succ = PhiS0 V c (t.val + 1) t.isLt from rfl, PhiS0_succ]
  have hN : t.val < 20 := lt_of_lt_of_eq t.isLt (show cfg0.N = 20 from N_0)
  by_cases h0 : t.val % 20 = 0
  · have h1 : ¬t.val % 20 = 19 := by omega
    have hz : t.val = 0 := by omega
    rw [show (dat0 V c).leavesExact 0 t = owns (c : Thread nD τ) (ms0_0 t) fullShare ((dat0 V c).after 0 t) from by
      unfold Dat.leavesExact; rw [liveAt0_0 t], after0_0]
    rw [show (dat0 V c).leavesExact 1 t = owns (c : Thread nD τ) (ms0_1 t) fullShare ((dat0 V c).after 1 t) from by
      unfold Dat.leavesExact; rw [liveAt0_1 t], after0_1]
    rw [show (dat0 V c).leavesExact 2 t = owns (c : Thread nD τ) (ms0_2 t) fullShare ((dat0 V c).after 2 t) from by
      unfold Dat.leavesExact; rw [liveAt0_2 t], after0_2]
    rw [show (dat0 V c).leavesExact 3 t = owns (c : Thread nD τ) (ms0_3 t) fullShare ((dat0 V c).after 3 t) from by
      unfold Dat.leavesExact; rw [liveAt0_3 t], after0_3]
    rw [show (dat0 V c).leavesExact 4 t = owns (c : Thread nD τ) (ms0_4 t) fullShare ((dat0 V c).after 4 t) from by
      unfold Dat.leavesExact; rw [liveAt0_4 t], after0_4]
    rw [show (dat0 V c).leavesExact 5 t = owns (c : Thread nD τ) (ms0_5 t) fullShare ((dat0 V c).after 5 t) from by
      unfold Dat.leavesExact; rw [liveAt0_5 t], after0_5]
    rw [Dat.leavesExact_idle (dat0 V c) 6 t (idleAt0_6 t (fun h => h1 ((hcond0_1 t).mp h))) (noFlush0_6 t (fun h => h1 ((hcond0_1 t).mp h)))]
    rw [Dat.leavesExact_idle (dat0 V c) 7 t (idleAt0_7 t (fun h => h1 ((hcond0_1 t).mp h))) (noFlush0_7 t (fun h => h1 ((hcond0_1 t).mp h)))]
    rw [outsAt0_A V c t h0 h1]
    unfold out0_A_5 sout0_A_0 sout0_A_1; (try dsimp only)
    rw [PhiS0_castSucc V c t, PhiS0_zero V c _ _ hz, PhiA0_eq]
    ·
      iintro ⟨⟨⟨⟨HS0, HS1⟩, HR⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩⟩
      iapply ((kernelRun0_A c (grid0.coords t) _ _ _ _ _ _ _ _ _ _ _ _ _ _ _ _ _ _ _ _ ((hcond0_0 t).mpr h0) (fun h => h1 ((hcond0_1 t).mp h)) (iblk0 V c 0 t) (iblk0 V c 1 t) (iblk0 V c 2 t) (iblk0 V c 3 t) (iblk0 V c 4 t)).2.2.2.2.2 _ _ Set.univ _)
      isplitl [H0]; · iexact H0
      isplitl [H1]; · iexact H1
      isplitl [H2]; · iexact H2
      isplitl [H3]; · iexact H3
      isplitl [H4]; · iexact H4
      isplitl [H5]; · iexists _; iexact H5
      isplitl [H6]; · iexact H6
      isplitl [H7]; · iexact H7
      isplitl [HS0]; · iexact HS0
      isplitl [HS1]; · iexact HS1
      iintro ⟨H0, H1, H2, H3, H4, ⟨%e5, H5⟩, H6, H7, ⟨%es0, HS0⟩, ⟨%es1, HS1⟩⟩
      isplitl [HS0 HS1 HR Hg]
      · isplitl [HS0 HS1 HR]
        · isplitl [HS0 HS1]
          · isplitl [HS0]
            · unfold owns; iexists _; isplitr
              swap; · iexact HS0
              ipureintro; exact View.read_writes_of_cover _ _ _ _ _ (scover0_A_0 c _ _ _ _ _ _ _ _ _ _ _ _ _ _ _ _ _ _ _ _ _ _ _ _ _ _ _ _)
            · unfold owns; iexists _; isplitr
              swap; · iexact HS1
              ipureintro; exact View.read_writes_of_cover _ _ _ _ _ (scover0_A_1 c _ _ _ _ _ _ _ _ _ _ _ _ _ _ _ _ _ _ _ _ _ _ _ _ _ _ _ _)
          iexact HR
        iexact Hg
      isplitl [Ho]; · iexact Ho
      isplitl [H0]; · iexact H0
      isplitl [H1]; · iexact H1
      isplitl [H2]; · iexact H2
      isplitl [H3]; · iexact H3
      isplitl [H4]; · iexact H4
      isplitl [H5]
      · unfold owns; iexists _; isplitr
        swap; · iexact H5
        ipureintro; exact View.read_writes_of_cover _ _ _ _ _ (cover0_A_5 c _ _ _ _ _ _ _ _ _ _ _ _ _ _ _ _ _ _ _ _ _ _ _ _ _ _ _ _)
      isplitl [H6]; · iexists _; iexact H6
      iexists _; iexact H7
  · have hz : t.val ≠ 0 := by omega
    by_cases h1 : t.val % 20 = 19
    ·
      rw [show (dat0 V c).leavesExact 0 t = owns (c : Thread nD τ) (ms0_0 t) fullShare ((dat0 V c).after 0 t) from by
        unfold Dat.leavesExact; rw [liveAt0_0 t], after0_0]
      rw [show (dat0 V c).leavesExact 1 t = owns (c : Thread nD τ) (ms0_1 t) fullShare ((dat0 V c).after 1 t) from by
        unfold Dat.leavesExact; rw [liveAt0_1 t], after0_1]
      rw [show (dat0 V c).leavesExact 2 t = owns (c : Thread nD τ) (ms0_2 t) fullShare ((dat0 V c).after 2 t) from by
        unfold Dat.leavesExact; rw [liveAt0_2 t], after0_2]
      rw [show (dat0 V c).leavesExact 3 t = owns (c : Thread nD τ) (ms0_3 t) fullShare ((dat0 V c).after 3 t) from by
        unfold Dat.leavesExact; rw [liveAt0_3 t], after0_3]
      rw [show (dat0 V c).leavesExact 4 t = owns (c : Thread nD τ) (ms0_4 t) fullShare ((dat0 V c).after 4 t) from by
        unfold Dat.leavesExact; rw [liveAt0_4 t], after0_4]
      rw [show (dat0 V c).leavesExact 5 t = owns (c : Thread nD τ) (ms0_5 t) fullShare ((dat0 V c).after 5 t) from by
        unfold Dat.leavesExact; rw [liveAt0_5 t], after0_5]
      rw [show (dat0 V c).leavesExact 6 t = owns (c : Thread nD τ) (ms0_6 t) fullShare ((dat0 V c).after 6 t) from by
        unfold Dat.leavesExact; rw [liveAt0_6_C t ((hcond0_1 t).mpr h1)], after0_6]
      rw [show (dat0 V c).leavesExact 7 t = owns (c : Thread nD τ) (ms0_7 t) fullShare ((dat0 V c).after 7 t) from by
        unfold Dat.leavesExact; rw [liveAt0_7_C t ((hcond0_1 t).mpr h1)], after0_7]
      rw [outsAt0_C V c t h0 h1]
      unfold out0_C_5 out0_C_6 out0_C_7 sout0_C_0 sout0_C_1; (try dsimp only)
      rw [PhiS0_castSucc V c t, PhiS0_pos V c _ _ hz]
      iintro ⟨⟨⟨⟨HS0, HS1⟩, HR⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩⟩
      iapply ((kernelRun0_C c (grid0.coords t) _ _ _ _ _ _ _ _ _ _ _ _ _ _ _ _ _ _ _ _ (fun h => h0 ((hcond0_0 t).mp h)) ((hcond0_1 t).mpr h1) (iblk0 V c 0 t) (iblk0 V c 1 t) (iblk0 V c 2 t) (iblk0 V c 3 t) (iblk0 V c 4 t) _ _).2.2.2.2.2 Set.univ _)
      isplitl [H0]; · iexact H0
      isplitl [H1]; · iexact H1
      isplitl [H2]; · iexact H2
      isplitl [H3]; · iexact H3
      isplitl [H4]; · iexact H4
      isplitl [H5]; · iexists _; iexact H5
      isplitl [H6]; · iexists _; iexact H6
      isplitl [H7]; · iexists _; iexact H7
      isplitl [HS0]; · iexact HS0
      isplitl [HS1]; · iexact HS1
      iintro ⟨H0, H1, H2, H3, H4, ⟨%e5, H5⟩, ⟨%e6, H6⟩, ⟨%e7, H7⟩, ⟨%es0, HS0⟩, ⟨%es1, HS1⟩⟩
      isplitl [HS0 HS1 HR Hg]
      · isplitl [HS0 HS1 HR]
        · isplitl [HS0 HS1]
          · isplitl [HS0]
            · unfold owns; iexists _; isplitr
              swap; · iexact HS0
              ipureintro; exact View.read_writes_of_cover _ _ _ _ _ (scover0_C_0 c _ _ _ _ _ _ _ _ _ _ _ _ _ _ _ _ _ _ _ _ _ _ _ _ _ _ _ _ _ _)
            · unfold owns; iexists _; isplitr
              swap; · iexact HS1
              ipureintro; exact View.read_writes_of_cover _ _ _ _ _ (scover0_C_1 c _ _ _ _ _ _ _ _ _ _ _ _ _ _ _ _ _ _ _ _ _ _ _ _ _ _ _ _ _ _)
          iexact HR
        iexact Hg
      isplitl [Ho]; · iexact Ho
      isplitl [H0]; · iexact H0
      isplitl [H1]; · iexact H1
      isplitl [H2]; · iexact H2
      isplitl [H3]; · iexact H3
      isplitl [H4]; · iexact H4
      isplitl [H5]
      · unfold owns; iexists _; isplitr
        swap; · iexact H5
        ipureintro; exact View.read_writes_of_cover _ _ _ _ _ (cover0_C_5 c _ _ _ _ _ _ _ _ _ _ _ _ _ _ _ _ _ _ _ _ _ _ _ _ _ _ _ _ _ _)
      isplitl [H6]
      · unfold owns; iexists _; isplitr
        swap; · iexact H6
        ipureintro; exact View.read_writes_of_cover _ _ _ _ _ (cover0_C_6 c _ _ _ _ _ _ _ _ _ _ _ _ _ _ _ _ _ _ _ _ _ _ _ _ _ _ _ _ _ _)
      · unfold owns; iexists _; isplitr
        swap; · iexact H7
        ipureintro; exact View.read_writes_of_cover _ _ _ _ _ (cover0_C_7 c _ _ _ _ _ _ _ _ _ _ _ _ _ _ _ _ _ _ _ _ _ _ _ _ _ _ _ _ _ _)
    ·
      rw [show (dat0 V c).leavesExact 0 t = owns (c : Thread nD τ) (ms0_0 t) fullShare ((dat0 V c).after 0 t) from by
        unfold Dat.leavesExact; rw [liveAt0_0 t], after0_0]
      rw [show (dat0 V c).leavesExact 1 t = owns (c : Thread nD τ) (ms0_1 t) fullShare ((dat0 V c).after 1 t) from by
        unfold Dat.leavesExact; rw [liveAt0_1 t], after0_1]
      rw [show (dat0 V c).leavesExact 2 t = owns (c : Thread nD τ) (ms0_2 t) fullShare ((dat0 V c).after 2 t) from by
        unfold Dat.leavesExact; rw [liveAt0_2 t], after0_2]
      rw [show (dat0 V c).leavesExact 3 t = owns (c : Thread nD τ) (ms0_3 t) fullShare ((dat0 V c).after 3 t) from by
        unfold Dat.leavesExact; rw [liveAt0_3 t], after0_3]
      rw [show (dat0 V c).leavesExact 4 t = owns (c : Thread nD τ) (ms0_4 t) fullShare ((dat0 V c).after 4 t) from by
        unfold Dat.leavesExact; rw [liveAt0_4 t], after0_4]
      rw [show (dat0 V c).leavesExact 5 t = owns (c : Thread nD τ) (ms0_5 t) fullShare ((dat0 V c).after 5 t) from by
        unfold Dat.leavesExact; rw [liveAt0_5 t], after0_5]
      rw [Dat.leavesExact_idle (dat0 V c) 6 t (idleAt0_6 t (fun h => h1 ((hcond0_1 t).mp h))) (noFlush0_6 t (fun h => h1 ((hcond0_1 t).mp h)))]
      rw [Dat.leavesExact_idle (dat0 V c) 7 t (idleAt0_7 t (fun h => h1 ((hcond0_1 t).mp h))) (noFlush0_7 t (fun h => h1 ((hcond0_1 t).mp h)))]
      rw [outsAt0_B V c t h0 h1]
      unfold out0_B_5 sout0_B_0 sout0_B_1; (try dsimp only)
      rw [PhiS0_castSucc V c t, PhiS0_pos V c _ _ hz]
      iintro ⟨⟨⟨⟨HS0, HS1⟩, HR⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩⟩
      iapply ((kernelRun0_B c (grid0.coords t) _ _ _ _ _ _ _ _ _ _ _ _ _ _ _ _ _ _ _ _ (fun h => h0 ((hcond0_0 t).mp h)) (fun h => h1 ((hcond0_1 t).mp h)) (iblk0 V c 0 t) (iblk0 V c 1 t) (iblk0 V c 2 t) (iblk0 V c 3 t) (iblk0 V c 4 t) _ _).2.2.2.2.2 _ _ Set.univ _)
      isplitl [H0]; · iexact H0
      isplitl [H1]; · iexact H1
      isplitl [H2]; · iexact H2
      isplitl [H3]; · iexact H3
      isplitl [H4]; · iexact H4
      isplitl [H5]; · iexists _; iexact H5
      isplitl [H6]; · iexact H6
      isplitl [H7]; · iexact H7
      isplitl [HS0]; · iexact HS0
      isplitl [HS1]; · iexact HS1
      iintro ⟨H0, H1, H2, H3, H4, ⟨%e5, H5⟩, H6, H7, ⟨%es0, HS0⟩, ⟨%es1, HS1⟩⟩
      isplitl [HS0 HS1 HR Hg]
      · isplitl [HS0 HS1 HR]
        · isplitl [HS0 HS1]
          · isplitl [HS0]
            · unfold owns; iexists _; isplitr
              swap; · iexact HS0
              ipureintro; exact View.read_writes_of_cover _ _ _ _ _ (scover0_B_0 c _ _ _ _ _ _ _ _ _ _ _ _ _ _ _ _ _ _ _ _ _ _ _ _ _ _ _ _ _ _)
            · unfold owns; iexists _; isplitr
              swap; · iexact HS1
              ipureintro; exact View.read_writes_of_cover _ _ _ _ _ (scover0_B_1 c _ _ _ _ _ _ _ _ _ _ _ _ _ _ _ _ _ _ _ _ _ _ _ _ _ _ _ _ _ _)
          iexact HR
        iexact Hg
      isplitl [Ho]; · iexact Ho
      isplitl [H0]; · iexact H0
      isplitl [H1]; · iexact H1
      isplitl [H2]; · iexact H2
      isplitl [H3]; · iexact H3
      isplitl [H4]; · iexact H4
      isplitl [H5]
      · unfold owns; iexists _; isplitr
        swap; · iexact H5
        ipureintro; exact View.read_writes_of_cover _ _ _ _ _ (cover0_B_5 c _ _ _ _ _ _ _ _ _ _ _ _ _ _ _ _ _ _ _ _ _ _ _ _ _ _ _ _ _ _)
      isplitl [H6]; · iexists _; iexact H6
      iexists _; iexact H7

/-- The library's body obligation, at every point. -/
theorem body_obligation0 (c : Dev nD) : BodyObligation (dat0 (F := F) V c) (defs₀ (F := F)) Variants.none () Set.univ := fun t => by
  rw [bigSep_W0, bigSep_W0]
  exact sound_body0 V c t

/-- What the launch hands the region is the invariant before the first point. -/
theorem hin0 (c : Dev nD) : Pipeline.ΦA spec0 c ⊢ (dat0 V c).Φ 0 := by
  rw [show (dat0 V c).Φ 0 = PhiS0 V c 0 (Nat.zero_le _) from rfl, PhiS0_zero V c 0 _ rfl]
  try exact Idealize.SL.BI.Entails.refl _

/-- After the last point the invariant gives the class's back: the rows' named contents are forgotten. -/
theorem hout0 (c : Dev nD) : (dat0 V c).Φ (Fin.last cfg0.N) ⊢ Pipeline.ΦA spec0 c := by
  have ht : (Fin.last cfg0.N).val ≠ 0 := by rw [Fin.val_last]; have : cfg0.N = 20 := N_0; omega
  rw [show (dat0 V c).Φ (Fin.last cfg0.N) = PhiS0 V c (Fin.last cfg0.N).val (Nat.le_of_lt_succ (Fin.last cfg0.N).isLt) from rfl, PhiS0_pos V c _ _ ht, PhiA0_eq]
  iintro ⟨⟨⟨HS0, HS1⟩, HR⟩, Hg⟩
  isplitl [HS0 HS1 HR]
  · isplitl [HS0 HS1]
    · isplitl [HS0]
      · iexists _; iexact HS0
      · iexists _; iexact HS1
    iexact HR
  iexact Hg

end Region0

end Cert.KernelIdeal.Hand

end
-- ==== Proof.KiBn1.lean ====
import proofs.«160011_j2121713844488_1_alg».proof.Proof.Gen.KernelIdeal.Launch
import proofs.«160011_j2121713844488_1_alg».proof.Proof.Gen.KernelIdeal.Skeleton
import proofs.«160011_j2121713844488_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

/-! # The normalisation region 1: what one grid point's body does to its staging buffers

Region 1 normalises a 100000 × 128 array in 20 blocks of 5000 rows. At a point the body reads the
block of window 0 and four 1 × 128 rows (windows 1 to 4: the mean, the variance, the scale and the
shift, the same row at every point), and writes the whole 5000 × 128 block of window 5: every entry is
(x − mean) · rsqrt(variance + ε) · scale + shift, with the row operands repeated down the rows. The
body keeps nothing between points and leaves its inputs as it found them.

Everything is stated at a parameter `V`, the contents of the core's buffers when the region is
entered, and at any float instance. -/

-- membership of an index in a rectangle with 5000 rows is checked structurally, once per coordinate
set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the contents of the core's buffers when the region is entered
variable (V : (c : Dev nD) → (b : Ref sig .tc) → Buf (Elt F) ((c : Thread nD τ).loc b))

/-! ## The windows' blocks -/

/-- Window `w`'s block at point `t`, read off the window's array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- Input window 0's staging buffer holds the window's block at every point, whether the pipeline fetched
    it there or not (an unfetched window's block index has not moved), for any proof data whose array is the
    entry contents and whose body leaves the block in place. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)
/-- Input window 1's staging buffer holds the window's block at every point, whether the pipeline fetched
    it there or not (an unfetched window's block index has not moved), for any proof data whose array is the
    entry contents and whose body leaves the block in place. -/
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)
/-- Input window 2's staging buffer holds the window's block at every point, whether the pipeline fetched
    it there or not (an unfetched window's block index has not moved), for any proof data whose array is the
    entry contents and whose body leaves the block in place. -/
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)
/-- Input window 3's staging buffer holds the window's block at every point, whether the pipeline fetched
    it there or not (an unfetched window's block index has not moved), for any proof data whose array is the
    entry contents and whose body leaves the block in place. -/
theorem before1_3_of {c : Dev nD} (dat : Dat τ (Elt F) Unit ℕ (UR sig nD τ) ℕ cfg1 c) (hA : dat.A 3 = V c (Pipeline.arrRef spec1 3))
    (hafter : ∀ t, dat.after 3 t = iblk1 V c 3 t) (t : Fin cfg1.N) (d) : dat.before 3 t d = iblk1 V c 3 t :=
  (dat.before_in_eq_fetched 3 rfl (fun _ => rfl) (fun _ _ _ => rfl) (fun t => by rw [hafter]; unfold Dat.blockOf iblk1; rw [hA]; try rfl) t d).trans
    (by unfold Dat.fetched Dat.blockOf iblk1; rw [hA]; try rfl)
/-- Input window 4's staging buffer holds the window's block at every point, whether the pipeline fetched
    it there or not (an unfetched window's block index has not moved), for any proof data whose array is the
    entry contents and whose body leaves the block in place. -/
theorem before1_4_of {c : Dev nD} (dat : Dat τ (Elt F) Unit ℕ (UR sig nD τ) ℕ cfg1 c) (hA : dat.A 4 = V c (Pipeline.arrRef spec1 4))
    (hafter : ∀ t, dat.after 4 t = iblk1 V c 4 t) (t : Fin cfg1.N) (d) : dat.before 4 t d = iblk1 V c 4 t :=
  (dat.before_in_eq_fetched 4 rfl (fun _ => rfl) (fun _ _ _ => rfl) (fun t => by rw [hafter]; unfold Dat.blockOf iblk1; rw [hA]; try rfl) t d).trans
    (by unfold Dat.fetched Dat.blockOf iblk1; rw [hA]; try rfl)

/-! ## The body's accesses: every load and the one store go through the whole buffer -/

abbrev r1_0 : Rect S5000x128 := Rect.unit (s := S5000x128) ![0, 0] S5000x128.size inb_S5000x128_S5000x128_0_0
abbrev r1_1 : Rect S1x128 := Rect.unit (s := S1x128) ![0, 0] S1x128.size inb_S1x128_S1x128_0_0

/-! ## What the body leaves in the output window's buffer -/

/-- Window 5's staging buffer after the body, from the input windows' blocks: its one store, of the
    normalised block (the variance row is the payload's first operand, the data block its second). -/
def out1_5 (x0 : Vec F S5000x128 .f32) (x1 : Vec F S1x128 .f32) (x2 : Vec F S1x128 .f32) (x3 : Vec F S1x128 .f32) (x4 : Vec F S1x128 .f32) : Vec F S5000x128 .f32 :=
  View.canon [⟨r1_0, k1_pay1 (View.ld x2 r1_1) (View.ld x0 r1_0) (View.ld x1 r1_1) (View.ld x3 r1_1) (View.ld x4 r1_1)⟩]

/-- The one store is of the whole block, so it covers the buffer. -/
theorem cover1_5 (p0 : Vec F S5000x128 .f32) (y : S5000x128.Idx) :
    ∃ pc ∈ ([⟨r1_0, p0⟩] : List (View.Piece (Elt F) S5000x128 .f32)), y ∈ pc.1.set :=
  View.cover_of_tiled [⟨r1_0, p0⟩] S5000x128.size (by rfl) y

/-! ## The body's triple -/

set_option maxHeartbeats 1000000 in
/-- The body on whole staging buffers — the inputs' reading `x0 … x4`, the output's holding anything —
    runs to the continuation with the inputs' as they were and the output's at `out1_5` of the inputs.
    The body also loads the output's buffer once, before it stores it; the value is not used. -/
theorem sound_kernel1 (c : Dev nD) (E : Set ℕ) (i : grid1.Coords) (arg0 : Memref sig .tc .vmem S5000x128 .f32) (harg0 : arg0.IsWhole) (arg1 : Memref sig .tc .vmem S1x128 .f32) (harg1 : arg1.IsWhole) (arg2 : Memref sig .tc .vmem S1x128 .f32) (harg2 : arg2.IsWhole) (arg3 : Memref sig .tc .vmem S1x128 .f32) (harg3 : arg3.IsWhole) (arg4 : Memref sig .tc .vmem S1x128 .f32) (harg4 : arg4.IsWhole) (arg5 : Memref sig .tc .vmem S5000x128 .f32) (harg5 : arg5.IsWhole)
    (x0 : Vec F S5000x128 .f32) (x1 : Vec F S1x128 .f32) (x2 : Vec F S1x128 .f32) (x3 : Vec F S1x128 .f32) (x4 : Vec F S1x128 .f32) (K : PUnit → sProp 𝕄) :
    iprop(owns (c : Thread nD τ) arg0 fullShare x0 ∗ owns (c : Thread nD τ) arg1 fullShare x1 ∗ owns (c : Thread nD τ) arg2 fullShare x2 ∗ owns (c : Thread nD τ) arg3 fullShare x3 ∗ owns (c : Thread nD τ) arg4 fullShare x4 ∗ (∃ d, owns (c : Thread nD τ) arg5 fullShare d)
        ∗ (iprop(owns (c : Thread nD τ) arg0 fullShare x0 ∗ owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare (out1_5 x0 x1 x2 x3 x4)) -∗ K ⟨⟩))
      ⊢ wp frame (wpE (defs₀ (F := F)) Variants.none c none) E (cc1__bn_kernel i arg0 harg0 arg1 harg1 arg2 harg2 arg3 harg3 arg4 harg4 arg5 harg5) K := by
  simp only [cc1__bn_kernel_eq_skeleton]; unfold cc1__bn_kernel_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, Hk⟩
  subst hf0 hf1 hf2 hf3 hf4
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  iexists _; isplitr
  swap; · iexact H5
  ipureintro
  exact View.read_writes_eq_canon _ _ _ (cover1_5 _)

/-! ## The pipeline's proof data -/

/-- The proof data of pipeline 1 on core `c`: the arrays as the region finds them; after the body at
    point `t` each input's buffer at its block and the output's at `out1_5` of the input blocks; the
    invariant is the scoped rest and the generator register, untouched; nothing owed; full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => iblk1 V c 4 t
    | ⟨5, _⟩ => out1_5 (iblk1 V c 0 t) (iblk1 V c 1 t) (iblk1 V c 2 t) (iblk1 V c 3 t) (iblk1 V c 4 t)
  Φ _ := Pipeline.ΦA spec1 c
  q _ := fullShare
  owed _ := 0

/-- The proof data's arrays are the region-entry contents. -/
theorem A_eq1 (c : Dev nD) (w : Fin cfg1.W) : (dat1 V c).A w = V c (Pipeline.arrRef spec1 w) := by
  dsimp only [dat1]

/-- What the body leaves, window by window. -/
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = iblk1 V c 4 t := by dsimp only [dat1]
theorem after1_5 (c : Dev nD) (t : Fin cfg1.N) : (dat1 V c).after 5 t = out1_5 (iblk1 V c 0 t) (iblk1 V c 1 t) (iblk1 V c 2 t) (iblk1 V c 3 t) (iblk1 V c 4 t) := by dsimp only [dat1]

/-- Each input's staging buffer holds its block at every point, fetched there or not. -/
theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d
theorem before1_3 (c : Dev nD) (t : Fin cfg1.N) (d) : (dat1 V c).before 3 t d = iblk1 V c 3 t :=
  before1_3_of V (dat1 V c) (A_eq1 V c 3) (after1_3 V c) t d
theorem before1_4 (c : Dev nD) (t : Fin cfg1.N) (d) : (dat1 V c).before 4 t d = iblk1 V c 4 t :=
  before1_4_of V (dat1 V c) (A_eq1 V c 4) (after1_4 V c) t d

/-! ## The body obligation, at a generic point -/

/-- What the body is called with at point `t`, the windows one by one, -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d))
    ∗ (∃ d, owns (c : Thread nD τ) (st1_4 t) fullShare ((dat1 V c).before 4 t d))
    ∗ (∃ d, owns (c : Thread nD τ) (st1_5 t) fullShare ((dat1 V c).before 5 t d)))

/-- and what it returns. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t)
    ∗ owns (c : Thread nD τ) (st1_4 t) fullShare ((dat1 V c).after 4 t)
    ∗ owns (c : Thread nD τ) (st1_5 t) fullShare ((dat1 V c).after 5 t))

/-- The body at any point: the inputs' buffers hold their blocks, so `sound_kernel1` applies; the
    invariant and the core's owed transfers pass through unread. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3, before1_4]
  rw [show (dat1 V c).Φ t.succ = (dat1 V c).Φ t.castSucc from rfl,
    show (dat1 V c).owesAt () t.succ = (dat1 V c).owesAt () t.castSucc from rfl,
    after1_0, after1_1, after1_2, after1_3, after1_4, after1_5]
  iintro ⟨HΦ, Ho, ⟨%d0, H0⟩, ⟨%d1, H1⟩, ⟨%d2, H2⟩, ⟨%d3, H3⟩, ⟨%d4, H4⟩, ⟨%d5, H5⟩⟩
  iapply (sound_kernel1 c Set.univ _ _ _ _ _ _ _ _ _ _ _ _ _ (iblk1 V c 0 t) (iblk1 V c 1 t) (iblk1 V c 2 t) (iblk1 V c 3 t) (iblk1 V c 4 t) _)
  isplitl [H0]; · iexact H0
  isplitl [H1]; · iexact H1
  isplitl [H2]; · iexact H2
  isplitl [H3]; · iexact H3
  isplitl [H4]; · iexact H4
  isplitl [H5]; · iexists _; iexact H5
  iintro ⟨H0, H1, H2, H3, H4, H5⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  iexact H5

/-- The library's body obligation, at every point. -/
theorem body_obligation1 (c : Dev nD) : BodyObligation (dat1 (F := F) V c) (defs₀ (F := F)) Variants.none () Set.univ := fun t => by
  rw [bigSep_W1, bigSep_W1]
  exact sound_body1 V c t

end Cert.KernelIdeal.Hand

end
-- ==== Proof.KiMlp2Runs.lean ====
/-
  Region 2 (layer 2's two-layer perceptron with running column sums): what its three control cases share.
  The body branches twice on the grid position: at the first point it zeroes the two running-sum scratch rows, at the
  last point it copies them into the two [1,128] outputs; in between it only adds the block's column sums of z and of z².
  Here: each window's block as read off the array the region finds, the two conditions decided over the 20 points,
  where the two [1,128] outputs are idle, and the staging and scratch memrefs the body is run on.
-/
import proofs.«160011_j2121713844488_1_alg».proof.Proof.Gen.KernelIdeal.Launch
import proofs.«160011_j2121713844488_1_alg».proof.Proof.Gen.KernelIdeal.Skeleton
import proofs.«160011_j2121713844488_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Region2

variable (V : (c : Dev nD) → (b : Ref sig .tc) → Buf (Elt F) ((c : Thread nD τ).loc b))

/-- Window `w`'s block at point `t`, read off its array as the region finds it. -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- Input window 0's staging buffer holds its block at every point, fetched there or not. -/
theorem before2_0_of {c : Dev nD} (dat : Dat τ (Elt F) Unit ℕ (UR sig nD τ) ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)

/-- Input window 1's staging buffer holds its block at every point, fetched there or not. -/
theorem before2_1_of {c : Dev nD} (dat : Dat τ (Elt F) Unit ℕ (UR sig nD τ) ℕ cfg2 c) (hA : dat.A 1 = V c (Pipeline.arrRef spec2 1))
    (hafter : ∀ t, dat.after 1 t = iblk2 V c 1 t) (t : Fin cfg2.N) (d) : dat.before 1 t d = iblk2 V c 1 t :=
  (dat.before_in_eq_fetched 1 rfl (fun _ => rfl) (fun _ _ _ => rfl) (fun t => by rw [hafter]; unfold Dat.blockOf iblk2; rw [hA]; try rfl) t d).trans
    (by unfold Dat.fetched Dat.blockOf iblk2; rw [hA]; try rfl)

/-- Input window 2's staging buffer holds its block at every point, fetched there or not. -/
theorem before2_2_of {c : Dev nD} (dat : Dat τ (Elt F) Unit ℕ (UR sig nD τ) ℕ cfg2 c) (hA : dat.A 2 = V c (Pipeline.arrRef spec2 2))
    (hafter : ∀ t, dat.after 2 t = iblk2 V c 2 t) (t : Fin cfg2.N) (d) : dat.before 2 t d = iblk2 V c 2 t :=
  (dat.before_in_eq_fetched 2 rfl (fun _ => rfl) (fun _ _ _ => rfl) (fun t => by rw [hafter]; unfold Dat.blockOf iblk2; rw [hA]; try rfl) t d).trans
    (by unfold Dat.fetched Dat.blockOf iblk2; rw [hA]; try rfl)

/-- Input window 3's staging buffer holds its block at every point, fetched there or not. -/
theorem before2_3_of {c : Dev nD} (dat : Dat τ (Elt F) Unit ℕ (UR sig nD τ) ℕ cfg2 c) (hA : dat.A 3 = V c (Pipeline.arrRef spec2 3))
    (hafter : ∀ t, dat.after 3 t = iblk2 V c 3 t) (t : Fin cfg2.N) (d) : dat.before 3 t d = iblk2 V c 3 t :=
  (dat.before_in_eq_fetched 3 rfl (fun _ => rfl) (fun _ _ _ => rfl) (fun t => by rw [hafter]; unfold Dat.blockOf iblk2; rw [hA]; try rfl) t d).trans
    (by unfold Dat.fetched Dat.blockOf iblk2; rw [hA]; try rfl)

/-- Input window 4's staging buffer holds its block at every point, fetched there or not. -/
theorem before2_4_of {c : Dev nD} (dat : Dat τ (Elt F) Unit ℕ (UR sig nD τ) ℕ cfg2 c) (hA : dat.A 4 = V c (Pipeline.arrRef spec2 4))
    (hafter : ∀ t, dat.after 4 t = iblk2 V c 4 t) (t : Fin cfg2.N) (d) : dat.before 4 t d = iblk2 V c 4 t :=
  (dat.before_in_eq_fetched 4 rfl (fun _ => rfl) (fun _ _ _ => rfl) (fun t => by rw [hafter]; unfold Dat.blockOf iblk2; rw [hA]; try rfl) t d).trans
    (by unfold Dat.fetched Dat.blockOf iblk2; rw [hA]; try rfl)

end Region2

/-! ## The two branch conditions, decided over the grid -/

/-- "This is the first point": the condition under which the running sums are zeroed. -/
abbrev cond2_0 (i : grid2.Coords) : Prop := (Scalar.cmpi .ne (Scalar.extui (Scalar.cmpi .eq (BitVec.ofNat 32 (i 0).val) 0#32)) 0#32) = 1#1
theorem hcond2_0 : ∀ t : Fin cfg2.N, cond2_0 (grid2.coords t) ↔ t.val % 20 = 0 :=
  (by decide +kernel : ∀ t : Fin grid2.N, cond2_0 (grid2.coords t) ↔ t.val % 20 = 0)

/-- "This is the last point": the condition under which the running sums are copied out. -/
abbrev cond2_1 (i : grid2.Coords) : Prop := k2_cond2 i = 1#1
theorem hcond2_1 : ∀ t : Fin cfg2.N, cond2_1 (grid2.coords t) ↔ t.val % 20 = 19 :=
  (by decide +kernel : ∀ t : Fin grid2.N, cond2_1 (grid2.coords t) ↔ t.val % 20 = 19)

/-! ## Where the windows are idle -/

theorem liveAt2_0 : ∀ t : Fin cfg2.N, cfg2.idle 0 (grid2.coords t) = false := by decide +kernel
theorem liveAt2_1 : ∀ t : Fin cfg2.N, cfg2.idle 1 (grid2.coords t) = false := by decide +kernel
theorem liveAt2_2 : ∀ t : Fin cfg2.N, cfg2.idle 2 (grid2.coords t) = false := by decide +kernel
theorem liveAt2_3 : ∀ t : Fin cfg2.N, cfg2.idle 3 (grid2.coords t) = false := by decide +kernel
theorem liveAt2_4 : ∀ t : Fin cfg2.N, cfg2.idle 4 (grid2.coords t) = false := by decide +kernel
theorem liveAt2_5 : ∀ t : Fin cfg2.N, cfg2.idle 5 (grid2.coords t) = false := by decide +kernel
/-- Output 6 is stored only at the last point: idle, and not written back, at every other point. -/
theorem idleAt2_6 : ∀ t : Fin cfg2.N, ¬cond2_1 (grid2.coords t) → cfg2.idle 6 (grid2.coords t) = true := by decide +kernel
theorem noFlush2_6 : ∀ t : Fin cfg2.N, ¬cond2_1 (grid2.coords t) → (cfg2.win 6).flush t = false := by decide +kernel
theorem liveAt2_6_C : ∀ t : Fin cfg2.N, cond2_1 (grid2.coords t) → cfg2.idle 6 (grid2.coords t) = false := by decide +kernel
/-- Output 7 is stored only at the last point: idle, and not written back, at every other point. -/
theorem idleAt2_7 : ∀ t : Fin cfg2.N, ¬cond2_1 (grid2.coords t) → cfg2.idle 7 (grid2.coords t) = true := by decide +kernel
theorem noFlush2_7 : ∀ t : Fin cfg2.N, ¬cond2_1 (grid2.coords t) → (cfg2.win 7).flush t = false := by decide +kernel
theorem liveAt2_7_C : ∀ t : Fin cfg2.N, cond2_1 (grid2.coords t) → cfg2.idle 7 (grid2.coords t) = false := by decide +kernel

/-! ## The memrefs the body is run on -/

abbrev VO2_5 : View sig .tc .vmem S5000x128 .f32 := (Memref.whole cc2_stg5_0 : Memref sig .tc .vmem S5000x128 .f32).view
abbrev VO2_6 : View sig .tc .vmem S1x128 .f32 := (Memref.whole cc2_stg6_0 : Memref sig .tc .vmem S1x128 .f32).view
abbrev VO2_7 : View sig .tc .vmem S1x128 .f32 := (Memref.whole cc2_stg7_0 : Memref sig .tc .vmem S1x128 .f32).view
abbrev ms2_0 (t : Fin cfg2.N) : Memref sig .tc .vmem S5000x128 .f32 := win2_0.stage (cfg2.slots t 0)
abbrev hs2_0 (t : Fin cfg2.N) : (ms2_0 t).IsWhole := hstage2_0 ((cfg2.slots t 0).cast nbuf2_0)
abbrev ms2_1 (t : Fin cfg2.N) : Memref sig .tc .vmem S128x128 .f32 := win2_1.stage (cfg2.slots t 1)
abbrev hs2_1 (t : Fin cfg2.N) : (ms2_1 t).IsWhole := hstage2_1 ((cfg2.slots t 1).cast nbuf2_1)
abbrev ms2_2 (t : Fin cfg2.N) : Memref sig .tc .vmem S1x128 .f32 := win2_2.stage (cfg2.slots t 2)
abbrev hs2_2 (t : Fin cfg2.N) : (ms2_2 t).IsWhole := hstage2_2 ((cfg2.slots t 2).cast nbuf2_2)
abbrev ms2_3 (t : Fin cfg2.N) : Memref sig .tc .vmem S128x128 .f32 := win2_3.stage (cfg2.slots t 3)
abbrev hs2_3 (t : Fin cfg2.N) : (ms2_3 t).IsWhole := hstage2_3 ((cfg2.slots t 3).cast nbuf2_3)
abbrev ms2_4 (t : Fin cfg2.N) : Memref sig .tc .vmem S1x128 .f32 := win2_4.stage (cfg2.slots t 4)
abbrev hs2_4 (t : Fin cfg2.N) : (ms2_4 t).IsWhole := hstage2_4 ((cfg2.slots t 4).cast nbuf2_4)
abbrev ms2_5 (t : Fin cfg2.N) : Memref sig .tc .vmem S5000x128 .f32 := win2_5.stage (cfg2.slots t 5)
abbrev hs2_5 (t : Fin cfg2.N) : (ms2_5 t).IsWhole := hstage2_5 ((cfg2.slots t 5).cast nbuf2_5)
abbrev ms2_6 (t : Fin cfg2.N) : Memref sig .tc .vmem S1x128 .f32 := win2_6.stage (cfg2.slots t 6)
abbrev hs2_6 (t : Fin cfg2.N) : (ms2_6 t).IsWhole := hstage2_6 ((cfg2.slots t 6).cast nbuf2_6)
abbrev ms2_7 (t : Fin cfg2.N) : Memref sig .tc .vmem S1x128 .f32 := win2_7.stage (cfg2.slots t 7)
abbrev hs2_7 (t : Fin cfg2.N) : (ms2_7 t).IsWhole := hstage2_7 ((cfg2.slots t 7).cast nbuf2_7)
/-- The two running-sum rows: whole scoped buffers of the kernel's own. -/
abbrev scM2_0 : Memref sig .tc .vmem S1x128 .f32 := Memref.whole cc2_scratch0
abbrev scM2_1 : Memref sig .tc .vmem S1x128 .f32 := Memref.whole cc2_scratch1
abbrev VS2_0 : View sig .tc .vmem S1x128 .f32 := scM2_0.view
abbrev VS2_1 : View sig .tc .vmem S1x128 .f32 := scM2_1.view

/-- The class invariant with the two running-sum rows split out as memrefs owned at some contents; every other scoped
    buffer stays unopened. -/
theorem PhiA2_eq (c : Dev nD) :
    (Pipeline.ΦA spec2 c : sProp 𝕄)
      = iprop(iprop(iprop((∃ d, owns (c : Thread nD τ) scM2_0 fullShare d) ∗ (∃ d, owns (c : Thread nD τ) scM2_1 fullShare d))
          ∗ Pipeline.scopedRestBut (Ix := Unit) (Name := ℕ) (U := UR sig nD τ) (Lvl := ℕ) (Val := Elt F) spec2 c [cc2_scratch0, cc2_scratch1]) ∗ (∃ r, prngReg c r)) := by
  unfold Pipeline.ΦA; rw [scopedRest2_split]; simp only [scM2_0, scM2_1, owns_whole]; try rfl

end Cert.KernelIdeal.Hand

end
-- ==== Proof.KiMlp2RunA.lean ====
/-
  Region 2, control case A: the kernel body run once, symbolically, on whole staging memrefs.
-/
import proofs.«160011_j2121713844488_1_alg».proof.Proof.KiMlp2Runs

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- The body at the first point (the running sums are zeroed first, nothing is copied out): on whole staging memrefs — the five inputs at their blocks, the z output at anything,
    the two [1,128] outputs idle at whatever they hold, the two running-sum rows at anything — it runs to its
    continuation with the inputs as they were and each buffer it stored into with its pieces written; the pieces are the
    witness the run finds. -/
noncomputable def kernelRun2_A (c : Dev nD) (i : grid2.Coords) (arg1 : Memref sig .tc .vmem S5000x128 .f32) (harg1 : arg1.IsWhole) (arg2 : Memref sig .tc .vmem S128x128 .f32) (harg2 : arg2.IsWhole) (arg3 : Memref sig .tc .vmem S1x128 .f32) (harg3 : arg3.IsWhole) (arg4 : Memref sig .tc .vmem S128x128 .f32) (harg4 : arg4.IsWhole) (arg5 : Memref sig .tc .vmem S1x128 .f32) (harg5 : arg5.IsWhole) (arg6 : Memref sig .tc .vmem S5000x128 .f32) (harg6 : arg6.IsWhole) (arg7 : Memref sig .tc .vmem S1x128 .f32) (harg7 : arg7.IsWhole) (arg8 : Memref sig .tc .vmem S1x128 .f32) (harg8 : arg8.IsWhole) (arg9 : Memref sig .tc .vmem S1x128 .f32) (harg9 : arg9.IsWhole) (arg10 : Memref sig .tc .vmem S1x128 .f32) (harg10 : arg10.IsWhole) (hc0 : cond2_0 i) (hc1 : ¬cond2_1 i)
    (x0 : Vec F S5000x128 .f32) (x1 : Vec F S128x128 .f32) (x2 : Vec F S1x128 .f32) (x3 : Vec F S128x128 .f32) (x4 : Vec F S1x128 .f32) :
    Σ' (L5 : List (View.Piece (Elt F) S5000x128 .f32)) (L6 : List (View.Piece (Elt F) S1x128 .f32)) (L7 : List (View.Piece (Elt F) S1x128 .f32)) (LS0 : List (View.Piece (Elt F) S1x128 .f32)), { LS1 : List (View.Piece (Elt F) S1x128 .f32) //
      ∀ (xi6 : Vec F S1x128 .f32) (xi7 : Vec F S1x128 .f32) (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ (∃ d, owns (c : Thread nD τ) arg6 fullShare d) ∗ owns (c : Thread nD τ) arg7 fullShare xi6 ∗ owns (c : Thread nD τ) arg8 fullShare xi7 ∗ (∃ d, owns (c : Thread nD τ) arg9 fullShare d) ∗ (∃ d, owns (c : Thread nD τ) arg10 fullShare d)
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ (∃ f, arg6.view.loc (c : Thread nD τ) ↦[arg6.view.set]{fullShare} arg6.view.writes (Elt F) f L5) ∗ owns (c : Thread nD τ) arg7 fullShare xi6 ∗ owns (c : Thread nD τ) arg8 fullShare xi7 ∗ (∃ f, arg9.view.loc (c : Thread nD τ) ↦[arg9.view.set]{fullShare} arg9.view.writes (Elt F) f LS0) ∗ (∃ f, arg10.view.loc (c : Thread nD τ) ↦[arg10.view.set]{fullShare} arg10.view.writes (Elt F) f LS1)) -∗ K ⟨⟩))
          ⊢ wp frame (wpE (defs₀ (F := F)) Variants.none c none) E (cc2__mlp_stats_kernel i arg1 harg1 arg2 harg2 arg3 harg3 arg4 harg4 arg5 harg5 arg6 harg6 arg7 harg7 arg8 harg8 arg9 harg9 arg10 harg10) K } := by
  refine ⟨?_, [], [], ?_, ?_, fun xi6 xi7 E K => ?run⟩
  case run =>
    simp only [cc2__mlp_stats_kernel_eq_skeleton]; unfold cc2__mlp_stats_kernel_skel
    simp only [k2_part1_eq_skeleton]; unfold k2_part1_skel
    unfold owns
    iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%f6, %hf6, H6⟩, ⟨%f7, %hf7, H7⟩, ⟨%ds0, %fs0, -, HS0⟩, ⟨%ds1, %fs1, -, HS1⟩, Hk⟩
    obtain rfl := harg1.eq_unread hf0; obtain rfl := harg2.eq_unread hf1; obtain rfl := harg3.eq_unread hf2; obtain rfl := harg4.eq_unread hf3; obtain rfl := harg5.eq_unread hf4; obtain rfl := harg7.eq_unread hf6; obtain rfl := harg8.eq_unread hf7
    sl_exec (disch := first | exact hc0 | exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]; · iexists _; iexact H5
    isplitl [H6]
    · iexists _; isplitr; · ipureintro; exact harg7.read_unread _
      iexact H6
    isplitl [H7]
    · iexists _; isplitr; · ipureintro; exact harg8.read_unread _
      iexact H7
    isplitl [HS0]; · iexists _; iexact HS0
    iexists _; iexact HS1

end Cert.KernelIdeal.Hand

end
-- ==== Proof.KiMlp2RunB.lean ====
/-
  Region 2, control case B: the kernel body run once, symbolically, on whole staging memrefs.
-/
import proofs.«160011_j2121713844488_1_alg».proof.Proof.KiMlp2Runs

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- The body at a middle point (the running sums are only added to): on whole staging memrefs — the five inputs at their blocks, the z output at anything,
    the two [1,128] outputs idle at whatever they hold, the two running-sum rows at what the point before left — it runs to its
    continuation with the inputs as they were and each buffer it stored into with its pieces written; the pieces are the
    witness the run finds. -/
noncomputable def kernelRun2_B (c : Dev nD) (i : grid2.Coords) (arg1 : Memref sig .tc .vmem S5000x128 .f32) (harg1 : arg1.IsWhole) (arg2 : Memref sig .tc .vmem S128x128 .f32) (harg2 : arg2.IsWhole) (arg3 : Memref sig .tc .vmem S1x128 .f32) (harg3 : arg3.IsWhole) (arg4 : Memref sig .tc .vmem S128x128 .f32) (harg4 : arg4.IsWhole) (arg5 : Memref sig .tc .vmem S1x128 .f32) (harg5 : arg5.IsWhole) (arg6 : Memref sig .tc .vmem S5000x128 .f32) (harg6 : arg6.IsWhole) (arg7 : Memref sig .tc .vmem S1x128 .f32) (harg7 : arg7.IsWhole) (arg8 : Memref sig .tc .vmem S1x128 .f32) (harg8 : arg8.IsWhole) (arg9 : Memref sig .tc .vmem S1x128 .f32) (harg9 : arg9.IsWhole) (arg10 : Memref sig .tc .vmem S1x128 .f32) (harg10 : arg10.IsWhole) (hc0 : ¬cond2_0 i) (hc1 : ¬cond2_1 i)
    (x0 : Vec F S5000x128 .f32) (x1 : Vec F S128x128 .f32) (x2 : Vec F S1x128 .f32) (x3 : Vec F S128x128 .f32) (x4 : Vec F S1x128 .f32) (xs0 : Vec F S1x128 .f32) (xs1 : Vec F S1x128 .f32) :
    Σ' (L5 : List (View.Piece (Elt F) S5000x128 .f32)) (L6 : List (View.Piece (Elt F) S1x128 .f32)) (L7 : List (View.Piece (Elt F) S1x128 .f32)) (LS0 : List (View.Piece (Elt F) S1x128 .f32)), { LS1 : List (View.Piece (Elt F) S1x128 .f32) //
      ∀ (xi6 : Vec F S1x128 .f32) (xi7 : Vec F S1x128 .f32) (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ (∃ d, owns (c : Thread nD τ) arg6 fullShare d) ∗ owns (c : Thread nD τ) arg7 fullShare xi6 ∗ owns (c : Thread nD τ) arg8 fullShare xi7 ∗ owns (c : Thread nD τ) arg9 fullShare xs0 ∗ owns (c : Thread nD τ) arg10 fullShare xs1
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ (∃ f, arg6.view.loc (c : Thread nD τ) ↦[arg6.view.set]{fullShare} arg6.view.writes (Elt F) f L5) ∗ owns (c : Thread nD τ) arg7 fullShare xi6 ∗ owns (c : Thread nD τ) arg8 fullShare xi7 ∗ (∃ f, arg9.view.loc (c : Thread nD τ) ↦[arg9.view.set]{fullShare} arg9.view.writes (Elt F) f LS0) ∗ (∃ f, arg10.view.loc (c : Thread nD τ) ↦[arg10.view.set]{fullShare} arg10.view.writes (Elt F) f LS1)) -∗ K ⟨⟩))
          ⊢ wp frame (wpE (defs₀ (F := F)) Variants.none c none) E (cc2__mlp_stats_kernel i arg1 harg1 arg2 harg2 arg3 harg3 arg4 harg4 arg5 harg5 arg6 harg6 arg7 harg7 arg8 harg8 arg9 harg9 arg10 harg10) K } := by
  refine ⟨?_, [], [], ?_, ?_, fun xi6 xi7 E K => ?run⟩
  case run =>
    simp only [cc2__mlp_stats_kernel_eq_skeleton]; unfold cc2__mlp_stats_kernel_skel
    simp only [k2_part1_eq_skeleton]; unfold k2_part1_skel
    unfold owns
    iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%f6, %hf6, H6⟩, ⟨%f7, %hf7, H7⟩, ⟨%fs0, %hfs0, HS0⟩, ⟨%fs1, %hfs1, HS1⟩, Hk⟩
    obtain rfl := harg1.eq_unread hf0; obtain rfl := harg2.eq_unread hf1; obtain rfl := harg3.eq_unread hf2; obtain rfl := harg4.eq_unread hf3; obtain rfl := harg5.eq_unread hf4; obtain rfl := harg7.eq_unread hf6; obtain rfl := harg8.eq_unread hf7; obtain rfl := harg9.eq_unread hfs0; obtain rfl := harg10.eq_unread hfs1
    sl_exec (disch := first | exact hc0 | exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]; · iexists _; iexact H5
    isplitl [H6]
    · iexists _; isplitr; · ipureintro; exact harg7.read_unread _
      iexact H6
    isplitl [H7]
    · iexists _; isplitr; · ipureintro; exact harg8.read_unread _
      iexact H7
    isplitl [HS0]; · iexists _; iexact HS0
    iexists _; iexact HS1

end Cert.KernelIdeal.Hand

end
-- ==== Proof.KiMlp2RunC.lean ====
/-
  Region 2, control case C: the kernel body run once, symbolically, on whole staging memrefs.
-/
import proofs.«160011_j2121713844488_1_alg».proof.Proof.KiMlp2Runs

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- The body at the last point (the running sums are copied into the two [1,128] outputs): on whole staging memrefs — the five inputs at their blocks, the z output at anything,
    the two [1,128] outputs at anything, the two running-sum rows at what the point before left — it runs to its
    continuation with the inputs as they were and each buffer it stored into with its pieces written; the pieces are the
    witness the run finds. -/
noncomputable def kernelRun2_C (c : Dev nD) (i : grid2.Coords) (arg1 : Memref sig .tc .vmem S5000x128 .f32) (harg1 : arg1.IsWhole) (arg2 : Memref sig .tc .vmem S128x128 .f32) (harg2 : arg2.IsWhole) (arg3 : Memref sig .tc .vmem S1x128 .f32) (harg3 : arg3.IsWhole) (arg4 : Memref sig .tc .vmem S128x128 .f32) (harg4 : arg4.IsWhole) (arg5 : Memref sig .tc .vmem S1x128 .f32) (harg5 : arg5.IsWhole) (arg6 : Memref sig .tc .vmem S5000x128 .f32) (harg6 : arg6.IsWhole) (arg7 : Memref sig .tc .vmem S1x128 .f32) (harg7 : arg7.IsWhole) (arg8 : Memref sig .tc .vmem S1x128 .f32) (harg8 : arg8.IsWhole) (arg9 : Memref sig .tc .vmem S1x128 .f32) (harg9 : arg9.IsWhole) (arg10 : Memref sig .tc .vmem S1x128 .f32) (harg10 : arg10.IsWhole) (hc0 : ¬cond2_0 i) (hc1 : cond2_1 i)
    (x0 : Vec F S5000x128 .f32) (x1 : Vec F S128x128 .f32) (x2 : Vec F S1x128 .f32) (x3 : Vec F S128x128 .f32) (x4 : Vec F S1x128 .f32) (xs0 : Vec F S1x128 .f32) (xs1 : Vec F S1x128 .f32) :
    Σ' (L5 : List (View.Piece (Elt F) S5000x128 .f32)) (L6 : List (View.Piece (Elt F) S1x128 .f32)) (L7 : List (View.Piece (Elt F) S1x128 .f32)) (LS0 : List (View.Piece (Elt F) S1x128 .f32)), { LS1 : List (View.Piece (Elt F) S1x128 .f32) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ (∃ d, owns (c : Thread nD τ) arg6 fullShare d) ∗ (∃ d, owns (c : Thread nD τ) arg7 fullShare d) ∗ (∃ d, owns (c : Thread nD τ) arg8 fullShare d) ∗ owns (c : Thread nD τ) arg9 fullShare xs0 ∗ owns (c : Thread nD τ) arg10 fullShare xs1
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ (∃ f, arg6.view.loc (c : Thread nD τ) ↦[arg6.view.set]{fullShare} arg6.view.writes (Elt F) f L5) ∗ (∃ f, arg7.view.loc (c : Thread nD τ) ↦[arg7.view.set]{fullShare} arg7.view.writes (Elt F) f L6) ∗ (∃ f, arg8.view.loc (c : Thread nD τ) ↦[arg8.view.set]{fullShare} arg8.view.writes (Elt F) f L7) ∗ (∃ f, arg9.view.loc (c : Thread nD τ) ↦[arg9.view.set]{fullShare} arg9.view.writes (Elt F) f LS0) ∗ (∃ f, arg10.view.loc (c : Thread nD τ) ↦[arg10.view.set]{fullShare} arg10.view.writes (Elt F) f LS1)) -∗ K ⟨⟩))
          ⊢ wp frame (wpE (defs₀ (F := F)) Variants.none c none) E (cc2__mlp_stats_kernel i arg1 harg1 arg2 harg2 arg3 harg3 arg4 harg4 arg5 harg5 arg6 harg6 arg7 harg7 arg8 harg8 arg9 harg9 arg10 harg10) K } := by
  refine ⟨?_, ?_, ?_, ?_, ?_, fun E K => ?run⟩
  case run =>
    simp only [cc2__mlp_stats_kernel_eq_skeleton]; unfold cc2__mlp_stats_kernel_skel
    simp only [k2_part1_eq_skeleton]; unfold k2_part1_skel
    unfold owns
    iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%d6, %f6, -, H6⟩, ⟨%d7, %f7, -, H7⟩, ⟨%fs0, %hfs0, HS0⟩, ⟨%fs1, %hfs1, HS1⟩, Hk⟩
    obtain rfl := harg1.eq_unread hf0; obtain rfl := harg2.eq_unread hf1; obtain rfl := harg3.eq_unread hf2; obtain rfl := harg4.eq_unread hf3; obtain rfl := harg5.eq_unread hf4; obtain rfl := harg9.eq_unread hfs0; obtain rfl := harg10.eq_unread hfs1
    sl_exec (disch := first | exact hc0 | exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]; · iexists _; iexact H5
    isplitl [H6]; · iexists _; iexact H6
    isplitl [H7]; · iexists _; iexact H7
    isplitl [HS0]; · iexists _; iexact HS0
    iexists _; iexact HS1

end Cert.KernelIdeal.Hand

end
-- ==== Proof.KiMlp2.lean ====
/-
  Region 2 (a layer's two-layer perceptron with running column sums over the 20 row blocks): what each control case leaves in
  the outputs and in the two running-sum rows, the accumulation point by point, the proof data and the body obligation.
  The z output's block at a point is the body's payload of that point's input blocks; the two running-sum rows after point t are
  zero plus the column sums of z and z² over blocks 0..t; the two [1,128] outputs receive the rows at the last point.
-/
import proofs.«160011_j2121713844488_1_alg».proof.Proof.KiMlp2RunA
import proofs.«160011_j2121713844488_1_alg».proof.Proof.KiMlp2RunB
import proofs.«160011_j2121713844488_1_alg».proof.Proof.KiMlp2RunC

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Region2

variable (V : (c : Dev nD) → (b : Ref sig .tc) → Buf (Elt F) ((c : Thread nD τ).loc b))

/-- Case A's pieces for output window 5 cover it (one whole-rectangle store). -/
theorem cover2_A_5 (c : Dev nD) (i : grid2.Coords) (arg1 : Memref sig .tc .vmem S5000x128 .f32) (harg1 : arg1.IsWhole) (arg2 : Memref sig .tc .vmem S128x128 .f32) (harg2 : arg2.IsWhole) (arg3 : Memref sig .tc .vmem S1x128 .f32) (harg3 : arg3.IsWhole) (arg4 : Memref sig .tc .vmem S128x128 .f32) (harg4 : arg4.IsWhole) (arg5 : Memref sig .tc .vmem S1x128 .f32) (harg5 : arg5.IsWhole) (arg6 : Memref sig .tc .vmem S5000x128 .f32) (harg6 : arg6.IsWhole) (arg7 : Memref sig .tc .vmem S1x128 .f32) (harg7 : arg7.IsWhole) (arg8 : Memref sig .tc .vmem S1x128 .f32) (harg8 : arg8.IsWhole) (arg9 : Memref sig .tc .vmem S1x128 .f32) (harg9 : arg9.IsWhole) (arg10 : Memref sig .tc .vmem S1x128 .f32) (harg10 : arg10.IsWhole) (hc0 : cond2_0 i) (hc1 : ¬cond2_1 i)
    (x0 : Vec F S5000x128 .f32) (x1 : Vec F S128x128 .f32) (x2 : Vec F S1x128 .f32) (x3 : Vec F S128x128 .f32) (x4 : Vec F S1x128 .f32) (y : S5000x128.Idx) :
    ∃ pc ∈ (kernelRun2_A c i arg1 harg1 arg2 harg2 arg3 harg3 arg4 harg4 arg5 harg5 arg6 harg6 arg7 harg7 arg8 harg8 arg9 harg9 arg10 harg10 hc0 hc1 x0 x1 x2 x3 x4).1, y ∈ pc.1.set :=
  View.cover_of_tiledL (kernelRun2_A c i arg1 harg1 arg2 harg2 arg3 harg3 arg4 harg4 arg5 harg5 arg6 harg6 arg7 harg7 arg8 harg8 arg9 harg9 arg10 harg10 hc0 hc1 x0 x1 x2 x3 x4).1 S5000x128.size (by sl_kernel_rfl) y

/-- What case A leaves there: its pieces read back. -/
def out2_A_5 (c : Dev nD) (i : grid2.Coords) (arg1 : Memref sig .tc .vmem S5000x128 .f32) (harg1 : arg1.IsWhole) (arg2 : Memref sig .tc .vmem S128x128 .f32) (harg2 : arg2.IsWhole) (arg3 : Memref sig .tc .vmem S1x128 .f32) (harg3 : arg3.IsWhole) (arg4 : Memref sig .tc .vmem S128x128 .f32) (harg4 : arg4.IsWhole) (arg5 : Memref sig .tc .vmem S1x128 .f32) (harg5 : arg5.IsWhole) (arg6 : Memref sig .tc .vmem S5000x128 .f32) (harg6 : arg6.IsWhole) (arg7 : Memref sig .tc .vmem S1x128 .f32) (harg7 : arg7.IsWhole) (arg8 : Memref sig .tc .vmem S1x128 .f32) (harg8 : arg8.IsWhole) (arg9 : Memref sig .tc .vmem S1x128 .f32) (harg9 : arg9.IsWhole) (arg10 : Memref sig .tc .vmem S1x128 .f32) (harg10 : arg10.IsWhole) (hc0 : cond2_0 i) (hc1 : ¬cond2_1 i)
    (x0 : Vec F S5000x128 .f32) (x1 : Vec F S128x128 .f32) (x2 : Vec F S1x128 .f32) (x3 : Vec F S128x128 .f32) (x4 : Vec F S1x128 .f32) : Vec F S5000x128 .f32 :=
  VO2_5.read (Elt F) (VO2_5.writes (Elt F) VO2_5.junk (kernelRun2_A c i arg1 harg1 arg2 harg2 arg3 harg3 arg4 harg4 arg5 harg5 arg6 harg6 arg7 harg7 arg8 harg8 arg9 harg9 arg10 harg10 hc0 hc1 x0 x1 x2 x3 x4).1)

/-- Case A's pieces for running-sum row 0 cover it (one whole-rectangle store). -/
theorem scover2_A_0 (c : Dev nD) (i : grid2.Coords) (arg1 : Memref sig .tc .vmem S5000x128 .f32) (harg1 : arg1.IsWhole) (arg2 : Memref sig .tc .vmem S128x128 .f32) (harg2 : arg2.IsWhole) (arg3 : Memref sig .tc .vmem S1x128 .f32) (harg3 : arg3.IsWhole) (arg4 : Memref sig .tc .vmem S128x128 .f32) (harg4 : arg4.IsWhole) (arg5 : Memref sig .tc .vmem S1x128 .f32) (harg5 : arg5.IsWhole) (arg6 : Memref sig .tc .vmem S5000x128 .f32) (harg6 : arg6.IsWhole) (arg7 : Memref sig .tc .vmem S1x128 .f32) (harg7 : arg7.IsWhole) (arg8 : Memref sig .tc .vmem S1x128 .f32) (harg8 : arg8.IsWhole) (arg9 : Memref sig .tc .vmem S1x128 .f32) (harg9 : arg9.IsWhole) (arg10 : Memref sig .tc .vmem S1x128 .f32) (harg10 : arg10.IsWhole) (hc0 : cond2_0 i) (hc1 : ¬cond2_1 i)
    (x0 : Vec F S5000x128 .f32) (x1 : Vec F S128x128 .f32) (x2 : Vec F S1x128 .f32) (x3 : Vec F S128x128 .f32) (x4 : Vec F S1x128 .f32) (y : S1x128.Idx) :
    ∃ pc ∈ (kernelRun2_A c i arg1 harg1 arg2 harg2 arg3 harg3 arg4 harg4 arg5 harg5 arg6 harg6 arg7 harg7 arg8 harg8 arg9 harg9 arg10 harg10 hc0 hc1 x0 x1 x2 x3 x4).2.2.2.1, y ∈ pc.1.set :=
  View.cover_of_tiledL (kernelRun2_A c i arg1 harg1 arg2 harg2 arg3 harg3 arg4 harg4 arg5 harg5 arg6 harg6 arg7 harg7 arg8 harg8 arg9 harg9 arg10 harg10 hc0 hc1 x0 x1 x2 x3 x4).2.2.2.1 S1x128.size (by sl_kernel_rfl) y

/-- What case A leaves there: its pieces read back. -/
def sout2_A_0 (c : Dev nD) (i : grid2.Coords) (arg1 : Memref sig .tc .vmem S5000x128 .f32) (harg1 : arg1.IsWhole) (arg2 : Memref sig .tc .vmem S128x128 .f32) (harg2 : arg2.IsWhole) (arg3 : Memref sig .tc .vmem S1x128 .f32) (harg3 : arg3.IsWhole) (arg4 : Memref sig .tc .vmem S128x128 .f32) (harg4 : arg4.IsWhole) (arg5 : Memref sig .tc .vmem S1x128 .f32) (harg5 : arg5.IsWhole) (arg6 : Memref sig .tc .vmem S5000x128 .f32) (harg6 : arg6.IsWhole) (arg7 : Memref sig .tc .vmem S1x128 .f32) (harg7 : arg7.IsWhole) (arg8 : Memref sig .tc .vmem S1x128 .f32) (harg8 : arg8.IsWhole) (arg9 : Memref sig .tc .vmem S1x128 .f32) (harg9 : arg9.IsWhole) (arg10 : Memref sig .tc .vmem S1x128 .f32) (harg10 : arg10.IsWhole) (hc0 : cond2_0 i) (hc1 : ¬cond2_1 i)
    (x0 : Vec F S5000x128 .f32) (x1 : Vec F S128x128 .f32) (x2 : Vec F S1x128 .f32) (x3 : Vec F S128x128 .f32) (x4 : Vec F S1x128 .f32) : Vec F S1x128 .f32 :=
  VS2_0.read (Elt F) (VS2_0.writes (Elt F) VS2_0.junk (kernelRun2_A c i arg1 harg1 arg2 harg2 arg3 harg3 arg4 harg4 arg5 harg5 arg6 harg6 arg7 harg7 arg8 harg8 arg9 harg9 arg10 harg10 hc0 hc1 x0 x1 x2 x3 x4).2.2.2.1)

/-- Case A's pieces for running-sum row 1 cover it (one whole-rectangle store). -/
theorem scover2_A_1 (c : Dev nD) (i : grid2.Coords) (arg1 : Memref sig .tc .vmem S5000x128 .f32) (harg1 : arg1.IsWhole) (arg2 : Memref sig .tc .vmem S128x128 .f32) (harg2 : arg2.IsWhole) (arg3 : Memref sig .tc .vmem S1x128 .f32) (harg3 : arg3.IsWhole) (arg4 : Memref sig .tc .vmem S128x128 .f32) (harg4 : arg4.IsWhole) (arg5 : Memref sig .tc .vmem S1x128 .f32) (harg5 : arg5.IsWhole) (arg6 : Memref sig .tc .vmem S5000x128 .f32) (harg6 : arg6.IsWhole) (arg7 : Memref sig .tc .vmem S1x128 .f32) (harg7 : arg7.IsWhole) (arg8 : Memref sig .tc .vmem S1x128 .f32) (harg8 : arg8.IsWhole) (arg9 : Memref sig .tc .vmem S1x128 .f32) (harg9 : arg9.IsWhole) (arg10 : Memref sig .tc .vmem S1x128 .f32) (harg10 : arg10.IsWhole) (hc0 : cond2_0 i) (hc1 : ¬cond2_1 i)
    (x0 : Vec F S5000x128 .f32) (x1 : Vec F S128x128 .f32) (x2 : Vec F S1x128 .f32) (x3 : Vec F S128x128 .f32) (x4 : Vec F S1x128 .f32) (y : S1x128.Idx) :
    ∃ pc ∈ (kernelRun2_A c i arg1 harg1 arg2 harg2 arg3 harg3 arg4 harg4 arg5 harg5 arg6 harg6 arg7 harg7 arg8 harg8 arg9 harg9 arg10 harg10 hc0 hc1 x0 x1 x2 x3 x4).2.2.2.2.1, y ∈ pc.1.set :=
  View.cover_of_tiledL (kernelRun2_A c i arg1 harg1 arg2 harg2 arg3 harg3 arg4 harg4 arg5 harg5 arg6 harg6 arg7 harg7 arg8 harg8 arg9 harg9 arg10 harg10 hc0 hc1 x0 x1 x2 x3 x4).2.2.2.2.1 S1x128.size (by sl_kernel_rfl) y

/-- What case A leaves there: its pieces read back. -/
def sout2_A_1 (c : Dev nD) (i : grid2.Coords) (arg1 : Memref sig .tc .vmem S5000x128 .f32) (harg1 : arg1.IsWhole) (arg2 : Memref sig .tc .vmem S128x128 .f32) (harg2 : arg2.IsWhole) (arg3 : Memref sig .tc .vmem S1x128 .f32) (harg3 : arg3.IsWhole) (arg4 : Memref sig .tc .vmem S128x128 .f32) (harg4 : arg4.IsWhole) (arg5 : Memref sig .tc .vmem S1x128 .f32) (harg5 : arg5.IsWhole) (arg6 : Memref sig .tc .vmem S5000x128 .f32) (harg6 : arg6.IsWhole) (arg7 : Memref sig .tc .vmem S1x128 .f32) (harg7 : arg7.IsWhole) (arg8 : Memref sig .tc .vmem S1x128 .f32) (harg8 : arg8.IsWhole) (arg9 : Memref sig .tc .vmem S1x128 .f32) (harg9 : arg9.IsWhole) (arg10 : Memref sig .tc .vmem S1x128 .f32) (harg10 : arg10.IsWhole) (hc0 : cond2_0 i) (hc1 : ¬cond2_1 i)
    (x0 : Vec F S5000x128 .f32) (x1 : Vec F S128x128 .f32) (x2 : Vec F S1x128 .f32) (x3 : Vec F S128x128 .f32) (x4 : Vec F S1x128 .f32) : Vec F S1x128 .f32 :=
  VS2_1.read (Elt F) (VS2_1.writes (Elt F) VS2_1.junk (kernelRun2_A c i arg1 harg1 arg2 harg2 arg3 harg3 arg4 harg4 arg5 harg5 arg6 harg6 arg7 harg7 arg8 harg8 arg9 harg9 arg10 harg10 hc0 hc1 x0 x1 x2 x3 x4).2.2.2.2.1)

/-- Case B's pieces for output window 5 cover it (one whole-rectangle store). -/
theorem cover2_B_5 (c : Dev nD) (i : grid2.Coords) (arg1 : Memref sig .tc .vmem S5000x128 .f32) (harg1 : arg1.IsWhole) (arg2 : Memref sig .tc .vmem S128x128 .f32) (harg2 : arg2.IsWhole) (arg3 : Memref sig .tc .vmem S1x128 .f32) (harg3 : arg3.IsWhole) (arg4 : Memref sig .tc .vmem S128x128 .f32) (harg4 : arg4.IsWhole) (arg5 : Memref sig .tc .vmem S1x128 .f32) (harg5 : arg5.IsWhole) (arg6 : Memref sig .tc .vmem S5000x128 .f32) (harg6 : arg6.IsWhole) (arg7 : Memref sig .tc .vmem S1x128 .f32) (harg7 : arg7.IsWhole) (arg8 : Memref sig .tc .vmem S1x128 .f32) (harg8 : arg8.IsWhole) (arg9 : Memref sig .tc .vmem S1x128 .f32) (harg9 : arg9.IsWhole) (arg10 : Memref sig .tc .vmem S1x128 .f32) (harg10 : arg10.IsWhole) (hc0 : ¬cond2_0 i) (hc1 : ¬cond2_1 i)
    (x0 : Vec F S5000x128 .f32) (x1 : Vec F S128x128 .f32) (x2 : Vec F S1x128 .f32) (x3 : Vec F S128x128 .f32) (x4 : Vec F S1x128 .f32) (xs0 : Vec F S1x128 .f32) (xs1 : Vec F S1x128 .f32) (y : S5000x128.Idx) :
    ∃ pc ∈ (kernelRun2_B c i arg1 harg1 arg2 harg2 arg3 harg3 arg4 harg4 arg5 harg5 arg6 harg6 arg7 harg7 arg8 harg8 arg9 harg9 arg10 harg10 hc0 hc1 x0 x1 x2 x3 x4 xs0 xs1).1, y ∈ pc.1.set :=
  View.cover_of_tiledL (kernelRun2_B c i arg1 harg1 arg2 harg2 arg3 harg3 arg4 harg4 arg5 harg5 arg6 harg6 arg7 harg7 arg8 harg8 arg9 harg9 arg10 harg10 hc0 hc1 x0 x1 x2 x3 x4 xs0 xs1).1 S5000x128.size (by sl_kernel_rfl) y

/-- What case B leaves there: its pieces read back. -/
def out2_B_5 (c : Dev nD) (i : grid2.Coords) (arg1 : Memref sig .tc .vmem S5000x128 .f32) (harg1 : arg1.IsWhole) (arg2 : Memref sig .tc .vmem S128x128 .f32) (harg2 : arg2.IsWhole) (arg3 : Memref sig .tc .vmem S1x128 .f32) (harg3 : arg3.IsWhole) (arg4 : Memref sig .tc .vmem S128x128 .f32) (harg4 : arg4.IsWhole) (arg5 : Memref sig .tc .vmem S1x128 .f32) (harg5 : arg5.IsWhole) (arg6 : Memref sig .tc .vmem S5000x128 .f32) (harg6 : arg6.IsWhole) (arg7 : Memref sig .tc .vmem S1x128 .f32) (harg7 : arg7.IsWhole) (arg8 : Memref sig .tc .vmem S1x128 .f32) (harg8 : arg8.IsWhole) (arg9 : Memref sig .tc .vmem S1x128 .f32) (harg9 : arg9.IsWhole) (arg10 : Memref sig .tc .vmem S1x128 .f32) (harg10 : arg10.IsWhole) (hc0 : ¬cond2_0 i) (hc1 : ¬cond2_1 i)
    (x0 : Vec F S5000x128 .f32) (x1 : Vec F S128x128 .f32) (x2 : Vec F S1x128 .f32) (x3 : Vec F S128x128 .f32) (x4 : Vec F S1x128 .f32) (xs0 : Vec F S1x128 .f32) (xs1 : Vec F S1x128 .f32) : Vec F S5000x128 .f32 :=
  VO2_5.read (Elt F) (VO2_5.writes (Elt F) VO2_5.junk (kernelRun2_B c i arg1 harg1 arg2 harg2 arg3 harg3 arg4 harg4 arg5 harg5 arg6 harg6 arg7 harg7 arg8 harg8 arg9 harg9 arg10 harg10 hc0 hc1 x0 x1 x2 x3 x4 xs0 xs1).1)

/-- Case B's pieces for running-sum row 0 cover it (one whole-rectangle store). -/
theorem scover2_B_0 (c : Dev nD) (i : grid2.Coords) (arg1 : Memref sig .tc .vmem S5000x128 .f32) (harg1 : arg1.IsWhole) (arg2 : Memref sig .tc .vmem S128x128 .f32) (harg2 : arg2.IsWhole) (arg3 : Memref sig .tc .vmem S1x128 .f32) (harg3 : arg3.IsWhole) (arg4 : Memref sig .tc .vmem S128x128 .f32) (harg4 : arg4.IsWhole) (arg5 : Memref sig .tc .vmem S1x128 .f32) (harg5 : arg5.IsWhole) (arg6 : Memref sig .tc .vmem S5000x128 .f32) (harg6 : arg6.IsWhole) (arg7 : Memref sig .tc .vmem S1x128 .f32) (harg7 : arg7.IsWhole) (arg8 : Memref sig .tc .vmem S1x128 .f32) (harg8 : arg8.IsWhole) (arg9 : Memref sig .tc .vmem S1x128 .f32) (harg9 : arg9.IsWhole) (arg10 : Memref sig .tc .vmem S1x128 .f32) (harg10 : arg10.IsWhole) (hc0 : ¬cond2_0 i) (hc1 : ¬cond2_1 i)
    (x0 : Vec F S5000x128 .f32) (x1 : Vec F S128x128 .f32) (x2 : Vec F S1x128 .f32) (x3 : Vec F S128x128 .f32) (x4 : Vec F S1x128 .f32) (xs0 : Vec F S1x128 .f32) (xs1 : Vec F S1x128 .f32) (y : S1x128.Idx) :
    ∃ pc ∈ (kernelRun2_B c i arg1 harg1 arg2 harg2 arg3 harg3 arg4 harg4 arg5 harg5 arg6 harg6 arg7 harg7 arg8 harg8 arg9 harg9 arg10 harg10 hc0 hc1 x0 x1 x2 x3 x4 xs0 xs1).2.2.2.1, y ∈ pc.1.set :=
  View.cover_of_tiledL (kernelRun2_B c i arg1 harg1 arg2 harg2 arg3 harg3 arg4 harg4 arg5 harg5 arg6 harg6 arg7 harg7 arg8 harg8 arg9 harg9 arg10 harg10 hc0 hc1 x0 x1 x2 x3 x4 xs0 xs1).2.2.2.1 S1x128.size (by sl_kernel_rfl) y

/-- What case B leaves there: its pieces read back. -/
def sout2_B_0 (c : Dev nD) (i : grid2.Coords) (arg1 : Memref sig .tc .vmem S5000x128 .f32) (harg1 : arg1.IsWhole) (arg2 : Memref sig .tc .vmem S128x128 .f32) (harg2 : arg2.IsWhole) (arg3 : Memref sig .tc .vmem S1x128 .f32) (harg3 : arg3.IsWhole) (arg4 : Memref sig .tc .vmem S128x128 .f32) (harg4 : arg4.IsWhole) (arg5 : Memref sig .tc .vmem S1x128 .f32) (harg5 : arg5.IsWhole) (arg6 : Memref sig .tc .vmem S5000x128 .f32) (harg6 : arg6.IsWhole) (arg7 : Memref sig .tc .vmem S1x128 .f32) (harg7 : arg7.IsWhole) (arg8 : Memref sig .tc .vmem S1x128 .f32) (harg8 : arg8.IsWhole) (arg9 : Memref sig .tc .vmem S1x128 .f32) (harg9 : arg9.IsWhole) (arg10 : Memref sig .tc .vmem S1x128 .f32) (harg10 : arg10.IsWhole) (hc0 : ¬cond2_0 i) (hc1 : ¬cond2_1 i)
    (x0 : Vec F S5000x128 .f32) (x1 : Vec F S128x128 .f32) (x2 : Vec F S1x128 .f32) (x3 : Vec F S128x128 .f32) (x4 : Vec F S1x128 .f32) (xs0 : Vec F S1x128 .f32) (xs1 : Vec F S1x128 .f32) : Vec F S1x128 .f32 :=
  VS2_0.read (Elt F) (VS2_0.writes (Elt F) VS2_0.junk (kernelRun2_B c i arg1 harg1 arg2 harg2 arg3 harg3 arg4 harg4 arg5 harg5 arg6 harg6 arg7 harg7 arg8 harg8 arg9 harg9 arg10 harg10 hc0 hc1 x0 x1 x2 x3 x4 xs0 xs1).2.2.2.1)

/-- Case B's pieces for running-sum row 1 cover it (one whole-rectangle store). -/
theorem scover2_B_1 (c : Dev nD) (i : grid2.Coords) (arg1 : Memref sig .tc .vmem S5000x128 .f32) (harg1 : arg1.IsWhole) (arg2 : Memref sig .tc .vmem S128x128 .f32) (harg2 : arg2.IsWhole) (arg3 : Memref sig .tc .vmem S1x128 .f32) (harg3 : arg3.IsWhole) (arg4 : Memref sig .tc .vmem S128x128 .f32) (harg4 : arg4.IsWhole) (arg5 : Memref sig .tc .vmem S1x128 .f32) (harg5 : arg5.IsWhole) (arg6 : Memref sig .tc .vmem S5000x128 .f32) (harg6 : arg6.IsWhole) (arg7 : Memref sig .tc .vmem S1x128 .f32) (harg7 : arg7.IsWhole) (arg8 : Memref sig .tc .vmem S1x128 .f32) (harg8 : arg8.IsWhole) (arg9 : Memref sig .tc .vmem S1x128 .f32) (harg9 : arg9.IsWhole) (arg10 : Memref sig .tc .vmem S1x128 .f32) (harg10 : arg10.IsWhole) (hc0 : ¬cond2_0 i) (hc1 : ¬cond2_1 i)
    (x0 : Vec F S5000x128 .f32) (x1 : Vec F S128x128 .f32) (x2 : Vec F S1x128 .f32) (x3 : Vec F S128x128 .f32) (x4 : Vec F S1x128 .f32) (xs0 : Vec F S1x128 .f32) (xs1 : Vec F S1x128 .f32) (y : S1x128.Idx) :
    ∃ pc ∈ (kernelRun2_B c i arg1 harg1 arg2 harg2 arg3 harg3 arg4 harg4 arg5 harg5 arg6 harg6 arg7 harg7 arg8 harg8 arg9 harg9 arg10 harg10 hc0 hc1 x0 x1 x2 x3 x4 xs0 xs1).2.2.2.2.1, y ∈ pc.1.set :=
  View.cover_of_tiledL (kernelRun2_B c i arg1 harg1 arg2 harg2 arg3 harg3 arg4 harg4 arg5 harg5 arg6 harg6 arg7 harg7 arg8 harg8 arg9 harg9 arg10 harg10 hc0 hc1 x0 x1 x2 x3 x4 xs0 xs1).2.2.2.2.1 S1x128.size (by sl_kernel_rfl) y

/-- What case B leaves there: its pieces read back. -/
def sout2_B_1 (c : Dev nD) (i : grid2.Coords) (arg1 : Memref sig .tc .vmem S5000x128 .f32) (harg1 : arg1.IsWhole) (arg2 : Memref sig .tc .vmem S128x128 .f32) (harg2 : arg2.IsWhole) (arg3 : Memref sig .tc .vmem S1x128 .f32) (harg3 : arg3.IsWhole) (arg4 : Memref sig .tc .vmem S128x128 .f32) (harg4 : arg4.IsWhole) (arg5 : Memref sig .tc .vmem S1x128 .f32) (harg5 : arg5.IsWhole) (arg6 : Memref sig .tc .vmem S5000x128 .f32) (harg6 : arg6.IsWhole) (arg7 : Memref sig .tc .vmem S1x128 .f32) (harg7 : arg7.IsWhole) (arg8 : Memref sig .tc .vmem S1x128 .f32) (harg8 : arg8.IsWhole) (arg9 : Memref sig .tc .vmem S1x128 .f32) (harg9 : arg9.IsWhole) (arg10 : Memref sig .tc .vmem S1x128 .f32) (harg10 : arg10.IsWhole) (hc0 : ¬cond2_0 i) (hc1 : ¬cond2_1 i)
    (x0 : Vec F S5000x128 .f32) (x1 : Vec F S128x128 .f32) (x2 : Vec F S1x128 .f32) (x3 : Vec F S128x128 .f32) (x4 : Vec F S1x128 .f32) (xs0 : Vec F S1x128 .f32) (xs1 : Vec F S1x128 .f32) : Vec F S1x128 .f32 :=
  VS2_1.read (Elt F) (VS2_1.writes (Elt F) VS2_1.junk (kernelRun2_B c i arg1 harg1 arg2 harg2 arg3 harg3 arg4 harg4 arg5 harg5 arg6 harg6 arg7 harg7 arg8 harg8 arg9 harg9 arg10 harg10 hc0 hc1 x0 x1 x2 x3 x4 xs0 xs1).2.2.2.2.1)

/-- Case C's pieces for output window 5 cover it (one whole-rectangle store). -/
theorem cover2_C_5 (c : Dev nD) (i : grid2.Coords) (arg1 : Memref sig .tc .vmem S5000x128 .f32) (harg1 : arg1.IsWhole) (arg2 : Memref sig .tc .vmem S128x128 .f32) (harg2 : arg2.IsWhole) (arg3 : Memref sig .tc .vmem S1x128 .f32) (harg3 : arg3.IsWhole) (arg4 : Memref sig .tc .vmem S128x128 .f32) (harg4 : arg4.IsWhole) (arg5 : Memref sig .tc .vmem S1x128 .f32) (harg5 : arg5.IsWhole) (arg6 : Memref sig .tc .vmem S5000x128 .f32) (harg6 : arg6.IsWhole) (arg7 : Memref sig .tc .vmem S1x128 .f32) (harg7 : arg7.IsWhole) (arg8 : Memref sig .tc .vmem S1x128 .f32) (harg8 : arg8.IsWhole) (arg9 : Memref sig .tc .vmem S1x128 .f32) (harg9 : arg9.IsWhole) (arg10 : Memref sig .tc .vmem S1x128 .f32) (harg10 : arg10.IsWhole) (hc0 : ¬cond2_0 i) (hc1 : cond2_1 i)
    (x0 : Vec F S5000x128 .f32) (x1 : Vec F S128x128 .f32) (x2 : Vec F S1x128 .f32) (x3 : Vec F S128x128 .f32) (x4 : Vec F S1x128 .f32) (xs0 : Vec F S1x128 .f32) (xs1 : Vec F S1x128 .f32) (y : S5000x128.Idx) :
    ∃ pc ∈ (kernelRun2_C c i arg1 harg1 arg2 harg2 arg3 harg3 arg4 harg4 arg5 harg5 arg6 harg6 arg7 harg7 arg8 harg8 arg9 harg9 arg10 harg10 hc0 hc1 x0 x1 x2 x3 x4 xs0 xs1).1, y ∈ pc.1.set :=
  View.cover_of_tiledL (kernelRun2_C c i arg1 harg1 arg2 harg2 arg3 harg3 arg4 harg4 arg5 harg5 arg6 harg6 arg7 harg7 arg8 harg8 arg9 harg9 arg10 harg10 hc0 hc1 x0 x1 x2 x3 x4 xs0 xs1).1 S5000x128.size (by sl_kernel_rfl) y

/-- What case C leaves there: its pieces read back. -/
def out2_C_5 (c : Dev nD) (i : grid2.Coords) (arg1 : Memref sig .tc .vmem S5000x128 .f32) (harg1 : arg1.IsWhole) (arg2 : Memref sig .tc .vmem S128x128 .f32) (harg2 : arg2.IsWhole) (arg3 : Memref sig .tc .vmem S1x128 .f32) (harg3 : arg3.IsWhole) (arg4 : Memref sig .tc .vmem S128x128 .f32) (harg4 : arg4.IsWhole) (arg5 : Memref sig .tc .vmem S1x128 .f32) (harg5 : arg5.IsWhole) (arg6 : Memref sig .tc .vmem S5000x128 .f32) (harg6 : arg6.IsWhole) (arg7 : Memref sig .tc .vmem S1x128 .f32) (harg7 : arg7.IsWhole) (arg8 : Memref sig .tc .vmem S1x128 .f32) (harg8 : arg8.IsWhole) (arg9 : Memref sig .tc .vmem S1x128 .f32) (harg9 : arg9.IsWhole) (arg10 : Memref sig .tc .vmem S1x128 .f32) (harg10 : arg10.IsWhole) (hc0 : ¬cond2_0 i) (hc1 : cond2_1 i)
    (x0 : Vec F S5000x128 .f32) (x1 : Vec F S128x128 .f32) (x2 : Vec F S1x128 .f32) (x3 : Vec F S128x128 .f32) (x4 : Vec F S1x128 .f32) (xs0 : Vec F S1x128 .f32) (xs1 : Vec F S1x128 .f32) : Vec F S5000x128 .f32 :=
  VO2_5.read (Elt F) (VO2_5.writes (Elt F) VO2_5.junk (kernelRun2_C c i arg1 harg1 arg2 harg2 arg3 harg3 arg4 harg4 arg5 harg5 arg6 harg6 arg7 harg7 arg8 harg8 arg9 harg9 arg10 harg10 hc0 hc1 x0 x1 x2 x3 x4 xs0 xs1).1)

/-- Case C's pieces for output window 6 cover it (one whole-rectangle store). -/
theorem cover2_C_6 (c : Dev nD) (i : grid2.Coords) (arg1 : Memref sig .tc .vmem S5000x128 .f32) (harg1 : arg1.IsWhole) (arg2 : Memref sig .tc .vmem S128x128 .f32) (harg2 : arg2.IsWhole) (arg3 : Memref sig .tc .vmem S1x128 .f32) (harg3 : arg3.IsWhole) (arg4 : Memref sig .tc .vmem S128x128 .f32) (harg4 : arg4.IsWhole) (arg5 : Memref sig .tc .vmem S1x128 .f32) (harg5 : arg5.IsWhole) (arg6 : Memref sig .tc .vmem S5000x128 .f32) (harg6 : arg6.IsWhole) (arg7 : Memref sig .tc .vmem S1x128 .f32) (harg7 : arg7.IsWhole) (arg8 : Memref sig .tc .vmem S1x128 .f32) (harg8 : arg8.IsWhole) (arg9 : Memref sig .tc .vmem S1x128 .f32) (harg9 : arg9.IsWhole) (arg10 : Memref sig .tc .vmem S1x128 .f32) (harg10 : arg10.IsWhole) (hc0 : ¬cond2_0 i) (hc1 : cond2_1 i)
    (x0 : Vec F S5000x128 .f32) (x1 : Vec F S128x128 .f32) (x2 : Vec F S1x128 .f32) (x3 : Vec F S128x128 .f32) (x4 : Vec F S1x128 .f32) (xs0 : Vec F S1x128 .f32) (xs1 : Vec F S1x128 .f32) (y : S1x128.Idx) :
    ∃ pc ∈ (kernelRun2_C c i arg1 harg1 arg2 harg2 arg3 harg3 arg4 harg4 arg5 harg5 arg6 harg6 arg7 harg7 arg8 harg8 arg9 harg9 arg10 harg10 hc0 hc1 x0 x1 x2 x3 x4 xs0 xs1).2.1, y ∈ pc.1.set :=
  View.cover_of_tiledL (kernelRun2_C c i arg1 harg1 arg2 harg2 arg3 harg3 arg4 harg4 arg5 harg5 arg6 harg6 arg7 harg7 arg8 harg8 arg9 harg9 arg10 harg10 hc0 hc1 x0 x1 x2 x3 x4 xs0 xs1).2.1 S1x128.size (by sl_kernel_rfl) y

/-- What case C leaves there: its pieces read back. -/
def out2_C_6 (c : Dev nD) (i : grid2.Coords) (arg1 : Memref sig .tc .vmem S5000x128 .f32) (harg1 : arg1.IsWhole) (arg2 : Memref sig .tc .vmem S128x128 .f32) (harg2 : arg2.IsWhole) (arg3 : Memref sig .tc .vmem S1x128 .f32) (harg3 : arg3.IsWhole) (arg4 : Memref sig .tc .vmem S128x128 .f32) (harg4 : arg4.IsWhole) (arg5 : Memref sig .tc .vmem S1x128 .f32) (harg5 : arg5.IsWhole) (arg6 : Memref sig .tc .vmem S5000x128 .f32) (harg6 : arg6.IsWhole) (arg7 : Memref sig .tc .vmem S1x128 .f32) (harg7 : arg7.IsWhole) (arg8 : Memref sig .tc .vmem S1x128 .f32) (harg8 : arg8.IsWhole) (arg9 : Memref sig .tc .vmem S1x128 .f32) (harg9 : arg9.IsWhole) (arg10 : Memref sig .tc .vmem S1x128 .f32) (harg10 : arg10.IsWhole) (hc0 : ¬cond2_0 i) (hc1 : cond2_1 i)
    (x0 : Vec F S5000x128 .f32) (x1 : Vec F S128x128 .f32) (x2 : Vec F S1x128 .f32) (x3 : Vec F S128x128 .f32) (x4 : Vec F S1x128 .f32) (xs0 : Vec F S1x128 .f32) (xs1 : Vec F S1x128 .f32) : Vec F S1x128 .f32 :=
  VO2_6.read (Elt F) (VO2_6.writes (Elt F) VO2_6.junk (kernelRun2_C c i arg1 harg1 arg2 harg2 arg3 harg3 arg4 harg4 arg5 harg5 arg6 harg6 arg7 harg7 arg8 harg8 arg9 harg9 arg10 harg10 hc0 hc1 x0 x1 x2 x3 x4 xs0 xs1).2.1)

/-- Case C's pieces for output window 7 cover it (one whole-rectangle store). -/
theorem cover2_C_7 (c : Dev nD) (i : grid2.Coords) (arg1 : Memref sig .tc .vmem S5000x128 .f32) (harg1 : arg1.IsWhole) (arg2 : Memref sig .tc .vmem S128x128 .f32) (harg2 : arg2.IsWhole) (arg3 : Memref sig .tc .vmem S1x128 .f32) (harg3 : arg3.IsWhole) (arg4 : Memref sig .tc .vmem S128x128 .f32) (harg4 : arg4.IsWhole) (arg5 : Memref sig .tc .vmem S1x128 .f32) (harg5 : arg5.IsWhole) (arg6 : Memref sig .tc .vmem S5000x128 .f32) (harg6 : arg6.IsWhole) (arg7 : Memref sig .tc .vmem S1x128 .f32) (harg7 : arg7.IsWhole) (arg8 : Memref sig .tc .vmem S1x128 .f32) (harg8 : arg8.IsWhole) (arg9 : Memref sig .tc .vmem S1x128 .f32) (harg9 : arg9.IsWhole) (arg10 : Memref sig .tc .vmem S1x128 .f32) (harg10 : arg10.IsWhole) (hc0 : ¬cond2_0 i) (hc1 : cond2_1 i)
    (x0 : Vec F S5000x128 .f32) (x1 : Vec F S128x128 .f32) (x2 : Vec F S1x128 .f32) (x3 : Vec F S128x128 .f32) (x4 : Vec F S1x128 .f32) (xs0 : Vec F S1x128 .f32) (xs1 : Vec F S1x128 .f32) (y : S1x128.Idx) :
    ∃ pc ∈ (kernelRun2_C c i arg1 harg1 arg2 harg2 arg3 harg3 arg4 harg4 arg5 harg5 arg6 harg6 arg7 harg7 arg8 harg8 arg9 harg9 arg10 harg10 hc0 hc1 x0 x1 x2 x3 x4 xs0 xs1).2.2.1, y ∈ pc.1.set :=
  View.cover_of_tiledL (kernelRun2_C c i arg1 harg1 arg2 harg2 arg3 harg3 arg4 harg4 arg5 harg5 arg6 harg6 arg7 harg7 arg8 harg8 arg9 harg9 arg10 harg10 hc0 hc1 x0 x1 x2 x3 x4 xs0 xs1).2.2.1 S1x128.size (by sl_kernel_rfl) y

/-- What case C leaves there: its pieces read back. -/
def out2_C_7 (c : Dev nD) (i : grid2.Coords) (arg1 : Memref sig .tc .vmem S5000x128 .f32) (harg1 : arg1.IsWhole) (arg2 : Memref sig .tc .vmem S128x128 .f32) (harg2 : arg2.IsWhole) (arg3 : Memref sig .tc .vmem S1x128 .f32) (harg3 : arg3.IsWhole) (arg4 : Memref sig .tc .vmem S128x128 .f32) (harg4 : arg4.IsWhole) (arg5 : Memref sig .tc .vmem S1x128 .f32) (harg5 : arg5.IsWhole) (arg6 : Memref sig .tc .vmem S5000x128 .f32) (harg6 : arg6.IsWhole) (arg7 : Memref sig .tc .vmem S1x128 .f32) (harg7 : arg7.IsWhole) (arg8 : Memref sig .tc .vmem S1x128 .f32) (harg8 : arg8.IsWhole) (arg9 : Memref sig .tc .vmem S1x128 .f32) (harg9 : arg9.IsWhole) (arg10 : Memref sig .tc .vmem S1x128 .f32) (harg10 : arg10.IsWhole) (hc0 : ¬cond2_0 i) (hc1 : cond2_1 i)
    (x0 : Vec F S5000x128 .f32) (x1 : Vec F S128x128 .f32) (x2 : Vec F S1x128 .f32) (x3 : Vec F S128x128 .f32) (x4 : Vec F S1x128 .f32) (xs0 : Vec F S1x128 .f32) (xs1 : Vec F S1x128 .f32) : Vec F S1x128 .f32 :=
  VO2_7.read (Elt F) (VO2_7.writes (Elt F) VO2_7.junk (kernelRun2_C c i arg1 harg1 arg2 harg2 arg3 harg3 arg4 harg4 arg5 harg5 arg6 harg6 arg7 harg7 arg8 harg8 arg9 harg9 arg10 harg10 hc0 hc1 x0 x1 x2 x3 x4 xs0 xs1).2.2.1)

/-- Case C's pieces for running-sum row 0 cover it (one whole-rectangle store). -/
theorem scover2_C_0 (c : Dev nD) (i : grid2.Coords) (arg1 : Memref sig .tc .vmem S5000x128 .f32) (harg1 : arg1.IsWhole) (arg2 : Memref sig .tc .vmem S128x128 .f32) (harg2 : arg2.IsWhole) (arg3 : Memref sig .tc .vmem S1x128 .f32) (harg3 : arg3.IsWhole) (arg4 : Memref sig .tc .vmem S128x128 .f32) (harg4 : arg4.IsWhole) (arg5 : Memref sig .tc .vmem S1x128 .f32) (harg5 : arg5.IsWhole) (arg6 : Memref sig .tc .vmem S5000x128 .f32) (harg6 : arg6.IsWhole) (arg7 : Memref sig .tc .vmem S1x128 .f32) (harg7 : arg7.IsWhole) (arg8 : Memref sig .tc .vmem S1x128 .f32) (harg8 : arg8.IsWhole) (arg9 : Memref sig .tc .vmem S1x128 .f32) (harg9 : arg9.IsWhole) (arg10 : Memref sig .tc .vmem S1x128 .f32) (harg10 : arg10.IsWhole) (hc0 : ¬cond2_0 i) (hc1 : cond2_1 i)
    (x0 : Vec F S5000x128 .f32) (x1 : Vec F S128x128 .f32) (x2 : Vec F S1x128 .f32) (x3 : Vec F S128x128 .f32) (x4 : Vec F S1x128 .f32) (xs0 : Vec F S1x128 .f32) (xs1 : Vec F S1x128 .f32) (y : S1x128.Idx) :
    ∃ pc ∈ (kernelRun2_C c i arg1 harg1 arg2 harg2 arg3 harg3 arg4 harg4 arg5 harg5 arg6 harg6 arg7 harg7 arg8 harg8 arg9 harg9 arg10 harg10 hc0 hc1 x0 x1 x2 x3 x4 xs0 xs1).2.2.2.1, y ∈ pc.1.set :=
  View.cover_of_tiledL (kernelRun2_C c i arg1 harg1 arg2 harg2 arg3 harg3 arg4 harg4 arg5 harg5 arg6 harg6 arg7 harg7 arg8 harg8 arg9 harg9 arg10 harg10 hc0 hc1 x0 x1 x2 x3 x4 xs0 xs1).2.2.2.1 S1x128.size (by sl_kernel_rfl) y

/-- What case C leaves there: its pieces read back. -/
def sout2_C_0 (c : Dev nD) (i : grid2.Coords) (arg1 : Memref sig .tc .vmem S5000x128 .f32) (harg1 : arg1.IsWhole) (arg2 : Memref sig .tc .vmem S128x128 .f32) (harg2 : arg2.IsWhole) (arg3 : Memref sig .tc .vmem S1x128 .f32) (harg3 : arg3.IsWhole) (arg4 : Memref sig .tc .vmem S128x128 .f32) (harg4 : arg4.IsWhole) (arg5 : Memref sig .tc .vmem S1x128 .f32) (harg5 : arg5.IsWhole) (arg6 : Memref sig .tc .vmem S5000x128 .f32) (harg6 : arg6.IsWhole) (arg7 : Memref sig .tc .vmem S1x128 .f32) (harg7 : arg7.IsWhole) (arg8 : Memref sig .tc .vmem S1x128 .f32) (harg8 : arg8.IsWhole) (arg9 : Memref sig .tc .vmem S1x128 .f32) (harg9 : arg9.IsWhole) (arg10 : Memref sig .tc .vmem S1x128 .f32) (harg10 : arg10.IsWhole) (hc0 : ¬cond2_0 i) (hc1 : cond2_1 i)
    (x0 : Vec F S5000x128 .f32) (x1 : Vec F S128x128 .f32) (x2 : Vec F S1x128 .f32) (x3 : Vec F S128x128 .f32) (x4 : Vec F S1x128 .f32) (xs0 : Vec F S1x128 .f32) (xs1 : Vec F S1x128 .f32) : Vec F S1x128 .f32 :=
  VS2_0.read (Elt F) (VS2_0.writes (Elt F) VS2_0.junk (kernelRun2_C c i arg1 harg1 arg2 harg2 arg3 harg3 arg4 harg4 arg5 harg5 arg6 harg6 arg7 harg7 arg8 harg8 arg9 harg9 arg10 harg10 hc0 hc1 x0 x1 x2 x3 x4 xs0 xs1).2.2.2.1)

/-- Case C's pieces for running-sum row 1 cover it (one whole-rectangle store). -/
theorem scover2_C_1 (c : Dev nD) (i : grid2.Coords) (arg1 : Memref sig .tc .vmem S5000x128 .f32) (harg1 : arg1.IsWhole) (arg2 : Memref sig .tc .vmem S128x128 .f32) (harg2 : arg2.IsWhole) (arg3 : Memref sig .tc .vmem S1x128 .f32) (harg3 : arg3.IsWhole) (arg4 : Memref sig .tc .vmem S128x128 .f32) (harg4 : arg4.IsWhole) (arg5 : Memref sig .tc .vmem S1x128 .f32) (harg5 : arg5.IsWhole) (arg6 : Memref sig .tc .vmem S5000x128 .f32) (harg6 : arg6.IsWhole) (arg7 : Memref sig .tc .vmem S1x128 .f32) (harg7 : arg7.IsWhole) (arg8 : Memref sig .tc .vmem S1x128 .f32) (harg8 : arg8.IsWhole) (arg9 : Memref sig .tc .vmem S1x128 .f32) (harg9 : arg9.IsWhole) (arg10 : Memref sig .tc .vmem S1x128 .f32) (harg10 : arg10.IsWhole) (hc0 : ¬cond2_0 i) (hc1 : cond2_1 i)
    (x0 : Vec F S5000x128 .f32) (x1 : Vec F S128x128 .f32) (x2 : Vec F S1x128 .f32) (x3 : Vec F S128x128 .f32) (x4 : Vec F S1x128 .f32) (xs0 : Vec F S1x128 .f32) (xs1 : Vec F S1x128 .f32) (y : S1x128.Idx) :
    ∃ pc ∈ (kernelRun2_C c i arg1 harg1 arg2 harg2 arg3 harg3 arg4 harg4 arg5 harg5 arg6 harg6 arg7 harg7 arg8 harg8 arg9 harg9 arg10 harg10 hc0 hc1 x0 x1 x2 x3 x4 xs0 xs1).2.2.2.2.1, y ∈ pc.1.set :=
  View.cover_of_tiledL (kernelRun2_C c i arg1 harg1 arg2 harg2 arg3 harg3 arg4 harg4 arg5 harg5 arg6 harg6 arg7 harg7 arg8 harg8 arg9 harg9 arg10 harg10 hc0 hc1 x0 x1 x2 x3 x4 xs0 xs1).2.2.2.2.1 S1x128.size (by sl_kernel_rfl) y

/-- What case C leaves there: its pieces read back. -/
def sout2_C_1 (c : Dev nD) (i : grid2.Coords) (arg1 : Memref sig .tc .vmem S5000x128 .f32) (harg1 : arg1.IsWhole) (arg2 : Memref sig .tc .vmem S128x128 .f32) (harg2 : arg2.IsWhole) (arg3 : Memref sig .tc .vmem S1x128 .f32) (harg3 : arg3.IsWhole) (arg4 : Memref sig .tc .vmem S128x128 .f32) (harg4 : arg4.IsWhole) (arg5 : Memref sig .tc .vmem S1x128 .f32) (harg5 : arg5.IsWhole) (arg6 : Memref sig .tc .vmem S5000x128 .f32) (harg6 : arg6.IsWhole) (arg7 : Memref sig .tc .vmem S1x128 .f32) (harg7 : arg7.IsWhole) (arg8 : Memref sig .tc .vmem S1x128 .f32) (harg8 : arg8.IsWhole) (arg9 : Memref sig .tc .vmem S1x128 .f32) (harg9 : arg9.IsWhole) (arg10 : Memref sig .tc .vmem S1x128 .f32) (harg10 : arg10.IsWhole) (hc0 : ¬cond2_0 i) (hc1 : cond2_1 i)
    (x0 : Vec F S5000x128 .f32) (x1 : Vec F S128x128 .f32) (x2 : Vec F S1x128 .f32) (x3 : Vec F S128x128 .f32) (x4 : Vec F S1x128 .f32) (xs0 : Vec F S1x128 .f32) (xs1 : Vec F S1x128 .f32) : Vec F S1x128 .f32 :=
  VS2_1.read (Elt F) (VS2_1.writes (Elt F) VS2_1.junk (kernelRun2_C c i arg1 harg1 arg2 harg2 arg3 harg3 arg4 harg4 arg5 harg5 arg6 harg6 arg7 harg7 arg8 harg8 arg9 harg9 arg10 harg10 hc0 hc1 x0 x1 x2 x3 x4 xs0 xs1).2.2.2.2.1)

/-- THE ACCUMULATION. What the three outputs' staging buffers and the two running-sum rows hold after the body at position `n`
    (a tuple: z's block, the two [1,128] outputs, then the two rows): the first point's case zeroes the rows first; every later
    point runs on the rows as the point before left them; the last point also copies them out. The two [1,128] outputs are idle
    before the last point: their component there is a placeholder nothing consults. -/
def outsAt2 (c : Dev nD) : (n : ℕ) → n < cfg2.N → Vec F S5000x128 .f32 × Vec F S1x128 .f32 × Vec F S1x128 .f32 × Vec F S1x128 .f32 × Vec F S1x128 .f32
  | 0, hn => (out2_A_5 c (grid2.coords ⟨0, hn⟩) (ms2_0 ⟨0, hn⟩) (hs2_0 ⟨0, hn⟩) (ms2_1 ⟨0, hn⟩) (hs2_1 ⟨0, hn⟩) (ms2_2 ⟨0, hn⟩) (hs2_2 ⟨0, hn⟩) (ms2_3 ⟨0, hn⟩) (hs2_3 ⟨0, hn⟩) (ms2_4 ⟨0, hn⟩) (hs2_4 ⟨0, hn⟩) (ms2_5 ⟨0, hn⟩) (hs2_5 ⟨0, hn⟩) (ms2_6 ⟨0, hn⟩) (hs2_6 ⟨0, hn⟩) (ms2_7 ⟨0, hn⟩) (hs2_7 ⟨0, hn⟩) scM2_0 (Memref.isWhole_whole _) scM2_1 (Memref.isWhole_whole _) ((hcond2_0 ⟨0, hn⟩).mpr (Nat.zero_mod _)) (fun h => (fun h => by (try dsimp only at h); omega) ((hcond2_1 ⟨0, hn⟩).mp h)) (iblk2 V c 0 ⟨0, hn⟩) (iblk2 V c 1 ⟨0, hn⟩) (iblk2 V c 2 ⟨0, hn⟩) (iblk2 V c 3 ⟨0, hn⟩) (iblk2 V c 4 ⟨0, hn⟩),
      VO2_6.read (Elt F) VO2_6.junk,
      VO2_7.read (Elt F) VO2_7.junk,
      sout2_A_0 c (grid2.coords ⟨0, hn⟩) (ms2_0 ⟨0, hn⟩) (hs2_0 ⟨0, hn⟩) (ms2_1 ⟨0, hn⟩) (hs2_1 ⟨0, hn⟩) (ms2_2 ⟨0, hn⟩) (hs2_2 ⟨0, hn⟩) (ms2_3 ⟨0, hn⟩) (hs2_3 ⟨0, hn⟩) (ms2_4 ⟨0, hn⟩) (hs2_4 ⟨0, hn⟩) (ms2_5 ⟨0, hn⟩) (hs2_5 ⟨0, hn⟩) (ms2_6 ⟨0, hn⟩) (hs2_6 ⟨0, hn⟩) (ms2_7 ⟨0, hn⟩) (hs2_7 ⟨0, hn⟩) scM2_0 (Memref.isWhole_whole _) scM2_1 (Memref.isWhole_whole _) ((hcond2_0 ⟨0, hn⟩).mpr (Nat.zero_mod _)) (fun h => (fun h => by (try dsimp only at h); omega) ((hcond2_1 ⟨0, hn⟩).mp h)) (iblk2 V c 0 ⟨0, hn⟩) (iblk2 V c 1 ⟨0, hn⟩) (iblk2 V c 2 ⟨0, hn⟩) (iblk2 V c 3 ⟨0, hn⟩) (iblk2 V c 4 ⟨0, hn⟩),
      sout2_A_1 c (grid2.coords ⟨0, hn⟩) (ms2_0 ⟨0, hn⟩) (hs2_0 ⟨0, hn⟩) (ms2_1 ⟨0, hn⟩) (hs2_1 ⟨0, hn⟩) (ms2_2 ⟨0, hn⟩) (hs2_2 ⟨0, hn⟩) (ms2_3 ⟨0, hn⟩) (hs2_3 ⟨0, hn⟩) (ms2_4 ⟨0, hn⟩) (hs2_4 ⟨0, hn⟩) (ms2_5 ⟨0, hn⟩) (hs2_5 ⟨0, hn⟩) (ms2_6 ⟨0, hn⟩) (hs2_6 ⟨0, hn⟩) (ms2_7 ⟨0, hn⟩) (hs2_7 ⟨0, hn⟩) scM2_0 (Memref.isWhole_whole _) scM2_1 (Memref.isWhole_whole _) ((hcond2_0 ⟨0, hn⟩).mpr (Nat.zero_mod _)) (fun h => (fun h => by (try dsimp only at h); omega) ((hcond2_1 ⟨0, hn⟩).mp h)) (iblk2 V c 0 ⟨0, hn⟩) (iblk2 V c 1 ⟨0, hn⟩) (iblk2 V c 2 ⟨0, hn⟩) (iblk2 V c 3 ⟨0, hn⟩) (iblk2 V c 4 ⟨0, hn⟩))
  | n + 1, hn =>
    if h1 : (n + 1) % 20 = 19 then
      (out2_C_5 c (grid2.coords ⟨n + 1, hn⟩) (ms2_0 ⟨n + 1, hn⟩) (hs2_0 ⟨n + 1, hn⟩) (ms2_1 ⟨n + 1, hn⟩) (hs2_1 ⟨n + 1, hn⟩) (ms2_2 ⟨n + 1, hn⟩) (hs2_2 ⟨n + 1, hn⟩) (ms2_3 ⟨n + 1, hn⟩) (hs2_3 ⟨n + 1, hn⟩) (ms2_4 ⟨n + 1, hn⟩) (hs2_4 ⟨n + 1, hn⟩) (ms2_5 ⟨n + 1, hn⟩) (hs2_5 ⟨n + 1, hn⟩) (ms2_6 ⟨n + 1, hn⟩) (hs2_6 ⟨n + 1, hn⟩) (ms2_7 ⟨n + 1, hn⟩) (hs2_7 ⟨n + 1, hn⟩) scM2_0 (Memref.isWhole_whole _) scM2_1 (Memref.isWhole_whole _) (fun h => (by have hN : n + 1 < 20 := lt_of_lt_of_eq hn (show cfg2.N = 20 from N_2); omega : ¬(n + 1) % 20 = 0) ((hcond2_0 ⟨n + 1, hn⟩).mp h)) ((hcond2_1 ⟨n + 1, hn⟩).mpr h1) (iblk2 V c 0 ⟨n + 1, hn⟩) (iblk2 V c 1 ⟨n + 1, hn⟩) (iblk2 V c 2 ⟨n + 1, hn⟩) (iblk2 V c 3 ⟨n + 1, hn⟩) (iblk2 V c 4 ⟨n + 1, hn⟩) (outsAt2 c n (Nat.lt_of_succ_lt hn)).2.2.2.1 (outsAt2 c n (Nat.lt_of_succ_lt hn)).2.2.2.2,
      out2_C_6 c (grid2.coords ⟨n + 1, hn⟩) (ms2_0 ⟨n + 1, hn⟩) (hs2_0 ⟨n + 1, hn⟩) (ms2_1 ⟨n + 1, hn⟩) (hs2_1 ⟨n + 1, hn⟩) (ms2_2 ⟨n + 1, hn⟩) (hs2_2 ⟨n + 1, hn⟩) (ms2_3 ⟨n + 1, hn⟩) (hs2_3 ⟨n + 1, hn⟩) (ms2_4 ⟨n + 1, hn⟩) (hs2_4 ⟨n + 1, hn⟩) (ms2_5 ⟨n + 1, hn⟩) (hs2_5 ⟨n + 1, hn⟩) (ms2_6 ⟨n + 1, hn⟩) (hs2_6 ⟨n + 1, hn⟩) (ms2_7 ⟨n + 1, hn⟩) (hs2_7 ⟨n + 1, hn⟩) scM2_0 (Memref.isWhole_whole _) scM2_1 (Memref.isWhole_whole _) (fun h => (by have hN : n + 1 < 20 := lt_of_lt_of_eq hn (show cfg2.N = 20 from N_2); omega : ¬(n + 1) % 20 = 0) ((hcond2_0 ⟨n + 1, hn⟩).mp h)) ((hcond2_1 ⟨n + 1, hn⟩).mpr h1) (iblk2 V c 0 ⟨n + 1, hn⟩) (iblk2 V c 1 ⟨n + 1, hn⟩) (iblk2 V c 2 ⟨n + 1, hn⟩) (iblk2 V c 3 ⟨n + 1, hn⟩) (iblk2 V c 4 ⟨n + 1, hn⟩) (outsAt2 c n (Nat.lt_of_succ_lt hn)).2.2.2.1 (outsAt2 c n (Nat.lt_of_succ_lt hn)).2.2.2.2,
      out2_C_7 c (grid2.coords ⟨n + 1, hn⟩) (ms2_0 ⟨n + 1, hn⟩) (hs2_0 ⟨n + 1, hn⟩) (ms2_1 ⟨n + 1, hn⟩) (hs2_1 ⟨n + 1, hn⟩) (ms2_2 ⟨n + 1, hn⟩) (hs2_2 ⟨n + 1, hn⟩) (ms2_3 ⟨n + 1, hn⟩) (hs2_3 ⟨n + 1, hn⟩) (ms2_4 ⟨n + 1, hn⟩) (hs2_4 ⟨n + 1, hn⟩) (ms2_5 ⟨n + 1, hn⟩) (hs2_5 ⟨n + 1, hn⟩) (ms2_6 ⟨n + 1, hn⟩) (hs2_6 ⟨n + 1, hn⟩) (ms2_7 ⟨n + 1, hn⟩) (hs2_7 ⟨n + 1, hn⟩) scM2_0 (Memref.isWhole_whole _) scM2_1 (Memref.isWhole_whole _) (fun h => (by have hN : n + 1 < 20 := lt_of_lt_of_eq hn (show cfg2.N = 20 from N_2); omega : ¬(n + 1) % 20 = 0) ((hcond2_0 ⟨n + 1, hn⟩).mp h)) ((hcond2_1 ⟨n + 1, hn⟩).mpr h1) (iblk2 V c 0 ⟨n + 1, hn⟩) (iblk2 V c 1 ⟨n + 1, hn⟩) (iblk2 V c 2 ⟨n + 1, hn⟩) (iblk2 V c 3 ⟨n + 1, hn⟩) (iblk2 V c 4 ⟨n + 1, hn⟩) (outsAt2 c n (Nat.lt_of_succ_lt hn)).2.2.2.1 (outsAt2 c n (Nat.lt_of_succ_lt hn)).2.2.2.2,
      sout2_C_0 c (grid2.coords ⟨n + 1, hn⟩) (ms2_0 ⟨n + 1, hn⟩) (hs2_0 ⟨n + 1, hn⟩) (ms2_1 ⟨n + 1, hn⟩) (hs2_1 ⟨n + 1, hn⟩) (ms2_2 ⟨n + 1, hn⟩) (hs2_2 ⟨n + 1, hn⟩) (ms2_3 ⟨n + 1, hn⟩) (hs2_3 ⟨n + 1, hn⟩) (ms2_4 ⟨n + 1, hn⟩) (hs2_4 ⟨n + 1, hn⟩) (ms2_5 ⟨n + 1, hn⟩) (hs2_5 ⟨n + 1, hn⟩) (ms2_6 ⟨n + 1, hn⟩) (hs2_6 ⟨n + 1, hn⟩) (ms2_7 ⟨n + 1, hn⟩) (hs2_7 ⟨n + 1, hn⟩) scM2_0 (Memref.isWhole_whole _) scM2_1 (Memref.isWhole_whole _) (fun h => (by have hN : n + 1 < 20 := lt_of_lt_of_eq hn (show cfg2.N = 20 from N_2); omega : ¬(n + 1) % 20 = 0) ((hcond2_0 ⟨n + 1, hn⟩).mp h)) ((hcond2_1 ⟨n + 1, hn⟩).mpr h1) (iblk2 V c 0 ⟨n + 1, hn⟩) (iblk2 V c 1 ⟨n + 1, hn⟩) (iblk2 V c 2 ⟨n + 1, hn⟩) (iblk2 V c 3 ⟨n + 1, hn⟩) (iblk2 V c 4 ⟨n + 1, hn⟩) (outsAt2 c n (Nat.lt_of_succ_lt hn)).2.2.2.1 (outsAt2 c n (Nat.lt_of_succ_lt hn)).2.2.2.2,
      sout2_C_1 c (grid2.coords ⟨n + 1, hn⟩) (ms2_0 ⟨n + 1, hn⟩) (hs2_0 ⟨n + 1, hn⟩) (ms2_1 ⟨n + 1, hn⟩) (hs2_1 ⟨n + 1, hn⟩) (ms2_2 ⟨n + 1, hn⟩) (hs2_2 ⟨n + 1, hn⟩) (ms2_3 ⟨n + 1, hn⟩) (hs2_3 ⟨n + 1, hn⟩) (ms2_4 ⟨n + 1, hn⟩) (hs2_4 ⟨n + 1, hn⟩) (ms2_5 ⟨n + 1, hn⟩) (hs2_5 ⟨n + 1, hn⟩) (ms2_6 ⟨n + 1, hn⟩) (hs2_6 ⟨n + 1, hn⟩) (ms2_7 ⟨n + 1, hn⟩) (hs2_7 ⟨n + 1, hn⟩) scM2_0 (Memref.isWhole_whole _) scM2_1 (Memref.isWhole_whole _) (fun h => (by have hN : n + 1 < 20 := lt_of_lt_of_eq hn (show cfg2.N = 20 from N_2); omega : ¬(n + 1) % 20 = 0) ((hcond2_0 ⟨n + 1, hn⟩).mp h)) ((hcond2_1 ⟨n + 1, hn⟩).mpr h1) (iblk2 V c 0 ⟨n + 1, hn⟩) (iblk2 V c 1 ⟨n + 1, hn⟩) (iblk2 V c 2 ⟨n + 1, hn⟩) (iblk2 V c 3 ⟨n + 1, hn⟩) (iblk2 V c 4 ⟨n + 1, hn⟩) (outsAt2 c n (Nat.lt_of_succ_lt hn)).2.2.2.1 (outsAt2 c n (Nat.lt_of_succ_lt hn)).2.2.2.2)
    else
      (out2_B_5 c (grid2.coords ⟨n + 1, hn⟩) (ms2_0 ⟨n + 1, hn⟩) (hs2_0 ⟨n + 1, hn⟩) (ms2_1 ⟨n + 1, hn⟩) (hs2_1 ⟨n + 1, hn⟩) (ms2_2 ⟨n + 1, hn⟩) (hs2_2 ⟨n + 1, hn⟩) (ms2_3 ⟨n + 1, hn⟩) (hs2_3 ⟨n + 1, hn⟩) (ms2_4 ⟨n + 1, hn⟩) (hs2_4 ⟨n + 1, hn⟩) (ms2_5 ⟨n + 1, hn⟩) (hs2_5 ⟨n + 1, hn⟩) (ms2_6 ⟨n + 1, hn⟩) (hs2_6 ⟨n + 1, hn⟩) (ms2_7 ⟨n + 1, hn⟩) (hs2_7 ⟨n + 1, hn⟩) scM2_0 (Memref.isWhole_whole _) scM2_1 (Memref.isWhole_whole _) (fun h => (by have hN : n + 1 < 20 := lt_of_lt_of_eq hn (show cfg2.N = 20 from N_2); omega : ¬(n + 1) % 20 = 0) ((hcond2_0 ⟨n + 1, hn⟩).mp h)) (fun h => h1 ((hcond2_1 ⟨n + 1, hn⟩).mp h)) (iblk2 V c 0 ⟨n + 1, hn⟩) (iblk2 V c 1 ⟨n + 1, hn⟩) (iblk2 V c 2 ⟨n + 1, hn⟩) (iblk2 V c 3 ⟨n + 1, hn⟩) (iblk2 V c 4 ⟨n + 1, hn⟩) (outsAt2 c n (Nat.lt_of_succ_lt hn)).2.2.2.1 (outsAt2 c n (Nat.lt_of_succ_lt hn)).2.2.2.2,
      VO2_6.read (Elt F) VO2_6.junk,
      VO2_7.read (Elt F) VO2_7.junk,
      sout2_B_0 c (grid2.coords ⟨n + 1, hn⟩) (ms2_0 ⟨n + 1, hn⟩) (hs2_0 ⟨n + 1, hn⟩) (ms2_1 ⟨n + 1, hn⟩) (hs2_1 ⟨n + 1, hn⟩) (ms2_2 ⟨n + 1, hn⟩) (hs2_2 ⟨n + 1, hn⟩) (ms2_3 ⟨n + 1, hn⟩) (hs2_3 ⟨n + 1, hn⟩) (ms2_4 ⟨n + 1, hn⟩) (hs2_4 ⟨n + 1, hn⟩) (ms2_5 ⟨n + 1, hn⟩) (hs2_5 ⟨n + 1, hn⟩) (ms2_6 ⟨n + 1, hn⟩) (hs2_6 ⟨n + 1, hn⟩) (ms2_7 ⟨n + 1, hn⟩) (hs2_7 ⟨n + 1, hn⟩) scM2_0 (Memref.isWhole_whole _) scM2_1 (Memref.isWhole_whole _) (fun h => (by have hN : n + 1 < 20 := lt_of_lt_of_eq hn (show cfg2.N = 20 from N_2); omega : ¬(n + 1) % 20 = 0) ((hcond2_0 ⟨n + 1, hn⟩).mp h)) (fun h => h1 ((hcond2_1 ⟨n + 1, hn⟩).mp h)) (iblk2 V c 0 ⟨n + 1, hn⟩) (iblk2 V c 1 ⟨n + 1, hn⟩) (iblk2 V c 2 ⟨n + 1, hn⟩) (iblk2 V c 3 ⟨n + 1, hn⟩) (iblk2 V c 4 ⟨n + 1, hn⟩) (outsAt2 c n (Nat.lt_of_succ_lt hn)).2.2.2.1 (outsAt2 c n (Nat.lt_of_succ_lt hn)).2.2.2.2,
      sout2_B_1 c (grid2.coords ⟨n + 1, hn⟩) (ms2_0 ⟨n + 1, hn⟩) (hs2_0 ⟨n + 1, hn⟩) (ms2_1 ⟨n + 1, hn⟩) (hs2_1 ⟨n + 1, hn⟩) (ms2_2 ⟨n + 1, hn⟩) (hs2_2 ⟨n + 1, hn⟩) (ms2_3 ⟨n + 1, hn⟩) (hs2_3 ⟨n + 1, hn⟩) (ms2_4 ⟨n + 1, hn⟩) (hs2_4 ⟨n + 1, hn⟩) (ms2_5 ⟨n + 1, hn⟩) (hs2_5 ⟨n + 1, hn⟩) (ms2_6 ⟨n + 1, hn⟩) (hs2_6 ⟨n + 1, hn⟩) (ms2_7 ⟨n + 1, hn⟩) (hs2_7 ⟨n + 1, hn⟩) scM2_0 (Memref.isWhole_whole _) scM2_1 (Memref.isWhole_whole _) (fun h => (by have hN : n + 1 < 20 := lt_of_lt_of_eq hn (show cfg2.N = 20 from N_2); omega : ¬(n + 1) % 20 = 0) ((hcond2_0 ⟨n + 1, hn⟩).mp h)) (fun h => h1 ((hcond2_1 ⟨n + 1, hn⟩).mp h)) (iblk2 V c 0 ⟨n + 1, hn⟩) (iblk2 V c 1 ⟨n + 1, hn⟩) (iblk2 V c 2 ⟨n + 1, hn⟩) (iblk2 V c 3 ⟨n + 1, hn⟩) (iblk2 V c 4 ⟨n + 1, hn⟩) (outsAt2 c n (Nat.lt_of_succ_lt hn)).2.2.2.1 (outsAt2 c n (Nat.lt_of_succ_lt hn)).2.2.2.2)

/-- `outsAt2` at the first point. -/
theorem outsAt2_A (c : Dev nD) (t : Fin cfg2.N) (h0 : t.val % 20 = 0) (h1 : ¬t.val % 20 = 19) :
    outsAt2 V c t.val t.isLt = (out2_A_5 c (grid2.coords t) (ms2_0 t) (hs2_0 t) (ms2_1 t) (hs2_1 t) (ms2_2 t) (hs2_2 t) (ms2_3 t) (hs2_3 t) (ms2_4 t) (hs2_4 t) (ms2_5 t) (hs2_5 t) (ms2_6 t) (hs2_6 t) (ms2_7 t) (hs2_7 t) scM2_0 (Memref.isWhole_whole _) scM2_1 (Memref.isWhole_whole _) ((hcond2_0 t).mpr h0) (fun h => h1 ((hcond2_1 t).mp h)) (iblk2 V c 0 t) (iblk2 V c 1 t) (iblk2 V c 2 t) (iblk2 V c 3 t) (iblk2 V c 4 t),
      VO2_6.read (Elt F) VO2_6.junk,
      VO2_7.read (Elt F) VO2_7.junk,
      sout2_A_0 c (grid2.coords t) (ms2_0 t) (hs2_0 t) (ms2_1 t) (hs2_1 t) (ms2_2 t) (hs2_2 t) (ms2_3 t) (hs2_3 t) (ms2_4 t) (hs2_4 t) (ms2_5 t) (hs2_5 t) (ms2_6 t) (hs2_6 t) (ms2_7 t) (hs2_7 t) scM2_0 (Memref.isWhole_whole _) scM2_1 (Memref.isWhole_whole _) ((hcond2_0 t).mpr h0) (fun h => h1 ((hcond2_1 t).mp h)) (iblk2 V c 0 t) (iblk2 V c 1 t) (iblk2 V c 2 t) (iblk2 V c 3 t) (iblk2 V c 4 t),
      sout2_A_1 c (grid2.coords t) (ms2_0 t) (hs2_0 t) (ms2_1 t) (hs2_1 t) (ms2_2 t) (hs2_2 t) (ms2_3 t) (hs2_3 t) (ms2_4 t) (hs2_4 t) (ms2_5 t) (hs2_5 t) (ms2_6 t) (hs2_6 t) (ms2_7 t) (hs2_7 t) scM2_0 (Memref.isWhole_whole _) scM2_1 (Memref.isWhole_whole _) ((hcond2_0 t).mpr h0) (fun h => h1 ((hcond2_1 t).mp h)) (iblk2 V c 0 t) (iblk2 V c 1 t) (iblk2 V c 2 t) (iblk2 V c 3 t) (iblk2 V c 4 t)) := by
  obtain ⟨n, hn⟩ := t
  cases n with
  | zero => exact rfl
  | succ n => exact (by exfalso; have hN : n + 1 < 20 := lt_of_lt_of_eq hn (show cfg2.N = 20 from N_2); (try dsimp only at h0); omega)

/-- `outsAt2` at a middle point: that case's contents, over what the point before left. -/
theorem outsAt2_B (c : Dev nD) (t : Fin cfg2.N) (h0 : ¬t.val % 20 = 0) (h1 : ¬t.val % 20 = 19) :
    outsAt2 V c t.val t.isLt = (out2_B_5 c (grid2.coords t) (ms2_0 t) (hs2_0 t) (ms2_1 t) (hs2_1 t) (ms2_2 t) (hs2_2 t) (ms2_3 t) (hs2_3 t) (ms2_4 t) (hs2_4 t) (ms2_5 t) (hs2_5 t) (ms2_6 t) (hs2_6 t) (ms2_7 t) (hs2_7 t) scM2_0 (Memref.isWhole_whole _) scM2_1 (Memref.isWhole_whole _) (fun h => h0 ((hcond2_0 t).mp h)) (fun h => h1 ((hcond2_1 t).mp h)) (iblk2 V c 0 t) (iblk2 V c 1 t) (iblk2 V c 2 t) (iblk2 V c 3 t) (iblk2 V c 4 t) (outsAt2 V c (t.val - 1) (Nat.lt_of_le_of_lt (Nat.sub_le _ _) t.isLt)).2.2.2.1 (outsAt2 V c (t.val - 1) (Nat.lt_of_le_of_lt (Nat.sub_le _ _) t.isLt)).2.2.2.2,
      VO2_6.read (Elt F) VO2_6.junk,
      VO2_7.read (Elt F) VO2_7.junk,
      sout2_B_0 c (grid2.coords t) (ms2_0 t) (hs2_0 t) (ms2_1 t) (hs2_1 t) (ms2_2 t) (hs2_2 t) (ms2_3 t) (hs2_3 t) (ms2_4 t) (hs2_4 t) (ms2_5 t) (hs2_5 t) (ms2_6 t) (hs2_6 t) (ms2_7 t) (hs2_7 t) scM2_0 (Memref.isWhole_whole _) scM2_1 (Memref.isWhole_whole _) (fun h => h0 ((hcond2_0 t).mp h)) (fun h => h1 ((hcond2_1 t).mp h)) (iblk2 V c 0 t) (iblk2 V c 1 t) (iblk2 V c 2 t) (iblk2 V c 3 t) (iblk2 V c 4 t) (outsAt2 V c (t.val - 1) (Nat.lt_of_le_of_lt (Nat.sub_le _ _) t.isLt)).2.2.2.1 (outsAt2 V c (t.val - 1) (Nat.lt_of_le_of_lt (Nat.sub_le _ _) t.isLt)).2.2.2.2,
      sout2_B_1 c (grid2.coords t) (ms2_0 t) (hs2_0 t) (ms2_1 t) (hs2_1 t) (ms2_2 t) (hs2_2 t) (ms2_3 t) (hs2_3 t) (ms2_4 t) (hs2_4 t) (ms2_5 t) (hs2_5 t) (ms2_6 t) (hs2_6 t) (ms2_7 t) (hs2_7 t) scM2_0 (Memref.isWhole_whole _) scM2_1 (Memref.isWhole_whole _) (fun h => h0 ((hcond2_0 t).mp h)) (fun h => h1 ((hcond2_1 t).mp h)) (iblk2 V c 0 t) (iblk2 V c 1 t) (iblk2 V c 2 t) (iblk2 V c 3 t) (iblk2 V c 4 t) (outsAt2 V c (t.val - 1) (Nat.lt_of_le_of_lt (Nat.sub_le _ _) t.isLt)).2.2.2.1 (outsAt2 V c (t.val - 1) (Nat.lt_of_le_of_lt (Nat.sub_le _ _) t.isLt)).2.2.2.2) := by
  obtain ⟨n, hn⟩ := t
  cases n with
  | zero => exact (by exfalso; (try dsimp only at h0); exact absurd (Nat.zero_mod _) h0)
  | succ n => exact (dif_neg h1).trans rfl

/-- `outsAt2` at the last point. -/
theorem outsAt2_C (c : Dev nD) (t : Fin cfg2.N) (h0 : ¬t.val % 20 = 0) (h1 : t.val % 20 = 19) :
    outsAt2 V c t.val t.isLt = (out2_C_5 c (grid2.coords t) (ms2_0 t) (hs2_0 t) (ms2_1 t) (hs2_1 t) (ms2_2 t) (hs2_2 t) (ms2_3 t) (hs2_3 t) (ms2_4 t) (hs2_4 t) (ms2_5 t) (hs2_5 t) (ms2_6 t) (hs2_6 t) (ms2_7 t) (hs2_7 t) scM2_0 (Memref.isWhole_whole _) scM2_1 (Memref.isWhole_whole _) (fun h => h0 ((hcond2_0 t).mp h)) ((hcond2_1 t).mpr h1) (iblk2 V c 0 t) (iblk2 V c 1 t) (iblk2 V c 2 t) (iblk2 V c 3 t) (iblk2 V c 4 t) (outsAt2 V c (t.val - 1) (Nat.lt_of_le_of_lt (Nat.sub_le _ _) t.isLt)).2.2.2.1 (outsAt2 V c (t.val - 1) (Nat.lt_of_le_of_lt (Nat.sub_le _ _) t.isLt)).2.2.2.2,
      out2_C_6 c (grid2.coords t) (ms2_0 t) (hs2_0 t) (ms2_1 t) (hs2_1 t) (ms2_2 t) (hs2_2 t) (ms2_3 t) (hs2_3 t) (ms2_4 t) (hs2_4 t) (ms2_5 t) (hs2_5 t) (ms2_6 t) (hs2_6 t) (ms2_7 t) (hs2_7 t) scM2_0 (Memref.isWhole_whole _) scM2_1 (Memref.isWhole_whole _) (fun h => h0 ((hcond2_0 t).mp h)) ((hcond2_1 t).mpr h1) (iblk2 V c 0 t) (iblk2 V c 1 t) (iblk2 V c 2 t) (iblk2 V c 3 t) (iblk2 V c 4 t) (outsAt2 V c (t.val - 1) (Nat.lt_of_le_of_lt (Nat.sub_le _ _) t.isLt)).2.2.2.1 (outsAt2 V c (t.val - 1) (Nat.lt_of_le_of_lt (Nat.sub_le _ _) t.isLt)).2.2.2.2,
      out2_C_7 c (grid2.coords t) (ms2_0 t) (hs2_0 t) (ms2_1 t) (hs2_1 t) (ms2_2 t) (hs2_2 t) (ms2_3 t) (hs2_3 t) (ms2_4 t) (hs2_4 t) (ms2_5 t) (hs2_5 t) (ms2_6 t) (hs2_6 t) (ms2_7 t) (hs2_7 t) scM2_0 (Memref.isWhole_whole _) scM2_1 (Memref.isWhole_whole _) (fun h => h0 ((hcond2_0 t).mp h)) ((hcond2_1 t).mpr h1) (iblk2 V c 0 t) (iblk2 V c 1 t) (iblk2 V c 2 t) (iblk2 V c 3 t) (iblk2 V c 4 t) (outsAt2 V c (t.val - 1) (Nat.lt_of_le_of_lt (Nat.sub_le _ _) t.isLt)).2.2.2.1 (outsAt2 V c (t.val - 1) (Nat.lt_of_le_of_lt (Nat.sub_le _ _) t.isLt)).2.2.2.2,
      sout2_C_0 c (grid2.coords t) (ms2_0 t) (hs2_0 t) (ms2_1 t) (hs2_1 t) (ms2_2 t) (hs2_2 t) (ms2_3 t) (hs2_3 t) (ms2_4 t) (hs2_4 t) (ms2_5 t) (hs2_5 t) (ms2_6 t) (hs2_6 t) (ms2_7 t) (hs2_7 t) scM2_0 (Memref.isWhole_whole _) scM2_1 (Memref.isWhole_whole _) (fun h => h0 ((hcond2_0 t).mp h)) ((hcond2_1 t).mpr h1) (iblk2 V c 0 t) (iblk2 V c 1 t) (iblk2 V c 2 t) (iblk2 V c 3 t) (iblk2 V c 4 t) (outsAt2 V c (t.val - 1) (Nat.lt_of_le_of_lt (Nat.sub_le _ _) t.isLt)).2.2.2.1 (outsAt2 V c (t.val - 1) (Nat.lt_of_le_of_lt (Nat.sub_le _ _) t.isLt)).2.2.2.2,
      sout2_C_1 c (grid2.coords t) (ms2_0 t) (hs2_0 t) (ms2_1 t) (hs2_1 t) (ms2_2 t) (hs2_2 t) (ms2_3 t) (hs2_3 t) (ms2_4 t) (hs2_4 t) (ms2_5 t) (hs2_5 t) (ms2_6 t) (hs2_6 t) (ms2_7 t) (hs2_7 t) scM2_0 (Memref.isWhole_whole _) scM2_1 (Memref.isWhole_whole _) (fun h => h0 ((hcond2_0 t).mp h)) ((hcond2_1 t).mpr h1) (iblk2 V c 0 t) (iblk2 V c 1 t) (iblk2 V c 2 t) (iblk2 V c 3 t) (iblk2 V c 4 t) (outsAt2 V c (t.val - 1) (Nat.lt_of_le_of_lt (Nat.sub_le _ _) t.isLt)).2.2.2.1 (outsAt2 V c (t.val - 1) (Nat.lt_of_le_of_lt (Nat.sub_le _ _) t.isLt)).2.2.2.2) := by
  obtain ⟨n, hn⟩ := t
  cases n with
  | zero => exact (by exfalso; (try dsimp only at h0); exact absurd (Nat.zero_mod _) h0)
  | succ n => exact (dif_pos h1).trans rfl

/-- The region invariant before position `n`: before the first point the class's (every scoped buffer at anything); afterwards the
    two running-sum rows at what the point before left in them, every other scoped buffer unopened at anything, and the generator
    register at some state. -/
def PhiS2 (c : Dev nD) : (n : ℕ) → n ≤ cfg2.N → sProp 𝕄
  | 0, _ => Pipeline.ΦA spec2 c
  | n + 1, hn => iprop(iprop(iprop(owns (c : Thread nD τ) scM2_0 fullShare (outsAt2 V c n hn).2.2.2.1 ∗ owns (c : Thread nD τ) scM2_1 fullShare (outsAt2 V c n hn).2.2.2.2) ∗ Pipeline.scopedRestBut (Ix := Unit) (Name := ℕ) (U := UR sig nD τ) (Lvl := ℕ) (Val := Elt F) spec2 c [cc2_scratch0, cc2_scratch1]) ∗ (∃ r, prngReg c r))

theorem PhiS2_zero (c : Dev nD) (n : ℕ) (h : n ≤ cfg2.N) (hz : n = 0) : PhiS2 V c n h = Pipeline.ΦA spec2 c := by
  subst hz; rfl

theorem PhiS2_succ (c : Dev nD) (n : ℕ) (hn : n < cfg2.N) :
    PhiS2 V c (n + 1) hn = iprop(iprop(iprop(owns (c : Thread nD τ) scM2_0 fullShare (outsAt2 V c n hn).2.2.2.1 ∗ owns (c : Thread nD τ) scM2_1 fullShare (outsAt2 V c n hn).2.2.2.2) ∗ Pipeline.scopedRestBut (Ix := Unit) (Name := ℕ) (U := UR sig nD τ) (Lvl := ℕ) (Val := Elt F) spec2 c [cc2_scratch0, cc2_scratch1]) ∗ (∃ r, prngReg c r)) := rfl

theorem PhiS2_pos (c : Dev nD) (n : ℕ) (h : n ≤ cfg2.N) (hz : n ≠ 0) :
    PhiS2 V c n h = iprop(iprop(iprop(owns (c : Thread nD τ) scM2_0 fullShare (outsAt2 V c (n - 1) (by omega)).2.2.2.1 ∗ owns (c : Thread nD τ) scM2_1 fullShare (outsAt2 V c (n - 1) (by omega)).2.2.2.2) ∗ Pipeline.scopedRestBut (Ix := Unit) (Name := ℕ) (U := UR sig nD τ) (Lvl := ℕ) (Val := Elt F) spec2 c [cc2_scratch0, cc2_scratch1]) ∗ (∃ r, prngReg c r)) := by
  cases n with
  | zero => exact absurd rfl hz
  | succ n => rfl

/-! ## The pipeline's proof data -/

/-- The proof data of region 2 on core `c`: the arrays as the region finds them; after the body at point `t` each input's buffer
    at its block and the outputs' at `outsAt2`; the invariant `PhiS2`; nothing owed; full shares. -/
def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => iblk2 V c 3 t
    | ⟨4, _⟩ => iblk2 V c 4 t
    | ⟨5, _⟩ => (outsAt2 V c t.val t.isLt).1
    | ⟨6, _⟩ => (outsAt2 V c t.val t.isLt).2.1
    | ⟨7, _⟩ => (outsAt2 V c t.val t.isLt).2.2.1
  Φ t := PhiS2 V c t.val (Nat.le_of_lt_succ t.isLt)
  q _ := fullShare
  owed _ := 0

theorem A_eq2 (c : Dev nD) (w : Fin cfg2.W) : (dat2 V c).A w = V c (Pipeline.arrRef spec2 w) := by
  dsimp only [dat2]

theorem PhiS2_castSucc (c : Dev nD) (t : Fin cfg2.N) :
    (dat2 V c).Φ t.castSucc = PhiS2 V c t.val (Nat.le_of_lt t.isLt) := by
  dsimp only [dat2]; simp only [Fin.coe_castSucc]

theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = iblk2 V c 2 t := by dsimp only [dat2]
theorem after2_3 (c : Dev nD) (t : Fin cfg2.N) : (dat2 V c).after 3 t = iblk2 V c 3 t := by dsimp only [dat2]
theorem after2_4 (c : Dev nD) (t : Fin cfg2.N) : (dat2 V c).after 4 t = iblk2 V c 4 t := by dsimp only [dat2]
theorem after2_5 (c : Dev nD) (t : Fin cfg2.N) : (dat2 V c).after 5 t = (outsAt2 V c t.val t.isLt).1 := by dsimp only [dat2]
theorem after2_6 (c : Dev nD) (t : Fin cfg2.N) : (dat2 V c).after 6 t = (outsAt2 V c t.val t.isLt).2.1 := by dsimp only [dat2]
theorem after2_7 (c : Dev nD) (t : Fin cfg2.N) : (dat2 V c).after 7 t = (outsAt2 V c t.val t.isLt).2.2.1 := by dsimp only [dat2]

theorem before2_0 (c : Dev nD) (t : Fin cfg2.N) (d) : (dat2 V c).before 0 t d = iblk2 V c 0 t :=
  before2_0_of V (dat2 V c) (A_eq2 V c 0) (after2_0 V c) t d
theorem before2_1 (c : Dev nD) (t : Fin cfg2.N) (d) : (dat2 V c).before 1 t d = iblk2 V c 1 t :=
  before2_1_of V (dat2 V c) (A_eq2 V c 1) (after2_1 V c) t d
theorem before2_2 (c : Dev nD) (t : Fin cfg2.N) (d) : (dat2 V c).before 2 t d = iblk2 V c 2 t :=
  before2_2_of V (dat2 V c) (A_eq2 V c 2) (after2_2 V c) t d
theorem before2_3 (c : Dev nD) (t : Fin cfg2.N) (d) : (dat2 V c).before 3 t d = iblk2 V c 3 t :=
  before2_3_of V (dat2 V c) (A_eq2 V c 3) (after2_3 V c) t d
theorem before2_4 (c : Dev nD) (t : Fin cfg2.N) (d) : (dat2 V c).before 4 t d = iblk2 V c 4 t :=
  before2_4_of V (dat2 V c) (A_eq2 V c 4) (after2_4 V c) t d

/-! ## The body obligation, at a generic point -/

def bodyPre2 (c : Dev nD) (t : Fin cfg2.N) : sProp 𝕄 :=
  iprop((dat2 V c).Φ t.castSucc ∗ (dat2 V c).owesAt () t.castSucc
    ∗ (∃ d, owns (c : Thread nD τ) (ms2_0 t) fullShare ((dat2 V c).before 0 t d))
    ∗ (∃ d, owns (c : Thread nD τ) (ms2_1 t) fullShare ((dat2 V c).before 1 t d))
    ∗ (∃ d, owns (c : Thread nD τ) (ms2_2 t) fullShare ((dat2 V c).before 2 t d))
    ∗ (∃ d, owns (c : Thread nD τ) (ms2_3 t) fullShare ((dat2 V c).before 3 t d))
    ∗ (∃ d, owns (c : Thread nD τ) (ms2_4 t) fullShare ((dat2 V c).before 4 t d))
    ∗ (∃ d, owns (c : Thread nD τ) (ms2_5 t) fullShare ((dat2 V c).before 5 t d))
    ∗ (∃ d, owns (c : Thread nD τ) (ms2_6 t) fullShare ((dat2 V c).before 6 t d))
    ∗ (∃ d, owns (c : Thread nD τ) (ms2_7 t) fullShare ((dat2 V c).before 7 t d)))

def bodyPost2 (c : Dev nD) (t : Fin cfg2.N) : sProp 𝕄 :=
  iprop((dat2 V c).Φ t.succ ∗ (dat2 V c).owesAt () t.succ
    ∗ (dat2 V c).leavesExact 0 t
    ∗ (dat2 V c).leavesExact 1 t
    ∗ (dat2 V c).leavesExact 2 t
    ∗ (dat2 V c).leavesExact 3 t
    ∗ (dat2 V c).leavesExact 4 t
    ∗ (dat2 V c).leavesExact 5 t
    ∗ (dat2 V c).leavesExact 6 t
    ∗ (dat2 V c).leavesExact 7 t)

set_option maxHeartbeats 8000000 in
/-- The body at any point. The inputs' memrefs hold their blocks; the closed forms of the two conditions say which case the point
    is in; the invariant hands the body the two running-sum rows (at anything at the first point, at what the point before left
    afterwards) and takes them back at this point's contents; the core owes nothing throughout. -/
theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1, before2_2, before2_3, before2_4]
  rw [show (dat2 V c).owesAt () t.succ = (dat2 V c).owesAt () t.castSucc from rfl]
  rw [show (dat2 V c).Φ t.succ = PhiS2 V c (t.val + 1) t.isLt from rfl, PhiS2_succ]
  have hN : t.val < 20 := lt_of_lt_of_eq t.isLt (show cfg2.N = 20 from N_2)
  by_cases h0 : t.val % 20 = 0
  · have h1 : ¬t.val % 20 = 19 := by omega
    have hz : t.val = 0 := by omega
    rw [show (dat2 V c).leavesExact 0 t = owns (c : Thread nD τ) (ms2_0 t) fullShare ((dat2 V c).after 0 t) from by
      unfold Dat.leavesExact; rw [liveAt2_0 t], after2_0]
    rw [show (dat2 V c).leavesExact 1 t = owns (c : Thread nD τ) (ms2_1 t) fullShare ((dat2 V c).after 1 t) from by
      unfold Dat.leavesExact; rw [liveAt2_1 t], after2_1]
    rw [show (dat2 V c).leavesExact 2 t = owns (c : Thread nD τ) (ms2_2 t) fullShare ((dat2 V c).after 2 t) from by
      unfold Dat.leavesExact; rw [liveAt2_2 t], after2_2]
    rw [show (dat2 V c).leavesExact 3 t = owns (c : Thread nD τ) (ms2_3 t) fullShare ((dat2 V c).after 3 t) from by
      unfold Dat.leavesExact; rw [liveAt2_3 t], after2_3]
    rw [show (dat2 V c).leavesExact 4 t = owns (c : Thread nD τ) (ms2_4 t) fullShare ((dat2 V c).after 4 t) from by
      unfold Dat.leavesExact; rw [liveAt2_4 t], after2_4]
    rw [show (dat2 V c).leavesExact 5 t = owns (c : Thread nD τ) (ms2_5 t) fullShare ((dat2 V c).after 5 t) from by
      unfold Dat.leavesExact; rw [liveAt2_5 t], after2_5]
    rw [Dat.leavesExact_idle (dat2 V c) 6 t (idleAt2_6 t (fun h => h1 ((hcond2_1 t).mp h))) (noFlush2_6 t (fun h => h1 ((hcond2_1 t).mp h)))]
    rw [Dat.leavesExact_idle (dat2 V c) 7 t (idleAt2_7 t (fun h => h1 ((hcond2_1 t).mp h))) (noFlush2_7 t (fun h => h1 ((hcond2_1 t).mp h)))]
    rw [outsAt2_A V c t h0 h1]
    unfold out2_A_5 sout2_A_0 sout2_A_1; (try dsimp only)
    rw [PhiS2_castSucc V c t, PhiS2_zero V c _ _ hz, PhiA2_eq]
    ·
      iintro ⟨⟨⟨⟨HS0, HS1⟩, HR⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩⟩
      iapply ((kernelRun2_A c (grid2.coords t) _ _ _ _ _ _ _ _ _ _ _ _ _ _ _ _ _ _ _ _ ((hcond2_0 t).mpr h0) (fun h => h1 ((hcond2_1 t).mp h)) (iblk2 V c 0 t) (iblk2 V c 1 t) (iblk2 V c 2 t) (iblk2 V c 3 t) (iblk2 V c 4 t)).2.2.2.2.2 _ _ Set.univ _)
      isplitl [H0]; · iexact H0
      isplitl [H1]; · iexact H1
      isplitl [H2]; · iexact H2
      isplitl [H3]; · iexact H3
      isplitl [H4]; · iexact H4
      isplitl [H5]; · iexists _; iexact H5
      isplitl [H6]; · iexact H6
      isplitl [H7]; · iexact H7
      isplitl [HS0]; · iexact HS0
      isplitl [HS1]; · iexact HS1
      iintro ⟨H0, H1, H2, H3, H4, ⟨%e5, H5⟩, H6, H7, ⟨%es0, HS0⟩, ⟨%es1, HS1⟩⟩
      isplitl [HS0 HS1 HR Hg]
      · isplitl [HS0 HS1 HR]
        · isplitl [HS0 HS1]
          · isplitl [HS0]
            · unfold owns; iexists _; isplitr
              swap; · iexact HS0
              ipureintro; exact View.read_writes_of_cover _ _ _ _ _ (scover2_A_0 c _ _ _ _ _ _ _ _ _ _ _ _ _ _ _ _ _ _ _ _ _ _ _ _ _ _ _ _)
            · unfold owns; iexists _; isplitr
              swap; · iexact HS1
              ipureintro; exact View.read_writes_of_cover _ _ _ _ _ (scover2_A_1 c _ _ _ _ _ _ _ _ _ _ _ _ _ _ _ _ _ _ _ _ _ _ _ _ _ _ _ _)
          iexact HR
        iexact Hg
      isplitl [Ho]; · iexact Ho
      isplitl [H0]; · iexact H0
      isplitl [H1]; · iexact H1
      isplitl [H2]; · iexact H2
      isplitl [H3]; · iexact H3
      isplitl [H4]; · iexact H4
      isplitl [H5]
      · unfold owns; iexists _; isplitr
        swap; · iexact H5
        ipureintro; exact View.read_writes_of_cover _ _ _ _ _ (cover2_A_5 c _ _ _ _ _ _ _ _ _ _ _ _ _ _ _ _ _ _ _ _ _ _ _ _ _ _ _ _)
      isplitl [H6]; · iexists _; iexact H6
      iexists _; iexact H7
  · have hz : t.val ≠ 0 := by omega
    by_cases h1 : t.val % 20 = 19
    ·
      rw [show (dat2 V c).leavesExact 0 t = owns (c : Thread nD τ) (ms2_0 t) fullShare ((dat2 V c).after 0 t) from by
        unfold Dat.leavesExact; rw [liveAt2_0 t], after2_0]
      rw [show (dat2 V c).leavesExact 1 t = owns (c : Thread nD τ) (ms2_1 t) fullShare ((dat2 V c).after 1 t) from by
        unfold Dat.leavesExact; rw [liveAt2_1 t], after2_1]
      rw [show (dat2 V c).leavesExact 2 t = owns (c : Thread nD τ) (ms2_2 t) fullShare ((dat2 V c).after 2 t) from by
        unfold Dat.leavesExact; rw [liveAt2_2 t], after2_2]
      rw [show (dat2 V c).leavesExact 3 t = owns (c : Thread nD τ) (ms2_3 t) fullShare ((dat2 V c).after 3 t) from by
        unfold Dat.leavesExact; rw [liveAt2_3 t], after2_3]
      rw [show (dat2 V c).leavesExact 4 t = owns (c : Thread nD τ) (ms2_4 t) fullShare ((dat2 V c).after 4 t) from by
        unfold Dat.leavesExact; rw [liveAt2_4 t], after2_4]
      rw [show (dat2 V c).leavesExact 5 t = owns (c : Thread nD τ) (ms2_5 t) fullShare ((dat2 V c).after 5 t) from by
        unfold Dat.leavesExact; rw [liveAt2_5 t], after2_5]
      rw [show (dat2 V c).leavesExact 6 t = owns (c : Thread nD τ) (ms2_6 t) fullShare ((dat2 V c).after 6 t) from by
        unfold Dat.leavesExact; rw [liveAt2_6_C t ((hcond2_1 t).mpr h1)], after2_6]
      rw [show (dat2 V c).leavesExact 7 t = owns (c : Thread nD τ) (ms2_7 t) fullShare ((dat2 V c).after 7 t) from by
        unfold Dat.leavesExact; rw [liveAt2_7_C t ((hcond2_1 t).mpr h1)], after2_7]
      rw [outsAt2_C V c t h0 h1]
      unfold out2_C_5 out2_C_6 out2_C_7 sout2_C_0 sout2_C_1; (try dsimp only)
      rw [PhiS2_castSucc V c t, PhiS2_pos V c _ _ hz]
      iintro ⟨⟨⟨⟨HS0, HS1⟩, HR⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩⟩
      iapply ((kernelRun2_C c (grid2.coords t) _ _ _ _ _ _ _ _ _ _ _ _ _ _ _ _ _ _ _ _ (fun h => h0 ((hcond2_0 t).mp h)) ((hcond2_1 t).mpr h1) (iblk2 V c 0 t) (iblk2 V c 1 t) (iblk2 V c 2 t) (iblk2 V c 3 t) (iblk2 V c 4 t) _ _).2.2.2.2.2 Set.univ _)
      isplitl [H0]; · iexact H0
      isplitl [H1]; · iexact H1
      isplitl [H2]; · iexact H2
      isplitl [H3]; · iexact H3
      isplitl [H4]; · iexact H4
      isplitl [H5]; · iexists _; iexact H5
      isplitl [H6]; · iexists _; iexact H6
      isplitl [H7]; · iexists _; iexact H7
      isplitl [HS0]; · iexact HS0
      isplitl [HS1]; · iexact HS1
      iintro ⟨H0, H1, H2, H3, H4, ⟨%e5, H5⟩, ⟨%e6, H6⟩, ⟨%e7, H7⟩, ⟨%es0, HS0⟩, ⟨%es1, HS1⟩⟩
      isplitl [HS0 HS1 HR Hg]
      · isplitl [HS0 HS1 HR]
        · isplitl [HS0 HS1]
          · isplitl [HS0]
            · unfold owns; iexists _; isplitr
              swap; · iexact HS0
              ipureintro; exact View.read_writes_of_cover _ _ _ _ _ (scover2_C_0 c _ _ _ _ _ _ _ _ _ _ _ _ _ _ _ _ _ _ _ _ _ _ _ _ _ _ _ _ _ _)
            · unfold owns; iexists _; isplitr
              swap; · iexact HS1
              ipureintro; exact View.read_writes_of_cover _ _ _ _ _ (scover2_C_1 c _ _ _ _ _ _ _ _ _ _ _ _ _ _ _ _ _ _ _ _ _ _ _ _ _ _ _ _ _ _)
          iexact HR
        iexact Hg
      isplitl [Ho]; · iexact Ho
      isplitl [H0]; · iexact H0
      isplitl [H1]; · iexact H1
      isplitl [H2]; · iexact H2
      isplitl [H3]; · iexact H3
      isplitl [H4]; · iexact H4
      isplitl [H5]
      · unfold owns; iexists _; isplitr
        swap; · iexact H5
        ipureintro; exact View.read_writes_of_cover _ _ _ _ _ (cover2_C_5 c _ _ _ _ _ _ _ _ _ _ _ _ _ _ _ _ _ _ _ _ _ _ _ _ _ _ _ _ _ _)
      isplitl [H6]
      · unfold owns; iexists _; isplitr
        swap; · iexact H6
        ipureintro; exact View.read_writes_of_cover _ _ _ _ _ (cover2_C_6 c _ _ _ _ _ _ _ _ _ _ _ _ _ _ _ _ _ _ _ _ _ _ _ _ _ _ _ _ _ _)
      · unfold owns; iexists _; isplitr
        swap; · iexact H7
        ipureintro; exact View.read_writes_of_cover _ _ _ _ _ (cover2_C_7 c _ _ _ _ _ _ _ _ _ _ _ _ _ _ _ _ _ _ _ _ _ _ _ _ _ _ _ _ _ _)
    ·
      rw [show (dat2 V c).leavesExact 0 t = owns (c : Thread nD τ) (ms2_0 t) fullShare ((dat2 V c).after 0 t) from by
        unfold Dat.leavesExact; rw [liveAt2_0 t], after2_0]
      rw [show (dat2 V c).leavesExact 1 t = owns (c : Thread nD τ) (ms2_1 t) fullShare ((dat2 V c).after 1 t) from by
        unfold Dat.leavesExact; rw [liveAt2_1 t], after2_1]
      rw [show (dat2 V c).leavesExact 2 t = owns (c : Thread nD τ) (ms2_2 t) fullShare ((dat2 V c).after 2 t) from by
        unfold Dat.leavesExact; rw [liveAt2_2 t], after2_2]
      rw [show (dat2 V c).leavesExact 3 t = owns (c : Thread nD τ) (ms2_3 t) fullShare ((dat2 V c).after 3 t) from by
        unfold Dat.leavesExact; rw [liveAt2_3 t], after2_3]
      rw [show (dat2 V c).leavesExact 4 t = owns (c : Thread nD τ) (ms2_4 t) fullShare ((dat2 V c).after 4 t) from by
        unfold Dat.leavesExact; rw [liveAt2_4 t], after2_4]
      rw [show (dat2 V c).leavesExact 5 t = owns (c : Thread nD τ) (ms2_5 t) fullShare ((dat2 V c).after 5 t) from by
        unfold Dat.leavesExact; rw [liveAt2_5 t], after2_5]
      rw [Dat.leavesExact_idle (dat2 V c) 6 t (idleAt2_6 t (fun h => h1 ((hcond2_1 t).mp h))) (noFlush2_6 t (fun h => h1 ((hcond2_1 t).mp h)))]
      rw [Dat.leavesExact_idle (dat2 V c) 7 t (idleAt2_7 t (fun h => h1 ((hcond2_1 t).mp h))) (noFlush2_7 t (fun h => h1 ((hcond2_1 t).mp h)))]
      rw [outsAt2_B V c t h0 h1]
      unfold out2_B_5 sout2_B_0 sout2_B_1; (try dsimp only)
      rw [PhiS2_castSucc V c t, PhiS2_pos V c _ _ hz]
      iintro ⟨⟨⟨⟨HS0, HS1⟩, HR⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩⟩
      iapply ((kernelRun2_B c (grid2.coords t) _ _ _ _ _ _ _ _ _ _ _ _ _ _ _ _ _ _ _ _ (fun h => h0 ((hcond2_0 t).mp h)) (fun h => h1 ((hcond2_1 t).mp h)) (iblk2 V c 0 t) (iblk2 V c 1 t) (iblk2 V c 2 t) (iblk2 V c 3 t) (iblk2 V c 4 t) _ _).2.2.2.2.2 _ _ Set.univ _)
      isplitl [H0]; · iexact H0
      isplitl [H1]; · iexact H1
      isplitl [H2]; · iexact H2
      isplitl [H3]; · iexact H3
      isplitl [H4]; · iexact H4
      isplitl [H5]; · iexists _; iexact H5
      isplitl [H6]; · iexact H6
      isplitl [H7]; · iexact H7
      isplitl [HS0]; · iexact HS0
      isplitl [HS1]; · iexact HS1
      iintro ⟨H0, H1, H2, H3, H4, ⟨%e5, H5⟩, H6, H7, ⟨%es0, HS0⟩, ⟨%es1, HS1⟩⟩
      isplitl [HS0 HS1 HR Hg]
      · isplitl [HS0 HS1 HR]
        · isplitl [HS0 HS1]
          · isplitl [HS0]
            · unfold owns; iexists _; isplitr
              swap; · iexact HS0
              ipureintro; exact View.read_writes_of_cover _ _ _ _ _ (scover2_B_0 c _ _ _ _ _ _ _ _ _ _ _ _ _ _ _ _ _ _ _ _ _ _ _ _ _ _ _ _ _ _)
            · unfold owns; iexists _; isplitr
              swap; · iexact HS1
              ipureintro; exact View.read_writes_of_cover _ _ _ _ _ (scover2_B_1 c _ _ _ _ _ _ _ _ _ _ _ _ _ _ _ _ _ _ _ _ _ _ _ _ _ _ _ _ _ _)
          iexact HR
        iexact Hg
      isplitl [Ho]; · iexact Ho
      isplitl [H0]; · iexact H0
      isplitl [H1]; · iexact H1
      isplitl [H2]; · iexact H2
      isplitl [H3]; · iexact H3
      isplitl [H4]; · iexact H4
      isplitl [H5]
      · unfold owns; iexists _; isplitr
        swap; · iexact H5
        ipureintro; exact View.read_writes_of_cover _ _ _ _ _ (cover2_B_5 c _ _ _ _ _ _ _ _ _ _ _ _ _ _ _ _ _ _ _ _ _ _ _ _ _ _ _ _ _ _)
      isplitl [H6]; · iexists _; iexact H6
      iexists _; iexact H7

/-- The library's body obligation, at every point. -/
theorem body_obligation2 (c : Dev nD) : BodyObligation (dat2 (F := F) V c) (defs₀ (F := F)) Variants.none () Set.univ := fun t => by
  rw [bigSep_W2, bigSep_W2]
  exact sound_body2 V c t

/-- What the launch hands the region is the invariant before the first point. -/
theorem hin2 (c : Dev nD) : Pipeline.ΦA spec2 c ⊢ (dat2 V c).Φ 0 := by
  rw [show (dat2 V c).Φ 0 = PhiS2 V c 0 (Nat.zero_le _) from rfl, PhiS2_zero V c 0 _ rfl]
  try exact Idealize.SL.BI.Entails.refl _

/-- After the last point the invariant gives the class's back: the rows' named contents are forgotten. -/
theorem hout2 (c : Dev nD) : (dat2 V c).Φ (Fin.last cfg2.N) ⊢ Pipeline.ΦA spec2 c := by
  have ht : (Fin.last cfg2.N).val ≠ 0 := by rw [Fin.val_last]; have : cfg2.N = 20 := N_2; omega
  rw [show (dat2 V c).Φ (Fin.last cfg2.N) = PhiS2 V c (Fin.last cfg2.N).val (Nat.le_of_lt_succ (Fin.last cfg2.N).isLt) from rfl, PhiS2_pos V c _ _ ht, PhiA2_eq]
  iintro ⟨⟨⟨HS0, HS1⟩, HR⟩, Hg⟩
  isplitl [HS0 HS1 HR]
  · isplitl [HS0 HS1]
    · isplitl [HS0]
      · iexists _; iexact HS0
      · iexists _; iexact HS1
    iexact HR
  iexact Hg

end Region2

end Cert.KernelIdeal.Hand

end
-- ==== Proof.KiBn3.lean ====
import proofs.«160011_j2121713844488_1_alg».proof.Proof.Gen.KernelIdeal.Launch
import proofs.«160011_j2121713844488_1_alg».proof.Proof.Gen.KernelIdeal.Skeleton
import proofs.«160011_j2121713844488_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

/-! # The normalisation region 3: what one grid point's body does to its staging buffers

Region 3 normalises a 100000 × 128 array in 20 blocks of 5000 rows. At a point the body reads the
block of window 0 and four 1 × 128 rows (windows 1 to 4: the mean, the variance, the scale and the
shift, the same row at every point), and writes the whole 5000 × 128 block of window 5: every entry is
(x − mean) · rsqrt(variance + ε) · scale + shift, with the row operands repeated down the rows. The
body keeps nothing between points and leaves its inputs as it found them.

Everything is stated at a parameter `V`, the contents of the core's buffers when the region is
entered, and at any float instance. -/

-- membership of an index in a rectangle with 5000 rows is checked structurally, once per coordinate
set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the contents of the core's buffers when the region is entered
variable (V : (c : Dev nD) → (b : Ref sig .tc) → Buf (Elt F) ((c : Thread nD τ).loc b))

/-! ## The windows' blocks -/

/-- Window `w`'s block at point `t`, read off the window's array as the region finds it. -/
def iblk3 (c : Dev nD) (w : Fin cfg3.W) (t : Fin cfg3.N) : ((cfg3.win w).xblock (cfg3.grid.coords t)).Idx → Elt F (cfg3.win w).elt :=
  ((cfg3.win w).blk t).view.read (Elt F) (V c (Pipeline.arrRef spec3 w))

/-- Input window 0's staging buffer holds the window's block at every point, whether the pipeline fetched
    it there or not (an unfetched window's block index has not moved), for any proof data whose array is the
    entry contents and whose body leaves the block in place. -/
theorem before3_0_of {c : Dev nD} (dat : Dat τ (Elt F) Unit ℕ (UR sig nD τ) ℕ cfg3 c) (hA : dat.A 0 = V c (Pipeline.arrRef spec3 0))
    (hafter : ∀ t, dat.after 0 t = iblk3 V c 0 t) (t : Fin cfg3.N) (d) : dat.before 0 t d = iblk3 V c 0 t :=
  (dat.before_in_eq_fetched 0 rfl (fun _ => rfl) (fun _ _ _ => rfl) (fun t => by rw [hafter]; unfold Dat.blockOf iblk3; rw [hA]; try rfl) t d).trans
    (by unfold Dat.fetched Dat.blockOf iblk3; rw [hA]; try rfl)
/-- Input window 1's staging buffer holds the window's block at every point, whether the pipeline fetched
    it there or not (an unfetched window's block index has not moved), for any proof data whose array is the
    entry contents and whose body leaves the block in place. -/
theorem before3_1_of {c : Dev nD} (dat : Dat τ (Elt F) Unit ℕ (UR sig nD τ) ℕ cfg3 c) (hA : dat.A 1 = V c (Pipeline.arrRef spec3 1))
    (hafter : ∀ t, dat.after 1 t = iblk3 V c 1 t) (t : Fin cfg3.N) (d) : dat.before 1 t d = iblk3 V c 1 t :=
  (dat.before_in_eq_fetched 1 rfl (fun _ => rfl) (fun _ _ _ => rfl) (fun t => by rw [hafter]; unfold Dat.blockOf iblk3; rw [hA]; try rfl) t d).trans
    (by unfold Dat.fetched Dat.blockOf iblk3; rw [hA]; try rfl)
/-- Input window 2's staging buffer holds the window's block at every point, whether the pipeline fetched
    it there or not (an unfetched window's block index has not moved), for any proof data whose array is the
    entry contents and whose body leaves the block in place. -/
theorem before3_2_of {c : Dev nD} (dat : Dat τ (Elt F) Unit ℕ (UR sig nD τ) ℕ cfg3 c) (hA : dat.A 2 = V c (Pipeline.arrRef spec3 2))
    (hafter : ∀ t, dat.after 2 t = iblk3 V c 2 t) (t : Fin cfg3.N) (d) : dat.before 2 t d = iblk3 V c 2 t :=
  (dat.before_in_eq_fetched 2 rfl (fun _ => rfl) (fun _ _ _ => rfl) (fun t => by rw [hafter]; unfold Dat.blockOf iblk3; rw [hA]; try rfl) t d).trans
    (by unfold Dat.fetched Dat.blockOf iblk3; rw [hA]; try rfl)
/-- Input window 3's staging buffer holds the window's block at every point, whether the pipeline fetched
    it there or not (an unfetched window's block index has not moved), for any proof data whose array is the
    entry contents and whose body leaves the block in place. -/
theorem before3_3_of {c : Dev nD} (dat : Dat τ (Elt F) Unit ℕ (UR sig nD τ) ℕ cfg3 c) (hA : dat.A 3 = V c (Pipeline.arrRef spec3 3))
    (hafter : ∀ t, dat.after 3 t = iblk3 V c 3 t) (t : Fin cfg3.N) (d) : dat.before 3 t d = iblk3 V c 3 t :=
  (dat.before_in_eq_fetched 3 rfl (fun _ => rfl) (fun _ _ _ => rfl) (fun t => by rw [hafter]; unfold Dat.blockOf iblk3; rw [hA]; try rfl) t d).trans
    (by unfold Dat.fetched Dat.blockOf iblk3; rw [hA]; try rfl)
/-- Input window 4's staging buffer holds the window's block at every point, whether the pipeline fetched
    it there or not (an unfetched window's block index has not moved), for any proof data whose array is the
    entry contents and whose body leaves the block in place. -/
theorem before3_4_of {c : Dev nD} (dat : Dat τ (Elt F) Unit ℕ (UR sig nD τ) ℕ cfg3 c) (hA : dat.A 4 = V c (Pipeline.arrRef spec3 4))
    (hafter : ∀ t, dat.after 4 t = iblk3 V c 4 t) (t : Fin cfg3.N) (d) : dat.before 4 t d = iblk3 V c 4 t :=
  (dat.before_in_eq_fetched 4 rfl (fun _ => rfl) (fun _ _ _ => rfl) (fun t => by rw [hafter]; unfold Dat.blockOf iblk3; rw [hA]; try rfl) t d).trans
    (by unfold Dat.fetched Dat.blockOf iblk3; rw [hA]; try rfl)

/-! ## The body's accesses: every load and the one store go through the whole buffer -/

abbrev r3_0 : Rect S5000x128 := Rect.unit (s := S5000x128) ![0, 0] S5000x128.size inb_S5000x128_S5000x128_0_0
abbrev r3_1 : Rect S1x128 := Rect.unit (s := S1x128) ![0, 0] S1x128.size inb_S1x128_S1x128_0_0

/-! ## What the body leaves in the output window's buffer -/

/-- Window 5's staging buffer after the body, from the input windows' blocks: its one store, of the
    normalised block (the variance row is the payload's first operand, the data block its second). -/
def out3_5 (x0 : Vec F S5000x128 .f32) (x1 : Vec F S1x128 .f32) (x2 : Vec F S1x128 .f32) (x3 : Vec F S1x128 .f32) (x4 : Vec F S1x128 .f32) : Vec F S5000x128 .f32 :=
  View.canon [⟨r3_0, k3_pay1 (View.ld x2 r3_1) (View.ld x0 r3_0) (View.ld x1 r3_1) (View.ld x3 r3_1) (View.ld x4 r3_1)⟩]

/-- The one store is of the whole block, so it covers the buffer. -/
theorem cover3_5 (p0 : Vec F S5000x128 .f32) (y : S5000x128.Idx) :
    ∃ pc ∈ ([⟨r3_0, p0⟩] : List (View.Piece (Elt F) S5000x128 .f32)), y ∈ pc.1.set :=
  View.cover_of_tiled [⟨r3_0, p0⟩] S5000x128.size (by rfl) y

/-! ## The body's triple -/

set_option maxHeartbeats 1000000 in
/-- The body on whole staging buffers — the inputs' reading `x0 … x4`, the output's holding anything —
    runs to the continuation with the inputs' as they were and the output's at `out3_5` of the inputs.
    The body also loads the output's buffer once, before it stores it; the value is not used. -/
theorem sound_kernel3 (c : Dev nD) (E : Set ℕ) (i : grid3.Coords) (arg0 : Memref sig .tc .vmem S5000x128 .f32) (harg0 : arg0.IsWhole) (arg1 : Memref sig .tc .vmem S1x128 .f32) (harg1 : arg1.IsWhole) (arg2 : Memref sig .tc .vmem S1x128 .f32) (harg2 : arg2.IsWhole) (arg3 : Memref sig .tc .vmem S1x128 .f32) (harg3 : arg3.IsWhole) (arg4 : Memref sig .tc .vmem S1x128 .f32) (harg4 : arg4.IsWhole) (arg5 : Memref sig .tc .vmem S5000x128 .f32) (harg5 : arg5.IsWhole)
    (x0 : Vec F S5000x128 .f32) (x1 : Vec F S1x128 .f32) (x2 : Vec F S1x128 .f32) (x3 : Vec F S1x128 .f32) (x4 : Vec F S1x128 .f32) (K : PUnit → sProp 𝕄) :
    iprop(owns (c : Thread nD τ) arg0 fullShare x0 ∗ owns (c : Thread nD τ) arg1 fullShare x1 ∗ owns (c : Thread nD τ) arg2 fullShare x2 ∗ owns (c : Thread nD τ) arg3 fullShare x3 ∗ owns (c : Thread nD τ) arg4 fullShare x4 ∗ (∃ d, owns (c : Thread nD τ) arg5 fullShare d)
        ∗ (iprop(owns (c : Thread nD τ) arg0 fullShare x0 ∗ owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare (out3_5 x0 x1 x2 x3 x4)) -∗ K ⟨⟩))
      ⊢ wp frame (wpE (defs₀ (F := F)) Variants.none c none) E (cc3__bn_kernel i arg0 harg0 arg1 harg1 arg2 harg2 arg3 harg3 arg4 harg4 arg5 harg5) K := by
  simp only [cc3__bn_kernel_eq_skeleton]; unfold cc3__bn_kernel_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, Hk⟩
  subst hf0 hf1 hf2 hf3 hf4
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  iexists _; isplitr
  swap; · iexact H5
  ipureintro
  exact View.read_writes_eq_canon _ _ _ (cover3_5 _)

/-! ## The pipeline's proof data -/

/-- The proof data of pipeline 3 on core `c`: the arrays as the region finds them; after the body at
    point `t` each input's buffer at its block and the output's at `out3_5` of the input blocks; the
    invariant is the scoped rest and the generator register, untouched; nothing owed; full shares. -/
def dat3 (c : Dev nD) : Dat τ (Elt F) Unit ℕ (UR sig nD τ) ℕ cfg3 c where
  A w := V c (Pipeline.arrRef spec3 w)
  after w t := match w with
    | ⟨0, _⟩ => iblk3 V c 0 t
    | ⟨1, _⟩ => iblk3 V c 1 t
    | ⟨2, _⟩ => iblk3 V c 2 t
    | ⟨3, _⟩ => iblk3 V c 3 t
    | ⟨4, _⟩ => iblk3 V c 4 t
    | ⟨5, _⟩ => out3_5 (iblk3 V c 0 t) (iblk3 V c 1 t) (iblk3 V c 2 t) (iblk3 V c 3 t) (iblk3 V c 4 t)
  Φ _ := Pipeline.ΦA spec3 c
  q _ := fullShare
  owed _ := 0

/-- The proof data's arrays are the region-entry contents. -/
theorem A_eq3 (c : Dev nD) (w : Fin cfg3.W) : (dat3 V c).A w = V c (Pipeline.arrRef spec3 w) := by
  dsimp only [dat3]

/-- What the body leaves, window by window. -/
theorem after3_0 (c : Dev nD) (t : Fin cfg3.N) : (dat3 V c).after 0 t = iblk3 V c 0 t := by dsimp only [dat3]
theorem after3_1 (c : Dev nD) (t : Fin cfg3.N) : (dat3 V c).after 1 t = iblk3 V c 1 t := by dsimp only [dat3]
theorem after3_2 (c : Dev nD) (t : Fin cfg3.N) : (dat3 V c).after 2 t = iblk3 V c 2 t := by dsimp only [dat3]
theorem after3_3 (c : Dev nD) (t : Fin cfg3.N) : (dat3 V c).after 3 t = iblk3 V c 3 t := by dsimp only [dat3]
theorem after3_4 (c : Dev nD) (t : Fin cfg3.N) : (dat3 V c).after 4 t = iblk3 V c 4 t := by dsimp only [dat3]
theorem after3_5 (c : Dev nD) (t : Fin cfg3.N) : (dat3 V c).after 5 t = out3_5 (iblk3 V c 0 t) (iblk3 V c 1 t) (iblk3 V c 2 t) (iblk3 V c 3 t) (iblk3 V c 4 t) := by dsimp only [dat3]

/-- Each input's staging buffer holds its block at every point, fetched there or not. -/
theorem before3_0 (c : Dev nD) (t : Fin cfg3.N) (d) : (dat3 V c).before 0 t d = iblk3 V c 0 t :=
  before3_0_of V (dat3 V c) (A_eq3 V c 0) (after3_0 V c) t d
theorem before3_1 (c : Dev nD) (t : Fin cfg3.N) (d) : (dat3 V c).before 1 t d = iblk3 V c 1 t :=
  before3_1_of V (dat3 V c) (A_eq3 V c 1) (after3_1 V c) t d
theorem before3_2 (c : Dev nD) (t : Fin cfg3.N) (d) : (dat3 V c).before 2 t d = iblk3 V c 2 t :=
  before3_2_of V (dat3 V c) (A_eq3 V c 2) (after3_2 V c) t d
theorem before3_3 (c : Dev nD) (t : Fin cfg3.N) (d) : (dat3 V c).before 3 t d = iblk3 V c 3 t :=
  before3_3_of V (dat3 V c) (A_eq3 V c 3) (after3_3 V c) t d
theorem before3_4 (c : Dev nD) (t : Fin cfg3.N) (d) : (dat3 V c).before 4 t d = iblk3 V c 4 t :=
  before3_4_of V (dat3 V c) (A_eq3 V c 4) (after3_4 V c) t d

/-! ## The body obligation, at a generic point -/

/-- What the body is called with at point `t`, the windows one by one, -/
def bodyPre3 (c : Dev nD) (t : Fin cfg3.N) : sProp 𝕄 :=
  iprop((dat3 V c).Φ t.castSucc ∗ (dat3 V c).owesAt () t.castSucc
    ∗ (∃ d, owns (c : Thread nD τ) (st3_0 t) fullShare ((dat3 V c).before 0 t d))
    ∗ (∃ d, owns (c : Thread nD τ) (st3_1 t) fullShare ((dat3 V c).before 1 t d))
    ∗ (∃ d, owns (c : Thread nD τ) (st3_2 t) fullShare ((dat3 V c).before 2 t d))
    ∗ (∃ d, owns (c : Thread nD τ) (st3_3 t) fullShare ((dat3 V c).before 3 t d))
    ∗ (∃ d, owns (c : Thread nD τ) (st3_4 t) fullShare ((dat3 V c).before 4 t d))
    ∗ (∃ d, owns (c : Thread nD τ) (st3_5 t) fullShare ((dat3 V c).before 5 t d)))

/-- and what it returns. -/
def bodyPost3 (c : Dev nD) (t : Fin cfg3.N) : sProp 𝕄 :=
  iprop((dat3 V c).Φ t.succ ∗ (dat3 V c).owesAt () t.succ
    ∗ owns (c : Thread nD τ) (st3_0 t) fullShare ((dat3 V c).after 0 t)
    ∗ owns (c : Thread nD τ) (st3_1 t) fullShare ((dat3 V c).after 1 t)
    ∗ owns (c : Thread nD τ) (st3_2 t) fullShare ((dat3 V c).after 2 t)
    ∗ owns (c : Thread nD τ) (st3_3 t) fullShare ((dat3 V c).after 3 t)
    ∗ owns (c : Thread nD τ) (st3_4 t) fullShare ((dat3 V c).after 4 t)
    ∗ owns (c : Thread nD τ) (st3_5 t) fullShare ((dat3 V c).after 5 t))

/-- The body at any point: the inputs' buffers hold their blocks, so `sound_kernel3` applies; the
    invariant and the core's owed transfers pass through unread. -/
theorem sound_body3 (c : Dev nD) (t : Fin cfg3.N) :
    bodyPre3 V c t ⊢ wp frame (wpE (defs₀ (F := F)) Variants.none c none) Set.univ (bodyAt3 t) (fun _ => bodyPost3 V c t) := by
  unfold bodyPre3 bodyPost3 bodyAt3
  simp only [before3_0, before3_1, before3_2, before3_3, before3_4]
  rw [show (dat3 V c).Φ t.succ = (dat3 V c).Φ t.castSucc from rfl,
    show (dat3 V c).owesAt () t.succ = (dat3 V c).owesAt () t.castSucc from rfl,
    after3_0, after3_1, after3_2, after3_3, after3_4, after3_5]
  iintro ⟨HΦ, Ho, ⟨%d0, H0⟩, ⟨%d1, H1⟩, ⟨%d2, H2⟩, ⟨%d3, H3⟩, ⟨%d4, H4⟩, ⟨%d5, H5⟩⟩
  iapply (sound_kernel3 c Set.univ _ _ _ _ _ _ _ _ _ _ _ _ _ (iblk3 V c 0 t) (iblk3 V c 1 t) (iblk3 V c 2 t) (iblk3 V c 3 t) (iblk3 V c 4 t) _)
  isplitl [H0]; · iexact H0
  isplitl [H1]; · iexact H1
  isplitl [H2]; · iexact H2
  isplitl [H3]; · iexact H3
  isplitl [H4]; · iexact H4
  isplitl [H5]; · iexists _; iexact H5
  iintro ⟨H0, H1, H2, H3, H4, H5⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  iexact H5

/-- The library's body obligation, at every point. -/
theorem body_obligation3 (c : Dev nD) : BodyObligation (dat3 (F := F) V c) (defs₀ (F := F)) Variants.none () Set.univ := fun t => by
  rw [bigSep_W3, bigSep_W3]
  exact sound_body3 V c t

end Cert.KernelIdeal.Hand

end
-- ==== Proof.KiMlp4Runs.lean ====
/-
  Region 4 (layer 3's two-layer perceptron with running column sums): what its three control cases share.
  The body branches twice on the grid position: at the first point it zeroes the two running-sum scratch rows, at the
  last point it copies them into the two [1,128] outputs; in between it only adds the block's column sums of z and of z².
  Here: each window's block as read off the array the region finds, the two conditions decided over the 20 points,
  where the two [1,128] outputs are idle, and the staging and scratch memrefs the body is run on.
-/
import proofs.«160011_j2121713844488_1_alg».proof.Proof.Gen.KernelIdeal.Launch
import proofs.«160011_j2121713844488_1_alg».proof.Proof.Gen.KernelIdeal.Skeleton
import proofs.«160011_j2121713844488_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Region4

variable (V : (c : Dev nD) → (b : Ref sig .tc) → Buf (Elt F) ((c : Thread nD τ).loc b))

/-- Window `w`'s block at point `t`, read off its array as the region finds it. -/
def iblk4 (c : Dev nD) (w : Fin cfg4.W) (t : Fin cfg4.N) : ((cfg4.win w).xblock (cfg4.grid.coords t)).Idx → Elt F (cfg4.win w).elt :=
  ((cfg4.win w).blk t).view.read (Elt F) (V c (Pipeline.arrRef spec4 w))

/-- Input window 0's staging buffer holds its block at every point, fetched there or not. -/
theorem before4_0_of {c : Dev nD} (dat : Dat τ (Elt F) Unit ℕ (UR sig nD τ) ℕ cfg4 c) (hA : dat.A 0 = V c (Pipeline.arrRef spec4 0))
    (hafter : ∀ t, dat.after 0 t = iblk4 V c 0 t) (t : Fin cfg4.N) (d) : dat.before 0 t d = iblk4 V c 0 t :=
  (dat.before_in_eq_fetched 0 rfl (fun _ => rfl) (fun _ _ _ => rfl) (fun t => by rw [hafter]; unfold Dat.blockOf iblk4; rw [hA]; try rfl) t d).trans
    (by unfold Dat.fetched Dat.blockOf iblk4; rw [hA]; try rfl)

/-- Input window 1's staging buffer holds its block at every point, fetched there or not. -/
theorem before4_1_of {c : Dev nD} (dat : Dat τ (Elt F) Unit ℕ (UR sig nD τ) ℕ cfg4 c) (hA : dat.A 1 = V c (Pipeline.arrRef spec4 1))
    (hafter : ∀ t, dat.after 1 t = iblk4 V c 1 t) (t : Fin cfg4.N) (d) : dat.before 1 t d = iblk4 V c 1 t :=
  (dat.before_in_eq_fetched 1 rfl (fun _ => rfl) (fun _ _ _ => rfl) (fun t => by rw [hafter]; unfold Dat.blockOf iblk4; rw [hA]; try rfl) t d).trans
    (by unfold Dat.fetched Dat.blockOf iblk4; rw [hA]; try rfl)

/-- Input window 2's staging buffer holds its block at every point, fetched there or not. -/
theorem before4_2_of {c : Dev nD} (dat : Dat τ (Elt F) Unit ℕ (UR sig nD τ) ℕ cfg4 c) (hA : dat.A 2 = V c (Pipeline.arrRef spec4 2))
    (hafter : ∀ t, dat.after 2 t = iblk4 V c 2 t) (t : Fin cfg4.N) (d) : dat.before 2 t d = iblk4 V c 2 t :=
  (dat.before_in_eq_fetched 2 rfl (fun _ => rfl) (fun _ _ _ => rfl) (fun t => by rw [hafter]; unfold Dat.blockOf iblk4; rw [hA]; try rfl) t d).trans
    (by unfold Dat.fetched Dat.blockOf iblk4; rw [hA]; try rfl)

/-- Input window 3's staging buffer holds its block at every point, fetched there or not. -/
theorem before4_3_of {c : Dev nD} (dat : Dat τ (Elt F) Unit ℕ (UR sig nD τ) ℕ cfg4 c) (hA : dat.A 3 = V c (Pipeline.arrRef spec4 3))
    (hafter : ∀ t, dat.after 3 t = iblk4 V c 3 t) (t : Fin cfg4.N) (d) : dat.before 3 t d = iblk4 V c 3 t :=
  (dat.before_in_eq_fetched 3 rfl (fun _ => rfl) (fun _ _ _ => rfl) (fun t => by rw [hafter]; unfold Dat.blockOf iblk4; rw [hA]; try rfl) t d).trans
    (by unfold Dat.fetched Dat.blockOf iblk4; rw [hA]; try rfl)

/-- Input window 4's staging buffer holds its block at every point, fetched there or not. -/
theorem before4_4_of {c : Dev nD} (dat : Dat τ (Elt F) Unit ℕ (UR sig nD τ) ℕ cfg4 c) (hA : dat.A 4 = V c (Pipeline.arrRef spec4 4))
    (hafter : ∀ t, dat.after 4 t = iblk4 V c 4 t) (t : Fin cfg4.N) (d) : dat.before 4 t d = iblk4 V c 4 t :=
  (dat.before_in_eq_fetched 4 rfl (fun _ => rfl) (fun _ _ _ => rfl) (fun t => by rw [hafter]; unfold Dat.blockOf iblk4; rw [hA]; try rfl) t d).trans
    (by unfold Dat.fetched Dat.blockOf iblk4; rw [hA]; try rfl)

end Region4

/-! ## The two branch conditions, decided over the grid -/

/-- "This is the first point": the condition under which the running sums are zeroed. -/
abbrev cond4_0 (i : grid4.Coords) : Prop := (Scalar.cmpi .ne (Scalar.extui (Scalar.cmpi .eq (BitVec.ofNat 32 (i 0).val) 0#32)) 0#32) = 1#1
theorem hcond4_0 : ∀ t : Fin cfg4.N, cond4_0 (grid4.coords t) ↔ t.val % 20 = 0 :=
  (by decide +kernel : ∀ t : Fin grid4.N, cond4_0 (grid4.coords t) ↔ t.val % 20 = 0)

/-- "This is the last point": the condition under which the running sums are copied out. -/
abbrev cond4_1 (i : grid4.Coords) : Prop := k4_cond2 i = 1#1
theorem hcond4_1 : ∀ t : Fin cfg4.N, cond4_1 (grid4.coords t) ↔ t.val % 20 = 19 :=
  (by decide +kernel : ∀ t : Fin grid4.N, cond4_1 (grid4.coords t) ↔ t.val % 20 = 19)

/-! ## Where the windows are idle -/

theorem liveAt4_0 : ∀ t : Fin cfg4.N, cfg4.idle 0 (grid4.coords t) = false := by decide +kernel
theorem liveAt4_1 : ∀ t : Fin cfg4.N, cfg4.idle 1 (grid4.coords t) = false := by decide +kernel
theorem liveAt4_2 : ∀ t : Fin cfg4.N, cfg4.idle 2 (grid4.coords t) = false := by decide +kernel
theorem liveAt4_3 : ∀ t : Fin cfg4.N, cfg4.idle 3 (grid4.coords t) = false := by decide +kernel
theorem liveAt4_4 : ∀ t : Fin cfg4.N, cfg4.idle 4 (grid4.coords t) = false := by decide +kernel
theorem liveAt4_5 : ∀ t : Fin cfg4.N, cfg4.idle 5 (grid4.coords t) = false := by decide +kernel
/-- Output 6 is stored only at the last point: idle, and not written back, at every other point. -/
theorem idleAt4_6 : ∀ t : Fin cfg4.N, ¬cond4_1 (grid4.coords t) → cfg4.idle 6 (grid4.coords t) = true := by decide +kernel
theorem noFlush4_6 : ∀ t : Fin cfg4.N, ¬cond4_1 (grid4.coords t) → (cfg4.win 6).flush t = false := by decide +kernel
theorem liveAt4_6_C : ∀ t : Fin cfg4.N, cond4_1 (grid4.coords t) → cfg4.idle 6 (grid4.coords t) = false := by decide +kernel
/-- Output 7 is stored only at the last point: idle, and not written back, at every other point. -/
theorem idleAt4_7 : ∀ t : Fin cfg4.N, ¬cond4_1 (grid4.coords t) → cfg4.idle 7 (grid4.coords t) = true := by decide +kernel
theorem noFlush4_7 : ∀ t : Fin cfg4.N, ¬cond4_1 (grid4.coords t) → (cfg4.win 7).flush t = false := by decide +kernel
theorem liveAt4_7_C : ∀ t : Fin cfg4.N, cond4_1 (grid4.coords t) → cfg4.idle 7 (grid4.coords t) = false := by decide +kernel

/-! ## The memrefs the body is run on -/

abbrev VO4_5 : View sig .tc .vmem S5000x128 .f32 := (Memref.whole cc4_stg5_0 : Memref sig .tc .vmem S5000x128 .f32).view
abbrev VO4_6 : View sig .tc .vmem S1x128 .f32 := (Memref.whole cc4_stg6_0 : Memref sig .tc .vmem S1x128 .f32).view
abbrev VO4_7 : View sig .tc .vmem S1x128 .f32 := (Memref.whole cc4_stg7_0 : Memref sig .tc .vmem S1x128 .f32).view
abbrev ms4_0 (t : Fin cfg4.N) : Memref sig .tc .vmem S5000x128 .f32 := win4_0.stage (cfg4.slots t 0)
abbrev hs4_0 (t : Fin cfg4.N) : (ms4_0 t).IsWhole := hstage4_0 ((cfg4.slots t 0).cast nbuf4_0)
abbrev ms4_1 (t : Fin cfg4.N) : Memref sig .tc .vmem S128x128 .f32 := win4_1.stage (cfg4.slots t 1)
abbrev hs4_1 (t : Fin cfg4.N) : (ms4_1 t).IsWhole := hstage4_1 ((cfg4.slots t 1).cast nbuf4_1)
abbrev ms4_2 (t : Fin cfg4.N) : Memref sig .tc .vmem S1x128 .f32 := win4_2.stage (cfg4.slots t 2)
abbrev hs4_2 (t : Fin cfg4.N) : (ms4_2 t).IsWhole := hstage4_2 ((cfg4.slots t 2).cast nbuf4_2)
abbrev ms4_3 (t : Fin cfg4.N) : Memref sig .tc .vmem S128x128 .f32 := win4_3.stage (cfg4.slots t 3)
abbrev hs4_3 (t : Fin cfg4.N) : (ms4_3 t).IsWhole := hstage4_3 ((cfg4.slots t 3).cast nbuf4_3)
abbrev ms4_4 (t : Fin cfg4.N) : Memref sig .tc .vmem S1x128 .f32 := win4_4.stage (cfg4.slots t 4)
abbrev hs4_4 (t : Fin cfg4.N) : (ms4_4 t).IsWhole := hstage4_4 ((cfg4.slots t 4).cast nbuf4_4)
abbrev ms4_5 (t : Fin cfg4.N) : Memref sig .tc .vmem S5000x128 .f32 := win4_5.stage (cfg4.slots t 5)
abbrev hs4_5 (t : Fin cfg4.N) : (ms4_5 t).IsWhole := hstage4_5 ((cfg4.slots t 5).cast nbuf4_5)
abbrev ms4_6 (t : Fin cfg4.N) : Memref sig .tc .vmem S1x128 .f32 := win4_6.stage (cfg4.slots t 6)
abbrev hs4_6 (t : Fin cfg4.N) : (ms4_6 t).IsWhole := hstage4_6 ((cfg4.slots t 6).cast nbuf4_6)
abbrev ms4_7 (t : Fin cfg4.N) : Memref sig .tc .vmem S1x128 .f32 := win4_7.stage (cfg4.slots t 7)
abbrev hs4_7 (t : Fin cfg4.N) : (ms4_7 t).IsWhole := hstage4_7 ((cfg4.slots t 7).cast nbuf4_7)
/-- The two running-sum rows: whole scoped buffers of the kernel's own. -/
abbrev scM4_0 : Memref sig .tc .vmem S1x128 .f32 := Memref.whole cc4_scratch0
abbrev scM4_1 : Memref sig .tc .vmem S1x128 .f32 := Memref.whole cc4_scratch1
abbrev VS4_0 : View sig .tc .vmem S1x128 .f32 := scM4_0.view
abbrev VS4_1 : View sig .tc .vmem S1x128 .f32 := scM4_1.view

/-- The class invariant with the two running-sum rows split out as memrefs owned at some contents; every other scoped
    buffer stays unopened. -/
theorem PhiA4_eq (c : Dev nD) :
    (Pipeline.ΦA spec4 c : sProp 𝕄)
      = iprop(iprop(iprop((∃ d, owns (c : Thread nD τ) scM4_0 fullShare d) ∗ (∃ d, owns (c : Thread nD τ) scM4_1 fullShare d))
          ∗ Pipeline.scopedRestBut (Ix := Unit) (Name := ℕ) (U := UR sig nD τ) (Lvl := ℕ) (Val := Elt F) spec4 c [cc4_scratch0, cc4_scratch1]) ∗ (∃ r, prngReg c r)) := by
  unfold Pipeline.ΦA; rw [scopedRest4_split]; simp only [scM4_0, scM4_1, owns_whole]; try rfl

end Cert.KernelIdeal.Hand

end
-- ==== Proof.KiMlp4RunA.lean ====
/-
  Region 4, control case A: the kernel body run once, symbolically, on whole staging memrefs.
-/
import proofs.«160011_j2121713844488_1_alg».proof.Proof.KiMlp4Runs

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- The body at the first point (the running sums are zeroed first, nothing is copied out): on whole staging memrefs — the five inputs at their blocks, the z output at anything,
    the two [1,128] outputs idle at whatever they hold, the two running-sum rows at anything — it runs to its
    continuation with the inputs as they were and each buffer it stored into with its pieces written; the pieces are the
    witness the run finds. -/
noncomputable def kernelRun4_A (c : Dev nD) (i : grid4.Coords) (arg1 : Memref sig .tc .vmem S5000x128 .f32) (harg1 : arg1.IsWhole) (arg2 : Memref sig .tc .vmem S128x128 .f32) (harg2 : arg2.IsWhole) (arg3 : Memref sig .tc .vmem S1x128 .f32) (harg3 : arg3.IsWhole) (arg4 : Memref sig .tc .vmem S128x128 .f32) (harg4 : arg4.IsWhole) (arg5 : Memref sig .tc .vmem S1x128 .f32) (harg5 : arg5.IsWhole) (arg6 : Memref sig .tc .vmem S5000x128 .f32) (harg6 : arg6.IsWhole) (arg7 : Memref sig .tc .vmem S1x128 .f32) (harg7 : arg7.IsWhole) (arg8 : Memref sig .tc .vmem S1x128 .f32) (harg8 : arg8.IsWhole) (arg9 : Memref sig .tc .vmem S1x128 .f32) (harg9 : arg9.IsWhole) (arg10 : Memref sig .tc .vmem S1x128 .f32) (harg10 : arg10.IsWhole) (hc0 : cond4_0 i) (hc1 : ¬cond4_1 i)
    (x0 : Vec F S5000x128 .f32) (x1 : Vec F S128x128 .f32) (x2 : Vec F S1x128 .f32) (x3 : Vec F S128x128 .f32) (x4 : Vec F S1x128 .f32) :
    Σ' (L5 : List (View.Piece (Elt F) S5000x128 .f32)) (L6 : List (View.Piece (Elt F) S1x128 .f32)) (L7 : List (View.Piece (Elt F) S1x128 .f32)) (LS0 : List (View.Piece (Elt F) S1x128 .f32)), { LS1 : List (View.Piece (Elt F) S1x128 .f32) //
      ∀ (xi6 : Vec F S1x128 .f32) (xi7 : Vec F S1x128 .f32) (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ (∃ d, owns (c : Thread nD τ) arg6 fullShare d) ∗ owns (c : Thread nD τ) arg7 fullShare xi6 ∗ owns (c : Thread nD τ) arg8 fullShare xi7 ∗ (∃ d, owns (c : Thread nD τ) arg9 fullShare d) ∗ (∃ d, owns (c : Thread nD τ) arg10 fullShare d)
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ (∃ f, arg6.view.loc (c : Thread nD τ) ↦[arg6.view.set]{fullShare} arg6.view.writes (Elt F) f L5) ∗ owns (c : Thread nD τ) arg7 fullShare xi6 ∗ owns (c : Thread nD τ) arg8 fullShare xi7 ∗ (∃ f, arg9.view.loc (c : Thread nD τ) ↦[arg9.view.set]{fullShare} arg9.view.writes (Elt F) f LS0) ∗ (∃ f, arg10.view.loc (c : Thread nD τ) ↦[arg10.view.set]{fullShare} arg10.view.writes (Elt F) f LS1)) -∗ K ⟨⟩))
          ⊢ wp frame (wpE (defs₀ (F := F)) Variants.none c none) E (cc4__mlp_stats_kernel i arg1 harg1 arg2 harg2 arg3 harg3 arg4 harg4 arg5 harg5 arg6 harg6 arg7 harg7 arg8 harg8 arg9 harg9 arg10 harg10) K } := by
  refine ⟨?_, [], [], ?_, ?_, fun xi6 xi7 E K => ?run⟩
  case run =>
    simp only [cc4__mlp_stats_kernel_eq_skeleton]; unfold cc4__mlp_stats_kernel_skel
    simp only [k4_part1_eq_skeleton]; unfold k4_part1_skel
    unfold owns
    iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%f6, %hf6, H6⟩, ⟨%f7, %hf7, H7⟩, ⟨%ds0, %fs0, -, HS0⟩, ⟨%ds1, %fs1, -, HS1⟩, Hk⟩
    obtain rfl := harg1.eq_unread hf0; obtain rfl := harg2.eq_unread hf1; obtain rfl := harg3.eq_unread hf2; obtain rfl := harg4.eq_unread hf3; obtain rfl := harg5.eq_unread hf4; obtain rfl := harg7.eq_unread hf6; obtain rfl := harg8.eq_unread hf7
    sl_exec (disch := first | exact hc0 | exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]; · iexists _; iexact H5
    isplitl [H6]
    · iexists _; isplitr; · ipureintro; exact harg7.read_unread _
      iexact H6
    isplitl [H7]
    · iexists _; isplitr; · ipureintro; exact harg8.read_unread _
      iexact H7
    isplitl [HS0]; · iexists _; iexact HS0
    iexists _; iexact HS1

end Cert.KernelIdeal.Hand

end
-- ==== Proof.KiMlp4RunB.lean ====
/-
  Region 4, control case B: the kernel body run once, symbolically, on whole staging memrefs.
-/
import proofs.«160011_j2121713844488_1_alg».proof.Proof.KiMlp4Runs

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- The body at a middle point (the running sums are only added to): on whole staging memrefs — the five inputs at their blocks, the z output at anything,
    the two [1,128] outputs idle at whatever they hold, the two running-sum rows at what the point before left — it runs to its
    continuation with the inputs as they were and each buffer it stored into with its pieces written; the pieces are the
    witness the run finds. -/
noncomputable def kernelRun4_B (c : Dev nD) (i : grid4.Coords) (arg1 : Memref sig .tc .vmem S5000x128 .f32) (harg1 : arg1.IsWhole) (arg2 : Memref sig .tc .vmem S128x128 .f32) (harg2 : arg2.IsWhole) (arg3 : Memref sig .tc .vmem S1x128 .f32) (harg3 : arg3.IsWhole) (arg4 : Memref sig .tc .vmem S128x128 .f32) (harg4 : arg4.IsWhole) (arg5 : Memref sig .tc .vmem S1x128 .f32) (harg5 : arg5.IsWhole) (arg6 : Memref sig .tc .vmem S5000x128 .f32) (harg6 : arg6.IsWhole) (arg7 : Memref sig .tc .vmem S1x128 .f32) (harg7 : arg7.IsWhole) (arg8 : Memref sig .tc .vmem S1x128 .f32) (harg8 : arg8.IsWhole) (arg9 : Memref sig .tc .vmem S1x128 .f32) (harg9 : arg9.IsWhole) (arg10 : Memref sig .tc .vmem S1x128 .f32) (harg10 : arg10.IsWhole) (hc0 : ¬cond4_0 i) (hc1 : ¬cond4_1 i)
    (x0 : Vec F S5000x128 .f32) (x1 : Vec F S128x128 .f32) (x2 : Vec F S1x128 .f32) (x3 : Vec F S128x128 .f32) (x4 : Vec F S1x128 .f32) (xs0 : Vec F S1x128 .f32) (xs1 : Vec F S1x128 .f32) :
    Σ' (L5 : List (View.Piece (Elt F) S5000x128 .f32)) (L6 : List (View.Piece (Elt F) S1x128 .f32)) (L7 : List (View.Piece (Elt F) S1x128 .f32)) (LS0 : List (View.Piece (Elt F) S1x128 .f32)), { LS1 : List (View.Piece (Elt F) S1x128 .f32) //
      ∀ (xi6 : Vec F S1x128 .f32) (xi7 : Vec F S1x128 .f32) (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ (∃ d, owns (c : Thread nD τ) arg6 fullShare d) ∗ owns (c : Thread nD τ) arg7 fullShare xi6 ∗ owns (c : Thread nD τ) arg8 fullShare xi7 ∗ owns (c : Thread nD τ) arg9 fullShare xs0 ∗ owns (c : Thread nD τ) arg10 fullShare xs1
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ (∃ f, arg6.view.loc (c : Thread nD τ) ↦[arg6.view.set]{fullShare} arg6.view.writes (Elt F) f L5) ∗ owns (c : Thread nD τ) arg7 fullShare xi6 ∗ owns (c : Thread nD τ) arg8 fullShare xi7 ∗ (∃ f, arg9.view.loc (c : Thread nD τ) ↦[arg9.view.set]{fullShare} arg9.view.writes (Elt F) f LS0) ∗ (∃ f, arg10.view.loc (c : Thread nD τ) ↦[arg10.view.set]{fullShare} arg10.view.writes (Elt F) f LS1)) -∗ K ⟨⟩))
          ⊢ wp frame (wpE (defs₀ (F := F)) Variants.none c none) E (cc4__mlp_stats_kernel i arg1 harg1 arg2 harg2 arg3 harg3 arg4 harg4 arg5 harg5 arg6 harg6 arg7 harg7 arg8 harg8 arg9 harg9 arg10 harg10) K } := by
  refine ⟨?_, [], [], ?_, ?_, fun xi6 xi7 E K => ?run⟩
  case run =>
    simp only [cc4__mlp_stats_kernel_eq_skeleton]; unfold cc4__mlp_stats_kernel_skel
    simp only [k4_part1_eq_skeleton]; unfold k4_part1_skel
    unfold owns
    iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%f6, %hf6, H6⟩, ⟨%f7, %hf7, H7⟩, ⟨%fs0, %hfs0, HS0⟩, ⟨%fs1, %hfs1, HS1⟩, Hk⟩
    obtain rfl := harg1.eq_unread hf0; obtain rfl := harg2.eq_unread hf1; obtain rfl := harg3.eq_unread hf2; obtain rfl := harg4.eq_unread hf3; obtain rfl := harg5.eq_unread hf4; obtain rfl := harg7.eq_unread hf6; obtain rfl := harg8.eq_unread hf7; obtain rfl := harg9.eq_unread hfs0; obtain rfl := harg10.eq_unread hfs1
    sl_exec (disch := first | exact hc0 | exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]; · iexists _; iexact H5
    isplitl [H6]
    · iexists _; isplitr; · ipureintro; exact harg7.read_unread _
      iexact H6
    isplitl [H7]
    · iexists _; isplitr; · ipureintro; exact harg8.read_unread _
      iexact H7
    isplitl [HS0]; · iexists _; iexact HS0
    iexists _; iexact HS1

end Cert.KernelIdeal.Hand

end
-- ==== Proof.KiMlp4RunC.lean ====
/-
  Region 4, control case C: the kernel body run once, symbolically, on whole staging memrefs.
-/
import proofs.«160011_j2121713844488_1_alg».proof.Proof.KiMlp4Runs

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- The body at the last point (the running sums are copied into the two [1,128] outputs): on whole staging memrefs — the five inputs at their blocks, the z output at anything,
    the two [1,128] outputs at anything, the two running-sum rows at what the point before left — it runs to its
    continuation with the inputs as they were and each buffer it stored into with its pieces written; the pieces are the
    witness the run finds. -/
noncomputable def kernelRun4_C (c : Dev nD) (i : grid4.Coords) (arg1 : Memref sig .tc .vmem S5000x128 .f32) (harg1 : arg1.IsWhole) (arg2 : Memref sig .tc .vmem S128x128 .f32) (harg2 : arg2.IsWhole) (arg3 : Memref sig .tc .vmem S1x128 .f32) (harg3 : arg3.IsWhole) (arg4 : Memref sig .tc .vmem S128x128 .f32) (harg4 : arg4.IsWhole) (arg5 : Memref sig .tc .vmem S1x128 .f32) (harg5 : arg5.IsWhole) (arg6 : Memref sig .tc .vmem S5000x128 .f32) (harg6 : arg6.IsWhole) (arg7 : Memref sig .tc .vmem S1x128 .f32) (harg7 : arg7.IsWhole) (arg8 : Memref sig .tc .vmem S1x128 .f32) (harg8 : arg8.IsWhole) (arg9 : Memref sig .tc .vmem S1x128 .f32) (harg9 : arg9.IsWhole) (arg10 : Memref sig .tc .vmem S1x128 .f32) (harg10 : arg10.IsWhole) (hc0 : ¬cond4_0 i) (hc1 : cond4_1 i)
    (x0 : Vec F S5000x128 .f32) (x1 : Vec F S128x128 .f32) (x2 : Vec F S1x128 .f32) (x3 : Vec F S128x128 .f32) (x4 : Vec F S1x128 .f32) (xs0 : Vec F S1x128 .f32) (xs1 : Vec F S1x128 .f32) :
    Σ' (L5 : List (View.Piece (Elt F) S5000x128 .f32)) (L6 : List (View.Piece (Elt F) S1x128 .f32)) (L7 : List (View.Piece (Elt F) S1x128 .f32)) (LS0 : List (View.Piece (Elt F) S1x128 .f32)), { LS1 : List (View.Piece (Elt F) S1x128 .f32) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ (∃ d, owns (c : Thread nD τ) arg6 fullShare d) ∗ (∃ d, owns (c : Thread nD τ) arg7 fullShare d) ∗ (∃ d, owns (c : Thread nD τ) arg8 fullShare d) ∗ owns (c : Thread nD τ) arg9 fullShare xs0 ∗ owns (c : Thread nD τ) arg10 fullShare xs1
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ (∃ f, arg6.view.loc (c : Thread nD τ) ↦[arg6.view.set]{fullShare} arg6.view.writes (Elt F) f L5) ∗ (∃ f, arg7.view.loc (c : Thread nD τ) ↦[arg7.view.set]{fullShare} arg7.view.writes (Elt F) f L6) ∗ (∃ f, arg8.view.loc (c : Thread nD τ) ↦[arg8.view.set]{fullShare} arg8.view.writes (Elt F) f L7) ∗ (∃ f, arg9.view.loc (c : Thread nD τ) ↦[arg9.view.set]{fullShare} arg9.view.writes (Elt F) f LS0) ∗ (∃ f, arg10.view.loc (c : Thread nD τ) ↦[arg10.view.set]{fullShare} arg10.view.writes (Elt F) f LS1)) -∗ K ⟨⟩))
          ⊢ wp frame (wpE (defs₀ (F := F)) Variants.none c none) E (cc4__mlp_stats_kernel i arg1 harg1 arg2 harg2 arg3 harg3 arg4 harg4 arg5 harg5 arg6 harg6 arg7 harg7 arg8 harg8 arg9 harg9 arg10 harg10) K } := by
  refine ⟨?_, ?_, ?_, ?_, ?_, fun E K => ?run⟩
  case run =>
    simp only [cc4__mlp_stats_kernel_eq_skeleton]; unfold cc4__mlp_stats_kernel_skel
    simp only [k4_part1_eq_skeleton]; unfold k4_part1_skel
    unfold owns
    iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%d6, %f6, -, H6⟩, ⟨%d7, %f7, -, H7⟩, ⟨%fs0, %hfs0, HS0⟩, ⟨%fs1, %hfs1, HS1⟩, Hk⟩
    obtain rfl := harg1.eq_unread hf0; obtain rfl := harg2.eq_unread hf1; obtain rfl := harg3.eq_unread hf2; obtain rfl := harg4.eq_unread hf3; obtain rfl := harg5.eq_unread hf4; obtain rfl := harg9.eq_unread hfs0; obtain rfl := harg10.eq_unread hfs1
    sl_exec (disch := first | exact hc0 | exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]; · iexists _; iexact H5
    isplitl [H6]; · iexists _; iexact H6
    isplitl [H7]; · iexists _; iexact H7
    isplitl [HS0]; · iexists _; iexact HS0
    iexists _; iexact HS1

end Cert.KernelIdeal.Hand

end
-- ==== Proof.KiMlp4.lean ====
/-
  Region 4 (a layer's two-layer perceptron with running column sums over the 20 row blocks): what each control case leaves in
  the outputs and in the two running-sum rows, the accumulation point by point, the proof data and the body obligation.
  The z output's block at a point is the body's payload of that point's input blocks; the two running-sum rows after point t are
  zero plus the column sums of z and z² over blocks 0..t; the two [1,128] outputs receive the rows at the last point.
-/
import proofs.«160011_j2121713844488_1_alg».proof.Proof.KiMlp4RunA
import proofs.«160011_j2121713844488_1_alg».proof.Proof.KiMlp4RunB
import proofs.«160011_j2121713844488_1_alg».proof.Proof.KiMlp4RunC

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Region4

variable (V : (c : Dev nD) → (b : Ref sig .tc) → Buf (Elt F) ((c : Thread nD τ).loc b))

/-- Case A's pieces for output window 5 cover it (one whole-rectangle store). -/
theorem cover4_A_5 (c : Dev nD) (i : grid4.Coords) (arg1 : Memref sig .tc .vmem S5000x128 .f32) (harg1 : arg1.IsWhole) (arg2 : Memref sig .tc .vmem S128x128 .f32) (harg2 : arg2.IsWhole) (arg3 : Memref sig .tc .vmem S1x128 .f32) (harg3 : arg3.IsWhole) (arg4 : Memref sig .tc .vmem S128x128 .f32) (harg4 : arg4.IsWhole) (arg5 : Memref sig .tc .vmem S1x128 .f32) (harg5 : arg5.IsWhole) (arg6 : Memref sig .tc .vmem S5000x128 .f32) (harg6 : arg6.IsWhole) (arg7 : Memref sig .tc .vmem S1x128 .f32) (harg7 : arg7.IsWhole) (arg8 : Memref sig .tc .vmem S1x128 .f32) (harg8 : arg8.IsWhole) (arg9 : Memref sig .tc .vmem S1x128 .f32) (harg9 : arg9.IsWhole) (arg10 : Memref sig .tc .vmem S1x128 .f32) (harg10 : arg10.IsWhole) (hc0 : cond4_0 i) (hc1 : ¬cond4_1 i)
    (x0 : Vec F S5000x128 .f32) (x1 : Vec F S128x128 .f32) (x2 : Vec F S1x128 .f32) (x3 : Vec F S128x128 .f32) (x4 : Vec F S1x128 .f32) (y : S5000x128.Idx) :
    ∃ pc ∈ (kernelRun4_A c i arg1 harg1 arg2 harg2 arg3 harg3 arg4 harg4 arg5 harg5 arg6 harg6 arg7 harg7 arg8 harg8 arg9 harg9 arg10 harg10 hc0 hc1 x0 x1 x2 x3 x4).1, y ∈ pc.1.set :=
  View.cover_of_tiledL (kernelRun4_A c i arg1 harg1 arg2 harg2 arg3 harg3 arg4 harg4 arg5 harg5 arg6 harg6 arg7 harg7 arg8 harg8 arg9 harg9 arg10 harg10 hc0 hc1 x0 x1 x2 x3 x4).1 S5000x128.size (by sl_kernel_rfl) y

/-- What case A leaves there: its pieces read back. -/
def out4_A_5 (c : Dev nD) (i : grid4.Coords) (arg1 : Memref sig .tc .vmem S5000x128 .f32) (harg1 : arg1.IsWhole) (arg2 : Memref sig .tc .vmem S128x128 .f32) (harg2 : arg2.IsWhole) (arg3 : Memref sig .tc .vmem S1x128 .f32) (harg3 : arg3.IsWhole) (arg4 : Memref sig .tc .vmem S128x128 .f32) (harg4 : arg4.IsWhole) (arg5 : Memref sig .tc .vmem S1x128 .f32) (harg5 : arg5.IsWhole) (arg6 : Memref sig .tc .vmem S5000x128 .f32) (harg6 : arg6.IsWhole) (arg7 : Memref sig .tc .vmem S1x128 .f32) (harg7 : arg7.IsWhole) (arg8 : Memref sig .tc .vmem S1x128 .f32) (harg8 : arg8.IsWhole) (arg9 : Memref sig .tc .vmem S1x128 .f32) (harg9 : arg9.IsWhole) (arg10 : Memref sig .tc .vmem S1x128 .f32) (harg10 : arg10.IsWhole) (hc0 : cond4_0 i) (hc1 : ¬cond4_1 i)
    (x0 : Vec F S5000x128 .f32) (x1 : Vec F S128x128 .f32) (x2 : Vec F S1x128 .f32) (x3 : Vec F S128x128 .f32) (x4 : Vec F S1x128 .f32) : Vec F S5000x128 .f32 :=
  VO4_5.read (Elt F) (VO4_5.writes (Elt F) VO4_5.junk (kernelRun4_A c i arg1 harg1 arg2 harg2 arg3 harg3 arg4 harg4 arg5 harg5 arg6 harg6 arg7 harg7 arg8 harg8 arg9 harg9 arg10 harg10 hc0 hc1 x0 x1 x2 x3 x4).1)

/-- Case A's pieces for running-sum row 0 cover it (one whole-rectangle store). -/
theorem scover4_A_0 (c : Dev nD) (i : grid4.Coords) (arg1 : Memref sig .tc .vmem S5000x128 .f32) (harg1 : arg1.IsWhole) (arg2 : Memref sig .tc .vmem S128x128 .f32) (harg2 : arg2.IsWhole) (arg3 : Memref sig .tc .vmem S1x128 .f32) (harg3 : arg3.IsWhole) (arg4 : Memref sig .tc .vmem S128x128 .f32) (harg4 : arg4.IsWhole) (arg5 : Memref sig .tc .vmem S1x128 .f32) (harg5 : arg5.IsWhole) (arg6 : Memref sig .tc .vmem S5000x128 .f32) (harg6 : arg6.IsWhole) (arg7 : Memref sig .tc .vmem S1x128 .f32) (harg7 : arg7.IsWhole) (arg8 : Memref sig .tc .vmem S1x128 .f32) (harg8 : arg8.IsWhole) (arg9 : Memref sig .tc .vmem S1x128 .f32) (harg9 : arg9.IsWhole) (arg10 : Memref sig .tc .vmem S1x128 .f32) (harg10 : arg10.IsWhole) (hc0 : cond4_0 i) (hc1 : ¬cond4_1 i)
    (x0 : Vec F S5000x128 .f32) (x1 : Vec F S128x128 .f32) (x2 : Vec F S1x128 .f32) (x3 : Vec F S128x128 .f32) (x4 : Vec F S1x128 .f32) (y : S1x128.Idx) :
    ∃ pc ∈ (kernelRun4_A c i arg1 harg1 arg2 harg2 arg3 harg3 arg4 harg4 arg5 harg5 arg6 harg6 arg7 harg7 arg8 harg8 arg9 harg9 arg10 harg10 hc0 hc1 x0 x1 x2 x3 x4).2.2.2.1, y ∈ pc.1.set :=
  View.cover_of_tiledL (kernelRun4_A c i arg1 harg1 arg2 harg2 arg3 harg3 arg4 harg4 arg5 harg5 arg6 harg6 arg7 harg7 arg8 harg8 arg9 harg9 arg10 harg10 hc0 hc1 x0 x1 x2 x3 x4).2.2.2.1 S1x128.size (by sl_kernel_rfl) y

/-- What case A leaves there: its pieces read back. -/
def sout4_A_0 (c : Dev nD) (i : grid4.Coords) (arg1 : Memref sig .tc .vmem S5000x128 .f32) (harg1 : arg1.IsWhole) (arg2 : Memref sig .tc .vmem S128x128 .f32) (harg2 : arg2.IsWhole) (arg3 : Memref sig .tc .vmem S1x128 .f32) (harg3 : arg3.IsWhole) (arg4 : Memref sig .tc .vmem S128x128 .f32) (harg4 : arg4.IsWhole) (arg5 : Memref sig .tc .vmem S1x128 .f32) (harg5 : arg5.IsWhole) (arg6 : Memref sig .tc .vmem S5000x128 .f32) (harg6 : arg6.IsWhole) (arg7 : Memref sig .tc .vmem S1x128 .f32) (harg7 : arg7.IsWhole) (arg8 : Memref sig .tc .vmem S1x128 .f32) (harg8 : arg8.IsWhole) (arg9 : Memref sig .tc .vmem S1x128 .f32) (harg9 : arg9.IsWhole) (arg10 : Memref sig .tc .vmem S1x128 .f32) (harg10 : arg10.IsWhole) (hc0 : cond4_0 i) (hc1 : ¬cond4_1 i)
    (x0 : Vec F S5000x128 .f32) (x1 : Vec F S128x128 .f32) (x2 : Vec F S1x128 .f32) (x3 : Vec F S128x128 .f32) (x4 : Vec F S1x128 .f32) : Vec F S1x128 .f32 :=
  VS4_0.read (Elt F) (VS4_0.writes (Elt F) VS4_0.junk (kernelRun4_A c i arg1 harg1 arg2 harg2 arg3 harg3 arg4 harg4 arg5 harg5 arg6 harg6 arg7 harg7 arg8 harg8 arg9 harg9 arg10 harg10 hc0 hc1 x0 x1 x2 x3 x4).2.2.2.1)

/-- Case A's pieces for running-sum row 1 cover it (one whole-rectangle store). -/
theorem scover4_A_1 (c : Dev nD) (i : grid4.Coords) (arg1 : Memref sig .tc .vmem S5000x128 .f32) (harg1 : arg1.IsWhole) (arg2 : Memref sig .tc .vmem S128x128 .f32) (harg2 : arg2.IsWhole) (arg3 : Memref sig .tc .vmem S1x128 .f32) (harg3 : arg3.IsWhole) (arg4 : Memref sig .tc .vmem S128x128 .f32) (harg4 : arg4.IsWhole) (arg5 : Memref sig .tc .vmem S1x128 .f32) (harg5 : arg5.IsWhole) (arg6 : Memref sig .tc .vmem S5000x128 .f32) (harg6 : arg6.IsWhole) (arg7 : Memref sig .tc .vmem S1x128 .f32) (harg7 : arg7.IsWhole) (arg8 : Memref sig .tc .vmem S1x128 .f32) (harg8 : arg8.IsWhole) (arg9 : Memref sig .tc .vmem S1x128 .f32) (harg9 : arg9.IsWhole) (arg10 : Memref sig .tc .vmem S1x128 .f32) (harg10 : arg10.IsWhole) (hc0 : cond4_0 i) (hc1 : ¬cond4_1 i)
    (x0 : Vec F S5000x128 .f32) (x1 : Vec F S128x128 .f32) (x2 : Vec F S1x128 .f32) (x3 : Vec F S128x128 .f32) (x4 : Vec F S1x128 .f32) (y : S1x128.Idx) :
    ∃ pc ∈ (kernelRun4_A c i arg1 harg1 arg2 harg2 arg3 harg3 arg4 harg4 arg5 harg5 arg6 harg6 arg7 harg7 arg8 harg8 arg9 harg9 arg10 harg10 hc0 hc1 x0 x1 x2 x3 x4).2.2.2.2.1, y ∈ pc.1.set :=
  View.cover_of_tiledL (kernelRun4_A c i arg1 harg1 arg2 harg2 arg3 harg3 arg4 harg4 arg5 harg5 arg6 harg6 arg7 harg7 arg8 harg8 arg9 harg9 arg10 harg10 hc0 hc1 x0 x1 x2 x3 x4).2.2.2.2.1 S1x128.size (by sl_kernel_rfl) y

/-- What case A leaves there: its pieces read back. -/
def sout4_A_1 (c : Dev nD) (i : grid4.Coords) (arg1 : Memref sig .tc .vmem S5000x128 .f32) (harg1 : arg1.IsWhole) (arg2 : Memref sig .tc .vmem S128x128 .f32) (harg2 : arg2.IsWhole) (arg3 : Memref sig .tc .vmem S1x128 .f32) (harg3 : arg3.IsWhole) (arg4 : Memref sig .tc .vmem S128x128 .f32) (harg4 : arg4.IsWhole) (arg5 : Memref sig .tc .vmem S1x128 .f32) (harg5 : arg5.IsWhole) (arg6 : Memref sig .tc .vmem S5000x128 .f32) (harg6 : arg6.IsWhole) (arg7 : Memref sig .tc .vmem S1x128 .f32) (harg7 : arg7.IsWhole) (arg8 : Memref sig .tc .vmem S1x128 .f32) (harg8 : arg8.IsWhole) (arg9 : Memref sig .tc .vmem S1x128 .f32) (harg9 : arg9.IsWhole) (arg10 : Memref sig .tc .vmem S1x128 .f32) (harg10 : arg10.IsWhole) (hc0 : cond4_0 i) (hc1 : ¬cond4_1 i)
    (x0 : Vec F S5000x128 .f32) (x1 : Vec F S128x128 .f32) (x2 : Vec F S1x128 .f32) (x3 : Vec F S128x128 .f32) (x4 : Vec F S1x128 .f32) : Vec F S1x128 .f32 :=
  VS4_1.read (Elt F) (VS4_1.writes (Elt F) VS4_1.junk (kernelRun4_A c i arg1 harg1 arg2 harg2 arg3 harg3 arg4 harg4 arg5 harg5 arg6 harg6 arg7 harg7 arg8 harg8 arg9 harg9 arg10 harg10 hc0 hc1 x0 x1 x2 x3 x4).2.2.2.2.1)

/-- Case B's pieces for output window 5 cover it (one whole-rectangle store). -/
theorem cover4_B_5 (c : Dev nD) (i : grid4.Coords) (arg1 : Memref sig .tc .vmem S5000x128 .f32) (harg1 : arg1.IsWhole) (arg2 : Memref sig .tc .vmem S128x128 .f32) (harg2 : arg2.IsWhole) (arg3 : Memref sig .tc .vmem S1x128 .f32) (harg3 : arg3.IsWhole) (arg4 : Memref sig .tc .vmem S128x128 .f32) (harg4 : arg4.IsWhole) (arg5 : Memref sig .tc .vmem S1x128 .f32) (harg5 : arg5.IsWhole) (arg6 : Memref sig .tc .vmem S5000x128 .f32) (harg6 : arg6.IsWhole) (arg7 : Memref sig .tc .vmem S1x128 .f32) (harg7 : arg7.IsWhole) (arg8 : Memref sig .tc .vmem S1x128 .f32) (harg8 : arg8.IsWhole) (arg9 : Memref sig .tc .vmem S1x128 .f32) (harg9 : arg9.IsWhole) (arg10 : Memref sig .tc .vmem S1x128 .f32) (harg10 : arg10.IsWhole) (hc0 : ¬cond4_0 i) (hc1 : ¬cond4_1 i)
    (x0 : Vec F S5000x128 .f32) (x1 : Vec F S128x128 .f32) (x2 : Vec F S1x128 .f32) (x3 : Vec F S128x128 .f32) (x4 : Vec F S1x128 .f32) (xs0 : Vec F S1x128 .f32) (xs1 : Vec F S1x128 .f32) (y : S5000x128.Idx) :
    ∃ pc ∈ (kernelRun4_B c i arg1 harg1 arg2 harg2 arg3 harg3 arg4 harg4 arg5 harg5 arg6 harg6 arg7 harg7 arg8 harg8 arg9 harg9 arg10 harg10 hc0 hc1 x0 x1 x2 x3 x4 xs0 xs1).1, y ∈ pc.1.set :=
  View.cover_of_tiledL (kernelRun4_B c i arg1 harg1 arg2 harg2 arg3 harg3 arg4 harg4 arg5 harg5 arg6 harg6 arg7 harg7 arg8 harg8 arg9 harg9 arg10 harg10 hc0 hc1 x0 x1 x2 x3 x4 xs0 xs1).1 S5000x128.size (by sl_kernel_rfl) y

/-- What case B leaves there: its pieces read back. -/
def out4_B_5 (c : Dev nD) (i : grid4.Coords) (arg1 : Memref sig .tc .vmem S5000x128 .f32) (harg1 : arg1.IsWhole) (arg2 : Memref sig .tc .vmem S128x128 .f32) (harg2 : arg2.IsWhole) (arg3 : Memref sig .tc .vmem S1x128 .f32) (harg3 : arg3.IsWhole) (arg4 : Memref sig .tc .vmem S128x128 .f32) (harg4 : arg4.IsWhole) (arg5 : Memref sig .tc .vmem S1x128 .f32) (harg5 : arg5.IsWhole) (arg6 : Memref sig .tc .vmem S5000x128 .f32) (harg6 : arg6.IsWhole) (arg7 : Memref sig .tc .vmem S1x128 .f32) (harg7 : arg7.IsWhole) (arg8 : Memref sig .tc .vmem S1x128 .f32) (harg8 : arg8.IsWhole) (arg9 : Memref sig .tc .vmem S1x128 .f32) (harg9 : arg9.IsWhole) (arg10 : Memref sig .tc .vmem S1x128 .f32) (harg10 : arg10.IsWhole) (hc0 : ¬cond4_0 i) (hc1 : ¬cond4_1 i)
    (x0 : Vec F S5000x128 .f32) (x1 : Vec F S128x128 .f32) (x2 : Vec F S1x128 .f32) (x3 : Vec F S128x128 .f32) (x4 : Vec F S1x128 .f32) (xs0 : Vec F S1x128 .f32) (xs1 : Vec F S1x128 .f32) : Vec F S5000x128 .f32 :=
  VO4_5.read (Elt F) (VO4_5.writes (Elt F) VO4_5.junk (kernelRun4_B c i arg1 harg1 arg2 harg2 arg3 harg3 arg4 harg4 arg5 harg5 arg6 harg6 arg7 harg7 arg8 harg8 arg9 harg9 arg10 harg10 hc0 hc1 x0 x1 x2 x3 x4 xs0 xs1).1)

/-- Case B's pieces for running-sum row 0 cover it (one whole-rectangle store). -/
theorem scover4_B_0 (c : Dev nD) (i : grid4.Coords) (arg1 : Memref sig .tc .vmem S5000x128 .f32) (harg1 : arg1.IsWhole) (arg2 : Memref sig .tc .vmem S128x128 .f32) (harg2 : arg2.IsWhole) (arg3 : Memref sig .tc .vmem S1x128 .f32) (harg3 : arg3.IsWhole) (arg4 : Memref sig .tc .vmem S128x128 .f32) (harg4 : arg4.IsWhole) (arg5 : Memref sig .tc .vmem S1x128 .f32) (harg5 : arg5.IsWhole) (arg6 : Memref sig .tc .vmem S5000x128 .f32) (harg6 : arg6.IsWhole) (arg7 : Memref sig .tc .vmem S1x128 .f32) (harg7 : arg7.IsWhole) (arg8 : Memref sig .tc .vmem S1x128 .f32) (harg8 : arg8.IsWhole) (arg9 : Memref sig .tc .vmem S1x128 .f32) (harg9 : arg9.IsWhole) (arg10 : Memref sig .tc .vmem S1x128 .f32) (harg10 : arg10.IsWhole) (hc0 : ¬cond4_0 i) (hc1 : ¬cond4_1 i)
    (x0 : Vec F S5000x128 .f32) (x1 : Vec F S128x128 .f32) (x2 : Vec F S1x128 .f32) (x3 : Vec F S128x128 .f32) (x4 : Vec F S1x128 .f32) (xs0 : Vec F S1x128 .f32) (xs1 : Vec F S1x128 .f32) (y : S1x128.Idx) :
    ∃ pc ∈ (kernelRun4_B c i arg1 harg1 arg2 harg2 arg3 harg3 arg4 harg4 arg5 harg5 arg6 harg6 arg7 harg7 arg8 harg8 arg9 harg9 arg10 harg10 hc0 hc1 x0 x1 x2 x3 x4 xs0 xs1).2.2.2.1, y ∈ pc.1.set :=
  View.cover_of_tiledL (kernelRun4_B c i arg1 harg1 arg2 harg2 arg3 harg3 arg4 harg4 arg5 harg5 arg6 harg6 arg7 harg7 arg8 harg8 arg9 harg9 arg10 harg10 hc0 hc1 x0 x1 x2 x3 x4 xs0 xs1).2.2.2.1 S1x128.size (by sl_kernel_rfl) y

/-- What case B leaves there: its pieces read back. -/
def sout4_B_0 (c : Dev nD) (i : grid4.Coords) (arg1 : Memref sig .tc .vmem S5000x128 .f32) (harg1 : arg1.IsWhole) (arg2 : Memref sig .tc .vmem S128x128 .f32) (harg2 : arg2.IsWhole) (arg3 : Memref sig .tc .vmem S1x128 .f32) (harg3 : arg3.IsWhole) (arg4 : Memref sig .tc .vmem S128x128 .f32) (harg4 : arg4.IsWhole) (arg5 : Memref sig .tc .vmem S1x128 .f32) (harg5 : arg5.IsWhole) (arg6 : Memref sig .tc .vmem S5000x128 .f32) (harg6 : arg6.IsWhole) (arg7 : Memref sig .tc .vmem S1x128 .f32) (harg7 : arg7.IsWhole) (arg8 : Memref sig .tc .vmem S1x128 .f32) (harg8 : arg8.IsWhole) (arg9 : Memref sig .tc .vmem S1x128 .f32) (harg9 : arg9.IsWhole) (arg10 : Memref sig .tc .vmem S1x128 .f32) (harg10 : arg10.IsWhole) (hc0 : ¬cond4_0 i) (hc1 : ¬cond4_1 i)
    (x0 : Vec F S5000x128 .f32) (x1 : Vec F S128x128 .f32) (x2 : Vec F S1x128 .f32) (x3 : Vec F S128x128 .f32) (x4 : Vec F S1x128 .f32) (xs0 : Vec F S1x128 .f32) (xs1 : Vec F S1x128 .f32) : Vec F S1x128 .f32 :=
  VS4_0.read (Elt F) (VS4_0.writes (Elt F) VS4_0.junk (kernelRun4_B c i arg1 harg1 arg2 harg2 arg3 harg3 arg4 harg4 arg5 harg5 arg6 harg6 arg7 harg7 arg8 harg8 arg9 harg9 arg10 harg10 hc0 hc1 x0 x1 x2 x3 x4 xs0 xs1).2.2.2.1)

/-- Case B's pieces for running-sum row 1 cover it (one whole-rectangle store). -/
theorem scover4_B_1 (c : Dev nD) (i : grid4.Coords) (arg1 : Memref sig .tc .vmem S5000x128 .f32) (harg1 : arg1.IsWhole) (arg2 : Memref sig .tc .vmem S128x128 .f32) (harg2 : arg2.IsWhole) (arg3 : Memref sig .tc .vmem S1x128 .f32) (harg3 : arg3.IsWhole) (arg4 : Memref sig .tc .vmem S128x128 .f32) (harg4 : arg4.IsWhole) (arg5 : Memref sig .tc .vmem S1x128 .f32) (harg5 : arg5.IsWhole) (arg6 : Memref sig .tc .vmem S5000x128 .f32) (harg6 : arg6.IsWhole) (arg7 : Memref sig .tc .vmem S1x128 .f32) (harg7 : arg7.IsWhole) (arg8 : Memref sig .tc .vmem S1x128 .f32) (harg8 : arg8.IsWhole) (arg9 : Memref sig .tc .vmem S1x128 .f32) (harg9 : arg9.IsWhole) (arg10 : Memref sig .tc .vmem S1x128 .f32) (harg10 : arg10.IsWhole) (hc0 : ¬cond4_0 i) (hc1 : ¬cond4_1 i)
    (x0 : Vec F S5000x128 .f32) (x1 : Vec F S128x128 .f32) (x2 : Vec F S1x128 .f32) (x3 : Vec F S128x128 .f32) (x4 : Vec F S1x128 .f32) (xs0 : Vec F S1x128 .f32) (xs1 : Vec F S1x128 .f32) (y : S1x128.Idx) :
    ∃ pc ∈ (kernelRun4_B c i arg1 harg1 arg2 harg2 arg3 harg3 arg4 harg4 arg5 harg5 arg6 harg6 arg7 harg7 arg8 harg8 arg9 harg9 arg10 harg10 hc0 hc1 x0 x1 x2 x3 x4 xs0 xs1).2.2.2.2.1, y ∈ pc.1.set :=
  View.cover_of_tiledL (kernelRun4_B c i arg1 harg1 arg2 harg2 arg3 harg3 arg4 harg4 arg5 harg5 arg6 harg6 arg7 harg7 arg8 harg8 arg9 harg9 arg10 harg10 hc0 hc1 x0 x1 x2 x3 x4 xs0 xs1).2.2.2.2.1 S1x128.size (by sl_kernel_rfl) y

/-- What case B leaves there: its pieces read back. -/
def sout4_B_1 (c : Dev nD) (i : grid4.Coords) (arg1 : Memref sig .tc .vmem S5000x128 .f32) (harg1 : arg1.IsWhole) (arg2 : Memref sig .tc .vmem S128x128 .f32) (harg2 : arg2.IsWhole) (arg3 : Memref sig .tc .vmem S1x128 .f32) (harg3 : arg3.IsWhole) (arg4 : Memref sig .tc .vmem S128x128 .f32) (harg4 : arg4.IsWhole) (arg5 : Memref sig .tc .vmem S1x128 .f32) (harg5 : arg5.IsWhole) (arg6 : Memref sig .tc .vmem S5000x128 .f32) (harg6 : arg6.IsWhole) (arg7 : Memref sig .tc .vmem S1x128 .f32) (harg7 : arg7.IsWhole) (arg8 : Memref sig .tc .vmem S1x128 .f32) (harg8 : arg8.IsWhole) (arg9 : Memref sig .tc .vmem S1x128 .f32) (harg9 : arg9.IsWhole) (arg10 : Memref sig .tc .vmem S1x128 .f32) (harg10 : arg10.IsWhole) (hc0 : ¬cond4_0 i) (hc1 : ¬cond4_1 i)
    (x0 : Vec F S5000x128 .f32) (x1 : Vec F S128x128 .f32) (x2 : Vec F S1x128 .f32) (x3 : Vec F S128x128 .f32) (x4 : Vec F S1x128 .f32) (xs0 : Vec F S1x128 .f32) (xs1 : Vec F S1x128 .f32) : Vec F S1x128 .f32 :=
  VS4_1.read (Elt F) (VS4_1.writes (Elt F) VS4_1.junk (kernelRun4_B c i arg1 harg1 arg2 harg2 arg3 harg3 arg4 harg4 arg5 harg5 arg6 harg6 arg7 harg7 arg8 harg8 arg9 harg9 arg10 harg10 hc0 hc1 x0 x1 x2 x3 x4 xs0 xs1).2.2.2.2.1)

/-- Case C's pieces for output window 5 cover it (one whole-rectangle store). -/
theorem cover4_C_5 (c : Dev nD) (i : grid4.Coords) (arg1 : Memref sig .tc .vmem S5000x128 .f32) (harg1 : arg1.IsWhole) (arg2 : Memref sig .tc .vmem S128x128 .f32) (harg2 : arg2.IsWhole) (arg3 : Memref sig .tc .vmem S1x128 .f32) (harg3 : arg3.IsWhole) (arg4 : Memref sig .tc .vmem S128x128 .f32) (harg4 : arg4.IsWhole) (arg5 : Memref sig .tc .vmem S1x128 .f32) (harg5 : arg5.IsWhole) (arg6 : Memref sig .tc .vmem S5000x128 .f32) (harg6 : arg6.IsWhole) (arg7 : Memref sig .tc .vmem S1x128 .f32) (harg7 : arg7.IsWhole) (arg8 : Memref sig .tc .vmem S1x128 .f32) (harg8 : arg8.IsWhole) (arg9 : Memref sig .tc .vmem S1x128 .f32) (harg9 : arg9.IsWhole) (arg10 : Memref sig .tc .vmem S1x128 .f32) (harg10 : arg10.IsWhole) (hc0 : ¬cond4_0 i) (hc1 : cond4_1 i)
    (x0 : Vec F S5000x128 .f32) (x1 : Vec F S128x128 .f32) (x2 : Vec F S1x128 .f32) (x3 : Vec F S128x128 .f32) (x4 : Vec F S1x128 .f32) (xs0 : Vec F S1x128 .f32) (xs1 : Vec F S1x128 .f32) (y : S5000x128.Idx) :
    ∃ pc ∈ (kernelRun4_C c i arg1 harg1 arg2 harg2 arg3 harg3 arg4 harg4 arg5 harg5 arg6 harg6 arg7 harg7 arg8 harg8 arg9 harg9 arg10 harg10 hc0 hc1 x0 x1 x2 x3 x4 xs0 xs1).1, y ∈ pc.1.set :=
  View.cover_of_tiledL (kernelRun4_C c i arg1 harg1 arg2 harg2 arg3 harg3 arg4 harg4 arg5 harg5 arg6 harg6 arg7 harg7 arg8 harg8 arg9 harg9 arg10 harg10 hc0 hc1 x0 x1 x2 x3 x4 xs0 xs1).1 S5000x128.size (by sl_kernel_rfl) y

/-- What case C leaves there: its pieces read back. -/
def out4_C_5 (c : Dev nD) (i : grid4.Coords) (arg1 : Memref sig .tc .vmem S5000x128 .f32) (harg1 : arg1.IsWhole) (arg2 : Memref sig .tc .vmem S128x128 .f32) (harg2 : arg2.IsWhole) (arg3 : Memref sig .tc .vmem S1x128 .f32) (harg3 : arg3.IsWhole) (arg4 : Memref sig .tc .vmem S128x128 .f32) (harg4 : arg4.IsWhole) (arg5 : Memref sig .tc .vmem S1x128 .f32) (harg5 : arg5.IsWhole) (arg6 : Memref sig .tc .vmem S5000x128 .f32) (harg6 : arg6.IsWhole) (arg7 : Memref sig .tc .vmem S1x128 .f32) (harg7 : arg7.IsWhole) (arg8 : Memref sig .tc .vmem S1x128 .f32) (harg8 : arg8.IsWhole) (arg9 : Memref sig .tc .vmem S1x128 .f32) (harg9 : arg9.IsWhole) (arg10 : Memref sig .tc .vmem S1x128 .f32) (harg10 : arg10.IsWhole) (hc0 : ¬cond4_0 i) (hc1 : cond4_1 i)
    (x0 : Vec F S5000x128 .f32) (x1 : Vec F S128x128 .f32) (x2 : Vec F S1x128 .f32) (x3 : Vec F S128x128 .f32) (x4 : Vec F S1x128 .f32) (xs0 : Vec F S1x128 .f32) (xs1 : Vec F S1x128 .f32) : Vec F S5000x128 .f32 :=
  VO4_5.read (Elt F) (VO4_5.writes (Elt F) VO4_5.junk (kernelRun4_C c i arg1 harg1 arg2 harg2 arg3 harg3 arg4 harg4 arg5 harg5 arg6 harg6 arg7 harg7 arg8 harg8 arg9 harg9 arg10 harg10 hc0 hc1 x0 x1 x2 x3 x4 xs0 xs1).1)

/-- Case C's pieces for output window 6 cover it (one whole-rectangle store). -/
theorem cover4_C_6 (c : Dev nD) (i : grid4.Coords) (arg1 : Memref sig .tc .vmem S5000x128 .f32) (harg1 : arg1.IsWhole) (arg2 : Memref sig .tc .vmem S128x128 .f32) (harg2 : arg2.IsWhole) (arg3 : Memref sig .tc .vmem S1x128 .f32) (harg3 : arg3.IsWhole) (arg4 : Memref sig .tc .vmem S128x128 .f32) (harg4 : arg4.IsWhole) (arg5 : Memref sig .tc .vmem S1x128 .f32) (harg5 : arg5.IsWhole) (arg6 : Memref sig .tc .vmem S5000x128 .f32) (harg6 : arg6.IsWhole) (arg7 : Memref sig .tc .vmem S1x128 .f32) (harg7 : arg7.IsWhole) (arg8 : Memref sig .tc .vmem S1x128 .f32) (harg8 : arg8.IsWhole) (arg9 : Memref sig .tc .vmem S1x128 .f32) (harg9 : arg9.IsWhole) (arg10 : Memref sig .tc .vmem S1x128 .f32) (harg10 : arg10.IsWhole) (hc0 : ¬cond4_0 i) (hc1 : cond4_1 i)
    (x0 : Vec F S5000x128 .f32) (x1 : Vec F S128x128 .f32) (x2 : Vec F S1x128 .f32) (x3 : Vec F S128x128 .f32) (x4 : Vec F S1x128 .f32) (xs0 : Vec F S1x128 .f32) (xs1 : Vec F S1x128 .f32) (y : S1x128.Idx) :
    ∃ pc ∈ (kernelRun4_C c i arg1 harg1 arg2 harg2 arg3 harg3 arg4 harg4 arg5 harg5 arg6 harg6 arg7 harg7 arg8 harg8 arg9 harg9 arg10 harg10 hc0 hc1 x0 x1 x2 x3 x4 xs0 xs1).2.1, y ∈ pc.1.set :=
  View.cover_of_tiledL (kernelRun4_C c i arg1 harg1 arg2 harg2 arg3 harg3 arg4 harg4 arg5 harg5 arg6 harg6 arg7 harg7 arg8 harg8 arg9 harg9 arg10 harg10 hc0 hc1 x0 x1 x2 x3 x4 xs0 xs1).2.1 S1x128.size (by sl_kernel_rfl) y

/-- What case C leaves there: its pieces read back. -/
def out4_C_6 (c : Dev nD) (i : grid4.Coords) (arg1 : Memref sig .tc .vmem S5000x128 .f32) (harg1 : arg1.IsWhole) (arg2 : Memref sig .tc .vmem S128x128 .f32) (harg2 : arg2.IsWhole) (arg3 : Memref sig .tc .vmem S1x128 .f32) (harg3 : arg3.IsWhole) (arg4 : Memref sig .tc .vmem S128x128 .f32) (harg4 : arg4.IsWhole) (arg5 : Memref sig .tc .vmem S1x128 .f32) (harg5 : arg5.IsWhole) (arg6 : Memref sig .tc .vmem S5000x128 .f32) (harg6 : arg6.IsWhole) (arg7 : Memref sig .tc .vmem S1x128 .f32) (harg7 : arg7.IsWhole) (arg8 : Memref sig .tc .vmem S1x128 .f32) (harg8 : arg8.IsWhole) (arg9 : Memref sig .tc .vmem S1x128 .f32) (harg9 : arg9.IsWhole) (arg10 : Memref sig .tc .vmem S1x128 .f32) (harg10 : arg10.IsWhole) (hc0 : ¬cond4_0 i) (hc1 : cond4_1 i)
    (x0 : Vec F S5000x128 .f32) (x1 : Vec F S128x128 .f32) (x2 : Vec F S1x128 .f32) (x3 : Vec F S128x128 .f32) (x4 : Vec F S1x128 .f32) (xs0 : Vec F S1x128 .f32) (xs1 : Vec F S1x128 .f32) : Vec F S1x128 .f32 :=
  VO4_6.read (Elt F) (VO4_6.writes (Elt F) VO4_6.junk (kernelRun4_C c i arg1 harg1 arg2 harg2 arg3 harg3 arg4 harg4 arg5 harg5 arg6 harg6 arg7 harg7 arg8 harg8 arg9 harg9 arg10 harg10 hc0 hc1 x0 x1 x2 x3 x4 xs0 xs1).2.1)

/-- Case C's pieces for output window 7 cover it (one whole-rectangle store). -/
theorem cover4_C_7 (c : Dev nD) (i : grid4.Coords) (arg1 : Memref sig .tc .vmem S5000x128 .f32) (harg1 : arg1.IsWhole) (arg2 : Memref sig .tc .vmem S128x128 .f32) (harg2 : arg2.IsWhole) (arg3 : Memref sig .tc .vmem S1x128 .f32) (harg3 : arg3.IsWhole) (arg4 : Memref sig .tc .vmem S128x128 .f32) (harg4 : arg4.IsWhole) (arg5 : Memref sig .tc .vmem S1x128 .f32) (harg5 : arg5.IsWhole) (arg6 : Memref sig .tc .vmem S5000x128 .f32) (harg6 : arg6.IsWhole) (arg7 : Memref sig .tc .vmem S1x128 .f32) (harg7 : arg7.IsWhole) (arg8 : Memref sig .tc .vmem S1x128 .f32) (harg8 : arg8.IsWhole) (arg9 : Memref sig .tc .vmem S1x128 .f32) (harg9 : arg9.IsWhole) (arg10 : Memref sig .tc .vmem S1x128 .f32) (harg10 : arg10.IsWhole) (hc0 : ¬cond4_0 i) (hc1 : cond4_1 i)
    (x0 : Vec F S5000x128 .f32) (x1 : Vec F S128x128 .f32) (x2 : Vec F S1x128 .f32) (x3 : Vec F S128x128 .f32) (x4 : Vec F S1x128 .f32) (xs0 : Vec F S1x128 .f32) (xs1 : Vec F S1x128 .f32) (y : S1x128.Idx) :
    ∃ pc ∈ (kernelRun4_C c i arg1 harg1 arg2 harg2 arg3 harg3 arg4 harg4 arg5 harg5 arg6 harg6 arg7 harg7 arg8 harg8 arg9 harg9 arg10 harg10 hc0 hc1 x0 x1 x2 x3 x4 xs0 xs1).2.2.1, y ∈ pc.1.set :=
  View.cover_of_tiledL (kernelRun4_C c i arg1 harg1 arg2 harg2 arg3 harg3 arg4 harg4 arg5 harg5 arg6 harg6 arg7 harg7 arg8 harg8 arg9 harg9 arg10 harg10 hc0 hc1 x0 x1 x2 x3 x4 xs0 xs1).2.2.1 S1x128.size (by sl_kernel_rfl) y

/-- What case C leaves there: its pieces read back. -/
def out4_C_7 (c : Dev nD) (i : grid4.Coords) (arg1 : Memref sig .tc .vmem S5000x128 .f32) (harg1 : arg1.IsWhole) (arg2 : Memref sig .tc .vmem S128x128 .f32) (harg2 : arg2.IsWhole) (arg3 : Memref sig .tc .vmem S1x128 .f32) (harg3 : arg3.IsWhole) (arg4 : Memref sig .tc .vmem S128x128 .f32) (harg4 : arg4.IsWhole) (arg5 : Memref sig .tc .vmem S1x128 .f32) (harg5 : arg5.IsWhole) (arg6 : Memref sig .tc .vmem S5000x128 .f32) (harg6 : arg6.IsWhole) (arg7 : Memref sig .tc .vmem S1x128 .f32) (harg7 : arg7.IsWhole) (arg8 : Memref sig .tc .vmem S1x128 .f32) (harg8 : arg8.IsWhole) (arg9 : Memref sig .tc .vmem S1x128 .f32) (harg9 : arg9.IsWhole) (arg10 : Memref sig .tc .vmem S1x128 .f32) (harg10 : arg10.IsWhole) (hc0 : ¬cond4_0 i) (hc1 : cond4_1 i)
    (x0 : Vec F S5000x128 .f32) (x1 : Vec F S128x128 .f32) (x2 : Vec F S1x128 .f32) (x3 : Vec F S128x128 .f32) (x4 : Vec F S1x128 .f32) (xs0 : Vec F S1x128 .f32) (xs1 : Vec F S1x128 .f32) : Vec F S1x128 .f32 :=
  VO4_7.read (Elt F) (VO4_7.writes (Elt F) VO4_7.junk (kernelRun4_C c i arg1 harg1 arg2 harg2 arg3 harg3 arg4 harg4 arg5 harg5 arg6 harg6 arg7 harg7 arg8 harg8 arg9 harg9 arg10 harg10 hc0 hc1 x0 x1 x2 x3 x4 xs0 xs1).2.2.1)

/-- Case C's pieces for running-sum row 0 cover it (one whole-rectangle store). -/
theorem scover4_C_0 (c : Dev nD) (i : grid4.Coords) (arg1 : Memref sig .tc .vmem S5000x128 .f32) (harg1 : arg1.IsWhole) (arg2 : Memref sig .tc .vmem S128x128 .f32) (harg2 : arg2.IsWhole) (arg3 : Memref sig .tc .vmem S1x128 .f32) (harg3 : arg3.IsWhole) (arg4 : Memref sig .tc .vmem S128x128 .f32) (harg4 : arg4.IsWhole) (arg5 : Memref sig .tc .vmem S1x128 .f32) (harg5 : arg5.IsWhole) (arg6 : Memref sig .tc .vmem S5000x128 .f32) (harg6 : arg6.IsWhole) (arg7 : Memref sig .tc .vmem S1x128 .f32) (harg7 : arg7.IsWhole) (arg8 : Memref sig .tc .vmem S1x128 .f32) (harg8 : arg8.IsWhole) (arg9 : Memref sig .tc .vmem S1x128 .f32) (harg9 : arg9.IsWhole) (arg10 : Memref sig .tc .vmem S1x128 .f32) (harg10 : arg10.IsWhole) (hc0 : ¬cond4_0 i) (hc1 : cond4_1 i)
    (x0 : Vec F S5000x128 .f32) (x1 : Vec F S128x128 .f32) (x2 : Vec F S1x128 .f32) (x3 : Vec F S128x128 .f32) (x4 : Vec F S1x128 .f32) (xs0 : Vec F S1x128 .f32) (xs1 : Vec F S1x128 .f32) (y : S1x128.Idx) :
    ∃ pc ∈ (kernelRun4_C c i arg1 harg1 arg2 harg2 arg3 harg3 arg4 harg4 arg5 harg5 arg6 harg6 arg7 harg7 arg8 harg8 arg9 harg9 arg10 harg10 hc0 hc1 x0 x1 x2 x3 x4 xs0 xs1).2.2.2.1, y ∈ pc.1.set :=
  View.cover_of_tiledL (kernelRun4_C c i arg1 harg1 arg2 harg2 arg3 harg3 arg4 harg4 arg5 harg5 arg6 harg6 arg7 harg7 arg8 harg8 arg9 harg9 arg10 harg10 hc0 hc1 x0 x1 x2 x3 x4 xs0 xs1).2.2.2.1 S1x128.size (by sl_kernel_rfl) y

/-- What case C leaves there: its pieces read back. -/
def sout4_C_0 (c : Dev nD) (i : grid4.Coords) (arg1 : Memref sig .tc .vmem S5000x128 .f32) (harg1 : arg1.IsWhole) (arg2 : Memref sig .tc .vmem S128x128 .f32) (harg2 : arg2.IsWhole) (arg3 : Memref sig .tc .vmem S1x128 .f32) (harg3 : arg3.IsWhole) (arg4 : Memref sig .tc .vmem S128x128 .f32) (harg4 : arg4.IsWhole) (arg5 : Memref sig .tc .vmem S1x128 .f32) (harg5 : arg5.IsWhole) (arg6 : Memref sig .tc .vmem S5000x128 .f32) (harg6 : arg6.IsWhole) (arg7 : Memref sig .tc .vmem S1x128 .f32) (harg7 : arg7.IsWhole) (arg8 : Memref sig .tc .vmem S1x128 .f32) (harg8 : arg8.IsWhole) (arg9 : Memref sig .tc .vmem S1x128 .f32) (harg9 : arg9.IsWhole) (arg10 : Memref sig .tc .vmem S1x128 .f32) (harg10 : arg10.IsWhole) (hc0 : ¬cond4_0 i) (hc1 : cond4_1 i)
    (x0 : Vec F S5000x128 .f32) (x1 : Vec F S128x128 .f32) (x2 : Vec F S1x128 .f32) (x3 : Vec F S128x128 .f32) (x4 : Vec F S1x128 .f32) (xs0 : Vec F S1x128 .f32) (xs1 : Vec F S1x128 .f32) : Vec F S1x128 .f32 :=
  VS4_0.read (Elt F) (VS4_0.writes (Elt F) VS4_0.junk (kernelRun4_C c i arg1 harg1 arg2 harg2 arg3 harg3 arg4 harg4 arg5 harg5 arg6 harg6 arg7 harg7 arg8 harg8 arg9 harg9 arg10 harg10 hc0 hc1 x0 x1 x2 x3 x4 xs0 xs1).2.2.2.1)

/-- Case C's pieces for running-sum row 1 cover it (one whole-rectangle store). -/
theorem scover4_C_1 (c : Dev nD) (i : grid4.Coords) (arg1 : Memref sig .tc .vmem S5000x128 .f32) (harg1 : arg1.IsWhole) (arg2 : Memref sig .tc .vmem S128x128 .f32) (harg2 : arg2.IsWhole) (arg3 : Memref sig .tc .vmem S1x128 .f32) (harg3 : arg3.IsWhole) (arg4 : Memref sig .tc .vmem S128x128 .f32) (harg4 : arg4.IsWhole) (arg5 : Memref sig .tc .vmem S1x128 .f32) (harg5 : arg5.IsWhole) (arg6 : Memref sig .tc .vmem S5000x128 .f32) (harg6 : arg6.IsWhole) (arg7 : Memref sig .tc .vmem S1x128 .f32) (harg7 : arg7.IsWhole) (arg8 : Memref sig .tc .vmem S1x128 .f32) (harg8 : arg8.IsWhole) (arg9 : Memref sig .tc .vmem S1x128 .f32) (harg9 : arg9.IsWhole) (arg10 : Memref sig .tc .vmem S1x128 .f32) (harg10 : arg10.IsWhole) (hc0 : ¬cond4_0 i) (hc1 : cond4_1 i)
    (x0 : Vec F S5000x128 .f32) (x1 : Vec F S128x128 .f32) (x2 : Vec F S1x128 .f32) (x3 : Vec F S128x128 .f32) (x4 : Vec F S1x128 .f32) (xs0 : Vec F S1x128 .f32) (xs1 : Vec F S1x128 .f32) (y : S1x128.Idx) :
    ∃ pc ∈ (kernelRun4_C c i arg1 harg1 arg2 harg2 arg3 harg3 arg4 harg4 arg5 harg5 arg6 harg6 arg7 harg7 arg8 harg8 arg9 harg9 arg10 harg10 hc0 hc1 x0 x1 x2 x3 x4 xs0 xs1).2.2.2.2.1, y ∈ pc.1.set :=
  View.cover_of_tiledL (kernelRun4_C c i arg1 harg1 arg2 harg2 arg3 harg3 arg4 harg4 arg5 harg5 arg6 harg6 arg7 harg7 arg8 harg8 arg9 harg9 arg10 harg10 hc0 hc1 x0 x1 x2 x3 x4 xs0 xs1).2.2.2.2.1 S1x128.size (by sl_kernel_rfl) y

/-- What case C leaves there: its pieces read back. -/
def sout4_C_1 (c : Dev nD) (i : grid4.Coords) (arg1 : Memref sig .tc .vmem S5000x128 .f32) (harg1 : arg1.IsWhole) (arg2 : Memref sig .tc .vmem S128x128 .f32) (harg2 : arg2.IsWhole) (arg3 : Memref sig .tc .vmem S1x128 .f32) (harg3 : arg3.IsWhole) (arg4 : Memref sig .tc .vmem S128x128 .f32) (harg4 : arg4.IsWhole) (arg5 : Memref sig .tc .vmem S1x128 .f32) (harg5 : arg5.IsWhole) (arg6 : Memref sig .tc .vmem S5000x128 .f32) (harg6 : arg6.IsWhole) (arg7 : Memref sig .tc .vmem S1x128 .f32) (harg7 : arg7.IsWhole) (arg8 : Memref sig .tc .vmem S1x128 .f32) (harg8 : arg8.IsWhole) (arg9 : Memref sig .tc .vmem S1x128 .f32) (harg9 : arg9.IsWhole) (arg10 : Memref sig .tc .vmem S1x128 .f32) (harg10 : arg10.IsWhole) (hc0 : ¬cond4_0 i) (hc1 : cond4_1 i)
    (x0 : Vec F S5000x128 .f32) (x1 : Vec F S128x128 .f32) (x2 : Vec F S1x128 .f32) (x3 : Vec F S128x128 .f32) (x4 : Vec F S1x128 .f32) (xs0 : Vec F S1x128 .f32) (xs1 : Vec F S1x128 .f32) : Vec F S1x128 .f32 :=
  VS4_1.read (Elt F) (VS4_1.writes (Elt F) VS4_1.junk (kernelRun4_C c i arg1 harg1 arg2 harg2 arg3 harg3 arg4 harg4 arg5 harg5 arg6 harg6 arg7 harg7 arg8 harg8 arg9 harg9 arg10 harg10 hc0 hc1 x0 x1 x2 x3 x4 xs0 xs1).2.2.2.2.1)

/-- THE ACCUMULATION. What the three outputs' staging buffers and the two running-sum rows hold after the body at position `n`
    (a tuple: z's block, the two [1,128] outputs, then the two rows): the first point's case zeroes the rows first; every later
    point runs on the rows as the point before left them; the last point also copies them out. The two [1,128] outputs are idle
    before the last point: their component there is a placeholder nothing consults. -/
def outsAt4 (c : Dev nD) : (n : ℕ) → n < cfg4.N → Vec F S5000x128 .f32 × Vec F S1x128 .f32 × Vec F S1x128 .f32 × Vec F S1x128 .f32 × Vec F S1x128 .f32
  | 0, hn => (out4_A_5 c (grid4.coords ⟨0, hn⟩) (ms4_0 ⟨0, hn⟩) (hs4_0 ⟨0, hn⟩) (ms4_1 ⟨0, hn⟩) (hs4_1 ⟨0, hn⟩) (ms4_2 ⟨0, hn⟩) (hs4_2 ⟨0, hn⟩) (ms4_3 ⟨0, hn⟩) (hs4_3 ⟨0, hn⟩) (ms4_4 ⟨0, hn⟩) (hs4_4 ⟨0, hn⟩) (ms4_5 ⟨0, hn⟩) (hs4_5 ⟨0, hn⟩) (ms4_6 ⟨0, hn⟩) (hs4_6 ⟨0, hn⟩) (ms4_7 ⟨0, hn⟩) (hs4_7 ⟨0, hn⟩) scM4_0 (Memref.isWhole_whole _) scM4_1 (Memref.isWhole_whole _) ((hcond4_0 ⟨0, hn⟩).mpr (Nat.zero_mod _)) (fun h => (fun h => by (try dsimp only at h); omega) ((hcond4_1 ⟨0, hn⟩).mp h)) (iblk4 V c 0 ⟨0, hn⟩) (iblk4 V c 1 ⟨0, hn⟩) (iblk4 V c 2 ⟨0, hn⟩) (iblk4 V c 3 ⟨0, hn⟩) (iblk4 V c 4 ⟨0, hn⟩),
      VO4_6.read (Elt F) VO4_6.junk,
      VO4_7.read (Elt F) VO4_7.junk,
      sout4_A_0 c (grid4.coords ⟨0, hn⟩) (ms4_0 ⟨0, hn⟩) (hs4_0 ⟨0, hn⟩) (ms4_1 ⟨0, hn⟩) (hs4_1 ⟨0, hn⟩) (ms4_2 ⟨0, hn⟩) (hs4_2 ⟨0, hn⟩) (ms4_3 ⟨0, hn⟩) (hs4_3 ⟨0, hn⟩) (ms4_4 ⟨0, hn⟩) (hs4_4 ⟨0, hn⟩) (ms4_5 ⟨0, hn⟩) (hs4_5 ⟨0, hn⟩) (ms4_6 ⟨0, hn⟩) (hs4_6 ⟨0, hn⟩) (ms4_7 ⟨0, hn⟩) (hs4_7 ⟨0, hn⟩) scM4_0 (Memref.isWhole_whole _) scM4_1 (Memref.isWhole_whole _) ((hcond4_0 ⟨0, hn⟩).mpr (Nat.zero_mod _)) (fun h => (fun h => by (try dsimp only at h); omega) ((hcond4_1 ⟨0, hn⟩).mp h)) (iblk4 V c 0 ⟨0, hn⟩) (iblk4 V c 1 ⟨0, hn⟩) (iblk4 V c 2 ⟨0, hn⟩) (iblk4 V c 3 ⟨0, hn⟩) (iblk4 V c 4 ⟨0, hn⟩),
      sout4_A_1 c (grid4.coords ⟨0, hn⟩) (ms4_0 ⟨0, hn⟩) (hs4_0 ⟨0, hn⟩) (ms4_1 ⟨0, hn⟩) (hs4_1 ⟨0, hn⟩) (ms4_2 ⟨0, hn⟩) (hs4_2 ⟨0, hn⟩) (ms4_3 ⟨0, hn⟩) (hs4_3 ⟨0, hn⟩) (ms4_4 ⟨0, hn⟩) (hs4_4 ⟨0, hn⟩) (ms4_5 ⟨0, hn⟩) (hs4_5 ⟨0, hn⟩) (ms4_6 ⟨0, hn⟩) (hs4_6 ⟨0, hn⟩) (ms4_7 ⟨0, hn⟩) (hs4_7 ⟨0, hn⟩) scM4_0 (Memref.isWhole_whole _) scM4_1 (Memref.isWhole_whole _) ((hcond4_0 ⟨0, hn⟩).mpr (Nat.zero_mod _)) (fun h => (fun h => by (try dsimp only at h); omega) ((hcond4_1 ⟨0, hn⟩).mp h)) (iblk4 V c 0 ⟨0, hn⟩) (iblk4 V c 1 ⟨0, hn⟩) (iblk4 V c 2 ⟨0, hn⟩) (iblk4 V c 3 ⟨0, hn⟩) (iblk4 V c 4 ⟨0, hn⟩))
  | n + 1, hn =>
    if h1 : (n + 1) % 20 = 19 then
      (out4_C_5 c (grid4.coords ⟨n + 1, hn⟩) (ms4_0 ⟨n + 1, hn⟩) (hs4_0 ⟨n + 1, hn⟩) (ms4_1 ⟨n + 1, hn⟩) (hs4_1 ⟨n + 1, hn⟩) (ms4_2 ⟨n + 1, hn⟩) (hs4_2 ⟨n + 1, hn⟩) (ms4_3 ⟨n + 1, hn⟩) (hs4_3 ⟨n + 1, hn⟩) (ms4_4 ⟨n + 1, hn⟩) (hs4_4 ⟨n + 1, hn⟩) (ms4_5 ⟨n + 1, hn⟩) (hs4_5 ⟨n + 1, hn⟩) (ms4_6 ⟨n + 1, hn⟩) (hs4_6 ⟨n + 1, hn⟩) (ms4_7 ⟨n + 1, hn⟩) (hs4_7 ⟨n + 1, hn⟩) scM4_0 (Memref.isWhole_whole _) scM4_1 (Memref.isWhole_whole _) (fun h => (by have hN : n + 1 < 20 := lt_of_lt_of_eq hn (show cfg4.N = 20 from N_4); omega : ¬(n + 1) % 20 = 0) ((hcond4_0 ⟨n + 1, hn⟩).mp h)) ((hcond4_1 ⟨n + 1, hn⟩).mpr h1) (iblk4 V c 0 ⟨n + 1, hn⟩) (iblk4 V c 1 ⟨n + 1, hn⟩) (iblk4 V c 2 ⟨n + 1, hn⟩) (iblk4 V c 3 ⟨n + 1, hn⟩) (iblk4 V c 4 ⟨n + 1, hn⟩) (outsAt4 c n (Nat.lt_of_succ_lt hn)).2.2.2.1 (outsAt4 c n (Nat.lt_of_succ_lt hn)).2.2.2.2,
      out4_C_6 c (grid4.coords ⟨n + 1, hn⟩) (ms4_0 ⟨n + 1, hn⟩) (hs4_0 ⟨n + 1, hn⟩) (ms4_1 ⟨n + 1, hn⟩) (hs4_1 ⟨n + 1, hn⟩) (ms4_2 ⟨n + 1, hn⟩) (hs4_2 ⟨n + 1, hn⟩) (ms4_3 ⟨n + 1, hn⟩) (hs4_3 ⟨n + 1, hn⟩) (ms4_4 ⟨n + 1, hn⟩) (hs4_4 ⟨n + 1, hn⟩) (ms4_5 ⟨n + 1, hn⟩) (hs4_5 ⟨n + 1, hn⟩) (ms4_6 ⟨n + 1, hn⟩) (hs4_6 ⟨n + 1, hn⟩) (ms4_7 ⟨n + 1, hn⟩) (hs4_7 ⟨n + 1, hn⟩) scM4_0 (Memref.isWhole_whole _) scM4_1 (Memref.isWhole_whole _) (fun h => (by have hN : n + 1 < 20 := lt_of_lt_of_eq hn (show cfg4.N = 20 from N_4); omega : ¬(n + 1) % 20 = 0) ((hcond4_0 ⟨n + 1, hn⟩).mp h)) ((hcond4_1 ⟨n + 1, hn⟩).mpr h1) (iblk4 V c 0 ⟨n + 1, hn⟩) (iblk4 V c 1 ⟨n + 1, hn⟩) (iblk4 V c 2 ⟨n + 1, hn⟩) (iblk4 V c 3 ⟨n + 1, hn⟩) (iblk4 V c 4 ⟨n + 1, hn⟩) (outsAt4 c n (Nat.lt_of_succ_lt hn)).2.2.2.1 (outsAt4 c n (Nat.lt_of_succ_lt hn)).2.2.2.2,
      out4_C_7 c (grid4.coords ⟨n + 1, hn⟩) (ms4_0 ⟨n + 1, hn⟩) (hs4_0 ⟨n + 1, hn⟩) (ms4_1 ⟨n + 1, hn⟩) (hs4_1 ⟨n + 1, hn⟩) (ms4_2 ⟨n + 1, hn⟩) (hs4_2 ⟨n + 1, hn⟩) (ms4_3 ⟨n + 1, hn⟩) (hs4_3 ⟨n + 1, hn⟩) (ms4_4 ⟨n + 1, hn⟩) (hs4_4 ⟨n + 1, hn⟩) (ms4_5 ⟨n + 1, hn⟩) (hs4_5 ⟨n + 1, hn⟩) (ms4_6 ⟨n + 1, hn⟩) (hs4_6 ⟨n + 1, hn⟩) (ms4_7 ⟨n + 1, hn⟩) (hs4_7 ⟨n + 1, hn⟩) scM4_0 (Memref.isWhole_whole _) scM4_1 (Memref.isWhole_whole _) (fun h => (by have hN : n + 1 < 20 := lt_of_lt_of_eq hn (show cfg4.N = 20 from N_4); omega : ¬(n + 1) % 20 = 0) ((hcond4_0 ⟨n + 1, hn⟩).mp h)) ((hcond4_1 ⟨n + 1, hn⟩).mpr h1) (iblk4 V c 0 ⟨n + 1, hn⟩) (iblk4 V c 1 ⟨n + 1, hn⟩) (iblk4 V c 2 ⟨n + 1, hn⟩) (iblk4 V c 3 ⟨n + 1, hn⟩) (iblk4 V c 4 ⟨n + 1, hn⟩) (outsAt4 c n (Nat.lt_of_succ_lt hn)).2.2.2.1 (outsAt4 c n (Nat.lt_of_succ_lt hn)).2.2.2.2,
      sout4_C_0 c (grid4.coords ⟨n + 1, hn⟩) (ms4_0 ⟨n + 1, hn⟩) (hs4_0 ⟨n + 1, hn⟩) (ms4_1 ⟨n + 1, hn⟩) (hs4_1 ⟨n + 1, hn⟩) (ms4_2 ⟨n + 1, hn⟩) (hs4_2 ⟨n + 1, hn⟩) (ms4_3 ⟨n + 1, hn⟩) (hs4_3 ⟨n + 1, hn⟩) (ms4_4 ⟨n + 1, hn⟩) (hs4_4 ⟨n + 1, hn⟩) (ms4_5 ⟨n + 1, hn⟩) (hs4_5 ⟨n + 1, hn⟩) (ms4_6 ⟨n + 1, hn⟩) (hs4_6 ⟨n + 1, hn⟩) (ms4_7 ⟨n + 1, hn⟩) (hs4_7 ⟨n + 1, hn⟩) scM4_0 (Memref.isWhole_whole _) scM4_1 (Memref.isWhole_whole _) (fun h => (by have hN : n + 1 < 20 := lt_of_lt_of_eq hn (show cfg4.N = 20 from N_4); omega : ¬(n + 1) % 20 = 0) ((hcond4_0 ⟨n + 1, hn⟩).mp h)) ((hcond4_1 ⟨n + 1, hn⟩).mpr h1) (iblk4 V c 0 ⟨n + 1, hn⟩) (iblk4 V c 1 ⟨n + 1, hn⟩) (iblk4 V c 2 ⟨n + 1, hn⟩) (iblk4 V c 3 ⟨n + 1, hn⟩) (iblk4 V c 4 ⟨n + 1, hn⟩) (outsAt4 c n (Nat.lt_of_succ_lt hn)).2.2.2.1 (outsAt4 c n (Nat.lt_of_succ_lt hn)).2.2.2.2,
      sout4_C_1 c (grid4.coords ⟨n + 1, hn⟩) (ms4_0 ⟨n + 1, hn⟩) (hs4_0 ⟨n + 1, hn⟩) (ms4_1 ⟨n + 1, hn⟩) (hs4_1 ⟨n + 1, hn⟩) (ms4_2 ⟨n + 1, hn⟩) (hs4_2 ⟨n + 1, hn⟩) (ms4_3 ⟨n + 1, hn⟩) (hs4_3 ⟨n + 1, hn⟩) (ms4_4 ⟨n + 1, hn⟩) (hs4_4 ⟨n + 1, hn⟩) (ms4_5 ⟨n + 1, hn⟩) (hs4_5 ⟨n + 1, hn⟩) (ms4_6 ⟨n + 1, hn⟩) (hs4_6 ⟨n + 1, hn⟩) (ms4_7 ⟨n + 1, hn⟩) (hs4_7 ⟨n + 1, hn⟩) scM4_0 (Memref.isWhole_whole _) scM4_1 (Memref.isWhole_whole _) (fun h => (by have hN : n + 1 < 20 := lt_of_lt_of_eq hn (show cfg4.N = 20 from N_4); omega : ¬(n + 1) % 20 = 0) ((hcond4_0 ⟨n + 1, hn⟩).mp h)) ((hcond4_1 ⟨n + 1, hn⟩).mpr h1) (iblk4 V c 0 ⟨n + 1, hn⟩) (iblk4 V c 1 ⟨n + 1, hn⟩) (iblk4 V c 2 ⟨n + 1, hn⟩) (iblk4 V c 3 ⟨n + 1, hn⟩) (iblk4 V c 4 ⟨n + 1, hn⟩) (outsAt4 c n (Nat.lt_of_succ_lt hn)).2.2.2.1 (outsAt4 c n (Nat.lt_of_succ_lt hn)).2.2.2.2)
    else
      (out4_B_5 c (grid4.coords ⟨n + 1, hn⟩) (ms4_0 ⟨n + 1, hn⟩) (hs4_0 ⟨n + 1, hn⟩) (ms4_1 ⟨n + 1, hn⟩) (hs4_1 ⟨n + 1, hn⟩) (ms4_2 ⟨n + 1, hn⟩) (hs4_2 ⟨n + 1, hn⟩) (ms4_3 ⟨n + 1, hn⟩) (hs4_3 ⟨n + 1, hn⟩) (ms4_4 ⟨n + 1, hn⟩) (hs4_4 ⟨n + 1, hn⟩) (ms4_5 ⟨n + 1, hn⟩) (hs4_5 ⟨n + 1, hn⟩) (ms4_6 ⟨n + 1, hn⟩) (hs4_6 ⟨n + 1, hn⟩) (ms4_7 ⟨n + 1, hn⟩) (hs4_7 ⟨n + 1, hn⟩) scM4_0 (Memref.isWhole_whole _) scM4_1 (Memref.isWhole_whole _) (fun h => (by have hN : n + 1 < 20 := lt_of_lt_of_eq hn (show cfg4.N = 20 from N_4); omega : ¬(n + 1) % 20 = 0) ((hcond4_0 ⟨n + 1, hn⟩).mp h)) (fun h => h1 ((hcond4_1 ⟨n + 1, hn⟩).mp h)) (iblk4 V c 0 ⟨n + 1, hn⟩) (iblk4 V c 1 ⟨n + 1, hn⟩) (iblk4 V c 2 ⟨n + 1, hn⟩) (iblk4 V c 3 ⟨n + 1, hn⟩) (iblk4 V c 4 ⟨n + 1, hn⟩) (outsAt4 c n (Nat.lt_of_succ_lt hn)).2.2.2.1 (outsAt4 c n (Nat.lt_of_succ_lt hn)).2.2.2.2,
      VO4_6.read (Elt F) VO4_6.junk,
      VO4_7.read (Elt F) VO4_7.junk,
      sout4_B_0 c (grid4.coords ⟨n + 1, hn⟩) (ms4_0 ⟨n + 1, hn⟩) (hs4_0 ⟨n + 1, hn⟩) (ms4_1 ⟨n + 1, hn⟩) (hs4_1 ⟨n + 1, hn⟩) (ms4_2 ⟨n + 1, hn⟩) (hs4_2 ⟨n + 1, hn⟩) (ms4_3 ⟨n + 1, hn⟩) (hs4_3 ⟨n + 1, hn⟩) (ms4_4 ⟨n + 1, hn⟩) (hs4_4 ⟨n + 1, hn⟩) (ms4_5 ⟨n + 1, hn⟩) (hs4_5 ⟨n + 1, hn⟩) (ms4_6 ⟨n + 1, hn⟩) (hs4_6 ⟨n + 1, hn⟩) (ms4_7 ⟨n + 1, hn⟩) (hs4_7 ⟨n + 1, hn⟩) scM4_0 (Memref.isWhole_whole _) scM4_1 (Memref.isWhole_whole _) (fun h => (by have hN : n + 1 < 20 := lt_of_lt_of_eq hn (show cfg4.N = 20 from N_4); omega : ¬(n + 1) % 20 = 0) ((hcond4_0 ⟨n + 1, hn⟩).mp h)) (fun h => h1 ((hcond4_1 ⟨n + 1, hn⟩).mp h)) (iblk4 V c 0 ⟨n + 1, hn⟩) (iblk4 V c 1 ⟨n + 1, hn⟩) (iblk4 V c 2 ⟨n + 1, hn⟩) (iblk4 V c 3 ⟨n + 1, hn⟩) (iblk4 V c 4 ⟨n + 1, hn⟩) (outsAt4 c n (Nat.lt_of_succ_lt hn)).2.2.2.1 (outsAt4 c n (Nat.lt_of_succ_lt hn)).2.2.2.2,
      sout4_B_1 c (grid4.coords ⟨n + 1, hn⟩) (ms4_0 ⟨n + 1, hn⟩) (hs4_0 ⟨n + 1, hn⟩) (ms4_1 ⟨n + 1, hn⟩) (hs4_1 ⟨n + 1, hn⟩) (ms4_2 ⟨n + 1, hn⟩) (hs4_2 ⟨n + 1, hn⟩) (ms4_3 ⟨n + 1, hn⟩) (hs4_3 ⟨n + 1, hn⟩) (ms4_4 ⟨n + 1, hn⟩) (hs4_4 ⟨n + 1, hn⟩) (ms4_5 ⟨n + 1, hn⟩) (hs4_5 ⟨n + 1, hn⟩) (ms4_6 ⟨n + 1, hn⟩) (hs4_6 ⟨n + 1, hn⟩) (ms4_7 ⟨n + 1, hn⟩) (hs4_7 ⟨n + 1, hn⟩) scM4_0 (Memref.isWhole_whole _) scM4_1 (Memref.isWhole_whole _) (fun h => (by have hN : n + 1 < 20 := lt_of_lt_of_eq hn (show cfg4.N = 20 from N_4); omega : ¬(n + 1) % 20 = 0) ((hcond4_0 ⟨n + 1, hn⟩).mp h)) (fun h => h1 ((hcond4_1 ⟨n + 1, hn⟩).mp h)) (iblk4 V c 0 ⟨n + 1, hn⟩) (iblk4 V c 1 ⟨n + 1, hn⟩) (iblk4 V c 2 ⟨n + 1, hn⟩) (iblk4 V c 3 ⟨n + 1, hn⟩) (iblk4 V c 4 ⟨n + 1, hn⟩) (outsAt4 c n (Nat.lt_of_succ_lt hn)).2.2.2.1 (outsAt4 c n (Nat.lt_of_succ_lt hn)).2.2.2.2)

/-- `outsAt4` at the first point. -/
theorem outsAt4_A (c : Dev nD) (t : Fin cfg4.N) (h0 : t.val % 20 = 0) (h1 : ¬t.val % 20 = 19) :
    outsAt4 V c t.val t.isLt = (out4_A_5 c (grid4.coords t) (ms4_0 t) (hs4_0 t) (ms4_1 t) (hs4_1 t) (ms4_2 t) (hs4_2 t) (ms4_3 t) (hs4_3 t) (ms4_4 t) (hs4_4 t) (ms4_5 t) (hs4_5 t) (ms4_6 t) (hs4_6 t) (ms4_7 t) (hs4_7 t) scM4_0 (Memref.isWhole_whole _) scM4_1 (Memref.isWhole_whole _) ((hcond4_0 t).mpr h0) (fun h => h1 ((hcond4_1 t).mp h)) (iblk4 V c 0 t) (iblk4 V c 1 t) (iblk4 V c 2 t) (iblk4 V c 3 t) (iblk4 V c 4 t),
      VO4_6.read (Elt F) VO4_6.junk,
      VO4_7.read (Elt F) VO4_7.junk,
      sout4_A_0 c (grid4.coords t) (ms4_0 t) (hs4_0 t) (ms4_1 t) (hs4_1 t) (ms4_2 t) (hs4_2 t) (ms4_3 t) (hs4_3 t) (ms4_4 t) (hs4_4 t) (ms4_5 t) (hs4_5 t) (ms4_6 t) (hs4_6 t) (ms4_7 t) (hs4_7 t) scM4_0 (Memref.isWhole_whole _) scM4_1 (Memref.isWhole_whole _) ((hcond4_0 t).mpr h0) (fun h => h1 ((hcond4_1 t).mp h)) (iblk4 V c 0 t) (iblk4 V c 1 t) (iblk4 V c 2 t) (iblk4 V c 3 t) (iblk4 V c 4 t),
      sout4_A_1 c (grid4.coords t) (ms4_0 t) (hs4_0 t) (ms4_1 t) (hs4_1 t) (ms4_2 t) (hs4_2 t) (ms4_3 t) (hs4_3 t) (ms4_4 t) (hs4_4 t) (ms4_5 t) (hs4_5 t) (ms4_6 t) (hs4_6 t) (ms4_7 t) (hs4_7 t) scM4_0 (Memref.isWhole_whole _) scM4_1 (Memref.isWhole_whole _) ((hcond4_0 t).mpr h0) (fun h => h1 ((hcond4_1 t).mp h)) (iblk4 V c 0 t) (iblk4 V c 1 t) (iblk4 V c 2 t) (iblk4 V c 3 t) (iblk4 V c 4 t)) := by
  obtain ⟨n, hn⟩ := t
  cases n with
  | zero => exact rfl
  | succ n => exact (by exfalso; have hN : n + 1 < 20 := lt_of_lt_of_eq hn (show cfg4.N = 20 from N_4); (try dsimp only at h0); omega)

/-- `outsAt4` at a middle point: that case's contents, over what the point before left. -/
theorem outsAt4_B (c : Dev nD) (t : Fin cfg4.N) (h0 : ¬t.val % 20 = 0) (h1 : ¬t.val % 20 = 19) :
    outsAt4 V c t.val t.isLt = (out4_B_5 c (grid4.coords t) (ms4_0 t) (hs4_0 t) (ms4_1 t) (hs4_1 t) (ms4_2 t) (hs4_2 t) (ms4_3 t) (hs4_3 t) (ms4_4 t) (hs4_4 t) (ms4_5 t) (hs4_5 t) (ms4_6 t) (hs4_6 t) (ms4_7 t) (hs4_7 t) scM4_0 (Memref.isWhole_whole _) scM4_1 (Memref.isWhole_whole _) (fun h => h0 ((hcond4_0 t).mp h)) (fun h => h1 ((hcond4_1 t).mp h)) (iblk4 V c 0 t) (iblk4 V c 1 t) (iblk4 V c 2 t) (iblk4 V c 3 t) (iblk4 V c 4 t) (outsAt4 V c (t.val - 1) (Nat.lt_of_le_of_lt (Nat.sub_le _ _) t.isLt)).2.2.2.1 (outsAt4 V c (t.val - 1) (Nat.lt_of_le_of_lt (Nat.sub_le _ _) t.isLt)).2.2.2.2,
      VO4_6.read (Elt F) VO4_6.junk,
      VO4_7.read (Elt F) VO4_7.junk,
      sout4_B_0 c (grid4.coords t) (ms4_0 t) (hs4_0 t) (ms4_1 t) (hs4_1 t) (ms4_2 t) (hs4_2 t) (ms4_3 t) (hs4_3 t) (ms4_4 t) (hs4_4 t) (ms4_5 t) (hs4_5 t) (ms4_6 t) (hs4_6 t) (ms4_7 t) (hs4_7 t) scM4_0 (Memref.isWhole_whole _) scM4_1 (Memref.isWhole_whole _) (fun h => h0 ((hcond4_0 t).mp h)) (fun h => h1 ((hcond4_1 t).mp h)) (iblk4 V c 0 t) (iblk4 V c 1 t) (iblk4 V c 2 t) (iblk4 V c 3 t) (iblk4 V c 4 t) (outsAt4 V c (t.val - 1) (Nat.lt_of_le_of_lt (Nat.sub_le _ _) t.isLt)).2.2.2.1 (outsAt4 V c (t.val - 1) (Nat.lt_of_le_of_lt (Nat.sub_le _ _) t.isLt)).2.2.2.2,
      sout4_B_1 c (grid4.coords t) (ms4_0 t) (hs4_0 t) (ms4_1 t) (hs4_1 t) (ms4_2 t) (hs4_2 t) (ms4_3 t) (hs4_3 t) (ms4_4 t) (hs4_4 t) (ms4_5 t) (hs4_5 t) (ms4_6 t) (hs4_6 t) (ms4_7 t) (hs4_7 t) scM4_0 (Memref.isWhole_whole _) scM4_1 (Memref.isWhole_whole _) (fun h => h0 ((hcond4_0 t).mp h)) (fun h => h1 ((hcond4_1 t).mp h)) (iblk4 V c 0 t) (iblk4 V c 1 t) (iblk4 V c 2 t) (iblk4 V c 3 t) (iblk4 V c 4 t) (outsAt4 V c (t.val - 1) (Nat.lt_of_le_of_lt (Nat.sub_le _ _) t.isLt)).2.2.2.1 (outsAt4 V c (t.val - 1) (Nat.lt_of_le_of_lt (Nat.sub_le _ _) t.isLt)).2.2.2.2) := by
  obtain ⟨n, hn⟩ := t
  cases n with
  | zero => exact (by exfalso; (try dsimp only at h0); exact absurd (Nat.zero_mod _) h0)
  | succ n => exact (dif_neg h1).trans rfl

/-- `outsAt4` at the last point. -/
theorem outsAt4_C (c : Dev nD) (t : Fin cfg4.N) (h0 : ¬t.val % 20 = 0) (h1 : t.val % 20 = 19) :
    outsAt4 V c t.val t.isLt = (out4_C_5 c (grid4.coords t) (ms4_0 t) (hs4_0 t) (ms4_1 t) (hs4_1 t) (ms4_2 t) (hs4_2 t) (ms4_3 t) (hs4_3 t) (ms4_4 t) (hs4_4 t) (ms4_5 t) (hs4_5 t) (ms4_6 t) (hs4_6 t) (ms4_7 t) (hs4_7 t) scM4_0 (Memref.isWhole_whole _) scM4_1 (Memref.isWhole_whole _) (fun h => h0 ((hcond4_0 t).mp h)) ((hcond4_1 t).mpr h1) (iblk4 V c 0 t) (iblk4 V c 1 t) (iblk4 V c 2 t) (iblk4 V c 3 t) (iblk4 V c 4 t) (outsAt4 V c (t.val - 1) (Nat.lt_of_le_of_lt (Nat.sub_le _ _) t.isLt)).2.2.2.1 (outsAt4 V c (t.val - 1) (Nat.lt_of_le_of_lt (Nat.sub_le _ _) t.isLt)).2.2.2.2,
      out4_C_6 c (grid4.coords t) (ms4_0 t) (hs4_0 t) (ms4_1 t) (hs4_1 t) (ms4_2 t) (hs4_2 t) (ms4_3 t) (hs4_3 t) (ms4_4 t) (hs4_4 t) (ms4_5 t) (hs4_5 t) (ms4_6 t) (hs4_6 t) (ms4_7 t) (hs4_7 t) scM4_0 (Memref.isWhole_whole _) scM4_1 (Memref.isWhole_whole _) (fun h => h0 ((hcond4_0 t).mp h)) ((hcond4_1 t).mpr h1) (iblk4 V c 0 t) (iblk4 V c 1 t) (iblk4 V c 2 t) (iblk4 V c 3 t) (iblk4 V c 4 t) (outsAt4 V c (t.val - 1) (Nat.lt_of_le_of_lt (Nat.sub_le _ _) t.isLt)).2.2.2.1 (outsAt4 V c (t.val - 1) (Nat.lt_of_le_of_lt (Nat.sub_le _ _) t.isLt)).2.2.2.2,
      out4_C_7 c (grid4.coords t) (ms4_0 t) (hs4_0 t) (ms4_1 t) (hs4_1 t) (ms4_2 t) (hs4_2 t) (ms4_3 t) (hs4_3 t) (ms4_4 t) (hs4_4 t) (ms4_5 t) (hs4_5 t) (ms4_6 t) (hs4_6 t) (ms4_7 t) (hs4_7 t) scM4_0 (Memref.isWhole_whole _) scM4_1 (Memref.isWhole_whole _) (fun h => h0 ((hcond4_0 t).mp h)) ((hcond4_1 t).mpr h1) (iblk4 V c 0 t) (iblk4 V c 1 t) (iblk4 V c 2 t) (iblk4 V c 3 t) (iblk4 V c 4 t) (outsAt4 V c (t.val - 1) (Nat.lt_of_le_of_lt (Nat.sub_le _ _) t.isLt)).2.2.2.1 (outsAt4 V c (t.val - 1) (Nat.lt_of_le_of_lt (Nat.sub_le _ _) t.isLt)).2.2.2.2,
      sout4_C_0 c (grid4.coords t) (ms4_0 t) (hs4_0 t) (ms4_1 t) (hs4_1 t) (ms4_2 t) (hs4_2 t) (ms4_3 t) (hs4_3 t) (ms4_4 t) (hs4_4 t) (ms4_5 t) (hs4_5 t) (ms4_6 t) (hs4_6 t) (ms4_7 t) (hs4_7 t) scM4_0 (Memref.isWhole_whole _) scM4_1 (Memref.isWhole_whole _) (fun h => h0 ((hcond4_0 t).mp h)) ((hcond4_1 t).mpr h1) (iblk4 V c 0 t) (iblk4 V c 1 t) (iblk4 V c 2 t) (iblk4 V c 3 t) (iblk4 V c 4 t) (outsAt4 V c (t.val - 1) (Nat.lt_of_le_of_lt (Nat.sub_le _ _) t.isLt)).2.2.2.1 (outsAt4 V c (t.val - 1) (Nat.lt_of_le_of_lt (Nat.sub_le _ _) t.isLt)).2.2.2.2,
      sout4_C_1 c (grid4.coords t) (ms4_0 t) (hs4_0 t) (ms4_1 t) (hs4_1 t) (ms4_2 t) (hs4_2 t) (ms4_3 t) (hs4_3 t) (ms4_4 t) (hs4_4 t) (ms4_5 t) (hs4_5 t) (ms4_6 t) (hs4_6 t) (ms4_7 t) (hs4_7 t) scM4_0 (Memref.isWhole_whole _) scM4_1 (Memref.isWhole_whole _) (fun h => h0 ((hcond4_0 t).mp h)) ((hcond4_1 t).mpr h1) (iblk4 V c 0 t) (iblk4 V c 1 t) (iblk4 V c 2 t) (iblk4 V c 3 t) (iblk4 V c 4 t) (outsAt4 V c (t.val - 1) (Nat.lt_of_le_of_lt (Nat.sub_le _ _) t.isLt)).2.2.2.1 (outsAt4 V c (t.val - 1) (Nat.lt_of_le_of_lt (Nat.sub_le _ _) t.isLt)).2.2.2.2) := by
  obtain ⟨n, hn⟩ := t
  cases n with
  | zero => exact (by exfalso; (try dsimp only at h0); exact absurd (Nat.zero_mod _) h0)
  | succ n => exact (dif_pos h1).trans rfl

/-- The region invariant before position `n`: before the first point the class's (every scoped buffer at anything); afterwards the
    two running-sum rows at what the point before left in them, every other scoped buffer unopened at anything, and the generator
    register at some state. -/
def PhiS4 (c : Dev nD) : (n : ℕ) → n ≤ cfg4.N → sProp 𝕄
  | 0, _ => Pipeline.ΦA spec4 c
  | n + 1, hn => iprop(iprop(iprop(owns (c : Thread nD τ) scM4_0 fullShare (outsAt4 V c n hn).2.2.2.1 ∗ owns (c : Thread nD τ) scM4_1 fullShare (outsAt4 V c n hn).2.2.2.2) ∗ Pipeline.scopedRestBut (Ix := Unit) (Name := ℕ) (U := UR sig nD τ) (Lvl := ℕ) (Val := Elt F) spec4 c [cc4_scratch0, cc4_scratch1]) ∗ (∃ r, prngReg c r))

theorem PhiS4_zero (c : Dev nD) (n : ℕ) (h : n ≤ cfg4.N) (hz : n = 0) : PhiS4 V c n h = Pipeline.ΦA spec4 c := by
  subst hz; rfl

theorem PhiS4_succ (c : Dev nD) (n : ℕ) (hn : n < cfg4.N) :
    PhiS4 V c (n + 1) hn = iprop(iprop(iprop(owns (c : Thread nD τ) scM4_0 fullShare (outsAt4 V c n hn).2.2.2.1 ∗ owns (c : Thread nD τ) scM4_1 fullShare (outsAt4 V c n hn).2.2.2.2) ∗ Pipeline.scopedRestBut (Ix := Unit) (Name := ℕ) (U := UR sig nD τ) (Lvl := ℕ) (Val := Elt F) spec4 c [cc4_scratch0, cc4_scratch1]) ∗ (∃ r, prngReg c r)) := rfl

theorem PhiS4_pos (c : Dev nD) (n : ℕ) (h : n ≤ cfg4.N) (hz : n ≠ 0) :
    PhiS4 V c n h = iprop(iprop(iprop(owns (c : Thread nD τ) scM4_0 fullShare (outsAt4 V c (n - 1) (by omega)).2.2.2.1 ∗ owns (c : Thread nD τ) scM4_1 fullShare (outsAt4 V c (n - 1) (by omega)).2.2.2.2) ∗ Pipeline.scopedRestBut (Ix := Unit) (Name := ℕ) (U := UR sig nD τ) (Lvl := ℕ) (Val := Elt F) spec4 c [cc4_scratch0, cc4_scratch1]) ∗ (∃ r, prngReg c r)) := by
  cases n with
  | zero => exact absurd rfl hz
  | succ n => rfl

/-! ## The pipeline's proof data -/

/-- The proof data of region 4 on core `c`: the arrays as the region finds them; after the body at point `t` each input's buffer
    at its block and the outputs' at `outsAt4`; the invariant `PhiS4`; nothing owed; full shares. -/
def dat4 (c : Dev nD) : Dat τ (Elt F) Unit ℕ (UR sig nD τ) ℕ cfg4 c where
  A w := V c (Pipeline.arrRef spec4 w)
  after w t := match w with
    | ⟨0, _⟩ => iblk4 V c 0 t
    | ⟨1, _⟩ => iblk4 V c 1 t
    | ⟨2, _⟩ => iblk4 V c 2 t
    | ⟨3, _⟩ => iblk4 V c 3 t
    | ⟨4, _⟩ => iblk4 V c 4 t
    | ⟨5, _⟩ => (outsAt4 V c t.val t.isLt).1
    | ⟨6, _⟩ => (outsAt4 V c t.val t.isLt).2.1
    | ⟨7, _⟩ => (outsAt4 V c t.val t.isLt).2.2.1
  Φ t := PhiS4 V c t.val (Nat.le_of_lt_succ t.isLt)
  q _ := fullShare
  owed _ := 0

theorem A_eq4 (c : Dev nD) (w : Fin cfg4.W) : (dat4 V c).A w = V c (Pipeline.arrRef spec4 w) := by
  dsimp only [dat4]

theorem PhiS4_castSucc (c : Dev nD) (t : Fin cfg4.N) :
    (dat4 V c).Φ t.castSucc = PhiS4 V c t.val (Nat.le_of_lt t.isLt) := by
  dsimp only [dat4]; simp only [Fin.coe_castSucc]

theorem after4_0 (c : Dev nD) (t : Fin cfg4.N) : (dat4 V c).after 0 t = iblk4 V c 0 t := by dsimp only [dat4]
theorem after4_1 (c : Dev nD) (t : Fin cfg4.N) : (dat4 V c).after 1 t = iblk4 V c 1 t := by dsimp only [dat4]
theorem after4_2 (c : Dev nD) (t : Fin cfg4.N) : (dat4 V c).after 2 t = iblk4 V c 2 t := by dsimp only [dat4]
theorem after4_3 (c : Dev nD) (t : Fin cfg4.N) : (dat4 V c).after 3 t = iblk4 V c 3 t := by dsimp only [dat4]
theorem after4_4 (c : Dev nD) (t : Fin cfg4.N) : (dat4 V c).after 4 t = iblk4 V c 4 t := by dsimp only [dat4]
theorem after4_5 (c : Dev nD) (t : Fin cfg4.N) : (dat4 V c).after 5 t = (outsAt4 V c t.val t.isLt).1 := by dsimp only [dat4]
theorem after4_6 (c : Dev nD) (t : Fin cfg4.N) : (dat4 V c).after 6 t = (outsAt4 V c t.val t.isLt).2.1 := by dsimp only [dat4]
theorem after4_7 (c : Dev nD) (t : Fin cfg4.N) : (dat4 V c).after 7 t = (outsAt4 V c t.val t.isLt).2.2.1 := by dsimp only [dat4]

theorem before4_0 (c : Dev nD) (t : Fin cfg4.N) (d) : (dat4 V c).before 0 t d = iblk4 V c 0 t :=
  before4_0_of V (dat4 V c) (A_eq4 V c 0) (after4_0 V c) t d
theorem before4_1 (c : Dev nD) (t : Fin cfg4.N) (d) : (dat4 V c).before 1 t d = iblk4 V c 1 t :=
  before4_1_of V (dat4 V c) (A_eq4 V c 1) (after4_1 V c) t d
theorem before4_2 (c : Dev nD) (t : Fin cfg4.N) (d) : (dat4 V c).before 2 t d = iblk4 V c 2 t :=
  before4_2_of V (dat4 V c) (A_eq4 V c 2) (after4_2 V c) t d
theorem before4_3 (c : Dev nD) (t : Fin cfg4.N) (d) : (dat4 V c).before 3 t d = iblk4 V c 3 t :=
  before4_3_of V (dat4 V c) (A_eq4 V c 3) (after4_3 V c) t d
theorem before4_4 (c : Dev nD) (t : Fin cfg4.N) (d) : (dat4 V c).before 4 t d = iblk4 V c 4 t :=
  before4_4_of V (dat4 V c) (A_eq4 V c 4) (after4_4 V c) t d

/-! ## The body obligation, at a generic point -/

def bodyPre4 (c : Dev nD) (t : Fin cfg4.N) : sProp 𝕄 :=
  iprop((dat4 V c).Φ t.castSucc ∗ (dat4 V c).owesAt () t.castSucc
    ∗ (∃ d, owns (c : Thread nD τ) (ms4_0 t) fullShare ((dat4 V c).before 0 t d))
    ∗ (∃ d, owns (c : Thread nD τ) (ms4_1 t) fullShare ((dat4 V c).before 1 t d))
    ∗ (∃ d, owns (c : Thread nD τ) (ms4_2 t) fullShare ((dat4 V c).before 2 t d))
    ∗ (∃ d, owns (c : Thread nD τ) (ms4_3 t) fullShare ((dat4 V c).before 3 t d))
    ∗ (∃ d, owns (c : Thread nD τ) (ms4_4 t) fullShare ((dat4 V c).before 4 t d))
    ∗ (∃ d, owns (c : Thread nD τ) (ms4_5 t) fullShare ((dat4 V c).before 5 t d))
    ∗ (∃ d, owns (c : Thread nD τ) (ms4_6 t) fullShare ((dat4 V c).before 6 t d))
    ∗ (∃ d, owns (c : Thread nD τ) (ms4_7 t) fullShare ((dat4 V c).before 7 t d)))

def bodyPost4 (c : Dev nD) (t : Fin cfg4.N) : sProp 𝕄 :=
  iprop((dat4 V c).Φ t.succ ∗ (dat4 V c).owesAt () t.succ
    ∗ (dat4 V c).leavesExact 0 t
    ∗ (dat4 V c).leavesExact 1 t
    ∗ (dat4 V c).leavesExact 2 t
    ∗ (dat4 V c).leavesExact 3 t
    ∗ (dat4 V c).leavesExact 4 t
    ∗ (dat4 V c).leavesExact 5 t
    ∗ (dat4 V c).leavesExact 6 t
    ∗ (dat4 V c).leavesExact 7 t)

set_option maxHeartbeats 8000000 in
/-- The body at any point. The inputs' memrefs hold their blocks; the closed forms of the two conditions say which case the point
    is in; the invariant hands the body the two running-sum rows (at anything at the first point, at what the point before left
    afterwards) and takes them back at this point's contents; the core owes nothing throughout. -/
theorem sound_body4 (c : Dev nD) (t : Fin cfg4.N) :
    bodyPre4 V c t ⊢ wp frame (wpE (defs₀ (F := F)) Variants.none c none) Set.univ (bodyAt4 t) (fun _ => bodyPost4 V c t) := by
  unfold bodyPre4 bodyPost4 bodyAt4
  simp only [before4_0, before4_1, before4_2, before4_3, before4_4]
  rw [show (dat4 V c).owesAt () t.succ = (dat4 V c).owesAt () t.castSucc from rfl]
  rw [show (dat4 V c).Φ t.succ = PhiS4 V c (t.val + 1) t.isLt from rfl, PhiS4_succ]
  have hN : t.val < 20 := lt_of_lt_of_eq t.isLt (show cfg4.N = 20 from N_4)
  by_cases h0 : t.val % 20 = 0
  · have h1 : ¬t.val % 20 = 19 := by omega
    have hz : t.val = 0 := by omega
    rw [show (dat4 V c).leavesExact 0 t = owns (c : Thread nD τ) (ms4_0 t) fullShare ((dat4 V c).after 0 t) from by
      unfold Dat.leavesExact; rw [liveAt4_0 t], after4_0]
    rw [show (dat4 V c).leavesExact 1 t = owns (c : Thread nD τ) (ms4_1 t) fullShare ((dat4 V c).after 1 t) from by
      unfold Dat.leavesExact; rw [liveAt4_1 t], after4_1]
    rw [show (dat4 V c).leavesExact 2 t = owns (c : Thread nD τ) (ms4_2 t) fullShare ((dat4 V c).after 2 t) from by
      unfold Dat.leavesExact; rw [liveAt4_2 t], after4_2]
    rw [show (dat4 V c).leavesExact 3 t = owns (c : Thread nD τ) (ms4_3 t) fullShare ((dat4 V c).after 3 t) from by
      unfold Dat.leavesExact; rw [liveAt4_3 t], after4_3]
    rw [show (dat4 V c).leavesExact 4 t = owns (c : Thread nD τ) (ms4_4 t) fullShare ((dat4 V c).after 4 t) from by
      unfold Dat.leavesExact; rw [liveAt4_4 t], after4_4]
    rw [show (dat4 V c).leavesExact 5 t = owns (c : Thread nD τ) (ms4_5 t) fullShare ((dat4 V c).after 5 t) from by
      unfold Dat.leavesExact; rw [liveAt4_5 t], after4_5]
    rw [Dat.leavesExact_idle (dat4 V c) 6 t (idleAt4_6 t (fun h => h1 ((hcond4_1 t).mp h))) (noFlush4_6 t (fun h => h1 ((hcond4_1 t).mp h)))]
    rw [Dat.leavesExact_idle (dat4 V c) 7 t (idleAt4_7 t (fun h => h1 ((hcond4_1 t).mp h))) (noFlush4_7 t (fun h => h1 ((hcond4_1 t).mp h)))]
    rw [outsAt4_A V c t h0 h1]
    unfold out4_A_5 sout4_A_0 sout4_A_1; (try dsimp only)
    rw [PhiS4_castSucc V c t, PhiS4_zero V c _ _ hz, PhiA4_eq]
    ·
      iintro ⟨⟨⟨⟨HS0, HS1⟩, HR⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩⟩
      iapply ((kernelRun4_A c (grid4.coords t) _ _ _ _ _ _ _ _ _ _ _ _ _ _ _ _ _ _ _ _ ((hcond4_0 t).mpr h0) (fun h => h1 ((hcond4_1 t).mp h)) (iblk4 V c 0 t) (iblk4 V c 1 t) (iblk4 V c 2 t) (iblk4 V c 3 t) (iblk4 V c 4 t)).2.2.2.2.2 _ _ Set.univ _)
      isplitl [H0]; · iexact H0
      isplitl [H1]; · iexact H1
      isplitl [H2]; · iexact H2
      isplitl [H3]; · iexact H3
      isplitl [H4]; · iexact H4
      isplitl [H5]; · iexists _; iexact H5
      isplitl [H6]; · iexact H6
      isplitl [H7]; · iexact H7
      isplitl [HS0]; · iexact HS0
      isplitl [HS1]; · iexact HS1
      iintro ⟨H0, H1, H2, H3, H4, ⟨%e5, H5⟩, H6, H7, ⟨%es0, HS0⟩, ⟨%es1, HS1⟩⟩
      isplitl [HS0 HS1 HR Hg]
      · isplitl [HS0 HS1 HR]
        · isplitl [HS0 HS1]
          · isplitl [HS0]
            · unfold owns; iexists _; isplitr
              swap; · iexact HS0
              ipureintro; exact View.read_writes_of_cover _ _ _ _ _ (scover4_A_0 c _ _ _ _ _ _ _ _ _ _ _ _ _ _ _ _ _ _ _ _ _ _ _ _ _ _ _ _)
            · unfold owns; iexists _; isplitr
              swap; · iexact HS1
              ipureintro; exact View.read_writes_of_cover _ _ _ _ _ (scover4_A_1 c _ _ _ _ _ _ _ _ _ _ _ _ _ _ _ _ _ _ _ _ _ _ _ _ _ _ _ _)
          iexact HR
        iexact Hg
      isplitl [Ho]; · iexact Ho
      isplitl [H0]; · iexact H0
      isplitl [H1]; · iexact H1
      isplitl [H2]; · iexact H2
      isplitl [H3]; · iexact H3
      isplitl [H4]; · iexact H4
      isplitl [H5]
      · unfold owns; iexists _; isplitr
        swap; · iexact H5
        ipureintro; exact View.read_writes_of_cover _ _ _ _ _ (cover4_A_5 c _ _ _ _ _ _ _ _ _ _ _ _ _ _ _ _ _ _ _ _ _ _ _ _ _ _ _ _)
      isplitl [H6]; · iexists _; iexact H6
      iexists _; iexact H7
  · have hz : t.val ≠ 0 := by omega
    by_cases h1 : t.val % 20 = 19
    ·
      rw [show (dat4 V c).leavesExact 0 t = owns (c : Thread nD τ) (ms4_0 t) fullShare ((dat4 V c).after 0 t) from by
        unfold Dat.leavesExact; rw [liveAt4_0 t], after4_0]
      rw [show (dat4 V c).leavesExact 1 t = owns (c : Thread nD τ) (ms4_1 t) fullShare ((dat4 V c).after 1 t) from by
        unfold Dat.leavesExact; rw [liveAt4_1 t], after4_1]
      rw [show (dat4 V c).leavesExact 2 t = owns (c : Thread nD τ) (ms4_2 t) fullShare ((dat4 V c).after 2 t) from by
        unfold Dat.leavesExact; rw [liveAt4_2 t], after4_2]
      rw [show (dat4 V c).leavesExact 3 t = owns (c : Thread nD τ) (ms4_3 t) fullShare ((dat4 V c).after 3 t) from by
        unfold Dat.leavesExact; rw [liveAt4_3 t], after4_3]
      rw [show (dat4 V c).leavesExact 4 t = owns (c : Thread nD τ) (ms4_4 t) fullShare ((dat4 V c).after 4 t) from by
        unfold Dat.leavesExact; rw [liveAt4_4 t], after4_4]
      rw [show (dat4 V c).leavesExact 5 t = owns (c : Thread nD τ) (ms4_5 t) fullShare ((dat4 V c).after 5 t) from by
        unfold Dat.leavesExact; rw [liveAt4_5 t], after4_5]
      rw [show (dat4 V c).leavesExact 6 t = owns (c : Thread nD τ) (ms4_6 t) fullShare ((dat4 V c).after 6 t) from by
        unfold Dat.leavesExact; rw [liveAt4_6_C t ((hcond4_1 t).mpr h1)], after4_6]
      rw [show (dat4 V c).leavesExact 7 t = owns (c : Thread nD τ) (ms4_7 t) fullShare ((dat4 V c).after 7 t) from by
        unfold Dat.leavesExact; rw [liveAt4_7_C t ((hcond4_1 t).mpr h1)], after4_7]
      rw [outsAt4_C V c t h0 h1]
      unfold out4_C_5 out4_C_6 out4_C_7 sout4_C_0 sout4_C_1; (try dsimp only)
      rw [PhiS4_castSucc V c t, PhiS4_pos V c _ _ hz]
      iintro ⟨⟨⟨⟨HS0, HS1⟩, HR⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩⟩
      iapply ((kernelRun4_C c (grid4.coords t) _ _ _ _ _ _ _ _ _ _ _ _ _ _ _ _ _ _ _ _ (fun h => h0 ((hcond4_0 t).mp h)) ((hcond4_1 t).mpr h1) (iblk4 V c 0 t) (iblk4 V c 1 t) (iblk4 V c 2 t) (iblk4 V c 3 t) (iblk4 V c 4 t) _ _).2.2.2.2.2 Set.univ _)
      isplitl [H0]; · iexact H0
      isplitl [H1]; · iexact H1
      isplitl [H2]; · iexact H2
      isplitl [H3]; · iexact H3
      isplitl [H4]; · iexact H4
      isplitl [H5]; · iexists _; iexact H5
      isplitl [H6]; · iexists _; iexact H6
      isplitl [H7]; · iexists _; iexact H7
      isplitl [HS0]; · iexact HS0
      isplitl [HS1]; · iexact HS1
      iintro ⟨H0, H1, H2, H3, H4, ⟨%e5, H5⟩, ⟨%e6, H6⟩, ⟨%e7, H7⟩, ⟨%es0, HS0⟩, ⟨%es1, HS1⟩⟩
      isplitl [HS0 HS1 HR Hg]
      · isplitl [HS0 HS1 HR]
        · isplitl [HS0 HS1]
          · isplitl [HS0]
            · unfold owns; iexists _; isplitr
              swap; · iexact HS0
              ipureintro; exact View.read_writes_of_cover _ _ _ _ _ (scover4_C_0 c _ _ _ _ _ _ _ _ _ _ _ _ _ _ _ _ _ _ _ _ _ _ _ _ _ _ _ _ _ _)
            · unfold owns; iexists _; isplitr
              swap; · iexact HS1
              ipureintro; exact View.read_writes_of_cover _ _ _ _ _ (scover4_C_1 c _ _ _ _ _ _ _ _ _ _ _ _ _ _ _ _ _ _ _ _ _ _ _ _ _ _ _ _ _ _)
          iexact HR
        iexact Hg
      isplitl [Ho]; · iexact Ho
      isplitl [H0]; · iexact H0
      isplitl [H1]; · iexact H1
      isplitl [H2]; · iexact H2
      isplitl [H3]; · iexact H3
      isplitl [H4]; · iexact H4
      isplitl [H5]
      · unfold owns; iexists _; isplitr
        swap; · iexact H5
        ipureintro; exact View.read_writes_of_cover _ _ _ _ _ (cover4_C_5 c _ _ _ _ _ _ _ _ _ _ _ _ _ _ _ _ _ _ _ _ _ _ _ _ _ _ _ _ _ _)
      isplitl [H6]
      · unfold owns; iexists _; isplitr
        swap; · iexact H6
        ipureintro; exact View.read_writes_of_cover _ _ _ _ _ (cover4_C_6 c _ _ _ _ _ _ _ _ _ _ _ _ _ _ _ _ _ _ _ _ _ _ _ _ _ _ _ _ _ _)
      · unfold owns; iexists _; isplitr
        swap; · iexact H7
        ipureintro; exact View.read_writes_of_cover _ _ _ _ _ (cover4_C_7 c _ _ _ _ _ _ _ _ _ _ _ _ _ _ _ _ _ _ _ _ _ _ _ _ _ _ _ _ _ _)
    ·
      rw [show (dat4 V c).leavesExact 0 t = owns (c : Thread nD τ) (ms4_0 t) fullShare ((dat4 V c).after 0 t) from by
        unfold Dat.leavesExact; rw [liveAt4_0 t], after4_0]
      rw [show (dat4 V c).leavesExact 1 t = owns (c : Thread nD τ) (ms4_1 t) fullShare ((dat4 V c).after 1 t) from by
        unfold Dat.leavesExact; rw [liveAt4_1 t], after4_1]
      rw [show (dat4 V c).leavesExact 2 t = owns (c : Thread nD τ) (ms4_2 t) fullShare ((dat4 V c).after 2 t) from by
        unfold Dat.leavesExact; rw [liveAt4_2 t], after4_2]
      rw [show (dat4 V c).leavesExact 3 t = owns (c : Thread nD τ) (ms4_3 t) fullShare ((dat4 V c).after 3 t) from by
        unfold Dat.leavesExact; rw [liveAt4_3 t], after4_3]
      rw [show (dat4 V c).leavesExact 4 t = owns (c : Thread nD τ) (ms4_4 t) fullShare ((dat4 V c).after 4 t) from by
        unfold Dat.leavesExact; rw [liveAt4_4 t], after4_4]
      rw [show (dat4 V c).leavesExact 5 t = owns (c : Thread nD τ) (ms4_5 t) fullShare ((dat4 V c).after 5 t) from by
        unfold Dat.leavesExact; rw [liveAt4_5 t], after4_5]
      rw [Dat.leavesExact_idle (dat4 V c) 6 t (idleAt4_6 t (fun h => h1 ((hcond4_1 t).mp h))) (noFlush4_6 t (fun h => h1 ((hcond4_1 t).mp h)))]
      rw [Dat.leavesExact_idle (dat4 V c) 7 t (idleAt4_7 t (fun h => h1 ((hcond4_1 t).mp h))) (noFlush4_7 t (fun h => h1 ((hcond4_1 t).mp h)))]
      rw [outsAt4_B V c t h0 h1]
      unfold out4_B_5 sout4_B_0 sout4_B_1; (try dsimp only)
      rw [PhiS4_castSucc V c t, PhiS4_pos V c _ _ hz]
      iintro ⟨⟨⟨⟨HS0, HS1⟩, HR⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩⟩
      iapply ((kernelRun4_B c (grid4.coords t) _ _ _ _ _ _ _ _ _ _ _ _ _ _ _ _ _ _ _ _ (fun h => h0 ((hcond4_0 t).mp h)) (fun h => h1 ((hcond4_1 t).mp h)) (iblk4 V c 0 t) (iblk4 V c 1 t) (iblk4 V c 2 t) (iblk4 V c 3 t) (iblk4 V c 4 t) _ _).2.2.2.2.2 _ _ Set.univ _)
      isplitl [H0]; · iexact H0
      isplitl [H1]; · iexact H1
      isplitl [H2]; · iexact H2
      isplitl [H3]; · iexact H3
      isplitl [H4]; · iexact H4
      isplitl [H5]; · iexists _; iexact H5
      isplitl [H6]; · iexact H6
      isplitl [H7]; · iexact H7
      isplitl [HS0]; · iexact HS0
      isplitl [HS1]; · iexact HS1
      iintro ⟨H0, H1, H2, H3, H4, ⟨%e5, H5⟩, H6, H7, ⟨%es0, HS0⟩, ⟨%es1, HS1⟩⟩
      isplitl [HS0 HS1 HR Hg]
      · isplitl [HS0 HS1 HR]
        · isplitl [HS0 HS1]
          · isplitl [HS0]
            · unfold owns; iexists _; isplitr
              swap; · iexact HS0
              ipureintro; exact View.read_writes_of_cover _ _ _ _ _ (scover4_B_0 c _ _ _ _ _ _ _ _ _ _ _ _ _ _ _ _ _ _ _ _ _ _ _ _ _ _ _ _ _ _)
            · unfold owns; iexists _; isplitr
              swap; · iexact HS1
              ipureintro; exact View.read_writes_of_cover _ _ _ _ _ (scover4_B_1 c _ _ _ _ _ _ _ _ _ _ _ _ _ _ _ _ _ _ _ _ _ _ _ _ _ _ _ _ _ _)
          iexact HR
        iexact Hg
      isplitl [Ho]; · iexact Ho
      isplitl [H0]; · iexact H0
      isplitl [H1]; · iexact H1
      isplitl [H2]; · iexact H2
      isplitl [H3]; · iexact H3
      isplitl [H4]; · iexact H4
      isplitl [H5]
      · unfold owns; iexists _; isplitr
        swap; · iexact H5
        ipureintro; exact View.read_writes_of_cover _ _ _ _ _ (cover4_B_5 c _ _ _ _ _ _ _ _ _ _ _ _ _ _ _ _ _ _ _ _ _ _ _ _ _ _ _ _ _ _)
      isplitl [H6]; · iexists _; iexact H6
      iexists _; iexact H7

/-- The library's body obligation, at every point. -/
theorem body_obligation4 (c : Dev nD) : BodyObligation (dat4 (F := F) V c) (defs₀ (F := F)) Variants.none () Set.univ := fun t => by
  rw [bigSep_W4, bigSep_W4]
  exact sound_body4 V c t

/-- What the launch hands the region is the invariant before the first point. -/
theorem hin4 (c : Dev nD) : Pipeline.ΦA spec4 c ⊢ (dat4 V c).Φ 0 := by
  rw [show (dat4 V c).Φ 0 = PhiS4 V c 0 (Nat.zero_le _) from rfl, PhiS4_zero V c 0 _ rfl]
  try exact Idealize.SL.BI.Entails.refl _

/-- After the last point the invariant gives the class's back: the rows' named contents are forgotten. -/
theorem hout4 (c : Dev nD) : (dat4 V c).Φ (Fin.last cfg4.N) ⊢ Pipeline.ΦA spec4 c := by
  have ht : (Fin.last cfg4.N).val ≠ 0 := by rw [Fin.val_last]; have : cfg4.N = 20 := N_4; omega
  rw [show (dat4 V c).Φ (Fin.last cfg4.N) = PhiS4 V c (Fin.last cfg4.N).val (Nat.le_of_lt_succ (Fin.last cfg4.N).isLt) from rfl, PhiS4_pos V c _ _ ht, PhiA4_eq]
  iintro ⟨⟨⟨HS0, HS1⟩, HR⟩, Hg⟩
  isplitl [HS0 HS1 HR]
  · isplitl [HS0 HS1]
    · isplitl [HS0]
      · iexists _; iexact HS0
      · iexists _; iexact HS1
    iexact HR
  iexact Hg

end Region4

end Cert.KernelIdeal.Hand

end
-- ==== Proof.KiBn5.lean ====
import proofs.«160011_j2121713844488_1_alg».proof.Proof.Gen.KernelIdeal.Launch
import proofs.«160011_j2121713844488_1_alg».proof.Proof.Gen.KernelIdeal.Skeleton
import proofs.«160011_j2121713844488_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

/-! # The normalisation region 5: what one grid point's body does to its staging buffers

Region 5 normalises a 100000 × 128 array in 20 blocks of 5000 rows. At a point the body reads the
block of window 0 and four 1 × 128 rows (windows 1 to 4: the mean, the variance, the scale and the
shift, the same row at every point), and writes the whole 5000 × 128 block of window 5: every entry is
(x − mean) · rsqrt(variance + ε) · scale + shift, with the row operands repeated down the rows. The
body keeps nothing between points and leaves its inputs as it found them.

Everything is stated at a parameter `V`, the contents of the core's buffers when the region is
entered, and at any float instance. -/

-- membership of an index in a rectangle with 5000 rows is checked structurally, once per coordinate
set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the contents of the core's buffers when the region is entered
variable (V : (c : Dev nD) → (b : Ref sig .tc) → Buf (Elt F) ((c : Thread nD τ).loc b))

/-! ## The windows' blocks -/

/-- Window `w`'s block at point `t`, read off the window's array as the region finds it. -/
def iblk5 (c : Dev nD) (w : Fin cfg5.W) (t : Fin cfg5.N) : ((cfg5.win w).xblock (cfg5.grid.coords t)).Idx → Elt F (cfg5.win w).elt :=
  ((cfg5.win w).blk t).view.read (Elt F) (V c (Pipeline.arrRef spec5 w))

/-- Input window 0's staging buffer holds the window's block at every point, whether the pipeline fetched
    it there or not (an unfetched window's block index has not moved), for any proof data whose array is the
    entry contents and whose body leaves the block in place. -/
theorem before5_0_of {c : Dev nD} (dat : Dat τ (Elt F) Unit ℕ (UR sig nD τ) ℕ cfg5 c) (hA : dat.A 0 = V c (Pipeline.arrRef spec5 0))
    (hafter : ∀ t, dat.after 0 t = iblk5 V c 0 t) (t : Fin cfg5.N) (d) : dat.before 0 t d = iblk5 V c 0 t :=
  (dat.before_in_eq_fetched 0 rfl (fun _ => rfl) (fun _ _ _ => rfl) (fun t => by rw [hafter]; unfold Dat.blockOf iblk5; rw [hA]; try rfl) t d).trans
    (by unfold Dat.fetched Dat.blockOf iblk5; rw [hA]; try rfl)
/-- Input window 1's staging buffer holds the window's block at every point, whether the pipeline fetched
    it there or not (an unfetched window's block index has not moved), for any proof data whose array is the
    entry contents and whose body leaves the block in place. -/
theorem before5_1_of {c : Dev nD} (dat : Dat τ (Elt F) Unit ℕ (UR sig nD τ) ℕ cfg5 c) (hA : dat.A 1 = V c (Pipeline.arrRef spec5 1))
    (hafter : ∀ t, dat.after 1 t = iblk5 V c 1 t) (t : Fin cfg5.N) (d) : dat.before 1 t d = iblk5 V c 1 t :=
  (dat.before_in_eq_fetched 1 rfl (fun _ => rfl) (fun _ _ _ => rfl) (fun t => by rw [hafter]; unfold Dat.blockOf iblk5; rw [hA]; try rfl) t d).trans
    (by unfold Dat.fetched Dat.blockOf iblk5; rw [hA]; try rfl)
/-- Input window 2's staging buffer holds the window's block at every point, whether the pipeline fetched
    it there or not (an unfetched window's block index has not moved), for any proof data whose array is the
    entry contents and whose body leaves the block in place. -/
theorem before5_2_of {c : Dev nD} (dat : Dat τ (Elt F) Unit ℕ (UR sig nD τ) ℕ cfg5 c) (hA : dat.A 2 = V c (Pipeline.arrRef spec5 2))
    (hafter : ∀ t, dat.after 2 t = iblk5 V c 2 t) (t : Fin cfg5.N) (d) : dat.before 2 t d = iblk5 V c 2 t :=
  (dat.before_in_eq_fetched 2 rfl (fun _ => rfl) (fun _ _ _ => rfl) (fun t => by rw [hafter]; unfold Dat.blockOf iblk5; rw [hA]; try rfl) t d).trans
    (by unfold Dat.fetched Dat.blockOf iblk5; rw [hA]; try rfl)
/-- Input window 3's staging buffer holds the window's block at every point, whether the pipeline fetched
    it there or not (an unfetched window's block index has not moved), for any proof data whose array is the
    entry contents and whose body leaves the block in place. -/
theorem before5_3_of {c : Dev nD} (dat : Dat τ (Elt F) Unit ℕ (UR sig nD τ) ℕ cfg5 c) (hA : dat.A 3 = V c (Pipeline.arrRef spec5 3))
    (hafter : ∀ t, dat.after 3 t = iblk5 V c 3 t) (t : Fin cfg5.N) (d) : dat.before 3 t d = iblk5 V c 3 t :=
  (dat.before_in_eq_fetched 3 rfl (fun _ => rfl) (fun _ _ _ => rfl) (fun t => by rw [hafter]; unfold Dat.blockOf iblk5; rw [hA]; try rfl) t d).trans
    (by unfold Dat.fetched Dat.blockOf iblk5; rw [hA]; try rfl)
/-- Input window 4's staging buffer holds the window's block at every point, whether the pipeline fetched
    it there or not (an unfetched window's block index has not moved), for any proof data whose array is the
    entry contents and whose body leaves the block in place. -/
theorem before5_4_of {c : Dev nD} (dat : Dat τ (Elt F) Unit ℕ (UR sig nD τ) ℕ cfg5 c) (hA : dat.A 4 = V c (Pipeline.arrRef spec5 4))
    (hafter : ∀ t, dat.after 4 t = iblk5 V c 4 t) (t : Fin cfg5.N) (d) : dat.before 4 t d = iblk5 V c 4 t :=
  (dat.before_in_eq_fetched 4 rfl (fun _ => rfl) (fun _ _ _ => rfl) (fun t => by rw [hafter]; unfold Dat.blockOf iblk5; rw [hA]; try rfl) t d).trans
    (by unfold Dat.fetched Dat.blockOf iblk5; rw [hA]; try rfl)

/-! ## The body's accesses: every load and the one store go through the whole buffer -/

abbrev r5_0 : Rect S5000x128 := Rect.unit (s := S5000x128) ![0, 0] S5000x128.size inb_S5000x128_S5000x128_0_0
abbrev r5_1 : Rect S1x128 := Rect.unit (s := S1x128) ![0, 0] S1x128.size inb_S1x128_S1x128_0_0

/-! ## What the body leaves in the output window's buffer -/

/-- Window 5's staging buffer after the body, from the input windows' blocks: its one store, of the
    normalised block (the variance row is the payload's first operand, the data block its second). -/
def out5_5 (x0 : Vec F S5000x128 .f32) (x1 : Vec F S1x128 .f32) (x2 : Vec F S1x128 .f32) (x3 : Vec F S1x128 .f32) (x4 : Vec F S1x128 .f32) : Vec F S5000x128 .f32 :=
  View.canon [⟨r5_0, k5_pay1 (View.ld x2 r5_1) (View.ld x0 r5_0) (View.ld x1 r5_1) (View.ld x3 r5_1) (View.ld x4 r5_1)⟩]

/-- The one store is of the whole block, so it covers the buffer. -/
theorem cover5_5 (p0 : Vec F S5000x128 .f32) (y : S5000x128.Idx) :
    ∃ pc ∈ ([⟨r5_0, p0⟩] : List (View.Piece (Elt F) S5000x128 .f32)), y ∈ pc.1.set :=
  View.cover_of_tiled [⟨r5_0, p0⟩] S5000x128.size (by rfl) y

/-! ## The body's triple -/

set_option maxHeartbeats 1000000 in
/-- The body on whole staging buffers — the inputs' reading `x0 … x4`, the output's holding anything —
    runs to the continuation with the inputs' as they were and the output's at `out5_5` of the inputs.
    The body also loads the output's buffer once, before it stores it; the value is not used. -/
theorem sound_kernel5 (c : Dev nD) (E : Set ℕ) (i : grid5.Coords) (arg0 : Memref sig .tc .vmem S5000x128 .f32) (harg0 : arg0.IsWhole) (arg1 : Memref sig .tc .vmem S1x128 .f32) (harg1 : arg1.IsWhole) (arg2 : Memref sig .tc .vmem S1x128 .f32) (harg2 : arg2.IsWhole) (arg3 : Memref sig .tc .vmem S1x128 .f32) (harg3 : arg3.IsWhole) (arg4 : Memref sig .tc .vmem S1x128 .f32) (harg4 : arg4.IsWhole) (arg5 : Memref sig .tc .vmem S5000x128 .f32) (harg5 : arg5.IsWhole)
    (x0 : Vec F S5000x128 .f32) (x1 : Vec F S1x128 .f32) (x2 : Vec F S1x128 .f32) (x3 : Vec F S1x128 .f32) (x4 : Vec F S1x128 .f32) (K : PUnit → sProp 𝕄) :
    iprop(owns (c : Thread nD τ) arg0 fullShare x0 ∗ owns (c : Thread nD τ) arg1 fullShare x1 ∗ owns (c : Thread nD τ) arg2 fullShare x2 ∗ owns (c : Thread nD τ) arg3 fullShare x3 ∗ owns (c : Thread nD τ) arg4 fullShare x4 ∗ (∃ d, owns (c : Thread nD τ) arg5 fullShare d)
        ∗ (iprop(owns (c : Thread nD τ) arg0 fullShare x0 ∗ owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare (out5_5 x0 x1 x2 x3 x4)) -∗ K ⟨⟩))
      ⊢ wp frame (wpE (defs₀ (F := F)) Variants.none c none) E (cc5__bn_kernel i arg0 harg0 arg1 harg1 arg2 harg2 arg3 harg3 arg4 harg4 arg5 harg5) K := by
  simp only [cc5__bn_kernel_eq_skeleton]; unfold cc5__bn_kernel_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, Hk⟩
  subst hf0 hf1 hf2 hf3 hf4
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  iexists _; isplitr
  swap; · iexact H5
  ipureintro
  exact View.read_writes_eq_canon _ _ _ (cover5_5 _)

/-! ## The pipeline's proof data -/

/-- The proof data of pipeline 5 on core `c`: the arrays as the region finds them; after the body at
    point `t` each input's buffer at its block and the output's at `out5_5` of the input blocks; the
    invariant is the scoped rest and the generator register, untouched; nothing owed; full shares. -/
def dat5 (c : Dev nD) : Dat τ (Elt F) Unit ℕ (UR sig nD τ) ℕ cfg5 c where
  A w := V c (Pipeline.arrRef spec5 w)
  after w t := match w with
    | ⟨0, _⟩ => iblk5 V c 0 t
    | ⟨1, _⟩ => iblk5 V c 1 t
    | ⟨2, _⟩ => iblk5 V c 2 t
    | ⟨3, _⟩ => iblk5 V c 3 t
    | ⟨4, _⟩ => iblk5 V c 4 t
    | ⟨5, _⟩ => out5_5 (iblk5 V c 0 t) (iblk5 V c 1 t) (iblk5 V c 2 t) (iblk5 V c 3 t) (iblk5 V c 4 t)
  Φ _ := Pipeline.ΦA spec5 c
  q _ := fullShare
  owed _ := 0

/-- The proof data's arrays are the region-entry contents. -/
theorem A_eq5 (c : Dev nD) (w : Fin cfg5.W) : (dat5 V c).A w = V c (Pipeline.arrRef spec5 w) := by
  dsimp only [dat5]

/-- What the body leaves, window by window. -/
theorem after5_0 (c : Dev nD) (t : Fin cfg5.N) : (dat5 V c).after 0 t = iblk5 V c 0 t := by dsimp only [dat5]
theorem after5_1 (c : Dev nD) (t : Fin cfg5.N) : (dat5 V c).after 1 t = iblk5 V c 1 t := by dsimp only [dat5]
theorem after5_2 (c : Dev nD) (t : Fin cfg5.N) : (dat5 V c).after 2 t = iblk5 V c 2 t := by dsimp only [dat5]
theorem after5_3 (c : Dev nD) (t : Fin cfg5.N) : (dat5 V c).after 3 t = iblk5 V c 3 t := by dsimp only [dat5]
theorem after5_4 (c : Dev nD) (t : Fin cfg5.N) : (dat5 V c).after 4 t = iblk5 V c 4 t := by dsimp only [dat5]
theorem after5_5 (c : Dev nD) (t : Fin cfg5.N) : (dat5 V c).after 5 t = out5_5 (iblk5 V c 0 t) (iblk5 V c 1 t) (iblk5 V c 2 t) (iblk5 V c 3 t) (iblk5 V c 4 t) := by dsimp only [dat5]

/-- Each input's staging buffer holds its block at every point, fetched there or not. -/
theorem before5_0 (c : Dev nD) (t : Fin cfg5.N) (d) : (dat5 V c).before 0 t d = iblk5 V c 0 t :=
  before5_0_of V (dat5 V c) (A_eq5 V c 0) (after5_0 V c) t d
theorem before5_1 (c : Dev nD) (t : Fin cfg5.N) (d) : (dat5 V c).before 1 t d = iblk5 V c 1 t :=
  before5_1_of V (dat5 V c) (A_eq5 V c 1) (after5_1 V c) t d
theorem before5_2 (c : Dev nD) (t : Fin cfg5.N) (d) : (dat5 V c).before 2 t d = iblk5 V c 2 t :=
  before5_2_of V (dat5 V c) (A_eq5 V c 2) (after5_2 V c) t d
theorem before5_3 (c : Dev nD) (t : Fin cfg5.N) (d) : (dat5 V c).before 3 t d = iblk5 V c 3 t :=
  before5_3_of V (dat5 V c) (A_eq5 V c 3) (after5_3 V c) t d
theorem before5_4 (c : Dev nD) (t : Fin cfg5.N) (d) : (dat5 V c).before 4 t d = iblk5 V c 4 t :=
  before5_4_of V (dat5 V c) (A_eq5 V c 4) (after5_4 V c) t d

/-! ## The body obligation, at a generic point -/

/-- What the body is called with at point `t`, the windows one by one, -/
def bodyPre5 (c : Dev nD) (t : Fin cfg5.N) : sProp 𝕄 :=
  iprop((dat5 V c).Φ t.castSucc ∗ (dat5 V c).owesAt () t.castSucc
    ∗ (∃ d, owns (c : Thread nD τ) (st5_0 t) fullShare ((dat5 V c).before 0 t d))
    ∗ (∃ d, owns (c : Thread nD τ) (st5_1 t) fullShare ((dat5 V c).before 1 t d))
    ∗ (∃ d, owns (c : Thread nD τ) (st5_2 t) fullShare ((dat5 V c).before 2 t d))
    ∗ (∃ d, owns (c : Thread nD τ) (st5_3 t) fullShare ((dat5 V c).before 3 t d))
    ∗ (∃ d, owns (c : Thread nD τ) (st5_4 t) fullShare ((dat5 V c).before 4 t d))
    ∗ (∃ d, owns (c : Thread nD τ) (st5_5 t) fullShare ((dat5 V c).before 5 t d)))

/-- and what it returns. -/
def bodyPost5 (c : Dev nD) (t : Fin cfg5.N) : sProp 𝕄 :=
  iprop((dat5 V c).Φ t.succ ∗ (dat5 V c).owesAt () t.succ
    ∗ owns (c : Thread nD τ) (st5_0 t) fullShare ((dat5 V c).after 0 t)
    ∗ owns (c : Thread nD τ) (st5_1 t) fullShare ((dat5 V c).after 1 t)
    ∗ owns (c : Thread nD τ) (st5_2 t) fullShare ((dat5 V c).after 2 t)
    ∗ owns (c : Thread nD τ) (st5_3 t) fullShare ((dat5 V c).after 3 t)
    ∗ owns (c : Thread nD τ) (st5_4 t) fullShare ((dat5 V c).after 4 t)
    ∗ owns (c : Thread nD τ) (st5_5 t) fullShare ((dat5 V c).after 5 t))

/-- The body at any point: the inputs' buffers hold their blocks, so `sound_kernel5` applies; the
    invariant and the core's owed transfers pass through unread. -/
theorem sound_body5 (c : Dev nD) (t : Fin cfg5.N) :
    bodyPre5 V c t ⊢ wp frame (wpE (defs₀ (F := F)) Variants.none c none) Set.univ (bodyAt5 t) (fun _ => bodyPost5 V c t) := by
  unfold bodyPre5 bodyPost5 bodyAt5
  simp only [before5_0, before5_1, before5_2, before5_3, before5_4]
  rw [show (dat5 V c).Φ t.succ = (dat5 V c).Φ t.castSucc from rfl,
    show (dat5 V c).owesAt () t.succ = (dat5 V c).owesAt () t.castSucc from rfl,
    after5_0, after5_1, after5_2, after5_3, after5_4, after5_5]
  iintro ⟨HΦ, Ho, ⟨%d0, H0⟩, ⟨%d1, H1⟩, ⟨%d2, H2⟩, ⟨%d3, H3⟩, ⟨%d4, H4⟩, ⟨%d5, H5⟩⟩
  iapply (sound_kernel5 c Set.univ _ _ _ _ _ _ _ _ _ _ _ _ _ (iblk5 V c 0 t) (iblk5 V c 1 t) (iblk5 V c 2 t) (iblk5 V c 3 t) (iblk5 V c 4 t) _)
  isplitl [H0]; · iexact H0
  isplitl [H1]; · iexact H1
  isplitl [H2]; · iexact H2
  isplitl [H3]; · iexact H3
  isplitl [H4]; · iexact H4
  isplitl [H5]; · iexists _; iexact H5
  iintro ⟨H0, H1, H2, H3, H4, H5⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  iexact H5

/-- The library's body obligation, at every point. -/
theorem body_obligation5 (c : Dev nD) : BodyObligation (dat5 (F := F) V c) (defs₀ (F := F)) Variants.none () Set.univ := fun t => by
  rw [bigSep_W5, bigSep_W5]
  exact sound_body5 V c t

end Cert.KernelIdeal.Hand

end
-- ==== Proof.KiFc6.lean ====
import proofs.«160011_j2121713844488_1_alg».proof.Proof.Gen.KernelIdeal.Launch
import proofs.«160011_j2121713844488_1_alg».proof.Proof.Gen.KernelIdeal.Skeleton
import proofs.«160011_j2121713844488_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

/-! # The classifier region 6: what one grid point's body does to its staging buffers

Region 6 maps a 100000 × 128 array to 100000 × 64 log-probabilities in 20 blocks of 5000 rows. At a
point the body reads the 5000 × 128 block x of window 0, a 128 × 128 matrix W₁ (window 1), a 1 × 128 row
b₁ (window 2), a 128 × 64 matrix W₂ (window 3), a 1 × 64 row b₂ (window 4) and the 5000 × 128 block m of
window 5 (a multiplier, entry by entry), and writes the whole 5000 × 64 block of window 6. With
h = max(x · W₁ + b₁, 0) ⊙ m and z = h · W₂ + b₂ — both matrix products on operands rounded to the 16-bit
format and accumulated from zero, the rows b₁, b₂ repeated down the rows — every row of the result is
z − max z − log Σ exp(z − max z), the maximum and the sum taken along the row of 64: the row's
log-softmax. The matrices and rows are the same at every point; the body keeps nothing between points and
leaves its inputs as it found them.

Everything is stated at a parameter `V`, the contents of the core's buffers when the region is
entered, and at any float instance. -/

-- membership of an index in a rectangle with 5000 rows is checked structurally, once per coordinate
set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the contents of the core's buffers when the region is entered
variable (V : (c : Dev nD) → (b : Ref sig .tc) → Buf (Elt F) ((c : Thread nD τ).loc b))

/-! ## The windows' blocks -/

/-- Window `w`'s block at point `t`, read off the window's array as the region finds it. -/
def iblk6 (c : Dev nD) (w : Fin cfg6.W) (t : Fin cfg6.N) : ((cfg6.win w).xblock (cfg6.grid.coords t)).Idx → Elt F (cfg6.win w).elt :=
  ((cfg6.win w).blk t).view.read (Elt F) (V c (Pipeline.arrRef spec6 w))

/-- Input window 0's staging buffer holds the window's block at every point, whether the pipeline fetched
    it there or not (an unfetched window's block index has not moved), for any proof data whose array is the
    entry contents and whose body leaves the block in place. -/
theorem before6_0_of {c : Dev nD} (dat : Dat τ (Elt F) Unit ℕ (UR sig nD τ) ℕ cfg6 c) (hA : dat.A 0 = V c (Pipeline.arrRef spec6 0))
    (hafter : ∀ t, dat.after 0 t = iblk6 V c 0 t) (t : Fin cfg6.N) (d) : dat.before 0 t d = iblk6 V c 0 t :=
  (dat.before_in_eq_fetched 0 rfl (fun _ => rfl) (fun _ _ _ => rfl) (fun t => by rw [hafter]; unfold Dat.blockOf iblk6; rw [hA]; try rfl) t d).trans
    (by unfold Dat.fetched Dat.blockOf iblk6; rw [hA]; try rfl)
/-- Input window 1's staging buffer holds the window's block at every point, whether the pipeline fetched
    it there or not (an unfetched window's block index has not moved), for any proof data whose array is the
    entry contents and whose body leaves the block in place. -/
theorem before6_1_of {c : Dev nD} (dat : Dat τ (Elt F) Unit ℕ (UR sig nD τ) ℕ cfg6 c) (hA : dat.A 1 = V c (Pipeline.arrRef spec6 1))
    (hafter : ∀ t, dat.after 1 t = iblk6 V c 1 t) (t : Fin cfg6.N) (d) : dat.before 1 t d = iblk6 V c 1 t :=
  (dat.before_in_eq_fetched 1 rfl (fun _ => rfl) (fun _ _ _ => rfl) (fun t => by rw [hafter]; unfold Dat.blockOf iblk6; rw [hA]; try rfl) t d).trans
    (by unfold Dat.fetched Dat.blockOf iblk6; rw [hA]; try rfl)
/-- Input window 2's staging buffer holds the window's block at every point, whether the pipeline fetched
    it there or not (an unfetched window's block index has not moved), for any proof data whose array is the
    entry contents and whose body leaves the block in place. -/
theorem before6_2_of {c : Dev nD} (dat : Dat τ (Elt F) Unit ℕ (UR sig nD τ) ℕ cfg6 c) (hA : dat.A 2 = V c (Pipeline.arrRef spec6 2))
    (hafter : ∀ t, dat.after 2 t = iblk6 V c 2 t) (t : Fin cfg6.N) (d) : dat.before 2 t d = iblk6 V c 2 t :=
  (dat.before_in_eq_fetched 2 rfl (fun _ => rfl) (fun _ _ _ => rfl) (fun t => by rw [hafter]; unfold Dat.blockOf iblk6; rw [hA]; try rfl) t d).trans
    (by unfold Dat.fetched Dat.blockOf iblk6; rw [hA]; try rfl)
/-- Input window 3's staging buffer holds the window's block at every point, whether the pipeline fetched
    it there or not (an unfetched window's block index has not moved), for any proof data whose array is the
    entry contents and whose body leaves the block in place. -/
theorem before6_3_of {c : Dev nD} (dat : Dat τ (Elt F) Unit ℕ (UR sig nD τ) ℕ cfg6 c) (hA : dat.A 3 = V c (Pipeline.arrRef spec6 3))
    (hafter : ∀ t, dat.after 3 t = iblk6 V c 3 t) (t : Fin cfg6.N) (d) : dat.before 3 t d = iblk6 V c 3 t :=
  (dat.before_in_eq_fetched 3 rfl (fun _ => rfl) (fun _ _ _ => rfl) (fun t => by rw [hafter]; unfold Dat.blockOf iblk6; rw [hA]; try rfl) t d).trans
    (by unfold Dat.fetched Dat.blockOf iblk6; rw [hA]; try rfl)
/-- Input window 4's staging buffer holds the window's block at every point, whether the pipeline fetched
    it there or not (an unfetched window's block index has not moved), for any proof data whose array is the
    entry contents and whose body leaves the block in place. -/
theorem before6_4_of {c : Dev nD} (dat : Dat τ (Elt F) Unit ℕ (UR sig nD τ) ℕ cfg6 c) (hA : dat.A 4 = V c (Pipeline.arrRef spec6 4))
    (hafter : ∀ t, dat.after 4 t = iblk6 V c 4 t) (t : Fin cfg6.N) (d) : dat.before 4 t d = iblk6 V c 4 t :=
  (dat.before_in_eq_fetched 4 rfl (fun _ => rfl) (fun _ _ _ => rfl) (fun t => by rw [hafter]; unfold Dat.blockOf iblk6; rw [hA]; try rfl) t d).trans
    (by unfold Dat.fetched Dat.blockOf iblk6; rw [hA]; try rfl)
/-- Input window 5's staging buffer holds the window's block at every point, whether the pipeline fetched
    it there or not (an unfetched window's block index has not moved), for any proof data whose array is the
    entry contents and whose body leaves the block in place. -/
theorem before6_5_of {c : Dev nD} (dat : Dat τ (Elt F) Unit ℕ (UR sig nD τ) ℕ cfg6 c) (hA : dat.A 5 = V c (Pipeline.arrRef spec6 5))
    (hafter : ∀ t, dat.after 5 t = iblk6 V c 5 t) (t : Fin cfg6.N) (d) : dat.before 5 t d = iblk6 V c 5 t :=
  (dat.before_in_eq_fetched 5 rfl (fun _ => rfl) (fun _ _ _ => rfl) (fun t => by rw [hafter]; unfold Dat.blockOf iblk6; rw [hA]; try rfl) t d).trans
    (by unfold Dat.fetched Dat.blockOf iblk6; rw [hA]; try rfl)

/-! ## The body's accesses: every load and the one store go through the whole buffer -/

abbrev r6_0 : Rect S5000x128 := Rect.unit (s := S5000x128) ![0, 0] S5000x128.size inb_S5000x128_S5000x128_0_0
abbrev r6_1 : Rect S128x128 := Rect.unit (s := S128x128) ![0, 0] S128x128.size inb_S128x128_S128x128_0_0
abbrev r6_2 : Rect S1x128 := Rect.unit (s := S1x128) ![0, 0] S1x128.size inb_S1x128_S1x128_0_0
abbrev r6_3 : Rect S128x64 := Rect.unit (s := S128x64) ![0, 0] S128x64.size inb_S128x64_S128x64_0_0
abbrev r6_4 : Rect S1x64 := Rect.unit (s := S1x64) ![0, 0] S1x64.size inb_S1x64_S1x64_0_0
abbrev r6_5 : Rect S5000x64 := Rect.unit (s := S5000x64) ![0, 0] S5000x64.size inb_S5000x64_S5000x64_0_0

/-! ## What the body leaves in the output window's buffer -/

/-- Window 6's staging buffer after the body, from the input windows' blocks: its one store, of the
    block of log-probabilities (the payload takes the multiplier block, window 5, as its fourth operand,
    before the second matrix and row). -/
def out6_6 (x0 : Vec F S5000x128 .f32) (x1 : Vec F S128x128 .f32) (x2 : Vec F S1x128 .f32) (x3 : Vec F S128x64 .f32) (x4 : Vec F S1x64 .f32) (x5 : Vec F S5000x128 .f32) : Vec F S5000x64 .f32 :=
  View.canon [⟨r6_5, k6_pay1 (View.ld x0 r6_0) (View.ld x1 r6_1) (View.ld x2 r6_2) (View.ld x5 r6_0) (View.ld x3 r6_3) (View.ld x4 r6_4)⟩]

/-- The one store is of the whole block, so it covers the buffer. -/
theorem cover6_6 (p0 : Vec F S5000x64 .f32) (y : S5000x64.Idx) :
    ∃ pc ∈ ([⟨r6_5, p0⟩] : List (View.Piece (Elt F) S5000x64 .f32)), y ∈ pc.1.set :=
  View.cover_of_tiled [⟨r6_5, p0⟩] S5000x64.size (by rfl) y

/-! ## The body's triple -/

set_option maxHeartbeats 1000000 in
/-- The body on whole staging buffers — the inputs' reading `x0 … x5`, the output's holding anything —
    runs to the continuation with the inputs' as they were and the output's at `out6_6` of the inputs.
    The body also loads the output's buffer once, before it stores it; the value is not used. -/
theorem sound_kernel6 (c : Dev nD) (E : Set ℕ) (i : grid6.Coords) (arg0 : Memref sig .tc .vmem S5000x128 .f32) (harg0 : arg0.IsWhole) (arg1 : Memref sig .tc .vmem S128x128 .f32) (harg1 : arg1.IsWhole) (arg2 : Memref sig .tc .vmem S1x128 .f32) (harg2 : arg2.IsWhole) (arg3 : Memref sig .tc .vmem S128x64 .f32) (harg3 : arg3.IsWhole) (arg4 : Memref sig .tc .vmem S1x64 .f32) (harg4 : arg4.IsWhole) (arg5 : Memref sig .tc .vmem S5000x128 .f32) (harg5 : arg5.IsWhole) (arg6 : Memref sig .tc .vmem S5000x64 .f32) (harg6 : arg6.IsWhole)
    (x0 : Vec F S5000x128 .f32) (x1 : Vec F S128x128 .f32) (x2 : Vec F S1x128 .f32) (x3 : Vec F S128x64 .f32) (x4 : Vec F S1x64 .f32) (x5 : Vec F S5000x128 .f32) (K : PUnit → sProp 𝕄) :
    iprop(owns (c : Thread nD τ) arg0 fullShare x0 ∗ owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5 ∗ (∃ d, owns (c : Thread nD τ) arg6 fullShare d)
        ∗ (iprop(owns (c : Thread nD τ) arg0 fullShare x0 ∗ owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare (out6_6 x0 x1 x2 x3 x4 x5)) -∗ K ⟨⟩))
      ⊢ wp frame (wpE (defs₀ (F := F)) Variants.none c none) E (cc6__fc_kernel i arg0 harg0 arg1 harg1 arg2 harg2 arg3 harg3 arg4 harg4 arg5 harg5 arg6 harg6) K := by
  simp only [cc6__fc_kernel_eq_skeleton]; unfold cc6__fc_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, Hk⟩
  subst hf0 hf1 hf2 hf3 hf4 hf5
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  iexists _; isplitr
  swap; · iexact H6
  ipureintro
  exact View.read_writes_eq_canon _ _ _ (cover6_6 _)

/-! ## The pipeline's proof data -/

/-- The proof data of pipeline 6 on core `c`: the arrays as the region finds them; after the body at
    point `t` each input's buffer at its block and the output's at `out6_6` of the input blocks; the
    invariant is the scoped rest and the generator register, untouched; nothing owed; full shares. -/
def dat6 (c : Dev nD) : Dat τ (Elt F) Unit ℕ (UR sig nD τ) ℕ cfg6 c where
  A w := V c (Pipeline.arrRef spec6 w)
  after w t := match w with
    | ⟨0, _⟩ => iblk6 V c 0 t
    | ⟨1, _⟩ => iblk6 V c 1 t
    | ⟨2, _⟩ => iblk6 V c 2 t
    | ⟨3, _⟩ => iblk6 V c 3 t
    | ⟨4, _⟩ => iblk6 V c 4 t
    | ⟨5, _⟩ => iblk6 V c 5 t
    | ⟨6, _⟩ => out6_6 (iblk6 V c 0 t) (iblk6 V c 1 t) (iblk6 V c 2 t) (iblk6 V c 3 t) (iblk6 V c 4 t) (iblk6 V c 5 t)
  Φ _ := Pipeline.ΦA spec6 c
  q _ := fullShare
  owed _ := 0

/-- The proof data's arrays are the region-entry contents. -/
theorem A_eq6 (c : Dev nD) (w : Fin cfg6.W) : (dat6 V c).A w = V c (Pipeline.arrRef spec6 w) := by
  dsimp only [dat6]

/-- What the body leaves, window by window. -/
theorem after6_0 (c : Dev nD) (t : Fin cfg6.N) : (dat6 V c).after 0 t = iblk6 V c 0 t := by dsimp only [dat6]
theorem after6_1 (c : Dev nD) (t : Fin cfg6.N) : (dat6 V c).after 1 t = iblk6 V c 1 t := by dsimp only [dat6]
theorem after6_2 (c : Dev nD) (t : Fin cfg6.N) : (dat6 V c).after 2 t = iblk6 V c 2 t := by dsimp only [dat6]
theorem after6_3 (c : Dev nD) (t : Fin cfg6.N) : (dat6 V c).after 3 t = iblk6 V c 3 t := by dsimp only [dat6]
theorem after6_4 (c : Dev nD) (t : Fin cfg6.N) : (dat6 V c).after 4 t = iblk6 V c 4 t := by dsimp only [dat6]
theorem after6_5 (c : Dev nD) (t : Fin cfg6.N) : (dat6 V c).after 5 t = iblk6 V c 5 t := by dsimp only [dat6]
theorem after6_6 (c : Dev nD) (t : Fin cfg6.N) : (dat6 V c).after 6 t = out6_6 (iblk6 V c 0 t) (iblk6 V c 1 t) (iblk6 V c 2 t) (iblk6 V c 3 t) (iblk6 V c 4 t) (iblk6 V c 5 t) := by dsimp only [dat6]

/-- Each input's staging buffer holds its block at every point, fetched there or not. -/
theorem before6_0 (c : Dev nD) (t : Fin cfg6.N) (d) : (dat6 V c).before 0 t d = iblk6 V c 0 t :=
  before6_0_of V (dat6 V c) (A_eq6 V c 0) (after6_0 V c) t d
theorem before6_1 (c : Dev nD) (t : Fin cfg6.N) (d) : (dat6 V c).before 1 t d = iblk6 V c 1 t :=
  before6_1_of V (dat6 V c) (A_eq6 V c 1) (after6_1 V c) t d
theorem before6_2 (c : Dev nD) (t : Fin cfg6.N) (d) : (dat6 V c).before 2 t d = iblk6 V c 2 t :=
  before6_2_of V (dat6 V c) (A_eq6 V c 2) (after6_2 V c) t d
theorem before6_3 (c : Dev nD) (t : Fin cfg6.N) (d) : (dat6 V c).before 3 t d = iblk6 V c 3 t :=
  before6_3_of V (dat6 V c) (A_eq6 V c 3) (after6_3 V c) t d
theorem before6_4 (c : Dev nD) (t : Fin cfg6.N) (d) : (dat6 V c).before 4 t d = iblk6 V c 4 t :=
  before6_4_of V (dat6 V c) (A_eq6 V c 4) (after6_4 V c) t d
theorem before6_5 (c : Dev nD) (t : Fin cfg6.N) (d) : (dat6 V c).before 5 t d = iblk6 V c 5 t :=
  before6_5_of V (dat6 V c) (A_eq6 V c 5) (after6_5 V c) t d

/-! ## The body obligation, at a generic point -/

/-- What the body is called with at point `t`, the windows one by one, -/
def bodyPre6 (c : Dev nD) (t : Fin cfg6.N) : sProp 𝕄 :=
  iprop((dat6 V c).Φ t.castSucc ∗ (dat6 V c).owesAt () t.castSucc
    ∗ (∃ d, owns (c : Thread nD τ) (st6_0 t) fullShare ((dat6 V c).before 0 t d))
    ∗ (∃ d, owns (c : Thread nD τ) (st6_1 t) fullShare ((dat6 V c).before 1 t d))
    ∗ (∃ d, owns (c : Thread nD τ) (st6_2 t) fullShare ((dat6 V c).before 2 t d))
    ∗ (∃ d, owns (c : Thread nD τ) (st6_3 t) fullShare ((dat6 V c).before 3 t d))
    ∗ (∃ d, owns (c : Thread nD τ) (st6_4 t) fullShare ((dat6 V c).before 4 t d))
    ∗ (∃ d, owns (c : Thread nD τ) (st6_5 t) fullShare ((dat6 V c).before 5 t d))
    ∗ (∃ d, owns (c : Thread nD τ) (st6_6 t) fullShare ((dat6 V c).before 6 t d)))

/-- and what it returns. -/
def bodyPost6 (c : Dev nD) (t : Fin cfg6.N) : sProp 𝕄 :=
  iprop((dat6 V c).Φ t.succ ∗ (dat6 V c).owesAt () t.succ
    ∗ owns (c : Thread nD τ) (st6_0 t) fullShare ((dat6 V c).after 0 t)
    ∗ owns (c : Thread nD τ) (st6_1 t) fullShare ((dat6 V c).after 1 t)
    ∗ owns (c : Thread nD τ) (st6_2 t) fullShare ((dat6 V c).after 2 t)
    ∗ owns (c : Thread nD τ) (st6_3 t) fullShare ((dat6 V c).after 3 t)
    ∗ owns (c : Thread nD τ) (st6_4 t) fullShare ((dat6 V c).after 4 t)
    ∗ owns (c : Thread nD τ) (st6_5 t) fullShare ((dat6 V c).after 5 t)
    ∗ owns (c : Thread nD τ) (st6_6 t) fullShare ((dat6 V c).after 6 t))

/-- The body at any point: the inputs' buffers hold their blocks, so `sound_kernel6` applies; the
    invariant and the core's owed transfers pass through unread. -/
theorem sound_body6 (c : Dev nD) (t : Fin cfg6.N) :
    bodyPre6 V c t ⊢ wp frame (wpE (defs₀ (F := F)) Variants.none c none) Set.univ (bodyAt6 t) (fun _ => bodyPost6 V c t) := by
  unfold bodyPre6 bodyPost6 bodyAt6
  simp only [before6_0, before6_1, before6_2, before6_3, before6_4, before6_5]
  rw [show (dat6 V c).Φ t.succ = (dat6 V c).Φ t.castSucc from rfl,
    show (dat6 V c).owesAt () t.succ = (dat6 V c).owesAt () t.castSucc from rfl,
    after6_0, after6_1, after6_2, after6_3, after6_4, after6_5, after6_6]
  iintro ⟨HΦ, Ho, ⟨%d0, H0⟩, ⟨%d1, H1⟩, ⟨%d2, H2⟩, ⟨%d3, H3⟩, ⟨%d4, H4⟩, ⟨%d5, H5⟩, ⟨%d6, H6⟩⟩
  iapply (sound_kernel6 c Set.univ _ _ _ _ _ _ _ _ _ _ _ _ _ _ _ (iblk6 V c 0 t) (iblk6 V c 1 t) (iblk6 V c 2 t) (iblk6 V c 3 t) (iblk6 V c 4 t) (iblk6 V c 5 t) _)
  isplitl [H0]; · iexact H0
  isplitl [H1]; · iexact H1
  isplitl [H2]; · iexact H2
  isplitl [H3]; · iexact H3
  isplitl [H4]; · iexact H4
  isplitl [H5]; · iexact H5
  isplitl [H6]; · iexists _; iexact H6
  iintro ⟨H0, H1, H2, H3, H4, H5, H6⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  iexact H6

/-- The library's body obligation, at every point. -/
theorem body_obligation6 (c : Dev nD) : BodyObligation (dat6 (F := F) V c) (defs₀ (F := F)) Variants.none () Set.univ := fun t => by
  rw [bigSep_W6, bigSep_W6]
  exact sound_body6 V c t

end Cert.KernelIdeal.Hand

end
-- ==== Proof.KiRun.lean ====
import proofs.«160011_j2121713844488_1_alg».proof.Proof.KiMlp0
import proofs.«160011_j2121713844488_1_alg».proof.Proof.KiBn1
import proofs.«160011_j2121713844488_1_alg».proof.Proof.KiMlp2
import proofs.«160011_j2121713844488_1_alg».proof.Proof.KiBn3
import proofs.«160011_j2121713844488_1_alg».proof.Proof.KiMlp4
import proofs.«160011_j2121713844488_1_alg».proof.Proof.KiBn5
import proofs.«160011_j2121713844488_1_alg».proof.Proof.KiFc6
import proofs.«160011_j2121713844488_1_alg».proof.Proof.Gen.KernelIdeal.Regions
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

/-! # The run of the whole program: seven kernel regions among seven stretches of host operations

The program is fourteen segments in a row: a stretch of host operations, then a kernel region, seven
times over. Three times a statistics region (it carries two rows of running sums across its 20 grid
points) is followed by a normalisation region; the last region is the classifier. Between two segments a core holds every unscoped buffer whole, at contents that are a
fold through the program: the launch memory, then what each host stretch computes from what it finds,
then, after a region, the region's arrays at what its pipeline leaves (an input as entered, an output at
its write-backs folded over the grid) and every other buffer as the region found it. The contents at
the fourteen boundaries are named `W0` … `W14`; a region's proof data are stated at its entry
contents. Each region is entered from one boundary's state and left at the next, so the segments chain
with nothing to prove between them, and the launch theorem for a list of segments gives the run: every
weakly fair execution terminates, nothing faults, the result array holds `W14` at its reference and the
thirteen argument arrays end as launched — no host operation writes an argument and a region either
does not stage it or stages it as an input. -/

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffer contents at each segment boundary: a fold through the program -/

/-- Core `c`'s buffers at launch. -/
abbrev W0 : Dev nD → Valuation τ sig (Elt F) := fun c b => (s₀ m ρ).mem ((c : Dev nD), b)

/-- After host stretch 0 (region 0's entry). -/
abbrev W1 : Dev nD → Valuation τ sig (Elt F) := fun c => StableHlo.after hostOps0 (W0 m ρ c)
/-- No operation of host stretch 0 writes a reference outside its list of written references. -/
theorem W1_of (c : Dev nD) (r : Ref sig .tc) (h : r ∉ (hostOps0_W : List (Ref sig .tc))) :
    W1 m ρ c (Proc.devRef .tc r) = W0 m ρ c (Proc.devRef .tc r) :=
  StableHlo.after_of_writes_sub hostOps0 _ hostOps0_writes h
/-- The same read at the TensorCore's references (what region 0's proof data take). -/
abbrev V1 : (c : Dev nD) → (b : Ref sig .tc) → Buf (Elt F) ((c : Thread nD τ).loc b) := fun c b => W1 m ρ c b
/-- At region 0's exit: its arrays at what the pipeline leaves (the inputs as entered, each output's
    write-backs folded over the grid), every other buffer as entered. -/
def W2 (c : Dev nD) : Valuation τ sig (Elt F) :=
  Pipeline.withArrays spec0 c (W1 m ρ c) fun w => (dat0 (V1 m ρ) c).arrAt w cfg0.N
theorem W2_arr (c : Dev nD) (w : Fin cfg0.W) :
    W2 m ρ c (Proc.devRef .tc (Pipeline.arrRef spec0 w)) = (dat0 (V1 m ρ) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m ρ c (Proc.devRef .tc b) = W1 m ρ c (Proc.devRef .tc b) := by
  unfold W2; exact Pipeline.withArrays_of_ne spec0 c _ _ b hb
/-- The same read at the TensorCore's references (region 0's exit contents). -/
abbrev V2 : (c : Dev nD) → (b : Ref sig .tc) → Buf (Elt F) ((c : Thread nD τ).loc b) := fun c b => W2 m ρ c b
/-- At region 0's exit each of its arrays holds what the pipeline leaves, and every other buffer what it
    held at entry. -/
theorem hF0 (c : Dev nD) (w : Fin cfg0.W) : (dat0 (V1 m ρ) c).arrAt w cfg0.N = V2 m ρ c (Pipeline.arrRef spec0 w) :=
  (W2_arr m ρ c w).symm
theorem hrest0 (c : Dev nD) : ∀ b, b ∉ Finset.univ.image (Pipeline.arrRef spec0) → V2 m ρ c b = V1 m ρ c b :=
  fun b hb => W2_of_ne m ρ c b fun w e => hb (Finset.mem_image.mpr ⟨w, Finset.mem_univ _, e⟩)

/-- After host stretch 1 (region 1's entry). -/
abbrev W3 : Dev nD → Valuation τ sig (Elt F) := fun c => StableHlo.after hostOps1 (W2 m ρ c)
/-- No operation of host stretch 1 writes a reference outside its list of written references. -/
theorem W3_of (c : Dev nD) (r : Ref sig .tc) (h : r ∉ (hostOps1_W : List (Ref sig .tc))) :
    W3 m ρ c (Proc.devRef .tc r) = W2 m ρ c (Proc.devRef .tc r) :=
  StableHlo.after_of_writes_sub hostOps1 _ hostOps1_writes h
/-- The same read at the TensorCore's references (what region 1's proof data take). -/
abbrev V3 : (c : Dev nD) → (b : Ref sig .tc) → Buf (Elt F) ((c : Thread nD τ).loc b) := fun c b => W3 m ρ c b
/-- At region 1's exit: its arrays at what the pipeline leaves (the inputs as entered, each output's
    write-backs folded over the grid), every other buffer as entered. -/
def W4 (c : Dev nD) : Valuation τ sig (Elt F) :=
  Pipeline.withArrays spec1 c (W3 m ρ c) fun w => (dat1 (V3 m ρ) c).arrAt w cfg1.N
theorem W4_arr (c : Dev nD) (w : Fin cfg1.W) :
    W4 m ρ c (Proc.devRef .tc (Pipeline.arrRef spec1 w)) = (dat1 (V3 m ρ) c).arrAt w cfg1.N := by
  unfold W4; exact Pipeline.withArrays_arr spec1 launch1.win.arr_inj c _ _ w
theorem W4_of_ne (c : Dev nD) (b : Ref sig .tc) (hb : ∀ w, Pipeline.arrRef spec1 w ≠ b) :
    W4 m ρ c (Proc.devRef .tc b) = W3 m ρ c (Proc.devRef .tc b) := by
  unfold W4; exact Pipeline.withArrays_of_ne spec1 c _ _ b hb
/-- The same read at the TensorCore's references (region 1's exit contents). -/
abbrev V4 : (c : Dev nD) → (b : Ref sig .tc) → Buf (Elt F) ((c : Thread nD τ).loc b) := fun c b => W4 m ρ c b
/-- At region 1's exit each of its arrays holds what the pipeline leaves, and every other buffer what it
    held at entry. -/
theorem hF1 (c : Dev nD) (w : Fin cfg1.W) : (dat1 (V3 m ρ) c).arrAt w cfg1.N = V4 m ρ c (Pipeline.arrRef spec1 w) :=
  (W4_arr m ρ c w).symm
theorem hrest1 (c : Dev nD) : ∀ b, b ∉ Finset.univ.image (Pipeline.arrRef spec1) → V4 m ρ c b = V3 m ρ c b :=
  fun b hb => W4_of_ne m ρ c b fun w e => hb (Finset.mem_image.mpr ⟨w, Finset.mem_univ _, e⟩)

/-- After host stretch 2 (region 2's entry). -/
abbrev W5 : Dev nD → Valuation τ sig (Elt F) := fun c => StableHlo.after hostOps2 (W4 m ρ c)
/-- No operation of host stretch 2 writes a reference outside its list of written references. -/
theorem W5_of (c : Dev nD) (r : Ref sig .tc) (h : r ∉ (hostOps2_W : List (Ref sig .tc))) :
    W5 m ρ c (Proc.devRef .tc r) = W4 m ρ c (Proc.devRef .tc r) :=
  StableHlo.after_of_writes_sub hostOps2 _ hostOps2_writes h
/-- The same read at the TensorCore's references (what region 2's proof data take). -/
abbrev V5 : (c : Dev nD) → (b : Ref sig .tc) → Buf (Elt F) ((c : Thread nD τ).loc b) := fun c b => W5 m ρ c b
/-- At region 2's exit: its arrays at what the pipeline leaves (the inputs as entered, each output's
    write-backs folded over the grid), every other buffer as entered. -/
def W6 (c : Dev nD) : Valuation τ sig (Elt F) :=
  Pipeline.withArrays spec2 c (W5 m ρ c) fun w => (dat2 (V5 m ρ) c).arrAt w cfg2.N
theorem W6_arr (c : Dev nD) (w : Fin cfg2.W) :
    W6 m ρ c (Proc.devRef .tc (Pipeline.arrRef spec2 w)) = (dat2 (V5 m ρ) c).arrAt w cfg2.N := by
  unfold W6; exact Pipeline.withArrays_arr spec2 launch2.win.arr_inj c _ _ w
theorem W6_of_ne (c : Dev nD) (b : Ref sig .tc) (hb : ∀ w, Pipeline.arrRef spec2 w ≠ b) :
    W6 m ρ c (Proc.devRef .tc b) = W5 m ρ c (Proc.devRef .tc b) := by
  unfold W6; exact Pipeline.withArrays_of_ne spec2 c _ _ b hb
/-- The same read at the TensorCore's references (region 2's exit contents). -/
abbrev V6 : (c : Dev nD) → (b : Ref sig .tc) → Buf (Elt F) ((c : Thread nD τ).loc b) := fun c b => W6 m ρ c b
/-- At region 2's exit each of its arrays holds what the pipeline leaves, and every other buffer what it
    held at entry. -/
theorem hF2 (c : Dev nD) (w : Fin cfg2.W) : (dat2 (V5 m ρ) c).arrAt w cfg2.N = V6 m ρ c (Pipeline.arrRef spec2 w) :=
  (W6_arr m ρ c w).symm
theorem hrest2 (c : Dev nD) : ∀ b, b ∉ Finset.univ.image (Pipeline.arrRef spec2) → V6 m ρ c b = V5 m ρ c b :=
  fun b hb => W6_of_ne m ρ c b fun w e => hb (Finset.mem_image.mpr ⟨w, Finset.mem_univ _, e⟩)

/-- After host stretch 3 (region 3's entry). -/
abbrev W7 : Dev nD → Valuation τ sig (Elt F) := fun c => StableHlo.after hostOps3 (W6 m ρ c)
/-- No operation of host stretch 3 writes a reference outside its list of written references. -/
theorem W7_of (c : Dev nD) (r : Ref sig .tc) (h : r ∉ (hostOps3_W : List (Ref sig .tc))) :
    W7 m ρ c (Proc.devRef .tc r) = W6 m ρ c (Proc.devRef .tc r) :=
  StableHlo.after_of_writes_sub hostOps3 _ hostOps3_writes h
/-- The same read at the TensorCore's references (what region 3's proof data take). -/
abbrev V7 : (c : Dev nD) → (b : Ref sig .tc) → Buf (Elt F) ((c : Thread nD τ).loc b) := fun c b => W7 m ρ c b
/-- At region 3's exit: its arrays at what the pipeline leaves (the inputs as entered, each output's
    write-backs folded over the grid), every other buffer as entered. -/
def W8 (c : Dev nD) : Valuation τ sig (Elt F) :=
  Pipeline.withArrays spec3 c (W7 m ρ c) fun w => (dat3 (V7 m ρ) c).arrAt w cfg3.N
theorem W8_arr (c : Dev nD) (w : Fin cfg3.W) :
    W8 m ρ c (Proc.devRef .tc (Pipeline.arrRef spec3 w)) = (dat3 (V7 m ρ) c).arrAt w cfg3.N := by
  unfold W8; exact Pipeline.withArrays_arr spec3 launch3.win.arr_inj c _ _ w
theorem W8_of_ne (c : Dev nD) (b : Ref sig .tc) (hb : ∀ w, Pipeline.arrRef spec3 w ≠ b) :
    W8 m ρ c (Proc.devRef .tc b) = W7 m ρ c (Proc.devRef .tc b) := by
  unfold W8; exact Pipeline.withArrays_of_ne spec3 c _ _ b hb
/-- The same read at the TensorCore's references (region 3's exit contents). -/
abbrev V8 : (c : Dev nD) → (b : Ref sig .tc) → Buf (Elt F) ((c : Thread nD τ).loc b) := fun c b => W8 m ρ c b
/-- At region 3's exit each of its arrays holds what the pipeline leaves, and every other buffer what it
    held at entry. -/
theorem hF3 (c : Dev nD) (w : Fin cfg3.W) : (dat3 (V7 m ρ) c).arrAt w cfg3.N = V8 m ρ c (Pipeline.arrRef spec3 w) :=
  (W8_arr m ρ c w).symm
theorem hrest3 (c : Dev nD) : ∀ b, b ∉ Finset.univ.image (Pipeline.arrRef spec3) → V8 m ρ c b = V7 m ρ c b :=
  fun b hb => W8_of_ne m ρ c b fun w e => hb (Finset.mem_image.mpr ⟨w, Finset.mem_univ _, e⟩)

/-- After host stretch 4 (region 4's entry). -/
abbrev W9 : Dev nD → Valuation τ sig (Elt F) := fun c => StableHlo.after hostOps4 (W8 m ρ c)
/-- No operation of host stretch 4 writes a reference outside its list of written references. -/
theorem W9_of (c : Dev nD) (r : Ref sig .tc) (h : r ∉ (hostOps4_W : List (Ref sig .tc))) :
    W9 m ρ c (Proc.devRef .tc r) = W8 m ρ c (Proc.devRef .tc r) :=
  StableHlo.after_of_writes_sub hostOps4 _ hostOps4_writes h
/-- The same read at the TensorCore's references (what region 4's proof data take). -/
abbrev V9 : (c : Dev nD) → (b : Ref sig .tc) → Buf (Elt F) ((c : Thread nD τ).loc b) := fun c b => W9 m ρ c b
/-- At region 4's exit: its arrays at what the pipeline leaves (the inputs as entered, each output's
    write-backs folded over the grid), every other buffer as entered. -/
def W10 (c : Dev nD) : Valuation τ sig (Elt F) :=
  Pipeline.withArrays spec4 c (W9 m ρ c) fun w => (dat4 (V9 m ρ) c).arrAt w cfg4.N
theorem W10_arr (c : Dev nD) (w : Fin cfg4.W) :
    W10 m ρ c (Proc.devRef .tc (Pipeline.arrRef spec4 w)) = (dat4 (V9 m ρ) c).arrAt w cfg4.N := by
  unfold W10; exact Pipeline.withArrays_arr spec4 launch4.win.arr_inj c _ _ w
theorem W10_of_ne (c : Dev nD) (b : Ref sig .tc) (hb : ∀ w, Pipeline.arrRef spec4 w ≠ b) :
    W10 m ρ c (Proc.devRef .tc b) = W9 m ρ c (Proc.devRef .tc b) := by
  unfold W10; exact Pipeline.withArrays_of_ne spec4 c _ _ b hb
/-- The same read at the TensorCore's references (region 4's exit contents). -/
abbrev V10 : (c : Dev nD) → (b : Ref sig .tc) → Buf (Elt F) ((c : Thread nD τ).loc b) := fun c b => W10 m ρ c b
/-- At region 4's exit each of its arrays holds what the pipeline leaves, and every other buffer what it
    held at entry. -/
theorem hF4 (c : Dev nD) (w : Fin cfg4.W) : (dat4 (V9 m ρ) c).arrAt w cfg4.N = V10 m ρ c (Pipeline.arrRef spec4 w) :=
  (W10_arr m ρ c w).symm
theorem hrest4 (c : Dev nD) : ∀ b, b ∉ Finset.univ.image (Pipeline.arrRef spec4) → V10 m ρ c b = V9 m ρ c b :=
  fun b hb => W10_of_ne m ρ c b fun w e => hb (Finset.mem_image.mpr ⟨w, Finset.mem_univ _, e⟩)

/-- After host stretch 5 (region 5's entry). -/
abbrev W11 : Dev nD → Valuation τ sig (Elt F) := fun c => StableHlo.after hostOps5 (W10 m ρ c)
/-- No operation of host stretch 5 writes a reference outside its list of written references. -/
theorem W11_of (c : Dev nD) (r : Ref sig .tc) (h : r ∉ (hostOps5_W : List (Ref sig .tc))) :
    W11 m ρ c (Proc.devRef .tc r) = W10 m ρ c (Proc.devRef .tc r) :=
  StableHlo.after_of_writes_sub hostOps5 _ hostOps5_writes h
/-- The same read at the TensorCore's references (what region 5's proof data take). -/
abbrev V11 : (c : Dev nD) → (b : Ref sig .tc) → Buf (Elt F) ((c : Thread nD τ).loc b) := fun c b => W11 m ρ c b
/-- At region 5's exit: its arrays at what the pipeline leaves (the inputs as entered, each output's
    write-backs folded over the grid), every other buffer as entered. -/
def W12 (c : Dev nD) : Valuation τ sig (Elt F) :=
  Pipeline.withArrays spec5 c (W11 m ρ c) fun w => (dat5 (V11 m ρ) c).arrAt w cfg5.N
theorem W12_arr (c : Dev nD) (w : Fin cfg5.W) :
    W12 m ρ c (Proc.devRef .tc (Pipeline.arrRef spec5 w)) = (dat5 (V11 m ρ) c).arrAt w cfg5.N := by
  unfold W12; exact Pipeline.withArrays_arr spec5 launch5.win.arr_inj c _ _ w
theorem W12_of_ne (c : Dev nD) (b : Ref sig .tc) (hb : ∀ w, Pipeline.arrRef spec5 w ≠ b) :
    W12 m ρ c (Proc.devRef .tc b) = W11 m ρ c (Proc.devRef .tc b) := by
  unfold W12; exact Pipeline.withArrays_of_ne spec5 c _ _ b hb
/-- The same read at the TensorCore's references (region 5's exit contents). -/
abbrev V12 : (c : Dev nD) → (b : Ref sig .tc) → Buf (Elt F) ((c : Thread nD τ).loc b) := fun c b => W12 m ρ c b
/-- At region 5's exit each of its arrays holds what the pipeline leaves, and every other buffer what it
    held at entry. -/
theorem hF5 (c : Dev nD) (w : Fin cfg5.W) : (dat5 (V11 m ρ) c).arrAt w cfg5.N = V12 m ρ c (Pipeline.arrRef spec5 w) :=
  (W12_arr m ρ c w).symm
theorem hrest5 (c : Dev nD) : ∀ b, b ∉ Finset.univ.image (Pipeline.arrRef spec5) → V12 m ρ c b = V11 m ρ c b :=
  fun b hb => W12_of_ne m ρ c b fun w e => hb (Finset.mem_image.mpr ⟨w, Finset.mem_univ _, e⟩)

/-- After host stretch 6 (region 6's entry). -/
abbrev W13 : Dev nD → Valuation τ sig (Elt F) := fun c => StableHlo.after hostOps6 (W12 m ρ c)
/-- No operation of host stretch 6 writes a reference outside its list of written references. -/
theorem W13_of (c : Dev nD) (r : Ref sig .tc) (h : r ∉ (hostOps6_W : List (Ref sig .tc))) :
    W13 m ρ c (Proc.devRef .tc r) = W12 m ρ c (Proc.devRef .tc r) :=
  StableHlo.after_of_writes_sub hostOps6 _ hostOps6_writes h
/-- The same read at the TensorCore's references (what region 6's proof data take). -/
abbrev V13 : (c : Dev nD) → (b : Ref sig .tc) → Buf (Elt F) ((c : Thread nD τ).loc b) := fun c b => W13 m ρ c b
/-- At region 6's exit: its arrays at what the pipeline leaves (the inputs as entered, each output's
    write-backs folded over the grid), every other buffer as entered. -/
def W14 (c : Dev nD) : Valuation τ sig (Elt F) :=
  Pipeline.withArrays spec6 c (W13 m ρ c) fun w => (dat6 (V13 m ρ) c).arrAt w cfg6.N
theorem W14_arr (c : Dev nD) (w : Fin cfg6.W) :
    W14 m ρ c (Proc.devRef .tc (Pipeline.arrRef spec6 w)) = (dat6 (V13 m ρ) c).arrAt w cfg6.N := by
  unfold W14; exact Pipeline.withArrays_arr spec6 launch6.win.arr_inj c _ _ w
theorem W14_of_ne (c : Dev nD) (b : Ref sig .tc) (hb : ∀ w, Pipeline.arrRef spec6 w ≠ b) :
    W14 m ρ c (Proc.devRef .tc b) = W13 m ρ c (Proc.devRef .tc b) := by
  unfold W14; exact Pipeline.withArrays_of_ne spec6 c _ _ b hb
/-- The same read at the TensorCore's references (region 6's exit contents). -/
abbrev V14 : (c : Dev nD) → (b : Ref sig .tc) → Buf (Elt F) ((c : Thread nD τ).loc b) := fun c b => W14 m ρ c b
/-- At region 6's exit each of its arrays holds what the pipeline leaves, and every other buffer what it
    held at entry. -/
theorem hF6 (c : Dev nD) (w : Fin cfg6.W) : (dat6 (V13 m ρ) c).arrAt w cfg6.N = V14 m ρ c (Pipeline.arrRef spec6 w) :=
  (W14_arr m ρ c w).symm
theorem hrest6 (c : Dev nD) : ∀ b, b ∉ Finset.univ.image (Pipeline.arrRef spec6) → V14 m ρ c b = V13 m ρ c b :=
  fun b hb => W14_of_ne m ρ c b fun w e => hb (Finset.mem_image.mpr ⟨w, Finset.mem_univ _, e⟩)

/-! ### The arguments end as launched: no host operation writes one, and a region either does not stage it
    or stages it as an input (the classifier reads its two matrices and its multiplier straight from
    arguments), so the fold at an argument's buffer walks back to the launch memory -/

theorem W14_main_arg0 (c : Dev nD) : W14 m ρ c (Proc.devRef .tc main_arg0) = m ((c : Thread nD τ).loc main_arg0) :=
  (W14_of_ne m ρ c main_arg0 (by decide)).trans <|
  (W13_of m ρ c main_arg0 (by decide)).trans <|
  (W12_of_ne m ρ c main_arg0 (by decide)).trans <|
  (W11_of m ρ c main_arg0 (by decide)).trans <|
  (W10_of_ne m ρ c main_arg0 (by decide)).trans <|
  (W9_of m ρ c main_arg0 (by decide)).trans <|
  (W8_of_ne m ρ c main_arg0 (by decide)).trans <|
  (W7_of m ρ c main_arg0 (by decide)).trans <|
  (W6_of_ne m ρ c main_arg0 (by decide)).trans <|
  (W5_of m ρ c main_arg0 (by decide)).trans <|
  (W4_of_ne m ρ c main_arg0 (by decide)).trans <|
  (W3_of m ρ c main_arg0 (by decide)).trans <|
  (W2_of_ne m ρ c main_arg0 (by decide)).trans <|
  (W1_of m ρ c main_arg0 (by decide)).trans <| rfl

theorem W14_main_arg1 (c : Dev nD) : W14 m ρ c (Proc.devRef .tc main_arg1) = m ((c : Thread nD τ).loc main_arg1) :=
  (W14_of_ne m ρ c main_arg1 (by decide)).trans <|
  (W13_of m ρ c main_arg1 (by decide)).trans <|
  (W12_of_ne m ρ c main_arg1 (by decide)).trans <|
  (W11_of m ρ c main_arg1 (by decide)).trans <|
  (W10_of_ne m ρ c main_arg1 (by decide)).trans <|
  (W9_of m ρ c main_arg1 (by decide)).trans <|
  (W8_of_ne m ρ c main_arg1 (by decide)).trans <|
  (W7_of m ρ c main_arg1 (by decide)).trans <|
  (W6_of_ne m ρ c main_arg1 (by decide)).trans <|
  (W5_of m ρ c main_arg1 (by decide)).trans <|
  (W4_of_ne m ρ c main_arg1 (by decide)).trans <|
  (W3_of m ρ c main_arg1 (by decide)).trans <|
  (W2_of_ne m ρ c main_arg1 (by decide)).trans <|
  (W1_of m ρ c main_arg1 (by decide)).trans <| rfl

theorem W14_main_arg2 (c : Dev nD) : W14 m ρ c (Proc.devRef .tc main_arg2) = m ((c : Thread nD τ).loc main_arg2) :=
  (W14_of_ne m ρ c main_arg2 (by decide)).trans <|
  (W13_of m ρ c main_arg2 (by decide)).trans <|
  (W12_of_ne m ρ c main_arg2 (by decide)).trans <|
  (W11_of m ρ c main_arg2 (by decide)).trans <|
  (W10_of_ne m ρ c main_arg2 (by decide)).trans <|
  (W9_of m ρ c main_arg2 (by decide)).trans <|
  (W8_of_ne m ρ c main_arg2 (by decide)).trans <|
  (W7_of m ρ c main_arg2 (by decide)).trans <|
  (W6_of_ne m ρ c main_arg2 (by decide)).trans <|
  (W5_of m ρ c main_arg2 (by decide)).trans <|
  (W4_of_ne m ρ c main_arg2 (by decide)).trans <|
  (W3_of m ρ c main_arg2 (by decide)).trans <|
  (W2_of_ne m ρ c main_arg2 (by decide)).trans <|
  (W1_of m ρ c main_arg2 (by decide)).trans <| rfl

theorem W14_main_arg3 (c : Dev nD) : W14 m ρ c (Proc.devRef .tc main_arg3) = m ((c : Thread nD τ).loc main_arg3) :=
  (W14_of_ne m ρ c main_arg3 (by decide)).trans <|
  (W13_of m ρ c main_arg3 (by decide)).trans <|
  (W12_of_ne m ρ c main_arg3 (by decide)).trans <|
  (W11_of m ρ c main_arg3 (by decide)).trans <|
  (W10_of_ne m ρ c main_arg3 (by decide)).trans <|
  (W9_of m ρ c main_arg3 (by decide)).trans <|
  (W8_of_ne m ρ c main_arg3 (by decide)).trans <|
  (W7_of m ρ c main_arg3 (by decide)).trans <|
  (W6_of_ne m ρ c main_arg3 (by decide)).trans <|
  (W5_of m ρ c main_arg3 (by decide)).trans <|
  (W4_of_ne m ρ c main_arg3 (by decide)).trans <|
  (W3_of m ρ c main_arg3 (by decide)).trans <|
  (W2_of_ne m ρ c main_arg3 (by decide)).trans <|
  (W1_of m ρ c main_arg3 (by decide)).trans <| rfl

theorem W14_main_arg4 (c : Dev nD) : W14 m ρ c (Proc.devRef .tc main_arg4) = m ((c : Thread nD τ).loc main_arg4) :=
  (W14_of_ne m ρ c main_arg4 (by decide)).trans <|
  (W13_of m ρ c main_arg4 (by decide)).trans <|
  (W12_of_ne m ρ c main_arg4 (by decide)).trans <|
  (W11_of m ρ c main_arg4 (by decide)).trans <|
  (W10_of_ne m ρ c main_arg4 (by decide)).trans <|
  (W9_of m ρ c main_arg4 (by decide)).trans <|
  (W8_of_ne m ρ c main_arg4 (by decide)).trans <|
  (W7_of m ρ c main_arg4 (by decide)).trans <|
  (W6_of_ne m ρ c main_arg4 (by decide)).trans <|
  (W5_of m ρ c main_arg4 (by decide)).trans <|
  (W4_of_ne m ρ c main_arg4 (by decide)).trans <|
  (W3_of m ρ c main_arg4 (by decide)).trans <|
  (W2_of_ne m ρ c main_arg4 (by decide)).trans <|
  (W1_of m ρ c main_arg4 (by decide)).trans <| rfl

theorem W14_main_arg5 (c : Dev nD) : W14 m ρ c (Proc.devRef .tc main_arg5) = m ((c : Thread nD τ).loc main_arg5) :=
  (W14_of_ne m ρ c main_arg5 (by decide)).trans <|
  (W13_of m ρ c main_arg5 (by decide)).trans <|
  (W12_of_ne m ρ c main_arg5 (by decide)).trans <|
  (W11_of m ρ c main_arg5 (by decide)).trans <|
  (W10_of_ne m ρ c main_arg5 (by decide)).trans <|
  (W9_of m ρ c main_arg5 (by decide)).trans <|
  (W8_of_ne m ρ c main_arg5 (by decide)).trans <|
  (W7_of m ρ c main_arg5 (by decide)).trans <|
  (W6_of_ne m ρ c main_arg5 (by decide)).trans <|
  (W5_of m ρ c main_arg5 (by decide)).trans <|
  (W4_of_ne m ρ c main_arg5 (by decide)).trans <|
  (W3_of m ρ c main_arg5 (by decide)).trans <|
  (W2_of_ne m ρ c main_arg5 (by decide)).trans <|
  (W1_of m ρ c main_arg5 (by decide)).trans <| rfl

theorem W14_main_arg6 (c : Dev nD) : W14 m ρ c (Proc.devRef .tc main_arg6) = m ((c : Thread nD τ).loc main_arg6) :=
  (W14_of_ne m ρ c main_arg6 (by decide)).trans <|
  (W13_of m ρ c main_arg6 (by decide)).trans <|
  (W12_of_ne m ρ c main_arg6 (by decide)).trans <|
  (W11_of m ρ c main_arg6 (by decide)).trans <|
  (W10_of_ne m ρ c main_arg6 (by decide)).trans <|
  (W9_of m ρ c main_arg6 (by decide)).trans <|
  (W8_of_ne m ρ c main_arg6 (by decide)).trans <|
  (W7_of m ρ c main_arg6 (by decide)).trans <|
  (W6_of_ne m ρ c main_arg6 (by decide)).trans <|
  (W5_of m ρ c main_arg6 (by decide)).trans <|
  (W4_of_ne m ρ c main_arg6 (by decide)).trans <|
  (W3_of m ρ c main_arg6 (by decide)).trans <|
  (W2_of_ne m ρ c main_arg6 (by decide)).trans <|
  (W1_of m ρ c main_arg6 (by decide)).trans <| rfl

theorem W14_main_arg7 (c : Dev nD) : W14 m ρ c (Proc.devRef .tc main_arg7) = m ((c : Thread nD τ).loc main_arg7) :=
  (W14_of_ne m ρ c main_arg7 (by decide)).trans <|
  (W13_of m ρ c main_arg7 (by decide)).trans <|
  (W12_of_ne m ρ c main_arg7 (by decide)).trans <|
  (W11_of m ρ c main_arg7 (by decide)).trans <|
  (W10_of_ne m ρ c main_arg7 (by decide)).trans <|
  (W9_of m ρ c main_arg7 (by decide)).trans <|
  (W8_of_ne m ρ c main_arg7 (by decide)).trans <|
  (W7_of m ρ c main_arg7 (by decide)).trans <|
  (W6_of_ne m ρ c main_arg7 (by decide)).trans <|
  (W5_of m ρ c main_arg7 (by decide)).trans <|
  (W4_of_ne m ρ c main_arg7 (by decide)).trans <|
  (W3_of m ρ c main_arg7 (by decide)).trans <|
  (W2_of_ne m ρ c main_arg7 (by decide)).trans <|
  (W1_of m ρ c main_arg7 (by decide)).trans <| rfl

theorem W14_main_arg8 (c : Dev nD) : W14 m ρ c (Proc.devRef .tc main_arg8) = m ((c : Thread nD τ).loc main_arg8) :=
  ((W14_arr m ρ c 1).trans (((dat6 (V13 m ρ) c).arrAt_in 1 rfl _).trans (A_eq6 (V13 m ρ) c 1))).trans <|
  (W13_of m ρ c main_arg8 (by decide)).trans <|
  (W12_of_ne m ρ c main_arg8 (by decide)).trans <|
  (W11_of m ρ c main_arg8 (by decide)).trans <|
  (W10_of_ne m ρ c main_arg8 (by decide)).trans <|
  (W9_of m ρ c main_arg8 (by decide)).trans <|
  (W8_of_ne m ρ c main_arg8 (by decide)).trans <|
  (W7_of m ρ c main_arg8 (by decide)).trans <|
  (W6_of_ne m ρ c main_arg8 (by decide)).trans <|
  (W5_of m ρ c main_arg8 (by decide)).trans <|
  (W4_of_ne m ρ c main_arg8 (by decide)).trans <|
  (W3_of m ρ c main_arg8 (by decide)).trans <|
  (W2_of_ne m ρ c main_arg8 (by decide)).trans <|
  (W1_of m ρ c main_arg8 (by decide)).trans <| rfl

theorem W14_main_arg9 (c : Dev nD) : W14 m ρ c (Proc.devRef .tc main_arg9) = m ((c : Thread nD τ).loc main_arg9) :=
  (W14_of_ne m ρ c main_arg9 (by decide)).trans <|
  (W13_of m ρ c main_arg9 (by decide)).trans <|
  (W12_of_ne m ρ c main_arg9 (by decide)).trans <|
  (W11_of m ρ c main_arg9 (by decide)).trans <|
  (W10_of_ne m ρ c main_arg9 (by decide)).trans <|
  (W9_of m ρ c main_arg9 (by decide)).trans <|
  (W8_of_ne m ρ c main_arg9 (by decide)).trans <|
  (W7_of m ρ c main_arg9 (by decide)).trans <|
  (W6_of_ne m ρ c main_arg9 (by decide)).trans <|
  (W5_of m ρ c main_arg9 (by decide)).trans <|
  (W4_of_ne m ρ c main_arg9 (by decide)).trans <|
  (W3_of m ρ c main_arg9 (by decide)).trans <|
  (W2_of_ne m ρ c main_arg9 (by decide)).trans <|
  (W1_of m ρ c main_arg9 (by decide)).trans <| rfl

theorem W14_main_arg10 (c : Dev nD) : W14 m ρ c (Proc.devRef .tc main_arg10) = m ((c : Thread nD τ).loc main_arg10) :=
  ((W14_arr m ρ c 3).trans (((dat6 (V13 m ρ) c).arrAt_in 3 rfl _).trans (A_eq6 (V13 m ρ) c 3))).trans <|
  (W13_of m ρ c main_arg10 (by decide)).trans <|
  (W12_of_ne m ρ c main_arg10 (by decide)).trans <|
  (W11_of m ρ c main_arg10 (by decide)).trans <|
  (W10_of_ne m ρ c main_arg10 (by decide)).trans <|
  (W9_of m ρ c main_arg10 (by decide)).trans <|
  (W8_of_ne m ρ c main_arg10 (by decide)).trans <|
  (W7_of m ρ c main_arg10 (by decide)).trans <|
  (W6_of_ne m ρ c main_arg10 (by decide)).trans <|
  (W5_of m ρ c main_arg10 (by decide)).trans <|
  (W4_of_ne m ρ c main_arg10 (by decide)).trans <|
  (W3_of m ρ c main_arg10 (by decide)).trans <|
  (W2_of_ne m ρ c main_arg10 (by decide)).trans <|
  (W1_of m ρ c main_arg10 (by decide)).trans <| rfl

theorem W14_main_arg11 (c : Dev nD) : W14 m ρ c (Proc.devRef .tc main_arg11) = m ((c : Thread nD τ).loc main_arg11) :=
  (W14_of_ne m ρ c main_arg11 (by decide)).trans <|
  (W13_of m ρ c main_arg11 (by decide)).trans <|
  (W12_of_ne m ρ c main_arg11 (by decide)).trans <|
  (W11_of m ρ c main_arg11 (by decide)).trans <|
  (W10_of_ne m ρ c main_arg11 (by decide)).trans <|
  (W9_of m ρ c main_arg11 (by decide)).trans <|
  (W8_of_ne m ρ c main_arg11 (by decide)).trans <|
  (W7_of m ρ c main_arg11 (by decide)).trans <|
  (W6_of_ne m ρ c main_arg11 (by decide)).trans <|
  (W5_of m ρ c main_arg11 (by decide)).trans <|
  (W4_of_ne m ρ c main_arg11 (by decide)).trans <|
  (W3_of m ρ c main_arg11 (by decide)).trans <|
  (W2_of_ne m ρ c main_arg11 (by decide)).trans <|
  (W1_of m ρ c main_arg11 (by decide)).trans <| rfl

theorem W14_main_arg12 (c : Dev nD) : W14 m ρ c (Proc.devRef .tc main_arg12) = m ((c : Thread nD τ).loc main_arg12) :=
  ((W14_arr m ρ c 5).trans (((dat6 (V13 m ρ) c).arrAt_in 5 rfl _).trans (A_eq6 (V13 m ρ) c 5))).trans <|
  (W13_of m ρ c main_arg12 (by decide)).trans <|
  (W12_of_ne m ρ c main_arg12 (by decide)).trans <|
  (W11_of m ρ c main_arg12 (by decide)).trans <|
  (W10_of_ne m ρ c main_arg12 (by decide)).trans <|
  (W9_of m ρ c main_arg12 (by decide)).trans <|
  (W8_of_ne m ρ c main_arg12 (by decide)).trans <|
  (W7_of m ρ c main_arg12 (by decide)).trans <|
  (W6_of_ne m ρ c main_arg12 (by decide)).trans <|
  (W5_of m ρ c main_arg12 (by decide)).trans <|
  (W4_of_ne m ρ c main_arg12 (by decide)).trans <|
  (W3_of m ρ c main_arg12 (by decide)).trans <|
  (W2_of_ne m ρ c main_arg12 (by decide)).trans <|
  (W1_of m ρ c main_arg12 (by decide)).trans <| rfl

/-! ## The proof data family and the thread state -/

/-- The prefetched tables' admissible contents: no pipeline has a table. -/
abbrev adm : (p : Fin 7) → (pcfgs (F := F) p).Adm := fun p => (cfgs p).toPCfg_adm
/-- Every pipeline's proof data, each at its region's entry contents. -/
def pdats : (p : Fin 7) → (c : Dev nD) → Dat τ (Elt F) Unit ℕ (UR sig nD τ) ℕ (Pipeline.pin (pcfgs (F := F)) adm p) c
  | ⟨0, _⟩ => fun c => dat0 (V1 m ρ) c
  | ⟨1, _⟩ => fun c => dat1 (V3 m ρ) c
  | ⟨2, _⟩ => fun c => dat2 (V5 m ρ) c
  | ⟨3, _⟩ => fun c => dat3 (V7 m ρ) c
  | ⟨4, _⟩ => fun c => dat4 (V9 m ρ) c
  | ⟨5, _⟩ => fun c => dat5 (V11 m ρ) c
  | ⟨6, _⟩ => fun c => dat6 (V13 m ρ) c
abbrev 𝒱₀ : Variants := Variants.none
/-- No core owes another anything: no level is assigned. -/
abbrev L : GSem nD τ sig → Finset Unit := fun _ => ∅
abbrev lv : GSem nD τ sig → Unit → ℕ := fun _ _ => 0
/-- What rides beside the buffers through every segment: the core's generator register at some state and
    its owed transfers, at nothing. -/
abbrev R (c : Dev nD) : sProp 𝕄 := iprop((∃ r, prngReg c r) ∗ ∃ W, owes (c : Thread nD τ) (0 : CellTallies nD τ sig Unit) W)
/-- A host stretch as a segment: over the unscoped references from the contents `W`, `R` riding along; it
    ends with those references at the stretch's result from `W`, the next boundary's contents by name. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

/-- No operation of host stretch 0 allocates a buffer. -/
theorem hostOps0_fresh : (hostOps0 : List (HloOp τ sig (Elt F))).Forall fun op => op.fresh = ∅ := by
  simp only [List.Forall]; repeat' constructor
/-- No operation of host stretch 1 allocates a buffer. -/
theorem hostOps1_fresh : (hostOps1 : List (HloOp τ sig (Elt F))).Forall fun op => op.fresh = ∅ := by
  simp only [List.Forall]; repeat' constructor
/-- No operation of host stretch 2 allocates a buffer. -/
theorem hostOps2_fresh : (hostOps2 : List (HloOp τ sig (Elt F))).Forall fun op => op.fresh = ∅ := by
  simp only [List.Forall]; repeat' constructor
/-- No operation of host stretch 3 allocates a buffer. -/
theorem hostOps3_fresh : (hostOps3 : List (HloOp τ sig (Elt F))).Forall fun op => op.fresh = ∅ := by
  simp only [List.Forall]; repeat' constructor
/-- No operation of host stretch 4 allocates a buffer. -/
theorem hostOps4_fresh : (hostOps4 : List (HloOp τ sig (Elt F))).Forall fun op => op.fresh = ∅ := by
  simp only [List.Forall]; repeat' constructor
/-- No operation of host stretch 5 allocates a buffer. -/
theorem hostOps5_fresh : (hostOps5 : List (HloOp τ sig (Elt F))).Forall fun op => op.fresh = ∅ := by
  simp only [List.Forall]; repeat' constructor
/-- No operation of host stretch 6 allocates a buffer. -/
theorem hostOps6_fresh : (hostOps6 : List (HloOp τ sig (Elt F))).Forall fun op => op.fresh = ∅ := by
  simp only [List.Forall]; repeat' constructor
/-- An unscoped TensorCore reference is among those the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without the owed transfers: every unscoped buffer at the last boundary's
    contents `W14`, the generator register at some state. -/
abbrev Tₙ (c : Dev nD) : sProp 𝕄 := iprop(StableHlo.held (c : Thread nD τ) (Pipeline.ucRefs τ sig) (W14 m ρ c) ∗ ∃ r, prngReg c r)

/-! ## The regions as segments -/

-- a library lemma stated over a pinned configuration unifies with the printed one only when unification may
-- unfold plain definitions in a metavariable's type
set_option backward.isDefEq.respectTransparency.types false in
/-- Region 0 over the thread state: entered from every unscoped buffer at `W1`, left at `W2`.
    Its arrays are split out of the unscoped buffers and put back at the exit contents; the generator
    register goes into the region's invariant and comes back (the invariant names the two running-sum rows between points; before the first point and after the last it is the plain one); nothing owed; no semaphore of the
    kernel's own. -/
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V1 m ρ) c).loose
  hwaits := Pipeline.hwaits_of_owed_zero _ _ _ _ L lv 0 fun _ _ => rfl
  pre c := iprop(StableHlo.held (c : Thread nD τ) (Pipeline.ucRefs τ sig) (W1 m ρ c) ∗ R c)
  post c := iprop(StableHlo.held (c : Thread nD τ) (Pipeline.ucRefs τ sig) (W2 m ρ c) ∗ R c)
  X c := iprop(∃ r, prngReg c r)
  Y c := iprop(∃ r, prngReg c r)
  Z c := Pipeline.unscopedRest (Ix := Unit) (Name := ℕ) (U := UR sig nD τ) (Lvl := ℕ) spec0 c (V1 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (V1 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = (dat0 (V1 m ρ) c).Φ 0 from rfl]
    refine (?_ : _ ⊢ Pipeline.ΦA spec0 c).trans (hin0 (V1 m ρ) c)
    unfold Pipeline.ΦA
    iintro ⟨Hp, -, Hr⟩
    isplitl [Hr]; · iexact Hr
    iexact Hp
  hout c := by
    rw [Pipeline.ownSems0_none, show (pdats m ρ 0 c).Φ (Fin.last _) = (dat0 (V1 m ρ) c).Φ (Fin.last cfg0.N) from rfl]
    refine (hout0 (V1 m ρ) c).trans (?_ : Pipeline.ΦA spec0 c ⊢ _)
    unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (V1 m ρ c) (V2 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

-- a library lemma stated over a pinned configuration unifies with the printed one only when unification may
-- unfold plain definitions in a metavariable's type
set_option backward.isDefEq.respectTransparency.types false in
/-- Region 1 over the thread state: entered from every unscoped buffer at `W3`, left at `W4`.
    Its arrays are split out of the unscoped buffers and put back at the exit contents; the generator
    register goes into the region's invariant and comes back; nothing owed; no semaphore of the
    kernel's own. -/
def reg1 : Pipeline.RegionSeg (pcfgs (F := F)) adm (pdats m ρ) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V3 m ρ) c).loose
  hwaits := Pipeline.hwaits_of_owed_zero _ _ _ _ L lv 1 fun _ _ => rfl
  pre c := iprop(StableHlo.held (c : Thread nD τ) (Pipeline.ucRefs τ sig) (W3 m ρ c) ∗ R c)
  post c := iprop(StableHlo.held (c : Thread nD τ) (Pipeline.ucRefs τ sig) (W4 m ρ c) ∗ R c)
  X c := iprop(∃ r, prngReg c r)
  Y c := iprop(∃ r, prngReg c r)
  Z c := Pipeline.unscopedRest (Ix := Unit) (Name := ℕ) (U := UR sig nD τ) (Lvl := ℕ) spec1 c (V3 m ρ c)
  hentry c := by
    rw [Pipeline.ownSems0_none]
    have hsplit := Pipeline.arrays_of_unscopedBufs (p := 1) (pcfgs (F := F)) adm (pdats m ρ) launch1.win launch1.arr_whole c
      ((pdats m ρ 1 c).share_full fun _ => rfl) (V3 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m ρ 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m ρ) ((pdats m ρ 1 c).share_full fun _ => rfl)
      (V3 m ρ c) (V4 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

-- a library lemma stated over a pinned configuration unifies with the printed one only when unification may
-- unfold plain definitions in a metavariable's type
set_option backward.isDefEq.respectTransparency.types false in
/-- Region 2 over the thread state: entered from every unscoped buffer at `W5`, left at `W6`.
    Its arrays are split out of the unscoped buffers and put back at the exit contents; the generator
    register goes into the region's invariant and comes back (the invariant names the two running-sum rows between points; before the first point and after the last it is the plain one); nothing owed; no semaphore of the
    kernel's own. -/
def reg2 : Pipeline.RegionSeg (pcfgs (F := F)) adm (pdats m ρ) () defs₀ 𝒱₀ L lv 2 where
  win := launch2.win.to₀
  block_pos := launch2.block_pos
  stage_whole := launch2.stage_whole
  K := PEmpty
  osem k := k.elim
  ho := Pipeline.OwnSemFacts.none _
  hbody c := (body_obligation2 (V5 m ρ) c).loose
  hwaits := Pipeline.hwaits_of_owed_zero _ _ _ _ L lv 2 fun _ _ => rfl
  pre c := iprop(StableHlo.held (c : Thread nD τ) (Pipeline.ucRefs τ sig) (W5 m ρ c) ∗ R c)
  post c := iprop(StableHlo.held (c : Thread nD τ) (Pipeline.ucRefs τ sig) (W6 m ρ c) ∗ R c)
  X c := iprop(∃ r, prngReg c r)
  Y c := iprop(∃ r, prngReg c r)
  Z c := Pipeline.unscopedRest (Ix := Unit) (Name := ℕ) (U := UR sig nD τ) (Lvl := ℕ) spec2 c (V5 m ρ c)
  hentry c := by
    rw [Pipeline.ownSems0_none]
    have hsplit := Pipeline.arrays_of_unscopedBufs (p := 2) (pcfgs (F := F)) adm (pdats m ρ) launch2.win launch2.arr_whole c
      ((pdats m ρ 2 c).share_full fun _ => rfl) (V5 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 2 c).Φ 0 = (dat2 (V5 m ρ) c).Φ 0 from rfl]
    refine (?_ : _ ⊢ Pipeline.ΦA spec2 c).trans (hin2 (V5 m ρ) c)
    unfold Pipeline.ΦA
    iintro ⟨Hp, -, Hr⟩
    isplitl [Hr]; · iexact Hr
    iexact Hp
  hout c := by
    rw [Pipeline.ownSems0_none, show (pdats m ρ 2 c).Φ (Fin.last _) = (dat2 (V5 m ρ) c).Φ (Fin.last cfg2.N) from rfl]
    refine (hout2 (V5 m ρ) c).trans (?_ : Pipeline.ΦA spec2 c ⊢ _)
    unfold Pipeline.ΦA
    iintro ⟨Hr, Hp⟩
    isplitl [Hp]; · iexact Hp
    isplitr; · iempintro
    iexact Hr
  hexit c := by
    have hjoin := Pipeline.unscopedBufs_of_arrays (p := 2) (pcfgs (F := F)) adm (Ix := Unit) (Name := ℕ) (U := UR sig nD τ) (Lvl := ℕ)
      launch2.win launch2.arr_whole c (pdats m ρ) ((pdats m ρ 2 c).share_full fun _ => rfl)
      (V5 m ρ c) (V6 m ρ c) ((pdats m ρ 2 c).arrAt · cfg2.N) (hF2 m ρ c) (hrest2 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

-- a library lemma stated over a pinned configuration unifies with the printed one only when unification may
-- unfold plain definitions in a metavariable's type
set_option backward.isDefEq.respectTransparency.types false in
/-- Region 3 over the thread state: entered from every unscoped buffer at `W7`, left at `W8`.
    Its arrays are split out of the unscoped buffers and put back at the exit contents; the generator
    register goes into the region's invariant and comes back; nothing owed; no semaphore of the
    kernel's own. -/
def reg3 : Pipeline.RegionSeg (pcfgs (F := F)) adm (pdats m ρ) () defs₀ 𝒱₀ L lv 3 where
  win := launch3.win.to₀
  block_pos := launch3.block_pos
  stage_whole := launch3.stage_whole
  K := PEmpty
  osem k := k.elim
  ho := Pipeline.OwnSemFacts.none _
  hbody c := (body_obligation3 (V7 m ρ) c).loose
  hwaits := Pipeline.hwaits_of_owed_zero _ _ _ _ L lv 3 fun _ _ => rfl
  pre c := iprop(StableHlo.held (c : Thread nD τ) (Pipeline.ucRefs τ sig) (W7 m ρ c) ∗ R c)
  post c := iprop(StableHlo.held (c : Thread nD τ) (Pipeline.ucRefs τ sig) (W8 m ρ c) ∗ R c)
  X c := iprop(∃ r, prngReg c r)
  Y c := iprop(∃ r, prngReg c r)
  Z c := Pipeline.unscopedRest (Ix := Unit) (Name := ℕ) (U := UR sig nD τ) (Lvl := ℕ) spec3 c (V7 m ρ c)
  hentry c := by
    rw [Pipeline.ownSems0_none]
    have hsplit := Pipeline.arrays_of_unscopedBufs (p := 3) (pcfgs (F := F)) adm (pdats m ρ) launch3.win launch3.arr_whole c
      ((pdats m ρ 3 c).share_full fun _ => rfl) (V7 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 3 c).Φ 0 = Pipeline.ΦA spec3 c from rfl]; unfold Pipeline.ΦA
    iintro ⟨Hp, -, Hr⟩
    isplitl [Hr]; · iexact Hr
    iexact Hp
  hout c := by
    rw [Pipeline.ownSems0_none, show (pdats m ρ 3 c).Φ (Fin.last _) = Pipeline.ΦA spec3 c from rfl]; unfold Pipeline.ΦA
    iintro ⟨Hr, Hp⟩
    isplitl [Hp]; · iexact Hp
    isplitr; · iempintro
    iexact Hr
  hexit c := by
    have hjoin := Pipeline.unscopedBufs_of_arrays (p := 3) (pcfgs (F := F)) adm (Ix := Unit) (Name := ℕ) (U := UR sig nD τ) (Lvl := ℕ)
      launch3.win launch3.arr_whole c (pdats m ρ) ((pdats m ρ 3 c).share_full fun _ => rfl)
      (V7 m ρ c) (V8 m ρ c) ((pdats m ρ 3 c).arrAt · cfg3.N) (hF3 m ρ c) (hrest3 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

-- a library lemma stated over a pinned configuration unifies with the printed one only when unification may
-- unfold plain definitions in a metavariable's type
set_option backward.isDefEq.respectTransparency.types false in
/-- Region 4 over the thread state: entered from every unscoped buffer at `W9`, left at `W10`.
    Its arrays are split out of the unscoped buffers and put back at the exit contents; the generator
    register goes into the region's invariant and comes back (the invariant names the two running-sum rows between points; before the first point and after the last it is the plain one); nothing owed; no semaphore of the
    kernel's own. -/
def reg4 : Pipeline.RegionSeg (pcfgs (F := F)) adm (pdats m ρ) () defs₀ 𝒱₀ L lv 4 where
  win := launch4.win.to₀
  block_pos := launch4.block_pos
  stage_whole := launch4.stage_whole
  K := PEmpty
  osem k := k.elim
  ho := Pipeline.OwnSemFacts.none _
  hbody c := (body_obligation4 (V9 m ρ) c).loose
  hwaits := Pipeline.hwaits_of_owed_zero _ _ _ _ L lv 4 fun _ _ => rfl
  pre c := iprop(StableHlo.held (c : Thread nD τ) (Pipeline.ucRefs τ sig) (W9 m ρ c) ∗ R c)
  post c := iprop(StableHlo.held (c : Thread nD τ) (Pipeline.ucRefs τ sig) (W10 m ρ c) ∗ R c)
  X c := iprop(∃ r, prngReg c r)
  Y c := iprop(∃ r, prngReg c r)
  Z c := Pipeline.unscopedRest (Ix := Unit) (Name := ℕ) (U := UR sig nD τ) (Lvl := ℕ) spec4 c (V9 m ρ c)
  hentry c := by
    rw [Pipeline.ownSems0_none]
    have hsplit := Pipeline.arrays_of_unscopedBufs (p := 4) (pcfgs (F := F)) adm (pdats m ρ) launch4.win launch4.arr_whole c
      ((pdats m ρ 4 c).share_full fun _ => rfl) (V9 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 4 c).Φ 0 = (dat4 (V9 m ρ) c).Φ 0 from rfl]
    refine (?_ : _ ⊢ Pipeline.ΦA spec4 c).trans (hin4 (V9 m ρ) c)
    unfold Pipeline.ΦA
    iintro ⟨Hp, -, Hr⟩
    isplitl [Hr]; · iexact Hr
    iexact Hp
  hout c := by
    rw [Pipeline.ownSems0_none, show (pdats m ρ 4 c).Φ (Fin.last _) = (dat4 (V9 m ρ) c).Φ (Fin.last cfg4.N) from rfl]
    refine (hout4 (V9 m ρ) c).trans (?_ : Pipeline.ΦA spec4 c ⊢ _)
    unfold Pipeline.ΦA
    iintro ⟨Hr, Hp⟩
    isplitl [Hp]; · iexact Hp
    isplitr; · iempintro
    iexact Hr
  hexit c := by
    have hjoin := Pipeline.unscopedBufs_of_arrays (p := 4) (pcfgs (F := F)) adm (Ix := Unit) (Name := ℕ) (U := UR sig nD τ) (Lvl := ℕ)
      launch4.win launch4.arr_whole c (pdats m ρ) ((pdats m ρ 4 c).share_full fun _ => rfl)
      (V9 m ρ c) (V10 m ρ c) ((pdats m ρ 4 c).arrAt · cfg4.N) (hF4 m ρ c) (hrest4 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

-- a library lemma stated over a pinned configuration unifies with the printed one only when unification may
-- unfold plain definitions in a metavariable's type
set_option backward.isDefEq.respectTransparency.types false in
/-- Region 5 over the thread state: entered from every unscoped buffer at `W11`, left at `W12`.
    Its arrays are split out of the unscoped buffers and put back at the exit contents; the generator
    register goes into the region's invariant and comes back; nothing owed; no semaphore of the
    kernel's own. -/
def reg5 : Pipeline.RegionSeg (pcfgs (F := F)) adm (pdats m ρ) () defs₀ 𝒱₀ L lv 5 where
  win := launch5.win.to₀
  block_pos := launch5.block_pos
  stage_whole := launch5.stage_whole
  K := PEmpty
  osem k := k.elim
  ho := Pipeline.OwnSemFacts.none _
  hbody c := (body_obligation5 (V11 m ρ) c).loose
  hwaits := Pipeline.hwaits_of_owed_zero _ _ _ _ L lv 5 fun _ _ => rfl
  pre c := iprop(StableHlo.held (c : Thread nD τ) (Pipeline.ucRefs τ sig) (W11 m ρ c) ∗ R c)
  post c := iprop(StableHlo.held (c : Thread nD τ) (Pipeline.ucRefs τ sig) (W12 m ρ c) ∗ R c)
  X c := iprop(∃ r, prngReg c r)
  Y c := iprop(∃ r, prngReg c r)
  Z c := Pipeline.unscopedRest (Ix := Unit) (Name := ℕ) (U := UR sig nD τ) (Lvl := ℕ) spec5 c (V11 m ρ c)
  hentry c := by
    rw [Pipeline.ownSems0_none]
    have hsplit := Pipeline.arrays_of_unscopedBufs (p := 5) (pcfgs (F := F)) adm (pdats m ρ) launch5.win launch5.arr_whole c
      ((pdats m ρ 5 c).share_full fun _ => rfl) (V11 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 5 c).Φ 0 = Pipeline.ΦA spec5 c from rfl]; unfold Pipeline.ΦA
    iintro ⟨Hp, -, Hr⟩
    isplitl [Hr]; · iexact Hr
    iexact Hp
  hout c := by
    rw [Pipeline.ownSems0_none, show (pdats m ρ 5 c).Φ (Fin.last _) = Pipeline.ΦA spec5 c from rfl]; unfold Pipeline.ΦA
    iintro ⟨Hr, Hp⟩
    isplitl [Hp]; · iexact Hp
    isplitr; · iempintro
    iexact Hr
  hexit c := by
    have hjoin := Pipeline.unscopedBufs_of_arrays (p := 5) (pcfgs (F := F)) adm (Ix := Unit) (Name := ℕ) (U := UR sig nD τ) (Lvl := ℕ)
      launch5.win launch5.arr_whole c (pdats m ρ) ((pdats m ρ 5 c).share_full fun _ => rfl)
      (V11 m ρ c) (V12 m ρ c) ((pdats m ρ 5 c).arrAt · cfg5.N) (hF5 m ρ c) (hrest5 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

-- a library lemma stated over a pinned configuration unifies with the printed one only when unification may
-- unfold plain definitions in a metavariable's type
set_option backward.isDefEq.respectTransparency.types false in
/-- Region 6 over the thread state: entered from every unscoped buffer at `W13`, left at `W14` (what the launch reads at the end).
    Its arrays are split out of the unscoped buffers and put back at the exit contents; the generator
    register goes into the region's invariant and comes back; nothing owed; no semaphore of the
    kernel's own. -/
def reg6 : Pipeline.RegionSeg (pcfgs (F := F)) adm (pdats m ρ) () defs₀ 𝒱₀ L lv 6 where
  win := launch6.win.to₀
  block_pos := launch6.block_pos
  stage_whole := launch6.stage_whole
  K := PEmpty
  osem k := k.elim
  ho := Pipeline.OwnSemFacts.none _
  hbody c := (body_obligation6 (V13 m ρ) c).loose
  hwaits := Pipeline.hwaits_of_owed_zero _ _ _ _ L lv 6 fun _ _ => rfl
  pre c := iprop(StableHlo.held (c : Thread nD τ) (Pipeline.ucRefs τ sig) (W13 m ρ c) ∗ R c)
  post c := iprop(Tₙ m ρ c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec6 c (V13 m ρ c)
  hentry c := by
    rw [Pipeline.ownSems0_none]
    have hsplit := Pipeline.arrays_of_unscopedBufs (p := 6) (pcfgs (F := F)) adm (pdats m ρ) launch6.win launch6.arr_whole c
      ((pdats m ρ 6 c).share_full fun _ => rfl) (V13 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 6 c).Φ 0 = Pipeline.ΦA spec6 c from rfl]; unfold Pipeline.ΦA
    iintro ⟨Hp, -, Hr⟩
    isplitl [Hr]; · iexact Hr
    iexact Hp
  hout c := by
    rw [Pipeline.ownSems0_none, show (pdats m ρ 6 c).Φ (Fin.last _) = Pipeline.ΦA spec6 c from rfl]; unfold Pipeline.ΦA
    iintro ⟨Hr, Hp⟩
    isplitl [Hp]; · iexact Hp
    isplitr; · iempintro
    iexact Hr
  hexit c := by
    have hjoin := Pipeline.unscopedBufs_of_arrays (p := 6) (pcfgs (F := F)) adm (Ix := Unit) (Name := ℕ) (U := UR sig nD τ) (Lvl := ℕ)
      launch6.win launch6.arr_whole c (pdats m ρ) ((pdats m ρ 6 c).share_full fun _ => rfl)
      (V13 m ρ c) (V14 m ρ c) ((pdats m ρ 6 c).arrAt · cfg6.N) (hF6 m ρ c) (hrest6 m ρ c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-! ## The program as segments, and the launch -/

/-- The program's 14 segments in order: a host segment per stretch from its boundary's contents, a region
    per kernel call. -/
abbrev segs : List (Pipeline.Seg (pcfgs (F := F)) adm (pdats m ρ) () defs₀ 𝒱₀ L lv) :=
  [ .host (hseg hostOps0 hostOps0_sub hostOps0_fresh (W0 m ρ)),
    .region (reg0 m ρ),
    .host (hseg hostOps1 hostOps1_sub hostOps1_fresh (W2 m ρ)),
    .region (reg1 m ρ),
    .host (hseg hostOps2 hostOps2_sub hostOps2_fresh (W4 m ρ)),
    .region (reg2 m ρ),
    .host (hseg hostOps3 hostOps3_sub hostOps3_fresh (W6 m ρ)),
    .region (reg3 m ρ),
    .host (hseg hostOps4 hostOps4_sub hostOps4_fresh (W8 m ρ)),
    .region (reg4 m ρ),
    .host (hseg hostOps5 hostOps5_sub hostOps5_fresh (W10 m ρ)),
    .region (reg5 m ρ),
    .host (hseg hostOps6 hostOps6_sub hostOps6_fresh (W12 m ρ)),
    .region (reg6 m ρ) ]
/-- The program IS the run of the segments. -/
theorem main_run (c : Dev nD) : main (F := F) c = Pipeline.Seg.run (segs m ρ) := (main_chain c).trans (by chain_rfl)

-- the launch theorem's implicit arguments are found by unifying its conclusion with this one, which takes
-- unfolding plain definitions in a metavariable's type
set_option backward.isDefEq.respectTransparency.types false in
/-- THE RUN, at any float instance: from any memory with zero counters, every weakly fair execution of the
    program on the TensorCores terminates, nothing faulting, and every final state has the result array at
    the fold's last contents and the thirteen argument arrays as launched. -/
theorem run : θ_run defs (onTc (τ := τ) (main (F := F))) ⟨m, fun _ => 0, ρ⟩ (fun r => ∀ c : Dev nD,
      r.2.mem ((c.tc : Thread nD τ).loc main_v111) = W14 m ρ c (Proc.devRef .tc main_v111)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W14 m ρ c b)
    (hfin := fun c s' => by
      iintro ⟨⟨Hh, -⟩, HSI⟩
      unfold StableHlo.held
      imodintro
      iapply (pointsTo_read_all (Pipeline.ucRefs τ sig) (fun b => (((c : Thread nD τ)).1, b)) (W14 m ρ c) s')
      isplitl [Hh] <;> iassumption)
    (hQ := fun s h c =>
      ⟨h c _ (mem_uc main_v111 (by decide)),
        (h c _ (mem_uc main_arg0 (by decide))).trans (W14_main_arg0 m ρ c),
        (h c _ (mem_uc main_arg1 (by decide))).trans (W14_main_arg1 m ρ c),
        (h c _ (mem_uc main_arg2 (by decide))).trans (W14_main_arg2 m ρ c),
        (h c _ (mem_uc main_arg3 (by decide))).trans (W14_main_arg3 m ρ c),
        (h c _ (mem_uc main_arg4 (by decide))).trans (W14_main_arg4 m ρ c),
        (h c _ (mem_uc main_arg5 (by decide))).trans (W14_main_arg5 m ρ c),
        (h c _ (mem_uc main_arg6 (by decide))).trans (W14_main_arg6 m ρ c),
        (h c _ (mem_uc main_arg7 (by decide))).trans (W14_main_arg7 m ρ c),
        (h c _ (mem_uc main_arg8 (by decide))).trans (W14_main_arg8 m ρ c),
        (h c _ (mem_uc main_arg9 (by decide))).trans (W14_main_arg9 m ρ c),
        (h c _ (mem_uc main_arg10 (by decide))).trans (W14_main_arg10 m ρ c),
        (h c _ (mem_uc main_arg11 (by decide))).trans (W14_main_arg11 m ρ c),
        (h c _ (mem_uc main_arg12 (by decide))).trans (W14_main_arg12 m ρ c)⟩)

/-- THE FRAME, at any float instance: the run with the result's clause dropped. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)) :=
  (θ_run defs _ _).mono (fun _ h c => (h c).2) (run m ρ)

end Cert.KernelIdeal.Hand

end
-- ==== Proof.RefRun0.lean ====
/-
  The reference program's statements 1 … 60 as lists of host operations, one list per
  mathematical stage, the outlined functions' operations standing at their calls over the call's buffer
  record; that the printed window is the lists run in order; and, per list, the three facts the run asks
  (TensorCore buffers only, results determined, the written buffers) with the buffers it leaves alone.
-/
import proofs.«160011_j2121713844488_1_alg».proof.Proof.Gen.ReferenceIdeal
import Idealize.ShloMosaic.Lib.StableHlo.Run
import Idealize.ShloMosaic.Lib.Pipeline.Frame

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

/-- The two rows of the edge table: row 0 (the sources) and row 1 (the destinations), each sliced out and flattened. (4 operations.) -/
def pSD : List (HloOp τ sig (Elt F)) :=
  [ unary main_arg1 main_v0 ((extractStridedSlice S1x600000 ![0, 0] · slices_S2x600000_S1x600000_0_0) : (⟨S2x600000, .i32⟩ : BufTy).Contents (Elt F) → (⟨S1x600000, .i32⟩ : BufTy).Contents (Elt F)),
    reshape main_v0 main_v1 rfl shapeCasts_S1x600000_S600000,
    unary main_arg1 main_v2 ((extractStridedSlice S1x600000 ![1, 0] · slices_S2x600000_S1x600000_1_0) : (⟨S2x600000, .i32⟩ : BufTy).Contents (Elt F) → (⟨S1x600000, .i32⟩ : BufTy).Contents (Elt F)),
    reshape main_v2 main_v3 rfl shapeCasts_S1x600000_S600000 ]

/-- Layer 0's neighbour aggregation: the source indices normalised (a negative index taken modulo the node count), the rows gathered, added up per destination into zeros, and the node's own row added. (14 operations.) -/
def pAgg0 : List (HloOp τ sig (Elt F)) :=
  [ nullary main_c (constantI S_ 32 0#32),
    unary main_c main_v4 (broadcastInDim S600000 ![] bcast_S_S600000 : (⟨S_, .i32⟩ : BufTy).Contents (Elt F) → (⟨S600000, .i32⟩ : BufTy).Contents (Elt F)),
    binary main_v1 main_v4 main_v5 (cmpi .slt : (⟨S600000, .i32⟩ : BufTy).Contents (Elt F) → (⟨S600000, .i32⟩ : BufTy).Contents (Elt F) → (⟨S600000, .i1⟩ : BufTy).Contents (Elt F)),
    nullary main_c_0 (constantI S_ 32 100000#32),
    unary main_c_0 main_v6 (broadcastInDim S600000 ![] bcast_S_S600000 : (⟨S_, .i32⟩ : BufTy).Contents (Elt F) → (⟨S600000, .i32⟩ : BufTy).Contents (Elt F)),
    binary main_v1 main_v6 main_v7 (addi : (⟨S600000, .i32⟩ : BufTy).Contents (Elt F) → (⟨S600000, .i32⟩ : BufTy).Contents (Elt F) → (⟨S600000, .i32⟩ : BufTy).Contents (Elt F)),
    ternary main_v5 main_v7 main_v1 main_v8 (select : (⟨S600000, .i1⟩ : BufTy).Contents (Elt F) → (⟨S600000, .i32⟩ : BufTy).Contents (Elt F) → (⟨S600000, .i32⟩ : BufTy).Contents (Elt F) → (⟨S600000, .i32⟩ : BufTy).Contents (Elt F)),
    unary main_v8 main_v9 (broadcastInDim S600000x1 ![0] bcast_S600000_S600000x1_0 : (⟨S600000, .i32⟩ : BufTy).Contents (Elt F) → (⟨S600000x1, .i32⟩ : BufTy).Contents (Elt F)),
    binary main_arg0 main_v9 main_v10 ((fun x i => Host.gather gather_S100000x128_S600000x1_S600000x128_1_0_n_n_0_1_1128 x i) : (⟨S100000x128, .f32⟩ : BufTy).Contents (Elt F) → (⟨S600000x1, .i32⟩ : BufTy).Contents (Elt F) → (⟨S600000x128, .f32⟩ : BufTy).Contents (Elt F)),
    nullary main_cst (constant S_ .f32 0x00000000#32),
    unary main_cst main_v11 (broadcastInDim S100000x128 ![] bcast_S_S100000x128 : (⟨S_, .f32⟩ : BufTy).Contents (Elt F) → (⟨S100000x128, .f32⟩ : BufTy).Contents (Elt F)),
    unary main_v3 main_v12 (broadcastInDim S600000x1 ![0] bcast_S600000_S600000x1_0 : (⟨S600000, .i32⟩ : BufTy).Contents (Elt F) → (⟨S600000x1, .i32⟩ : BufTy).Contents (Elt F)),
    ternary main_v11 main_v12 main_v10 main_v13 ((fun x i u => Host.scatterAdd scatter_S100000x128_S600000x1_S600000x128_1_0_0_1 x i u) : (⟨S100000x128, .f32⟩ : BufTy).Contents (Elt F) → (⟨S600000x1, .i32⟩ : BufTy).Contents (Elt F) → (⟨S600000x128, .f32⟩ : BufTy).Contents (Elt F) → (⟨S100000x128, .f32⟩ : BufTy).Contents (Elt F)),
    binary main_arg0 main_v13 main_v14 (addf : (⟨S100000x128, .f32⟩ : BufTy).Contents (Elt F) → (⟨S100000x128, .f32⟩ : BufTy).Contents (Elt F) → (⟨S100000x128, .f32⟩ : BufTy).Contents (Elt F)) ]

/-- Layer 0's two-layer perceptron: weight and bias 0 sliced out of the stacks, two affine maps each followed by a maximum with zero. (22 operations.) -/
def pMlp0 : List (HloOp τ sig (Elt F)) :=
  [ unary main_arg2 main_v15 ((extractStridedSlice S1x128x128 ![0, 0, 0] · slices_S3x128x128_S1x128x128_0_0_0) : (⟨S3x128x128, .f32⟩ : BufTy).Contents (Elt F) → (⟨S1x128x128, .f32⟩ : BufTy).Contents (Elt F)),
    reshape main_v15 main_v16 rfl shapeCasts_S1x128x128_S128x128,
    binary main_v14 main_v16 main_v17 ((fun l r => Host.dotGeneral dot_S100000x128_S128x128_S100000x128_1_0_0_1_n_n none l r) : (⟨S100000x128, .f32⟩ : BufTy).Contents (Elt F) → (⟨S128x128, .f32⟩ : BufTy).Contents (Elt F) → (⟨S100000x128, .f32⟩ : BufTy).Contents (Elt F)),
    unary main_arg3 main_v18 ((extractStridedSlice S1x128 ![0, 0] · slices_S3x128_S1x128_0_0) : (⟨S3x128, .f32⟩ : BufTy).Contents (Elt F) → (⟨S1x128, .f32⟩ : BufTy).Contents (Elt F)),
    reshape main_v18 main_v19 rfl shapeCasts_S1x128_S128,
    unary main_v19 main_v20 (broadcastInDim S1x128 ![1] bcast_S128_S1x128_1 : (⟨S128, .f32⟩ : BufTy).Contents (Elt F) → (⟨S1x128, .f32⟩ : BufTy).Contents (Elt F)),
    unary main_v20 main_v21 (broadcastInDim S100000x128 ![0, 1] bcast_S1x128_S100000x128_0_1 : (⟨S1x128, .f32⟩ : BufTy).Contents (Elt F) → (⟨S100000x128, .f32⟩ : BufTy).Contents (Elt F)),
    binary main_v17 main_v21 main_v22 (addf : (⟨S100000x128, .f32⟩ : BufTy).Contents (Elt F) → (⟨S100000x128, .f32⟩ : BufTy).Contents (Elt F) → (⟨S100000x128, .f32⟩ : BufTy).Contents (Elt F)),
    nullary main_cst_1 (constant S_ .f32 0x00000000#32),
    unary main_cst_1 main_v23 (broadcastInDim S100000x128 ![] bcast_S_S100000x128 : (⟨S_, .f32⟩ : BufTy).Contents (Elt F) → (⟨S100000x128, .f32⟩ : BufTy).Contents (Elt F)),
    binary main_v22 main_v23 main_v24 (maximumf : (⟨S100000x128, .f32⟩ : BufTy).Contents (Elt F) → (⟨S100000x128, .f32⟩ : BufTy).Contents (Elt F) → (⟨S100000x128, .f32⟩ : BufTy).Contents (Elt F)),
    unary main_arg4 main_v25 ((extractStridedSlice S1x128x128 ![0, 0, 0] · slices_S3x128x128_S1x128x128_0_0_0) : (⟨S3x128x128, .f32⟩ : BufTy).Contents (Elt F) → (⟨S1x128x128, .f32⟩ : BufTy).Contents (Elt F)),
    reshape main_v25 main_v26 rfl shapeCasts_S1x128x128_S128x128,
    binary main_v24 main_v26 main_v27 ((fun l r => Host.dotGeneral dot_S100000x128_S128x128_S100000x128_1_0_0_1_n_n none l r) : (⟨S100000x128, .f32⟩ : BufTy).Contents (Elt F) → (⟨S128x128, .f32⟩ : BufTy).Contents (Elt F) → (⟨S100000x128, .f32⟩ : BufTy).Contents (Elt F)),
    unary main_arg5 main_v28 ((extractStridedSlice S1x128 ![0, 0] · slices_S3x128_S1x128_0_0) : (⟨S3x128, .f32⟩ : BufTy).Contents (Elt F) → (⟨S1x128, .f32⟩ : BufTy).Contents (Elt F)),
    reshape main_v28 main_v29 rfl shapeCasts_S1x128_S128,
    unary main_v29 main_v30 (broadcastInDim S1x128 ![1] bcast_S128_S1x128_1 : (⟨S128, .f32⟩ : BufTy).Contents (Elt F) → (⟨S1x128, .f32⟩ : BufTy).Contents (Elt F)),
    unary main_v30 main_v31 (broadcastInDim S100000x128 ![0, 1] bcast_S1x128_S100000x128_0_1 : (⟨S1x128, .f32⟩ : BufTy).Contents (Elt F) → (⟨S100000x128, .f32⟩ : BufTy).Contents (Elt F)),
    binary main_v27 main_v31 main_v32 (addf : (⟨S100000x128, .f32⟩ : BufTy).Contents (Elt F) → (⟨S100000x128, .f32⟩ : BufTy).Contents (Elt F) → (⟨S100000x128, .f32⟩ : BufTy).Contents (Elt F)),
    nullary main_cst_2 (constant S_ .f32 0x00000000#32),
    unary main_cst_2 main_v33 (broadcastInDim S100000x128 ![] bcast_S_S100000x128 : (⟨S_, .f32⟩ : BufTy).Contents (Elt F) → (⟨S100000x128, .f32⟩ : BufTy).Contents (Elt F)),
    binary main_v32 main_v33 main_v34 (maximumf : (⟨S100000x128, .f32⟩ : BufTy).Contents (Elt F) → (⟨S100000x128, .f32⟩ : BufTy).Contents (Elt F) → (⟨S100000x128, .f32⟩ : BufTy).Contents (Elt F)) ]

/-- Layer 0's column mean: the sum over the nodes divided by the node count. (5 operations.) -/
def pMean0 : List (HloOp τ sig (Elt F)) :=
  [ nullary main_cst_3 (constant S_ .f32 0x00000000#32),
    binary main_v34 main_cst_3 main_v35 ((fun x v => Host.reduceAdd x v reducesTo_S100000x128_S128_d0 h_S_) : (⟨S100000x128, .f32⟩ : BufTy).Contents (Elt F) → (⟨S_, .f32⟩ : BufTy).Contents (Elt F) → (⟨S128, .f32⟩ : BufTy).Contents (Elt F)),
    nullary main_cst_4 (constant S_ .f32 0x47C35000#32),
    unary main_cst_4 main_v36 (broadcastInDim S128 ![] bcast_S_S128 : (⟨S_, .f32⟩ : BufTy).Contents (Elt F) → (⟨S128, .f32⟩ : BufTy).Contents (Elt F)),
    binary main_v35 main_v36 main_v37 (Host.divf : (⟨S128, .f32⟩ : BufTy).Contents (Elt F) → (⟨S128, .f32⟩ : BufTy).Contents (Elt F) → (⟨S128, .f32⟩ : BufTy).Contents (Elt F)) ]

/-- Layer 0's column variance as the outlined variance function computes it: its own mean, the centred squares summed, divided by the count less the correction, and the select against the not-a-number word when the divisor is not positive. (23 operations.) -/
def pVar0 : List (HloOp τ sig (Elt F)) :=
  [ nullary main_c_5 (constantI S_ 32 0#32),
    TRef.nullary main_call0.cst (constant S_ .f32 0x00000000#32),
    TRef.binary (.of main_v34 : TRef sig ⟨S100000x128, .f32⟩) main_call0.cst main_call0.v0 (fun x v => Host.reduceAdd x v reducesTo_S100000x128_S128_d0 h_S_),
    TRef.unary main_call0.v0 main_call0.v1 (broadcastInDim S1x128 ![1] bcast_S128_S1x128_1),
    TRef.nullary main_call0.cst_0 (constant S_ .f32 0x47C35000#32),
    TRef.unary main_call0.cst_0 main_call0.v2 (broadcastInDim S1x128 ![] bcast_S_S1x128),
    TRef.binary main_call0.v1 main_call0.v2 main_call0.v3 Host.divf,
    TRef.unary main_call0.v3 main_call0.v4 (broadcastInDim S100000x128 ![0, 1] bcast_S1x128_S100000x128_0_1),
    TRef.binary (.of main_v34 : TRef sig ⟨S100000x128, .f32⟩) main_call0.v4 main_call0.v5 subf,
    TRef.binary main_call0.v5 main_call0.v5 main_call0.v6 mulf,
    TRef.unary (.of main_c_5 : TRef sig ⟨S_, .i32⟩) main_call0.v7 (sitofp .f32),
    TRef.nullary main_call0.cst_1 (constant S_ .f32 0x47C35000#32),
    TRef.binary main_call0.cst_1 main_call0.v7 main_call0.v8 subf,
    TRef.nullary main_call0.cst_2 (constant S_ .f32 0x00000000#32),
    TRef.binary main_call0.v6 main_call0.cst_2 main_call0.v9 (fun x v => Host.reduceAdd x v reducesTo_S100000x128_S128_d0 h_S_),
    TRef.unary main_call0.v8 main_call0.v10 (broadcastInDim S128 ![] bcast_S_S128),
    TRef.binary main_call0.v9 main_call0.v10 main_call0.v11 Host.divf,
    TRef.nullary main_call0.cst_3 (constant S_ .f32 0x00000000#32),
    TRef.binary main_call0.v8 main_call0.cst_3 main_call0.v12 (cmpf .ogt),
    TRef.nullary main_call0.cst_4 (constant S_ .f32 0x7FC00000#32),
    TRef.unary main_call0.cst_4 main_call0.call0.v0 id,
    TRef.unary main_call0.call0.v0 main_call0.call0.v1 (broadcastInDim S128 ![] bcast_S_S128),
    TRef.ternary main_call0.v12 main_call0.v11 main_call0.call0.v1 main_call0.call0.v2 (fun p a b => select (broadcastInDim S128 ![] bcast_S_S128 p) a b) ]

/-- Layer 0's normalisation, first part: the mean subtracted, the product with the reciprocal square root of the variance plus the epsilon word, and the scale row sliced out and broadcast to one row. (13 operations.) -/
def pNorm0a : List (HloOp τ sig (Elt F)) :=
  [ unary main_v37 main_v39 (broadcastInDim S1x128 ![1] bcast_S128_S1x128_1 : (⟨S128, .f32⟩ : BufTy).Contents (Elt F) → (⟨S1x128, .f32⟩ : BufTy).Contents (Elt F)),
    unary main_v39 main_v40 (broadcastInDim S100000x128 ![0, 1] bcast_S1x128_S100000x128_0_1 : (⟨S1x128, .f32⟩ : BufTy).Contents (Elt F) → (⟨S100000x128, .f32⟩ : BufTy).Contents (Elt F)),
    binary main_v34 main_v40 main_v41 (subf : (⟨S100000x128, .f32⟩ : BufTy).Contents (Elt F) → (⟨S100000x128, .f32⟩ : BufTy).Contents (Elt F) → (⟨S100000x128, .f32⟩ : BufTy).Contents (Elt F)),
    nullary main_cst_6 (constant S_ .f32 0x3727C5AC#32),
    unary main_cst_6 main_v42 (broadcastInDim S128 ![] bcast_S_S128 : (⟨S_, .f32⟩ : BufTy).Contents (Elt F) → (⟨S128, .f32⟩ : BufTy).Contents (Elt F)),
    binary main_v38 main_v42 main_v43 (addf : (⟨S128, .f32⟩ : BufTy).Contents (Elt F) → (⟨S128, .f32⟩ : BufTy).Contents (Elt F) → (⟨S128, .f32⟩ : BufTy).Contents (Elt F)),
    unary main_v43 main_v44 (Host.rsqrt : (⟨S128, .f32⟩ : BufTy).Contents (Elt F) → (⟨S128, .f32⟩ : BufTy).Contents (Elt F)),
    unary main_v44 main_v45 (broadcastInDim S1x128 ![1] bcast_S128_S1x128_1 : (⟨S128, .f32⟩ : BufTy).Contents (Elt F) → (⟨S1x128, .f32⟩ : BufTy).Contents (Elt F)),
    unary main_v45 main_v46 (broadcastInDim S100000x128 ![0, 1] bcast_S1x128_S100000x128_0_1 : (⟨S1x128, .f32⟩ : BufTy).Contents (Elt F) → (⟨S100000x128, .f32⟩ : BufTy).Contents (Elt F)),
    binary main_v41 main_v46 main_v47 (mulf : (⟨S100000x128, .f32⟩ : BufTy).Contents (Elt F) → (⟨S100000x128, .f32⟩ : BufTy).Contents (Elt F) → (⟨S100000x128, .f32⟩ : BufTy).Contents (Elt F)),
    unary main_arg6 main_v48 ((extractStridedSlice S1x128 ![0, 0] · slices_S3x128_S1x128_0_0) : (⟨S3x128, .f32⟩ : BufTy).Contents (Elt F) → (⟨S1x128, .f32⟩ : BufTy).Contents (Elt F)),
    reshape main_v48 main_v49 rfl shapeCasts_S1x128_S128,
    unary main_v49 main_v50 (broadcastInDim S1x128 ![1] bcast_S128_S1x128_1 : (⟨S128, .f32⟩ : BufTy).Contents (Elt F) → (⟨S1x128, .f32⟩ : BufTy).Contents (Elt F)) ]

/-- Window 0 of the program: its stages in order. -/
def ops0 : List (HloOp τ sig (Elt F)) := pSD ++ (pAgg0 ++ (pMlp0 ++ (pMean0 ++ (pVar0 ++ (pNorm0a)))))

set_option maxRecDepth 16384 in
set_option maxHeartbeats 4000000 in
/-- The printed window is that line: the outlined functions unfold at their calls. -/
theorem main_part0_eq (c : Dev nD) : main_part0 (F := F) c = seq ops0 := rfl

/-- Every operation of `pSD` touches TensorCore buffers only. -/
theorem pSD_sub : ∀ op ∈ (pSD : List (HloOp τ sig (Elt F))), op.bufs ⊆ tcRefs τ sig :=
  List.forall_iff_forall_mem.mp (by unfold pSD; exact ⟨unary_bufs_sub .., reshape_bufs_sub .., unary_bufs_sub .., reshape_bufs_sub ..⟩)

/-- Every operation of `pSD` determines its results. -/
theorem pSD_fresh : ∀ op ∈ (pSD : List (HloOp τ sig (Elt F))), op.fresh = ∅ := by
  intro _ h; unfold pSD at h
  repeat (cases h with | head => rfl | tail _ h => ?_)
  exact nomatch h

/-- The buffers `pSD` writes. -/
abbrev pSD_W : List (Ref sig .tc) := [main_v0, main_v1, main_v2, main_v3]

theorem pSD_writes : (pSD : List (HloOp τ sig (Elt F))).Forall fun op =>
    op.writes ⊆ (pSD_W.map (Proc.devRef (τ := τ) .tc)).toFinset := by
  unfold pSD
  simp only [List.Forall]
  exact ⟨by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide)⟩

/-- A buffer `pSD` does not write keeps its contents through it. -/
theorem pSD_keep (V : Valuation τ sig (Elt F)) (r : Ref sig .tc) (h : r ∉ pSD_W := by decide) :
    after pSD V (Proc.devRef .tc r) = V (Proc.devRef .tc r) :=
  after_of_writes_sub pSD V pSD_writes h

/-- Every operation of `pAgg0` touches TensorCore buffers only. -/
theorem pAgg0_sub : ∀ op ∈ (pAgg0 : List (HloOp τ sig (Elt F))), op.bufs ⊆ tcRefs τ sig :=
  List.forall_iff_forall_mem.mp (by unfold pAgg0; exact ⟨nullary_bufs_sub .., unary_bufs_sub .., binary_bufs_sub .., nullary_bufs_sub .., unary_bufs_sub .., binary_bufs_sub .., ternary_bufs_sub .., unary_bufs_sub .., binary_bufs_sub .., nullary_bufs_sub .., unary_bufs_sub .., unary_bufs_sub .., ternary_bufs_sub .., binary_bufs_sub ..⟩)

/-- Every operation of `pAgg0` determines its results. -/
theorem pAgg0_fresh : ∀ op ∈ (pAgg0 : List (HloOp τ sig (Elt F))), op.fresh = ∅ := by
  intro _ h; unfold pAgg0 at h
  repeat (cases h with | head => rfl | tail _ h => ?_)
  exact nomatch h

/-- The buffers `pAgg0` writes. -/
abbrev pAgg0_W : List (Ref sig .tc) := [main_c, main_v4, main_v5, main_c_0, main_v6, main_v7, main_v8, main_v9, main_v10, main_cst, main_v11, main_v12, main_v13, main_v14]

theorem pAgg0_writes : (pAgg0 : List (HloOp τ sig (Elt F))).Forall fun op =>
    op.writes ⊆ (pAgg0_W.map (Proc.devRef (τ := τ) .tc)).toFinset := by
  unfold pAgg0
  simp only [List.Forall]
  exact ⟨by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide)⟩

/-- A buffer `pAgg0` does not write keeps its contents through it. -/
theorem pAgg0_keep (V : Valuation τ sig (Elt F)) (r : Ref sig .tc) (h : r ∉ pAgg0_W := by decide) :
    after pAgg0 V (Proc.devRef .tc r) = V (Proc.devRef .tc r) :=
  after_of_writes_sub pAgg0 V pAgg0_writes h

/-- Every operation of `pMlp0` touches TensorCore buffers only. -/
theorem pMlp0_sub : ∀ op ∈ (pMlp0 : List (HloOp τ sig (Elt F))), op.bufs ⊆ tcRefs τ sig :=
  List.forall_iff_forall_mem.mp (by unfold pMlp0; exact ⟨unary_bufs_sub .., reshape_bufs_sub .., binary_bufs_sub .., unary_bufs_sub .., reshape_bufs_sub .., unary_bufs_sub .., unary_bufs_sub .., binary_bufs_sub .., nullary_bufs_sub .., unary_bufs_sub .., binary_bufs_sub .., unary_bufs_sub .., reshape_bufs_sub .., binary_bufs_sub .., unary_bufs_sub .., reshape_bufs_sub .., unary_bufs_sub .., unary_bufs_sub .., binary_bufs_sub .., nullary_bufs_sub .., unary_bufs_sub .., binary_bufs_sub ..⟩)

/-- Every operation of `pMlp0` determines its results. -/
theorem pMlp0_fresh : ∀ op ∈ (pMlp0 : List (HloOp τ sig (Elt F))), op.fresh = ∅ := by
  intro _ h; unfold pMlp0 at h
  repeat (cases h with | head => rfl | tail _ h => ?_)
  exact nomatch h

/-- The buffers `pMlp0` writes. -/
abbrev pMlp0_W : List (Ref sig .tc) := [main_v15, main_v16, main_v17, main_v18, main_v19, main_v20, main_v21, main_v22, main_cst_1, main_v23, main_v24, main_v25, main_v26, main_v27, main_v28, main_v29, main_v30, main_v31, main_v32, main_cst_2, main_v33, main_v34]

theorem pMlp0_writes : (pMlp0 : List (HloOp τ sig (Elt F))).Forall fun op =>
    op.writes ⊆ (pMlp0_W.map (Proc.devRef (τ := τ) .tc)).toFinset := by
  unfold pMlp0
  simp only [List.Forall]
  exact ⟨by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide)⟩

/-- A buffer `pMlp0` does not write keeps its contents through it. -/
theorem pMlp0_keep (V : Valuation τ sig (Elt F)) (r : Ref sig .tc) (h : r ∉ pMlp0_W := by decide) :
    after pMlp0 V (Proc.devRef .tc r) = V (Proc.devRef .tc r) :=
  after_of_writes_sub pMlp0 V pMlp0_writes h

/-- Every operation of `pMean0` touches TensorCore buffers only. -/
theorem pMean0_sub : ∀ op ∈ (pMean0 : List (HloOp τ sig (Elt F))), op.bufs ⊆ tcRefs τ sig :=
  List.forall_iff_forall_mem.mp (by unfold pMean0; exact ⟨nullary_bufs_sub .., binary_bufs_sub .., nullary_bufs_sub .., unary_bufs_sub .., binary_bufs_sub ..⟩)

/-- Every operation of `pMean0` determines its results. -/
theorem pMean0_fresh : ∀ op ∈ (pMean0 : List (HloOp τ sig (Elt F))), op.fresh = ∅ := by
  intro _ h; unfold pMean0 at h
  repeat (cases h with | head => rfl | tail _ h => ?_)
  exact nomatch h

/-- The buffers `pMean0` writes. -/
abbrev pMean0_W : List (Ref sig .tc) := [main_cst_3, main_v35, main_cst_4, main_v36, main_v37]

theorem pMean0_writes : (pMean0 : List (HloOp τ sig (Elt F))).Forall fun op =>
    op.writes ⊆ (pMean0_W.map (Proc.devRef (τ := τ) .tc)).toFinset := by
  unfold pMean0
  simp only [List.Forall]
  exact ⟨by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide)⟩

/-- A buffer `pMean0` does not write keeps its contents through it. -/
theorem pMean0_keep (V : Valuation τ sig (Elt F)) (r : Ref sig .tc) (h : r ∉ pMean0_W := by decide) :
    after pMean0 V (Proc.devRef .tc r) = V (Proc.devRef .tc r) :=
  after_of_writes_sub pMean0 V pMean0_writes h

/-- Every operation of `pVar0` touches TensorCore buffers only. -/
theorem pVar0_sub : ∀ op ∈ (pVar0 : List (HloOp τ sig (Elt F))), op.bufs ⊆ tcRefs τ sig :=
  List.forall_iff_forall_mem.mp (by unfold pVar0; exact ⟨nullary_bufs_sub .., nullary_bufs_sub .., binary_bufs_sub .., unary_bufs_sub .., nullary_bufs_sub .., unary_bufs_sub .., binary_bufs_sub .., unary_bufs_sub .., binary_bufs_sub .., binary_bufs_sub .., unary_bufs_sub .., nullary_bufs_sub .., binary_bufs_sub .., nullary_bufs_sub .., binary_bufs_sub .., unary_bufs_sub .., binary_bufs_sub .., nullary_bufs_sub .., binary_bufs_sub .., nullary_bufs_sub .., unary_bufs_sub .., unary_bufs_sub .., ternary_bufs_sub ..⟩)

/-- Every operation of `pVar0` determines its results. -/
theorem pVar0_fresh : ∀ op ∈ (pVar0 : List (HloOp τ sig (Elt F))), op.fresh = ∅ := by
  intro _ h; unfold pVar0 at h
  repeat (cases h with | head => rfl | tail _ h => ?_)
  exact nomatch h

/-- The buffers `pVar0` writes. -/
abbrev pVar0_W : List (Ref sig .tc) := [main_c_5, main_call0_cst, main_call0_v0, main_call0_v1, main_call0_cst_0, main_call0_v2, main_call0_v3, main_call0_v4, main_call0_v5, main_call0_v6, main_call0_v7, main_call0_cst_1, main_call0_v8, main_call0_cst_2, main_call0_v9, main_call0_v10, main_call0_v11, main_call0_cst_3, main_call0_v12, main_call0_cst_4, main_call0_call0_v0, main_call0_call0_v1, main_v38]

theorem pVar0_writes : (pVar0 : List (HloOp τ sig (Elt F))).Forall fun op =>
    op.writes ⊆ (pVar0_W.map (Proc.devRef (τ := τ) .tc)).toFinset := by
  unfold pVar0
  simp only [List.Forall]
  exact ⟨by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide)⟩

/-- A buffer `pVar0` does not write keeps its contents through it. -/
theorem pVar0_keep (V : Valuation τ sig (Elt F)) (r : Ref sig .tc) (h : r ∉ pVar0_W := by decide) :
    after pVar0 V (Proc.devRef .tc r) = V (Proc.devRef .tc r) :=
  after_of_writes_sub pVar0 V pVar0_writes h

/-- Every operation of `pNorm0a` touches TensorCore buffers only. -/
theorem pNorm0a_sub : ∀ op ∈ (pNorm0a : List (HloOp τ sig (Elt F))), op.bufs ⊆ tcRefs τ sig :=
  List.forall_iff_forall_mem.mp (by unfold pNorm0a; exact ⟨unary_bufs_sub .., unary_bufs_sub .., binary_bufs_sub .., nullary_bufs_sub .., unary_bufs_sub .., binary_bufs_sub .., unary_bufs_sub .., unary_bufs_sub .., unary_bufs_sub .., binary_bufs_sub .., unary_bufs_sub .., reshape_bufs_sub .., unary_bufs_sub ..⟩)

/-- Every operation of `pNorm0a` determines its results. -/
theorem pNorm0a_fresh : ∀ op ∈ (pNorm0a : List (HloOp τ sig (Elt F))), op.fresh = ∅ := by
  intro _ h; unfold pNorm0a at h
  repeat (cases h with | head => rfl | tail _ h => ?_)
  exact nomatch h

/-- The buffers `pNorm0a` writes. -/
abbrev pNorm0a_W : List (Ref sig .tc) := [main_v39, main_v40, main_v41, main_cst_6, main_v42, main_v43, main_v44, main_v45, main_v46, main_v47, main_v48, main_v49, main_v50]

theorem pNorm0a_writes : (pNorm0a : List (HloOp τ sig (Elt F))).Forall fun op =>
    op.writes ⊆ (pNorm0a_W.map (Proc.devRef (τ := τ) .tc)).toFinset := by
  unfold pNorm0a
  simp only [List.Forall]
  exact ⟨by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide)⟩

/-- A buffer `pNorm0a` does not write keeps its contents through it. -/
theorem pNorm0a_keep (V : Valuation τ sig (Elt F)) (r : Ref sig .tc) (h : r ∉ pNorm0a_W := by decide) :
    after pNorm0a V (Proc.devRef .tc r) = V (Proc.devRef .tc r) :=
  after_of_writes_sub pNorm0a V pNorm0a_writes h

theorem ops0_sub : ∀ op ∈ (ops0 : List (HloOp τ sig (Elt F))), op.bufs ⊆ tcRefs τ sig := fun op h => by
  simp only [ops0, List.mem_append] at h
  rcases h with h | h | h | h | h | h
  exacts [pSD_sub op h, pAgg0_sub op h, pMlp0_sub op h, pMean0_sub op h, pVar0_sub op h, pNorm0a_sub op h]

theorem ops0_fresh : ∀ op ∈ (ops0 : List (HloOp τ sig (Elt F))), op.fresh = ∅ := fun op h => by
  simp only [ops0, List.mem_append] at h
  rcases h with h | h | h | h | h | h
  exacts [pSD_fresh op h, pAgg0_fresh op h, pMlp0_fresh op h, pMean0_fresh op h, pVar0_fresh op h, pNorm0a_fresh op h]

/-- The buffers window 0 writes. -/
abbrev ops0_W : List (Ref sig .tc) := pSD_W ++ (pAgg0_W ++ (pMlp0_W ++ (pMean0_W ++ (pVar0_W ++ (pNorm0a_W)))))

/-- A buffer no stage of window 0 writes keeps its contents through the window. -/
theorem ops0_keep (V : Valuation τ sig (Elt F)) (r : Ref sig .tc) (h : r ∉ ops0_W := by decide) :
    after ops0 V (Proc.devRef .tc r) = V (Proc.devRef .tc r) := by
  simp only [ops0_W, List.mem_append, not_or] at h
  obtain ⟨h0, h1, h2, h3, h4, h5⟩ := h
  simp only [ops0, after_append]
  rw [pNorm0a_keep _ r h5, pVar0_keep _ r h4, pMean0_keep _ r h3, pMlp0_keep _ r h2, pAgg0_keep _ r h1, pSD_keep _ r h0]

end Cert.ReferenceIdeal.RefRun

end
-- ==== Proof.RefRun1.lean ====
/-
  The reference program's statements 61 … 120 as lists of host operations, one list per
  mathematical stage, the outlined functions' operations standing at their calls over the call's buffer
  record; that the printed window is the lists run in order; and, per list, the three facts the run asks
  (TensorCore buffers only, results determined, the written buffers) with the buffers it leaves alone.
-/
import proofs.«160011_j2121713844488_1_alg».proof.Proof.Gen.ReferenceIdeal
import Idealize.ShloMosaic.Lib.StableHlo.Run
import Idealize.ShloMosaic.Lib.Pipeline.Frame

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

/-- Layer 0's normalisation, second part: the product with the scale row and the sum with the shift row. (7 operations.) -/
def pNorm0b : List (HloOp τ sig (Elt F)) :=
  [ unary main_v50 main_v51 (broadcastInDim S100000x128 ![0, 1] bcast_S1x128_S100000x128_0_1 : (⟨S1x128, .f32⟩ : BufTy).Contents (Elt F) → (⟨S100000x128, .f32⟩ : BufTy).Contents (Elt F)),
    binary main_v47 main_v51 main_v52 (mulf : (⟨S100000x128, .f32⟩ : BufTy).Contents (Elt F) → (⟨S100000x128, .f32⟩ : BufTy).Contents (Elt F) → (⟨S100000x128, .f32⟩ : BufTy).Contents (Elt F)),
    unary main_arg7 main_v53 ((extractStridedSlice S1x128 ![0, 0] · slices_S3x128_S1x128_0_0) : (⟨S3x128, .f32⟩ : BufTy).Contents (Elt F) → (⟨S1x128, .f32⟩ : BufTy).Contents (Elt F)),
    reshape main_v53 main_v54 rfl shapeCasts_S1x128_S128,
    unary main_v54 main_v55 (broadcastInDim S1x128 ![1] bcast_S128_S1x128_1 : (⟨S128, .f32⟩ : BufTy).Contents (Elt F) → (⟨S1x128, .f32⟩ : BufTy).Contents (Elt F)),
    unary main_v55 main_v56 (broadcastInDim S100000x128 ![0, 1] bcast_S1x128_S100000x128_0_1 : (⟨S1x128, .f32⟩ : BufTy).Contents (Elt F) → (⟨S100000x128, .f32⟩ : BufTy).Contents (Elt F)),
    binary main_v52 main_v56 main_v57 (addf : (⟨S100000x128, .f32⟩ : BufTy).Contents (Elt F) → (⟨S100000x128, .f32⟩ : BufTy).Contents (Elt F) → (⟨S100000x128, .f32⟩ : BufTy).Contents (Elt F)) ]

/-- Layer 1's neighbour aggregation: the source indices normalised (a negative index taken modulo the node count), the rows gathered, added up per destination into zeros, and the node's own row added. (14 operations.) -/
def pAgg1 : List (HloOp τ sig (Elt F)) :=
  [ nullary main_c_7 (constantI S_ 32 0#32),
    unary main_c_7 main_v58 (broadcastInDim S600000 ![] bcast_S_S600000 : (⟨S_, .i32⟩ : BufTy).Contents (Elt F) → (⟨S600000, .i32⟩ : BufTy).Contents (Elt F)),
    binary main_v1 main_v58 main_v59 (cmpi .slt : (⟨S600000, .i32⟩ : BufTy).Contents (Elt F) → (⟨S600000, .i32⟩ : BufTy).Contents (Elt F) → (⟨S600000, .i1⟩ : BufTy).Contents (Elt F)),
    nullary main_c_8 (constantI S_ 32 100000#32),
    unary main_c_8 main_v60 (broadcastInDim S600000 ![] bcast_S_S600000 : (⟨S_, .i32⟩ : BufTy).Contents (Elt F) → (⟨S600000, .i32⟩ : BufTy).Contents (Elt F)),
    binary main_v1 main_v60 main_v61 (addi : (⟨S600000, .i32⟩ : BufTy).Contents (Elt F) → (⟨S600000, .i32⟩ : BufTy).Contents (Elt F) → (⟨S600000, .i32⟩ : BufTy).Contents (Elt F)),
    ternary main_v59 main_v61 main_v1 main_v62 (select : (⟨S600000, .i1⟩ : BufTy).Contents (Elt F) → (⟨S600000, .i32⟩ : BufTy).Contents (Elt F) → (⟨S600000, .i32⟩ : BufTy).Contents (Elt F) → (⟨S600000, .i32⟩ : BufTy).Contents (Elt F)),
    unary main_v62 main_v63 (broadcastInDim S600000x1 ![0] bcast_S600000_S600000x1_0 : (⟨S600000, .i32⟩ : BufTy).Contents (Elt F) → (⟨S600000x1, .i32⟩ : BufTy).Contents (Elt F)),
    binary main_v57 main_v63 main_v64 ((fun x i => Host.gather gather_S100000x128_S600000x1_S600000x128_1_0_n_n_0_1_1128 x i) : (⟨S100000x128, .f32⟩ : BufTy).Contents (Elt F) → (⟨S600000x1, .i32⟩ : BufTy).Contents (Elt F) → (⟨S600000x128, .f32⟩ : BufTy).Contents (Elt F)),
    nullary main_cst_9 (constant S_ .f32 0x00000000#32),
    unary main_cst_9 main_v65 (broadcastInDim S100000x128 ![] bcast_S_S100000x128 : (⟨S_, .f32⟩ : BufTy).Contents (Elt F) → (⟨S100000x128, .f32⟩ : BufTy).Contents (Elt F)),
    unary main_v3 main_v66 (broadcastInDim S600000x1 ![0] bcast_S600000_S600000x1_0 : (⟨S600000, .i32⟩ : BufTy).Contents (Elt F) → (⟨S600000x1, .i32⟩ : BufTy).Contents (Elt F)),
    ternary main_v65 main_v66 main_v64 main_v67 ((fun x i u => Host.scatterAdd scatter_S100000x128_S600000x1_S600000x128_1_0_0_1 x i u) : (⟨S100000x128, .f32⟩ : BufTy).Contents (Elt F) → (⟨S600000x1, .i32⟩ : BufTy).Contents (Elt F) → (⟨S600000x128, .f32⟩ : BufTy).Contents (Elt F) → (⟨S100000x128, .f32⟩ : BufTy).Contents (Elt F)),
    binary main_v57 main_v67 main_v68 (addf : (⟨S100000x128, .f32⟩ : BufTy).Contents (Elt F) → (⟨S100000x128, .f32⟩ : BufTy).Contents (Elt F) → (⟨S100000x128, .f32⟩ : BufTy).Contents (Elt F)) ]

/-- Layer 1's two-layer perceptron: weight and bias 1 sliced out of the stacks, two affine maps each followed by a maximum with zero. (22 operations.) -/
def pMlp1 : List (HloOp τ sig (Elt F)) :=
  [ unary main_arg2 main_v69 ((extractStridedSlice S1x128x128 ![1, 0, 0] · slices_S3x128x128_S1x128x128_1_0_0) : (⟨S3x128x128, .f32⟩ : BufTy).Contents (Elt F) → (⟨S1x128x128, .f32⟩ : BufTy).Contents (Elt F)),
    reshape main_v69 main_v70 rfl shapeCasts_S1x128x128_S128x128,
    binary main_v68 main_v70 main_v71 ((fun l r => Host.dotGeneral dot_S100000x128_S128x128_S100000x128_1_0_0_1_n_n none l r) : (⟨S100000x128, .f32⟩ : BufTy).Contents (Elt F) → (⟨S128x128, .f32⟩ : BufTy).Contents (Elt F) → (⟨S100000x128, .f32⟩ : BufTy).Contents (Elt F)),
    unary main_arg3 main_v72 ((extractStridedSlice S1x128 ![1, 0] · slices_S3x128_S1x128_1_0) : (⟨S3x128, .f32⟩ : BufTy).Contents (Elt F) → (⟨S1x128, .f32⟩ : BufTy).Contents (Elt F)),
    reshape main_v72 main_v73 rfl shapeCasts_S1x128_S128,
    unary main_v73 main_v74 (broadcastInDim S1x128 ![1] bcast_S128_S1x128_1 : (⟨S128, .f32⟩ : BufTy).Contents (Elt F) → (⟨S1x128, .f32⟩ : BufTy).Contents (Elt F)),
    unary main_v74 main_v75 (broadcastInDim S100000x128 ![0, 1] bcast_S1x128_S100000x128_0_1 : (⟨S1x128, .f32⟩ : BufTy).Contents (Elt F) → (⟨S100000x128, .f32⟩ : BufTy).Contents (Elt F)),
    binary main_v71 main_v75 main_v76 (addf : (⟨S100000x128, .f32⟩ : BufTy).Contents (Elt F) → (⟨S100000x128, .f32⟩ : BufTy).Contents (Elt F) → (⟨S100000x128, .f32⟩ : BufTy).Contents (Elt F)),
    nullary main_cst_10 (constant S_ .f32 0x00000000#32),
    unary main_cst_10 main_v77 (broadcastInDim S100000x128 ![] bcast_S_S100000x128 : (⟨S_, .f32⟩ : BufTy).Contents (Elt F) → (⟨S100000x128, .f32⟩ : BufTy).Contents (Elt F)),
    binary main_v76 main_v77 main_v78 (maximumf : (⟨S100000x128, .f32⟩ : BufTy).Contents (Elt F) → (⟨S100000x128, .f32⟩ : BufTy).Contents (Elt F) → (⟨S100000x128, .f32⟩ : BufTy).Contents (Elt F)),
    unary main_arg4 main_v79 ((extractStridedSlice S1x128x128 ![1, 0, 0] · slices_S3x128x128_S1x128x128_1_0_0) : (⟨S3x128x128, .f32⟩ : BufTy).Contents (Elt F) → (⟨S1x128x128, .f32⟩ : BufTy).Contents (Elt F)),
    reshape main_v79 main_v80 rfl shapeCasts_S1x128x128_S128x128,
    binary main_v78 main_v80 main_v81 ((fun l r => Host.dotGeneral dot_S100000x128_S128x128_S100000x128_1_0_0_1_n_n none l r) : (⟨S100000x128, .f32⟩ : BufTy).Contents (Elt F) → (⟨S128x128, .f32⟩ : BufTy).Contents (Elt F) → (⟨S100000x128, .f32⟩ : BufTy).Contents (Elt F)),
    unary main_arg5 main_v82 ((extractStridedSlice S1x128 ![1, 0] · slices_S3x128_S1x128_1_0) : (⟨S3x128, .f32⟩ : BufTy).Contents (Elt F) → (⟨S1x128, .f32⟩ : BufTy).Contents (Elt F)),
    reshape main_v82 main_v83 rfl shapeCasts_S1x128_S128,
    unary main_v83 main_v84 (broadcastInDim S1x128 ![1] bcast_S128_S1x128_1 : (⟨S128, .f32⟩ : BufTy).Contents (Elt F) → (⟨S1x128, .f32⟩ : BufTy).Contents (Elt F)),
    unary main_v84 main_v85 (broadcastInDim S100000x128 ![0, 1] bcast_S1x128_S100000x128_0_1 : (⟨S1x128, .f32⟩ : BufTy).Contents (Elt F) → (⟨S100000x128, .f32⟩ : BufTy).Contents (Elt F)),
    binary main_v81 main_v85 main_v86 (addf : (⟨S100000x128, .f32⟩ : BufTy).Contents (Elt F) → (⟨S100000x128, .f32⟩ : BufTy).Contents (Elt F) → (⟨S100000x128, .f32⟩ : BufTy).Contents (Elt F)),
    nullary main_cst_11 (constant S_ .f32 0x00000000#32),
    unary main_cst_11 main_v87 (broadcastInDim S100000x128 ![] bcast_S_S100000x128 : (⟨S_, .f32⟩ : BufTy).Contents (Elt F) → (⟨S100000x128, .f32⟩ : BufTy).Contents (Elt F)),
    binary main_v86 main_v87 main_v88 (maximumf : (⟨S100000x128, .f32⟩ : BufTy).Contents (Elt F) → (⟨S100000x128, .f32⟩ : BufTy).Contents (Elt F) → (⟨S100000x128, .f32⟩ : BufTy).Contents (Elt F)) ]

/-- Layer 1's column mean: the sum over the nodes divided by the node count. (5 operations.) -/
def pMean1 : List (HloOp τ sig (Elt F)) :=
  [ nullary main_cst_12 (constant S_ .f32 0x00000000#32),
    binary main_v88 main_cst_12 main_v89 ((fun x v => Host.reduceAdd x v reducesTo_S100000x128_S128_d0 h_S_) : (⟨S100000x128, .f32⟩ : BufTy).Contents (Elt F) → (⟨S_, .f32⟩ : BufTy).Contents (Elt F) → (⟨S128, .f32⟩ : BufTy).Contents (Elt F)),
    nullary main_cst_13 (constant S_ .f32 0x47C35000#32),
    unary main_cst_13 main_v90 (broadcastInDim S128 ![] bcast_S_S128 : (⟨S_, .f32⟩ : BufTy).Contents (Elt F) → (⟨S128, .f32⟩ : BufTy).Contents (Elt F)),
    binary main_v89 main_v90 main_v91 (Host.divf : (⟨S128, .f32⟩ : BufTy).Contents (Elt F) → (⟨S128, .f32⟩ : BufTy).Contents (Elt F) → (⟨S128, .f32⟩ : BufTy).Contents (Elt F)) ]

/-- Layer 1's column variance as the outlined variance function computes it: its own mean, the centred squares summed, divided by the count less the correction, and the select against the not-a-number word when the divisor is not positive. (23 operations.) -/
def pVar1 : List (HloOp τ sig (Elt F)) :=
  [ nullary main_c_14 (constantI S_ 32 0#32),
    TRef.nullary main_call1.cst (constant S_ .f32 0x00000000#32),
    TRef.binary (.of main_v88 : TRef sig ⟨S100000x128, .f32⟩) main_call1.cst main_call1.v0 (fun x v => Host.reduceAdd x v reducesTo_S100000x128_S128_d0 h_S_),
    TRef.unary main_call1.v0 main_call1.v1 (broadcastInDim S1x128 ![1] bcast_S128_S1x128_1),
    TRef.nullary main_call1.cst_0 (constant S_ .f32 0x47C35000#32),
    TRef.unary main_call1.cst_0 main_call1.v2 (broadcastInDim S1x128 ![] bcast_S_S1x128),
    TRef.binary main_call1.v1 main_call1.v2 main_call1.v3 Host.divf,
    TRef.unary main_call1.v3 main_call1.v4 (broadcastInDim S100000x128 ![0, 1] bcast_S1x128_S100000x128_0_1),
    TRef.binary (.of main_v88 : TRef sig ⟨S100000x128, .f32⟩) main_call1.v4 main_call1.v5 subf,
    TRef.binary main_call1.v5 main_call1.v5 main_call1.v6 mulf,
    TRef.unary (.of main_c_14 : TRef sig ⟨S_, .i32⟩) main_call1.v7 (sitofp .f32),
    TRef.nullary main_call1.cst_1 (constant S_ .f32 0x47C35000#32),
    TRef.binary main_call1.cst_1 main_call1.v7 main_call1.v8 subf,
    TRef.nullary main_call1.cst_2 (constant S_ .f32 0x00000000#32),
    TRef.binary main_call1.v6 main_call1.cst_2 main_call1.v9 (fun x v => Host.reduceAdd x v reducesTo_S100000x128_S128_d0 h_S_),
    TRef.unary main_call1.v8 main_call1.v10 (broadcastInDim S128 ![] bcast_S_S128),
    TRef.binary main_call1.v9 main_call1.v10 main_call1.v11 Host.divf,
    TRef.nullary main_call1.cst_3 (constant S_ .f32 0x00000000#32),
    TRef.binary main_call1.v8 main_call1.cst_3 main_call1.v12 (cmpf .ogt),
    TRef.nullary main_call1.cst_4 (constant S_ .f32 0x7FC00000#32),
    TRef.unary main_call1.cst_4 main_call1.call0.v0 id,
    TRef.unary main_call1.call0.v0 main_call1.call0.v1 (broadcastInDim S128 ![] bcast_S_S128),
    TRef.ternary main_call1.v12 main_call1.v11 main_call1.call0.v1 main_call1.call0.v2 (fun p a b => select (broadcastInDim S128 ![] bcast_S_S128 p) a b) ]

/-- Layer 1's normalisation, first part: the mean subtracted, the product with the reciprocal square root of the variance plus the epsilon word. (10 operations.) -/
def pNorm1a : List (HloOp τ sig (Elt F)) :=
  [ unary main_v91 main_v93 (broadcastInDim S1x128 ![1] bcast_S128_S1x128_1 : (⟨S128, .f32⟩ : BufTy).Contents (Elt F) → (⟨S1x128, .f32⟩ : BufTy).Contents (Elt F)),
    unary main_v93 main_v94 (broadcastInDim S100000x128 ![0, 1] bcast_S1x128_S100000x128_0_1 : (⟨S1x128, .f32⟩ : BufTy).Contents (Elt F) → (⟨S100000x128, .f32⟩ : BufTy).Contents (Elt F)),
    binary main_v88 main_v94 main_v95 (subf : (⟨S100000x128, .f32⟩ : BufTy).Contents (Elt F) → (⟨S100000x128, .f32⟩ : BufTy).Contents (Elt F) → (⟨S100000x128, .f32⟩ : BufTy).Contents (Elt F)),
    nullary main_cst_15 (constant S_ .f32 0x3727C5AC#32),
    unary main_cst_15 main_v96 (broadcastInDim S128 ![] bcast_S_S128 : (⟨S_, .f32⟩ : BufTy).Contents (Elt F) → (⟨S128, .f32⟩ : BufTy).Contents (Elt F)),
    binary main_v92 main_v96 main_v97 (addf : (⟨S128, .f32⟩ : BufTy).Contents (Elt F) → (⟨S128, .f32⟩ : BufTy).Contents (Elt F) → (⟨S128, .f32⟩ : BufTy).Contents (Elt F)),
    unary main_v97 main_v98 (Host.rsqrt : (⟨S128, .f32⟩ : BufTy).Contents (Elt F) → (⟨S128, .f32⟩ : BufTy).Contents (Elt F)),
    unary main_v98 main_v99 (broadcastInDim S1x128 ![1] bcast_S128_S1x128_1 : (⟨S128, .f32⟩ : BufTy).Contents (Elt F) → (⟨S1x128, .f32⟩ : BufTy).Contents (Elt F)),
    unary main_v99 main_v100 (broadcastInDim S100000x128 ![0, 1] bcast_S1x128_S100000x128_0_1 : (⟨S1x128, .f32⟩ : BufTy).Contents (Elt F) → (⟨S100000x128, .f32⟩ : BufTy).Contents (Elt F)),
    binary main_v95 main_v100 main_v101 (mulf : (⟨S100000x128, .f32⟩ : BufTy).Contents (Elt F) → (⟨S100000x128, .f32⟩ : BufTy).Contents (Elt F) → (⟨S100000x128, .f32⟩ : BufTy).Contents (Elt F)) ]

/-- Window 1 of the program: its stages in order. -/
def ops1 : List (HloOp τ sig (Elt F)) := pNorm0b ++ (pAgg1 ++ (pMlp1 ++ (pMean1 ++ (pVar1 ++ (pNorm1a)))))

set_option maxRecDepth 16384 in
set_option maxHeartbeats 4000000 in
/-- The printed window is that line: the outlined functions unfold at their calls. -/
theorem main_part1_eq (c : Dev nD) : main_part1 (F := F) c = seq ops1 := rfl

/-- Every operation of `pNorm0b` touches TensorCore buffers only. -/
theorem pNorm0b_sub : ∀ op ∈ (pNorm0b : List (HloOp τ sig (Elt F))), op.bufs ⊆ tcRefs τ sig :=
  List.forall_iff_forall_mem.mp (by unfold pNorm0b; exact ⟨unary_bufs_sub .., binary_bufs_sub .., unary_bufs_sub .., reshape_bufs_sub .., unary_bufs_sub .., unary_bufs_sub .., binary_bufs_sub ..⟩)

/-- Every operation of `pNorm0b` determines its results. -/
theorem pNorm0b_fresh : ∀ op ∈ (pNorm0b : List (HloOp τ sig (Elt F))), op.fresh = ∅ := by
  intro _ h; unfold pNorm0b at h
  repeat (cases h with | head => rfl | tail _ h => ?_)
  exact nomatch h

/-- The buffers `pNorm0b` writes. -/
abbrev pNorm0b_W : List (Ref sig .tc) := [main_v51, main_v52, main_v53, main_v54, main_v55, main_v56, main_v57]

theorem pNorm0b_writes : (pNorm0b : List (HloOp τ sig (Elt F))).Forall fun op =>
    op.writes ⊆ (pNorm0b_W.map (Proc.devRef (τ := τ) .tc)).toFinset := by
  unfold pNorm0b
  simp only [List.Forall]
  exact ⟨by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide)⟩

/-- A buffer `pNorm0b` does not write keeps its contents through it. -/
theorem pNorm0b_keep (V : Valuation τ sig (Elt F)) (r : Ref sig .tc) (h : r ∉ pNorm0b_W := by decide) :
    after pNorm0b V (Proc.devRef .tc r) = V (Proc.devRef .tc r) :=
  after_of_writes_sub pNorm0b V pNorm0b_writes h

/-- Every operation of `pAgg1` touches TensorCore buffers only. -/
theorem pAgg1_sub : ∀ op ∈ (pAgg1 : List (HloOp τ sig (Elt F))), op.bufs ⊆ tcRefs τ sig :=
  List.forall_iff_forall_mem.mp (by unfold pAgg1; exact ⟨nullary_bufs_sub .., unary_bufs_sub .., binary_bufs_sub .., nullary_bufs_sub .., unary_bufs_sub .., binary_bufs_sub .., ternary_bufs_sub .., unary_bufs_sub .., binary_bufs_sub .., nullary_bufs_sub .., unary_bufs_sub .., unary_bufs_sub .., ternary_bufs_sub .., binary_bufs_sub ..⟩)

/-- Every operation of `pAgg1` determines its results. -/
theorem pAgg1_fresh : ∀ op ∈ (pAgg1 : List (HloOp τ sig (Elt F))), op.fresh = ∅ := by
  intro _ h; unfold pAgg1 at h
  repeat (cases h with | head => rfl | tail _ h => ?_)
  exact nomatch h

/-- The buffers `pAgg1` writes. -/
abbrev pAgg1_W : List (Ref sig .tc) := [main_c_7, main_v58, main_v59, main_c_8, main_v60, main_v61, main_v62, main_v63, main_v64, main_cst_9, main_v65, main_v66, main_v67, main_v68]

theorem pAgg1_writes : (pAgg1 : List (HloOp τ sig (Elt F))).Forall fun op =>
    op.writes ⊆ (pAgg1_W.map (Proc.devRef (τ := τ) .tc)).toFinset := by
  unfold pAgg1
  simp only [List.Forall]
  exact ⟨by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide)⟩

/-- A buffer `pAgg1` does not write keeps its contents through it. -/
theorem pAgg1_keep (V : Valuation τ sig (Elt F)) (r : Ref sig .tc) (h : r ∉ pAgg1_W := by decide) :
    after pAgg1 V (Proc.devRef .tc r) = V (Proc.devRef .tc r) :=
  after_of_writes_sub pAgg1 V pAgg1_writes h

/-- Every operation of `pMlp1` touches TensorCore buffers only. -/
theorem pMlp1_sub : ∀ op ∈ (pMlp1 : List (HloOp τ sig (Elt F))), op.bufs ⊆ tcRefs τ sig :=
  List.forall_iff_forall_mem.mp (by unfold pMlp1; exact ⟨unary_bufs_sub .., reshape_bufs_sub .., binary_bufs_sub .., unary_bufs_sub .., reshape_bufs_sub .., unary_bufs_sub .., unary_bufs_sub .., binary_bufs_sub .., nullary_bufs_sub .., unary_bufs_sub .., binary_bufs_sub .., unary_bufs_sub .., reshape_bufs_sub .., binary_bufs_sub .., unary_bufs_sub .., reshape_bufs_sub .., unary_bufs_sub .., unary_bufs_sub .., binary_bufs_sub .., nullary_bufs_sub .., unary_bufs_sub .., binary_bufs_sub ..⟩)

/-- Every operation of `pMlp1` determines its results. -/
theorem pMlp1_fresh : ∀ op ∈ (pMlp1 : List (HloOp τ sig (Elt F))), op.fresh = ∅ := by
  intro _ h; unfold pMlp1 at h
  repeat (cases h with | head => rfl | tail _ h => ?_)
  exact nomatch h

/-- The buffers `pMlp1` writes. -/
abbrev pMlp1_W : List (Ref sig .tc) := [main_v69, main_v70, main_v71, main_v72, main_v73, main_v74, main_v75, main_v76, main_cst_10, main_v77, main_v78, main_v79, main_v80, main_v81, main_v82, main_v83, main_v84, main_v85, main_v86, main_cst_11, main_v87, main_v88]

theorem pMlp1_writes : (pMlp1 : List (HloOp τ sig (Elt F))).Forall fun op =>
    op.writes ⊆ (pMlp1_W.map (Proc.devRef (τ := τ) .tc)).toFinset := by
  unfold pMlp1
  simp only [List.Forall]
  exact ⟨by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide)⟩

/-- A buffer `pMlp1` does not write keeps its contents through it. -/
theorem pMlp1_keep (V : Valuation τ sig (Elt F)) (r : Ref sig .tc) (h : r ∉ pMlp1_W := by decide) :
    after pMlp1 V (Proc.devRef .tc r) = V (Proc.devRef .tc r) :=
  after_of_writes_sub pMlp1 V pMlp1_writes h

/-- Every operation of `pMean1` touches TensorCore buffers only. -/
theorem pMean1_sub : ∀ op ∈ (pMean1 : List (HloOp τ sig (Elt F))), op.bufs ⊆ tcRefs τ sig :=
  List.forall_iff_forall_mem.mp (by unfold pMean1; exact ⟨nullary_bufs_sub .., binary_bufs_sub .., nullary_bufs_sub .., unary_bufs_sub .., binary_bufs_sub ..⟩)

/-- Every operation of `pMean1` determines its results. -/
theorem pMean1_fresh : ∀ op ∈ (pMean1 : List (HloOp τ sig (Elt F))), op.fresh = ∅ := by
  intro _ h; unfold pMean1 at h
  repeat (cases h with | head => rfl | tail _ h => ?_)
  exact nomatch h

/-- The buffers `pMean1` writes. -/
abbrev pMean1_W : List (Ref sig .tc) := [main_cst_12, main_v89, main_cst_13, main_v90, main_v91]

theorem pMean1_writes : (pMean1 : List (HloOp τ sig (Elt F))).Forall fun op =>
    op.writes ⊆ (pMean1_W.map (Proc.devRef (τ := τ) .tc)).toFinset := by
  unfold pMean1
  simp only [List.Forall]
  exact ⟨by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide)⟩

/-- A buffer `pMean1` does not write keeps its contents through it. -/
theorem pMean1_keep (V : Valuation τ sig (Elt F)) (r : Ref sig .tc) (h : r ∉ pMean1_W := by decide) :
    after pMean1 V (Proc.devRef .tc r) = V (Proc.devRef .tc r) :=
  after_of_writes_sub pMean1 V pMean1_writes h

/-- Every operation of `pVar1` touches TensorCore buffers only. -/
theorem pVar1_sub : ∀ op ∈ (pVar1 : List (HloOp τ sig (Elt F))), op.bufs ⊆ tcRefs τ sig :=
  List.forall_iff_forall_mem.mp (by unfold pVar1; exact ⟨nullary_bufs_sub .., nullary_bufs_sub .., binary_bufs_sub .., unary_bufs_sub .., nullary_bufs_sub .., unary_bufs_sub .., binary_bufs_sub .., unary_bufs_sub .., binary_bufs_sub .., binary_bufs_sub .., unary_bufs_sub .., nullary_bufs_sub .., binary_bufs_sub .., nullary_bufs_sub .., binary_bufs_sub .., unary_bufs_sub .., binary_bufs_sub .., nullary_bufs_sub .., binary_bufs_sub .., nullary_bufs_sub .., unary_bufs_sub .., unary_bufs_sub .., ternary_bufs_sub ..⟩)

/-- Every operation of `pVar1` determines its results. -/
theorem pVar1_fresh : ∀ op ∈ (pVar1 : List (HloOp τ sig (Elt F))), op.fresh = ∅ := by
  intro _ h; unfold pVar1 at h
  repeat (cases h with | head => rfl | tail _ h => ?_)
  exact nomatch h

/-- The buffers `pVar1` writes. -/
abbrev pVar1_W : List (Ref sig .tc) := [main_c_14, main_call1_cst, main_call1_v0, main_call1_v1, main_call1_cst_0, main_call1_v2, main_call1_v3, main_call1_v4, main_call1_v5, main_call1_v6, main_call1_v7, main_call1_cst_1, main_call1_v8, main_call1_cst_2, main_call1_v9, main_call1_v10, main_call1_v11, main_call1_cst_3, main_call1_v12, main_call1_cst_4, main_call1_call0_v0, main_call1_call0_v1, main_v92]

theorem pVar1_writes : (pVar1 : List (HloOp τ sig (Elt F))).Forall fun op =>
    op.writes ⊆ (pVar1_W.map (Proc.devRef (τ := τ) .tc)).toFinset := by
  unfold pVar1
  simp only [List.Forall]
  exact ⟨by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide)⟩

/-- A buffer `pVar1` does not write keeps its contents through it. -/
theorem pVar1_keep (V : Valuation τ sig (Elt F)) (r : Ref sig .tc) (h : r ∉ pVar1_W := by decide) :
    after pVar1 V (Proc.devRef .tc r) = V (Proc.devRef .tc r) :=
  after_of_writes_sub pVar1 V pVar1_writes h

/-- Every operation of `pNorm1a` touches TensorCore buffers only. -/
theorem pNorm1a_sub : ∀ op ∈ (pNorm1a : List (HloOp τ sig (Elt F))), op.bufs ⊆ tcRefs τ sig :=
  List.forall_iff_forall_mem.mp (by unfold pNorm1a; exact ⟨unary_bufs_sub .., unary_bufs_sub .., binary_bufs_sub .., nullary_bufs_sub .., unary_bufs_sub .., binary_bufs_sub .., unary_bufs_sub .., unary_bufs_sub .., unary_bufs_sub .., binary_bufs_sub ..⟩)

/-- Every operation of `pNorm1a` determines its results. -/
theorem pNorm1a_fresh : ∀ op ∈ (pNorm1a : List (HloOp τ sig (Elt F))), op.fresh = ∅ := by
  intro _ h; unfold pNorm1a at h
  repeat (cases h with | head => rfl | tail _ h => ?_)
  exact nomatch h

/-- The buffers `pNorm1a` writes. -/
abbrev pNorm1a_W : List (Ref sig .tc) := [main_v93, main_v94, main_v95, main_cst_15, main_v96, main_v97, main_v98, main_v99, main_v100, main_v101]

theorem pNorm1a_writes : (pNorm1a : List (HloOp τ sig (Elt F))).Forall fun op =>
    op.writes ⊆ (pNorm1a_W.map (Proc.devRef (τ := τ) .tc)).toFinset := by
  unfold pNorm1a
  simp only [List.Forall]
  exact ⟨by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide)⟩

/-- A buffer `pNorm1a` does not write keeps its contents through it. -/
theorem pNorm1a_keep (V : Valuation τ sig (Elt F)) (r : Ref sig .tc) (h : r ∉ pNorm1a_W := by decide) :
    after pNorm1a V (Proc.devRef .tc r) = V (Proc.devRef .tc r) :=
  after_of_writes_sub pNorm1a V pNorm1a_writes h

theorem ops1_sub : ∀ op ∈ (ops1 : List (HloOp τ sig (Elt F))), op.bufs ⊆ tcRefs τ sig := fun op h => by
  simp only [ops1, List.mem_append] at h
  rcases h with h | h | h | h | h | h
  exacts [pNorm0b_sub op h, pAgg1_sub op h, pMlp1_sub op h, pMean1_sub op h, pVar1_sub op h, pNorm1a_sub op h]

theorem ops1_fresh : ∀ op ∈ (ops1 : List (HloOp τ sig (Elt F))), op.fresh = ∅ := fun op h => by
  simp only [ops1, List.mem_append] at h
  rcases h with h | h | h | h | h | h
  exacts [pNorm0b_fresh op h, pAgg1_fresh op h, pMlp1_fresh op h, pMean1_fresh op h, pVar1_fresh op h, pNorm1a_fresh op h]

/-- The buffers window 1 writes. -/
abbrev ops1_W : List (Ref sig .tc) := pNorm0b_W ++ (pAgg1_W ++ (pMlp1_W ++ (pMean1_W ++ (pVar1_W ++ (pNorm1a_W)))))

/-- A buffer no stage of window 1 writes keeps its contents through the window. -/
theorem ops1_keep (V : Valuation τ sig (Elt F)) (r : Ref sig .tc) (h : r ∉ ops1_W := by decide) :
    after ops1 V (Proc.devRef .tc r) = V (Proc.devRef .tc r) := by
  simp only [ops1_W, List.mem_append, not_or] at h
  obtain ⟨h0, h1, h2, h3, h4, h5⟩ := h
  simp only [ops1, after_append]
  rw [pNorm1a_keep _ r h5, pVar1_keep _ r h4, pMean1_keep _ r h3, pMlp1_keep _ r h2, pAgg1_keep _ r h1, pNorm0b_keep _ r h0]

end Cert.ReferenceIdeal.RefRun

end
-- ==== Proof.RefRun2.lean ====
/-
  The reference program's statements 121 … 180 as lists of host operations, one list per
  mathematical stage, the outlined functions' operations standing at their calls over the call's buffer
  record; that the printed window is the lists run in order; and, per list, the three facts the run asks
  (TensorCore buffers only, results determined, the written buffers) with the buffers it leaves alone.
-/
import proofs.«160011_j2121713844488_1_alg».proof.Proof.Gen.ReferenceIdeal
import Idealize.ShloMosaic.Lib.StableHlo.Run
import Idealize.ShloMosaic.Lib.Pipeline.Frame

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

/-- Layer 1's normalisation, second part: the product with the scale row and the sum with the shift row. (10 operations.) -/
def pNorm1b : List (HloOp τ sig (Elt F)) :=
  [ unary main_arg6 main_v102 ((extractStridedSlice S1x128 ![1, 0] · slices_S3x128_S1x128_1_0) : (⟨S3x128, .f32⟩ : BufTy).Contents (Elt F) → (⟨S1x128, .f32⟩ : BufTy).Contents (Elt F)),
    reshape main_v102 main_v103 rfl shapeCasts_S1x128_S128,
    unary main_v103 main_v104 (broadcastInDim S1x128 ![1] bcast_S128_S1x128_1 : (⟨S128, .f32⟩ : BufTy).Contents (Elt F) → (⟨S1x128, .f32⟩ : BufTy).Contents (Elt F)),
    unary main_v104 main_v105 (broadcastInDim S100000x128 ![0, 1] bcast_S1x128_S100000x128_0_1 : (⟨S1x128, .f32⟩ : BufTy).Contents (Elt F) → (⟨S100000x128, .f32⟩ : BufTy).Contents (Elt F)),
    binary main_v101 main_v105 main_v106 (mulf : (⟨S100000x128, .f32⟩ : BufTy).Contents (Elt F) → (⟨S100000x128, .f32⟩ : BufTy).Contents (Elt F) → (⟨S100000x128, .f32⟩ : BufTy).Contents (Elt F)),
    unary main_arg7 main_v107 ((extractStridedSlice S1x128 ![1, 0] · slices_S3x128_S1x128_1_0) : (⟨S3x128, .f32⟩ : BufTy).Contents (Elt F) → (⟨S1x128, .f32⟩ : BufTy).Contents (Elt F)),
    reshape main_v107 main_v108 rfl shapeCasts_S1x128_S128,
    unary main_v108 main_v109 (broadcastInDim S1x128 ![1] bcast_S128_S1x128_1 : (⟨S128, .f32⟩ : BufTy).Contents (Elt F) → (⟨S1x128, .f32⟩ : BufTy).Contents (Elt F)),
    unary main_v109 main_v110 (broadcastInDim S100000x128 ![0, 1] bcast_S1x128_S100000x128_0_1 : (⟨S1x128, .f32⟩ : BufTy).Contents (Elt F) → (⟨S100000x128, .f32⟩ : BufTy).Contents (Elt F)),
    binary main_v106 main_v110 main_v111 (addf : (⟨S100000x128, .f32⟩ : BufTy).Contents (Elt F) → (⟨S100000x128, .f32⟩ : BufTy).Contents (Elt F) → (⟨S100000x128, .f32⟩ : BufTy).Contents (Elt F)) ]

/-- Layer 2's neighbour aggregation: the source indices normalised (a negative index taken modulo the node count), the rows gathered, added up per destination into zeros, and the node's own row added. (14 operations.) -/
def pAgg2 : List (HloOp τ sig (Elt F)) :=
  [ nullary main_c_16 (constantI S_ 32 0#32),
    unary main_c_16 main_v112 (broadcastInDim S600000 ![] bcast_S_S600000 : (⟨S_, .i32⟩ : BufTy).Contents (Elt F) → (⟨S600000, .i32⟩ : BufTy).Contents (Elt F)),
    binary main_v1 main_v112 main_v113 (cmpi .slt : (⟨S600000, .i32⟩ : BufTy).Contents (Elt F) → (⟨S600000, .i32⟩ : BufTy).Contents (Elt F) → (⟨S600000, .i1⟩ : BufTy).Contents (Elt F)),
    nullary main_c_17 (constantI S_ 32 100000#32),
    unary main_c_17 main_v114 (broadcastInDim S600000 ![] bcast_S_S600000 : (⟨S_, .i32⟩ : BufTy).Contents (Elt F) → (⟨S600000, .i32⟩ : BufTy).Contents (Elt F)),
    binary main_v1 main_v114 main_v115 (addi : (⟨S600000, .i32⟩ : BufTy).Contents (Elt F) → (⟨S600000, .i32⟩ : BufTy).Contents (Elt F) → (⟨S600000, .i32⟩ : BufTy).Contents (Elt F)),
    ternary main_v113 main_v115 main_v1 main_v116 (select : (⟨S600000, .i1⟩ : BufTy).Contents (Elt F) → (⟨S600000, .i32⟩ : BufTy).Contents (Elt F) → (⟨S600000, .i32⟩ : BufTy).Contents (Elt F) → (⟨S600000, .i32⟩ : BufTy).Contents (Elt F)),
    unary main_v116 main_v117 (broadcastInDim S600000x1 ![0] bcast_S600000_S600000x1_0 : (⟨S600000, .i32⟩ : BufTy).Contents (Elt F) → (⟨S600000x1, .i32⟩ : BufTy).Contents (Elt F)),
    binary main_v111 main_v117 main_v118 ((fun x i => Host.gather gather_S100000x128_S600000x1_S600000x128_1_0_n_n_0_1_1128 x i) : (⟨S100000x128, .f32⟩ : BufTy).Contents (Elt F) → (⟨S600000x1, .i32⟩ : BufTy).Contents (Elt F) → (⟨S600000x128, .f32⟩ : BufTy).Contents (Elt F)),
    nullary main_cst_18 (constant S_ .f32 0x00000000#32),
    unary main_cst_18 main_v119 (broadcastInDim S100000x128 ![] bcast_S_S100000x128 : (⟨S_, .f32⟩ : BufTy).Contents (Elt F) → (⟨S100000x128, .f32⟩ : BufTy).Contents (Elt F)),
    unary main_v3 main_v120 (broadcastInDim S600000x1 ![0] bcast_S600000_S600000x1_0 : (⟨S600000, .i32⟩ : BufTy).Contents (Elt F) → (⟨S600000x1, .i32⟩ : BufTy).Contents (Elt F)),
    ternary main_v119 main_v120 main_v118 main_v121 ((fun x i u => Host.scatterAdd scatter_S100000x128_S600000x1_S600000x128_1_0_0_1 x i u) : (⟨S100000x128, .f32⟩ : BufTy).Contents (Elt F) → (⟨S600000x1, .i32⟩ : BufTy).Contents (Elt F) → (⟨S600000x128, .f32⟩ : BufTy).Contents (Elt F) → (⟨S100000x128, .f32⟩ : BufTy).Contents (Elt F)),
    binary main_v111 main_v121 main_v122 (addf : (⟨S100000x128, .f32⟩ : BufTy).Contents (Elt F) → (⟨S100000x128, .f32⟩ : BufTy).Contents (Elt F) → (⟨S100000x128, .f32⟩ : BufTy).Contents (Elt F)) ]

/-- Layer 2's two-layer perceptron: weight and bias 2 sliced out of the stacks, two affine maps each followed by a maximum with zero. (22 operations.) -/
def pMlp2 : List (HloOp τ sig (Elt F)) :=
  [ unary main_arg2 main_v123 ((extractStridedSlice S1x128x128 ![2, 0, 0] · slices_S3x128x128_S1x128x128_2_0_0) : (⟨S3x128x128, .f32⟩ : BufTy).Contents (Elt F) → (⟨S1x128x128, .f32⟩ : BufTy).Contents (Elt F)),
    reshape main_v123 main_v124 rfl shapeCasts_S1x128x128_S128x128,
    binary main_v122 main_v124 main_v125 ((fun l r => Host.dotGeneral dot_S100000x128_S128x128_S100000x128_1_0_0_1_n_n none l r) : (⟨S100000x128, .f32⟩ : BufTy).Contents (Elt F) → (⟨S128x128, .f32⟩ : BufTy).Contents (Elt F) → (⟨S100000x128, .f32⟩ : BufTy).Contents (Elt F)),
    unary main_arg3 main_v126 ((extractStridedSlice S1x128 ![2, 0] · slices_S3x128_S1x128_2_0) : (⟨S3x128, .f32⟩ : BufTy).Contents (Elt F) → (⟨S1x128, .f32⟩ : BufTy).Contents (Elt F)),
    reshape main_v126 main_v127 rfl shapeCasts_S1x128_S128,
    unary main_v127 main_v128 (broadcastInDim S1x128 ![1] bcast_S128_S1x128_1 : (⟨S128, .f32⟩ : BufTy).Contents (Elt F) → (⟨S1x128, .f32⟩ : BufTy).Contents (Elt F)),
    unary main_v128 main_v129 (broadcastInDim S100000x128 ![0, 1] bcast_S1x128_S100000x128_0_1 : (⟨S1x128, .f32⟩ : BufTy).Contents (Elt F) → (⟨S100000x128, .f32⟩ : BufTy).Contents (Elt F)),
    binary main_v125 main_v129 main_v130 (addf : (⟨S100000x128, .f32⟩ : BufTy).Contents (Elt F) → (⟨S100000x128, .f32⟩ : BufTy).Contents (Elt F) → (⟨S100000x128, .f32⟩ : BufTy).Contents (Elt F)),
    nullary main_cst_19 (constant S_ .f32 0x00000000#32),
    unary main_cst_19 main_v131 (broadcastInDim S100000x128 ![] bcast_S_S100000x128 : (⟨S_, .f32⟩ : BufTy).Contents (Elt F) → (⟨S100000x128, .f32⟩ : BufTy).Contents (Elt F)),
    binary main_v130 main_v131 main_v132 (maximumf : (⟨S100000x128, .f32⟩ : BufTy).Contents (Elt F) → (⟨S100000x128, .f32⟩ : BufTy).Contents (Elt F) → (⟨S100000x128, .f32⟩ : BufTy).Contents (Elt F)),
    unary main_arg4 main_v133 ((extractStridedSlice S1x128x128 ![2, 0, 0] · slices_S3x128x128_S1x128x128_2_0_0) : (⟨S3x128x128, .f32⟩ : BufTy).Contents (Elt F) → (⟨S1x128x128, .f32⟩ : BufTy).Contents (Elt F)),
    reshape main_v133 main_v134 rfl shapeCasts_S1x128x128_S128x128,
    binary main_v132 main_v134 main_v135 ((fun l r => Host.dotGeneral dot_S100000x128_S128x128_S100000x128_1_0_0_1_n_n none l r) : (⟨S100000x128, .f32⟩ : BufTy).Contents (Elt F) → (⟨S128x128, .f32⟩ : BufTy).Contents (Elt F) → (⟨S100000x128, .f32⟩ : BufTy).Contents (Elt F)),
    unary main_arg5 main_v136 ((extractStridedSlice S1x128 ![2, 0] · slices_S3x128_S1x128_2_0) : (⟨S3x128, .f32⟩ : BufTy).Contents (Elt F) → (⟨S1x128, .f32⟩ : BufTy).Contents (Elt F)),
    reshape main_v136 main_v137 rfl shapeCasts_S1x128_S128,
    unary main_v137 main_v138 (broadcastInDim S1x128 ![1] bcast_S128_S1x128_1 : (⟨S128, .f32⟩ : BufTy).Contents (Elt F) → (⟨S1x128, .f32⟩ : BufTy).Contents (Elt F)),
    unary main_v138 main_v139 (broadcastInDim S100000x128 ![0, 1] bcast_S1x128_S100000x128_0_1 : (⟨S1x128, .f32⟩ : BufTy).Contents (Elt F) → (⟨S100000x128, .f32⟩ : BufTy).Contents (Elt F)),
    binary main_v135 main_v139 main_v140 (addf : (⟨S100000x128, .f32⟩ : BufTy).Contents (Elt F) → (⟨S100000x128, .f32⟩ : BufTy).Contents (Elt F) → (⟨S100000x128, .f32⟩ : BufTy).Contents (Elt F)),
    nullary main_cst_20 (constant S_ .f32 0x00000000#32),
    unary main_cst_20 main_v141 (broadcastInDim S100000x128 ![] bcast_S_S100000x128 : (⟨S_, .f32⟩ : BufTy).Contents (Elt F) → (⟨S100000x128, .f32⟩ : BufTy).Contents (Elt F)),
    binary main_v140 main_v141 main_v142 (maximumf : (⟨S100000x128, .f32⟩ : BufTy).Contents (Elt F) → (⟨S100000x128, .f32⟩ : BufTy).Contents (Elt F) → (⟨S100000x128, .f32⟩ : BufTy).Contents (Elt F)) ]

/-- Layer 2's column mean: the sum over the nodes divided by the node count. (5 operations.) -/
def pMean2 : List (HloOp τ sig (Elt F)) :=
  [ nullary main_cst_21 (constant S_ .f32 0x00000000#32),
    binary main_v142 main_cst_21 main_v143 ((fun x v => Host.reduceAdd x v reducesTo_S100000x128_S128_d0 h_S_) : (⟨S100000x128, .f32⟩ : BufTy).Contents (Elt F) → (⟨S_, .f32⟩ : BufTy).Contents (Elt F) → (⟨S128, .f32⟩ : BufTy).Contents (Elt F)),
    nullary main_cst_22 (constant S_ .f32 0x47C35000#32),
    unary main_cst_22 main_v144 (broadcastInDim S128 ![] bcast_S_S128 : (⟨S_, .f32⟩ : BufTy).Contents (Elt F) → (⟨S128, .f32⟩ : BufTy).Contents (Elt F)),
    binary main_v143 main_v144 main_v145 (Host.divf : (⟨S128, .f32⟩ : BufTy).Contents (Elt F) → (⟨S128, .f32⟩ : BufTy).Contents (Elt F) → (⟨S128, .f32⟩ : BufTy).Contents (Elt F)) ]

/-- Layer 2's column variance as the outlined variance function computes it: its own mean, the centred squares summed, divided by the count less the correction, and the select against the not-a-number word when the divisor is not positive. (23 operations.) -/
def pVar2 : List (HloOp τ sig (Elt F)) :=
  [ nullary main_c_23 (constantI S_ 32 0#32),
    TRef.nullary main_call2.cst (constant S_ .f32 0x00000000#32),
    TRef.binary (.of main_v142 : TRef sig ⟨S100000x128, .f32⟩) main_call2.cst main_call2.v0 (fun x v => Host.reduceAdd x v reducesTo_S100000x128_S128_d0 h_S_),
    TRef.unary main_call2.v0 main_call2.v1 (broadcastInDim S1x128 ![1] bcast_S128_S1x128_1),
    TRef.nullary main_call2.cst_0 (constant S_ .f32 0x47C35000#32),
    TRef.unary main_call2.cst_0 main_call2.v2 (broadcastInDim S1x128 ![] bcast_S_S1x128),
    TRef.binary main_call2.v1 main_call2.v2 main_call2.v3 Host.divf,
    TRef.unary main_call2.v3 main_call2.v4 (broadcastInDim S100000x128 ![0, 1] bcast_S1x128_S100000x128_0_1),
    TRef.binary (.of main_v142 : TRef sig ⟨S100000x128, .f32⟩) main_call2.v4 main_call2.v5 subf,
    TRef.binary main_call2.v5 main_call2.v5 main_call2.v6 mulf,
    TRef.unary (.of main_c_23 : TRef sig ⟨S_, .i32⟩) main_call2.v7 (sitofp .f32),
    TRef.nullary main_call2.cst_1 (constant S_ .f32 0x47C35000#32),
    TRef.binary main_call2.cst_1 main_call2.v7 main_call2.v8 subf,
    TRef.nullary main_call2.cst_2 (constant S_ .f32 0x00000000#32),
    TRef.binary main_call2.v6 main_call2.cst_2 main_call2.v9 (fun x v => Host.reduceAdd x v reducesTo_S100000x128_S128_d0 h_S_),
    TRef.unary main_call2.v8 main_call2.v10 (broadcastInDim S128 ![] bcast_S_S128),
    TRef.binary main_call2.v9 main_call2.v10 main_call2.v11 Host.divf,
    TRef.nullary main_call2.cst_3 (constant S_ .f32 0x00000000#32),
    TRef.binary main_call2.v8 main_call2.cst_3 main_call2.v12 (cmpf .ogt),
    TRef.nullary main_call2.cst_4 (constant S_ .f32 0x7FC00000#32),
    TRef.unary main_call2.cst_4 main_call2.call0.v0 id,
    TRef.unary main_call2.call0.v0 main_call2.call0.v1 (broadcastInDim S128 ![] bcast_S_S128),
    TRef.ternary main_call2.v12 main_call2.v11 main_call2.call0.v1 main_call2.call0.v2 (fun p a b => select (broadcastInDim S128 ![] bcast_S_S128 p) a b) ]

/-- Layer 2's normalisation, first part: the mean subtracted, the product with the reciprocal square root of the variance plus the epsilon word (up to the reciprocal square root). (7 operations.) -/
def pNorm2a : List (HloOp τ sig (Elt F)) :=
  [ unary main_v145 main_v147 (broadcastInDim S1x128 ![1] bcast_S128_S1x128_1 : (⟨S128, .f32⟩ : BufTy).Contents (Elt F) → (⟨S1x128, .f32⟩ : BufTy).Contents (Elt F)),
    unary main_v147 main_v148 (broadcastInDim S100000x128 ![0, 1] bcast_S1x128_S100000x128_0_1 : (⟨S1x128, .f32⟩ : BufTy).Contents (Elt F) → (⟨S100000x128, .f32⟩ : BufTy).Contents (Elt F)),
    binary main_v142 main_v148 main_v149 (subf : (⟨S100000x128, .f32⟩ : BufTy).Contents (Elt F) → (⟨S100000x128, .f32⟩ : BufTy).Contents (Elt F) → (⟨S100000x128, .f32⟩ : BufTy).Contents (Elt F)),
    nullary main_cst_24 (constant S_ .f32 0x3727C5AC#32),
    unary main_cst_24 main_v150 (broadcastInDim S128 ![] bcast_S_S128 : (⟨S_, .f32⟩ : BufTy).Contents (Elt F) → (⟨S128, .f32⟩ : BufTy).Contents (Elt F)),
    binary main_v146 main_v150 main_v151 (addf : (⟨S128, .f32⟩ : BufTy).Contents (Elt F) → (⟨S128, .f32⟩ : BufTy).Contents (Elt F) → (⟨S128, .f32⟩ : BufTy).Contents (Elt F)),
    unary main_v151 main_v152 (Host.rsqrt : (⟨S128, .f32⟩ : BufTy).Contents (Elt F) → (⟨S128, .f32⟩ : BufTy).Contents (Elt F)) ]

/-- Window 2 of the program: its stages in order. -/
def ops2 : List (HloOp τ sig (Elt F)) := pNorm1b ++ (pAgg2 ++ (pMlp2 ++ (pMean2 ++ (pVar2 ++ (pNorm2a)))))

set_option maxRecDepth 16384 in
set_option maxHeartbeats 4000000 in
/-- The printed window is that line: the outlined functions unfold at their calls. -/
theorem main_part2_eq (c : Dev nD) : main_part2 (F := F) c = seq ops2 := rfl

/-- Every operation of `pNorm1b` touches TensorCore buffers only. -/
theorem pNorm1b_sub : ∀ op ∈ (pNorm1b : List (HloOp τ sig (Elt F))), op.bufs ⊆ tcRefs τ sig :=
  List.forall_iff_forall_mem.mp (by unfold pNorm1b; exact ⟨unary_bufs_sub .., reshape_bufs_sub .., unary_bufs_sub .., unary_bufs_sub .., binary_bufs_sub .., unary_bufs_sub .., reshape_bufs_sub .., unary_bufs_sub .., unary_bufs_sub .., binary_bufs_sub ..⟩)

/-- Every operation of `pNorm1b` determines its results. -/
theorem pNorm1b_fresh : ∀ op ∈ (pNorm1b : List (HloOp τ sig (Elt F))), op.fresh = ∅ := by
  intro _ h; unfold pNorm1b at h
  repeat (cases h with | head => rfl | tail _ h => ?_)
  exact nomatch h

/-- The buffers `pNorm1b` writes. -/
abbrev pNorm1b_W : List (Ref sig .tc) := [main_v102, main_v103, main_v104, main_v105, main_v106, main_v107, main_v108, main_v109, main_v110, main_v111]

theorem pNorm1b_writes : (pNorm1b : List (HloOp τ sig (Elt F))).Forall fun op =>
    op.writes ⊆ (pNorm1b_W.map (Proc.devRef (τ := τ) .tc)).toFinset := by
  unfold pNorm1b
  simp only [List.Forall]
  exact ⟨by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide)⟩

/-- A buffer `pNorm1b` does not write keeps its contents through it. -/
theorem pNorm1b_keep (V : Valuation τ sig (Elt F)) (r : Ref sig .tc) (h : r ∉ pNorm1b_W := by decide) :
    after pNorm1b V (Proc.devRef .tc r) = V (Proc.devRef .tc r) :=
  after_of_writes_sub pNorm1b V pNorm1b_writes h

/-- Every operation of `pAgg2` touches TensorCore buffers only. -/
theorem pAgg2_sub : ∀ op ∈ (pAgg2 : List (HloOp τ sig (Elt F))), op.bufs ⊆ tcRefs τ sig :=
  List.forall_iff_forall_mem.mp (by unfold pAgg2; exact ⟨nullary_bufs_sub .., unary_bufs_sub .., binary_bufs_sub .., nullary_bufs_sub .., unary_bufs_sub .., binary_bufs_sub .., ternary_bufs_sub .., unary_bufs_sub .., binary_bufs_sub .., nullary_bufs_sub .., unary_bufs_sub .., unary_bufs_sub .., ternary_bufs_sub .., binary_bufs_sub ..⟩)

/-- Every operation of `pAgg2` determines its results. -/
theorem pAgg2_fresh : ∀ op ∈ (pAgg2 : List (HloOp τ sig (Elt F))), op.fresh = ∅ := by
  intro _ h; unfold pAgg2 at h
  repeat (cases h with | head => rfl | tail _ h => ?_)
  exact nomatch h

/-- The buffers `pAgg2` writes. -/
abbrev pAgg2_W : List (Ref sig .tc) := [main_c_16, main_v112, main_v113, main_c_17, main_v114, main_v115, main_v116, main_v117, main_v118, main_cst_18, main_v119, main_v120, main_v121, main_v122]

theorem pAgg2_writes : (pAgg2 : List (HloOp τ sig (Elt F))).Forall fun op =>
    op.writes ⊆ (pAgg2_W.map (Proc.devRef (τ := τ) .tc)).toFinset := by
  unfold pAgg2
  simp only [List.Forall]
  exact ⟨by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide)⟩

/-- A buffer `pAgg2` does not write keeps its contents through it. -/
theorem pAgg2_keep (V : Valuation τ sig (Elt F)) (r : Ref sig .tc) (h : r ∉ pAgg2_W := by decide) :
    after pAgg2 V (Proc.devRef .tc r) = V (Proc.devRef .tc r) :=
  after_of_writes_sub pAgg2 V pAgg2_writes h

/-- Every operation of `pMlp2` touches TensorCore buffers only. -/
theorem pMlp2_sub : ∀ op ∈ (pMlp2 : List (HloOp τ sig (Elt F))), op.bufs ⊆ tcRefs τ sig :=
  List.forall_iff_forall_mem.mp (by unfold pMlp2; exact ⟨unary_bufs_sub .., reshape_bufs_sub .., binary_bufs_sub .., unary_bufs_sub .., reshape_bufs_sub .., unary_bufs_sub .., unary_bufs_sub .., binary_bufs_sub .., nullary_bufs_sub .., unary_bufs_sub .., binary_bufs_sub .., unary_bufs_sub .., reshape_bufs_sub .., binary_bufs_sub .., unary_bufs_sub .., reshape_bufs_sub .., unary_bufs_sub .., unary_bufs_sub .., binary_bufs_sub .., nullary_bufs_sub .., unary_bufs_sub .., binary_bufs_sub ..⟩)

/-- Every operation of `pMlp2` determines its results. -/
theorem pMlp2_fresh : ∀ op ∈ (pMlp2 : List (HloOp τ sig (Elt F))), op.fresh = ∅ := by
  intro _ h; unfold pMlp2 at h
  repeat (cases h with | head => rfl | tail _ h => ?_)
  exact nomatch h

/-- The buffers `pMlp2` writes. -/
abbrev pMlp2_W : List (Ref sig .tc) := [main_v123, main_v124, main_v125, main_v126, main_v127, main_v128, main_v129, main_v130, main_cst_19, main_v131, main_v132, main_v133, main_v134, main_v135, main_v136, main_v137, main_v138, main_v139, main_v140, main_cst_20, main_v141, main_v142]

theorem pMlp2_writes : (pMlp2 : List (HloOp τ sig (Elt F))).Forall fun op =>
    op.writes ⊆ (pMlp2_W.map (Proc.devRef (τ := τ) .tc)).toFinset := by
  unfold pMlp2
  simp only [List.Forall]
  exact ⟨by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide)⟩

/-- A buffer `pMlp2` does not write keeps its contents through it. -/
theorem pMlp2_keep (V : Valuation τ sig (Elt F)) (r : Ref sig .tc) (h : r ∉ pMlp2_W := by decide) :
    after pMlp2 V (Proc.devRef .tc r) = V (Proc.devRef .tc r) :=
  after_of_writes_sub pMlp2 V pMlp2_writes h

/-- Every operation of `pMean2` touches TensorCore buffers only. -/
theorem pMean2_sub : ∀ op ∈ (pMean2 : List (HloOp τ sig (Elt F))), op.bufs ⊆ tcRefs τ sig :=
  List.forall_iff_forall_mem.mp (by unfold pMean2; exact ⟨nullary_bufs_sub .., binary_bufs_sub .., nullary_bufs_sub .., unary_bufs_sub .., binary_bufs_sub ..⟩)

/-- Every operation of `pMean2` determines its results. -/
theorem pMean2_fresh : ∀ op ∈ (pMean2 : List (HloOp τ sig (Elt F))), op.fresh = ∅ := by
  intro _ h; unfold pMean2 at h
  repeat (cases h with | head => rfl | tail _ h => ?_)
  exact nomatch h

/-- The buffers `pMean2` writes. -/
abbrev pMean2_W : List (Ref sig .tc) := [main_cst_21, main_v143, main_cst_22, main_v144, main_v145]

theorem pMean2_writes : (pMean2 : List (HloOp τ sig (Elt F))).Forall fun op =>
    op.writes ⊆ (pMean2_W.map (Proc.devRef (τ := τ) .tc)).toFinset := by
  unfold pMean2
  simp only [List.Forall]
  exact ⟨by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide)⟩

/-- A buffer `pMean2` does not write keeps its contents through it. -/
theorem pMean2_keep (V : Valuation τ sig (Elt F)) (r : Ref sig .tc) (h : r ∉ pMean2_W := by decide) :
    after pMean2 V (Proc.devRef .tc r) = V (Proc.devRef .tc r) :=
  after_of_writes_sub pMean2 V pMean2_writes h

/-- Every operation of `pVar2` touches TensorCore buffers only. -/
theorem pVar2_sub : ∀ op ∈ (pVar2 : List (HloOp τ sig (Elt F))), op.bufs ⊆ tcRefs τ sig :=
  List.forall_iff_forall_mem.mp (by unfold pVar2; exact ⟨nullary_bufs_sub .., nullary_bufs_sub .., binary_bufs_sub .., unary_bufs_sub .., nullary_bufs_sub .., unary_bufs_sub .., binary_bufs_sub .., unary_bufs_sub .., binary_bufs_sub .., binary_bufs_sub .., unary_bufs_sub .., nullary_bufs_sub .., binary_bufs_sub .., nullary_bufs_sub .., binary_bufs_sub .., unary_bufs_sub .., binary_bufs_sub .., nullary_bufs_sub .., binary_bufs_sub .., nullary_bufs_sub .., unary_bufs_sub .., unary_bufs_sub .., ternary_bufs_sub ..⟩)

/-- Every operation of `pVar2` determines its results. -/
theorem pVar2_fresh : ∀ op ∈ (pVar2 : List (HloOp τ sig (Elt F))), op.fresh = ∅ := by
  intro _ h; unfold pVar2 at h
  repeat (cases h with | head => rfl | tail _ h => ?_)
  exact nomatch h

/-- The buffers `pVar2` writes. -/
abbrev pVar2_W : List (Ref sig .tc) := [main_c_23, main_call2_cst, main_call2_v0, main_call2_v1, main_call2_cst_0, main_call2_v2, main_call2_v3, main_call2_v4, main_call2_v5, main_call2_v6, main_call2_v7, main_call2_cst_1, main_call2_v8, main_call2_cst_2, main_call2_v9, main_call2_v10, main_call2_v11, main_call2_cst_3, main_call2_v12, main_call2_cst_4, main_call2_call0_v0, main_call2_call0_v1, main_v146]

theorem pVar2_writes : (pVar2 : List (HloOp τ sig (Elt F))).Forall fun op =>
    op.writes ⊆ (pVar2_W.map (Proc.devRef (τ := τ) .tc)).toFinset := by
  unfold pVar2
  simp only [List.Forall]
  exact ⟨by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide)⟩

/-- A buffer `pVar2` does not write keeps its contents through it. -/
theorem pVar2_keep (V : Valuation τ sig (Elt F)) (r : Ref sig .tc) (h : r ∉ pVar2_W := by decide) :
    after pVar2 V (Proc.devRef .tc r) = V (Proc.devRef .tc r) :=
  after_of_writes_sub pVar2 V pVar2_writes h

/-- Every operation of `pNorm2a` touches TensorCore buffers only. -/
theorem pNorm2a_sub : ∀ op ∈ (pNorm2a : List (HloOp τ sig (Elt F))), op.bufs ⊆ tcRefs τ sig :=
  List.forall_iff_forall_mem.mp (by unfold pNorm2a; exact ⟨unary_bufs_sub .., unary_bufs_sub .., binary_bufs_sub .., nullary_bufs_sub .., unary_bufs_sub .., binary_bufs_sub .., unary_bufs_sub ..⟩)

/-- Every operation of `pNorm2a` determines its results. -/
theorem pNorm2a_fresh : ∀ op ∈ (pNorm2a : List (HloOp τ sig (Elt F))), op.fresh = ∅ := by
  intro _ h; unfold pNorm2a at h
  repeat (cases h with | head => rfl | tail _ h => ?_)
  exact nomatch h

/-- The buffers `pNorm2a` writes. -/
abbrev pNorm2a_W : List (Ref sig .tc) := [main_v147, main_v148, main_v149, main_cst_24, main_v150, main_v151, main_v152]

theorem pNorm2a_writes : (pNorm2a : List (HloOp τ sig (Elt F))).Forall fun op =>
    op.writes ⊆ (pNorm2a_W.map (Proc.devRef (τ := τ) .tc)).toFinset := by
  unfold pNorm2a
  simp only [List.Forall]
  exact ⟨by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide)⟩

/-- A buffer `pNorm2a` does not write keeps its contents through it. -/
theorem pNorm2a_keep (V : Valuation τ sig (Elt F)) (r : Ref sig .tc) (h : r ∉ pNorm2a_W := by decide) :
    after pNorm2a V (Proc.devRef .tc r) = V (Proc.devRef .tc r) :=
  after_of_writes_sub pNorm2a V pNorm2a_writes h

theorem ops2_sub : ∀ op ∈ (ops2 : List (HloOp τ sig (Elt F))), op.bufs ⊆ tcRefs τ sig := fun op h => by
  simp only [ops2, List.mem_append] at h
  rcases h with h | h | h | h | h | h
  exacts [pNorm1b_sub op h, pAgg2_sub op h, pMlp2_sub op h, pMean2_sub op h, pVar2_sub op h, pNorm2a_sub op h]

theorem ops2_fresh : ∀ op ∈ (ops2 : List (HloOp τ sig (Elt F))), op.fresh = ∅ := fun op h => by
  simp only [ops2, List.mem_append] at h
  rcases h with h | h | h | h | h | h
  exacts [pNorm1b_fresh op h, pAgg2_fresh op h, pMlp2_fresh op h, pMean2_fresh op h, pVar2_fresh op h, pNorm2a_fresh op h]

/-- The buffers window 2 writes. -/
abbrev ops2_W : List (Ref sig .tc) := pNorm1b_W ++ (pAgg2_W ++ (pMlp2_W ++ (pMean2_W ++ (pVar2_W ++ (pNorm2a_W)))))

/-- A buffer no stage of window 2 writes keeps its contents through the window. -/
theorem ops2_keep (V : Valuation τ sig (Elt F)) (r : Ref sig .tc) (h : r ∉ ops2_W := by decide) :
    after ops2 V (Proc.devRef .tc r) = V (Proc.devRef .tc r) := by
  simp only [ops2_W, List.mem_append, not_or] at h
  obtain ⟨h0, h1, h2, h3, h4, h5⟩ := h
  simp only [ops2, after_append]
  rw [pNorm2a_keep _ r h5, pVar2_keep _ r h4, pMean2_keep _ r h3, pMlp2_keep _ r h2, pAgg2_keep _ r h1, pNorm1b_keep _ r h0]

end Cert.ReferenceIdeal.RefRun

end
-- ==== Proof.RefRun3.lean ====
/-
  The reference program's statements 181 … 207 as lists of host operations, one list per
  mathematical stage, the outlined functions' operations standing at their calls over the call's buffer
  record; that the printed window is the lists run in order; and, per list, the three facts the run asks
  (TensorCore buffers only, results determined, the written buffers) with the buffers it leaves alone.
-/
import proofs.«160011_j2121713844488_1_alg».proof.Proof.Gen.ReferenceIdeal
import Idealize.ShloMosaic.Lib.StableHlo.Run
import Idealize.ShloMosaic.Lib.Pipeline.Frame

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

/-- Layer 2's normalisation, second part: the product with the scale row and the sum with the shift row. (13 operations.) -/
def pNorm2b : List (HloOp τ sig (Elt F)) :=
  [ unary main_v152 main_v153 (broadcastInDim S1x128 ![1] bcast_S128_S1x128_1 : (⟨S128, .f32⟩ : BufTy).Contents (Elt F) → (⟨S1x128, .f32⟩ : BufTy).Contents (Elt F)),
    unary main_v153 main_v154 (broadcastInDim S100000x128 ![0, 1] bcast_S1x128_S100000x128_0_1 : (⟨S1x128, .f32⟩ : BufTy).Contents (Elt F) → (⟨S100000x128, .f32⟩ : BufTy).Contents (Elt F)),
    binary main_v149 main_v154 main_v155 (mulf : (⟨S100000x128, .f32⟩ : BufTy).Contents (Elt F) → (⟨S100000x128, .f32⟩ : BufTy).Contents (Elt F) → (⟨S100000x128, .f32⟩ : BufTy).Contents (Elt F)),
    unary main_arg6 main_v156 ((extractStridedSlice S1x128 ![2, 0] · slices_S3x128_S1x128_2_0) : (⟨S3x128, .f32⟩ : BufTy).Contents (Elt F) → (⟨S1x128, .f32⟩ : BufTy).Contents (Elt F)),
    reshape main_v156 main_v157 rfl shapeCasts_S1x128_S128,
    unary main_v157 main_v158 (broadcastInDim S1x128 ![1] bcast_S128_S1x128_1 : (⟨S128, .f32⟩ : BufTy).Contents (Elt F) → (⟨S1x128, .f32⟩ : BufTy).Contents (Elt F)),
    unary main_v158 main_v159 (broadcastInDim S100000x128 ![0, 1] bcast_S1x128_S100000x128_0_1 : (⟨S1x128, .f32⟩ : BufTy).Contents (Elt F) → (⟨S100000x128, .f32⟩ : BufTy).Contents (Elt F)),
    binary main_v155 main_v159 main_v160 (mulf : (⟨S100000x128, .f32⟩ : BufTy).Contents (Elt F) → (⟨S100000x128, .f32⟩ : BufTy).Contents (Elt F) → (⟨S100000x128, .f32⟩ : BufTy).Contents (Elt F)),
    unary main_arg7 main_v161 ((extractStridedSlice S1x128 ![2, 0] · slices_S3x128_S1x128_2_0) : (⟨S3x128, .f32⟩ : BufTy).Contents (Elt F) → (⟨S1x128, .f32⟩ : BufTy).Contents (Elt F)),
    reshape main_v161 main_v162 rfl shapeCasts_S1x128_S128,
    unary main_v162 main_v163 (broadcastInDim S1x128 ![1] bcast_S128_S1x128_1 : (⟨S128, .f32⟩ : BufTy).Contents (Elt F) → (⟨S1x128, .f32⟩ : BufTy).Contents (Elt F)),
    unary main_v163 main_v164 (broadcastInDim S100000x128 ![0, 1] bcast_S1x128_S100000x128_0_1 : (⟨S1x128, .f32⟩ : BufTy).Contents (Elt F) → (⟨S100000x128, .f32⟩ : BufTy).Contents (Elt F)),
    binary main_v160 main_v164 main_v165 (addf : (⟨S100000x128, .f32⟩ : BufTy).Contents (Elt F) → (⟨S100000x128, .f32⟩ : BufTy).Contents (Elt F) → (⟨S100000x128, .f32⟩ : BufTy).Contents (Elt F)) ]

/-- The head's logits: the first dense map, the maximum with zero, the product with the mask, the second dense map. (12 operations.) -/
def pLogits : List (HloOp τ sig (Elt F)) :=
  [ binary main_v165 main_arg8 main_v166 ((fun l r => Host.dotGeneral dot_S100000x128_S128x128_S100000x128_1_0_0_1_n_n none l r) : (⟨S100000x128, .f32⟩ : BufTy).Contents (Elt F) → (⟨S128x128, .f32⟩ : BufTy).Contents (Elt F) → (⟨S100000x128, .f32⟩ : BufTy).Contents (Elt F)),
    unary main_arg9 main_v167 (broadcastInDim S1x128 ![1] bcast_S128_S1x128_1 : (⟨S128, .f32⟩ : BufTy).Contents (Elt F) → (⟨S1x128, .f32⟩ : BufTy).Contents (Elt F)),
    unary main_v167 main_v168 (broadcastInDim S100000x128 ![0, 1] bcast_S1x128_S100000x128_0_1 : (⟨S1x128, .f32⟩ : BufTy).Contents (Elt F) → (⟨S100000x128, .f32⟩ : BufTy).Contents (Elt F)),
    binary main_v166 main_v168 main_v169 (addf : (⟨S100000x128, .f32⟩ : BufTy).Contents (Elt F) → (⟨S100000x128, .f32⟩ : BufTy).Contents (Elt F) → (⟨S100000x128, .f32⟩ : BufTy).Contents (Elt F)),
    nullary main_cst_25 (constant S_ .f32 0x00000000#32),
    unary main_cst_25 main_v170 (broadcastInDim S100000x128 ![] bcast_S_S100000x128 : (⟨S_, .f32⟩ : BufTy).Contents (Elt F) → (⟨S100000x128, .f32⟩ : BufTy).Contents (Elt F)),
    binary main_v169 main_v170 main_v171 (maximumf : (⟨S100000x128, .f32⟩ : BufTy).Contents (Elt F) → (⟨S100000x128, .f32⟩ : BufTy).Contents (Elt F) → (⟨S100000x128, .f32⟩ : BufTy).Contents (Elt F)),
    binary main_v171 main_arg12 main_v172 (mulf : (⟨S100000x128, .f32⟩ : BufTy).Contents (Elt F) → (⟨S100000x128, .f32⟩ : BufTy).Contents (Elt F) → (⟨S100000x128, .f32⟩ : BufTy).Contents (Elt F)),
    binary main_v172 main_arg10 main_v173 ((fun l r => Host.dotGeneral dot_S100000x128_S128x64_S100000x64_1_0_0_1_n_n none l r) : (⟨S100000x128, .f32⟩ : BufTy).Contents (Elt F) → (⟨S128x64, .f32⟩ : BufTy).Contents (Elt F) → (⟨S100000x64, .f32⟩ : BufTy).Contents (Elt F)),
    unary main_arg11 main_v174 (broadcastInDim S1x64 ![1] bcast_S64_S1x64_1 : (⟨S64, .f32⟩ : BufTy).Contents (Elt F) → (⟨S1x64, .f32⟩ : BufTy).Contents (Elt F)),
    unary main_v174 main_v175 (broadcastInDim S100000x64 ![0, 1] bcast_S1x64_S100000x64_0_1 : (⟨S1x64, .f32⟩ : BufTy).Contents (Elt F) → (⟨S100000x64, .f32⟩ : BufTy).Contents (Elt F)),
    binary main_v173 main_v175 main_v176 (addf : (⟨S100000x64, .f32⟩ : BufTy).Contents (Elt F) → (⟨S100000x64, .f32⟩ : BufTy).Contents (Elt F) → (⟨S100000x64, .f32⟩ : BufTy).Contents (Elt F)) ]

/-- The outlined log-softmax over the logits: the row maximum, the shifted exponentials, their row sum's logarithm subtracted. (15 operations.) -/
def pLsm : List (HloOp τ sig (Elt F)) :=
  [ TRef.nullary main_call3.cst (constant S_ .f32 0xFF800000#32),
    TRef.binary (.of main_v176 : TRef sig ⟨S100000x64, .f32⟩) main_call3.cst main_call3.v0 (fun x v => Host.reduce FloatOps.maximumf x v reducesTo_S100000x64_S100000_d1 h_S_),
    TRef.nullary main_call3.cst_0 (constant S_ .f32 0xFF800000#32),
    TRef.unary main_call3.cst_0 main_call3.v1 (broadcastInDim S100000 ![] bcast_S_S100000),
    TRef.binary main_call3.v1 main_call3.v0 main_call3.v2 maximumf,
    TRef.unary main_call3.v2 main_call3.v3 (broadcastInDim S100000x1 ![0] bcast_S100000_S100000x1_0),
    TRef.unary main_call3.v3 main_call3.v4 (broadcastInDim S100000x64 ![0, 1] bcast_S100000x1_S100000x64_0_1),
    TRef.binary (.of main_v176 : TRef sig ⟨S100000x64, .f32⟩) main_call3.v4 main_call3.v5 subf,
    TRef.unary main_call3.v5 main_call3.v6 Host.exp,
    TRef.nullary main_call3.cst_1 (constant S_ .f32 0x00000000#32),
    TRef.binary main_call3.v6 main_call3.cst_1 main_call3.v7 (fun x v => Host.reduceAdd x v reducesTo_S100000x64_S100000_d1 h_S_),
    TRef.unary main_call3.v7 main_call3.v8 (broadcastInDim S100000x1 ![0] bcast_S100000_S100000x1_0),
    TRef.unary main_call3.v8 main_call3.v9 Host.log,
    TRef.unary main_call3.v9 main_call3.v10 (broadcastInDim S100000x64 ![0, 1] bcast_S100000x1_S100000x64_0_1),
    TRef.binary main_call3.v5 main_call3.v10 main_call3.v11 subf ]

/-- Window 3 of the program: its stages in order. -/
def ops3 : List (HloOp τ sig (Elt F)) := pNorm2b ++ (pLogits ++ (pLsm))

set_option maxRecDepth 16384 in
set_option maxHeartbeats 4000000 in
/-- The printed window is that line: the outlined functions unfold at their calls. -/
theorem main_part3_eq (c : Dev nD) : main_part3 (F := F) c = seq ops3 := rfl

/-- Every operation of `pNorm2b` touches TensorCore buffers only. -/
theorem pNorm2b_sub : ∀ op ∈ (pNorm2b : List (HloOp τ sig (Elt F))), op.bufs ⊆ tcRefs τ sig :=
  List.forall_iff_forall_mem.mp (by unfold pNorm2b; exact ⟨unary_bufs_sub .., unary_bufs_sub .., binary_bufs_sub .., unary_bufs_sub .., reshape_bufs_sub .., unary_bufs_sub .., unary_bufs_sub .., binary_bufs_sub .., unary_bufs_sub .., reshape_bufs_sub .., unary_bufs_sub .., unary_bufs_sub .., binary_bufs_sub ..⟩)

/-- Every operation of `pNorm2b` determines its results. -/
theorem pNorm2b_fresh : ∀ op ∈ (pNorm2b : List (HloOp τ sig (Elt F))), op.fresh = ∅ := by
  intro _ h; unfold pNorm2b at h
  repeat (cases h with | head => rfl | tail _ h => ?_)
  exact nomatch h

/-- The buffers `pNorm2b` writes. -/
abbrev pNorm2b_W : List (Ref sig .tc) := [main_v153, main_v154, main_v155, main_v156, main_v157, main_v158, main_v159, main_v160, main_v161, main_v162, main_v163, main_v164, main_v165]

theorem pNorm2b_writes : (pNorm2b : List (HloOp τ sig (Elt F))).Forall fun op =>
    op.writes ⊆ (pNorm2b_W.map (Proc.devRef (τ := τ) .tc)).toFinset := by
  unfold pNorm2b
  simp only [List.Forall]
  exact ⟨by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide)⟩

/-- A buffer `pNorm2b` does not write keeps its contents through it. -/
theorem pNorm2b_keep (V : Valuation τ sig (Elt F)) (r : Ref sig .tc) (h : r ∉ pNorm2b_W := by decide) :
    after pNorm2b V (Proc.devRef .tc r) = V (Proc.devRef .tc r) :=
  after_of_writes_sub pNorm2b V pNorm2b_writes h

/-- Every operation of `pLogits` touches TensorCore buffers only. -/
theorem pLogits_sub : ∀ op ∈ (pLogits : List (HloOp τ sig (Elt F))), op.bufs ⊆ tcRefs τ sig :=
  List.forall_iff_forall_mem.mp (by unfold pLogits; exact ⟨binary_bufs_sub .., unary_bufs_sub .., unary_bufs_sub .., binary_bufs_sub .., nullary_bufs_sub .., unary_bufs_sub .., binary_bufs_sub .., binary_bufs_sub .., binary_bufs_sub .., unary_bufs_sub .., unary_bufs_sub .., binary_bufs_sub ..⟩)

/-- Every operation of `pLogits` determines its results. -/
theorem pLogits_fresh : ∀ op ∈ (pLogits : List (HloOp τ sig (Elt F))), op.fresh = ∅ := by
  intro _ h; unfold pLogits at h
  repeat (cases h with | head => rfl | tail _ h => ?_)
  exact nomatch h

/-- The buffers `pLogits` writes. -/
abbrev pLogits_W : List (Ref sig .tc) := [main_v166, main_v167, main_v168, main_v169, main_cst_25, main_v170, main_v171, main_v172, main_v173, main_v174, main_v175, main_v176]

theorem pLogits_writes : (pLogits : List (HloOp τ sig (Elt F))).Forall fun op =>
    op.writes ⊆ (pLogits_W.map (Proc.devRef (τ := τ) .tc)).toFinset := by
  unfold pLogits
  simp only [List.Forall]
  exact ⟨by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide)⟩

/-- A buffer `pLogits` does not write keeps its contents through it. -/
theorem pLogits_keep (V : Valuation τ sig (Elt F)) (r : Ref sig .tc) (h : r ∉ pLogits_W := by decide) :
    after pLogits V (Proc.devRef .tc r) = V (Proc.devRef .tc r) :=
  after_of_writes_sub pLogits V pLogits_writes h

/-- Every operation of `pLsm` touches TensorCore buffers only. -/
theorem pLsm_sub : ∀ op ∈ (pLsm : List (HloOp τ sig (Elt F))), op.bufs ⊆ tcRefs τ sig :=
  List.forall_iff_forall_mem.mp (by unfold pLsm; exact ⟨nullary_bufs_sub .., binary_bufs_sub .., nullary_bufs_sub .., unary_bufs_sub .., binary_bufs_sub .., unary_bufs_sub .., unary_bufs_sub .., binary_bufs_sub .., unary_bufs_sub .., nullary_bufs_sub .., binary_bufs_sub .., unary_bufs_sub .., unary_bufs_sub .., unary_bufs_sub .., binary_bufs_sub ..⟩)

/-- Every operation of `pLsm` determines its results. -/
theorem pLsm_fresh : ∀ op ∈ (pLsm : List (HloOp τ sig (Elt F))), op.fresh = ∅ := by
  intro _ h; unfold pLsm at h
  repeat (cases h with | head => rfl | tail _ h => ?_)
  exact nomatch h

/-- The buffers `pLsm` writes. -/
abbrev pLsm_W : List (Ref sig .tc) := [main_call3_cst, main_call3_v0, main_call3_cst_0, main_call3_v1, main_call3_v2, main_call3_v3, main_call3_v4, main_call3_v5, main_call3_v6, main_call3_cst_1, main_call3_v7, main_call3_v8, main_call3_v9, main_call3_v10, main_v177]

theorem pLsm_writes : (pLsm : List (HloOp τ sig (Elt F))).Forall fun op =>
    op.writes ⊆ (pLsm_W.map (Proc.devRef (τ := τ) .tc)).toFinset := by
  unfold pLsm
  simp only [List.Forall]
  exact ⟨by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide)⟩

/-- A buffer `pLsm` does not write keeps its contents through it. -/
theorem pLsm_keep (V : Valuation τ sig (Elt F)) (r : Ref sig .tc) (h : r ∉ pLsm_W := by decide) :
    after pLsm V (Proc.devRef .tc r) = V (Proc.devRef .tc r) :=
  after_of_writes_sub pLsm V pLsm_writes h

theorem ops3_sub : ∀ op ∈ (ops3 : List (HloOp τ sig (Elt F))), op.bufs ⊆ tcRefs τ sig := fun op h => by
  simp only [ops3, List.mem_append] at h
  rcases h with h | h | h
  exacts [pNorm2b_sub op h, pLogits_sub op h, pLsm_sub op h]

theorem ops3_fresh : ∀ op ∈ (ops3 : List (HloOp τ sig (Elt F))), op.fresh = ∅ := fun op h => by
  simp only [ops3, List.mem_append] at h
  rcases h with h | h | h
  exacts [pNorm2b_fresh op h, pLogits_fresh op h, pLsm_fresh op h]

/-- The buffers window 3 writes. -/
abbrev ops3_W : List (Ref sig .tc) := pNorm2b_W ++ (pLogits_W ++ (pLsm_W))

/-- A buffer no stage of window 3 writes keeps its contents through the window. -/
theorem ops3_keep (V : Valuation τ sig (Elt F)) (r : Ref sig .tc) (h : r ∉ ops3_W := by decide) :
    after ops3 V (Proc.devRef .tc r) = V (Proc.devRef .tc r) := by
  simp only [ops3_W, List.mem_append, not_or] at h
  obtain ⟨h0, h1, h2⟩ := h
  simp only [ops3, after_append]
  rw [pLsm_keep _ r h2, pLogits_keep _ r h1, pNorm2b_keep _ r h0]

end Cert.ReferenceIdeal.RefRun

end
-- ==== Proof.RefRun.lean ====
/-
  The reference program's run. Its four printed windows are four lines of host operations (the sibling
  modules); run in order they are one line, so every weakly fair execution terminates with each buffer at
  the fold of the operations' results over the launch contents: the result buffer at `res m c`, and each
  argument buffer, which no operation writes, unchanged.
-/
import proofs.«160011_j2121713844488_1_alg».proof.Proof.RefRun0
import proofs.«160011_j2121713844488_1_alg».proof.Proof.RefRun1
import proofs.«160011_j2121713844488_1_alg».proof.Proof.RefRun2
import proofs.«160011_j2121713844488_1_alg».proof.Proof.RefRun3
import Idealize.ShloMosaic.Lib.Pipeline.Frame

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

/-- The program's operations, in order: the four windows. -/
def ops : List (HloOp τ sig (Elt F)) := ops0 ++ (ops1 ++ (ops2 ++ ops3))

/-- The program is that line. -/
theorem main_eq (c : Dev nD) : main (F := F) c = seq ops := by
  simp only [ops, seq_append, ← main_part0_eq c, ← main_part1_eq c, ← main_part2_eq c, ← main_part3_eq c]
  rfl

theorem scopedRefs_eq : (Finset.univ.filter fun b : Ref sig .tc => b.isScoped) = ∅ := by decide
theorem scopedSems_eq : (Finset.univ.filter fun sm : SemLoc sig => sm.isScoped .tc) = ∅ := by decide

theorem ops_sub : (ops : List (HloOp τ sig (Elt F))).Forall fun op => op.bufs ⊆ tcRefs τ sig :=
  List.forall_iff_forall_mem.mpr fun op h => by
    simp only [ops, List.mem_append] at h
    rcases h with h | h | h | h
    exacts [ops0_sub op h, ops1_sub op h, ops2_sub op h, ops3_sub op h]

theorem ops_fresh : ∀ op ∈ (ops : List (HloOp τ sig (Elt F))), op.fresh = ∅ := fun op h => by
  simp only [ops, List.mem_append] at h
  rcases h with h | h | h | h
  exacts [ops0_fresh op h, ops1_fresh op h, ops2_fresh op h, ops3_fresh op h]

/-- A buffer no window writes keeps its contents through the whole line (the thirteen argument buffers do). -/
theorem ops_keep (V : Valuation τ sig (Elt F)) (r : Ref sig .tc) (h0 : r ∉ ops0_W := by decide) (h1 : r ∉ ops1_W := by decide)
    (h2 : r ∉ ops2_W := by decide) (h3 : r ∉ ops3_W := by decide) :
    after ops V (Proc.devRef .tc r) = V (Proc.devRef .tc r) := by
  simp only [ops, after_append]
  rw [ops3_keep _ r h3, ops2_keep _ r h2, ops1_keep _ r h1, ops0_keep _ r h0]

/-- The result buffer after the run: the operations' composed term of the launch contents. -/
def res (m : (ℓ : Loc nD τ sig) → Buf (Elt F) ℓ) (c : Dev nD) : Buf (Elt F) ((c.tc : Thread nD τ).loc main_v177) :=
  after ops (launchContents m c) (Proc.devRef .tc main_v177)

/-- On every device, for any float values, from any memory with zero counters: every weakly fair execution of
    the program terminates with the result buffer at `res m c` and the arguments unchanged. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v177) = res m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12) :=
  (θ_run defs _ _).mono (fun _ h c => ⟨h c main_v177,
      (h c main_arg0).trans (ops_keep _ main_arg0),
      (h c main_arg1).trans (ops_keep _ main_arg1),
      (h c main_arg2).trans (ops_keep _ main_arg2),
      (h c main_arg3).trans (ops_keep _ main_arg3),
      (h c main_arg4).trans (ops_keep _ main_arg4),
      (h c main_arg5).trans (ops_keep _ main_arg5),
      (h c main_arg6).trans (ops_keep _ main_arg6),
      (h c main_arg7).trans (ops_keep _ main_arg7),
      (h c main_arg8).trans (ops_keep _ main_arg8),
      (h c main_arg9).trans (ops_keep _ main_arg9),
      (h c main_arg10).trans (ops_keep _ main_arg10),
      (h c main_arg11).trans (ops_keep _ main_arg11),
      (h c main_arg12).trans (ops_keep _ main_arg12)⟩)
    (run_seq scopedRefs_eq scopedSems_eq defs main (fun _ => ops) main_eq (fun _ => ops_sub) m ρ (fun _ => ops_fresh))

/-- The run with the result dropped: the program terminates, nothing faults, the arguments end unchanged. -/
theorem frame (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12) :=
  (θ_run defs _ _).mono (fun _ h c => (h c).2) (run m ρ)

end Cert.ReferenceIdeal.RefRun

end
-- ==== Proof.RefRunStages.lean ====
/-
  The reference program's mathematics, stage by stage: each definition is the composed term of one stretch of
  the program's host operations, as a function of the arrays the stretch reads. A graph-isomorphism layer is
  `bnAll (mlp (agg h src dst) w1 b1 w2 b2) g b`; the model is three layers and the head.
-/
import proofs.«160011_j2121713844488_1_alg».proof.Proof.Gen.ReferenceIdeal
import Idealize.ShloMosaic.Lib.StableHlo

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

/-- Contents moved to a typed reference's buffer type and back are themselves (the two transports along the
    reference's type equation cancel). -/
theorem ofBuf_toBuf {T : BufTy} {Val : EltTy → Type} (x : TRef sig T) (v : T.Contents Val) : x.ofBuf (x.toBuf v) = v := by
  obtain ⟨r, h, _, _⟩ := x; subst h; rfl

/-- Row 0 of the edge table, flattened: each edge's source node. -/
def srcRow (ei : IVec S2x600000 32) : IVec S600000 32 :=
  shapeCast S600000 (extractStridedSlice S1x600000 ![0, 0] ei slices_S2x600000_S1x600000_0_0) shapeCasts_S1x600000_S600000

/-- Row 1 of the edge table, flattened: each edge's destination node. -/
def dstRow (ei : IVec S2x600000 32) : IVec S600000 32 :=
  shapeCast S600000 (extractStridedSlice S1x600000 ![1, 0] ei slices_S2x600000_S1x600000_1_0) shapeCasts_S1x600000_S600000

/-- Matrix 0 of a stack of three 128×128 matrices. -/
def matAt0 (W : FVec F S3x128x128 .f32) : FVec F S128x128 .f32 :=
  shapeCast S128x128 (extractStridedSlice S1x128x128 ![0, 0, 0] W slices_S3x128x128_S1x128x128_0_0_0) shapeCasts_S1x128x128_S128x128

/-- Matrix 1 of a stack of three 128×128 matrices. -/
def matAt1 (W : FVec F S3x128x128 .f32) : FVec F S128x128 .f32 :=
  shapeCast S128x128 (extractStridedSlice S1x128x128 ![1, 0, 0] W slices_S3x128x128_S1x128x128_1_0_0) shapeCasts_S1x128x128_S128x128

/-- Matrix 2 of a stack of three 128×128 matrices. -/
def matAt2 (W : FVec F S3x128x128 .f32) : FVec F S128x128 .f32 :=
  shapeCast S128x128 (extractStridedSlice S1x128x128 ![2, 0, 0] W slices_S3x128x128_S1x128x128_2_0_0) shapeCasts_S1x128x128_S128x128

/-- Row 0 of a stack of three rows of 128. -/
def rowAt0 (B : FVec F S3x128 .f32) : FVec F S128 .f32 :=
  shapeCast S128 (extractStridedSlice S1x128 ![0, 0] B slices_S3x128_S1x128_0_0) shapeCasts_S1x128_S128

/-- Row 1 of a stack of three rows of 128. -/
def rowAt1 (B : FVec F S3x128 .f32) : FVec F S128 .f32 :=
  shapeCast S128 (extractStridedSlice S1x128 ![1, 0] B slices_S3x128_S1x128_1_0) shapeCasts_S1x128_S128

/-- Row 2 of a stack of three rows of 128. -/
def rowAt2 (B : FVec F S3x128 .f32) : FVec F S128 .f32 :=
  shapeCast S128 (extractStridedSlice S1x128 ![2, 0] B slices_S3x128_S1x128_2_0) shapeCasts_S1x128_S128

/-- The neighbour aggregation `h + segment_sum(h[src], dst)`: a negative source index is taken modulo the node count
    (`select (src < 0) (src + 100000) src`), the rows of `h` at the sources are gathered, added into zeros at the
    destinations, and `h` is added. -/
def agg (h : FVec F S100000x128 .f32) (src dst : IVec S600000 32) : FVec F S100000x128 .f32 :=
  addf h
    (Host.scatterAdd scatter_S100000x128_S600000x1_S600000x128_1_0_0_1
      (broadcastInDim S100000x128 ![] bcast_S_S100000x128 (constant (F := F) S_ .f32 0x00000000#32))
      (broadcastInDim S600000x1 ![0] bcast_S600000_S600000x1_0 dst)
      (Host.gather gather_S100000x128_S600000x1_S600000x128_1_0_n_n_0_1_1128 h
        (broadcastInDim S600000x1 ![0] bcast_S600000_S600000x1_0 (select (cmpi .slt src (broadcastInDim S600000 ![] bcast_S_S600000 (constantI S_ 32 0#32))) (addi src (broadcastInDim S600000 ![] bcast_S_S600000 (constantI S_ 32 100000#32))) src))))

/-- The two-layer perceptron `max(max(a·w1 + b1, 0)·w2 + b2, 0)`, the biases broadcast over the nodes. -/
def mlp (a : FVec F S100000x128 .f32) (w1 : FVec F S128x128 .f32) (b1 : FVec F S128 .f32)
    (w2 : FVec F S128x128 .f32) (b2 : FVec F S128 .f32) : FVec F S100000x128 .f32 :=
  maximumf
    (addf
      (Host.dotGeneral dot_S100000x128_S128x128_S100000x128_1_0_0_1_n_n none
        (maximumf (addf (Host.dotGeneral dot_S100000x128_S128x128_S100000x128_1_0_0_1_n_n none a w1) (broadcastInDim S100000x128 ![0, 1] bcast_S1x128_S100000x128_0_1 (broadcastInDim S1x128 ![1] bcast_S128_S1x128_1 b1))) (broadcastInDim S100000x128 ![] bcast_S_S100000x128 (constant (F := F) S_ .f32 0x00000000#32)))
        w2)
      (broadcastInDim S100000x128 ![0, 1] bcast_S1x128_S100000x128_0_1 (broadcastInDim S1x128 ![1] bcast_S128_S1x128_1 b2)))
    (broadcastInDim S100000x128 ![] bcast_S_S100000x128 (constant (F := F) S_ .f32 0x00000000#32))

/-- The column mean: the sum over the nodes divided by the node count (the word of 100000). -/
def colMean (z : FVec F S100000x128 .f32) : FVec F S128 .f32 :=
  Host.divf (Host.reduceAdd z (constant (F := F) S_ .f32 0x00000000#32) reducesTo_S100000x128_S128_d0 h_S_) (broadcastInDim S128 ![] bcast_S_S128 (constant (F := F) S_ .f32 0x47C35000#32))

/-- The column variance as the outlined variance function computes it: the centred values (its own mean subtracted)
    squared, summed over the nodes, divided by `100000 − convert(0)`; where that divisor is not positive the
    not-a-number word instead. -/
def colVar (z : FVec F S100000x128 .f32) : FVec F S128 .f32 :=
  select (broadcastInDim S128 ![] bcast_S_S128 (cmpf .ogt (subf (constant (F := F) S_ .f32 0x47C35000#32) (sitofp .f32 (constantI S_ 32 0#32))) (constant (F := F) S_ .f32 0x00000000#32)))
    (Host.divf
      (Host.reduceAdd (mulf (subf z (broadcastInDim S100000x128 ![0, 1] bcast_S1x128_S100000x128_0_1 (Host.divf (broadcastInDim S1x128 ![1] bcast_S128_S1x128_1 (Host.reduceAdd z (constant (F := F) S_ .f32 0x00000000#32) reducesTo_S100000x128_S128_d0 h_S_)) (broadcastInDim S1x128 ![] bcast_S_S1x128 (constant (F := F) S_ .f32 0x47C35000#32))))) (subf z (broadcastInDim S100000x128 ![0, 1] bcast_S1x128_S100000x128_0_1 (Host.divf (broadcastInDim S1x128 ![1] bcast_S128_S1x128_1 (Host.reduceAdd z (constant (F := F) S_ .f32 0x00000000#32) reducesTo_S100000x128_S128_d0 h_S_)) (broadcastInDim S1x128 ![] bcast_S_S1x128 (constant (F := F) S_ .f32 0x47C35000#32)))))) (constant (F := F) S_ .f32 0x00000000#32) reducesTo_S100000x128_S128_d0 h_S_)
      (broadcastInDim S128 ![] bcast_S_S128 (subf (constant (F := F) S_ .f32 0x47C35000#32) (sitofp .f32 (constantI S_ 32 0#32)))))
    (broadcastInDim S128 ![] bcast_S_S128 (id (constant (F := F) S_ .f32 0x7FC00000#32)))

/-- The normalisation `(z − mean) · rsqrt(var + eps) · g + b`, the four rows broadcast over the nodes (eps the
    word 0x3727C5AC). -/
def bnorm (z : FVec F S100000x128 .f32) (mean var g b : FVec F S128 .f32) : FVec F S100000x128 .f32 :=
  addf
    (mulf
      (mulf (subf z (broadcastInDim S100000x128 ![0, 1] bcast_S1x128_S100000x128_0_1 (broadcastInDim S1x128 ![1] bcast_S128_S1x128_1 mean)))
        (broadcastInDim S100000x128 ![0, 1] bcast_S1x128_S100000x128_0_1 (broadcastInDim S1x128 ![1] bcast_S128_S1x128_1 (Host.rsqrt (addf var (broadcastInDim S128 ![] bcast_S_S128 (constant (F := F) S_ .f32 0x3727C5AC#32)))))))
      (broadcastInDim S100000x128 ![0, 1] bcast_S1x128_S100000x128_0_1 (broadcastInDim S1x128 ![1] bcast_S128_S1x128_1 g)))
    (broadcastInDim S100000x128 ![0, 1] bcast_S1x128_S100000x128_0_1 (broadcastInDim S1x128 ![1] bcast_S128_S1x128_1 b))

/-- Batch normalisation with the batch's own statistics. -/
def bnAll (z : FVec F S100000x128 .f32) (g b : FVec F S128 .f32) : FVec F S100000x128 .f32 :=
  bnorm z (colMean z) (colVar z) g b

/-- One layer over already sliced parameters. -/
def layer (h : FVec F S100000x128 .f32) (src dst : IVec S600000 32) (w1 : FVec F S128x128 .f32) (b1 : FVec F S128 .f32)
    (w2 : FVec F S128x128 .f32) (b2 g b : FVec F S128 .f32) : FVec F S100000x128 .f32 :=
  bnAll (mlp (agg h src dst) w1 b1 w2 b2) g b

/-- Layer 0: its parameters sliced out of the stacks. -/
def layer0 (h : FVec F S100000x128 .f32) (src dst : IVec S600000 32) (W1 : FVec F S3x128x128 .f32) (B1 : FVec F S3x128 .f32)
    (W2 : FVec F S3x128x128 .f32) (B2 G Bt : FVec F S3x128 .f32) : FVec F S100000x128 .f32 :=
  layer h src dst (matAt0 W1) (rowAt0 B1) (matAt0 W2) (rowAt0 B2) (rowAt0 G) (rowAt0 Bt)

/-- Layer 1: its parameters sliced out of the stacks. -/
def layer1 (h : FVec F S100000x128 .f32) (src dst : IVec S600000 32) (W1 : FVec F S3x128x128 .f32) (B1 : FVec F S3x128 .f32)
    (W2 : FVec F S3x128x128 .f32) (B2 G Bt : FVec F S3x128 .f32) : FVec F S100000x128 .f32 :=
  layer h src dst (matAt1 W1) (rowAt1 B1) (matAt1 W2) (rowAt1 B2) (rowAt1 G) (rowAt1 Bt)

/-- Layer 2: its parameters sliced out of the stacks. -/
def layer2 (h : FVec F S100000x128 .f32) (src dst : IVec S600000 32) (W1 : FVec F S3x128x128 .f32) (B1 : FVec F S3x128 .f32)
    (W2 : FVec F S3x128x128 .f32) (B2 G Bt : FVec F S3x128 .f32) : FVec F S100000x128 .f32 :=
  layer h src dst (matAt2 W1) (rowAt2 B1) (matAt2 W2) (rowAt2 B2) (rowAt2 G) (rowAt2 Bt)

/-- The logits: `(max(h·fw1 + fb1, 0) · mask)·fw2 + fb2`. -/
def logits (h : FVec F S100000x128 .f32) (fw1 : FVec F S128x128 .f32) (fb1 : FVec F S128 .f32)
    (fw2 : FVec F S128x64 .f32) (fb2 : FVec F S64 .f32) (mask : FVec F S100000x128 .f32) : FVec F S100000x64 .f32 :=
  addf
    (Host.dotGeneral dot_S100000x128_S128x64_S100000x64_1_0_0_1_n_n none
      (mulf (maximumf (addf (Host.dotGeneral dot_S100000x128_S128x128_S100000x128_1_0_0_1_n_n none h fw1) (broadcastInDim S100000x128 ![0, 1] bcast_S1x128_S100000x128_0_1 (broadcastInDim S1x128 ![1] bcast_S128_S1x128_1 fb1))) (broadcastInDim S100000x128 ![] bcast_S_S100000x128 (constant (F := F) S_ .f32 0x00000000#32))) mask)
      fw2)
    (broadcastInDim S100000x64 ![0, 1] bcast_S1x64_S100000x64_0_1 (broadcastInDim S1x64 ![1] bcast_S64_S1x64_1 fb2))

/-- The row-wise log-softmax as the outlined function computes it: the row maximum (folded from minus infinity, and
    once more against minus infinity) subtracted, the exponentials summed per row, the sum's logarithm subtracted. -/
def logSoftmax (x : FVec F S100000x64 .f32) : FVec F S100000x64 .f32 :=
  subf (subf x (broadcastInDim S100000x64 ![0, 1] bcast_S100000x1_S100000x64_0_1 (broadcastInDim S100000x1 ![0] bcast_S100000_S100000x1_0 (maximumf (broadcastInDim S100000 ![] bcast_S_S100000 (constant (F := F) S_ .f32 0xFF800000#32)) (Host.reduce FloatOps.maximumf x (constant (F := F) S_ .f32 0xFF800000#32) reducesTo_S100000x64_S100000_d1 h_S_)))))
    (broadcastInDim S100000x64 ![0, 1] bcast_S100000x1_S100000x64_0_1
      (Host.log (broadcastInDim S100000x1 ![0] bcast_S100000_S100000x1_0
        (Host.reduceAdd (Host.exp (subf x (broadcastInDim S100000x64 ![0, 1] bcast_S100000x1_S100000x64_0_1 (broadcastInDim S100000x1 ![0] bcast_S100000_S100000x1_0 (maximumf (broadcastInDim S100000 ![] bcast_S_S100000 (constant (F := F) S_ .f32 0xFF800000#32)) (Host.reduce FloatOps.maximumf x (constant (F := F) S_ .f32 0xFF800000#32) reducesTo_S100000x64_S100000_d1 h_S_)))))) (constant (F := F) S_ .f32 0x00000000#32) reducesTo_S100000x64_S100000_d1 h_S_))))

/-- The head: the logits' log-softmax. -/
def head (h : FVec F S100000x128 .f32) (fw1 : FVec F S128x128 .f32) (fb1 : FVec F S128 .f32)
    (fw2 : FVec F S128x64 .f32) (fb2 : FVec F S64 .f32) (mask : FVec F S100000x128 .f32) : FVec F S100000x64 .f32 :=
  logSoftmax (logits h fw1 fb1 fw2 fb2 mask)

/-- The whole model as a function of the thirteen argument arrays, in the program's argument order. -/
def model (x : FVec F S100000x128 .f32) (ei : IVec S2x600000 32) (W1 : FVec F S3x128x128 .f32) (B1 : FVec F S3x128 .f32)
    (W2 : FVec F S3x128x128 .f32) (B2 G Bt : FVec F S3x128 .f32) (fw1 : FVec F S128x128 .f32) (fb1 : FVec F S128 .f32)
    (fw2 : FVec F S128x64 .f32) (fb2 : FVec F S64 .f32) (mask : FVec F S100000x128 .f32) : FVec F S100000x64 .f32 :=
  head
    (layer2 (layer1 (layer0 x (srcRow ei) (dstRow ei) W1 B1 W2 B2 G Bt) (srcRow ei) (dstRow ei) W1 B1 W2 B2 G Bt)
      (srcRow ei) (dstRow ei) W1 B1 W2 B2 G Bt)
    fw1 fb1 fw2 fb2 mask

/-- The unfolding equations of the definitions above, stated once here for the modules that unfold them. -/
theorem stages_equations (F : FTy → Type) [FloatOps F] : True := by
  have := @srcRow.eq_1; have := @srcRow.eq_def
  have := @dstRow.eq_1; have := @dstRow.eq_def
  have := @matAt0.eq_1 (F := F); have := @matAt0.eq_def (F := F)
  have := @matAt1.eq_1 (F := F); have := @matAt1.eq_def (F := F)
  have := @matAt2.eq_1 (F := F); have := @matAt2.eq_def (F := F)
  have := @rowAt0.eq_1 (F := F); have := @rowAt0.eq_def (F := F)
  have := @rowAt1.eq_1 (F := F); have := @rowAt1.eq_def (F := F)
  have := @rowAt2.eq_1 (F := F); have := @rowAt2.eq_def (F := F)
  have := @agg.eq_1 (F := F); have := @agg.eq_def (F := F)
  have := @mlp.eq_1 (F := F); have := @mlp.eq_def (F := F)
  have := @colMean.eq_1 (F := F); have := @colMean.eq_def (F := F)
  have := @colVar.eq_1 (F := F); have := @colVar.eq_def (F := F)
  have := @bnorm.eq_1 (F := F); have := @bnorm.eq_def (F := F)
  have := @bnAll.eq_1 (F := F); have := @bnAll.eq_def (F := F)
  have := @layer.eq_1 (F := F); have := @layer.eq_def (F := F)
  have := @layer0.eq_1 (F := F); have := @layer0.eq_def (F := F)
  have := @layer1.eq_1 (F := F); have := @layer1.eq_def (F := F)
  have := @layer2.eq_1 (F := F); have := @layer2.eq_def (F := F)
  have := @logits.eq_1 (F := F); have := @logits.eq_def (F := F)
  have := @logSoftmax.eq_1 (F := F); have := @logSoftmax.eq_def (F := F)
  have := @head.eq_1 (F := F); have := @head.eq_def (F := F)
  have := @model.eq_1 (F := F); have := @model.eq_def (F := F)
  trivial

end Cert.ReferenceIdeal.RefRun

end
-- ==== Proof.RefRunV0.lean ====
/-
  What window 0's stage lists compute: from any contents, each stage's result buffer holds the stage function of the
  buffers the stage reads (the fold through the list read off operation by operation).
-/
import proofs.«160011_j2121713844488_1_alg».proof.Proof.RefRun0
import proofs.«160011_j2121713844488_1_alg».proof.Proof.RefRunStages

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

theorem pSD_keep' (V : Valuation τ sig (Elt F)) (r : Ref sig .tc) (h : r ∉ pSD_W) :
    after pSD V (no_index (Proc.devRef .tc r)) = V (Proc.devRef .tc r) := pSD_keep V r h

theorem pAgg0_keep' (V : Valuation τ sig (Elt F)) (r : Ref sig .tc) (h : r ∉ pAgg0_W) :
    after pAgg0 V (no_index (Proc.devRef .tc r)) = V (Proc.devRef .tc r) := pAgg0_keep V r h

theorem pMlp0_keep' (V : Valuation τ sig (Elt F)) (r : Ref sig .tc) (h : r ∉ pMlp0_W) :
    after pMlp0 V (no_index (Proc.devRef .tc r)) = V (Proc.devRef .tc r) := pMlp0_keep V r h

theorem pMean0_keep' (V : Valuation τ sig (Elt F)) (r : Ref sig .tc) (h : r ∉ pMean0_W) :
    after pMean0 V (no_index (Proc.devRef .tc r)) = V (Proc.devRef .tc r) := pMean0_keep V r h

theorem pVar0_keep' (V : Valuation τ sig (Elt F)) (r : Ref sig .tc) (h : r ∉ pVar0_W) :
    after pVar0 V (no_index (Proc.devRef .tc r)) = V (Proc.devRef .tc r) := pVar0_keep V r h

theorem pNorm0a_keep' (V : Valuation τ sig (Elt F)) (r : Ref sig .tc) (h : r ∉ pNorm0a_W) :
    after pNorm0a V (no_index (Proc.devRef .tc r)) = V (Proc.devRef .tc r) := pNorm0a_keep V r h

theorem pSD_src (V : Valuation τ sig (Elt F)) :
    after pSD V (no_index (Proc.devRef .tc main_v1)) = srcRow (V (Proc.devRef .tc main_arg1)) := by
  unfold pSD srcRow
  after_results_simp
  try simp only [ofBuf_toBuf]
  all_goals rfl

theorem pSD_dst (V : Valuation τ sig (Elt F)) :
    after pSD V (no_index (Proc.devRef .tc main_v3)) = dstRow (V (Proc.devRef .tc main_arg1)) := by
  unfold pSD dstRow
  after_results_simp
  try simp only [ofBuf_toBuf]
  all_goals rfl

theorem pAgg0_val (V : Valuation τ sig (Elt F)) :
    after pAgg0 V (no_index (Proc.devRef .tc main_v14)) = agg (V (Proc.devRef .tc main_arg0)) (V (Proc.devRef .tc main_v1)) (V (Proc.devRef .tc main_v3)) := by
  unfold pAgg0 agg
  after_results_simp
  try simp only [ofBuf_toBuf]
  all_goals rfl

theorem pMlp0_val (V : Valuation τ sig (Elt F)) :
    after pMlp0 V (no_index (Proc.devRef .tc main_v34)) = mlp (V (Proc.devRef .tc main_v14)) (matAt0 (V (Proc.devRef .tc main_arg2))) (rowAt0 (V (Proc.devRef .tc main_arg3))) (matAt0 (V (Proc.devRef .tc main_arg4))) (rowAt0 (V (Proc.devRef .tc main_arg5))) := by
  unfold pMlp0 mlp matAt0 rowAt0
  after_results_simp
  try simp only [ofBuf_toBuf]
  all_goals rfl

theorem pMean0_val (V : Valuation τ sig (Elt F)) :
    after pMean0 V (no_index (Proc.devRef .tc main_v37)) = colMean (V (Proc.devRef .tc main_v34)) := by
  unfold pMean0 colMean
  after_results_simp
  try simp only [ofBuf_toBuf]
  all_goals rfl

theorem pVar0_val (V : Valuation τ sig (Elt F)) :
    after pVar0 V (no_index (Proc.devRef .tc main_v38)) = colVar (V (Proc.devRef .tc main_v34)) := by
  unfold pVar0 colVar
  after_results_simp
  try simp only [ofBuf_toBuf]
  all_goals rfl

end Cert.ReferenceIdeal.RefRun

end
-- ==== Proof.RefRunV1.lean ====
/-
  What window 1's stage lists compute: from any contents, each stage's result buffer holds the stage function of the
  buffers the stage reads (the fold through the list read off operation by operation).
-/
import proofs.«160011_j2121713844488_1_alg».proof.Proof.RefRun0
import proofs.«160011_j2121713844488_1_alg».proof.Proof.RefRun1
import proofs.«160011_j2121713844488_1_alg».proof.Proof.RefRunStages

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

theorem pNorm0b_keep' (V : Valuation τ sig (Elt F)) (r : Ref sig .tc) (h : r ∉ pNorm0b_W) :
    after pNorm0b V (no_index (Proc.devRef .tc r)) = V (Proc.devRef .tc r) := pNorm0b_keep V r h

theorem pAgg1_keep' (V : Valuation τ sig (Elt F)) (r : Ref sig .tc) (h : r ∉ pAgg1_W) :
    after pAgg1 V (no_index (Proc.devRef .tc r)) = V (Proc.devRef .tc r) := pAgg1_keep V r h

theorem pMlp1_keep' (V : Valuation τ sig (Elt F)) (r : Ref sig .tc) (h : r ∉ pMlp1_W) :
    after pMlp1 V (no_index (Proc.devRef .tc r)) = V (Proc.devRef .tc r) := pMlp1_keep V r h

theorem pMean1_keep' (V : Valuation τ sig (Elt F)) (r : Ref sig .tc) (h : r ∉ pMean1_W) :
    after pMean1 V (no_index (Proc.devRef .tc r)) = V (Proc.devRef .tc r) := pMean1_keep V r h

theorem pVar1_keep' (V : Valuation τ sig (Elt F)) (r : Ref sig .tc) (h : r ∉ pVar1_W) :
    after pVar1 V (no_index (Proc.devRef .tc r)) = V (Proc.devRef .tc r) := pVar1_keep V r h

theorem pNorm1a_keep' (V : Valuation τ sig (Elt F)) (r : Ref sig .tc) (h : r ∉ pNorm1a_W) :
    after pNorm1a V (no_index (Proc.devRef .tc r)) = V (Proc.devRef .tc r) := pNorm1a_keep V r h

/-- Layer 0's normalisation, its two parts in a row. -/
theorem pNorm0_val (V : Valuation τ sig (Elt F)) :
    after pNorm0b (after pNorm0a V) (no_index (Proc.devRef .tc main_v57)) = bnorm (V (Proc.devRef .tc main_v34)) (V (Proc.devRef .tc main_v37)) (V (Proc.devRef .tc main_v38)) (rowAt0 (V (Proc.devRef .tc main_arg6))) (rowAt0 (V (Proc.devRef .tc main_arg7))) := by
  unfold pNorm0a pNorm0b bnorm rowAt0
  after_results_simp
  try simp only [ofBuf_toBuf]
  all_goals rfl

theorem pAgg1_val (V : Valuation τ sig (Elt F)) :
    after pAgg1 V (no_index (Proc.devRef .tc main_v68)) = agg (V (Proc.devRef .tc main_v57)) (V (Proc.devRef .tc main_v1)) (V (Proc.devRef .tc main_v3)) := by
  unfold pAgg1 agg
  after_results_simp
  try simp only [ofBuf_toBuf]
  all_goals rfl

theorem pMlp1_val (V : Valuation τ sig (Elt F)) :
    after pMlp1 V (no_index (Proc.devRef .tc main_v88)) = mlp (V (Proc.devRef .tc main_v68)) (matAt1 (V (Proc.devRef .tc main_arg2))) (rowAt1 (V (Proc.devRef .tc main_arg3))) (matAt1 (V (Proc.devRef .tc main_arg4))) (rowAt1 (V (Proc.devRef .tc main_arg5))) := by
  unfold pMlp1 mlp matAt1 rowAt1
  after_results_simp
  try simp only [ofBuf_toBuf]
  all_goals rfl

theorem pMean1_val (V : Valuation τ sig (Elt F)) :
    after pMean1 V (no_index (Proc.devRef .tc main_v91)) = colMean (V (Proc.devRef .tc main_v88)) := by
  unfold pMean1 colMean
  after_results_simp
  try simp only [ofBuf_toBuf]
  all_goals rfl

theorem pVar1_val (V : Valuation τ sig (Elt F)) :
    after pVar1 V (no_index (Proc.devRef .tc main_v92)) = colVar (V (Proc.devRef .tc main_v88)) := by
  unfold pVar1 colVar
  after_results_simp
  try simp only [ofBuf_toBuf]
  all_goals rfl

end Cert.ReferenceIdeal.RefRun

end
-- ==== Proof.RefRunV2.lean ====
/-
  What window 2's stage lists compute: from any contents, each stage's result buffer holds the stage function of the
  buffers the stage reads (the fold through the list read off operation by operation).
-/
import proofs.«160011_j2121713844488_1_alg».proof.Proof.RefRun1
import proofs.«160011_j2121713844488_1_alg».proof.Proof.RefRun2
import proofs.«160011_j2121713844488_1_alg».proof.Proof.RefRunStages

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

theorem pNorm1b_keep' (V : Valuation τ sig (Elt F)) (r : Ref sig .tc) (h : r ∉ pNorm1b_W) :
    after pNorm1b V (no_index (Proc.devRef .tc r)) = V (Proc.devRef .tc r) := pNorm1b_keep V r h

theorem pAgg2_keep' (V : Valuation τ sig (Elt F)) (r : Ref sig .tc) (h : r ∉ pAgg2_W) :
    after pAgg2 V (no_index (Proc.devRef .tc r)) = V (Proc.devRef .tc r) := pAgg2_keep V r h

theorem pMlp2_keep' (V : Valuation τ sig (Elt F)) (r : Ref sig .tc) (h : r ∉ pMlp2_W) :
    after pMlp2 V (no_index (Proc.devRef .tc r)) = V (Proc.devRef .tc r) := pMlp2_keep V r h

theorem pMean2_keep' (V : Valuation τ sig (Elt F)) (r : Ref sig .tc) (h : r ∉ pMean2_W) :
    after pMean2 V (no_index (Proc.devRef .tc r)) = V (Proc.devRef .tc r) := pMean2_keep V r h

theorem pVar2_keep' (V : Valuation τ sig (Elt F)) (r : Ref sig .tc) (h : r ∉ pVar2_W) :
    after pVar2 V (no_index (Proc.devRef .tc r)) = V (Proc.devRef .tc r) := pVar2_keep V r h

theorem pNorm2a_keep' (V : Valuation τ sig (Elt F)) (r : Ref sig .tc) (h : r ∉ pNorm2a_W) :
    after pNorm2a V (no_index (Proc.devRef .tc r)) = V (Proc.devRef .tc r) := pNorm2a_keep V r h

/-- Layer 1's normalisation, its two parts in a row. -/
theorem pNorm1_val (V : Valuation τ sig (Elt F)) :
    after pNorm1b (after pNorm1a V) (no_index (Proc.devRef .tc main_v111)) = bnorm (V (Proc.devRef .tc main_v88)) (V (Proc.devRef .tc main_v91)) (V (Proc.devRef .tc main_v92)) (rowAt1 (V (Proc.devRef .tc main_arg6))) (rowAt1 (V (Proc.devRef .tc main_arg7))) := by
  unfold pNorm1a pNorm1b bnorm rowAt1
  after_results_simp
  try simp only [ofBuf_toBuf]
  all_goals rfl

theorem pAgg2_val (V : Valuation τ sig (Elt F)) :
    after pAgg2 V (no_index (Proc.devRef .tc main_v122)) = agg (V (Proc.devRef .tc main_v111)) (V (Proc.devRef .tc main_v1)) (V (Proc.devRef .tc main_v3)) := by
  unfold pAgg2 agg
  after_results_simp
  try simp only [ofBuf_toBuf]
  all_goals rfl

theorem pMlp2_val (V : Valuation τ sig (Elt F)) :
    after pMlp2 V (no_index (Proc.devRef .tc main_v142)) = mlp (V (Proc.devRef .tc main_v122)) (matAt2 (V (Proc.devRef .tc main_arg2))) (rowAt2 (V (Proc.devRef .tc main_arg3))) (matAt2 (V (Proc.devRef .tc main_arg4))) (rowAt2 (V (Proc.devRef .tc main_arg5))) := by
  unfold pMlp2 mlp matAt2 rowAt2
  after_results_simp
  try simp only [ofBuf_toBuf]
  all_goals rfl

theorem pMean2_val (V : Valuation τ sig (Elt F)) :
    after pMean2 V (no_index (Proc.devRef .tc main_v145)) = colMean (V (Proc.devRef .tc main_v142)) := by
  unfold pMean2 colMean
  after_results_simp
  try simp only [ofBuf_toBuf]
  all_goals rfl

theorem pVar2_val (V : Valuation τ sig (Elt F)) :
    after pVar2 V (no_index (Proc.devRef .tc main_v146)) = colVar (V (Proc.devRef .tc main_v142)) := by
  unfold pVar2 colVar
  after_results_simp
  try simp only [ofBuf_toBuf]
  all_goals rfl

end Cert.ReferenceIdeal.RefRun

end
-- ==== Proof.RefRunV3.lean ====
/-
  What window 3's stage lists compute: from any contents, each stage's result buffer holds the stage function of the
  buffers the stage reads (the fold through the list read off operation by operation).
-/
import proofs.«160011_j2121713844488_1_alg».proof.Proof.RefRun2
import proofs.«160011_j2121713844488_1_alg».proof.Proof.RefRun3
import proofs.«160011_j2121713844488_1_alg».proof.Proof.RefRunStages

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

theorem pNorm2b_keep' (V : Valuation τ sig (Elt F)) (r : Ref sig .tc) (h : r ∉ pNorm2b_W) :
    after pNorm2b V (no_index (Proc.devRef .tc r)) = V (Proc.devRef .tc r) := pNorm2b_keep V r h

theorem pLogits_keep' (V : Valuation τ sig (Elt F)) (r : Ref sig .tc) (h : r ∉ pLogits_W) :
    after pLogits V (no_index (Proc.devRef .tc r)) = V (Proc.devRef .tc r) := pLogits_keep V r h

theorem pLsm_keep' (V : Valuation τ sig (Elt F)) (r : Ref sig .tc) (h : r ∉ pLsm_W) :
    after pLsm V (no_index (Proc.devRef .tc r)) = V (Proc.devRef .tc r) := pLsm_keep V r h

/-- Layer 2's normalisation, its two parts in a row. -/
theorem pNorm2_val (V : Valuation τ sig (Elt F)) :
    after pNorm2b (after pNorm2a V) (no_index (Proc.devRef .tc main_v165)) = bnorm (V (Proc.devRef .tc main_v142)) (V (Proc.devRef .tc main_v145)) (V (Proc.devRef .tc main_v146)) (rowAt2 (V (Proc.devRef .tc main_arg6))) (rowAt2 (V (Proc.devRef .tc main_arg7))) := by
  unfold pNorm2a pNorm2b bnorm rowAt2
  after_results_simp
  try simp only [ofBuf_toBuf]
  all_goals rfl

theorem pLogits_val (V : Valuation τ sig (Elt F)) :
    after pLogits V (no_index (Proc.devRef .tc main_v176)) = logits (V (Proc.devRef .tc main_v165)) (V (Proc.devRef .tc main_arg8)) (V (Proc.devRef .tc main_arg9)) (V (Proc.devRef .tc main_arg10)) (V (Proc.devRef .tc main_arg11)) (V (Proc.devRef .tc main_arg12)) := by
  unfold pLogits logits
  after_results_simp
  try simp only [ofBuf_toBuf]
  all_goals rfl

theorem pLsm_val (V : Valuation τ sig (Elt F)) :
    after pLsm V (no_index (Proc.devRef .tc main_v177)) = logSoftmax (V (Proc.devRef .tc main_v176)) := by
  unfold pLsm logSoftmax
  after_results_simp
  try simp only [ofBuf_toBuf]
  all_goals rfl

end Cert.ReferenceIdeal.RefRun

end
-- ==== Proof.RefRunModel.lean ====
/-
  The reference program's result is the model of its argument arrays: the fold through the whole line of
  operations, read off stage list by stage list (each list's result is its stage function of the buffers it
  reads; a buffer a list does not write is passed through), is three layers and the head.
-/
import proofs.«160011_j2121713844488_1_alg».proof.Proof.RefRun
import proofs.«160011_j2121713844488_1_alg».proof.Proof.RefRunV0
import proofs.«160011_j2121713844488_1_alg».proof.Proof.RefRunV1
import proofs.«160011_j2121713844488_1_alg».proof.Proof.RefRunV2
import proofs.«160011_j2121713844488_1_alg».proof.Proof.RefRunV3
import proofs.«160011_j2121713844488_1_alg».proof.Proof.RefRunStages

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

set_option maxRecDepth 16384 in
set_option maxHeartbeats 4000000 in
/-- From any contents, after the whole line the result buffer holds the model of the argument buffers. -/
theorem after_ops_result (V : Valuation τ sig (Elt F)) :
    after ops V (Proc.devRef .tc main_v177)
      = model (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6)) (V (Proc.devRef .tc main_arg7)) (V (Proc.devRef .tc main_arg8)) (V (Proc.devRef .tc main_arg9)) (V (Proc.devRef .tc main_arg10)) (V (Proc.devRef .tc main_arg11)) (V (Proc.devRef .tc main_arg12)) := by
  simp only [ops, ops0, ops1, ops2, ops3, after_append]
  simp (disch := decide) only [pSD_src, pSD_dst, pAgg0_val, pMlp0_val, pMean0_val, pVar0_val, pNorm0_val, pAgg1_val, pMlp1_val, pMean1_val, pVar1_val, pNorm1_val, pAgg2_val, pMlp2_val, pMean2_val, pVar2_val, pNorm2_val, pLogits_val, pLsm_val,
    pSD_keep', pAgg0_keep', pMlp0_keep', pMean0_keep', pVar0_keep', pNorm0a_keep', pNorm0b_keep', pAgg1_keep', pMlp1_keep', pMean1_keep', pVar1_keep', pNorm1a_keep', pNorm1b_keep', pAgg2_keep', pMlp2_keep', pMean2_keep', pVar2_keep', pNorm2a_keep', pNorm2b_keep', pLogits_keep', pLsm_keep']
  rfl

/-- The run's result is the model of the launch contents of the thirteen arguments. -/
theorem res_eq (m : (ℓ : Loc nD τ sig) → Buf (Elt F) ℓ) (c : Dev nD) :
    res m c = model (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) :=
  after_ops_result (launchContents m c)

end Cert.ReferenceIdeal.RefRun

end
-- ==== Proof.KiHost.lean ====
import proofs.«160011_j2121713844488_1_alg».proof.Proof.KiRun
import proofs.«160011_j2121713844488_1_alg».proof.Proof.RefRunStages

/-! # What the host stretches between the kernel regions compute

Between two kernel regions the program runs a stretch of host operations. Stretch 0 slices the edge table
into its source and destination rows, aggregates the node features over the neighbours
(`h + segment_sum(h[src], dst)`) and slices layer 0's parameters out of the stacks; stretches 2 and 4 do
the same for layers 1 and 2 from the previous layer's normalised output; stretches 1, 3, 5 turn the two
rows of sums a statistics region leaves into the mean `s₁ / n` and the variance `s₂ / n − mean²`
(n = 100000) and slice the scale and shift rows; stretch 6 reshapes the classifier's two bias vectors to
rows. Each result is read off the stretch's operations one by one as a function of the buffers the stretch
reads, for any contents it starts from, and then at the boundary contents of the program's run, where an
argument's buffer is read back to the launch memory and a region's output stays named by the boundary
contents after that region.

The stage functions are stated over this program's own shapes and operation records; they are the same
terms as the reference program's stage functions. -/

set_option maxRecDepth 16384

noncomputable section

namespace Cert.KernelIdeal.Hand

open Cert.KernelIdeal Cert.KernelIdeal.Gen
open Idealize.ShloMosaic Idealize.ShloMosaic.TcCoe Idealize.SL.Sem Idealize.ShloMosaic.StableHlo

variable {F : FTy → Type} [FloatOps F]

/-! ## The stage functions, over this program's shapes -/

/-- Row 0 of the edge table, flattened: each edge's source node. -/
def kSrcRow (ei : IVec S2x600000 32) : IVec S600000 32 :=
  shapeCast S600000 (extractStridedSlice S1x600000 ![0, 0] ei slices_S2x600000_S1x600000_0_0) shapeCasts_S1x600000_S600000

/-- Row 1 of the edge table, flattened: each edge's destination node. -/
def kDstRow (ei : IVec S2x600000 32) : IVec S600000 32 :=
  shapeCast S600000 (extractStridedSlice S1x600000 ![1, 0] ei slices_S2x600000_S1x600000_1_0) shapeCasts_S1x600000_S600000

/-- Matrix 0 of a stack of three 128×128 matrices. -/
def kMatAt0 (W : FVec F S3x128x128 .f32) : FVec F S128x128 .f32 :=
  shapeCast S128x128 (extractStridedSlice S1x128x128 ![0, 0, 0] W slices_S3x128x128_S1x128x128_0_0_0) shapeCasts_S1x128x128_S128x128

/-- Row 0 of a stack of three rows of 128. -/
def kRowAt0 (B : FVec F S3x128 .f32) : FVec F S128 .f32 :=
  shapeCast S128 (extractStridedSlice S1x128 ![0, 0] B slices_S3x128_S1x128_0_0) shapeCasts_S1x128_S128

/-- Matrix 1 of a stack of three 128×128 matrices. -/
def kMatAt1 (W : FVec F S3x128x128 .f32) : FVec F S128x128 .f32 :=
  shapeCast S128x128 (extractStridedSlice S1x128x128 ![1, 0, 0] W slices_S3x128x128_S1x128x128_1_0_0) shapeCasts_S1x128x128_S128x128

/-- Row 1 of a stack of three rows of 128. -/
def kRowAt1 (B : FVec F S3x128 .f32) : FVec F S128 .f32 :=
  shapeCast S128 (extractStridedSlice S1x128 ![1, 0] B slices_S3x128_S1x128_1_0) shapeCasts_S1x128_S128

/-- Matrix 2 of a stack of three 128×128 matrices. -/
def kMatAt2 (W : FVec F S3x128x128 .f32) : FVec F S128x128 .f32 :=
  shapeCast S128x128 (extractStridedSlice S1x128x128 ![2, 0, 0] W slices_S3x128x128_S1x128x128_2_0_0) shapeCasts_S1x128x128_S128x128

/-- Row 2 of a stack of three rows of 128. -/
def kRowAt2 (B : FVec F S3x128 .f32) : FVec F S128 .f32 :=
  shapeCast S128 (extractStridedSlice S1x128 ![2, 0] B slices_S3x128_S1x128_2_0) shapeCasts_S1x128_S128

/-- A vector of 128 as a 1 × 128 row. -/
def kAsRow (b : FVec F S128 .f32) : FVec F S1x128 .f32 := shapeCast S1x128 b shapeCasts_S128_S1x128

/-- A vector of 64 as a 1 × 64 row. -/
def kAsRow64 (b : FVec F S64 .f32) : FVec F S1x64 .f32 := shapeCast S1x64 b shapeCasts_S64_S1x64

/-- The neighbour aggregation `h + segment_sum(h[src], dst)`: a negative source index is taken modulo the node
    count, the rows of `h` at the sources are gathered, added into zeros at the destinations, and `h` is added. -/
def kAgg (h : FVec F S100000x128 .f32) (src dst : IVec S600000 32) : FVec F S100000x128 .f32 :=
  addf h
    (Host.scatterAdd scatter_S100000x128_S600000x1_S600000x128_1_0_0_1
      (broadcastInDim S100000x128 ![] bcast_S_S100000x128 (constant (F := F) S_ .f32 0x00000000#32))
      (broadcastInDim S600000x1 ![0] bcast_S600000_S600000x1_0 dst)
      (Host.gather gather_S100000x128_S600000x1_S600000x128_1_0_n_n_0_1_1128 h
        (broadcastInDim S600000x1 ![0] bcast_S600000_S600000x1_0 (select (cmpi .slt src (broadcastInDim S600000 ![] bcast_S_S600000 (constantI S_ 32 0#32))) (addi src (broadcastInDim S600000 ![] bcast_S_S600000 (constantI S_ 32 100000#32))) src))))

/-- The column mean from the row of column sums: the sums divided by the node count (the word of 100000). -/
def kMean (s1 : FVec F S1x128 .f32) : FVec F S1x128 .f32 :=
  Host.divf s1 (broadcastInDim S1x128 ![] bcast_S_S1x128 (constant (F := F) S_ .f32 0x47C35000#32))

/-- The column variance from the rows of column sums and sums of squares: `s₂ / n − (s₁ / n)²`. -/
def kVar (s1 s2 : FVec F S1x128 .f32) : FVec F S1x128 .f32 :=
  subf (Host.divf s2 (broadcastInDim S1x128 ![] bcast_S_S1x128 (constant (F := F) S_ .f32 0x47C35000#32))) (mulf (kMean s1) (kMean s1))

/-! ## Each stretch's results, from any contents -/

theorem host0_v1 (V : Valuation τ sig (Elt F)) :
    after hostOps0 V (Proc.devRef .tc main_v1) = kSrcRow (V (Proc.devRef .tc main_arg1)) := by
  unfold kSrcRow
  dsimp only [hostOps0]
  after_results_simp
  all_goals rfl

theorem host0_v3 (V : Valuation τ sig (Elt F)) :
    after hostOps0 V (Proc.devRef .tc main_v3) = kDstRow (V (Proc.devRef .tc main_arg1)) := by
  unfold kDstRow
  dsimp only [hostOps0]
  after_results_simp
  all_goals rfl

theorem host0_v14 (V : Valuation τ sig (Elt F)) :
    after hostOps0 V (Proc.devRef .tc main_v14) = kAgg (V (Proc.devRef .tc main_arg0)) (kSrcRow (V (Proc.devRef .tc main_arg1))) (kDstRow (V (Proc.devRef .tc main_arg1))) := by
  unfold kAgg kSrcRow kDstRow
  dsimp only [hostOps0]
  after_results_simp
  all_goals rfl

theorem host0_v16 (V : Valuation τ sig (Elt F)) :
    after hostOps0 V (Proc.devRef .tc main_v16) = kMatAt0 (V (Proc.devRef .tc main_arg2)) := by
  unfold kMatAt0
  dsimp only [hostOps0]
  after_results_simp
  all_goals rfl

theorem host0_v23 (V : Valuation τ sig (Elt F)) :
    after hostOps0 V (Proc.devRef .tc main_v23) = kAsRow (kRowAt0 (V (Proc.devRef .tc main_arg3))) := by
  unfold kAsRow kRowAt0
  dsimp only [hostOps0]
  after_results_simp
  all_goals rfl

theorem host0_v20 (V : Valuation τ sig (Elt F)) :
    after hostOps0 V (Proc.devRef .tc main_v20) = kMatAt0 (V (Proc.devRef .tc main_arg4)) := by
  unfold kMatAt0
  dsimp only [hostOps0]
  after_results_simp
  all_goals rfl

theorem host0_v24 (V : Valuation τ sig (Elt F)) :
    after hostOps0 V (Proc.devRef .tc main_v24) = kAsRow (kRowAt0 (V (Proc.devRef .tc main_arg5))) := by
  unfold kAsRow kRowAt0
  dsimp only [hostOps0]
  after_results_simp
  all_goals rfl

theorem host1_v27 (V : Valuation τ sig (Elt F)) :
    after hostOps1 V (Proc.devRef .tc main_v27) = kMean (V (Proc.devRef .tc main_v25_1)) := by
  unfold kMean
  dsimp only [hostOps1]
  after_results_simp
  all_goals rfl

theorem host1_v31 (V : Valuation τ sig (Elt F)) :
    after hostOps1 V (Proc.devRef .tc main_v31) = kVar (V (Proc.devRef .tc main_v25_1)) (V (Proc.devRef .tc main_v25_2)) := by
  unfold kVar kMean
  dsimp only [hostOps1]
  after_results_simp
  all_goals rfl

theorem host1_v36 (V : Valuation τ sig (Elt F)) :
    after hostOps1 V (Proc.devRef .tc main_v36) = kAsRow (kRowAt0 (V (Proc.devRef .tc main_arg6))) := by
  unfold kAsRow kRowAt0
  dsimp only [hostOps1]
  after_results_simp
  all_goals rfl

theorem host1_v37 (V : Valuation τ sig (Elt F)) :
    after hostOps1 V (Proc.devRef .tc main_v37) = kAsRow (kRowAt0 (V (Proc.devRef .tc main_arg7))) := by
  unfold kAsRow kRowAt0
  dsimp only [hostOps1]
  after_results_simp
  all_goals rfl

theorem host2_v49 (V : Valuation τ sig (Elt F)) :
    after hostOps2 V (Proc.devRef .tc main_v49) = kAgg (V (Proc.devRef .tc main_v38)) (V (Proc.devRef .tc main_v1)) (V (Proc.devRef .tc main_v3)) := by
  unfold kAgg
  dsimp only [hostOps2]
  after_results_simp
  all_goals rfl

theorem host2_v51 (V : Valuation τ sig (Elt F)) :
    after hostOps2 V (Proc.devRef .tc main_v51) = kMatAt1 (V (Proc.devRef .tc main_arg2)) := by
  unfold kMatAt1
  dsimp only [hostOps2]
  after_results_simp
  all_goals rfl

theorem host2_v58 (V : Valuation τ sig (Elt F)) :
    after hostOps2 V (Proc.devRef .tc main_v58) = kAsRow (kRowAt1 (V (Proc.devRef .tc main_arg3))) := by
  unfold kAsRow kRowAt1
  dsimp only [hostOps2]
  after_results_simp
  all_goals rfl

theorem host2_v55 (V : Valuation τ sig (Elt F)) :
    after hostOps2 V (Proc.devRef .tc main_v55) = kMatAt1 (V (Proc.devRef .tc main_arg4)) := by
  unfold kMatAt1
  dsimp only [hostOps2]
  after_results_simp
  all_goals rfl

theorem host2_v59 (V : Valuation τ sig (Elt F)) :
    after hostOps2 V (Proc.devRef .tc main_v59) = kAsRow (kRowAt1 (V (Proc.devRef .tc main_arg5))) := by
  unfold kAsRow kRowAt1
  dsimp only [hostOps2]
  after_results_simp
  all_goals rfl

theorem host3_v62 (V : Valuation τ sig (Elt F)) :
    after hostOps3 V (Proc.devRef .tc main_v62) = kMean (V (Proc.devRef .tc main_v60_1)) := by
  unfold kMean
  dsimp only [hostOps3]
  after_results_simp
  all_goals rfl

theorem host3_v66 (V : Valuation τ sig (Elt F)) :
    after hostOps3 V (Proc.devRef .tc main_v66) = kVar (V (Proc.devRef .tc main_v60_1)) (V (Proc.devRef .tc main_v60_2)) := by
  unfold kVar kMean
  dsimp only [hostOps3]
  after_results_simp
  all_goals rfl

theorem host3_v71 (V : Valuation τ sig (Elt F)) :
    after hostOps3 V (Proc.devRef .tc main_v71) = kAsRow (kRowAt1 (V (Proc.devRef .tc main_arg6))) := by
  unfold kAsRow kRowAt1
  dsimp only [hostOps3]
  after_results_simp
  all_goals rfl

theorem host3_v72 (V : Valuation τ sig (Elt F)) :
    after hostOps3 V (Proc.devRef .tc main_v72) = kAsRow (kRowAt1 (V (Proc.devRef .tc main_arg7))) := by
  unfold kAsRow kRowAt1
  dsimp only [hostOps3]
  after_results_simp
  all_goals rfl

theorem host4_v84 (V : Valuation τ sig (Elt F)) :
    after hostOps4 V (Proc.devRef .tc main_v84) = kAgg (V (Proc.devRef .tc main_v73)) (V (Proc.devRef .tc main_v1)) (V (Proc.devRef .tc main_v3)) := by
  unfold kAgg
  dsimp only [hostOps4]
  after_results_simp
  all_goals rfl

theorem host4_v86 (V : Valuation τ sig (Elt F)) :
    after hostOps4 V (Proc.devRef .tc main_v86) = kMatAt2 (V (Proc.devRef .tc main_arg2)) := by
  unfold kMatAt2
  dsimp only [hostOps4]
  after_results_simp
  all_goals rfl

theorem host4_v93 (V : Valuation τ sig (Elt F)) :
    after hostOps4 V (Proc.devRef .tc main_v93) = kAsRow (kRowAt2 (V (Proc.devRef .tc main_arg3))) := by
  unfold kAsRow kRowAt2
  dsimp only [hostOps4]
  after_results_simp
  all_goals rfl

theorem host4_v90 (V : Valuation τ sig (Elt F)) :
    after hostOps4 V (Proc.devRef .tc main_v90) = kMatAt2 (V (Proc.devRef .tc main_arg4)) := by
  unfold kMatAt2
  dsimp only [hostOps4]
  after_results_simp
  all_goals rfl

theorem host4_v94 (V : Valuation τ sig (Elt F)) :
    after hostOps4 V (Proc.devRef .tc main_v94) = kAsRow (kRowAt2 (V (Proc.devRef .tc main_arg5))) := by
  unfold kAsRow kRowAt2
  dsimp only [hostOps4]
  after_results_simp
  all_goals rfl

theorem host5_v97 (V : Valuation τ sig (Elt F)) :
    after hostOps5 V (Proc.devRef .tc main_v97) = kMean (V (Proc.devRef .tc main_v95_1)) := by
  unfold kMean
  dsimp only [hostOps5]
  after_results_simp
  all_goals rfl

theorem host5_v101 (V : Valuation τ sig (Elt F)) :
    after hostOps5 V (Proc.devRef .tc main_v101) = kVar (V (Proc.devRef .tc main_v95_1)) (V (Proc.devRef .tc main_v95_2)) := by
  unfold kVar kMean
  dsimp only [hostOps5]
  after_results_simp
  all_goals rfl

theorem host5_v106 (V : Valuation τ sig (Elt F)) :
    after hostOps5 V (Proc.devRef .tc main_v106) = kAsRow (kRowAt2 (V (Proc.devRef .tc main_arg6))) := by
  unfold kAsRow kRowAt2
  dsimp only [hostOps5]
  after_results_simp
  all_goals rfl

theorem host5_v107 (V : Valuation τ sig (Elt F)) :
    after hostOps5 V (Proc.devRef .tc main_v107) = kAsRow (kRowAt2 (V (Proc.devRef .tc main_arg7))) := by
  unfold kAsRow kRowAt2
  dsimp only [hostOps5]
  after_results_simp
  all_goals rfl

theorem host6_v109 (V : Valuation τ sig (Elt F)) :
    after hostOps6 V (Proc.devRef .tc main_v109) = kAsRow (V (Proc.devRef .tc main_arg9)) := by
  unfold kAsRow
  dsimp only [hostOps6]
  after_results_simp
  all_goals rfl

theorem host6_v110 (V : Valuation τ sig (Elt F)) :
    after hostOps6 V (Proc.devRef .tc main_v110) = kAsRow64 (V (Proc.devRef .tc main_arg11)) := by
  unfold kAsRow64
  dsimp only [hostOps6]
  after_results_simp
  all_goals rfl

/-! ## The same at the boundary contents of the program's run -/

variable (m : (ℓ : Loc nD τ sig) → Buf (Elt F) ℓ) (ρ : Dev nD → PrngReg)

/-! ### A buffer nothing has written yet holds its launch contents

Up to boundary 2J a buffer that no host stretch before it writes and that is no array of a region before it
holds what the launch memory held (the thirteen arguments do, at every boundary). -/

theorem W2_keep (c : Dev nD) (r : Ref sig .tc) (h0 : r ∉ (hostOps0_W : List (Ref sig .tc)) := by decide) (a0 : ∀ w, Pipeline.arrRef spec0 w ≠ r := by decide) :
    W2 m ρ c (Proc.devRef .tc r) = m ((c : Thread nD τ).loc r) :=
  (W2_of_ne m ρ c r a0).trans ((W1_of m ρ c r h0).trans rfl)

theorem W4_keep (c : Dev nD) (r : Ref sig .tc) (h0 : r ∉ (hostOps0_W : List (Ref sig .tc)) := by decide) (a0 : ∀ w, Pipeline.arrRef spec0 w ≠ r := by decide)
    (h1 : r ∉ (hostOps1_W : List (Ref sig .tc)) := by decide) (a1 : ∀ w, Pipeline.arrRef spec1 w ≠ r := by decide) :
    W4 m ρ c (Proc.devRef .tc r) = m ((c : Thread nD τ).loc r) :=
  (W4_of_ne m ρ c r a1).trans ((W3_of m ρ c r h1).trans (W2_keep m ρ c r h0 a0))

theorem W6_keep (c : Dev nD) (r : Ref sig .tc) (h0 : r ∉ (hostOps0_W : List (Ref sig .tc)) := by decide) (a0 : ∀ w, Pipeline.arrRef spec0 w ≠ r := by decide)
    (h1 : r ∉ (hostOps1_W : List (Ref sig .tc)) := by decide) (a1 : ∀ w, Pipeline.arrRef spec1 w ≠ r := by decide)
    (h2 : r ∉ (hostOps2_W : List (Ref sig .tc)) := by decide) (a2 : ∀ w, Pipeline.arrRef spec2 w ≠ r := by decide) :
    W6 m ρ c (Proc.devRef .tc r) = m ((c : Thread nD τ).loc r) :=
  (W6_of_ne m ρ c r a2).trans ((W5_of m ρ c r h2).trans (W4_keep m ρ c r h0 a0 h1 a1))

theorem W8_keep (c : Dev nD) (r : Ref sig .tc) (h0 : r ∉ (hostOps0_W : List (Ref sig .tc)) := by decide) (a0 : ∀ w, Pipeline.arrRef spec0 w ≠ r := by decide)
    (h1 : r ∉ (hostOps1_W : List (Ref sig .tc)) := by decide) (a1 : ∀ w, Pipeline.arrRef spec1 w ≠ r := by decide)
    (h2 : r ∉ (hostOps2_W : List (Ref sig .tc)) := by decide) (a2 : ∀ w, Pipeline.arrRef spec2 w ≠ r := by decide)
    (h3 : r ∉ (hostOps3_W : List (Ref sig .tc)) := by decide) (a3 : ∀ w, Pipeline.arrRef spec3 w ≠ r := by decide) :
    W8 m ρ c (Proc.devRef .tc r) = m ((c : Thread nD τ).loc r) :=
  (W8_of_ne m ρ c r a3).trans ((W7_of m ρ c r h3).trans (W6_keep m ρ c r h0 a0 h1 a1 h2 a2))

theorem W10_keep (c : Dev nD) (r : Ref sig .tc) (h0 : r ∉ (hostOps0_W : List (Ref sig .tc)) := by decide) (a0 : ∀ w, Pipeline.arrRef spec0 w ≠ r := by decide)
    (h1 : r ∉ (hostOps1_W : List (Ref sig .tc)) := by decide) (a1 : ∀ w, Pipeline.arrRef spec1 w ≠ r := by decide)
    (h2 : r ∉ (hostOps2_W : List (Ref sig .tc)) := by decide) (a2 : ∀ w, Pipeline.arrRef spec2 w ≠ r := by decide)
    (h3 : r ∉ (hostOps3_W : List (Ref sig .tc)) := by decide) (a3 : ∀ w, Pipeline.arrRef spec3 w ≠ r := by decide)
    (h4 : r ∉ (hostOps4_W : List (Ref sig .tc)) := by decide) (a4 : ∀ w, Pipeline.arrRef spec4 w ≠ r := by decide) :
    W10 m ρ c (Proc.devRef .tc r) = m ((c : Thread nD τ).loc r) :=
  (W10_of_ne m ρ c r a4).trans ((W9_of m ρ c r h4).trans (W8_keep m ρ c r h0 a0 h1 a1 h2 a2 h3 a3))

theorem W12_keep (c : Dev nD) (r : Ref sig .tc) (h0 : r ∉ (hostOps0_W : List (Ref sig .tc)) := by decide) (a0 : ∀ w, Pipeline.arrRef spec0 w ≠ r := by decide)
    (h1 : r ∉ (hostOps1_W : List (Ref sig .tc)) := by decide) (a1 : ∀ w, Pipeline.arrRef spec1 w ≠ r := by decide)
    (h2 : r ∉ (hostOps2_W : List (Ref sig .tc)) := by decide) (a2 : ∀ w, Pipeline.arrRef spec2 w ≠ r := by decide)
    (h3 : r ∉ (hostOps3_W : List (Ref sig .tc)) := by decide) (a3 : ∀ w, Pipeline.arrRef spec3 w ≠ r := by decide)
    (h4 : r ∉ (hostOps4_W : List (Ref sig .tc)) := by decide) (a4 : ∀ w, Pipeline.arrRef spec4 w ≠ r := by decide)
    (h5 : r ∉ (hostOps5_W : List (Ref sig .tc)) := by decide) (a5 : ∀ w, Pipeline.arrRef spec5 w ≠ r := by decide) :
    W12 m ρ c (Proc.devRef .tc r) = m ((c : Thread nD τ).loc r) :=
  (W12_of_ne m ρ c r a5).trans ((W11_of m ρ c r h5).trans (W10_keep m ρ c r h0 a0 h1 a1 h2 a2 h3 a3 h4 a4))

/-! ### Stretch 0: the edge rows, the aggregated features, layer 0's perceptron parameters -/

theorem W1_main_v1 (c : Dev nD) : W1 m ρ c (Proc.devRef .tc main_v1) = kSrcRow (m ((c : Thread nD τ).loc main_arg1)) := host0_v1 (W0 m ρ c)
theorem W1_main_v3 (c : Dev nD) : W1 m ρ c (Proc.devRef .tc main_v3) = kDstRow (m ((c : Thread nD τ).loc main_arg1)) := host0_v3 (W0 m ρ c)
theorem W1_main_v14 (c : Dev nD) : W1 m ρ c (Proc.devRef .tc main_v14) = kAgg (m ((c : Thread nD τ).loc main_arg0)) (kSrcRow (m ((c : Thread nD τ).loc main_arg1))) (kDstRow (m ((c : Thread nD τ).loc main_arg1))) :=
  host0_v14 (W0 m ρ c)
theorem W1_main_v16 (c : Dev nD) : W1 m ρ c (Proc.devRef .tc main_v16) = kMatAt0 (m ((c : Thread nD τ).loc main_arg2)) := host0_v16 (W0 m ρ c)
theorem W1_main_v23 (c : Dev nD) : W1 m ρ c (Proc.devRef .tc main_v23) = kAsRow (kRowAt0 (m ((c : Thread nD τ).loc main_arg3))) := host0_v23 (W0 m ρ c)
theorem W1_main_v20 (c : Dev nD) : W1 m ρ c (Proc.devRef .tc main_v20) = kMatAt0 (m ((c : Thread nD τ).loc main_arg4)) := host0_v20 (W0 m ρ c)
theorem W1_main_v24 (c : Dev nD) : W1 m ρ c (Proc.devRef .tc main_v24) = kAsRow (kRowAt0 (m ((c : Thread nD τ).loc main_arg5))) := host0_v24 (W0 m ρ c)

/-- The edge rows are written once, by stretch 0, and stay: no later stretch writes them and no region stages them. -/
theorem W4_main_v1 (c : Dev nD) : W4 m ρ c (Proc.devRef .tc main_v1) = kSrcRow (m ((c : Thread nD τ).loc main_arg1)) :=
  (W4_of_ne m ρ c main_v1 (by decide)).trans <| (W3_of m ρ c main_v1 (by decide)).trans <|
  (W2_of_ne m ρ c main_v1 (by decide)).trans <| W1_main_v1 m ρ c
theorem W4_main_v3 (c : Dev nD) : W4 m ρ c (Proc.devRef .tc main_v3) = kDstRow (m ((c : Thread nD τ).loc main_arg1)) :=
  (W4_of_ne m ρ c main_v3 (by decide)).trans <| (W3_of m ρ c main_v3 (by decide)).trans <|
  (W2_of_ne m ρ c main_v3 (by decide)).trans <| W1_main_v3 m ρ c
theorem W8_main_v1 (c : Dev nD) : W8 m ρ c (Proc.devRef .tc main_v1) = kSrcRow (m ((c : Thread nD τ).loc main_arg1)) :=
  (W8_of_ne m ρ c main_v1 (by decide)).trans <| (W7_of m ρ c main_v1 (by decide)).trans <|
  (W6_of_ne m ρ c main_v1 (by decide)).trans <| (W5_of m ρ c main_v1 (by decide)).trans <| W4_main_v1 m ρ c
theorem W8_main_v3 (c : Dev nD) : W8 m ρ c (Proc.devRef .tc main_v3) = kDstRow (m ((c : Thread nD τ).loc main_arg1)) :=
  (W8_of_ne m ρ c main_v3 (by decide)).trans <| (W7_of m ρ c main_v3 (by decide)).trans <|
  (W6_of_ne m ρ c main_v3 (by decide)).trans <| (W5_of m ρ c main_v3 (by decide)).trans <| W4_main_v3 m ρ c

/-! ### Stretch 1: the mean and variance rows from region 0's sums, layer 0's scale and shift rows -/

theorem W3_main_v27 (c : Dev nD) : W3 m ρ c (Proc.devRef .tc main_v27) = kMean (W2 m ρ c (Proc.devRef .tc main_v25_1)) := host1_v27 (W2 m ρ c)
theorem W3_main_v31 (c : Dev nD) : W3 m ρ c (Proc.devRef .tc main_v31) = kVar (W2 m ρ c (Proc.devRef .tc main_v25_1)) (W2 m ρ c (Proc.devRef .tc main_v25_2)) :=
  host1_v31 (W2 m ρ c)
theorem W3_main_v36 (c : Dev nD) : W3 m ρ c (Proc.devRef .tc main_v36) = kAsRow (kRowAt0 (m ((c : Thread nD τ).loc main_arg6))) :=
  (host1_v36 (W2 m ρ c)).trans (congrArg (fun x => kAsRow (kRowAt0 x)) (W2_keep m ρ c main_arg6))
theorem W3_main_v37 (c : Dev nD) : W3 m ρ c (Proc.devRef .tc main_v37) = kAsRow (kRowAt0 (m ((c : Thread nD τ).loc main_arg7))) :=
  (host1_v37 (W2 m ρ c)).trans (congrArg (fun x => kAsRow (kRowAt0 x)) (W2_keep m ρ c main_arg7))
/-- The stretch leaves region 0's first output, the next region's data window, as it found it. -/
theorem W3_main_v25_0 (c : Dev nD) : W3 m ρ c (Proc.devRef .tc main_v25_0) = W2 m ρ c (Proc.devRef .tc main_v25_0) := W3_of m ρ c main_v25_0 (by decide)

/-! ### Stretch 2: region 1's output aggregated over the neighbours, layer 1's perceptron parameters -/

theorem W5_main_v49 (c : Dev nD) : W5 m ρ c (Proc.devRef .tc main_v49) = kAgg (W4 m ρ c (Proc.devRef .tc main_v38)) (kSrcRow (m ((c : Thread nD τ).loc main_arg1))) (kDstRow (m ((c : Thread nD τ).loc main_arg1))) :=
  (host2_v49 (W4 m ρ c)).trans (congrArg₂ (kAgg (W4 m ρ c (Proc.devRef .tc main_v38))) (W4_main_v1 m ρ c) (W4_main_v3 m ρ c))
theorem W5_main_v51 (c : Dev nD) : W5 m ρ c (Proc.devRef .tc main_v51) = kMatAt1 (m ((c : Thread nD τ).loc main_arg2)) :=
  (host2_v51 (W4 m ρ c)).trans (congrArg (fun x => kMatAt1 x) (W4_keep m ρ c main_arg2))
theorem W5_main_v58 (c : Dev nD) : W5 m ρ c (Proc.devRef .tc main_v58) = kAsRow (kRowAt1 (m ((c : Thread nD τ).loc main_arg3))) :=
  (host2_v58 (W4 m ρ c)).trans (congrArg (fun x => kAsRow (kRowAt1 x)) (W4_keep m ρ c main_arg3))
theorem W5_main_v55 (c : Dev nD) : W5 m ρ c (Proc.devRef .tc main_v55) = kMatAt1 (m ((c : Thread nD τ).loc main_arg4)) :=
  (host2_v55 (W4 m ρ c)).trans (congrArg (fun x => kMatAt1 x) (W4_keep m ρ c main_arg4))
theorem W5_main_v59 (c : Dev nD) : W5 m ρ c (Proc.devRef .tc main_v59) = kAsRow (kRowAt1 (m ((c : Thread nD τ).loc main_arg5))) :=
  (host2_v59 (W4 m ρ c)).trans (congrArg (fun x => kAsRow (kRowAt1 x)) (W4_keep m ρ c main_arg5))

/-! ### Stretch 3: the mean and variance rows from region 2's sums, layer 1's scale and shift rows -/

theorem W7_main_v62 (c : Dev nD) : W7 m ρ c (Proc.devRef .tc main_v62) = kMean (W6 m ρ c (Proc.devRef .tc main_v60_1)) := host3_v62 (W6 m ρ c)
theorem W7_main_v66 (c : Dev nD) : W7 m ρ c (Proc.devRef .tc main_v66) = kVar (W6 m ρ c (Proc.devRef .tc main_v60_1)) (W6 m ρ c (Proc.devRef .tc main_v60_2)) :=
  host3_v66 (W6 m ρ c)
theorem W7_main_v71 (c : Dev nD) : W7 m ρ c (Proc.devRef .tc main_v71) = kAsRow (kRowAt1 (m ((c : Thread nD τ).loc main_arg6))) :=
  (host3_v71 (W6 m ρ c)).trans (congrArg (fun x => kAsRow (kRowAt1 x)) (W6_keep m ρ c main_arg6))
theorem W7_main_v72 (c : Dev nD) : W7 m ρ c (Proc.devRef .tc main_v72) = kAsRow (kRowAt1 (m ((c : Thread nD τ).loc main_arg7))) :=
  (host3_v72 (W6 m ρ c)).trans (congrArg (fun x => kAsRow (kRowAt1 x)) (W6_keep m ρ c main_arg7))
/-- The stretch leaves region 2's first output, the next region's data window, as it found it. -/
theorem W7_main_v60_0 (c : Dev nD) : W7 m ρ c (Proc.devRef .tc main_v60_0) = W6 m ρ c (Proc.devRef .tc main_v60_0) := W7_of m ρ c main_v60_0 (by decide)

/-! ### Stretch 4: region 3's output aggregated over the neighbours, layer 2's perceptron parameters -/

theorem W9_main_v84 (c : Dev nD) : W9 m ρ c (Proc.devRef .tc main_v84) = kAgg (W8 m ρ c (Proc.devRef .tc main_v73)) (kSrcRow (m ((c : Thread nD τ).loc main_arg1))) (kDstRow (m ((c : Thread nD τ).loc main_arg1))) :=
  (host4_v84 (W8 m ρ c)).trans (congrArg₂ (kAgg (W8 m ρ c (Proc.devRef .tc main_v73))) (W8_main_v1 m ρ c) (W8_main_v3 m ρ c))
theorem W9_main_v86 (c : Dev nD) : W9 m ρ c (Proc.devRef .tc main_v86) = kMatAt2 (m ((c : Thread nD τ).loc main_arg2)) :=
  (host4_v86 (W8 m ρ c)).trans (congrArg (fun x => kMatAt2 x) (W8_keep m ρ c main_arg2))
theorem W9_main_v93 (c : Dev nD) : W9 m ρ c (Proc.devRef .tc main_v93) = kAsRow (kRowAt2 (m ((c : Thread nD τ).loc main_arg3))) :=
  (host4_v93 (W8 m ρ c)).trans (congrArg (fun x => kAsRow (kRowAt2 x)) (W8_keep m ρ c main_arg3))
theorem W9_main_v90 (c : Dev nD) : W9 m ρ c (Proc.devRef .tc main_v90) = kMatAt2 (m ((c : Thread nD τ).loc main_arg4)) :=
  (host4_v90 (W8 m ρ c)).trans (congrArg (fun x => kMatAt2 x) (W8_keep m ρ c main_arg4))
theorem W9_main_v94 (c : Dev nD) : W9 m ρ c (Proc.devRef .tc main_v94) = kAsRow (kRowAt2 (m ((c : Thread nD τ).loc main_arg5))) :=
  (host4_v94 (W8 m ρ c)).trans (congrArg (fun x => kAsRow (kRowAt2 x)) (W8_keep m ρ c main_arg5))

/-! ### Stretch 5: the mean and variance rows from region 4's sums, layer 2's scale and shift rows -/

theorem W11_main_v97 (c : Dev nD) : W11 m ρ c (Proc.devRef .tc main_v97) = kMean (W10 m ρ c (Proc.devRef .tc main_v95_1)) := host5_v97 (W10 m ρ c)
theorem W11_main_v101 (c : Dev nD) : W11 m ρ c (Proc.devRef .tc main_v101) = kVar (W10 m ρ c (Proc.devRef .tc main_v95_1)) (W10 m ρ c (Proc.devRef .tc main_v95_2)) :=
  host5_v101 (W10 m ρ c)
theorem W11_main_v106 (c : Dev nD) : W11 m ρ c (Proc.devRef .tc main_v106) = kAsRow (kRowAt2 (m ((c : Thread nD τ).loc main_arg6))) :=
  (host5_v106 (W10 m ρ c)).trans (congrArg (fun x => kAsRow (kRowAt2 x)) (W10_keep m ρ c main_arg6))
theorem W11_main_v107 (c : Dev nD) : W11 m ρ c (Proc.devRef .tc main_v107) = kAsRow (kRowAt2 (m ((c : Thread nD τ).loc main_arg7))) :=
  (host5_v107 (W10 m ρ c)).trans (congrArg (fun x => kAsRow (kRowAt2 x)) (W10_keep m ρ c main_arg7))
/-- The stretch leaves region 4's first output, the next region's data window, as it found it. -/
theorem W11_main_v95_0 (c : Dev nD) : W11 m ρ c (Proc.devRef .tc main_v95_0) = W10 m ρ c (Proc.devRef .tc main_v95_0) := W11_of m ρ c main_v95_0 (by decide)

/-! ### Stretch 6: the classifier's two bias vectors as rows; its other operands are region 5's output and three arguments -/

theorem W13_main_v109 (c : Dev nD) : W13 m ρ c (Proc.devRef .tc main_v109) = kAsRow (m ((c : Thread nD τ).loc main_arg9)) :=
  (host6_v109 (W12 m ρ c)).trans (congrArg (fun x => kAsRow x) (W12_keep m ρ c main_arg9))
theorem W13_main_v110 (c : Dev nD) : W13 m ρ c (Proc.devRef .tc main_v110) = kAsRow64 (m ((c : Thread nD τ).loc main_arg11)) :=
  (host6_v110 (W12 m ρ c)).trans (congrArg (fun x => kAsRow64 x) (W12_keep m ρ c main_arg11))
theorem W13_main_v108 (c : Dev nD) : W13 m ρ c (Proc.devRef .tc main_v108) = W12 m ρ c (Proc.devRef .tc main_v108) := W13_of m ρ c main_v108 (by decide)
theorem W13_main_arg8 (c : Dev nD) : W13 m ρ c (Proc.devRef .tc main_arg8) = (m ((c : Thread nD τ).loc main_arg8)) :=
  (W13_of m ρ c main_arg8 (by decide)).trans (W12_keep m ρ c main_arg8)
theorem W13_main_arg10 (c : Dev nD) : W13 m ρ c (Proc.devRef .tc main_arg10) = (m ((c : Thread nD τ).loc main_arg10)) :=
  (W13_of m ρ c main_arg10 (by decide)).trans (W12_keep m ρ c main_arg10)
theorem W13_main_arg12 (c : Dev nD) : W13 m ρ c (Proc.devRef .tc main_arg12) = (m ((c : Thread nD τ).loc main_arg12)) :=
  (W13_of m ρ c main_arg12 (by decide)).trans (W12_keep m ρ c main_arg12)

end Cert.KernelIdeal.Hand

end
-- ==== Proof.KiHostEq.lean ====
import proofs.«160011_j2121713844488_1_alg».proof.Proof.KiHost

/-! # The kernel program's stage functions are the reference program's

The two programs print their shapes and operation records separately, with the same names and the same
bodies; read at the same arrays the stage functions over the one program's constants and over the other's
are the same terms. -/

noncomputable section

namespace Cert.KernelIdeal.Hand

open Idealize.ShloMosaic

variable {F : FTy → Type} [FloatOps F]

theorem kSrcRow_eq (ei : IVec Cert.KernelIdeal.S2x600000 32) : kSrcRow ei = Cert.ReferenceIdeal.RefRun.srcRow ei := rfl
theorem kDstRow_eq (ei : IVec Cert.KernelIdeal.S2x600000 32) : kDstRow ei = Cert.ReferenceIdeal.RefRun.dstRow ei := rfl
theorem kMatAt0_eq (W : FVec F Cert.KernelIdeal.S3x128x128 .f32) : kMatAt0 W = Cert.ReferenceIdeal.RefRun.matAt0 W := rfl
theorem kMatAt1_eq (W : FVec F Cert.KernelIdeal.S3x128x128 .f32) : kMatAt1 W = Cert.ReferenceIdeal.RefRun.matAt1 W := rfl
theorem kMatAt2_eq (W : FVec F Cert.KernelIdeal.S3x128x128 .f32) : kMatAt2 W = Cert.ReferenceIdeal.RefRun.matAt2 W := rfl
theorem kRowAt0_eq (B : FVec F Cert.KernelIdeal.S3x128 .f32) : kRowAt0 B = Cert.ReferenceIdeal.RefRun.rowAt0 B := rfl
theorem kRowAt1_eq (B : FVec F Cert.KernelIdeal.S3x128 .f32) : kRowAt1 B = Cert.ReferenceIdeal.RefRun.rowAt1 B := rfl
theorem kRowAt2_eq (B : FVec F Cert.KernelIdeal.S3x128 .f32) : kRowAt2 B = Cert.ReferenceIdeal.RefRun.rowAt2 B := rfl
theorem kAgg_eq (h : FVec F Cert.KernelIdeal.S100000x128 .f32) (src dst : IVec Cert.KernelIdeal.S600000 32) :
    kAgg h src dst = Cert.ReferenceIdeal.RefRun.agg h src dst := rfl

end Cert.KernelIdeal.Hand

end
-- ==== Proof.LibHostApply.lean ====
import Idealize.ShloMosaic.Lib.ValueIdx
import Idealize.ShloMosaic.Lib.IdealHost
import Idealize.ShloMosaic.Lib.StackMember
import Idealize.ShloMosaic.PureOps.Ideal.Laws
import Idealize.ShloMosaic.Lib.Pipeline.Value

/-!
Host operations over rank-2 arrays read at an index: the column sums of an `N × C` array, the product of an
`N × K` by a `K × C` matrix, and the reshapes and broadcasts that add or repeat an axis of extent one. Each
is stated over the literal shape `⟨2, ![_, _]⟩` with its side condition a parameter, so that a program's own
shape facts and dimension records apply as they stand.
-/

namespace Cert.LibHostApply

open Idealize.ShloMosaic Idealize.ShloMosaic.ValueIdx

/-! ### Column sums -/

/-- The host's sum over axis 0 of an `N × C` array, read at column `f`: the initial value plus the sum over
    the rows of the entries of that column. -/
theorem reduceAdd_cols_apply {N C : Nat} {φ : FTy} {u : Shape} (x : FVec Ideal ⟨2, ![N, C]⟩ φ) (init : u.Idx → Ideal φ)
    (h' : (⟨2, ![N, C]⟩ : Shape).ReducesTo [0] ⟨1, ![C]⟩) (hu : 0 < u.numel) (f : Fin C) :
    Host.reduceAdd x init h' hu (ix1 f) = init (Shape.Idx.first hu) + ∑ n : Fin N, x (ix2 n f) := by
  have h : (⟨2, ![N, C]⟩ : Shape).Reduces [0] ⟨1, ![C]⟩ := ⟨h'.1, Nat.one_pos, h'.2⟩
  show Ideal.hostReduceAdd h' x _ (ix1 f) = _
  rw [Ideal.hostReduceAdd_single h' h]
  refine congrArg (_ + ·) (Finset.sum_congr rfl fun n _ => ?_)
  refine congrArg x (funext fun a => Fin.ext ?_)
  match a with
  | ⟨0, _⟩ => rfl
  | ⟨1, _⟩ => rfl

/-- The same from an initial value that is zero: the column's sum alone. -/
theorem reduceAdd_cols_apply_zero {N C : Nat} {φ : FTy} {u : Shape} (x : FVec Ideal ⟨2, ![N, C]⟩ φ) (init : u.Idx → Ideal φ)
    (h' : (⟨2, ![N, C]⟩ : Shape).ReducesTo [0] ⟨1, ![C]⟩) (hu : 0 < u.numel) (h0 : init (Shape.Idx.first hu) = 0)
    (f : Fin C) :
    Host.reduceAdd x init h' hu (ix1 f) = ∑ n : Fin N, x (ix2 n f) := by
  rw [reduceAdd_cols_apply, h0, zero_add]

/-! ### A matrix product -/

/-- The dimension numbers of `N × K` by `K × C`: contract the left operand's axis 1 with the right operand's
    axis 0, no batch axes. -/
abbrev mmDims (N K C : Nat)
    (wf : DotDims.WF ⟨2, ![N, K]⟩ ⟨2, ![K, C]⟩ ⟨2, ![N, C]⟩ [1] [0] [0] [1] [] []) :
    DotDims ⟨2, ![N, K]⟩ ⟨2, ![K, C]⟩ ⟨2, ![N, C]⟩ where
  lhsContracting := [1]
  rhsContracting := [0]
  lhsNonContracting := [0]
  rhsNonContracting := [1]
  lhsBatch := []
  rhsBatch := []
  wf := wf

/-- The product read at `(n, f)`: the sum over the contracted coordinate of the products of the entries. -/
theorem dotGeneral_mm_apply {N K C : Nat} {φ₁ φ₂ : FTy}
    (wf : DotDims.WF ⟨2, ![N, K]⟩ ⟨2, ![K, C]⟩ ⟨2, ![N, C]⟩ [1] [0] [0] [1] [] [])
    (prec : Option ContractPrecision) (l : FVec Ideal ⟨2, ![N, K]⟩ φ₁) (r : FVec Ideal ⟨2, ![K, C]⟩ φ₂)
    (n : Fin N) (f : Fin C) :
    Host.dotGeneral (mmDims N K C wf) prec l r (ix2 n f) = ∑ k : Fin K, l (ix2 n k) * r (ix2 k f) :=
  StackMember.dotGeneral_plain_apply prec l r n f

/-! ### Reshapes and broadcasts that add or repeat a unit axis -/

section Moves
variable {α : Type}

/-- A vector reshaped to a column, at row `n`. -/
theorem shapeCast_col_apply {N : Nat} (v : (⟨1, ![N]⟩ : Shape).Idx → α)
    (h : (⟨1, ![N]⟩ : Shape).ShapeCasts ⟨2, ![N, 1]⟩) (n : Fin N) :
    shapeCast ⟨2, ![N, 1]⟩ v h (ix2 n (0 : Fin 1)) = v (ix1 n) :=
  shapeCast_apply v h (ix2 n (0 : Fin 1)) (ix1 n) (by
    rw [Shape.rowMajor_val_one, Shape.rowMajor_val_two]
    show n.val = n.val * 1 + 0
    omega)

/-- A vector reshaped to a row, at column `f`. -/
theorem shapeCast_row_apply {C : Nat} (v : (⟨1, ![C]⟩ : Shape).Idx → α)
    (h : (⟨1, ![C]⟩ : Shape).ShapeCasts ⟨2, ![1, C]⟩) (f : Fin C) :
    shapeCast ⟨2, ![1, C]⟩ v h (ix2 (0 : Fin 1) f) = v (ix1 f) :=
  shapeCast_apply v h (ix2 (0 : Fin 1) f) (ix1 f) (by
    rw [Shape.rowMajor_val_one, Shape.rowMajor_val_two]
    show f.val = 0 * C + f.val
    omega)

/-- A row repeated down `N` rows, at `(n, f)`: the row's entry `f`. -/
theorem broadcastInDim_rows_apply {N C : Nat} (v : (⟨2, ![1, C]⟩ : Shape).Idx → α)
    (h : (⟨2, ![1, C]⟩ : Shape).BroadcastsInDim ⟨2, ![N, C]⟩ (![0, 1] : Fin 2 → Fin 2)) (n : Fin N) (f : Fin C) :
    broadcastInDim ⟨2, ![N, C]⟩ ![0, 1] h v (ix2 n f) = v (ix2 (0 : Fin 1) f) :=
  broadcastInDim_apply _ h v (ix2 n f) (ix2 (0 : Fin 1) f) (fun a => by
    match a with
    | ⟨0, _⟩ => exact (if_pos rfl).symm
    | ⟨1, _⟩ =>
      show f.val = if C = 1 then 0 else f.val
      split_ifs with hC
      · have := f.isLt; omega
      · rfl)

/-- A vector placed as the one row of a `1 × C` array, at column `f`. -/
theorem broadcastInDim_row_apply {C : Nat} (v : (⟨1, ![C]⟩ : Shape).Idx → α)
    (h : (⟨1, ![C]⟩ : Shape).BroadcastsInDim ⟨2, ![1, C]⟩ (![1] : Fin 1 → Fin 2)) (f : Fin C) :
    broadcastInDim ⟨2, ![1, C]⟩ ![1] h v (ix2 (0 : Fin 1) f) = v (ix1 f) :=
  broadcastInDim_apply _ h v (ix2 (0 : Fin 1) f) (ix1 f) (fun a => by
    match a with
    | ⟨0, _⟩ =>
      show f.val = if C = 1 then 0 else f.val
      split_ifs with hC
      · have := f.isLt; omega
      · rfl)

/-- A vector placed as the one column of an `E × 1` array, at row `e`. -/
theorem broadcastInDim_col_apply {E : Nat} (v : (⟨1, ![E]⟩ : Shape).Idx → α)
    (h : (⟨1, ![E]⟩ : Shape).BroadcastsInDim ⟨2, ![E, 1]⟩ (![0] : Fin 1 → Fin 2)) (e : Fin E) :
    broadcastInDim ⟨2, ![E, 1]⟩ ![0] h v (ix2 e (0 : Fin 1)) = v (ix1 e) :=
  broadcastInDim_apply _ h v (ix2 e (0 : Fin 1)) (ix1 e) (fun a => by
    match a with
    | ⟨0, _⟩ =>
      show e.val = if E = 1 then 0 else e.val
      split_ifs with hE
      · have := e.isLt; omega
      · rfl)

/-- A column repeated across `C` columns, at `(e, f)`: the column's entry `e`. -/
theorem broadcastInDim_cols_apply {E C : Nat} (v : (⟨2, ![E, 1]⟩ : Shape).Idx → α)
    (h : (⟨2, ![E, 1]⟩ : Shape).BroadcastsInDim ⟨2, ![E, C]⟩ (![0, 1] : Fin 2 → Fin 2)) (e : Fin E) (f : Fin C) :
    broadcastInDim ⟨2, ![E, C]⟩ ![0, 1] h v (ix2 e f) = v (ix2 e (0 : Fin 1)) :=
  broadcastInDim_apply _ h v (ix2 e f) (ix2 e (0 : Fin 1)) (fun a => by
    match a with
    | ⟨0, _⟩ =>
      show e.val = if E = 1 then 0 else e.val
      split_ifs with hE
      · have := e.isLt; omega
      · rfl
    | ⟨1, _⟩ => exact (if_pos rfl).symm)

/-- A scalar repeated over any shape reads the scalar everywhere. -/
theorem broadcastInDim_scalar_apply {T : Shape} (h : (⟨0, ![]⟩ : Shape).BroadcastsInDim T ![])
    (x : (⟨0, ![]⟩ : Shape).Idx → α) (j : T.Idx) : broadcastInDim T ![] h x j = x ix0 :=
  ValueIdx.broadcastInDim_scalar_apply h x j

end Moves

end Cert.LibHostApply
-- ==== Proof.KiPay0.lean ====
/-
  The perceptron body's stored values, read entry by entry on the extended reals. The z block at (r, j) is
  max(Σ_k max(Σ_q x(r,q)·W1(q,k) + b1(k), 0)·W2(k,j) + b2(j), 0): each matrix product is accumulated into zero, the
  changes of format on the way into a product are the identity, and a bias row is repeated down the rows. The two
  running-sum rows receive the column sums of the block and of its squares; they start from zero.
-/
import proofs.«160011_j2121713844488_1_alg».proof.Proof.Gen.KernelIdeal.Skeleton
import proofs.«160011_j2121713844488_1_alg».proof.Proof.LibHostApply
import Idealize.ShloMosaic.Lib.KernelVsHost
import Idealize.ShloMosaic.Lib.ValueLayout

noncomputable section

namespace Cert.KernelIdeal.PayValue

open Cert.KernelIdeal Cert.KernelIdeal.Gen Idealize.ShloMosaic Idealize.ShloMosaic.ValueIdx

/-! ### General forms over literal rank-2 shapes -/

/-- A matrix product accumulated into the zero splat, read at (n, f): the sum over the contracted coordinate of the
    products of the entries. -/
theorem matmul_zero_mm_apply {N K C : Nat} {φ₁ φ₂ : FTy}
    (wf : DotDims.WF ⟨2, ![N, K]⟩ ⟨2, ![K, C]⟩ ⟨2, ![N, C]⟩ [1] [0] [0] [1] [] [])
    (prec : Option ContractPrecision) (l : FVec Ideal ⟨2, ![N, K]⟩ φ₁) (r : FVec Ideal ⟨2, ![K, C]⟩ φ₂)
    (n : Fin N) (f : Fin C) :
    matmul (Cert.LibHostApply.mmDims N K C wf) prec l r (constant (F := Ideal) ⟨2, ![N, C]⟩ .f32 0x00000000#32) (ix2 n f)
      = ∑ k : Fin K, l (ix2 n k) * r (ix2 k f) := by
  rw [matmul_zero_eq_dotGeneral]
  exact Cert.LibHostApply.dotGeneral_mm_apply wf prec l r n f

/-- The column sums of an N × C array by the reduction over axis 0, read at column f. -/
theorem multiReduction_add_cols_apply {N C : Nat} (src : FVec Ideal ⟨2, ![N, C]⟩ .f32)
    (h : (⟨2, ![N, C]⟩ : Shape).Reduces [0] ⟨1, ![C]⟩) (hφ : FKind.Formats .f32)
    (hacc : (0x00000000#32 : BitVec 32) = 0x00000000#32) (f : Fin C) :
    multiReduction .add [0] ⟨1, ![C]⟩ src 0x00000000#32 h hφ hacc (ix1 f) = ∑ n : Fin N, src (ix2 n f) := by
  refine (Ideal.multiReduction_add_single src 0x00000000#32 h hφ hacc (ix1 f)).trans ?_
  refine Finset.sum_congr rfl fun n _ => congrArg src (funext fun a => Fin.ext ?_)
  match a with
  | ⟨0, _⟩ => rfl
  | ⟨1, _⟩ => rfl

/-! ### The perceptron body -/

/-- One dense layer with its bias row and the rectifier, as the body spells it, at (r, j). -/
theorem denseRelu_apply (x : FVec Ideal S5000x128 .bf16) (w : FVec Ideal S128x128 .bf16) (b : FVec Ideal S1x128 .f32)
    (r : Fin 5000) (j : Fin 128) :
    maximumf (addf (matmul dot_S5000x128_S128x128_S5000x128_1_0_0_1_n_n none x w (constant (F := Ideal) S5000x128 .f32 0x00000000#32))
        (broadcastTo S5000x128 b broadcasts_S1x128_S5000x128))
      (broadcast S5000x128 (Scalar.ofBits (F := Ideal) .f32 0x00000000#32)) (ix2 r j)
      = max ((∑ k : Fin 128, x (ix2 r k) * w (ix2 k j)) + b (ix2 (0 : Fin 1) j)) 0 := by
  show max (matmul dot_S5000x128_S128x128_S5000x128_1_0_0_1_n_n none x w (constant (F := Ideal) S5000x128 .f32 0x00000000#32) (ix2 r j)
      + broadcastTo S5000x128 b broadcasts_S1x128_S5000x128 (ix2 r j)) (Ideal.ofBits .f32 0x00000000#32) = _
  rw [Ideal.ofBits_zero_f32, broadcastTo_1b_ab_apply]
  exact congrArg (fun t => max (t + b (ix2 (0 : Fin 1) j)) 0)
    (matmul_zero_mm_apply Facts₀.dot_S5000x128_S128x128_S5000x128_1_0_0_1_n_n_wf none x w r j)

/-- The stored z block: two dense layers, each followed by the rectifier. -/
theorem pay5_apply (v3 : Vec Ideal S5000x128 .f32) (v5 : Vec Ideal S128x128 .f32) (v8 : Vec Ideal S128x128 .f32)
    (v13 : Vec Ideal S1x128 .f32) (v21 : Vec Ideal S1x128 .f32) (r : Fin 5000) (j : Fin 128) :
    k0_pay5 v3 v5 v8 v13 v21 (ix2 r j)
      = max ((∑ k : Fin 128, max ((∑ q : Fin 128, v3 (ix2 r q) * v5 (ix2 q k)) + v13 (ix2 (0 : Fin 1) k)) 0 * v8 (ix2 k j))
          + v21 (ix2 (0 : Fin 1) j)) 0 := by
  unfold k0_pay5
  simp only [shapeCast_self]
  refine (denseRelu_apply _ _ _ r j).trans ?_
  refine congrArg (fun t => max (t + v21 (ix2 (0 : Fin 1) j)) 0) (Finset.sum_congr rfl fun k _ => ?_)
  refine congrArg (· * v8 (ix2 k j)) ?_
  exact denseRelu_apply _ _ _ r k

/-- The running column sums of z after this block. -/
theorem pay6_apply (v3 : Vec Ideal S5000x128 .f32) (v5 : Vec Ideal S128x128 .f32) (v8 : Vec Ideal S128x128 .f32)
    (v13 : Vec Ideal S1x128 .f32) (v21 : Vec Ideal S1x128 .f32) (v28 : Vec Ideal S1x128 .f32) (j : Fin 128) :
    k0_pay6 v3 v5 v8 v13 v21 v28 (ix2 (0 : Fin 1) j)
      = v28 (ix2 (0 : Fin 1) j) + ∑ r : Fin 5000, k0_pay5 v3 v5 v8 v13 v21 (ix2 r j) := by
  unfold k0_pay6
  show v28 (ix2 (0 : Fin 1) j) + shapeCast S1x128 _ shapeCasts_S128_S1x128 (ix2 (0 : Fin 1) j) = _
  refine congrArg (v28 (ix2 (0 : Fin 1) j) + ·) ?_
  refine (shapeCast_a_1a_apply _ _ (0 : Fin 1) j).trans ?_
  exact multiReduction_add_cols_apply _ _ _ _ j

/-- The running column sums of z² after this block. -/
theorem pay2_apply (v26 : FVec Ideal S5000x128 .f32) (v35 : Vec Ideal S1x128 .f32) (j : Fin 128) :
    k0_pay2 v26 v35 (ix2 (0 : Fin 1) j)
      = v35 (ix2 (0 : Fin 1) j) + ∑ r : Fin 5000, v26 (ix2 r j) * v26 (ix2 r j) := by
  unfold k0_pay2
  rw [shapeCast_self]
  show v35 (ix2 (0 : Fin 1) j) + shapeCast S1x128 _ shapeCasts_S128_S1x128 (ix2 (0 : Fin 1) j) = _
  refine congrArg (v35 (ix2 (0 : Fin 1) j) + ·) ?_
  refine (shapeCast_a_1a_apply _ _ (0 : Fin 1) j).trans ?_
  exact multiReduction_add_cols_apply _ _ _ _ j

/-- The row stored back unchanged. -/
theorem pay1_eq (v31 : FVec Ideal S1x128 .f32) : k0_pay1 v31 = v31 := by
  unfold k0_pay1
  exact shapeCast_self _ _

/-- The two running-sum rows start from zero. -/
theorem pay3_apply (j : Fin 128) : k0_pay3 (F := Ideal) (ix2 (0 : Fin 1) j) = 0 := by
  unfold k0_pay3
  rw [shapeCast_self]
  exact Ideal.ofBits_zero_f32

theorem pay4_apply (j : Fin 128) : k0_pay4 (F := Ideal) (ix2 (0 : Fin 1) j) = 0 := by
  unfold k0_pay4
  rw [shapeCast_self]
  exact Ideal.ofBits_zero_f32

end Cert.KernelIdeal.PayValue

end
-- ==== Proof.KiPay6.lean ====
/-
  The head's stored block, read entry by entry on the extended reals. The logits of row r are
  (max(h·Wa + ba, 0) · mask) · Wb + bb; the row maximum is the fold of max from −∞ over the row's 64 logits, kept as
  a column and repeated across the columns; the stored entry is the logit minus the row maximum, minus the logarithm
  of the row's sum of the exponentials of those differences.
-/
import proofs.«160011_j2121713844488_1_alg».proof.Proof.KiPay0

noncomputable section

namespace Cert.KernelIdeal.PayValue

open Cert.KernelIdeal Cert.KernelIdeal.Gen Idealize.ShloMosaic Idealize.ShloMosaic.ValueIdx

/-! ### General forms: reductions along the rows, and a column repeated across the columns -/

/-- The row sums of an N × C array by the reduction over axis 1, read at row n. -/
theorem multiReduction_add_rows_apply {N C : Nat} (src : FVec Ideal ⟨2, ![N, C]⟩ .f32)
    (h : (⟨2, ![N, C]⟩ : Shape).Reduces [1] ⟨1, ![N]⟩) (hφ : FKind.Formats .f32)
    (hacc : (0x00000000#32 : BitVec 32) = 0x00000000#32) (n : Fin N) :
    multiReduction .add [1] ⟨1, ![N]⟩ src 0x00000000#32 h hφ hacc (ix1 n) = ∑ k : Fin C, src (ix2 n k) := by
  refine (Ideal.multiReduction_add_single src 0x00000000#32 h hφ hacc (ix1 n)).trans ?_
  refine Finset.sum_congr rfl fun k _ => congrArg src (funext fun a => Fin.ext ?_)
  match a with
  | ⟨0, _⟩ => rfl
  | ⟨1, _⟩ => rfl

/-- The word the row maximum starts from is −∞. -/
theorem ofBits_neg_inf_f32 : Ideal.ofBits .f32 0xFF800000#32 = (⊥ : EReal) := by
  simp [Ideal.ofBits, Ideal.ieee]

/-- The row maxima of an N × C array by the reduction over axis 1, read at row n: the fold of max from −∞ over the
    row's entries. -/
theorem multiReduction_max_rows_apply {N C : Nat} (src : FVec Ideal ⟨2, ![N, C]⟩ .f32)
    (h : (⟨2, ![N, C]⟩ : Shape).Reduces [1] ⟨1, ![N]⟩) (hφ : FKind.Formats .f32)
    (hacc : (0xFF800000#32 : BitVec 32) = 0xFF800000#32) (n : Fin N) :
    multiReduction .maximumf [1] ⟨1, ![N]⟩ src 0xFF800000#32 h hφ hacc (ix1 n)
      = Finset.univ.fold max (⊥ : EReal) (fun k : Fin C => src (ix2 n k)) := by
  refine (Ideal.multiReduction_maximumf_single src 0xFF800000#32 h hφ hacc (ix1 n)).trans ?_
  show Finset.univ.fold max (Ideal.ofBits .f32 0xFF800000#32) (fun k : Fin C => src (h.lift (ix1 n) k)) = _
  rw [ofBits_neg_inf_f32]
  refine congrArg (Finset.univ.fold max (⊥ : EReal)) (funext fun k => congrArg src (funext fun a => Fin.ext ?_))
  match a with
  | ⟨0, _⟩ => rfl
  | ⟨1, _⟩ => rfl

/-- An [a, 1] column repeated across b columns reads, at (p, c), the column's entry p. -/
theorem broadcastTo_a1_ab_apply {α : Type} {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- A row-wise reduction kept as a column and repeated across the columns reads, at (p, c), the reduction's entry p. -/
theorem keepdims_apply {α : Type} {a b : ℕ} (v : (⟨1, ![a]⟩ : Shape).Idx → α)
    (hc : (⟨1, ![a]⟩ : Shape).ShapeCasts ⟨2, ![a, 1]⟩) (hb : (⟨2, ![a, 1]⟩ : Shape).Broadcasts ⟨2, ![a, b]⟩)
    (p : Fin a) (c : Fin b) :
    broadcastTo ⟨2, ![a, b]⟩ (shapeCast ⟨2, ![a, 1]⟩ v hc) hb (ix2 p c) = v (ix1 p) :=
  (broadcastTo_a1_ab_apply _ hb p c).trans (Cert.LibHostApply.shapeCast_col_apply v hc p)

/-! ### The head -/

/-- The head's logits of row r of a block: (max(h·Wa + ba, 0) · mask) · Wb + bb at (r, j). -/
def headLogits (h : Vec Ideal S5000x128 .f32) (wa : Vec Ideal S128x128 .f32) (ba : Vec Ideal S1x128 .f32)
    (mask : Vec Ideal S5000x128 .f32) (wb : Vec Ideal S128x64 .f32) (bb : Vec Ideal S1x64 .f32)
    (r : Fin 5000) (j : Fin 64) : EReal :=
  (∑ k : Fin 128, (max ((∑ q : Fin 128, h (ix2 r q) * wa (ix2 q k)) + ba (ix2 (0 : Fin 1) k)) 0 * mask (ix2 r k)) * wb (ix2 k j))
    + bb (ix2 (0 : Fin 1) j)

/-- The logits as the body spells them, at (r, j). -/
theorem headLogits_apply (h : Vec Ideal S5000x128 .f32) (wa : Vec Ideal S128x128 .f32) (ba : Vec Ideal S1x128 .f32)
    (mask : Vec Ideal S5000x128 .f32) (wb : Vec Ideal S128x64 .f32) (bb : Vec Ideal S1x64 .f32)
    (r : Fin 5000) (j : Fin 64) :
    addf (matmul dot_S5000x128_S128x64_S5000x64_1_0_0_1_n_n none
        (truncf .bf16 (mulf (maximumf (addf (matmul dot_S5000x128_S128x128_S5000x128_1_0_0_1_n_n none
              (truncf .bf16 h bitsLt_bf16_f32) (truncf .bf16 wa bitsLt_bf16_f32)
              (constant (F := Ideal) S5000x128 .f32 0x00000000#32))
            (broadcastTo S5000x128 ba broadcasts_S1x128_S5000x128))
          (broadcast S5000x128 (Scalar.ofBits (F := Ideal) .f32 0x00000000#32))) mask) bitsLt_bf16_f32)
        (truncf .bf16 wb bitsLt_bf16_f32) (constant (F := Ideal) S5000x64 .f32 0x00000000#32))
      (broadcastTo S5000x64 bb broadcasts_S1x64_S5000x64) (ix2 r j)
      = headLogits h wa ba mask wb bb r j := by
  unfold headLogits
  show matmul dot_S5000x128_S128x64_S5000x64_1_0_0_1_n_n none _ _ (constant (F := Ideal) S5000x64 .f32 0x00000000#32) (ix2 r j)
      + broadcastTo S5000x64 bb broadcasts_S1x64_S5000x64 (ix2 r j) = _
  rw [broadcastTo_1b_ab_apply]
  refine congrArg (· + bb (ix2 (0 : Fin 1) j)) ?_
  refine (matmul_zero_mm_apply Facts₀.dot_S5000x128_S128x64_S5000x64_1_0_0_1_n_n_wf none _ _ r j).trans ?_
  refine Finset.sum_congr rfl fun k _ => ?_
  refine congrArg (fun t => (t * mask (ix2 r k)) * wb (ix2 k j)) ?_
  exact denseRelu_apply _ _ _ r k

/-- The row-wise log-softmax as the body spells it, at (r, j): the entry minus its row's maximum, minus the logarithm
    of the row's sum of exponentials of the same differences. -/
theorem logSoftmax_rows_apply (L : FVec Ideal S5000x64 .f32) (r : Fin 5000) (j : Fin 64) :
    subf (subf L (broadcastTo S5000x64 (shapeCast S5000x1
            (multiReduction .maximumf [1] S5000 L 0xFF800000#32 reduces_S5000x64_S5000 (.inl rfl) rfl)
            shapeCasts_S5000_S5000x1) broadcasts_S5000x1_S5000x64))
        (broadcastTo S5000x64 (log (shapeCast S5000x1
            (multiReduction .add [1] S5000 (exp (subf L (broadcastTo S5000x64 (shapeCast S5000x1
                (multiReduction .maximumf [1] S5000 L 0xFF800000#32 reduces_S5000x64_S5000 (.inl rfl) rfl)
                shapeCasts_S5000_S5000x1) broadcasts_S5000x1_S5000x64))) 0x00000000#32 reduces_S5000x64_S5000 (.inl rfl) rfl)
            shapeCasts_S5000_S5000x1)) broadcasts_S5000x1_S5000x64) (ix2 r j)
      = (L (ix2 r j) - Finset.univ.fold max (⊥ : EReal) (fun k : Fin 64 => L (ix2 r k)))
          - Ideal.log (∑ k : Fin 64, Ideal.exp (L (ix2 r k) - Finset.univ.fold max (⊥ : EReal) (fun k : Fin 64 => L (ix2 r k)))) := by
  have hmax : ∀ c : Fin 64, broadcastTo S5000x64 (shapeCast S5000x1
        (multiReduction .maximumf [1] S5000 L 0xFF800000#32 reduces_S5000x64_S5000 (.inl rfl) rfl)
        shapeCasts_S5000_S5000x1) broadcasts_S5000x1_S5000x64 (ix2 r c)
      = Finset.univ.fold max (⊥ : EReal) (fun k : Fin 64 => L (ix2 r k)) := fun c =>
    (keepdims_apply _ _ _ r c).trans (multiReduction_max_rows_apply L _ _ _ r)
  show (L (ix2 r j) - broadcastTo S5000x64 _ broadcasts_S5000x1_S5000x64 (ix2 r j))
      - broadcastTo S5000x64 (log (shapeCast S5000x1 _ shapeCasts_S5000_S5000x1)) broadcasts_S5000x1_S5000x64 (ix2 r j) = _
  rw [hmax j, broadcastTo_a1_ab_apply]
  refine congrArg (fun t => (L (ix2 r j) - Finset.univ.fold max (⊥ : EReal) (fun k : Fin 64 => L (ix2 r k))) - Ideal.log t) ?_
  refine (Cert.LibHostApply.shapeCast_col_apply _ _ r).trans ?_
  refine (multiReduction_add_rows_apply _ _ _ _ r).trans ?_
  refine Finset.sum_congr rfl fun k _ => ?_
  show Ideal.exp (L (ix2 r k) - broadcastTo S5000x64 _ broadcasts_S5000x1_S5000x64 (ix2 r k)) = _
  rw [hmax k]

/-- The head's stored block at (r, j): the row-wise log-softmax of the logits. -/
theorem fc_pay1_apply (h : Vec Ideal S5000x128 .f32) (wa : Vec Ideal S128x128 .f32) (ba : Vec Ideal S1x128 .f32)
    (mask : Vec Ideal S5000x128 .f32) (wb : Vec Ideal S128x64 .f32) (bb : Vec Ideal S1x64 .f32)
    (r : Fin 5000) (j : Fin 64) :
    k6_pay1 h wa ba mask wb bb (ix2 r j)
      = (headLogits h wa ba mask wb bb r j - Finset.univ.fold max (⊥ : EReal) (fun k : Fin 64 => headLogits h wa ba mask wb bb r k))
          - Ideal.log (∑ k : Fin 64, Ideal.exp (headLogits h wa ba mask wb bb r k
              - Finset.univ.fold max (⊥ : EReal) (fun k : Fin 64 => headLogits h wa ba mask wb bb r k))) := by
  unfold k6_pay1
  simp only [shapeCast_self]
  refine (logSoftmax_rows_apply _ r j).trans ?_
  simp only [headLogits_apply]

end Cert.KernelIdeal.PayValue

end
-- ==== Proof.Spec.lean ====
/-
  The specification both programs are compared with, entry by entry on the extended reals: one layer of the network
  (two-layer perceptron with two rectifiers; column statistics over the 100000 rows; normalisation) and the head
  (two dense layers with a mask in between, then a row-wise log-softmax). Arrays enter as curried functions of literal
  row and column indices.
-/
import Idealize.ShloMosaic.PureOps.Ideal
import Idealize.ShloMosaic.Lib.ValueIdx

noncomputable section

namespace Cert.Spec

open Idealize.ShloMosaic

/-- The number of rows as the word both programs divide by, and the variance's guard term. -/
def cN : EReal := Ideal.ofBits .f32 0x47C35000#32
def eps : EReal := Ideal.ofBits .f32 0x3727C5AC#32

/-- z = max(max(agg · W1 + b1, 0) · W2 + b2, 0), entry (n, j). -/
def mlp (agg : Fin 100000 → Fin 128 → EReal) (w1 : Fin 128 → Fin 128 → EReal) (b1 : Fin 128 → EReal)
    (w2 : Fin 128 → Fin 128 → EReal) (b2 : Fin 128 → EReal) (n : Fin 100000) (j : Fin 128) : EReal :=
  max ((∑ k : Fin 128, max ((∑ q : Fin 128, agg n q * w1 q k) + b1 k) 0 * w2 k j) + b2 j) 0

/-- Column sums of z and of z². -/
def colSum (z : Fin 100000 → Fin 128 → EReal) (j : Fin 128) : EReal := ∑ n : Fin 100000, z n j
def colSumSq (z : Fin 100000 → Fin 128 → EReal) (j : Fin 128) : EReal := ∑ n : Fin 100000, z n j * z n j

/-- Mean and (one-pass) variance of column j. -/
def mean (z : Fin 100000 → Fin 128 → EReal) (j : Fin 128) : EReal := Ideal.div (colSum z j) cN
def var (z : Fin 100000 → Fin 128 → EReal) (j : Fin 128) : EReal := Ideal.div (colSumSq z j) cN - mean z j * mean z j

/-- h' = (z − mean) · rsqrt(var + eps) · gamma + beta, entry (n, j). -/
def norm (z : Fin 100000 → Fin 128 → EReal) (mu vr gamma beta : Fin 128 → EReal) (n : Fin 100000) (j : Fin 128) : EReal :=
  ((z n j - mu j) * Ideal.rsqrt (vr j + eps)) * gamma j + beta j

/-- One whole layer from the aggregated features. -/
def layer (agg : Fin 100000 → Fin 128 → EReal) (w1 : Fin 128 → Fin 128 → EReal) (b1 : Fin 128 → EReal)
    (w2 : Fin 128 → Fin 128 → EReal) (b2 gamma beta : Fin 128 → EReal) : Fin 100000 → Fin 128 → EReal :=
  norm (mlp agg w1 b1 w2 b2) (mean (mlp agg w1 b1 w2 b2)) (var (mlp agg w1 b1 w2 b2)) gamma beta

/-- The head's logits: (max(h · Wa + ba, 0) · mask) · Wb + bb, entry (n, j). -/
def logits (h : Fin 100000 → Fin 128 → EReal) (wa : Fin 128 → Fin 128 → EReal) (ba : Fin 128 → EReal)
    (wb : Fin 128 → Fin 64 → EReal) (bb : Fin 64 → EReal) (mask : Fin 100000 → Fin 128 → EReal) (n : Fin 100000) (j : Fin 64) : EReal :=
  (∑ k : Fin 128, (max ((∑ q : Fin 128, h n q * wa q k) + ba k) 0 * mask n k) * wb k j) + bb j

/-- Row-wise log-softmax of a [100000, 64] array: x − max − log Σ exp(x − max), the maximum a fold from −∞. -/
def logSoftmax (x : Fin 100000 → Fin 64 → EReal) (n : Fin 100000) (j : Fin 64) : EReal :=
  (x n j - Finset.univ.fold max ⊥ (fun k : Fin 64 => x n k))
    - Ideal.log (∑ k : Fin 64, Ideal.exp (x n k - Finset.univ.fold max ⊥ (fun k : Fin 64 => x n k)))

end Cert.Spec

end
-- ==== Proof.KiFc6Value.lean ====
import proofs.«160011_j2121713844488_1_alg».proof.Proof.KiFc6
import proofs.«160011_j2121713844488_1_alg».proof.Proof.KiPay6
import proofs.«160011_j2121713844488_1_alg».proof.Proof.Spec
import Idealize.ShloMosaic.Lib.Pipeline.Value
import Idealize.ShloMosaic.Lib.ValueIdx

/-! # The head region 6: the output array after all 20 points

At a point the body writes the whole 5000 × 64 block of the output: the payload of the feature block, the mask
block and the four whole weight and bias arrays. The feature, mask and output windows move together down the 20
blocks of 5000 rows, the other four windows stay on their whole array, and the 20 output blocks tile the 100000
rows. So after the region the output array is one function of the six input arrays as the region finds them. -/

set_option maxRecDepth 16384

noncomputable section

namespace Cert.KernelIdeal.Hand

open Cert.KernelIdeal Cert.KernelIdeal.Gen
open Idealize.ShloMosaic Idealize.ShloMosaic.TcCoe Idealize.ShloMosaic.Tactic
open Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

-- the contents of the core's buffers when the region is entered
variable (V : (c : Dev nD) → (b : Ref sig .tc) → Buf (Elt F) ((c : Thread nD τ).loc b))

/-! ## The output array as one function of the six input arrays -/

/-- The all-zero offsets of a whole-buffer access, as a constant function. -/
theorem zeros6v : (![0, 0] : Fin 2 → Nat) = fun _ => 0 := funext fun a => by fin_cases a <;> rfl

/-- The rows `5000·q …` of a `100000 × 128` array, as a `5000 × 128` block. -/
def rows6 (z : S100000x128.Idx → Elt F .f32) (q : Nat) (hq : q < 20) : S5000x128.Idx → Elt F .f32 :=
  fun y => z (ix2 (⟨5000 * q + (y 0).val, by
      have h2 : (y 0).val < 5000 := idx2_lt0 y
      omega⟩ : Fin 100000) (⟨(y 1).val, idx2_lt1 y⟩ : Fin 128))

/-- The head's output array: its block of 5000 rows at block-row `b` is the body's payload of rows
    `5000·b … 5000·b + 4999` of the feature array and of the mask array and of the four whole weight and
    bias arrays; entry `(n, j)` is that block's entry `(n mod 5000, j)`. -/
def G6 (h : S100000x128.Idx → Elt F .f32) (wa : S128x128.Idx → Elt F .f32) (ba : S1x128.Idx → Elt F .f32)
    (wb : S128x64.Idx → Elt F .f32) (bb : S1x64.Idx → Elt F .f32) (mask : S100000x128.Idx → Elt F .f32) :
    S100000x64.Idx → Elt F .f32 :=
  fun i => k6_pay1 (rows6 h ((i 0).val / 5000) (by have h1 : (i 0).val < 100000 := idx2_lt0 i; omega)) wa ba
    (rows6 mask ((i 0).val / 5000) (by have h1 : (i 0).val < 100000 := idx2_lt0 i; omega)) wb bb
    (ix2 (⟨(i 0).val % 5000, Nat.mod_lt _ (by norm_num)⟩ : Fin 5000) (⟨(i 1).val, idx2_lt1 i⟩ : Fin 64))

/-- One block of the output array: if `x0`, `x5` are rows `5000·q …` of the feature and mask arrays and the
    other four operands are the whole weight and bias arrays, the payload at block index `j` is the array's
    entry at `(5000·q + j₀, j₁)`. -/
theorem G6_block (h : S100000x128.Idx → Elt F .f32) (wa : S128x128.Idx → Elt F .f32) (ba : S1x128.Idx → Elt F .f32)
    (wb : S128x64.Idx → Elt F .f32) (bb : S1x64.Idx → Elt F .f32) (mask : S100000x128.Idx → Elt F .f32)
    (x0 : Vec F S5000x128 .f32) (x1 : Vec F S128x128 .f32) (x2 : Vec F S1x128 .f32) (x3 : Vec F S128x64 .f32)
    (x4 : Vec F S1x64 .f32) (x5 : Vec F S5000x128 .f32) (q : Nat) (hq : q < 20)
    (h0 : x0 = rows6 h q hq) (h1 : x1 = wa) (h2 : x2 = ba) (h3 : x3 = wb) (h4 : x4 = bb) (h5 : x5 = rows6 mask q hq)
    (j : S5000x64.Idx) (i : S100000x64.Idx) (hi0 : (i 0).val = q * 5000 + (j 0).val) (hi1 : (i 1).val = (j 1).val) :
    k6_pay1 x0 x1 x2 x5 x3 x4 j = G6 h wa ba wb bb mask i := by
  subst h0 h1 h2 h3 h4 h5
  have hj0 : (j 0).val < 5000 := idx2_lt0 j
  have hq' : (i 0).val / 5000 = q := by omega
  have hm : (i 0).val % 5000 = (j 0).val := by omega
  have ej : j = ix2 (⟨(i 0).val % 5000, Nat.mod_lt _ (by norm_num)⟩ : Fin 5000) (⟨(i 1).val, idx2_lt1 i⟩ : Fin 64) := by
    funext a
    match a with
    | ⟨0, _⟩ => exact Fin.ext hm.symm
    | ⟨1, _⟩ => exact Fin.ext hi1.symm
  subst hq'
  exact congrArg (fun J => k6_pay1 (rows6 h ((i 0).val / 5000) hq) x1 x2 (rows6 mask ((i 0).val / 5000) hq) x3 x4 J) ej

/-- A block that reads an array at the same coordinates is the array. -/
theorem whole6 {n0 n1 : Nat} {α : Type} (arr x : (⟨2, ![n0, n1]⟩ : Shape).Idx → α)
    (hx : ∀ y, ∃ i, x y = arr i ∧ (i 0).val = (y 0).val ∧ (i 1).val = (y 1).val) : x = arr := by
  funext y
  obtain ⟨i, e, e0, e1⟩ := hx y
  rw [e]
  refine congrArg arr ?_
  funext a
  match a with
  | ⟨0, _⟩ => exact Fin.ext e0
  | ⟨1, _⟩ => exact Fin.ext e1

/-- A block that reads a `100000 × 128` array at rows shifted by `5000·q` is that block of rows. -/
theorem rows6_eq (z : S100000x128.Idx → Elt F .f32) (q : Nat) (hq : q < 20) (x : S5000x128.Idx → Elt F .f32)
    (hx : ∀ y, ∃ i, x y = z i ∧ (i 0).val = 5000 * q + (y 0).val ∧ (i 1).val = (y 1).val) : x = rows6 z q hq := by
  funext y
  obtain ⟨i, e, e0, e1⟩ := hx y
  rw [e]
  refine congrArg z ?_
  funext a
  match a with
  | ⟨0, _⟩ => exact Fin.ext e0
  | ⟨1, _⟩ => exact Fin.ext e1

/-! ## The printed index maps, decided over the grid -/

/-- At point `t` the feature window, the mask window and the output window are at block-row `t`, column
    block `0`; the four weight and bias windows are at block `(0, 0)`: their block is their whole array. -/
theorem idx_facts6 : ∀ t : Fin cfg6.N,
    win6_6.index t (0 : Fin 2) = t.val ∧ win6_6.index t (1 : Fin 2) = 0
    ∧ win6_0.index t (0 : Fin 2) = t.val ∧ win6_0.index t (1 : Fin 2) = 0
    ∧ win6_5.index t (0 : Fin 2) = t.val ∧ win6_5.index t (1 : Fin 2) = 0
    ∧ win6_1.index t (0 : Fin 2) = 0 ∧ win6_1.index t (1 : Fin 2) = 0
    ∧ win6_2.index t (0 : Fin 2) = 0 ∧ win6_2.index t (1 : Fin 2) = 0
    ∧ win6_3.index t (0 : Fin 2) = 0 ∧ win6_3.index t (1 : Fin 2) = 0
    ∧ win6_4.index t (0 : Fin 2) = 0 ∧ win6_4.index t (1 : Fin 2) = 0 :=
  (by decide +kernel : ∀ t : Fin grid6.N, _)

/-! ## What a point writes back -/

set_option maxHeartbeats 2000000 in
/-- What point `t` writes back is block `t` of the output array of the six input arrays as the region finds
    them. -/
theorem flushed6_eq (c : Dev nD) (t : Fin cfg6.N) :
    (dat6 V c).flushed 6 t = ((cfg6.win 6).blk t).view.read (Elt F)
      (G6 (V c (Pipeline.arrRef spec6 0)) (V c (Pipeline.arrRef spec6 1)) (V c (Pipeline.arrRef spec6 2))
        (V c (Pipeline.arrRef spec6 3)) (V c (Pipeline.arrRef spec6 4)) (V c (Pipeline.arrRef spec6 5))) := by
  show (cfg6.win 6).cut (grid6.coords t) ((dat6 V c).after 6 t) = _
  rw [after6_6]
  unfold out6_6
  rw [View.canon_unit_zero zeros6v]
  simp only [View.ld_unit_zero (S := S5000x128) zeros6v, View.ld_unit_zero (S := S128x128) zeros6v,
    View.ld_unit_zero (S := S1x128) zeros6v, View.ld_unit_zero (S := S128x64) zeros6v,
    View.ld_unit_zero (S := S1x64) zeros6v]
  obtain ⟨e60, e61, e00, e01, e50, e51, e10, e11, e20, e21, e30, e31, e40, e41⟩ := idx_facts6 t
  have ht : t.val < 20 := lt_of_lt_of_eq t.isLt N_6
  funext j
  show k6_pay1 (iblk6 V c 0 t) (iblk6 V c 1 t) (iblk6 V c 2 t) (iblk6 V c 5 t) (iblk6 V c 3 t) (iblk6 V c 4 t) j
    = G6 (V c (Pipeline.arrRef spec6 0)) (V c (Pipeline.arrRef spec6 1)) (V c (Pipeline.arrRef spec6 2))
        (V c (Pipeline.arrRef spec6 3)) (V c (Pipeline.arrRef spec6 4)) (V c (Pipeline.arrRef spec6 5))
        (((cfg6.win 6).blk t).view.emb j)
  refine G6_block (V c (Pipeline.arrRef spec6 0)) (V c (Pipeline.arrRef spec6 1)) (V c (Pipeline.arrRef spec6 2))
    (V c (Pipeline.arrRef spec6 3)) (V c (Pipeline.arrRef spec6 4)) (V c (Pipeline.arrRef spec6 5))
    (iblk6 V c 0 t) (iblk6 V c 1 t) (iblk6 V c 2 t) (iblk6 V c 3 t) (iblk6 V c 4 t) (iblk6 V c 5 t) t.val ht
    ?_ ?_ ?_ ?_ ?_ ?_ j (((cfg6.win 6).blk t).view.emb j) ?_ ?_
  · refine rows6_eq _ _ _ _ fun y => ⟨((cfg6.win 0).blk t).view.emb y, rfl, ?_, ?_⟩
    · show win6_0.index t (0 : Fin 2) * 5000 + 1 * (y 0).val = 5000 * t.val + (y 0).val; omega
    · show win6_0.index t (1 : Fin 2) * 128 + 1 * (y 1).val = (y 1).val; omega
  · refine whole6 _ _ fun y => ⟨((cfg6.win 1).blk t).view.emb y, rfl, ?_, ?_⟩
    · show win6_1.index t (0 : Fin 2) * 128 + 1 * (y 0).val = (y 0).val; omega
    · show win6_1.index t (1 : Fin 2) * 128 + 1 * (y 1).val = (y 1).val; omega
  · refine whole6 _ _ fun y => ⟨((cfg6.win 2).blk t).view.emb y, rfl, ?_, ?_⟩
    · show win6_2.index t (0 : Fin 2) * 1 + 1 * (y 0).val = (y 0).val; omega
    · show win6_2.index t (1 : Fin 2) * 128 + 1 * (y 1).val = (y 1).val; omega
  · refine whole6 _ _ fun y => ⟨((cfg6.win 3).blk t).view.emb y, rfl, ?_, ?_⟩
    · show win6_3.index t (0 : Fin 2) * 128 + 1 * (y 0).val = (y 0).val; omega
    · show win6_3.index t (1 : Fin 2) * 64 + 1 * (y 1).val = (y 1).val; omega
  · refine whole6 _ _ fun y => ⟨((cfg6.win 4).blk t).view.emb y, rfl, ?_, ?_⟩
    · show win6_4.index t (0 : Fin 2) * 1 + 1 * (y 0).val = (y 0).val; omega
    · show win6_4.index t (1 : Fin 2) * 64 + 1 * (y 1).val = (y 1).val; omega
  · refine rows6_eq _ _ _ _ fun y => ⟨((cfg6.win 5).blk t).view.emb y, rfl, ?_, ?_⟩
    · show win6_5.index t (0 : Fin 2) * 5000 + 1 * (y 0).val = 5000 * t.val + (y 0).val; omega
    · show win6_5.index t (1 : Fin 2) * 128 + 1 * (y 1).val = (y 1).val; omega
  · show win6_6.index t (0 : Fin 2) * 5000 + 1 * (j 0).val = t.val * 5000 + (j 0).val; omega
  · show win6_6.index t (1 : Fin 2) * 64 + 1 * (j 1).val = (j 1).val; omega

/-! ## The blocks tile the array -/

/-- An index of the array is in point `t`'s block iff each coordinate is in the block's range on its axis. -/
theorem mem_blk6_6 (t : Fin cfg6.N) (i : S100000x64.Idx) :
    i ∈ ((cfg6.win 6).blk t).view.set ↔ ∀ a : Fin 2, win6_6.index t a * S5000x64.size a ≤ (i a).val ∧ (i a).val < win6_6.index t a * S5000x64.size a + S5000x64.size a := by
  show i ∈ ((View.whole main_v111).slice (win6_6.rect t)).set ↔ _
  rw [View.set_slice_whole, Rect.mem_set_unit]
  exact Iff.rfl

/-- Every row `n` of the array is in the block of point `n / 5000`: the 20 blocks of 5000 rows tile the
    100000 rows, and there is one column block. -/
theorem blocks_cover6 (i : S100000x64.Idx) :
    ∃ t : Fin cfg6.N, (cfg6.win 6).flush t = true ∧ i ∈ ((cfg6.win 6).blk t).view.set := by
  have hi0 : (i 0).val < 100000 := idx2_lt0 i
  have hi1 : (i 1).val < 64 := idx2_lt1 i
  obtain ⟨t, ht⟩ : ∃ t : Fin cfg6.N, t.val = (i 0).val / 5000 :=
    ⟨⟨(i 0).val / 5000, lt_of_lt_of_eq (by omega : (i 0).val / 5000 < 20) N_6.symm⟩, rfl⟩
  obtain ⟨e60, e61, -⟩ := idx_facts6 t
  refine ⟨t, flush6_6 t, ?_⟩
  rw [mem_blk6_6]
  intro a
  match a with
  | ⟨0, _⟩ => show win6_6.index t (0 : Fin 2) * 5000 ≤ (i 0).val ∧ (i 0).val < win6_6.index t (0 : Fin 2) * 5000 + 5000; omega
  | ⟨1, _⟩ => show win6_6.index t (1 : Fin 2) * 64 ≤ (i 1).val ∧ (i 1).val < win6_6.index t (1 : Fin 2) * 64 + 64; omega

/-! ## The array after the region -/

/-- After all 20 points the output array holds the head's output array of the six input arrays as the region
    finds them. -/
theorem final6 (c : Dev nD) :
    (dat6 V c).arrAt 6 cfg6.N
      = G6 (V c (Pipeline.arrRef spec6 0)) (V c (Pipeline.arrRef spec6 1)) (V c (Pipeline.arrRef spec6 2))
        (V c (Pipeline.arrRef spec6 3)) (V c (Pipeline.arrRef spec6 4)) (V c (Pipeline.arrRef spec6 5)) :=
  (dat6 V c).arrAt_eq_of_cover 6 _ (fun t _ => flushed6_eq V c t) blocks_cover6

/-! ## The array entry by entry, at the exact instance -/

/-- The block of rows that holds row `n`, read at row `n mod 5000`, is row `n` of the array. -/
theorem rows6_apply (z : Vec Ideal S100000x128 .f32) (n : Fin 100000) (hq : n.val / 5000 < 20) (k : Fin 128) :
    rows6 (F := Ideal) z (n.val / 5000) hq (ix2 (⟨n.val % 5000, Nat.mod_lt _ (by norm_num)⟩ : Fin 5000) k) = z (ix2 n k) := by
  unfold rows6
  refine congrArg z ?_
  funext a
  match a with
  | ⟨0, _⟩ => exact Fin.ext (Nat.div_add_mod n.val 5000)
  | ⟨1, _⟩ => rfl

/-- At the exact instance the head's output array at `(n, j)` is the specification's row-wise log-softmax of
    the logits: the payload read at block index `(n mod 5000, j)` of the block of rows that holds row `n`. -/
theorem G6_apply (h : Vec Ideal S100000x128 .f32) (wa : Vec Ideal S128x128 .f32) (ba : Vec Ideal S1x128 .f32)
    (wb : Vec Ideal S128x64 .f32) (bb : Vec Ideal S1x64 .f32) (mask : Vec Ideal S100000x128 .f32)
    (n : Fin 100000) (j : Fin 64) :
    G6 (F := Ideal) h wa ba wb bb mask (ix2 n j)
      = Cert.Spec.logSoftmax (Cert.Spec.logits (fun n q => h (ix2 n q)) (fun q k => wa (ix2 q k))
          (fun k => ba (ix2 (0 : Fin 1) k)) (fun k j => wb (ix2 k j)) (fun j => bb (ix2 (0 : Fin 1) j))
          (fun n k => mask (ix2 n k))) n j := by
  have hq : n.val / 5000 < 20 := by have := n.isLt; omega
  have hL : ∀ k : Fin 64,
      Cert.KernelIdeal.PayValue.headLogits (rows6 (F := Ideal) h (n.val / 5000) hq) wa ba (rows6 (F := Ideal) mask (n.val / 5000) hq) wb bb
        (⟨n.val % 5000, Nat.mod_lt _ (by norm_num)⟩ : Fin 5000) k
      = Cert.Spec.logits (fun n q => h (ix2 n q)) (fun q k => wa (ix2 q k))
          (fun k => ba (ix2 (0 : Fin 1) k)) (fun k j => wb (ix2 k j)) (fun j => bb (ix2 (0 : Fin 1) j))
          (fun n k => mask (ix2 n k)) n k := by
    intro k
    unfold Cert.KernelIdeal.PayValue.headLogits Cert.Spec.logits
    simp only [rows6_apply]
  unfold G6
  rw [Cert.KernelIdeal.PayValue.fc_pay1_apply]
  unfold Cert.Spec.logSoftmax
  show (Cert.KernelIdeal.PayValue.headLogits (rows6 (F := Ideal) h (n.val / 5000) hq) wa ba (rows6 (F := Ideal) mask (n.val / 5000) hq) wb bb
          (⟨n.val % 5000, Nat.mod_lt _ (by norm_num)⟩ : Fin 5000) j
        - Finset.univ.fold max (⊥ : EReal) (fun k : Fin 64 => Cert.KernelIdeal.PayValue.headLogits (rows6 (F := Ideal) h (n.val / 5000) hq) wa ba
            (rows6 (F := Ideal) mask (n.val / 5000) hq) wb bb (⟨n.val % 5000, Nat.mod_lt _ (by norm_num)⟩ : Fin 5000) k))
      - Ideal.log (∑ k : Fin 64, Ideal.exp (Cert.KernelIdeal.PayValue.headLogits (rows6 (F := Ideal) h (n.val / 5000) hq) wa ba
            (rows6 (F := Ideal) mask (n.val / 5000) hq) wb bb (⟨n.val % 5000, Nat.mod_lt _ (by norm_num)⟩ : Fin 5000) k
          - Finset.univ.fold max (⊥ : EReal) (fun k : Fin 64 => Cert.KernelIdeal.PayValue.headLogits (rows6 (F := Ideal) h (n.val / 5000) hq) wa ba
            (rows6 (F := Ideal) mask (n.val / 5000) hq) wb bb (⟨n.val % 5000, Nat.mod_lt _ (by norm_num)⟩ : Fin 5000) k))) = _
  simp only [hL]

/-- After the region, at the exact instance, the output array's entry `(n, j)` is the specification's row-wise
    log-softmax of the logits of the six input arrays as the region finds them. -/
theorem final6_apply
    (VI : (c : Dev nD) → (b : Ref sig .tc) → Buf (Elt Ideal) ((c : Thread nD τ).loc b))
    (c : Dev nD) (n : Fin 100000) (j : Fin 64) :
    (dat6 (F := Ideal) VI c).arrAt 6 cfg6.N (ix2 n j)
      = Cert.Spec.logSoftmax (Cert.Spec.logits (fun n q => VI c (Pipeline.arrRef spec6 0) (ix2 n q))
          (fun q k => VI c (Pipeline.arrRef spec6 1) (ix2 q k)) (fun k => VI c (Pipeline.arrRef spec6 2) (ix2 (0 : Fin 1) k))
          (fun k j => VI c (Pipeline.arrRef spec6 3) (ix2 k j)) (fun j => VI c (Pipeline.arrRef spec6 4) (ix2 (0 : Fin 1) j))
          (fun n k => VI c (Pipeline.arrRef spec6 5) (ix2 n k))) n j := by
  rw [final6]
  exact G6_apply _ _ _ _ _ _ n j

end Cert.KernelIdeal.Hand

end
-- ==== Proof.LibERealSums.lean ====
/-
  Finite sums of extended reals.

  On the extended reals multiplication does not distribute over addition in general (⊤ + ⊥), but it does when the
  common factor is a finite nonnegative number: then `(∑ a j) * d = ∑ (a j * d)` for every finite family `a`.
  The coercion of a finite real sum is the sum of the coercions.
-/
import Mathlib.Data.EReal.Operations
import Mathlib.Algebra.BigOperators.Group.Finset.Basic

namespace Cert.LibEReal

open Finset

/-- The coercion ℝ → EReal commutes with finite sums. -/
theorem coe_sum {ι : Type*} (s : Finset ι) (f : ι → ℝ) :
    ((∑ i ∈ s, f i : ℝ) : EReal) = ∑ i ∈ s, (f i : EReal) := by
  classical
  induction s using Finset.induction_on with
  | empty => simp
  | insert i s hi ih => rw [Finset.sum_insert hi, Finset.sum_insert hi, EReal.coe_add, ih]

/-- A finite nonnegative factor distributes over any finite sum of extended reals (from the right). -/
theorem sum_mul_of_nonneg_ne_top {ι : Type*} (s : Finset ι) (a : ι → EReal) {d : EReal} (h0 : 0 ≤ d) (ht : d ≠ ⊤) :
    (∑ j ∈ s, a j) * d = ∑ j ∈ s, a j * d := by
  classical
  induction s using Finset.induction_on with
  | empty => simp
  | insert i s hi ih =>
    rw [Finset.sum_insert hi, Finset.sum_insert hi, EReal.right_distrib_of_nonneg_of_ne_top h0 ht, ih]

/-- The same from the left. -/
theorem mul_sum_of_nonneg_ne_top {ι : Type*} (s : Finset ι) (a : ι → EReal) {d : EReal} (h0 : 0 ≤ d) (ht : d ≠ ⊤) :
    d * (∑ j ∈ s, a j) = ∑ j ∈ s, d * a j := by
  rw [EReal.mul_comm, sum_mul_of_nonneg_ne_top s a h0 ht]
  exact Finset.sum_congr rfl fun j _ => EReal.mul_comm _ _

/-- A finite sum of real numbers, as an extended real, is a real number. -/
theorem sum_coe_eq_coe {ι : Type*} (s : Finset ι) (a : ι → EReal) (f : ι → ℝ) (h : ∀ j ∈ s, a j = (f j : EReal)) :
    ∑ j ∈ s, a j = ((∑ j ∈ s, f j : ℝ) : EReal) := by
  rw [coe_sum]; exact Finset.sum_congr rfl h

end Cert.LibEReal
-- ==== Proof.LibERealOps.lean ====
import Idealize.ShloMosaic.PureOps.Ideal
import Idealize.ShloMosaic.PureOps.Ideal.Laws

/-!
Extended-real facts about the ideal float operations at real arguments: a quotient and a
reciprocal square root of reals are the real ones, the reciprocal square root of a positive
extended real is nonnegative and finite, a few f32 bit patterns and the reals they denote,
the maximum of two reals, and the logistic function as a quotient.
-/

namespace Cert.LibERealOps

open Idealize.ShloMosaic

/-- A quotient of two reals by a nonzero divisor is the real quotient. -/
theorem div_coe_coe (a b : ℝ) (hb : b ≠ 0) :
    Ideal.div (a : EReal) (b : EReal) = ((a / b : ℝ) : EReal) := by
  rw [Ideal.div, if_neg (by exact_mod_cast hb), ← EReal.coe_inv, ← EReal.coe_mul, div_eq_mul_inv]

/-- The reciprocal square root of a positive real is the real `(√r)⁻¹`. -/
theorem rsqrt_coe_pos (r : ℝ) (hr : 0 < r) :
    Ideal.rsqrt (r : EReal) = (((Real.sqrt r)⁻¹ : ℝ) : EReal) := by
  rw [Ideal.rsqrt_coe, if_neg (not_lt.mpr hr.le), if_neg hr.ne']

/-- On a positive extended real the reciprocal square root is nonnegative and not `⊤`:
    `⊤ ↦ 0`, and a positive real goes to the positive real `(√r)⁻¹`. -/
theorem rsqrt_nonneg_ne_top (y : EReal) (hy : 0 < y) :
    0 ≤ Ideal.rsqrt y ∧ Ideal.rsqrt y ≠ ⊤ := by
  induction y using EReal.rec with
  | bot => exact absurd hy (not_lt.mpr bot_le)
  | coe r =>
    have hr : 0 < r := by exact_mod_cast hy
    rw [rsqrt_coe_pos r hr]
    refine ⟨?_, EReal.coe_ne_top _⟩
    exact_mod_cast inv_nonneg.mpr (Real.sqrt_nonneg r)
  | top => exact ⟨by rw [Ideal.rsqrt_top], by rw [Ideal.rsqrt_top]; exact EReal.zero_ne_top⟩

/-! ### f32 bit patterns: sign `0`, biased exponent `E`, fraction `T` denote `(2^23 + T) · 2^(E - 150)` -/

/-- `E = 143`, `2^23 + T = 12800000`: the value is `12800000 / 2^7 = 100000`. -/
theorem ofBits_1e5 : Ideal.ofBits .f32 0x47C35000#32 = ((100000 : ℝ) : EReal) := by
  have h : Ideal.ofBits .f32 0x47C35000#32 = (((12800000 : ℝ) * (2 ^ 7)⁻¹ : ℝ) : EReal) := by
    simp [Ideal.ofBits, Ideal.ieee]
  rw [h]
  norm_num

/-- `E = 127`, `T = 0`: the value is `2^23 / 2^23 = 1`. -/
theorem ofBits_one : Ideal.ofBits .f32 0x3F800000#32 = ((1 : ℝ) : EReal) := by
  have h : Ideal.ofBits .f32 0x3F800000#32 = (((8388608 : ℝ) * (2 ^ 23)⁻¹ : ℝ) : EReal) := by
    simp [Ideal.ofBits, Ideal.ieee]
  rw [h]
  norm_num

/-- `E = 110`: the value is the positive real `10995116 / 2^40` (about `1e-5`). -/
theorem ofBits_eps : ∃ e : ℝ, 0 < e ∧ Ideal.ofBits .f32 0x3727C5AC#32 = (e : EReal) := by
  have h : Ideal.ofBits .f32 0x3727C5AC#32 = (((10995116 : ℝ) * (2 ^ 40)⁻¹ : ℝ) : EReal) := by
    simp [Ideal.ofBits, Ideal.ieee]
  exact ⟨_, by positivity, h⟩

/-- `E = 87`: the value is the positive real `9223372 / 2^63` (about `1e-12`). -/
theorem ofBits_tiny : ∃ e : ℝ, 0 < e ∧ Ideal.ofBits .f32 0x2B8CBCCC#32 = (e : EReal) := by
  have h : Ideal.ofBits .f32 0x2B8CBCCC#32 = (((9223372 : ℝ) * (2 ^ 63)⁻¹ : ℝ) : EReal) := by
    simp [Ideal.ofBits, Ideal.ieee]
  exact ⟨_, by positivity, h⟩

/-- `E = 120`: the value is the real `10737418 / 2^30` (about `0.01`). -/
theorem ofBits_slope : ∃ s : ℝ, Ideal.ofBits .f32 0x3C23D70A#32 = (s : EReal) := by
  have h : Ideal.ofBits .f32 0x3C23D70A#32 = (((10737418 : ℝ) * (2 ^ 30)⁻¹ : ℝ) : EReal) := by
    simp [Ideal.ofBits, Ideal.ieee]
  exact ⟨_, h⟩

/-- The maximum of two reals, taken in the extended reals, is the real maximum: the
    embedding of the reals is monotone. -/
theorem max_coe (a b : ℝ) : max (a : EReal) (b : EReal) = ((max a b : ℝ) : EReal) :=
  (EReal.coe_strictMono.monotone.map_max).symm

/-- The logistic function is by definition `1 / (1 + e⁻ˣ)`. -/
theorem logistic_eq (x : EReal) : Ideal.logistic x = Ideal.div 1 (1 + Ideal.exp (-x)) := rfl

end Cert.LibERealOps
-- ==== Proof.LibStats.lean ====
import Mathlib.Algebra.BigOperators.Fin
import Mathlib.Analysis.SpecialFunctions.Pow.Real

/-!
Real-number identities of a batch normalisation computed two ways: the two-pass variance
`E[(x - E x)²]` against the clamped one-pass `max (E[x²] - (E x)²) 0`, a sum over `B · R` indices
split into `B` blocks of `R`, and the normalisation's scale and shift folded into the weights of a
following contraction.
-/

namespace Cert.LibStats

open Finset

/-- With `m = (∑ l) / N`, `∑ (l n - m)² = ∑ l n² - 2 m ∑ l + N m² = ∑ l n² - (∑ l)² / N`; dividing by
    `N` gives `E[x²] - (E x)²`. The left side is a sum of squares over a positive number, so the
    difference is nonnegative and the clamp at `0` does nothing. -/
theorem var_one_pass {N : ℕ} (l : Fin N → ℝ) (Nr : ℝ) (hNr : Nr = (N : ℝ)) (hpos : 0 < Nr) :
    (∑ n, (l n - (∑ n, l n) / Nr) * (l n - (∑ n, l n) / Nr)) / Nr
      = max ((∑ n, l n * l n) / Nr - ((∑ n, l n) / Nr) * ((∑ n, l n) / Nr)) 0 := by
  have hne : Nr ≠ 0 := hpos.ne'
  have hexp : ∀ m : ℝ, ∑ n, (l n - m) * (l n - m)
      = (∑ n, l n * l n) - 2 * m * (∑ n, l n) + Nr * (m * m) := by
    intro m
    have h1 : ∀ n, (l n - m) * (l n - m) = l n * l n - 2 * m * l n + m * m := fun n => by ring
    simp only [h1, sum_add_distrib, sum_sub_distrib, ← mul_sum, sum_const, card_univ,
      Fintype.card_fin, nsmul_eq_mul, hNr]
    ring
  have key : (∑ n, (l n - (∑ n, l n) / Nr) * (l n - (∑ n, l n) / Nr)) / Nr
      = (∑ n, l n * l n) / Nr - ((∑ n, l n) / Nr) * ((∑ n, l n) / Nr) := by
    rw [hexp]
    field_simp
    ring
  rw [max_eq_left]
  · exact key
  · rw [← key]
    exact div_nonneg (sum_nonneg fun n _ => mul_self_nonneg _) hpos.le

/-- A map `h` with `h b r = R · b + r` is the standard bijection `Fin B × Fin R ≃ Fin (B · R)`, so the
    iterated sum over blocks and rows is the sum over all `B · R` indices. -/
theorem sum_blocks {B R : ℕ} {M : Type*} [AddCommMonoid M] (g : Fin (B * R) → M)
    (h : Fin B → Fin R → Fin (B * R)) (hval : ∀ b r, (h b r).val = R * b.val + r.val) :
    ∑ b : Fin B, ∑ r : Fin R, g (h b r) = ∑ n : Fin (B * R), g n := by
  have hh : ∀ b r, h b r = finProdFinEquiv (b, r) := by
    intro b r
    apply Fin.ext
    rw [hval]
    simp [finProdFinEquiv, add_comm]
  simp only [hh]
  rw [← Fintype.sum_prod_type']
  exact Equiv.sum_comp finProdFinEquiv g

/-- Termwise, `((l - μ) · s · g + b) · W = l · (g · s · W) + (b - μ · (g · s)) · W`: the scale goes into
    the weight and the shift into a bias term. -/
theorem bn_fold {K : ℕ} (l mu rs g b W : Fin K → ℝ) :
    ∑ k, ((((l k - mu k) * rs k) * g k) + b k) * W k
      = (∑ k, l k * ((g k * rs k) * W k)) + ∑ k, (b k - mu k * (g k * rs k)) * W k := by
  rw [← sum_add_distrib]
  exact sum_congr rfl fun k _ => by ring

end Cert.LibStats
-- ==== Proof.LibLayerStats.lean ====
import proofs.«160011_j2121713844488_1_alg».proof.Proof.LibERealSums
import proofs.«160011_j2121713844488_1_alg».proof.Proof.LibERealOps
import proofs.«160011_j2121713844488_1_alg».proof.Proof.LibStats
import Idealize.ShloMosaic.Lib.ValueIdx

/-!
Batch statistics of one column of a real matrix, computed two ways in the extended reals.

One way sums the column block by block (a running row that starts at zero and receives each block's
sum), divides the sum and the sum of squares by the number of rows and takes `E[x²] - (E x)²`. The
other way divides the whole column's sum by the number of rows and then averages the squared
deviations from that mean, under a guard that the divisor is positive. In the extended reals
`∑ (x - m)² / N = ∑ x² / N - m²` fails at the infinities, so every statement carries real witnesses
of the entries: with them both computations are the coercions of the same real numbers, the variance
is nonnegative, and the normalised value `(x - mean) · rsqrt (var + eps) · gamma + beta` is again a
real number.
-/

noncomputable section

namespace Cert.LibLayerStats

open Finset Idealize.ShloMosaic

/-! ### Real identities -/

/-- With `m = (∑ l) / N`: `∑ (l n - m)² = ∑ l n² - 2 m ∑ l + N m²`, and dividing by `N` gives
    `E[(x - E x)²] = E[x²] - (E x)²`. No clamp: the identity is exact over the reals. -/
theorem var_two_pass {N : ℕ} (l : Fin N → ℝ) (Nr : ℝ) (hNr : Nr = (N : ℝ)) (hpos : 0 < Nr) :
    (∑ n, (l n - (∑ n, l n) / Nr) * (l n - (∑ n, l n) / Nr)) / Nr
      = (∑ n, l n * l n) / Nr - ((∑ n, l n) / Nr) * ((∑ n, l n) / Nr) := by
  have hne : Nr ≠ 0 := hpos.ne'
  have hexp : ∀ m : ℝ, ∑ n, (l n - m) * (l n - m)
      = (∑ n, l n * l n) - 2 * m * (∑ n, l n) + Nr * (m * m) := by
    intro m
    have h1 : ∀ n, (l n - m) * (l n - m) = l n * l n - 2 * m * l n + m * m := fun n => by ring
    simp only [h1, sum_add_distrib, sum_sub_distrib, ← mul_sum, sum_const, card_univ,
      Fintype.card_fin, nsmul_eq_mul, hNr]
    ring
  rw [hexp]
  field_simp
  ring

/-- A mean of squares over a positive count is nonnegative. -/
theorem mean_sq_dev_nonneg {N : ℕ} (l : Fin N → ℝ) (m Nr : ℝ) (hpos : 0 < Nr) :
    0 ≤ (∑ n, (l n - m) * (l n - m)) / Nr :=
  div_nonneg (sum_nonneg fun n _ => mul_self_nonneg _) hpos.le

/-! ### Sums over blocks -/

/-- A sum over `B` blocks of `R` consecutive indices each is the sum over all `N = B · R` indices. -/
theorem sum_blocks_eq {B R N : ℕ} {M : Type*} [AddCommMonoid M] (g : Fin N → M)
    (blk : Fin B → Fin R → Fin N) (hblk : ∀ b r, (blk b r).val = R * b.val + r.val) (hBR : B * R = N) :
    ∑ b : Fin B, ∑ r : Fin R, g (blk b r) = ∑ n : Fin N, g n := by
  subst hBR
  exact Cert.LibStats.sum_blocks g blk hblk

/-- A running total over blocks: it starts as zero plus the first block's sum and each later block's
    sum is added to it. -/
def accS {M : Type*} [AddCommMonoid M] (blockSum : ℕ → M) : ℕ → M
  | 0 => 0 + blockSum 0
  | b + 1 => accS blockSum b + blockSum (b + 1)

/-- After block `b` the running total is zero plus the sum of the blocks `0, …, b` (associativity of
    addition only: nothing is assumed finite). -/
theorem accS_eq_range {M : Type*} [AddCommMonoid M] (blockSum : ℕ → M) (b : ℕ) :
    accS blockSum b = 0 + ∑ i ∈ range (b + 1), blockSum i := by
  induction b with
  | zero => simp [accS]
  | succ b ih => rw [accS, ih, sum_range_succ _ (b + 1), add_assoc]

/-- After the last of `B` blocks the running total is zero plus the sum over all the blocks. -/
theorem accS_last {M : Type*} [AddCommMonoid M] {B : ℕ} (hB : 0 < B) (blockSum : ℕ → M) :
    accS blockSum (B - 1) = 0 + ∑ b : Fin B, blockSum b.val := by
  rw [accS_eq_range, Nat.sub_add_cancel hB, Finset.sum_range]

/-- The same running total as a left fold over the list of blocks `0, …, B - 1` from the zero. -/
theorem foldl_blocks {M : Type*} [AddCommMonoid M] (blockSum : ℕ → M) (B : ℕ) :
    (List.range B).foldl (fun acc b => acc + blockSum b) 0 = 0 + ∑ b : Fin B, blockSum b.val := by
  rw [zero_add, ← Finset.sum_range (fun i => blockSum i)]
  induction B with
  | zero => simp
  | succ B ih => rw [List.range_succ, List.foldl_append, ih, sum_range_succ]; rfl

/-! ### Real sums inside the extended reals -/

/-- Zero plus a finite sum of (coercions of) reals is the coercion of the real sum. -/
theorem zero_add_sum_coe {ι : Type*} (s : Finset ι) (a : ι → EReal) (f : ι → ℝ)
    (h : ∀ j ∈ s, a j = (f j : EReal)) :
    (0 : EReal) + ∑ j ∈ s, a j = ((∑ j ∈ s, f j : ℝ) : EReal) := by
  rw [zero_add]
  exact Cert.LibEReal.sum_coe_eq_coe s a f h

/-- The mean of a real column: zero plus its sum, divided by a nonzero real, is the real quotient. -/
theorem mean_coe {N : ℕ} (z : Fin N → EReal) (zr : Fin N → ℝ) (hz : ∀ n, z n = (zr n : EReal))
    (c : EReal) (Nr : ℝ) (hc : c = (Nr : EReal)) (hne : Nr ≠ 0) :
    Ideal.div (0 + ∑ n, z n) c = (((∑ n, zr n) / Nr : ℝ) : EReal) := by
  rw [zero_add_sum_coe univ z zr (fun n _ => hz n), hc, Cert.LibERealOps.div_coe_coe _ _ hne]

/-- The mean of the squares of a real column is the real quotient. -/
theorem mean_sq_coe {N : ℕ} (z : Fin N → EReal) (zr : Fin N → ℝ) (hz : ∀ n, z n = (zr n : EReal))
    (c : EReal) (Nr : ℝ) (hc : c = (Nr : EReal)) (hne : Nr ≠ 0) :
    Ideal.div (0 + ∑ n, z n * z n) c = (((∑ n, zr n * zr n) / Nr : ℝ) : EReal) := by
  rw [zero_add_sum_coe univ (fun n => z n * z n) (fun n => zr n * zr n)
    (fun n _ => by rw [hz n, EReal.coe_mul]), hc, Cert.LibERealOps.div_coe_coe _ _ hne]

/-- The mean of the squared deviations of a real column from a real number is the real quotient. -/
theorem mean_sq_dev_coe {N : ℕ} (z : Fin N → EReal) (zr : Fin N → ℝ) (hz : ∀ n, z n = (zr n : EReal))
    (m : ℝ) (c : EReal) (Nr : ℝ) (hc : c = (Nr : EReal)) (hne : Nr ≠ 0) :
    Ideal.div (0 + ∑ n, (z n - (m : EReal)) * (z n - (m : EReal))) c
      = (((∑ n, (zr n - m) * (zr n - m)) / Nr : ℝ) : EReal) := by
  rw [zero_add_sum_coe univ (fun n => (z n - (m : EReal)) * (z n - (m : EReal)))
    (fun n => (zr n - m) * (zr n - m))
    (fun n _ => by rw [hz n, ← EReal.coe_sub, ← EReal.coe_mul]), hc,
    Cert.LibERealOps.div_coe_coe _ _ hne]

/-! ### The two computations of the statistics agree -/

/-- The statistics of a real column `z` of `N = B · R` entries, computed block by block with the
    one-pass variance `E[x²] - (E x)²` and computed over the whole column with the two-pass variance
    `E[(x - E x)²]`, agree; both are real numbers and the variance is nonnegative. The two-pass
    variance's divisor `c'` is a second expression of the same count. -/
theorem stats_eq_unclamped_core {B R N : ℕ} (z : Fin N → EReal) (zr : Fin N → ℝ)
    (hz : ∀ n, z n = (zr n : EReal))
    (blk : Fin B → Fin R → Fin N) (hblk : ∀ b r, (blk b r).val = R * b.val + r.val) (hBR : B * R = N)
    (c c' : EReal) (Nr : ℝ) (hc : c = (Nr : EReal)) (hc' : c' = (Nr : EReal))
    (hNr : Nr = (N : ℝ)) (hpos : 0 < Nr) :
    Ideal.div (0 + ∑ b, ∑ r, z (blk b r)) c = Ideal.div (0 + ∑ n, z n) c
    ∧ Ideal.div (0 + ∑ b, ∑ r, z (blk b r) * z (blk b r)) c
          - Ideal.div (0 + ∑ b, ∑ r, z (blk b r)) c * Ideal.div (0 + ∑ b, ∑ r, z (blk b r)) c
        = Ideal.div (0 + ∑ n, (z n - Ideal.div (0 + ∑ n, z n) c) * (z n - Ideal.div (0 + ∑ n, z n) c)) c'
    ∧ ∃ mr vr : ℝ, Ideal.div (0 + ∑ n, z n) c = (mr : EReal)
        ∧ Ideal.div (0 + ∑ n, (z n - Ideal.div (0 + ∑ n, z n) c) * (z n - Ideal.div (0 + ∑ n, z n) c)) c'
            = (vr : EReal)
        ∧ 0 ≤ vr := by
  have hne : Nr ≠ 0 := hpos.ne'
  have hS : ∑ b, ∑ r, z (blk b r) = ∑ n, z n := sum_blocks_eq z blk hblk hBR
  have hQ : ∑ b, ∑ r, z (blk b r) * z (blk b r) = ∑ n, z n * z n :=
    sum_blocks_eq (fun n => z n * z n) blk hblk hBR
  have hm := mean_coe z zr hz c Nr hc hne
  have hq := mean_sq_coe z zr hz c Nr hc hne
  have hv := mean_sq_dev_coe z zr hz ((∑ n, zr n) / Nr) c' Nr hc' hne
  refine ⟨by rw [hS], ?_, (∑ n, zr n) / Nr, _, hm, by rw [hm]; exact hv,
    mean_sq_dev_nonneg zr _ Nr hpos⟩
  rw [hS, hQ, hq, hm, hv, ← EReal.coe_mul, ← EReal.coe_sub, var_two_pass zr Nr hNr hpos]

/-- The same with the two-pass divisor written `c - 0`, as a variance with no degrees of freedom
    removed prints it. -/
theorem stats_eq_unclamped {B R N : ℕ} (z : Fin N → EReal) (zr : Fin N → ℝ)
    (hz : ∀ n, z n = (zr n : EReal))
    (blk : Fin B → Fin R → Fin N) (hblk : ∀ b r, (blk b r).val = R * b.val + r.val) (hBR : B * R = N)
    (c : EReal) (Nr : ℝ) (hc : c = (Nr : EReal)) (hNr : Nr = (N : ℝ)) (hpos : 0 < Nr) :
    Ideal.div (0 + ∑ b, ∑ r, z (blk b r)) c = Ideal.div (0 + ∑ n, z n) c
    ∧ Ideal.div (0 + ∑ b, ∑ r, z (blk b r) * z (blk b r)) c
          - Ideal.div (0 + ∑ b, ∑ r, z (blk b r)) c * Ideal.div (0 + ∑ b, ∑ r, z (blk b r)) c
        = Ideal.div (0 + ∑ n, (z n - Ideal.div (0 + ∑ n, z n) c) * (z n - Ideal.div (0 + ∑ n, z n) c)) (c - 0)
    ∧ ∃ mr vr : ℝ, Ideal.div (0 + ∑ n, z n) c = (mr : EReal)
        ∧ Ideal.div (0 + ∑ n, (z n - Ideal.div (0 + ∑ n, z n) c) * (z n - Ideal.div (0 + ∑ n, z n) c)) (c - 0)
            = (vr : EReal)
        ∧ 0 ≤ vr :=
  stats_eq_unclamped_core z zr hz blk hblk hBR c (c - 0) Nr hc (by rw [sub_zero, hc]) hNr hpos

/-! ### The guard of the two-pass variance -/

/-- The signed 32-bit zero converts to the real zero. -/
theorem sitofp_zero : ((((0#32 : BitVec 32).toInt : ℤ) : ℝ) : EReal) = 0 := by simp

/-- The count minus the converted zero is the count minus zero. -/
theorem count_sub_sitofp_zero (c : EReal) :
    c - ((((0#32 : BitVec 32).toInt : ℤ) : ℝ) : EReal) = c - 0 := by rw [sitofp_zero]

/-- A positive real count minus zero is greater than zero: the ordered "greater than" comparison
    answers the true bit. -/
theorem guard_cmp (c k zero : EReal) (Nr : ℝ) (hc : c = (Nr : EReal)) (hpos : 0 < Nr)
    (hk : k = 0) (h0 : zero = 0) :
    Ideal.cmp .ogt (c - k) zero = 1#1 := by
  subst hk h0 hc
  have h : (0 : EReal) < (Nr : EReal) - 0 := by rw [sub_zero]; exact_mod_cast hpos
  show BitVec.ofBool (decide ((0 : EReal) < (Nr : EReal) - 0)) = 1#1
  rw [decide_eq_true h]; rfl

/-- The guard at the count `100000` (the f32 word `0x47C35000`), the converted 32-bit zero and the
    zero word. -/
theorem guard_cmp_1e5 :
    Ideal.cmp .ogt (Ideal.ofBits .f32 0x47C35000#32 - ((((0#32 : BitVec 32).toInt : ℤ) : ℝ) : EReal))
      (Ideal.ofBits .f32 0x00000000#32) = 1#1 :=
  guard_cmp _ _ _ 100000 Cert.LibERealOps.ofBits_1e5 (by norm_num) sitofp_zero Ideal.ofBits_zero_f32

/-- Under a true guard the selection returns its first branch. -/
theorem select_guard {α : Type} (g : BitVec 1) (hg : g = 1#1) (a b : α) : Scalar.select g a b = a := by
  rw [hg]; exact if_pos rfl

/-! ### The normalised value is real -/

/-- `(x - mean) · rsqrt (var + eps) · gamma + beta` at real arguments with `0 ≤ var` and `0 < eps` is
    the real number `(x - mean) · (√(var + eps))⁻¹ · gamma + beta`. -/
theorem norm_coe (zr mr vr er gr br : ℝ) (hv : 0 ≤ vr) (he : 0 < er) :
    ((zr : EReal) - (mr : EReal)) * Ideal.rsqrt ((vr : EReal) + (er : EReal)) * (gr : EReal) + (br : EReal)
      = (((zr - mr) * (Real.sqrt (vr + er))⁻¹ * gr + br : ℝ) : EReal) := by
  rw [← EReal.coe_add vr er, Cert.LibERealOps.rsqrt_coe_pos _ (by linarith), ← EReal.coe_sub,
    ← EReal.coe_mul, ← EReal.coe_mul, ← EReal.coe_add]

/-- The normalised value of real data is a real number. -/
theorem norm_real (z mean var eps gamma beta : EReal) (zr mr vr er gr br : ℝ)
    (hz : z = (zr : EReal)) (hm : mean = (mr : EReal)) (hvar : var = (vr : EReal)) (hv : 0 ≤ vr)
    (heps : eps = (er : EReal)) (he : 0 < er) (hg : gamma = (gr : EReal)) (hb : beta = (br : EReal)) :
    ∃ r : ℝ, (z - mean) * Ideal.rsqrt (var + eps) * gamma + beta = (r : EReal) := by
  subst hz hm hvar heps hg hb
  exact ⟨_, norm_coe zr mr vr er gr br hv he⟩

/-- The same with `eps` the f32 word `0x3727C5AC` (about `1e-5`, a positive real). -/
theorem norm_real_eps (z mean var gamma beta : EReal) (zr mr vr gr br : ℝ)
    (hz : z = (zr : EReal)) (hm : mean = (mr : EReal)) (hvar : var = (vr : EReal)) (hv : 0 ≤ vr)
    (hg : gamma = (gr : EReal)) (hb : beta = (br : EReal)) :
    ∃ r : ℝ, (z - mean) * Ideal.rsqrt (var + Ideal.ofBits .f32 0x3727C5AC#32) * gamma + beta = (r : EReal) := by
  obtain ⟨e, he, heq⟩ := Cert.LibERealOps.ofBits_eps
  exact norm_real z mean var _ gamma beta zr mr vr e gr br hz hm hvar hv heq he hg hb

end Cert.LibLayerStats
-- ==== Proof.RefAt.lean ====
/-
  The reference's stages read entry by entry on the extended reals and identified with the specification's functions.
  A host matrix product at (n, j) is the sum over the contracted coordinate; a bias vector placed as a row and repeated
  down the rows reads its entry j; the zero word spread over an array reads 0; a column sum is the initial zero plus
  the sum down the column; the variance's guard on its divisor holds for the row count's word, so the guarded
  selection returns the quotient; a row maximum folded from −∞ is unchanged by one more maximum against −∞.
-/
import proofs.«160011_j2121713844488_1_alg».proof.Proof.RefRunStages
import proofs.«160011_j2121713844488_1_alg».proof.Proof.Spec
import proofs.«160011_j2121713844488_1_alg».proof.Proof.LibHostApply
import proofs.«160011_j2121713844488_1_alg».proof.Proof.LibLayerStats
import Idealize.ShloMosaic.PureOps.Ideal.Laws

noncomputable section

namespace Cert.ReferenceIdeal.RefAt

open Cert.ReferenceIdeal Cert.ReferenceIdeal.Gen Idealize.ShloMosaic Idealize.ShloMosaic.ValueIdx

/-! ### General forms over literal shapes -/

/-- The zero word spread over any shape reads 0. -/
theorem zeros_apply {T : Shape} (h : (⟨0, ![]⟩ : Shape).BroadcastsInDim T ![]) (j : T.Idx) :
    broadcastInDim T ![] h (constant (F := Ideal) ⟨0, ![]⟩ .f32 0x00000000#32) j = 0 :=
  (Cert.LibHostApply.broadcastInDim_scalar_apply h _ j).trans Ideal.ofBits_zero_f32

/-- A vector placed as the one row of a 1 × C array and repeated down N rows reads, at (n, f), its entry f. -/
theorem biasRows_apply {α : Type} {N C : Nat} (v : (⟨1, ![C]⟩ : Shape).Idx → α)
    (h1 : (⟨1, ![C]⟩ : Shape).BroadcastsInDim ⟨2, ![1, C]⟩ (![1] : Fin 1 → Fin 2))
    (h2 : (⟨2, ![1, C]⟩ : Shape).BroadcastsInDim ⟨2, ![N, C]⟩ (![0, 1] : Fin 2 → Fin 2)) (n : Fin N) (f : Fin C) :
    broadcastInDim ⟨2, ![N, C]⟩ ![0, 1] h2 (broadcastInDim ⟨2, ![1, C]⟩ ![1] h1 v) (ix2 n f) = v (ix1 f) :=
  (Cert.LibHostApply.broadcastInDim_rows_apply _ h2 n f).trans (Cert.LibHostApply.broadcastInDim_row_apply v h1 f)

/-- A vector placed as the one column of an N × 1 array and repeated across C columns reads, at (n, f), its entry n. -/
theorem keepCols_apply {α : Type} {N C : Nat} (v : (⟨1, ![N]⟩ : Shape).Idx → α)
    (h1 : (⟨1, ![N]⟩ : Shape).BroadcastsInDim ⟨2, ![N, 1]⟩ (![0] : Fin 1 → Fin 2))
    (h2 : (⟨2, ![N, 1]⟩ : Shape).BroadcastsInDim ⟨2, ![N, C]⟩ (![0, 1] : Fin 2 → Fin 2)) (n : Fin N) (f : Fin C) :
    broadcastInDim ⟨2, ![N, C]⟩ ![0, 1] h2 (broadcastInDim ⟨2, ![N, 1]⟩ ![0] h1 v) (ix2 n f) = v (ix1 n) :=
  (Cert.LibHostApply.broadcastInDim_cols_apply _ h2 n f).trans (Cert.LibHostApply.broadcastInDim_col_apply v h1 n)

/-- One dense layer with its bias row and the rectifier, as the host spells it, at (n, f). -/
theorem denseRelu_apply {N K C : Nat}
    (wf : DotDims.WF ⟨2, ![N, K]⟩ ⟨2, ![K, C]⟩ ⟨2, ![N, C]⟩ [1] [0] [0] [1] [] [])
    (h1 : (⟨1, ![C]⟩ : Shape).BroadcastsInDim ⟨2, ![1, C]⟩ (![1] : Fin 1 → Fin 2))
    (h2 : (⟨2, ![1, C]⟩ : Shape).BroadcastsInDim ⟨2, ![N, C]⟩ (![0, 1] : Fin 2 → Fin 2))
    (h0 : (⟨0, ![]⟩ : Shape).BroadcastsInDim ⟨2, ![N, C]⟩ ![])
    (x : FVec Ideal ⟨2, ![N, K]⟩ .f32) (w : FVec Ideal ⟨2, ![K, C]⟩ .f32) (b : FVec Ideal ⟨1, ![C]⟩ .f32)
    (n : Fin N) (f : Fin C) :
    maximumf (addf (Host.dotGeneral (Cert.LibHostApply.mmDims N K C wf) none x w)
        (broadcastInDim ⟨2, ![N, C]⟩ ![0, 1] h2 (broadcastInDim ⟨2, ![1, C]⟩ ![1] h1 b)))
      (broadcastInDim ⟨2, ![N, C]⟩ ![] h0 (constant (F := Ideal) ⟨0, ![]⟩ .f32 0x00000000#32)) (ix2 n f)
      = max ((∑ k : Fin K, x (ix2 n k) * w (ix2 k f)) + b (ix1 f)) 0 := by
  show max (Host.dotGeneral (Cert.LibHostApply.mmDims N K C wf) none x w (ix2 n f)
        + broadcastInDim ⟨2, ![N, C]⟩ ![0, 1] h2 (broadcastInDim ⟨2, ![1, C]⟩ ![1] h1 b) (ix2 n f))
      (broadcastInDim ⟨2, ![N, C]⟩ ![] h0 (constant (F := Ideal) ⟨0, ![]⟩ .f32 0x00000000#32) (ix2 n f)) = _
  rw [zeros_apply, biasRows_apply, Cert.LibHostApply.dotGeneral_mm_apply]

/-- The host's sum over axis 1 of an N × C array, read at row n: the initial value plus the sum of the row's entries. -/
theorem reduceAdd_rows_apply {N C : Nat} {φ : FTy} {u : Shape} (x : FVec Ideal ⟨2, ![N, C]⟩ φ) (init : u.Idx → Ideal φ)
    (h' : (⟨2, ![N, C]⟩ : Shape).ReducesTo [1] ⟨1, ![N]⟩) (hu : 0 < u.numel) (n : Fin N) :
    Host.reduceAdd x init h' hu (ix1 n) = init (Shape.Idx.first hu) + ∑ k : Fin C, x (ix2 n k) := by
  have h : (⟨2, ![N, C]⟩ : Shape).Reduces [1] ⟨1, ![N]⟩ := ⟨h'.1, Nat.one_pos, h'.2⟩
  show Ideal.hostReduceAdd h' x _ (ix1 n) = _
  rw [Ideal.hostReduceAdd_single h' h]
  refine congrArg (_ + ·) (Finset.sum_congr rfl fun k _ => ?_)
  refine congrArg x (funext fun a => Fin.ext ?_)
  match a with
  | ⟨0, _⟩ => rfl
  | ⟨1, _⟩ => rfl

/-- The host's maximum over axis 1 of an N × C array, read at row n: the fold of max from the initial value over the
    row's entries. -/
theorem reduceMax_rows_apply {N C : Nat} {u : Shape} (x : FVec Ideal ⟨2, ![N, C]⟩ .f32) (init : u.Idx → Ideal .f32)
    (h' : (⟨2, ![N, C]⟩ : Shape).ReducesTo [1] ⟨1, ![N]⟩) (hu : 0 < u.numel) (n : Fin N) :
    Host.reduce FloatOps.maximumf x init h' hu (ix1 n)
      = Finset.univ.fold max (init (Shape.Idx.first hu)) (fun k : Fin C => x (ix2 n k)) := by
  have h : (⟨2, ![N, C]⟩ : Shape).Reduces [1] ⟨1, ![N]⟩ := ⟨h'.1, Nat.one_pos, h'.2⟩
  refine (Host.reduce_eq_fold_single FloatOps.maximumf x init h' h hu (ix1 n)).trans ?_
  show Finset.univ.fold max (init (Shape.Idx.first hu)) (fun k : Fin C => x (h.lift (ix1 n) k)) = _
  refine congrArg (Finset.univ.fold max (init (Shape.Idx.first hu))) (funext fun k => congrArg x (funext fun a => Fin.ext ?_))
  match a with
  | ⟨0, _⟩ => rfl
  | ⟨1, _⟩ => rfl

/-- The word the row maximum starts from is −∞. -/
theorem ofBits_neg_inf_f32 : Ideal.ofBits .f32 0xFF800000#32 = (⊥ : EReal) := by
  simp [Ideal.ofBits, Ideal.ieee]

/-- The row maximum as the host spells it — folded from −∞, once more against −∞, kept as a column and repeated across
    the columns — reads, at (n, c), the fold of max from −∞ over row n. -/
theorem rowMax_apply {N C : Nat} (x : FVec Ideal ⟨2, ![N, C]⟩ .f32)
    (hb : (⟨0, ![]⟩ : Shape).BroadcastsInDim ⟨1, ![N]⟩ ![])
    (h' : (⟨2, ![N, C]⟩ : Shape).ReducesTo [1] ⟨1, ![N]⟩) (hu : 0 < (⟨0, ![]⟩ : Shape).numel)
    (h1 : (⟨1, ![N]⟩ : Shape).BroadcastsInDim ⟨2, ![N, 1]⟩ (![0] : Fin 1 → Fin 2))
    (h2 : (⟨2, ![N, 1]⟩ : Shape).BroadcastsInDim ⟨2, ![N, C]⟩ (![0, 1] : Fin 2 → Fin 2)) (n : Fin N) (c : Fin C) :
    broadcastInDim ⟨2, ![N, C]⟩ ![0, 1] h2 (broadcastInDim ⟨2, ![N, 1]⟩ ![0] h1
        (maximumf (broadcastInDim ⟨1, ![N]⟩ ![] hb (constant (F := Ideal) ⟨0, ![]⟩ .f32 0xFF800000#32))
          (Host.reduce FloatOps.maximumf x (constant (F := Ideal) ⟨0, ![]⟩ .f32 0xFF800000#32) h' hu))) (ix2 n c)
      = Finset.univ.fold max (⊥ : EReal) (fun k : Fin C => x (ix2 n k)) := by
  refine (keepCols_apply _ h1 h2 n c).trans ?_
  show max (broadcastInDim ⟨1, ![N]⟩ ![] hb (constant (F := Ideal) ⟨0, ![]⟩ .f32 0xFF800000#32) (ix1 n))
      (Host.reduce FloatOps.maximumf x (constant (F := Ideal) ⟨0, ![]⟩ .f32 0xFF800000#32) h' hu (ix1 n)) = _
  rw [Cert.LibHostApply.broadcastInDim_scalar_apply, reduceMax_rows_apply]
  show max (Ideal.ofBits .f32 0xFF800000#32) (Finset.univ.fold max (Ideal.ofBits .f32 0xFF800000#32) _) = _
  rw [ofBits_neg_inf_f32, max_bot_left]

/-- The row-wise log-softmax as the host spells it, at (n, j): the entry minus its row's maximum, minus the logarithm
    of the row's sum of the exponentials of the same differences. -/
theorem logSoftmaxRows_apply {N C : Nat} (x : FVec Ideal ⟨2, ![N, C]⟩ .f32)
    (hb : (⟨0, ![]⟩ : Shape).BroadcastsInDim ⟨1, ![N]⟩ ![])
    (h' : (⟨2, ![N, C]⟩ : Shape).ReducesTo [1] ⟨1, ![N]⟩) (hu : 0 < (⟨0, ![]⟩ : Shape).numel)
    (h1 : (⟨1, ![N]⟩ : Shape).BroadcastsInDim ⟨2, ![N, 1]⟩ (![0] : Fin 1 → Fin 2))
    (h2 : (⟨2, ![N, 1]⟩ : Shape).BroadcastsInDim ⟨2, ![N, C]⟩ (![0, 1] : Fin 2 → Fin 2)) (n : Fin N) (j : Fin C) :
    subf (subf x (broadcastInDim ⟨2, ![N, C]⟩ ![0, 1] h2 (broadcastInDim ⟨2, ![N, 1]⟩ ![0] h1
        (maximumf (broadcastInDim ⟨1, ![N]⟩ ![] hb (constant (F := Ideal) ⟨0, ![]⟩ .f32 0xFF800000#32))
          (Host.reduce FloatOps.maximumf x (constant (F := Ideal) ⟨0, ![]⟩ .f32 0xFF800000#32) h' hu)))))
      (broadcastInDim ⟨2, ![N, C]⟩ ![0, 1] h2 (Host.log (broadcastInDim ⟨2, ![N, 1]⟩ ![0] h1
        (Host.reduceAdd (Host.exp (subf x (broadcastInDim ⟨2, ![N, C]⟩ ![0, 1] h2 (broadcastInDim ⟨2, ![N, 1]⟩ ![0] h1
        (maximumf (broadcastInDim ⟨1, ![N]⟩ ![] hb (constant (F := Ideal) ⟨0, ![]⟩ .f32 0xFF800000#32))
          (Host.reduce FloatOps.maximumf x (constant (F := Ideal) ⟨0, ![]⟩ .f32 0xFF800000#32) h' hu))))))
          (constant (F := Ideal) ⟨0, ![]⟩ .f32 0x00000000#32) h' hu)))) (ix2 n j)
      = (x (ix2 n j) - Finset.univ.fold max (⊥ : EReal) (fun k : Fin C => x (ix2 n k)))
          - Ideal.log (∑ k : Fin C, Ideal.exp (x (ix2 n k) - Finset.univ.fold max (⊥ : EReal) (fun k : Fin C => x (ix2 n k)))) := by
  show (x (ix2 n j) - (broadcastInDim ⟨2, ![N, C]⟩ ![0, 1] h2 (broadcastInDim ⟨2, ![N, 1]⟩ ![0] h1
        (maximumf (broadcastInDim ⟨1, ![N]⟩ ![] hb (constant (F := Ideal) ⟨0, ![]⟩ .f32 0xFF800000#32))
          (Host.reduce FloatOps.maximumf x (constant (F := Ideal) ⟨0, ![]⟩ .f32 0xFF800000#32) h' hu)))) (ix2 n j))
      - broadcastInDim ⟨2, ![N, C]⟩ ![0, 1] h2 (Host.log (broadcastInDim ⟨2, ![N, 1]⟩ ![0] h1
        (Host.reduceAdd (Host.exp (subf x (broadcastInDim ⟨2, ![N, C]⟩ ![0, 1] h2 (broadcastInDim ⟨2, ![N, 1]⟩ ![0] h1
        (maximumf (broadcastInDim ⟨1, ![N]⟩ ![] hb (constant (F := Ideal) ⟨0, ![]⟩ .f32 0xFF800000#32))
          (Host.reduce FloatOps.maximumf x (constant (F := Ideal) ⟨0, ![]⟩ .f32 0xFF800000#32) h' hu))))))
          (constant (F := Ideal) ⟨0, ![]⟩ .f32 0x00000000#32) h' hu))) (ix2 n j) = _
  refine congrArg₂ (· - ·) (congrArg (x (ix2 n j) - ·) (rowMax_apply x hb h' hu h1 h2 n j)) ?_
  refine (Cert.LibHostApply.broadcastInDim_cols_apply _ h2 n j).trans ?_
  refine congrArg Ideal.log ?_
  refine (Cert.LibHostApply.broadcastInDim_col_apply _ h1 n).trans ?_
  refine (reduceAdd_rows_apply _ _ h' hu n).trans ?_
  refine (congrArg₂ (· + ·) Ideal.ofBits_zero_f32 (Finset.sum_congr rfl fun k _ => ?_)).trans (zero_add _)
  exact congrArg Ideal.exp (congrArg (x (ix2 n k) - ·) (rowMax_apply x hb h' hu h1 h2 n k))

/-! ### The reference's stages at an index -/

/-- The perceptron stage is the specification's, entry by entry. -/
theorem mlp_apply (a : FVec Ideal S100000x128 .f32) (w1 : FVec Ideal S128x128 .f32) (b1 : FVec Ideal S128 .f32)
    (w2 : FVec Ideal S128x128 .f32) (b2 : FVec Ideal S128 .f32) (n : Fin 100000) (j : Fin 128) :
    RefRun.mlp (F := Ideal) a w1 b1 w2 b2 (ix2 n j)
      = Cert.Spec.mlp (fun n q => a (ix2 n q)) (fun q k => w1 (ix2 q k)) (fun k => b1 (ix1 k))
          (fun k j => w2 (ix2 k j)) (fun j => b2 (ix1 j)) n j := by
  unfold RefRun.mlp Cert.Spec.mlp
  refine (denseRelu_apply Facts₀.dot_S100000x128_S128x128_S100000x128_1_0_0_1_n_n_wf _ _ _ _ w2 b2 n j).trans ?_
  refine congrArg (fun t => max (t + b2 (ix1 j)) 0) (Finset.sum_congr rfl fun k _ => ?_)
  exact congrArg (· * w2 (ix2 k j))
    (denseRelu_apply Facts₀.dot_S100000x128_S128x128_S100000x128_1_0_0_1_n_n_wf _ _ _ a w1 b1 n k)

/-- The column mean: zero plus the column's sum, divided by the row count's word. -/
theorem colMean_apply (z : FVec Ideal S100000x128 .f32) (j : Fin 128) :
    RefRun.colMean (F := Ideal) z (ix1 j) = Ideal.div (0 + ∑ n : Fin 100000, z (ix2 n j)) Cert.Spec.cN := by
  unfold RefRun.colMean
  show Ideal.div (Host.reduceAdd z (constant (F := Ideal) S_ .f32 0x00000000#32) _ _ (ix1 j))
      (broadcastInDim S128 ![] _ (constant (F := Ideal) S_ .f32 0x47C35000#32) (ix1 j)) = _
  rw [Cert.LibHostApply.reduceAdd_cols_apply, Cert.LibHostApply.broadcastInDim_scalar_apply]
  show Ideal.div (Ideal.ofBits .f32 0x00000000#32 + _) (Ideal.ofBits .f32 0x47C35000#32) = _
  rw [Ideal.ofBits_zero_f32]
  rfl

/-- The mean row inside the variance, repeated down the rows, at (n, j). -/
theorem meanRows_apply (s : FVec Ideal S128 .f32) (n : Fin 100000) (j : Fin 128) :
    broadcastInDim S100000x128 ![0, 1] bcast_S1x128_S100000x128_0_1
        (Host.divf (broadcastInDim S1x128 ![1] bcast_S128_S1x128_1 s)
          (broadcastInDim S1x128 ![] bcast_S_S1x128 (constant (F := Ideal) S_ .f32 0x47C35000#32))) (ix2 n j)
      = Ideal.div (s (ix1 j)) Cert.Spec.cN := by
  refine (Cert.LibHostApply.broadcastInDim_rows_apply _ _ n j).trans ?_
  show Ideal.div (broadcastInDim S1x128 ![1] bcast_S128_S1x128_1 s (ix2 (0 : Fin 1) j))
      (broadcastInDim S1x128 ![] bcast_S_S1x128 (constant (F := Ideal) S_ .f32 0x47C35000#32) (ix2 (0 : Fin 1) j)) = _
  rw [Cert.LibHostApply.broadcastInDim_row_apply, Cert.LibHostApply.broadcastInDim_scalar_apply]
  rfl

/-- The column variance: the guard on the divisor holds, and what remains is zero plus the sum of the squared
    deviations from the column mean, divided by the row count's word minus zero. -/
theorem colVar_apply (z : FVec Ideal S100000x128 .f32) (j : Fin 128) :
    RefRun.colVar (F := Ideal) z (ix1 j)
      = Ideal.div (0 + ∑ n : Fin 100000,
            (z (ix2 n j) - Ideal.div (0 + ∑ n : Fin 100000, z (ix2 n j)) Cert.Spec.cN)
              * (z (ix2 n j) - Ideal.div (0 + ∑ n : Fin 100000, z (ix2 n j)) Cert.Spec.cN))
          (Cert.Spec.cN - 0) := by
  unfold RefRun.colVar
  refine (Cert.LibLayerStats.select_guard _ (?_ : _ = 1#1) _ _).trans ?_
  · refine (Cert.LibHostApply.broadcastInDim_scalar_apply _ _ (ix1 j)).trans ?_
    exact Cert.LibLayerStats.guard_cmp_1e5
  show Ideal.div (Host.reduceAdd _ (constant (F := Ideal) S_ .f32 0x00000000#32) _ _ (ix1 j))
      (broadcastInDim S128 ![] _ (subf (constant (F := Ideal) S_ .f32 0x47C35000#32) (sitofp .f32 (constantI S_ 32 0#32))) (ix1 j)) = _
  rw [Cert.LibHostApply.reduceAdd_cols_apply, Cert.LibHostApply.broadcastInDim_scalar_apply]
  refine congrArg₂ Ideal.div (congrArg₂ (· + ·) Ideal.ofBits_zero_f32 (Finset.sum_congr rfl fun n _ => ?_))
    (Cert.LibLayerStats.count_sub_sitofp_zero _)
  show (z (ix2 n j) - broadcastInDim (s := S1x128) S100000x128 ![0, 1] _ _ (ix2 n j))
      * (z (ix2 n j) - broadcastInDim (s := S1x128) S100000x128 ![0, 1] _ _ (ix2 n j)) = _
  rw [meanRows_apply, Cert.LibHostApply.reduceAdd_cols_apply]
  show (z (ix2 n j) - Ideal.div (Ideal.ofBits .f32 0x00000000#32 + _) Cert.Spec.cN)
      * (z (ix2 n j) - Ideal.div (Ideal.ofBits .f32 0x00000000#32 + _) Cert.Spec.cN) = _
  rw [Ideal.ofBits_zero_f32]

/-- The normalisation stage is the specification's, entry by entry. -/
theorem bnorm_apply (z : FVec Ideal S100000x128 .f32) (mean var g b : FVec Ideal S128 .f32) (n : Fin 100000) (j : Fin 128) :
    RefRun.bnorm (F := Ideal) z mean var g b (ix2 n j)
      = Cert.Spec.norm (fun n j => z (ix2 n j)) (fun j => mean (ix1 j)) (fun j => var (ix1 j)) (fun j => g (ix1 j))
          (fun j => b (ix1 j)) n j := by
  unfold RefRun.bnorm Cert.Spec.norm
  show ((z (ix2 n j) - broadcastInDim S100000x128 ![0, 1] _ (broadcastInDim S1x128 ![1] _ mean) (ix2 n j))
        * broadcastInDim S100000x128 ![0, 1] _ (broadcastInDim S1x128 ![1] _
            (Host.rsqrt (addf var (broadcastInDim S128 ![] _ (constant (F := Ideal) S_ .f32 0x3727C5AC#32))))) (ix2 n j))
      * broadcastInDim S100000x128 ![0, 1] _ (broadcastInDim S1x128 ![1] _ g) (ix2 n j)
      + broadcastInDim S100000x128 ![0, 1] _ (broadcastInDim S1x128 ![1] _ b) (ix2 n j) = _
  rw [biasRows_apply, biasRows_apply, biasRows_apply, biasRows_apply]
  show ((z (ix2 n j) - mean (ix1 j))
        * Ideal.rsqrt (var (ix1 j) + broadcastInDim S128 ![] _ (constant (F := Ideal) S_ .f32 0x3727C5AC#32) (ix1 j)))
      * g (ix1 j) + b (ix1 j) = _
  rw [Cert.LibHostApply.broadcastInDim_scalar_apply]
  rfl

/-- The head's logits are the specification's, entry by entry. -/
theorem logits_apply (h : FVec Ideal S100000x128 .f32) (fw1 : FVec Ideal S128x128 .f32) (fb1 : FVec Ideal S128 .f32)
    (fw2 : FVec Ideal S128x64 .f32) (fb2 : FVec Ideal S64 .f32) (mask : FVec Ideal S100000x128 .f32)
    (n : Fin 100000) (j : Fin 64) :
    RefRun.logits (F := Ideal) h fw1 fb1 fw2 fb2 mask (ix2 n j)
      = Cert.Spec.logits (fun n q => h (ix2 n q)) (fun q k => fw1 (ix2 q k)) (fun k => fb1 (ix1 k))
          (fun k j => fw2 (ix2 k j)) (fun j => fb2 (ix1 j)) (fun n k => mask (ix2 n k)) n j := by
  unfold RefRun.logits Cert.Spec.logits
  show Host.dotGeneral dot_S100000x128_S128x64_S100000x64_1_0_0_1_n_n none _ fw2 (ix2 n j)
      + broadcastInDim S100000x64 ![0, 1] _ (broadcastInDim S1x64 ![1] _ fb2) (ix2 n j) = _
  rw [biasRows_apply]
  refine congrArg (· + fb2 (ix1 j)) ?_
  refine (Cert.LibHostApply.dotGeneral_mm_apply Facts₀.dot_S100000x128_S128x64_S100000x64_1_0_0_1_n_n_wf none _ fw2 n j).trans ?_
  refine Finset.sum_congr rfl fun k _ => ?_
  exact congrArg (fun t => (t * mask (ix2 n k)) * fw2 (ix2 k j))
    (denseRelu_apply Facts₀.dot_S100000x128_S128x128_S100000x128_1_0_0_1_n_n_wf _ _ _ h fw1 fb1 n k)

/-- The row-wise log-softmax stage is the specification's, entry by entry: the second maximum against −∞ changes
    nothing. -/
theorem logSoftmax_apply (x : FVec Ideal S100000x64 .f32) (n : Fin 100000) (j : Fin 64) :
    RefRun.logSoftmax (F := Ideal) x (ix2 n j) = Cert.Spec.logSoftmax (fun n k => x (ix2 n k)) n j := by
  unfold RefRun.logSoftmax Cert.Spec.logSoftmax
  exact logSoftmaxRows_apply x _ _ _ _ _ n j

end Cert.ReferenceIdeal.RefAt

end
-- ==== Proof.LibRealClosure.lean ====
import proofs.«160011_j2121713844488_1_alg».proof.Proof.LibERealSums
import proofs.«160011_j2121713844488_1_alg».proof.Proof.LibERealOps

/-!
The real numbers inside the extended reals are closed under what a layer of a network computes.

Each statement has the form "if the operands are (coercions of) real numbers, so is the result":
sums, differences, products, the maximum (in particular the rectifier `max x 0`), finite sums, an
entry of a matrix product `∑ k, a k * w k` with or without a bias, a quotient by a nonzero real,
and the reciprocal square root of a positive real. They carry "every entry is real" from the inputs
of a layer to its outputs.
-/

noncomputable section

namespace Cert.LibRealClosure

open Finset Idealize.ShloMosaic

/-- A real number is real. -/
theorem real_coe (r : ℝ) : ∃ s : ℝ, (r : EReal) = (s : EReal) := ⟨r, rfl⟩

/-- Zero is real. -/
theorem real_zero : ∃ r : ℝ, (0 : EReal) = (r : EReal) := ⟨0, rfl⟩

/-- An extended real is real exactly when it is neither infinity. -/
theorem real_iff (x : EReal) : (∃ r : ℝ, x = (r : EReal)) ↔ x ≠ ⊥ ∧ x ≠ ⊤ := by
  constructor
  · rintro ⟨r, rfl⟩; exact ⟨EReal.coe_ne_bot r, EReal.coe_ne_top r⟩
  · rintro ⟨hb, ht⟩; exact ⟨x.toReal, (EReal.coe_toReal ht hb).symm⟩

/-- The sum of two reals is real. -/
theorem real_add {x y : EReal} (hx : ∃ a : ℝ, x = (a : EReal)) (hy : ∃ b : ℝ, y = (b : EReal)) :
    ∃ r : ℝ, x + y = (r : EReal) := by
  obtain ⟨a, rfl⟩ := hx; obtain ⟨b, rfl⟩ := hy
  exact ⟨a + b, (EReal.coe_add a b).symm⟩

/-- The difference of two reals is real. -/
theorem real_sub {x y : EReal} (hx : ∃ a : ℝ, x = (a : EReal)) (hy : ∃ b : ℝ, y = (b : EReal)) :
    ∃ r : ℝ, x - y = (r : EReal) := by
  obtain ⟨a, rfl⟩ := hx; obtain ⟨b, rfl⟩ := hy
  exact ⟨a - b, (EReal.coe_sub a b).symm⟩

/-- The product of two reals is real. -/
theorem real_mul {x y : EReal} (hx : ∃ a : ℝ, x = (a : EReal)) (hy : ∃ b : ℝ, y = (b : EReal)) :
    ∃ r : ℝ, x * y = (r : EReal) := by
  obtain ⟨a, rfl⟩ := hx; obtain ⟨b, rfl⟩ := hy
  exact ⟨a * b, (EReal.coe_mul a b).symm⟩

/-- The negation of a real is real. -/
theorem real_neg {x : EReal} (hx : ∃ a : ℝ, x = (a : EReal)) : ∃ r : ℝ, -x = (r : EReal) := by
  obtain ⟨a, rfl⟩ := hx
  exact ⟨-a, (EReal.coe_neg a).symm⟩

/-- The maximum of two reals is real. -/
theorem real_max {x y : EReal} (hx : ∃ a : ℝ, x = (a : EReal)) (hy : ∃ b : ℝ, y = (b : EReal)) :
    ∃ r : ℝ, max x y = (r : EReal) := by
  obtain ⟨a, rfl⟩ := hx; obtain ⟨b, rfl⟩ := hy
  exact ⟨max a b, Cert.LibERealOps.max_coe a b⟩

/-- The rectifier `max x 0` of a real is a nonnegative real. -/
theorem real_relu {x : EReal} (hx : ∃ a : ℝ, x = (a : EReal)) :
    ∃ r : ℝ, max x 0 = (r : EReal) ∧ 0 ≤ r := by
  obtain ⟨a, rfl⟩ := hx
  exact ⟨max a 0, by rw [← EReal.coe_zero, Cert.LibERealOps.max_coe], le_max_right a 0⟩

/-- The rectifier with the zero written as the f32 zero word. -/
theorem real_relu_word {x : EReal} (hx : ∃ a : ℝ, x = (a : EReal)) :
    ∃ r : ℝ, max x (Ideal.ofBits .f32 0x00000000#32) = (r : EReal) ∧ 0 ≤ r := by
  rw [Ideal.ofBits_zero_f32]; exact real_relu hx

/-- A finite sum of reals is real. -/
theorem real_sum {ι : Type*} (s : Finset ι) (a : ι → EReal) (h : ∀ j ∈ s, ∃ r : ℝ, a j = (r : EReal)) :
    ∃ r : ℝ, ∑ j ∈ s, a j = (r : EReal) := by
  classical
  induction s using Finset.induction_on with
  | empty => exact ⟨0, by simp⟩
  | insert i s hi ih =>
    rw [Finset.sum_insert hi]
    exact real_add (h i (Finset.mem_insert_self i s))
      (ih fun j hj => h j (Finset.mem_insert_of_mem hj))

/-- A finite sum of reals over a whole finite index type is real. -/
theorem real_sum_univ {ι : Type*} [Fintype ι] (a : ι → EReal) (h : ∀ j, ∃ r : ℝ, a j = (r : EReal)) :
    ∃ r : ℝ, ∑ j, a j = (r : EReal) :=
  real_sum univ a fun j _ => h j

/-- An entry of a matrix product of real matrices, `∑ k, a k * w k`, is real. -/
theorem real_dot {ι : Type*} [Fintype ι] (a w : ι → EReal) (ha : ∀ k, ∃ r : ℝ, a k = (r : EReal))
    (hw : ∀ k, ∃ r : ℝ, w k = (r : EReal)) :
    ∃ r : ℝ, ∑ k, a k * w k = (r : EReal) :=
  real_sum_univ _ fun k => real_mul (ha k) (hw k)

/-- The same onto a real accumulator: `acc + ∑ k, a k * w k` (the contraction as the ideal matrix
    product states it; the host's product has the accumulator zero). -/
theorem real_acc_dot {ι : Type*} [Fintype ι] (acc : EReal) (a w : ι → EReal)
    (hacc : ∃ r : ℝ, acc = (r : EReal)) (ha : ∀ k, ∃ r : ℝ, a k = (r : EReal))
    (hw : ∀ k, ∃ r : ℝ, w k = (r : EReal)) :
    ∃ r : ℝ, acc + ∑ k, a k * w k = (r : EReal) :=
  real_add hacc (real_dot a w ha hw)

/-- An entry of a matrix product plus a real bias is real. -/
theorem real_dot_bias {ι : Type*} [Fintype ι] (a w : ι → EReal) (b : EReal)
    (ha : ∀ k, ∃ r : ℝ, a k = (r : EReal)) (hw : ∀ k, ∃ r : ℝ, w k = (r : EReal))
    (hb : ∃ r : ℝ, b = (r : EReal)) :
    ∃ r : ℝ, (∑ k, a k * w k) + b = (r : EReal) :=
  real_add (real_dot a w ha hw) hb

/-- One dense layer with a rectifier, `max (∑ k, a k * w k + b) 0`, of real data is a nonnegative
    real. -/
theorem real_dense_relu {ι : Type*} [Fintype ι] (a w : ι → EReal) (b : EReal)
    (ha : ∀ k, ∃ r : ℝ, a k = (r : EReal)) (hw : ∀ k, ∃ r : ℝ, w k = (r : EReal))
    (hb : ∃ r : ℝ, b = (r : EReal)) :
    ∃ r : ℝ, max ((∑ k, a k * w k) + b) 0 = (r : EReal) ∧ 0 ≤ r :=
  real_relu (real_dot_bias a w b ha hw hb)

/-- A quotient of a real by a nonzero real is real. -/
theorem real_div {x y : EReal} (hx : ∃ a : ℝ, x = (a : EReal)) (b : ℝ) (hy : y = (b : EReal)) (hb : b ≠ 0) :
    ∃ r : ℝ, Ideal.div x y = (r : EReal) := by
  obtain ⟨a, rfl⟩ := hx; subst hy
  exact ⟨a / b, Cert.LibERealOps.div_coe_coe a b hb⟩

/-- The reciprocal square root of a positive real is a positive real. -/
theorem real_rsqrt_pos {x : EReal} (a : ℝ) (hx : x = (a : EReal)) (ha : 0 < a) :
    ∃ r : ℝ, Ideal.rsqrt x = (r : EReal) ∧ 0 < r := by
  subst hx
  exact ⟨(Real.sqrt a)⁻¹, Cert.LibERealOps.rsqrt_coe_pos a ha, inv_pos.mpr (Real.sqrt_pos.mpr ha)⟩

/-- Zero plus a finite sum of reals (a sum reduction from a zero initial value) is real. -/
theorem real_zero_add_sum {ι : Type*} [Fintype ι] (a : ι → EReal) (h : ∀ j, ∃ r : ℝ, a j = (r : EReal)) :
    ∃ r : ℝ, 0 + ∑ j, a j = (r : EReal) :=
  real_add real_zero (real_sum_univ a h)

/-- Real witnesses chosen for a whole family: from "every entry is real" to a real-valued function. -/
theorem real_family {ι : Type*} (a : ι → EReal) (h : ∀ j, ∃ r : ℝ, a j = (r : EReal)) :
    ∃ f : ι → ℝ, ∀ j, a j = (f j : EReal) :=
  ⟨fun j => (h j).choose, fun j => (h j).choose_spec⟩

end Cert.LibRealClosure
-- ==== Proof.SpecLaws.lean ====
/-
  Laws over the specification, on the extended reals. The 100000 rows are cut into 20 blocks of 5000 consecutive rows.
  For a real column, the mean and the one-pass variance E[z²] − E[z]² taken from block sums equal the mean and the
  two-pass variance taken over the whole column, and both are real with the variance nonnegative; the perceptron and the
  normalisation carry real data to real data; each specification function depends on its arguments entry by entry; so
  one layer gives the same real values whichever way its statistics are taken.
-/
import proofs.«160011_j2121713844488_1_alg».proof.Proof.Spec
import proofs.«160011_j2121713844488_1_alg».proof.Proof.LibLayerStats
import proofs.«160011_j2121713844488_1_alg».proof.Proof.LibRealClosure
import proofs.«160011_j2121713844488_1_alg».proof.Proof.LibERealOps
import proofs.«160011_j2121713844488_1_alg».proof.Proof.LibERealSums

noncomputable section

namespace Cert.SpecLaws

open Finset Idealize.ShloMosaic

/-- Row r of block b of the 100000 rows, cut into 20 blocks of 5000 consecutive rows. -/
def blk (b : Fin 20) (r : Fin 5000) : Fin 100000 :=
  ⟨5000 * b.val + r.val, by have := b.isLt; have := r.isLt; omega⟩

theorem blk_val (b : Fin 20) (r : Fin 5000) : (blk b r).val = 5000 * b.val + r.val := rfl

/-! ### The column statistics, block by block and over the whole column -/

/-- For a real column: the mean from block sums is the mean from the whole sum; the one-pass variance from block sums,
    E[z²] − E[z]², is the two-pass variance over the whole column, the mean of the squared deviations; both statistics
    are real numbers and the variance is nonnegative. -/
theorem stats_blocks (z : Fin 100000 → Fin 128 → EReal) (hz : ∀ n j, ∃ r : ℝ, z n j = (r : EReal)) (j : Fin 128) :
    Ideal.div (0 + ∑ b : Fin 20, ∑ r : Fin 5000, z (blk b r) j) Cert.Spec.cN = Ideal.div (0 + ∑ n : Fin 100000, z n j) Cert.Spec.cN
    ∧ Ideal.div (0 + ∑ b : Fin 20, ∑ r : Fin 5000, z (blk b r) j * z (blk b r) j) Cert.Spec.cN - Ideal.div (0 + ∑ b : Fin 20, ∑ r : Fin 5000, z (blk b r) j) Cert.Spec.cN * Ideal.div (0 + ∑ b : Fin 20, ∑ r : Fin 5000, z (blk b r) j) Cert.Spec.cN
        = Ideal.div (0 + ∑ n : Fin 100000, (z n j - Ideal.div (0 + ∑ n : Fin 100000, z n j) Cert.Spec.cN) * (z n j - Ideal.div (0 + ∑ n : Fin 100000, z n j) Cert.Spec.cN)) (Cert.Spec.cN - 0)
    ∧ ∃ mr vr : ℝ, Ideal.div (0 + ∑ n : Fin 100000, z n j) Cert.Spec.cN = (mr : EReal)
        ∧ Ideal.div (0 + ∑ n : Fin 100000, (z n j - Ideal.div (0 + ∑ n : Fin 100000, z n j) Cert.Spec.cN) * (z n j - Ideal.div (0 + ∑ n : Fin 100000, z n j) Cert.Spec.cN)) (Cert.Spec.cN - 0) = (vr : EReal)
        ∧ 0 ≤ vr := by
  obtain ⟨zr, hzr⟩ := Cert.LibRealClosure.real_family (fun n => z n j) (fun n => hz n j)
  exact Cert.LibLayerStats.stats_eq_unclamped (fun n => z n j) zr hzr blk blk_val (by norm_num) Cert.Spec.cN 100000
    Cert.LibERealOps.ofBits_1e5 (by norm_num) (by norm_num)

/-! ### Real data stay real -/

/-- The perceptron of real data is real, entry by entry. -/
theorem mlp_real (agg : Fin 100000 → Fin 128 → EReal) (w1 : Fin 128 → Fin 128 → EReal) (b1 : Fin 128 → EReal)
    (w2 : Fin 128 → Fin 128 → EReal) (b2 : Fin 128 → EReal)
    (hagg : ∀ n q, ∃ r : ℝ, agg n q = (r : EReal)) (hw1 : ∀ q k, ∃ r : ℝ, w1 q k = (r : EReal))
    (hb1 : ∀ k, ∃ r : ℝ, b1 k = (r : EReal)) (hw2 : ∀ k j, ∃ r : ℝ, w2 k j = (r : EReal))
    (hb2 : ∀ j, ∃ r : ℝ, b2 j = (r : EReal)) (n : Fin 100000) (j : Fin 128) :
    ∃ r : ℝ, Cert.Spec.mlp agg w1 b1 w2 b2 n j = (r : EReal) := by
  unfold Cert.Spec.mlp
  obtain ⟨r, hr, _⟩ := Cert.LibRealClosure.real_dense_relu
    (fun k => max ((∑ q : Fin 128, agg n q * w1 q k) + b1 k) 0) (fun k => w2 k j) (b2 j)
    (fun k => by
      obtain ⟨s, hs, _⟩ := Cert.LibRealClosure.real_dense_relu (fun q => agg n q) (fun q => w1 q k) (b1 k)
        (fun q => hagg n q) (fun q => hw1 q k) (hb1 k)
      exact ⟨s, hs⟩)
    (fun k => hw2 k j) (hb2 j)
  exact ⟨r, hr⟩

/-- The normalised value of real data, with a real mean and a real nonnegative variance for its column, is real. -/
theorem norm_real (z : Fin 100000 → Fin 128 → EReal) (mu vr gamma beta : Fin 128 → EReal)
    (hz : ∀ n j, ∃ r : ℝ, z n j = (r : EReal)) (hg : ∀ j, ∃ r : ℝ, gamma j = (r : EReal))
    (hb : ∀ j, ∃ r : ℝ, beta j = (r : EReal)) (n : Fin 100000) (j : Fin 128) (mr v : ℝ)
    (hmu : mu j = (mr : EReal)) (hvr : vr j = (v : EReal)) (hv : 0 ≤ v) :
    ∃ r : ℝ, Cert.Spec.norm z mu vr gamma beta n j = (r : EReal) := by
  unfold Cert.Spec.norm
  obtain ⟨zr, hzr⟩ := hz n j
  obtain ⟨gr, hgr⟩ := hg j
  obtain ⟨br, hbr⟩ := hb j
  exact Cert.LibLayerStats.norm_real_eps (z n j) (mu j) (vr j) (gamma j) (beta j) zr mr v gr br hzr hmu hvr hv hgr hbr

/-! ### The specification's functions depend on their arguments entry by entry -/

/-- The normalisation with pointwise-equal means and variances. -/
theorem norm_congr (z : Fin 100000 → Fin 128 → EReal) (mu mu' vr vr' g b : Fin 128 → EReal)
    (hmu : ∀ j, mu j = mu' j) (hvr : ∀ j, vr j = vr' j) (n : Fin 100000) (j : Fin 128) :
    Cert.Spec.norm z mu vr g b n j = Cert.Spec.norm z mu' vr' g b n j := by
  unfold Cert.Spec.norm
  rw [hmu j, hvr j]

/-- The normalisation with every argument pointwise equal. -/
theorem norm_congr_all (z z' : Fin 100000 → Fin 128 → EReal) (mu mu' vr vr' g g' b b' : Fin 128 → EReal)
    (hz : ∀ n j, z n j = z' n j) (hmu : ∀ j, mu j = mu' j) (hvr : ∀ j, vr j = vr' j) (hg : ∀ j, g j = g' j)
    (hb : ∀ j, b j = b' j) (n : Fin 100000) (j : Fin 128) :
    Cert.Spec.norm z mu vr g b n j = Cert.Spec.norm z' mu' vr' g' b' n j := by
  unfold Cert.Spec.norm
  rw [hz n j, hmu j, hvr j, hg j, hb j]

/-- The perceptron with pointwise-equal arguments. -/
theorem mlp_congr (agg agg' : Fin 100000 → Fin 128 → EReal) (w1 w1' : Fin 128 → Fin 128 → EReal) (b1 b1' : Fin 128 → EReal)
    (w2 w2' : Fin 128 → Fin 128 → EReal) (b2 b2' : Fin 128 → EReal)
    (hagg : ∀ n q, agg n q = agg' n q) (hw1 : ∀ q k, w1 q k = w1' q k) (hb1 : ∀ k, b1 k = b1' k)
    (hw2 : ∀ k j, w2 k j = w2' k j) (hb2 : ∀ j, b2 j = b2' j) (n : Fin 100000) (j : Fin 128) :
    Cert.Spec.mlp agg w1 b1 w2 b2 n j = Cert.Spec.mlp agg' w1' b1' w2' b2' n j := by
  obtain rfl : agg = agg' := funext fun n => funext fun q => hagg n q
  obtain rfl : w1 = w1' := funext fun q => funext fun k => hw1 q k
  obtain rfl : b1 = b1' := funext hb1
  obtain rfl : w2 = w2' := funext fun k => funext fun j => hw2 k j
  obtain rfl : b2 = b2' := funext hb2
  rfl

/-- The head's logits with pointwise-equal arguments. -/
theorem logits_congr (h h' : Fin 100000 → Fin 128 → EReal) (wa wa' : Fin 128 → Fin 128 → EReal) (ba ba' : Fin 128 → EReal)
    (wb wb' : Fin 128 → Fin 64 → EReal) (bb bb' : Fin 64 → EReal) (mask mask' : Fin 100000 → Fin 128 → EReal)
    (hh : ∀ n q, h n q = h' n q) (hwa : ∀ q k, wa q k = wa' q k) (hba : ∀ k, ba k = ba' k)
    (hwb : ∀ k j, wb k j = wb' k j) (hbb : ∀ j, bb j = bb' j) (hmask : ∀ n k, mask n k = mask' n k)
    (n : Fin 100000) (j : Fin 64) :
    Cert.Spec.logits h wa ba wb bb mask n j = Cert.Spec.logits h' wa' ba' wb' bb' mask' n j := by
  obtain rfl : h = h' := funext fun n => funext fun q => hh n q
  obtain rfl : wa = wa' := funext fun q => funext fun k => hwa q k
  obtain rfl : ba = ba' := funext hba
  obtain rfl : wb = wb' := funext fun k => funext fun j => hwb k j
  obtain rfl : bb = bb' := funext hbb
  obtain rfl : mask = mask' := funext fun n => funext fun k => hmask n k
  rfl

/-- The row-wise log-softmax with pointwise-equal arguments. -/
theorem logSoftmax_congr (x x' : Fin 100000 → Fin 64 → EReal) (hx : ∀ n k, x n k = x' n k) (n : Fin 100000) (j : Fin 64) :
    Cert.Spec.logSoftmax x n j = Cert.Spec.logSoftmax x' n j := by
  obtain rfl : x = x' := funext fun n => funext fun k => hx n k
  rfl

/-! ### One layer: the two ways of taking the statistics give the same normalised values -/

/-- For a real array z and real scale and shift rows, normalising with the statistics taken block by block (one-pass
    variance) and with the statistics taken over the whole columns (two-pass variance) gives the same value, a real
    number. -/
theorem norm_stats_eq (z : Fin 100000 → Fin 128 → EReal) (hz : ∀ n j, ∃ r : ℝ, z n j = (r : EReal))
    (gamma beta : Fin 128 → EReal) (hg : ∀ j, ∃ r : ℝ, gamma j = (r : EReal)) (hb : ∀ j, ∃ r : ℝ, beta j = (r : EReal))
    (n : Fin 100000) (j : Fin 128) :
    Cert.Spec.norm z (fun j => Ideal.div (0 + ∑ b : Fin 20, ∑ r : Fin 5000, z (blk b r) j) Cert.Spec.cN)
        (fun j => Ideal.div (0 + ∑ b : Fin 20, ∑ r : Fin 5000, z (blk b r) j * z (blk b r) j) Cert.Spec.cN - Ideal.div (0 + ∑ b : Fin 20, ∑ r : Fin 5000, z (blk b r) j) Cert.Spec.cN * Ideal.div (0 + ∑ b : Fin 20, ∑ r : Fin 5000, z (blk b r) j) Cert.Spec.cN) gamma beta n j
      = Cert.Spec.norm z (fun j => Ideal.div (0 + ∑ n : Fin 100000, z n j) Cert.Spec.cN)
          (fun j => Ideal.div (0 + ∑ n : Fin 100000, (z n j - Ideal.div (0 + ∑ n : Fin 100000, z n j) Cert.Spec.cN) * (z n j - Ideal.div (0 + ∑ n : Fin 100000, z n j) Cert.Spec.cN)) (Cert.Spec.cN - 0)) gamma beta n j
    ∧ ∃ r : ℝ, Cert.Spec.norm z (fun j => Ideal.div (0 + ∑ n : Fin 100000, z n j) Cert.Spec.cN)
          (fun j => Ideal.div (0 + ∑ n : Fin 100000, (z n j - Ideal.div (0 + ∑ n : Fin 100000, z n j) Cert.Spec.cN) * (z n j - Ideal.div (0 + ∑ n : Fin 100000, z n j) Cert.Spec.cN)) (Cert.Spec.cN - 0)) gamma beta n j = (r : EReal) := by
  refine ⟨norm_congr z _ _ _ _ gamma beta (fun j => (stats_blocks z hz j).1) (fun j => (stats_blocks z hz j).2.1) n j, ?_⟩
  obtain ⟨mr, vr, hm, hv, hv0⟩ := (stats_blocks z hz j).2.2
  exact norm_real z _ _ gamma beta hz hg hb n j mr vr hm hv hv0

/-- One layer from real aggregated features and real parameters: the same with z the perceptron's output. -/
theorem layer_eq (agg : Fin 100000 → Fin 128 → EReal) (w1 : Fin 128 → Fin 128 → EReal) (b1 : Fin 128 → EReal)
    (w2 : Fin 128 → Fin 128 → EReal) (b2 gamma beta : Fin 128 → EReal)
    (hagg : ∀ n q, ∃ r : ℝ, agg n q = (r : EReal)) (hw1 : ∀ q k, ∃ r : ℝ, w1 q k = (r : EReal))
    (hb1 : ∀ k, ∃ r : ℝ, b1 k = (r : EReal)) (hw2 : ∀ k j, ∃ r : ℝ, w2 k j = (r : EReal))
    (hb2 : ∀ j, ∃ r : ℝ, b2 j = (r : EReal)) (hg : ∀ j, ∃ r : ℝ, gamma j = (r : EReal))
    (hb : ∀ j, ∃ r : ℝ, beta j = (r : EReal)) (n : Fin 100000) (j : Fin 128) :
    Cert.Spec.norm (Cert.Spec.mlp agg w1 b1 w2 b2) (fun j => Ideal.div (0 + ∑ b : Fin 20, ∑ r : Fin 5000, (Cert.Spec.mlp agg w1 b1 w2 b2) (blk b r) j) Cert.Spec.cN)
        (fun j => Ideal.div (0 + ∑ b : Fin 20, ∑ r : Fin 5000, (Cert.Spec.mlp agg w1 b1 w2 b2) (blk b r) j * (Cert.Spec.mlp agg w1 b1 w2 b2) (blk b r) j) Cert.Spec.cN - Ideal.div (0 + ∑ b : Fin 20, ∑ r : Fin 5000, (Cert.Spec.mlp agg w1 b1 w2 b2) (blk b r) j) Cert.Spec.cN * Ideal.div (0 + ∑ b : Fin 20, ∑ r : Fin 5000, (Cert.Spec.mlp agg w1 b1 w2 b2) (blk b r) j) Cert.Spec.cN) gamma beta n j
      = Cert.Spec.norm (Cert.Spec.mlp agg w1 b1 w2 b2) (fun j => Ideal.div (0 + ∑ n : Fin 100000, (Cert.Spec.mlp agg w1 b1 w2 b2) n j) Cert.Spec.cN)
          (fun j => Ideal.div (0 + ∑ n : Fin 100000, ((Cert.Spec.mlp agg w1 b1 w2 b2) n j - Ideal.div (0 + ∑ n : Fin 100000, (Cert.Spec.mlp agg w1 b1 w2 b2) n j) Cert.Spec.cN) * ((Cert.Spec.mlp agg w1 b1 w2 b2) n j - Ideal.div (0 + ∑ n : Fin 100000, (Cert.Spec.mlp agg w1 b1 w2 b2) n j) Cert.Spec.cN)) (Cert.Spec.cN - 0)) gamma beta n j
    ∧ ∃ r : ℝ, Cert.Spec.norm (Cert.Spec.mlp agg w1 b1 w2 b2) (fun j => Ideal.div (0 + ∑ n : Fin 100000, (Cert.Spec.mlp agg w1 b1 w2 b2) n j) Cert.Spec.cN)
          (fun j => Ideal.div (0 + ∑ n : Fin 100000, ((Cert.Spec.mlp agg w1 b1 w2 b2) n j - Ideal.div (0 + ∑ n : Fin 100000, (Cert.Spec.mlp agg w1 b1 w2 b2) n j) Cert.Spec.cN) * ((Cert.Spec.mlp agg w1 b1 w2 b2) n j - Ideal.div (0 + ∑ n : Fin 100000, (Cert.Spec.mlp agg w1 b1 w2 b2) n j) Cert.Spec.cN)) (Cert.Spec.cN - 0)) gamma beta n j = (r : EReal) :=
  norm_stats_eq (Cert.Spec.mlp agg w1 b1 w2 b2) (mlp_real agg w1 b1 w2 b2 hagg hw1 hb1 hw2 hb2) gamma beta hg hb n j

end Cert.SpecLaws

end
-- ==== Proof.KiHead.lean ====
/-
  The head region's value against the reference's head, on the extended reals. After the last region the result array
  holds, entry by entry, the row-wise log-softmax of the logits of the region's six input arrays; those arrays are the
  last layer's output, the head's two weight matrices and its mask as launched, and its two bias vectors laid as rows,
  whose entry (0, k) is the vector's entry k. The reference's head is the same log-softmax of the same logits, so the
  two agree by congruence alone: nothing is assumed finite.
-/
import proofs.«160011_j2121713844488_1_alg».proof.Proof.KiFc6Value
import proofs.«160011_j2121713844488_1_alg».proof.Proof.KiHost
import proofs.«160011_j2121713844488_1_alg».proof.Proof.RefAt
import proofs.«160011_j2121713844488_1_alg».proof.Proof.SpecLaws
import proofs.«160011_j2121713844488_1_alg».proof.Proof.LibHostApply

set_option maxRecDepth 16384

noncomputable section

namespace Cert.KernelIdeal.Hand

open Cert.KernelIdeal Cert.KernelIdeal.Gen
open Idealize.ShloMosaic Idealize.ShloMosaic.TcCoe Idealize.ShloMosaic.ValueIdx
open Idealize.SL.Sem
open Idealize.ShloMosaic.Pipeline (Dat Cfg Window)

variable (m : (ℓ : Loc nD τ sig) → Buf (Elt Ideal) ℓ) (ρ : Dev nD → PrngReg)

/-- A bias vector laid as the one row of a [1,128] array reads its entry k at (0, k). -/
theorem kAsRow_apply (b : FVec Ideal S128 .f32) (k : Fin 128) : kAsRow b (ix2 (0 : Fin 1) k) = b (ix1 k) :=
  Cert.LibHostApply.shapeCast_row_apply b _ k

/-- A bias vector laid as the one row of a [1,64] array reads its entry j at (0, j). -/
theorem kAsRow64_apply (b : FVec Ideal S64 .f32) (j : Fin 64) : kAsRow64 b (ix2 (0 : Fin 1) j) = b (ix1 j) :=
  Cert.LibHostApply.shapeCast_row_apply b _ j

set_option maxHeartbeats 400000 in
/-- The result array after the last region, entry by entry, is the reference's head applied to the last layer's output
    and the head's five parameter arrays: both sides are the row-wise log-softmax of the same logits. -/
theorem head_value (c : Dev nD) (n : Fin 100000) (j : Fin 64) :
    W14 (F := Ideal) m ρ c (Proc.devRef .tc main_v111) (ix2 n j)
      = Cert.ReferenceIdeal.RefRun.head (F := Ideal) (W12 (F := Ideal) m ρ c (Proc.devRef .tc main_v108))
          (m ((c : Thread nD τ).loc main_arg8)) (m ((c : Thread nD τ).loc main_arg9))
          (m ((c : Thread nD τ).loc main_arg10)) (m ((c : Thread nD τ).loc main_arg11))
          (m ((c : Thread nD τ).loc main_arg12)) (ix2 n j) := by
  refine (congrFun (W14_arr m ρ c 6) (ix2 n j)).trans ?_
  refine (final6_apply (V13 m ρ) c n j).trans ?_
  unfold Cert.ReferenceIdeal.RefRun.head
  refine Eq.trans ?_ (Cert.ReferenceIdeal.RefAt.logSoftmax_apply _ n j).symm
  refine Cert.SpecLaws.logSoftmax_congr _ _ (fun n k => ?_) n j
  refine Eq.trans ?_ (Cert.ReferenceIdeal.RefAt.logits_apply _ _ _ _ _ _ n k).symm
  refine Cert.SpecLaws.logits_congr _ _ _ _ _ _ _ _ _ _ _ _ ?_ ?_ ?_ ?_ ?_ ?_ n k
  · exact fun n q => congrFun (W13_main_v108 m ρ c) (ix2 n q)
  · exact fun q k => congrFun (W13_main_arg8 m ρ c) (ix2 q k)
  · exact fun k => (congrFun (W13_main_v109 m ρ c) (ix2 (0 : Fin 1) k)).trans (kAsRow_apply _ k)
  · exact fun k j => congrFun (W13_main_arg10 m ρ c) (ix2 k j)
  · exact fun j => (congrFun (W13_main_v110 m ρ c) (ix2 (0 : Fin 1) j)).trans (kAsRow64_apply _ j)
  · exact fun n k => congrFun (W13_main_arg12 m ρ c) (ix2 n k)

end Cert.KernelIdeal.Hand

end
-- ==== Proof.KiPay1.lean ====
/-
  The normalisation body's stored block, read entry by entry on the extended reals: at (r, j) it is
  ((z(r,j) − mean(j)) · rsqrt(var(j) + eps)) · gamma(j) + beta(j), the four rows each repeated down the rows of the
  block and the guard term the same word the specification names.
-/
import proofs.«160011_j2121713844488_1_alg».proof.Proof.Gen.KernelIdeal.Skeleton
import proofs.«160011_j2121713844488_1_alg».proof.Proof.Spec
import Idealize.ShloMosaic.Lib.ValueLayout

noncomputable section

namespace Cert.KernelIdeal.PayValue

open Cert.KernelIdeal Cert.KernelIdeal.Gen Idealize.ShloMosaic Idealize.ShloMosaic.ValueIdx

/-- The normalised block at (r, j): the entry minus its column's mean, times the reciprocal square root of the
    column's variance plus the guard term, times the scale, plus the shift. -/
theorem pay1_apply (var : Vec Ideal S1x128 .f32) (z : Vec Ideal S5000x128 .f32) (mean : Vec Ideal S1x128 .f32)
    (gamma : Vec Ideal S1x128 .f32) (beta : Vec Ideal S1x128 .f32) (r : Fin 5000) (j : Fin 128) :
    k1_pay1 var z mean gamma beta (ix2 r j)
      = ((z (ix2 r j) - mean (ix2 (0 : Fin 1) j)) * Ideal.rsqrt (var (ix2 (0 : Fin 1) j) + Cert.Spec.eps))
          * gamma (ix2 (0 : Fin 1) j) + beta (ix2 (0 : Fin 1) j) := by
  unfold k1_pay1
  simp only [shapeCast_self]
  show ((z (ix2 r j) - broadcastTo S5000x128 mean broadcasts_S1x128_S5000x128 (ix2 r j))
        * broadcastTo S5000x128 (rsqrt (addf var (broadcast S1x128 (Scalar.ofBits (F := Ideal) .f32 0x3727C5AC#32))))
            broadcasts_S1x128_S5000x128 (ix2 r j))
      * broadcastTo S5000x128 gamma broadcasts_S1x128_S5000x128 (ix2 r j)
      + broadcastTo S5000x128 beta broadcasts_S1x128_S5000x128 (ix2 r j) = _
  rw [broadcastTo_1b_ab_apply, broadcastTo_1b_ab_apply, broadcastTo_1b_ab_apply, broadcastTo_1b_ab_apply]
  rfl

end Cert.KernelIdeal.PayValue

end
-- ==== Proof.KiBn1Value.lean ====
import proofs.«160011_j2121713844488_1_alg».proof.Proof.KiBn1
import proofs.«160011_j2121713844488_1_alg».proof.Proof.KiPay1
import Idealize.ShloMosaic.Lib.Pipeline.Value
import Idealize.ShloMosaic.Lib.ValueIdx

/-! # The normalisation region 1: the output array after all 20 points

At a point the body writes the whole 5000 × 128 block of the output: the payload of the data block and of the
four 1 × 128 rows. The data window and the output window move together down the 20 blocks of 5000 rows, the
four row windows stay on their whole array, and the 20 output blocks tile the 100000 rows. So after the region
the output array is one function of the five input arrays as the region finds them: block by block, the payload
of that block of the data array and of the four rows. -/

set_option maxRecDepth 16384

noncomputable section

namespace Cert.KernelIdeal.Hand

open Cert.KernelIdeal Cert.KernelIdeal.Gen
open Idealize.ShloMosaic Idealize.ShloMosaic.TcCoe Idealize.ShloMosaic.Tactic
open Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

-- the contents of the core's buffers when the region is entered
variable (V : (c : Dev nD) → (b : Ref sig .tc) → Buf (Elt F) ((c : Thread nD τ).loc b))

/-! ## The output array as one function of the five input arrays -/

/-- The all-zero offsets of a whole-buffer access, as a constant function. -/
theorem zeros1v : (![0, 0] : Fin 2 → Nat) = fun _ => 0 := funext fun a => by fin_cases a <;> rfl

/-- The normalised array: its block of 5000 rows at block-row `b` is the body's payload of rows
    `5000·b … 5000·b + 4999` of the data array and of the four rows (mean, variance, scale, shift); entry
    `(n, j)` is that block's entry `(n mod 5000, j)`. -/
def G1 (z : S100000x128.Idx → Elt F .f32) (mu vr ga be : S1x128.Idx → Elt F .f32) : S100000x128.Idx → Elt F .f32 :=
  fun i => k1_pay1 vr
    (fun y => z (ix2 (⟨5000 * ((i 0).val / 5000) + (y 0).val, by
        have h1 : (i 0).val < 100000 := idx2_lt0 i
        have h2 : (y 0).val < 5000 := idx2_lt0 y
        omega⟩ : Fin 100000) (⟨(y 1).val, idx2_lt1 y⟩ : Fin 128)))
    mu ga be
    (ix2 (⟨(i 0).val % 5000, Nat.mod_lt _ (by norm_num)⟩ : Fin 5000) (⟨(i 1).val, idx2_lt1 i⟩ : Fin 128))

/-- One block of the normalised array: if `x0` is rows `5000·q …` of `z` and the four rows are the four row
    arrays, the payload at block index `j` is the array's entry at `(5000·q + j₀, j₁)`. -/
theorem G1_block (z : S100000x128.Idx → Elt F .f32) (mu vr ga be : S1x128.Idx → Elt F .f32)
    (x0 : Vec F S5000x128 .f32) (x1 x2 x3 x4 : Vec F S1x128 .f32) (q : Nat) (hq : q < 20)
    (h0 : ∀ y : S5000x128.Idx, x0 y = z (ix2 (⟨5000 * q + (y 0).val, by
        have h2 : (y 0).val < 5000 := idx2_lt0 y
        omega⟩ : Fin 100000) (⟨(y 1).val, idx2_lt1 y⟩ : Fin 128)))
    (h1 : x1 = mu) (h2 : x2 = vr) (h3 : x3 = ga) (h4 : x4 = be)
    (j : S5000x128.Idx) (i : S100000x128.Idx) (hi0 : (i 0).val = q * 5000 + (j 0).val) (hi1 : (i 1).val = (j 1).val) :
    k1_pay1 x2 x0 x1 x3 x4 j = G1 z mu vr ga be i := by
  subst h1 h2 h3 h4
  have hj0 : (j 0).val < 5000 := idx2_lt0 j
  have hq' : (i 0).val / 5000 = q := by omega
  have hm : (i 0).val % 5000 = (j 0).val := by omega
  have ej : j = ix2 (⟨(i 0).val % 5000, Nat.mod_lt _ (by norm_num)⟩ : Fin 5000) (⟨(i 1).val, idx2_lt1 i⟩ : Fin 128) := by
    funext a
    match a with
    | ⟨0, _⟩ => exact Fin.ext hm.symm
    | ⟨1, _⟩ => exact Fin.ext hi1.symm
  have ex : x0 = fun y : S5000x128.Idx => z (ix2 (⟨5000 * ((i 0).val / 5000) + (y 0).val, by
        have h1 : (i 0).val < 100000 := idx2_lt0 i
        have h2 : (y 0).val < 5000 := idx2_lt0 y
        omega⟩ : Fin 100000) (⟨(y 1).val, idx2_lt1 y⟩ : Fin 128)) := by
    funext y
    rw [h0 y]
    refine congrArg z ?_
    funext a
    match a with
    | ⟨0, _⟩ => exact Fin.ext (by show 5000 * q + (y 0).val = 5000 * ((i 0).val / 5000) + (y 0).val; rw [hq'])
    | ⟨1, _⟩ => rfl
  exact (congrArg (fun X => k1_pay1 x2 X x1 x3 x4 j) ex).trans
    (congrArg (fun J => k1_pay1 x2 (fun y : S5000x128.Idx => z (ix2 (⟨5000 * ((i 0).val / 5000) + (y 0).val, by
        have h1 : (i 0).val < 100000 := idx2_lt0 i
        have h2 : (y 0).val < 5000 := idx2_lt0 y
        omega⟩ : Fin 100000) (⟨(y 1).val, idx2_lt1 y⟩ : Fin 128))) x1 x3 x4 J) ej)

/-! ## The printed index maps, decided over the grid -/

/-- At point `t` the data window and the output window are at block-row `t`, column block `0`; the four
    row windows are at block `(0, 0)`: their block is their whole array. -/
theorem idx_facts1 : ∀ t : Fin cfg1.N,
    win1_5.index t (0 : Fin 2) = t.val ∧ win1_5.index t (1 : Fin 2) = 0
    ∧ win1_0.index t (0 : Fin 2) = t.val ∧ win1_0.index t (1 : Fin 2) = 0
    ∧ win1_1.index t (0 : Fin 2) = 0 ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 2) = 0 ∧ win1_4.index t (1 : Fin 2) = 0 :=
  (by decide +kernel : ∀ t : Fin grid1.N, _)

/-- A block that reads an array at the same coordinates is the array (a row window's block is its whole array). -/
theorem whole1 {n0 n1 : Nat} {α : Type} (arr x : (⟨2, ![n0, n1]⟩ : Shape).Idx → α)
    (hx : ∀ y, ∃ i, x y = arr i ∧ (i 0).val = (y 0).val ∧ (i 1).val = (y 1).val) : x = arr := by
  funext y
  obtain ⟨i, e, e0, e1⟩ := hx y
  rw [e]
  refine congrArg arr ?_
  funext a
  match a with
  | ⟨0, _⟩ => exact Fin.ext e0
  | ⟨1, _⟩ => exact Fin.ext e1

/-! ## What a point writes back -/

set_option maxHeartbeats 2000000 in
/-- What point `t` writes back is block `t` of the normalised array of the five input arrays as the region
    finds them. -/
theorem flushed1_eq (c : Dev nD) (t : Fin cfg1.N) :
    (dat1 V c).flushed 5 t = ((cfg1.win 5).blk t).view.read (Elt F)
      (G1 (V c (Pipeline.arrRef spec1 0)) (V c (Pipeline.arrRef spec1 1)) (V c (Pipeline.arrRef spec1 2))
        (V c (Pipeline.arrRef spec1 3)) (V c (Pipeline.arrRef spec1 4))) := by
  show (cfg1.win 5).cut (grid1.coords t) ((dat1 V c).after 5 t) = _
  rw [after1_5]
  unfold out1_5
  rw [View.canon_unit_zero zeros1v]
  simp only [View.ld_unit_zero (S := S5000x128) zeros1v, View.ld_unit_zero (S := S1x128) zeros1v]
  obtain ⟨e50, e51, e00, e01, e10, e11, e20, e21, e30, e31, e40, e41⟩ := idx_facts1 t
  have ht : t.val < 20 := lt_of_lt_of_eq t.isLt N_1
  funext j
  show k1_pay1 (iblk1 V c 2 t) (iblk1 V c 0 t) (iblk1 V c 1 t) (iblk1 V c 3 t) (iblk1 V c 4 t) j
    = G1 (V c (Pipeline.arrRef spec1 0)) (V c (Pipeline.arrRef spec1 1)) (V c (Pipeline.arrRef spec1 2))
        (V c (Pipeline.arrRef spec1 3)) (V c (Pipeline.arrRef spec1 4)) (((cfg1.win 5).blk t).view.emb j)
  refine G1_block (V c (Pipeline.arrRef spec1 0)) (V c (Pipeline.arrRef spec1 1)) (V c (Pipeline.arrRef spec1 2))
    (V c (Pipeline.arrRef spec1 3)) (V c (Pipeline.arrRef spec1 4))
    (iblk1 V c 0 t) (iblk1 V c 1 t) (iblk1 V c 2 t) (iblk1 V c 3 t) (iblk1 V c 4 t) t.val ht ?_ ?_ ?_ ?_ ?_
    j (((cfg1.win 5).blk t).view.emb j) ?_ ?_
  · intro y
    show V c (Pipeline.arrRef spec1 0) (((cfg1.win 0).blk t).view.emb y) = _
    refine congrArg (V c (Pipeline.arrRef spec1 0)) ?_
    funext a
    apply Fin.ext
    match a with
    | ⟨0, _⟩ => show win1_0.index t (0 : Fin 2) * 5000 + 1 * (y 0).val = 5000 * t.val + (y 0).val; omega
    | ⟨1, _⟩ => show win1_0.index t (1 : Fin 2) * 128 + 1 * (y 1).val = (y 1).val; omega
  · refine whole1 _ _ fun y => ⟨((cfg1.win 1).blk t).view.emb y, rfl, ?_, ?_⟩
    · show win1_1.index t (0 : Fin 2) * 1 + 1 * (y 0).val = (y 0).val; omega
    · show win1_1.index t (1 : Fin 2) * 128 + 1 * (y 1).val = (y 1).val; omega
  · refine whole1 _ _ fun y => ⟨((cfg1.win 2).blk t).view.emb y, rfl, ?_, ?_⟩
    · show win1_2.index t (0 : Fin 2) * 1 + 1 * (y 0).val = (y 0).val; omega
    · show win1_2.index t (1 : Fin 2) * 128 + 1 * (y 1).val = (y 1).val; omega
  · refine whole1 _ _ fun y => ⟨((cfg1.win 3).blk t).view.emb y, rfl, ?_, ?_⟩
    · show win1_3.index t (0 : Fin 2) * 1 + 1 * (y 0).val = (y 0).val; omega
    · show win1_3.index t (1 : Fin 2) * 128 + 1 * (y 1).val = (y 1).val; omega
  · refine whole1 _ _ fun y => ⟨((cfg1.win 4).blk t).view.emb y, rfl, ?_, ?_⟩
    · show win1_4.index t (0 : Fin 2) * 1 + 1 * (y 0).val = (y 0).val; omega
    · show win1_4.index t (1 : Fin 2) * 128 + 1 * (y 1).val = (y 1).val; omega
  · show win1_5.index t (0 : Fin 2) * 5000 + 1 * (j 0).val = t.val * 5000 + (j 0).val; omega
  · show win1_5.index t (1 : Fin 2) * 128 + 1 * (j 1).val = (j 1).val; omega

/-! ## The blocks tile the array -/

/-- An index of the array is in point `t`'s block iff each coordinate is in the block's range on its axis. -/
theorem mem_blk1_5 (t : Fin cfg1.N) (i : S100000x128.Idx) :
    i ∈ ((cfg1.win 5).blk t).view.set ↔ ∀ a : Fin 2, win1_5.index t a * S5000x128.size a ≤ (i a).val ∧ (i a).val < win1_5.index t a * S5000x128.size a + S5000x128.size a := by
  show i ∈ ((View.whole main_v38).slice (win1_5.rect t)).set ↔ _
  rw [View.set_slice_whole, Rect.mem_set_unit]
  exact Iff.rfl

/-- Every row `n` of the array is in the block of point `n / 5000`: the 20 blocks of 5000 rows tile the
    100000 rows, and there is one column block. -/
theorem blocks_cover1 (i : S100000x128.Idx) :
    ∃ t : Fin cfg1.N, (cfg1.win 5).flush t = true ∧ i ∈ ((cfg1.win 5).blk t).view.set := by
  have hi0 : (i 0).val < 100000 := idx2_lt0 i
  have hi1 : (i 1).val < 128 := idx2_lt1 i
  obtain ⟨t, ht⟩ : ∃ t : Fin cfg1.N, t.val = (i 0).val / 5000 :=
    ⟨⟨(i 0).val / 5000, lt_of_lt_of_eq (by omega : (i 0).val / 5000 < 20) N_1.symm⟩, rfl⟩
  obtain ⟨e50, e51, -⟩ := idx_facts1 t
  refine ⟨t, flush1_5 t, ?_⟩
  rw [mem_blk1_5]
  intro a
  match a with
  | ⟨0, _⟩ => show win1_5.index t (0 : Fin 2) * 5000 ≤ (i 0).val ∧ (i 0).val < win1_5.index t (0 : Fin 2) * 5000 + 5000; omega
  | ⟨1, _⟩ => show win1_5.index t (1 : Fin 2) * 128 ≤ (i 1).val ∧ (i 1).val < win1_5.index t (1 : Fin 2) * 128 + 128; omega

/-! ## The array after the region -/

/-- After all 20 points the output array holds the normalised array of the five input arrays as the region
    finds them. -/
theorem final1 (c : Dev nD) :
    (dat1 V c).arrAt 5 cfg1.N
      = G1 (V c (Pipeline.arrRef spec1 0)) (V c (Pipeline.arrRef spec1 1)) (V c (Pipeline.arrRef spec1 2))
        (V c (Pipeline.arrRef spec1 3)) (V c (Pipeline.arrRef spec1 4)) :=
  (dat1 V c).arrAt_eq_of_cover 5 _ (fun t _ => flushed1_eq V c t) blocks_cover1

/-! ## The array entry by entry, at the exact instance -/

/-- At the exact instance the normalised array's entry `(n, j)` is the specification's normalised value: the
    payload read at block index `(n mod 5000, j)` of the block of rows that holds row `n`. -/
theorem G1_apply (z : Vec Ideal S100000x128 .f32) (mu vr ga be : Vec Ideal S1x128 .f32) (n : Fin 100000) (j : Fin 128) :
    G1 (F := Ideal) z mu vr ga be (ix2 n j)
      = Cert.Spec.norm (fun n j => z (ix2 n j)) (fun j => mu (ix2 (0 : Fin 1) j)) (fun j => vr (ix2 (0 : Fin 1) j))
          (fun j => ga (ix2 (0 : Fin 1) j)) (fun j => be (ix2 (0 : Fin 1) j)) n j := by
  have e : (ix2 (⟨5000 * (n.val / 5000) + n.val % 5000, by have := n.isLt; omega⟩ : Fin 100000)
      (⟨j.val, j.isLt⟩ : Fin 128) : S100000x128.Idx) = ix2 n j := by
    funext a
    match a with
    | ⟨0, _⟩ => exact Fin.ext (Nat.div_add_mod n.val 5000)
    | ⟨1, _⟩ => rfl
  unfold G1
  rw [Cert.KernelIdeal.PayValue.pay1_apply]
  show ((z (ix2 (⟨5000 * (n.val / 5000) + n.val % 5000, _⟩ : Fin 100000) (⟨j.val, _⟩ : Fin 128)) - mu (ix2 (0 : Fin 1) j))
        * Ideal.rsqrt (vr (ix2 (0 : Fin 1) j) + Cert.Spec.eps)) * ga (ix2 (0 : Fin 1) j) + be (ix2 (0 : Fin 1) j) = _
  rw [e]
  rfl

/-- After the region, at the exact instance, the output array's entry `(n, j)` is the specification's
    normalised value of the five input arrays as the region finds them. -/
theorem final1_apply
    (VI : (c : Dev nD) → (b : Ref sig .tc) → Buf (Elt Ideal) ((c : Thread nD τ).loc b))
    (c : Dev nD) (n : Fin 100000) (j : Fin 128) :
    (dat1 (F := Ideal) VI c).arrAt 5 cfg1.N (ix2 n j)
      = Cert.Spec.norm (fun n j => VI c (Pipeline.arrRef spec1 0) (ix2 n j))
          (fun j => VI c (Pipeline.arrRef spec1 1) (ix2 (0 : Fin 1) j)) (fun j => VI c (Pipeline.arrRef spec1 2) (ix2 (0 : Fin 1) j))
          (fun j => VI c (Pipeline.arrRef spec1 3) (ix2 (0 : Fin 1) j)) (fun j => VI c (Pipeline.arrRef spec1 4) (ix2 (0 : Fin 1) j)) n j := by
  rw [final1]
  exact G1_apply _ _ _ _ _ n j

end Cert.KernelIdeal.Hand

end
-- ==== Proof.KiPay3.lean ====
/-
  Layer 2's normalisation body computes the same term as layer 1's, so its stored block reads entry by entry as
  layer 1's does: ((z(r,j) − mean(j)) · rsqrt(var(j) + eps)) · gamma(j) + beta(j).
-/
import proofs.«160011_j2121713844488_1_alg».proof.Proof.KiPay1

noncomputable section

namespace Cert.KernelIdeal.PayValue

open Cert.KernelIdeal Cert.KernelIdeal.Gen Idealize.ShloMosaic Idealize.ShloMosaic.ValueIdx

/-- This layer's body is, as a term, layer 1's. -/
theorem k3_pay1_eq_k1 {F : FTy → Type} [FloatOps F] : k3_pay1 (F := F) = k1_pay1 (F := F) := rfl

/-- The normalised block at (r, j). -/
theorem k3_pay1_apply (var : Vec Ideal S1x128 .f32) (z : Vec Ideal S5000x128 .f32) (mean : Vec Ideal S1x128 .f32)
    (gamma : Vec Ideal S1x128 .f32) (beta : Vec Ideal S1x128 .f32) (r : Fin 5000) (j : Fin 128) :
    k3_pay1 var z mean gamma beta (ix2 r j)
      = ((z (ix2 r j) - mean (ix2 (0 : Fin 1) j)) * Ideal.rsqrt (var (ix2 (0 : Fin 1) j) + Cert.Spec.eps))
          * gamma (ix2 (0 : Fin 1) j) + beta (ix2 (0 : Fin 1) j) := by
  rw [k3_pay1_eq_k1]
  exact pay1_apply var z mean gamma beta r j

end Cert.KernelIdeal.PayValue

end
-- ==== Proof.KiBn3Value.lean ====
import proofs.«160011_j2121713844488_1_alg».proof.Proof.KiBn3
import proofs.«160011_j2121713844488_1_alg».proof.Proof.KiPay3
import Idealize.ShloMosaic.Lib.Pipeline.Value
import Idealize.ShloMosaic.Lib.ValueIdx

/-! # The normalisation region 3: the output array after all 20 points

At a point the body writes the whole 5000 × 128 block of the output: the payload of the data block and of the
four 1 × 128 rows. The data window and the output window move together down the 20 blocks of 5000 rows, the
four row windows stay on their whole array, and the 20 output blocks tile the 100000 rows. So after the region
the output array is one function of the five input arrays as the region finds them: block by block, the payload
of that block of the data array and of the four rows. -/

set_option maxRecDepth 16384

noncomputable section

namespace Cert.KernelIdeal.Hand

open Cert.KernelIdeal Cert.KernelIdeal.Gen
open Idealize.ShloMosaic Idealize.ShloMosaic.TcCoe Idealize.ShloMosaic.Tactic
open Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

-- the contents of the core's buffers when the region is entered
variable (V : (c : Dev nD) → (b : Ref sig .tc) → Buf (Elt F) ((c : Thread nD τ).loc b))

/-! ## The output array as one function of the five input arrays -/

/-- The all-zero offsets of a whole-buffer access, as a constant function. -/
theorem zeros3v : (![0, 0] : Fin 2 → Nat) = fun _ => 0 := funext fun a => by fin_cases a <;> rfl

/-- The normalised array: its block of 5000 rows at block-row `b` is the body's payload of rows
    `5000·b … 5000·b + 4999` of the data array and of the four rows (mean, variance, scale, shift); entry
    `(n, j)` is that block's entry `(n mod 5000, j)`. -/
def G3 (z : S100000x128.Idx → Elt F .f32) (mu vr ga be : S1x128.Idx → Elt F .f32) : S100000x128.Idx → Elt F .f32 :=
  fun i => k3_pay1 vr
    (fun y => z (ix2 (⟨5000 * ((i 0).val / 5000) + (y 0).val, by
        have h1 : (i 0).val < 100000 := idx2_lt0 i
        have h2 : (y 0).val < 5000 := idx2_lt0 y
        omega⟩ : Fin 100000) (⟨(y 1).val, idx2_lt1 y⟩ : Fin 128)))
    mu ga be
    (ix2 (⟨(i 0).val % 5000, Nat.mod_lt _ (by norm_num)⟩ : Fin 5000) (⟨(i 1).val, idx2_lt1 i⟩ : Fin 128))

/-- One block of the normalised array: if `x0` is rows `5000·q …` of `z` and the four rows are the four row
    arrays, the payload at block index `j` is the array's entry at `(5000·q + j₀, j₁)`. -/
theorem G3_block (z : S100000x128.Idx → Elt F .f32) (mu vr ga be : S1x128.Idx → Elt F .f32)
    (x0 : Vec F S5000x128 .f32) (x1 x2 x3 x4 : Vec F S1x128 .f32) (q : Nat) (hq : q < 20)
    (h0 : ∀ y : S5000x128.Idx, x0 y = z (ix2 (⟨5000 * q + (y 0).val, by
        have h2 : (y 0).val < 5000 := idx2_lt0 y
        omega⟩ : Fin 100000) (⟨(y 1).val, idx2_lt1 y⟩ : Fin 128)))
    (h1 : x1 = mu) (h2 : x2 = vr) (h3 : x3 = ga) (h4 : x4 = be)
    (j : S5000x128.Idx) (i : S100000x128.Idx) (hi0 : (i 0).val = q * 5000 + (j 0).val) (hi1 : (i 1).val = (j 1).val) :
    k3_pay1 x2 x0 x1 x3 x4 j = G3 z mu vr ga be i := by
  subst h1 h2 h3 h4
  have hj0 : (j 0).val < 5000 := idx2_lt0 j
  have hq' : (i 0).val / 5000 = q := by omega
  have hm : (i 0).val % 5000 = (j 0).val := by omega
  have ej : j = ix2 (⟨(i 0).val % 5000, Nat.mod_lt _ (by norm_num)⟩ : Fin 5000) (⟨(i 1).val, idx2_lt1 i⟩ : Fin 128) := by
    funext a
    match a with
    | ⟨0, _⟩ => exact Fin.ext hm.symm
    | ⟨1, _⟩ => exact Fin.ext hi1.symm
  have ex : x0 = fun y : S5000x128.Idx => z (ix2 (⟨5000 * ((i 0).val / 5000) + (y 0).val, by
        have h1 : (i 0).val < 100000 := idx2_lt0 i
        have h2 : (y 0).val < 5000 := idx2_lt0 y
        omega⟩ : Fin 100000) (⟨(y 1).val, idx2_lt1 y⟩ : Fin 128)) := by
    funext y
    rw [h0 y]
    refine congrArg z ?_
    funext a
    match a with
    | ⟨0, _⟩ => exact Fin.ext (by show 5000 * q + (y 0).val = 5000 * ((i 0).val / 5000) + (y 0).val; rw [hq'])
    | ⟨1, _⟩ => rfl
  exact (congrArg (fun X => k3_pay1 x2 X x1 x3 x4 j) ex).trans
    (congrArg (fun J => k3_pay1 x2 (fun y : S5000x128.Idx => z (ix2 (⟨5000 * ((i 0).val / 5000) + (y 0).val, by
        have h1 : (i 0).val < 100000 := idx2_lt0 i
        have h2 : (y 0).val < 5000 := idx2_lt0 y
        omega⟩ : Fin 100000) (⟨(y 1).val, idx2_lt1 y⟩ : Fin 128))) x1 x3 x4 J) ej)

/-! ## The printed index maps, decided over the grid -/

/-- At point `t` the data window and the output window are at block-row `t`, column block `0`; the four
    row windows are at block `(0, 0)`: their block is their whole array. -/
theorem idx_facts3 : ∀ t : Fin cfg3.N,
    win3_5.index t (0 : Fin 2) = t.val ∧ win3_5.index t (1 : Fin 2) = 0
    ∧ win3_0.index t (0 : Fin 2) = t.val ∧ win3_0.index t (1 : Fin 2) = 0
    ∧ win3_1.index t (0 : Fin 2) = 0 ∧ win3_1.index t (1 : Fin 2) = 0
    ∧ win3_2.index t (0 : Fin 2) = 0 ∧ win3_2.index t (1 : Fin 2) = 0
    ∧ win3_3.index t (0 : Fin 2) = 0 ∧ win3_3.index t (1 : Fin 2) = 0
    ∧ win3_4.index t (0 : Fin 2) = 0 ∧ win3_4.index t (1 : Fin 2) = 0 :=
  (by decide +kernel : ∀ t : Fin grid3.N, _)

/-- A block that reads an array at the same coordinates is the array (a row window's block is its whole array). -/
theorem whole3 {n0 n1 : Nat} {α : Type} (arr x : (⟨2, ![n0, n1]⟩ : Shape).Idx → α)
    (hx : ∀ y, ∃ i, x y = arr i ∧ (i 0).val = (y 0).val ∧ (i 1).val = (y 1).val) : x = arr := by
  funext y
  obtain ⟨i, e, e0, e1⟩ := hx y
  rw [e]
  refine congrArg arr ?_
  funext a
  match a with
  | ⟨0, _⟩ => exact Fin.ext e0
  | ⟨1, _⟩ => exact Fin.ext e1

/-! ## What a point writes back -/

set_option maxHeartbeats 2000000 in
/-- What point `t` writes back is block `t` of the normalised array of the five input arrays as the region
    finds them. -/
theorem flushed3_eq (c : Dev nD) (t : Fin cfg3.N) :
    (dat3 V c).flushed 5 t = ((cfg3.win 5).blk t).view.read (Elt F)
      (G3 (V c (Pipeline.arrRef spec3 0)) (V c (Pipeline.arrRef spec3 1)) (V c (Pipeline.arrRef spec3 2))
        (V c (Pipeline.arrRef spec3 3)) (V c (Pipeline.arrRef spec3 4))) := by
  show (cfg3.win 5).cut (grid3.coords t) ((dat3 V c).after 5 t) = _
  rw [after3_5]
  unfold out3_5
  rw [View.canon_unit_zero zeros3v]
  simp only [View.ld_unit_zero (S := S5000x128) zeros3v, View.ld_unit_zero (S := S1x128) zeros3v]
  obtain ⟨e50, e51, e00, e01, e10, e11, e20, e21, e30, e31, e40, e41⟩ := idx_facts3 t
  have ht : t.val < 20 := lt_of_lt_of_eq t.isLt N_3
  funext j
  show k3_pay1 (iblk3 V c 2 t) (iblk3 V c 0 t) (iblk3 V c 1 t) (iblk3 V c 3 t) (iblk3 V c 4 t) j
    = G3 (V c (Pipeline.arrRef spec3 0)) (V c (Pipeline.arrRef spec3 1)) (V c (Pipeline.arrRef spec3 2))
        (V c (Pipeline.arrRef spec3 3)) (V c (Pipeline.arrRef spec3 4)) (((cfg3.win 5).blk t).view.emb j)
  refine G3_block (V c (Pipeline.arrRef spec3 0)) (V c (Pipeline.arrRef spec3 1)) (V c (Pipeline.arrRef spec3 2))
    (V c (Pipeline.arrRef spec3 3)) (V c (Pipeline.arrRef spec3 4))
    (iblk3 V c 0 t) (iblk3 V c 1 t) (iblk3 V c 2 t) (iblk3 V c 3 t) (iblk3 V c 4 t) t.val ht ?_ ?_ ?_ ?_ ?_
    j (((cfg3.win 5).blk t).view.emb j) ?_ ?_
  · intro y
    show V c (Pipeline.arrRef spec3 0) (((cfg3.win 0).blk t).view.emb y) = _
    refine congrArg (V c (Pipeline.arrRef spec3 0)) ?_
    funext a
    apply Fin.ext
    match a with
    | ⟨0, _⟩ => show win3_0.index t (0 : Fin 2) * 5000 + 1 * (y 0).val = 5000 * t.val + (y 0).val; omega
    | ⟨1, _⟩ => show win3_0.index t (1 : Fin 2) * 128 + 1 * (y 1).val = (y 1).val; omega
  · refine whole3 _ _ fun y => ⟨((cfg3.win 1).blk t).view.emb y, rfl, ?_, ?_⟩
    · show win3_1.index t (0 : Fin 2) * 1 + 1 * (y 0).val = (y 0).val; omega
    · show win3_1.index t (1 : Fin 2) * 128 + 1 * (y 1).val = (y 1).val; omega
  · refine whole3 _ _ fun y => ⟨((cfg3.win 2).blk t).view.emb y, rfl, ?_, ?_⟩
    · show win3_2.index t (0 : Fin 2) * 1 + 1 * (y 0).val = (y 0).val; omega
    · show win3_2.index t (1 : Fin 2) * 128 + 1 * (y 1).val = (y 1).val; omega
  · refine whole3 _ _ fun y => ⟨((cfg3.win 3).blk t).view.emb y, rfl, ?_, ?_⟩
    · show win3_3.index t (0 : Fin 2) * 1 + 1 * (y 0).val = (y 0).val; omega
    · show win3_3.index t (1 : Fin 2) * 128 + 1 * (y 1).val = (y 1).val; omega
  · refine whole3 _ _ fun y => ⟨((cfg3.win 4).blk t).view.emb y, rfl, ?_, ?_⟩
    · show win3_4.index t (0 : Fin 2) * 1 + 1 * (y 0).val = (y 0).val; omega
    · show win3_4.index t (1 : Fin 2) * 128 + 1 * (y 1).val = (y 1).val; omega
  · show win3_5.index t (0 : Fin 2) * 5000 + 1 * (j 0).val = t.val * 5000 + (j 0).val; omega
  · show win3_5.index t (1 : Fin 2) * 128 + 1 * (j 1).val = (j 1).val; omega

/-! ## The blocks tile the array -/

/-- An index of the array is in point `t`'s block iff each coordinate is in the block's range on its axis. -/
theorem mem_blk3_5 (t : Fin cfg3.N) (i : S100000x128.Idx) :
    i ∈ ((cfg3.win 5).blk t).view.set ↔ ∀ a : Fin 2, win3_5.index t a * S5000x128.size a ≤ (i a).val ∧ (i a).val < win3_5.index t a * S5000x128.size a + S5000x128.size a := by
  show i ∈ ((View.whole main_v73).slice (win3_5.rect t)).set ↔ _
  rw [View.set_slice_whole, Rect.mem_set_unit]
  exact Iff.rfl

/-- Every row `n` of the array is in the block of point `n / 5000`: the 20 blocks of 5000 rows tile the
    100000 rows, and there is one column block. -/
theorem blocks_cover3 (i : S100000x128.Idx) :
    ∃ t : Fin cfg3.N, (cfg3.win 5).flush t = true ∧ i ∈ ((cfg3.win 5).blk t).view.set := by
  have hi0 : (i 0).val < 100000 := idx2_lt0 i
  have hi1 : (i 1).val < 128 := idx2_lt1 i
  obtain ⟨t, ht⟩ : ∃ t : Fin cfg3.N, t.val = (i 0).val / 5000 :=
    ⟨⟨(i 0).val / 5000, lt_of_lt_of_eq (by omega : (i 0).val / 5000 < 20) N_3.symm⟩, rfl⟩
  obtain ⟨e50, e51, -⟩ := idx_facts3 t
  refine ⟨t, flush3_5 t, ?_⟩
  rw [mem_blk3_5]
  intro a
  match a with
  | ⟨0, _⟩ => show win3_5.index t (0 : Fin 2) * 5000 ≤ (i 0).val ∧ (i 0).val < win3_5.index t (0 : Fin 2) * 5000 + 5000; omega
  | ⟨1, _⟩ => show win3_5.index t (1 : Fin 2) * 128 ≤ (i 1).val ∧ (i 1).val < win3_5.index t (1 : Fin 2) * 128 + 128; omega

/-! ## The array after the region -/

/-- After all 20 points the output array holds the normalised array of the five input arrays as the region
    finds them. -/
theorem final3 (c : Dev nD) :
    (dat3 V c).arrAt 5 cfg3.N
      = G3 (V c (Pipeline.arrRef spec3 0)) (V c (Pipeline.arrRef spec3 1)) (V c (Pipeline.arrRef spec3 2))
        (V c (Pipeline.arrRef spec3 3)) (V c (Pipeline.arrRef spec3 4)) :=
  (dat3 V c).arrAt_eq_of_cover 5 _ (fun t _ => flushed3_eq V c t) blocks_cover3

/-! ## The array entry by entry, at the exact instance -/

/-- At the exact instance the normalised array's entry `(n, j)` is the specification's normalised value: the
    payload read at block index `(n mod 5000, j)` of the block of rows that holds row `n`. -/
theorem G3_apply (z : Vec Ideal S100000x128 .f32) (mu vr ga be : Vec Ideal S1x128 .f32) (n : Fin 100000) (j : Fin 128) :
    G3 (F := Ideal) z mu vr ga be (ix2 n j)
      = Cert.Spec.norm (fun n j => z (ix2 n j)) (fun j => mu (ix2 (0 : Fin 1) j)) (fun j => vr (ix2 (0 : Fin 1) j))
          (fun j => ga (ix2 (0 : Fin 1) j)) (fun j => be (ix2 (0 : Fin 1) j)) n j := by
  have e : (ix2 (⟨5000 * (n.val / 5000) + n.val % 5000, by have := n.isLt; omega⟩ : Fin 100000)
      (⟨j.val, j.isLt⟩ : Fin 128) : S100000x128.Idx) = ix2 n j := by
    funext a
    match a with
    | ⟨0, _⟩ => exact Fin.ext (Nat.div_add_mod n.val 5000)
    | ⟨1, _⟩ => rfl
  unfold G3
  rw [Cert.KernelIdeal.PayValue.k3_pay1_apply]
  show ((z (ix2 (⟨5000 * (n.val / 5000) + n.val % 5000, _⟩ : Fin 100000) (⟨j.val, _⟩ : Fin 128)) - mu (ix2 (0 : Fin 1) j))
        * Ideal.rsqrt (vr (ix2 (0 : Fin 1) j) + Cert.Spec.eps)) * ga (ix2 (0 : Fin 1) j) + be (ix2 (0 : Fin 1) j) = _
  rw [e]
  rfl

/-- After the region, at the exact instance, the output array's entry `(n, j)` is the specification's
    normalised value of the five input arrays as the region finds them. -/
theorem final3_apply
    (VI : (c : Dev nD) → (b : Ref sig .tc) → Buf (Elt Ideal) ((c : Thread nD τ).loc b))
    (c : Dev nD) (n : Fin 100000) (j : Fin 128) :
    (dat3 (F := Ideal) VI c).arrAt 5 cfg3.N (ix2 n j)
      = Cert.Spec.norm (fun n j => VI c (Pipeline.arrRef spec3 0) (ix2 n j))
          (fun j => VI c (Pipeline.arrRef spec3 1) (ix2 (0 : Fin 1) j)) (fun j => VI c (Pipeline.arrRef spec3 2) (ix2 (0 : Fin 1) j))
          (fun j => VI c (Pipeline.arrRef spec3 3) (ix2 (0 : Fin 1) j)) (fun j => VI c (Pipeline.arrRef spec3 4) (ix2 (0 : Fin 1) j)) n j := by
  rw [final3]
  exact G3_apply _ _ _ _ _ n j

end Cert.KernelIdeal.Hand

end
-- ==== Proof.KiPay5.lean ====
/-
  Layer 3's normalisation body computes the same term as layer 1's, so its stored block reads entry by entry as
  layer 1's does: ((z(r,j) − mean(j)) · rsqrt(var(j) + eps)) · gamma(j) + beta(j).
-/
import proofs.«160011_j2121713844488_1_alg».proof.Proof.KiPay1

noncomputable section

namespace Cert.KernelIdeal.PayValue

open Cert.KernelIdeal Cert.KernelIdeal.Gen Idealize.ShloMosaic Idealize.ShloMosaic.ValueIdx

/-- This layer's body is, as a term, layer 1's. -/
theorem k5_pay1_eq_k1 {F : FTy → Type} [FloatOps F] : k5_pay1 (F := F) = k1_pay1 (F := F) := rfl

/-- The normalised block at (r, j). -/
theorem k5_pay1_apply (var : Vec Ideal S1x128 .f32) (z : Vec Ideal S5000x128 .f32) (mean : Vec Ideal S1x128 .f32)
    (gamma : Vec Ideal S1x128 .f32) (beta : Vec Ideal S1x128 .f32) (r : Fin 5000) (j : Fin 128) :
    k5_pay1 var z mean gamma beta (ix2 r j)
      = ((z (ix2 r j) - mean (ix2 (0 : Fin 1) j)) * Ideal.rsqrt (var (ix2 (0 : Fin 1) j) + Cert.Spec.eps))
          * gamma (ix2 (0 : Fin 1) j) + beta (ix2 (0 : Fin 1) j) := by
  rw [k5_pay1_eq_k1]
  exact pay1_apply var z mean gamma beta r j

end Cert.KernelIdeal.PayValue

end
-- ==== Proof.KiBn5Value.lean ====
import proofs.«160011_j2121713844488_1_alg».proof.Proof.KiBn5
import proofs.«160011_j2121713844488_1_alg».proof.Proof.KiPay5
import Idealize.ShloMosaic.Lib.Pipeline.Value
import Idealize.ShloMosaic.Lib.ValueIdx

/-! # The normalisation region 5: the output array after all 20 points

At a point the body writes the whole 5000 × 128 block of the output: the payload of the data block and of the
four 1 × 128 rows. The data window and the output window move together down the 20 blocks of 5000 rows, the
four row windows stay on their whole array, and the 20 output blocks tile the 100000 rows. So after the region
the output array is one function of the five input arrays as the region finds them: block by block, the payload
of that block of the data array and of the four rows. -/

set_option maxRecDepth 16384

noncomputable section

namespace Cert.KernelIdeal.Hand

open Cert.KernelIdeal Cert.KernelIdeal.Gen
open Idealize.ShloMosaic Idealize.ShloMosaic.TcCoe Idealize.ShloMosaic.Tactic
open Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

-- the contents of the core's buffers when the region is entered
variable (V : (c : Dev nD) → (b : Ref sig .tc) → Buf (Elt F) ((c : Thread nD τ).loc b))

/-! ## The output array as one function of the five input arrays -/

/-- The all-zero offsets of a whole-buffer access, as a constant function. -/
theorem zeros5v : (![0, 0] : Fin 2 → Nat) = fun _ => 0 := funext fun a => by fin_cases a <;> rfl

/-- The normalised array: its block of 5000 rows at block-row `b` is the body's payload of rows
    `5000·b … 5000·b + 4999` of the data array and of the four rows (mean, variance, scale, shift); entry
    `(n, j)` is that block's entry `(n mod 5000, j)`. -/
def G5 (z : S100000x128.Idx → Elt F .f32) (mu vr ga be : S1x128.Idx → Elt F .f32) : S100000x128.Idx → Elt F .f32 :=
  fun i => k5_pay1 vr
    (fun y => z (ix2 (⟨5000 * ((i 0).val / 5000) + (y 0).val, by
        have h1 : (i 0).val < 100000 := idx2_lt0 i
        have h2 : (y 0).val < 5000 := idx2_lt0 y
        omega⟩ : Fin 100000) (⟨(y 1).val, idx2_lt1 y⟩ : Fin 128)))
    mu ga be
    (ix2 (⟨(i 0).val % 5000, Nat.mod_lt _ (by norm_num)⟩ : Fin 5000) (⟨(i 1).val, idx2_lt1 i⟩ : Fin 128))

/-- One block of the normalised array: if `x0` is rows `5000·q …` of `z` and the four rows are the four row
    arrays, the payload at block index `j` is the array's entry at `(5000·q + j₀, j₁)`. -/
theorem G5_block (z : S100000x128.Idx → Elt F .f32) (mu vr ga be : S1x128.Idx → Elt F .f32)
    (x0 : Vec F S5000x128 .f32) (x1 x2 x3 x4 : Vec F S1x128 .f32) (q : Nat) (hq : q < 20)
    (h0 : ∀ y : S5000x128.Idx, x0 y = z (ix2 (⟨5000 * q + (y 0).val, by
        have h2 : (y 0).val < 5000 := idx2_lt0 y
        omega⟩ : Fin 100000) (⟨(y 1).val, idx2_lt1 y⟩ : Fin 128)))
    (h1 : x1 = mu) (h2 : x2 = vr) (h3 : x3 = ga) (h4 : x4 = be)
    (j : S5000x128.Idx) (i : S100000x128.Idx) (hi0 : (i 0).val = q * 5000 + (j 0).val) (hi1 : (i 1).val = (j 1).val) :
    k5_pay1 x2 x0 x1 x3 x4 j = G5 z mu vr ga be i := by
  subst h1 h2 h3 h4
  have hj0 : (j 0).val < 5000 := idx2_lt0 j
  have hq' : (i 0).val / 5000 = q := by omega
  have hm : (i 0).val % 5000 = (j 0).val := by omega
  have ej : j = ix2 (⟨(i 0).val % 5000, Nat.mod_lt _ (by norm_num)⟩ : Fin 5000) (⟨(i 1).val, idx2_lt1 i⟩ : Fin 128) := by
    funext a
    match a with
    | ⟨0, _⟩ => exact Fin.ext hm.symm
    | ⟨1, _⟩ => exact Fin.ext hi1.symm
  have ex : x0 = fun y : S5000x128.Idx => z (ix2 (⟨5000 * ((i 0).val / 5000) + (y 0).val, by
        have h1 : (i 0).val < 100000 := idx2_lt0 i
        have h2 : (y 0).val < 5000 := idx2_lt0 y
        omega⟩ : Fin 100000) (⟨(y 1).val, idx2_lt1 y⟩ : Fin 128)) := by
    funext y
    rw [h0 y]
    refine congrArg z ?_
    funext a
    match a with
    | ⟨0, _⟩ => exact Fin.ext (by show 5000 * q + (y 0).val = 5000 * ((i 0).val / 5000) + (y 0).val; rw [hq'])
    | ⟨1, _⟩ => rfl
  exact (congrArg (fun X => k5_pay1 x2 X x1 x3 x4 j) ex).trans
    (congrArg (fun J => k5_pay1 x2 (fun y : S5000x128.Idx => z (ix2 (⟨5000 * ((i 0).val / 5000) + (y 0).val, by
        have h1 : (i 0).val < 100000 := idx2_lt0 i
        have h2 : (y 0).val < 5000 := idx2_lt0 y
        omega⟩ : Fin 100000) (⟨(y 1).val, idx2_lt1 y⟩ : Fin 128))) x1 x3 x4 J) ej)

/-! ## The printed index maps, decided over the grid -/

/-- At point `t` the data window and the output window are at block-row `t`, column block `0`; the four
    row windows are at block `(0, 0)`: their block is their whole array. -/
theorem idx_facts5 : ∀ t : Fin cfg5.N,
    win5_5.index t (0 : Fin 2) = t.val ∧ win5_5.index t (1 : Fin 2) = 0
    ∧ win5_0.index t (0 : Fin 2) = t.val ∧ win5_0.index t (1 : Fin 2) = 0
    ∧ win5_1.index t (0 : Fin 2) = 0 ∧ win5_1.index t (1 : Fin 2) = 0
    ∧ win5_2.index t (0 : Fin 2) = 0 ∧ win5_2.index t (1 : Fin 2) = 0
    ∧ win5_3.index t (0 : Fin 2) = 0 ∧ win5_3.index t (1 : Fin 2) = 0
    ∧ win5_4.index t (0 : Fin 2) = 0 ∧ win5_4.index t (1 : Fin 2) = 0 :=
  (by decide +kernel : ∀ t : Fin grid5.N, _)

/-- A block that reads an array at the same coordinates is the array (a row window's block is its whole array). -/
theorem whole5 {n0 n1 : Nat} {α : Type} (arr x : (⟨2, ![n0, n1]⟩ : Shape).Idx → α)
    (hx : ∀ y, ∃ i, x y = arr i ∧ (i 0).val = (y 0).val ∧ (i 1).val = (y 1).val) : x = arr := by
  funext y
  obtain ⟨i, e, e0, e1⟩ := hx y
  rw [e]
  refine congrArg arr ?_
  funext a
  match a with
  | ⟨0, _⟩ => exact Fin.ext e0
  | ⟨1, _⟩ => exact Fin.ext e1

/-! ## What a point writes back -/

set_option maxHeartbeats 2000000 in
/-- What point `t` writes back is block `t` of the normalised array of the five input arrays as the region
    finds them. -/
theorem flushed5_eq (c : Dev nD) (t : Fin cfg5.N) :
    (dat5 V c).flushed 5 t = ((cfg5.win 5).blk t).view.read (Elt F)
      (G5 (V c (Pipeline.arrRef spec5 0)) (V c (Pipeline.arrRef spec5 1)) (V c (Pipeline.arrRef spec5 2))
        (V c (Pipeline.arrRef spec5 3)) (V c (Pipeline.arrRef spec5 4))) := by
  show (cfg5.win 5).cut (grid5.coords t) ((dat5 V c).after 5 t) = _
  rw [after5_5]
  unfold out5_5
  rw [View.canon_unit_zero zeros5v]
  simp only [View.ld_unit_zero (S := S5000x128) zeros5v, View.ld_unit_zero (S := S1x128) zeros5v]
  obtain ⟨e50, e51, e00, e01, e10, e11, e20, e21, e30, e31, e40, e41⟩ := idx_facts5 t
  have ht : t.val < 20 := lt_of_lt_of_eq t.isLt N_5
  funext j
  show k5_pay1 (iblk5 V c 2 t) (iblk5 V c 0 t) (iblk5 V c 1 t) (iblk5 V c 3 t) (iblk5 V c 4 t) j
    = G5 (V c (Pipeline.arrRef spec5 0)) (V c (Pipeline.arrRef spec5 1)) (V c (Pipeline.arrRef spec5 2))
        (V c (Pipeline.arrRef spec5 3)) (V c (Pipeline.arrRef spec5 4)) (((cfg5.win 5).blk t).view.emb j)
  refine G5_block (V c (Pipeline.arrRef spec5 0)) (V c (Pipeline.arrRef spec5 1)) (V c (Pipeline.arrRef spec5 2))
    (V c (Pipeline.arrRef spec5 3)) (V c (Pipeline.arrRef spec5 4))
    (iblk5 V c 0 t) (iblk5 V c 1 t) (iblk5 V c 2 t) (iblk5 V c 3 t) (iblk5 V c 4 t) t.val ht ?_ ?_ ?_ ?_ ?_
    j (((cfg5.win 5).blk t).view.emb j) ?_ ?_
  · intro y
    show V c (Pipeline.arrRef spec5 0) (((cfg5.win 0).blk t).view.emb y) = _
    refine congrArg (V c (Pipeline.arrRef spec5 0)) ?_
    funext a
    apply Fin.ext
    match a with
    | ⟨0, _⟩ => show win5_0.index t (0 : Fin 2) * 5000 + 1 * (y 0).val = 5000 * t.val + (y 0).val; omega
    | ⟨1, _⟩ => show win5_0.index t (1 : Fin 2) * 128 + 1 * (y 1).val = (y 1).val; omega
  · refine whole5 _ _ fun y => ⟨((cfg5.win 1).blk t).view.emb y, rfl, ?_, ?_⟩
    · show win5_1.index t (0 : Fin 2) * 1 + 1 * (y 0).val = (y 0).val; omega
    · show win5_1.index t (1 : Fin 2) * 128 + 1 * (y 1).val = (y 1).val; omega
  · refine whole5 _ _ fun y => ⟨((cfg5.win 2).blk t).view.emb y, rfl, ?_, ?_⟩
    · show win5_2.index t (0 : Fin 2) * 1 + 1 * (y 0).val = (y 0).val; omega
    · show win5_2.index t (1 : Fin 2) * 128 + 1 * (y 1).val = (y 1).val; omega
  · refine whole5 _ _ fun y => ⟨((cfg5.win 3).blk t).view.emb y, rfl, ?_, ?_⟩
    · show win5_3.index t (0 : Fin 2) * 1 + 1 * (y 0).val = (y 0).val; omega
    · show win5_3.index t (1 : Fin 2) * 128 + 1 * (y 1).val = (y 1).val; omega
  · refine whole5 _ _ fun y => ⟨((cfg5.win 4).blk t).view.emb y, rfl, ?_, ?_⟩
    · show win5_4.index t (0 : Fin 2) * 1 + 1 * (y 0).val = (y 0).val; omega
    · show win5_4.index t (1 : Fin 2) * 128 + 1 * (y 1).val = (y 1).val; omega
  · show win5_5.index t (0 : Fin 2) * 5000 + 1 * (j 0).val = t.val * 5000 + (j 0).val; omega
  · show win5_5.index t (1 : Fin 2) * 128 + 1 * (j 1).val = (j 1).val; omega

/-! ## The blocks tile the array -/

/-- An index of the array is in point `t`'s block iff each coordinate is in the block's range on its axis. -/
theorem mem_blk5_5 (t : Fin cfg5.N) (i : S100000x128.Idx) :
    i ∈ ((cfg5.win 5).blk t).view.set ↔ ∀ a : Fin 2, win5_5.index t a * S5000x128.size a ≤ (i a).val ∧ (i a).val < win5_5.index t a * S5000x128.size a + S5000x128.size a := by
  show i ∈ ((View.whole main_v108).slice (win5_5.rect t)).set ↔ _
  rw [View.set_slice_whole, Rect.mem_set_unit]
  exact Iff.rfl

/-- Every row `n` of the array is in the block of point `n / 5000`: the 20 blocks of 5000 rows tile the
    100000 rows, and there is one column block. -/
theorem blocks_cover5 (i : S100000x128.Idx) :
    ∃ t : Fin cfg5.N, (cfg5.win 5).flush t = true ∧ i ∈ ((cfg5.win 5).blk t).view.set := by
  have hi0 : (i 0).val < 100000 := idx2_lt0 i
  have hi1 : (i 1).val < 128 := idx2_lt1 i
  obtain ⟨t, ht⟩ : ∃ t : Fin cfg5.N, t.val = (i 0).val / 5000 :=
    ⟨⟨(i 0).val / 5000, lt_of_lt_of_eq (by omega : (i 0).val / 5000 < 20) N_5.symm⟩, rfl⟩
  obtain ⟨e50, e51, -⟩ := idx_facts5 t
  refine ⟨t, flush5_5 t, ?_⟩
  rw [mem_blk5_5]
  intro a
  match a with
  | ⟨0, _⟩ => show win5_5.index t (0 : Fin 2) * 5000 ≤ (i 0).val ∧ (i 0).val < win5_5.index t (0 : Fin 2) * 5000 + 5000; omega
  | ⟨1, _⟩ => show win5_5.index t (1 : Fin 2) * 128 ≤ (i 1).val ∧ (i 1).val < win5_5.index t (1 : Fin 2) * 128 + 128; omega

/-! ## The array after the region -/

/-- After all 20 points the output array holds the normalised array of the five input arrays as the region
    finds them. -/
theorem final5 (c : Dev nD) :
    (dat5 V c).arrAt 5 cfg5.N
      = G5 (V c (Pipeline.arrRef spec5 0)) (V c (Pipeline.arrRef spec5 1)) (V c (Pipeline.arrRef spec5 2))
        (V c (Pipeline.arrRef spec5 3)) (V c (Pipeline.arrRef spec5 4)) :=
  (dat5 V c).arrAt_eq_of_cover 5 _ (fun t _ => flushed5_eq V c t) blocks_cover5

/-! ## The array entry by entry, at the exact instance -/

/-- At the exact instance the normalised array's entry `(n, j)` is the specification's normalised value: the
    payload read at block index `(n mod 5000, j)` of the block of rows that holds row `n`. -/
theorem G5_apply (z : Vec Ideal S100000x128 .f32) (mu vr ga be : Vec Ideal S1x128 .f32) (n : Fin 100000) (j : Fin 128) :
    G5 (F := Ideal) z mu vr ga be (ix2 n j)
      = Cert.Spec.norm (fun n j => z (ix2 n j)) (fun j => mu (ix2 (0 : Fin 1) j)) (fun j => vr (ix2 (0 : Fin 1) j))
          (fun j => ga (ix2 (0 : Fin 1) j)) (fun j => be (ix2 (0 : Fin 1) j)) n j := by
  have e : (ix2 (⟨5000 * (n.val / 5000) + n.val % 5000, by have := n.isLt; omega⟩ : Fin 100000)
      (⟨j.val, j.isLt⟩ : Fin 128) : S100000x128.Idx) = ix2 n j := by
    funext a
    match a with
    | ⟨0, _⟩ => exact Fin.ext (Nat.div_add_mod n.val 5000)
    | ⟨1, _⟩ => rfl
  unfold G5
  rw [Cert.KernelIdeal.PayValue.k5_pay1_apply]
  show ((z (ix2 (⟨5000 * (n.val / 5000) + n.val % 5000, _⟩ : Fin 100000) (⟨j.val, _⟩ : Fin 128)) - mu (ix2 (0 : Fin 1) j))
        * Ideal.rsqrt (vr (ix2 (0 : Fin 1) j) + Cert.Spec.eps)) * ga (ix2 (0 : Fin 1) j) + be (ix2 (0 : Fin 1) j) = _
  rw [e]
  rfl

/-- After the region, at the exact instance, the output array's entry `(n, j)` is the specification's
    normalised value of the five input arrays as the region finds them. -/
theorem final5_apply
    (VI : (c : Dev nD) → (b : Ref sig .tc) → Buf (Elt Ideal) ((c : Thread nD τ).loc b))
    (c : Dev nD) (n : Fin 100000) (j : Fin 128) :
    (dat5 (F := Ideal) VI c).arrAt 5 cfg5.N (ix2 n j)
      = Cert.Spec.norm (fun n j => VI c (Pipeline.arrRef spec5 0) (ix2 n j))
          (fun j => VI c (Pipeline.arrRef spec5 1) (ix2 (0 : Fin 1) j)) (fun j => VI c (Pipeline.arrRef spec5 2) (ix2 (0 : Fin 1) j))
          (fun j => VI c (Pipeline.arrRef spec5 3) (ix2 (0 : Fin 1) j)) (fun j => VI c (Pipeline.arrRef spec5 4) (ix2 (0 : Fin 1) j)) n j := by
  rw [final5]
  exact G5_apply _ _ _ _ _ n j

end Cert.KernelIdeal.Hand

end
-- ==== Proof.KiValueCore.lean ====
import proofs.«160011_j2121713844488_1_alg».proof.Proof.RefAt
import proofs.«160011_j2121713844488_1_alg».proof.Proof.SpecLaws

/-! # One layer and the head: from the kernel program's way of computing them to the reference program's

A layer of the network is a perceptron of the aggregated features followed by a normalisation with the
columns' own mean and variance. The kernel program takes the statistics from column sums and sums of
squares accumulated over 20 blocks of 5000 rows, mean `s₁ / n` and variance `s₂ / n − mean²`; the
reference program takes the mean over the whole column and the variance as the mean of the squared
deviations. For real data the two agree, and the result is real. Here that is stated over abstract arrays:
whatever the kernel program's output entries are, if they are the specification's normalisation of the
specification's perceptron with the block statistics, they are the reference's layer, entry by entry.
The head is a pure rearrangement: no finiteness is needed. -/

noncomputable section

namespace Cert.LayerCore

open Cert.ReferenceIdeal Cert.ReferenceIdeal.Gen Idealize.ShloMosaic Idealize.ShloMosaic.ValueIdx

/-- The specification's perceptron of the reference's arrays read entry by entry. -/
abbrev Zs (aggR : FVec Ideal S100000x128 .f32) (w1 : FVec Ideal S128x128 .f32) (b1 : FVec Ideal S128 .f32)
    (w2 : FVec Ideal S128x128 .f32) (b2 : FVec Ideal S128 .f32) : Fin 100000 → Fin 128 → EReal :=
  Cert.Spec.mlp (fun n q => aggR (ix2 n q)) (fun q k => w1 (ix2 q k)) (fun k => b1 (ix1 k))
    (fun k j => w2 (ix2 k j)) (fun j => b2 (ix1 j))

/-- One layer. `aggR … bt` are the reference's aggregated features and sliced parameters, all real. `Hout` is
    the kernel program's output, entry by entry the specification's normalisation (`hout`) of `X`, which is the
    specification's perceptron of `A W1 B1 W2 B2` (`hX`), with the mean and variance rows taken from the rows
    `S1 S2` of block sums (`hMU hVR hS1 hS2`); the kernel's operand arrays read entry by entry as the
    reference's (`hA … hBE`). Then `Hout` is the reference's normalised perceptron, and real. -/
theorem layer_core
    (aggR : FVec Ideal S100000x128 .f32) (w1 : FVec Ideal S128x128 .f32) (b1 : FVec Ideal S128 .f32)
    (w2 : FVec Ideal S128x128 .f32) (b2 g bt : FVec Ideal S128 .f32)
    (hagg : ∀ i, ∃ r : ℝ, aggR i = (r : EReal)) (hw1 : ∀ i, ∃ r : ℝ, w1 i = (r : EReal))
    (hb1 : ∀ i, ∃ r : ℝ, b1 i = (r : EReal)) (hw2 : ∀ i, ∃ r : ℝ, w2 i = (r : EReal))
    (hb2 : ∀ i, ∃ r : ℝ, b2 i = (r : EReal)) (hg : ∀ i, ∃ r : ℝ, g i = (r : EReal))
    (hbt : ∀ i, ∃ r : ℝ, bt i = (r : EReal))
    (Hout X : Fin 100000 → Fin 128 → EReal) (MU VR GA BE : Fin 128 → EReal)
    (A : Fin 100000 → Fin 128 → EReal) (W1 : Fin 128 → Fin 128 → EReal) (B1 : Fin 128 → EReal)
    (W2 : Fin 128 → Fin 128 → EReal) (B2 : Fin 128 → EReal) (S1 S2 : Fin 128 → EReal)
    (hout : ∀ n j, Hout n j = Cert.Spec.norm X MU VR GA BE n j)
    (hX : ∀ n j, X n j = Cert.Spec.mlp A W1 B1 W2 B2 n j)
    (hS1 : ∀ j, S1 j = 0 + ∑ b : Fin 20, ∑ r : Fin 5000, Cert.Spec.mlp A W1 B1 W2 B2 (Cert.SpecLaws.blk b r) j)
    (hS2 : ∀ j, S2 j = 0 + ∑ b : Fin 20, ∑ r : Fin 5000,
      Cert.Spec.mlp A W1 B1 W2 B2 (Cert.SpecLaws.blk b r) j * Cert.Spec.mlp A W1 B1 W2 B2 (Cert.SpecLaws.blk b r) j)
    (hMU : ∀ j, MU j = Ideal.div (S1 j) Cert.Spec.cN)
    (hVR : ∀ j, VR j = Ideal.div (S2 j) Cert.Spec.cN - Ideal.div (S1 j) Cert.Spec.cN * Ideal.div (S1 j) Cert.Spec.cN)
    (hA : ∀ n q, A n q = aggR (ix2 n q)) (hW1 : ∀ q k, W1 q k = w1 (ix2 q k)) (hB1 : ∀ k, B1 k = b1 (ix1 k))
    (hW2 : ∀ k j, W2 k j = w2 (ix2 k j)) (hB2 : ∀ j, B2 j = b2 (ix1 j)) (hGA : ∀ j, GA j = g (ix1 j))
    (hBE : ∀ j, BE j = bt (ix1 j)) (n : Fin 100000) (j : Fin 128) :
    Hout n j = RefRun.bnAll (F := Ideal) (RefRun.mlp aggR w1 b1 w2 b2) g bt (ix2 n j)
      ∧ ∃ r : ℝ, Hout n j = (r : EReal) := by
  obtain rfl : A = fun n q => aggR (ix2 n q) := funext fun n => funext fun q => hA n q
  obtain rfl : W1 = fun q k => w1 (ix2 q k) := funext fun q => funext fun k => hW1 q k
  obtain rfl : B1 = fun k => b1 (ix1 k) := funext hB1
  obtain rfl : W2 = fun k j => w2 (ix2 k j) := funext fun k => funext fun j => hW2 k j
  obtain rfl : B2 = fun j => b2 (ix1 j) := funext hB2
  obtain rfl : GA = fun j => g (ix1 j) := funext hGA
  obtain rfl : BE = fun j => bt (ix1 j) := funext hBE
  obtain rfl : MU = fun j => Ideal.div (S1 j) Cert.Spec.cN := funext hMU
  obtain rfl : VR = fun j => Ideal.div (S2 j) Cert.Spec.cN - Ideal.div (S1 j) Cert.Spec.cN * Ideal.div (S1 j) Cert.Spec.cN :=
    funext hVR
  obtain rfl := (funext hS1 : S1 = _)
  obtain rfl := (funext hS2 : S2 = _)
  obtain rfl := (funext fun n => funext fun j => hX n j : X = _)
  -- the reference side, as the specification's normalisation with the whole-column statistics
  have hz : ∀ n j, RefRun.mlp (F := Ideal) aggR w1 b1 w2 b2 (ix2 n j) = Zs aggR w1 b1 w2 b2 n j :=
    fun n j => RefAt.mlp_apply aggR w1 b1 w2 b2 n j
  have hmu : ∀ j, RefRun.colMean (F := Ideal) (RefRun.mlp aggR w1 b1 w2 b2) (ix1 j)
      = Ideal.div (0 + ∑ n : Fin 100000, Zs aggR w1 b1 w2 b2 n j) Cert.Spec.cN :=
    fun j => (RefAt.colMean_apply _ j).trans (by simp only [hz])
  have hvr : ∀ j, RefRun.colVar (F := Ideal) (RefRun.mlp aggR w1 b1 w2 b2) (ix1 j)
      = Ideal.div (0 + ∑ n : Fin 100000,
            (Zs aggR w1 b1 w2 b2 n j - Ideal.div (0 + ∑ n : Fin 100000, Zs aggR w1 b1 w2 b2 n j) Cert.Spec.cN)
              * (Zs aggR w1 b1 w2 b2 n j - Ideal.div (0 + ∑ n : Fin 100000, Zs aggR w1 b1 w2 b2 n j) Cert.Spec.cN))
          (Cert.Spec.cN - 0) :=
    fun j => (RefAt.colVar_apply _ j).trans (by simp only [hz])
  have href := (RefAt.bnorm_apply (RefRun.mlp (F := Ideal) aggR w1 b1 w2 b2)
      (RefRun.colMean (RefRun.mlp (F := Ideal) aggR w1 b1 w2 b2)) (RefRun.colVar (RefRun.mlp (F := Ideal) aggR w1 b1 w2 b2)) g bt n j).trans
    (Cert.SpecLaws.norm_congr_all _ _ _ _ _ _ _ _ _ _ hz hmu hvr (fun _ => rfl) (fun _ => rfl) n j)
  obtain ⟨heq, r, hr⟩ := Cert.SpecLaws.layer_eq (fun n q => aggR (ix2 n q)) (fun q k => w1 (ix2 q k)) (fun k => b1 (ix1 k))
    (fun k j => w2 (ix2 k j)) (fun j => b2 (ix1 j)) (fun j => g (ix1 j)) (fun j => bt (ix1 j))
    (fun n q => hagg _) (fun q k => hw1 _) (fun k => hb1 _) (fun k j => hw2 _) (fun j => hb2 _) (fun j => hg _)
    (fun j => hbt _) n j
  exact ⟨(hout n j).trans (heq.trans href.symm), r, (hout n j).trans (heq.trans hr)⟩

/-- The head: if the kernel program's output entries are the specification's log-softmax of its logits of operand
    arrays that read entry by entry as the reference's, they are the reference's head. -/
theorem head_core
    (h : FVec Ideal S100000x128 .f32) (fw1 : FVec Ideal S128x128 .f32) (fb1 : FVec Ideal S128 .f32)
    (fw2 : FVec Ideal S128x64 .f32) (fb2 : FVec Ideal S64 .f32) (mask : FVec Ideal S100000x128 .f32)
    (Hout : Fin 100000 → Fin 64 → EReal) (Hk : Fin 100000 → Fin 128 → EReal) (WA : Fin 128 → Fin 128 → EReal)
    (BA : Fin 128 → EReal) (WB : Fin 128 → Fin 64 → EReal) (BB : Fin 64 → EReal) (MK : Fin 100000 → Fin 128 → EReal)
    (hout : ∀ n j, Hout n j = Cert.Spec.logSoftmax (Cert.Spec.logits Hk WA BA WB BB MK) n j)
    (hH : ∀ n q, Hk n q = h (ix2 n q)) (hWA : ∀ q k, WA q k = fw1 (ix2 q k)) (hBA : ∀ k, BA k = fb1 (ix1 k))
    (hWB : ∀ k j, WB k j = fw2 (ix2 k j)) (hBB : ∀ j, BB j = fb2 (ix1 j)) (hMK : ∀ n k, MK n k = mask (ix2 n k))
    (n : Fin 100000) (j : Fin 64) :
    Hout n j = RefRun.head (F := Ideal) h fw1 fb1 fw2 fb2 mask (ix2 n j) := by
  obtain rfl : Hk = fun n q => h (ix2 n q) := funext fun n => funext fun q => hH n q
  obtain rfl : WA = fun q k => fw1 (ix2 q k) := funext fun q => funext fun k => hWA q k
  obtain rfl : BA = fun k => fb1 (ix1 k) := funext hBA
  obtain rfl : WB = fun k j => fw2 (ix2 k j) := funext fun k => funext fun j => hWB k j
  obtain rfl : BB = fun j => fb2 (ix1 j) := funext hBB
  obtain rfl : MK = fun n k => mask (ix2 n k) := funext fun n => funext fun k => hMK n k
  unfold RefRun.head
  exact (hout n j).trans ((Cert.SpecLaws.logSoftmax_congr _ _
    (fun n k => (RefAt.logits_apply h fw1 fb1 fw2 fb2 mask n k).symm) n j).trans
    (RefAt.logSoftmax_apply _ n j).symm)

end Cert.LayerCore

end
-- ==== Proof.PreReal.lean ====
/-
  From the precondition to the reals. The precondition is the conjunction, over the twelve float arguments, of
  "every entry's absolute value is below plus infinity"; at the extended reals an entry with |x| < +∞ is neither
  infinity, so it is a real number. Stated over the arrays (any memory whose arguments satisfy the predicate), and
  once more over the kernel's memory under its precondition.
-/
import proofs.«160011_j2121713844488_1_alg».proof.Defs
import Idealize.ShloMosaic.Lib.ReduceAll
import Idealize.ShloMosaic.Lib.ValueIdx

noncomputable section

namespace Cert.PreReal

open Idealize.ShloMosaic Idealize.SL.Sem Cert.Pre_finite_inputs

/-- The scalar shape has one index. -/
instance : Subsingleton S_.Idx := ⟨fun a b => funext fun d => d.elim0⟩

/-- The word 0x7F800000 is plus infinity. -/
theorem ofBits_inf : Ideal.ofBits .f32 0x7F800000#32 = (⊤ : EReal) := by
  simp [Ideal.ofBits, Ideal.ieee]

/-- An extended real whose absolute value compares below the infinity word is a real. -/
theorem real_of_abs_lt (x : EReal) (h : Ideal.cmp .olt (max x (-x)) (Ideal.ofBits .f32 0x7F800000#32) = 1#1) :
    ∃ r : ℝ, x = (r : EReal) := by
  rw [ofBits_inf] at h
  have h' : max x (-x) < ⊤ := by
    by_contra hn
    simp [Ideal.cmp, hn] at h
  induction x using EReal.rec with
  | bot => simp at h'
  | top => simp at h'
  | coe r => exact ⟨r, rfl⟩

/-- One conjunct of the precondition: the all-reduce of `|x| < +∞` over an array is 1, so every entry is a real. -/
theorem all_real {s : Shape} {axes : List (Fin s.rank)} (x : FVec Ideal s .f32)
    (hb : S_.BroadcastsInDim s (![] : Fin 0 → Fin s.rank)) (h : s.ReducesTo axes S_) (hu : 0 < S_.numel)
    (e : Host.reduce IntOp.andi (cmpf .olt (Host.absf x) (broadcastInDim s ![] hb (constant (F := Ideal) S_ .f32 0x7F800000#32)))
      (constantI S_ 1 1#1) h hu ValueIdx.ix0 = 1#1) (i : s.Idx) : ∃ r : ℝ, x i = (r : EReal) :=
  real_of_abs_lt (x i) (Host.reduce_andi_all _ _ h hu _ e i)

variable [Facts]

/-- Arrays that satisfy the precondition have real entries: one statement per float argument (every argument but
    the integer edge table), in argument order. -/
theorem args_real
    (a0 : FVec Ideal S100000x128 .f32)
    (a1 : IVec S2x600000 32)
    (a2 : FVec Ideal S3x128x128 .f32)
    (a3 : FVec Ideal S3x128 .f32)
    (a4 : FVec Ideal S3x128x128 .f32)
    (a5 : FVec Ideal S3x128 .f32)
    (a6 : FVec Ideal S3x128 .f32)
    (a7 : FVec Ideal S3x128 .f32)
    (a8 : FVec Ideal S128x128 .f32)
    (a9 : FVec Ideal S128 .f32)
    (a10 : FVec Ideal S128x64 .f32)
    (a11 : FVec Ideal S64 .f32)
    (a12 : FVec Ideal S100000x128 .f32)
    (h : fn (F := Ideal) a0 a1 a2 a3 a4 a5 a6 a7 a8 a9 a10 a11 a12 = fun _ => 1#1) :
    (∀ i, ∃ r : ℝ, a0 i = (r : EReal))
    ∧ (∀ i, ∃ r : ℝ, a2 i = (r : EReal))
    ∧ (∀ i, ∃ r : ℝ, a3 i = (r : EReal))
    ∧ (∀ i, ∃ r : ℝ, a4 i = (r : EReal))
    ∧ (∀ i, ∃ r : ℝ, a5 i = (r : EReal))
    ∧ (∀ i, ∃ r : ℝ, a6 i = (r : EReal))
    ∧ (∀ i, ∃ r : ℝ, a7 i = (r : EReal))
    ∧ (∀ i, ∃ r : ℝ, a8 i = (r : EReal))
    ∧ (∀ i, ∃ r : ℝ, a9 i = (r : EReal))
    ∧ (∀ i, ∃ r : ℝ, a10 i = (r : EReal))
    ∧ (∀ i, ∃ r : ℝ, a11 i = (r : EReal))
    ∧ (∀ i, ∃ r : ℝ, a12 i = (r : EReal)) := by
  have h := congrFun h ValueIdx.ix0
  dsimp only [fn, fn_part1, fn_part2, fn_part3, andi] at h
  simp only [IntOp.andi_eq_one] at h
  obtain ⟨⟨⟨⟨⟨⟨⟨⟨⟨⟨⟨h0, h2⟩, h3⟩, h4⟩, h5⟩, h6⟩, h7⟩, h8⟩, h9⟩, h10⟩, h11⟩, h12⟩ := h
  exact ⟨all_real _ _ _ _ h0, all_real _ _ _ _ h2, all_real _ _ _ _ h3, all_real _ _ _ _ h4, all_real _ _ _ _ h5, all_real _ _ _ _ h6, all_real _ _ _ _ h7, all_real _ _ _ _ h8, all_real _ _ _ _ h9, all_real _ _ _ _ h10, all_real _ _ _ _ h11, all_real _ _ _ _ h12⟩

/-- Under the kernel's precondition every entry of every float argument of the kernel's memory is a real. -/
theorem kernel_args_real (m : (ℓ : Loc Cert.KernelIdeal.nD Cert.KernelIdeal.τ Cert.KernelIdeal.sig) → Buf (Elt Ideal) ℓ)
    (hpre : Cert.Pre_KernelIdeal m) (c : Dev Cert.KernelIdeal.nD) :
    (∀ i, ∃ r : ℝ, (m ((c.tc : Thread Cert.KernelIdeal.nD Cert.KernelIdeal.τ).loc Cert.KernelIdeal.main_arg0)) i = (r : EReal))
    ∧ (∀ i, ∃ r : ℝ, (m ((c.tc : Thread Cert.KernelIdeal.nD Cert.KernelIdeal.τ).loc Cert.KernelIdeal.main_arg2)) i = (r : EReal))
    ∧ (∀ i, ∃ r : ℝ, (m ((c.tc : Thread Cert.KernelIdeal.nD Cert.KernelIdeal.τ).loc Cert.KernelIdeal.main_arg3)) i = (r : EReal))
    ∧ (∀ i, ∃ r : ℝ, (m ((c.tc : Thread Cert.KernelIdeal.nD Cert.KernelIdeal.τ).loc Cert.KernelIdeal.main_arg4)) i = (r : EReal))
    ∧ (∀ i, ∃ r : ℝ, (m ((c.tc : Thread Cert.KernelIdeal.nD Cert.KernelIdeal.τ).loc Cert.KernelIdeal.main_arg5)) i = (r : EReal))
    ∧ (∀ i, ∃ r : ℝ, (m ((c.tc : Thread Cert.KernelIdeal.nD Cert.KernelIdeal.τ).loc Cert.KernelIdeal.main_arg6)) i = (r : EReal))
    ∧ (∀ i, ∃ r : ℝ, (m ((c.tc : Thread Cert.KernelIdeal.nD Cert.KernelIdeal.τ).loc Cert.KernelIdeal.main_arg7)) i = (r : EReal))
    ∧ (∀ i, ∃ r : ℝ, (m ((c.tc : Thread Cert.KernelIdeal.nD Cert.KernelIdeal.τ).loc Cert.KernelIdeal.main_arg8)) i = (r : EReal))
    ∧ (∀ i, ∃ r : ℝ, (m ((c.tc : Thread Cert.KernelIdeal.nD Cert.KernelIdeal.τ).loc Cert.KernelIdeal.main_arg9)) i = (r : EReal))
    ∧ (∀ i, ∃ r : ℝ, (m ((c.tc : Thread Cert.KernelIdeal.nD Cert.KernelIdeal.τ).loc Cert.KernelIdeal.main_arg10)) i = (r : EReal))
    ∧ (∀ i, ∃ r : ℝ, (m ((c.tc : Thread Cert.KernelIdeal.nD Cert.KernelIdeal.τ).loc Cert.KernelIdeal.main_arg11)) i = (r : EReal))
    ∧ (∀ i, ∃ r : ℝ, (m ((c.tc : Thread Cert.KernelIdeal.nD Cert.KernelIdeal.τ).loc Cert.KernelIdeal.main_arg12)) i = (r : EReal)) :=
  args_real (m ((c.tc : Thread Cert.KernelIdeal.nD Cert.KernelIdeal.τ).loc Cert.KernelIdeal.main_arg0))
    (m ((c.tc : Thread Cert.KernelIdeal.nD Cert.KernelIdeal.τ).loc Cert.KernelIdeal.main_arg1))
    (m ((c.tc : Thread Cert.KernelIdeal.nD Cert.KernelIdeal.τ).loc Cert.KernelIdeal.main_arg2))
    (m ((c.tc : Thread Cert.KernelIdeal.nD Cert.KernelIdeal.τ).loc Cert.KernelIdeal.main_arg3))
    (m ((c.tc : Thread Cert.KernelIdeal.nD Cert.KernelIdeal.τ).loc Cert.KernelIdeal.main_arg4))
    (m ((c.tc : Thread Cert.KernelIdeal.nD Cert.KernelIdeal.τ).loc Cert.KernelIdeal.main_arg5))
    (m ((c.tc : Thread Cert.KernelIdeal.nD Cert.KernelIdeal.τ).loc Cert.KernelIdeal.main_arg6))
    (m ((c.tc : Thread Cert.KernelIdeal.nD Cert.KernelIdeal.τ).loc Cert.KernelIdeal.main_arg7))
    (m ((c.tc : Thread Cert.KernelIdeal.nD Cert.KernelIdeal.τ).loc Cert.KernelIdeal.main_arg8))
    (m ((c.tc : Thread Cert.KernelIdeal.nD Cert.KernelIdeal.τ).loc Cert.KernelIdeal.main_arg9))
    (m ((c.tc : Thread Cert.KernelIdeal.nD Cert.KernelIdeal.τ).loc Cert.KernelIdeal.main_arg10))
    (m ((c.tc : Thread Cert.KernelIdeal.nD Cert.KernelIdeal.τ).loc Cert.KernelIdeal.main_arg11))
    (m ((c.tc : Thread Cert.KernelIdeal.nD Cert.KernelIdeal.τ).loc Cert.KernelIdeal.main_arg12)) (hpre c)

end Cert.PreReal

end
-- ==== Proof.AggReal.lean ====
/-
  The neighbour aggregation keeps the reals. At the extended reals the aggregation of `h` is, entry by entry,
  `h i` plus a zero plus the finite sum of the gathered rows landing on `i`; every gathered entry is an entry of
  `h`. So if every entry of `h` is a real number, so is every entry of the aggregation, whatever the edge table.
-/
import proofs.«160011_j2121713844488_1_alg».proof.Proof.RefRunStages
import proofs.«160011_j2121713844488_1_alg».proof.Proof.LibRealClosure
import Idealize.ShloMosaic.Lib.IdealHost

noncomputable section

namespace Cert.AggReal

open Idealize.ShloMosaic Cert.ReferenceIdeal Cert.ReferenceIdeal.Gen Cert.ReferenceIdeal.RefRun Cert.LibRealClosure

/-- A scatter-add of real updates into a real operand has real entries: the operand's entry plus a finite sum of
    updates. -/
theorem real_scatterAdd {s si su : Shape} (d : ScatterDims s si su) {w : Nat} (x : s.Idx → EReal) (idx : IVec si w)
    (u : su.Idx → EReal) (hx : ∀ i, ∃ r : ℝ, x i = (r : EReal)) (hu : ∀ j, ∃ r : ℝ, u j = (r : EReal)) (i : s.Idx) :
    ∃ r : ℝ, Ideal.hostScatterAdd d x idx u i = (r : EReal) :=
  real_add (hx i) (real_sum _ _ fun j _ => hu j)

/-- A gather of a real array has real entries: each is an entry of the array. -/
theorem real_gather {s si t : Shape} (d : GatherDims s si t) {w : Nat} (x : s.Idx → EReal) (idx : IVec si w)
    (hx : ∀ i, ∃ r : ℝ, x i = (r : EReal)) (j : t.Idx) : ∃ r : ℝ, Host.gather d x idx j = (r : EReal) :=
  hx _

/-- The same for the host's scatter-add read at the extended reals (stated at any shapes: at the program's own
    shapes the two spellings are never compared by unfolding). -/
theorem real_hostScatterAdd {s si su : Shape} (d : ScatterDims s si su) {w : Nat} (x : FVec Ideal s .f32) (idx : IVec si w)
    (u : FVec Ideal su .f32) (hx : ∀ i, ∃ r : ℝ, x i = (r : EReal)) (hu : ∀ j, ∃ r : ℝ, u j = (r : EReal)) (i : s.Idx) :
    ∃ r : ℝ, Host.scatterAdd d x idx u i = (r : EReal) :=
  real_scatterAdd d x idx u hx hu i

/-- The entrywise sum of two arrays is real where both are. -/
theorem real_addf {s : Shape} (x y : FVec Ideal s .f32) (i : s.Idx) (hx : ∃ r : ℝ, x i = (r : EReal))
    (hy : ∃ r : ℝ, y i = (r : EReal)) : ∃ r : ℝ, addf x y i = (r : EReal) :=
  real_add hx hy

/-- A broadcast zero word has real entries. -/
theorem real_zeros {s : Shape} (hb : S_.BroadcastsInDim s (![] : Fin 0 → Fin s.rank)) (k : s.Idx) :
    ∃ r : ℝ, (broadcastInDim s ![] hb (constant (F := Ideal) S_ .f32 0x00000000#32)) k = (r : EReal) :=
  ⟨0, Ideal.ofBits_zero_f32.trans EReal.coe_zero.symm⟩

/-- The aggregation of an array of reals is an array of reals, for any source and destination indices. -/
theorem agg_real (h : FVec Ideal S100000x128 .f32) (src dst : IVec S600000 32)
    (hh : ∀ i, ∃ r : ℝ, h i = (r : EReal)) (i : S100000x128.Idx) :
    ∃ r : ℝ, agg (F := Ideal) h src dst i = (r : EReal) := by
  unfold agg
  exact real_addf _ _ i (hh i)
    (real_hostScatterAdd _ _ _ _ (real_zeros _) (fun j => real_gather _ _ _ hh j) i)

end Cert.AggReal

end
-- ==== Proof.KiValue.lean ====
import proofs.«160011_j2121713844488_1_alg».proof.Proof.KiHostEq
import proofs.«160011_j2121713844488_1_alg».proof.Proof.KiHead
import proofs.«160011_j2121713844488_1_alg».proof.Proof.KiBn1Value
import proofs.«160011_j2121713844488_1_alg».proof.Proof.KiBn3Value
import proofs.«160011_j2121713844488_1_alg».proof.Proof.KiBn5Value
import proofs.«160011_j2121713844488_1_alg».proof.Proof.KiFc6Value
import proofs.«160011_j2121713844488_1_alg».proof.Proof.KiValueCore
import proofs.«160011_j2121713844488_1_alg».proof.Proof.PreReal
import proofs.«160011_j2121713844488_1_alg».proof.Proof.AggReal

/-! # The kernel program's result is the reference's model of the arguments

The run leaves the result array at the last boundary's contents. Read backwards through the boundaries, the
classifier region's output is the specification's log-softmax of its logits of six arrays; the first is the
third normalisation region's output, which is the specification's normalisation of the third statistics
region's perceptron output with the mean and variance rows the host stretch between them computes from the
two rows of sums, and so on down to the arguments. Each layer is the reference's layer of the layer below,
entry by entry, for real data (the statistics taken from block sums and over the whole columns agree), and
real again; the head is the reference's head. The statistics regions' three outputs are taken as
hypotheses here, in the form the specification states them. -/

set_option maxRecDepth 16384

noncomputable section

namespace Cert.KernelIdeal.Hand

open Cert.KernelIdeal Cert.KernelIdeal.Gen
open Idealize.ShloMosaic Idealize.ShloMosaic.TcCoe Idealize.SL.Sem Idealize.ShloMosaic.ValueIdx

/-! ## Small readings at an index -/

/-- The mean row at column `j`: the sum row's entry divided by the row count. -/
theorem kMean_at (s : FVec Ideal S1x128 .f32) (j : Fin 128) :
    kMean s (ix2 (0 : Fin 1) j) = Ideal.div (s (ix2 (0 : Fin 1) j)) Cert.Spec.cN := by
  unfold kMean
  show Ideal.div (s (ix2 (0 : Fin 1) j))
      (broadcastInDim S1x128 ![] bcast_S_S1x128 (constant (F := Ideal) S_ .f32 0x47C35000#32) (ix2 (0 : Fin 1) j)) = _
  rw [Cert.LibHostApply.broadcastInDim_scalar_apply]
  rfl

/-- The variance row at column `j`: the square-sum row's entry divided by the row count, minus the mean's square. -/
theorem kVar_at (s1 s2 : FVec Ideal S1x128 .f32) (j : Fin 128) :
    kVar s1 s2 (ix2 (0 : Fin 1) j)
      = Ideal.div (s2 (ix2 (0 : Fin 1) j)) Cert.Spec.cN
          - Ideal.div (s1 (ix2 (0 : Fin 1) j)) Cert.Spec.cN * Ideal.div (s1 (ix2 (0 : Fin 1) j)) Cert.Spec.cN := by
  unfold kVar
  show Ideal.div (s2 (ix2 (0 : Fin 1) j))
        (broadcastInDim S1x128 ![] bcast_S_S1x128 (constant (F := Ideal) S_ .f32 0x47C35000#32) (ix2 (0 : Fin 1) j))
      - kMean s1 (ix2 (0 : Fin 1) j) * kMean s1 (ix2 (0 : Fin 1) j) = _
  rw [Cert.LibHostApply.broadcastInDim_scalar_apply, kMean_at]
  rfl

/-- Every entry of a slice of a stack is an entry of the stack, so slices of real stacks are real. -/
theorem matAt0_real (W : FVec Ideal S3x128x128 .f32) (hW : ∀ i, ∃ r : ℝ, W i = (r : EReal)) (i : S128x128.Idx) :
    ∃ r : ℝ, Cert.ReferenceIdeal.RefRun.matAt0 (F := Ideal) W i = (r : EReal) := hW _
theorem rowAt0_real (B : FVec Ideal S3x128 .f32) (hB : ∀ i, ∃ r : ℝ, B i = (r : EReal)) (i : S128.Idx) :
    ∃ r : ℝ, Cert.ReferenceIdeal.RefRun.rowAt0 (F := Ideal) B i = (r : EReal) := hB _
theorem matAt1_real (W : FVec Ideal S3x128x128 .f32) (hW : ∀ i, ∃ r : ℝ, W i = (r : EReal)) (i : S128x128.Idx) :
    ∃ r : ℝ, Cert.ReferenceIdeal.RefRun.matAt1 (F := Ideal) W i = (r : EReal) := hW _
theorem rowAt1_real (B : FVec Ideal S3x128 .f32) (hB : ∀ i, ∃ r : ℝ, B i = (r : EReal)) (i : S128.Idx) :
    ∃ r : ℝ, Cert.ReferenceIdeal.RefRun.rowAt1 (F := Ideal) B i = (r : EReal) := hB _
theorem matAt2_real (W : FVec Ideal S3x128x128 .f32) (hW : ∀ i, ∃ r : ℝ, W i = (r : EReal)) (i : S128x128.Idx) :
    ∃ r : ℝ, Cert.ReferenceIdeal.RefRun.matAt2 (F := Ideal) W i = (r : EReal) := hW _
theorem rowAt2_real (B : FVec Ideal S3x128 .f32) (hB : ∀ i, ∃ r : ℝ, B i = (r : EReal)) (i : S128.Idx) :
    ∃ r : ℝ, Cert.ReferenceIdeal.RefRun.rowAt2 (F := Ideal) B i = (r : EReal) := hB _

variable (m : (ℓ : Loc nD τ sig) → Buf (Elt Ideal) ℓ) (ρ : Dev nD → PrngReg) (c : Dev nD)

/-! ## The three layers -/

set_option maxHeartbeats 4000000 in
/-- Layer 0: from a real input array (the node features), the normalisation region 1's output is the reference's
    layer 0 of it, entry by entry, and real. `Rz Rs Rq`: what the statistics region 0 leaves in its three outputs. -/
theorem layer0_value
    (hin : ∀ i, ∃ r : ℝ, (m ((c : Thread nD τ).loc main_arg0)) i = (r : EReal))
    (h2 : ∀ i, ∃ r : ℝ, (m ((c : Thread nD τ).loc main_arg2)) i = (r : EReal)) (h3 : ∀ i, ∃ r : ℝ, (m ((c : Thread nD τ).loc main_arg3)) i = (r : EReal))
    (h4 : ∀ i, ∃ r : ℝ, (m ((c : Thread nD τ).loc main_arg4)) i = (r : EReal)) (h5 : ∀ i, ∃ r : ℝ, (m ((c : Thread nD τ).loc main_arg5)) i = (r : EReal))
    (h6 : ∀ i, ∃ r : ℝ, (m ((c : Thread nD τ).loc main_arg6)) i = (r : EReal)) (h7 : ∀ i, ∃ r : ℝ, (m ((c : Thread nD τ).loc main_arg7)) i = (r : EReal))
    (Rz : ∀ n j, (dat0 (F := Ideal) (V1 m ρ) c).arrAt 5 cfg0.N (ix2 n j)
      = Cert.Spec.mlp (fun n q => V1 m ρ c (Pipeline.arrRef spec0 0) (ix2 n q)) (fun q k => V1 m ρ c (Pipeline.arrRef spec0 1) (ix2 q k))
          (fun k => V1 m ρ c (Pipeline.arrRef spec0 2) (ix2 (0 : Fin 1) k)) (fun k j => V1 m ρ c (Pipeline.arrRef spec0 3) (ix2 k j))
          (fun j => V1 m ρ c (Pipeline.arrRef spec0 4) (ix2 (0 : Fin 1) j)) n j)
    (Rs : ∀ j, (dat0 (F := Ideal) (V1 m ρ) c).arrAt 6 cfg0.N (ix2 (0 : Fin 1) j)
      = 0 + ∑ b : Fin 20, ∑ r : Fin 5000, Cert.Spec.mlp (fun n q => V1 m ρ c (Pipeline.arrRef spec0 0) (ix2 n q)) (fun q k => V1 m ρ c (Pipeline.arrRef spec0 1) (ix2 q k))
          (fun k => V1 m ρ c (Pipeline.arrRef spec0 2) (ix2 (0 : Fin 1) k)) (fun k j => V1 m ρ c (Pipeline.arrRef spec0 3) (ix2 k j))
          (fun j => V1 m ρ c (Pipeline.arrRef spec0 4) (ix2 (0 : Fin 1) j)) (Cert.SpecLaws.blk b r) j)
    (Rq : ∀ j, (dat0 (F := Ideal) (V1 m ρ) c).arrAt 7 cfg0.N (ix2 (0 : Fin 1) j)
      = 0 + ∑ b : Fin 20, ∑ r : Fin 5000, Cert.Spec.mlp (fun n q => V1 m ρ c (Pipeline.arrRef spec0 0) (ix2 n q)) (fun q k => V1 m ρ c (Pipeline.arrRef spec0 1) (ix2 q k))
          (fun k => V1 m ρ c (Pipeline.arrRef spec0 2) (ix2 (0 : Fin 1) k)) (fun k j => V1 m ρ c (Pipeline.arrRef spec0 3) (ix2 k j))
          (fun j => V1 m ρ c (Pipeline.arrRef spec0 4) (ix2 (0 : Fin 1) j)) (Cert.SpecLaws.blk b r) j
          * Cert.Spec.mlp (fun n q => V1 m ρ c (Pipeline.arrRef spec0 0) (ix2 n q)) (fun q k => V1 m ρ c (Pipeline.arrRef spec0 1) (ix2 q k))
          (fun k => V1 m ρ c (Pipeline.arrRef spec0 2) (ix2 (0 : Fin 1) k)) (fun k j => V1 m ρ c (Pipeline.arrRef spec0 3) (ix2 k j))
          (fun j => V1 m ρ c (Pipeline.arrRef spec0 4) (ix2 (0 : Fin 1) j)) (Cert.SpecLaws.blk b r) j) :
    (∀ n j, W4 m ρ c (Proc.devRef .tc main_v38) (ix2 n j)
      = Cert.ReferenceIdeal.RefRun.layer0 (F := Ideal) (m ((c : Thread nD τ).loc main_arg0)) (Cert.ReferenceIdeal.RefRun.srcRow (m ((c : Thread nD τ).loc main_arg1))) (Cert.ReferenceIdeal.RefRun.dstRow (m ((c : Thread nD τ).loc main_arg1)))
          (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (ix2 n j))
    ∧ (∀ i, ∃ r : ℝ, W4 m ρ c (Proc.devRef .tc main_v38) i = (r : EReal)) := by
  have hout : ∀ n j, W4 m ρ c (Proc.devRef .tc main_v38) (ix2 n j)
      = Cert.Spec.norm (fun n j => V3 m ρ c (Pipeline.arrRef spec1 0) (ix2 n j)) (fun j => V3 m ρ c (Pipeline.arrRef spec1 1) (ix2 (0 : Fin 1) j))
          (fun j => V3 m ρ c (Pipeline.arrRef spec1 2) (ix2 (0 : Fin 1) j)) (fun j => V3 m ρ c (Pipeline.arrRef spec1 3) (ix2 (0 : Fin 1) j))
          (fun j => V3 m ρ c (Pipeline.arrRef spec1 4) (ix2 (0 : Fin 1) j)) n j :=
    fun n j => (congrFun (W4_arr m ρ c 5) (ix2 n j)).trans (final1_apply (V3 m ρ) c n j)
  have hX : ∀ n j, V3 m ρ c (Pipeline.arrRef spec1 0) (ix2 n j) = Cert.Spec.mlp (fun n q => V1 m ρ c (Pipeline.arrRef spec0 0) (ix2 n q)) (fun q k => V1 m ρ c (Pipeline.arrRef spec0 1) (ix2 q k))
          (fun k => V1 m ρ c (Pipeline.arrRef spec0 2) (ix2 (0 : Fin 1) k)) (fun k j => V1 m ρ c (Pipeline.arrRef spec0 3) (ix2 k j))
          (fun j => V1 m ρ c (Pipeline.arrRef spec0 4) (ix2 (0 : Fin 1) j)) n j :=
    fun n j => (congrFun (W3_main_v25_0 m ρ c) (ix2 n j)).trans ((congrFun (W2_arr m ρ c 5) (ix2 n j)).trans (Rz n j))
  have hMU : ∀ j, V3 m ρ c (Pipeline.arrRef spec1 1) (ix2 (0 : Fin 1) j)
      = Ideal.div ((dat0 (F := Ideal) (V1 m ρ) c).arrAt 6 cfg0.N (ix2 (0 : Fin 1) j)) Cert.Spec.cN :=
    fun j => (congrFun (W3_main_v27 m ρ c) (ix2 (0 : Fin 1) j)).trans ((kMean_at _ j).trans
      (congrArg (fun t => Ideal.div t Cert.Spec.cN) (congrFun (W2_arr m ρ c 6) (ix2 (0 : Fin 1) j))))
  have hVR : ∀ j, V3 m ρ c (Pipeline.arrRef spec1 2) (ix2 (0 : Fin 1) j)
      = Ideal.div ((dat0 (F := Ideal) (V1 m ρ) c).arrAt 7 cfg0.N (ix2 (0 : Fin 1) j)) Cert.Spec.cN
        - Ideal.div ((dat0 (F := Ideal) (V1 m ρ) c).arrAt 6 cfg0.N (ix2 (0 : Fin 1) j)) Cert.Spec.cN
          * Ideal.div ((dat0 (F := Ideal) (V1 m ρ) c).arrAt 6 cfg0.N (ix2 (0 : Fin 1) j)) Cert.Spec.cN :=
    fun j => (congrFun (W3_main_v31 m ρ c) (ix2 (0 : Fin 1) j)).trans ((kVar_at _ _ j).trans
      (congrArg₂ (fun a b => Ideal.div b Cert.Spec.cN - Ideal.div a Cert.Spec.cN * Ideal.div a Cert.Spec.cN)
        (congrFun (W2_arr m ρ c 6) (ix2 (0 : Fin 1) j)) (congrFun (W2_arr m ρ c 7) (ix2 (0 : Fin 1) j))))
  have hA : ∀ n q, V1 m ρ c (Pipeline.arrRef spec0 0) (ix2 n q)
      = Cert.ReferenceIdeal.RefRun.agg (F := Ideal) (m ((c : Thread nD τ).loc main_arg0)) (Cert.ReferenceIdeal.RefRun.srcRow (m ((c : Thread nD τ).loc main_arg1))) (Cert.ReferenceIdeal.RefRun.dstRow (m ((c : Thread nD τ).loc main_arg1))) (ix2 n q) :=
    fun n q => congrFun (W1_main_v14 m ρ c) (ix2 n q)
  have hW1 : ∀ q k, V1 m ρ c (Pipeline.arrRef spec0 1) (ix2 q k)
      = Cert.ReferenceIdeal.RefRun.matAt0 (F := Ideal) (m ((c : Thread nD τ).loc main_arg2)) (ix2 q k) :=
    fun q k => congrFun (W1_main_v16 m ρ c) (ix2 q k)
  have hB1 : ∀ k, V1 m ρ c (Pipeline.arrRef spec0 2) (ix2 (0 : Fin 1) k)
      = Cert.ReferenceIdeal.RefRun.rowAt0 (F := Ideal) (m ((c : Thread nD τ).loc main_arg3)) (ix1 k) :=
    fun k => (congrFun (W1_main_v23 m ρ c) (ix2 (0 : Fin 1) k)).trans (kAsRow_apply _ k)
  have hW2 : ∀ k j, V1 m ρ c (Pipeline.arrRef spec0 3) (ix2 k j)
      = Cert.ReferenceIdeal.RefRun.matAt0 (F := Ideal) (m ((c : Thread nD τ).loc main_arg4)) (ix2 k j) :=
    fun k j => congrFun (W1_main_v20 m ρ c) (ix2 k j)
  have hB2 : ∀ j, V1 m ρ c (Pipeline.arrRef spec0 4) (ix2 (0 : Fin 1) j)
      = Cert.ReferenceIdeal.RefRun.rowAt0 (F := Ideal) (m ((c : Thread nD τ).loc main_arg5)) (ix1 j) :=
    fun j => (congrFun (W1_main_v24 m ρ c) (ix2 (0 : Fin 1) j)).trans (kAsRow_apply _ j)
  have hGA : ∀ j, V3 m ρ c (Pipeline.arrRef spec1 3) (ix2 (0 : Fin 1) j)
      = Cert.ReferenceIdeal.RefRun.rowAt0 (F := Ideal) (m ((c : Thread nD τ).loc main_arg6)) (ix1 j) :=
    fun j => (congrFun (W3_main_v36 m ρ c) (ix2 (0 : Fin 1) j)).trans (kAsRow_apply _ j)
  have hBE : ∀ j, V3 m ρ c (Pipeline.arrRef spec1 4) (ix2 (0 : Fin 1) j)
      = Cert.ReferenceIdeal.RefRun.rowAt0 (F := Ideal) (m ((c : Thread nD τ).loc main_arg7)) (ix1 j) :=
    fun j => (congrFun (W3_main_v37 m ρ c) (ix2 (0 : Fin 1) j)).trans (kAsRow_apply _ j)
  have key := Cert.LayerCore.layer_core
    (Cert.ReferenceIdeal.RefRun.agg (F := Ideal) (m ((c : Thread nD τ).loc main_arg0)) (Cert.ReferenceIdeal.RefRun.srcRow (m ((c : Thread nD τ).loc main_arg1))) (Cert.ReferenceIdeal.RefRun.dstRow (m ((c : Thread nD τ).loc main_arg1))))
    (Cert.ReferenceIdeal.RefRun.matAt0 (F := Ideal) (m ((c : Thread nD τ).loc main_arg2))) (Cert.ReferenceIdeal.RefRun.rowAt0 (F := Ideal) (m ((c : Thread nD τ).loc main_arg3)))
    (Cert.ReferenceIdeal.RefRun.matAt0 (F := Ideal) (m ((c : Thread nD τ).loc main_arg4))) (Cert.ReferenceIdeal.RefRun.rowAt0 (F := Ideal) (m ((c : Thread nD τ).loc main_arg5)))
    (Cert.ReferenceIdeal.RefRun.rowAt0 (F := Ideal) (m ((c : Thread nD τ).loc main_arg6))) (Cert.ReferenceIdeal.RefRun.rowAt0 (F := Ideal) (m ((c : Thread nD τ).loc main_arg7)))
    (Cert.AggReal.agg_real _ _ _ hin) (matAt0_real _ h2) (rowAt0_real _ h3) (matAt0_real _ h4) (rowAt0_real _ h5)
    (rowAt0_real _ h6) (rowAt0_real _ h7)
    (fun n j => W4 m ρ c (Proc.devRef .tc main_v38) (ix2 n j)) _ _ _ _ _ _ _ _ _ _
    (fun j => (dat0 (F := Ideal) (V1 m ρ) c).arrAt 6 cfg0.N (ix2 (0 : Fin 1) j))
    (fun j => (dat0 (F := Ideal) (V1 m ρ) c).arrAt 7 cfg0.N (ix2 (0 : Fin 1) j))
    hout hX Rs Rq hMU hVR hA hW1 hB1 hW2 hB2 hGA hBE
  refine ⟨fun n j => (key n j).1, fun i => ?_⟩
  obtain ⟨r, hr⟩ := (key (i 0) (i 1)).2
  exact ⟨r, (congrArg (W4 m ρ c (Proc.devRef .tc main_v38)) (eq_ix2 i)).trans hr⟩

set_option maxHeartbeats 4000000 in
/-- Layer 1: from a real input array (layer 0's output), the normalisation region 3's output is the reference's
    layer 1 of it, entry by entry, and real. `Rz Rs Rq`: what the statistics region 2 leaves in its three outputs. -/
theorem layer1_value
    (hin : ∀ i, ∃ r : ℝ, (W4 m ρ c (Proc.devRef .tc main_v38)) i = (r : EReal))
    (h2 : ∀ i, ∃ r : ℝ, (m ((c : Thread nD τ).loc main_arg2)) i = (r : EReal)) (h3 : ∀ i, ∃ r : ℝ, (m ((c : Thread nD τ).loc main_arg3)) i = (r : EReal))
    (h4 : ∀ i, ∃ r : ℝ, (m ((c : Thread nD τ).loc main_arg4)) i = (r : EReal)) (h5 : ∀ i, ∃ r : ℝ, (m ((c : Thread nD τ).loc main_arg5)) i = (r : EReal))
    (h6 : ∀ i, ∃ r : ℝ, (m ((c : Thread nD τ).loc main_arg6)) i = (r : EReal)) (h7 : ∀ i, ∃ r : ℝ, (m ((c : Thread nD τ).loc main_arg7)) i = (r : EReal))
    (Rz : ∀ n j, (dat2 (F := Ideal) (V5 m ρ) c).arrAt 5 cfg2.N (ix2 n j)
      = Cert.Spec.mlp (fun n q => V5 m ρ c (Pipeline.arrRef spec2 0) (ix2 n q)) (fun q k => V5 m ρ c (Pipeline.arrRef spec2 1) (ix2 q k))
          (fun k => V5 m ρ c (Pipeline.arrRef spec2 2) (ix2 (0 : Fin 1) k)) (fun k j => V5 m ρ c (Pipeline.arrRef spec2 3) (ix2 k j))
          (fun j => V5 m ρ c (Pipeline.arrRef spec2 4) (ix2 (0 : Fin 1) j)) n j)
    (Rs : ∀ j, (dat2 (F := Ideal) (V5 m ρ) c).arrAt 6 cfg2.N (ix2 (0 : Fin 1) j)
      = 0 + ∑ b : Fin 20, ∑ r : Fin 5000, Cert.Spec.mlp (fun n q => V5 m ρ c (Pipeline.arrRef spec2 0) (ix2 n q)) (fun q k => V5 m ρ c (Pipeline.arrRef spec2 1) (ix2 q k))
          (fun k => V5 m ρ c (Pipeline.arrRef spec2 2) (ix2 (0 : Fin 1) k)) (fun k j => V5 m ρ c (Pipeline.arrRef spec2 3) (ix2 k j))
          (fun j => V5 m ρ c (Pipeline.arrRef spec2 4) (ix2 (0 : Fin 1) j)) (Cert.SpecLaws.blk b r) j)
    (Rq : ∀ j, (dat2 (F := Ideal) (V5 m ρ) c).arrAt 7 cfg2.N (ix2 (0 : Fin 1) j)
      = 0 + ∑ b : Fin 20, ∑ r : Fin 5000, Cert.Spec.mlp (fun n q => V5 m ρ c (Pipeline.arrRef spec2 0) (ix2 n q)) (fun q k => V5 m ρ c (Pipeline.arrRef spec2 1) (ix2 q k))
          (fun k => V5 m ρ c (Pipeline.arrRef spec2 2) (ix2 (0 : Fin 1) k)) (fun k j => V5 m ρ c (Pipeline.arrRef spec2 3) (ix2 k j))
          (fun j => V5 m ρ c (Pipeline.arrRef spec2 4) (ix2 (0 : Fin 1) j)) (Cert.SpecLaws.blk b r) j
          * Cert.Spec.mlp (fun n q => V5 m ρ c (Pipeline.arrRef spec2 0) (ix2 n q)) (fun q k => V5 m ρ c (Pipeline.arrRef spec2 1) (ix2 q k))
          (fun k => V5 m ρ c (Pipeline.arrRef spec2 2) (ix2 (0 : Fin 1) k)) (fun k j => V5 m ρ c (Pipeline.arrRef spec2 3) (ix2 k j))
          (fun j => V5 m ρ c (Pipeline.arrRef spec2 4) (ix2 (0 : Fin 1) j)) (Cert.SpecLaws.blk b r) j) :
    (∀ n j, W8 m ρ c (Proc.devRef .tc main_v73) (ix2 n j)
      = Cert.ReferenceIdeal.RefRun.layer1 (F := Ideal) (W4 m ρ c (Proc.devRef .tc main_v38)) (Cert.ReferenceIdeal.RefRun.srcRow (m ((c : Thread nD τ).loc main_arg1))) (Cert.ReferenceIdeal.RefRun.dstRow (m ((c : Thread nD τ).loc main_arg1)))
          (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (ix2 n j))
    ∧ (∀ i, ∃ r : ℝ, W8 m ρ c (Proc.devRef .tc main_v73) i = (r : EReal)) := by
  have hout : ∀ n j, W8 m ρ c (Proc.devRef .tc main_v73) (ix2 n j)
      = Cert.Spec.norm (fun n j => V7 m ρ c (Pipeline.arrRef spec3 0) (ix2 n j)) (fun j => V7 m ρ c (Pipeline.arrRef spec3 1) (ix2 (0 : Fin 1) j))
          (fun j => V7 m ρ c (Pipeline.arrRef spec3 2) (ix2 (0 : Fin 1) j)) (fun j => V7 m ρ c (Pipeline.arrRef spec3 3) (ix2 (0 : Fin 1) j))
          (fun j => V7 m ρ c (Pipeline.arrRef spec3 4) (ix2 (0 : Fin 1) j)) n j :=
    fun n j => (congrFun (W8_arr m ρ c 5) (ix2 n j)).trans (final3_apply (V7 m ρ) c n j)
  have hX : ∀ n j, V7 m ρ c (Pipeline.arrRef spec3 0) (ix2 n j) = Cert.Spec.mlp (fun n q => V5 m ρ c (Pipeline.arrRef spec2 0) (ix2 n q)) (fun q k => V5 m ρ c (Pipeline.arrRef spec2 1) (ix2 q k))
          (fun k => V5 m ρ c (Pipeline.arrRef spec2 2) (ix2 (0 : Fin 1) k)) (fun k j => V5 m ρ c (Pipeline.arrRef spec2 3) (ix2 k j))
          (fun j => V5 m ρ c (Pipeline.arrRef spec2 4) (ix2 (0 : Fin 1) j)) n j :=
    fun n j => (congrFun (W7_main_v60_0 m ρ c) (ix2 n j)).trans ((congrFun (W6_arr m ρ c 5) (ix2 n j)).trans (Rz n j))
  have hMU : ∀ j, V7 m ρ c (Pipeline.arrRef spec3 1) (ix2 (0 : Fin 1) j)
      = Ideal.div ((dat2 (F := Ideal) (V5 m ρ) c).arrAt 6 cfg2.N (ix2 (0 : Fin 1) j)) Cert.Spec.cN :=
    fun j => (congrFun (W7_main_v62 m ρ c) (ix2 (0 : Fin 1) j)).trans ((kMean_at _ j).trans
      (congrArg (fun t => Ideal.div t Cert.Spec.cN) (congrFun (W6_arr m ρ c 6) (ix2 (0 : Fin 1) j))))
  have hVR : ∀ j, V7 m ρ c (Pipeline.arrRef spec3 2) (ix2 (0 : Fin 1) j)
      = Ideal.div ((dat2 (F := Ideal) (V5 m ρ) c).arrAt 7 cfg2.N (ix2 (0 : Fin 1) j)) Cert.Spec.cN
        - Ideal.div ((dat2 (F := Ideal) (V5 m ρ) c).arrAt 6 cfg2.N (ix2 (0 : Fin 1) j)) Cert.Spec.cN
          * Ideal.div ((dat2 (F := Ideal) (V5 m ρ) c).arrAt 6 cfg2.N (ix2 (0 : Fin 1) j)) Cert.Spec.cN :=
    fun j => (congrFun (W7_main_v66 m ρ c) (ix2 (0 : Fin 1) j)).trans ((kVar_at _ _ j).trans
      (congrArg₂ (fun a b => Ideal.div b Cert.Spec.cN - Ideal.div a Cert.Spec.cN * Ideal.div a Cert.Spec.cN)
        (congrFun (W6_arr m ρ c 6) (ix2 (0 : Fin 1) j)) (congrFun (W6_arr m ρ c 7) (ix2 (0 : Fin 1) j))))
  have hA : ∀ n q, V5 m ρ c (Pipeline.arrRef spec2 0) (ix2 n q)
      = Cert.ReferenceIdeal.RefRun.agg (F := Ideal) (W4 m ρ c (Proc.devRef .tc main_v38)) (Cert.ReferenceIdeal.RefRun.srcRow (m ((c : Thread nD τ).loc main_arg1))) (Cert.ReferenceIdeal.RefRun.dstRow (m ((c : Thread nD τ).loc main_arg1))) (ix2 n q) :=
    fun n q => congrFun (W5_main_v49 m ρ c) (ix2 n q)
  have hW1 : ∀ q k, V5 m ρ c (Pipeline.arrRef spec2 1) (ix2 q k)
      = Cert.ReferenceIdeal.RefRun.matAt1 (F := Ideal) (m ((c : Thread nD τ).loc main_arg2)) (ix2 q k) :=
    fun q k => congrFun (W5_main_v51 m ρ c) (ix2 q k)
  have hB1 : ∀ k, V5 m ρ c (Pipeline.arrRef spec2 2) (ix2 (0 : Fin 1) k)
      = Cert.ReferenceIdeal.RefRun.rowAt1 (F := Ideal) (m ((c : Thread nD τ).loc main_arg3)) (ix1 k) :=
    fun k => (congrFun (W5_main_v58 m ρ c) (ix2 (0 : Fin 1) k)).trans (kAsRow_apply _ k)
  have hW2 : ∀ k j, V5 m ρ c (Pipeline.arrRef spec2 3) (ix2 k j)
      = Cert.ReferenceIdeal.RefRun.matAt1 (F := Ideal) (m ((c : Thread nD τ).loc main_arg4)) (ix2 k j) :=
    fun k j => congrFun (W5_main_v55 m ρ c) (ix2 k j)
  have hB2 : ∀ j, V5 m ρ c (Pipeline.arrRef spec2 4) (ix2 (0 : Fin 1) j)
      = Cert.ReferenceIdeal.RefRun.rowAt1 (F := Ideal) (m ((c : Thread nD τ).loc main_arg5)) (ix1 j) :=
    fun j => (congrFun (W5_main_v59 m ρ c) (ix2 (0 : Fin 1) j)).trans (kAsRow_apply _ j)
  have hGA : ∀ j, V7 m ρ c (Pipeline.arrRef spec3 3) (ix2 (0 : Fin 1) j)
      = Cert.ReferenceIdeal.RefRun.rowAt1 (F := Ideal) (m ((c : Thread nD τ).loc main_arg6)) (ix1 j) :=
    fun j => (congrFun (W7_main_v71 m ρ c) (ix2 (0 : Fin 1) j)).trans (kAsRow_apply _ j)
  have hBE : ∀ j, V7 m ρ c (Pipeline.arrRef spec3 4) (ix2 (0 : Fin 1) j)
      = Cert.ReferenceIdeal.RefRun.rowAt1 (F := Ideal) (m ((c : Thread nD τ).loc main_arg7)) (ix1 j) :=
    fun j => (congrFun (W7_main_v72 m ρ c) (ix2 (0 : Fin 1) j)).trans (kAsRow_apply _ j)
  have key := Cert.LayerCore.layer_core
    (Cert.ReferenceIdeal.RefRun.agg (F := Ideal) (W4 m ρ c (Proc.devRef .tc main_v38)) (Cert.ReferenceIdeal.RefRun.srcRow (m ((c : Thread nD τ).loc main_arg1))) (Cert.ReferenceIdeal.RefRun.dstRow (m ((c : Thread nD τ).loc main_arg1))))
    (Cert.ReferenceIdeal.RefRun.matAt1 (F := Ideal) (m ((c : Thread nD τ).loc main_arg2))) (Cert.ReferenceIdeal.RefRun.rowAt1 (F := Ideal) (m ((c : Thread nD τ).loc main_arg3)))
    (Cert.ReferenceIdeal.RefRun.matAt1 (F := Ideal) (m ((c : Thread nD τ).loc main_arg4))) (Cert.ReferenceIdeal.RefRun.rowAt1 (F := Ideal) (m ((c : Thread nD τ).loc main_arg5)))
    (Cert.ReferenceIdeal.RefRun.rowAt1 (F := Ideal) (m ((c : Thread nD τ).loc main_arg6))) (Cert.ReferenceIdeal.RefRun.rowAt1 (F := Ideal) (m ((c : Thread nD τ).loc main_arg7)))
    (Cert.AggReal.agg_real _ _ _ hin) (matAt1_real _ h2) (rowAt1_real _ h3) (matAt1_real _ h4) (rowAt1_real _ h5)
    (rowAt1_real _ h6) (rowAt1_real _ h7)
    (fun n j => W8 m ρ c (Proc.devRef .tc main_v73) (ix2 n j)) _ _ _ _ _ _ _ _ _ _
    (fun j => (dat2 (F := Ideal) (V5 m ρ) c).arrAt 6 cfg2.N (ix2 (0 : Fin 1) j))
    (fun j => (dat2 (F := Ideal) (V5 m ρ) c).arrAt 7 cfg2.N (ix2 (0 : Fin 1) j))
    hout hX Rs Rq hMU hVR hA hW1 hB1 hW2 hB2 hGA hBE
  refine ⟨fun n j => (key n j).1, fun i => ?_⟩
  obtain ⟨r, hr⟩ := (key (i 0) (i 1)).2
  exact ⟨r, (congrArg (W8 m ρ c (Proc.devRef .tc main_v73)) (eq_ix2 i)).trans hr⟩

set_option maxHeartbeats 4000000 in
/-- Layer 2: from a real input array (layer 1's output), the normalisation region 5's output is the reference's
    layer 2 of it, entry by entry, and real. `Rz Rs Rq`: what the statistics region 4 leaves in its three outputs. -/
theorem layer2_value
    (hin : ∀ i, ∃ r : ℝ, (W8 m ρ c (Proc.devRef .tc main_v73)) i = (r : EReal))
    (h2 : ∀ i, ∃ r : ℝ, (m ((c : Thread nD τ).loc main_arg2)) i = (r : EReal)) (h3 : ∀ i, ∃ r : ℝ, (m ((c : Thread nD τ).loc main_arg3)) i = (r : EReal))
    (h4 : ∀ i, ∃ r : ℝ, (m ((c : Thread nD τ).loc main_arg4)) i = (r : EReal)) (h5 : ∀ i, ∃ r : ℝ, (m ((c : Thread nD τ).loc main_arg5)) i = (r : EReal))
    (h6 : ∀ i, ∃ r : ℝ, (m ((c : Thread nD τ).loc main_arg6)) i = (r : EReal)) (h7 : ∀ i, ∃ r : ℝ, (m ((c : Thread nD τ).loc main_arg7)) i = (r : EReal))
    (Rz : ∀ n j, (dat4 (F := Ideal) (V9 m ρ) c).arrAt 5 cfg4.N (ix2 n j)
      = Cert.Spec.mlp (fun n q => V9 m ρ c (Pipeline.arrRef spec4 0) (ix2 n q)) (fun q k => V9 m ρ c (Pipeline.arrRef spec4 1) (ix2 q k))
          (fun k => V9 m ρ c (Pipeline.arrRef spec4 2) (ix2 (0 : Fin 1) k)) (fun k j => V9 m ρ c (Pipeline.arrRef spec4 3) (ix2 k j))
          (fun j => V9 m ρ c (Pipeline.arrRef spec4 4) (ix2 (0 : Fin 1) j)) n j)
    (Rs : ∀ j, (dat4 (F := Ideal) (V9 m ρ) c).arrAt 6 cfg4.N (ix2 (0 : Fin 1) j)
      = 0 + ∑ b : Fin 20, ∑ r : Fin 5000, Cert.Spec.mlp (fun n q => V9 m ρ c (Pipeline.arrRef spec4 0) (ix2 n q)) (fun q k => V9 m ρ c (Pipeline.arrRef spec4 1) (ix2 q k))
          (fun k => V9 m ρ c (Pipeline.arrRef spec4 2) (ix2 (0 : Fin 1) k)) (fun k j => V9 m ρ c (Pipeline.arrRef spec4 3) (ix2 k j))
          (fun j => V9 m ρ c (Pipeline.arrRef spec4 4) (ix2 (0 : Fin 1) j)) (Cert.SpecLaws.blk b r) j)
    (Rq : ∀ j, (dat4 (F := Ideal) (V9 m ρ) c).arrAt 7 cfg4.N (ix2 (0 : Fin 1) j)
      = 0 + ∑ b : Fin 20, ∑ r : Fin 5000, Cert.Spec.mlp (fun n q => V9 m ρ c (Pipeline.arrRef spec4 0) (ix2 n q)) (fun q k => V9 m ρ c (Pipeline.arrRef spec4 1) (ix2 q k))
          (fun k => V9 m ρ c (Pipeline.arrRef spec4 2) (ix2 (0 : Fin 1) k)) (fun k j => V9 m ρ c (Pipeline.arrRef spec4 3) (ix2 k j))
          (fun j => V9 m ρ c (Pipeline.arrRef spec4 4) (ix2 (0 : Fin 1) j)) (Cert.SpecLaws.blk b r) j
          * Cert.Spec.mlp (fun n q => V9 m ρ c (Pipeline.arrRef spec4 0) (ix2 n q)) (fun q k => V9 m ρ c (Pipeline.arrRef spec4 1) (ix2 q k))
          (fun k => V9 m ρ c (Pipeline.arrRef spec4 2) (ix2 (0 : Fin 1) k)) (fun k j => V9 m ρ c (Pipeline.arrRef spec4 3) (ix2 k j))
          (fun j => V9 m ρ c (Pipeline.arrRef spec4 4) (ix2 (0 : Fin 1) j)) (Cert.SpecLaws.blk b r) j) :
    (∀ n j, W12 m ρ c (Proc.devRef .tc main_v108) (ix2 n j)
      = Cert.ReferenceIdeal.RefRun.layer2 (F := Ideal) (W8 m ρ c (Proc.devRef .tc main_v73)) (Cert.ReferenceIdeal.RefRun.srcRow (m ((c : Thread nD τ).loc main_arg1))) (Cert.ReferenceIdeal.RefRun.dstRow (m ((c : Thread nD τ).loc main_arg1)))
          (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (ix2 n j))
    ∧ (∀ i, ∃ r : ℝ, W12 m ρ c (Proc.devRef .tc main_v108) i = (r : EReal)) := by
  have hout : ∀ n j, W12 m ρ c (Proc.devRef .tc main_v108) (ix2 n j)
      = Cert.Spec.norm (fun n j => V11 m ρ c (Pipeline.arrRef spec5 0) (ix2 n j)) (fun j => V11 m ρ c (Pipeline.arrRef spec5 1) (ix2 (0 : Fin 1) j))
          (fun j => V11 m ρ c (Pipeline.arrRef spec5 2) (ix2 (0 : Fin 1) j)) (fun j => V11 m ρ c (Pipeline.arrRef spec5 3) (ix2 (0 : Fin 1) j))
          (fun j => V11 m ρ c (Pipeline.arrRef spec5 4) (ix2 (0 : Fin 1) j)) n j :=
    fun n j => (congrFun (W12_arr m ρ c 5) (ix2 n j)).trans (final5_apply (V11 m ρ) c n j)
  have hX : ∀ n j, V11 m ρ c (Pipeline.arrRef spec5 0) (ix2 n j) = Cert.Spec.mlp (fun n q => V9 m ρ c (Pipeline.arrRef spec4 0) (ix2 n q)) (fun q k => V9 m ρ c (Pipeline.arrRef spec4 1) (ix2 q k))
          (fun k => V9 m ρ c (Pipeline.arrRef spec4 2) (ix2 (0 : Fin 1) k)) (fun k j => V9 m ρ c (Pipeline.arrRef spec4 3) (ix2 k j))
          (fun j => V9 m ρ c (Pipeline.arrRef spec4 4) (ix2 (0 : Fin 1) j)) n j :=
    fun n j => (congrFun (W11_main_v95_0 m ρ c) (ix2 n j)).trans ((congrFun (W10_arr m ρ c 5) (ix2 n j)).trans (Rz n j))
  have hMU : ∀ j, V11 m ρ c (Pipeline.arrRef spec5 1) (ix2 (0 : Fin 1) j)
      = Ideal.div ((dat4 (F := Ideal) (V9 m ρ) c).arrAt 6 cfg4.N (ix2 (0 : Fin 1) j)) Cert.Spec.cN :=
    fun j => (congrFun (W11_main_v97 m ρ c) (ix2 (0 : Fin 1) j)).trans ((kMean_at _ j).trans
      (congrArg (fun t => Ideal.div t Cert.Spec.cN) (congrFun (W10_arr m ρ c 6) (ix2 (0 : Fin 1) j))))
  have hVR : ∀ j, V11 m ρ c (Pipeline.arrRef spec5 2) (ix2 (0 : Fin 1) j)
      = Ideal.div ((dat4 (F := Ideal) (V9 m ρ) c).arrAt 7 cfg4.N (ix2 (0 : Fin 1) j)) Cert.Spec.cN
        - Ideal.div ((dat4 (F := Ideal) (V9 m ρ) c).arrAt 6 cfg4.N (ix2 (0 : Fin 1) j)) Cert.Spec.cN
          * Ideal.div ((dat4 (F := Ideal) (V9 m ρ) c).arrAt 6 cfg4.N (ix2 (0 : Fin 1) j)) Cert.Spec.cN :=
    fun j => (congrFun (W11_main_v101 m ρ c) (ix2 (0 : Fin 1) j)).trans ((kVar_at _ _ j).trans
      (congrArg₂ (fun a b => Ideal.div b Cert.Spec.cN - Ideal.div a Cert.Spec.cN * Ideal.div a Cert.Spec.cN)
        (congrFun (W10_arr m ρ c 6) (ix2 (0 : Fin 1) j)) (congrFun (W10_arr m ρ c 7) (ix2 (0 : Fin 1) j))))
  have hA : ∀ n q, V9 m ρ c (Pipeline.arrRef spec4 0) (ix2 n q)
      = Cert.ReferenceIdeal.RefRun.agg (F := Ideal) (W8 m ρ c (Proc.devRef .tc main_v73)) (Cert.ReferenceIdeal.RefRun.srcRow (m ((c : Thread nD τ).loc main_arg1))) (Cert.ReferenceIdeal.RefRun.dstRow (m ((c : Thread nD τ).loc main_arg1))) (ix2 n q) :=
    fun n q => congrFun (W9_main_v84 m ρ c) (ix2 n q)
  have hW1 : ∀ q k, V9 m ρ c (Pipeline.arrRef spec4 1) (ix2 q k)
      = Cert.ReferenceIdeal.RefRun.matAt2 (F := Ideal) (m ((c : Thread nD τ).loc main_arg2)) (ix2 q k) :=
    fun q k => congrFun (W9_main_v86 m ρ c) (ix2 q k)
  have hB1 : ∀ k, V9 m ρ c (Pipeline.arrRef spec4 2) (ix2 (0 : Fin 1) k)
      = Cert.ReferenceIdeal.RefRun.rowAt2 (F := Ideal) (m ((c : Thread nD τ).loc main_arg3)) (ix1 k) :=
    fun k => (congrFun (W9_main_v93 m ρ c) (ix2 (0 : Fin 1) k)).trans (kAsRow_apply _ k)
  have hW2 : ∀ k j, V9 m ρ c (Pipeline.arrRef spec4 3) (ix2 k j)
      = Cert.ReferenceIdeal.RefRun.matAt2 (F := Ideal) (m ((c : Thread nD τ).loc main_arg4)) (ix2 k j) :=
    fun k j => congrFun (W9_main_v90 m ρ c) (ix2 k j)
  have hB2 : ∀ j, V9 m ρ c (Pipeline.arrRef spec4 4) (ix2 (0 : Fin 1) j)
      = Cert.ReferenceIdeal.RefRun.rowAt2 (F := Ideal) (m ((c : Thread nD τ).loc main_arg5)) (ix1 j) :=
    fun j => (congrFun (W9_main_v94 m ρ c) (ix2 (0 : Fin 1) j)).trans (kAsRow_apply _ j)
  have hGA : ∀ j, V11 m ρ c (Pipeline.arrRef spec5 3) (ix2 (0 : Fin 1) j)
      = Cert.ReferenceIdeal.RefRun.rowAt2 (F := Ideal) (m ((c : Thread nD τ).loc main_arg6)) (ix1 j) :=
    fun j => (congrFun (W11_main_v106 m ρ c) (ix2 (0 : Fin 1) j)).trans (kAsRow_apply _ j)
  have hBE : ∀ j, V11 m ρ c (Pipeline.arrRef spec5 4) (ix2 (0 : Fin 1) j)
      = Cert.ReferenceIdeal.RefRun.rowAt2 (F := Ideal) (m ((c : Thread nD τ).loc main_arg7)) (ix1 j) :=
    fun j => (congrFun (W11_main_v107 m ρ c) (ix2 (0 : Fin 1) j)).trans (kAsRow_apply _ j)
  have key := Cert.LayerCore.layer_core
    (Cert.ReferenceIdeal.RefRun.agg (F := Ideal) (W8 m ρ c (Proc.devRef .tc main_v73)) (Cert.ReferenceIdeal.RefRun.srcRow (m ((c : Thread nD τ).loc main_arg1))) (Cert.ReferenceIdeal.RefRun.dstRow (m ((c : Thread nD τ).loc main_arg1))))
    (Cert.ReferenceIdeal.RefRun.matAt2 (F := Ideal) (m ((c : Thread nD τ).loc main_arg2))) (Cert.ReferenceIdeal.RefRun.rowAt2 (F := Ideal) (m ((c : Thread nD τ).loc main_arg3)))
    (Cert.ReferenceIdeal.RefRun.matAt2 (F := Ideal) (m ((c : Thread nD τ).loc main_arg4))) (Cert.ReferenceIdeal.RefRun.rowAt2 (F := Ideal) (m ((c : Thread nD τ).loc main_arg5)))
    (Cert.ReferenceIdeal.RefRun.rowAt2 (F := Ideal) (m ((c : Thread nD τ).loc main_arg6))) (Cert.ReferenceIdeal.RefRun.rowAt2 (F := Ideal) (m ((c : Thread nD τ).loc main_arg7)))
    (Cert.AggReal.agg_real _ _ _ hin) (matAt2_real _ h2) (rowAt2_real _ h3) (matAt2_real _ h4) (rowAt2_real _ h5)
    (rowAt2_real _ h6) (rowAt2_real _ h7)
    (fun n j => W12 m ρ c (Proc.devRef .tc main_v108) (ix2 n j)) _ _ _ _ _ _ _ _ _ _
    (fun j => (dat4 (F := Ideal) (V9 m ρ) c).arrAt 6 cfg4.N (ix2 (0 : Fin 1) j))
    (fun j => (dat4 (F := Ideal) (V9 m ρ) c).arrAt 7 cfg4.N (ix2 (0 : Fin 1) j))
    hout hX Rs Rq hMU hVR hA hW1 hB1 hW2 hB2 hGA hBE
  refine ⟨fun n j => (key n j).1, fun i => ?_⟩
  obtain ⟨r, hr⟩ := (key (i 0) (i 1)).2
  exact ⟨r, (congrArg (W12 m ρ c (Proc.devRef .tc main_v108)) (eq_ix2 i)).trans hr⟩

/-! ## The whole model -/

variable [Cert.Pre_finite_inputs.Facts]

set_option maxHeartbeats 16000000 in
/-- Under the precondition, and given what the three statistics regions leave, the run's last contents at the result
    array are the reference's model of the thirteen argument arrays as launched. -/
theorem kernel_value (hpre : Cert.Pre_KernelIdeal m)
    (R0z : ∀ n j, (dat0 (F := Ideal) (V1 m ρ) c).arrAt 5 cfg0.N (ix2 n j)
      = Cert.Spec.mlp (fun n q => V1 m ρ c (Pipeline.arrRef spec0 0) (ix2 n q)) (fun q k => V1 m ρ c (Pipeline.arrRef spec0 1) (ix2 q k))
          (fun k => V1 m ρ c (Pipeline.arrRef spec0 2) (ix2 (0 : Fin 1) k)) (fun k j => V1 m ρ c (Pipeline.arrRef spec0 3) (ix2 k j))
          (fun j => V1 m ρ c (Pipeline.arrRef spec0 4) (ix2 (0 : Fin 1) j)) n j)
    (R0s : ∀ j, (dat0 (F := Ideal) (V1 m ρ) c).arrAt 6 cfg0.N (ix2 (0 : Fin 1) j)
      = 0 + ∑ b : Fin 20, ∑ r : Fin 5000, Cert.Spec.mlp (fun n q => V1 m ρ c (Pipeline.arrRef spec0 0) (ix2 n q)) (fun q k => V1 m ρ c (Pipeline.arrRef spec0 1) (ix2 q k))
          (fun k => V1 m ρ c (Pipeline.arrRef spec0 2) (ix2 (0 : Fin 1) k)) (fun k j => V1 m ρ c (Pipeline.arrRef spec0 3) (ix2 k j))
          (fun j => V1 m ρ c (Pipeline.arrRef spec0 4) (ix2 (0 : Fin 1) j)) (Cert.SpecLaws.blk b r) j)
    (R0q : ∀ j, (dat0 (F := Ideal) (V1 m ρ) c).arrAt 7 cfg0.N (ix2 (0 : Fin 1) j)
      = 0 + ∑ b : Fin 20, ∑ r : Fin 5000, Cert.Spec.mlp (fun n q => V1 m ρ c (Pipeline.arrRef spec0 0) (ix2 n q)) (fun q k => V1 m ρ c (Pipeline.arrRef spec0 1) (ix2 q k))
          (fun k => V1 m ρ c (Pipeline.arrRef spec0 2) (ix2 (0 : Fin 1) k)) (fun k j => V1 m ρ c (Pipeline.arrRef spec0 3) (ix2 k j))
          (fun j => V1 m ρ c (Pipeline.arrRef spec0 4) (ix2 (0 : Fin 1) j)) (Cert.SpecLaws.blk b r) j
          * Cert.Spec.mlp (fun n q => V1 m ρ c (Pipeline.arrRef spec0 0) (ix2 n q)) (fun q k => V1 m ρ c (Pipeline.arrRef spec0 1) (ix2 q k))
          (fun k => V1 m ρ c (Pipeline.arrRef spec0 2) (ix2 (0 : Fin 1) k)) (fun k j => V1 m ρ c (Pipeline.arrRef spec0 3) (ix2 k j))
          (fun j => V1 m ρ c (Pipeline.arrRef spec0 4) (ix2 (0 : Fin 1) j)) (Cert.SpecLaws.blk b r) j)
    (R2z : ∀ n j, (dat2 (F := Ideal) (V5 m ρ) c).arrAt 5 cfg2.N (ix2 n j)
      = Cert.Spec.mlp (fun n q => V5 m ρ c (Pipeline.arrRef spec2 0) (ix2 n q)) (fun q k => V5 m ρ c (Pipeline.arrRef spec2 1) (ix2 q k))
          (fun k => V5 m ρ c (Pipeline.arrRef spec2 2) (ix2 (0 : Fin 1) k)) (fun k j => V5 m ρ c (Pipeline.arrRef spec2 3) (ix2 k j))
          (fun j => V5 m ρ c (Pipeline.arrRef spec2 4) (ix2 (0 : Fin 1) j)) n j)
    (R2s : ∀ j, (dat2 (F := Ideal) (V5 m ρ) c).arrAt 6 cfg2.N (ix2 (0 : Fin 1) j)
      = 0 + ∑ b : Fin 20, ∑ r : Fin 5000, Cert.Spec.mlp (fun n q => V5 m ρ c (Pipeline.arrRef spec2 0) (ix2 n q)) (fun q k => V5 m ρ c (Pipeline.arrRef spec2 1) (ix2 q k))
          (fun k => V5 m ρ c (Pipeline.arrRef spec2 2) (ix2 (0 : Fin 1) k)) (fun k j => V5 m ρ c (Pipeline.arrRef spec2 3) (ix2 k j))
          (fun j => V5 m ρ c (Pipeline.arrRef spec2 4) (ix2 (0 : Fin 1) j)) (Cert.SpecLaws.blk b r) j)
    (R2q : ∀ j, (dat2 (F := Ideal) (V5 m ρ) c).arrAt 7 cfg2.N (ix2 (0 : Fin 1) j)
      = 0 + ∑ b : Fin 20, ∑ r : Fin 5000, Cert.Spec.mlp (fun n q => V5 m ρ c (Pipeline.arrRef spec2 0) (ix2 n q)) (fun q k => V5 m ρ c (Pipeline.arrRef spec2 1) (ix2 q k))
          (fun k => V5 m ρ c (Pipeline.arrRef spec2 2) (ix2 (0 : Fin 1) k)) (fun k j => V5 m ρ c (Pipeline.arrRef spec2 3) (ix2 k j))
          (fun j => V5 m ρ c (Pipeline.arrRef spec2 4) (ix2 (0 : Fin 1) j)) (Cert.SpecLaws.blk b r) j
          * Cert.Spec.mlp (fun n q => V5 m ρ c (Pipeline.arrRef spec2 0) (ix2 n q)) (fun q k => V5 m ρ c (Pipeline.arrRef spec2 1) (ix2 q k))
          (fun k => V5 m ρ c (Pipeline.arrRef spec2 2) (ix2 (0 : Fin 1) k)) (fun k j => V5 m ρ c (Pipeline.arrRef spec2 3) (ix2 k j))
          (fun j => V5 m ρ c (Pipeline.arrRef spec2 4) (ix2 (0 : Fin 1) j)) (Cert.SpecLaws.blk b r) j)
    (R4z : ∀ n j, (dat4 (F := Ideal) (V9 m ρ) c).arrAt 5 cfg4.N (ix2 n j)
      = Cert.Spec.mlp (fun n q => V9 m ρ c (Pipeline.arrRef spec4 0) (ix2 n q)) (fun q k => V9 m ρ c (Pipeline.arrRef spec4 1) (ix2 q k))
          (fun k => V9 m ρ c (Pipeline.arrRef spec4 2) (ix2 (0 : Fin 1) k)) (fun k j => V9 m ρ c (Pipeline.arrRef spec4 3) (ix2 k j))
          (fun j => V9 m ρ c (Pipeline.arrRef spec4 4) (ix2 (0 : Fin 1) j)) n j)
    (R4s : ∀ j, (dat4 (F := Ideal) (V9 m ρ) c).arrAt 6 cfg4.N (ix2 (0 : Fin 1) j)
      = 0 + ∑ b : Fin 20, ∑ r : Fin 5000, Cert.Spec.mlp (fun n q => V9 m ρ c (Pipeline.arrRef spec4 0) (ix2 n q)) (fun q k => V9 m ρ c (Pipeline.arrRef spec4 1) (ix2 q k))
          (fun k => V9 m ρ c (Pipeline.arrRef spec4 2) (ix2 (0 : Fin 1) k)) (fun k j => V9 m ρ c (Pipeline.arrRef spec4 3) (ix2 k j))
          (fun j => V9 m ρ c (Pipeline.arrRef spec4 4) (ix2 (0 : Fin 1) j)) (Cert.SpecLaws.blk b r) j)
    (R4q : ∀ j, (dat4 (F := Ideal) (V9 m ρ) c).arrAt 7 cfg4.N (ix2 (0 : Fin 1) j)
      = 0 + ∑ b : Fin 20, ∑ r : Fin 5000, Cert.Spec.mlp (fun n q => V9 m ρ c (Pipeline.arrRef spec4 0) (ix2 n q)) (fun q k => V9 m ρ c (Pipeline.arrRef spec4 1) (ix2 q k))
          (fun k => V9 m ρ c (Pipeline.arrRef spec4 2) (ix2 (0 : Fin 1) k)) (fun k j => V9 m ρ c (Pipeline.arrRef spec4 3) (ix2 k j))
          (fun j => V9 m ρ c (Pipeline.arrRef spec4 4) (ix2 (0 : Fin 1) j)) (Cert.SpecLaws.blk b r) j
          * Cert.Spec.mlp (fun n q => V9 m ρ c (Pipeline.arrRef spec4 0) (ix2 n q)) (fun q k => V9 m ρ c (Pipeline.arrRef spec4 1) (ix2 q k))
          (fun k => V9 m ρ c (Pipeline.arrRef spec4 2) (ix2 (0 : Fin 1) k)) (fun k j => V9 m ρ c (Pipeline.arrRef spec4 3) (ix2 k j))
          (fun j => V9 m ρ c (Pipeline.arrRef spec4 4) (ix2 (0 : Fin 1) j)) (Cert.SpecLaws.blk b r) j) :
    W14 m ρ c (Proc.devRef .tc main_v111)
      = Cert.ReferenceIdeal.RefRun.model (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7))
          (m ((c : Thread nD τ).loc main_arg8)) (m ((c : Thread nD τ).loc main_arg9)) (m ((c : Thread nD τ).loc main_arg10)) (m ((c : Thread nD τ).loc main_arg11)) (m ((c : Thread nD τ).loc main_arg12)) := by
  obtain ⟨h0, h2, h3, h4, h5, h6, h7, -, -, -, -, -⟩ := Cert.PreReal.kernel_args_real m hpre c
  obtain ⟨e0, r0⟩ := layer0_value m ρ c h0 h2 h3 h4 h5 h6 h7 R0z R0s R0q
  have f0 : W4 m ρ c (Proc.devRef .tc main_v38) = Cert.ReferenceIdeal.RefRun.layer0 (F := Ideal) (m ((c : Thread nD τ).loc main_arg0)) (Cert.ReferenceIdeal.RefRun.srcRow (m ((c : Thread nD τ).loc main_arg1))) (Cert.ReferenceIdeal.RefRun.dstRow (m ((c : Thread nD τ).loc main_arg1))) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) :=
    funext fun i => (congrArg (W4 m ρ c (Proc.devRef .tc main_v38)) (eq_ix2 i)).trans ((e0 (i 0) (i 1)).trans (congrArg _ (eq_ix2 i).symm))
  obtain ⟨e1, r1⟩ := layer1_value m ρ c r0 h2 h3 h4 h5 h6 h7 R2z R2s R2q
  have f1 : W8 m ρ c (Proc.devRef .tc main_v73) = Cert.ReferenceIdeal.RefRun.layer1 (F := Ideal) (W4 m ρ c (Proc.devRef .tc main_v38)) (Cert.ReferenceIdeal.RefRun.srcRow (m ((c : Thread nD τ).loc main_arg1))) (Cert.ReferenceIdeal.RefRun.dstRow (m ((c : Thread nD τ).loc main_arg1))) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) :=
    funext fun i => (congrArg (W8 m ρ c (Proc.devRef .tc main_v73)) (eq_ix2 i)).trans ((e1 (i 0) (i 1)).trans (congrArg _ (eq_ix2 i).symm))
  obtain ⟨e2, -⟩ := layer2_value m ρ c r1 h2 h3 h4 h5 h6 h7 R4z R4s R4q
  have f2 : W12 m ρ c (Proc.devRef .tc main_v108) = Cert.ReferenceIdeal.RefRun.layer2 (F := Ideal) (W8 m ρ c (Proc.devRef .tc main_v73)) (Cert.ReferenceIdeal.RefRun.srcRow (m ((c : Thread nD τ).loc main_arg1))) (Cert.ReferenceIdeal.RefRun.dstRow (m ((c : Thread nD τ).loc main_arg1))) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) :=
    funext fun i => (congrArg (W12 m ρ c (Proc.devRef .tc main_v108)) (eq_ix2 i)).trans ((e2 (i 0) (i 1)).trans (congrArg _ (eq_ix2 i).symm))
  have fh : W14 m ρ c (Proc.devRef .tc main_v111) = Cert.ReferenceIdeal.RefRun.head (F := Ideal) (W12 m ρ c (Proc.devRef .tc main_v108)) (m ((c : Thread nD τ).loc main_arg8)) (m ((c : Thread nD τ).loc main_arg9))
      (m ((c : Thread nD τ).loc main_arg10)) (m ((c : Thread nD τ).loc main_arg11)) (m ((c : Thread nD τ).loc main_arg12)) :=
    funext fun i => (congrArg (W14 m ρ c (Proc.devRef .tc main_v111)) (eq_ix2 i)).trans ((head_value m ρ c (i 0) (i 1)).trans (congrArg _ (eq_ix2 i).symm))
  rw [fh, f2, f1, f0]
  rfl

end Cert.KernelIdeal.Hand

end
-- ==== Proof.KiMlp0Value.lean ====
/-
  Region 0's found pieces read back as values. At every point the z output's block is the perceptron's payload of the point's
  input blocks; a running-sum row after the point is the row before it plus the block's column sum (the first point starts
  from the zero row); at the last point the two [1,128] outputs receive the rows.
-/
import proofs.«160011_j2121713844488_1_alg».proof.Proof.KiMlp0
import Idealize.ShloMosaic.Lib.Pipeline.Value

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

theorem hz2 : (![0, 0] : Fin 2 → Nat) = fun _ => 0 := funext fun a => by fin_cases a <;> rfl

/-- Case A: the z block is the perceptron's payload of the five input blocks. -/
theorem out5_A_0 (c : Dev nD) (i : grid0.Coords) (a1 : Memref sig .tc .vmem S5000x128 .f32) (h1 : a1.IsWhole) (a2 : Memref sig .tc .vmem S128x128 .f32) (h2 : a2.IsWhole) (a3 : Memref sig .tc .vmem S1x128 .f32) (h3 : a3.IsWhole) (a4 : Memref sig .tc .vmem S128x128 .f32) (h4 : a4.IsWhole) (a5 : Memref sig .tc .vmem S1x128 .f32) (h5 : a5.IsWhole) (a6 : Memref sig .tc .vmem S5000x128 .f32) (h6 : a6.IsWhole) (a7 : Memref sig .tc .vmem S1x128 .f32) (h7 : a7.IsWhole) (a8 : Memref sig .tc .vmem S1x128 .f32) (h8 : a8.IsWhole) (a9 : Memref sig .tc .vmem S1x128 .f32) (h9 : a9.IsWhole) (a10 : Memref sig .tc .vmem S1x128 .f32) (h10 : a10.IsWhole) (hc0 : cond0_0 i) (hc1 : ¬cond0_1 i)
    (x0 : Vec F S5000x128 .f32) (x1 : Vec F S128x128 .f32) (x2 : Vec F S1x128 .f32) (x3 : Vec F S128x128 .f32) (x4 : Vec F S1x128 .f32) :
    out0_A_5 c i a1 h1 a2 h2 a3 h3 a4 h4 a5 h5 a6 h6 a7 h7 a8 h8 a9 h9 a10 h10 hc0 hc1 x0 x1 x2 x3 x4 = k0_pay5 x0 x1 x3 x2 x4 := by
  unfold out0_A_5
  rw [View.read_writes_eq_canon _ _ _ (cover0_A_5 c i a1 h1 a2 h2 a3 h3 a4 h4 a5 h5 a6 h6 a7 h7 a8 h8 a9 h9 a10 h10 hc0 hc1 x0 x1 x2 x3 x4)]
  unfold kernelRun0_A
  dsimp only
  sl_unfold_words
  rw [View.canon_unit_zero hz2]
  simp only [View.readAt_eq_ld, h1.read_unread, h2.read_unread, h3.read_unread, h4.read_unread, h5.read_unread, h9.read_unread, h10.read_unread, View.ld_unit_zero (S := S5000x128) hz2, View.ld_unit_zero (S := S128x128) hz2, View.ld_unit_zero (S := S1x128) hz2, View.readCov_unit_zero (S := S1x128) _ hz2]

/-- Case A: the running column sum of z after the point. -/
theorem row0_A_0 (c : Dev nD) (i : grid0.Coords) (a1 : Memref sig .tc .vmem S5000x128 .f32) (h1 : a1.IsWhole) (a2 : Memref sig .tc .vmem S128x128 .f32) (h2 : a2.IsWhole) (a3 : Memref sig .tc .vmem S1x128 .f32) (h3 : a3.IsWhole) (a4 : Memref sig .tc .vmem S128x128 .f32) (h4 : a4.IsWhole) (a5 : Memref sig .tc .vmem S1x128 .f32) (h5 : a5.IsWhole) (a6 : Memref sig .tc .vmem S5000x128 .f32) (h6 : a6.IsWhole) (a7 : Memref sig .tc .vmem S1x128 .f32) (h7 : a7.IsWhole) (a8 : Memref sig .tc .vmem S1x128 .f32) (h8 : a8.IsWhole) (a9 : Memref sig .tc .vmem S1x128 .f32) (h9 : a9.IsWhole) (a10 : Memref sig .tc .vmem S1x128 .f32) (h10 : a10.IsWhole) (hc0 : cond0_0 i) (hc1 : ¬cond0_1 i)
    (x0 : Vec F S5000x128 .f32) (x1 : Vec F S128x128 .f32) (x2 : Vec F S1x128 .f32) (x3 : Vec F S128x128 .f32) (x4 : Vec F S1x128 .f32) :
    sout0_A_0 c i a1 h1 a2 h2 a3 h3 a4 h4 a5 h5 a6 h6 a7 h7 a8 h8 a9 h9 a10 h10 hc0 hc1 x0 x1 x2 x3 x4 = k0_pay1 (k0_pay6 x0 x1 x3 x2 x4 (k0_pay3 (F := F))) := by
  unfold sout0_A_0
  rw [View.read_writes_eq_canon _ _ _ (scover0_A_0 c i a1 h1 a2 h2 a3 h3 a4 h4 a5 h5 a6 h6 a7 h7 a8 h8 a9 h9 a10 h10 hc0 hc1 x0 x1 x2 x3 x4)]
  unfold kernelRun0_A
  dsimp only
  sl_unfold_words
  rw [View.canon_cons_unit_zero (S := S1x128) hz2]
  simp only [View.readAt_eq_ld, h1.read_unread, h2.read_unread, h3.read_unread, h4.read_unread, h5.read_unread, h9.read_unread, h10.read_unread, View.ld_unit_zero (S := S5000x128) hz2, View.ld_unit_zero (S := S128x128) hz2, View.ld_unit_zero (S := S1x128) hz2, View.readCov_unit_zero (S := S1x128) _ hz2]

/-- Case A: the running column sum of z² after the point. -/
theorem row1_A_0 (c : Dev nD) (i : grid0.Coords) (a1 : Memref sig .tc .vmem S5000x128 .f32) (h1 : a1.IsWhole) (a2 : Memref sig .tc .vmem S128x128 .f32) (h2 : a2.IsWhole) (a3 : Memref sig .tc .vmem S1x128 .f32) (h3 : a3.IsWhole) (a4 : Memref sig .tc .vmem S128x128 .f32) (h4 : a4.IsWhole) (a5 : Memref sig .tc .vmem S1x128 .f32) (h5 : a5.IsWhole) (a6 : Memref sig .tc .vmem S5000x128 .f32) (h6 : a6.IsWhole) (a7 : Memref sig .tc .vmem S1x128 .f32) (h7 : a7.IsWhole) (a8 : Memref sig .tc .vmem S1x128 .f32) (h8 : a8.IsWhole) (a9 : Memref sig .tc .vmem S1x128 .f32) (h9 : a9.IsWhole) (a10 : Memref sig .tc .vmem S1x128 .f32) (h10 : a10.IsWhole) (hc0 : cond0_0 i) (hc1 : ¬cond0_1 i)
    (x0 : Vec F S5000x128 .f32) (x1 : Vec F S128x128 .f32) (x2 : Vec F S1x128 .f32) (x3 : Vec F S128x128 .f32) (x4 : Vec F S1x128 .f32) :
    sout0_A_1 c i a1 h1 a2 h2 a3 h3 a4 h4 a5 h5 a6 h6 a7 h7 a8 h8 a9 h9 a10 h10 hc0 hc1 x0 x1 x2 x3 x4 = k0_pay2 (k0_pay5 x0 x1 x3 x2 x4) (k0_pay4 (F := F)) := by
  unfold sout0_A_1
  rw [View.read_writes_eq_canon _ _ _ (scover0_A_1 c i a1 h1 a2 h2 a3 h3 a4 h4 a5 h5 a6 h6 a7 h7 a8 h8 a9 h9 a10 h10 hc0 hc1 x0 x1 x2 x3 x4)]
  unfold kernelRun0_A
  dsimp only
  sl_unfold_words
  rw [View.canon_cons_unit_zero (S := S1x128) hz2]
  simp only [View.readAt_eq_ld, h1.read_unread, h2.read_unread, h3.read_unread, h4.read_unread, h5.read_unread, h9.read_unread, h10.read_unread, View.ld_unit_zero (S := S5000x128) hz2, View.ld_unit_zero (S := S128x128) hz2, View.ld_unit_zero (S := S1x128) hz2, View.readCov_unit_zero (S := S1x128) _ hz2]

/-- Case B: the z block is the perceptron's payload of the five input blocks. -/
theorem out5_B_0 (c : Dev nD) (i : grid0.Coords) (a1 : Memref sig .tc .vmem S5000x128 .f32) (h1 : a1.IsWhole) (a2 : Memref sig .tc .vmem S128x128 .f32) (h2 : a2.IsWhole) (a3 : Memref sig .tc .vmem S1x128 .f32) (h3 : a3.IsWhole) (a4 : Memref sig .tc .vmem S128x128 .f32) (h4 : a4.IsWhole) (a5 : Memref sig .tc .vmem S1x128 .f32) (h5 : a5.IsWhole) (a6 : Memref sig .tc .vmem S5000x128 .f32) (h6 : a6.IsWhole) (a7 : Memref sig .tc .vmem S1x128 .f32) (h7 : a7.IsWhole) (a8 : Memref sig .tc .vmem S1x128 .f32) (h8 : a8.IsWhole) (a9 : Memref sig .tc .vmem S1x128 .f32) (h9 : a9.IsWhole) (a10 : Memref sig .tc .vmem S1x128 .f32) (h10 : a10.IsWhole) (hc0 : ¬cond0_0 i) (hc1 : ¬cond0_1 i)
    (x0 : Vec F S5000x128 .f32) (x1 : Vec F S128x128 .f32) (x2 : Vec F S1x128 .f32) (x3 : Vec F S128x128 .f32) (x4 : Vec F S1x128 .f32) (xs0 xs1 : Vec F S1x128 .f32) :
    out0_B_5 c i a1 h1 a2 h2 a3 h3 a4 h4 a5 h5 a6 h6 a7 h7 a8 h8 a9 h9 a10 h10 hc0 hc1 x0 x1 x2 x3 x4 xs0 xs1 = k0_pay5 x0 x1 x3 x2 x4 := by
  unfold out0_B_5
  rw [View.read_writes_eq_canon _ _ _ (cover0_B_5 c i a1 h1 a2 h2 a3 h3 a4 h4 a5 h5 a6 h6 a7 h7 a8 h8 a9 h9 a10 h10 hc0 hc1 x0 x1 x2 x3 x4 xs0 xs1)]
  unfold kernelRun0_B
  dsimp only
  sl_unfold_words
  rw [View.canon_unit_zero hz2]
  simp only [View.readAt_eq_ld, h1.read_unread, h2.read_unread, h3.read_unread, h4.read_unread, h5.read_unread, h9.read_unread, h10.read_unread, View.ld_unit_zero (S := S5000x128) hz2, View.ld_unit_zero (S := S128x128) hz2, View.ld_unit_zero (S := S1x128) hz2, View.readCov_unit_zero (S := S1x128) _ hz2]

/-- Case B: the running column sum of z after the point. -/
theorem row0_B_0 (c : Dev nD) (i : grid0.Coords) (a1 : Memref sig .tc .vmem S5000x128 .f32) (h1 : a1.IsWhole) (a2 : Memref sig .tc .vmem S128x128 .f32) (h2 : a2.IsWhole) (a3 : Memref sig .tc .vmem S1x128 .f32) (h3 : a3.IsWhole) (a4 : Memref sig .tc .vmem S128x128 .f32) (h4 : a4.IsWhole) (a5 : Memref sig .tc .vmem S1x128 .f32) (h5 : a5.IsWhole) (a6 : Memref sig .tc .vmem S5000x128 .f32) (h6 : a6.IsWhole) (a7 : Memref sig .tc .vmem S1x128 .f32) (h7 : a7.IsWhole) (a8 : Memref sig .tc .vmem S1x128 .f32) (h8 : a8.IsWhole) (a9 : Memref sig .tc .vmem S1x128 .f32) (h9 : a9.IsWhole) (a10 : Memref sig .tc .vmem S1x128 .f32) (h10 : a10.IsWhole) (hc0 : ¬cond0_0 i) (hc1 : ¬cond0_1 i)
    (x0 : Vec F S5000x128 .f32) (x1 : Vec F S128x128 .f32) (x2 : Vec F S1x128 .f32) (x3 : Vec F S128x128 .f32) (x4 : Vec F S1x128 .f32) (xs0 xs1 : Vec F S1x128 .f32) :
    sout0_B_0 c i a1 h1 a2 h2 a3 h3 a4 h4 a5 h5 a6 h6 a7 h7 a8 h8 a9 h9 a10 h10 hc0 hc1 x0 x1 x2 x3 x4 xs0 xs1 = k0_pay1 (k0_pay6 x0 x1 x3 x2 x4 xs0) := by
  unfold sout0_B_0
  rw [View.read_writes_eq_canon _ _ _ (scover0_B_0 c i a1 h1 a2 h2 a3 h3 a4 h4 a5 h5 a6 h6 a7 h7 a8 h8 a9 h9 a10 h10 hc0 hc1 x0 x1 x2 x3 x4 xs0 xs1)]
  unfold kernelRun0_B
  dsimp only
  sl_unfold_words
  rw [View.canon_unit_zero hz2]
  simp only [View.readAt_eq_ld, h1.read_unread, h2.read_unread, h3.read_unread, h4.read_unread, h5.read_unread, h9.read_unread, h10.read_unread, View.ld_unit_zero (S := S5000x128) hz2, View.ld_unit_zero (S := S128x128) hz2, View.ld_unit_zero (S := S1x128) hz2, View.readCov_unit_zero (S := S1x128) _ hz2]

/-- Case B: the running column sum of z² after the point. -/
theorem row1_B_0 (c : Dev nD) (i : grid0.Coords) (a1 : Memref sig .tc .vmem S5000x128 .f32) (h1 : a1.IsWhole) (a2 : Memref sig .tc .vmem S128x128 .f32) (h2 : a2.IsWhole) (a3 : Memref sig .tc .vmem S1x128 .f32) (h3 : a3.IsWhole) (a4 : Memref sig .tc .vmem S128x128 .f32) (h4 : a4.IsWhole) (a5 : Memref sig .tc .vmem S1x128 .f32) (h5 : a5.IsWhole) (a6 : Memref sig .tc .vmem S5000x128 .f32) (h6 : a6.IsWhole) (a7 : Memref sig .tc .vmem S1x128 .f32) (h7 : a7.IsWhole) (a8 : Memref sig .tc .vmem S1x128 .f32) (h8 : a8.IsWhole) (a9 : Memref sig .tc .vmem S1x128 .f32) (h9 : a9.IsWhole) (a10 : Memref sig .tc .vmem S1x128 .f32) (h10 : a10.IsWhole) (hc0 : ¬cond0_0 i) (hc1 : ¬cond0_1 i)
    (x0 : Vec F S5000x128 .f32) (x1 : Vec F S128x128 .f32) (x2 : Vec F S1x128 .f32) (x3 : Vec F S128x128 .f32) (x4 : Vec F S1x128 .f32) (xs0 xs1 : Vec F S1x128 .f32) :
    sout0_B_1 c i a1 h1 a2 h2 a3 h3 a4 h4 a5 h5 a6 h6 a7 h7 a8 h8 a9 h9 a10 h10 hc0 hc1 x0 x1 x2 x3 x4 xs0 xs1 = k0_pay2 (k0_pay5 x0 x1 x3 x2 x4) xs1 := by
  unfold sout0_B_1
  rw [View.read_writes_eq_canon _ _ _ (scover0_B_1 c i a1 h1 a2 h2 a3 h3 a4 h4 a5 h5 a6 h6 a7 h7 a8 h8 a9 h9 a10 h10 hc0 hc1 x0 x1 x2 x3 x4 xs0 xs1)]
  unfold kernelRun0_B
  dsimp only
  sl_unfold_words
  rw [View.canon_unit_zero hz2]
  simp only [View.readAt_eq_ld, h1.read_unread, h2.read_unread, h3.read_unread, h4.read_unread, h5.read_unread, h9.read_unread, h10.read_unread, View.ld_unit_zero (S := S5000x128) hz2, View.ld_unit_zero (S := S128x128) hz2, View.ld_unit_zero (S := S1x128) hz2, View.readCov_unit_zero (S := S1x128) _ hz2]

/-- Case C: the z block is the perceptron's payload of the five input blocks. -/
theorem out5_C_0 (c : Dev nD) (i : grid0.Coords) (a1 : Memref sig .tc .vmem S5000x128 .f32) (h1 : a1.IsWhole) (a2 : Memref sig .tc .vmem S128x128 .f32) (h2 : a2.IsWhole) (a3 : Memref sig .tc .vmem S1x128 .f32) (h3 : a3.IsWhole) (a4 : Memref sig .tc .vmem S128x128 .f32) (h4 : a4.IsWhole) (a5 : Memref sig .tc .vmem S1x128 .f32) (h5 : a5.IsWhole) (a6 : Memref sig .tc .vmem S5000x128 .f32) (h6 : a6.IsWhole) (a7 : Memref sig .tc .vmem S1x128 .f32) (h7 : a7.IsWhole) (a8 : Memref sig .tc .vmem S1x128 .f32) (h8 : a8.IsWhole) (a9 : Memref sig .tc .vmem S1x128 .f32) (h9 : a9.IsWhole) (a10 : Memref sig .tc .vmem S1x128 .f32) (h10 : a10.IsWhole) (hc0 : ¬cond0_0 i) (hc1 : cond0_1 i)
    (x0 : Vec F S5000x128 .f32) (x1 : Vec F S128x128 .f32) (x2 : Vec F S1x128 .f32) (x3 : Vec F S128x128 .f32) (x4 : Vec F S1x128 .f32) (xs0 xs1 : Vec F S1x128 .f32) :
    out0_C_5 c i a1 h1 a2 h2 a3 h3 a4 h4 a5 h5 a6 h6 a7 h7 a8 h8 a9 h9 a10 h10 hc0 hc1 x0 x1 x2 x3 x4 xs0 xs1 = k0_pay5 x0 x1 x3 x2 x4 := by
  unfold out0_C_5
  rw [View.read_writes_eq_canon _ _ _ (cover0_C_5 c i a1 h1 a2 h2 a3 h3 a4 h4 a5 h5 a6 h6 a7 h7 a8 h8 a9 h9 a10 h10 hc0 hc1 x0 x1 x2 x3 x4 xs0 xs1)]
  unfold kernelRun0_C
  dsimp only
  sl_unfold_words
  rw [View.canon_unit_zero hz2]
  simp only [View.readAt_eq_ld, h1.read_unread, h2.read_unread, h3.read_unread, h4.read_unread, h5.read_unread, h9.read_unread, h10.read_unread, View.ld_unit_zero (S := S5000x128) hz2, View.ld_unit_zero (S := S128x128) hz2, View.ld_unit_zero (S := S1x128) hz2, View.readCov_unit_zero (S := S1x128) _ hz2]

/-- Case C: the running column sum of z after the point. -/
theorem row0_C_0 (c : Dev nD) (i : grid0.Coords) (a1 : Memref sig .tc .vmem S5000x128 .f32) (h1 : a1.IsWhole) (a2 : Memref sig .tc .vmem S128x128 .f32) (h2 : a2.IsWhole) (a3 : Memref sig .tc .vmem S1x128 .f32) (h3 : a3.IsWhole) (a4 : Memref sig .tc .vmem S128x128 .f32) (h4 : a4.IsWhole) (a5 : Memref sig .tc .vmem S1x128 .f32) (h5 : a5.IsWhole) (a6 : Memref sig .tc .vmem S5000x128 .f32) (h6 : a6.IsWhole) (a7 : Memref sig .tc .vmem S1x128 .f32) (h7 : a7.IsWhole) (a8 : Memref sig .tc .vmem S1x128 .f32) (h8 : a8.IsWhole) (a9 : Memref sig .tc .vmem S1x128 .f32) (h9 : a9.IsWhole) (a10 : Memref sig .tc .vmem S1x128 .f32) (h10 : a10.IsWhole) (hc0 : ¬cond0_0 i) (hc1 : cond0_1 i)
    (x0 : Vec F S5000x128 .f32) (x1 : Vec F S128x128 .f32) (x2 : Vec F S1x128 .f32) (x3 : Vec F S128x128 .f32) (x4 : Vec F S1x128 .f32) (xs0 xs1 : Vec F S1x128 .f32) :
    sout0_C_0 c i a1 h1 a2 h2 a3 h3 a4 h4 a5 h5 a6 h6 a7 h7 a8 h8 a9 h9 a10 h10 hc0 hc1 x0 x1 x2 x3 x4 xs0 xs1 = k0_pay1 (k0_pay6 x0 x1 x3 x2 x4 xs0) := by
  unfold sout0_C_0
  rw [View.read_writes_eq_canon _ _ _ (scover0_C_0 c i a1 h1 a2 h2 a3 h3 a4 h4 a5 h5 a6 h6 a7 h7 a8 h8 a9 h9 a10 h10 hc0 hc1 x0 x1 x2 x3 x4 xs0 xs1)]
  unfold kernelRun0_C
  dsimp only
  sl_unfold_words
  rw [View.canon_unit_zero hz2]
  simp only [View.readAt_eq_ld, h1.read_unread, h2.read_unread, h3.read_unread, h4.read_unread, h5.read_unread, h9.read_unread, h10.read_unread, View.ld_unit_zero (S := S5000x128) hz2, View.ld_unit_zero (S := S128x128) hz2, View.ld_unit_zero (S := S1x128) hz2, View.readCov_unit_zero (S := S1x128) _ hz2]

/-- Case C: the running column sum of z² after the point. -/
theorem row1_C_0 (c : Dev nD) (i : grid0.Coords) (a1 : Memref sig .tc .vmem S5000x128 .f32) (h1 : a1.IsWhole) (a2 : Memref sig .tc .vmem S128x128 .f32) (h2 : a2.IsWhole) (a3 : Memref sig .tc .vmem S1x128 .f32) (h3 : a3.IsWhole) (a4 : Memref sig .tc .vmem S128x128 .f32) (h4 : a4.IsWhole) (a5 : Memref sig .tc .vmem S1x128 .f32) (h5 : a5.IsWhole) (a6 : Memref sig .tc .vmem S5000x128 .f32) (h6 : a6.IsWhole) (a7 : Memref sig .tc .vmem S1x128 .f32) (h7 : a7.IsWhole) (a8 : Memref sig .tc .vmem S1x128 .f32) (h8 : a8.IsWhole) (a9 : Memref sig .tc .vmem S1x128 .f32) (h9 : a9.IsWhole) (a10 : Memref sig .tc .vmem S1x128 .f32) (h10 : a10.IsWhole) (hc0 : ¬cond0_0 i) (hc1 : cond0_1 i)
    (x0 : Vec F S5000x128 .f32) (x1 : Vec F S128x128 .f32) (x2 : Vec F S1x128 .f32) (x3 : Vec F S128x128 .f32) (x4 : Vec F S1x128 .f32) (xs0 xs1 : Vec F S1x128 .f32) :
    sout0_C_1 c i a1 h1 a2 h2 a3 h3 a4 h4 a5 h5 a6 h6 a7 h7 a8 h8 a9 h9 a10 h10 hc0 hc1 x0 x1 x2 x3 x4 xs0 xs1 = k0_pay2 (k0_pay5 x0 x1 x3 x2 x4) xs1 := by
  unfold sout0_C_1
  rw [View.read_writes_eq_canon _ _ _ (scover0_C_1 c i a1 h1 a2 h2 a3 h3 a4 h4 a5 h5 a6 h6 a7 h7 a8 h8 a9 h9 a10 h10 hc0 hc1 x0 x1 x2 x3 x4 xs0 xs1)]
  unfold kernelRun0_C
  dsimp only
  sl_unfold_words
  rw [View.canon_unit_zero hz2]
  simp only [View.readAt_eq_ld, h1.read_unread, h2.read_unread, h3.read_unread, h4.read_unread, h5.read_unread, h9.read_unread, h10.read_unread, View.ld_unit_zero (S := S5000x128) hz2, View.ld_unit_zero (S := S128x128) hz2, View.ld_unit_zero (S := S1x128) hz2, View.readCov_unit_zero (S := S1x128) _ hz2]

/-- The last point copies the first row out. -/
theorem out6_C_0 (c : Dev nD) (i : grid0.Coords) (a1 : Memref sig .tc .vmem S5000x128 .f32) (h1 : a1.IsWhole) (a2 : Memref sig .tc .vmem S128x128 .f32) (h2 : a2.IsWhole) (a3 : Memref sig .tc .vmem S1x128 .f32) (h3 : a3.IsWhole) (a4 : Memref sig .tc .vmem S128x128 .f32) (h4 : a4.IsWhole) (a5 : Memref sig .tc .vmem S1x128 .f32) (h5 : a5.IsWhole) (a6 : Memref sig .tc .vmem S5000x128 .f32) (h6 : a6.IsWhole) (a7 : Memref sig .tc .vmem S1x128 .f32) (h7 : a7.IsWhole) (a8 : Memref sig .tc .vmem S1x128 .f32) (h8 : a8.IsWhole) (a9 : Memref sig .tc .vmem S1x128 .f32) (h9 : a9.IsWhole) (a10 : Memref sig .tc .vmem S1x128 .f32) (h10 : a10.IsWhole) (hc0 : ¬cond0_0 i) (hc1 : cond0_1 i)
    (x0 : Vec F S5000x128 .f32) (x1 : Vec F S128x128 .f32) (x2 : Vec F S1x128 .f32) (x3 : Vec F S128x128 .f32) (x4 : Vec F S1x128 .f32) (xs0 xs1 : Vec F S1x128 .f32) :
    out0_C_6 c i a1 h1 a2 h2 a3 h3 a4 h4 a5 h5 a6 h6 a7 h7 a8 h8 a9 h9 a10 h10 hc0 hc1 x0 x1 x2 x3 x4 xs0 xs1 = k0_pay1 (k0_pay6 x0 x1 x3 x2 x4 xs0) := by
  unfold out0_C_6
  rw [View.read_writes_eq_canon _ _ _ (cover0_C_6 c i a1 h1 a2 h2 a3 h3 a4 h4 a5 h5 a6 h6 a7 h7 a8 h8 a9 h9 a10 h10 hc0 hc1 x0 x1 x2 x3 x4 xs0 xs1)]
  unfold kernelRun0_C
  dsimp only
  sl_unfold_words
  rw [View.canon_unit_zero hz2]
  simp only [View.readAt_eq_ld, h1.read_unread, h2.read_unread, h3.read_unread, h4.read_unread, h5.read_unread, h9.read_unread, h10.read_unread, View.ld_unit_zero (S := S5000x128) hz2, View.ld_unit_zero (S := S128x128) hz2, View.ld_unit_zero (S := S1x128) hz2, View.readCov_unit_zero (S := S1x128) _ hz2]

/-- The last point copies the second row out. -/
theorem out7_C_0 (c : Dev nD) (i : grid0.Coords) (a1 : Memref sig .tc .vmem S5000x128 .f32) (h1 : a1.IsWhole) (a2 : Memref sig .tc .vmem S128x128 .f32) (h2 : a2.IsWhole) (a3 : Memref sig .tc .vmem S1x128 .f32) (h3 : a3.IsWhole) (a4 : Memref sig .tc .vmem S128x128 .f32) (h4 : a4.IsWhole) (a5 : Memref sig .tc .vmem S1x128 .f32) (h5 : a5.IsWhole) (a6 : Memref sig .tc .vmem S5000x128 .f32) (h6 : a6.IsWhole) (a7 : Memref sig .tc .vmem S1x128 .f32) (h7 : a7.IsWhole) (a8 : Memref sig .tc .vmem S1x128 .f32) (h8 : a8.IsWhole) (a9 : Memref sig .tc .vmem S1x128 .f32) (h9 : a9.IsWhole) (a10 : Memref sig .tc .vmem S1x128 .f32) (h10 : a10.IsWhole) (hc0 : ¬cond0_0 i) (hc1 : cond0_1 i)
    (x0 : Vec F S5000x128 .f32) (x1 : Vec F S128x128 .f32) (x2 : Vec F S1x128 .f32) (x3 : Vec F S128x128 .f32) (x4 : Vec F S1x128 .f32) (xs0 xs1 : Vec F S1x128 .f32) :
    out0_C_7 c i a1 h1 a2 h2 a3 h3 a4 h4 a5 h5 a6 h6 a7 h7 a8 h8 a9 h9 a10 h10 hc0 hc1 x0 x1 x2 x3 x4 xs0 xs1 = k0_pay2 (k0_pay5 x0 x1 x3 x2 x4) xs1 := by
  unfold out0_C_7
  rw [View.read_writes_eq_canon _ _ _ (cover0_C_7 c i a1 h1 a2 h2 a3 h3 a4 h4 a5 h5 a6 h6 a7 h7 a8 h8 a9 h9 a10 h10 hc0 hc1 x0 x1 x2 x3 x4 xs0 xs1)]
  unfold kernelRun0_C
  dsimp only
  sl_unfold_words
  rw [View.canon_unit_zero hz2]
  simp only [View.readAt_eq_ld, h1.read_unread, h2.read_unread, h3.read_unread, h4.read_unread, h5.read_unread, h9.read_unread, h10.read_unread, View.ld_unit_zero (S := S5000x128) hz2, View.ld_unit_zero (S := S128x128) hz2, View.ld_unit_zero (S := S1x128) hz2, View.readCov_unit_zero (S := S1x128) _ hz2]

section Acc0

variable (V : (c : Dev nD) → (b : Ref sig .tc) → Buf (Elt F) ((c : Thread nD τ).loc b))

/-- The z block point `t` stores: the perceptron's payload of the point's input blocks. -/
def zblk0 (c : Dev nD) (t : Fin cfg0.N) : Vec F S5000x128 .f32 := k0_pay5 (iblk0 V c 0 t) (iblk0 V c 1 t) (iblk0 V c 3 t) (iblk0 V c 2 t) (iblk0 V c 4 t)

/-- One step of the running column sum of z: the row before, plus the block's column sum. -/
def stepS0 (c : Dev nD) (t : Fin cfg0.N) (prev : Vec F S1x128 .f32) : Vec F S1x128 .f32 :=
  k0_pay1 (k0_pay6 (iblk0 V c 0 t) (iblk0 V c 1 t) (iblk0 V c 3 t) (iblk0 V c 2 t) (iblk0 V c 4 t) prev)
/-- One step of the running column sum of z². -/
def stepQ0 (c : Dev nD) (t : Fin cfg0.N) (prev : Vec F S1x128 .f32) : Vec F S1x128 .f32 :=
  k0_pay2 (zblk0 V c t) prev

/-- The running column sums after point `n`: from the zero rows at the first point, one step per point. -/
def rowS0 (c : Dev nD) : (n : ℕ) → n < cfg0.N → Vec F S1x128 .f32
  | 0, h => stepS0 V c ⟨0, h⟩ (k0_pay3 (F := F))
  | n + 1, h => stepS0 V c ⟨n + 1, h⟩ (rowS0 c n (Nat.lt_of_succ_lt h))
def rowQ0 (c : Dev nD) : (n : ℕ) → n < cfg0.N → Vec F S1x128 .f32
  | 0, h => stepQ0 V c ⟨0, h⟩ (k0_pay4 (F := F))
  | n + 1, h => stepQ0 V c ⟨n + 1, h⟩ (rowQ0 c n (Nat.lt_of_succ_lt h))

end Acc0

end Cert.KernelIdeal.Hand

end
-- ==== Proof.KiMlp0Final.lean ====
import proofs.«160011_j2121713844488_1_alg».proof.Proof.KiMlp0Value
import proofs.«160011_j2121713844488_1_alg».proof.Proof.KiPay0
import proofs.«160011_j2121713844488_1_alg».proof.Proof.Spec
import proofs.«160011_j2121713844488_1_alg».proof.Proof.LibLayerStats
import Idealize.ShloMosaic.Lib.Pipeline.Value
import Idealize.ShloMosaic.Lib.ValueIdx

/-! # The perceptron region 0: the three output arrays after all 20 points

At a point the body writes the whole 5000 × 128 block of the z output (the perceptron's payload of the block of
aggregated features and of the four whole weight and bias arrays) and adds the block's column sums to two running
1 × 128 rows, which it writes out at the last point only. The feature window and the z window move together down the
20 blocks of 5000 rows and the 20 z blocks tile the 100000 rows, so the z array ends as one function of the five input
arrays; the two row outputs are written once, through a block that is their whole array, so they end holding the
running rows after the last point. At the exact instance the z array is the specification's perceptron entry by
entry and the rows are zero plus the sums over the 20 blocks of the blocks' column sums of z and of z². -/

set_option maxRecDepth 16384

noncomputable section

namespace Cert.KernelIdeal.Hand

open Cert.KernelIdeal Cert.KernelIdeal.Gen
open Idealize.ShloMosaic Idealize.ShloMosaic.TcCoe Idealize.ShloMosaic.Tactic
open Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

-- the contents of the core's buffers when the region is entered
variable (V : (c : Dev nD) → (b : Ref sig .tc) → Buf (Elt F) ((c : Thread nD τ).loc b))

/-! ## The z array as one function of the five input arrays -/

/-- The rows `5000·q …` of a `100000 × 128` array, as a `5000 × 128` block. -/
def rows0 (x : S100000x128.Idx → Elt F .f32) (q : Nat) (hq : q < 20) : S5000x128.Idx → Elt F .f32 :=
  fun y => x (ix2 (⟨5000 * q + (y 0).val, by
      have h2 : (y 0).val < 5000 := idx2_lt0 y
      omega⟩ : Fin 100000) (⟨(y 1).val, idx2_lt1 y⟩ : Fin 128))

/-- The z array: its block of 5000 rows at block-row `b` is the perceptron's payload of rows
    `5000·b … 5000·b + 4999` of the feature array and of the two weight and two bias arrays; entry `(n, j)` is that
    block's entry `(n mod 5000, j)`. -/
def G0z (x : S100000x128.Idx → Elt F .f32) (w1 : S128x128.Idx → Elt F .f32) (b1 : S1x128.Idx → Elt F .f32)
    (w2 : S128x128.Idx → Elt F .f32) (b2 : S1x128.Idx → Elt F .f32) : S100000x128.Idx → Elt F .f32 :=
  fun i => k0_pay5 (rows0 x ((i 0).val / 5000) (by have h1 : (i 0).val < 100000 := idx2_lt0 i; omega)) w1 w2 b1 b2
    (ix2 (⟨(i 0).val % 5000, Nat.mod_lt _ (by norm_num)⟩ : Fin 5000) (⟨(i 1).val, idx2_lt1 i⟩ : Fin 128))

/-- One block of the z array: if `x0` is rows `5000·q …` of the feature array and the other four operands are
    the whole weight and bias arrays, the payload at block index `j` is the array's entry at `(5000·q + j₀, j₁)`. -/
theorem G0z_block (x : S100000x128.Idx → Elt F .f32) (w1 : S128x128.Idx → Elt F .f32) (b1 : S1x128.Idx → Elt F .f32)
    (w2 : S128x128.Idx → Elt F .f32) (b2 : S1x128.Idx → Elt F .f32)
    (x0 : Vec F S5000x128 .f32) (x1 : Vec F S128x128 .f32) (x2 : Vec F S1x128 .f32) (x3 : Vec F S128x128 .f32)
    (x4 : Vec F S1x128 .f32) (q : Nat) (hq : q < 20)
    (h0 : x0 = rows0 x q hq) (h1 : x1 = w1) (h2 : x2 = b1) (h3 : x3 = w2) (h4 : x4 = b2)
    (j : S5000x128.Idx) (i : S100000x128.Idx) (hi0 : (i 0).val = q * 5000 + (j 0).val) (hi1 : (i 1).val = (j 1).val) :
    k0_pay5 x0 x1 x3 x2 x4 j = G0z x w1 b1 w2 b2 i := by
  subst h0 h1 h2 h3 h4
  have hj0 : (j 0).val < 5000 := idx2_lt0 j
  have hq' : (i 0).val / 5000 = q := by omega
  have hm : (i 0).val % 5000 = (j 0).val := by omega
  have ej : j = ix2 (⟨(i 0).val % 5000, Nat.mod_lt _ (by norm_num)⟩ : Fin 5000) (⟨(i 1).val, idx2_lt1 i⟩ : Fin 128) := by
    funext a
    match a with
    | ⟨0, _⟩ => exact Fin.ext hm.symm
    | ⟨1, _⟩ => exact Fin.ext hi1.symm
  subst hq'
  exact congrArg (fun J => k0_pay5 (rows0 x ((i 0).val / 5000) hq) x1 x3 x2 x4 J) ej

/-- A block that reads an array at the same coordinates is the array. -/
theorem whole0m {n0 n1 : Nat} {α : Type} (arr x : (⟨2, ![n0, n1]⟩ : Shape).Idx → α)
    (hx : ∀ y, ∃ i, x y = arr i ∧ (i 0).val = (y 0).val ∧ (i 1).val = (y 1).val) : x = arr := by
  funext y
  obtain ⟨i, e, e0, e1⟩ := hx y
  rw [e]
  refine congrArg arr ?_
  funext a
  match a with
  | ⟨0, _⟩ => exact Fin.ext e0
  | ⟨1, _⟩ => exact Fin.ext e1

/-- A block that reads a `100000 × 128` array at rows shifted by `5000·q` is that block of rows. -/
theorem rows0_eq (z : S100000x128.Idx → Elt F .f32) (q : Nat) (hq : q < 20) (x : S5000x128.Idx → Elt F .f32)
    (hx : ∀ y, ∃ i, x y = z i ∧ (i 0).val = 5000 * q + (y 0).val ∧ (i 1).val = (y 1).val) : x = rows0 z q hq := by
  funext y
  obtain ⟨i, e, e0, e1⟩ := hx y
  rw [e]
  refine congrArg z ?_
  funext a
  match a with
  | ⟨0, _⟩ => exact Fin.ext e0
  | ⟨1, _⟩ => exact Fin.ext e1

/-! ## The printed index maps, decided over the grid -/

/-- At point `t` the feature window and the z window are at block-row `t`, column block `0`; the weight, bias
    and running-row windows are at block `(0, 0)`: their block is their whole array. -/
theorem idx_facts0m : ∀ t : Fin cfg0.N,
    win0_5.index t (0 : Fin 2) = t.val ∧ win0_5.index t (1 : Fin 2) = 0
    ∧ win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_6.index t (0 : Fin 2) = 0 ∧ win0_6.index t (1 : Fin 2) = 0
    ∧ win0_7.index t (0 : Fin 2) = 0 ∧ win0_7.index t (1 : Fin 2) = 0 :=
  (by decide +kernel : ∀ t : Fin grid0.N, _)

/-! ## The input blocks at a point -/

set_option maxHeartbeats 2000000 in
/-- The feature window's block at point `t` is rows `5000·t …` of the feature array. -/
theorem iblk0_0_eq (c : Dev nD) (t : Fin cfg0.N) (ht : t.val < 20) :
    iblk0 V c 0 t = rows0 (V c (Pipeline.arrRef spec0 0)) t.val ht := by
  obtain ⟨e50, e51, e00, e01, -⟩ := idx_facts0m t
  refine rows0_eq _ _ _ _ fun y => ⟨((cfg0.win 0).blk t).view.emb y, rfl, ?_, ?_⟩
  · show win0_0.index t (0 : Fin 2) * 5000 + 1 * (y 0).val = 5000 * t.val + (y 0).val; omega
  · show win0_0.index t (1 : Fin 2) * 128 + 1 * (y 1).val = (y 1).val; omega

set_option maxHeartbeats 2000000 in
/-- The first weight window's block is the whole weight array, at every point. -/
theorem iblk0_1_eq (c : Dev nD) (t : Fin cfg0.N) : iblk0 V c 1 t = V c (Pipeline.arrRef spec0 1) := by
  obtain ⟨-, -, -, -, e10, e11, -⟩ := idx_facts0m t
  refine whole0m _ _ fun y => ⟨((cfg0.win 1).blk t).view.emb y, rfl, ?_, ?_⟩
  · show win0_1.index t (0 : Fin 2) * 128 + 1 * (y 0).val = (y 0).val; omega
  · show win0_1.index t (1 : Fin 2) * 128 + 1 * (y 1).val = (y 1).val; omega

set_option maxHeartbeats 2000000 in
/-- The first bias window's block is the whole bias row, at every point. -/
theorem iblk0_2_eq (c : Dev nD) (t : Fin cfg0.N) : iblk0 V c 2 t = V c (Pipeline.arrRef spec0 2) := by
  obtain ⟨-, -, -, -, -, -, e20, e21, -⟩ := idx_facts0m t
  refine whole0m _ _ fun y => ⟨((cfg0.win 2).blk t).view.emb y, rfl, ?_, ?_⟩
  · show win0_2.index t (0 : Fin 2) * 1 + 1 * (y 0).val = (y 0).val; omega
  · show win0_2.index t (1 : Fin 2) * 128 + 1 * (y 1).val = (y 1).val; omega

set_option maxHeartbeats 2000000 in
/-- The second weight window's block is the whole weight array, at every point. -/
theorem iblk0_3_eq (c : Dev nD) (t : Fin cfg0.N) : iblk0 V c 3 t = V c (Pipeline.arrRef spec0 3) := by
  obtain ⟨-, -, -, -, -, -, -, -, e30, e31, -⟩ := idx_facts0m t
  refine whole0m _ _ fun y => ⟨((cfg0.win 3).blk t).view.emb y, rfl, ?_, ?_⟩
  · show win0_3.index t (0 : Fin 2) * 128 + 1 * (y 0).val = (y 0).val; omega
  · show win0_3.index t (1 : Fin 2) * 128 + 1 * (y 1).val = (y 1).val; omega

set_option maxHeartbeats 2000000 in
/-- The second bias window's block is the whole bias row, at every point. -/
theorem iblk0_4_eq (c : Dev nD) (t : Fin cfg0.N) : iblk0 V c 4 t = V c (Pipeline.arrRef spec0 4) := by
  obtain ⟨-, -, -, -, -, -, -, -, -, -, e40, e41, -⟩ := idx_facts0m t
  refine whole0m _ _ fun y => ⟨((cfg0.win 4).blk t).view.emb y, rfl, ?_, ?_⟩
  · show win0_4.index t (0 : Fin 2) * 1 + 1 * (y 0).val = (y 0).val; omega
  · show win0_4.index t (1 : Fin 2) * 128 + 1 * (y 1).val = (y 1).val; omega

/-- The z block a point stores, from the arrays as the region finds them. -/
theorem zblk0_eq (c : Dev nD) (t : Fin cfg0.N) (ht : t.val < 20) :
    zblk0 V c t = k0_pay5 (rows0 (V c (Pipeline.arrRef spec0 0)) t.val ht) (V c (Pipeline.arrRef spec0 1))
      (V c (Pipeline.arrRef spec0 3)) (V c (Pipeline.arrRef spec0 2)) (V c (Pipeline.arrRef spec0 4)) := by
  unfold zblk0
  rw [iblk0_0_eq V c t ht, iblk0_1_eq V c t, iblk0_2_eq V c t, iblk0_3_eq V c t, iblk0_4_eq V c t]

/-! ## What a point writes back to the z array -/

set_option maxHeartbeats 2000000 in
/-- What point `t` writes back to the z array is block `t` of the z array of the five input arrays as the
    region finds them — given that the z window's staging buffer holds the point's z block after the body. -/
theorem flushed0_5_eq (c : Dev nD) (hZ : ∀ t : Fin cfg0.N, (dat0 V c).after 5 t = zblk0 V c t) (t : Fin cfg0.N) :
    (dat0 V c).flushed 5 t = ((cfg0.win 5).blk t).view.read (Elt F)
      (G0z (V c (Pipeline.arrRef spec0 0)) (V c (Pipeline.arrRef spec0 1)) (V c (Pipeline.arrRef spec0 2))
        (V c (Pipeline.arrRef spec0 3)) (V c (Pipeline.arrRef spec0 4))) := by
  show (cfg0.win 5).cut (grid0.coords t) ((dat0 V c).after 5 t) = _
  have ht : t.val < 20 := lt_of_lt_of_eq t.isLt N_0
  rw [hZ t, zblk0_eq V c t ht]
  obtain ⟨e50, e51, -⟩ := idx_facts0m t
  funext j
  show k0_pay5 (rows0 (V c (Pipeline.arrRef spec0 0)) t.val ht) (V c (Pipeline.arrRef spec0 1))
      (V c (Pipeline.arrRef spec0 3)) (V c (Pipeline.arrRef spec0 2)) (V c (Pipeline.arrRef spec0 4)) j
    = G0z (V c (Pipeline.arrRef spec0 0)) (V c (Pipeline.arrRef spec0 1)) (V c (Pipeline.arrRef spec0 2))
        (V c (Pipeline.arrRef spec0 3)) (V c (Pipeline.arrRef spec0 4)) (((cfg0.win 5).blk t).view.emb j)
  refine G0z_block _ _ _ _ _ _ _ _ _ _ t.val ht rfl rfl rfl rfl rfl j _ ?_ ?_
  · show win0_5.index t (0 : Fin 2) * 5000 + 1 * (j 0).val = t.val * 5000 + (j 0).val; omega
  · show win0_5.index t (1 : Fin 2) * 128 + 1 * (j 1).val = (j 1).val; omega

/-- An index of the z array is in point `t`'s block iff each coordinate is in the block's range on its axis. -/
theorem mem_blk0_5m (t : Fin cfg0.N) (i : S100000x128.Idx) :
    i ∈ ((cfg0.win 5).blk t).view.set ↔ ∀ a : Fin 2, win0_5.index t a * S5000x128.size a ≤ (i a).val ∧ (i a).val < win0_5.index t a * S5000x128.size a + S5000x128.size a := by
  show i ∈ ((View.whole main_v25_0).slice (win0_5.rect t)).set ↔ _
  rw [View.set_slice_whole, Rect.mem_set_unit]
  exact Iff.rfl

/-- Every row `n` of the z array is in the block of point `n / 5000`. -/
theorem blocks_cover0m (i : S100000x128.Idx) :
    ∃ t : Fin cfg0.N, (cfg0.win 5).flush t = true ∧ i ∈ ((cfg0.win 5).blk t).view.set := by
  have hi0 : (i 0).val < 100000 := idx2_lt0 i
  have hi1 : (i 1).val < 128 := idx2_lt1 i
  obtain ⟨t, ht⟩ : ∃ t : Fin cfg0.N, t.val = (i 0).val / 5000 :=
    ⟨⟨(i 0).val / 5000, lt_of_lt_of_eq (by omega : (i 0).val / 5000 < 20) N_0.symm⟩, rfl⟩
  obtain ⟨e50, e51, -⟩ := idx_facts0m t
  refine ⟨t, flush0_5 t, ?_⟩
  rw [mem_blk0_5m]
  intro a
  match a with
  | ⟨0, _⟩ => show win0_5.index t (0 : Fin 2) * 5000 ≤ (i 0).val ∧ (i 0).val < win0_5.index t (0 : Fin 2) * 5000 + 5000; omega
  | ⟨1, _⟩ => show win0_5.index t (1 : Fin 2) * 128 ≤ (i 1).val ∧ (i 1).val < win0_5.index t (1 : Fin 2) * 128 + 128; omega

/-- After all 20 points the z array holds the z array of the five input arrays as the region finds them. -/
theorem final0_5 (c : Dev nD) (hZ : ∀ t : Fin cfg0.N, (dat0 V c).after 5 t = zblk0 V c t) :
    (dat0 V c).arrAt 5 cfg0.N
      = G0z (V c (Pipeline.arrRef spec0 0)) (V c (Pipeline.arrRef spec0 1)) (V c (Pipeline.arrRef spec0 2))
        (V c (Pipeline.arrRef spec0 3)) (V c (Pipeline.arrRef spec0 4)) :=
  (dat0 V c).arrAt_eq_of_cover 5 _ (fun t _ => flushed0_5_eq V c hZ t) blocks_cover0m

/-! ## The two row outputs: one write-back, at the last point, of the whole array -/

/-- The last point. -/
theorem lt19_0 : 19 < cfg0.N := lt_of_lt_of_eq (by norm_num) N_0.symm

set_option maxHeartbeats 2000000 in
/-- The one write-back of the column-sum row, at the last point, writes the running row after that point: block
    `(0, 0)` of the 1 × 128 array read through zero offsets is the array. -/
theorem flushed0_6_eq (c : Dev nD)
    (hS : ∀ t : Fin cfg0.N, t.val % 20 = 19 → (dat0 V c).after 6 t = rowS0 V c t.val t.isLt)
    (t : Fin cfg0.N) (hf : (cfg0.win 6).flush t = true) :
    (dat0 V c).flushed 6 t = ((cfg0.win 6).blk t).view.read (Elt F) (rowS0 V c 19 lt19_0) := by
  have ht : t.val < 20 := lt_of_lt_of_eq t.isLt N_0
  have h19 : t.val % 20 = 19 := (flush0_6 t).mp hf
  have e : t = ⟨19, lt19_0⟩ := Fin.ext (show t.val = 19 by omega)
  show (cfg0.win 6).cut (grid0.coords t) ((dat0 V c).after 6 t) = _
  rw [hS t h19]
  obtain ⟨-, -, -, -, -, -, -, -, -, -, -, -, e60, e61, -⟩ := idx_facts0m t
  have hz' : (fun a => win0_6.index t a * main_v25_1.ty.shape.size a) = fun _ => 0 := funext fun a => by
    match a with
    | ⟨0, _⟩ => show win0_6.index t (0 : Fin 2) * 1 = 0; omega
    | ⟨1, _⟩ => show win0_6.index t (1 : Fin 2) * 128 = 0; omega
  have er : rowS0 V c t.val t.isLt = rowS0 V c 19 lt19_0 := by subst e; rfl
  rw [er]
  exact (Memref.read_access_unit_zero (Elt F) main_v25_1 hz' (fun a => by rw [congrFun hz' a]; simp) (rowS0 V c 19 lt19_0)).symm

set_option maxHeartbeats 2000000 in
/-- The same for the row of column sums of squares. -/
theorem flushed0_7_eq (c : Dev nD)
    (hQ : ∀ t : Fin cfg0.N, t.val % 20 = 19 → (dat0 V c).after 7 t = rowQ0 V c t.val t.isLt)
    (t : Fin cfg0.N) (hf : (cfg0.win 7).flush t = true) :
    (dat0 V c).flushed 7 t = ((cfg0.win 7).blk t).view.read (Elt F) (rowQ0 V c 19 lt19_0) := by
  have ht : t.val < 20 := lt_of_lt_of_eq t.isLt N_0
  have h19 : t.val % 20 = 19 := (flush0_7 t).mp hf
  have e : t = ⟨19, lt19_0⟩ := Fin.ext (show t.val = 19 by omega)
  show (cfg0.win 7).cut (grid0.coords t) ((dat0 V c).after 7 t) = _
  rw [hQ t h19]
  obtain ⟨-, -, -, -, -, -, -, -, -, -, -, -, -, -, e70, e71⟩ := idx_facts0m t
  have hz' : (fun a => win0_7.index t a * main_v25_2.ty.shape.size a) = fun _ => 0 := funext fun a => by
    match a with
    | ⟨0, _⟩ => show win0_7.index t (0 : Fin 2) * 1 = 0; omega
    | ⟨1, _⟩ => show win0_7.index t (1 : Fin 2) * 128 = 0; omega
  have er : rowQ0 V c t.val t.isLt = rowQ0 V c 19 lt19_0 := by subst e; rfl
  rw [er]
  exact (Memref.read_access_unit_zero (Elt F) main_v25_2 hz' (fun a => by rw [congrFun hz' a]; simp) (rowQ0 V c 19 lt19_0)).symm

/-- Every index of a 1 × 128 row output is in the last point's block, which is written back. -/
theorem cover0_6 (i : S1x128.Idx) :
    ∃ t : Fin cfg0.N, (cfg0.win 6).flush t = true ∧ i ∈ ((cfg0.win 6).blk t).view.set := by
  have hi0 : (i 0).val < 1 := idx2_lt0 i
  have hi1 : (i 1).val < 128 := idx2_lt1 i
  obtain ⟨-, -, -, -, -, -, -, -, -, -, -, -, e60, e61, -⟩ := idx_facts0m ⟨19, lt19_0⟩
  refine ⟨⟨19, lt19_0⟩, (flush0_6 _).mpr (by norm_num), ?_⟩
  show i ∈ ((View.whole main_v25_1).slice (win0_6.rect ⟨19, lt19_0⟩)).set
  rw [View.set_slice_whole, Rect.mem_set_unit]
  intro a
  match a with
  | ⟨0, _⟩ => show win0_6.index ⟨19, lt19_0⟩ (0 : Fin 2) * 1 ≤ (i 0).val ∧ (i 0).val < win0_6.index ⟨19, lt19_0⟩ (0 : Fin 2) * 1 + 1; omega
  | ⟨1, _⟩ => show win0_6.index ⟨19, lt19_0⟩ (1 : Fin 2) * 128 ≤ (i 1).val ∧ (i 1).val < win0_6.index ⟨19, lt19_0⟩ (1 : Fin 2) * 128 + 128; omega

theorem cover0_7 (i : S1x128.Idx) :
    ∃ t : Fin cfg0.N, (cfg0.win 7).flush t = true ∧ i ∈ ((cfg0.win 7).blk t).view.set := by
  have hi0 : (i 0).val < 1 := idx2_lt0 i
  have hi1 : (i 1).val < 128 := idx2_lt1 i
  obtain ⟨-, -, -, -, -, -, -, -, -, -, -, -, -, -, e70, e71⟩ := idx_facts0m ⟨19, lt19_0⟩
  refine ⟨⟨19, lt19_0⟩, (flush0_7 _).mpr (by norm_num), ?_⟩
  show i ∈ ((View.whole main_v25_2).slice (win0_7.rect ⟨19, lt19_0⟩)).set
  rw [View.set_slice_whole, Rect.mem_set_unit]
  intro a
  match a with
  | ⟨0, _⟩ => show win0_7.index ⟨19, lt19_0⟩ (0 : Fin 2) * 1 ≤ (i 0).val ∧ (i 0).val < win0_7.index ⟨19, lt19_0⟩ (0 : Fin 2) * 1 + 1; omega
  | ⟨1, _⟩ => show win0_7.index ⟨19, lt19_0⟩ (1 : Fin 2) * 128 ≤ (i 1).val ∧ (i 1).val < win0_7.index ⟨19, lt19_0⟩ (1 : Fin 2) * 128 + 128; omega

/-- After all 20 points the column-sum output holds the running row after the last point. -/
theorem final0_6 (c : Dev nD)
    (hS : ∀ t : Fin cfg0.N, t.val % 20 = 19 → (dat0 V c).after 6 t = rowS0 V c t.val t.isLt) :
    (dat0 V c).arrAt 6 cfg0.N = rowS0 V c 19 lt19_0 :=
  (dat0 V c).arrAt_eq_of_cover 6 (rowS0 V c 19 lt19_0) (flushed0_6_eq V c hS) cover0_6

/-- After all 20 points the output of column sums of squares holds the running row after the last point. -/
theorem final0_7 (c : Dev nD)
    (hQ : ∀ t : Fin cfg0.N, t.val % 20 = 19 → (dat0 V c).after 7 t = rowQ0 V c t.val t.isLt) :
    (dat0 V c).arrAt 7 cfg0.N = rowQ0 V c 19 lt19_0 :=
  (dat0 V c).arrAt_eq_of_cover 7 (rowQ0 V c 19 lt19_0) (flushed0_7_eq V c hQ) cover0_7

/-! ## Entry by entry, at the exact instance -/

/-- Row `5000·b + r` of the 100000 rows: row `r` of block `b`. -/
def blkRow0 (b : Fin 20) (r : Fin 5000) : Fin 100000 :=
  ⟨5000 * b.val + r.val, by have h1 := b.isLt; have h2 := r.isLt; omega⟩

theorem blkRow0_val (b : Fin 20) (r : Fin 5000) : (blkRow0 b r).val = 5000 * b.val + r.val := rfl

/-- At the exact instance the z array at `(n, j)` is the specification's perceptron: the payload read at block
    index `(n mod 5000, j)` of the block of rows that holds row `n`. -/
theorem G0z_apply (x : Vec Ideal S100000x128 .f32) (w1 : Vec Ideal S128x128 .f32) (b1 : Vec Ideal S1x128 .f32)
    (w2 : Vec Ideal S128x128 .f32) (b2 : Vec Ideal S1x128 .f32) (n : Fin 100000) (j : Fin 128) :
    G0z (F := Ideal) x w1 b1 w2 b2 (ix2 n j)
      = Cert.Spec.mlp (fun n q => x (ix2 n q)) (fun q k => w1 (ix2 q k)) (fun k => b1 (ix2 (0 : Fin 1) k))
          (fun k j => w2 (ix2 k j)) (fun j => b2 (ix2 (0 : Fin 1) j)) n j := by
  have hq : n.val / 5000 < 20 := by have := n.isLt; omega
  have hrow : ∀ q : Fin 128,
      rows0 (F := Ideal) x (n.val / 5000) hq (ix2 (⟨n.val % 5000, Nat.mod_lt _ (by norm_num)⟩ : Fin 5000) q) = x (ix2 n q) := by
    intro q
    unfold rows0
    refine congrArg x ?_
    funext a
    match a with
    | ⟨0, _⟩ => exact Fin.ext (Nat.div_add_mod n.val 5000)
    | ⟨1, _⟩ => rfl
  unfold G0z
  rw [Cert.KernelIdeal.PayValue.pay5_apply]
  show max ((∑ k : Fin 128, max ((∑ q : Fin 128,
      rows0 (F := Ideal) x (n.val / 5000) hq (ix2 (⟨n.val % 5000, Nat.mod_lt _ (by norm_num)⟩ : Fin 5000) q) * w1 (ix2 q k))
        + b1 (ix2 (0 : Fin 1) k)) 0 * w2 (ix2 k j)) + b2 (ix2 (0 : Fin 1) j)) 0 = _
  simp only [hrow, Cert.Spec.mlp]

/-- The z block a point stores, entry by entry: row `r` of block `t` is row `5000·t + r` of the
    specification's perceptron of the five input arrays. -/
theorem zblk0_apply (VI : (c : Dev nD) → (b : Ref sig .tc) → Buf (Elt Ideal) ((c : Thread nD τ).loc b))
    (c : Dev nD) (b : Fin 20) (hb : b.val < cfg0.N) (r : Fin 5000) (j : Fin 128) :
    zblk0 (F := Ideal) VI c ⟨b.val, hb⟩ (ix2 r j)
      = Cert.Spec.mlp (fun n q => VI c (Pipeline.arrRef spec0 0) (ix2 n q)) (fun q k => VI c (Pipeline.arrRef spec0 1) (ix2 q k))
          (fun k => VI c (Pipeline.arrRef spec0 2) (ix2 (0 : Fin 1) k)) (fun k j => VI c (Pipeline.arrRef spec0 3) (ix2 k j))
          (fun j => VI c (Pipeline.arrRef spec0 4) (ix2 (0 : Fin 1) j)) (blkRow0 b r) j := by
  rw [zblk0_eq VI c ⟨b.val, hb⟩ b.isLt, Cert.KernelIdeal.PayValue.pay5_apply]
  rfl

/-- After the region, at the exact instance, the z array's entry `(n, j)` is the specification's perceptron of
    the five input arrays as the region finds them. -/
theorem final0_5_apply (VI : (c : Dev nD) → (b : Ref sig .tc) → Buf (Elt Ideal) ((c : Thread nD τ).loc b))
    (c : Dev nD) (hZ : ∀ t : Fin cfg0.N, (dat0 (F := Ideal) VI c).after 5 t = zblk0 VI c t)
    (n : Fin 100000) (j : Fin 128) :
    (dat0 (F := Ideal) VI c).arrAt 5 cfg0.N (ix2 n j)
      = Cert.Spec.mlp (fun n q => VI c (Pipeline.arrRef spec0 0) (ix2 n q)) (fun q k => VI c (Pipeline.arrRef spec0 1) (ix2 q k))
          (fun k => VI c (Pipeline.arrRef spec0 2) (ix2 (0 : Fin 1) k)) (fun k j => VI c (Pipeline.arrRef spec0 3) (ix2 k j))
          (fun j => VI c (Pipeline.arrRef spec0 4) (ix2 (0 : Fin 1) j)) n j := by
  rw [final0_5 VI c hZ]
  exact G0z_apply _ _ _ _ _ n j

/-- The column sum of the z block of point `b` at column `j` (zero past the grid). -/
def blockS0 (VI : (c : Dev nD) → (b : Ref sig .tc) → Buf (Elt Ideal) ((c : Thread nD τ).loc b)) (c : Dev nD)
    (j : Fin 128) (b : ℕ) : EReal :=
  if hb : b < cfg0.N then ∑ r : Fin 5000, zblk0 (F := Ideal) VI c ⟨b, hb⟩ (ix2 r j) else 0

/-- The column sum of the squares of the z block of point `b` at column `j` (zero past the grid). -/
def blockQ0 (VI : (c : Dev nD) → (b : Ref sig .tc) → Buf (Elt Ideal) ((c : Thread nD τ).loc b)) (c : Dev nD)
    (j : Fin 128) (b : ℕ) : EReal :=
  if hb : b < cfg0.N then ∑ r : Fin 5000, zblk0 (F := Ideal) VI c ⟨b, hb⟩ (ix2 r j) * zblk0 (F := Ideal) VI c ⟨b, hb⟩ (ix2 r j) else 0

/-- The running column-sum row after point `n` is the running total of the blocks' column sums: it starts as
    zero plus the first block's and each later block's is added to it. -/
theorem rowS0_apply (VI : (c : Dev nD) → (b : Ref sig .tc) → Buf (Elt Ideal) ((c : Thread nD τ).loc b)) (c : Dev nD)
    (j : Fin 128) : ∀ (n : ℕ) (h : n < cfg0.N),
      rowS0 (F := Ideal) VI c n h (ix2 (0 : Fin 1) j) = Cert.LibLayerStats.accS (blockS0 VI c j) n
  | 0, h => by
    show stepS0 VI c ⟨0, h⟩ (k0_pay3 (F := Ideal)) (ix2 (0 : Fin 1) j) = 0 + blockS0 VI c j 0
    unfold stepS0 blockS0
    rw [Cert.KernelIdeal.PayValue.pay1_eq, Cert.KernelIdeal.PayValue.pay6_apply, Cert.KernelIdeal.PayValue.pay3_apply, dif_pos h]
    rfl
  | n + 1, h => by
    show stepS0 VI c ⟨n + 1, h⟩ (rowS0 VI c n (Nat.lt_of_succ_lt h)) (ix2 (0 : Fin 1) j)
      = Cert.LibLayerStats.accS (blockS0 VI c j) n + blockS0 VI c j (n + 1)
    unfold stepS0
    rw [Cert.KernelIdeal.PayValue.pay1_eq, Cert.KernelIdeal.PayValue.pay6_apply, rowS0_apply VI c j n (Nat.lt_of_succ_lt h)]
    unfold blockS0
    rw [dif_pos h]
    rfl

/-- The same for the running row of column sums of squares. -/
theorem rowQ0_apply (VI : (c : Dev nD) → (b : Ref sig .tc) → Buf (Elt Ideal) ((c : Thread nD τ).loc b)) (c : Dev nD)
    (j : Fin 128) : ∀ (n : ℕ) (h : n < cfg0.N),
      rowQ0 (F := Ideal) VI c n h (ix2 (0 : Fin 1) j) = Cert.LibLayerStats.accS (blockQ0 VI c j) n
  | 0, h => by
    show stepQ0 VI c ⟨0, h⟩ (k0_pay4 (F := Ideal)) (ix2 (0 : Fin 1) j) = 0 + blockQ0 VI c j 0
    unfold stepQ0 blockQ0
    rw [Cert.KernelIdeal.PayValue.pay2_apply, Cert.KernelIdeal.PayValue.pay4_apply, dif_pos h]
  | n + 1, h => by
    show stepQ0 VI c ⟨n + 1, h⟩ (rowQ0 VI c n (Nat.lt_of_succ_lt h)) (ix2 (0 : Fin 1) j)
      = Cert.LibLayerStats.accS (blockQ0 VI c j) n + blockQ0 VI c j (n + 1)
    unfold stepQ0
    rw [Cert.KernelIdeal.PayValue.pay2_apply, rowQ0_apply VI c j n (Nat.lt_of_succ_lt h)]
    unfold blockQ0
    rw [dif_pos h]

/-- After the region, at the exact instance, the column-sum output at column `j` is zero plus the sum over the 20
    blocks of the sums over the block's 5000 rows of the specification's perceptron of the five input arrays. -/
theorem final0_6_apply (VI : (c : Dev nD) → (b : Ref sig .tc) → Buf (Elt Ideal) ((c : Thread nD τ).loc b)) (c : Dev nD)
    (hS : ∀ t : Fin cfg0.N, t.val % 20 = 19 → (dat0 (F := Ideal) VI c).after 6 t = rowS0 VI c t.val t.isLt)
    (j : Fin 128) :
    (dat0 (F := Ideal) VI c).arrAt 6 cfg0.N (ix2 (0 : Fin 1) j)
      = 0 + ∑ b : Fin 20, ∑ r : Fin 5000,
          Cert.Spec.mlp (fun n q => VI c (Pipeline.arrRef spec0 0) (ix2 n q)) (fun q k => VI c (Pipeline.arrRef spec0 1) (ix2 q k))
            (fun k => VI c (Pipeline.arrRef spec0 2) (ix2 (0 : Fin 1) k)) (fun k j => VI c (Pipeline.arrRef spec0 3) (ix2 k j))
            (fun j => VI c (Pipeline.arrRef spec0 4) (ix2 (0 : Fin 1) j)) (blkRow0 b r) j := by
  rw [final0_6 VI c hS, rowS0_apply VI c j 19 lt19_0]
  rw [show (19 : ℕ) = 20 - 1 from rfl, Cert.LibLayerStats.accS_last (by norm_num : 0 < 20)]
  refine congrArg (0 + ·) (Finset.sum_congr rfl fun b _ => ?_)
  have hb : b.val < cfg0.N := lt_of_lt_of_eq b.isLt N_0.symm
  unfold blockS0
  rw [dif_pos hb]
  exact Finset.sum_congr rfl fun r _ => zblk0_apply VI c b hb r j

/-- The same for the output of column sums of squares. -/
theorem final0_7_apply (VI : (c : Dev nD) → (b : Ref sig .tc) → Buf (Elt Ideal) ((c : Thread nD τ).loc b)) (c : Dev nD)
    (hQ : ∀ t : Fin cfg0.N, t.val % 20 = 19 → (dat0 (F := Ideal) VI c).after 7 t = rowQ0 VI c t.val t.isLt)
    (j : Fin 128) :
    (dat0 (F := Ideal) VI c).arrAt 7 cfg0.N (ix2 (0 : Fin 1) j)
      = 0 + ∑ b : Fin 20, ∑ r : Fin 5000,
          Cert.Spec.mlp (fun n q => VI c (Pipeline.arrRef spec0 0) (ix2 n q)) (fun q k => VI c (Pipeline.arrRef spec0 1) (ix2 q k))
            (fun k => VI c (Pipeline.arrRef spec0 2) (ix2 (0 : Fin 1) k)) (fun k j => VI c (Pipeline.arrRef spec0 3) (ix2 k j))
            (fun j => VI c (Pipeline.arrRef spec0 4) (ix2 (0 : Fin 1) j)) (blkRow0 b r) j
          * Cert.Spec.mlp (fun n q => VI c (Pipeline.arrRef spec0 0) (ix2 n q)) (fun q k => VI c (Pipeline.arrRef spec0 1) (ix2 q k))
            (fun k => VI c (Pipeline.arrRef spec0 2) (ix2 (0 : Fin 1) k)) (fun k j => VI c (Pipeline.arrRef spec0 3) (ix2 k j))
            (fun j => VI c (Pipeline.arrRef spec0 4) (ix2 (0 : Fin 1) j)) (blkRow0 b r) j := by
  rw [final0_7 VI c hQ, rowQ0_apply VI c j 19 lt19_0]
  rw [show (19 : ℕ) = 20 - 1 from rfl, Cert.LibLayerStats.accS_last (by norm_num : 0 < 20)]
  refine congrArg (0 + ·) (Finset.sum_congr rfl fun b _ => ?_)
  have hb : b.val < cfg0.N := lt_of_lt_of_eq b.isLt N_0.symm
  unfold blockQ0
  rw [dif_pos hb]
  exact Finset.sum_congr rfl fun r _ => by rw [zblk0_apply VI c b hb r j]

end Cert.KernelIdeal.Hand

end
-- ==== Proof.KiMlp2Value.lean ====
/-
  Region 2's found pieces read back as values. At every point the z output's block is the perceptron's payload of the point's
  input blocks; a running-sum row after the point is the row before it plus the block's column sum (the first point starts
  from the zero row); at the last point the two [1,128] outputs receive the rows.
-/
import proofs.«160011_j2121713844488_1_alg».proof.Proof.KiMlp2
import Idealize.ShloMosaic.Lib.Pipeline.Value

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

theorem hz2r2 : (![0, 0] : Fin 2 → Nat) = fun _ => 0 := funext fun a => by fin_cases a <;> rfl

/-- Case A: the z block is the perceptron's payload of the five input blocks. -/
theorem out5_A_2 (c : Dev nD) (i : grid2.Coords) (a1 : Memref sig .tc .vmem S5000x128 .f32) (h1 : a1.IsWhole) (a2 : Memref sig .tc .vmem S128x128 .f32) (h2 : a2.IsWhole) (a3 : Memref sig .tc .vmem S1x128 .f32) (h3 : a3.IsWhole) (a4 : Memref sig .tc .vmem S128x128 .f32) (h4 : a4.IsWhole) (a5 : Memref sig .tc .vmem S1x128 .f32) (h5 : a5.IsWhole) (a6 : Memref sig .tc .vmem S5000x128 .f32) (h6 : a6.IsWhole) (a7 : Memref sig .tc .vmem S1x128 .f32) (h7 : a7.IsWhole) (a8 : Memref sig .tc .vmem S1x128 .f32) (h8 : a8.IsWhole) (a9 : Memref sig .tc .vmem S1x128 .f32) (h9 : a9.IsWhole) (a10 : Memref sig .tc .vmem S1x128 .f32) (h10 : a10.IsWhole) (hc0 : cond2_0 i) (hc1 : ¬cond2_1 i)
    (x0 : Vec F S5000x128 .f32) (x1 : Vec F S128x128 .f32) (x2 : Vec F S1x128 .f32) (x3 : Vec F S128x128 .f32) (x4 : Vec F S1x128 .f32) :
    out2_A_5 c i a1 h1 a2 h2 a3 h3 a4 h4 a5 h5 a6 h6 a7 h7 a8 h8 a9 h9 a10 h10 hc0 hc1 x0 x1 x2 x3 x4 = k2_pay5 x0 x1 x3 x2 x4 := by
  unfold out2_A_5
  rw [View.read_writes_eq_canon _ _ _ (cover2_A_5 c i a1 h1 a2 h2 a3 h3 a4 h4 a5 h5 a6 h6 a7 h7 a8 h8 a9 h9 a10 h10 hc0 hc1 x0 x1 x2 x3 x4)]
  unfold kernelRun2_A
  dsimp only
  sl_unfold_words
  rw [View.canon_unit_zero hz2r2]
  simp only [View.readAt_eq_ld, h1.read_unread, h2.read_unread, h3.read_unread, h4.read_unread, h5.read_unread, h9.read_unread, h10.read_unread, View.ld_unit_zero (S := S5000x128) hz2r2, View.ld_unit_zero (S := S128x128) hz2r2, View.ld_unit_zero (S := S1x128) hz2r2, View.readCov_unit_zero (S := S1x128) _ hz2r2]

/-- Case A: the running column sum of z after the point. -/
theorem row0_A_2 (c : Dev nD) (i : grid2.Coords) (a1 : Memref sig .tc .vmem S5000x128 .f32) (h1 : a1.IsWhole) (a2 : Memref sig .tc .vmem S128x128 .f32) (h2 : a2.IsWhole) (a3 : Memref sig .tc .vmem S1x128 .f32) (h3 : a3.IsWhole) (a4 : Memref sig .tc .vmem S128x128 .f32) (h4 : a4.IsWhole) (a5 : Memref sig .tc .vmem S1x128 .f32) (h5 : a5.IsWhole) (a6 : Memref sig .tc .vmem S5000x128 .f32) (h6 : a6.IsWhole) (a7 : Memref sig .tc .vmem S1x128 .f32) (h7 : a7.IsWhole) (a8 : Memref sig .tc .vmem S1x128 .f32) (h8 : a8.IsWhole) (a9 : Memref sig .tc .vmem S1x128 .f32) (h9 : a9.IsWhole) (a10 : Memref sig .tc .vmem S1x128 .f32) (h10 : a10.IsWhole) (hc0 : cond2_0 i) (hc1 : ¬cond2_1 i)
    (x0 : Vec F S5000x128 .f32) (x1 : Vec F S128x128 .f32) (x2 : Vec F S1x128 .f32) (x3 : Vec F S128x128 .f32) (x4 : Vec F S1x128 .f32) :
    sout2_A_0 c i a1 h1 a2 h2 a3 h3 a4 h4 a5 h5 a6 h6 a7 h7 a8 h8 a9 h9 a10 h10 hc0 hc1 x0 x1 x2 x3 x4 = k2_pay1 (k2_pay6 x0 x1 x3 x2 x4 (k2_pay3 (F := F))) := by
  unfold sout2_A_0
  rw [View.read_writes_eq_canon _ _ _ (scover2_A_0 c i a1 h1 a2 h2 a3 h3 a4 h4 a5 h5 a6 h6 a7 h7 a8 h8 a9 h9 a10 h10 hc0 hc1 x0 x1 x2 x3 x4)]
  unfold kernelRun2_A
  dsimp only
  sl_unfold_words
  rw [View.canon_cons_unit_zero (S := S1x128) hz2r2]
  simp only [View.readAt_eq_ld, h1.read_unread, h2.read_unread, h3.read_unread, h4.read_unread, h5.read_unread, h9.read_unread, h10.read_unread, View.ld_unit_zero (S := S5000x128) hz2r2, View.ld_unit_zero (S := S128x128) hz2r2, View.ld_unit_zero (S := S1x128) hz2r2, View.readCov_unit_zero (S := S1x128) _ hz2r2]

/-- Case A: the running column sum of z² after the point. -/
theorem row1_A_2 (c : Dev nD) (i : grid2.Coords) (a1 : Memref sig .tc .vmem S5000x128 .f32) (h1 : a1.IsWhole) (a2 : Memref sig .tc .vmem S128x128 .f32) (h2 : a2.IsWhole) (a3 : Memref sig .tc .vmem S1x128 .f32) (h3 : a3.IsWhole) (a4 : Memref sig .tc .vmem S128x128 .f32) (h4 : a4.IsWhole) (a5 : Memref sig .tc .vmem S1x128 .f32) (h5 : a5.IsWhole) (a6 : Memref sig .tc .vmem S5000x128 .f32) (h6 : a6.IsWhole) (a7 : Memref sig .tc .vmem S1x128 .f32) (h7 : a7.IsWhole) (a8 : Memref sig .tc .vmem S1x128 .f32) (h8 : a8.IsWhole) (a9 : Memref sig .tc .vmem S1x128 .f32) (h9 : a9.IsWhole) (a10 : Memref sig .tc .vmem S1x128 .f32) (h10 : a10.IsWhole) (hc0 : cond2_0 i) (hc1 : ¬cond2_1 i)
    (x0 : Vec F S5000x128 .f32) (x1 : Vec F S128x128 .f32) (x2 : Vec F S1x128 .f32) (x3 : Vec F S128x128 .f32) (x4 : Vec F S1x128 .f32) :
    sout2_A_1 c i a1 h1 a2 h2 a3 h3 a4 h4 a5 h5 a6 h6 a7 h7 a8 h8 a9 h9 a10 h10 hc0 hc1 x0 x1 x2 x3 x4 = k2_pay2 (k2_pay5 x0 x1 x3 x2 x4) (k2_pay4 (F := F)) := by
  unfold sout2_A_1
  rw [View.read_writes_eq_canon _ _ _ (scover2_A_1 c i a1 h1 a2 h2 a3 h3 a4 h4 a5 h5 a6 h6 a7 h7 a8 h8 a9 h9 a10 h10 hc0 hc1 x0 x1 x2 x3 x4)]
  unfold kernelRun2_A
  dsimp only
  sl_unfold_words
  rw [View.canon_cons_unit_zero (S := S1x128) hz2r2]
  simp only [View.readAt_eq_ld, h1.read_unread, h2.read_unread, h3.read_unread, h4.read_unread, h5.read_unread, h9.read_unread, h10.read_unread, View.ld_unit_zero (S := S5000x128) hz2r2, View.ld_unit_zero (S := S128x128) hz2r2, View.ld_unit_zero (S := S1x128) hz2r2, View.readCov_unit_zero (S := S1x128) _ hz2r2]

/-- Case B: the z block is the perceptron's payload of the five input blocks. -/
theorem out5_B_2 (c : Dev nD) (i : grid2.Coords) (a1 : Memref sig .tc .vmem S5000x128 .f32) (h1 : a1.IsWhole) (a2 : Memref sig .tc .vmem S128x128 .f32) (h2 : a2.IsWhole) (a3 : Memref sig .tc .vmem S1x128 .f32) (h3 : a3.IsWhole) (a4 : Memref sig .tc .vmem S128x128 .f32) (h4 : a4.IsWhole) (a5 : Memref sig .tc .vmem S1x128 .f32) (h5 : a5.IsWhole) (a6 : Memref sig .tc .vmem S5000x128 .f32) (h6 : a6.IsWhole) (a7 : Memref sig .tc .vmem S1x128 .f32) (h7 : a7.IsWhole) (a8 : Memref sig .tc .vmem S1x128 .f32) (h8 : a8.IsWhole) (a9 : Memref sig .tc .vmem S1x128 .f32) (h9 : a9.IsWhole) (a10 : Memref sig .tc .vmem S1x128 .f32) (h10 : a10.IsWhole) (hc0 : ¬cond2_0 i) (hc1 : ¬cond2_1 i)
    (x0 : Vec F S5000x128 .f32) (x1 : Vec F S128x128 .f32) (x2 : Vec F S1x128 .f32) (x3 : Vec F S128x128 .f32) (x4 : Vec F S1x128 .f32) (xs0 xs1 : Vec F S1x128 .f32) :
    out2_B_5 c i a1 h1 a2 h2 a3 h3 a4 h4 a5 h5 a6 h6 a7 h7 a8 h8 a9 h9 a10 h10 hc0 hc1 x0 x1 x2 x3 x4 xs0 xs1 = k2_pay5 x0 x1 x3 x2 x4 := by
  unfold out2_B_5
  rw [View.read_writes_eq_canon _ _ _ (cover2_B_5 c i a1 h1 a2 h2 a3 h3 a4 h4 a5 h5 a6 h6 a7 h7 a8 h8 a9 h9 a10 h10 hc0 hc1 x0 x1 x2 x3 x4 xs0 xs1)]
  unfold kernelRun2_B
  dsimp only
  sl_unfold_words
  rw [View.canon_unit_zero hz2r2]
  simp only [View.readAt_eq_ld, h1.read_unread, h2.read_unread, h3.read_unread, h4.read_unread, h5.read_unread, h9.read_unread, h10.read_unread, View.ld_unit_zero (S := S5000x128) hz2r2, View.ld_unit_zero (S := S128x128) hz2r2, View.ld_unit_zero (S := S1x128) hz2r2, View.readCov_unit_zero (S := S1x128) _ hz2r2]

/-- Case B: the running column sum of z after the point. -/
theorem row0_B_2 (c : Dev nD) (i : grid2.Coords) (a1 : Memref sig .tc .vmem S5000x128 .f32) (h1 : a1.IsWhole) (a2 : Memref sig .tc .vmem S128x128 .f32) (h2 : a2.IsWhole) (a3 : Memref sig .tc .vmem S1x128 .f32) (h3 : a3.IsWhole) (a4 : Memref sig .tc .vmem S128x128 .f32) (h4 : a4.IsWhole) (a5 : Memref sig .tc .vmem S1x128 .f32) (h5 : a5.IsWhole) (a6 : Memref sig .tc .vmem S5000x128 .f32) (h6 : a6.IsWhole) (a7 : Memref sig .tc .vmem S1x128 .f32) (h7 : a7.IsWhole) (a8 : Memref sig .tc .vmem S1x128 .f32) (h8 : a8.IsWhole) (a9 : Memref sig .tc .vmem S1x128 .f32) (h9 : a9.IsWhole) (a10 : Memref sig .tc .vmem S1x128 .f32) (h10 : a10.IsWhole) (hc0 : ¬cond2_0 i) (hc1 : ¬cond2_1 i)
    (x0 : Vec F S5000x128 .f32) (x1 : Vec F S128x128 .f32) (x2 : Vec F S1x128 .f32) (x3 : Vec F S128x128 .f32) (x4 : Vec F S1x128 .f32) (xs0 xs1 : Vec F S1x128 .f32) :
    sout2_B_0 c i a1 h1 a2 h2 a3 h3 a4 h4 a5 h5 a6 h6 a7 h7 a8 h8 a9 h9 a10 h10 hc0 hc1 x0 x1 x2 x3 x4 xs0 xs1 = k2_pay1 (k2_pay6 x0 x1 x3 x2 x4 xs0) := by
  unfold sout2_B_0
  rw [View.read_writes_eq_canon _ _ _ (scover2_B_0 c i a1 h1 a2 h2 a3 h3 a4 h4 a5 h5 a6 h6 a7 h7 a8 h8 a9 h9 a10 h10 hc0 hc1 x0 x1 x2 x3 x4 xs0 xs1)]
  unfold kernelRun2_B
  dsimp only
  sl_unfold_words
  rw [View.canon_unit_zero hz2r2]
  simp only [View.readAt_eq_ld, h1.read_unread, h2.read_unread, h3.read_unread, h4.read_unread, h5.read_unread, h9.read_unread, h10.read_unread, View.ld_unit_zero (S := S5000x128) hz2r2, View.ld_unit_zero (S := S128x128) hz2r2, View.ld_unit_zero (S := S1x128) hz2r2, View.readCov_unit_zero (S := S1x128) _ hz2r2]

/-- Case B: the running column sum of z² after the point. -/
theorem row1_B_2 (c : Dev nD) (i : grid2.Coords) (a1 : Memref sig .tc .vmem S5000x128 .f32) (h1 : a1.IsWhole) (a2 : Memref sig .tc .vmem S128x128 .f32) (h2 : a2.IsWhole) (a3 : Memref sig .tc .vmem S1x128 .f32) (h3 : a3.IsWhole) (a4 : Memref sig .tc .vmem S128x128 .f32) (h4 : a4.IsWhole) (a5 : Memref sig .tc .vmem S1x128 .f32) (h5 : a5.IsWhole) (a6 : Memref sig .tc .vmem S5000x128 .f32) (h6 : a6.IsWhole) (a7 : Memref sig .tc .vmem S1x128 .f32) (h7 : a7.IsWhole) (a8 : Memref sig .tc .vmem S1x128 .f32) (h8 : a8.IsWhole) (a9 : Memref sig .tc .vmem S1x128 .f32) (h9 : a9.IsWhole) (a10 : Memref sig .tc .vmem S1x128 .f32) (h10 : a10.IsWhole) (hc0 : ¬cond2_0 i) (hc1 : ¬cond2_1 i)
    (x0 : Vec F S5000x128 .f32) (x1 : Vec F S128x128 .f32) (x2 : Vec F S1x128 .f32) (x3 : Vec F S128x128 .f32) (x4 : Vec F S1x128 .f32) (xs0 xs1 : Vec F S1x128 .f32) :
    sout2_B_1 c i a1 h1 a2 h2 a3 h3 a4 h4 a5 h5 a6 h6 a7 h7 a8 h8 a9 h9 a10 h10 hc0 hc1 x0 x1 x2 x3 x4 xs0 xs1 = k2_pay2 (k2_pay5 x0 x1 x3 x2 x4) xs1 := by
  unfold sout2_B_1
  rw [View.read_writes_eq_canon _ _ _ (scover2_B_1 c i a1 h1 a2 h2 a3 h3 a4 h4 a5 h5 a6 h6 a7 h7 a8 h8 a9 h9 a10 h10 hc0 hc1 x0 x1 x2 x3 x4 xs0 xs1)]
  unfold kernelRun2_B
  dsimp only
  sl_unfold_words
  rw [View.canon_unit_zero hz2r2]
  simp only [View.readAt_eq_ld, h1.read_unread, h2.read_unread, h3.read_unread, h4.read_unread, h5.read_unread, h9.read_unread, h10.read_unread, View.ld_unit_zero (S := S5000x128) hz2r2, View.ld_unit_zero (S := S128x128) hz2r2, View.ld_unit_zero (S := S1x128) hz2r2, View.readCov_unit_zero (S := S1x128) _ hz2r2]

/-- Case C: the z block is the perceptron's payload of the five input blocks. -/
theorem out5_C_2 (c : Dev nD) (i : grid2.Coords) (a1 : Memref sig .tc .vmem S5000x128 .f32) (h1 : a1.IsWhole) (a2 : Memref sig .tc .vmem S128x128 .f32) (h2 : a2.IsWhole) (a3 : Memref sig .tc .vmem S1x128 .f32) (h3 : a3.IsWhole) (a4 : Memref sig .tc .vmem S128x128 .f32) (h4 : a4.IsWhole) (a5 : Memref sig .tc .vmem S1x128 .f32) (h5 : a5.IsWhole) (a6 : Memref sig .tc .vmem S5000x128 .f32) (h6 : a6.IsWhole) (a7 : Memref sig .tc .vmem S1x128 .f32) (h7 : a7.IsWhole) (a8 : Memref sig .tc .vmem S1x128 .f32) (h8 : a8.IsWhole) (a9 : Memref sig .tc .vmem S1x128 .f32) (h9 : a9.IsWhole) (a10 : Memref sig .tc .vmem S1x128 .f32) (h10 : a10.IsWhole) (hc0 : ¬cond2_0 i) (hc1 : cond2_1 i)
    (x0 : Vec F S5000x128 .f32) (x1 : Vec F S128x128 .f32) (x2 : Vec F S1x128 .f32) (x3 : Vec F S128x128 .f32) (x4 : Vec F S1x128 .f32) (xs0 xs1 : Vec F S1x128 .f32) :
    out2_C_5 c i a1 h1 a2 h2 a3 h3 a4 h4 a5 h5 a6 h6 a7 h7 a8 h8 a9 h9 a10 h10 hc0 hc1 x0 x1 x2 x3 x4 xs0 xs1 = k2_pay5 x0 x1 x3 x2 x4 := by
  unfold out2_C_5
  rw [View.read_writes_eq_canon _ _ _ (cover2_C_5 c i a1 h1 a2 h2 a3 h3 a4 h4 a5 h5 a6 h6 a7 h7 a8 h8 a9 h9 a10 h10 hc0 hc1 x0 x1 x2 x3 x4 xs0 xs1)]
  unfold kernelRun2_C
  dsimp only
  sl_unfold_words
  rw [View.canon_unit_zero hz2r2]
  simp only [View.readAt_eq_ld, h1.read_unread, h2.read_unread, h3.read_unread, h4.read_unread, h5.read_unread, h9.read_unread, h10.read_unread, View.ld_unit_zero (S := S5000x128) hz2r2, View.ld_unit_zero (S := S128x128) hz2r2, View.ld_unit_zero (S := S1x128) hz2r2, View.readCov_unit_zero (S := S1x128) _ hz2r2]

/-- Case C: the running column sum of z after the point. -/
theorem row0_C_2 (c : Dev nD) (i : grid2.Coords) (a1 : Memref sig .tc .vmem S5000x128 .f32) (h1 : a1.IsWhole) (a2 : Memref sig .tc .vmem S128x128 .f32) (h2 : a2.IsWhole) (a3 : Memref sig .tc .vmem S1x128 .f32) (h3 : a3.IsWhole) (a4 : Memref sig .tc .vmem S128x128 .f32) (h4 : a4.IsWhole) (a5 : Memref sig .tc .vmem S1x128 .f32) (h5 : a5.IsWhole) (a6 : Memref sig .tc .vmem S5000x128 .f32) (h6 : a6.IsWhole) (a7 : Memref sig .tc .vmem S1x128 .f32) (h7 : a7.IsWhole) (a8 : Memref sig .tc .vmem S1x128 .f32) (h8 : a8.IsWhole) (a9 : Memref sig .tc .vmem S1x128 .f32) (h9 : a9.IsWhole) (a10 : Memref sig .tc .vmem S1x128 .f32) (h10 : a10.IsWhole) (hc0 : ¬cond2_0 i) (hc1 : cond2_1 i)
    (x0 : Vec F S5000x128 .f32) (x1 : Vec F S128x128 .f32) (x2 : Vec F S1x128 .f32) (x3 : Vec F S128x128 .f32) (x4 : Vec F S1x128 .f32) (xs0 xs1 : Vec F S1x128 .f32) :
    sout2_C_0 c i a1 h1 a2 h2 a3 h3 a4 h4 a5 h5 a6 h6 a7 h7 a8 h8 a9 h9 a10 h10 hc0 hc1 x0 x1 x2 x3 x4 xs0 xs1 = k2_pay1 (k2_pay6 x0 x1 x3 x2 x4 xs0) := by
  unfold sout2_C_0
  rw [View.read_writes_eq_canon _ _ _ (scover2_C_0 c i a1 h1 a2 h2 a3 h3 a4 h4 a5 h5 a6 h6 a7 h7 a8 h8 a9 h9 a10 h10 hc0 hc1 x0 x1 x2 x3 x4 xs0 xs1)]
  unfold kernelRun2_C
  dsimp only
  sl_unfold_words
  rw [View.canon_unit_zero hz2r2]
  simp only [View.readAt_eq_ld, h1.read_unread, h2.read_unread, h3.read_unread, h4.read_unread, h5.read_unread, h9.read_unread, h10.read_unread, View.ld_unit_zero (S := S5000x128) hz2r2, View.ld_unit_zero (S := S128x128) hz2r2, View.ld_unit_zero (S := S1x128) hz2r2, View.readCov_unit_zero (S := S1x128) _ hz2r2]

/-- Case C: the running column sum of z² after the point. -/
theorem row1_C_2 (c : Dev nD) (i : grid2.Coords) (a1 : Memref sig .tc .vmem S5000x128 .f32) (h1 : a1.IsWhole) (a2 : Memref sig .tc .vmem S128x128 .f32) (h2 : a2.IsWhole) (a3 : Memref sig .tc .vmem S1x128 .f32) (h3 : a3.IsWhole) (a4 : Memref sig .tc .vmem S128x128 .f32) (h4 : a4.IsWhole) (a5 : Memref sig .tc .vmem S1x128 .f32) (h5 : a5.IsWhole) (a6 : Memref sig .tc .vmem S5000x128 .f32) (h6 : a6.IsWhole) (a7 : Memref sig .tc .vmem S1x128 .f32) (h7 : a7.IsWhole) (a8 : Memref sig .tc .vmem S1x128 .f32) (h8 : a8.IsWhole) (a9 : Memref sig .tc .vmem S1x128 .f32) (h9 : a9.IsWhole) (a10 : Memref sig .tc .vmem S1x128 .f32) (h10 : a10.IsWhole) (hc0 : ¬cond2_0 i) (hc1 : cond2_1 i)
    (x0 : Vec F S5000x128 .f32) (x1 : Vec F S128x128 .f32) (x2 : Vec F S1x128 .f32) (x3 : Vec F S128x128 .f32) (x4 : Vec F S1x128 .f32) (xs0 xs1 : Vec F S1x128 .f32) :
    sout2_C_1 c i a1 h1 a2 h2 a3 h3 a4 h4 a5 h5 a6 h6 a7 h7 a8 h8 a9 h9 a10 h10 hc0 hc1 x0 x1 x2 x3 x4 xs0 xs1 = k2_pay2 (k2_pay5 x0 x1 x3 x2 x4) xs1 := by
  unfold sout2_C_1
  rw [View.read_writes_eq_canon _ _ _ (scover2_C_1 c i a1 h1 a2 h2 a3 h3 a4 h4 a5 h5 a6 h6 a7 h7 a8 h8 a9 h9 a10 h10 hc0 hc1 x0 x1 x2 x3 x4 xs0 xs1)]
  unfold kernelRun2_C
  dsimp only
  sl_unfold_words
  rw [View.canon_unit_zero hz2r2]
  simp only [View.readAt_eq_ld, h1.read_unread, h2.read_unread, h3.read_unread, h4.read_unread, h5.read_unread, h9.read_unread, h10.read_unread, View.ld_unit_zero (S := S5000x128) hz2r2, View.ld_unit_zero (S := S128x128) hz2r2, View.ld_unit_zero (S := S1x128) hz2r2, View.readCov_unit_zero (S := S1x128) _ hz2r2]

/-- The last point copies the first row out. -/
theorem out6_C_2 (c : Dev nD) (i : grid2.Coords) (a1 : Memref sig .tc .vmem S5000x128 .f32) (h1 : a1.IsWhole) (a2 : Memref sig .tc .vmem S128x128 .f32) (h2 : a2.IsWhole) (a3 : Memref sig .tc .vmem S1x128 .f32) (h3 : a3.IsWhole) (a4 : Memref sig .tc .vmem S128x128 .f32) (h4 : a4.IsWhole) (a5 : Memref sig .tc .vmem S1x128 .f32) (h5 : a5.IsWhole) (a6 : Memref sig .tc .vmem S5000x128 .f32) (h6 : a6.IsWhole) (a7 : Memref sig .tc .vmem S1x128 .f32) (h7 : a7.IsWhole) (a8 : Memref sig .tc .vmem S1x128 .f32) (h8 : a8.IsWhole) (a9 : Memref sig .tc .vmem S1x128 .f32) (h9 : a9.IsWhole) (a10 : Memref sig .tc .vmem S1x128 .f32) (h10 : a10.IsWhole) (hc0 : ¬cond2_0 i) (hc1 : cond2_1 i)
    (x0 : Vec F S5000x128 .f32) (x1 : Vec F S128x128 .f32) (x2 : Vec F S1x128 .f32) (x3 : Vec F S128x128 .f32) (x4 : Vec F S1x128 .f32) (xs0 xs1 : Vec F S1x128 .f32) :
    out2_C_6 c i a1 h1 a2 h2 a3 h3 a4 h4 a5 h5 a6 h6 a7 h7 a8 h8 a9 h9 a10 h10 hc0 hc1 x0 x1 x2 x3 x4 xs0 xs1 = k2_pay1 (k2_pay6 x0 x1 x3 x2 x4 xs0) := by
  unfold out2_C_6
  rw [View.read_writes_eq_canon _ _ _ (cover2_C_6 c i a1 h1 a2 h2 a3 h3 a4 h4 a5 h5 a6 h6 a7 h7 a8 h8 a9 h9 a10 h10 hc0 hc1 x0 x1 x2 x3 x4 xs0 xs1)]
  unfold kernelRun2_C
  dsimp only
  sl_unfold_words
  rw [View.canon_unit_zero hz2r2]
  simp only [View.readAt_eq_ld, h1.read_unread, h2.read_unread, h3.read_unread, h4.read_unread, h5.read_unread, h9.read_unread, h10.read_unread, View.ld_unit_zero (S := S5000x128) hz2r2, View.ld_unit_zero (S := S128x128) hz2r2, View.ld_unit_zero (S := S1x128) hz2r2, View.readCov_unit_zero (S := S1x128) _ hz2r2]

/-- The last point copies the second row out. -/
theorem out7_C_2 (c : Dev nD) (i : grid2.Coords) (a1 : Memref sig .tc .vmem S5000x128 .f32) (h1 : a1.IsWhole) (a2 : Memref sig .tc .vmem S128x128 .f32) (h2 : a2.IsWhole) (a3 : Memref sig .tc .vmem S1x128 .f32) (h3 : a3.IsWhole) (a4 : Memref sig .tc .vmem S128x128 .f32) (h4 : a4.IsWhole) (a5 : Memref sig .tc .vmem S1x128 .f32) (h5 : a5.IsWhole) (a6 : Memref sig .tc .vmem S5000x128 .f32) (h6 : a6.IsWhole) (a7 : Memref sig .tc .vmem S1x128 .f32) (h7 : a7.IsWhole) (a8 : Memref sig .tc .vmem S1x128 .f32) (h8 : a8.IsWhole) (a9 : Memref sig .tc .vmem S1x128 .f32) (h9 : a9.IsWhole) (a10 : Memref sig .tc .vmem S1x128 .f32) (h10 : a10.IsWhole) (hc0 : ¬cond2_0 i) (hc1 : cond2_1 i)
    (x0 : Vec F S5000x128 .f32) (x1 : Vec F S128x128 .f32) (x2 : Vec F S1x128 .f32) (x3 : Vec F S128x128 .f32) (x4 : Vec F S1x128 .f32) (xs0 xs1 : Vec F S1x128 .f32) :
    out2_C_7 c i a1 h1 a2 h2 a3 h3 a4 h4 a5 h5 a6 h6 a7 h7 a8 h8 a9 h9 a10 h10 hc0 hc1 x0 x1 x2 x3 x4 xs0 xs1 = k2_pay2 (k2_pay5 x0 x1 x3 x2 x4) xs1 := by
  unfold out2_C_7
  rw [View.read_writes_eq_canon _ _ _ (cover2_C_7 c i a1 h1 a2 h2 a3 h3 a4 h4 a5 h5 a6 h6 a7 h7 a8 h8 a9 h9 a10 h10 hc0 hc1 x0 x1 x2 x3 x4 xs0 xs1)]
  unfold kernelRun2_C
  dsimp only
  sl_unfold_words
  rw [View.canon_unit_zero hz2r2]
  simp only [View.readAt_eq_ld, h1.read_unread, h2.read_unread, h3.read_unread, h4.read_unread, h5.read_unread, h9.read_unread, h10.read_unread, View.ld_unit_zero (S := S5000x128) hz2r2, View.ld_unit_zero (S := S128x128) hz2r2, View.ld_unit_zero (S := S1x128) hz2r2, View.readCov_unit_zero (S := S1x128) _ hz2r2]

section Acc2

variable (V : (c : Dev nD) → (b : Ref sig .tc) → Buf (Elt F) ((c : Thread nD τ).loc b))

/-- The z block point `t` stores: the perceptron's payload of the point's input blocks. -/
def zblk2 (c : Dev nD) (t : Fin cfg2.N) : Vec F S5000x128 .f32 := k2_pay5 (iblk2 V c 0 t) (iblk2 V c 1 t) (iblk2 V c 3 t) (iblk2 V c 2 t) (iblk2 V c 4 t)

/-- One step of the running column sum of z: the row before, plus the block's column sum. -/
def stepS2 (c : Dev nD) (t : Fin cfg2.N) (prev : Vec F S1x128 .f32) : Vec F S1x128 .f32 :=
  k2_pay1 (k2_pay6 (iblk2 V c 0 t) (iblk2 V c 1 t) (iblk2 V c 3 t) (iblk2 V c 2 t) (iblk2 V c 4 t) prev)
/-- One step of the running column sum of z². -/
def stepQ2 (c : Dev nD) (t : Fin cfg2.N) (prev : Vec F S1x128 .f32) : Vec F S1x128 .f32 :=
  k2_pay2 (zblk2 V c t) prev

/-- The running column sums after point `n`: from the zero rows at the first point, one step per point. -/
def rowS2 (c : Dev nD) : (n : ℕ) → n < cfg2.N → Vec F S1x128 .f32
  | 0, h => stepS2 V c ⟨0, h⟩ (k2_pay3 (F := F))
  | n + 1, h => stepS2 V c ⟨n + 1, h⟩ (rowS2 c n (Nat.lt_of_succ_lt h))
def rowQ2 (c : Dev nD) : (n : ℕ) → n < cfg2.N → Vec F S1x128 .f32
  | 0, h => stepQ2 V c ⟨0, h⟩ (k2_pay4 (F := F))
  | n + 1, h => stepQ2 V c ⟨n + 1, h⟩ (rowQ2 c n (Nat.lt_of_succ_lt h))

end Acc2

end Cert.KernelIdeal.Hand

end
-- ==== Proof.KiPay2.lean ====
/-
  Layer 2's perceptron body computes the same terms as layer 1's, so its stored values read entry by entry as
  layer 1's do: the z block as two dense layers each followed by the rectifier, and the two running-sum rows as the
  previous rows plus the column sums of the block and of its squares.
-/
import proofs.«160011_j2121713844488_1_alg».proof.Proof.KiPay0

noncomputable section

namespace Cert.KernelIdeal.PayValue

open Cert.KernelIdeal Cert.KernelIdeal.Gen Idealize.ShloMosaic Idealize.ShloMosaic.ValueIdx

section AnyInstance
variable {F : FTy → Type} [FloatOps F]

/-- This layer's bodies are, term by term, layer 1's. -/
theorem k2_pay1_eq_k0 : k2_pay1 (F := F) = k0_pay1 (F := F) := rfl
theorem k2_pay2_eq_k0 : k2_pay2 (F := F) = k0_pay2 (F := F) := rfl
theorem k2_pay3_eq_k0 : k2_pay3 (F := F) = k0_pay3 (F := F) := rfl
theorem k2_pay4_eq_k0 : k2_pay4 (F := F) = k0_pay4 (F := F) := rfl
theorem k2_pay5_eq_k0 : k2_pay5 (F := F) = k0_pay5 (F := F) := rfl
theorem k2_pay6_eq_k0 : k2_pay6 (F := F) = k0_pay6 (F := F) := rfl

end AnyInstance

/-- The stored z block: two dense layers, each followed by the rectifier. -/
theorem k2_pay5_apply (v3 : Vec Ideal S5000x128 .f32) (v5 : Vec Ideal S128x128 .f32) (v8 : Vec Ideal S128x128 .f32)
    (v13 : Vec Ideal S1x128 .f32) (v21 : Vec Ideal S1x128 .f32) (r : Fin 5000) (j : Fin 128) :
    k2_pay5 v3 v5 v8 v13 v21 (ix2 r j)
      = max ((∑ k : Fin 128, max ((∑ q : Fin 128, v3 (ix2 r q) * v5 (ix2 q k)) + v13 (ix2 (0 : Fin 1) k)) 0 * v8 (ix2 k j))
          + v21 (ix2 (0 : Fin 1) j)) 0 := by
  rw [k2_pay5_eq_k0]
  exact pay5_apply v3 v5 v8 v13 v21 r j

/-- The running column sums of z after this block. -/
theorem k2_pay6_apply (v3 : Vec Ideal S5000x128 .f32) (v5 : Vec Ideal S128x128 .f32) (v8 : Vec Ideal S128x128 .f32)
    (v13 : Vec Ideal S1x128 .f32) (v21 : Vec Ideal S1x128 .f32) (v28 : Vec Ideal S1x128 .f32) (j : Fin 128) :
    k2_pay6 v3 v5 v8 v13 v21 v28 (ix2 (0 : Fin 1) j)
      = v28 (ix2 (0 : Fin 1) j) + ∑ r : Fin 5000, k2_pay5 v3 v5 v8 v13 v21 (ix2 r j) := by
  rw [k2_pay6_eq_k0, k2_pay5_eq_k0]
  exact pay6_apply v3 v5 v8 v13 v21 v28 j

/-- The running column sums of z² after this block. -/
theorem k2_pay2_apply (v26 : FVec Ideal S5000x128 .f32) (v35 : Vec Ideal S1x128 .f32) (j : Fin 128) :
    k2_pay2 v26 v35 (ix2 (0 : Fin 1) j)
      = v35 (ix2 (0 : Fin 1) j) + ∑ r : Fin 5000, v26 (ix2 r j) * v26 (ix2 r j) := by
  rw [k2_pay2_eq_k0]
  exact pay2_apply v26 v35 j

/-- The row stored back unchanged. -/
theorem k2_pay1_eq (v31 : FVec Ideal S1x128 .f32) : k2_pay1 v31 = v31 := by
  rw [k2_pay1_eq_k0]
  exact pay1_eq v31

/-- The two running-sum rows start from zero. -/
theorem k2_pay3_apply (j : Fin 128) : k2_pay3 (F := Ideal) (ix2 (0 : Fin 1) j) = 0 := by
  rw [k2_pay3_eq_k0]
  exact pay3_apply j

theorem k2_pay4_apply (j : Fin 128) : k2_pay4 (F := Ideal) (ix2 (0 : Fin 1) j) = 0 := by
  rw [k2_pay4_eq_k0]
  exact pay4_apply j

end Cert.KernelIdeal.PayValue

end
-- ==== Proof.KiMlp2Final.lean ====
import proofs.«160011_j2121713844488_1_alg».proof.Proof.KiMlp2Value
import proofs.«160011_j2121713844488_1_alg».proof.Proof.KiPay2
import proofs.«160011_j2121713844488_1_alg».proof.Proof.Spec
import proofs.«160011_j2121713844488_1_alg».proof.Proof.LibLayerStats
import Idealize.ShloMosaic.Lib.Pipeline.Value
import Idealize.ShloMosaic.Lib.ValueIdx

/-! # The perceptron region 2: the three output arrays after all 20 points

At a point the body writes the whole 5000 × 128 block of the z output (the perceptron's payload of the block of
aggregated features and of the four whole weight and bias arrays) and adds the block's column sums to two running
1 × 128 rows, which it writes out at the last point only. The feature window and the z window move together down the
20 blocks of 5000 rows and the 20 z blocks tile the 100000 rows, so the z array ends as one function of the five input
arrays; the two row outputs are written once, through a block that is their whole array, so they end holding the
running rows after the last point. At the exact instance the z array is the specification's perceptron entry by
entry and the rows are zero plus the sums over the 20 blocks of the blocks' column sums of z and of z². -/

set_option maxRecDepth 16384

noncomputable section

namespace Cert.KernelIdeal.Hand

open Cert.KernelIdeal Cert.KernelIdeal.Gen
open Idealize.ShloMosaic Idealize.ShloMosaic.TcCoe Idealize.ShloMosaic.Tactic
open Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

-- the contents of the core's buffers when the region is entered
variable (V : (c : Dev nD) → (b : Ref sig .tc) → Buf (Elt F) ((c : Thread nD τ).loc b))

/-! ## The z array as one function of the five input arrays -/

/-- The rows `5000·q …` of a `100000 × 128` array, as a `5000 × 128` block. -/
def rows2 (x : S100000x128.Idx → Elt F .f32) (q : Nat) (hq : q < 20) : S5000x128.Idx → Elt F .f32 :=
  fun y => x (ix2 (⟨5000 * q + (y 0).val, by
      have h2 : (y 0).val < 5000 := idx2_lt0 y
      omega⟩ : Fin 100000) (⟨(y 1).val, idx2_lt1 y⟩ : Fin 128))

/-- The z array: its block of 5000 rows at block-row `b` is the perceptron's payload of rows
    `5000·b … 5000·b + 4999` of the feature array and of the two weight and two bias arrays; entry `(n, j)` is that
    block's entry `(n mod 5000, j)`. -/
def G2z (x : S100000x128.Idx → Elt F .f32) (w1 : S128x128.Idx → Elt F .f32) (b1 : S1x128.Idx → Elt F .f32)
    (w2 : S128x128.Idx → Elt F .f32) (b2 : S1x128.Idx → Elt F .f32) : S100000x128.Idx → Elt F .f32 :=
  fun i => k2_pay5 (rows2 x ((i 0).val / 5000) (by have h1 : (i 0).val < 100000 := idx2_lt0 i; omega)) w1 w2 b1 b2
    (ix2 (⟨(i 0).val % 5000, Nat.mod_lt _ (by norm_num)⟩ : Fin 5000) (⟨(i 1).val, idx2_lt1 i⟩ : Fin 128))

/-- One block of the z array: if `x0` is rows `5000·q …` of the feature array and the other four operands are
    the whole weight and bias arrays, the payload at block index `j` is the array's entry at `(5000·q + j₀, j₁)`. -/
theorem G2z_block (x : S100000x128.Idx → Elt F .f32) (w1 : S128x128.Idx → Elt F .f32) (b1 : S1x128.Idx → Elt F .f32)
    (w2 : S128x128.Idx → Elt F .f32) (b2 : S1x128.Idx → Elt F .f32)
    (x0 : Vec F S5000x128 .f32) (x1 : Vec F S128x128 .f32) (x2 : Vec F S1x128 .f32) (x3 : Vec F S128x128 .f32)
    (x4 : Vec F S1x128 .f32) (q : Nat) (hq : q < 20)
    (h0 : x0 = rows2 x q hq) (h1 : x1 = w1) (h2 : x2 = b1) (h3 : x3 = w2) (h4 : x4 = b2)
    (j : S5000x128.Idx) (i : S100000x128.Idx) (hi0 : (i 0).val = q * 5000 + (j 0).val) (hi1 : (i 1).val = (j 1).val) :
    k2_pay5 x0 x1 x3 x2 x4 j = G2z x w1 b1 w2 b2 i := by
  subst h0 h1 h2 h3 h4
  have hj0 : (j 0).val < 5000 := idx2_lt0 j
  have hq' : (i 0).val / 5000 = q := by omega
  have hm : (i 0).val % 5000 = (j 0).val := by omega
  have ej : j = ix2 (⟨(i 0).val % 5000, Nat.mod_lt _ (by norm_num)⟩ : Fin 5000) (⟨(i 1).val, idx2_lt1 i⟩ : Fin 128) := by
    funext a
    match a with
    | ⟨0, _⟩ => exact Fin.ext hm.symm
    | ⟨1, _⟩ => exact Fin.ext hi1.symm
  subst hq'
  exact congrArg (fun J => k2_pay5 (rows2 x ((i 0).val / 5000) hq) x1 x3 x2 x4 J) ej

/-- A block that reads an array at the same coordinates is the array. -/
theorem whole2m {n0 n1 : Nat} {α : Type} (arr x : (⟨2, ![n0, n1]⟩ : Shape).Idx → α)
    (hx : ∀ y, ∃ i, x y = arr i ∧ (i 0).val = (y 0).val ∧ (i 1).val = (y 1).val) : x = arr := by
  funext y
  obtain ⟨i, e, e0, e1⟩ := hx y
  rw [e]
  refine congrArg arr ?_
  funext a
  match a with
  | ⟨0, _⟩ => exact Fin.ext e0
  | ⟨1, _⟩ => exact Fin.ext e1

/-- A block that reads a `100000 × 128` array at rows shifted by `5000·q` is that block of rows. -/
theorem rows2_eq (z : S100000x128.Idx → Elt F .f32) (q : Nat) (hq : q < 20) (x : S5000x128.Idx → Elt F .f32)
    (hx : ∀ y, ∃ i, x y = z i ∧ (i 0).val = 5000 * q + (y 0).val ∧ (i 1).val = (y 1).val) : x = rows2 z q hq := by
  funext y
  obtain ⟨i, e, e0, e1⟩ := hx y
  rw [e]
  refine congrArg z ?_
  funext a
  match a with
  | ⟨0, _⟩ => exact Fin.ext e0
  | ⟨1, _⟩ => exact Fin.ext e1

/-! ## The printed index maps, decided over the grid -/

/-- At point `t` the feature window and the z window are at block-row `t`, column block `0`; the weight, bias
    and running-row windows are at block `(0, 0)`: their block is their whole array. -/
theorem idx_facts2m : ∀ t : Fin cfg2.N,
    win2_5.index t (0 : Fin 2) = t.val ∧ win2_5.index t (1 : Fin 2) = 0
    ∧ win2_0.index t (0 : Fin 2) = t.val ∧ win2_0.index t (1 : Fin 2) = 0
    ∧ win2_1.index t (0 : Fin 2) = 0 ∧ win2_1.index t (1 : Fin 2) = 0
    ∧ win2_2.index t (0 : Fin 2) = 0 ∧ win2_2.index t (1 : Fin 2) = 0
    ∧ win2_3.index t (0 : Fin 2) = 0 ∧ win2_3.index t (1 : Fin 2) = 0
    ∧ win2_4.index t (0 : Fin 2) = 0 ∧ win2_4.index t (1 : Fin 2) = 0
    ∧ win2_6.index t (0 : Fin 2) = 0 ∧ win2_6.index t (1 : Fin 2) = 0
    ∧ win2_7.index t (0 : Fin 2) = 0 ∧ win2_7.index t (1 : Fin 2) = 0 :=
  (by decide +kernel : ∀ t : Fin grid2.N, _)

/-! ## The input blocks at a point -/

set_option maxHeartbeats 2000000 in
/-- The feature window's block at point `t` is rows `5000·t …` of the feature array. -/
theorem iblk2_0_eq (c : Dev nD) (t : Fin cfg2.N) (ht : t.val < 20) :
    iblk2 V c 0 t = rows2 (V c (Pipeline.arrRef spec2 0)) t.val ht := by
  obtain ⟨e50, e51, e00, e01, -⟩ := idx_facts2m t
  refine rows2_eq _ _ _ _ fun y => ⟨((cfg2.win 0).blk t).view.emb y, rfl, ?_, ?_⟩
  · show win2_0.index t (0 : Fin 2) * 5000 + 1 * (y 0).val = 5000 * t.val + (y 0).val; omega
  · show win2_0.index t (1 : Fin 2) * 128 + 1 * (y 1).val = (y 1).val; omega

set_option maxHeartbeats 2000000 in
/-- The first weight window's block is the whole weight array, at every point. -/
theorem iblk2_1_eq (c : Dev nD) (t : Fin cfg2.N) : iblk2 V c 1 t = V c (Pipeline.arrRef spec2 1) := by
  obtain ⟨-, -, -, -, e10, e11, -⟩ := idx_facts2m t
  refine whole2m _ _ fun y => ⟨((cfg2.win 1).blk t).view.emb y, rfl, ?_, ?_⟩
  · show win2_1.index t (0 : Fin 2) * 128 + 1 * (y 0).val = (y 0).val; omega
  · show win2_1.index t (1 : Fin 2) * 128 + 1 * (y 1).val = (y 1).val; omega

set_option maxHeartbeats 2000000 in
/-- The first bias window's block is the whole bias row, at every point. -/
theorem iblk2_2_eq (c : Dev nD) (t : Fin cfg2.N) : iblk2 V c 2 t = V c (Pipeline.arrRef spec2 2) := by
  obtain ⟨-, -, -, -, -, -, e20, e21, -⟩ := idx_facts2m t
  refine whole2m _ _ fun y => ⟨((cfg2.win 2).blk t).view.emb y, rfl, ?_, ?_⟩
  · show win2_2.index t (0 : Fin 2) * 1 + 1 * (y 0).val = (y 0).val; omega
  · show win2_2.index t (1 : Fin 2) * 128 + 1 * (y 1).val = (y 1).val; omega

set_option maxHeartbeats 2000000 in
/-- The second weight window's block is the whole weight array, at every point. -/
theorem iblk2_3_eq (c : Dev nD) (t : Fin cfg2.N) : iblk2 V c 3 t = V c (Pipeline.arrRef spec2 3) := by
  obtain ⟨-, -, -, -, -, -, -, -, e30, e31, -⟩ := idx_facts2m t
  refine whole2m _ _ fun y => ⟨((cfg2.win 3).blk t).view.emb y, rfl, ?_, ?_⟩
  · show win2_3.index t (0 : Fin 2) * 128 + 1 * (y 0).val = (y 0).val; omega
  · show win2_3.index t (1 : Fin 2) * 128 + 1 * (y 1).val = (y 1).val; omega

set_option maxHeartbeats 2000000 in
/-- The second bias window's block is the whole bias row, at every point. -/
theorem iblk2_4_eq (c : Dev nD) (t : Fin cfg2.N) : iblk2 V c 4 t = V c (Pipeline.arrRef spec2 4) := by
  obtain ⟨-, -, -, -, -, -, -, -, -, -, e40, e41, -⟩ := idx_facts2m t
  refine whole2m _ _ fun y => ⟨((cfg2.win 4).blk t).view.emb y, rfl, ?_, ?_⟩
  · show win2_4.index t (0 : Fin 2) * 1 + 1 * (y 0).val = (y 0).val; omega
  · show win2_4.index t (1 : Fin 2) * 128 + 1 * (y 1).val = (y 1).val; omega

/-- The z block a point stores, from the arrays as the region finds them. -/
theorem zblk2_eq (c : Dev nD) (t : Fin cfg2.N) (ht : t.val < 20) :
    zblk2 V c t = k2_pay5 (rows2 (V c (Pipeline.arrRef spec2 0)) t.val ht) (V c (Pipeline.arrRef spec2 1))
      (V c (Pipeline.arrRef spec2 3)) (V c (Pipeline.arrRef spec2 2)) (V c (Pipeline.arrRef spec2 4)) := by
  unfold zblk2
  rw [iblk2_0_eq V c t ht, iblk2_1_eq V c t, iblk2_2_eq V c t, iblk2_3_eq V c t, iblk2_4_eq V c t]

/-! ## What a point writes back to the z array -/

set_option maxHeartbeats 2000000 in
/-- What point `t` writes back to the z array is block `t` of the z array of the five input arrays as the
    region finds them — given that the z window's staging buffer holds the point's z block after the body. -/
theorem flushed2_5_eq (c : Dev nD) (hZ : ∀ t : Fin cfg2.N, (dat2 V c).after 5 t = zblk2 V c t) (t : Fin cfg2.N) :
    (dat2 V c).flushed 5 t = ((cfg2.win 5).blk t).view.read (Elt F)
      (G2z (V c (Pipeline.arrRef spec2 0)) (V c (Pipeline.arrRef spec2 1)) (V c (Pipeline.arrRef spec2 2))
        (V c (Pipeline.arrRef spec2 3)) (V c (Pipeline.arrRef spec2 4))) := by
  show (cfg2.win 5).cut (grid2.coords t) ((dat2 V c).after 5 t) = _
  have ht : t.val < 20 := lt_of_lt_of_eq t.isLt N_2
  rw [hZ t, zblk2_eq V c t ht]
  obtain ⟨e50, e51, -⟩ := idx_facts2m t
  funext j
  show k2_pay5 (rows2 (V c (Pipeline.arrRef spec2 0)) t.val ht) (V c (Pipeline.arrRef spec2 1))
      (V c (Pipeline.arrRef spec2 3)) (V c (Pipeline.arrRef spec2 2)) (V c (Pipeline.arrRef spec2 4)) j
    = G2z (V c (Pipeline.arrRef spec2 0)) (V c (Pipeline.arrRef spec2 1)) (V c (Pipeline.arrRef spec2 2))
        (V c (Pipeline.arrRef spec2 3)) (V c (Pipeline.arrRef spec2 4)) (((cfg2.win 5).blk t).view.emb j)
  refine G2z_block _ _ _ _ _ _ _ _ _ _ t.val ht rfl rfl rfl rfl rfl j _ ?_ ?_
  · show win2_5.index t (0 : Fin 2) * 5000 + 1 * (j 0).val = t.val * 5000 + (j 0).val; omega
  · show win2_5.index t (1 : Fin 2) * 128 + 1 * (j 1).val = (j 1).val; omega

/-- An index of the z array is in point `t`'s block iff each coordinate is in the block's range on its axis. -/
theorem mem_blk2_5m (t : Fin cfg2.N) (i : S100000x128.Idx) :
    i ∈ ((cfg2.win 5).blk t).view.set ↔ ∀ a : Fin 2, win2_5.index t a * S5000x128.size a ≤ (i a).val ∧ (i a).val < win2_5.index t a * S5000x128.size a + S5000x128.size a := by
  show i ∈ ((View.whole main_v60_0).slice (win2_5.rect t)).set ↔ _
  rw [View.set_slice_whole, Rect.mem_set_unit]
  exact Iff.rfl

/-- Every row `n` of the z array is in the block of point `n / 5000`. -/
theorem blocks_cover2m (i : S100000x128.Idx) :
    ∃ t : Fin cfg2.N, (cfg2.win 5).flush t = true ∧ i ∈ ((cfg2.win 5).blk t).view.set := by
  have hi0 : (i 0).val < 100000 := idx2_lt0 i
  have hi1 : (i 1).val < 128 := idx2_lt1 i
  obtain ⟨t, ht⟩ : ∃ t : Fin cfg2.N, t.val = (i 0).val / 5000 :=
    ⟨⟨(i 0).val / 5000, lt_of_lt_of_eq (by omega : (i 0).val / 5000 < 20) N_2.symm⟩, rfl⟩
  obtain ⟨e50, e51, -⟩ := idx_facts2m t
  refine ⟨t, flush2_5 t, ?_⟩
  rw [mem_blk2_5m]
  intro a
  match a with
  | ⟨0, _⟩ => show win2_5.index t (0 : Fin 2) * 5000 ≤ (i 0).val ∧ (i 0).val < win2_5.index t (0 : Fin 2) * 5000 + 5000; omega
  | ⟨1, _⟩ => show win2_5.index t (1 : Fin 2) * 128 ≤ (i 1).val ∧ (i 1).val < win2_5.index t (1 : Fin 2) * 128 + 128; omega

/-- After all 20 points the z array holds the z array of the five input arrays as the region finds them. -/
theorem final2_5 (c : Dev nD) (hZ : ∀ t : Fin cfg2.N, (dat2 V c).after 5 t = zblk2 V c t) :
    (dat2 V c).arrAt 5 cfg2.N
      = G2z (V c (Pipeline.arrRef spec2 0)) (V c (Pipeline.arrRef spec2 1)) (V c (Pipeline.arrRef spec2 2))
        (V c (Pipeline.arrRef spec2 3)) (V c (Pipeline.arrRef spec2 4)) :=
  (dat2 V c).arrAt_eq_of_cover 5 _ (fun t _ => flushed2_5_eq V c hZ t) blocks_cover2m

/-! ## The two row outputs: one write-back, at the last point, of the whole array -/

/-- The last point. -/
theorem lt19_2 : 19 < cfg2.N := lt_of_lt_of_eq (by norm_num) N_2.symm

set_option maxHeartbeats 2000000 in
/-- The one write-back of the column-sum row, at the last point, writes the running row after that point: block
    `(0, 0)` of the 1 × 128 array read through zero offsets is the array. -/
theorem flushed2_6_eq (c : Dev nD)
    (hS : ∀ t : Fin cfg2.N, t.val % 20 = 19 → (dat2 V c).after 6 t = rowS2 V c t.val t.isLt)
    (t : Fin cfg2.N) (hf : (cfg2.win 6).flush t = true) :
    (dat2 V c).flushed 6 t = ((cfg2.win 6).blk t).view.read (Elt F) (rowS2 V c 19 lt19_2) := by
  have ht : t.val < 20 := lt_of_lt_of_eq t.isLt N_2
  have h19 : t.val % 20 = 19 := (flush2_6 t).mp hf
  have e : t = ⟨19, lt19_2⟩ := Fin.ext (show t.val = 19 by omega)
  show (cfg2.win 6).cut (grid2.coords t) ((dat2 V c).after 6 t) = _
  rw [hS t h19]
  obtain ⟨-, -, -, -, -, -, -, -, -, -, -, -, e60, e61, -⟩ := idx_facts2m t
  have hz' : (fun a => win2_6.index t a * main_v60_1.ty.shape.size a) = fun _ => 0 := funext fun a => by
    match a with
    | ⟨0, _⟩ => show win2_6.index t (0 : Fin 2) * 1 = 0; omega
    | ⟨1, _⟩ => show win2_6.index t (1 : Fin 2) * 128 = 0; omega
  have er : rowS2 V c t.val t.isLt = rowS2 V c 19 lt19_2 := by subst e; rfl
  rw [er]
  exact (Memref.read_access_unit_zero (Elt F) main_v60_1 hz' (fun a => by rw [congrFun hz' a]; simp) (rowS2 V c 19 lt19_2)).symm

set_option maxHeartbeats 2000000 in
/-- The same for the row of column sums of squares. -/
theorem flushed2_7_eq (c : Dev nD)
    (hQ : ∀ t : Fin cfg2.N, t.val % 20 = 19 → (dat2 V c).after 7 t = rowQ2 V c t.val t.isLt)
    (t : Fin cfg2.N) (hf : (cfg2.win 7).flush t = true) :
    (dat2 V c).flushed 7 t = ((cfg2.win 7).blk t).view.read (Elt F) (rowQ2 V c 19 lt19_2) := by
  have ht : t.val < 20 := lt_of_lt_of_eq t.isLt N_2
  have h19 : t.val % 20 = 19 := (flush2_7 t).mp hf
  have e : t = ⟨19, lt19_2⟩ := Fin.ext (show t.val = 19 by omega)
  show (cfg2.win 7).cut (grid2.coords t) ((dat2 V c).after 7 t) = _
  rw [hQ t h19]
  obtain ⟨-, -, -, -, -, -, -, -, -, -, -, -, -, -, e70, e71⟩ := idx_facts2m t
  have hz' : (fun a => win2_7.index t a * main_v60_2.ty.shape.size a) = fun _ => 0 := funext fun a => by
    match a with
    | ⟨0, _⟩ => show win2_7.index t (0 : Fin 2) * 1 = 0; omega
    | ⟨1, _⟩ => show win2_7.index t (1 : Fin 2) * 128 = 0; omega
  have er : rowQ2 V c t.val t.isLt = rowQ2 V c 19 lt19_2 := by subst e; rfl
  rw [er]
  exact (Memref.read_access_unit_zero (Elt F) main_v60_2 hz' (fun a => by rw [congrFun hz' a]; simp) (rowQ2 V c 19 lt19_2)).symm

/-- Every index of a 1 × 128 row output is in the last point's block, which is written back. -/
theorem cover2_6 (i : S1x128.Idx) :
    ∃ t : Fin cfg2.N, (cfg2.win 6).flush t = true ∧ i ∈ ((cfg2.win 6).blk t).view.set := by
  have hi0 : (i 0).val < 1 := idx2_lt0 i
  have hi1 : (i 1).val < 128 := idx2_lt1 i
  obtain ⟨-, -, -, -, -, -, -, -, -, -, -, -, e60, e61, -⟩ := idx_facts2m ⟨19, lt19_2⟩
  refine ⟨⟨19, lt19_2⟩, (flush2_6 _).mpr (by norm_num), ?_⟩
  show i ∈ ((View.whole main_v60_1).slice (win2_6.rect ⟨19, lt19_2⟩)).set
  rw [View.set_slice_whole, Rect.mem_set_unit]
  intro a
  match a with
  | ⟨0, _⟩ => show win2_6.index ⟨19, lt19_2⟩ (0 : Fin 2) * 1 ≤ (i 0).val ∧ (i 0).val < win2_6.index ⟨19, lt19_2⟩ (0 : Fin 2) * 1 + 1; omega
  | ⟨1, _⟩ => show win2_6.index ⟨19, lt19_2⟩ (1 : Fin 2) * 128 ≤ (i 1).val ∧ (i 1).val < win2_6.index ⟨19, lt19_2⟩ (1 : Fin 2) * 128 + 128; omega

theorem cover2_7 (i : S1x128.Idx) :
    ∃ t : Fin cfg2.N, (cfg2.win 7).flush t = true ∧ i ∈ ((cfg2.win 7).blk t).view.set := by
  have hi0 : (i 0).val < 1 := idx2_lt0 i
  have hi1 : (i 1).val < 128 := idx2_lt1 i
  obtain ⟨-, -, -, -, -, -, -, -, -, -, -, -, -, -, e70, e71⟩ := idx_facts2m ⟨19, lt19_2⟩
  refine ⟨⟨19, lt19_2⟩, (flush2_7 _).mpr (by norm_num), ?_⟩
  show i ∈ ((View.whole main_v60_2).slice (win2_7.rect ⟨19, lt19_2⟩)).set
  rw [View.set_slice_whole, Rect.mem_set_unit]
  intro a
  match a with
  | ⟨0, _⟩ => show win2_7.index ⟨19, lt19_2⟩ (0 : Fin 2) * 1 ≤ (i 0).val ∧ (i 0).val < win2_7.index ⟨19, lt19_2⟩ (0 : Fin 2) * 1 + 1; omega
  | ⟨1, _⟩ => show win2_7.index ⟨19, lt19_2⟩ (1 : Fin 2) * 128 ≤ (i 1).val ∧ (i 1).val < win2_7.index ⟨19, lt19_2⟩ (1 : Fin 2) * 128 + 128; omega

/-- After all 20 points the column-sum output holds the running row after the last point. -/
theorem final2_6 (c : Dev nD)
    (hS : ∀ t : Fin cfg2.N, t.val % 20 = 19 → (dat2 V c).after 6 t = rowS2 V c t.val t.isLt) :
    (dat2 V c).arrAt 6 cfg2.N = rowS2 V c 19 lt19_2 :=
  (dat2 V c).arrAt_eq_of_cover 6 (rowS2 V c 19 lt19_2) (flushed2_6_eq V c hS) cover2_6

/-- After all 20 points the output of column sums of squares holds the running row after the last point. -/
theorem final2_7 (c : Dev nD)
    (hQ : ∀ t : Fin cfg2.N, t.val % 20 = 19 → (dat2 V c).after 7 t = rowQ2 V c t.val t.isLt) :
    (dat2 V c).arrAt 7 cfg2.N = rowQ2 V c 19 lt19_2 :=
  (dat2 V c).arrAt_eq_of_cover 7 (rowQ2 V c 19 lt19_2) (flushed2_7_eq V c hQ) cover2_7

/-! ## Entry by entry, at the exact instance -/

/-- Row `5000·b + r` of the 100000 rows: row `r` of block `b`. -/
def blkRow2 (b : Fin 20) (r : Fin 5000) : Fin 100000 :=
  ⟨5000 * b.val + r.val, by have h1 := b.isLt; have h2 := r.isLt; omega⟩

theorem blkRow2_val (b : Fin 20) (r : Fin 5000) : (blkRow2 b r).val = 5000 * b.val + r.val := rfl

/-- At the exact instance the z array at `(n, j)` is the specification's perceptron: the payload read at block
    index `(n mod 5000, j)` of the block of rows that holds row `n`. -/
theorem G2z_apply (x : Vec Ideal S100000x128 .f32) (w1 : Vec Ideal S128x128 .f32) (b1 : Vec Ideal S1x128 .f32)
    (w2 : Vec Ideal S128x128 .f32) (b2 : Vec Ideal S1x128 .f32) (n : Fin 100000) (j : Fin 128) :
    G2z (F := Ideal) x w1 b1 w2 b2 (ix2 n j)
      = Cert.Spec.mlp (fun n q => x (ix2 n q)) (fun q k => w1 (ix2 q k)) (fun k => b1 (ix2 (0 : Fin 1) k))
          (fun k j => w2 (ix2 k j)) (fun j => b2 (ix2 (0 : Fin 1) j)) n j := by
  have hq : n.val / 5000 < 20 := by have := n.isLt; omega
  have hrow : ∀ q : Fin 128,
      rows2 (F := Ideal) x (n.val / 5000) hq (ix2 (⟨n.val % 5000, Nat.mod_lt _ (by norm_num)⟩ : Fin 5000) q) = x (ix2 n q) := by
    intro q
    unfold rows2
    refine congrArg x ?_
    funext a
    match a with
    | ⟨0, _⟩ => exact Fin.ext (Nat.div_add_mod n.val 5000)
    | ⟨1, _⟩ => rfl
  unfold G2z
  rw [Cert.KernelIdeal.PayValue.k2_pay5_apply]
  show max ((∑ k : Fin 128, max ((∑ q : Fin 128,
      rows2 (F := Ideal) x (n.val / 5000) hq (ix2 (⟨n.val % 5000, Nat.mod_lt _ (by norm_num)⟩ : Fin 5000) q) * w1 (ix2 q k))
        + b1 (ix2 (0 : Fin 1) k)) 0 * w2 (ix2 k j)) + b2 (ix2 (0 : Fin 1) j)) 0 = _
  simp only [hrow, Cert.Spec.mlp]

/-- The z block a point stores, entry by entry: row `r` of block `t` is row `5000·t + r` of the
    specification's perceptron of the five input arrays. -/
theorem zblk2_apply (VI : (c : Dev nD) → (b : Ref sig .tc) → Buf (Elt Ideal) ((c : Thread nD τ).loc b))
    (c : Dev nD) (b : Fin 20) (hb : b.val < cfg2.N) (r : Fin 5000) (j : Fin 128) :
    zblk2 (F := Ideal) VI c ⟨b.val, hb⟩ (ix2 r j)
      = Cert.Spec.mlp (fun n q => VI c (Pipeline.arrRef spec2 0) (ix2 n q)) (fun q k => VI c (Pipeline.arrRef spec2 1) (ix2 q k))
          (fun k => VI c (Pipeline.arrRef spec2 2) (ix2 (0 : Fin 1) k)) (fun k j => VI c (Pipeline.arrRef spec2 3) (ix2 k j))
          (fun j => VI c (Pipeline.arrRef spec2 4) (ix2 (0 : Fin 1) j)) (blkRow2 b r) j := by
  rw [zblk2_eq VI c ⟨b.val, hb⟩ b.isLt, Cert.KernelIdeal.PayValue.k2_pay5_apply]
  rfl

/-- After the region, at the exact instance, the z array's entry `(n, j)` is the specification's perceptron of
    the five input arrays as the region finds them. -/
theorem final2_5_apply (VI : (c : Dev nD) → (b : Ref sig .tc) → Buf (Elt Ideal) ((c : Thread nD τ).loc b))
    (c : Dev nD) (hZ : ∀ t : Fin cfg2.N, (dat2 (F := Ideal) VI c).after 5 t = zblk2 VI c t)
    (n : Fin 100000) (j : Fin 128) :
    (dat2 (F := Ideal) VI c).arrAt 5 cfg2.N (ix2 n j)
      = Cert.Spec.mlp (fun n q => VI c (Pipeline.arrRef spec2 0) (ix2 n q)) (fun q k => VI c (Pipeline.arrRef spec2 1) (ix2 q k))
          (fun k => VI c (Pipeline.arrRef spec2 2) (ix2 (0 : Fin 1) k)) (fun k j => VI c (Pipeline.arrRef spec2 3) (ix2 k j))
          (fun j => VI c (Pipeline.arrRef spec2 4) (ix2 (0 : Fin 1) j)) n j := by
  rw [final2_5 VI c hZ]
  exact G2z_apply _ _ _ _ _ n j

/-- The column sum of the z block of point `b` at column `j` (zero past the grid). -/
def blockS2 (VI : (c : Dev nD) → (b : Ref sig .tc) → Buf (Elt Ideal) ((c : Thread nD τ).loc b)) (c : Dev nD)
    (j : Fin 128) (b : ℕ) : EReal :=
  if hb : b < cfg2.N then ∑ r : Fin 5000, zblk2 (F := Ideal) VI c ⟨b, hb⟩ (ix2 r j) else 0

/-- The column sum of the squares of the z block of point `b` at column `j` (zero past the grid). -/
def blockQ2 (VI : (c : Dev nD) → (b : Ref sig .tc) → Buf (Elt Ideal) ((c : Thread nD τ).loc b)) (c : Dev nD)
    (j : Fin 128) (b : ℕ) : EReal :=
  if hb : b < cfg2.N then ∑ r : Fin 5000, zblk2 (F := Ideal) VI c ⟨b, hb⟩ (ix2 r j) * zblk2 (F := Ideal) VI c ⟨b, hb⟩ (ix2 r j) else 0

/-- The running column-sum row after point `n` is the running total of the blocks' column sums: it starts as
    zero plus the first block's and each later block's is added to it. -/
theorem rowS2_apply (VI : (c : Dev nD) → (b : Ref sig .tc) → Buf (Elt Ideal) ((c : Thread nD τ).loc b)) (c : Dev nD)
    (j : Fin 128) : ∀ (n : ℕ) (h : n < cfg2.N),
      rowS2 (F := Ideal) VI c n h (ix2 (0 : Fin 1) j) = Cert.LibLayerStats.accS (blockS2 VI c j) n
  | 0, h => by
    show stepS2 VI c ⟨0, h⟩ (k2_pay3 (F := Ideal)) (ix2 (0 : Fin 1) j) = 0 + blockS2 VI c j 0
    unfold stepS2 blockS2
    rw [Cert.KernelIdeal.PayValue.k2_pay1_eq, Cert.KernelIdeal.PayValue.k2_pay6_apply, Cert.KernelIdeal.PayValue.k2_pay3_apply, dif_pos h]
    rfl
  | n + 1, h => by
    show stepS2 VI c ⟨n + 1, h⟩ (rowS2 VI c n (Nat.lt_of_succ_lt h)) (ix2 (0 : Fin 1) j)
      = Cert.LibLayerStats.accS (blockS2 VI c j) n + blockS2 VI c j (n + 1)
    unfold stepS2
    rw [Cert.KernelIdeal.PayValue.k2_pay1_eq, Cert.KernelIdeal.PayValue.k2_pay6_apply, rowS2_apply VI c j n (Nat.lt_of_succ_lt h)]
    unfold blockS2
    rw [dif_pos h]
    rfl

/-- The same for the running row of column sums of squares. -/
theorem rowQ2_apply (VI : (c : Dev nD) → (b : Ref sig .tc) → Buf (Elt Ideal) ((c : Thread nD τ).loc b)) (c : Dev nD)
    (j : Fin 128) : ∀ (n : ℕ) (h : n < cfg2.N),
      rowQ2 (F := Ideal) VI c n h (ix2 (0 : Fin 1) j) = Cert.LibLayerStats.accS (blockQ2 VI c j) n
  | 0, h => by
    show stepQ2 VI c ⟨0, h⟩ (k2_pay4 (F := Ideal)) (ix2 (0 : Fin 1) j) = 0 + blockQ2 VI c j 0
    unfold stepQ2 blockQ2
    rw [Cert.KernelIdeal.PayValue.k2_pay2_apply, Cert.KernelIdeal.PayValue.k2_pay4_apply, dif_pos h]
  | n + 1, h => by
    show stepQ2 VI c ⟨n + 1, h⟩ (rowQ2 VI c n (Nat.lt_of_succ_lt h)) (ix2 (0 : Fin 1) j)
      = Cert.LibLayerStats.accS (blockQ2 VI c j) n + blockQ2 VI c j (n + 1)
    unfold stepQ2
    rw [Cert.KernelIdeal.PayValue.k2_pay2_apply, rowQ2_apply VI c j n (Nat.lt_of_succ_lt h)]
    unfold blockQ2
    rw [dif_pos h]

/-- After the last of the 20 points the running total is zero plus the sum over all 20 blocks. -/
theorem accS19_2 (bs : ℕ → EReal) : Cert.LibLayerStats.accS bs 19 = 0 + ∑ b : Fin 20, bs b.val :=
  Cert.LibLayerStats.accS_last (B := 20) (by norm_num) bs

set_option maxHeartbeats 2000000 in
/-- After the region, at the exact instance, the column-sum output at column `j` is zero plus the sum over the 20
    blocks of the sums over the block's 5000 rows of the specification's perceptron of the five input arrays. -/
theorem final2_6_apply (VI : (c : Dev nD) → (b : Ref sig .tc) → Buf (Elt Ideal) ((c : Thread nD τ).loc b)) (c : Dev nD)
    (hS : ∀ t : Fin cfg2.N, t.val % 20 = 19 → (dat2 (F := Ideal) VI c).after 6 t = rowS2 VI c t.val t.isLt)
    (j : Fin 128) :
    (dat2 (F := Ideal) VI c).arrAt 6 cfg2.N (ix2 (0 : Fin 1) j)
      = 0 + ∑ b : Fin 20, ∑ r : Fin 5000,
          Cert.Spec.mlp (fun n q => VI c (Pipeline.arrRef spec2 0) (ix2 n q)) (fun q k => VI c (Pipeline.arrRef spec2 1) (ix2 q k))
            (fun k => VI c (Pipeline.arrRef spec2 2) (ix2 (0 : Fin 1) k)) (fun k j => VI c (Pipeline.arrRef spec2 3) (ix2 k j))
            (fun j => VI c (Pipeline.arrRef spec2 4) (ix2 (0 : Fin 1) j)) (blkRow2 b r) j := by
  rw [final2_6 VI c hS, rowS2_apply VI c j 19 lt19_2]
  rw [accS19_2]
  refine congrArg (0 + ·) (Finset.sum_congr rfl fun b _ => ?_)
  have hb : b.val < cfg2.N := lt_of_lt_of_eq b.isLt N_2.symm
  unfold blockS2
  rw [dif_pos hb]
  exact Finset.sum_congr rfl fun r _ => zblk2_apply VI c b hb r j

set_option maxHeartbeats 2000000 in
/-- The same for the output of column sums of squares. -/
theorem final2_7_apply (VI : (c : Dev nD) → (b : Ref sig .tc) → Buf (Elt Ideal) ((c : Thread nD τ).loc b)) (c : Dev nD)
    (hQ : ∀ t : Fin cfg2.N, t.val % 20 = 19 → (dat2 (F := Ideal) VI c).after 7 t = rowQ2 VI c t.val t.isLt)
    (j : Fin 128) :
    (dat2 (F := Ideal) VI c).arrAt 7 cfg2.N (ix2 (0 : Fin 1) j)
      = 0 + ∑ b : Fin 20, ∑ r : Fin 5000,
          Cert.Spec.mlp (fun n q => VI c (Pipeline.arrRef spec2 0) (ix2 n q)) (fun q k => VI c (Pipeline.arrRef spec2 1) (ix2 q k))
            (fun k => VI c (Pipeline.arrRef spec2 2) (ix2 (0 : Fin 1) k)) (fun k j => VI c (Pipeline.arrRef spec2 3) (ix2 k j))
            (fun j => VI c (Pipeline.arrRef spec2 4) (ix2 (0 : Fin 1) j)) (blkRow2 b r) j
          * Cert.Spec.mlp (fun n q => VI c (Pipeline.arrRef spec2 0) (ix2 n q)) (fun q k => VI c (Pipeline.arrRef spec2 1) (ix2 q k))
            (fun k => VI c (Pipeline.arrRef spec2 2) (ix2 (0 : Fin 1) k)) (fun k j => VI c (Pipeline.arrRef spec2 3) (ix2 k j))
            (fun j => VI c (Pipeline.arrRef spec2 4) (ix2 (0 : Fin 1) j)) (blkRow2 b r) j := by
  rw [final2_7 VI c hQ, rowQ2_apply VI c j 19 lt19_2]
  rw [accS19_2]
  refine congrArg (0 + ·) (Finset.sum_congr rfl fun b _ => ?_)
  have hb : b.val < cfg2.N := lt_of_lt_of_eq b.isLt N_2.symm
  unfold blockQ2
  rw [dif_pos hb]
  exact Finset.sum_congr rfl fun r _ => by rw [zblk2_apply VI c b hb r j]

end Cert.KernelIdeal.Hand

end
-- ==== Proof.KiMlp4Value.lean ====
/-
  Region 4's found pieces read back as values. At every point the z output's block is the perceptron's payload of the point's
  input blocks; a running-sum row after the point is the row before it plus the block's column sum (the first point starts
  from the zero row); at the last point the two [1,128] outputs receive the rows.
-/
import proofs.«160011_j2121713844488_1_alg».proof.Proof.KiMlp4
import Idealize.ShloMosaic.Lib.Pipeline.Value

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

theorem hz2r4 : (![0, 0] : Fin 2 → Nat) = fun _ => 0 := funext fun a => by fin_cases a <;> rfl

/-- Case A: the z block is the perceptron's payload of the five input blocks. -/
theorem out5_A_4 (c : Dev nD) (i : grid4.Coords) (a1 : Memref sig .tc .vmem S5000x128 .f32) (h1 : a1.IsWhole) (a2 : Memref sig .tc .vmem S128x128 .f32) (h2 : a2.IsWhole) (a3 : Memref sig .tc .vmem S1x128 .f32) (h3 : a3.IsWhole) (a4 : Memref sig .tc .vmem S128x128 .f32) (h4 : a4.IsWhole) (a5 : Memref sig .tc .vmem S1x128 .f32) (h5 : a5.IsWhole) (a6 : Memref sig .tc .vmem S5000x128 .f32) (h6 : a6.IsWhole) (a7 : Memref sig .tc .vmem S1x128 .f32) (h7 : a7.IsWhole) (a8 : Memref sig .tc .vmem S1x128 .f32) (h8 : a8.IsWhole) (a9 : Memref sig .tc .vmem S1x128 .f32) (h9 : a9.IsWhole) (a10 : Memref sig .tc .vmem S1x128 .f32) (h10 : a10.IsWhole) (hc0 : cond4_0 i) (hc1 : ¬cond4_1 i)
    (x0 : Vec F S5000x128 .f32) (x1 : Vec F S128x128 .f32) (x2 : Vec F S1x128 .f32) (x3 : Vec F S128x128 .f32) (x4 : Vec F S1x128 .f32) :
    out4_A_5 c i a1 h1 a2 h2 a3 h3 a4 h4 a5 h5 a6 h6 a7 h7 a8 h8 a9 h9 a10 h10 hc0 hc1 x0 x1 x2 x3 x4 = k4_pay5 x0 x1 x3 x2 x4 := by
  unfold out4_A_5
  rw [View.read_writes_eq_canon _ _ _ (cover4_A_5 c i a1 h1 a2 h2 a3 h3 a4 h4 a5 h5 a6 h6 a7 h7 a8 h8 a9 h9 a10 h10 hc0 hc1 x0 x1 x2 x3 x4)]
  unfold kernelRun4_A
  dsimp only
  sl_unfold_words
  rw [View.canon_unit_zero hz2r4]
  simp only [View.readAt_eq_ld, h1.read_unread, h2.read_unread, h3.read_unread, h4.read_unread, h5.read_unread, h9.read_unread, h10.read_unread, View.ld_unit_zero (S := S5000x128) hz2r4, View.ld_unit_zero (S := S128x128) hz2r4, View.ld_unit_zero (S := S1x128) hz2r4, View.readCov_unit_zero (S := S1x128) _ hz2r4]

/-- Case A: the running column sum of z after the point. -/
theorem row0_A_4 (c : Dev nD) (i : grid4.Coords) (a1 : Memref sig .tc .vmem S5000x128 .f32) (h1 : a1.IsWhole) (a2 : Memref sig .tc .vmem S128x128 .f32) (h2 : a2.IsWhole) (a3 : Memref sig .tc .vmem S1x128 .f32) (h3 : a3.IsWhole) (a4 : Memref sig .tc .vmem S128x128 .f32) (h4 : a4.IsWhole) (a5 : Memref sig .tc .vmem S1x128 .f32) (h5 : a5.IsWhole) (a6 : Memref sig .tc .vmem S5000x128 .f32) (h6 : a6.IsWhole) (a7 : Memref sig .tc .vmem S1x128 .f32) (h7 : a7.IsWhole) (a8 : Memref sig .tc .vmem S1x128 .f32) (h8 : a8.IsWhole) (a9 : Memref sig .tc .vmem S1x128 .f32) (h9 : a9.IsWhole) (a10 : Memref sig .tc .vmem S1x128 .f32) (h10 : a10.IsWhole) (hc0 : cond4_0 i) (hc1 : ¬cond4_1 i)
    (x0 : Vec F S5000x128 .f32) (x1 : Vec F S128x128 .f32) (x2 : Vec F S1x128 .f32) (x3 : Vec F S128x128 .f32) (x4 : Vec F S1x128 .f32) :
    sout4_A_0 c i a1 h1 a2 h2 a3 h3 a4 h4 a5 h5 a6 h6 a7 h7 a8 h8 a9 h9 a10 h10 hc0 hc1 x0 x1 x2 x3 x4 = k4_pay1 (k4_pay6 x0 x1 x3 x2 x4 (k4_pay3 (F := F))) := by
  unfold sout4_A_0
  rw [View.read_writes_eq_canon _ _ _ (scover4_A_0 c i a1 h1 a2 h2 a3 h3 a4 h4 a5 h5 a6 h6 a7 h7 a8 h8 a9 h9 a10 h10 hc0 hc1 x0 x1 x2 x3 x4)]
  unfold kernelRun4_A
  dsimp only
  sl_unfold_words
  rw [View.canon_cons_unit_zero (S := S1x128) hz2r4]
  simp only [View.readAt_eq_ld, h1.read_unread, h2.read_unread, h3.read_unread, h4.read_unread, h5.read_unread, h9.read_unread, h10.read_unread, View.ld_unit_zero (S := S5000x128) hz2r4, View.ld_unit_zero (S := S128x128) hz2r4, View.ld_unit_zero (S := S1x128) hz2r4, View.readCov_unit_zero (S := S1x128) _ hz2r4]

/-- Case A: the running column sum of z² after the point. -/
theorem row1_A_4 (c : Dev nD) (i : grid4.Coords) (a1 : Memref sig .tc .vmem S5000x128 .f32) (h1 : a1.IsWhole) (a2 : Memref sig .tc .vmem S128x128 .f32) (h2 : a2.IsWhole) (a3 : Memref sig .tc .vmem S1x128 .f32) (h3 : a3.IsWhole) (a4 : Memref sig .tc .vmem S128x128 .f32) (h4 : a4.IsWhole) (a5 : Memref sig .tc .vmem S1x128 .f32) (h5 : a5.IsWhole) (a6 : Memref sig .tc .vmem S5000x128 .f32) (h6 : a6.IsWhole) (a7 : Memref sig .tc .vmem S1x128 .f32) (h7 : a7.IsWhole) (a8 : Memref sig .tc .vmem S1x128 .f32) (h8 : a8.IsWhole) (a9 : Memref sig .tc .vmem S1x128 .f32) (h9 : a9.IsWhole) (a10 : Memref sig .tc .vmem S1x128 .f32) (h10 : a10.IsWhole) (hc0 : cond4_0 i) (hc1 : ¬cond4_1 i)
    (x0 : Vec F S5000x128 .f32) (x1 : Vec F S128x128 .f32) (x2 : Vec F S1x128 .f32) (x3 : Vec F S128x128 .f32) (x4 : Vec F S1x128 .f32) :
    sout4_A_1 c i a1 h1 a2 h2 a3 h3 a4 h4 a5 h5 a6 h6 a7 h7 a8 h8 a9 h9 a10 h10 hc0 hc1 x0 x1 x2 x3 x4 = k4_pay2 (k4_pay5 x0 x1 x3 x2 x4) (k4_pay4 (F := F)) := by
  unfold sout4_A_1
  rw [View.read_writes_eq_canon _ _ _ (scover4_A_1 c i a1 h1 a2 h2 a3 h3 a4 h4 a5 h5 a6 h6 a7 h7 a8 h8 a9 h9 a10 h10 hc0 hc1 x0 x1 x2 x3 x4)]
  unfold kernelRun4_A
  dsimp only
  sl_unfold_words
  rw [View.canon_cons_unit_zero (S := S1x128) hz2r4]
  simp only [View.readAt_eq_ld, h1.read_unread, h2.read_unread, h3.read_unread, h4.read_unread, h5.read_unread, h9.read_unread, h10.read_unread, View.ld_unit_zero (S := S5000x128) hz2r4, View.ld_unit_zero (S := S128x128) hz2r4, View.ld_unit_zero (S := S1x128) hz2r4, View.readCov_unit_zero (S := S1x128) _ hz2r4]

/-- Case B: the z block is the perceptron's payload of the five input blocks. -/
theorem out5_B_4 (c : Dev nD) (i : grid4.Coords) (a1 : Memref sig .tc .vmem S5000x128 .f32) (h1 : a1.IsWhole) (a2 : Memref sig .tc .vmem S128x128 .f32) (h2 : a2.IsWhole) (a3 : Memref sig .tc .vmem S1x128 .f32) (h3 : a3.IsWhole) (a4 : Memref sig .tc .vmem S128x128 .f32) (h4 : a4.IsWhole) (a5 : Memref sig .tc .vmem S1x128 .f32) (h5 : a5.IsWhole) (a6 : Memref sig .tc .vmem S5000x128 .f32) (h6 : a6.IsWhole) (a7 : Memref sig .tc .vmem S1x128 .f32) (h7 : a7.IsWhole) (a8 : Memref sig .tc .vmem S1x128 .f32) (h8 : a8.IsWhole) (a9 : Memref sig .tc .vmem S1x128 .f32) (h9 : a9.IsWhole) (a10 : Memref sig .tc .vmem S1x128 .f32) (h10 : a10.IsWhole) (hc0 : ¬cond4_0 i) (hc1 : ¬cond4_1 i)
    (x0 : Vec F S5000x128 .f32) (x1 : Vec F S128x128 .f32) (x2 : Vec F S1x128 .f32) (x3 : Vec F S128x128 .f32) (x4 : Vec F S1x128 .f32) (xs0 xs1 : Vec F S1x128 .f32) :
    out4_B_5 c i a1 h1 a2 h2 a3 h3 a4 h4 a5 h5 a6 h6 a7 h7 a8 h8 a9 h9 a10 h10 hc0 hc1 x0 x1 x2 x3 x4 xs0 xs1 = k4_pay5 x0 x1 x3 x2 x4 := by
  unfold out4_B_5
  rw [View.read_writes_eq_canon _ _ _ (cover4_B_5 c i a1 h1 a2 h2 a3 h3 a4 h4 a5 h5 a6 h6 a7 h7 a8 h8 a9 h9 a10 h10 hc0 hc1 x0 x1 x2 x3 x4 xs0 xs1)]
  unfold kernelRun4_B
  dsimp only
  sl_unfold_words
  rw [View.canon_unit_zero hz2r4]
  simp only [View.readAt_eq_ld, h1.read_unread, h2.read_unread, h3.read_unread, h4.read_unread, h5.read_unread, h9.read_unread, h10.read_unread, View.ld_unit_zero (S := S5000x128) hz2r4, View.ld_unit_zero (S := S128x128) hz2r4, View.ld_unit_zero (S := S1x128) hz2r4, View.readCov_unit_zero (S := S1x128) _ hz2r4]

/-- Case B: the running column sum of z after the point. -/
theorem row0_B_4 (c : Dev nD) (i : grid4.Coords) (a1 : Memref sig .tc .vmem S5000x128 .f32) (h1 : a1.IsWhole) (a2 : Memref sig .tc .vmem S128x128 .f32) (h2 : a2.IsWhole) (a3 : Memref sig .tc .vmem S1x128 .f32) (h3 : a3.IsWhole) (a4 : Memref sig .tc .vmem S128x128 .f32) (h4 : a4.IsWhole) (a5 : Memref sig .tc .vmem S1x128 .f32) (h5 : a5.IsWhole) (a6 : Memref sig .tc .vmem S5000x128 .f32) (h6 : a6.IsWhole) (a7 : Memref sig .tc .vmem S1x128 .f32) (h7 : a7.IsWhole) (a8 : Memref sig .tc .vmem S1x128 .f32) (h8 : a8.IsWhole) (a9 : Memref sig .tc .vmem S1x128 .f32) (h9 : a9.IsWhole) (a10 : Memref sig .tc .vmem S1x128 .f32) (h10 : a10.IsWhole) (hc0 : ¬cond4_0 i) (hc1 : ¬cond4_1 i)
    (x0 : Vec F S5000x128 .f32) (x1 : Vec F S128x128 .f32) (x2 : Vec F S1x128 .f32) (x3 : Vec F S128x128 .f32) (x4 : Vec F S1x128 .f32) (xs0 xs1 : Vec F S1x128 .f32) :
    sout4_B_0 c i a1 h1 a2 h2 a3 h3 a4 h4 a5 h5 a6 h6 a7 h7 a8 h8 a9 h9 a10 h10 hc0 hc1 x0 x1 x2 x3 x4 xs0 xs1 = k4_pay1 (k4_pay6 x0 x1 x3 x2 x4 xs0) := by
  unfold sout4_B_0
  rw [View.read_writes_eq_canon _ _ _ (scover4_B_0 c i a1 h1 a2 h2 a3 h3 a4 h4 a5 h5 a6 h6 a7 h7 a8 h8 a9 h9 a10 h10 hc0 hc1 x0 x1 x2 x3 x4 xs0 xs1)]
  unfold kernelRun4_B
  dsimp only
  sl_unfold_words
  rw [View.canon_unit_zero hz2r4]
  simp only [View.readAt_eq_ld, h1.read_unread, h2.read_unread, h3.read_unread, h4.read_unread, h5.read_unread, h9.read_unread, h10.read_unread, View.ld_unit_zero (S := S5000x128) hz2r4, View.ld_unit_zero (S := S128x128) hz2r4, View.ld_unit_zero (S := S1x128) hz2r4, View.readCov_unit_zero (S := S1x128) _ hz2r4]

/-- Case B: the running column sum of z² after the point. -/
theorem row1_B_4 (c : Dev nD) (i : grid4.Coords) (a1 : Memref sig .tc .vmem S5000x128 .f32) (h1 : a1.IsWhole) (a2 : Memref sig .tc .vmem S128x128 .f32) (h2 : a2.IsWhole) (a3 : Memref sig .tc .vmem S1x128 .f32) (h3 : a3.IsWhole) (a4 : Memref sig .tc .vmem S128x128 .f32) (h4 : a4.IsWhole) (a5 : Memref sig .tc .vmem S1x128 .f32) (h5 : a5.IsWhole) (a6 : Memref sig .tc .vmem S5000x128 .f32) (h6 : a6.IsWhole) (a7 : Memref sig .tc .vmem S1x128 .f32) (h7 : a7.IsWhole) (a8 : Memref sig .tc .vmem S1x128 .f32) (h8 : a8.IsWhole) (a9 : Memref sig .tc .vmem S1x128 .f32) (h9 : a9.IsWhole) (a10 : Memref sig .tc .vmem S1x128 .f32) (h10 : a10.IsWhole) (hc0 : ¬cond4_0 i) (hc1 : ¬cond4_1 i)
    (x0 : Vec F S5000x128 .f32) (x1 : Vec F S128x128 .f32) (x2 : Vec F S1x128 .f32) (x3 : Vec F S128x128 .f32) (x4 : Vec F S1x128 .f32) (xs0 xs1 : Vec F S1x128 .f32) :
    sout4_B_1 c i a1 h1 a2 h2 a3 h3 a4 h4 a5 h5 a6 h6 a7 h7 a8 h8 a9 h9 a10 h10 hc0 hc1 x0 x1 x2 x3 x4 xs0 xs1 = k4_pay2 (k4_pay5 x0 x1 x3 x2 x4) xs1 := by
  unfold sout4_B_1
  rw [View.read_writes_eq_canon _ _ _ (scover4_B_1 c i a1 h1 a2 h2 a3 h3 a4 h4 a5 h5 a6 h6 a7 h7 a8 h8 a9 h9 a10 h10 hc0 hc1 x0 x1 x2 x3 x4 xs0 xs1)]
  unfold kernelRun4_B
  dsimp only
  sl_unfold_words
  rw [View.canon_unit_zero hz2r4]
  simp only [View.readAt_eq_ld, h1.read_unread, h2.read_unread, h3.read_unread, h4.read_unread, h5.read_unread, h9.read_unread, h10.read_unread, View.ld_unit_zero (S := S5000x128) hz2r4, View.ld_unit_zero (S := S128x128) hz2r4, View.ld_unit_zero (S := S1x128) hz2r4, View.readCov_unit_zero (S := S1x128) _ hz2r4]

/-- Case C: the z block is the perceptron's payload of the five input blocks. -/
theorem out5_C_4 (c : Dev nD) (i : grid4.Coords) (a1 : Memref sig .tc .vmem S5000x128 .f32) (h1 : a1.IsWhole) (a2 : Memref sig .tc .vmem S128x128 .f32) (h2 : a2.IsWhole) (a3 : Memref sig .tc .vmem S1x128 .f32) (h3 : a3.IsWhole) (a4 : Memref sig .tc .vmem S128x128 .f32) (h4 : a4.IsWhole) (a5 : Memref sig .tc .vmem S1x128 .f32) (h5 : a5.IsWhole) (a6 : Memref sig .tc .vmem S5000x128 .f32) (h6 : a6.IsWhole) (a7 : Memref sig .tc .vmem S1x128 .f32) (h7 : a7.IsWhole) (a8 : Memref sig .tc .vmem S1x128 .f32) (h8 : a8.IsWhole) (a9 : Memref sig .tc .vmem S1x128 .f32) (h9 : a9.IsWhole) (a10 : Memref sig .tc .vmem S1x128 .f32) (h10 : a10.IsWhole) (hc0 : ¬cond4_0 i) (hc1 : cond4_1 i)
    (x0 : Vec F S5000x128 .f32) (x1 : Vec F S128x128 .f32) (x2 : Vec F S1x128 .f32) (x3 : Vec F S128x128 .f32) (x4 : Vec F S1x128 .f32) (xs0 xs1 : Vec F S1x128 .f32) :
    out4_C_5 c i a1 h1 a2 h2 a3 h3 a4 h4 a5 h5 a6 h6 a7 h7 a8 h8 a9 h9 a10 h10 hc0 hc1 x0 x1 x2 x3 x4 xs0 xs1 = k4_pay5 x0 x1 x3 x2 x4 := by
  unfold out4_C_5
  rw [View.read_writes_eq_canon _ _ _ (cover4_C_5 c i a1 h1 a2 h2 a3 h3 a4 h4 a5 h5 a6 h6 a7 h7 a8 h8 a9 h9 a10 h10 hc0 hc1 x0 x1 x2 x3 x4 xs0 xs1)]
  unfold kernelRun4_C
  dsimp only
  sl_unfold_words
  rw [View.canon_unit_zero hz2r4]
  simp only [View.readAt_eq_ld, h1.read_unread, h2.read_unread, h3.read_unread, h4.read_unread, h5.read_unread, h9.read_unread, h10.read_unread, View.ld_unit_zero (S := S5000x128) hz2r4, View.ld_unit_zero (S := S128x128) hz2r4, View.ld_unit_zero (S := S1x128) hz2r4, View.readCov_unit_zero (S := S1x128) _ hz2r4]

/-- Case C: the running column sum of z after the point. -/
theorem row0_C_4 (c : Dev nD) (i : grid4.Coords) (a1 : Memref sig .tc .vmem S5000x128 .f32) (h1 : a1.IsWhole) (a2 : Memref sig .tc .vmem S128x128 .f32) (h2 : a2.IsWhole) (a3 : Memref sig .tc .vmem S1x128 .f32) (h3 : a3.IsWhole) (a4 : Memref sig .tc .vmem S128x128 .f32) (h4 : a4.IsWhole) (a5 : Memref sig .tc .vmem S1x128 .f32) (h5 : a5.IsWhole) (a6 : Memref sig .tc .vmem S5000x128 .f32) (h6 : a6.IsWhole) (a7 : Memref sig .tc .vmem S1x128 .f32) (h7 : a7.IsWhole) (a8 : Memref sig .tc .vmem S1x128 .f32) (h8 : a8.IsWhole) (a9 : Memref sig .tc .vmem S1x128 .f32) (h9 : a9.IsWhole) (a10 : Memref sig .tc .vmem S1x128 .f32) (h10 : a10.IsWhole) (hc0 : ¬cond4_0 i) (hc1 : cond4_1 i)
    (x0 : Vec F S5000x128 .f32) (x1 : Vec F S128x128 .f32) (x2 : Vec F S1x128 .f32) (x3 : Vec F S128x128 .f32) (x4 : Vec F S1x128 .f32) (xs0 xs1 : Vec F S1x128 .f32) :
    sout4_C_0 c i a1 h1 a2 h2 a3 h3 a4 h4 a5 h5 a6 h6 a7 h7 a8 h8 a9 h9 a10 h10 hc0 hc1 x0 x1 x2 x3 x4 xs0 xs1 = k4_pay1 (k4_pay6 x0 x1 x3 x2 x4 xs0) := by
  unfold sout4_C_0
  rw [View.read_writes_eq_canon _ _ _ (scover4_C_0 c i a1 h1 a2 h2 a3 h3 a4 h4 a5 h5 a6 h6 a7 h7 a8 h8 a9 h9 a10 h10 hc0 hc1 x0 x1 x2 x3 x4 xs0 xs1)]
  unfold kernelRun4_C
  dsimp only
  sl_unfold_words
  rw [View.canon_unit_zero hz2r4]
  simp only [View.readAt_eq_ld, h1.read_unread, h2.read_unread, h3.read_unread, h4.read_unread, h5.read_unread, h9.read_unread, h10.read_unread, View.ld_unit_zero (S := S5000x128) hz2r4, View.ld_unit_zero (S := S128x128) hz2r4, View.ld_unit_zero (S := S1x128) hz2r4, View.readCov_unit_zero (S := S1x128) _ hz2r4]

/-- Case C: the running column sum of z² after the point. -/
theorem row1_C_4 (c : Dev nD) (i : grid4.Coords) (a1 : Memref sig .tc .vmem S5000x128 .f32) (h1 : a1.IsWhole) (a2 : Memref sig .tc .vmem S128x128 .f32) (h2 : a2.IsWhole) (a3 : Memref sig .tc .vmem S1x128 .f32) (h3 : a3.IsWhole) (a4 : Memref sig .tc .vmem S128x128 .f32) (h4 : a4.IsWhole) (a5 : Memref sig .tc .vmem S1x128 .f32) (h5 : a5.IsWhole) (a6 : Memref sig .tc .vmem S5000x128 .f32) (h6 : a6.IsWhole) (a7 : Memref sig .tc .vmem S1x128 .f32) (h7 : a7.IsWhole) (a8 : Memref sig .tc .vmem S1x128 .f32) (h8 : a8.IsWhole) (a9 : Memref sig .tc .vmem S1x128 .f32) (h9 : a9.IsWhole) (a10 : Memref sig .tc .vmem S1x128 .f32) (h10 : a10.IsWhole) (hc0 : ¬cond4_0 i) (hc1 : cond4_1 i)
    (x0 : Vec F S5000x128 .f32) (x1 : Vec F S128x128 .f32) (x2 : Vec F S1x128 .f32) (x3 : Vec F S128x128 .f32) (x4 : Vec F S1x128 .f32) (xs0 xs1 : Vec F S1x128 .f32) :
    sout4_C_1 c i a1 h1 a2 h2 a3 h3 a4 h4 a5 h5 a6 h6 a7 h7 a8 h8 a9 h9 a10 h10 hc0 hc1 x0 x1 x2 x3 x4 xs0 xs1 = k4_pay2 (k4_pay5 x0 x1 x3 x2 x4) xs1 := by
  unfold sout4_C_1
  rw [View.read_writes_eq_canon _ _ _ (scover4_C_1 c i a1 h1 a2 h2 a3 h3 a4 h4 a5 h5 a6 h6 a7 h7 a8 h8 a9 h9 a10 h10 hc0 hc1 x0 x1 x2 x3 x4 xs0 xs1)]
  unfold kernelRun4_C
  dsimp only
  sl_unfold_words
  rw [View.canon_unit_zero hz2r4]
  simp only [View.readAt_eq_ld, h1.read_unread, h2.read_unread, h3.read_unread, h4.read_unread, h5.read_unread, h9.read_unread, h10.read_unread, View.ld_unit_zero (S := S5000x128) hz2r4, View.ld_unit_zero (S := S128x128) hz2r4, View.ld_unit_zero (S := S1x128) hz2r4, View.readCov_unit_zero (S := S1x128) _ hz2r4]

/-- The last point copies the first row out. -/
theorem out6_C_4 (c : Dev nD) (i : grid4.Coords) (a1 : Memref sig .tc .vmem S5000x128 .f32) (h1 : a1.IsWhole) (a2 : Memref sig .tc .vmem S128x128 .f32) (h2 : a2.IsWhole) (a3 : Memref sig .tc .vmem S1x128 .f32) (h3 : a3.IsWhole) (a4 : Memref sig .tc .vmem S128x128 .f32) (h4 : a4.IsWhole) (a5 : Memref sig .tc .vmem S1x128 .f32) (h5 : a5.IsWhole) (a6 : Memref sig .tc .vmem S5000x128 .f32) (h6 : a6.IsWhole) (a7 : Memref sig .tc .vmem S1x128 .f32) (h7 : a7.IsWhole) (a8 : Memref sig .tc .vmem S1x128 .f32) (h8 : a8.IsWhole) (a9 : Memref sig .tc .vmem S1x128 .f32) (h9 : a9.IsWhole) (a10 : Memref sig .tc .vmem S1x128 .f32) (h10 : a10.IsWhole) (hc0 : ¬cond4_0 i) (hc1 : cond4_1 i)
    (x0 : Vec F S5000x128 .f32) (x1 : Vec F S128x128 .f32) (x2 : Vec F S1x128 .f32) (x3 : Vec F S128x128 .f32) (x4 : Vec F S1x128 .f32) (xs0 xs1 : Vec F S1x128 .f32) :
    out4_C_6 c i a1 h1 a2 h2 a3 h3 a4 h4 a5 h5 a6 h6 a7 h7 a8 h8 a9 h9 a10 h10 hc0 hc1 x0 x1 x2 x3 x4 xs0 xs1 = k4_pay1 (k4_pay6 x0 x1 x3 x2 x4 xs0) := by
  unfold out4_C_6
  rw [View.read_writes_eq_canon _ _ _ (cover4_C_6 c i a1 h1 a2 h2 a3 h3 a4 h4 a5 h5 a6 h6 a7 h7 a8 h8 a9 h9 a10 h10 hc0 hc1 x0 x1 x2 x3 x4 xs0 xs1)]
  unfold kernelRun4_C
  dsimp only
  sl_unfold_words
  rw [View.canon_unit_zero hz2r4]
  simp only [View.readAt_eq_ld, h1.read_unread, h2.read_unread, h3.read_unread, h4.read_unread, h5.read_unread, h9.read_unread, h10.read_unread, View.ld_unit_zero (S := S5000x128) hz2r4, View.ld_unit_zero (S := S128x128) hz2r4, View.ld_unit_zero (S := S1x128) hz2r4, View.readCov_unit_zero (S := S1x128) _ hz2r4]

/-- The last point copies the second row out. -/
theorem out7_C_4 (c : Dev nD) (i : grid4.Coords) (a1 : Memref sig .tc .vmem S5000x128 .f32) (h1 : a1.IsWhole) (a2 : Memref sig .tc .vmem S128x128 .f32) (h2 : a2.IsWhole) (a3 : Memref sig .tc .vmem S1x128 .f32) (h3 : a3.IsWhole) (a4 : Memref sig .tc .vmem S128x128 .f32) (h4 : a4.IsWhole) (a5 : Memref sig .tc .vmem S1x128 .f32) (h5 : a5.IsWhole) (a6 : Memref sig .tc .vmem S5000x128 .f32) (h6 : a6.IsWhole) (a7 : Memref sig .tc .vmem S1x128 .f32) (h7 : a7.IsWhole) (a8 : Memref sig .tc .vmem S1x128 .f32) (h8 : a8.IsWhole) (a9 : Memref sig .tc .vmem S1x128 .f32) (h9 : a9.IsWhole) (a10 : Memref sig .tc .vmem S1x128 .f32) (h10 : a10.IsWhole) (hc0 : ¬cond4_0 i) (hc1 : cond4_1 i)
    (x0 : Vec F S5000x128 .f32) (x1 : Vec F S128x128 .f32) (x2 : Vec F S1x128 .f32) (x3 : Vec F S128x128 .f32) (x4 : Vec F S1x128 .f32) (xs0 xs1 : Vec F S1x128 .f32) :
    out4_C_7 c i a1 h1 a2 h2 a3 h3 a4 h4 a5 h5 a6 h6 a7 h7 a8 h8 a9 h9 a10 h10 hc0 hc1 x0 x1 x2 x3 x4 xs0 xs1 = k4_pay2 (k4_pay5 x0 x1 x3 x2 x4) xs1 := by
  unfold out4_C_7
  rw [View.read_writes_eq_canon _ _ _ (cover4_C_7 c i a1 h1 a2 h2 a3 h3 a4 h4 a5 h5 a6 h6 a7 h7 a8 h8 a9 h9 a10 h10 hc0 hc1 x0 x1 x2 x3 x4 xs0 xs1)]
  unfold kernelRun4_C
  dsimp only
  sl_unfold_words
  rw [View.canon_unit_zero hz2r4]
  simp only [View.readAt_eq_ld, h1.read_unread, h2.read_unread, h3.read_unread, h4.read_unread, h5.read_unread, h9.read_unread, h10.read_unread, View.ld_unit_zero (S := S5000x128) hz2r4, View.ld_unit_zero (S := S128x128) hz2r4, View.ld_unit_zero (S := S1x128) hz2r4, View.readCov_unit_zero (S := S1x128) _ hz2r4]

section Acc4

variable (V : (c : Dev nD) → (b : Ref sig .tc) → Buf (Elt F) ((c : Thread nD τ).loc b))

/-- The z block point `t` stores: the perceptron's payload of the point's input blocks. -/
def zblk4 (c : Dev nD) (t : Fin cfg4.N) : Vec F S5000x128 .f32 := k4_pay5 (iblk4 V c 0 t) (iblk4 V c 1 t) (iblk4 V c 3 t) (iblk4 V c 2 t) (iblk4 V c 4 t)

/-- One step of the running column sum of z: the row before, plus the block's column sum. -/
def stepS4 (c : Dev nD) (t : Fin cfg4.N) (prev : Vec F S1x128 .f32) : Vec F S1x128 .f32 :=
  k4_pay1 (k4_pay6 (iblk4 V c 0 t) (iblk4 V c 1 t) (iblk4 V c 3 t) (iblk4 V c 2 t) (iblk4 V c 4 t) prev)
/-- One step of the running column sum of z². -/
def stepQ4 (c : Dev nD) (t : Fin cfg4.N) (prev : Vec F S1x128 .f32) : Vec F S1x128 .f32 :=
  k4_pay2 (zblk4 V c t) prev

/-- The running column sums after point `n`: from the zero rows at the first point, one step per point. -/
def rowS4 (c : Dev nD) : (n : ℕ) → n < cfg4.N → Vec F S1x128 .f32
  | 0, h => stepS4 V c ⟨0, h⟩ (k4_pay3 (F := F))
  | n + 1, h => stepS4 V c ⟨n + 1, h⟩ (rowS4 c n (Nat.lt_of_succ_lt h))
def rowQ4 (c : Dev nD) : (n : ℕ) → n < cfg4.N → Vec F S1x128 .f32
  | 0, h => stepQ4 V c ⟨0, h⟩ (k4_pay4 (F := F))
  | n + 1, h => stepQ4 V c ⟨n + 1, h⟩ (rowQ4 c n (Nat.lt_of_succ_lt h))

end Acc4

end Cert.KernelIdeal.Hand

end
-- ==== Proof.KiPay4.lean ====
/-
  Layer 3's perceptron body computes the same terms as layer 1's, so its stored values read entry by entry as
  layer 1's do: the z block as two dense layers each followed by the rectifier, and the two running-sum rows as the
  previous rows plus the column sums of the block and of its squares.
-/
import proofs.«160011_j2121713844488_1_alg».proof.Proof.KiPay0

noncomputable section

namespace Cert.KernelIdeal.PayValue

open Cert.KernelIdeal Cert.KernelIdeal.Gen Idealize.ShloMosaic Idealize.ShloMosaic.ValueIdx

section AnyInstance
variable {F : FTy → Type} [FloatOps F]

/-- This layer's bodies are, term by term, layer 1's. -/
theorem k4_pay1_eq_k0 : k4_pay1 (F := F) = k0_pay1 (F := F) := rfl
theorem k4_pay2_eq_k0 : k4_pay2 (F := F) = k0_pay2 (F := F) := rfl
theorem k4_pay3_eq_k0 : k4_pay3 (F := F) = k0_pay3 (F := F) := rfl
theorem k4_pay4_eq_k0 : k4_pay4 (F := F) = k0_pay4 (F := F) := rfl
theorem k4_pay5_eq_k0 : k4_pay5 (F := F) = k0_pay5 (F := F) := rfl
theorem k4_pay6_eq_k0 : k4_pay6 (F := F) = k0_pay6 (F := F) := rfl

end AnyInstance

/-- The stored z block: two dense layers, each followed by the rectifier. -/
theorem k4_pay5_apply (v3 : Vec Ideal S5000x128 .f32) (v5 : Vec Ideal S128x128 .f32) (v8 : Vec Ideal S128x128 .f32)
    (v13 : Vec Ideal S1x128 .f32) (v21 : Vec Ideal S1x128 .f32) (r : Fin 5000) (j : Fin 128) :
    k4_pay5 v3 v5 v8 v13 v21 (ix2 r j)
      = max ((∑ k : Fin 128, max ((∑ q : Fin 128, v3 (ix2 r q) * v5 (ix2 q k)) + v13 (ix2 (0 : Fin 1) k)) 0 * v8 (ix2 k j))
          + v21 (ix2 (0 : Fin 1) j)) 0 := by
  rw [k4_pay5_eq_k0]
  exact pay5_apply v3 v5 v8 v13 v21 r j

/-- The running column sums of z after this block. -/
theorem k4_pay6_apply (v3 : Vec Ideal S5000x128 .f32) (v5 : Vec Ideal S128x128 .f32) (v8 : Vec Ideal S128x128 .f32)
    (v13 : Vec Ideal S1x128 .f32) (v21 : Vec Ideal S1x128 .f32) (v28 : Vec Ideal S1x128 .f32) (j : Fin 128) :
    k4_pay6 v3 v5 v8 v13 v21 v28 (ix2 (0 : Fin 1) j)
      = v28 (ix2 (0 : Fin 1) j) + ∑ r : Fin 5000, k4_pay5 v3 v5 v8 v13 v21 (ix2 r j) := by
  rw [k4_pay6_eq_k0, k4_pay5_eq_k0]
  exact pay6_apply v3 v5 v8 v13 v21 v28 j

/-- The running column sums of z² after this block. -/
theorem k4_pay2_apply (v26 : FVec Ideal S5000x128 .f32) (v35 : Vec Ideal S1x128 .f32) (j : Fin 128) :
    k4_pay2 v26 v35 (ix2 (0 : Fin 1) j)
      = v35 (ix2 (0 : Fin 1) j) + ∑ r : Fin 5000, v26 (ix2 r j) * v26 (ix2 r j) := by
  rw [k4_pay2_eq_k0]
  exact pay2_apply v26 v35 j

/-- The row stored back unchanged. -/
theorem k4_pay1_eq (v31 : FVec Ideal S1x128 .f32) : k4_pay1 v31 = v31 := by
  rw [k4_pay1_eq_k0]
  exact pay1_eq v31

/-- The two running-sum rows start from zero. -/
theorem k4_pay3_apply (j : Fin 128) : k4_pay3 (F := Ideal) (ix2 (0 : Fin 1) j) = 0 := by
  rw [k4_pay3_eq_k0]
  exact pay3_apply j

theorem k4_pay4_apply (j : Fin 128) : k4_pay4 (F := Ideal) (ix2 (0 : Fin 1) j) = 0 := by
  rw [k4_pay4_eq_k0]
  exact pay4_apply j

end Cert.KernelIdeal.PayValue

end
-- ==== Proof.KiMlp4Final.lean ====
import proofs.«160011_j2121713844488_1_alg».proof.Proof.KiMlp4Value
import proofs.«160011_j2121713844488_1_alg».proof.Proof.KiPay4
import proofs.«160011_j2121713844488_1_alg».proof.Proof.Spec
import proofs.«160011_j2121713844488_1_alg».proof.Proof.LibLayerStats
import Idealize.ShloMosaic.Lib.Pipeline.Value
import Idealize.ShloMosaic.Lib.ValueIdx

/-! # The perceptron region 4: the three output arrays after all 20 points

At a point the body writes the whole 5000 × 128 block of the z output (the perceptron's payload of the block of
aggregated features and of the four whole weight and bias arrays) and adds the block's column sums to two running
1 × 128 rows, which it writes out at the last point only. The feature window and the z window move together down the
20 blocks of 5000 rows and the 20 z blocks tile the 100000 rows, so the z array ends as one function of the five input
arrays; the two row outputs are written once, through a block that is their whole array, so they end holding the
running rows after the last point. At the exact instance the z array is the specification's perceptron entry by
entry and the rows are zero plus the sums over the 20 blocks of the blocks' column sums of z and of z². -/

set_option maxRecDepth 16384

noncomputable section

namespace Cert.KernelIdeal.Hand

open Cert.KernelIdeal Cert.KernelIdeal.Gen
open Idealize.ShloMosaic Idealize.ShloMosaic.TcCoe Idealize.ShloMosaic.Tactic
open Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

-- the contents of the core's buffers when the region is entered
variable (V : (c : Dev nD) → (b : Ref sig .tc) → Buf (Elt F) ((c : Thread nD τ).loc b))

/-! ## The z array as one function of the five input arrays -/

/-- The rows `5000·q …` of a `100000 × 128` array, as a `5000 × 128` block. -/
def rows4 (x : S100000x128.Idx → Elt F .f32) (q : Nat) (hq : q < 20) : S5000x128.Idx → Elt F .f32 :=
  fun y => x (ix2 (⟨5000 * q + (y 0).val, by
      have h2 : (y 0).val < 5000 := idx2_lt0 y
      omega⟩ : Fin 100000) (⟨(y 1).val, idx2_lt1 y⟩ : Fin 128))

/-- The z array: its block of 5000 rows at block-row `b` is the perceptron's payload of rows
    `5000·b … 5000·b + 4999` of the feature array and of the two weight and two bias arrays; entry `(n, j)` is that
    block's entry `(n mod 5000, j)`. -/
def G4z (x : S100000x128.Idx → Elt F .f32) (w1 : S128x128.Idx → Elt F .f32) (b1 : S1x128.Idx → Elt F .f32)
    (w2 : S128x128.Idx → Elt F .f32) (b2 : S1x128.Idx → Elt F .f32) : S100000x128.Idx → Elt F .f32 :=
  fun i => k4_pay5 (rows4 x ((i 0).val / 5000) (by have h1 : (i 0).val < 100000 := idx2_lt0 i; omega)) w1 w2 b1 b2
    (ix2 (⟨(i 0).val % 5000, Nat.mod_lt _ (by norm_num)⟩ : Fin 5000) (⟨(i 1).val, idx2_lt1 i⟩ : Fin 128))

/-- One block of the z array: if `x0` is rows `5000·q …` of the feature array and the other four operands are
    the whole weight and bias arrays, the payload at block index `j` is the array's entry at `(5000·q + j₀, j₁)`. -/
theorem G4z_block (x : S100000x128.Idx → Elt F .f32) (w1 : S128x128.Idx → Elt F .f32) (b1 : S1x128.Idx → Elt F .f32)
    (w2 : S128x128.Idx → Elt F .f32) (b2 : S1x128.Idx → Elt F .f32)
    (x0 : Vec F S5000x128 .f32) (x1 : Vec F S128x128 .f32) (x2 : Vec F S1x128 .f32) (x3 : Vec F S128x128 .f32)
    (x4 : Vec F S1x128 .f32) (q : Nat) (hq : q < 20)
    (h0 : x0 = rows4 x q hq) (h1 : x1 = w1) (h2 : x2 = b1) (h3 : x3 = w2) (h4 : x4 = b2)
    (j : S5000x128.Idx) (i : S100000x128.Idx) (hi0 : (i 0).val = q * 5000 + (j 0).val) (hi1 : (i 1).val = (j 1).val) :
    k4_pay5 x0 x1 x3 x2 x4 j = G4z x w1 b1 w2 b2 i := by
  subst h0 h1 h2 h3 h4
  have hj0 : (j 0).val < 5000 := idx2_lt0 j
  have hq' : (i 0).val / 5000 = q := by omega
  have hm : (i 0).val % 5000 = (j 0).val := by omega
  have ej : j = ix2 (⟨(i 0).val % 5000, Nat.mod_lt _ (by norm_num)⟩ : Fin 5000) (⟨(i 1).val, idx2_lt1 i⟩ : Fin 128) := by
    funext a
    match a with
    | ⟨0, _⟩ => exact Fin.ext hm.symm
    | ⟨1, _⟩ => exact Fin.ext hi1.symm
  subst hq'
  exact congrArg (fun J => k4_pay5 (rows4 x ((i 0).val / 5000) hq) x1 x3 x2 x4 J) ej

/-- A block that reads an array at the same coordinates is the array. -/
theorem whole4m {n0 n1 : Nat} {α : Type} (arr x : (⟨2, ![n0, n1]⟩ : Shape).Idx → α)
    (hx : ∀ y, ∃ i, x y = arr i ∧ (i 0).val = (y 0).val ∧ (i 1).val = (y 1).val) : x = arr := by
  funext y
  obtain ⟨i, e, e0, e1⟩ := hx y
  rw [e]
  refine congrArg arr ?_
  funext a
  match a with
  | ⟨0, _⟩ => exact Fin.ext e0
  | ⟨1, _⟩ => exact Fin.ext e1

/-- A block that reads a `100000 × 128` array at rows shifted by `5000·q` is that block of rows. -/
theorem rows4_eq (z : S100000x128.Idx → Elt F .f32) (q : Nat) (hq : q < 20) (x : S5000x128.Idx → Elt F .f32)
    (hx : ∀ y, ∃ i, x y = z i ∧ (i 0).val = 5000 * q + (y 0).val ∧ (i 1).val = (y 1).val) : x = rows4 z q hq := by
  funext y
  obtain ⟨i, e, e0, e1⟩ := hx y
  rw [e]
  refine congrArg z ?_
  funext a
  match a with
  | ⟨0, _⟩ => exact Fin.ext e0
  | ⟨1, _⟩ => exact Fin.ext e1

/-! ## The printed index maps, decided over the grid -/

/-- At point `t` the feature window and the z window are at block-row `t`, column block `0`; the weight, bias
    and running-row windows are at block `(0, 0)`: their block is their whole array. -/
theorem idx_facts4m : ∀ t : Fin cfg4.N,
    win4_5.index t (0 : Fin 2) = t.val ∧ win4_5.index t (1 : Fin 2) = 0
    ∧ win4_0.index t (0 : Fin 2) = t.val ∧ win4_0.index t (1 : Fin 2) = 0
    ∧ win4_1.index t (0 : Fin 2) = 0 ∧ win4_1.index t (1 : Fin 2) = 0
    ∧ win4_2.index t (0 : Fin 2) = 0 ∧ win4_2.index t (1 : Fin 2) = 0
    ∧ win4_3.index t (0 : Fin 2) = 0 ∧ win4_3.index t (1 : Fin 2) = 0
    ∧ win4_4.index t (0 : Fin 2) = 0 ∧ win4_4.index t (1 : Fin 2) = 0
    ∧ win4_6.index t (0 : Fin 2) = 0 ∧ win4_6.index t (1 : Fin 2) = 0
    ∧ win4_7.index t (0 : Fin 2) = 0 ∧ win4_7.index t (1 : Fin 2) = 0 :=
  (by decide +kernel : ∀ t : Fin grid4.N, _)

/-! ## The input blocks at a point -/

set_option maxHeartbeats 2000000 in
/-- The feature window's block at point `t` is rows `5000·t …` of the feature array. -/
theorem iblk4_0_eq (c : Dev nD) (t : Fin cfg4.N) (ht : t.val < 20) :
    iblk4 V c 0 t = rows4 (V c (Pipeline.arrRef spec4 0)) t.val ht := by
  obtain ⟨e50, e51, e00, e01, -⟩ := idx_facts4m t
  refine rows4_eq _ _ _ _ fun y => ⟨((cfg4.win 0).blk t).view.emb y, rfl, ?_, ?_⟩
  · show win4_0.index t (0 : Fin 2) * 5000 + 1 * (y 0).val = 5000 * t.val + (y 0).val; omega
  · show win4_0.index t (1 : Fin 2) * 128 + 1 * (y 1).val = (y 1).val; omega

set_option maxHeartbeats 2000000 in
/-- The first weight window's block is the whole weight array, at every point. -/
theorem iblk4_1_eq (c : Dev nD) (t : Fin cfg4.N) : iblk4 V c 1 t = V c (Pipeline.arrRef spec4 1) := by
  obtain ⟨-, -, -, -, e10, e11, -⟩ := idx_facts4m t
  refine whole4m _ _ fun y => ⟨((cfg4.win 1).blk t).view.emb y, rfl, ?_, ?_⟩
  · show win4_1.index t (0 : Fin 2) * 128 + 1 * (y 0).val = (y 0).val; omega
  · show win4_1.index t (1 : Fin 2) * 128 + 1 * (y 1).val = (y 1).val; omega

set_option maxHeartbeats 2000000 in
/-- The first bias window's block is the whole bias row, at every point. -/
theorem iblk4_2_eq (c : Dev nD) (t : Fin cfg4.N) : iblk4 V c 2 t = V c (Pipeline.arrRef spec4 2) := by
  obtain ⟨-, -, -, -, -, -, e20, e21, -⟩ := idx_facts4m t
  refine whole4m _ _ fun y => ⟨((cfg4.win 2).blk t).view.emb y, rfl, ?_, ?_⟩
  · show win4_2.index t (0 : Fin 2) * 1 + 1 * (y 0).val = (y 0).val; omega
  · show win4_2.index t (1 : Fin 2) * 128 + 1 * (y 1).val = (y 1).val; omega

set_option maxHeartbeats 2000000 in
/-- The second weight window's block is the whole weight array, at every point. -/
theorem iblk4_3_eq (c : Dev nD) (t : Fin cfg4.N) : iblk4 V c 3 t = V c (Pipeline.arrRef spec4 3) := by
  obtain ⟨-, -, -, -, -, -, -, -, e30, e31, -⟩ := idx_facts4m t
  refine whole4m _ _ fun y => ⟨((cfg4.win 3).blk t).view.emb y, rfl, ?_, ?_⟩
  · show win4_3.index t (0 : Fin 2) * 128 + 1 * (y 0).val = (y 0).val; omega
  · show win4_3.index t (1 : Fin 2) * 128 + 1 * (y 1).val = (y 1).val; omega

set_option maxHeartbeats 2000000 in
/-- The second bias window's block is the whole bias row, at every point. -/
theorem iblk4_4_eq (c : Dev nD) (t : Fin cfg4.N) : iblk4 V c 4 t = V c (Pipeline.arrRef spec4 4) := by
  obtain ⟨-, -, -, -, -, -, -, -, -, -, e40, e41, -⟩ := idx_facts4m t
  refine whole4m _ _ fun y => ⟨((cfg4.win 4).blk t).view.emb y, rfl, ?_, ?_⟩
  · show win4_4.index t (0 : Fin 2) * 1 + 1 * (y 0).val = (y 0).val; omega
  · show win4_4.index t (1 : Fin 2) * 128 + 1 * (y 1).val = (y 1).val; omega

/-- The z block a point stores, from the arrays as the region finds them. -/
theorem zblk4_eq (c : Dev nD) (t : Fin cfg4.N) (ht : t.val < 20) :
    zblk4 V c t = k4_pay5 (rows4 (V c (Pipeline.arrRef spec4 0)) t.val ht) (V c (Pipeline.arrRef spec4 1))
      (V c (Pipeline.arrRef spec4 3)) (V c (Pipeline.arrRef spec4 2)) (V c (Pipeline.arrRef spec4 4)) := by
  unfold zblk4
  rw [iblk4_0_eq V c t ht, iblk4_1_eq V c t, iblk4_2_eq V c t, iblk4_3_eq V c t, iblk4_4_eq V c t]

/-! ## What a point writes back to the z array -/

set_option maxHeartbeats 2000000 in
/-- What point `t` writes back to the z array is block `t` of the z array of the five input arrays as the
    region finds them — given that the z window's staging buffer holds the point's z block after the body. -/
theorem flushed4_5_eq (c : Dev nD) (hZ : ∀ t : Fin cfg4.N, (dat4 V c).after 5 t = zblk4 V c t) (t : Fin cfg4.N) :
    (dat4 V c).flushed 5 t = ((cfg4.win 5).blk t).view.read (Elt F)
      (G4z (V c (Pipeline.arrRef spec4 0)) (V c (Pipeline.arrRef spec4 1)) (V c (Pipeline.arrRef spec4 2))
        (V c (Pipeline.arrRef spec4 3)) (V c (Pipeline.arrRef spec4 4))) := by
  show (cfg4.win 5).cut (grid4.coords t) ((dat4 V c).after 5 t) = _
  have ht : t.val < 20 := lt_of_lt_of_eq t.isLt N_4
  rw [hZ t, zblk4_eq V c t ht]
  obtain ⟨e50, e51, -⟩ := idx_facts4m t
  funext j
  show k4_pay5 (rows4 (V c (Pipeline.arrRef spec4 0)) t.val ht) (V c (Pipeline.arrRef spec4 1))
      (V c (Pipeline.arrRef spec4 3)) (V c (Pipeline.arrRef spec4 2)) (V c (Pipeline.arrRef spec4 4)) j
    = G4z (V c (Pipeline.arrRef spec4 0)) (V c (Pipeline.arrRef spec4 1)) (V c (Pipeline.arrRef spec4 2))
        (V c (Pipeline.arrRef spec4 3)) (V c (Pipeline.arrRef spec4 4)) (((cfg4.win 5).blk t).view.emb j)
  refine G4z_block _ _ _ _ _ _ _ _ _ _ t.val ht rfl rfl rfl rfl rfl j _ ?_ ?_
  · show win4_5.index t (0 : Fin 2) * 5000 + 1 * (j 0).val = t.val * 5000 + (j 0).val; omega
  · show win4_5.index t (1 : Fin 2) * 128 + 1 * (j 1).val = (j 1).val; omega

/-- An index of the z array is in point `t`'s block iff each coordinate is in the block's range on its axis. -/
theorem mem_blk4_5m (t : Fin cfg4.N) (i : S100000x128.Idx) :
    i ∈ ((cfg4.win 5).blk t).view.set ↔ ∀ a : Fin 2, win4_5.index t a * S5000x128.size a ≤ (i a).val ∧ (i a).val < win4_5.index t a * S5000x128.size a + S5000x128.size a := by
  show i ∈ ((View.whole main_v95_0).slice (win4_5.rect t)).set ↔ _
  rw [View.set_slice_whole, Rect.mem_set_unit]
  exact Iff.rfl

/-- Every row `n` of the z array is in the block of point `n / 5000`. -/
theorem blocks_cover4m (i : S100000x128.Idx) :
    ∃ t : Fin cfg4.N, (cfg4.win 5).flush t = true ∧ i ∈ ((cfg4.win 5).blk t).view.set := by
  have hi0 : (i 0).val < 100000 := idx2_lt0 i
  have hi1 : (i 1).val < 128 := idx2_lt1 i
  obtain ⟨t, ht⟩ : ∃ t : Fin cfg4.N, t.val = (i 0).val / 5000 :=
    ⟨⟨(i 0).val / 5000, lt_of_lt_of_eq (by omega : (i 0).val / 5000 < 20) N_4.symm⟩, rfl⟩
  obtain ⟨e50, e51, -⟩ := idx_facts4m t
  refine ⟨t, flush4_5 t, ?_⟩
  rw [mem_blk4_5m]
  intro a
  match a with
  | ⟨0, _⟩ => show win4_5.index t (0 : Fin 2) * 5000 ≤ (i 0).val ∧ (i 0).val < win4_5.index t (0 : Fin 2) * 5000 + 5000; omega
  | ⟨1, _⟩ => show win4_5.index t (1 : Fin 2) * 128 ≤ (i 1).val ∧ (i 1).val < win4_5.index t (1 : Fin 2) * 128 + 128; omega

/-- After all 20 points the z array holds the z array of the five input arrays as the region finds them. -/
theorem final4_5 (c : Dev nD) (hZ : ∀ t : Fin cfg4.N, (dat4 V c).after 5 t = zblk4 V c t) :
    (dat4 V c).arrAt 5 cfg4.N
      = G4z (V c (Pipeline.arrRef spec4 0)) (V c (Pipeline.arrRef spec4 1)) (V c (Pipeline.arrRef spec4 2))
        (V c (Pipeline.arrRef spec4 3)) (V c (Pipeline.arrRef spec4 4)) :=
  (dat4 V c).arrAt_eq_of_cover 5 _ (fun t _ => flushed4_5_eq V c hZ t) blocks_cover4m

/-! ## The two row outputs: one write-back, at the last point, of the whole array -/

/-- The last point. -/
theorem lt19_4 : 19 < cfg4.N := lt_of_lt_of_eq (by norm_num) N_4.symm

set_option maxHeartbeats 2000000 in
/-- The one write-back of the column-sum row, at the last point, writes the running row after that point: block
    `(0, 0)` of the 1 × 128 array read through zero offsets is the array. -/
theorem flushed4_6_eq (c : Dev nD)
    (hS : ∀ t : Fin cfg4.N, t.val % 20 = 19 → (dat4 V c).after 6 t = rowS4 V c t.val t.isLt)
    (t : Fin cfg4.N) (hf : (cfg4.win 6).flush t = true) :
    (dat4 V c).flushed 6 t = ((cfg4.win 6).blk t).view.read (Elt F) (rowS4 V c 19 lt19_4) := by
  have ht : t.val < 20 := lt_of_lt_of_eq t.isLt N_4
  have h19 : t.val % 20 = 19 := (flush4_6 t).mp hf
  have e : t = ⟨19, lt19_4⟩ := Fin.ext (show t.val = 19 by omega)
  show (cfg4.win 6).cut (grid4.coords t) ((dat4 V c).after 6 t) = _
  rw [hS t h19]
  obtain ⟨-, -, -, -, -, -, -, -, -, -, -, -, e60, e61, -⟩ := idx_facts4m t
  have hz' : (fun a => win4_6.index t a * main_v95_1.ty.shape.size a) = fun _ => 0 := funext fun a => by
    match a with
    | ⟨0, _⟩ => show win4_6.index t (0 : Fin 2) * 1 = 0; omega
    | ⟨1, _⟩ => show win4_6.index t (1 : Fin 2) * 128 = 0; omega
  have er : rowS4 V c t.val t.isLt = rowS4 V c 19 lt19_4 := by subst e; rfl
  rw [er]
  exact (Memref.read_access_unit_zero (Elt F) main_v95_1 hz' (fun a => by rw [congrFun hz' a]; simp) (rowS4 V c 19 lt19_4)).symm

set_option maxHeartbeats 2000000 in
/-- The same for the row of column sums of squares. -/
theorem flushed4_7_eq (c : Dev nD)
    (hQ : ∀ t : Fin cfg4.N, t.val % 20 = 19 → (dat4 V c).after 7 t = rowQ4 V c t.val t.isLt)
    (t : Fin cfg4.N) (hf : (cfg4.win 7).flush t = true) :
    (dat4 V c).flushed 7 t = ((cfg4.win 7).blk t).view.read (Elt F) (rowQ4 V c 19 lt19_4) := by
  have ht : t.val < 20 := lt_of_lt_of_eq t.isLt N_4
  have h19 : t.val % 20 = 19 := (flush4_7 t).mp hf
  have e : t = ⟨19, lt19_4⟩ := Fin.ext (show t.val = 19 by omega)
  show (cfg4.win 7).cut (grid4.coords t) ((dat4 V c).after 7 t) = _
  rw [hQ t h19]
  obtain ⟨-, -, -, -, -, -, -, -, -, -, -, -, -, -, e70, e71⟩ := idx_facts4m t
  have hz' : (fun a => win4_7.index t a * main_v95_2.ty.shape.size a) = fun _ => 0 := funext fun a => by
    match a with
    | ⟨0, _⟩ => show win4_7.index t (0 : Fin 2) * 1 = 0; omega
    | ⟨1, _⟩ => show win4_7.index t (1 : Fin 2) * 128 = 0; omega
  have er : rowQ4 V c t.val t.isLt = rowQ4 V c 19 lt19_4 := by subst e; rfl
  rw [er]
  exact (Memref.read_access_unit_zero (Elt F) main_v95_2 hz' (fun a => by rw [congrFun hz' a]; simp) (rowQ4 V c 19 lt19_4)).symm

/-- Every index of a 1 × 128 row output is in the last point's block, which is written back. -/
theorem cover4_6 (i : S1x128.Idx) :
    ∃ t : Fin cfg4.N, (cfg4.win 6).flush t = true ∧ i ∈ ((cfg4.win 6).blk t).view.set := by
  have hi0 : (i 0).val < 1 := idx2_lt0 i
  have hi1 : (i 1).val < 128 := idx2_lt1 i
  obtain ⟨-, -, -, -, -, -, -, -, -, -, -, -, e60, e61, -⟩ := idx_facts4m ⟨19, lt19_4⟩
  refine ⟨⟨19, lt19_4⟩, (flush4_6 _).mpr (by norm_num), ?_⟩
  show i ∈ ((View.whole main_v95_1).slice (win4_6.rect ⟨19, lt19_4⟩)).set
  rw [View.set_slice_whole, Rect.mem_set_unit]
  intro a
  match a with
  | ⟨0, _⟩ => show win4_6.index ⟨19, lt19_4⟩ (0 : Fin 2) * 1 ≤ (i 0).val ∧ (i 0).val < win4_6.index ⟨19, lt19_4⟩ (0 : Fin 2) * 1 + 1; omega
  | ⟨1, _⟩ => show win4_6.index ⟨19, lt19_4⟩ (1 : Fin 2) * 128 ≤ (i 1).val ∧ (i 1).val < win4_6.index ⟨19, lt19_4⟩ (1 : Fin 2) * 128 + 128; omega

theorem cover4_7 (i : S1x128.Idx) :
    ∃ t : Fin cfg4.N, (cfg4.win 7).flush t = true ∧ i ∈ ((cfg4.win 7).blk t).view.set := by
  have hi0 : (i 0).val < 1 := idx2_lt0 i
  have hi1 : (i 1).val < 128 := idx2_lt1 i
  obtain ⟨-, -, -, -, -, -, -, -, -, -, -, -, -, -, e70, e71⟩ := idx_facts4m ⟨19, lt19_4⟩
  refine ⟨⟨19, lt19_4⟩, (flush4_7 _).mpr (by norm_num), ?_⟩
  show i ∈ ((View.whole main_v95_2).slice (win4_7.rect ⟨19, lt19_4⟩)).set
  rw [View.set_slice_whole, Rect.mem_set_unit]
  intro a
  match a with
  | ⟨0, _⟩ => show win4_7.index ⟨19, lt19_4⟩ (0 : Fin 2) * 1 ≤ (i 0).val ∧ (i 0).val < win4_7.index ⟨19, lt19_4⟩ (0 : Fin 2) * 1 + 1; omega
  | ⟨1, _⟩ => show win4_7.index ⟨19, lt19_4⟩ (1 : Fin 2) * 128 ≤ (i 1).val ∧ (i 1).val < win4_7.index ⟨19, lt19_4⟩ (1 : Fin 2) * 128 + 128; omega

/-- After all 20 points the column-sum output holds the running row after the last point. -/
theorem final4_6 (c : Dev nD)
    (hS : ∀ t : Fin cfg4.N, t.val % 20 = 19 → (dat4 V c).after 6 t = rowS4 V c t.val t.isLt) :
    (dat4 V c).arrAt 6 cfg4.N = rowS4 V c 19 lt19_4 :=
  (dat4 V c).arrAt_eq_of_cover 6 (rowS4 V c 19 lt19_4) (flushed4_6_eq V c hS) cover4_6

/-- After all 20 points the output of column sums of squares holds the running row after the last point. -/
theorem final4_7 (c : Dev nD)
    (hQ : ∀ t : Fin cfg4.N, t.val % 20 = 19 → (dat4 V c).after 7 t = rowQ4 V c t.val t.isLt) :
    (dat4 V c).arrAt 7 cfg4.N = rowQ4 V c 19 lt19_4 :=
  (dat4 V c).arrAt_eq_of_cover 7 (rowQ4 V c 19 lt19_4) (flushed4_7_eq V c hQ) cover4_7

/-! ## Entry by entry, at the exact instance -/

/-- Row `5000·b + r` of the 100000 rows: row `r` of block `b`. -/
def blkRow4 (b : Fin 20) (r : Fin 5000) : Fin 100000 :=
  ⟨5000 * b.val + r.val, by have h1 := b.isLt; have h2 := r.isLt; omega⟩

theorem blkRow4_val (b : Fin 20) (r : Fin 5000) : (blkRow4 b r).val = 5000 * b.val + r.val := rfl

/-- At the exact instance the z array at `(n, j)` is the specification's perceptron: the payload read at block
    index `(n mod 5000, j)` of the block of rows that holds row `n`. -/
theorem G4z_apply (x : Vec Ideal S100000x128 .f32) (w1 : Vec Ideal S128x128 .f32) (b1 : Vec Ideal S1x128 .f32)
    (w2 : Vec Ideal S128x128 .f32) (b2 : Vec Ideal S1x128 .f32) (n : Fin 100000) (j : Fin 128) :
    G4z (F := Ideal) x w1 b1 w2 b2 (ix2 n j)
      = Cert.Spec.mlp (fun n q => x (ix2 n q)) (fun q k => w1 (ix2 q k)) (fun k => b1 (ix2 (0 : Fin 1) k))
          (fun k j => w2 (ix2 k j)) (fun j => b2 (ix2 (0 : Fin 1) j)) n j := by
  have hq : n.val / 5000 < 20 := by have := n.isLt; omega
  have hrow : ∀ q : Fin 128,
      rows4 (F := Ideal) x (n.val / 5000) hq (ix2 (⟨n.val % 5000, Nat.mod_lt _ (by norm_num)⟩ : Fin 5000) q) = x (ix2 n q) := by
    intro q
    unfold rows4
    refine congrArg x ?_
    funext a
    match a with
    | ⟨0, _⟩ => exact Fin.ext (Nat.div_add_mod n.val 5000)
    | ⟨1, _⟩ => rfl
  unfold G4z
  rw [Cert.KernelIdeal.PayValue.k4_pay5_apply]
  show max ((∑ k : Fin 128, max ((∑ q : Fin 128,
      rows4 (F := Ideal) x (n.val / 5000) hq (ix2 (⟨n.val % 5000, Nat.mod_lt _ (by norm_num)⟩ : Fin 5000) q) * w1 (ix2 q k))
        + b1 (ix2 (0 : Fin 1) k)) 0 * w2 (ix2 k j)) + b2 (ix2 (0 : Fin 1) j)) 0 = _
  simp only [hrow, Cert.Spec.mlp]

/-- The z block a point stores, entry by entry: row `r` of block `t` is row `5000·t + r` of the
    specification's perceptron of the five input arrays. -/
theorem zblk4_apply (VI : (c : Dev nD) → (b : Ref sig .tc) → Buf (Elt Ideal) ((c : Thread nD τ).loc b))
    (c : Dev nD) (b : Fin 20) (hb : b.val < cfg4.N) (r : Fin 5000) (j : Fin 128) :
    zblk4 (F := Ideal) VI c ⟨b.val, hb⟩ (ix2 r j)
      = Cert.Spec.mlp (fun n q => VI c (Pipeline.arrRef spec4 0) (ix2 n q)) (fun q k => VI c (Pipeline.arrRef spec4 1) (ix2 q k))
          (fun k => VI c (Pipeline.arrRef spec4 2) (ix2 (0 : Fin 1) k)) (fun k j => VI c (Pipeline.arrRef spec4 3) (ix2 k j))
          (fun j => VI c (Pipeline.arrRef spec4 4) (ix2 (0 : Fin 1) j)) (blkRow4 b r) j := by
  rw [zblk4_eq VI c ⟨b.val, hb⟩ b.isLt, Cert.KernelIdeal.PayValue.k4_pay5_apply]
  rfl

/-- After the region, at the exact instance, the z array's entry `(n, j)` is the specification's perceptron of
    the five input arrays as the region finds them. -/
theorem final4_5_apply (VI : (c : Dev nD) → (b : Ref sig .tc) → Buf (Elt Ideal) ((c : Thread nD τ).loc b))
    (c : Dev nD) (hZ : ∀ t : Fin cfg4.N, (dat4 (F := Ideal) VI c).after 5 t = zblk4 VI c t)
    (n : Fin 100000) (j : Fin 128) :
    (dat4 (F := Ideal) VI c).arrAt 5 cfg4.N (ix2 n j)
      = Cert.Spec.mlp (fun n q => VI c (Pipeline.arrRef spec4 0) (ix2 n q)) (fun q k => VI c (Pipeline.arrRef spec4 1) (ix2 q k))
          (fun k => VI c (Pipeline.arrRef spec4 2) (ix2 (0 : Fin 1) k)) (fun k j => VI c (Pipeline.arrRef spec4 3) (ix2 k j))
          (fun j => VI c (Pipeline.arrRef spec4 4) (ix2 (0 : Fin 1) j)) n j := by
  rw [final4_5 VI c hZ]
  exact G4z_apply _ _ _ _ _ n j

/-- The column sum of the z block of point `b` at column `j` (zero past the grid). -/
def blockS4 (VI : (c : Dev nD) → (b : Ref sig .tc) → Buf (Elt Ideal) ((c : Thread nD τ).loc b)) (c : Dev nD)
    (j : Fin 128) (b : ℕ) : EReal :=
  if hb : b < cfg4.N then ∑ r : Fin 5000, zblk4 (F := Ideal) VI c ⟨b, hb⟩ (ix2 r j) else 0

/-- The column sum of the squares of the z block of point `b` at column `j` (zero past the grid). -/
def blockQ4 (VI : (c : Dev nD) → (b : Ref sig .tc) → Buf (Elt Ideal) ((c : Thread nD τ).loc b)) (c : Dev nD)
    (j : Fin 128) (b : ℕ) : EReal :=
  if hb : b < cfg4.N then ∑ r : Fin 5000, zblk4 (F := Ideal) VI c ⟨b, hb⟩ (ix2 r j) * zblk4 (F := Ideal) VI c ⟨b, hb⟩ (ix2 r j) else 0

/-- The running column-sum row after point `n` is the running total of the blocks' column sums: it starts as
    zero plus the first block's and each later block's is added to it. -/
theorem rowS4_apply (VI : (c : Dev nD) → (b : Ref sig .tc) → Buf (Elt Ideal) ((c : Thread nD τ).loc b)) (c : Dev nD)
    (j : Fin 128) : ∀ (n : ℕ) (h : n < cfg4.N),
      rowS4 (F := Ideal) VI c n h (ix2 (0 : Fin 1) j) = Cert.LibLayerStats.accS (blockS4 VI c j) n
  | 0, h => by
    show stepS4 VI c ⟨0, h⟩ (k4_pay3 (F := Ideal)) (ix2 (0 : Fin 1) j) = 0 + blockS4 VI c j 0
    unfold stepS4 blockS4
    rw [Cert.KernelIdeal.PayValue.k4_pay1_eq, Cert.KernelIdeal.PayValue.k4_pay6_apply, Cert.KernelIdeal.PayValue.k4_pay3_apply, dif_pos h]
    rfl
  | n + 1, h => by
    show stepS4 VI c ⟨n + 1, h⟩ (rowS4 VI c n (Nat.lt_of_succ_lt h)) (ix2 (0 : Fin 1) j)
      = Cert.LibLayerStats.accS (blockS4 VI c j) n + blockS4 VI c j (n + 1)
    unfold stepS4
    rw [Cert.KernelIdeal.PayValue.k4_pay1_eq, Cert.KernelIdeal.PayValue.k4_pay6_apply, rowS4_apply VI c j n (Nat.lt_of_succ_lt h)]
    unfold blockS4
    rw [dif_pos h]
    rfl

/-- The same for the running row of column sums of squares. -/
theorem rowQ4_apply (VI : (c : Dev nD) → (b : Ref sig .tc) → Buf (Elt Ideal) ((c : Thread nD τ).loc b)) (c : Dev nD)
    (j : Fin 128) : ∀ (n : ℕ) (h : n < cfg4.N),
      rowQ4 (F := Ideal) VI c n h (ix2 (0 : Fin 1) j) = Cert.LibLayerStats.accS (blockQ4 VI c j) n
  | 0, h => by
    show stepQ4 VI c ⟨0, h⟩ (k4_pay4 (F := Ideal)) (ix2 (0 : Fin 1) j) = 0 + blockQ4 VI c j 0
    unfold stepQ4 blockQ4
    rw [Cert.KernelIdeal.PayValue.k4_pay2_apply, Cert.KernelIdeal.PayValue.k4_pay4_apply, dif_pos h]
  | n + 1, h => by
    show stepQ4 VI c ⟨n + 1, h⟩ (rowQ4 VI c n (Nat.lt_of_succ_lt h)) (ix2 (0 : Fin 1) j)
      = Cert.LibLayerStats.accS (blockQ4 VI c j) n + blockQ4 VI c j (n + 1)
    unfold stepQ4
    rw [Cert.KernelIdeal.PayValue.k4_pay2_apply, rowQ4_apply VI c j n (Nat.lt_of_succ_lt h)]
    unfold blockQ4
    rw [dif_pos h]

/-- After the last of the 20 points the running total is zero plus the sum over all 20 blocks. -/
theorem accS19_4 (bs : ℕ → EReal) : Cert.LibLayerStats.accS bs 19 = 0 + ∑ b : Fin 20, bs b.val :=
  Cert.LibLayerStats.accS_last (B := 20) (by norm_num) bs

set_option maxHeartbeats 2000000 in
/-- After the region, at the exact instance, the column-sum output at column `j` is zero plus the sum over the 20
    blocks of the sums over the block's 5000 rows of the specification's perceptron of the five input arrays. -/
theorem final4_6_apply (VI : (c : Dev nD) → (b : Ref sig .tc) → Buf (Elt Ideal) ((c : Thread nD τ).loc b)) (c : Dev nD)
    (hS : ∀ t : Fin cfg4.N, t.val % 20 = 19 → (dat4 (F := Ideal) VI c).after 6 t = rowS4 VI c t.val t.isLt)
    (j : Fin 128) :
    (dat4 (F := Ideal) VI c).arrAt 6 cfg4.N (ix2 (0 : Fin 1) j)
      = 0 + ∑ b : Fin 20, ∑ r : Fin 5000,
          Cert.Spec.mlp (fun n q => VI c (Pipeline.arrRef spec4 0) (ix2 n q)) (fun q k => VI c (Pipeline.arrRef spec4 1) (ix2 q k))
            (fun k => VI c (Pipeline.arrRef spec4 2) (ix2 (0 : Fin 1) k)) (fun k j => VI c (Pipeline.arrRef spec4 3) (ix2 k j))
            (fun j => VI c (Pipeline.arrRef spec4 4) (ix2 (0 : Fin 1) j)) (blkRow4 b r) j := by
  rw [final4_6 VI c hS, rowS4_apply VI c j 19 lt19_4]
  rw [accS19_4]
  refine congrArg (0 + ·) (Finset.sum_congr rfl fun b _ => ?_)
  have hb : b.val < cfg4.N := lt_of_lt_of_eq b.isLt N_4.symm
  unfold blockS4
  rw [dif_pos hb]
  exact Finset.sum_congr rfl fun r _ => zblk4_apply VI c b hb r j

set_option maxHeartbeats 2000000 in
/-- The same for the output of column sums of squares. -/
theorem final4_7_apply (VI : (c : Dev nD) → (b : Ref sig .tc) → Buf (Elt Ideal) ((c : Thread nD τ).loc b)) (c : Dev nD)
    (hQ : ∀ t : Fin cfg4.N, t.val % 20 = 19 → (dat4 (F := Ideal) VI c).after 7 t = rowQ4 VI c t.val t.isLt)
    (j : Fin 128) :
    (dat4 (F := Ideal) VI c).arrAt 7 cfg4.N (ix2 (0 : Fin 1) j)
      = 0 + ∑ b : Fin 20, ∑ r : Fin 5000,
          Cert.Spec.mlp (fun n q => VI c (Pipeline.arrRef spec4 0) (ix2 n q)) (fun q k => VI c (Pipeline.arrRef spec4 1) (ix2 q k))
            (fun k => VI c (Pipeline.arrRef spec4 2) (ix2 (0 : Fin 1) k)) (fun k j => VI c (Pipeline.arrRef spec4 3) (ix2 k j))
            (fun j => VI c (Pipeline.arrRef spec4 4) (ix2 (0 : Fin 1) j)) (blkRow4 b r) j
          * Cert.Spec.mlp (fun n q => VI c (Pipeline.arrRef spec4 0) (ix2 n q)) (fun q k => VI c (Pipeline.arrRef spec4 1) (ix2 q k))
            (fun k => VI c (Pipeline.arrRef spec4 2) (ix2 (0 : Fin 1) k)) (fun k j => VI c (Pipeline.arrRef spec4 3) (ix2 k j))
            (fun j => VI c (Pipeline.arrRef spec4 4) (ix2 (0 : Fin 1) j)) (blkRow4 b r) j := by
  rw [final4_7 VI c hQ, rowQ4_apply VI c j 19 lt19_4]
  rw [accS19_4]
  refine congrArg (0 + ·) (Finset.sum_congr rfl fun b _ => ?_)
  have hb : b.val < cfg4.N := lt_of_lt_of_eq b.isLt N_4.symm
  unfold blockQ4
  rw [dif_pos hb]
  exact Finset.sum_congr rfl fun r _ => by rw [zblk4_apply VI c b hb r j]

end Cert.KernelIdeal.Hand

end
-- ==== Proof.LibTuple.lean ====
/-
  Components of a tuple that is known: from an equation between a nested pair and a tuple of named entries, the
  equation for one entry.
-/

namespace Cert.LibTuple

theorem tup_1 {α β : Type} {p : α × β} {a : α} {b : β} (h : p = (a, b)) : p.1 = a := by rw [h]
theorem tup_21 {α β γ : Type} {p : α × β × γ} {a : α} {b : β} {c : γ} (h : p = (a, b, c)) : p.2.1 = b := by rw [h]
theorem tup_221 {α β γ δ : Type} {p : α × β × γ × δ} {a : α} {b : β} {c : γ} {d : δ} (h : p = (a, b, c, d)) :
    p.2.2.1 = c := by rw [h]
theorem tup_2221 {α β γ δ ε : Type} {p : α × β × γ × δ × ε} {a : α} {b : β} {c : γ} {d : δ} {e : ε}
    (h : p = (a, b, c, d, e)) : p.2.2.2.1 = d := by rw [h]
theorem tup_2222 {α β γ δ ε : Type} {p : α × β × γ × δ × ε} {a : α} {b : β} {c : γ} {d : δ} {e : ε}
    (h : p = (a, b, c, d, e)) : p.2.2.2.2 = e := by rw [h]

end Cert.LibTuple
-- ==== Proof.KiMlp0Link.lean ====
/-
  Region 0 (layer 1's perceptron with running column sums): the contents the proof data names after each point are the
  value definitions. The z output's block after any point is the perceptron's payload of the point's input blocks. The
  two running-sum rows after point n are the running column sums of z and z² over blocks 0..n — by induction on the
  point, the first point starting from the zero rows and every later point adding its block's column sums to what the
  point before left. At the last point the two [1,128] outputs receive those rows.
-/
import proofs.«160011_j2121713844488_1_alg».proof.Proof.KiMlp0Value
import proofs.«160011_j2121713844488_1_alg».proof.Proof.LibTuple

set_option maxRecDepth 16384

noncomputable section

namespace Cert.KernelIdeal.Hand

open Cert.KernelIdeal Cert.KernelIdeal.Gen
open Idealize.ShloMosaic Idealize.ShloMosaic.TcCoe
open Idealize.SL.Sem
open Idealize.ShloMosaic.Pipeline (Dat Cfg Window)
open Cert.LibTuple

variable {F : FTy → Type} [FloatOps F]

section Link0

variable (V : (c : Dev nD) → (b : Ref sig .tc) → Buf (Elt F) ((c : Thread nD τ).loc b))

/-! ### What one point leaves, by its control case -/

set_option maxHeartbeats 400000 in
/-- The first point: the z block, and the two rows one step from the zero rows. -/
theorem first0 (c : Dev nD) (t : Fin cfg0.N) (h0 : t.val % 20 = 0) (h1 : ¬t.val % 20 = 19) :
    (outsAt0 V c t.val t.isLt).1 = zblk0 V c t
    ∧ (outsAt0 V c t.val t.isLt).2.2.2.1 = stepS0 V c t (k0_pay3 (F := F))
    ∧ (outsAt0 V c t.val t.isLt).2.2.2.2 = stepQ0 V c t (k0_pay4 (F := F)) :=
  ⟨(tup_1 (outsAt0_A V c t h0 h1)).trans (out5_A_0 _ _ _ _ _ _ _ _ _ _ _ _ _ _ _ _ _ _ _ _ _ _ _ _ _ _ _ _ _),
   (tup_2221 (outsAt0_A V c t h0 h1)).trans (row0_A_0 _ _ _ _ _ _ _ _ _ _ _ _ _ _ _ _ _ _ _ _ _ _ _ _ _ _ _ _ _),
   (tup_2222 (outsAt0_A V c t h0 h1)).trans (row1_A_0 _ _ _ _ _ _ _ _ _ _ _ _ _ _ _ _ _ _ _ _ _ _ _ _ _ _ _ _ _)⟩

set_option maxHeartbeats 400000 in
/-- A middle point: the z block, and the two rows one step from what the point before left. -/
theorem mid0 (c : Dev nD) (t : Fin cfg0.N) (h0 : ¬t.val % 20 = 0) (h1 : ¬t.val % 20 = 19) :
    (outsAt0 V c t.val t.isLt).1 = zblk0 V c t
    ∧ (outsAt0 V c t.val t.isLt).2.2.2.1
        = stepS0 V c t (outsAt0 V c (t.val - 1) (Nat.lt_of_le_of_lt (Nat.sub_le _ _) t.isLt)).2.2.2.1
    ∧ (outsAt0 V c t.val t.isLt).2.2.2.2
        = stepQ0 V c t (outsAt0 V c (t.val - 1) (Nat.lt_of_le_of_lt (Nat.sub_le _ _) t.isLt)).2.2.2.2 :=
  ⟨(tup_1 (outsAt0_B V c t h0 h1)).trans (out5_B_0 _ _ _ _ _ _ _ _ _ _ _ _ _ _ _ _ _ _ _ _ _ _ _ _ _ _ _ _ _ _ _),
   (tup_2221 (outsAt0_B V c t h0 h1)).trans (row0_B_0 _ _ _ _ _ _ _ _ _ _ _ _ _ _ _ _ _ _ _ _ _ _ _ _ _ _ _ _ _ _ _),
   (tup_2222 (outsAt0_B V c t h0 h1)).trans (row1_B_0 _ _ _ _ _ _ _ _ _ _ _ _ _ _ _ _ _ _ _ _ _ _ _ _ _ _ _ _ _ _ _)⟩

set_option maxHeartbeats 400000 in
/-- The last point: the same, and the two [1,128] outputs receive the rows. -/
theorem last0 (c : Dev nD) (t : Fin cfg0.N) (h0 : ¬t.val % 20 = 0) (h1 : t.val % 20 = 19) :
    (outsAt0 V c t.val t.isLt).1 = zblk0 V c t
    ∧ (outsAt0 V c t.val t.isLt).2.2.2.1
        = stepS0 V c t (outsAt0 V c (t.val - 1) (Nat.lt_of_le_of_lt (Nat.sub_le _ _) t.isLt)).2.2.2.1
    ∧ (outsAt0 V c t.val t.isLt).2.2.2.2
        = stepQ0 V c t (outsAt0 V c (t.val - 1) (Nat.lt_of_le_of_lt (Nat.sub_le _ _) t.isLt)).2.2.2.2
    ∧ (outsAt0 V c t.val t.isLt).2.1
        = stepS0 V c t (outsAt0 V c (t.val - 1) (Nat.lt_of_le_of_lt (Nat.sub_le _ _) t.isLt)).2.2.2.1
    ∧ (outsAt0 V c t.val t.isLt).2.2.1
        = stepQ0 V c t (outsAt0 V c (t.val - 1) (Nat.lt_of_le_of_lt (Nat.sub_le _ _) t.isLt)).2.2.2.2 :=
  ⟨(tup_1 (outsAt0_C V c t h0 h1)).trans (out5_C_0 _ _ _ _ _ _ _ _ _ _ _ _ _ _ _ _ _ _ _ _ _ _ _ _ _ _ _ _ _ _ _),
   (tup_2221 (outsAt0_C V c t h0 h1)).trans (row0_C_0 _ _ _ _ _ _ _ _ _ _ _ _ _ _ _ _ _ _ _ _ _ _ _ _ _ _ _ _ _ _ _),
   (tup_2222 (outsAt0_C V c t h0 h1)).trans (row1_C_0 _ _ _ _ _ _ _ _ _ _ _ _ _ _ _ _ _ _ _ _ _ _ _ _ _ _ _ _ _ _ _),
   (tup_21 (outsAt0_C V c t h0 h1)).trans (out6_C_0 _ _ _ _ _ _ _ _ _ _ _ _ _ _ _ _ _ _ _ _ _ _ _ _ _ _ _ _ _ _ _),
   (tup_221 (outsAt0_C V c t h0 h1)).trans (out7_C_0 _ _ _ _ _ _ _ _ _ _ _ _ _ _ _ _ _ _ _ _ _ _ _ _ _ _ _ _ _ _ _)⟩

/-! ### The two rows after every point -/

set_option maxHeartbeats 400000 in
/-- After point n the two running-sum rows are the running column sums: by induction on the point. -/
theorem rowsEq0 (c : Dev nD) : ∀ (n : ℕ) (h : n < cfg0.N),
    (outsAt0 V c n h).2.2.2.1 = rowS0 V c n h ∧ (outsAt0 V c n h).2.2.2.2 = rowQ0 V c n h
  | 0, h =>
    have e := first0 V c ⟨0, h⟩ (Nat.zero_mod 20) (show ¬(0 % 20 = 19) by decide)
    ⟨e.2.1, e.2.2⟩
  | n + 1, h => by
    have hN : n + 1 < 20 := lt_of_lt_of_eq h (show cfg0.N = 20 from N_0)
    have h0 : ¬(n + 1) % 20 = 0 := by omega
    have ih := rowsEq0 c n (Nat.lt_of_succ_lt h)
    by_cases h1 : (n + 1) % 20 = 19
    · have e := last0 V c ⟨n + 1, h⟩ h0 h1
      exact ⟨e.2.1.trans (congrArg (stepS0 V c ⟨n + 1, h⟩) ih.1), e.2.2.1.trans (congrArg (stepQ0 V c ⟨n + 1, h⟩) ih.2)⟩
    · have e := mid0 V c ⟨n + 1, h⟩ h0 h1
      exact ⟨e.2.1.trans (congrArg (stepS0 V c ⟨n + 1, h⟩) ih.1), e.2.2.trans (congrArg (stepQ0 V c ⟨n + 1, h⟩) ih.2)⟩

/-! ### The proof data's outputs are the value definitions -/

/-- The z output's block after any point is the perceptron's payload of the point's input blocks. -/
theorem hZ0 (c : Dev nD) (t : Fin cfg0.N) : (dat0 V c).after 5 t = zblk0 V c t := by
  refine (after0_5 V c t).trans ?_
  have hN : t.val < 20 := lt_of_lt_of_eq t.isLt (show cfg0.N = 20 from N_0)
  by_cases h0 : t.val % 20 = 0
  · exact (first0 V c t h0 (by omega)).1
  · by_cases h1 : t.val % 20 = 19
    · exact (last0 V c t h0 h1).1
    · exact (mid0 V c t h0 h1).1

/-- At the last point the first [1,128] output receives the running column sum of z. -/
theorem hS0 (c : Dev nD) (t : Fin cfg0.N) (h : t.val % 20 = 19) : (dat0 V c).after 6 t = rowS0 V c t.val t.isLt := by
  refine (after0_6 V c t).trans ?_
  have e := last0 V c t (by omega) h
  exact e.2.2.2.1.trans (e.2.1.symm.trans (rowsEq0 V c t.val t.isLt).1)

/-- At the last point the second [1,128] output receives the running column sum of z². -/
theorem hQ0 (c : Dev nD) (t : Fin cfg0.N) (h : t.val % 20 = 19) : (dat0 V c).after 7 t = rowQ0 V c t.val t.isLt := by
  refine (after0_7 V c t).trans ?_
  have e := last0 V c t (by omega) h
  exact e.2.2.2.2.trans (e.2.2.1.symm.trans (rowsEq0 V c t.val t.isLt).2)

end Link0

end Cert.KernelIdeal.Hand

end
-- ==== Proof.KiMlp2Link.lean ====
/-
  Region 2 (layer 2's perceptron with running column sums): the contents the proof data names after each point are the
  value definitions. The z output's block after any point is the perceptron's payload of the point's input blocks. The
  two running-sum rows after point n are the running column sums of z and z² over blocks 0..n — by induction on the
  point, the first point starting from the zero rows and every later point adding its block's column sums to what the
  point before left. At the last point the two [1,128] outputs receive those rows.
-/
import proofs.«160011_j2121713844488_1_alg».proof.Proof.KiMlp2Value
import proofs.«160011_j2121713844488_1_alg».proof.Proof.LibTuple

set_option maxRecDepth 16384

noncomputable section

namespace Cert.KernelIdeal.Hand

open Cert.KernelIdeal Cert.KernelIdeal.Gen
open Idealize.ShloMosaic Idealize.ShloMosaic.TcCoe
open Idealize.SL.Sem
open Idealize.ShloMosaic.Pipeline (Dat Cfg Window)
open Cert.LibTuple

variable {F : FTy → Type} [FloatOps F]

section Link2

variable (V : (c : Dev nD) → (b : Ref sig .tc) → Buf (Elt F) ((c : Thread nD τ).loc b))

/-! ### What one point leaves, by its control case -/

set_option maxHeartbeats 400000 in
/-- The first point: the z block, and the two rows one step from the zero rows. -/
theorem first2 (c : Dev nD) (t : Fin cfg2.N) (h0 : t.val % 20 = 0) (h1 : ¬t.val % 20 = 19) :
    (outsAt2 V c t.val t.isLt).1 = zblk2 V c t
    ∧ (outsAt2 V c t.val t.isLt).2.2.2.1 = stepS2 V c t (k2_pay3 (F := F))
    ∧ (outsAt2 V c t.val t.isLt).2.2.2.2 = stepQ2 V c t (k2_pay4 (F := F)) :=
  ⟨(tup_1 (outsAt2_A V c t h0 h1)).trans (out5_A_2 _ _ _ _ _ _ _ _ _ _ _ _ _ _ _ _ _ _ _ _ _ _ _ _ _ _ _ _ _),
   (tup_2221 (outsAt2_A V c t h0 h1)).trans (row0_A_2 _ _ _ _ _ _ _ _ _ _ _ _ _ _ _ _ _ _ _ _ _ _ _ _ _ _ _ _ _),
   (tup_2222 (outsAt2_A V c t h0 h1)).trans (row1_A_2 _ _ _ _ _ _ _ _ _ _ _ _ _ _ _ _ _ _ _ _ _ _ _ _ _ _ _ _ _)⟩

set_option maxHeartbeats 400000 in
/-- A middle point: the z block, and the two rows one step from what the point before left. -/
theorem mid2 (c : Dev nD) (t : Fin cfg2.N) (h0 : ¬t.val % 20 = 0) (h1 : ¬t.val % 20 = 19) :
    (outsAt2 V c t.val t.isLt).1 = zblk2 V c t
    ∧ (outsAt2 V c t.val t.isLt).2.2.2.1
        = stepS2 V c t (outsAt2 V c (t.val - 1) (Nat.lt_of_le_of_lt (Nat.sub_le _ _) t.isLt)).2.2.2.1
    ∧ (outsAt2 V c t.val t.isLt).2.2.2.2
        = stepQ2 V c t (outsAt2 V c (t.val - 1) (Nat.lt_of_le_of_lt (Nat.sub_le _ _) t.isLt)).2.2.2.2 :=
  ⟨(tup_1 (outsAt2_B V c t h0 h1)).trans (out5_B_2 _ _ _ _ _ _ _ _ _ _ _ _ _ _ _ _ _ _ _ _ _ _ _ _ _ _ _ _ _ _ _),
   (tup_2221 (outsAt2_B V c t h0 h1)).trans (row0_B_2 _ _ _ _ _ _ _ _ _ _ _ _ _ _ _ _ _ _ _ _ _ _ _ _ _ _ _ _ _ _ _),
   (tup_2222 (outsAt2_B V c t h0 h1)).trans (row1_B_2 _ _ _ _ _ _ _ _ _ _ _ _ _ _ _ _ _ _ _ _ _ _ _ _ _ _ _ _ _ _ _)⟩

set_option maxHeartbeats 400000 in
/-- The last point: the same, and the two [1,128] outputs receive the rows. -/
theorem last2 (c : Dev nD) (t : Fin cfg2.N) (h0 : ¬t.val % 20 = 0) (h1 : t.val % 20 = 19) :
    (outsAt2 V c t.val t.isLt).1 = zblk2 V c t
    ∧ (outsAt2 V c t.val t.isLt).2.2.2.1
        = stepS2 V c t (outsAt2 V c (t.val - 1) (Nat.lt_of_le_of_lt (Nat.sub_le _ _) t.isLt)).2.2.2.1
    ∧ (outsAt2 V c t.val t.isLt).2.2.2.2
        = stepQ2 V c t (outsAt2 V c (t.val - 1) (Nat.lt_of_le_of_lt (Nat.sub_le _ _) t.isLt)).2.2.2.2
    ∧ (outsAt2 V c t.val t.isLt).2.1
        = stepS2 V c t (outsAt2 V c (t.val - 1) (Nat.lt_of_le_of_lt (Nat.sub_le _ _) t.isLt)).2.2.2.1
    ∧ (outsAt2 V c t.val t.isLt).2.2.1
        = stepQ2 V c t (outsAt2 V c (t.val - 1) (Nat.lt_of_le_of_lt (Nat.sub_le _ _) t.isLt)).2.2.2.2 :=
  ⟨(tup_1 (outsAt2_C V c t h0 h1)).trans (out5_C_2 _ _ _ _ _ _ _ _ _ _ _ _ _ _ _ _ _ _ _ _ _ _ _ _ _ _ _ _ _ _ _),
   (tup_2221 (outsAt2_C V c t h0 h1)).trans (row0_C_2 _ _ _ _ _ _ _ _ _ _ _ _ _ _ _ _ _ _ _ _ _ _ _ _ _ _ _ _ _ _ _),
   (tup_2222 (outsAt2_C V c t h0 h1)).trans (row1_C_2 _ _ _ _ _ _ _ _ _ _ _ _ _ _ _ _ _ _ _ _ _ _ _ _ _ _ _ _ _ _ _),
   (tup_21 (outsAt2_C V c t h0 h1)).trans (out6_C_2 _ _ _ _ _ _ _ _ _ _ _ _ _ _ _ _ _ _ _ _ _ _ _ _ _ _ _ _ _ _ _),
   (tup_221 (outsAt2_C V c t h0 h1)).trans (out7_C_2 _ _ _ _ _ _ _ _ _ _ _ _ _ _ _ _ _ _ _ _ _ _ _ _ _ _ _ _ _ _ _)⟩

/-! ### The two rows after every point -/

set_option maxHeartbeats 400000 in
/-- After point n the two running-sum rows are the running column sums: by induction on the point. -/
theorem rowsEq2 (c : Dev nD) : ∀ (n : ℕ) (h : n < cfg2.N),
    (outsAt2 V c n h).2.2.2.1 = rowS2 V c n h ∧ (outsAt2 V c n h).2.2.2.2 = rowQ2 V c n h
  | 0, h =>
    have e := first2 V c ⟨0, h⟩ (Nat.zero_mod 20) (show ¬(0 % 20 = 19) by decide)
    ⟨e.2.1, e.2.2⟩
  | n + 1, h => by
    have hN : n + 1 < 20 := lt_of_lt_of_eq h (show cfg2.N = 20 from N_2)
    have h0 : ¬(n + 1) % 20 = 0 := by omega
    have ih := rowsEq2 c n (Nat.lt_of_succ_lt h)
    by_cases h1 : (n + 1) % 20 = 19
    · have e := last2 V c ⟨n + 1, h⟩ h0 h1
      exact ⟨e.2.1.trans (congrArg (stepS2 V c ⟨n + 1, h⟩) ih.1), e.2.2.1.trans (congrArg (stepQ2 V c ⟨n + 1, h⟩) ih.2)⟩
    · have e := mid2 V c ⟨n + 1, h⟩ h0 h1
      exact ⟨e.2.1.trans (congrArg (stepS2 V c ⟨n + 1, h⟩) ih.1), e.2.2.trans (congrArg (stepQ2 V c ⟨n + 1, h⟩) ih.2)⟩

/-! ### The proof data's outputs are the value definitions -/

/-- The z output's block after any point is the perceptron's payload of the point's input blocks. -/
theorem hZ2 (c : Dev nD) (t : Fin cfg2.N) : (dat2 V c).after 5 t = zblk2 V c t := by
  refine (after2_5 V c t).trans ?_
  have hN : t.val < 20 := lt_of_lt_of_eq t.isLt (show cfg2.N = 20 from N_2)
  by_cases h0 : t.val % 20 = 0
  · exact (first2 V c t h0 (by omega)).1
  · by_cases h1 : t.val % 20 = 19
    · exact (last2 V c t h0 h1).1
    · exact (mid2 V c t h0 h1).1

/-- At the last point the first [1,128] output receives the running column sum of z. -/
theorem hS2 (c : Dev nD) (t : Fin cfg2.N) (h : t.val % 20 = 19) : (dat2 V c).after 6 t = rowS2 V c t.val t.isLt := by
  refine (after2_6 V c t).trans ?_
  have e := last2 V c t (by omega) h
  exact e.2.2.2.1.trans (e.2.1.symm.trans (rowsEq2 V c t.val t.isLt).1)

/-- At the last point the second [1,128] output receives the running column sum of z². -/
theorem hQ2 (c : Dev nD) (t : Fin cfg2.N) (h : t.val % 20 = 19) : (dat2 V c).after 7 t = rowQ2 V c t.val t.isLt := by
  refine (after2_7 V c t).trans ?_
  have e := last2 V c t (by omega) h
  exact e.2.2.2.2.trans (e.2.2.1.symm.trans (rowsEq2 V c t.val t.isLt).2)

end Link2

end Cert.KernelIdeal.Hand

end
-- ==== Proof.KiMlp4Link.lean ====
/-
  Region 4 (layer 3's perceptron with running column sums): the contents the proof data names after each point are the
  value definitions. The z output's block after any point is the perceptron's payload of the point's input blocks. The
  two running-sum rows after point n are the running column sums of z and z² over blocks 0..n — by induction on the
  point, the first point starting from the zero rows and every later point adding its block's column sums to what the
  point before left. At the last point the two [1,128] outputs receive those rows.
-/
import proofs.«160011_j2121713844488_1_alg».proof.Proof.KiMlp4Value
import proofs.«160011_j2121713844488_1_alg».proof.Proof.LibTuple

set_option maxRecDepth 16384

noncomputable section

namespace Cert.KernelIdeal.Hand

open Cert.KernelIdeal Cert.KernelIdeal.Gen
open Idealize.ShloMosaic Idealize.ShloMosaic.TcCoe
open Idealize.SL.Sem
open Idealize.ShloMosaic.Pipeline (Dat Cfg Window)
open Cert.LibTuple

variable {F : FTy → Type} [FloatOps F]

section Link4

variable (V : (c : Dev nD) → (b : Ref sig .tc) → Buf (Elt F) ((c : Thread nD τ).loc b))

/-! ### What one point leaves, by its control case -/

set_option maxHeartbeats 400000 in
/-- The first point: the z block, and the two rows one step from the zero rows. -/
theorem first4 (c : Dev nD) (t : Fin cfg4.N) (h0 : t.val % 20 = 0) (h1 : ¬t.val % 20 = 19) :
    (outsAt4 V c t.val t.isLt).1 = zblk4 V c t
    ∧ (outsAt4 V c t.val t.isLt).2.2.2.1 = stepS4 V c t (k4_pay3 (F := F))
    ∧ (outsAt4 V c t.val t.isLt).2.2.2.2 = stepQ4 V c t (k4_pay4 (F := F)) :=
  ⟨(tup_1 (outsAt4_A V c t h0 h1)).trans (out5_A_4 _ _ _ _ _ _ _ _ _ _ _ _ _ _ _ _ _ _ _ _ _ _ _ _ _ _ _ _ _),
   (tup_2221 (outsAt4_A V c t h0 h1)).trans (row0_A_4 _ _ _ _ _ _ _ _ _ _ _ _ _ _ _ _ _ _ _ _ _ _ _ _ _ _ _ _ _),
   (tup_2222 (outsAt4_A V c t h0 h1)).trans (row1_A_4 _ _ _ _ _ _ _ _ _ _ _ _ _ _ _ _ _ _ _ _ _ _ _ _ _ _ _ _ _)⟩

set_option maxHeartbeats 400000 in
/-- A middle point: the z block, and the two rows one step from what the point before left. -/
theorem mid4 (c : Dev nD) (t : Fin cfg4.N) (h0 : ¬t.val % 20 = 0) (h1 : ¬t.val % 20 = 19) :
    (outsAt4 V c t.val t.isLt).1 = zblk4 V c t
    ∧ (outsAt4 V c t.val t.isLt).2.2.2.1
        = stepS4 V c t (outsAt4 V c (t.val - 1) (Nat.lt_of_le_of_lt (Nat.sub_le _ _) t.isLt)).2.2.2.1
    ∧ (outsAt4 V c t.val t.isLt).2.2.2.2
        = stepQ4 V c t (outsAt4 V c (t.val - 1) (Nat.lt_of_le_of_lt (Nat.sub_le _ _) t.isLt)).2.2.2.2 :=
  ⟨(tup_1 (outsAt4_B V c t h0 h1)).trans (out5_B_4 _ _ _ _ _ _ _ _ _ _ _ _ _ _ _ _ _ _ _ _ _ _ _ _ _ _ _ _ _ _ _),
   (tup_2221 (outsAt4_B V c t h0 h1)).trans (row0_B_4 _ _ _ _ _ _ _ _ _ _ _ _ _ _ _ _ _ _ _ _ _ _ _ _ _ _ _ _ _ _ _),
   (tup_2222 (outsAt4_B V c t h0 h1)).trans (row1_B_4 _ _ _ _ _ _ _ _ _ _ _ _ _ _ _ _ _ _ _ _ _ _ _ _ _ _ _ _ _ _ _)⟩

set_option maxHeartbeats 400000 in
/-- The last point: the same, and the two [1,128] outputs receive the rows. -/
theorem last4 (c : Dev nD) (t : Fin cfg4.N) (h0 : ¬t.val % 20 = 0) (h1 : t.val % 20 = 19) :
    (outsAt4 V c t.val t.isLt).1 = zblk4 V c t
    ∧ (outsAt4 V c t.val t.isLt).2.2.2.1
        = stepS4 V c t (outsAt4 V c (t.val - 1) (Nat.lt_of_le_of_lt (Nat.sub_le _ _) t.isLt)).2.2.2.1
    ∧ (outsAt4 V c t.val t.isLt).2.2.2.2
        = stepQ4 V c t (outsAt4 V c (t.val - 1) (Nat.lt_of_le_of_lt (Nat.sub_le _ _) t.isLt)).2.2.2.2
    ∧ (outsAt4 V c t.val t.isLt).2.1
        = stepS4 V c t (outsAt4 V c (t.val - 1) (Nat.lt_of_le_of_lt (Nat.sub_le _ _) t.isLt)).2.2.2.1
    ∧ (outsAt4 V c t.val t.isLt).2.2.1
        = stepQ4 V c t (outsAt4 V c (t.val - 1) (Nat.lt_of_le_of_lt (Nat.sub_le _ _) t.isLt)).2.2.2.2 :=
  ⟨(tup_1 (outsAt4_C V c t h0 h1)).trans (out5_C_4 _ _ _ _ _ _ _ _ _ _ _ _ _ _ _ _ _ _ _ _ _ _ _ _ _ _ _ _ _ _ _),
   (tup_2221 (outsAt4_C V c t h0 h1)).trans (row0_C_4 _ _ _ _ _ _ _ _ _ _ _ _ _ _ _ _ _ _ _ _ _ _ _ _ _ _ _ _ _ _ _),
   (tup_2222 (outsAt4_C V c t h0 h1)).trans (row1_C_4 _ _ _ _ _ _ _ _ _ _ _ _ _ _ _ _ _ _ _ _ _ _ _ _ _ _ _ _ _ _ _),
   (tup_21 (outsAt4_C V c t h0 h1)).trans (out6_C_4 _ _ _ _ _ _ _ _ _ _ _ _ _ _ _ _ _ _ _ _ _ _ _ _ _ _ _ _ _ _ _),
   (tup_221 (outsAt4_C V c t h0 h1)).trans (out7_C_4 _ _ _ _ _ _ _ _ _ _ _ _ _ _ _ _ _ _ _ _ _ _ _ _ _ _ _ _ _ _ _)⟩

/-! ### The two rows after every point -/

set_option maxHeartbeats 400000 in
/-- After point n the two running-sum rows are the running column sums: by induction on the point. -/
theorem rowsEq4 (c : Dev nD) : ∀ (n : ℕ) (h : n < cfg4.N),
    (outsAt4 V c n h).2.2.2.1 = rowS4 V c n h ∧ (outsAt4 V c n h).2.2.2.2 = rowQ4 V c n h
  | 0, h =>
    have e := first4 V c ⟨0, h⟩ (Nat.zero_mod 20) (show ¬(0 % 20 = 19) by decide)
    ⟨e.2.1, e.2.2⟩
  | n + 1, h => by
    have hN : n + 1 < 20 := lt_of_lt_of_eq h (show cfg4.N = 20 from N_4)
    have h0 : ¬(n + 1) % 20 = 0 := by omega
    have ih := rowsEq4 c n (Nat.lt_of_succ_lt h)
    by_cases h1 : (n + 1) % 20 = 19
    · have e := last4 V c ⟨n + 1, h⟩ h0 h1
      exact ⟨e.2.1.trans (congrArg (stepS4 V c ⟨n + 1, h⟩) ih.1), e.2.2.1.trans (congrArg (stepQ4 V c ⟨n + 1, h⟩) ih.2)⟩
    · have e := mid4 V c ⟨n + 1, h⟩ h0 h1
      exact ⟨e.2.1.trans (congrArg (stepS4 V c ⟨n + 1, h⟩) ih.1), e.2.2.trans (congrArg (stepQ4 V c ⟨n + 1, h⟩) ih.2)⟩

/-! ### The proof data's outputs are the value definitions -/

/-- The z output's block after any point is the perceptron's payload of the point's input blocks. -/
theorem hZ4 (c : Dev nD) (t : Fin cfg4.N) : (dat4 V c).after 5 t = zblk4 V c t := by
  refine (after4_5 V c t).trans ?_
  have hN : t.val < 20 := lt_of_lt_of_eq t.isLt (show cfg4.N = 20 from N_4)
  by_cases h0 : t.val % 20 = 0
  · exact (first4 V c t h0 (by omega)).1
  · by_cases h1 : t.val % 20 = 19
    · exact (last4 V c t h0 h1).1
    · exact (mid4 V c t h0 h1).1

/-- At the last point the first [1,128] output receives the running column sum of z. -/
theorem hS4 (c : Dev nD) (t : Fin cfg4.N) (h : t.val % 20 = 19) : (dat4 V c).after 6 t = rowS4 V c t.val t.isLt := by
  refine (after4_6 V c t).trans ?_
  have e := last4 V c t (by omega) h
  exact e.2.2.2.1.trans (e.2.1.symm.trans (rowsEq4 V c t.val t.isLt).1)

/-- At the last point the second [1,128] output receives the running column sum of z². -/
theorem hQ4 (c : Dev nD) (t : Fin cfg4.N) (h : t.val % 20 = 19) : (dat4 V c).after 7 t = rowQ4 V c t.val t.isLt := by
  refine (after4_7 V c t).trans ?_
  have e := last4 V c t (by omega) h
  exact e.2.2.2.2.trans (e.2.2.1.symm.trans (rowsEq4 V c t.val t.isLt).2)

end Link4

end Cert.KernelIdeal.Hand

end
-- ==== Proof.KiRegionFacts.lean ====
import proofs.«160011_j2121713844488_1_alg».proof.Proof.KiRun
import proofs.«160011_j2121713844488_1_alg».proof.Proof.KiMlp0Final
import proofs.«160011_j2121713844488_1_alg».proof.Proof.KiMlp2Final
import proofs.«160011_j2121713844488_1_alg».proof.Proof.KiMlp4Final
import proofs.«160011_j2121713844488_1_alg».proof.Proof.KiMlp0Link
import proofs.«160011_j2121713844488_1_alg».proof.Proof.KiMlp2Link
import proofs.«160011_j2121713844488_1_alg».proof.Proof.KiMlp4Link
import proofs.«160011_j2121713844488_1_alg».proof.Proof.SpecLaws

/-! # What the three statistics regions leave, at the exact instance

Each of the regions 0, 2 and 4 is entered at the buffer contents the program's fold gives it. After it, its z array
is the specification's perceptron of its five input arrays entry by entry, and its two row outputs are zero plus the
sums over the 20 blocks of 5000 rows of the blocks' column sums of the perceptron and of its square: the region's
staging buffers hold the z block and the running rows after each point, and the blocks-to-array step reads them back. -/

set_option maxRecDepth 16384

noncomputable section

namespace Cert.KernelIdeal.Hand

open Cert.KernelIdeal Cert.KernelIdeal.Gen
open Idealize.ShloMosaic Idealize.ShloMosaic.TcCoe Idealize.SL.Sem Idealize.ShloMosaic.ValueIdx

variable (m : (ℓ : Loc nD τ sig) → Buf (Elt Ideal) ℓ) (ρ : Dev nD → PrngReg)

/-! ## Region 0 -/

/-- After region 0 the z array is the specification's perceptron of the region's five input arrays, entry by entry. -/
theorem R0z (c : Dev nD) : ∀ (n : Fin 100000) (j : Fin 128), (dat0 (F := Ideal) (V1 m ρ) c).arrAt 5 cfg0.N (ix2 n j)
      = Cert.Spec.mlp (fun n q => V1 m ρ c (Pipeline.arrRef spec0 0) (ix2 n q)) (fun q k => V1 m ρ c (Pipeline.arrRef spec0 1) (ix2 q k))
          (fun k => V1 m ρ c (Pipeline.arrRef spec0 2) (ix2 (0 : Fin 1) k)) (fun k j => V1 m ρ c (Pipeline.arrRef spec0 3) (ix2 k j))
          (fun j => V1 m ρ c (Pipeline.arrRef spec0 4) (ix2 (0 : Fin 1) j)) n j :=
  fun n j => final0_5_apply (V1 m ρ) c (hZ0 (V1 m ρ) c) n j

/-- After region 0 the column-sum row is zero plus the sum over the 20 blocks of each block's column sum of the
    perceptron. -/
theorem R0s (c : Dev nD) : ∀ j : Fin 128, (dat0 (F := Ideal) (V1 m ρ) c).arrAt 6 cfg0.N (ix2 (0 : Fin 1) j)
      = 0 + ∑ b : Fin 20, ∑ r : Fin 5000, Cert.Spec.mlp (fun n q => V1 m ρ c (Pipeline.arrRef spec0 0) (ix2 n q)) (fun q k => V1 m ρ c (Pipeline.arrRef spec0 1) (ix2 q k))
          (fun k => V1 m ρ c (Pipeline.arrRef spec0 2) (ix2 (0 : Fin 1) k)) (fun k j => V1 m ρ c (Pipeline.arrRef spec0 3) (ix2 k j))
          (fun j => V1 m ρ c (Pipeline.arrRef spec0 4) (ix2 (0 : Fin 1) j)) (Cert.SpecLaws.blk b r) j :=
  fun j => final0_6_apply (V1 m ρ) c (hS0 (V1 m ρ) c) j

/-- After region 0 the row of column sums of squares is zero plus the sum over the 20 blocks of each block's
    column sum of the squares of the perceptron. -/
theorem R0q (c : Dev nD) : ∀ j : Fin 128, (dat0 (F := Ideal) (V1 m ρ) c).arrAt 7 cfg0.N (ix2 (0 : Fin 1) j)
      = 0 + ∑ b : Fin 20, ∑ r : Fin 5000, Cert.Spec.mlp (fun n q => V1 m ρ c (Pipeline.arrRef spec0 0) (ix2 n q)) (fun q k => V1 m ρ c (Pipeline.arrRef spec0 1) (ix2 q k))
          (fun k => V1 m ρ c (Pipeline.arrRef spec0 2) (ix2 (0 : Fin 1) k)) (fun k j => V1 m ρ c (Pipeline.arrRef spec0 3) (ix2 k j))
          (fun j => V1 m ρ c (Pipeline.arrRef spec0 4) (ix2 (0 : Fin 1) j)) (Cert.SpecLaws.blk b r) j
          * Cert.Spec.mlp (fun n q => V1 m ρ c (Pipeline.arrRef spec0 0) (ix2 n q)) (fun q k => V1 m ρ c (Pipeline.arrRef spec0 1) (ix2 q k))
          (fun k => V1 m ρ c (Pipeline.arrRef spec0 2) (ix2 (0 : Fin 1) k)) (fun k j => V1 m ρ c (Pipeline.arrRef spec0 3) (ix2 k j))
          (fun j => V1 m ρ c (Pipeline.arrRef spec0 4) (ix2 (0 : Fin 1) j)) (Cert.SpecLaws.blk b r) j :=
  fun j => final0_7_apply (V1 m ρ) c (hQ0 (V1 m ρ) c) j

/-! ## Region 2 -/

/-- After region 2 the z array is the specification's perceptron of the region's five input arrays, entry by entry. -/
theorem R2z (c : Dev nD) : ∀ (n : Fin 100000) (j : Fin 128), (dat2 (F := Ideal) (V5 m ρ) c).arrAt 5 cfg2.N (ix2 n j)
      = Cert.Spec.mlp (fun n q => V5 m ρ c (Pipeline.arrRef spec2 0) (ix2 n q)) (fun q k => V5 m ρ c (Pipeline.arrRef spec2 1) (ix2 q k))
          (fun k => V5 m ρ c (Pipeline.arrRef spec2 2) (ix2 (0 : Fin 1) k)) (fun k j => V5 m ρ c (Pipeline.arrRef spec2 3) (ix2 k j))
          (fun j => V5 m ρ c (Pipeline.arrRef spec2 4) (ix2 (0 : Fin 1) j)) n j :=
  fun n j => final2_5_apply (V5 m ρ) c (hZ2 (V5 m ρ) c) n j

/-- After region 2 the column-sum row is zero plus the sum over the 20 blocks of each block's column sum of the
    perceptron. -/
theorem R2s (c : Dev nD) : ∀ j : Fin 128, (dat2 (F := Ideal) (V5 m ρ) c).arrAt 6 cfg2.N (ix2 (0 : Fin 1) j)
      = 0 + ∑ b : Fin 20, ∑ r : Fin 5000, Cert.Spec.mlp (fun n q => V5 m ρ c (Pipeline.arrRef spec2 0) (ix2 n q)) (fun q k => V5 m ρ c (Pipeline.arrRef spec2 1) (ix2 q k))
          (fun k => V5 m ρ c (Pipeline.arrRef spec2 2) (ix2 (0 : Fin 1) k)) (fun k j => V5 m ρ c (Pipeline.arrRef spec2 3) (ix2 k j))
          (fun j => V5 m ρ c (Pipeline.arrRef spec2 4) (ix2 (0 : Fin 1) j)) (Cert.SpecLaws.blk b r) j :=
  fun j => final2_6_apply (V5 m ρ) c (hS2 (V5 m ρ) c) j

/-- After region 2 the row of column sums of squares is zero plus the sum over the 20 blocks of each block's
    column sum of the squares of the perceptron. -/
theorem R2q (c : Dev nD) : ∀ j : Fin 128, (dat2 (F := Ideal) (V5 m ρ) c).arrAt 7 cfg2.N (ix2 (0 : Fin 1) j)
      = 0 + ∑ b : Fin 20, ∑ r : Fin 5000, Cert.Spec.mlp (fun n q => V5 m ρ c (Pipeline.arrRef spec2 0) (ix2 n q)) (fun q k => V5 m ρ c (Pipeline.arrRef spec2 1) (ix2 q k))
          (fun k => V5 m ρ c (Pipeline.arrRef spec2 2) (ix2 (0 : Fin 1) k)) (fun k j => V5 m ρ c (Pipeline.arrRef spec2 3) (ix2 k j))
          (fun j => V5 m ρ c (Pipeline.arrRef spec2 4) (ix2 (0 : Fin 1) j)) (Cert.SpecLaws.blk b r) j
          * Cert.Spec.mlp (fun n q => V5 m ρ c (Pipeline.arrRef spec2 0) (ix2 n q)) (fun q k => V5 m ρ c (Pipeline.arrRef spec2 1) (ix2 q k))
          (fun k => V5 m ρ c (Pipeline.arrRef spec2 2) (ix2 (0 : Fin 1) k)) (fun k j => V5 m ρ c (Pipeline.arrRef spec2 3) (ix2 k j))
          (fun j => V5 m ρ c (Pipeline.arrRef spec2 4) (ix2 (0 : Fin 1) j)) (Cert.SpecLaws.blk b r) j :=
  fun j => final2_7_apply (V5 m ρ) c (hQ2 (V5 m ρ) c) j

/-! ## Region 4 -/

/-- After region 4 the z array is the specification's perceptron of the region's five input arrays, entry by entry. -/
theorem R4z (c : Dev nD) : ∀ (n : Fin 100000) (j : Fin 128), (dat4 (F := Ideal) (V9 m ρ) c).arrAt 5 cfg4.N (ix2 n j)
      = Cert.Spec.mlp (fun n q => V9 m ρ c (Pipeline.arrRef spec4 0) (ix2 n q)) (fun q k => V9 m ρ c (Pipeline.arrRef spec4 1) (ix2 q k))
          (fun k => V9 m ρ c (Pipeline.arrRef spec4 2) (ix2 (0 : Fin 1) k)) (fun k j => V9 m ρ c (Pipeline.arrRef spec4 3) (ix2 k j))
          (fun j => V9 m ρ c (Pipeline.arrRef spec4 4) (ix2 (0 : Fin 1) j)) n j :=
  fun n j => final4_5_apply (V9 m ρ) c (hZ4 (V9 m ρ) c) n j

/-- After region 4 the column-sum row is zero plus the sum over the 20 blocks of each block's column sum of the
    perceptron. -/
theorem R4s (c : Dev nD) : ∀ j : Fin 128, (dat4 (F := Ideal) (V9 m ρ) c).arrAt 6 cfg4.N (ix2 (0 : Fin 1) j)
      = 0 + ∑ b : Fin 20, ∑ r : Fin 5000, Cert.Spec.mlp (fun n q => V9 m ρ c (Pipeline.arrRef spec4 0) (ix2 n q)) (fun q k => V9 m ρ c (Pipeline.arrRef spec4 1) (ix2 q k))
          (fun k => V9 m ρ c (Pipeline.arrRef spec4 2) (ix2 (0 : Fin 1) k)) (fun k j => V9 m ρ c (Pipeline.arrRef spec4 3) (ix2 k j))
          (fun j => V9 m ρ c (Pipeline.arrRef spec4 4) (ix2 (0 : Fin 1) j)) (Cert.SpecLaws.blk b r) j :=
  fun j => final4_6_apply (V9 m ρ) c (hS4 (V9 m ρ) c) j

/-- After region 4 the row of column sums of squares is zero plus the sum over the 20 blocks of each block's
    column sum of the squares of the perceptron. -/
theorem R4q (c : Dev nD) : ∀ j : Fin 128, (dat4 (F := Ideal) (V9 m ρ) c).arrAt 7 cfg4.N (ix2 (0 : Fin 1) j)
      = 0 + ∑ b : Fin 20, ∑ r : Fin 5000, Cert.Spec.mlp (fun n q => V9 m ρ c (Pipeline.arrRef spec4 0) (ix2 n q)) (fun q k => V9 m ρ c (Pipeline.arrRef spec4 1) (ix2 q k))
          (fun k => V9 m ρ c (Pipeline.arrRef spec4 2) (ix2 (0 : Fin 1) k)) (fun k j => V9 m ρ c (Pipeline.arrRef spec4 3) (ix2 k j))
          (fun j => V9 m ρ c (Pipeline.arrRef spec4 4) (ix2 (0 : Fin 1) j)) (Cert.SpecLaws.blk b r) j
          * Cert.Spec.mlp (fun n q => V9 m ρ c (Pipeline.arrRef spec4 0) (ix2 n q)) (fun q k => V9 m ρ c (Pipeline.arrRef spec4 1) (ix2 q k))
          (fun k => V9 m ρ c (Pipeline.arrRef spec4 2) (ix2 (0 : Fin 1) k)) (fun k j => V9 m ρ c (Pipeline.arrRef spec4 3) (ix2 k j))
          (fun j => V9 m ρ c (Pipeline.arrRef spec4 4) (ix2 (0 : Fin 1) j)) (Cert.SpecLaws.blk b r) j :=
  fun j => final4_7_apply (V9 m ρ) c (hQ4 (V9 m ρ) c) j

end Cert.KernelIdeal.Hand

end
-- ==== Proof.lean ====
/-
  The certificate's five claims.
  Frames: the kernel program (seven pallas_call regions among host stretches) runs to the end with its arguments unchanged, at the
  word-level and at the ideal instance alike: each region's body is run symbolically at every grid point (the two-layer
  perceptron's three control cases carry two running-sum rows across the 20 points), the regions and host stretches are chained
  from the launch memory; the reference is one straight line of host operations.
  Values: at the ideal instance every float is an extended real. Layer by layer the kernel's arrays are the reference's: the
  aggregation and the parameter slices are the same operations; the perceptron is the same sums entry by entry; the column
  statistics differ in form — block sums accumulated over the grid and E[z²] − E[z]² against full sums and the centred second
  moment — and agree because every entry is a real number, which the precondition gives for the inputs and every stage
  preserves; the normalisation and the head are then the same entrywise expressions.
-/
import proofs.«160011_j2121713844488_1_alg».proof.Defs
import proofs.«160011_j2121713844488_1_alg».proof.Proof.Gen.Kernel
import proofs.«160011_j2121713844488_1_alg».proof.Proof.Gen.KernelIdeal
import proofs.«160011_j2121713844488_1_alg».proof.Proof.Gen.ReferenceIdeal
import proofs.«160011_j2121713844488_1_alg».proof.Proof.Gen.Pre_finite_inputs
import proofs.«160011_j2121713844488_1_alg».proof.Proof.KRun
import proofs.«160011_j2121713844488_1_alg».proof.Proof.KiRun
import proofs.«160011_j2121713844488_1_alg».proof.Proof.RefRunModel
import proofs.«160011_j2121713844488_1_alg».proof.Proof.KiValue
import proofs.«160011_j2121713844488_1_alg».proof.Proof.KiRegionFacts
import Idealize.ShloMosaic.Adequacy
import Idealize.ShloMosaic.Init

noncomputable section

namespace Cert.Proof

open Idealize.ShloMosaic Idealize.SL.Sem

theorem frame_k [Cert.Kernel.Facts] [Cert.Pre_finite_inputs.Facts] : Cert.frame_Kernel :=
  fun m ρ _ => Cert.Kernel.Hand.frame (F := Bits) m ρ

theorem frame_ki [Cert.KernelIdeal.Facts] [Cert.Pre_finite_inputs.Facts] : Cert.frame_KernelIdeal :=
  fun m ρ _ => Cert.KernelIdeal.Hand.frame (F := Ideal) m ρ

theorem frame_ri [Cert.ReferenceIdeal.Facts] [Cert.Pre_finite_inputs.Facts] : Cert.frame_ReferenceIdeal :=
  fun m ρ _ => Cert.ReferenceIdeal.RefRun.frame (F := Ideal) m ρ

theorem preserves : Cert.preserves_Kernel_KernelIdeal := trivial

/-- At the ideal instance both programs end with the reference's model of the argument arrays: the reference by its run read
    stage by stage, the kernel by the fold of its fourteen segments read layer by layer. -/
theorem algebraic [Cert.KernelIdeal.Facts] [Cert.ReferenceIdeal.Facts] [Cert.Pre_finite_inputs.Facts] : Cert.algebraic_KernelIdeal_ReferenceIdeal := by
  intro m ρ m' ρ' hpre hagree
  refine ⟨fun c => Cert.KernelIdeal.Hand.W14 (F := Ideal) m ρ c (Proc.devRef .tc Cert.KernelIdeal.main_v111), Cert.KernelIdeal.Hand.run (F := Ideal) m ρ, ?_⟩
  refine (θ_run Cert.ReferenceIdeal.defs _ _).mono (fun _ h c => ⟨(h c).1.trans ?_, (h c).2⟩) (Cert.ReferenceIdeal.RefRun.run (F := Ideal) m' ρ')
  rw [Cert.ReferenceIdeal.RefRun.res_eq, (hagree c).1, (hagree c).2.1, (hagree c).2.2.1, (hagree c).2.2.2.1, (hagree c).2.2.2.2.1, (hagree c).2.2.2.2.2.1, (hagree c).2.2.2.2.2.2.1, (hagree c).2.2.2.2.2.2.2.1, (hagree c).2.2.2.2.2.2.2.2.1, (hagree c).2.2.2.2.2.2.2.2.2.1, (hagree c).2.2.2.2.2.2.2.2.2.2.1, (hagree c).2.2.2.2.2.2.2.2.2.2.2.1, (hagree c).2.2.2.2.2.2.2.2.2.2.2.2]
  exact (Cert.KernelIdeal.Hand.kernel_value m ρ c hpre
    (Cert.KernelIdeal.Hand.R0z m ρ c) (Cert.KernelIdeal.Hand.R0s m ρ c) (Cert.KernelIdeal.Hand.R0q m ρ c)
    (Cert.KernelIdeal.Hand.R2z m ρ c) (Cert.KernelIdeal.Hand.R2s m ρ c) (Cert.KernelIdeal.Hand.R2q m ρ c)
    (Cert.KernelIdeal.Hand.R4z m ρ c) (Cert.KernelIdeal.Hand.R4s m ρ c) (Cert.KernelIdeal.Hand.R4q m ρ c)).symm

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
